-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)) →
    ∃ (v0 : (c : Dev Cert.KernelIdeal.nD) → Buf (Elt Ideal) ((c.tc : Thread Cert.KernelIdeal.nD Cert.KernelIdeal.τ).loc Cert.KernelIdeal.main_v257)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v257) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v411) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S1600000 : Shape := ⟨1, ![1600000]⟩
abbrev S128x128 : Shape := ⟨2, ![128, 128]⟩
abbrev S128 : Shape := ⟨1, ![128]⟩
abbrev S4 : Shape := ⟨1, ![4]⟩
abbrev S4x128x128 : Shape := ⟨3, ![4, 128, 128]⟩
abbrev S4x128 : Shape := ⟨2, ![4, 128]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S4 : S_.BroadcastsInDim S4 (![] : Fin 0 → Fin S4.rank)
  reducesTo_S4_S_d0 : S4.ReducesTo [0] S_
  bcast_S_S4x128x128 : S_.BroadcastsInDim S4x128x128 (![] : Fin 0 → Fin S4x128x128.rank)
  reducesTo_S4x128x128_S_d0_1_2 : S4x128x128.ReducesTo [0, 1, 2] S_
  bcast_S_S4x128 : S_.BroadcastsInDim S4x128 (![] : Fin 0 → Fin S4x128.rank)
  reducesTo_S4x128_S_d0_1 : S4x128.ReducesTo [0, 1] S_

variable [Facts]

def fn_part4 {F : FTy → Type} [FloatOps F] (main_v63 : IVec S_ 1) (main_v67 : IVec S_ 1) : IVec S_ 1 :=
  let main_v68 : IVec S_ 1 := andi main_v63 main_v67
  main_v68

def fn_part3 {F : FTy → Type} [FloatOps F] (main_arg13 : FVec F S4x128 .f32) (main_arg14 : FVec F S4x128 .f32) (main_arg15 : FVec F S4x128 .f32) (main_v48 : IVec S_ 1) (main_v49 : FVec F S4x128 .f32) (main_v50 : FVec F S4x128 .f32) : IVec S_ 1 :=
  let main_v51 : IVec S4x128 1 := cmpf .olt main_v49 main_v50
  let main_c_19 : IVec S_ 1 := constantI S_ 1 1#1
  let main_v52 : IVec S_ 1 := (fun x v => Host.reduce IntOp.andi x v reducesTo_S4x128_S_d0_1 h_S_) main_v51 main_c_19
  let main_v53 : IVec S_ 1 := andi main_v48 main_v52
  let main_v54 : FVec F S4x128 .f32 := Host.absf main_arg13
  let main_cst_20 : FVec F S_ .f32 := constant S_ .f32 0x7F800000#32
  let main_v55 : FVec F S4x128 .f32 := broadcastInDim S4x128 ![] bcast_S_S4x128 main_cst_20
  let main_v56 : IVec S4x128 1 := cmpf .olt main_v54 main_v55
  let main_c_21 : IVec S_ 1 := constantI S_ 1 1#1
  let main_v57 : IVec S_ 1 := (fun x v => Host.reduce IntOp.andi x v reducesTo_S4x128_S_d0_1 h_S_) main_v56 main_c_21
  let main_v58 : IVec S_ 1 := andi main_v53 main_v57
  let main_v59 : FVec F S4x128 .f32 := Host.absf main_arg14
  let main_cst_22 : FVec F S_ .f32 := constant S_ .f32 0x7F800000#32
  let main_v60 : FVec F S4x128 .f32 := broadcastInDim S4x128 ![] bcast_S_S4x128 main_cst_22
  let main_v61 : IVec S4x128 1 := cmpf .olt main_v59 main_v60
  let main_c_23 : IVec S_ 1 := constantI S_ 1 1#1
  let main_v62 : IVec S_ 1 := (fun x v => Host.reduce IntOp.andi x v reducesTo_S4x128_S_d0_1 h_S_) main_v61 main_c_23
  let main_v63 : IVec S_ 1 := andi main_v58 main_v62
  let main_v64 : FVec F S4x128 .f32 := Host.absf main_arg15
  let main_cst_24 : FVec F S_ .f32 := constant S_ .f32 0x7F800000#32
  let main_v65 : FVec F S4x128 .f32 := broadcastInDim S4x128 ![] bcast_S_S4x128 main_cst_24
  let main_v66 : IVec S4x128 1 := cmpf .olt main_v64 main_v65
  let main_c_25 : IVec S_ 1 := constantI S_ 1 1#1
  let main_v67 : IVec S_ 1 := (fun x v => Host.reduce IntOp.andi x v reducesTo_S4x128_S_d0_1 h_S_) main_v66 main_c_25
  fn_part4 (F := F) main_v63 main_v67

def fn_part2 {F : FTy → Type} [FloatOps F] (main_arg9 : FVec F S4x128 .f32) (main_arg10 : FVec F S4x128x128 .f32) (main_arg11 : FVec F S4x128 .f32) (main_arg12 : FVec F S4x128 .f32) (main_arg13 : FVec F S4x128 .f32) (main_arg14 : FVec F S4x128 .f32) (main_arg15 : FVec F S4x128 .f32) (main_v33 : IVec S_ 1) : IVec S_ 1 :=
  let main_v34 : FVec F S4x128 .f32 := Host.absf main_arg9
  let main_cst_12 : FVec F S_ .f32 := constant S_ .f32 0x7F800000#32
  let main_v35 : FVec F S4x128 .f32 := broadcastInDim S4x128 ![] bcast_S_S4x128 main_cst_12
  let main_v36 : IVec S4x128 1 := cmpf .olt main_v34 main_v35
  let main_c_13 : IVec S_ 1 := constantI S_ 1 1#1
  let main_v37 : IVec S_ 1 := (fun x v => Host.reduce IntOp.andi x v reducesTo_S4x128_S_d0_1 h_S_) main_v36 main_c_13
  let main_v38 : IVec S_ 1 := andi main_v33 main_v37
  let main_v39 : FVec F S4x128x128 .f32 := Host.absf main_arg10
  let main_cst_14 : FVec F S_ .f32 := constant S_ .f32 0x7F800000#32
  let main_v40 : FVec F S4x128x128 .f32 := broadcastInDim S4x128x128 ![] bcast_S_S4x128x128 main_cst_14
  let main_v41 : IVec S4x128x128 1 := cmpf .olt main_v39 main_v40
  let main_c_15 : IVec S_ 1 := constantI S_ 1 1#1
  let main_v42 : IVec S_ 1 := (fun x v => Host.reduce IntOp.andi x v reducesTo_S4x128x128_S_d0_1_2 h_S_) main_v41 main_c_15
  let main_v43 : IVec S_ 1 := andi main_v38 main_v42
  let main_v44 : FVec F S4x128 .f32 := Host.absf main_arg11
  let main_cst_16 : FVec F S_ .f32 := constant S_ .f32 0x7F800000#32
  let main_v45 : FVec F S4x128 .f32 := broadcastInDim S4x128 ![] bcast_S_S4x128 main_cst_16
  let main_v46 : IVec S4x128 1 := cmpf .olt main_v44 main_v45
  let main_c_17 : IVec S_ 1 := constantI S_ 1 1#1
  let main_v47 : IVec S_ 1 := (fun x v => Host.reduce IntOp.andi x v reducesTo_S4x128_S_d0_1 h_S_) main_v46 main_c_17
  let main_v48 : IVec S_ 1 := andi main_v43 main_v47
  let main_v49 : FVec F S4x128 .f32 := Host.absf main_arg12
  let main_cst_18 : FVec F S_ .f32 := constant S_ .f32 0x7F800000#32
  let main_v50 : FVec F S4x128 .f32 := broadcastInDim S4x128 ![] bcast_S_S4x128 main_cst_18
  fn_part3 (F := F) main_arg13 main_arg14 main_arg15 main_v48 main_v49 main_v50

def fn_part1 {F : FTy → Type} [FloatOps F] (main_arg6 : FVec F S4x128x128 .f32) (main_arg7 : FVec F S4x128 .f32) (main_arg8 : FVec F S4x128 .f32) (main_arg9 : FVec F S4x128 .f32) (main_arg10 : FVec F S4x128x128 .f32) (main_arg11 : FVec F S4x128 .f32) (main_arg12 : FVec F S4x128 .f32) (main_arg13 : FVec F S4x128 .f32) (main_arg14 : FVec F S4x128 .f32) (main_arg15 : FVec F S4x128 .f32) (main_v13 : IVec S_ 1) (main_v16 : IVec S4 1) : IVec S_ 1 :=
  let main_c_5 : IVec S_ 1 := constantI S_ 1 1#1
  let main_v17 : IVec S_ 1 := (fun x v => Host.reduce IntOp.andi x v reducesTo_S4_S_d0 h_S_) main_v16 main_c_5
  let main_v18 : IVec S_ 1 := andi main_v13 main_v17
  let main_v19 : FVec F S4x128x128 .f32 := Host.absf main_arg6
  let main_cst_6 : FVec F S_ .f32 := constant S_ .f32 0x7F800000#32
  let main_v20 : FVec F S4x128x128 .f32 := broadcastInDim S4x128x128 ![] bcast_S_S4x128x128 main_cst_6
  let main_v21 : IVec S4x128x128 1 := cmpf .olt main_v19 main_v20
  let main_c_7 : IVec S_ 1 := constantI S_ 1 1#1
  let main_v22 : IVec S_ 1 := (fun x v => Host.reduce IntOp.andi x v reducesTo_S4x128x128_S_d0_1_2 h_S_) main_v21 main_c_7
  let main_v23 : IVec S_ 1 := andi main_v18 main_v22
  let main_v24 : FVec F S4x128 .f32 := Host.absf main_arg7
  let main_cst_8 : FVec F S_ .f32 := constant S_ .f32 0x7F800000#32
  let main_v25 : FVec F S4x128 .f32 := broadcastInDim S4x128 ![] bcast_S_S4x128 main_cst_8
  let main_v26 : IVec S4x128 1 := cmpf .olt main_v24 main_v25
  let main_c_9 : IVec S_ 1 := constantI S_ 1 1#1
  let main_v27 : IVec S_ 1 := (fun x v => Host.reduce IntOp.andi x v reducesTo_S4x128_S_d0_1 h_S_) main_v26 main_c_9
  let main_v28 : IVec S_ 1 := andi main_v23 main_v27
  let main_v29 : FVec F S4x128 .f32 := Host.absf main_arg8
  let main_cst_10 : FVec F S_ .f32 := constant S_ .f32 0x7F800000#32
  let main_v30 : FVec F S4x128 .f32 := broadcastInDim S4x128 ![] bcast_S_S4x128 main_cst_10
  let main_v31 : IVec S4x128 1 := cmpf .olt main_v29 main_v30
  let main_c_11 : IVec S_ 1 := constantI S_ 1 1#1
  let main_v32 : IVec S_ 1 := (fun x v => Host.reduce IntOp.andi x v reducesTo_S4x128_S_d0_1 h_S_) main_v31 main_c_11
  let main_v33 : IVec S_ 1 := andi main_v28 main_v32
  fn_part2 (F := F) main_arg9 main_arg10 main_arg11 main_arg12 main_arg13 main_arg14 main_arg15 main_v33

def fn {F : FTy → Type} [FloatOps F] (main_arg0 : FVec F S50000x128 .f32) (main_arg1 : IVec S1600000 32) (main_arg2 : IVec S1600000 32) (main_arg3 : FVec F S128x128 .f32) (main_arg4 : FVec F S128 .f32) (main_arg5 : FVec F S4 .f32) (main_arg6 : FVec F S4x128x128 .f32) (main_arg7 : FVec F S4x128 .f32) (main_arg8 : FVec F S4x128 .f32) (main_arg9 : FVec F S4x128 .f32) (main_arg10 : FVec F S4x128x128 .f32) (main_arg11 : FVec F S4x128 .f32) (main_arg12 : FVec F S4x128 .f32) (main_arg13 : FVec F S4x128 .f32) (main_arg14 : FVec F S4x128 .f32) (main_arg15 : FVec F S4x128 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S128x128 .f32 := Host.absf main_arg3
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg4
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S4 .f32 := Host.absf main_arg5
  let main_cst_4 : FVec F S_ .f32 := constant S_ .f32 0x7F800000#32
  let main_v15 : FVec F S4 .f32 := broadcastInDim S4 ![] bcast_S_S4 main_cst_4
  let main_v16 : IVec S4 1 := cmpf .olt main_v14 main_v15
  fn_part1 (F := F) main_arg6 main_arg7 main_arg8 main_arg9 main_arg10 main_arg11 main_arg12 main_arg13 main_arg14 main_arg15 main_v13 main_v16
-- ==== Kernel.lean ====
abbrev S50000x128 : Shape := ⟨2, ![50000, 128]⟩
abbrev S1600000 : Shape := ⟨1, ![1600000]⟩
abbrev S128x128 : Shape := ⟨2, ![128, 128]⟩
abbrev S128 : Shape := ⟨1, ![128]⟩
abbrev S4 : Shape := ⟨1, ![4]⟩
abbrev S4x128x128 : Shape := ⟨3, ![4, 128, 128]⟩
abbrev S4x128 : Shape := ⟨2, ![4, 128]⟩
abbrev S1x128 : Shape := ⟨2, ![1, 128]⟩
abbrev S5000x128 : Shape := ⟨2, ![5000, 128]⟩
abbrev S_ : Shape := ⟨0, ![]⟩
abbrev S1600000x1 : Shape := ⟨2, ![1600000, 1]⟩
abbrev S1600000x128 : Shape := ⟨2, ![1600000, 128]⟩
abbrev S1 : Shape := ⟨1, ![1]⟩
abbrev S1x1 : Shape := ⟨2, ![1, 1]⟩
abbrev S1x128x128 : Shape := ⟨3, ![1, 128, 128]⟩

abbrev nBuf : Space → Nat
  | .hbm => 338
  | .vmem => 178
  | .smem => 0
  | _ => 0

abbrev hbmTy0_0 (i : Nat) : BufTy := match i % 128 with
  | 0 => ⟨S50000x128, .f32⟩
  | 1 => ⟨S1600000, .i32⟩
  | 2 => ⟨S1600000, .i32⟩
  | 3 => ⟨S128x128, .f32⟩
  | 4 => ⟨S128, .f32⟩
  | 5 => ⟨S4, .f32⟩
  | 6 => ⟨S4x128x128, .f32⟩
  | 7 => ⟨S4x128, .f32⟩
  | 8 => ⟨S4x128, .f32⟩
  | 9 => ⟨S4x128, .f32⟩
  | 10 => ⟨S4x128x128, .f32⟩
  | 11 => ⟨S4x128, .f32⟩
  | 12 => ⟨S4x128, .f32⟩
  | 13 => ⟨S4x128, .f32⟩
  | 14 => ⟨S4x128, .f32⟩
  | 15 => ⟨S4x128, .f32⟩
  | 16 => ⟨S1x128, .f32⟩
  | 17 => ⟨S50000x128, .f32⟩
  | 18 => ⟨S_, .i32⟩
  | 19 => ⟨S1600000, .i32⟩
  | 20 => ⟨S1600000, .i1⟩
  | 21 => ⟨S_, .i32⟩
  | 22 => ⟨S1600000, .i32⟩
  | 23 => ⟨S1600000, .i32⟩
  | 24 => ⟨S1600000, .i32⟩
  | 25 => ⟨S1600000x1, .i32⟩
  | 26 => ⟨S1600000x128, .f32⟩
  | 27 => ⟨S_, .f32⟩
  | 28 => ⟨S50000x128, .f32⟩
  | 29 => ⟨S1600000x1, .i32⟩
  | 30 => ⟨S50000x128, .f32⟩
  | 31 => ⟨S1, .f32⟩
  | 32 => ⟨S_, .f32⟩
  | 33 => ⟨S_, .f32⟩
  | 34 => ⟨S_, .f32⟩
  | 35 => ⟨S1x1, .f32⟩
  | 36 => ⟨S1x128, .f32⟩
  | 37 => ⟨S128, .f32⟩
  | 38 => ⟨S1x128, .f32⟩
  | 39 => ⟨S1x128x128, .f32⟩
  | 40 => ⟨S128x128, .f32⟩
  | 41 => ⟨S50000x128, .f32⟩
  | 42 => ⟨S1x128, .f32⟩
  | 43 => ⟨S1x128, .f32⟩
  | 44 => ⟨S_, .f32⟩
  | 45 => ⟨S1x128, .f32⟩
  | 46 => ⟨S1x128, .f32⟩
  | 47 => ⟨S_, .f32⟩
  | 48 => ⟨S1x128, .f32⟩
  | 49 => ⟨S1x128, .f32⟩
  | 50 => ⟨S1x128, .f32⟩
  | 51 => ⟨S1x128, .f32⟩
  | 52 => ⟨S1x128, .f32⟩
  | 53 => ⟨S128, .f32⟩
  | 54 => ⟨S1x128, .f32⟩
  | 55 => ⟨S1x128, .f32⟩
  | 56 => ⟨S128, .f32⟩
  | 57 => ⟨S1x128, .f32⟩
  | 58 => ⟨S1x128, .f32⟩
  | 59 => ⟨S128, .f32⟩
  | 60 => ⟨S1x128, .f32⟩
  | 61 => ⟨S1x128x128, .f32⟩
  | 62 => ⟨S128x128, .f32⟩
  | 63 => ⟨S50000x128, .f32⟩
  | 64 => ⟨S1x128, .f32⟩
  | 65 => ⟨S1x128, .f32⟩
  | 66 => ⟨S_, .f32⟩
  | 67 => ⟨S1x128, .f32⟩
  | 68 => ⟨S1x128, .f32⟩
  | 69 => ⟨S_, .f32⟩
  | 70 => ⟨S1x128, .f32⟩
  | 71 => ⟨S1x128, .f32⟩
  | 72 => ⟨S1x128, .f32⟩
  | 73 => ⟨S1x128, .f32⟩
  | 74 => ⟨S1x128, .f32⟩
  | 75 => ⟨S128, .f32⟩
  | 76 => ⟨S1x128, .f32⟩
  | 77 => ⟨S1x128, .f32⟩
  | 78 => ⟨S128, .f32⟩
  | 79 => ⟨S1x128, .f32⟩
  | 80 => ⟨S50000x128, .f32⟩
  | 81 => ⟨S1x128, .f32⟩
  | 82 => ⟨S1x128, .f32⟩
  | 83 => ⟨S_, .f32⟩
  | 84 => ⟨S1x128, .f32⟩
  | 85 => ⟨S1x128, .f32⟩
  | 86 => ⟨S_, .f32⟩
  | 87 => ⟨S1x128, .f32⟩
  | 88 => ⟨S1x128, .f32⟩
  | 89 => ⟨S1x128, .f32⟩
  | 90 => ⟨S1x128, .f32⟩
  | 91 => ⟨S1x128, .f32⟩
  | 92 => ⟨S128, .f32⟩
  | 93 => ⟨S1x128, .f32⟩
  | 94 => ⟨S1x128, .f32⟩
  | 95 => ⟨S128, .f32⟩
  | 96 => ⟨S1x128, .f32⟩
  | 97 => ⟨S50000x128, .f32⟩
  | 98 => ⟨S_, .i32⟩
  | 99 => ⟨S1600000, .i32⟩
  | 100 => ⟨S1600000, .i1⟩
  | 101 => ⟨S_, .i32⟩
  | 102 => ⟨S1600000, .i32⟩
  | 103 => ⟨S1600000, .i32⟩
  | 104 => ⟨S1600000, .i32⟩
  | 105 => ⟨S1600000x1, .i32⟩
  | 106 => ⟨S1600000x128, .f32⟩
  | 107 => ⟨S_, .f32⟩
  | 108 => ⟨S50000x128, .f32⟩
  | 109 => ⟨S1600000x1, .i32⟩
  | 110 => ⟨S50000x128, .f32⟩
  | 111 => ⟨S1, .f32⟩
  | 112 => ⟨S_, .f32⟩
  | 113 => ⟨S_, .f32⟩
  | 114 => ⟨S_, .f32⟩
  | 115 => ⟨S1x1, .f32⟩
  | 116 => ⟨S1x128, .f32⟩
  | 117 => ⟨S128, .f32⟩
  | 118 => ⟨S1x128, .f32⟩
  | 119 => ⟨S1x128x128, .f32⟩
  | 120 => ⟨S128x128, .f32⟩
  | 121 => ⟨S50000x128, .f32⟩
  | 122 => ⟨S1x128, .f32⟩
  | 123 => ⟨S1x128, .f32⟩
  | 124 => ⟨S_, .f32⟩
  | 125 => ⟨S1x128, .f32⟩
  | 126 => ⟨S1x128, .f32⟩
  | 127 => ⟨S_, .f32⟩
  | _ => ⟨S50000x128, .f32⟩

abbrev hbmTy0_1 (i : Nat) : BufTy := match i % 128 with
  | 0 => ⟨S1x128, .f32⟩
  | 1 => ⟨S1x128, .f32⟩
  | 2 => ⟨S1x128, .f32⟩
  | 3 => ⟨S1x128, .f32⟩
  | 4 => ⟨S1x128, .f32⟩
  | 5 => ⟨S128, .f32⟩
  | 6 => ⟨S1x128, .f32⟩
  | 7 => ⟨S1x128, .f32⟩
  | 8 => ⟨S128, .f32⟩
  | 9 => ⟨S1x128, .f32⟩
  | 10 => ⟨S1x128, .f32⟩
  | 11 => ⟨S128, .f32⟩
  | 12 => ⟨S1x128, .f32⟩
  | 13 => ⟨S1x128x128, .f32⟩
  | 14 => ⟨S128x128, .f32⟩
  | 15 => ⟨S50000x128, .f32⟩
  | 16 => ⟨S1x128, .f32⟩
  | 17 => ⟨S1x128, .f32⟩
  | 18 => ⟨S_, .f32⟩
  | 19 => ⟨S1x128, .f32⟩
  | 20 => ⟨S1x128, .f32⟩
  | 21 => ⟨S_, .f32⟩
  | 22 => ⟨S1x128, .f32⟩
  | 23 => ⟨S1x128, .f32⟩
  | 24 => ⟨S1x128, .f32⟩
  | 25 => ⟨S1x128, .f32⟩
  | 26 => ⟨S1x128, .f32⟩
  | 27 => ⟨S128, .f32⟩
  | 28 => ⟨S1x128, .f32⟩
  | 29 => ⟨S1x128, .f32⟩
  | 30 => ⟨S128, .f32⟩
  | 31 => ⟨S1x128, .f32⟩
  | 32 => ⟨S50000x128, .f32⟩
  | 33 => ⟨S1x128, .f32⟩
  | 34 => ⟨S1x128, .f32⟩
  | 35 => ⟨S_, .f32⟩
  | 36 => ⟨S1x128, .f32⟩
  | 37 => ⟨S1x128, .f32⟩
  | 38 => ⟨S_, .f32⟩
  | 39 => ⟨S1x128, .f32⟩
  | 40 => ⟨S1x128, .f32⟩
  | 41 => ⟨S1x128, .f32⟩
  | 42 => ⟨S1x128, .f32⟩
  | 43 => ⟨S1x128, .f32⟩
  | 44 => ⟨S128, .f32⟩
  | 45 => ⟨S1x128, .f32⟩
  | 46 => ⟨S1x128, .f32⟩
  | 47 => ⟨S128, .f32⟩
  | 48 => ⟨S1x128, .f32⟩
  | 49 => ⟨S50000x128, .f32⟩
  | 50 => ⟨S_, .i32⟩
  | 51 => ⟨S1600000, .i32⟩
  | 52 => ⟨S1600000, .i1⟩
  | 53 => ⟨S_, .i32⟩
  | 54 => ⟨S1600000, .i32⟩
  | 55 => ⟨S1600000, .i32⟩
  | 56 => ⟨S1600000, .i32⟩
  | 57 => ⟨S1600000x1, .i32⟩
  | 58 => ⟨S1600000x128, .f32⟩
  | 59 => ⟨S_, .f32⟩
  | 60 => ⟨S50000x128, .f32⟩
  | 61 => ⟨S1600000x1, .i32⟩
  | 62 => ⟨S50000x128, .f32⟩
  | 63 => ⟨S1, .f32⟩
  | 64 => ⟨S_, .f32⟩
  | 65 => ⟨S_, .f32⟩
  | 66 => ⟨S_, .f32⟩
  | 67 => ⟨S1x1, .f32⟩
  | 68 => ⟨S1x128, .f32⟩
  | 69 => ⟨S128, .f32⟩
  | 70 => ⟨S1x128, .f32⟩
  | 71 => ⟨S1x128x128, .f32⟩
  | 72 => ⟨S128x128, .f32⟩
  | 73 => ⟨S50000x128, .f32⟩
  | 74 => ⟨S1x128, .f32⟩
  | 75 => ⟨S1x128, .f32⟩
  | 76 => ⟨S_, .f32⟩
  | 77 => ⟨S1x128, .f32⟩
  | 78 => ⟨S1x128, .f32⟩
  | 79 => ⟨S_, .f32⟩
  | 80 => ⟨S1x128, .f32⟩
  | 81 => ⟨S1x128, .f32⟩
  | 82 => ⟨S1x128, .f32⟩
  | 83 => ⟨S1x128, .f32⟩
  | 84 => ⟨S1x128, .f32⟩
  | 85 => ⟨S128, .f32⟩
  | 86 => ⟨S1x128, .f32⟩
  | 87 => ⟨S1x128, .f32⟩
  | 88 => ⟨S128, .f32⟩
  | 89 => ⟨S1x128, .f32⟩
  | 90 => ⟨S1x128, .f32⟩
  | 91 => ⟨S128, .f32⟩
  | 92 => ⟨S1x128, .f32⟩
  | 93 => ⟨S1x128x128, .f32⟩
  | 94 => ⟨S128x128, .f32⟩
  | 95 => ⟨S50000x128, .f32⟩
  | 96 => ⟨S1x128, .f32⟩
  | 97 => ⟨S1x128, .f32⟩
  | 98 => ⟨S_, .f32⟩
  | 99 => ⟨S1x128, .f32⟩
  | 100 => ⟨S1x128, .f32⟩
  | 101 => ⟨S_, .f32⟩
  | 102 => ⟨S1x128, .f32⟩
  | 103 => ⟨S1x128, .f32⟩
  | 104 => ⟨S1x128, .f32⟩
  | 105 => ⟨S1x128, .f32⟩
  | 106 => ⟨S1x128, .f32⟩
  | 107 => ⟨S128, .f32⟩
  | 108 => ⟨S1x128, .f32⟩
  | 109 => ⟨S1x128, .f32⟩
  | 110 => ⟨S128, .f32⟩
  | 111 => ⟨S1x128, .f32⟩
  | 112 => ⟨S50000x128, .f32⟩
  | 113 => ⟨S1x128, .f32⟩
  | 114 => ⟨S1x128, .f32⟩
  | 115 => ⟨S_, .f32⟩
  | 116 => ⟨S1x128, .f32⟩
  | 117 => ⟨S1x128, .f32⟩
  | 118 => ⟨S_, .f32⟩
  | 119 => ⟨S1x128, .f32⟩
  | 120 => ⟨S1x128, .f32⟩
  | 121 => ⟨S1x128, .f32⟩
  | 122 => ⟨S1x128, .f32⟩
  | 123 => ⟨S1x128, .f32⟩
  | 124 => ⟨S128, .f32⟩
  | 125 => ⟨S1x128, .f32⟩
  | 126 => ⟨S1x128, .f32⟩
  | 127 => ⟨S128, .f32⟩
  | _ => ⟨S50000x128, .f32⟩

abbrev hbmTy0_2 (i : Nat) : BufTy := match i % 128 with
  | 0 => ⟨S1x128, .f32⟩
  | 1 => ⟨S50000x128, .f32⟩
  | 2 => ⟨S_, .i32⟩
  | 3 => ⟨S1600000, .i32⟩
  | 4 => ⟨S1600000, .i1⟩
  | 5 => ⟨S_, .i32⟩
  | 6 => ⟨S1600000, .i32⟩
  | 7 => ⟨S1600000, .i32⟩
  | 8 => ⟨S1600000, .i32⟩
  | 9 => ⟨S1600000x1, .i32⟩
  | 10 => ⟨S1600000x128, .f32⟩
  | 11 => ⟨S_, .f32⟩
  | 12 => ⟨S50000x128, .f32⟩
  | 13 => ⟨S1600000x1, .i32⟩
  | 14 => ⟨S50000x128, .f32⟩
  | 15 => ⟨S1, .f32⟩
  | 16 => ⟨S_, .f32⟩
  | 17 => ⟨S_, .f32⟩
  | 18 => ⟨S_, .f32⟩
  | 19 => ⟨S1x1, .f32⟩
  | 20 => ⟨S1x128, .f32⟩
  | 21 => ⟨S128, .f32⟩
  | 22 => ⟨S1x128, .f32⟩
  | 23 => ⟨S1x128x128, .f32⟩
  | 24 => ⟨S128x128, .f32⟩
  | 25 => ⟨S50000x128, .f32⟩
  | 26 => ⟨S1x128, .f32⟩
  | 27 => ⟨S1x128, .f32⟩
  | 28 => ⟨S_, .f32⟩
  | 29 => ⟨S1x128, .f32⟩
  | 30 => ⟨S1x128, .f32⟩
  | 31 => ⟨S_, .f32⟩
  | 32 => ⟨S1x128, .f32⟩
  | 33 => ⟨S1x128, .f32⟩
  | 34 => ⟨S1x128, .f32⟩
  | 35 => ⟨S1x128, .f32⟩
  | 36 => ⟨S1x128, .f32⟩
  | 37 => ⟨S128, .f32⟩
  | 38 => ⟨S1x128, .f32⟩
  | 39 => ⟨S1x128, .f32⟩
  | 40 => ⟨S128, .f32⟩
  | 41 => ⟨S1x128, .f32⟩
  | 42 => ⟨S1x128, .f32⟩
  | 43 => ⟨S128, .f32⟩
  | 44 => ⟨S1x128, .f32⟩
  | 45 => ⟨S1x128x128, .f32⟩
  | 46 => ⟨S128x128, .f32⟩
  | 47 => ⟨S50000x128, .f32⟩
  | 48 => ⟨S1x128, .f32⟩
  | 49 => ⟨S1x128, .f32⟩
  | 50 => ⟨S_, .f32⟩
  | 51 => ⟨S1x128, .f32⟩
  | 52 => ⟨S1x128, .f32⟩
  | 53 => ⟨S_, .f32⟩
  | 54 => ⟨S1x128, .f32⟩
  | 55 => ⟨S1x128, .f32⟩
  | 56 => ⟨S1x128, .f32⟩
  | 57 => ⟨S1x128, .f32⟩
  | 58 => ⟨S1x128, .f32⟩
  | 59 => ⟨S128, .f32⟩
  | 60 => ⟨S1x128, .f32⟩
  | 61 => ⟨S1x128, .f32⟩
  | 62 => ⟨S128, .f32⟩
  | 63 => ⟨S1x128, .f32⟩
  | 64 => ⟨S50000x128, .f32⟩
  | 65 => ⟨S1x128, .f32⟩
  | 66 => ⟨S1x128, .f32⟩
  | 67 => ⟨S_, .f32⟩
  | 68 => ⟨S1x128, .f32⟩
  | 69 => ⟨S1x128, .f32⟩
  | 70 => ⟨S_, .f32⟩
  | 71 => ⟨S1x128, .f32⟩
  | 72 => ⟨S1x128, .f32⟩
  | 73 => ⟨S1x128, .f32⟩
  | 74 => ⟨S1x128, .f32⟩
  | 75 => ⟨S1x128, .f32⟩
  | 76 => ⟨S128, .f32⟩
  | 77 => ⟨S1x128, .f32⟩
  | 78 => ⟨S1x128, .f32⟩
  | 79 => ⟨S128, .f32⟩
  | 80 => ⟨S1x128, .f32⟩
  | 81 => ⟨S50000x128, .f32⟩
  | _ => ⟨S50000x128, .f32⟩

abbrev hbmTy (i : Nat) : BufTy := match i / 128 with
  | 0 => hbmTy0_0 i
  | 1 => hbmTy0_1 i
  | 2 => hbmTy0_2 i
  | _ => ⟨S50000x128, .f32⟩

abbrev vmemTy0_0 (i : Nat) : BufTy := match i % 128 with
  | 0 => ⟨S5000x128, .f32⟩
  | 1 => ⟨S5000x128, .f32⟩
  | 2 => ⟨S128x128, .f32⟩
  | 3 => ⟨S1x128, .f32⟩
  | 4 => ⟨S5000x128, .f32⟩
  | 5 => ⟨S5000x128, .f32⟩
  | 6 => ⟨S5000x128, .f32⟩
  | 7 => ⟨S5000x128, .f32⟩
  | 8 => ⟨S5000x128, .f32⟩
  | 9 => ⟨S5000x128, .f32⟩
  | 10 => ⟨S1x1, .f32⟩
  | 11 => ⟨S128x128, .f32⟩
  | 12 => ⟨S1x128, .f32⟩
  | 13 => ⟨S5000x128, .f32⟩
  | 14 => ⟨S5000x128, .f32⟩
  | 15 => ⟨S1x128, .f32⟩
  | 16 => ⟨S1x128, .f32⟩
  | 17 => ⟨S5000x128, .f32⟩
  | 18 => ⟨S5000x128, .f32⟩
  | 19 => ⟨S1x128, .f32⟩
  | 20 => ⟨S1x128, .f32⟩
  | 21 => ⟨S1x128, .f32⟩
  | 22 => ⟨S1x128, .f32⟩
  | 23 => ⟨S128x128, .f32⟩
  | 24 => ⟨S1x128, .f32⟩
  | 25 => ⟨S5000x128, .f32⟩
  | 26 => ⟨S5000x128, .f32⟩
  | 27 => ⟨S1x128, .f32⟩
  | 28 => ⟨S1x128, .f32⟩
  | 29 => ⟨S5000x128, .f32⟩
  | 30 => ⟨S5000x128, .f32⟩
  | 31 => ⟨S1x128, .f32⟩
  | 32 => ⟨S1x128, .f32⟩
  | 33 => ⟨S1x128, .f32⟩
  | 34 => ⟨S1x128, .f32⟩
  | 35 => ⟨S5000x128, .f32⟩
  | 36 => ⟨S5000x128, .f32⟩
  | 37 => ⟨S1x128, .f32⟩
  | 38 => ⟨S1x128, .f32⟩
  | 39 => ⟨S5000x128, .f32⟩
  | 40 => ⟨S5000x128, .f32⟩
  | 41 => ⟨S1x128, .f32⟩
  | 42 => ⟨S1x128, .f32⟩
  | 43 => ⟨S1x128, .f32⟩
  | 44 => ⟨S1x128, .f32⟩
  | 45 => ⟨S5000x128, .f32⟩
  | 46 => ⟨S5000x128, .f32⟩
  | 47 => ⟨S5000x128, .f32⟩
  | 48 => ⟨S5000x128, .f32⟩
  | 49 => ⟨S5000x128, .f32⟩
  | 50 => ⟨S5000x128, .f32⟩
  | 51 => ⟨S5000x128, .f32⟩
  | 52 => ⟨S5000x128, .f32⟩
  | 53 => ⟨S1x1, .f32⟩
  | 54 => ⟨S128x128, .f32⟩
  | 55 => ⟨S1x128, .f32⟩
  | 56 => ⟨S5000x128, .f32⟩
  | 57 => ⟨S5000x128, .f32⟩
  | 58 => ⟨S1x128, .f32⟩
  | 59 => ⟨S1x128, .f32⟩
  | 60 => ⟨S5000x128, .f32⟩
  | 61 => ⟨S5000x128, .f32⟩
  | 62 => ⟨S1x128, .f32⟩
  | 63 => ⟨S1x128, .f32⟩
  | 64 => ⟨S1x128, .f32⟩
  | 65 => ⟨S1x128, .f32⟩
  | 66 => ⟨S128x128, .f32⟩
  | 67 => ⟨S1x128, .f32⟩
  | 68 => ⟨S5000x128, .f32⟩
  | 69 => ⟨S5000x128, .f32⟩
  | 70 => ⟨S1x128, .f32⟩
  | 71 => ⟨S1x128, .f32⟩
  | 72 => ⟨S5000x128, .f32⟩
  | 73 => ⟨S5000x128, .f32⟩
  | 74 => ⟨S1x128, .f32⟩
  | 75 => ⟨S1x128, .f32⟩
  | 76 => ⟨S1x128, .f32⟩
  | 77 => ⟨S1x128, .f32⟩
  | 78 => ⟨S5000x128, .f32⟩
  | 79 => ⟨S5000x128, .f32⟩
  | 80 => ⟨S1x128, .f32⟩
  | 81 => ⟨S1x128, .f32⟩
  | 82 => ⟨S5000x128, .f32⟩
  | 83 => ⟨S5000x128, .f32⟩
  | 84 => ⟨S1x128, .f32⟩
  | 85 => ⟨S1x128, .f32⟩
  | 86 => ⟨S1x128, .f32⟩
  | 87 => ⟨S1x128, .f32⟩
  | 88 => ⟨S5000x128, .f32⟩
  | 89 => ⟨S5000x128, .f32⟩
  | 90 => ⟨S5000x128, .f32⟩
  | 91 => ⟨S5000x128, .f32⟩
  | 92 => ⟨S5000x128, .f32⟩
  | 93 => ⟨S5000x128, .f32⟩
  | 94 => ⟨S5000x128, .f32⟩
  | 95 => ⟨S5000x128, .f32⟩
  | 96 => ⟨S1x1, .f32⟩
  | 97 => ⟨S128x128, .f32⟩
  | 98 => ⟨S1x128, .f32⟩
  | 99 => ⟨S5000x128, .f32⟩
  | 100 => ⟨S5000x128, .f32⟩
  | 101 => ⟨S1x128, .f32⟩
  | 102 => ⟨S1x128, .f32⟩
  | 103 => ⟨S5000x128, .f32⟩
  | 104 => ⟨S5000x128, .f32⟩
  | 105 => ⟨S1x128, .f32⟩
  | 106 => ⟨S1x128, .f32⟩
  | 107 => ⟨S1x128, .f32⟩
  | 108 => ⟨S1x128, .f32⟩
  | 109 => ⟨S128x128, .f32⟩
  | 110 => ⟨S1x128, .f32⟩
  | 111 => ⟨S5000x128, .f32⟩
  | 112 => ⟨S5000x128, .f32⟩
  | 113 => ⟨S1x128, .f32⟩
  | 114 => ⟨S1x128, .f32⟩
  | 115 => ⟨S5000x128, .f32⟩
  | 116 => ⟨S5000x128, .f32⟩
  | 117 => ⟨S1x128, .f32⟩
  | 118 => ⟨S1x128, .f32⟩
  | 119 => ⟨S1x128, .f32⟩
  | 120 => ⟨S1x128, .f32⟩
  | 121 => ⟨S5000x128, .f32⟩
  | 122 => ⟨S5000x128, .f32⟩
  | 123 => ⟨S1x128, .f32⟩
  | 124 => ⟨S1x128, .f32⟩
  | 125 => ⟨S5000x128, .f32⟩
  | 126 => ⟨S5000x128, .f32⟩
  | 127 => ⟨S1x128, .f32⟩
  | _ => ⟨S50000x128, .f32⟩

abbrev vmemTy0_1 (i : Nat) : BufTy := match i % 128 with
  | 0 => ⟨S1x128, .f32⟩
  | 1 => ⟨S1x128, .f32⟩
  | 2 => ⟨S1x128, .f32⟩
  | 3 => ⟨S5000x128, .f32⟩
  | 4 => ⟨S5000x128, .f32⟩
  | 5 => ⟨S5000x128, .f32⟩
  | 6 => ⟨S5000x128, .f32⟩
  | 7 => ⟨S5000x128, .f32⟩
  | 8 => ⟨S5000x128, .f32⟩
  | 9 => ⟨S5000x128, .f32⟩
  | 10 => ⟨S5000x128, .f32⟩
  | 11 => ⟨S1x1, .f32⟩
  | 12 => ⟨S128x128, .f32⟩
  | 13 => ⟨S1x128, .f32⟩
  | 14 => ⟨S5000x128, .f32⟩
  | 15 => ⟨S5000x128, .f32⟩
  | 16 => ⟨S1x128, .f32⟩
  | 17 => ⟨S1x128, .f32⟩
  | 18 => ⟨S5000x128, .f32⟩
  | 19 => ⟨S5000x128, .f32⟩
  | 20 => ⟨S1x128, .f32⟩
  | 21 => ⟨S1x128, .f32⟩
  | 22 => ⟨S1x128, .f32⟩
  | 23 => ⟨S1x128, .f32⟩
  | 24 => ⟨S128x128, .f32⟩
  | 25 => ⟨S1x128, .f32⟩
  | 26 => ⟨S5000x128, .f32⟩
  | 27 => ⟨S5000x128, .f32⟩
  | 28 => ⟨S1x128, .f32⟩
  | 29 => ⟨S1x128, .f32⟩
  | 30 => ⟨S5000x128, .f32⟩
  | 31 => ⟨S5000x128, .f32⟩
  | 32 => ⟨S1x128, .f32⟩
  | 33 => ⟨S1x128, .f32⟩
  | 34 => ⟨S1x128, .f32⟩
  | 35 => ⟨S1x128, .f32⟩
  | 36 => ⟨S5000x128, .f32⟩
  | 37 => ⟨S5000x128, .f32⟩
  | 38 => ⟨S1x128, .f32⟩
  | 39 => ⟨S1x128, .f32⟩
  | 40 => ⟨S5000x128, .f32⟩
  | 41 => ⟨S5000x128, .f32⟩
  | 42 => ⟨S1x128, .f32⟩
  | 43 => ⟨S1x128, .f32⟩
  | 44 => ⟨S1x128, .f32⟩
  | 45 => ⟨S1x128, .f32⟩
  | 46 => ⟨S5000x128, .f32⟩
  | 47 => ⟨S5000x128, .f32⟩
  | 48 => ⟨S5000x128, .f32⟩
  | 49 => ⟨S5000x128, .f32⟩
  | _ => ⟨S50000x128, .f32⟩

abbrev vmemTy (i : Nat) : BufTy := match i / 128 with
  | 0 => vmemTy0_0 i
  | 1 => vmemTy0_1 i
  | _ => ⟨S50000x128, .f32⟩

abbrev bufTy : (tb : Table) → Fin (tcTables nBuf tb) → BufTy
  | .hbm, ⟨i, _⟩ => hbmTy i
  | .local _ .vmem, ⟨i, _⟩ => vmemTy i
  | _, _ => ⟨S50000x128, .f32⟩

abbrev dmaSemScopedAt0_0 (i : Nat) : Bool := match i % 128 with
  | 0 => true
  | 1 => true
  | 2 => true
  | 3 => true
  | 4 => true
  | 5 => true
  | 6 => true
  | 7 => true
  | 8 => true
  | 9 => true
  | 10 => true
  | 11 => true
  | 12 => true
  | 13 => true
  | 14 => true
  | 15 => true
  | 16 => true
  | 17 => true
  | 18 => true
  | 19 => true
  | 20 => true
  | 21 => true
  | 22 => true
  | 23 => true
  | 24 => true
  | 25 => true
  | 26 => true
  | 27 => true
  | 28 => true
  | 29 => true
  | 30 => true
  | 31 => true
  | 32 => true
  | 33 => true
  | 34 => true
  | 35 => true
  | 36 => true
  | 37 => true
  | 38 => true
  | 39 => true
  | 40 => true
  | 41 => true
  | 42 => true
  | 43 => true
  | 44 => true
  | 45 => true
  | 46 => true
  | 47 => true
  | 48 => true
  | 49 => true
  | 50 => true
  | 51 => true
  | 52 => true
  | 53 => true
  | 54 => true
  | 55 => true
  | 56 => true
  | 57 => true
  | 58 => true
  | 59 => true
  | 60 => true
  | 61 => true
  | 62 => true
  | 63 => true
  | 64 => true
  | 65 => true
  | 66 => true
  | 67 => true
  | 68 => true
  | 69 => true
  | 70 => true
  | 71 => true
  | 72 => true
  | 73 => true
  | 74 => true
  | 75 => true
  | 76 => true
  | 77 => true
  | 78 => true
  | 79 => true
  | 80 => true
  | 81 => true
  | 82 => true
  | 83 => true
  | 84 => true
  | 85 => true
  | 86 => true
  | 87 => true
  | 88 => true
  | 89 => true
  | 90 => true
  | 91 => true
  | 92 => true
  | 93 => true
  | 94 => true
  | 95 => true
  | 96 => true
  | 97 => true
  | 98 => true
  | 99 => true
  | 100 => true
  | 101 => true
  | 102 => true
  | 103 => true
  | 104 => true
  | 105 => true
  | 106 => true
  | 107 => true
  | 108 => true
  | 109 => true
  | 110 => true
  | 111 => true
  | 112 => true
  | 113 => true
  | 114 => true
  | 115 => true
  | 116 => true
  | 117 => true
  | 118 => true
  | 119 => true
  | 120 => true
  | 121 => true
  | 122 => true
  | 123 => true
  | 124 => true
  | 125 => true
  | 126 => true
  | 127 => true
  | _ => false

abbrev dmaSemScopedAt0_1 (i : Nat) : Bool := match i % 128 with
  | 0 => true
  | 1 => true
  | 2 => true
  | 3 => true
  | 4 => true
  | 5 => true
  | 6 => true
  | 7 => true
  | 8 => true
  | 9 => true
  | 10 => true
  | 11 => true
  | 12 => true
  | 13 => true
  | 14 => true
  | 15 => true
  | 16 => true
  | 17 => true
  | 18 => true
  | 19 => true
  | 20 => true
  | 21 => true
  | 22 => true
  | 23 => true
  | 24 => true
  | 25 => true
  | 26 => true
  | 27 => true
  | 28 => true
  | 29 => true
  | 30 => true
  | 31 => true
  | 32 => true
  | 33 => true
  | 34 => true
  | 35 => true
  | 36 => true
  | 37 => true
  | 38 => true
  | 39 => true
  | 40 => true
  | 41 => true
  | 42 => true
  | 43 => true
  | 44 => true
  | 45 => true
  | 46 => true
  | 47 => true
  | 48 => true
  | 49 => true
  | _ => false

abbrev dmaSemScopedAt (i : Nat) : Bool := match i / 128 with
  | 0 => dmaSemScopedAt0_0 i
  | 1 => dmaSemScopedAt0_1 i
  | _ => false

abbrev vmemScopedAt0_0 (i : Nat) : Bool := match i % 128 with
  | 0 => true
  | 1 => true
  | 2 => true
  | 3 => true
  | 4 => true
  | 5 => true
  | 6 => true
  | 7 => true
  | 8 => true
  | 9 => true
  | 10 => true
  | 11 => true
  | 12 => true
  | 13 => true
  | 14 => true
  | 15 => true
  | 16 => true
  | 17 => true
  | 18 => true
  | 19 => true
  | 20 => true
  | 21 => true
  | 22 => true
  | 23 => true
  | 24 => true
  | 25 => true
  | 26 => true
  | 27 => true
  | 28 => true
  | 29 => true
  | 30 => true
  | 31 => true
  | 32 => true
  | 33 => true
  | 34 => true
  | 35 => true
  | 36 => true
  | 37 => true
  | 38 => true
  | 39 => true
  | 40 => true
  | 41 => true
  | 42 => true
  | 43 => true
  | 44 => true
  | 45 => true
  | 46 => true
  | 47 => true
  | 48 => true
  | 49 => true
  | 50 => true
  | 51 => true
  | 52 => true
  | 53 => true
  | 54 => true
  | 55 => true
  | 56 => true
  | 57 => true
  | 58 => true
  | 59 => true
  | 60 => true
  | 61 => true
  | 62 => true
  | 63 => true
  | 64 => true
  | 65 => true
  | 66 => true
  | 67 => true
  | 68 => true
  | 69 => true
  | 70 => true
  | 71 => true
  | 72 => true
  | 73 => true
  | 74 => true
  | 75 => true
  | 76 => true
  | 77 => true
  | 78 => true
  | 79 => true
  | 80 => true
  | 81 => true
  | 82 => true
  | 83 => true
  | 84 => true
  | 85 => true
  | 86 => true
  | 87 => true
  | 88 => true
  | 89 => true
  | 90 => true
  | 91 => true
  | 92 => true
  | 93 => true
  | 94 => true
  | 95 => true
  | 96 => true
  | 97 => true
  | 98 => true
  | 99 => true
  | 100 => true
  | 101 => true
  | 102 => true
  | 103 => true
  | 104 => true
  | 105 => true
  | 106 => true
  | 107 => true
  | 108 => true
  | 109 => true
  | 110 => true
  | 111 => true
  | 112 => true
  | 113 => true
  | 114 => true
  | 115 => true
  | 116 => true
  | 117 => true
  | 118 => true
  | 119 => true
  | 120 => true
  | 121 => true
  | 122 => true
  | 123 => true
  | 124 => true
  | 125 => true
  | 126 => true
  | 127 => true
  | _ => false

abbrev vmemScopedAt0_1 (i : Nat) : Bool := match i % 128 with
  | 0 => true
  | 1 => true
  | 2 => true
  | 3 => true
  | 4 => true
  | 5 => true
  | 6 => true
  | 7 => true
  | 8 => true
  | 9 => true
  | 10 => true
  | 11 => true
  | 12 => true
  | 13 => true
  | 14 => true
  | 15 => true
  | 16 => true
  | 17 => true
  | 18 => true
  | 19 => true
  | 20 => true
  | 21 => true
  | 22 => true
  | 23 => true
  | 24 => true
  | 25 => true
  | 26 => true
  | 27 => true
  | 28 => true
  | 29 => true
  | 30 => true
  | 31 => true
  | 32 => true
  | 33 => true
  | 34 => true
  | 35 => true
  | 36 => true
  | 37 => true
  | 38 => true
  | 39 => true
  | 40 => true
  | 41 => true
  | 42 => true
  | 43 => true
  | 44 => true
  | 45 => true
  | 46 => true
  | 47 => true
  | 48 => true
  | 49 => true
  | _ => false

abbrev vmemScopedAt (i : Nat) : Bool := match i / 128 with
  | 0 => vmemScopedAt0_0 i
  | 1 => vmemScopedAt0_1 i
  | _ => false

abbrev bufScoped : (cs : CoreSpace) → Fin (nBuf (.core cs)) → Bool
  | .vmem, ⟨i, _⟩ => vmemScopedAt i
  | _, _ => false

abbrev semScoped : Fin 0 → Bool
  | ⟨_, h⟩ => absurd h (Nat.not_lt_zero _)

abbrev dmaSemScoped : Fin 178 → Bool
  | ⟨i, _⟩ => dmaSemScopedAt i

abbrev sig : RefSig :=
  ofTc nBuf bufTy 0 178 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_v0 : Ref sig .tc := ⟨.hbm, 16, rfl⟩
abbrev main_v1 : Ref sig .tc := ⟨.hbm, 17, rfl⟩
abbrev main_c : Ref sig .tc := ⟨.hbm, 18, rfl⟩
abbrev main_v2 : Ref sig .tc := ⟨.hbm, 19, rfl⟩
abbrev main_v3 : Ref sig .tc := ⟨.hbm, 20, rfl⟩
abbrev main_c_0 : Ref sig .tc := ⟨.hbm, 21, rfl⟩
abbrev main_v4 : Ref sig .tc := ⟨.hbm, 22, rfl⟩
abbrev main_v5 : Ref sig .tc := ⟨.hbm, 23, rfl⟩
abbrev main_v6 : Ref sig .tc := ⟨.hbm, 24, rfl⟩
abbrev main_v7 : Ref sig .tc := ⟨.hbm, 25, rfl⟩
abbrev main_v8 : Ref sig .tc := ⟨.hbm, 26, rfl⟩
abbrev main_cst : Ref sig .tc := ⟨.hbm, 27, rfl⟩
abbrev main_v9 : Ref sig .tc := ⟨.hbm, 28, rfl⟩
abbrev main_v10 : Ref sig .tc := ⟨.hbm, 29, rfl⟩
abbrev main_v11 : Ref sig .tc := ⟨.hbm, 30, rfl⟩
abbrev main_v12 : Ref sig .tc := ⟨.hbm, 31, rfl⟩
abbrev main_v13 : Ref sig .tc := ⟨.hbm, 32, rfl⟩
abbrev main_cst_1 : Ref sig .tc := ⟨.hbm, 33, rfl⟩
abbrev main_v14 : Ref sig .tc := ⟨.hbm, 34, rfl⟩
abbrev main_v15 : Ref sig .tc := ⟨.hbm, 35, rfl⟩
abbrev main_v16 : Ref sig .tc := ⟨.hbm, 36, rfl⟩
abbrev main_v17 : Ref sig .tc := ⟨.hbm, 37, rfl⟩
abbrev main_v18 : Ref sig .tc := ⟨.hbm, 38, rfl⟩
abbrev main_v19 : Ref sig .tc := ⟨.hbm, 39, rfl⟩
abbrev main_v20 : Ref sig .tc := ⟨.hbm, 40, rfl⟩
abbrev main_v21_0 : Ref sig .tc := ⟨.hbm, 41, rfl⟩
abbrev main_v21_1 : Ref sig .tc := ⟨.hbm, 42, rfl⟩
abbrev main_v21_2 : Ref sig .tc := ⟨.hbm, 43, rfl⟩
abbrev main_cst_2 : Ref sig .tc := ⟨.hbm, 44, rfl⟩
abbrev main_v22 : Ref sig .tc := ⟨.hbm, 45, rfl⟩
abbrev main_v23 : Ref sig .tc := ⟨.hbm, 46, rfl⟩
abbrev main_cst_3 : Ref sig .tc := ⟨.hbm, 47, rfl⟩
abbrev main_v24 : Ref sig .tc := ⟨.hbm, 48, rfl⟩
abbrev main_v25 : Ref sig .tc := ⟨.hbm, 49, rfl⟩
abbrev main_v26 : Ref sig .tc := ⟨.hbm, 50, rfl⟩
abbrev main_v27 : Ref sig .tc := ⟨.hbm, 51, rfl⟩
abbrev main_v28 : Ref sig .tc := ⟨.hbm, 52, rfl⟩
abbrev main_v29 : Ref sig .tc := ⟨.hbm, 53, rfl⟩
abbrev main_v30 : Ref sig .tc := ⟨.hbm, 54, rfl⟩
abbrev main_v31 : Ref sig .tc := ⟨.hbm, 55, rfl⟩
abbrev main_v32 : Ref sig .tc := ⟨.hbm, 56, rfl⟩
abbrev main_v33 : Ref sig .tc := ⟨.hbm, 57, rfl⟩
abbrev main_v34 : Ref sig .tc := ⟨.hbm, 58, rfl⟩
abbrev main_v35 : Ref sig .tc := ⟨.hbm, 59, rfl⟩
abbrev main_v36 : Ref sig .tc := ⟨.hbm, 60, rfl⟩
abbrev main_v37 : Ref sig .tc := ⟨.hbm, 61, rfl⟩
abbrev main_v38 : Ref sig .tc := ⟨.hbm, 62, rfl⟩
abbrev main_v39_0 : Ref sig .tc := ⟨.hbm, 63, rfl⟩
abbrev main_v39_1 : Ref sig .tc := ⟨.hbm, 64, rfl⟩
abbrev main_v39_2 : Ref sig .tc := ⟨.hbm, 65, rfl⟩
abbrev main_cst_4 : Ref sig .tc := ⟨.hbm, 66, rfl⟩
abbrev main_v40 : Ref sig .tc := ⟨.hbm, 67, rfl⟩
abbrev main_v41 : Ref sig .tc := ⟨.hbm, 68, rfl⟩
abbrev main_cst_5 : Ref sig .tc := ⟨.hbm, 69, rfl⟩
abbrev main_v42 : Ref sig .tc := ⟨.hbm, 70, rfl⟩
abbrev main_v43 : Ref sig .tc := ⟨.hbm, 71, rfl⟩
abbrev main_v44 : Ref sig .tc := ⟨.hbm, 72, rfl⟩
abbrev main_v45 : Ref sig .tc := ⟨.hbm, 73, rfl⟩
abbrev main_v46 : Ref sig .tc := ⟨.hbm, 74, rfl⟩
abbrev main_v47 : Ref sig .tc := ⟨.hbm, 75, rfl⟩
abbrev main_v48 : Ref sig .tc := ⟨.hbm, 76, rfl⟩
abbrev main_v49 : Ref sig .tc := ⟨.hbm, 77, rfl⟩
abbrev main_v50 : Ref sig .tc := ⟨.hbm, 78, rfl⟩
abbrev main_v51 : Ref sig .tc := ⟨.hbm, 79, rfl⟩
abbrev main_v52_0 : Ref sig .tc := ⟨.hbm, 80, rfl⟩
abbrev main_v52_1 : Ref sig .tc := ⟨.hbm, 81, rfl⟩
abbrev main_v52_2 : Ref sig .tc := ⟨.hbm, 82, rfl⟩
abbrev main_cst_6 : Ref sig .tc := ⟨.hbm, 83, rfl⟩
abbrev main_v53 : Ref sig .tc := ⟨.hbm, 84, rfl⟩
abbrev main_v54 : Ref sig .tc := ⟨.hbm, 85, rfl⟩
abbrev main_cst_7 : Ref sig .tc := ⟨.hbm, 86, rfl⟩
abbrev main_v55 : Ref sig .tc := ⟨.hbm, 87, rfl⟩
abbrev main_v56 : Ref sig .tc := ⟨.hbm, 88, rfl⟩
abbrev main_v57 : Ref sig .tc := ⟨.hbm, 89, rfl⟩
abbrev main_v58 : Ref sig .tc := ⟨.hbm, 90, rfl⟩
abbrev main_v59 : Ref sig .tc := ⟨.hbm, 91, rfl⟩
abbrev main_v60 : Ref sig .tc := ⟨.hbm, 92, rfl⟩
abbrev main_v61 : Ref sig .tc := ⟨.hbm, 93, rfl⟩
abbrev main_v62 : Ref sig .tc := ⟨.hbm, 94, rfl⟩
abbrev main_v63 : Ref sig .tc := ⟨.hbm, 95, rfl⟩
abbrev main_v64 : Ref sig .tc := ⟨.hbm, 96, rfl⟩
abbrev main_v65 : Ref sig .tc := ⟨.hbm, 97, rfl⟩
abbrev main_c_8 : Ref sig .tc := ⟨.hbm, 98, rfl⟩
abbrev main_v66 : Ref sig .tc := ⟨.hbm, 99, rfl⟩
abbrev main_v67 : Ref sig .tc := ⟨.hbm, 100, rfl⟩
abbrev main_c_9 : Ref sig .tc := ⟨.hbm, 101, rfl⟩
abbrev main_v68 : Ref sig .tc := ⟨.hbm, 102, rfl⟩
abbrev main_v69 : Ref sig .tc := ⟨.hbm, 103, rfl⟩
abbrev main_v70 : Ref sig .tc := ⟨.hbm, 104, rfl⟩
abbrev main_v71 : Ref sig .tc := ⟨.hbm, 105, rfl⟩
abbrev main_v72 : Ref sig .tc := ⟨.hbm, 106, rfl⟩
abbrev main_cst_10 : Ref sig .tc := ⟨.hbm, 107, rfl⟩
abbrev main_v73 : Ref sig .tc := ⟨.hbm, 108, rfl⟩
abbrev main_v74 : Ref sig .tc := ⟨.hbm, 109, rfl⟩
abbrev main_v75 : Ref sig .tc := ⟨.hbm, 110, rfl⟩
abbrev main_v76 : Ref sig .tc := ⟨.hbm, 111, rfl⟩
abbrev main_v77 : Ref sig .tc := ⟨.hbm, 112, rfl⟩
abbrev main_cst_11 : Ref sig .tc := ⟨.hbm, 113, rfl⟩
abbrev main_v78 : Ref sig .tc := ⟨.hbm, 114, rfl⟩
abbrev main_v79 : Ref sig .tc := ⟨.hbm, 115, rfl⟩
abbrev main_v80 : Ref sig .tc := ⟨.hbm, 116, rfl⟩
abbrev main_v81 : Ref sig .tc := ⟨.hbm, 117, rfl⟩
abbrev main_v82 : Ref sig .tc := ⟨.hbm, 118, rfl⟩
abbrev main_v83 : Ref sig .tc := ⟨.hbm, 119, rfl⟩
abbrev main_v84 : Ref sig .tc := ⟨.hbm, 120, rfl⟩
abbrev main_v85_0 : Ref sig .tc := ⟨.hbm, 121, rfl⟩
abbrev main_v85_1 : Ref sig .tc := ⟨.hbm, 122, rfl⟩
abbrev main_v85_2 : Ref sig .tc := ⟨.hbm, 123, rfl⟩
abbrev main_cst_12 : Ref sig .tc := ⟨.hbm, 124, rfl⟩
abbrev main_v86 : Ref sig .tc := ⟨.hbm, 125, rfl⟩
abbrev main_v87 : Ref sig .tc := ⟨.hbm, 126, rfl⟩
abbrev main_cst_13 : Ref sig .tc := ⟨.hbm, 127, rfl⟩
abbrev main_v88 : Ref sig .tc := ⟨.hbm, 128, rfl⟩
abbrev main_v89 : Ref sig .tc := ⟨.hbm, 129, rfl⟩
abbrev main_v90 : Ref sig .tc := ⟨.hbm, 130, rfl⟩
abbrev main_v91 : Ref sig .tc := ⟨.hbm, 131, rfl⟩
abbrev main_v92 : Ref sig .tc := ⟨.hbm, 132, rfl⟩
abbrev main_v93 : Ref sig .tc := ⟨.hbm, 133, rfl⟩
abbrev main_v94 : Ref sig .tc := ⟨.hbm, 134, rfl⟩
abbrev main_v95 : Ref sig .tc := ⟨.hbm, 135, rfl⟩
abbrev main_v96 : Ref sig .tc := ⟨.hbm, 136, rfl⟩
abbrev main_v97 : Ref sig .tc := ⟨.hbm, 137, rfl⟩
abbrev main_v98 : Ref sig .tc := ⟨.hbm, 138, rfl⟩
abbrev main_v99 : Ref sig .tc := ⟨.hbm, 139, rfl⟩
abbrev main_v100 : Ref sig .tc := ⟨.hbm, 140, rfl⟩
abbrev main_v101 : Ref sig .tc := ⟨.hbm, 141, rfl⟩
abbrev main_v102 : Ref sig .tc := ⟨.hbm, 142, rfl⟩
abbrev main_v103_0 : Ref sig .tc := ⟨.hbm, 143, rfl⟩
abbrev main_v103_1 : Ref sig .tc := ⟨.hbm, 144, rfl⟩
abbrev main_v103_2 : Ref sig .tc := ⟨.hbm, 145, rfl⟩
abbrev main_cst_14 : Ref sig .tc := ⟨.hbm, 146, rfl⟩
abbrev main_v104 : Ref sig .tc := ⟨.hbm, 147, rfl⟩
abbrev main_v105 : Ref sig .tc := ⟨.hbm, 148, rfl⟩
abbrev main_cst_15 : Ref sig .tc := ⟨.hbm, 149, rfl⟩
abbrev main_v106 : Ref sig .tc := ⟨.hbm, 150, rfl⟩
abbrev main_v107 : Ref sig .tc := ⟨.hbm, 151, rfl⟩
abbrev main_v108 : Ref sig .tc := ⟨.hbm, 152, rfl⟩
abbrev main_v109 : Ref sig .tc := ⟨.hbm, 153, rfl⟩
abbrev main_v110 : Ref sig .tc := ⟨.hbm, 154, rfl⟩
abbrev main_v111 : Ref sig .tc := ⟨.hbm, 155, rfl⟩
abbrev main_v112 : Ref sig .tc := ⟨.hbm, 156, rfl⟩
abbrev main_v113 : Ref sig .tc := ⟨.hbm, 157, rfl⟩
abbrev main_v114 : Ref sig .tc := ⟨.hbm, 158, rfl⟩
abbrev main_v115 : Ref sig .tc := ⟨.hbm, 159, rfl⟩
abbrev main_v116_0 : Ref sig .tc := ⟨.hbm, 160, rfl⟩
abbrev main_v116_1 : Ref sig .tc := ⟨.hbm, 161, rfl⟩
abbrev main_v116_2 : Ref sig .tc := ⟨.hbm, 162, rfl⟩
abbrev main_cst_16 : Ref sig .tc := ⟨.hbm, 163, rfl⟩
abbrev main_v117 : Ref sig .tc := ⟨.hbm, 164, rfl⟩
abbrev main_v118 : Ref sig .tc := ⟨.hbm, 165, rfl⟩
abbrev main_cst_17 : Ref sig .tc := ⟨.hbm, 166, rfl⟩
abbrev main_v119 : Ref sig .tc := ⟨.hbm, 167, rfl⟩
abbrev main_v120 : Ref sig .tc := ⟨.hbm, 168, rfl⟩
abbrev main_v121 : Ref sig .tc := ⟨.hbm, 169, rfl⟩
abbrev main_v122 : Ref sig .tc := ⟨.hbm, 170, rfl⟩
abbrev main_v123 : Ref sig .tc := ⟨.hbm, 171, rfl⟩
abbrev main_v124 : Ref sig .tc := ⟨.hbm, 172, rfl⟩
abbrev main_v125 : Ref sig .tc := ⟨.hbm, 173, rfl⟩
abbrev main_v126 : Ref sig .tc := ⟨.hbm, 174, rfl⟩
abbrev main_v127 : Ref sig .tc := ⟨.hbm, 175, rfl⟩
abbrev main_v128 : Ref sig .tc := ⟨.hbm, 176, rfl⟩
abbrev main_v129 : Ref sig .tc := ⟨.hbm, 177, rfl⟩
abbrev main_c_18 : Ref sig .tc := ⟨.hbm, 178, rfl⟩
abbrev main_v130 : Ref sig .tc := ⟨.hbm, 179, rfl⟩
abbrev main_v131 : Ref sig .tc := ⟨.hbm, 180, rfl⟩
abbrev main_c_19 : Ref sig .tc := ⟨.hbm, 181, rfl⟩
abbrev main_v132 : Ref sig .tc := ⟨.hbm, 182, rfl⟩
abbrev main_v133 : Ref sig .tc := ⟨.hbm, 183, rfl⟩
abbrev main_v134 : Ref sig .tc := ⟨.hbm, 184, rfl⟩
abbrev main_v135 : Ref sig .tc := ⟨.hbm, 185, rfl⟩
abbrev main_v136 : Ref sig .tc := ⟨.hbm, 186, rfl⟩
abbrev main_cst_20 : Ref sig .tc := ⟨.hbm, 187, rfl⟩
abbrev main_v137 : Ref sig .tc := ⟨.hbm, 188, rfl⟩
abbrev main_v138 : Ref sig .tc := ⟨.hbm, 189, rfl⟩
abbrev main_v139 : Ref sig .tc := ⟨.hbm, 190, rfl⟩
abbrev main_v140 : Ref sig .tc := ⟨.hbm, 191, rfl⟩
abbrev main_v141 : Ref sig .tc := ⟨.hbm, 192, rfl⟩
abbrev main_cst_21 : Ref sig .tc := ⟨.hbm, 193, rfl⟩
abbrev main_v142 : Ref sig .tc := ⟨.hbm, 194, rfl⟩
abbrev main_v143 : Ref sig .tc := ⟨.hbm, 195, rfl⟩
abbrev main_v144 : Ref sig .tc := ⟨.hbm, 196, rfl⟩
abbrev main_v145 : Ref sig .tc := ⟨.hbm, 197, rfl⟩
abbrev main_v146 : Ref sig .tc := ⟨.hbm, 198, rfl⟩
abbrev main_v147 : Ref sig .tc := ⟨.hbm, 199, rfl⟩
abbrev main_v148 : Ref sig .tc := ⟨.hbm, 200, rfl⟩
abbrev main_v149_0 : Ref sig .tc := ⟨.hbm, 201, rfl⟩
abbrev main_v149_1 : Ref sig .tc := ⟨.hbm, 202, rfl⟩
abbrev main_v149_2 : Ref sig .tc := ⟨.hbm, 203, rfl⟩
abbrev main_cst_22 : Ref sig .tc := ⟨.hbm, 204, rfl⟩
abbrev main_v150 : Ref sig .tc := ⟨.hbm, 205, rfl⟩
abbrev main_v151 : Ref sig .tc := ⟨.hbm, 206, rfl⟩
abbrev main_cst_23 : Ref sig .tc := ⟨.hbm, 207, rfl⟩
abbrev main_v152 : Ref sig .tc := ⟨.hbm, 208, rfl⟩
abbrev main_v153 : Ref sig .tc := ⟨.hbm, 209, rfl⟩
abbrev main_v154 : Ref sig .tc := ⟨.hbm, 210, rfl⟩
abbrev main_v155 : Ref sig .tc := ⟨.hbm, 211, rfl⟩
abbrev main_v156 : Ref sig .tc := ⟨.hbm, 212, rfl⟩
abbrev main_v157 : Ref sig .tc := ⟨.hbm, 213, rfl⟩
abbrev main_v158 : Ref sig .tc := ⟨.hbm, 214, rfl⟩
abbrev main_v159 : Ref sig .tc := ⟨.hbm, 215, rfl⟩
abbrev main_v160 : Ref sig .tc := ⟨.hbm, 216, rfl⟩
abbrev main_v161 : Ref sig .tc := ⟨.hbm, 217, rfl⟩
abbrev main_v162 : Ref sig .tc := ⟨.hbm, 218, rfl⟩
abbrev main_v163 : Ref sig .tc := ⟨.hbm, 219, rfl⟩
abbrev main_v164 : Ref sig .tc := ⟨.hbm, 220, rfl⟩
abbrev main_v165 : Ref sig .tc := ⟨.hbm, 221, rfl⟩
abbrev main_v166 : Ref sig .tc := ⟨.hbm, 222, rfl⟩
abbrev main_v167_0 : Ref sig .tc := ⟨.hbm, 223, rfl⟩
abbrev main_v167_1 : Ref sig .tc := ⟨.hbm, 224, rfl⟩
abbrev main_v167_2 : Ref sig .tc := ⟨.hbm, 225, rfl⟩
abbrev main_cst_24 : Ref sig .tc := ⟨.hbm, 226, rfl⟩
abbrev main_v168 : Ref sig .tc := ⟨.hbm, 227, rfl⟩
abbrev main_v169 : Ref sig .tc := ⟨.hbm, 228, rfl⟩
abbrev main_cst_25 : Ref sig .tc := ⟨.hbm, 229, rfl⟩
abbrev main_v170 : Ref sig .tc := ⟨.hbm, 230, rfl⟩
abbrev main_v171 : Ref sig .tc := ⟨.hbm, 231, rfl⟩
abbrev main_v172 : Ref sig .tc := ⟨.hbm, 232, rfl⟩
abbrev main_v173 : Ref sig .tc := ⟨.hbm, 233, rfl⟩
abbrev main_v174 : Ref sig .tc := ⟨.hbm, 234, rfl⟩
abbrev main_v175 : Ref sig .tc := ⟨.hbm, 235, rfl⟩
abbrev main_v176 : Ref sig .tc := ⟨.hbm, 236, rfl⟩
abbrev main_v177 : Ref sig .tc := ⟨.hbm, 237, rfl⟩
abbrev main_v178 : Ref sig .tc := ⟨.hbm, 238, rfl⟩
abbrev main_v179 : Ref sig .tc := ⟨.hbm, 239, rfl⟩
abbrev main_v180_0 : Ref sig .tc := ⟨.hbm, 240, rfl⟩
abbrev main_v180_1 : Ref sig .tc := ⟨.hbm, 241, rfl⟩
abbrev main_v180_2 : Ref sig .tc := ⟨.hbm, 242, rfl⟩
abbrev main_cst_26 : Ref sig .tc := ⟨.hbm, 243, rfl⟩
abbrev main_v181 : Ref sig .tc := ⟨.hbm, 244, rfl⟩
abbrev main_v182 : Ref sig .tc := ⟨.hbm, 245, rfl⟩
abbrev main_cst_27 : Ref sig .tc := ⟨.hbm, 246, rfl⟩
abbrev main_v183 : Ref sig .tc := ⟨.hbm, 247, rfl⟩
abbrev main_v184 : Ref sig .tc := ⟨.hbm, 248, rfl⟩
abbrev main_v185 : Ref sig .tc := ⟨.hbm, 249, rfl⟩
abbrev main_v186 : Ref sig .tc := ⟨.hbm, 250, rfl⟩
abbrev main_v187 : Ref sig .tc := ⟨.hbm, 251, rfl⟩
abbrev main_v188 : Ref sig .tc := ⟨.hbm, 252, rfl⟩
abbrev main_v189 : Ref sig .tc := ⟨.hbm, 253, rfl⟩
abbrev main_v190 : Ref sig .tc := ⟨.hbm, 254, rfl⟩
abbrev main_v191 : Ref sig .tc := ⟨.hbm, 255, rfl⟩
abbrev main_v192 : Ref sig .tc := ⟨.hbm, 256, rfl⟩
abbrev main_v193 : Ref sig .tc := ⟨.hbm, 257, rfl⟩
abbrev main_c_28 : Ref sig .tc := ⟨.hbm, 258, rfl⟩
abbrev main_v194 : Ref sig .tc := ⟨.hbm, 259, rfl⟩
abbrev main_v195 : Ref sig .tc := ⟨.hbm, 260, rfl⟩
abbrev main_c_29 : Ref sig .tc := ⟨.hbm, 261, rfl⟩
abbrev main_v196 : Ref sig .tc := ⟨.hbm, 262, rfl⟩
abbrev main_v197 : Ref sig .tc := ⟨.hbm, 263, rfl⟩
abbrev main_v198 : Ref sig .tc := ⟨.hbm, 264, rfl⟩
abbrev main_v199 : Ref sig .tc := ⟨.hbm, 265, rfl⟩
abbrev main_v200 : Ref sig .tc := ⟨.hbm, 266, rfl⟩
abbrev main_cst_30 : Ref sig .tc := ⟨.hbm, 267, rfl⟩
abbrev main_v201 : Ref sig .tc := ⟨.hbm, 268, rfl⟩
abbrev main_v202 : Ref sig .tc := ⟨.hbm, 269, rfl⟩
abbrev main_v203 : Ref sig .tc := ⟨.hbm, 270, rfl⟩
abbrev main_v204 : Ref sig .tc := ⟨.hbm, 271, rfl⟩
abbrev main_v205 : Ref sig .tc := ⟨.hbm, 272, rfl⟩
abbrev main_cst_31 : Ref sig .tc := ⟨.hbm, 273, rfl⟩
abbrev main_v206 : Ref sig .tc := ⟨.hbm, 274, rfl⟩
abbrev main_v207 : Ref sig .tc := ⟨.hbm, 275, rfl⟩
abbrev main_v208 : Ref sig .tc := ⟨.hbm, 276, rfl⟩
abbrev main_v209 : Ref sig .tc := ⟨.hbm, 277, rfl⟩
abbrev main_v210 : Ref sig .tc := ⟨.hbm, 278, rfl⟩
abbrev main_v211 : Ref sig .tc := ⟨.hbm, 279, rfl⟩
abbrev main_v212 : Ref sig .tc := ⟨.hbm, 280, rfl⟩
abbrev main_v213_0 : Ref sig .tc := ⟨.hbm, 281, rfl⟩
abbrev main_v213_1 : Ref sig .tc := ⟨.hbm, 282, rfl⟩
abbrev main_v213_2 : Ref sig .tc := ⟨.hbm, 283, rfl⟩
abbrev main_cst_32 : Ref sig .tc := ⟨.hbm, 284, rfl⟩
abbrev main_v214 : Ref sig .tc := ⟨.hbm, 285, rfl⟩
abbrev main_v215 : Ref sig .tc := ⟨.hbm, 286, rfl⟩
abbrev main_cst_33 : Ref sig .tc := ⟨.hbm, 287, rfl⟩
abbrev main_v216 : Ref sig .tc := ⟨.hbm, 288, rfl⟩
abbrev main_v217 : Ref sig .tc := ⟨.hbm, 289, rfl⟩
abbrev main_v218 : Ref sig .tc := ⟨.hbm, 290, rfl⟩
abbrev main_v219 : Ref sig .tc := ⟨.hbm, 291, rfl⟩
abbrev main_v220 : Ref sig .tc := ⟨.hbm, 292, rfl⟩
abbrev main_v221 : Ref sig .tc := ⟨.hbm, 293, rfl⟩
abbrev main_v222 : Ref sig .tc := ⟨.hbm, 294, rfl⟩
abbrev main_v223 : Ref sig .tc := ⟨.hbm, 295, rfl⟩
abbrev main_v224 : Ref sig .tc := ⟨.hbm, 296, rfl⟩
abbrev main_v225 : Ref sig .tc := ⟨.hbm, 297, rfl⟩
abbrev main_v226 : Ref sig .tc := ⟨.hbm, 298, rfl⟩
abbrev main_v227 : Ref sig .tc := ⟨.hbm, 299, rfl⟩
abbrev main_v228 : Ref sig .tc := ⟨.hbm, 300, rfl⟩
abbrev main_v229 : Ref sig .tc := ⟨.hbm, 301, rfl⟩
abbrev main_v230 : Ref sig .tc := ⟨.hbm, 302, rfl⟩
abbrev main_v231_0 : Ref sig .tc := ⟨.hbm, 303, rfl⟩
abbrev main_v231_1 : Ref sig .tc := ⟨.hbm, 304, rfl⟩
abbrev main_v231_2 : Ref sig .tc := ⟨.hbm, 305, rfl⟩
abbrev main_cst_34 : Ref sig .tc := ⟨.hbm, 306, rfl⟩
abbrev main_v232 : Ref sig .tc := ⟨.hbm, 307, rfl⟩
abbrev main_v233 : Ref sig .tc := ⟨.hbm, 308, rfl⟩
abbrev main_cst_35 : Ref sig .tc := ⟨.hbm, 309, rfl⟩
abbrev main_v234 : Ref sig .tc := ⟨.hbm, 310, rfl⟩
abbrev main_v235 : Ref sig .tc := ⟨.hbm, 311, rfl⟩
abbrev main_v236 : Ref sig .tc := ⟨.hbm, 312, rfl⟩
abbrev main_v237 : Ref sig .tc := ⟨.hbm, 313, rfl⟩
abbrev main_v238 : Ref sig .tc := ⟨.hbm, 314, rfl⟩
abbrev main_v239 : Ref sig .tc := ⟨.hbm, 315, rfl⟩
abbrev main_v240 : Ref sig .tc := ⟨.hbm, 316, rfl⟩
abbrev main_v241 : Ref sig .tc := ⟨.hbm, 317, rfl⟩
abbrev main_v242 : Ref sig .tc := ⟨.hbm, 318, rfl⟩
abbrev main_v243 : Ref sig .tc := ⟨.hbm, 319, rfl⟩
abbrev main_v244_0 : Ref sig .tc := ⟨.hbm, 320, rfl⟩
abbrev main_v244_1 : Ref sig .tc := ⟨.hbm, 321, rfl⟩
abbrev main_v244_2 : Ref sig .tc := ⟨.hbm, 322, rfl⟩
abbrev main_cst_36 : Ref sig .tc := ⟨.hbm, 323, rfl⟩
abbrev main_v245 : Ref sig .tc := ⟨.hbm, 324, rfl⟩
abbrev main_v246 : Ref sig .tc := ⟨.hbm, 325, rfl⟩
abbrev main_cst_37 : Ref sig .tc := ⟨.hbm, 326, rfl⟩
abbrev main_v247 : Ref sig .tc := ⟨.hbm, 327, rfl⟩
abbrev main_v248 : Ref sig .tc := ⟨.hbm, 328, rfl⟩
abbrev main_v249 : Ref sig .tc := ⟨.hbm, 329, rfl⟩
abbrev main_v250 : Ref sig .tc := ⟨.hbm, 330, rfl⟩
abbrev main_v251 : Ref sig .tc := ⟨.hbm, 331, rfl⟩
abbrev main_v252 : Ref sig .tc := ⟨.hbm, 332, rfl⟩
abbrev main_v253 : Ref sig .tc := ⟨.hbm, 333, rfl⟩
abbrev main_v254 : Ref sig .tc := ⟨.hbm, 334, rfl⟩
abbrev main_v255 : Ref sig .tc := ⟨.hbm, 335, rfl⟩
abbrev main_v256 : Ref sig .tc := ⟨.hbm, 336, rfl⟩
abbrev main_v257 : Ref sig .tc := ⟨.hbm, 337, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg3_0 : Ref sig .tc := ⟨.vmem, 11, rfl⟩
abbrev cc1_stg4_0 : Ref sig .tc := ⟨.vmem, 12, rfl⟩
abbrev cc1_stg5_0 : Ref sig .tc := ⟨.vmem, 13, rfl⟩
abbrev cc1_stg5_1 : Ref sig .tc := ⟨.vmem, 14, rfl⟩
abbrev cc1_stg6_0 : Ref sig .tc := ⟨.vmem, 15, rfl⟩
abbrev cc1_stg7_0 : Ref sig .tc := ⟨.vmem, 16, rfl⟩
abbrev cc2_stg0_0 : Ref sig .tc := ⟨.vmem, 17, rfl⟩
abbrev cc2_stg0_1 : Ref sig .tc := ⟨.vmem, 18, rfl⟩
abbrev cc2_stg1_0 : Ref sig .tc := ⟨.vmem, 19, rfl⟩
abbrev cc2_stg2_0 : Ref sig .tc := ⟨.vmem, 20, rfl⟩
abbrev cc2_stg3_0 : Ref sig .tc := ⟨.vmem, 21, rfl⟩
abbrev cc2_stg4_0 : Ref sig .tc := ⟨.vmem, 22, rfl⟩
abbrev cc2_stg5_0 : Ref sig .tc := ⟨.vmem, 23, rfl⟩
abbrev cc2_stg6_0 : Ref sig .tc := ⟨.vmem, 24, rfl⟩
abbrev cc2_stg7_0 : Ref sig .tc := ⟨.vmem, 25, rfl⟩
abbrev cc2_stg7_1 : Ref sig .tc := ⟨.vmem, 26, rfl⟩
abbrev cc2_stg8_0 : Ref sig .tc := ⟨.vmem, 27, rfl⟩
abbrev cc2_stg9_0 : Ref sig .tc := ⟨.vmem, 28, rfl⟩
abbrev cc3_stg0_0 : Ref sig .tc := ⟨.vmem, 29, rfl⟩
abbrev cc3_stg0_1 : Ref sig .tc := ⟨.vmem, 30, rfl⟩
abbrev cc3_stg1_0 : Ref sig .tc := ⟨.vmem, 31, rfl⟩
abbrev cc3_stg2_0 : Ref sig .tc := ⟨.vmem, 32, rfl⟩
abbrev cc3_stg3_0 : Ref sig .tc := ⟨.vmem, 33, rfl⟩
abbrev cc3_stg4_0 : Ref sig .tc := ⟨.vmem, 34, rfl⟩
abbrev cc3_stg5_0 : Ref sig .tc := ⟨.vmem, 35, rfl⟩
abbrev cc3_stg5_1 : Ref sig .tc := ⟨.vmem, 36, rfl⟩
abbrev cc3_stg6_0 : Ref sig .tc := ⟨.vmem, 37, rfl⟩
abbrev cc3_stg7_0 : Ref sig .tc := ⟨.vmem, 38, rfl⟩
abbrev cc4_stg0_0 : Ref sig .tc := ⟨.vmem, 39, rfl⟩
abbrev cc4_stg0_1 : Ref sig .tc := ⟨.vmem, 40, rfl⟩
abbrev cc4_stg1_0 : Ref sig .tc := ⟨.vmem, 41, rfl⟩
abbrev cc4_stg2_0 : Ref sig .tc := ⟨.vmem, 42, rfl⟩
abbrev cc4_stg3_0 : Ref sig .tc := ⟨.vmem, 43, rfl⟩
abbrev cc4_stg4_0 : Ref sig .tc := ⟨.vmem, 44, rfl⟩
abbrev cc4_stg5_0 : Ref sig .tc := ⟨.vmem, 45, rfl⟩
abbrev cc4_stg5_1 : Ref sig .tc := ⟨.vmem, 46, rfl⟩
abbrev cc4_stg6_0 : Ref sig .tc := ⟨.vmem, 47, rfl⟩
abbrev cc4_stg6_1 : Ref sig .tc := ⟨.vmem, 48, rfl⟩
abbrev cc5_stg0_0 : Ref sig .tc := ⟨.vmem, 49, rfl⟩
abbrev cc5_stg0_1 : Ref sig .tc := ⟨.vmem, 50, rfl⟩
abbrev cc5_stg1_0 : Ref sig .tc := ⟨.vmem, 51, rfl⟩
abbrev cc5_stg1_1 : Ref sig .tc := ⟨.vmem, 52, rfl⟩
abbrev cc5_stg2_0 : Ref sig .tc := ⟨.vmem, 53, rfl⟩
abbrev cc5_stg3_0 : Ref sig .tc := ⟨.vmem, 54, rfl⟩
abbrev cc5_stg4_0 : Ref sig .tc := ⟨.vmem, 55, rfl⟩
abbrev cc5_stg5_0 : Ref sig .tc := ⟨.vmem, 56, rfl⟩
abbrev cc5_stg5_1 : Ref sig .tc := ⟨.vmem, 57, rfl⟩
abbrev cc5_stg6_0 : Ref sig .tc := ⟨.vmem, 58, rfl⟩
abbrev cc5_stg7_0 : Ref sig .tc := ⟨.vmem, 59, rfl⟩
abbrev cc6_stg0_0 : Ref sig .tc := ⟨.vmem, 60, rfl⟩
abbrev cc6_stg0_1 : Ref sig .tc := ⟨.vmem, 61, rfl⟩
abbrev cc6_stg1_0 : Ref sig .tc := ⟨.vmem, 62, rfl⟩
abbrev cc6_stg2_0 : Ref sig .tc := ⟨.vmem, 63, rfl⟩
abbrev cc6_stg3_0 : Ref sig .tc := ⟨.vmem, 64, rfl⟩
abbrev cc6_stg4_0 : Ref sig .tc := ⟨.vmem, 65, rfl⟩
abbrev cc6_stg5_0 : Ref sig .tc := ⟨.vmem, 66, rfl⟩
abbrev cc6_stg6_0 : Ref sig .tc := ⟨.vmem, 67, rfl⟩
abbrev cc6_stg7_0 : Ref sig .tc := ⟨.vmem, 68, rfl⟩
abbrev cc6_stg7_1 : Ref sig .tc := ⟨.vmem, 69, rfl⟩
abbrev cc6_stg8_0 : Ref sig .tc := ⟨.vmem, 70, rfl⟩
abbrev cc6_stg9_0 : Ref sig .tc := ⟨.vmem, 71, rfl⟩
abbrev cc7_stg0_0 : Ref sig .tc := ⟨.vmem, 72, rfl⟩
abbrev cc7_stg0_1 : Ref sig .tc := ⟨.vmem, 73, rfl⟩
abbrev cc7_stg1_0 : Ref sig .tc := ⟨.vmem, 74, rfl⟩
abbrev cc7_stg2_0 : Ref sig .tc := ⟨.vmem, 75, rfl⟩
abbrev cc7_stg3_0 : Ref sig .tc := ⟨.vmem, 76, rfl⟩
abbrev cc7_stg4_0 : Ref sig .tc := ⟨.vmem, 77, rfl⟩
abbrev cc7_stg5_0 : Ref sig .tc := ⟨.vmem, 78, rfl⟩
abbrev cc7_stg5_1 : Ref sig .tc := ⟨.vmem, 79, rfl⟩
abbrev cc7_stg6_0 : Ref sig .tc := ⟨.vmem, 80, rfl⟩
abbrev cc7_stg7_0 : Ref sig .tc := ⟨.vmem, 81, rfl⟩
abbrev cc8_stg0_0 : Ref sig .tc := ⟨.vmem, 82, rfl⟩
abbrev cc8_stg0_1 : Ref sig .tc := ⟨.vmem, 83, rfl⟩
abbrev cc8_stg1_0 : Ref sig .tc := ⟨.vmem, 84, rfl⟩
abbrev cc8_stg2_0 : Ref sig .tc := ⟨.vmem, 85, rfl⟩
abbrev cc8_stg3_0 : Ref sig .tc := ⟨.vmem, 86, rfl⟩
abbrev cc8_stg4_0 : Ref sig .tc := ⟨.vmem, 87, rfl⟩
abbrev cc8_stg5_0 : Ref sig .tc := ⟨.vmem, 88, rfl⟩
abbrev cc8_stg5_1 : Ref sig .tc := ⟨.vmem, 89, rfl⟩
abbrev cc8_stg6_0 : Ref sig .tc := ⟨.vmem, 90, rfl⟩
abbrev cc8_stg6_1 : Ref sig .tc := ⟨.vmem, 91, rfl⟩
abbrev cc9_stg0_0 : Ref sig .tc := ⟨.vmem, 92, rfl⟩
abbrev cc9_stg0_1 : Ref sig .tc := ⟨.vmem, 93, rfl⟩
abbrev cc9_stg1_0 : Ref sig .tc := ⟨.vmem, 94, rfl⟩
abbrev cc9_stg1_1 : Ref sig .tc := ⟨.vmem, 95, rfl⟩
abbrev cc9_stg2_0 : Ref sig .tc := ⟨.vmem, 96, rfl⟩
abbrev cc9_stg3_0 : Ref sig .tc := ⟨.vmem, 97, rfl⟩
abbrev cc9_stg4_0 : Ref sig .tc := ⟨.vmem, 98, rfl⟩
abbrev cc9_stg5_0 : Ref sig .tc := ⟨.vmem, 99, rfl⟩
abbrev cc9_stg5_1 : Ref sig .tc := ⟨.vmem, 100, rfl⟩
abbrev cc9_stg6_0 : Ref sig .tc := ⟨.vmem, 101, rfl⟩
abbrev cc9_stg7_0 : Ref sig .tc := ⟨.vmem, 102, rfl⟩
abbrev cc10_stg0_0 : Ref sig .tc := ⟨.vmem, 103, rfl⟩
abbrev cc10_stg0_1 : Ref sig .tc := ⟨.vmem, 104, rfl⟩
abbrev cc10_stg1_0 : Ref sig .tc := ⟨.vmem, 105, rfl⟩
abbrev cc10_stg2_0 : Ref sig .tc := ⟨.vmem, 106, rfl⟩
abbrev cc10_stg3_0 : Ref sig .tc := ⟨.vmem, 107, rfl⟩
abbrev cc10_stg4_0 : Ref sig .tc := ⟨.vmem, 108, rfl⟩
abbrev cc10_stg5_0 : Ref sig .tc := ⟨.vmem, 109, rfl⟩
abbrev cc10_stg6_0 : Ref sig .tc := ⟨.vmem, 110, rfl⟩
abbrev cc10_stg7_0 : Ref sig .tc := ⟨.vmem, 111, rfl⟩
abbrev cc10_stg7_1 : Ref sig .tc := ⟨.vmem, 112, rfl⟩
abbrev cc10_stg8_0 : Ref sig .tc := ⟨.vmem, 113, rfl⟩
abbrev cc10_stg9_0 : Ref sig .tc := ⟨.vmem, 114, rfl⟩
abbrev cc11_stg0_0 : Ref sig .tc := ⟨.vmem, 115, rfl⟩
abbrev cc11_stg0_1 : Ref sig .tc := ⟨.vmem, 116, rfl⟩
abbrev cc11_stg1_0 : Ref sig .tc := ⟨.vmem, 117, rfl⟩
abbrev cc11_stg2_0 : Ref sig .tc := ⟨.vmem, 118, rfl⟩
abbrev cc11_stg3_0 : Ref sig .tc := ⟨.vmem, 119, rfl⟩
abbrev cc11_stg4_0 : Ref sig .tc := ⟨.vmem, 120, rfl⟩
abbrev cc11_stg5_0 : Ref sig .tc := ⟨.vmem, 121, rfl⟩
abbrev cc11_stg5_1 : Ref sig .tc := ⟨.vmem, 122, rfl⟩
abbrev cc11_stg6_0 : Ref sig .tc := ⟨.vmem, 123, rfl⟩
abbrev cc11_stg7_0 : Ref sig .tc := ⟨.vmem, 124, rfl⟩
abbrev cc12_stg0_0 : Ref sig .tc := ⟨.vmem, 125, rfl⟩
abbrev cc12_stg0_1 : Ref sig .tc := ⟨.vmem, 126, rfl⟩
abbrev cc12_stg1_0 : Ref sig .tc := ⟨.vmem, 127, rfl⟩
abbrev cc12_stg2_0 : Ref sig .tc := ⟨.vmem, 128, rfl⟩
abbrev cc12_stg3_0 : Ref sig .tc := ⟨.vmem, 129, rfl⟩
abbrev cc12_stg4_0 : Ref sig .tc := ⟨.vmem, 130, rfl⟩
abbrev cc12_stg5_0 : Ref sig .tc := ⟨.vmem, 131, rfl⟩
abbrev cc12_stg5_1 : Ref sig .tc := ⟨.vmem, 132, rfl⟩
abbrev cc12_stg6_0 : Ref sig .tc := ⟨.vmem, 133, rfl⟩
abbrev cc12_stg6_1 : Ref sig .tc := ⟨.vmem, 134, rfl⟩
abbrev cc13_stg0_0 : Ref sig .tc := ⟨.vmem, 135, rfl⟩
abbrev cc13_stg0_1 : Ref sig .tc := ⟨.vmem, 136, rfl⟩
abbrev cc13_stg1_0 : Ref sig .tc := ⟨.vmem, 137, rfl⟩
abbrev cc13_stg1_1 : Ref sig .tc := ⟨.vmem, 138, rfl⟩
abbrev cc13_stg2_0 : Ref sig .tc := ⟨.vmem, 139, rfl⟩
abbrev cc13_stg3_0 : Ref sig .tc := ⟨.vmem, 140, rfl⟩
abbrev cc13_stg4_0 : Ref sig .tc := ⟨.vmem, 141, rfl⟩
abbrev cc13_stg5_0 : Ref sig .tc := ⟨.vmem, 142, rfl⟩
abbrev cc13_stg5_1 : Ref sig .tc := ⟨.vmem, 143, rfl⟩
abbrev cc13_stg6_0 : Ref sig .tc := ⟨.vmem, 144, rfl⟩
abbrev cc13_stg7_0 : Ref sig .tc := ⟨.vmem, 145, rfl⟩
abbrev cc14_stg0_0 : Ref sig .tc := ⟨.vmem, 146, rfl⟩
abbrev cc14_stg0_1 : Ref sig .tc := ⟨.vmem, 147, rfl⟩
abbrev cc14_stg1_0 : Ref sig .tc := ⟨.vmem, 148, rfl⟩
abbrev cc14_stg2_0 : Ref sig .tc := ⟨.vmem, 149, rfl⟩
abbrev cc14_stg3_0 : Ref sig .tc := ⟨.vmem, 150, rfl⟩
abbrev cc14_stg4_0 : Ref sig .tc := ⟨.vmem, 151, rfl⟩
abbrev cc14_stg5_0 : Ref sig .tc := ⟨.vmem, 152, rfl⟩
abbrev cc14_stg6_0 : Ref sig .tc := ⟨.vmem, 153, rfl⟩
abbrev cc14_stg7_0 : Ref sig .tc := ⟨.vmem, 154, rfl⟩
abbrev cc14_stg7_1 : Ref sig .tc := ⟨.vmem, 155, rfl⟩
abbrev cc14_stg8_0 : Ref sig .tc := ⟨.vmem, 156, rfl⟩
abbrev cc14_stg9_0 : Ref sig .tc := ⟨.vmem, 157, rfl⟩
abbrev cc15_stg0_0 : Ref sig .tc := ⟨.vmem, 158, rfl⟩
abbrev cc15_stg0_1 : Ref sig .tc := ⟨.vmem, 159, rfl⟩
abbrev cc15_stg1_0 : Ref sig .tc := ⟨.vmem, 160, rfl⟩
abbrev cc15_stg2_0 : Ref sig .tc := ⟨.vmem, 161, rfl⟩
abbrev cc15_stg3_0 : Ref sig .tc := ⟨.vmem, 162, rfl⟩
abbrev cc15_stg4_0 : Ref sig .tc := ⟨.vmem, 163, rfl⟩
abbrev cc15_stg5_0 : Ref sig .tc := ⟨.vmem, 164, rfl⟩
abbrev cc15_stg5_1 : Ref sig .tc := ⟨.vmem, 165, rfl⟩
abbrev cc15_stg6_0 : Ref sig .tc := ⟨.vmem, 166, rfl⟩
abbrev cc15_stg7_0 : Ref sig .tc := ⟨.vmem, 167, rfl⟩
abbrev cc16_stg0_0 : Ref sig .tc := ⟨.vmem, 168, rfl⟩
abbrev cc16_stg0_1 : Ref sig .tc := ⟨.vmem, 169, rfl⟩
abbrev cc16_stg1_0 : Ref sig .tc := ⟨.vmem, 170, rfl⟩
abbrev cc16_stg2_0 : Ref sig .tc := ⟨.vmem, 171, rfl⟩
abbrev cc16_stg3_0 : Ref sig .tc := ⟨.vmem, 172, rfl⟩
abbrev cc16_stg4_0 : Ref sig .tc := ⟨.vmem, 173, rfl⟩
abbrev cc16_stg5_0 : Ref sig .tc := ⟨.vmem, 174, rfl⟩
abbrev cc16_stg5_1 : Ref sig .tc := ⟨.vmem, 175, rfl⟩
abbrev cc16_stg6_0 : Ref sig .tc := ⟨.vmem, 176, rfl⟩
abbrev cc16_stg6_1 : Ref sig .tc := ⟨.vmem, 177, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem3_0 : DmaSem sig := 11
abbrev cc1_sem4_0 : DmaSem sig := 12
abbrev cc1_sem5_0 : DmaSem sig := 13
abbrev cc1_sem5_1 : DmaSem sig := 14
abbrev cc1_sem6_0 : DmaSem sig := 15
abbrev cc1_sem7_0 : DmaSem sig := 16
abbrev cc2_sem0_0 : DmaSem sig := 17
abbrev cc2_sem0_1 : DmaSem sig := 18
abbrev cc2_sem1_0 : DmaSem sig := 19
abbrev cc2_sem2_0 : DmaSem sig := 20
abbrev cc2_sem3_0 : DmaSem sig := 21
abbrev cc2_sem4_0 : DmaSem sig := 22
abbrev cc2_sem5_0 : DmaSem sig := 23
abbrev cc2_sem6_0 : DmaSem sig := 24
abbrev cc2_sem7_0 : DmaSem sig := 25
abbrev cc2_sem7_1 : DmaSem sig := 26
abbrev cc2_sem8_0 : DmaSem sig := 27
abbrev cc2_sem9_0 : DmaSem sig := 28
abbrev cc3_sem0_0 : DmaSem sig := 29
abbrev cc3_sem0_1 : DmaSem sig := 30
abbrev cc3_sem1_0 : DmaSem sig := 31
abbrev cc3_sem2_0 : DmaSem sig := 32
abbrev cc3_sem3_0 : DmaSem sig := 33
abbrev cc3_sem4_0 : DmaSem sig := 34
abbrev cc3_sem5_0 : DmaSem sig := 35
abbrev cc3_sem5_1 : DmaSem sig := 36
abbrev cc3_sem6_0 : DmaSem sig := 37
abbrev cc3_sem7_0 : DmaSem sig := 38
abbrev cc4_sem0_0 : DmaSem sig := 39
abbrev cc4_sem0_1 : DmaSem sig := 40
abbrev cc4_sem1_0 : DmaSem sig := 41
abbrev cc4_sem2_0 : DmaSem sig := 42
abbrev cc4_sem3_0 : DmaSem sig := 43
abbrev cc4_sem4_0 : DmaSem sig := 44
abbrev cc4_sem5_0 : DmaSem sig := 45
abbrev cc4_sem5_1 : DmaSem sig := 46
abbrev cc4_sem6_0 : DmaSem sig := 47
abbrev cc4_sem6_1 : DmaSem sig := 48
abbrev cc5_sem0_0 : DmaSem sig := 49
abbrev cc5_sem0_1 : DmaSem sig := 50
abbrev cc5_sem1_0 : DmaSem sig := 51
abbrev cc5_sem1_1 : DmaSem sig := 52
abbrev cc5_sem2_0 : DmaSem sig := 53
abbrev cc5_sem3_0 : DmaSem sig := 54
abbrev cc5_sem4_0 : DmaSem sig := 55
abbrev cc5_sem5_0 : DmaSem sig := 56
abbrev cc5_sem5_1 : DmaSem sig := 57
abbrev cc5_sem6_0 : DmaSem sig := 58
abbrev cc5_sem7_0 : DmaSem sig := 59
abbrev cc6_sem0_0 : DmaSem sig := 60
abbrev cc6_sem0_1 : DmaSem sig := 61
abbrev cc6_sem1_0 : DmaSem sig := 62
abbrev cc6_sem2_0 : DmaSem sig := 63
abbrev cc6_sem3_0 : DmaSem sig := 64
abbrev cc6_sem4_0 : DmaSem sig := 65
abbrev cc6_sem5_0 : DmaSem sig := 66
abbrev cc6_sem6_0 : DmaSem sig := 67
abbrev cc6_sem7_0 : DmaSem sig := 68
abbrev cc6_sem7_1 : DmaSem sig := 69
abbrev cc6_sem8_0 : DmaSem sig := 70
abbrev cc6_sem9_0 : DmaSem sig := 71
abbrev cc7_sem0_0 : DmaSem sig := 72
abbrev cc7_sem0_1 : DmaSem sig := 73
abbrev cc7_sem1_0 : DmaSem sig := 74
abbrev cc7_sem2_0 : DmaSem sig := 75
abbrev cc7_sem3_0 : DmaSem sig := 76
abbrev cc7_sem4_0 : DmaSem sig := 77
abbrev cc7_sem5_0 : DmaSem sig := 78
abbrev cc7_sem5_1 : DmaSem sig := 79
abbrev cc7_sem6_0 : DmaSem sig := 80
abbrev cc7_sem7_0 : DmaSem sig := 81
abbrev cc8_sem0_0 : DmaSem sig := 82
abbrev cc8_sem0_1 : DmaSem sig := 83
abbrev cc8_sem1_0 : DmaSem sig := 84
abbrev cc8_sem2_0 : DmaSem sig := 85
abbrev cc8_sem3_0 : DmaSem sig := 86
abbrev cc8_sem4_0 : DmaSem sig := 87
abbrev cc8_sem5_0 : DmaSem sig := 88
abbrev cc8_sem5_1 : DmaSem sig := 89
abbrev cc8_sem6_0 : DmaSem sig := 90
abbrev cc8_sem6_1 : DmaSem sig := 91
abbrev cc9_sem0_0 : DmaSem sig := 92
abbrev cc9_sem0_1 : DmaSem sig := 93
abbrev cc9_sem1_0 : DmaSem sig := 94
abbrev cc9_sem1_1 : DmaSem sig := 95
abbrev cc9_sem2_0 : DmaSem sig := 96
abbrev cc9_sem3_0 : DmaSem sig := 97
abbrev cc9_sem4_0 : DmaSem sig := 98
abbrev cc9_sem5_0 : DmaSem sig := 99
abbrev cc9_sem5_1 : DmaSem sig := 100
abbrev cc9_sem6_0 : DmaSem sig := 101
abbrev cc9_sem7_0 : DmaSem sig := 102
abbrev cc10_sem0_0 : DmaSem sig := 103
abbrev cc10_sem0_1 : DmaSem sig := 104
abbrev cc10_sem1_0 : DmaSem sig := 105
abbrev cc10_sem2_0 : DmaSem sig := 106
abbrev cc10_sem3_0 : DmaSem sig := 107
abbrev cc10_sem4_0 : DmaSem sig := 108
abbrev cc10_sem5_0 : DmaSem sig := 109
abbrev cc10_sem6_0 : DmaSem sig := 110
abbrev cc10_sem7_0 : DmaSem sig := 111
abbrev cc10_sem7_1 : DmaSem sig := 112
abbrev cc10_sem8_0 : DmaSem sig := 113
abbrev cc10_sem9_0 : DmaSem sig := 114
abbrev cc11_sem0_0 : DmaSem sig := 115
abbrev cc11_sem0_1 : DmaSem sig := 116
abbrev cc11_sem1_0 : DmaSem sig := 117
abbrev cc11_sem2_0 : DmaSem sig := 118
abbrev cc11_sem3_0 : DmaSem sig := 119
abbrev cc11_sem4_0 : DmaSem sig := 120
abbrev cc11_sem5_0 : DmaSem sig := 121
abbrev cc11_sem5_1 : DmaSem sig := 122
abbrev cc11_sem6_0 : DmaSem sig := 123
abbrev cc11_sem7_0 : DmaSem sig := 124
abbrev cc12_sem0_0 : DmaSem sig := 125
abbrev cc12_sem0_1 : DmaSem sig := 126
abbrev cc12_sem1_0 : DmaSem sig := 127
abbrev cc12_sem2_0 : DmaSem sig := 128
abbrev cc12_sem3_0 : DmaSem sig := 129
abbrev cc12_sem4_0 : DmaSem sig := 130
abbrev cc12_sem5_0 : DmaSem sig := 131
abbrev cc12_sem5_1 : DmaSem sig := 132
abbrev cc12_sem6_0 : DmaSem sig := 133
abbrev cc12_sem6_1 : DmaSem sig := 134
abbrev cc13_sem0_0 : DmaSem sig := 135
abbrev cc13_sem0_1 : DmaSem sig := 136
abbrev cc13_sem1_0 : DmaSem sig := 137
abbrev cc13_sem1_1 : DmaSem sig := 138
abbrev cc13_sem2_0 : DmaSem sig := 139
abbrev cc13_sem3_0 : DmaSem sig := 140
abbrev cc13_sem4_0 : DmaSem sig := 141
abbrev cc13_sem5_0 : DmaSem sig := 142
abbrev cc13_sem5_1 : DmaSem sig := 143
abbrev cc13_sem6_0 : DmaSem sig := 144
abbrev cc13_sem7_0 : DmaSem sig := 145
abbrev cc14_sem0_0 : DmaSem sig := 146
abbrev cc14_sem0_1 : DmaSem sig := 147
abbrev cc14_sem1_0 : DmaSem sig := 148
abbrev cc14_sem2_0 : DmaSem sig := 149
abbrev cc14_sem3_0 : DmaSem sig := 150
abbrev cc14_sem4_0 : DmaSem sig := 151
abbrev cc14_sem5_0 : DmaSem sig := 152
abbrev cc14_sem6_0 : DmaSem sig := 153
abbrev cc14_sem7_0 : DmaSem sig := 154
abbrev cc14_sem7_1 : DmaSem sig := 155
abbrev cc14_sem8_0 : DmaSem sig := 156
abbrev cc14_sem9_0 : DmaSem sig := 157
abbrev cc15_sem0_0 : DmaSem sig := 158
abbrev cc15_sem0_1 : DmaSem sig := 159
abbrev cc15_sem1_0 : DmaSem sig := 160
abbrev cc15_sem2_0 : DmaSem sig := 161
abbrev cc15_sem3_0 : DmaSem sig := 162
abbrev cc15_sem4_0 : DmaSem sig := 163
abbrev cc15_sem5_0 : DmaSem sig := 164
abbrev cc15_sem5_1 : DmaSem sig := 165
abbrev cc15_sem6_0 : DmaSem sig := 166
abbrev cc15_sem7_0 : DmaSem sig := 167
abbrev cc16_sem0_0 : DmaSem sig := 168
abbrev cc16_sem0_1 : DmaSem sig := 169
abbrev cc16_sem1_0 : DmaSem sig := 170
abbrev cc16_sem2_0 : DmaSem sig := 171
abbrev cc16_sem3_0 : DmaSem sig := 172
abbrev cc16_sem4_0 : DmaSem sig := 173
abbrev cc16_sem5_0 : DmaSem sig := 174
abbrev cc16_sem5_1 : DmaSem sig := 175
abbrev cc16_sem6_0 : DmaSem sig := 176
abbrev cc16_sem6_1 : DmaSem sig := 177

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S5000x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S1x1 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S128x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S5000x128 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev stage1_6 : Fin 1 → Memref sig .tc .vmem S1x128 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 1 → Memref sig .tc .vmem S1x128 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_7 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_8 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_9 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S1x128 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S1x128 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x128 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S128x128 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 1 → Memref sig .tc .vmem S1x128 .f32 := fun | 0 => Memref.whole cc2_stg6_0 | ⟨_ + 1, h⟩ => absurd h (Nat.not_lt.2 (Nat.le_add_left _ _))
abbrev sem2_6 : Fin 1 → DmaSem sig := fun | 0 => cc2_sem6_0 | ⟨_ + 1, h⟩ => absurd h (Nat.not_lt.2 (Nat.le_add_left _ _))
abbrev reads2_6 : Fin grid2.rank → Bool := ![false]

abbrev stage2_7 : Fin 2 → Memref sig .tc .vmem S5000x128 .f32 := fun | 0 => Memref.whole cc2_stg7_0 | 1 => Memref.whole cc2_stg7_1 | ⟨_ + 2, h⟩ => absurd h (Nat.not_lt.2 (Nat.le_add_left _ _))
abbrev sem2_7 : Fin 2 → DmaSem sig := fun | 0 => cc2_sem7_0 | 1 => cc2_sem7_1 | ⟨_ + 2, h⟩ => absurd h (Nat.not_lt.2 (Nat.le_add_left _ _))
abbrev reads2_7 : Fin grid2.rank → Bool := ![true]

abbrev stage2_8 : Fin 1 → Memref sig .tc .vmem S1x128 .f32 := fun | 0 => Memref.whole cc2_stg8_0 | ⟨_ + 1, h⟩ => absurd h (Nat.not_lt.2 (Nat.le_add_left _ _))
abbrev sem2_8 : Fin 1 → DmaSem sig := fun | 0 => cc2_sem8_0 | ⟨_ + 1, h⟩ => absurd h (Nat.not_lt.2 (Nat.le_add_left _ _))
abbrev reads2_8 : Fin grid2.rank → Bool := ![false]

abbrev stage2_9 : Fin 1 → Memref sig .tc .vmem S1x128 .f32 := fun | 0 => Memref.whole cc2_stg9_0 | ⟨_ + 1, h⟩ => absurd h (Nat.not_lt.2 (Nat.le_add_left _ _))
abbrev sem2_9 : Fin 1 → DmaSem sig := fun | 0 => cc2_sem9_0 | ⟨_ + 1, h⟩ => absurd h (Nat.not_lt.2 (Nat.le_add_left _ _))
abbrev reads2_9 : Fin grid2.rank → Bool := ![false]

abbrev grid3 : Pipeline.Grid := ⟨1, ![10], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_6 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_7 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage3_0 : Fin 2 → Memref sig .tc .vmem S5000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S1x128 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 1 → Memref sig .tc .vmem S1x128 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S1x128 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S1x128 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 2 → Memref sig .tc .vmem S5000x128 .f32 := fun | 0 => Memref.whole cc3_stg5_0 | 1 => Memref.whole cc3_stg5_1 | ⟨_ + 2, h⟩ => absurd h (Nat.not_lt.2 (Nat.le_add_left _ _))
abbrev sem3_5 : Fin 2 → DmaSem sig := fun | 0 => cc3_sem5_0 | 1 => cc3_sem5_1 | ⟨_ + 2, h⟩ => absurd h (Nat.not_lt.2 (Nat.le_add_left _ _))
abbrev reads3_5 : Fin grid3.rank → Bool := ![true]

abbrev stage3_6 : Fin 1 → Memref sig .tc .vmem S1x128 .f32 := fun | 0 => Memref.whole cc3_stg6_0 | ⟨_ + 1, h⟩ => absurd h (Nat.not_lt.2 (Nat.le_add_left _ _))
abbrev sem3_6 : Fin 1 → DmaSem sig := fun | 0 => cc3_sem6_0 | ⟨_ + 1, h⟩ => absurd h (Nat.not_lt.2 (Nat.le_add_left _ _))
abbrev reads3_6 : Fin grid3.rank → Bool := ![false]

abbrev stage3_7 : Fin 1 → Memref sig .tc .vmem S1x128 .f32 := fun | 0 => Memref.whole cc3_stg7_0 | ⟨_ + 1, h⟩ => absurd h (Nat.not_lt.2 (Nat.le_add_left _ _))
abbrev sem3_7 : Fin 1 → DmaSem sig := fun | 0 => cc3_sem7_0 | ⟨_ + 1, h⟩ => absurd h (Nat.not_lt.2 (Nat.le_add_left _ _))
abbrev reads3_7 : Fin grid3.rank → Bool := ![false]

abbrev grid4 : Pipeline.Grid := ⟨1, ![10], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_4 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_5 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_6 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S5000x128 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S1x128 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 1 → Memref sig .tc .vmem S1x128 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 1 → Memref sig .tc .vmem S1x128 .f32 := fun | 0 => Memref.whole cc4_stg3_0 | ⟨_ + 1, h⟩ => absurd h (Nat.not_lt.2 (Nat.le_add_left _ _))
abbrev sem4_3 : Fin 1 → DmaSem sig := fun | 0 => cc4_sem3_0 | ⟨_ + 1, h⟩ => absurd h (Nat.not_lt.2 (Nat.le_add_left _ _))
abbrev reads4_3 : Fin grid4.rank → Bool := ![false]

abbrev stage4_4 : Fin 1 → Memref sig .tc .vmem S1x128 .f32 := fun | 0 => Memref.whole cc4_stg4_0 | ⟨_ + 1, h⟩ => absurd h (Nat.not_lt.2 (Nat.le_add_left _ _))
abbrev sem4_4 : Fin 1 → DmaSem sig := fun | 0 => cc4_sem4_0 | ⟨_ + 1, h⟩ => absurd h (Nat.not_lt.2 (Nat.le_add_left _ _))
abbrev reads4_4 : Fin grid4.rank → Bool := ![false]

abbrev stage4_5 : Fin 2 → Memref sig .tc .vmem S5000x128 .f32 := fun | 0 => Memref.whole cc4_stg5_0 | 1 => Memref.whole cc4_stg5_1 | ⟨_ + 2, h⟩ => absurd h (Nat.not_lt.2 (Nat.le_add_left _ _))
abbrev sem4_5 : Fin 2 → DmaSem sig := fun | 0 => cc4_sem5_0 | 1 => cc4_sem5_1 | ⟨_ + 2, h⟩ => absurd h (Nat.not_lt.2 (Nat.le_add_left _ _))
abbrev reads4_5 : Fin grid4.rank → Bool := ![true]

abbrev stage4_6 : Fin 2 → Memref sig .tc .vmem S5000x128 .f32 := fun | 0 => Memref.whole cc4_stg6_0 | 1 => Memref.whole cc4_stg6_1 | ⟨_ + 2, h⟩ => absurd h (Nat.not_lt.2 (Nat.le_add_left _ _))
abbrev sem4_6 : Fin 2 → DmaSem sig := fun | 0 => cc4_sem6_0 | 1 => cc4_sem6_1 | ⟨_ + 2, h⟩ => absurd h (Nat.not_lt.2 (Nat.le_add_left _ _))
abbrev reads4_6 : Fin grid4.rank → Bool := ![true]

abbrev grid5 : Pipeline.Grid := ⟨1, ![10], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_2 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_3 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_4 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_5 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_6 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_7 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage5_0 : Fin 2 → Memref sig .tc .vmem S5000x128 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 2 → Memref sig .tc .vmem S5000x128 .f32 := fun | 0 => Memref.whole cc5_stg1_0 | 1 => Memref.whole cc5_stg1_1 | ⟨_ + 2, h⟩ => absurd h (Nat.not_lt.2 (Nat.le_add_left _ _))
abbrev sem5_1 : Fin 2 → DmaSem sig := fun | 0 => cc5_sem1_0 | 1 => cc5_sem1_1 | ⟨_ + 2, h⟩ => absurd h (Nat.not_lt.2 (Nat.le_add_left _ _))
abbrev reads5_1 : Fin grid5.rank → Bool := ![true]

abbrev stage5_2 : Fin 1 → Memref sig .tc .vmem S1x1 .f32 := fun | 0 => Memref.whole cc5_stg2_0 | ⟨_ + 1, h⟩ => absurd h (Nat.not_lt.2 (Nat.le_add_left _ _))
abbrev sem5_2 : Fin 1 → DmaSem sig := fun | 0 => cc5_sem2_0 | ⟨_ + 1, h⟩ => absurd h (Nat.not_lt.2 (Nat.le_add_left _ _))
abbrev reads5_2 : Fin grid5.rank → Bool := ![false]

abbrev stage5_3 : Fin 1 → Memref sig .tc .vmem S128x128 .f32 := fun | 0 => Memref.whole cc5_stg3_0 | ⟨_ + 1, h⟩ => absurd h (Nat.not_lt.2 (Nat.le_add_left _ _))
abbrev sem5_3 : Fin 1 → DmaSem sig := fun | 0 => cc5_sem3_0 | ⟨_ + 1, h⟩ => absurd h (Nat.not_lt.2 (Nat.le_add_left _ _))
abbrev reads5_3 : Fin grid5.rank → Bool := ![false]

abbrev stage5_4 : Fin 1 → Memref sig .tc .vmem S1x128 .f32 := fun | 0 => Memref.whole cc5_stg4_0 | ⟨_ + 1, h⟩ => absurd h (Nat.not_lt.2 (Nat.le_add_left _ _))
abbrev sem5_4 : Fin 1 → DmaSem sig := fun | 0 => cc5_sem4_0 | ⟨_ + 1, h⟩ => absurd h (Nat.not_lt.2 (Nat.le_add_left _ _))
abbrev reads5_4 : Fin grid5.rank → Bool := ![false]

abbrev stage5_5 : Fin 2 → Memref sig .tc .vmem S5000x128 .f32 := fun | 0 => Memref.whole cc5_stg5_0 | 1 => Memref.whole cc5_stg5_1 | ⟨_ + 2, h⟩ => absurd h (Nat.not_lt.2 (Nat.le_add_left _ _))
abbrev sem5_5 : Fin 2 → DmaSem sig := fun | 0 => cc5_sem5_0 | 1 => cc5_sem5_1 | ⟨_ + 2, h⟩ => absurd h (Nat.not_lt.2 (Nat.le_add_left _ _))
abbrev reads5_5 : Fin grid5.rank → Bool := ![true]

abbrev stage5_6 : Fin 1 → Memref sig .tc .vmem S1x128 .f32 := fun | 0 => Memref.whole cc5_stg6_0 | ⟨_ + 1, h⟩ => absurd h (Nat.not_lt.2 (Nat.le_add_left _ _))
abbrev sem5_6 : Fin 1 → DmaSem sig := fun | 0 => cc5_sem6_0 | ⟨_ + 1, h⟩ => absurd h (Nat.not_lt.2 (Nat.le_add_left _ _))
abbrev reads5_6 : Fin grid5.rank → Bool := ![false]

abbrev stage5_7 : Fin 1 → Memref sig .tc .vmem S1x128 .f32 := fun | 0 => Memref.whole cc5_stg7_0 | ⟨_ + 1, h⟩ => absurd h (Nat.not_lt.2 (Nat.le_add_left _ _))
abbrev sem5_7 : Fin 1 → DmaSem sig := fun | 0 => cc5_sem7_0 | ⟨_ + 1, h⟩ => absurd h (Nat.not_lt.2 (Nat.le_add_left _ _))
abbrev reads5_7 : Fin grid5.rank → Bool := ![false]

abbrev grid6 : Pipeline.Grid := ⟨1, ![10], ![false]⟩

def cc6_transform_0 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_1 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_2 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_3 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_4 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_5 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_6 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_7 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_8 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_9 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage6_0 : Fin 2 → Memref sig .tc .vmem S5000x128 .f32 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true]

abbrev stage6_1 : Fin 1 → Memref sig .tc .vmem S1x128 .f32 := fun | 0 => Memref.whole cc6_stg1_0 | ⟨_ + 1, h⟩ => absurd h (Nat.not_lt.2 (Nat.le_add_left _ _))
abbrev sem6_1 : Fin 1 → DmaSem sig := fun | 0 => cc6_sem1_0 | ⟨_ + 1, h⟩ => absurd h (Nat.not_lt.2 (Nat.le_add_left _ _))
abbrev reads6_1 : Fin grid6.rank → Bool := ![false]

abbrev stage6_2 : Fin 1 → Memref sig .tc .vmem S1x128 .f32 := fun | 0 => Memref.whole cc6_stg2_0 | ⟨_ + 1, h⟩ => absurd h (Nat.not_lt.2 (Nat.le_add_left _ _))
abbrev sem6_2 : Fin 1 → DmaSem sig := fun | 0 => cc6_sem2_0 | ⟨_ + 1, h⟩ => absurd h (Nat.not_lt.2 (Nat.le_add_left _ _))
abbrev reads6_2 : Fin grid6.rank → Bool := ![false]

abbrev stage6_3 : Fin 1 → Memref sig .tc .vmem S1x128 .f32 := fun | 0 => Memref.whole cc6_stg3_0 | ⟨_ + 1, h⟩ => absurd h (Nat.not_lt.2 (Nat.le_add_left _ _))
abbrev sem6_3 : Fin 1 → DmaSem sig := fun | 0 => cc6_sem3_0 | ⟨_ + 1, h⟩ => absurd h (Nat.not_lt.2 (Nat.le_add_left _ _))
abbrev reads6_3 : Fin grid6.rank → Bool := ![false]

abbrev stage6_4 : Fin 1 → Memref sig .tc .vmem S1x128 .f32 := fun | 0 => Memref.whole cc6_stg4_0 | ⟨_ + 1, h⟩ => absurd h (Nat.not_lt.2 (Nat.le_add_left _ _))
abbrev sem6_4 : Fin 1 → DmaSem sig := fun | 0 => cc6_sem4_0 | ⟨_ + 1, h⟩ => absurd h (Nat.not_lt.2 (Nat.le_add_left _ _))
abbrev reads6_4 : Fin grid6.rank → Bool := ![false]

abbrev stage6_5 : Fin 1 → Memref sig .tc .vmem S128x128 .f32 := fun | 0 => Memref.whole cc6_stg5_0 | ⟨_ + 1, h⟩ => absurd h (Nat.not_lt.2 (Nat.le_add_left _ _))
abbrev sem6_5 : Fin 1 → DmaSem sig := fun | 0 => cc6_sem5_0 | ⟨_ + 1, h⟩ => absurd h (Nat.not_lt.2 (Nat.le_add_left _ _))
abbrev reads6_5 : Fin grid6.rank → Bool := ![false]

abbrev stage6_6 : Fin 1 → Memref sig .tc .vmem S1x128 .f32 := fun | 0 => Memref.whole cc6_stg6_0 | ⟨_ + 1, h⟩ => absurd h (Nat.not_lt.2 (Nat.le_add_left _ _))
abbrev sem6_6 : Fin 1 → DmaSem sig := fun | 0 => cc6_sem6_0 | ⟨_ + 1, h⟩ => absurd h (Nat.not_lt.2 (Nat.le_add_left _ _))
abbrev reads6_6 : Fin grid6.rank → Bool := ![false]

abbrev stage6_7 : Fin 2 → Memref sig .tc .vmem S5000x128 .f32 := fun | 0 => Memref.whole cc6_stg7_0 | 1 => Memref.whole cc6_stg7_1 | ⟨_ + 2, h⟩ => absurd h (Nat.not_lt.2 (Nat.le_add_left _ _))
abbrev sem6_7 : Fin 2 → DmaSem sig := fun | 0 => cc6_sem7_0 | 1 => cc6_sem7_1 | ⟨_ + 2, h⟩ => absurd h (Nat.not_lt.2 (Nat.le_add_left _ _))
abbrev reads6_7 : Fin grid6.rank → Bool := ![true]

abbrev stage6_8 : Fin 1 → Memref sig .tc .vmem S1x128 .f32 := fun | 0 => Memref.whole cc6_stg8_0 | ⟨_ + 1, h⟩ => absurd h (Nat.not_lt.2 (Nat.le_add_left _ _))
abbrev sem6_8 : Fin 1 → DmaSem sig := fun | 0 => cc6_sem8_0 | ⟨_ + 1, h⟩ => absurd h (Nat.not_lt.2 (Nat.le_add_left _ _))
abbrev reads6_8 : Fin grid6.rank → Bool := ![false]

abbrev stage6_9 : Fin 1 → Memref sig .tc .vmem S1x128 .f32 := fun | 0 => Memref.whole cc6_stg9_0 | ⟨_ + 1, h⟩ => absurd h (Nat.not_lt.2 (Nat.le_add_left _ _))
abbrev sem6_9 : Fin 1 → DmaSem sig := fun | 0 => cc6_sem9_0 | ⟨_ + 1, h⟩ => absurd h (Nat.not_lt.2 (Nat.le_add_left _ _))
abbrev reads6_9 : Fin grid6.rank → Bool := ![false]

abbrev grid7 : Pipeline.Grid := ⟨1, ![10], ![false]⟩

def cc7_transform_0 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_1 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_2 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_3 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_4 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_5 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_6 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_7 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage7_0 : Fin 2 → Memref sig .tc .vmem S5000x128 .f32 := fun | 0 => Memref.whole cc7_stg0_0 | 1 => Memref.whole cc7_stg0_1 | ⟨_ + 2, h⟩ => absurd h (Nat.not_lt.2 (Nat.le_add_left _ _))
abbrev sem7_0 : Fin 2 → DmaSem sig := fun | 0 => cc7_sem0_0 | 1 => cc7_sem0_1 | ⟨_ + 2, h⟩ => absurd h (Nat.not_lt.2 (Nat.le_add_left _ _))
abbrev reads7_0 : Fin grid7.rank → Bool := ![true]

abbrev stage7_1 : Fin 1 → Memref sig .tc .vmem S1x128 .f32 := fun | 0 => Memref.whole cc7_stg1_0 | ⟨_ + 1, h⟩ => absurd h (Nat.not_lt.2 (Nat.le_add_left _ _))
abbrev sem7_1 : Fin 1 → DmaSem sig := fun | 0 => cc7_sem1_0 | ⟨_ + 1, h⟩ => absurd h (Nat.not_lt.2 (Nat.le_add_left _ _))
abbrev reads7_1 : Fin grid7.rank → Bool := ![false]

abbrev stage7_2 : Fin 1 → Memref sig .tc .vmem S1x128 .f32 := fun | 0 => Memref.whole cc7_stg2_0 | ⟨_ + 1, h⟩ => absurd h (Nat.not_lt.2 (Nat.le_add_left _ _))
abbrev sem7_2 : Fin 1 → DmaSem sig := fun | 0 => cc7_sem2_0 | ⟨_ + 1, h⟩ => absurd h (Nat.not_lt.2 (Nat.le_add_left _ _))
abbrev reads7_2 : Fin grid7.rank → Bool := ![false]

abbrev stage7_3 : Fin 1 → Memref sig .tc .vmem S1x128 .f32 := fun | 0 => Memref.whole cc7_stg3_0 | ⟨_ + 1, h⟩ => absurd h (Nat.not_lt.2 (Nat.le_add_left _ _))
abbrev sem7_3 : Fin 1 → DmaSem sig := fun | 0 => cc7_sem3_0 | ⟨_ + 1, h⟩ => absurd h (Nat.not_lt.2 (Nat.le_add_left _ _))
abbrev reads7_3 : Fin grid7.rank → Bool := ![false]

abbrev stage7_4 : Fin 1 → Memref sig .tc .vmem S1x128 .f32 := fun | 0 => Memref.whole cc7_stg4_0 | ⟨_ + 1, h⟩ => absurd h (Nat.not_lt.2 (Nat.le_add_left _ _))
abbrev sem7_4 : Fin 1 → DmaSem sig := fun | 0 => cc7_sem4_0 | ⟨_ + 1, h⟩ => absurd h (Nat.not_lt.2 (Nat.le_add_left _ _))
abbrev reads7_4 : Fin grid7.rank → Bool := ![false]

abbrev stage7_5 : Fin 2 → Memref sig .tc .vmem S5000x128 .f32 := fun | 0 => Memref.whole cc7_stg5_0 | 1 => Memref.whole cc7_stg5_1 | ⟨_ + 2, h⟩ => absurd h (Nat.not_lt.2 (Nat.le_add_left _ _))
abbrev sem7_5 : Fin 2 → DmaSem sig := fun | 0 => cc7_sem5_0 | 1 => cc7_sem5_1 | ⟨_ + 2, h⟩ => absurd h (Nat.not_lt.2 (Nat.le_add_left _ _))
abbrev reads7_5 : Fin grid7.rank → Bool := ![true]

abbrev stage7_6 : Fin 1 → Memref sig .tc .vmem S1x128 .f32 := fun | 0 => Memref.whole cc7_stg6_0 | ⟨_ + 1, h⟩ => absurd h (Nat.not_lt.2 (Nat.le_add_left _ _))
abbrev sem7_6 : Fin 1 → DmaSem sig := fun | 0 => cc7_sem6_0 | ⟨_ + 1, h⟩ => absurd h (Nat.not_lt.2 (Nat.le_add_left _ _))
abbrev reads7_6 : Fin grid7.rank → Bool := ![false]

abbrev stage7_7 : Fin 1 → Memref sig .tc .vmem S1x128 .f32 := fun | 0 => Memref.whole cc7_stg7_0 | ⟨_ + 1, h⟩ => absurd h (Nat.not_lt.2 (Nat.le_add_left _ _))
abbrev sem7_7 : Fin 1 → DmaSem sig := fun | 0 => cc7_sem7_0 | ⟨_ + 1, h⟩ => absurd h (Nat.not_lt.2 (Nat.le_add_left _ _))
abbrev reads7_7 : Fin grid7.rank → Bool := ![false]

abbrev grid8 : Pipeline.Grid := ⟨1, ![10], ![false]⟩

def cc8_transform_0 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

def cc8_transform_1 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_2 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_3 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_4 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_5 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

def cc8_transform_6 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage8_0 : Fin 2 → Memref sig .tc .vmem S5000x128 .f32 := fun | 0 => Memref.whole cc8_stg0_0 | 1 => Memref.whole cc8_stg0_1 | ⟨_ + 2, h⟩ => absurd h (Nat.not_lt.2 (Nat.le_add_left _ _))
abbrev sem8_0 : Fin 2 → DmaSem sig := fun | 0 => cc8_sem0_0 | 1 => cc8_sem0_1 | ⟨_ + 2, h⟩ => absurd h (Nat.not_lt.2 (Nat.le_add_left _ _))
abbrev reads8_0 : Fin grid8.rank → Bool := ![true]

abbrev stage8_1 : Fin 1 → Memref sig .tc .vmem S1x128 .f32 := fun | 0 => Memref.whole cc8_stg1_0 | ⟨_ + 1, h⟩ => absurd h (Nat.not_lt.2 (Nat.le_add_left _ _))
abbrev sem8_1 : Fin 1 → DmaSem sig := fun | 0 => cc8_sem1_0 | ⟨_ + 1, h⟩ => absurd h (Nat.not_lt.2 (Nat.le_add_left _ _))
abbrev reads8_1 : Fin grid8.rank → Bool := ![false]

abbrev stage8_2 : Fin 1 → Memref sig .tc .vmem S1x128 .f32 := fun | 0 => Memref.whole cc8_stg2_0 | ⟨_ + 1, h⟩ => absurd h (Nat.not_lt.2 (Nat.le_add_left _ _))
abbrev sem8_2 : Fin 1 → DmaSem sig := fun | 0 => cc8_sem2_0 | ⟨_ + 1, h⟩ => absurd h (Nat.not_lt.2 (Nat.le_add_left _ _))
abbrev reads8_2 : Fin grid8.rank → Bool := ![false]

abbrev stage8_3 : Fin 1 → Memref sig .tc .vmem S1x128 .f32 := fun | 0 => Memref.whole cc8_stg3_0 | ⟨_ + 1, h⟩ => absurd h (Nat.not_lt.2 (Nat.le_add_left _ _))
abbrev sem8_3 : Fin 1 → DmaSem sig := fun | 0 => cc8_sem3_0 | ⟨_ + 1, h⟩ => absurd h (Nat.not_lt.2 (Nat.le_add_left _ _))
abbrev reads8_3 : Fin grid8.rank → Bool := ![false]

abbrev stage8_4 : Fin 1 → Memref sig .tc .vmem S1x128 .f32 := fun | 0 => Memref.whole cc8_stg4_0 | ⟨_ + 1, h⟩ => absurd h (Nat.not_lt.2 (Nat.le_add_left _ _))
abbrev sem8_4 : Fin 1 → DmaSem sig := fun | 0 => cc8_sem4_0 | ⟨_ + 1, h⟩ => absurd h (Nat.not_lt.2 (Nat.le_add_left _ _))
abbrev reads8_4 : Fin grid8.rank → Bool := ![false]

abbrev stage8_5 : Fin 2 → Memref sig .tc .vmem S5000x128 .f32 := fun | 0 => Memref.whole cc8_stg5_0 | 1 => Memref.whole cc8_stg5_1 | ⟨_ + 2, h⟩ => absurd h (Nat.not_lt.2 (Nat.le_add_left _ _))
abbrev sem8_5 : Fin 2 → DmaSem sig := fun | 0 => cc8_sem5_0 | 1 => cc8_sem5_1 | ⟨_ + 2, h⟩ => absurd h (Nat.not_lt.2 (Nat.le_add_left _ _))
abbrev reads8_5 : Fin grid8.rank → Bool := ![true]

abbrev stage8_6 : Fin 2 → Memref sig .tc .vmem S5000x128 .f32 := fun | 0 => Memref.whole cc8_stg6_0 | 1 => Memref.whole cc8_stg6_1 | ⟨_ + 2, h⟩ => absurd h (Nat.not_lt.2 (Nat.le_add_left _ _))
abbrev sem8_6 : Fin 2 → DmaSem sig := fun | 0 => cc8_sem6_0 | 1 => cc8_sem6_1 | ⟨_ + 2, h⟩ => absurd h (Nat.not_lt.2 (Nat.le_add_left _ _))
abbrev reads8_6 : Fin grid8.rank → Bool := ![true]

abbrev grid9 : Pipeline.Grid := ⟨1, ![10], ![false]⟩

def cc9_transform_0 (i : grid9.Coords) : Fin 2 → Nat :=
  let arg0 : BitVec 32 := BitVec.ofNat 32 (i 0).val
  let c0_i32 : BitVec 32 := 0#32
  let c0_i32_0 : BitVec 32 := 0#32
  ![arg0.toNat, c0_i32.toNat]

def cc9_transform_1 (i : grid9.Coords) : Fin 2 → Nat :=
  let arg0 : BitVec 32 := BitVec.ofNat 32 (i 0).val
  let c0_i32 : BitVec 32 := 0#32
  let c0_i32_0 : BitVec 32 := 0#32
  ![arg0.toNat, c0_i32.toNat]

def cc9_transform_2 (i : grid9.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc9_transform_3 (i : grid9.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc9_transform_4 (i : grid9.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc9_transform_5 (i : grid9.Coords) : Fin 2 → Nat :=
  let arg0 : BitVec 32 := BitVec.ofNat 32 (i 0).val
  let c0_i32 : BitVec 32 := 0#32
  let c0_i32_0 : BitVec 32 := 0#32
  ![arg0.toNat, c0_i32.toNat]

def cc9_transform_6 (i : grid9.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc9_transform_7 (i : grid9.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage9_0 : Fin 2 → Memref sig .tc .vmem S5000x128 .f32 := fun | 0 => Memref.whole cc9_stg0_0 | 1 => Memref.whole cc9_stg0_1 | ⟨_ + 2, h⟩ => absurd h (Nat.not_lt.2 (Nat.le_add_left _ _))
abbrev sem9_0 : Fin 2 → DmaSem sig := fun | 0 => cc9_sem0_0 | 1 => cc9_sem0_1 | ⟨_ + 2, h⟩ => absurd h (Nat.not_lt.2 (Nat.le_add_left _ _))
abbrev reads9_0 : Fin grid9.rank → Bool := ![true]

abbrev stage9_1 : Fin 2 → Memref sig .tc .vmem S5000x128 .f32 := fun | 0 => Memref.whole cc9_stg1_0 | 1 => Memref.whole cc9_stg1_1 | ⟨_ + 2, h⟩ => absurd h (Nat.not_lt.2 (Nat.le_add_left _ _))
abbrev sem9_1 : Fin 2 → DmaSem sig := fun | 0 => cc9_sem1_0 | 1 => cc9_sem1_1 | ⟨_ + 2, h⟩ => absurd h (Nat.not_lt.2 (Nat.le_add_left _ _))
abbrev reads9_1 : Fin grid9.rank → Bool := ![true]

abbrev stage9_2 : Fin 1 → Memref sig .tc .vmem S1x1 .f32 := fun | 0 => Memref.whole cc9_stg2_0 | ⟨_ + 1, h⟩ => absurd h (Nat.not_lt.2 (Nat.le_add_left _ _))
abbrev sem9_2 : Fin 1 → DmaSem sig := fun | 0 => cc9_sem2_0 | ⟨_ + 1, h⟩ => absurd h (Nat.not_lt.2 (Nat.le_add_left _ _))
abbrev reads9_2 : Fin grid9.rank → Bool := ![false]

abbrev stage9_3 : Fin 1 → Memref sig .tc .vmem S128x128 .f32 := fun | 0 => Memref.whole cc9_stg3_0 | ⟨_ + 1, h⟩ => absurd h (Nat.not_lt.2 (Nat.le_add_left _ _))
abbrev sem9_3 : Fin 1 → DmaSem sig := fun | 0 => cc9_sem3_0 | ⟨_ + 1, h⟩ => absurd h (Nat.not_lt.2 (Nat.le_add_left _ _))
abbrev reads9_3 : Fin grid9.rank → Bool := ![false]

abbrev stage9_4 : Fin 1 → Memref sig .tc .vmem S1x128 .f32 := fun | 0 => Memref.whole cc9_stg4_0 | ⟨_ + 1, h⟩ => absurd h (Nat.not_lt.2 (Nat.le_add_left _ _))
abbrev sem9_4 : Fin 1 → DmaSem sig := fun | 0 => cc9_sem4_0 | ⟨_ + 1, h⟩ => absurd h (Nat.not_lt.2 (Nat.le_add_left _ _))
abbrev reads9_4 : Fin grid9.rank → Bool := ![false]

abbrev stage9_5 : Fin 2 → Memref sig .tc .vmem S5000x128 .f32 := fun | 0 => Memref.whole cc9_stg5_0 | 1 => Memref.whole cc9_stg5_1 | ⟨_ + 2, h⟩ => absurd h (Nat.not_lt.2 (Nat.le_add_left _ _))
abbrev sem9_5 : Fin 2 → DmaSem sig := fun | 0 => cc9_sem5_0 | 1 => cc9_sem5_1 | ⟨_ + 2, h⟩ => absurd h (Nat.not_lt.2 (Nat.le_add_left _ _))
abbrev reads9_5 : Fin grid9.rank → Bool := ![true]

abbrev stage9_6 : Fin 1 → Memref sig .tc .vmem S1x128 .f32 := fun | 0 => Memref.whole cc9_stg6_0 | ⟨_ + 1, h⟩ => absurd h (Nat.not_lt.2 (Nat.le_add_left _ _))
abbrev sem9_6 : Fin 1 → DmaSem sig := fun | 0 => cc9_sem6_0 | ⟨_ + 1, h⟩ => absurd h (Nat.not_lt.2 (Nat.le_add_left _ _))
abbrev reads9_6 : Fin grid9.rank → Bool := ![false]

abbrev stage9_7 : Fin 1 → Memref sig .tc .vmem S1x128 .f32 := fun | 0 => Memref.whole cc9_stg7_0 | ⟨_ + 1, h⟩ => absurd h (Nat.not_lt.2 (Nat.le_add_left _ _))
abbrev sem9_7 : Fin 1 → DmaSem sig := fun | 0 => cc9_sem7_0 | ⟨_ + 1, h⟩ => absurd h (Nat.not_lt.2 (Nat.le_add_left _ _))
abbrev reads9_7 : Fin grid9.rank → Bool := ![false]

abbrev grid10 : Pipeline.Grid := ⟨1, ![10], ![false]⟩

def cc10_transform_0 (i : grid10.Coords) : Fin 2 → Nat :=
  let arg0 : BitVec 32 := BitVec.ofNat 32 (i 0).val
  let c0_i32 : BitVec 32 := 0#32
  let c0_i32_0 : BitVec 32 := 0#32
  ![arg0.toNat, c0_i32.toNat]

def cc10_transform_1 (i : grid10.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc10_transform_2 (i : grid10.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc10_transform_3 (i : grid10.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc10_transform_4 (i : grid10.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc10_transform_5 (i : grid10.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc10_transform_6 (i : grid10.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc10_transform_7 (i : grid10.Coords) : Fin 2 → Nat :=
  let arg0 : BitVec 32 := BitVec.ofNat 32 (i 0).val
  let c0_i32 : BitVec 32 := 0#32
  let c0_i32_0 : BitVec 32 := 0#32
  ![arg0.toNat, c0_i32.toNat]

def cc10_transform_8 (i : grid10.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc10_transform_9 (i : grid10.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage10_0 : Fin 2 → Memref sig .tc .vmem S5000x128 .f32 := fun | 0 => Memref.whole cc10_stg0_0 | 1 => Memref.whole cc10_stg0_1 | ⟨_ + 2, h⟩ => absurd h (Nat.not_lt.2 (Nat.le_add_left _ _))
abbrev sem10_0 : Fin 2 → DmaSem sig := fun | 0 => cc10_sem0_0 | 1 => cc10_sem0_1 | ⟨_ + 2, h⟩ => absurd h (Nat.not_lt.2 (Nat.le_add_left _ _))
abbrev reads10_0 : Fin grid10.rank → Bool := ![true]

abbrev stage10_1 : Fin 1 → Memref sig .tc .vmem S1x128 .f32 := fun | 0 => Memref.whole cc10_stg1_0 | ⟨_ + 1, h⟩ => absurd h (Nat.not_lt.2 (Nat.le_add_left _ _))
abbrev sem10_1 : Fin 1 → DmaSem sig := fun | 0 => cc10_sem1_0 | ⟨_ + 1, h⟩ => absurd h (Nat.not_lt.2 (Nat.le_add_left _ _))
abbrev reads10_1 : Fin grid10.rank → Bool := ![false]

abbrev stage10_2 : Fin 1 → Memref sig .tc .vmem S1x128 .f32 := fun | 0 => Memref.whole cc10_stg2_0 | ⟨_ + 1, h⟩ => absurd h (Nat.not_lt.2 (Nat.le_add_left _ _))
abbrev sem10_2 : Fin 1 → DmaSem sig := fun | 0 => cc10_sem2_0 | ⟨_ + 1, h⟩ => absurd h (Nat.not_lt.2 (Nat.le_add_left _ _))
abbrev reads10_2 : Fin grid10.rank → Bool := ![false]

abbrev stage10_3 : Fin 1 → Memref sig .tc .vmem S1x128 .f32 := fun | 0 => Memref.whole cc10_stg3_0 | ⟨_ + 1, h⟩ => absurd h (Nat.not_lt.2 (Nat.le_add_left _ _))
abbrev sem10_3 : Fin 1 → DmaSem sig := fun | 0 => cc10_sem3_0 | ⟨_ + 1, h⟩ => absurd h (Nat.not_lt.2 (Nat.le_add_left _ _))
abbrev reads10_3 : Fin grid10.rank → Bool := ![false]

abbrev stage10_4 : Fin 1 → Memref sig .tc .vmem S1x128 .f32 := fun | 0 => Memref.whole cc10_stg4_0 | ⟨_ + 1, h⟩ => absurd h (Nat.not_lt.2 (Nat.le_add_left _ _))
abbrev sem10_4 : Fin 1 → DmaSem sig := fun | 0 => cc10_sem4_0 | ⟨_ + 1, h⟩ => absurd h (Nat.not_lt.2 (Nat.le_add_left _ _))
abbrev reads10_4 : Fin grid10.rank → Bool := ![false]

abbrev stage10_5 : Fin 1 → Memref sig .tc .vmem S128x128 .f32 := fun | 0 => Memref.whole cc10_stg5_0 | ⟨_ + 1, h⟩ => absurd h (Nat.not_lt.2 (Nat.le_add_left _ _))
abbrev sem10_5 : Fin 1 → DmaSem sig := fun | 0 => cc10_sem5_0 | ⟨_ + 1, h⟩ => absurd h (Nat.not_lt.2 (Nat.le_add_left _ _))
abbrev reads10_5 : Fin grid10.rank → Bool := ![false]

abbrev stage10_6 : Fin 1 → Memref sig .tc .vmem S1x128 .f32 := fun | 0 => Memref.whole cc10_stg6_0 | ⟨_ + 1, h⟩ => absurd h (Nat.not_lt.2 (Nat.le_add_left _ _))
abbrev sem10_6 : Fin 1 → DmaSem sig := fun | 0 => cc10_sem6_0 | ⟨_ + 1, h⟩ => absurd h (Nat.not_lt.2 (Nat.le_add_left _ _))
abbrev reads10_6 : Fin grid10.rank → Bool := ![false]

abbrev stage10_7 : Fin 2 → Memref sig .tc .vmem S5000x128 .f32 := fun | 0 => Memref.whole cc10_stg7_0 | 1 => Memref.whole cc10_stg7_1 | ⟨_ + 2, h⟩ => absurd h (Nat.not_lt.2 (Nat.le_add_left _ _))
abbrev sem10_7 : Fin 2 → DmaSem sig := fun | 0 => cc10_sem7_0 | 1 => cc10_sem7_1 | ⟨_ + 2, h⟩ => absurd h (Nat.not_lt.2 (Nat.le_add_left _ _))
abbrev reads10_7 : Fin grid10.rank → Bool := ![true]

abbrev stage10_8 : Fin 1 → Memref sig .tc .vmem S1x128 .f32 := fun | 0 => Memref.whole cc10_stg8_0 | ⟨_ + 1, h⟩ => absurd h (Nat.not_lt.2 (Nat.le_add_left _ _))
abbrev sem10_8 : Fin 1 → DmaSem sig := fun | 0 => cc10_sem8_0 | ⟨_ + 1, h⟩ => absurd h (Nat.not_lt.2 (Nat.le_add_left _ _))
abbrev reads10_8 : Fin grid10.rank → Bool := ![false]

abbrev stage10_9 : Fin 1 → Memref sig .tc .vmem S1x128 .f32 := fun | 0 => Memref.whole cc10_stg9_0 | ⟨_ + 1, h⟩ => absurd h (Nat.not_lt.2 (Nat.le_add_left _ _))
abbrev sem10_9 : Fin 1 → DmaSem sig := fun | 0 => cc10_sem9_0 | ⟨_ + 1, h⟩ => absurd h (Nat.not_lt.2 (Nat.le_add_left _ _))
abbrev reads10_9 : Fin grid10.rank → Bool := ![false]

abbrev grid11 : Pipeline.Grid := ⟨1, ![10], ![false]⟩

def cc11_transform_0 (i : grid11.Coords) : Fin 2 → Nat :=
  let arg0 : BitVec 32 := BitVec.ofNat 32 (i 0).val
  let c0_i32 : BitVec 32 := 0#32
  let c0_i32_0 : BitVec 32 := 0#32
  ![arg0.toNat, c0_i32.toNat]

def cc11_transform_1 (i : grid11.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc11_transform_2 (i : grid11.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc11_transform_3 (i : grid11.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc11_transform_4 (i : grid11.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc11_transform_5 (i : grid11.Coords) : Fin 2 → Nat :=
  let arg0 : BitVec 32 := BitVec.ofNat 32 (i 0).val
  let c0_i32 : BitVec 32 := 0#32
  let c0_i32_0 : BitVec 32 := 0#32
  ![arg0.toNat, c0_i32.toNat]

def cc11_transform_6 (i : grid11.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc11_transform_7 (i : grid11.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage11_0 : Fin 2 → Memref sig .tc .vmem S5000x128 .f32 := fun | 0 => Memref.whole cc11_stg0_0 | 1 => Memref.whole cc11_stg0_1 | ⟨_ + 2, h⟩ => absurd h (Nat.not_lt.2 (Nat.le_add_left _ _))
abbrev sem11_0 : Fin 2 → DmaSem sig := fun | 0 => cc11_sem0_0 | 1 => cc11_sem0_1 | ⟨_ + 2, h⟩ => absurd h (Nat.not_lt.2 (Nat.le_add_left _ _))
abbrev reads11_0 : Fin grid11.rank → Bool := ![true]

abbrev stage11_1 : Fin 1 → Memref sig .tc .vmem S1x128 .f32 := fun | 0 => Memref.whole cc11_stg1_0 | ⟨_ + 1, h⟩ => absurd h (Nat.not_lt.2 (Nat.le_add_left _ _))
abbrev sem11_1 : Fin 1 → DmaSem sig := fun | 0 => cc11_sem1_0 | ⟨_ + 1, h⟩ => absurd h (Nat.not_lt.2 (Nat.le_add_left _ _))
abbrev reads11_1 : Fin grid11.rank → Bool := ![false]

abbrev stage11_2 : Fin 1 → Memref sig .tc .vmem S1x128 .f32 := fun | 0 => Memref.whole cc11_stg2_0 | ⟨_ + 1, h⟩ => absurd h (Nat.not_lt.2 (Nat.le_add_left _ _))
abbrev sem11_2 : Fin 1 → DmaSem sig := fun | 0 => cc11_sem2_0 | ⟨_ + 1, h⟩ => absurd h (Nat.not_lt.2 (Nat.le_add_left _ _))
abbrev reads11_2 : Fin grid11.rank → Bool := ![false]

abbrev stage11_3 : Fin 1 → Memref sig .tc .vmem S1x128 .f32 := fun | 0 => Memref.whole cc11_stg3_0 | ⟨_ + 1, h⟩ => absurd h (Nat.not_lt.2 (Nat.le_add_left _ _))
abbrev sem11_3 : Fin 1 → DmaSem sig := fun | 0 => cc11_sem3_0 | ⟨_ + 1, h⟩ => absurd h (Nat.not_lt.2 (Nat.le_add_left _ _))
abbrev reads11_3 : Fin grid11.rank → Bool := ![false]

abbrev stage11_4 : Fin 1 → Memref sig .tc .vmem S1x128 .f32 := fun | 0 => Memref.whole cc11_stg4_0 | ⟨_ + 1, h⟩ => absurd h (Nat.not_lt.2 (Nat.le_add_left _ _))
abbrev sem11_4 : Fin 1 → DmaSem sig := fun | 0 => cc11_sem4_0 | ⟨_ + 1, h⟩ => absurd h (Nat.not_lt.2 (Nat.le_add_left _ _))
abbrev reads11_4 : Fin grid11.rank → Bool := ![false]

abbrev stage11_5 : Fin 2 → Memref sig .tc .vmem S5000x128 .f32 := fun | 0 => Memref.whole cc11_stg5_0 | 1 => Memref.whole cc11_stg5_1 | ⟨_ + 2, h⟩ => absurd h (Nat.not_lt.2 (Nat.le_add_left _ _))
abbrev sem11_5 : Fin 2 → DmaSem sig := fun | 0 => cc11_sem5_0 | 1 => cc11_sem5_1 | ⟨_ + 2, h⟩ => absurd h (Nat.not_lt.2 (Nat.le_add_left _ _))
abbrev reads11_5 : Fin grid11.rank → Bool := ![true]

abbrev stage11_6 : Fin 1 → Memref sig .tc .vmem S1x128 .f32 := fun | 0 => Memref.whole cc11_stg6_0 | ⟨_ + 1, h⟩ => absurd h (Nat.not_lt.2 (Nat.le_add_left _ _))
abbrev sem11_6 : Fin 1 → DmaSem sig := fun | 0 => cc11_sem6_0 | ⟨_ + 1, h⟩ => absurd h (Nat.not_lt.2 (Nat.le_add_left _ _))
abbrev reads11_6 : Fin grid11.rank → Bool := ![false]

abbrev stage11_7 : Fin 1 → Memref sig .tc .vmem S1x128 .f32 := fun | 0 => Memref.whole cc11_stg7_0 | ⟨_ + 1, h⟩ => absurd h (Nat.not_lt.2 (Nat.le_add_left _ _))
abbrev sem11_7 : Fin 1 → DmaSem sig := fun | 0 => cc11_sem7_0 | ⟨_ + 1, h⟩ => absurd h (Nat.not_lt.2 (Nat.le_add_left _ _))
abbrev reads11_7 : Fin grid11.rank → Bool := ![false]

abbrev grid12 : Pipeline.Grid := ⟨1, ![10], ![false]⟩

def cc12_transform_0 (i : grid12.Coords) : Fin 2 → Nat :=
  let arg0 : BitVec 32 := BitVec.ofNat 32 (i 0).val
  let c0_i32 : BitVec 32 := 0#32
  let c0_i32_0 : BitVec 32 := 0#32
  ![arg0.toNat, c0_i32.toNat]

def cc12_transform_1 (i : grid12.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc12_transform_2 (i : grid12.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc12_transform_3 (i : grid12.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc12_transform_4 (i : grid12.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc12_transform_5 (i : grid12.Coords) : Fin 2 → Nat :=
  let arg0 : BitVec 32 := BitVec.ofNat 32 (i 0).val
  let c0_i32 : BitVec 32 := 0#32
  let c0_i32_0 : BitVec 32 := 0#32
  ![arg0.toNat, c0_i32.toNat]

def cc12_transform_6 (i : grid12.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage12_0 : Fin 2 → Memref sig .tc .vmem S5000x128 .f32 := fun | 0 => Memref.whole cc12_stg0_0 | 1 => Memref.whole cc12_stg0_1 | ⟨_ + 2, h⟩ => absurd h (Nat.not_lt.2 (Nat.le_add_left _ _))
abbrev sem12_0 : Fin 2 → DmaSem sig := fun | 0 => cc12_sem0_0 | 1 => cc12_sem0_1 | ⟨_ + 2, h⟩ => absurd h (Nat.not_lt.2 (Nat.le_add_left _ _))
abbrev reads12_0 : Fin grid12.rank → Bool := ![true]

abbrev stage12_1 : Fin 1 → Memref sig .tc .vmem S1x128 .f32 := fun | 0 => Memref.whole cc12_stg1_0 | ⟨_ + 1, h⟩ => absurd h (Nat.not_lt.2 (Nat.le_add_left _ _))
abbrev sem12_1 : Fin 1 → DmaSem sig := fun | 0 => cc12_sem1_0 | ⟨_ + 1, h⟩ => absurd h (Nat.not_lt.2 (Nat.le_add_left _ _))
abbrev reads12_1 : Fin grid12.rank → Bool := ![false]

abbrev stage12_2 : Fin 1 → Memref sig .tc .vmem S1x128 .f32 := fun | 0 => Memref.whole cc12_stg2_0 | ⟨_ + 1, h⟩ => absurd h (Nat.not_lt.2 (Nat.le_add_left _ _))
abbrev sem12_2 : Fin 1 → DmaSem sig := fun | 0 => cc12_sem2_0 | ⟨_ + 1, h⟩ => absurd h (Nat.not_lt.2 (Nat.le_add_left _ _))
abbrev reads12_2 : Fin grid12.rank → Bool := ![false]

abbrev stage12_3 : Fin 1 → Memref sig .tc .vmem S1x128 .f32 := fun | 0 => Memref.whole cc12_stg3_0 | ⟨_ + 1, h⟩ => absurd h (Nat.not_lt.2 (Nat.le_add_left _ _))
abbrev sem12_3 : Fin 1 → DmaSem sig := fun | 0 => cc12_sem3_0 | ⟨_ + 1, h⟩ => absurd h (Nat.not_lt.2 (Nat.le_add_left _ _))
abbrev reads12_3 : Fin grid12.rank → Bool := ![false]

abbrev stage12_4 : Fin 1 → Memref sig .tc .vmem S1x128 .f32 := fun | 0 => Memref.whole cc12_stg4_0 | ⟨_ + 1, h⟩ => absurd h (Nat.not_lt.2 (Nat.le_add_left _ _))
abbrev sem12_4 : Fin 1 → DmaSem sig := fun | 0 => cc12_sem4_0 | ⟨_ + 1, h⟩ => absurd h (Nat.not_lt.2 (Nat.le_add_left _ _))
abbrev reads12_4 : Fin grid12.rank → Bool := ![false]

abbrev stage12_5 : Fin 2 → Memref sig .tc .vmem S5000x128 .f32 := fun | 0 => Memref.whole cc12_stg5_0 | 1 => Memref.whole cc12_stg5_1 | ⟨_ + 2, h⟩ => absurd h (Nat.not_lt.2 (Nat.le_add_left _ _))
abbrev sem12_5 : Fin 2 → DmaSem sig := fun | 0 => cc12_sem5_0 | 1 => cc12_sem5_1 | ⟨_ + 2, h⟩ => absurd h (Nat.not_lt.2 (Nat.le_add_left _ _))
abbrev reads12_5 : Fin grid12.rank → Bool := ![true]

abbrev stage12_6 : Fin 2 → Memref sig .tc .vmem S5000x128 .f32 := fun | 0 => Memref.whole cc12_stg6_0 | 1 => Memref.whole cc12_stg6_1 | ⟨_ + 2, h⟩ => absurd h (Nat.not_lt.2 (Nat.le_add_left _ _))
abbrev sem12_6 : Fin 2 → DmaSem sig := fun | 0 => cc12_sem6_0 | 1 => cc12_sem6_1 | ⟨_ + 2, h⟩ => absurd h (Nat.not_lt.2 (Nat.le_add_left _ _))
abbrev reads12_6 : Fin grid12.rank → Bool := ![true]

abbrev grid13 : Pipeline.Grid := ⟨1, ![10], ![false]⟩

def cc13_transform_0 (i : grid13.Coords) : Fin 2 → Nat :=
  let arg0 : BitVec 32 := BitVec.ofNat 32 (i 0).val
  let c0_i32 : BitVec 32 := 0#32
  let c0_i32_0 : BitVec 32 := 0#32
  ![arg0.toNat, c0_i32.toNat]

def cc13_transform_1 (i : grid13.Coords) : Fin 2 → Nat :=
  let arg0 : BitVec 32 := BitVec.ofNat 32 (i 0).val
  let c0_i32 : BitVec 32 := 0#32
  let c0_i32_0 : BitVec 32 := 0#32
  ![arg0.toNat, c0_i32.toNat]

def cc13_transform_2 (i : grid13.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc13_transform_3 (i : grid13.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc13_transform_4 (i : grid13.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc13_transform_5 (i : grid13.Coords) : Fin 2 → Nat :=
  let arg0 : BitVec 32 := BitVec.ofNat 32 (i 0).val
  let c0_i32 : BitVec 32 := 0#32
  let c0_i32_0 : BitVec 32 := 0#32
  ![arg0.toNat, c0_i32.toNat]

def cc13_transform_6 (i : grid13.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc13_transform_7 (i : grid13.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage13_0 : Fin 2 → Memref sig .tc .vmem S5000x128 .f32 := fun | 0 => Memref.whole cc13_stg0_0 | 1 => Memref.whole cc13_stg0_1 | ⟨_ + 2, h⟩ => absurd h (Nat.not_lt.2 (Nat.le_add_left _ _))
abbrev sem13_0 : Fin 2 → DmaSem sig := fun | 0 => cc13_sem0_0 | 1 => cc13_sem0_1 | ⟨_ + 2, h⟩ => absurd h (Nat.not_lt.2 (Nat.le_add_left _ _))
abbrev reads13_0 : Fin grid13.rank → Bool := ![true]

abbrev stage13_1 : Fin 2 → Memref sig .tc .vmem S5000x128 .f32 := fun | 0 => Memref.whole cc13_stg1_0 | 1 => Memref.whole cc13_stg1_1 | ⟨_ + 2, h⟩ => absurd h (Nat.not_lt.2 (Nat.le_add_left _ _))
abbrev sem13_1 : Fin 2 → DmaSem sig := fun | 0 => cc13_sem1_0 | 1 => cc13_sem1_1 | ⟨_ + 2, h⟩ => absurd h (Nat.not_lt.2 (Nat.le_add_left _ _))
abbrev reads13_1 : Fin grid13.rank → Bool := ![true]

abbrev stage13_2 : Fin 1 → Memref sig .tc .vmem S1x1 .f32 := fun | 0 => Memref.whole cc13_stg2_0 | ⟨_ + 1, h⟩ => absurd h (Nat.not_lt.2 (Nat.le_add_left _ _))
abbrev sem13_2 : Fin 1 → DmaSem sig := fun | 0 => cc13_sem2_0 | ⟨_ + 1, h⟩ => absurd h (Nat.not_lt.2 (Nat.le_add_left _ _))
abbrev reads13_2 : Fin grid13.rank → Bool := ![false]

abbrev stage13_3 : Fin 1 → Memref sig .tc .vmem S128x128 .f32 := fun | 0 => Memref.whole cc13_stg3_0 | ⟨_ + 1, h⟩ => absurd h (Nat.not_lt.2 (Nat.le_add_left _ _))
abbrev sem13_3 : Fin 1 → DmaSem sig := fun | 0 => cc13_sem3_0 | ⟨_ + 1, h⟩ => absurd h (Nat.not_lt.2 (Nat.le_add_left _ _))
abbrev reads13_3 : Fin grid13.rank → Bool := ![false]

abbrev stage13_4 : Fin 1 → Memref sig .tc .vmem S1x128 .f32 := fun | 0 => Memref.whole cc13_stg4_0 | ⟨_ + 1, h⟩ => absurd h (Nat.not_lt.2 (Nat.le_add_left _ _))
abbrev sem13_4 : Fin 1 → DmaSem sig := fun | 0 => cc13_sem4_0 | ⟨_ + 1, h⟩ => absurd h (Nat.not_lt.2 (Nat.le_add_left _ _))
abbrev reads13_4 : Fin grid13.rank → Bool := ![false]

abbrev stage13_5 : Fin 2 → Memref sig .tc .vmem S5000x128 .f32 := fun | 0 => Memref.whole cc13_stg5_0 | 1 => Memref.whole cc13_stg5_1 | ⟨_ + 2, h⟩ => absurd h (Nat.not_lt.2 (Nat.le_add_left _ _))
abbrev sem13_5 : Fin 2 → DmaSem sig := fun | 0 => cc13_sem5_0 | 1 => cc13_sem5_1 | ⟨_ + 2, h⟩ => absurd h (Nat.not_lt.2 (Nat.le_add_left _ _))
abbrev reads13_5 : Fin grid13.rank → Bool := ![true]

abbrev stage13_6 : Fin 1 → Memref sig .tc .vmem S1x128 .f32 := fun | 0 => Memref.whole cc13_stg6_0 | ⟨_ + 1, h⟩ => absurd h (Nat.not_lt.2 (Nat.le_add_left _ _))
abbrev sem13_6 : Fin 1 → DmaSem sig := fun | 0 => cc13_sem6_0 | ⟨_ + 1, h⟩ => absurd h (Nat.not_lt.2 (Nat.le_add_left _ _))
abbrev reads13_6 : Fin grid13.rank → Bool := ![false]

abbrev stage13_7 : Fin 1 → Memref sig .tc .vmem S1x128 .f32 := fun | 0 => Memref.whole cc13_stg7_0 | ⟨_ + 1, h⟩ => absurd h (Nat.not_lt.2 (Nat.le_add_left _ _))
abbrev sem13_7 : Fin 1 → DmaSem sig := fun | 0 => cc13_sem7_0 | ⟨_ + 1, h⟩ => absurd h (Nat.not_lt.2 (Nat.le_add_left _ _))
abbrev reads13_7 : Fin grid13.rank → Bool := ![false]

abbrev grid14 : Pipeline.Grid := ⟨1, ![10], ![false]⟩

def cc14_transform_0 (i : grid14.Coords) : Fin 2 → Nat :=
  let arg0 : BitVec 32 := BitVec.ofNat 32 (i 0).val
  let c0_i32 : BitVec 32 := 0#32
  let c0_i32_0 : BitVec 32 := 0#32
  ![arg0.toNat, c0_i32.toNat]

def cc14_transform_1 (i : grid14.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc14_transform_2 (i : grid14.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc14_transform_3 (i : grid14.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc14_transform_4 (i : grid14.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc14_transform_5 (i : grid14.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc14_transform_6 (i : grid14.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc14_transform_7 (i : grid14.Coords) : Fin 2 → Nat :=
  let arg0 : BitVec 32 := BitVec.ofNat 32 (i 0).val
  let c0_i32 : BitVec 32 := 0#32
  let c0_i32_0 : BitVec 32 := 0#32
  ![arg0.toNat, c0_i32.toNat]

def cc14_transform_8 (i : grid14.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc14_transform_9 (i : grid14.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage14_0 : Fin 2 → Memref sig .tc .vmem S5000x128 .f32 := fun | 0 => Memref.whole cc14_stg0_0 | 1 => Memref.whole cc14_stg0_1 | ⟨_ + 2, h⟩ => absurd h (Nat.not_lt.2 (Nat.le_add_left _ _))
abbrev sem14_0 : Fin 2 → DmaSem sig := fun | 0 => cc14_sem0_0 | 1 => cc14_sem0_1 | ⟨_ + 2, h⟩ => absurd h (Nat.not_lt.2 (Nat.le_add_left _ _))
abbrev reads14_0 : Fin grid14.rank → Bool := ![true]

abbrev stage14_1 : Fin 1 → Memref sig .tc .vmem S1x128 .f32 := fun | 0 => Memref.whole cc14_stg1_0 | ⟨_ + 1, h⟩ => absurd h (Nat.not_lt.2 (Nat.le_add_left _ _))
abbrev sem14_1 : Fin 1 → DmaSem sig := fun | 0 => cc14_sem1_0 | ⟨_ + 1, h⟩ => absurd h (Nat.not_lt.2 (Nat.le_add_left _ _))
abbrev reads14_1 : Fin grid14.rank → Bool := ![false]

abbrev stage14_2 : Fin 1 → Memref sig .tc .vmem S1x128 .f32 := fun | 0 => Memref.whole cc14_stg2_0 | ⟨_ + 1, h⟩ => absurd h (Nat.not_lt.2 (Nat.le_add_left _ _))
abbrev sem14_2 : Fin 1 → DmaSem sig := fun | 0 => cc14_sem2_0 | ⟨_ + 1, h⟩ => absurd h (Nat.not_lt.2 (Nat.le_add_left _ _))
abbrev reads14_2 : Fin grid14.rank → Bool := ![false]

abbrev stage14_3 : Fin 1 → Memref sig .tc .vmem S1x128 .f32 := fun | 0 => Memref.whole cc14_stg3_0 | ⟨_ + 1, h⟩ => absurd h (Nat.not_lt.2 (Nat.le_add_left _ _))
abbrev sem14_3 : Fin 1 → DmaSem sig := fun | 0 => cc14_sem3_0 | ⟨_ + 1, h⟩ => absurd h (Nat.not_lt.2 (Nat.le_add_left _ _))
abbrev reads14_3 : Fin grid14.rank → Bool := ![false]

abbrev stage14_4 : Fin 1 → Memref sig .tc .vmem S1x128 .f32 := fun | 0 => Memref.whole cc14_stg4_0 | ⟨_ + 1, h⟩ => absurd h (Nat.not_lt.2 (Nat.le_add_left _ _))
abbrev sem14_4 : Fin 1 → DmaSem sig := fun | 0 => cc14_sem4_0 | ⟨_ + 1, h⟩ => absurd h (Nat.not_lt.2 (Nat.le_add_left _ _))
abbrev reads14_4 : Fin grid14.rank → Bool := ![false]

abbrev stage14_5 : Fin 1 → Memref sig .tc .vmem S128x128 .f32 := fun | 0 => Memref.whole cc14_stg5_0 | ⟨_ + 1, h⟩ => absurd h (Nat.not_lt.2 (Nat.le_add_left _ _))
abbrev sem14_5 : Fin 1 → DmaSem sig := fun | 0 => cc14_sem5_0 | ⟨_ + 1, h⟩ => absurd h (Nat.not_lt.2 (Nat.le_add_left _ _))
abbrev reads14_5 : Fin grid14.rank → Bool := ![false]

abbrev stage14_6 : Fin 1 → Memref sig .tc .vmem S1x128 .f32 := fun | 0 => Memref.whole cc14_stg6_0 | ⟨_ + 1, h⟩ => absurd h (Nat.not_lt.2 (Nat.le_add_left _ _))
abbrev sem14_6 : Fin 1 → DmaSem sig := fun | 0 => cc14_sem6_0 | ⟨_ + 1, h⟩ => absurd h (Nat.not_lt.2 (Nat.le_add_left _ _))
abbrev reads14_6 : Fin grid14.rank → Bool := ![false]

abbrev stage14_7 : Fin 2 → Memref sig .tc .vmem S5000x128 .f32 := fun | 0 => Memref.whole cc14_stg7_0 | 1 => Memref.whole cc14_stg7_1 | ⟨_ + 2, h⟩ => absurd h (Nat.not_lt.2 (Nat.le_add_left _ _))
abbrev sem14_7 : Fin 2 → DmaSem sig := fun | 0 => cc14_sem7_0 | 1 => cc14_sem7_1 | ⟨_ + 2, h⟩ => absurd h (Nat.not_lt.2 (Nat.le_add_left _ _))
abbrev reads14_7 : Fin grid14.rank → Bool := ![true]

abbrev stage14_8 : Fin 1 → Memref sig .tc .vmem S1x128 .f32 := fun | 0 => Memref.whole cc14_stg8_0 | ⟨_ + 1, h⟩ => absurd h (Nat.not_lt.2 (Nat.le_add_left _ _))
abbrev sem14_8 : Fin 1 → DmaSem sig := fun | 0 => cc14_sem8_0 | ⟨_ + 1, h⟩ => absurd h (Nat.not_lt.2 (Nat.le_add_left _ _))
abbrev reads14_8 : Fin grid14.rank → Bool := ![false]

abbrev stage14_9 : Fin 1 → Memref sig .tc .vmem S1x128 .f32 := fun | 0 => Memref.whole cc14_stg9_0 | ⟨_ + 1, h⟩ => absurd h (Nat.not_lt.2 (Nat.le_add_left _ _))
abbrev sem14_9 : Fin 1 → DmaSem sig := fun | 0 => cc14_sem9_0 | ⟨_ + 1, h⟩ => absurd h (Nat.not_lt.2 (Nat.le_add_left _ _))
abbrev reads14_9 : Fin grid14.rank → Bool := ![false]

abbrev grid15 : Pipeline.Grid := ⟨1, ![10], ![false]⟩

def cc15_transform_0 (i : grid15.Coords) : Fin 2 → Nat :=
  let arg0 : BitVec 32 := BitVec.ofNat 32 (i 0).val
  let c0_i32 : BitVec 32 := 0#32
  let c0_i32_0 : BitVec 32 := 0#32
  ![arg0.toNat, c0_i32.toNat]

def cc15_transform_1 (i : grid15.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc15_transform_2 (i : grid15.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc15_transform_3 (i : grid15.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc15_transform_4 (i : grid15.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc15_transform_5 (i : grid15.Coords) : Fin 2 → Nat :=
  let arg0 : BitVec 32 := BitVec.ofNat 32 (i 0).val
  let c0_i32 : BitVec 32 := 0#32
  let c0_i32_0 : BitVec 32 := 0#32
  ![arg0.toNat, c0_i32.toNat]

def cc15_transform_6 (i : grid15.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc15_transform_7 (i : grid15.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage15_0 : Fin 2 → Memref sig .tc .vmem S5000x128 .f32 := fun | 0 => Memref.whole cc15_stg0_0 | 1 => Memref.whole cc15_stg0_1 | ⟨_ + 2, h⟩ => absurd h (Nat.not_lt.2 (Nat.le_add_left _ _))
abbrev sem15_0 : Fin 2 → DmaSem sig := fun | 0 => cc15_sem0_0 | 1 => cc15_sem0_1 | ⟨_ + 2, h⟩ => absurd h (Nat.not_lt.2 (Nat.le_add_left _ _))
abbrev reads15_0 : Fin grid15.rank → Bool := ![true]

abbrev stage15_1 : Fin 1 → Memref sig .tc .vmem S1x128 .f32 := fun | 0 => Memref.whole cc15_stg1_0 | ⟨_ + 1, h⟩ => absurd h (Nat.not_lt.2 (Nat.le_add_left _ _))
abbrev sem15_1 : Fin 1 → DmaSem sig := fun | 0 => cc15_sem1_0 | ⟨_ + 1, h⟩ => absurd h (Nat.not_lt.2 (Nat.le_add_left _ _))
abbrev reads15_1 : Fin grid15.rank → Bool := ![false]

abbrev stage15_2 : Fin 1 → Memref sig .tc .vmem S1x128 .f32 := fun | 0 => Memref.whole cc15_stg2_0 | ⟨_ + 1, h⟩ => absurd h (Nat.not_lt.2 (Nat.le_add_left _ _))
abbrev sem15_2 : Fin 1 → DmaSem sig := fun | 0 => cc15_sem2_0 | ⟨_ + 1, h⟩ => absurd h (Nat.not_lt.2 (Nat.le_add_left _ _))
abbrev reads15_2 : Fin grid15.rank → Bool := ![false]

abbrev stage15_3 : Fin 1 → Memref sig .tc .vmem S1x128 .f32 := fun | 0 => Memref.whole cc15_stg3_0 | ⟨_ + 1, h⟩ => absurd h (Nat.not_lt.2 (Nat.le_add_left _ _))
abbrev sem15_3 : Fin 1 → DmaSem sig := fun | 0 => cc15_sem3_0 | ⟨_ + 1, h⟩ => absurd h (Nat.not_lt.2 (Nat.le_add_left _ _))
abbrev reads15_3 : Fin grid15.rank → Bool := ![false]

abbrev stage15_4 : Fin 1 → Memref sig .tc .vmem S1x128 .f32 := fun | 0 => Memref.whole cc15_stg4_0 | ⟨_ + 1, h⟩ => absurd h (Nat.not_lt.2 (Nat.le_add_left _ _))
abbrev sem15_4 : Fin 1 → DmaSem sig := fun | 0 => cc15_sem4_0 | ⟨_ + 1, h⟩ => absurd h (Nat.not_lt.2 (Nat.le_add_left _ _))
abbrev reads15_4 : Fin grid15.rank → Bool := ![false]

abbrev stage15_5 : Fin 2 → Memref sig .tc .vmem S5000x128 .f32 := fun | 0 => Memref.whole cc15_stg5_0 | 1 => Memref.whole cc15_stg5_1 | ⟨_ + 2, h⟩ => absurd h (Nat.not_lt.2 (Nat.le_add_left _ _))
abbrev sem15_5 : Fin 2 → DmaSem sig := fun | 0 => cc15_sem5_0 | 1 => cc15_sem5_1 | ⟨_ + 2, h⟩ => absurd h (Nat.not_lt.2 (Nat.le_add_left _ _))
abbrev reads15_5 : Fin grid15.rank → Bool := ![true]

abbrev stage15_6 : Fin 1 → Memref sig .tc .vmem S1x128 .f32 := fun | 0 => Memref.whole cc15_stg6_0 | ⟨_ + 1, h⟩ => absurd h (Nat.not_lt.2 (Nat.le_add_left _ _))
abbrev sem15_6 : Fin 1 → DmaSem sig := fun | 0 => cc15_sem6_0 | ⟨_ + 1, h⟩ => absurd h (Nat.not_lt.2 (Nat.le_add_left _ _))
abbrev reads15_6 : Fin grid15.rank → Bool := ![false]

abbrev stage15_7 : Fin 1 → Memref sig .tc .vmem S1x128 .f32 := fun | 0 => Memref.whole cc15_stg7_0 | ⟨_ + 1, h⟩ => absurd h (Nat.not_lt.2 (Nat.le_add_left _ _))
abbrev sem15_7 : Fin 1 → DmaSem sig := fun | 0 => cc15_sem7_0 | ⟨_ + 1, h⟩ => absurd h (Nat.not_lt.2 (Nat.le_add_left _ _))
abbrev reads15_7 : Fin grid15.rank → Bool := ![false]

abbrev grid16 : Pipeline.Grid := ⟨1, ![10], ![false]⟩

def cc16_transform_0 (i : grid16.Coords) : Fin 2 → Nat :=
  let arg0 : BitVec 32 := BitVec.ofNat 32 (i 0).val
  let c0_i32 : BitVec 32 := 0#32
  let c0_i32_0 : BitVec 32 := 0#32
  ![arg0.toNat, c0_i32.toNat]

def cc16_transform_1 (i : grid16.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc16_transform_2 (i : grid16.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc16_transform_3 (i : grid16.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc16_transform_4 (i : grid16.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc16_transform_5 (i : grid16.Coords) : Fin 2 → Nat :=
  let arg0 : BitVec 32 := BitVec.ofNat 32 (i 0).val
  let c0_i32 : BitVec 32 := 0#32
  let c0_i32_0 : BitVec 32 := 0#32
  ![arg0.toNat, c0_i32.toNat]

def cc16_transform_6 (i : grid16.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage16_0 : Fin 2 → Memref sig .tc .vmem S5000x128 .f32 := fun | 0 => Memref.whole cc16_stg0_0 | 1 => Memref.whole cc16_stg0_1 | ⟨_ + 2, h⟩ => absurd h (Nat.not_lt.2 (Nat.le_add_left _ _))
abbrev sem16_0 : Fin 2 → DmaSem sig := fun | 0 => cc16_sem0_0 | 1 => cc16_sem0_1 | ⟨_ + 2, h⟩ => absurd h (Nat.not_lt.2 (Nat.le_add_left _ _))
abbrev reads16_0 : Fin grid16.rank → Bool := ![true]

abbrev stage16_1 : Fin 1 → Memref sig .tc .vmem S1x128 .f32 := fun | 0 => Memref.whole cc16_stg1_0 | ⟨_ + 1, h⟩ => absurd h (Nat.not_lt.2 (Nat.le_add_left _ _))
abbrev sem16_1 : Fin 1 → DmaSem sig := fun | 0 => cc16_sem1_0 | ⟨_ + 1, h⟩ => absurd h (Nat.not_lt.2 (Nat.le_add_left _ _))
abbrev reads16_1 : Fin grid16.rank → Bool := ![false]

abbrev stage16_2 : Fin 1 → Memref sig .tc .vmem S1x128 .f32 := fun | 0 => Memref.whole cc16_stg2_0 | ⟨_ + 1, h⟩ => absurd h (Nat.not_lt.2 (Nat.le_add_left _ _))
abbrev sem16_2 : Fin 1 → DmaSem sig := fun | 0 => cc16_sem2_0 | ⟨_ + 1, h⟩ => absurd h (Nat.not_lt.2 (Nat.le_add_left _ _))
abbrev reads16_2 : Fin grid16.rank → Bool := ![false]

abbrev stage16_3 : Fin 1 → Memref sig .tc .vmem S1x128 .f32 := fun | 0 => Memref.whole cc16_stg3_0 | ⟨_ + 1, h⟩ => absurd h (Nat.not_lt.2 (Nat.le_add_left _ _))
abbrev sem16_3 : Fin 1 → DmaSem sig := fun | 0 => cc16_sem3_0 | ⟨_ + 1, h⟩ => absurd h (Nat.not_lt.2 (Nat.le_add_left _ _))
abbrev reads16_3 : Fin grid16.rank → Bool := ![false]

abbrev stage16_4 : Fin 1 → Memref sig .tc .vmem S1x128 .f32 := fun | 0 => Memref.whole cc16_stg4_0 | ⟨_ + 1, h⟩ => absurd h (Nat.not_lt.2 (Nat.le_add_left _ _))
abbrev sem16_4 : Fin 1 → DmaSem sig := fun | 0 => cc16_sem4_0 | ⟨_ + 1, h⟩ => absurd h (Nat.not_lt.2 (Nat.le_add_left _ _))
abbrev reads16_4 : Fin grid16.rank → Bool := ![false]

abbrev stage16_5 : Fin 2 → Memref sig .tc .vmem S5000x128 .f32 := fun | 0 => Memref.whole cc16_stg5_0 | 1 => Memref.whole cc16_stg5_1 | ⟨_ + 2, h⟩ => absurd h (Nat.not_lt.2 (Nat.le_add_left _ _))
abbrev sem16_5 : Fin 2 → DmaSem sig := fun | 0 => cc16_sem5_0 | 1 => cc16_sem5_1 | ⟨_ + 2, h⟩ => absurd h (Nat.not_lt.2 (Nat.le_add_left _ _))
abbrev reads16_5 : Fin grid16.rank → Bool := ![true]

abbrev stage16_6 : Fin 2 → Memref sig .tc .vmem S5000x128 .f32 := fun | 0 => Memref.whole cc16_stg6_0 | 1 => Memref.whole cc16_stg6_1 | ⟨_ + 2, h⟩ => absurd h (Nat.not_lt.2 (Nat.le_add_left _ _))
abbrev sem16_6 : Fin 2 → DmaSem sig := fun | 0 => cc16_sem6_0 | 1 => cc16_sem6_1 | ⟨_ + 2, h⟩ => absurd h (Nat.not_lt.2 (Nat.le_add_left _ _))
abbrev reads16_6 : Fin grid16.rank → Bool := ![true]

class Facts₀ : Prop where
  shapeCasts_S128_S1x128 : S128.ShapeCasts S1x128
  inb_S5000x128_S5000x128_0_0 : ∀ a, (![0, 0] : Fin 2 → Nat) a + S5000x128.size a ≤ S5000x128.size a
  h_S5000x128 : 0 < S5000x128.numel
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S50000x128 : S_.BroadcastsInDim S50000x128 (![] : Fin 0 → Fin S50000x128.rank)
  slices_S4_S1_0 : S4.Slices ![0] S1
  shapeCasts_S1_S_ : S1.ShapeCasts S_
  shapeCasts_S_S1x1 : S_.ShapeCasts S1x1
  slices_S4x128_S1x128_0_0 : S4x128.Slices ![0, 0] S1x128
  shapeCasts_S1x128_S128 : S1x128.ShapeCasts S128
  slices_S4x128x128_S1x128x128_0_0_0 : S4x128x128.Slices ![0, 0, 0] S1x128x128
  shapeCasts_S1x128x128_S128x128 : S1x128x128.ShapeCasts S128x128
  inb_S1x1_S1x1_0_0 : ∀ a, (![0, 0] : Fin 2 → Nat) a + S1x1.size a ≤ S1x1.size a
  h_S1x1 : 0 < S1x1.numel
  inpos_S1x1_p0_0 : ∀ a, (![0, 0] : Fin 2 → Nat) a < S1x1.size a
  shapeCasts_S5000x128_S5000x128 : S5000x128.ShapeCasts S5000x128
  shapeCasts_S128x128_S128x128 : S128x128.ShapeCasts S128x128
  reduces_S5000x128_S128 : S5000x128.Reduces [0] S128
  bcast_S_S1x128 : S_.BroadcastsInDim S1x128 (![] : Fin 0 → Fin S1x128.rank)
  slices_S4_S1_1 : S4.Slices ![1] S1
  slices_S4x128_S1x128_1_0 : S4x128.Slices ![1, 0] S1x128
  slices_S4x128x128_S1x128x128_1_0_0 : S4x128x128.Slices ![1, 0, 0] S1x128x128
  slices_S4_S1_2 : S4.Slices ![2] S1
  slices_S4x128_S1x128_2_0 : S4x128.Slices ![2, 0] S1x128
  slices_S4x128x128_S1x128x128_2_0_0 : S4x128x128.Slices ![2, 0, 0] S1x128x128
  slices_S4_S1_3 : S4.Slices ![3] S1
  slices_S4x128_S1x128_3_0 : S4x128.Slices ![3, 0] S1x128
  slices_S4x128x128_S1x128x128_3_0_0 : S4x128x128.Slices ![3, 0, 0] S1x128x128
  dot_S5000x128_S128x128_S5000x128_1_0_0_1_n_n_wf : DotDims.WF S5000x128 S128x128 S5000x128 [1] [0] [0] [1] [] []
  gather_S50000x128_S1600000x1_S1600000x128_1_0_n_n_0_1_1128_wf : GatherDims.WF S50000x128 S1600000x1 S1600000x128 [1] [0] [] [0] [] 1 ![1, 128]
  scatter_S50000x128_S1600000x1_S1600000x128_1_0_0_1_wf : ScatterDims.WF S50000x128 S1600000x1 S1600000x128 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S50000x128.size a
  hwx0_0 : ∀ i : grid0.Coords, EltTy.bits .f32 = 32 ∨ (Rect.block (s := S50000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x128.size a ≤ S1x128.size a
  hwx0_2 : ∀ i : grid0.Coords, EltTy.bits .f32 = 32 ∨ (Rect.block (s := S1x128) S1x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S5000x128.size a ≤ S50000x128.size a
  hwx0_3 : ∀ i : grid0.Coords, EltTy.bits .f32 = 32 ∨ (Rect.block (s := S50000x128) S5000x128.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S50000x128.size a
  hwx1_0 : ∀ i : grid1.Coords, EltTy.bits .f32 = 32 ∨ (Rect.block (s := S50000x128) S5000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x128.size a ≤ S50000x128.size a
  hwx1_1 : ∀ i : grid1.Coords, EltTy.bits .f32 = 32 ∨ (Rect.block (s := S50000x128) S5000x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x1.size a ≤ S1x1.size a
  hwx1_2 : ∀ i : grid1.Coords, EltTy.bits .f32 = 32 ∨ (Rect.block (s := S1x1) S1x1.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128x128.size a ≤ S128x128.size a
  hwx1_3 : ∀ i : grid1.Coords, EltTy.bits .f32 = 32 ∨ (Rect.block (s := S128x128) S128x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x128.size a ≤ S1x128.size a
  hwx1_4 : ∀ i : grid1.Coords, EltTy.bits .f32 = 32 ∨ (Rect.block (s := S1x128) S1x128.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S5000x128.size a ≤ S50000x128.size a
  hwx1_5 : ∀ i : grid1.Coords, EltTy.bits .f32 = 32 ∨ (Rect.block (s := S50000x128) S5000x128.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S1x128.size a ≤ S1x128.size a
  hwx1_6 : ∀ i : grid1.Coords, EltTy.bits .f32 = 32 ∨ (Rect.block (s := S1x128) S1x128.size (cc1_transform_6 i) (hinb1_6 i)).WholeWords (EltTy.packing .f32)
  hstage1_7 : ∀ j, (stage1_7 j).IsWhole
  nbuf1_7 : grid1.bufCount reads1_7 true = 1
  hreads1_7 : ∀ i i' : grid1.Coords, (∀ a, reads1_7 a = true → i a = i' a) → cc1_transform_7 i = cc1_transform_7 i'
  hinb1_7 : ∀ (i : grid1.Coords) a, (cc1_transform_7 i a + 1) * S1x128.size a ≤ S1x128.size a
  hwx1_7 : ∀ i : grid1.Coords, EltTy.bits .f32 = 32 ∨ (Rect.block (s := S1x128) S1x128.size (cc1_transform_7 i) (hinb1_7 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S50000x128.size a
  hwx2_0 : ∀ i : grid2.Coords, EltTy.bits .f32 = 32 ∨ (Rect.block (s := S50000x128) S5000x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S1x128.size a ≤ S1x128.size a
  hwx2_1 : ∀ i : grid2.Coords, EltTy.bits .f32 = 32 ∨ (Rect.block (s := S1x128) S1x128.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x128.size a ≤ S1x128.size a
  hwx2_2 : ∀ i : grid2.Coords, EltTy.bits .f32 = 32 ∨ (Rect.block (s := S1x128) S1x128.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x128.size a ≤ S1x128.size a
  hwx2_3 : ∀ i : grid2.Coords, EltTy.bits .f32 = 32 ∨ (Rect.block (s := S1x128) S1x128.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x128.size a ≤ S1x128.size a
  hwx2_4 : ∀ i : grid2.Coords, EltTy.bits .f32 = 32 ∨ (Rect.block (s := S1x128) S1x128.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S128x128.size a ≤ S128x128.size a
  hwx2_5 : ∀ i : grid2.Coords, EltTy.bits .f32 = 32 ∨ (Rect.block (s := S128x128) S128x128.size (cc2_transform_5 i) (hinb2_5 i)).WholeWords (EltTy.packing .f32)
  hstage2_6 : ∀ j, (stage2_6 j).IsWhole
  nbuf2_6 : grid2.bufCount reads2_6 true = 1
  hreads2_6 : ∀ i i' : grid2.Coords, (∀ a, reads2_6 a = true → i a = i' a) → cc2_transform_6 i = cc2_transform_6 i'
  hinb2_6 : ∀ (i : grid2.Coords) a, (cc2_transform_6 i a + 1) * S1x128.size a ≤ S1x128.size a
  hwx2_6 : ∀ i : grid2.Coords, EltTy.bits .f32 = 32 ∨ (Rect.block (s := S1x128) S1x128.size (cc2_transform_6 i) (hinb2_6 i)).WholeWords (EltTy.packing .f32)
  hstage2_7 : ∀ j, (stage2_7 j).IsWhole
  nbuf2_7 : grid2.bufCount reads2_7 false = 2
  hreads2_7 : ∀ i i' : grid2.Coords, (∀ a, reads2_7 a = true → i a = i' a) → cc2_transform_7 i = cc2_transform_7 i'
  hinb2_7 : ∀ (i : grid2.Coords) a, (cc2_transform_7 i a + 1) * S5000x128.size a ≤ S50000x128.size a
  hwx2_7 : ∀ i : grid2.Coords, EltTy.bits .f32 = 32 ∨ (Rect.block (s := S50000x128) S5000x128.size (cc2_transform_7 i) (hinb2_7 i)).WholeWords (EltTy.packing .f32)
  hstage2_8 : ∀ j, (stage2_8 j).IsWhole
  nbuf2_8 : grid2.bufCount reads2_8 true = 1
  hreads2_8 : ∀ i i' : grid2.Coords, (∀ a, reads2_8 a = true → i a = i' a) → cc2_transform_8 i = cc2_transform_8 i'
  hinb2_8 : ∀ (i : grid2.Coords) a, (cc2_transform_8 i a + 1) * S1x128.size a ≤ S1x128.size a
  hwx2_8 : ∀ i : grid2.Coords, EltTy.bits .f32 = 32 ∨ (Rect.block (s := S1x128) S1x128.size (cc2_transform_8 i) (hinb2_8 i)).WholeWords (EltTy.packing .f32)
  hstage2_9 : ∀ j, (stage2_9 j).IsWhole
  nbuf2_9 : grid2.bufCount reads2_9 true = 1
  hreads2_9 : ∀ i i' : grid2.Coords, (∀ a, reads2_9 a = true → i a = i' a) → cc2_transform_9 i = cc2_transform_9 i'
  hinb2_9 : ∀ (i : grid2.Coords) a, (cc2_transform_9 i a + 1) * S1x128.size a ≤ S1x128.size a
  hwx2_9 : ∀ i : grid2.Coords, EltTy.bits .f32 = 32 ∨ (Rect.block (s := S1x128) S1x128.size (cc2_transform_9 i) (hinb2_9 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x128.size a ≤ S50000x128.size a
  hwx3_0 : ∀ i : grid3.Coords, EltTy.bits .f32 = 32 ∨ (Rect.block (s := S50000x128) S5000x128.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S1x128.size a ≤ S1x128.size a
  hwx3_1 : ∀ i : grid3.Coords, EltTy.bits .f32 = 32 ∨ (Rect.block (s := S1x128) S1x128.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S1x128.size a ≤ S1x128.size a
  hwx3_2 : ∀ i : grid3.Coords, EltTy.bits .f32 = 32 ∨ (Rect.block (s := S1x128) S1x128.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S1x128.size a ≤ S1x128.size a
  hwx3_3 : ∀ i : grid3.Coords, EltTy.bits .f32 = 32 ∨ (Rect.block (s := S1x128) S1x128.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S1x128.size a ≤ S1x128.size a
  hwx3_4 : ∀ i : grid3.Coords, EltTy.bits .f32 = 32 ∨ (Rect.block (s := S1x128) S1x128.size (cc3_transform_4 i) (hinb3_4 i)).WholeWords (EltTy.packing .f32)
  hstage3_5 : ∀ j, (stage3_5 j).IsWhole
  nbuf3_5 : grid3.bufCount reads3_5 false = 2
  hreads3_5 : ∀ i i' : grid3.Coords, (∀ a, reads3_5 a = true → i a = i' a) → cc3_transform_5 i = cc3_transform_5 i'
  hinb3_5 : ∀ (i : grid3.Coords) a, (cc3_transform_5 i a + 1) * S5000x128.size a ≤ S50000x128.size a
  hwx3_5 : ∀ i : grid3.Coords, EltTy.bits .f32 = 32 ∨ (Rect.block (s := S50000x128) S5000x128.size (cc3_transform_5 i) (hinb3_5 i)).WholeWords (EltTy.packing .f32)
  hstage3_6 : ∀ j, (stage3_6 j).IsWhole
  nbuf3_6 : grid3.bufCount reads3_6 true = 1
  hreads3_6 : ∀ i i' : grid3.Coords, (∀ a, reads3_6 a = true → i a = i' a) → cc3_transform_6 i = cc3_transform_6 i'
  hinb3_6 : ∀ (i : grid3.Coords) a, (cc3_transform_6 i a + 1) * S1x128.size a ≤ S1x128.size a
  hwx3_6 : ∀ i : grid3.Coords, EltTy.bits .f32 = 32 ∨ (Rect.block (s := S1x128) S1x128.size (cc3_transform_6 i) (hinb3_6 i)).WholeWords (EltTy.packing .f32)
  hstage3_7 : ∀ j, (stage3_7 j).IsWhole
  nbuf3_7 : grid3.bufCount reads3_7 true = 1
  hreads3_7 : ∀ i i' : grid3.Coords, (∀ a, reads3_7 a = true → i a = i' a) → cc3_transform_7 i = cc3_transform_7 i'
  hinb3_7 : ∀ (i : grid3.Coords) a, (cc3_transform_7 i a + 1) * S1x128.size a ≤ S1x128.size a
  hwx3_7 : ∀ i : grid3.Coords, EltTy.bits .f32 = 32 ∨ (Rect.block (s := S1x128) S1x128.size (cc3_transform_7 i) (hinb3_7 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S5000x128.size a ≤ S50000x128.size a
  hwx4_0 : ∀ i : grid4.Coords, EltTy.bits .f32 = 32 ∨ (Rect.block (s := S50000x128) S5000x128.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S1x128.size a ≤ S1x128.size a
  hwx4_1 : ∀ i : grid4.Coords, EltTy.bits .f32 = 32 ∨ (Rect.block (s := S1x128) S1x128.size (cc4_transform_1 i) (hinb4_1 i)).WholeWords (EltTy.packing .f32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S1x128.size a ≤ S1x128.size a
  hwx4_2 : ∀ i : grid4.Coords, EltTy.bits .f32 = 32 ∨ (Rect.block (s := S1x128) S1x128.size (cc4_transform_2 i) (hinb4_2 i)).WholeWords (EltTy.packing .f32)
  hstage4_3 : ∀ j, (stage4_3 j).IsWhole
  nbuf4_3 : grid4.bufCount reads4_3 true = 1
  hreads4_3 : ∀ i i' : grid4.Coords, (∀ a, reads4_3 a = true → i a = i' a) → cc4_transform_3 i = cc4_transform_3 i'
  hinb4_3 : ∀ (i : grid4.Coords) a, (cc4_transform_3 i a + 1) * S1x128.size a ≤ S1x128.size a
  hwx4_3 : ∀ i : grid4.Coords, EltTy.bits .f32 = 32 ∨ (Rect.block (s := S1x128) S1x128.size (cc4_transform_3 i) (hinb4_3 i)).WholeWords (EltTy.packing .f32)
  hstage4_4 : ∀ j, (stage4_4 j).IsWhole
  nbuf4_4 : grid4.bufCount reads4_4 true = 1
  hreads4_4 : ∀ i i' : grid4.Coords, (∀ a, reads4_4 a = true → i a = i' a) → cc4_transform_4 i = cc4_transform_4 i'
  hinb4_4 : ∀ (i : grid4.Coords) a, (cc4_transform_4 i a + 1) * S1x128.size a ≤ S1x128.size a
  hwx4_4 : ∀ i : grid4.Coords, EltTy.bits .f32 = 32 ∨ (Rect.block (s := S1x128) S1x128.size (cc4_transform_4 i) (hinb4_4 i)).WholeWords (EltTy.packing .f32)
  hstage4_5 : ∀ j, (stage4_5 j).IsWhole
  nbuf4_5 : grid4.bufCount reads4_5 false = 2
  hreads4_5 : ∀ i i' : grid4.Coords, (∀ a, reads4_5 a = true → i a = i' a) → cc4_transform_5 i = cc4_transform_5 i'
  hinb4_5 : ∀ (i : grid4.Coords) a, (cc4_transform_5 i a + 1) * S5000x128.size a ≤ S50000x128.size a
  hwx4_5 : ∀ i : grid4.Coords, EltTy.bits .f32 = 32 ∨ (Rect.block (s := S50000x128) S5000x128.size (cc4_transform_5 i) (hinb4_5 i)).WholeWords (EltTy.packing .f32)
  hstage4_6 : ∀ j, (stage4_6 j).IsWhole
  nbuf4_6 : grid4.bufCount reads4_6 false = 2
  hreads4_6 : ∀ i i' : grid4.Coords, (∀ a, reads4_6 a = true → i a = i' a) → cc4_transform_6 i = cc4_transform_6 i'
  hinb4_6 : ∀ (i : grid4.Coords) a, (cc4_transform_6 i a + 1) * S5000x128.size a ≤ S50000x128.size a
  hwx4_6 : ∀ i : grid4.Coords, EltTy.bits .f32 = 32 ∨ (Rect.block (s := S50000x128) S5000x128.size (cc4_transform_6 i) (hinb4_6 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S5000x128.size a ≤ S50000x128.size a
  hwx5_0 : ∀ i : grid5.Coords, EltTy.bits .f32 = 32 ∨ (Rect.block (s := S50000x128) S5000x128.size (cc5_transform_0 i) (hinb5_0 i)).WholeWords (EltTy.packing .f32)
  hstage5_1 : ∀ j, (stage5_1 j).IsWhole
  nbuf5_1 : grid5.bufCount reads5_1 false = 2
  hreads5_1 : ∀ i i' : grid5.Coords, (∀ a, reads5_1 a = true → i a = i' a) → cc5_transform_1 i = cc5_transform_1 i'
  hinb5_1 : ∀ (i : grid5.Coords) a, (cc5_transform_1 i a + 1) * S5000x128.size a ≤ S50000x128.size a
  hwx5_1 : ∀ i : grid5.Coords, EltTy.bits .f32 = 32 ∨ (Rect.block (s := S50000x128) S5000x128.size (cc5_transform_1 i) (hinb5_1 i)).WholeWords (EltTy.packing .f32)
  hstage5_2 : ∀ j, (stage5_2 j).IsWhole
  nbuf5_2 : grid5.bufCount reads5_2 true = 1
  hreads5_2 : ∀ i i' : grid5.Coords, (∀ a, reads5_2 a = true → i a = i' a) → cc5_transform_2 i = cc5_transform_2 i'
  hinb5_2 : ∀ (i : grid5.Coords) a, (cc5_transform_2 i a + 1) * S1x1.size a ≤ S1x1.size a
  hwx5_2 : ∀ i : grid5.Coords, EltTy.bits .f32 = 32 ∨ (Rect.block (s := S1x1) S1x1.size (cc5_transform_2 i) (hinb5_2 i)).WholeWords (EltTy.packing .f32)
  hstage5_3 : ∀ j, (stage5_3 j).IsWhole
  nbuf5_3 : grid5.bufCount reads5_3 true = 1
  hreads5_3 : ∀ i i' : grid5.Coords, (∀ a, reads5_3 a = true → i a = i' a) → cc5_transform_3 i = cc5_transform_3 i'
  hinb5_3 : ∀ (i : grid5.Coords) a, (cc5_transform_3 i a + 1) * S128x128.size a ≤ S128x128.size a
  hwx5_3 : ∀ i : grid5.Coords, EltTy.bits .f32 = 32 ∨ (Rect.block (s := S128x128) S128x128.size (cc5_transform_3 i) (hinb5_3 i)).WholeWords (EltTy.packing .f32)
  hstage5_4 : ∀ j, (stage5_4 j).IsWhole
  nbuf5_4 : grid5.bufCount reads5_4 true = 1
  hreads5_4 : ∀ i i' : grid5.Coords, (∀ a, reads5_4 a = true → i a = i' a) → cc5_transform_4 i = cc5_transform_4 i'
  hinb5_4 : ∀ (i : grid5.Coords) a, (cc5_transform_4 i a + 1) * S1x128.size a ≤ S1x128.size a
  hwx5_4 : ∀ i : grid5.Coords, EltTy.bits .f32 = 32 ∨ (Rect.block (s := S1x128) S1x128.size (cc5_transform_4 i) (hinb5_4 i)).WholeWords (EltTy.packing .f32)
  hstage5_5 : ∀ j, (stage5_5 j).IsWhole
  nbuf5_5 : grid5.bufCount reads5_5 false = 2
  hreads5_5 : ∀ i i' : grid5.Coords, (∀ a, reads5_5 a = true → i a = i' a) → cc5_transform_5 i = cc5_transform_5 i'
  hinb5_5 : ∀ (i : grid5.Coords) a, (cc5_transform_5 i a + 1) * S5000x128.size a ≤ S50000x128.size a
  hwx5_5 : ∀ i : grid5.Coords, EltTy.bits .f32 = 32 ∨ (Rect.block (s := S50000x128) S5000x128.size (cc5_transform_5 i) (hinb5_5 i)).WholeWords (EltTy.packing .f32)
  hstage5_6 : ∀ j, (stage5_6 j).IsWhole
  nbuf5_6 : grid5.bufCount reads5_6 true = 1
  hreads5_6 : ∀ i i' : grid5.Coords, (∀ a, reads5_6 a = true → i a = i' a) → cc5_transform_6 i = cc5_transform_6 i'
  hinb5_6 : ∀ (i : grid5.Coords) a, (cc5_transform_6 i a + 1) * S1x128.size a ≤ S1x128.size a
  hwx5_6 : ∀ i : grid5.Coords, EltTy.bits .f32 = 32 ∨ (Rect.block (s := S1x128) S1x128.size (cc5_transform_6 i) (hinb5_6 i)).WholeWords (EltTy.packing .f32)
  hstage5_7 : ∀ j, (stage5_7 j).IsWhole
  nbuf5_7 : grid5.bufCount reads5_7 true = 1
  hreads5_7 : ∀ i i' : grid5.Coords, (∀ a, reads5_7 a = true → i a = i' a) → cc5_transform_7 i = cc5_transform_7 i'
  hinb5_7 : ∀ (i : grid5.Coords) a, (cc5_transform_7 i a + 1) * S1x128.size a ≤ S1x128.size a
  hwx5_7 : ∀ i : grid5.Coords, EltTy.bits .f32 = 32 ∨ (Rect.block (s := S1x128) S1x128.size (cc5_transform_7 i) (hinb5_7 i)).WholeWords (EltTy.packing .f32)
  hrank6 : 0 < grid6.rank
  hstage6_0 : ∀ j, (stage6_0 j).IsWhole
  nbuf6_0 : grid6.bufCount reads6_0 false = 2
  hreads6_0 : ∀ i i' : grid6.Coords, (∀ a, reads6_0 a = true → i a = i' a) → cc6_transform_0 i = cc6_transform_0 i'
  hinb6_0 : ∀ (i : grid6.Coords) a, (cc6_transform_0 i a + 1) * S5000x128.size a ≤ S50000x128.size a
  hwx6_0 : ∀ i : grid6.Coords, EltTy.bits .f32 = 32 ∨ (Rect.block (s := S50000x128) S5000x128.size (cc6_transform_0 i) (hinb6_0 i)).WholeWords (EltTy.packing .f32)
  hstage6_1 : ∀ j, (stage6_1 j).IsWhole
  nbuf6_1 : grid6.bufCount reads6_1 true = 1
  hreads6_1 : ∀ i i' : grid6.Coords, (∀ a, reads6_1 a = true → i a = i' a) → cc6_transform_1 i = cc6_transform_1 i'
  hinb6_1 : ∀ (i : grid6.Coords) a, (cc6_transform_1 i a + 1) * S1x128.size a ≤ S1x128.size a
  hwx6_1 : ∀ i : grid6.Coords, EltTy.bits .f32 = 32 ∨ (Rect.block (s := S1x128) S1x128.size (cc6_transform_1 i) (hinb6_1 i)).WholeWords (EltTy.packing .f32)
  hstage6_2 : ∀ j, (stage6_2 j).IsWhole
  nbuf6_2 : grid6.bufCount reads6_2 true = 1
  hreads6_2 : ∀ i i' : grid6.Coords, (∀ a, reads6_2 a = true → i a = i' a) → cc6_transform_2 i = cc6_transform_2 i'
  hinb6_2 : ∀ (i : grid6.Coords) a, (cc6_transform_2 i a + 1) * S1x128.size a ≤ S1x128.size a
  hwx6_2 : ∀ i : grid6.Coords, EltTy.bits .f32 = 32 ∨ (Rect.block (s := S1x128) S1x128.size (cc6_transform_2 i) (hinb6_2 i)).WholeWords (EltTy.packing .f32)
  hstage6_3 : ∀ j, (stage6_3 j).IsWhole
  nbuf6_3 : grid6.bufCount reads6_3 true = 1
  hreads6_3 : ∀ i i' : grid6.Coords, (∀ a, reads6_3 a = true → i a = i' a) → cc6_transform_3 i = cc6_transform_3 i'
  hinb6_3 : ∀ (i : grid6.Coords) a, (cc6_transform_3 i a + 1) * S1x128.size a ≤ S1x128.size a
  hwx6_3 : ∀ i : grid6.Coords, EltTy.bits .f32 = 32 ∨ (Rect.block (s := S1x128) S1x128.size (cc6_transform_3 i) (hinb6_3 i)).WholeWords (EltTy.packing .f32)
  hstage6_4 : ∀ j, (stage6_4 j).IsWhole
  nbuf6_4 : grid6.bufCount reads6_4 true = 1
  hreads6_4 : ∀ i i' : grid6.Coords, (∀ a, reads6_4 a = true → i a = i' a) → cc6_transform_4 i = cc6_transform_4 i'
  hinb6_4 : ∀ (i : grid6.Coords) a, (cc6_transform_4 i a + 1) * S1x128.size a ≤ S1x128.size a
  hwx6_4 : ∀ i : grid6.Coords, EltTy.bits .f32 = 32 ∨ (Rect.block (s := S1x128) S1x128.size (cc6_transform_4 i) (hinb6_4 i)).WholeWords (EltTy.packing .f32)
  hstage6_5 : ∀ j, (stage6_5 j).IsWhole
  nbuf6_5 : grid6.bufCount reads6_5 true = 1
  hreads6_5 : ∀ i i' : grid6.Coords, (∀ a, reads6_5 a = true → i a = i' a) → cc6_transform_5 i = cc6_transform_5 i'
  hinb6_5 : ∀ (i : grid6.Coords) a, (cc6_transform_5 i a + 1) * S128x128.size a ≤ S128x128.size a
  hwx6_5 : ∀ i : grid6.Coords, EltTy.bits .f32 = 32 ∨ (Rect.block (s := S128x128) S128x128.size (cc6_transform_5 i) (hinb6_5 i)).WholeWords (EltTy.packing .f32)
  hstage6_6 : ∀ j, (stage6_6 j).IsWhole
  nbuf6_6 : grid6.bufCount reads6_6 true = 1
  hreads6_6 : ∀ i i' : grid6.Coords, (∀ a, reads6_6 a = true → i a = i' a) → cc6_transform_6 i = cc6_transform_6 i'
  hinb6_6 : ∀ (i : grid6.Coords) a, (cc6_transform_6 i a + 1) * S1x128.size a ≤ S1x128.size a
  hwx6_6 : ∀ i : grid6.Coords, EltTy.bits .f32 = 32 ∨ (Rect.block (s := S1x128) S1x128.size (cc6_transform_6 i) (hinb6_6 i)).WholeWords (EltTy.packing .f32)
  hstage6_7 : ∀ j, (stage6_7 j).IsWhole
  nbuf6_7 : grid6.bufCount reads6_7 false = 2
  hreads6_7 : ∀ i i' : grid6.Coords, (∀ a, reads6_7 a = true → i a = i' a) → cc6_transform_7 i = cc6_transform_7 i'
  hinb6_7 : ∀ (i : grid6.Coords) a, (cc6_transform_7 i a + 1) * S5000x128.size a ≤ S50000x128.size a
  hwx6_7 : ∀ i : grid6.Coords, EltTy.bits .f32 = 32 ∨ (Rect.block (s := S50000x128) S5000x128.size (cc6_transform_7 i) (hinb6_7 i)).WholeWords (EltTy.packing .f32)
  hstage6_8 : ∀ j, (stage6_8 j).IsWhole
  nbuf6_8 : grid6.bufCount reads6_8 true = 1
  hreads6_8 : ∀ i i' : grid6.Coords, (∀ a, reads6_8 a = true → i a = i' a) → cc6_transform_8 i = cc6_transform_8 i'
  hinb6_8 : ∀ (i : grid6.Coords) a, (cc6_transform_8 i a + 1) * S1x128.size a ≤ S1x128.size a
  hwx6_8 : ∀ i : grid6.Coords, EltTy.bits .f32 = 32 ∨ (Rect.block (s := S1x128) S1x128.size (cc6_transform_8 i) (hinb6_8 i)).WholeWords (EltTy.packing .f32)
  hstage6_9 : ∀ j, (stage6_9 j).IsWhole
  nbuf6_9 : grid6.bufCount reads6_9 true = 1
  hreads6_9 : ∀ i i' : grid6.Coords, (∀ a, reads6_9 a = true → i a = i' a) → cc6_transform_9 i = cc6_transform_9 i'
  hinb6_9 : ∀ (i : grid6.Coords) a, (cc6_transform_9 i a + 1) * S1x128.size a ≤ S1x128.size a
  hwx6_9 : ∀ i : grid6.Coords, EltTy.bits .f32 = 32 ∨ (Rect.block (s := S1x128) S1x128.size (cc6_transform_9 i) (hinb6_9 i)).WholeWords (EltTy.packing .f32)
  hrank7 : 0 < grid7.rank
  hstage7_0 : ∀ j, (stage7_0 j).IsWhole
  nbuf7_0 : grid7.bufCount reads7_0 false = 2
  hreads7_0 : ∀ i i' : grid7.Coords, (∀ a, reads7_0 a = true → i a = i' a) → cc7_transform_0 i = cc7_transform_0 i'
  hinb7_0 : ∀ (i : grid7.Coords) a, (cc7_transform_0 i a + 1) * S5000x128.size a ≤ S50000x128.size a
  hwx7_0 : ∀ i : grid7.Coords, EltTy.bits .f32 = 32 ∨ (Rect.block (s := S50000x128) S5000x128.size (cc7_transform_0 i) (hinb7_0 i)).WholeWords (EltTy.packing .f32)
  hstage7_1 : ∀ j, (stage7_1 j).IsWhole
  nbuf7_1 : grid7.bufCount reads7_1 true = 1
  hreads7_1 : ∀ i i' : grid7.Coords, (∀ a, reads7_1 a = true → i a = i' a) → cc7_transform_1 i = cc7_transform_1 i'
  hinb7_1 : ∀ (i : grid7.Coords) a, (cc7_transform_1 i a + 1) * S1x128.size a ≤ S1x128.size a
  hwx7_1 : ∀ i : grid7.Coords, EltTy.bits .f32 = 32 ∨ (Rect.block (s := S1x128) S1x128.size (cc7_transform_1 i) (hinb7_1 i)).WholeWords (EltTy.packing .f32)
  hstage7_2 : ∀ j, (stage7_2 j).IsWhole
  nbuf7_2 : grid7.bufCount reads7_2 true = 1
  hreads7_2 : ∀ i i' : grid7.Coords, (∀ a, reads7_2 a = true → i a = i' a) → cc7_transform_2 i = cc7_transform_2 i'
  hinb7_2 : ∀ (i : grid7.Coords) a, (cc7_transform_2 i a + 1) * S1x128.size a ≤ S1x128.size a
  hwx7_2 : ∀ i : grid7.Coords, EltTy.bits .f32 = 32 ∨ (Rect.block (s := S1x128) S1x128.size (cc7_transform_2 i) (hinb7_2 i)).WholeWords (EltTy.packing .f32)
  hstage7_3 : ∀ j, (stage7_3 j).IsWhole
  nbuf7_3 : grid7.bufCount reads7_3 true = 1
  hreads7_3 : ∀ i i' : grid7.Coords, (∀ a, reads7_3 a = true → i a = i' a) → cc7_transform_3 i = cc7_transform_3 i'
  hinb7_3 : ∀ (i : grid7.Coords) a, (cc7_transform_3 i a + 1) * S1x128.size a ≤ S1x128.size a
  hwx7_3 : ∀ i : grid7.Coords, EltTy.bits .f32 = 32 ∨ (Rect.block (s := S1x128) S1x128.size (cc7_transform_3 i) (hinb7_3 i)).WholeWords (EltTy.packing .f32)
  hstage7_4 : ∀ j, (stage7_4 j).IsWhole
  nbuf7_4 : grid7.bufCount reads7_4 true = 1
  hreads7_4 : ∀ i i' : grid7.Coords, (∀ a, reads7_4 a = true → i a = i' a) → cc7_transform_4 i = cc7_transform_4 i'
  hinb7_4 : ∀ (i : grid7.Coords) a, (cc7_transform_4 i a + 1) * S1x128.size a ≤ S1x128.size a
  hwx7_4 : ∀ i : grid7.Coords, EltTy.bits .f32 = 32 ∨ (Rect.block (s := S1x128) S1x128.size (cc7_transform_4 i) (hinb7_4 i)).WholeWords (EltTy.packing .f32)
  hstage7_5 : ∀ j, (stage7_5 j).IsWhole
  nbuf7_5 : grid7.bufCount reads7_5 false = 2
  hreads7_5 : ∀ i i' : grid7.Coords, (∀ a, reads7_5 a = true → i a = i' a) → cc7_transform_5 i = cc7_transform_5 i'
  hinb7_5 : ∀ (i : grid7.Coords) a, (cc7_transform_5 i a + 1) * S5000x128.size a ≤ S50000x128.size a
  hwx7_5 : ∀ i : grid7.Coords, EltTy.bits .f32 = 32 ∨ (Rect.block (s := S50000x128) S5000x128.size (cc7_transform_5 i) (hinb7_5 i)).WholeWords (EltTy.packing .f32)
  hstage7_6 : ∀ j, (stage7_6 j).IsWhole
  nbuf7_6 : grid7.bufCount reads7_6 true = 1
  hreads7_6 : ∀ i i' : grid7.Coords, (∀ a, reads7_6 a = true → i a = i' a) → cc7_transform_6 i = cc7_transform_6 i'
  hinb7_6 : ∀ (i : grid7.Coords) a, (cc7_transform_6 i a + 1) * S1x128.size a ≤ S1x128.size a
  hwx7_6 : ∀ i : grid7.Coords, EltTy.bits .f32 = 32 ∨ (Rect.block (s := S1x128) S1x128.size (cc7_transform_6 i) (hinb7_6 i)).WholeWords (EltTy.packing .f32)
  hstage7_7 : ∀ j, (stage7_7 j).IsWhole
  nbuf7_7 : grid7.bufCount reads7_7 true = 1
  hreads7_7 : ∀ i i' : grid7.Coords, (∀ a, reads7_7 a = true → i a = i' a) → cc7_transform_7 i = cc7_transform_7 i'
  hinb7_7 : ∀ (i : grid7.Coords) a, (cc7_transform_7 i a + 1) * S1x128.size a ≤ S1x128.size a
  hwx7_7 : ∀ i : grid7.Coords, EltTy.bits .f32 = 32 ∨ (Rect.block (s := S1x128) S1x128.size (cc7_transform_7 i) (hinb7_7 i)).WholeWords (EltTy.packing .f32)
  hrank8 : 0 < grid8.rank
  hstage8_0 : ∀ j, (stage8_0 j).IsWhole
  nbuf8_0 : grid8.bufCount reads8_0 false = 2
  hreads8_0 : ∀ i i' : grid8.Coords, (∀ a, reads8_0 a = true → i a = i' a) → cc8_transform_0 i = cc8_transform_0 i'
  hinb8_0 : ∀ (i : grid8.Coords) a, (cc8_transform_0 i a + 1) * S5000x128.size a ≤ S50000x128.size a
  hwx8_0 : ∀ i : grid8.Coords, EltTy.bits .f32 = 32 ∨ (Rect.block (s := S50000x128) S5000x128.size (cc8_transform_0 i) (hinb8_0 i)).WholeWords (EltTy.packing .f32)
  hstage8_1 : ∀ j, (stage8_1 j).IsWhole
  nbuf8_1 : grid8.bufCount reads8_1 true = 1
  hreads8_1 : ∀ i i' : grid8.Coords, (∀ a, reads8_1 a = true → i a = i' a) → cc8_transform_1 i = cc8_transform_1 i'
  hinb8_1 : ∀ (i : grid8.Coords) a, (cc8_transform_1 i a + 1) * S1x128.size a ≤ S1x128.size a
  hwx8_1 : ∀ i : grid8.Coords, EltTy.bits .f32 = 32 ∨ (Rect.block (s := S1x128) S1x128.size (cc8_transform_1 i) (hinb8_1 i)).WholeWords (EltTy.packing .f32)
  hstage8_2 : ∀ j, (stage8_2 j).IsWhole
  nbuf8_2 : grid8.bufCount reads8_2 true = 1
  hreads8_2 : ∀ i i' : grid8.Coords, (∀ a, reads8_2 a = true → i a = i' a) → cc8_transform_2 i = cc8_transform_2 i'
  hinb8_2 : ∀ (i : grid8.Coords) a, (cc8_transform_2 i a + 1) * S1x128.size a ≤ S1x128.size a
  hwx8_2 : ∀ i : grid8.Coords, EltTy.bits .f32 = 32 ∨ (Rect.block (s := S1x128) S1x128.size (cc8_transform_2 i) (hinb8_2 i)).WholeWords (EltTy.packing .f32)
  hstage8_3 : ∀ j, (stage8_3 j).IsWhole
  nbuf8_3 : grid8.bufCount reads8_3 true = 1
  hreads8_3 : ∀ i i' : grid8.Coords, (∀ a, reads8_3 a = true → i a = i' a) → cc8_transform_3 i = cc8_transform_3 i'
  hinb8_3 : ∀ (i : grid8.Coords) a, (cc8_transform_3 i a + 1) * S1x128.size a ≤ S1x128.size a
  hwx8_3 : ∀ i : grid8.Coords, EltTy.bits .f32 = 32 ∨ (Rect.block (s := S1x128) S1x128.size (cc8_transform_3 i) (hinb8_3 i)).WholeWords (EltTy.packing .f32)
  hstage8_4 : ∀ j, (stage8_4 j).IsWhole
  nbuf8_4 : grid8.bufCount reads8_4 true = 1
  hreads8_4 : ∀ i i' : grid8.Coords, (∀ a, reads8_4 a = true → i a = i' a) → cc8_transform_4 i = cc8_transform_4 i'
  hinb8_4 : ∀ (i : grid8.Coords) a, (cc8_transform_4 i a + 1) * S1x128.size a ≤ S1x128.size a
  hwx8_4 : ∀ i : grid8.Coords, EltTy.bits .f32 = 32 ∨ (Rect.block (s := S1x128) S1x128.size (cc8_transform_4 i) (hinb8_4 i)).WholeWords (EltTy.packing .f32)
  hstage8_5 : ∀ j, (stage8_5 j).IsWhole
  nbuf8_5 : grid8.bufCount reads8_5 false = 2
  hreads8_5 : ∀ i i' : grid8.Coords, (∀ a, reads8_5 a = true → i a = i' a) → cc8_transform_5 i = cc8_transform_5 i'
  hinb8_5 : ∀ (i : grid8.Coords) a, (cc8_transform_5 i a + 1) * S5000x128.size a ≤ S50000x128.size a
  hwx8_5 : ∀ i : grid8.Coords, EltTy.bits .f32 = 32 ∨ (Rect.block (s := S50000x128) S5000x128.size (cc8_transform_5 i) (hinb8_5 i)).WholeWords (EltTy.packing .f32)
  hstage8_6 : ∀ j, (stage8_6 j).IsWhole
  nbuf8_6 : grid8.bufCount reads8_6 false = 2
  hreads8_6 : ∀ i i' : grid8.Coords, (∀ a, reads8_6 a = true → i a = i' a) → cc8_transform_6 i = cc8_transform_6 i'
  hinb8_6 : ∀ (i : grid8.Coords) a, (cc8_transform_6 i a + 1) * S5000x128.size a ≤ S50000x128.size a
  hwx8_6 : ∀ i : grid8.Coords, EltTy.bits .f32 = 32 ∨ (Rect.block (s := S50000x128) S5000x128.size (cc8_transform_6 i) (hinb8_6 i)).WholeWords (EltTy.packing .f32)
  hrank9 : 0 < grid9.rank
  hstage9_0 : ∀ j, (stage9_0 j).IsWhole
  nbuf9_0 : grid9.bufCount reads9_0 false = 2
  hreads9_0 : ∀ i i' : grid9.Coords, (∀ a, reads9_0 a = true → i a = i' a) → cc9_transform_0 i = cc9_transform_0 i'
  hinb9_0 : ∀ (i : grid9.Coords) a, (cc9_transform_0 i a + 1) * S5000x128.size a ≤ S50000x128.size a
  hwx9_0 : ∀ i : grid9.Coords, EltTy.bits .f32 = 32 ∨ (Rect.block (s := S50000x128) S5000x128.size (cc9_transform_0 i) (hinb9_0 i)).WholeWords (EltTy.packing .f32)
  hstage9_1 : ∀ j, (stage9_1 j).IsWhole
  nbuf9_1 : grid9.bufCount reads9_1 false = 2
  hreads9_1 : ∀ i i' : grid9.Coords, (∀ a, reads9_1 a = true → i a = i' a) → cc9_transform_1 i = cc9_transform_1 i'
  hinb9_1 : ∀ (i : grid9.Coords) a, (cc9_transform_1 i a + 1) * S5000x128.size a ≤ S50000x128.size a
  hwx9_1 : ∀ i : grid9.Coords, EltTy.bits .f32 = 32 ∨ (Rect.block (s := S50000x128) S5000x128.size (cc9_transform_1 i) (hinb9_1 i)).WholeWords (EltTy.packing .f32)
  hstage9_2 : ∀ j, (stage9_2 j).IsWhole
  nbuf9_2 : grid9.bufCount reads9_2 true = 1
  hreads9_2 : ∀ i i' : grid9.Coords, (∀ a, reads9_2 a = true → i a = i' a) → cc9_transform_2 i = cc9_transform_2 i'
  hinb9_2 : ∀ (i : grid9.Coords) a, (cc9_transform_2 i a + 1) * S1x1.size a ≤ S1x1.size a
  hwx9_2 : ∀ i : grid9.Coords, EltTy.bits .f32 = 32 ∨ (Rect.block (s := S1x1) S1x1.size (cc9_transform_2 i) (hinb9_2 i)).WholeWords (EltTy.packing .f32)
  hstage9_3 : ∀ j, (stage9_3 j).IsWhole
  nbuf9_3 : grid9.bufCount reads9_3 true = 1
  hreads9_3 : ∀ i i' : grid9.Coords, (∀ a, reads9_3 a = true → i a = i' a) → cc9_transform_3 i = cc9_transform_3 i'
  hinb9_3 : ∀ (i : grid9.Coords) a, (cc9_transform_3 i a + 1) * S128x128.size a ≤ S128x128.size a
  hwx9_3 : ∀ i : grid9.Coords, EltTy.bits .f32 = 32 ∨ (Rect.block (s := S128x128) S128x128.size (cc9_transform_3 i) (hinb9_3 i)).WholeWords (EltTy.packing .f32)
  hstage9_4 : ∀ j, (stage9_4 j).IsWhole
  nbuf9_4 : grid9.bufCount reads9_4 true = 1
  hreads9_4 : ∀ i i' : grid9.Coords, (∀ a, reads9_4 a = true → i a = i' a) → cc9_transform_4 i = cc9_transform_4 i'
  hinb9_4 : ∀ (i : grid9.Coords) a, (cc9_transform_4 i a + 1) * S1x128.size a ≤ S1x128.size a
  hwx9_4 : ∀ i : grid9.Coords, EltTy.bits .f32 = 32 ∨ (Rect.block (s := S1x128) S1x128.size (cc9_transform_4 i) (hinb9_4 i)).WholeWords (EltTy.packing .f32)
  hstage9_5 : ∀ j, (stage9_5 j).IsWhole
  nbuf9_5 : grid9.bufCount reads9_5 false = 2
  hreads9_5 : ∀ i i' : grid9.Coords, (∀ a, reads9_5 a = true → i a = i' a) → cc9_transform_5 i = cc9_transform_5 i'
  hinb9_5 : ∀ (i : grid9.Coords) a, (cc9_transform_5 i a + 1) * S5000x128.size a ≤ S50000x128.size a
  hwx9_5 : ∀ i : grid9.Coords, EltTy.bits .f32 = 32 ∨ (Rect.block (s := S50000x128) S5000x128.size (cc9_transform_5 i) (hinb9_5 i)).WholeWords (EltTy.packing .f32)
  hstage9_6 : ∀ j, (stage9_6 j).IsWhole
  nbuf9_6 : grid9.bufCount reads9_6 true = 1
  hreads9_6 : ∀ i i' : grid9.Coords, (∀ a, reads9_6 a = true → i a = i' a) → cc9_transform_6 i = cc9_transform_6 i'
  hinb9_6 : ∀ (i : grid9.Coords) a, (cc9_transform_6 i a + 1) * S1x128.size a ≤ S1x128.size a
  hwx9_6 : ∀ i : grid9.Coords, EltTy.bits .f32 = 32 ∨ (Rect.block (s := S1x128) S1x128.size (cc9_transform_6 i) (hinb9_6 i)).WholeWords (EltTy.packing .f32)
  hstage9_7 : ∀ j, (stage9_7 j).IsWhole
  nbuf9_7 : grid9.bufCount reads9_7 true = 1
  hreads9_7 : ∀ i i' : grid9.Coords, (∀ a, reads9_7 a = true → i a = i' a) → cc9_transform_7 i = cc9_transform_7 i'
  hinb9_7 : ∀ (i : grid9.Coords) a, (cc9_transform_7 i a + 1) * S1x128.size a ≤ S1x128.size a
  hwx9_7 : ∀ i : grid9.Coords, EltTy.bits .f32 = 32 ∨ (Rect.block (s := S1x128) S1x128.size (cc9_transform_7 i) (hinb9_7 i)).WholeWords (EltTy.packing .f32)
  hrank10 : 0 < grid10.rank
  hstage10_0 : ∀ j, (stage10_0 j).IsWhole
  nbuf10_0 : grid10.bufCount reads10_0 false = 2
  hreads10_0 : ∀ i i' : grid10.Coords, (∀ a, reads10_0 a = true → i a = i' a) → cc10_transform_0 i = cc10_transform_0 i'
  hinb10_0 : ∀ (i : grid10.Coords) a, (cc10_transform_0 i a + 1) * S5000x128.size a ≤ S50000x128.size a
  hwx10_0 : ∀ i : grid10.Coords, EltTy.bits .f32 = 32 ∨ (Rect.block (s := S50000x128) S5000x128.size (cc10_transform_0 i) (hinb10_0 i)).WholeWords (EltTy.packing .f32)
  hstage10_1 : ∀ j, (stage10_1 j).IsWhole
  nbuf10_1 : grid10.bufCount reads10_1 true = 1
  hreads10_1 : ∀ i i' : grid10.Coords, (∀ a, reads10_1 a = true → i a = i' a) → cc10_transform_1 i = cc10_transform_1 i'
  hinb10_1 : ∀ (i : grid10.Coords) a, (cc10_transform_1 i a + 1) * S1x128.size a ≤ S1x128.size a
  hwx10_1 : ∀ i : grid10.Coords, EltTy.bits .f32 = 32 ∨ (Rect.block (s := S1x128) S1x128.size (cc10_transform_1 i) (hinb10_1 i)).WholeWords (EltTy.packing .f32)
  hstage10_2 : ∀ j, (stage10_2 j).IsWhole
  nbuf10_2 : grid10.bufCount reads10_2 true = 1
  hreads10_2 : ∀ i i' : grid10.Coords, (∀ a, reads10_2 a = true → i a = i' a) → cc10_transform_2 i = cc10_transform_2 i'
  hinb10_2 : ∀ (i : grid10.Coords) a, (cc10_transform_2 i a + 1) * S1x128.size a ≤ S1x128.size a
  hwx10_2 : ∀ i : grid10.Coords, EltTy.bits .f32 = 32 ∨ (Rect.block (s := S1x128) S1x128.size (cc10_transform_2 i) (hinb10_2 i)).WholeWords (EltTy.packing .f32)
  hstage10_3 : ∀ j, (stage10_3 j).IsWhole
  nbuf10_3 : grid10.bufCount reads10_3 true = 1
  hreads10_3 : ∀ i i' : grid10.Coords, (∀ a, reads10_3 a = true → i a = i' a) → cc10_transform_3 i = cc10_transform_3 i'
  hinb10_3 : ∀ (i : grid10.Coords) a, (cc10_transform_3 i a + 1) * S1x128.size a ≤ S1x128.size a
  hwx10_3 : ∀ i : grid10.Coords, EltTy.bits .f32 = 32 ∨ (Rect.block (s := S1x128) S1x128.size (cc10_transform_3 i) (hinb10_3 i)).WholeWords (EltTy.packing .f32)
  hstage10_4 : ∀ j, (stage10_4 j).IsWhole
  nbuf10_4 : grid10.bufCount reads10_4 true = 1
  hreads10_4 : ∀ i i' : grid10.Coords, (∀ a, reads10_4 a = true → i a = i' a) → cc10_transform_4 i = cc10_transform_4 i'
  hinb10_4 : ∀ (i : grid10.Coords) a, (cc10_transform_4 i a + 1) * S1x128.size a ≤ S1x128.size a
  hwx10_4 : ∀ i : grid10.Coords, EltTy.bits .f32 = 32 ∨ (Rect.block (s := S1x128) S1x128.size (cc10_transform_4 i) (hinb10_4 i)).WholeWords (EltTy.packing .f32)
  hstage10_5 : ∀ j, (stage10_5 j).IsWhole
  nbuf10_5 : grid10.bufCount reads10_5 true = 1
  hreads10_5 : ∀ i i' : grid10.Coords, (∀ a, reads10_5 a = true → i a = i' a) → cc10_transform_5 i = cc10_transform_5 i'
  hinb10_5 : ∀ (i : grid10.Coords) a, (cc10_transform_5 i a + 1) * S128x128.size a ≤ S128x128.size a
  hwx10_5 : ∀ i : grid10.Coords, EltTy.bits .f32 = 32 ∨ (Rect.block (s := S128x128) S128x128.size (cc10_transform_5 i) (hinb10_5 i)).WholeWords (EltTy.packing .f32)
  hstage10_6 : ∀ j, (stage10_6 j).IsWhole
  nbuf10_6 : grid10.bufCount reads10_6 true = 1
  hreads10_6 : ∀ i i' : grid10.Coords, (∀ a, reads10_6 a = true → i a = i' a) → cc10_transform_6 i = cc10_transform_6 i'
  hinb10_6 : ∀ (i : grid10.Coords) a, (cc10_transform_6 i a + 1) * S1x128.size a ≤ S1x128.size a
  hwx10_6 : ∀ i : grid10.Coords, EltTy.bits .f32 = 32 ∨ (Rect.block (s := S1x128) S1x128.size (cc10_transform_6 i) (hinb10_6 i)).WholeWords (EltTy.packing .f32)
  hstage10_7 : ∀ j, (stage10_7 j).IsWhole
  nbuf10_7 : grid10.bufCount reads10_7 false = 2
  hreads10_7 : ∀ i i' : grid10.Coords, (∀ a, reads10_7 a = true → i a = i' a) → cc10_transform_7 i = cc10_transform_7 i'
  hinb10_7 : ∀ (i : grid10.Coords) a, (cc10_transform_7 i a + 1) * S5000x128.size a ≤ S50000x128.size a
  hwx10_7 : ∀ i : grid10.Coords, EltTy.bits .f32 = 32 ∨ (Rect.block (s := S50000x128) S5000x128.size (cc10_transform_7 i) (hinb10_7 i)).WholeWords (EltTy.packing .f32)
  hstage10_8 : ∀ j, (stage10_8 j).IsWhole
  nbuf10_8 : grid10.bufCount reads10_8 true = 1
  hreads10_8 : ∀ i i' : grid10.Coords, (∀ a, reads10_8 a = true → i a = i' a) → cc10_transform_8 i = cc10_transform_8 i'
  hinb10_8 : ∀ (i : grid10.Coords) a, (cc10_transform_8 i a + 1) * S1x128.size a ≤ S1x128.size a
  hwx10_8 : ∀ i : grid10.Coords, EltTy.bits .f32 = 32 ∨ (Rect.block (s := S1x128) S1x128.size (cc10_transform_8 i) (hinb10_8 i)).WholeWords (EltTy.packing .f32)
  hstage10_9 : ∀ j, (stage10_9 j).IsWhole
  nbuf10_9 : grid10.bufCount reads10_9 true = 1
  hreads10_9 : ∀ i i' : grid10.Coords, (∀ a, reads10_9 a = true → i a = i' a) → cc10_transform_9 i = cc10_transform_9 i'
  hinb10_9 : ∀ (i : grid10.Coords) a, (cc10_transform_9 i a + 1) * S1x128.size a ≤ S1x128.size a
  hwx10_9 : ∀ i : grid10.Coords, EltTy.bits .f32 = 32 ∨ (Rect.block (s := S1x128) S1x128.size (cc10_transform_9 i) (hinb10_9 i)).WholeWords (EltTy.packing .f32)
  hrank11 : 0 < grid11.rank
  hstage11_0 : ∀ j, (stage11_0 j).IsWhole
  nbuf11_0 : grid11.bufCount reads11_0 false = 2
  hreads11_0 : ∀ i i' : grid11.Coords, (∀ a, reads11_0 a = true → i a = i' a) → cc11_transform_0 i = cc11_transform_0 i'
  hinb11_0 : ∀ (i : grid11.Coords) a, (cc11_transform_0 i a + 1) * S5000x128.size a ≤ S50000x128.size a
  hwx11_0 : ∀ i : grid11.Coords, EltTy.bits .f32 = 32 ∨ (Rect.block (s := S50000x128) S5000x128.size (cc11_transform_0 i) (hinb11_0 i)).WholeWords (EltTy.packing .f32)
  hstage11_1 : ∀ j, (stage11_1 j).IsWhole
  nbuf11_1 : grid11.bufCount reads11_1 true = 1
  hreads11_1 : ∀ i i' : grid11.Coords, (∀ a, reads11_1 a = true → i a = i' a) → cc11_transform_1 i = cc11_transform_1 i'
  hinb11_1 : ∀ (i : grid11.Coords) a, (cc11_transform_1 i a + 1) * S1x128.size a ≤ S1x128.size a
  hwx11_1 : ∀ i : grid11.Coords, EltTy.bits .f32 = 32 ∨ (Rect.block (s := S1x128) S1x128.size (cc11_transform_1 i) (hinb11_1 i)).WholeWords (EltTy.packing .f32)
  hstage11_2 : ∀ j, (stage11_2 j).IsWhole
  nbuf11_2 : grid11.bufCount reads11_2 true = 1
  hreads11_2 : ∀ i i' : grid11.Coords, (∀ a, reads11_2 a = true → i a = i' a) → cc11_transform_2 i = cc11_transform_2 i'
  hinb11_2 : ∀ (i : grid11.Coords) a, (cc11_transform_2 i a + 1) * S1x128.size a ≤ S1x128.size a
  hwx11_2 : ∀ i : grid11.Coords, EltTy.bits .f32 = 32 ∨ (Rect.block (s := S1x128) S1x128.size (cc11_transform_2 i) (hinb11_2 i)).WholeWords (EltTy.packing .f32)
  hstage11_3 : ∀ j, (stage11_3 j).IsWhole
  nbuf11_3 : grid11.bufCount reads11_3 true = 1
  hreads11_3 : ∀ i i' : grid11.Coords, (∀ a, reads11_3 a = true → i a = i' a) → cc11_transform_3 i = cc11_transform_3 i'
  hinb11_3 : ∀ (i : grid11.Coords) a, (cc11_transform_3 i a + 1) * S1x128.size a ≤ S1x128.size a
  hwx11_3 : ∀ i : grid11.Coords, EltTy.bits .f32 = 32 ∨ (Rect.block (s := S1x128) S1x128.size (cc11_transform_3 i) (hinb11_3 i)).WholeWords (EltTy.packing .f32)
  hstage11_4 : ∀ j, (stage11_4 j).IsWhole
  nbuf11_4 : grid11.bufCount reads11_4 true = 1
  hreads11_4 : ∀ i i' : grid11.Coords, (∀ a, reads11_4 a = true → i a = i' a) → cc11_transform_4 i = cc11_transform_4 i'
  hinb11_4 : ∀ (i : grid11.Coords) a, (cc11_transform_4 i a + 1) * S1x128.size a ≤ S1x128.size a
  hwx11_4 : ∀ i : grid11.Coords, EltTy.bits .f32 = 32 ∨ (Rect.block (s := S1x128) S1x128.size (cc11_transform_4 i) (hinb11_4 i)).WholeWords (EltTy.packing .f32)
  hstage11_5 : ∀ j, (stage11_5 j).IsWhole
  nbuf11_5 : grid11.bufCount reads11_5 false = 2
  hreads11_5 : ∀ i i' : grid11.Coords, (∀ a, reads11_5 a = true → i a = i' a) → cc11_transform_5 i = cc11_transform_5 i'
  hinb11_5 : ∀ (i : grid11.Coords) a, (cc11_transform_5 i a + 1) * S5000x128.size a ≤ S50000x128.size a
  hwx11_5 : ∀ i : grid11.Coords, EltTy.bits .f32 = 32 ∨ (Rect.block (s := S50000x128) S5000x128.size (cc11_transform_5 i) (hinb11_5 i)).WholeWords (EltTy.packing .f32)
  hstage11_6 : ∀ j, (stage11_6 j).IsWhole
  nbuf11_6 : grid11.bufCount reads11_6 true = 1
  hreads11_6 : ∀ i i' : grid11.Coords, (∀ a, reads11_6 a = true → i a = i' a) → cc11_transform_6 i = cc11_transform_6 i'
  hinb11_6 : ∀ (i : grid11.Coords) a, (cc11_transform_6 i a + 1) * S1x128.size a ≤ S1x128.size a
  hwx11_6 : ∀ i : grid11.Coords, EltTy.bits .f32 = 32 ∨ (Rect.block (s := S1x128) S1x128.size (cc11_transform_6 i) (hinb11_6 i)).WholeWords (EltTy.packing .f32)
  hstage11_7 : ∀ j, (stage11_7 j).IsWhole
  nbuf11_7 : grid11.bufCount reads11_7 true = 1
  hreads11_7 : ∀ i i' : grid11.Coords, (∀ a, reads11_7 a = true → i a = i' a) → cc11_transform_7 i = cc11_transform_7 i'
  hinb11_7 : ∀ (i : grid11.Coords) a, (cc11_transform_7 i a + 1) * S1x128.size a ≤ S1x128.size a
  hwx11_7 : ∀ i : grid11.Coords, EltTy.bits .f32 = 32 ∨ (Rect.block (s := S1x128) S1x128.size (cc11_transform_7 i) (hinb11_7 i)).WholeWords (EltTy.packing .f32)
  hrank12 : 0 < grid12.rank
  hstage12_0 : ∀ j, (stage12_0 j).IsWhole
  nbuf12_0 : grid12.bufCount reads12_0 false = 2
  hreads12_0 : ∀ i i' : grid12.Coords, (∀ a, reads12_0 a = true → i a = i' a) → cc12_transform_0 i = cc12_transform_0 i'
  hinb12_0 : ∀ (i : grid12.Coords) a, (cc12_transform_0 i a + 1) * S5000x128.size a ≤ S50000x128.size a
  hwx12_0 : ∀ i : grid12.Coords, EltTy.bits .f32 = 32 ∨ (Rect.block (s := S50000x128) S5000x128.size (cc12_transform_0 i) (hinb12_0 i)).WholeWords (EltTy.packing .f32)
  hstage12_1 : ∀ j, (stage12_1 j).IsWhole
  nbuf12_1 : grid12.bufCount reads12_1 true = 1
  hreads12_1 : ∀ i i' : grid12.Coords, (∀ a, reads12_1 a = true → i a = i' a) → cc12_transform_1 i = cc12_transform_1 i'
  hinb12_1 : ∀ (i : grid12.Coords) a, (cc12_transform_1 i a + 1) * S1x128.size a ≤ S1x128.size a
  hwx12_1 : ∀ i : grid12.Coords, EltTy.bits .f32 = 32 ∨ (Rect.block (s := S1x128) S1x128.size (cc12_transform_1 i) (hinb12_1 i)).WholeWords (EltTy.packing .f32)
  hstage12_2 : ∀ j, (stage12_2 j).IsWhole
  nbuf12_2 : grid12.bufCount reads12_2 true = 1
  hreads12_2 : ∀ i i' : grid12.Coords, (∀ a, reads12_2 a = true → i a = i' a) → cc12_transform_2 i = cc12_transform_2 i'
  hinb12_2 : ∀ (i : grid12.Coords) a, (cc12_transform_2 i a + 1) * S1x128.size a ≤ S1x128.size a
  hwx12_2 : ∀ i : grid12.Coords, EltTy.bits .f32 = 32 ∨ (Rect.block (s := S1x128) S1x128.size (cc12_transform_2 i) (hinb12_2 i)).WholeWords (EltTy.packing .f32)
  hstage12_3 : ∀ j, (stage12_3 j).IsWhole
  nbuf12_3 : grid12.bufCount reads12_3 true = 1
  hreads12_3 : ∀ i i' : grid12.Coords, (∀ a, reads12_3 a = true → i a = i' a) → cc12_transform_3 i = cc12_transform_3 i'
  hinb12_3 : ∀ (i : grid12.Coords) a, (cc12_transform_3 i a + 1) * S1x128.size a ≤ S1x128.size a
  hwx12_3 : ∀ i : grid12.Coords, EltTy.bits .f32 = 32 ∨ (Rect.block (s := S1x128) S1x128.size (cc12_transform_3 i) (hinb12_3 i)).WholeWords (EltTy.packing .f32)
  hstage12_4 : ∀ j, (stage12_4 j).IsWhole
  nbuf12_4 : grid12.bufCount reads12_4 true = 1
  hreads12_4 : ∀ i i' : grid12.Coords, (∀ a, reads12_4 a = true → i a = i' a) → cc12_transform_4 i = cc12_transform_4 i'
  hinb12_4 : ∀ (i : grid12.Coords) a, (cc12_transform_4 i a + 1) * S1x128.size a ≤ S1x128.size a
  hwx12_4 : ∀ i : grid12.Coords, EltTy.bits .f32 = 32 ∨ (Rect.block (s := S1x128) S1x128.size (cc12_transform_4 i) (hinb12_4 i)).WholeWords (EltTy.packing .f32)
  hstage12_5 : ∀ j, (stage12_5 j).IsWhole
  nbuf12_5 : grid12.bufCount reads12_5 false = 2
  hreads12_5 : ∀ i i' : grid12.Coords, (∀ a, reads12_5 a = true → i a = i' a) → cc12_transform_5 i = cc12_transform_5 i'
  hinb12_5 : ∀ (i : grid12.Coords) a, (cc12_transform_5 i a + 1) * S5000x128.size a ≤ S50000x128.size a
  hwx12_5 : ∀ i : grid12.Coords, EltTy.bits .f32 = 32 ∨ (Rect.block (s := S50000x128) S5000x128.size (cc12_transform_5 i) (hinb12_5 i)).WholeWords (EltTy.packing .f32)
  hstage12_6 : ∀ j, (stage12_6 j).IsWhole
  nbuf12_6 : grid12.bufCount reads12_6 false = 2
  hreads12_6 : ∀ i i' : grid12.Coords, (∀ a, reads12_6 a = true → i a = i' a) → cc12_transform_6 i = cc12_transform_6 i'
  hinb12_6 : ∀ (i : grid12.Coords) a, (cc12_transform_6 i a + 1) * S5000x128.size a ≤ S50000x128.size a
  hwx12_6 : ∀ i : grid12.Coords, EltTy.bits .f32 = 32 ∨ (Rect.block (s := S50000x128) S5000x128.size (cc12_transform_6 i) (hinb12_6 i)).WholeWords (EltTy.packing .f32)
  hrank13 : 0 < grid13.rank
  hstage13_0 : ∀ j, (stage13_0 j).IsWhole
  nbuf13_0 : grid13.bufCount reads13_0 false = 2
  hreads13_0 : ∀ i i' : grid13.Coords, (∀ a, reads13_0 a = true → i a = i' a) → cc13_transform_0 i = cc13_transform_0 i'
  hinb13_0 : ∀ (i : grid13.Coords) a, (cc13_transform_0 i a + 1) * S5000x128.size a ≤ S50000x128.size a
  hwx13_0 : ∀ i : grid13.Coords, EltTy.bits .f32 = 32 ∨ (Rect.block (s := S50000x128) S5000x128.size (cc13_transform_0 i) (hinb13_0 i)).WholeWords (EltTy.packing .f32)
  hstage13_1 : ∀ j, (stage13_1 j).IsWhole
  nbuf13_1 : grid13.bufCount reads13_1 false = 2
  hreads13_1 : ∀ i i' : grid13.Coords, (∀ a, reads13_1 a = true → i a = i' a) → cc13_transform_1 i = cc13_transform_1 i'
  hinb13_1 : ∀ (i : grid13.Coords) a, (cc13_transform_1 i a + 1) * S5000x128.size a ≤ S50000x128.size a
  hwx13_1 : ∀ i : grid13.Coords, EltTy.bits .f32 = 32 ∨ (Rect.block (s := S50000x128) S5000x128.size (cc13_transform_1 i) (hinb13_1 i)).WholeWords (EltTy.packing .f32)
  hstage13_2 : ∀ j, (stage13_2 j).IsWhole
  nbuf13_2 : grid13.bufCount reads13_2 true = 1
  hreads13_2 : ∀ i i' : grid13.Coords, (∀ a, reads13_2 a = true → i a = i' a) → cc13_transform_2 i = cc13_transform_2 i'
  hinb13_2 : ∀ (i : grid13.Coords) a, (cc13_transform_2 i a + 1) * S1x1.size a ≤ S1x1.size a
  hwx13_2 : ∀ i : grid13.Coords, EltTy.bits .f32 = 32 ∨ (Rect.block (s := S1x1) S1x1.size (cc13_transform_2 i) (hinb13_2 i)).WholeWords (EltTy.packing .f32)
  hstage13_3 : ∀ j, (stage13_3 j).IsWhole
  nbuf13_3 : grid13.bufCount reads13_3 true = 1
  hreads13_3 : ∀ i i' : grid13.Coords, (∀ a, reads13_3 a = true → i a = i' a) → cc13_transform_3 i = cc13_transform_3 i'
  hinb13_3 : ∀ (i : grid13.Coords) a, (cc13_transform_3 i a + 1) * S128x128.size a ≤ S128x128.size a
  hwx13_3 : ∀ i : grid13.Coords, EltTy.bits .f32 = 32 ∨ (Rect.block (s := S128x128) S128x128.size (cc13_transform_3 i) (hinb13_3 i)).WholeWords (EltTy.packing .f32)
  hstage13_4 : ∀ j, (stage13_4 j).IsWhole
  nbuf13_4 : grid13.bufCount reads13_4 true = 1
  hreads13_4 : ∀ i i' : grid13.Coords, (∀ a, reads13_4 a = true → i a = i' a) → cc13_transform_4 i = cc13_transform_4 i'
  hinb13_4 : ∀ (i : grid13.Coords) a, (cc13_transform_4 i a + 1) * S1x128.size a ≤ S1x128.size a
  hwx13_4 : ∀ i : grid13.Coords, EltTy.bits .f32 = 32 ∨ (Rect.block (s := S1x128) S1x128.size (cc13_transform_4 i) (hinb13_4 i)).WholeWords (EltTy.packing .f32)
  hstage13_5 : ∀ j, (stage13_5 j).IsWhole
  nbuf13_5 : grid13.bufCount reads13_5 false = 2
  hreads13_5 : ∀ i i' : grid13.Coords, (∀ a, reads13_5 a = true → i a = i' a) → cc13_transform_5 i = cc13_transform_5 i'
  hinb13_5 : ∀ (i : grid13.Coords) a, (cc13_transform_5 i a + 1) * S5000x128.size a ≤ S50000x128.size a
  hwx13_5 : ∀ i : grid13.Coords, EltTy.bits .f32 = 32 ∨ (Rect.block (s := S50000x128) S5000x128.size (cc13_transform_5 i) (hinb13_5 i)).WholeWords (EltTy.packing .f32)
  hstage13_6 : ∀ j, (stage13_6 j).IsWhole
  nbuf13_6 : grid13.bufCount reads13_6 true = 1
  hreads13_6 : ∀ i i' : grid13.Coords, (∀ a, reads13_6 a = true → i a = i' a) → cc13_transform_6 i = cc13_transform_6 i'
  hinb13_6 : ∀ (i : grid13.Coords) a, (cc13_transform_6 i a + 1) * S1x128.size a ≤ S1x128.size a
  hwx13_6 : ∀ i : grid13.Coords, EltTy.bits .f32 = 32 ∨ (Rect.block (s := S1x128) S1x128.size (cc13_transform_6 i) (hinb13_6 i)).WholeWords (EltTy.packing .f32)
  hstage13_7 : ∀ j, (stage13_7 j).IsWhole
  nbuf13_7 : grid13.bufCount reads13_7 true = 1
  hreads13_7 : ∀ i i' : grid13.Coords, (∀ a, reads13_7 a = true → i a = i' a) → cc13_transform_7 i = cc13_transform_7 i'
  hinb13_7 : ∀ (i : grid13.Coords) a, (cc13_transform_7 i a + 1) * S1x128.size a ≤ S1x128.size a
  hwx13_7 : ∀ i : grid13.Coords, EltTy.bits .f32 = 32 ∨ (Rect.block (s := S1x128) S1x128.size (cc13_transform_7 i) (hinb13_7 i)).WholeWords (EltTy.packing .f32)
  hrank14 : 0 < grid14.rank
  hstage14_0 : ∀ j, (stage14_0 j).IsWhole
  nbuf14_0 : grid14.bufCount reads14_0 false = 2
  hreads14_0 : ∀ i i' : grid14.Coords, (∀ a, reads14_0 a = true → i a = i' a) → cc14_transform_0 i = cc14_transform_0 i'
  hinb14_0 : ∀ (i : grid14.Coords) a, (cc14_transform_0 i a + 1) * S5000x128.size a ≤ S50000x128.size a
  hwx14_0 : ∀ i : grid14.Coords, EltTy.bits .f32 = 32 ∨ (Rect.block (s := S50000x128) S5000x128.size (cc14_transform_0 i) (hinb14_0 i)).WholeWords (EltTy.packing .f32)
  hstage14_1 : ∀ j, (stage14_1 j).IsWhole
  nbuf14_1 : grid14.bufCount reads14_1 true = 1
  hreads14_1 : ∀ i i' : grid14.Coords, (∀ a, reads14_1 a = true → i a = i' a) → cc14_transform_1 i = cc14_transform_1 i'
  hinb14_1 : ∀ (i : grid14.Coords) a, (cc14_transform_1 i a + 1) * S1x128.size a ≤ S1x128.size a
  hwx14_1 : ∀ i : grid14.Coords, EltTy.bits .f32 = 32 ∨ (Rect.block (s := S1x128) S1x128.size (cc14_transform_1 i) (hinb14_1 i)).WholeWords (EltTy.packing .f32)
  hstage14_2 : ∀ j, (stage14_2 j).IsWhole
  nbuf14_2 : grid14.bufCount reads14_2 true = 1
  hreads14_2 : ∀ i i' : grid14.Coords, (∀ a, reads14_2 a = true → i a = i' a) → cc14_transform_2 i = cc14_transform_2 i'
  hinb14_2 : ∀ (i : grid14.Coords) a, (cc14_transform_2 i a + 1) * S1x128.size a ≤ S1x128.size a
  hwx14_2 : ∀ i : grid14.Coords, EltTy.bits .f32 = 32 ∨ (Rect.block (s := S1x128) S1x128.size (cc14_transform_2 i) (hinb14_2 i)).WholeWords (EltTy.packing .f32)
  hstage14_3 : ∀ j, (stage14_3 j).IsWhole
  nbuf14_3 : grid14.bufCount reads14_3 true = 1
  hreads14_3 : ∀ i i' : grid14.Coords, (∀ a, reads14_3 a = true → i a = i' a) → cc14_transform_3 i = cc14_transform_3 i'
  hinb14_3 : ∀ (i : grid14.Coords) a, (cc14_transform_3 i a + 1) * S1x128.size a ≤ S1x128.size a
  hwx14_3 : ∀ i : grid14.Coords, EltTy.bits .f32 = 32 ∨ (Rect.block (s := S1x128) S1x128.size (cc14_transform_3 i) (hinb14_3 i)).WholeWords (EltTy.packing .f32)
  hstage14_4 : ∀ j, (stage14_4 j).IsWhole
  nbuf14_4 : grid14.bufCount reads14_4 true = 1
  hreads14_4 : ∀ i i' : grid14.Coords, (∀ a, reads14_4 a = true → i a = i' a) → cc14_transform_4 i = cc14_transform_4 i'
  hinb14_4 : ∀ (i : grid14.Coords) a, (cc14_transform_4 i a + 1) * S1x128.size a ≤ S1x128.size a
  hwx14_4 : ∀ i : grid14.Coords, EltTy.bits .f32 = 32 ∨ (Rect.block (s := S1x128) S1x128.size (cc14_transform_4 i) (hinb14_4 i)).WholeWords (EltTy.packing .f32)
  hstage14_5 : ∀ j, (stage14_5 j).IsWhole
  nbuf14_5 : grid14.bufCount reads14_5 true = 1
  hreads14_5 : ∀ i i' : grid14.Coords, (∀ a, reads14_5 a = true → i a = i' a) → cc14_transform_5 i = cc14_transform_5 i'
  hinb14_5 : ∀ (i : grid14.Coords) a, (cc14_transform_5 i a + 1) * S128x128.size a ≤ S128x128.size a
  hwx14_5 : ∀ i : grid14.Coords, EltTy.bits .f32 = 32 ∨ (Rect.block (s := S128x128) S128x128.size (cc14_transform_5 i) (hinb14_5 i)).WholeWords (EltTy.packing .f32)
  hstage14_6 : ∀ j, (stage14_6 j).IsWhole
  nbuf14_6 : grid14.bufCount reads14_6 true = 1
  hreads14_6 : ∀ i i' : grid14.Coords, (∀ a, reads14_6 a = true → i a = i' a) → cc14_transform_6 i = cc14_transform_6 i'
  hinb14_6 : ∀ (i : grid14.Coords) a, (cc14_transform_6 i a + 1) * S1x128.size a ≤ S1x128.size a
  hwx14_6 : ∀ i : grid14.Coords, EltTy.bits .f32 = 32 ∨ (Rect.block (s := S1x128) S1x128.size (cc14_transform_6 i) (hinb14_6 i)).WholeWords (EltTy.packing .f32)
  hstage14_7 : ∀ j, (stage14_7 j).IsWhole
  nbuf14_7 : grid14.bufCount reads14_7 false = 2
  hreads14_7 : ∀ i i' : grid14.Coords, (∀ a, reads14_7 a = true → i a = i' a) → cc14_transform_7 i = cc14_transform_7 i'
  hinb14_7 : ∀ (i : grid14.Coords) a, (cc14_transform_7 i a + 1) * S5000x128.size a ≤ S50000x128.size a
  hwx14_7 : ∀ i : grid14.Coords, EltTy.bits .f32 = 32 ∨ (Rect.block (s := S50000x128) S5000x128.size (cc14_transform_7 i) (hinb14_7 i)).WholeWords (EltTy.packing .f32)
  hstage14_8 : ∀ j, (stage14_8 j).IsWhole
  nbuf14_8 : grid14.bufCount reads14_8 true = 1
  hreads14_8 : ∀ i i' : grid14.Coords, (∀ a, reads14_8 a = true → i a = i' a) → cc14_transform_8 i = cc14_transform_8 i'
  hinb14_8 : ∀ (i : grid14.Coords) a, (cc14_transform_8 i a + 1) * S1x128.size a ≤ S1x128.size a
  hwx14_8 : ∀ i : grid14.Coords, EltTy.bits .f32 = 32 ∨ (Rect.block (s := S1x128) S1x128.size (cc14_transform_8 i) (hinb14_8 i)).WholeWords (EltTy.packing .f32)
  hstage14_9 : ∀ j, (stage14_9 j).IsWhole
  nbuf14_9 : grid14.bufCount reads14_9 true = 1
  hreads14_9 : ∀ i i' : grid14.Coords, (∀ a, reads14_9 a = true → i a = i' a) → cc14_transform_9 i = cc14_transform_9 i'
  hinb14_9 : ∀ (i : grid14.Coords) a, (cc14_transform_9 i a + 1) * S1x128.size a ≤ S1x128.size a
  hwx14_9 : ∀ i : grid14.Coords, EltTy.bits .f32 = 32 ∨ (Rect.block (s := S1x128) S1x128.size (cc14_transform_9 i) (hinb14_9 i)).WholeWords (EltTy.packing .f32)
  hrank15 : 0 < grid15.rank
  hstage15_0 : ∀ j, (stage15_0 j).IsWhole
  nbuf15_0 : grid15.bufCount reads15_0 false = 2
  hreads15_0 : ∀ i i' : grid15.Coords, (∀ a, reads15_0 a = true → i a = i' a) → cc15_transform_0 i = cc15_transform_0 i'
  hinb15_0 : ∀ (i : grid15.Coords) a, (cc15_transform_0 i a + 1) * S5000x128.size a ≤ S50000x128.size a
  hwx15_0 : ∀ i : grid15.Coords, EltTy.bits .f32 = 32 ∨ (Rect.block (s := S50000x128) S5000x128.size (cc15_transform_0 i) (hinb15_0 i)).WholeWords (EltTy.packing .f32)
  hstage15_1 : ∀ j, (stage15_1 j).IsWhole
  nbuf15_1 : grid15.bufCount reads15_1 true = 1
  hreads15_1 : ∀ i i' : grid15.Coords, (∀ a, reads15_1 a = true → i a = i' a) → cc15_transform_1 i = cc15_transform_1 i'
  hinb15_1 : ∀ (i : grid15.Coords) a, (cc15_transform_1 i a + 1) * S1x128.size a ≤ S1x128.size a
  hwx15_1 : ∀ i : grid15.Coords, EltTy.bits .f32 = 32 ∨ (Rect.block (s := S1x128) S1x128.size (cc15_transform_1 i) (hinb15_1 i)).WholeWords (EltTy.packing .f32)
  hstage15_2 : ∀ j, (stage15_2 j).IsWhole
  nbuf15_2 : grid15.bufCount reads15_2 true = 1
  hreads15_2 : ∀ i i' : grid15.Coords, (∀ a, reads15_2 a = true → i a = i' a) → cc15_transform_2 i = cc15_transform_2 i'
  hinb15_2 : ∀ (i : grid15.Coords) a, (cc15_transform_2 i a + 1) * S1x128.size a ≤ S1x128.size a
  hwx15_2 : ∀ i : grid15.Coords, EltTy.bits .f32 = 32 ∨ (Rect.block (s := S1x128) S1x128.size (cc15_transform_2 i) (hinb15_2 i)).WholeWords (EltTy.packing .f32)
  hstage15_3 : ∀ j, (stage15_3 j).IsWhole
  nbuf15_3 : grid15.bufCount reads15_3 true = 1
  hreads15_3 : ∀ i i' : grid15.Coords, (∀ a, reads15_3 a = true → i a = i' a) → cc15_transform_3 i = cc15_transform_3 i'
  hinb15_3 : ∀ (i : grid15.Coords) a, (cc15_transform_3 i a + 1) * S1x128.size a ≤ S1x128.size a
  hwx15_3 : ∀ i : grid15.Coords, EltTy.bits .f32 = 32 ∨ (Rect.block (s := S1x128) S1x128.size (cc15_transform_3 i) (hinb15_3 i)).WholeWords (EltTy.packing .f32)
  hstage15_4 : ∀ j, (stage15_4 j).IsWhole
  nbuf15_4 : grid15.bufCount reads15_4 true = 1
  hreads15_4 : ∀ i i' : grid15.Coords, (∀ a, reads15_4 a = true → i a = i' a) → cc15_transform_4 i = cc15_transform_4 i'
  hinb15_4 : ∀ (i : grid15.Coords) a, (cc15_transform_4 i a + 1) * S1x128.size a ≤ S1x128.size a
  hwx15_4 : ∀ i : grid15.Coords, EltTy.bits .f32 = 32 ∨ (Rect.block (s := S1x128) S1x128.size (cc15_transform_4 i) (hinb15_4 i)).WholeWords (EltTy.packing .f32)
  hstage15_5 : ∀ j, (stage15_5 j).IsWhole
  nbuf15_5 : grid15.bufCount reads15_5 false = 2
  hreads15_5 : ∀ i i' : grid15.Coords, (∀ a, reads15_5 a = true → i a = i' a) → cc15_transform_5 i = cc15_transform_5 i'
  hinb15_5 : ∀ (i : grid15.Coords) a, (cc15_transform_5 i a + 1) * S5000x128.size a ≤ S50000x128.size a
  hwx15_5 : ∀ i : grid15.Coords, EltTy.bits .f32 = 32 ∨ (Rect.block (s := S50000x128) S5000x128.size (cc15_transform_5 i) (hinb15_5 i)).WholeWords (EltTy.packing .f32)
  hstage15_6 : ∀ j, (stage15_6 j).IsWhole
  nbuf15_6 : grid15.bufCount reads15_6 true = 1
  hreads15_6 : ∀ i i' : grid15.Coords, (∀ a, reads15_6 a = true → i a = i' a) → cc15_transform_6 i = cc15_transform_6 i'
  hinb15_6 : ∀ (i : grid15.Coords) a, (cc15_transform_6 i a + 1) * S1x128.size a ≤ S1x128.size a
  hwx15_6 : ∀ i : grid15.Coords, EltTy.bits .f32 = 32 ∨ (Rect.block (s := S1x128) S1x128.size (cc15_transform_6 i) (hinb15_6 i)).WholeWords (EltTy.packing .f32)
  hstage15_7 : ∀ j, (stage15_7 j).IsWhole
  nbuf15_7 : grid15.bufCount reads15_7 true = 1
  hreads15_7 : ∀ i i' : grid15.Coords, (∀ a, reads15_7 a = true → i a = i' a) → cc15_transform_7 i = cc15_transform_7 i'
  hinb15_7 : ∀ (i : grid15.Coords) a, (cc15_transform_7 i a + 1) * S1x128.size a ≤ S1x128.size a
  hwx15_7 : ∀ i : grid15.Coords, EltTy.bits .f32 = 32 ∨ (Rect.block (s := S1x128) S1x128.size (cc15_transform_7 i) (hinb15_7 i)).WholeWords (EltTy.packing .f32)
  hrank16 : 0 < grid16.rank
  hstage16_0 : ∀ j, (stage16_0 j).IsWhole
  nbuf16_0 : grid16.bufCount reads16_0 false = 2
  hreads16_0 : ∀ i i' : grid16.Coords, (∀ a, reads16_0 a = true → i a = i' a) → cc16_transform_0 i = cc16_transform_0 i'
  hinb16_0 : ∀ (i : grid16.Coords) a, (cc16_transform_0 i a + 1) * S5000x128.size a ≤ S50000x128.size a
  hwx16_0 : ∀ i : grid16.Coords, EltTy.bits .f32 = 32 ∨ (Rect.block (s := S50000x128) S5000x128.size (cc16_transform_0 i) (hinb16_0 i)).WholeWords (EltTy.packing .f32)
  hstage16_1 : ∀ j, (stage16_1 j).IsWhole
  nbuf16_1 : grid16.bufCount reads16_1 true = 1
  hreads16_1 : ∀ i i' : grid16.Coords, (∀ a, reads16_1 a = true → i a = i' a) → cc16_transform_1 i = cc16_transform_1 i'
  hinb16_1 : ∀ (i : grid16.Coords) a, (cc16_transform_1 i a + 1) * S1x128.size a ≤ S1x128.size a
  hwx16_1 : ∀ i : grid16.Coords, EltTy.bits .f32 = 32 ∨ (Rect.block (s := S1x128) S1x128.size (cc16_transform_1 i) (hinb16_1 i)).WholeWords (EltTy.packing .f32)
  hstage16_2 : ∀ j, (stage16_2 j).IsWhole
  nbuf16_2 : grid16.bufCount reads16_2 true = 1
  hreads16_2 : ∀ i i' : grid16.Coords, (∀ a, reads16_2 a = true → i a = i' a) → cc16_transform_2 i = cc16_transform_2 i'
  hinb16_2 : ∀ (i : grid16.Coords) a, (cc16_transform_2 i a + 1) * S1x128.size a ≤ S1x128.size a
  hwx16_2 : ∀ i : grid16.Coords, EltTy.bits .f32 = 32 ∨ (Rect.block (s := S1x128) S1x128.size (cc16_transform_2 i) (hinb16_2 i)).WholeWords (EltTy.packing .f32)
  hstage16_3 : ∀ j, (stage16_3 j).IsWhole
  nbuf16_3 : grid16.bufCount reads16_3 true = 1
  hreads16_3 : ∀ i i' : grid16.Coords, (∀ a, reads16_3 a = true → i a = i' a) → cc16_transform_3 i = cc16_transform_3 i'
  hinb16_3 : ∀ (i : grid16.Coords) a, (cc16_transform_3 i a + 1) * S1x128.size a ≤ S1x128.size a
  hwx16_3 : ∀ i : grid16.Coords, EltTy.bits .f32 = 32 ∨ (Rect.block (s := S1x128) S1x128.size (cc16_transform_3 i) (hinb16_3 i)).WholeWords (EltTy.packing .f32)
  hstage16_4 : ∀ j, (stage16_4 j).IsWhole
  nbuf16_4 : grid16.bufCount reads16_4 true = 1
  hreads16_4 : ∀ i i' : grid16.Coords, (∀ a, reads16_4 a = true → i a = i' a) → cc16_transform_4 i = cc16_transform_4 i'
  hinb16_4 : ∀ (i : grid16.Coords) a, (cc16_transform_4 i a + 1) * S1x128.size a ≤ S1x128.size a
  hwx16_4 : ∀ i : grid16.Coords, EltTy.bits .f32 = 32 ∨ (Rect.block (s := S1x128) S1x128.size (cc16_transform_4 i) (hinb16_4 i)).WholeWords (EltTy.packing .f32)
  hstage16_5 : ∀ j, (stage16_5 j).IsWhole
  nbuf16_5 : grid16.bufCount reads16_5 false = 2
  hreads16_5 : ∀ i i' : grid16.Coords, (∀ a, reads16_5 a = true → i a = i' a) → cc16_transform_5 i = cc16_transform_5 i'
  hinb16_5 : ∀ (i : grid16.Coords) a, (cc16_transform_5 i a + 1) * S5000x128.size a ≤ S50000x128.size a
  hwx16_5 : ∀ i : grid16.Coords, EltTy.bits .f32 = 32 ∨ (Rect.block (s := S50000x128) S5000x128.size (cc16_transform_5 i) (hinb16_5 i)).WholeWords (EltTy.packing .f32)
  hstage16_6 : ∀ j, (stage16_6 j).IsWhole
  nbuf16_6 : grid16.bufCount reads16_6 false = 2
  hreads16_6 : ∀ i i' : grid16.Coords, (∀ a, reads16_6 a = true → i a = i' a) → cc16_transform_6 i = cc16_transform_6 i'
  hinb16_6 : ∀ (i : grid16.Coords) a, (cc16_transform_6 i a + 1) * S5000x128.size a ≤ S50000x128.size a
  hwx16_6 : ∀ i : grid16.Coords, EltTy.bits .f32 = 32 ∨ (Rect.block (s := S50000x128) S5000x128.size (cc16_transform_6 i) (hinb16_6 i)).WholeWords (EltTy.packing .f32)

variable [Facts₀]

def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def gather_S50000x128_S1600000x1_S1600000x128_1_0_n_n_0_1_1128 : GatherDims S50000x128 S1600000x1 S1600000x128 where
  offsetDims := [1]
  collapsedSliceDims := [0]
  operandBatchingDims := []
  startIndicesBatchingDims := []
  startIndexMap := [0]
  indexVectorDim := 1
  sliceSizes := ![1, 128]
  wf := gather_S50000x128_S1600000x1_S1600000x128_1_0_n_n_0_1_1128_wf
def scatter_S50000x128_S1600000x1_S1600000x128_1_0_0_1 : ScatterDims S50000x128 S1600000x1 S1600000x128 where
  updateWindowDims := [1]
  insertedWindowDims := [0]
  scatterDimsToOperandDims := [0]
  indexVectorDim := 1
  wf := scatter_S50000x128_S1600000x1_S1600000x128_1_0_0_1_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v1) S5000x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v1) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v11) S5000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v15) S1x1.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v20) S128x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v18) S1x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v21_0) S5000x128.size cc1_transform_5 reads1_5 true false 2 stage1_5 sem1_5
    hrank1 hreads1_5 hinb1_5 nbuf1_5 (Memref.isWhole_whole _) hwx1_5 hstage1_5

abbrev win1_6 : Pipeline.Window sig grid1 :=
  Pipeline.Window.ofSpec (Memref.whole main_v21_1) S1x128.size cc1_transform_6 reads1_6 true true 1 stage1_6 sem1_6
    hrank1 hreads1_6 hinb1_6 nbuf1_6 (Memref.isWhole_whole _) hwx1_6 hstage1_6

abbrev win1_7 : Pipeline.Window sig grid1 :=
  Pipeline.Window.ofSpec (Memref.whole main_v21_2) S1x128.size cc1_transform_7 reads1_7 true true 1 stage1_7 sem1_7
    hrank1 hreads1_7 hinb1_7 nbuf1_7 (Memref.isWhole_whole _) hwx1_7 hstage1_7

abbrev win1 : Fin 8 → Pipeline.Window sig grid1 := fun | 0 => win1_0 | 1 => win1_1 | 2 => win1_2 | 3 => win1_3 | 4 => win1_4 | 5 => win1_5 | 6 => win1_6 | 7 => win1_7 | ⟨_ + 8, h⟩ => absurd h (Nat.not_lt.2 (Nat.le_add_left _ _))
abbrev spec1 : Fin 8 → Pipeline.WinSpec sig grid1.rank := fun w => (win1 w).toWinSpec

abbrev win2_0 : Pipeline.Window sig grid2 :=
  Pipeline.Window.ofSpec (Memref.whole main_v21_0) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v23) S1x128.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v27) S1x128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v30) S1x128.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v33) S1x128.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v38) S128x128.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_v36) S1x128.size cc2_transform_6 reads2_6 false true 1 stage2_6 sem2_6
    hrank2 hreads2_6 hinb2_6 nbuf2_6 (Memref.isWhole_whole _) hwx2_6 hstage2_6

abbrev win2_7 : Pipeline.Window sig grid2 :=
  Pipeline.Window.ofSpec (Memref.whole main_v39_0) S5000x128.size cc2_transform_7 reads2_7 true false 2 stage2_7 sem2_7
    hrank2 hreads2_7 hinb2_7 nbuf2_7 (Memref.isWhole_whole _) hwx2_7 hstage2_7

abbrev win2_8 : Pipeline.Window sig grid2 :=
  Pipeline.Window.ofSpec (Memref.whole main_v39_1) S1x128.size cc2_transform_8 reads2_8 true true 1 stage2_8 sem2_8
    hrank2 hreads2_8 hinb2_8 nbuf2_8 (Memref.isWhole_whole _) hwx2_8 hstage2_8

abbrev win2_9 : Pipeline.Window sig grid2 :=
  Pipeline.Window.ofSpec (Memref.whole main_v39_2) S1x128.size cc2_transform_9 reads2_9 true true 1 stage2_9 sem2_9
    hrank2 hreads2_9 hinb2_9 nbuf2_9 (Memref.isWhole_whole _) hwx2_9 hstage2_9

abbrev win2 : Fin 10 → Pipeline.Window sig grid2 := fun | 0 => win2_0 | 1 => win2_1 | 2 => win2_2 | 3 => win2_3 | 4 => win2_4 | 5 => win2_5 | 6 => win2_6 | 7 => win2_7 | 8 => win2_8 | 9 => win2_9 | ⟨_ + 10, h⟩ => absurd h (Nat.not_lt.2 (Nat.le_add_left _ _))
abbrev spec2 : Fin 10 → Pipeline.WinSpec sig grid2.rank := fun w => (win2 w).toWinSpec

abbrev win3_0 : Pipeline.Window sig grid3 :=
  Pipeline.Window.ofSpec (Memref.whole main_v39_0) S5000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v41) S1x128.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v45) S1x128.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v48) S1x128.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v51) S1x128.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_v52_0) S5000x128.size cc3_transform_5 reads3_5 true false 2 stage3_5 sem3_5
    hrank3 hreads3_5 hinb3_5 nbuf3_5 (Memref.isWhole_whole _) hwx3_5 hstage3_5

abbrev win3_6 : Pipeline.Window sig grid3 :=
  Pipeline.Window.ofSpec (Memref.whole main_v52_1) S1x128.size cc3_transform_6 reads3_6 true true 1 stage3_6 sem3_6
    hrank3 hreads3_6 hinb3_6 nbuf3_6 (Memref.isWhole_whole _) hwx3_6 hstage3_6

abbrev win3_7 : Pipeline.Window sig grid3 :=
  Pipeline.Window.ofSpec (Memref.whole main_v52_2) S1x128.size cc3_transform_7 reads3_7 true true 1 stage3_7 sem3_7
    hrank3 hreads3_7 hinb3_7 nbuf3_7 (Memref.isWhole_whole _) hwx3_7 hstage3_7

abbrev win3 : Fin 8 → Pipeline.Window sig grid3 := fun | 0 => win3_0 | 1 => win3_1 | 2 => win3_2 | 3 => win3_3 | 4 => win3_4 | 5 => win3_5 | 6 => win3_6 | 7 => win3_7 | ⟨_ + 8, h⟩ => absurd h (Nat.not_lt.2 (Nat.le_add_left _ _))
abbrev spec3 : Fin 8 → Pipeline.WinSpec sig grid3.rank := fun w => (win3 w).toWinSpec

abbrev win4_0 : Pipeline.Window sig grid4 :=
  Pipeline.Window.ofSpec (Memref.whole main_v52_0) S5000x128.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v54) S1x128.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v58) S1x128.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_v61) S1x128.size cc4_transform_3 reads4_3 false true 1 stage4_3 sem4_3
    hrank4 hreads4_3 hinb4_3 nbuf4_3 (Memref.isWhole_whole _) hwx4_3 hstage4_3

abbrev win4_4 : Pipeline.Window sig grid4 :=
  Pipeline.Window.ofSpec (Memref.whole main_v64) S1x128.size cc4_transform_4 reads4_4 false true 1 stage4_4 sem4_4
    hrank4 hreads4_4 hinb4_4 nbuf4_4 (Memref.isWhole_whole _) hwx4_4 hstage4_4

abbrev win4_5 : Pipeline.Window sig grid4 :=
  Pipeline.Window.ofSpec (Memref.whole main_v1) S5000x128.size cc4_transform_5 reads4_5 false false 2 stage4_5 sem4_5
    hrank4 hreads4_5 hinb4_5 nbuf4_5 (Memref.isWhole_whole _) hwx4_5 hstage4_5

abbrev win4_6 : Pipeline.Window sig grid4 :=
  Pipeline.Window.ofSpec (Memref.whole main_v65) S5000x128.size cc4_transform_6 reads4_6 true false 2 stage4_6 sem4_6
    hrank4 hreads4_6 hinb4_6 nbuf4_6 (Memref.isWhole_whole _) hwx4_6 hstage4_6

abbrev win4 : Fin 7 → Pipeline.Window sig grid4 := fun | 0 => win4_0 | 1 => win4_1 | 2 => win4_2 | 3 => win4_3 | 4 => win4_4 | 5 => win4_5 | 6 => win4_6 | ⟨_ + 7, h⟩ => absurd h (Nat.not_lt.2 (Nat.le_add_left _ _))
abbrev spec4 : Fin 7 → Pipeline.WinSpec sig grid4.rank := fun w => (win4 w).toWinSpec

abbrev win5_0 : Pipeline.Window sig grid5 :=
  Pipeline.Window.ofSpec (Memref.whole main_v65) S5000x128.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v75) S5000x128.size cc5_transform_1 reads5_1 false false 2 stage5_1 sem5_1
    hrank5 hreads5_1 hinb5_1 nbuf5_1 (Memref.isWhole_whole _) hwx5_1 hstage5_1

abbrev win5_2 : Pipeline.Window sig grid5 :=
  Pipeline.Window.ofSpec (Memref.whole main_v79) S1x1.size cc5_transform_2 reads5_2 false true 1 stage5_2 sem5_2
    hrank5 hreads5_2 hinb5_2 nbuf5_2 (Memref.isWhole_whole _) hwx5_2 hstage5_2

abbrev win5_3 : Pipeline.Window sig grid5 :=
  Pipeline.Window.ofSpec (Memref.whole main_v84) S128x128.size cc5_transform_3 reads5_3 false true 1 stage5_3 sem5_3
    hrank5 hreads5_3 hinb5_3 nbuf5_3 (Memref.isWhole_whole _) hwx5_3 hstage5_3

abbrev win5_4 : Pipeline.Window sig grid5 :=
  Pipeline.Window.ofSpec (Memref.whole main_v82) S1x128.size cc5_transform_4 reads5_4 false true 1 stage5_4 sem5_4
    hrank5 hreads5_4 hinb5_4 nbuf5_4 (Memref.isWhole_whole _) hwx5_4 hstage5_4

abbrev win5_5 : Pipeline.Window sig grid5 :=
  Pipeline.Window.ofSpec (Memref.whole main_v85_0) S5000x128.size cc5_transform_5 reads5_5 true false 2 stage5_5 sem5_5
    hrank5 hreads5_5 hinb5_5 nbuf5_5 (Memref.isWhole_whole _) hwx5_5 hstage5_5

abbrev win5_6 : Pipeline.Window sig grid5 :=
  Pipeline.Window.ofSpec (Memref.whole main_v85_1) S1x128.size cc5_transform_6 reads5_6 true true 1 stage5_6 sem5_6
    hrank5 hreads5_6 hinb5_6 nbuf5_6 (Memref.isWhole_whole _) hwx5_6 hstage5_6

abbrev win5_7 : Pipeline.Window sig grid5 :=
  Pipeline.Window.ofSpec (Memref.whole main_v85_2) S1x128.size cc5_transform_7 reads5_7 true true 1 stage5_7 sem5_7
    hrank5 hreads5_7 hinb5_7 nbuf5_7 (Memref.isWhole_whole _) hwx5_7 hstage5_7

abbrev win5 : Fin 8 → Pipeline.Window sig grid5 := fun | 0 => win5_0 | 1 => win5_1 | 2 => win5_2 | 3 => win5_3 | 4 => win5_4 | 5 => win5_5 | 6 => win5_6 | 7 => win5_7 | ⟨_ + 8, h⟩ => absurd h (Nat.not_lt.2 (Nat.le_add_left _ _))
abbrev spec5 : Fin 8 → Pipeline.WinSpec sig grid5.rank := fun w => (win5 w).toWinSpec

abbrev win6_0 : Pipeline.Window sig grid6 :=
  Pipeline.Window.ofSpec (Memref.whole main_v85_0) S5000x128.size cc6_transform_0 reads6_0 false false 2 stage6_0 sem6_0
    hrank6 hreads6_0 hinb6_0 nbuf6_0 (Memref.isWhole_whole _) hwx6_0 hstage6_0

abbrev win6_1 : Pipeline.Window sig grid6 :=
  Pipeline.Window.ofSpec (Memref.whole main_v87) S1x128.size cc6_transform_1 reads6_1 false true 1 stage6_1 sem6_1
    hrank6 hreads6_1 hinb6_1 nbuf6_1 (Memref.isWhole_whole _) hwx6_1 hstage6_1

abbrev win6_2 : Pipeline.Window sig grid6 :=
  Pipeline.Window.ofSpec (Memref.whole main_v91) S1x128.size cc6_transform_2 reads6_2 false true 1 stage6_2 sem6_2
    hrank6 hreads6_2 hinb6_2 nbuf6_2 (Memref.isWhole_whole _) hwx6_2 hstage6_2

abbrev win6_3 : Pipeline.Window sig grid6 :=
  Pipeline.Window.ofSpec (Memref.whole main_v94) S1x128.size cc6_transform_3 reads6_3 false true 1 stage6_3 sem6_3
    hrank6 hreads6_3 hinb6_3 nbuf6_3 (Memref.isWhole_whole _) hwx6_3 hstage6_3

abbrev win6_4 : Pipeline.Window sig grid6 :=
  Pipeline.Window.ofSpec (Memref.whole main_v97) S1x128.size cc6_transform_4 reads6_4 false true 1 stage6_4 sem6_4
    hrank6 hreads6_4 hinb6_4 nbuf6_4 (Memref.isWhole_whole _) hwx6_4 hstage6_4

abbrev win6_5 : Pipeline.Window sig grid6 :=
  Pipeline.Window.ofSpec (Memref.whole main_v102) S128x128.size cc6_transform_5 reads6_5 false true 1 stage6_5 sem6_5
    hrank6 hreads6_5 hinb6_5 nbuf6_5 (Memref.isWhole_whole _) hwx6_5 hstage6_5

abbrev win6_6 : Pipeline.Window sig grid6 :=
  Pipeline.Window.ofSpec (Memref.whole main_v100) S1x128.size cc6_transform_6 reads6_6 false true 1 stage6_6 sem6_6
    hrank6 hreads6_6 hinb6_6 nbuf6_6 (Memref.isWhole_whole _) hwx6_6 hstage6_6

abbrev win6_7 : Pipeline.Window sig grid6 :=
  Pipeline.Window.ofSpec (Memref.whole main_v103_0) S5000x128.size cc6_transform_7 reads6_7 true false 2 stage6_7 sem6_7
    hrank6 hreads6_7 hinb6_7 nbuf6_7 (Memref.isWhole_whole _) hwx6_7 hstage6_7

abbrev win6_8 : Pipeline.Window sig grid6 :=
  Pipeline.Window.ofSpec (Memref.whole main_v103_1) S1x128.size cc6_transform_8 reads6_8 true true 1 stage6_8 sem6_8
    hrank6 hreads6_8 hinb6_8 nbuf6_8 (Memref.isWhole_whole _) hwx6_8 hstage6_8

abbrev win6_9 : Pipeline.Window sig grid6 :=
  Pipeline.Window.ofSpec (Memref.whole main_v103_2) S1x128.size cc6_transform_9 reads6_9 true true 1 stage6_9 sem6_9
    hrank6 hreads6_9 hinb6_9 nbuf6_9 (Memref.isWhole_whole _) hwx6_9 hstage6_9

abbrev win6 : Fin 10 → Pipeline.Window sig grid6 := fun | 0 => win6_0 | 1 => win6_1 | 2 => win6_2 | 3 => win6_3 | 4 => win6_4 | 5 => win6_5 | 6 => win6_6 | 7 => win6_7 | 8 => win6_8 | 9 => win6_9 | ⟨_ + 10, h⟩ => absurd h (Nat.not_lt.2 (Nat.le_add_left _ _))
abbrev spec6 : Fin 10 → Pipeline.WinSpec sig grid6.rank := fun w => (win6 w).toWinSpec

abbrev win7_0 : Pipeline.Window sig grid7 :=
  Pipeline.Window.ofSpec (Memref.whole main_v103_0) S5000x128.size cc7_transform_0 reads7_0 false false 2 stage7_0 sem7_0
    hrank7 hreads7_0 hinb7_0 nbuf7_0 (Memref.isWhole_whole _) hwx7_0 hstage7_0

abbrev win7_1 : Pipeline.Window sig grid7 :=
  Pipeline.Window.ofSpec (Memref.whole main_v105) S1x128.size cc7_transform_1 reads7_1 false true 1 stage7_1 sem7_1
    hrank7 hreads7_1 hinb7_1 nbuf7_1 (Memref.isWhole_whole _) hwx7_1 hstage7_1

abbrev win7_2 : Pipeline.Window sig grid7 :=
  Pipeline.Window.ofSpec (Memref.whole main_v109) S1x128.size cc7_transform_2 reads7_2 false true 1 stage7_2 sem7_2
    hrank7 hreads7_2 hinb7_2 nbuf7_2 (Memref.isWhole_whole _) hwx7_2 hstage7_2

abbrev win7_3 : Pipeline.Window sig grid7 :=
  Pipeline.Window.ofSpec (Memref.whole main_v112) S1x128.size cc7_transform_3 reads7_3 false true 1 stage7_3 sem7_3
    hrank7 hreads7_3 hinb7_3 nbuf7_3 (Memref.isWhole_whole _) hwx7_3 hstage7_3

abbrev win7_4 : Pipeline.Window sig grid7 :=
  Pipeline.Window.ofSpec (Memref.whole main_v115) S1x128.size cc7_transform_4 reads7_4 false true 1 stage7_4 sem7_4
    hrank7 hreads7_4 hinb7_4 nbuf7_4 (Memref.isWhole_whole _) hwx7_4 hstage7_4

abbrev win7_5 : Pipeline.Window sig grid7 :=
  Pipeline.Window.ofSpec (Memref.whole main_v116_0) S5000x128.size cc7_transform_5 reads7_5 true false 2 stage7_5 sem7_5
    hrank7 hreads7_5 hinb7_5 nbuf7_5 (Memref.isWhole_whole _) hwx7_5 hstage7_5

abbrev win7_6 : Pipeline.Window sig grid7 :=
  Pipeline.Window.ofSpec (Memref.whole main_v116_1) S1x128.size cc7_transform_6 reads7_6 true true 1 stage7_6 sem7_6
    hrank7 hreads7_6 hinb7_6 nbuf7_6 (Memref.isWhole_whole _) hwx7_6 hstage7_6

abbrev win7_7 : Pipeline.Window sig grid7 :=
  Pipeline.Window.ofSpec (Memref.whole main_v116_2) S1x128.size cc7_transform_7 reads7_7 true true 1 stage7_7 sem7_7
    hrank7 hreads7_7 hinb7_7 nbuf7_7 (Memref.isWhole_whole _) hwx7_7 hstage7_7

abbrev win7 : Fin 8 → Pipeline.Window sig grid7 := fun | 0 => win7_0 | 1 => win7_1 | 2 => win7_2 | 3 => win7_3 | 4 => win7_4 | 5 => win7_5 | 6 => win7_6 | 7 => win7_7 | ⟨_ + 8, h⟩ => absurd h (Nat.not_lt.2 (Nat.le_add_left _ _))
abbrev spec7 : Fin 8 → Pipeline.WinSpec sig grid7.rank := fun w => (win7 w).toWinSpec

abbrev win8_0 : Pipeline.Window sig grid8 :=
  Pipeline.Window.ofSpec (Memref.whole main_v116_0) S5000x128.size cc8_transform_0 reads8_0 false false 2 stage8_0 sem8_0
    hrank8 hreads8_0 hinb8_0 nbuf8_0 (Memref.isWhole_whole _) hwx8_0 hstage8_0

abbrev win8_1 : Pipeline.Window sig grid8 :=
  Pipeline.Window.ofSpec (Memref.whole main_v118) S1x128.size cc8_transform_1 reads8_1 false true 1 stage8_1 sem8_1
    hrank8 hreads8_1 hinb8_1 nbuf8_1 (Memref.isWhole_whole _) hwx8_1 hstage8_1

abbrev win8_2 : Pipeline.Window sig grid8 :=
  Pipeline.Window.ofSpec (Memref.whole main_v122) S1x128.size cc8_transform_2 reads8_2 false true 1 stage8_2 sem8_2
    hrank8 hreads8_2 hinb8_2 nbuf8_2 (Memref.isWhole_whole _) hwx8_2 hstage8_2

abbrev win8_3 : Pipeline.Window sig grid8 :=
  Pipeline.Window.ofSpec (Memref.whole main_v125) S1x128.size cc8_transform_3 reads8_3 false true 1 stage8_3 sem8_3
    hrank8 hreads8_3 hinb8_3 nbuf8_3 (Memref.isWhole_whole _) hwx8_3 hstage8_3

abbrev win8_4 : Pipeline.Window sig grid8 :=
  Pipeline.Window.ofSpec (Memref.whole main_v128) S1x128.size cc8_transform_4 reads8_4 false true 1 stage8_4 sem8_4
    hrank8 hreads8_4 hinb8_4 nbuf8_4 (Memref.isWhole_whole _) hwx8_4 hstage8_4

abbrev win8_5 : Pipeline.Window sig grid8 :=
  Pipeline.Window.ofSpec (Memref.whole main_v65) S5000x128.size cc8_transform_5 reads8_5 false false 2 stage8_5 sem8_5
    hrank8 hreads8_5 hinb8_5 nbuf8_5 (Memref.isWhole_whole _) hwx8_5 hstage8_5

abbrev win8_6 : Pipeline.Window sig grid8 :=
  Pipeline.Window.ofSpec (Memref.whole main_v129) S5000x128.size cc8_transform_6 reads8_6 true false 2 stage8_6 sem8_6
    hrank8 hreads8_6 hinb8_6 nbuf8_6 (Memref.isWhole_whole _) hwx8_6 hstage8_6

abbrev win8 : Fin 7 → Pipeline.Window sig grid8 := fun | 0 => win8_0 | 1 => win8_1 | 2 => win8_2 | 3 => win8_3 | 4 => win8_4 | 5 => win8_5 | 6 => win8_6 | ⟨_ + 7, h⟩ => absurd h (Nat.not_lt.2 (Nat.le_add_left _ _))
abbrev spec8 : Fin 7 → Pipeline.WinSpec sig grid8.rank := fun w => (win8 w).toWinSpec

abbrev win9_0 : Pipeline.Window sig grid9 :=
  Pipeline.Window.ofSpec (Memref.whole main_v129) S5000x128.size cc9_transform_0 reads9_0 false false 2 stage9_0 sem9_0
    hrank9 hreads9_0 hinb9_0 nbuf9_0 (Memref.isWhole_whole _) hwx9_0 hstage9_0

abbrev win9_1 : Pipeline.Window sig grid9 :=
  Pipeline.Window.ofSpec (Memref.whole main_v139) S5000x128.size cc9_transform_1 reads9_1 false false 2 stage9_1 sem9_1
    hrank9 hreads9_1 hinb9_1 nbuf9_1 (Memref.isWhole_whole _) hwx9_1 hstage9_1

abbrev win9_2 : Pipeline.Window sig grid9 :=
  Pipeline.Window.ofSpec (Memref.whole main_v143) S1x1.size cc9_transform_2 reads9_2 false true 1 stage9_2 sem9_2
    hrank9 hreads9_2 hinb9_2 nbuf9_2 (Memref.isWhole_whole _) hwx9_2 hstage9_2

abbrev win9_3 : Pipeline.Window sig grid9 :=
  Pipeline.Window.ofSpec (Memref.whole main_v148) S128x128.size cc9_transform_3 reads9_3 false true 1 stage9_3 sem9_3
    hrank9 hreads9_3 hinb9_3 nbuf9_3 (Memref.isWhole_whole _) hwx9_3 hstage9_3

abbrev win9_4 : Pipeline.Window sig grid9 :=
  Pipeline.Window.ofSpec (Memref.whole main_v146) S1x128.size cc9_transform_4 reads9_4 false true 1 stage9_4 sem9_4
    hrank9 hreads9_4 hinb9_4 nbuf9_4 (Memref.isWhole_whole _) hwx9_4 hstage9_4

abbrev win9_5 : Pipeline.Window sig grid9 :=
  Pipeline.Window.ofSpec (Memref.whole main_v149_0) S5000x128.size cc9_transform_5 reads9_5 true false 2 stage9_5 sem9_5
    hrank9 hreads9_5 hinb9_5 nbuf9_5 (Memref.isWhole_whole _) hwx9_5 hstage9_5

abbrev win9_6 : Pipeline.Window sig grid9 :=
  Pipeline.Window.ofSpec (Memref.whole main_v149_1) S1x128.size cc9_transform_6 reads9_6 true true 1 stage9_6 sem9_6
    hrank9 hreads9_6 hinb9_6 nbuf9_6 (Memref.isWhole_whole _) hwx9_6 hstage9_6

abbrev win9_7 : Pipeline.Window sig grid9 :=
  Pipeline.Window.ofSpec (Memref.whole main_v149_2) S1x128.size cc9_transform_7 reads9_7 true true 1 stage9_7 sem9_7
    hrank9 hreads9_7 hinb9_7 nbuf9_7 (Memref.isWhole_whole _) hwx9_7 hstage9_7

abbrev win9 : Fin 8 → Pipeline.Window sig grid9 := fun | 0 => win9_0 | 1 => win9_1 | 2 => win9_2 | 3 => win9_3 | 4 => win9_4 | 5 => win9_5 | 6 => win9_6 | 7 => win9_7 | ⟨_ + 8, h⟩ => absurd h (Nat.not_lt.2 (Nat.le_add_left _ _))
abbrev spec9 : Fin 8 → Pipeline.WinSpec sig grid9.rank := fun w => (win9 w).toWinSpec

abbrev win10_0 : Pipeline.Window sig grid10 :=
  Pipeline.Window.ofSpec (Memref.whole main_v149_0) S5000x128.size cc10_transform_0 reads10_0 false false 2 stage10_0 sem10_0
    hrank10 hreads10_0 hinb10_0 nbuf10_0 (Memref.isWhole_whole _) hwx10_0 hstage10_0

abbrev win10_1 : Pipeline.Window sig grid10 :=
  Pipeline.Window.ofSpec (Memref.whole main_v151) S1x128.size cc10_transform_1 reads10_1 false true 1 stage10_1 sem10_1
    hrank10 hreads10_1 hinb10_1 nbuf10_1 (Memref.isWhole_whole _) hwx10_1 hstage10_1

abbrev win10_2 : Pipeline.Window sig grid10 :=
  Pipeline.Window.ofSpec (Memref.whole main_v155) S1x128.size cc10_transform_2 reads10_2 false true 1 stage10_2 sem10_2
    hrank10 hreads10_2 hinb10_2 nbuf10_2 (Memref.isWhole_whole _) hwx10_2 hstage10_2

abbrev win10_3 : Pipeline.Window sig grid10 :=
  Pipeline.Window.ofSpec (Memref.whole main_v158) S1x128.size cc10_transform_3 reads10_3 false true 1 stage10_3 sem10_3
    hrank10 hreads10_3 hinb10_3 nbuf10_3 (Memref.isWhole_whole _) hwx10_3 hstage10_3

abbrev win10_4 : Pipeline.Window sig grid10 :=
  Pipeline.Window.ofSpec (Memref.whole main_v161) S1x128.size cc10_transform_4 reads10_4 false true 1 stage10_4 sem10_4
    hrank10 hreads10_4 hinb10_4 nbuf10_4 (Memref.isWhole_whole _) hwx10_4 hstage10_4

abbrev win10_5 : Pipeline.Window sig grid10 :=
  Pipeline.Window.ofSpec (Memref.whole main_v166) S128x128.size cc10_transform_5 reads10_5 false true 1 stage10_5 sem10_5
    hrank10 hreads10_5 hinb10_5 nbuf10_5 (Memref.isWhole_whole _) hwx10_5 hstage10_5

abbrev win10_6 : Pipeline.Window sig grid10 :=
  Pipeline.Window.ofSpec (Memref.whole main_v164) S1x128.size cc10_transform_6 reads10_6 false true 1 stage10_6 sem10_6
    hrank10 hreads10_6 hinb10_6 nbuf10_6 (Memref.isWhole_whole _) hwx10_6 hstage10_6

abbrev win10_7 : Pipeline.Window sig grid10 :=
  Pipeline.Window.ofSpec (Memref.whole main_v167_0) S5000x128.size cc10_transform_7 reads10_7 true false 2 stage10_7 sem10_7
    hrank10 hreads10_7 hinb10_7 nbuf10_7 (Memref.isWhole_whole _) hwx10_7 hstage10_7

abbrev win10_8 : Pipeline.Window sig grid10 :=
  Pipeline.Window.ofSpec (Memref.whole main_v167_1) S1x128.size cc10_transform_8 reads10_8 true true 1 stage10_8 sem10_8
    hrank10 hreads10_8 hinb10_8 nbuf10_8 (Memref.isWhole_whole _) hwx10_8 hstage10_8

abbrev win10_9 : Pipeline.Window sig grid10 :=
  Pipeline.Window.ofSpec (Memref.whole main_v167_2) S1x128.size cc10_transform_9 reads10_9 true true 1 stage10_9 sem10_9
    hrank10 hreads10_9 hinb10_9 nbuf10_9 (Memref.isWhole_whole _) hwx10_9 hstage10_9

abbrev win10 : Fin 10 → Pipeline.Window sig grid10 := fun | 0 => win10_0 | 1 => win10_1 | 2 => win10_2 | 3 => win10_3 | 4 => win10_4 | 5 => win10_5 | 6 => win10_6 | 7 => win10_7 | 8 => win10_8 | 9 => win10_9 | ⟨_ + 10, h⟩ => absurd h (Nat.not_lt.2 (Nat.le_add_left _ _))
abbrev spec10 : Fin 10 → Pipeline.WinSpec sig grid10.rank := fun w => (win10 w).toWinSpec

abbrev win11_0 : Pipeline.Window sig grid11 :=
  Pipeline.Window.ofSpec (Memref.whole main_v167_0) S5000x128.size cc11_transform_0 reads11_0 false false 2 stage11_0 sem11_0
    hrank11 hreads11_0 hinb11_0 nbuf11_0 (Memref.isWhole_whole _) hwx11_0 hstage11_0

abbrev win11_1 : Pipeline.Window sig grid11 :=
  Pipeline.Window.ofSpec (Memref.whole main_v169) S1x128.size cc11_transform_1 reads11_1 false true 1 stage11_1 sem11_1
    hrank11 hreads11_1 hinb11_1 nbuf11_1 (Memref.isWhole_whole _) hwx11_1 hstage11_1

abbrev win11_2 : Pipeline.Window sig grid11 :=
  Pipeline.Window.ofSpec (Memref.whole main_v173) S1x128.size cc11_transform_2 reads11_2 false true 1 stage11_2 sem11_2
    hrank11 hreads11_2 hinb11_2 nbuf11_2 (Memref.isWhole_whole _) hwx11_2 hstage11_2

abbrev win11_3 : Pipeline.Window sig grid11 :=
  Pipeline.Window.ofSpec (Memref.whole main_v176) S1x128.size cc11_transform_3 reads11_3 false true 1 stage11_3 sem11_3
    hrank11 hreads11_3 hinb11_3 nbuf11_3 (Memref.isWhole_whole _) hwx11_3 hstage11_3

abbrev win11_4 : Pipeline.Window sig grid11 :=
  Pipeline.Window.ofSpec (Memref.whole main_v179) S1x128.size cc11_transform_4 reads11_4 false true 1 stage11_4 sem11_4
    hrank11 hreads11_4 hinb11_4 nbuf11_4 (Memref.isWhole_whole _) hwx11_4 hstage11_4

abbrev win11_5 : Pipeline.Window sig grid11 :=
  Pipeline.Window.ofSpec (Memref.whole main_v180_0) S5000x128.size cc11_transform_5 reads11_5 true false 2 stage11_5 sem11_5
    hrank11 hreads11_5 hinb11_5 nbuf11_5 (Memref.isWhole_whole _) hwx11_5 hstage11_5

abbrev win11_6 : Pipeline.Window sig grid11 :=
  Pipeline.Window.ofSpec (Memref.whole main_v180_1) S1x128.size cc11_transform_6 reads11_6 true true 1 stage11_6 sem11_6
    hrank11 hreads11_6 hinb11_6 nbuf11_6 (Memref.isWhole_whole _) hwx11_6 hstage11_6

abbrev win11_7 : Pipeline.Window sig grid11 :=
  Pipeline.Window.ofSpec (Memref.whole main_v180_2) S1x128.size cc11_transform_7 reads11_7 true true 1 stage11_7 sem11_7
    hrank11 hreads11_7 hinb11_7 nbuf11_7 (Memref.isWhole_whole _) hwx11_7 hstage11_7

abbrev win11 : Fin 8 → Pipeline.Window sig grid11 := fun | 0 => win11_0 | 1 => win11_1 | 2 => win11_2 | 3 => win11_3 | 4 => win11_4 | 5 => win11_5 | 6 => win11_6 | 7 => win11_7 | ⟨_ + 8, h⟩ => absurd h (Nat.not_lt.2 (Nat.le_add_left _ _))
abbrev spec11 : Fin 8 → Pipeline.WinSpec sig grid11.rank := fun w => (win11 w).toWinSpec

abbrev win12_0 : Pipeline.Window sig grid12 :=
  Pipeline.Window.ofSpec (Memref.whole main_v180_0) S5000x128.size cc12_transform_0 reads12_0 false false 2 stage12_0 sem12_0
    hrank12 hreads12_0 hinb12_0 nbuf12_0 (Memref.isWhole_whole _) hwx12_0 hstage12_0

abbrev win12_1 : Pipeline.Window sig grid12 :=
  Pipeline.Window.ofSpec (Memref.whole main_v182) S1x128.size cc12_transform_1 reads12_1 false true 1 stage12_1 sem12_1
    hrank12 hreads12_1 hinb12_1 nbuf12_1 (Memref.isWhole_whole _) hwx12_1 hstage12_1

abbrev win12_2 : Pipeline.Window sig grid12 :=
  Pipeline.Window.ofSpec (Memref.whole main_v186) S1x128.size cc12_transform_2 reads12_2 false true 1 stage12_2 sem12_2
    hrank12 hreads12_2 hinb12_2 nbuf12_2 (Memref.isWhole_whole _) hwx12_2 hstage12_2

abbrev win12_3 : Pipeline.Window sig grid12 :=
  Pipeline.Window.ofSpec (Memref.whole main_v189) S1x128.size cc12_transform_3 reads12_3 false true 1 stage12_3 sem12_3
    hrank12 hreads12_3 hinb12_3 nbuf12_3 (Memref.isWhole_whole _) hwx12_3 hstage12_3

abbrev win12_4 : Pipeline.Window sig grid12 :=
  Pipeline.Window.ofSpec (Memref.whole main_v192) S1x128.size cc12_transform_4 reads12_4 false true 1 stage12_4 sem12_4
    hrank12 hreads12_4 hinb12_4 nbuf12_4 (Memref.isWhole_whole _) hwx12_4 hstage12_4

abbrev win12_5 : Pipeline.Window sig grid12 :=
  Pipeline.Window.ofSpec (Memref.whole main_v129) S5000x128.size cc12_transform_5 reads12_5 false false 2 stage12_5 sem12_5
    hrank12 hreads12_5 hinb12_5 nbuf12_5 (Memref.isWhole_whole _) hwx12_5 hstage12_5

abbrev win12_6 : Pipeline.Window sig grid12 :=
  Pipeline.Window.ofSpec (Memref.whole main_v193) S5000x128.size cc12_transform_6 reads12_6 true false 2 stage12_6 sem12_6
    hrank12 hreads12_6 hinb12_6 nbuf12_6 (Memref.isWhole_whole _) hwx12_6 hstage12_6

abbrev win12 : Fin 7 → Pipeline.Window sig grid12 := fun | 0 => win12_0 | 1 => win12_1 | 2 => win12_2 | 3 => win12_3 | 4 => win12_4 | 5 => win12_5 | 6 => win12_6 | ⟨_ + 7, h⟩ => absurd h (Nat.not_lt.2 (Nat.le_add_left _ _))
abbrev spec12 : Fin 7 → Pipeline.WinSpec sig grid12.rank := fun w => (win12 w).toWinSpec

abbrev win13_0 : Pipeline.Window sig grid13 :=
  Pipeline.Window.ofSpec (Memref.whole main_v193) S5000x128.size cc13_transform_0 reads13_0 false false 2 stage13_0 sem13_0
    hrank13 hreads13_0 hinb13_0 nbuf13_0 (Memref.isWhole_whole _) hwx13_0 hstage13_0

abbrev win13_1 : Pipeline.Window sig grid13 :=
  Pipeline.Window.ofSpec (Memref.whole main_v203) S5000x128.size cc13_transform_1 reads13_1 false false 2 stage13_1 sem13_1
    hrank13 hreads13_1 hinb13_1 nbuf13_1 (Memref.isWhole_whole _) hwx13_1 hstage13_1

abbrev win13_2 : Pipeline.Window sig grid13 :=
  Pipeline.Window.ofSpec (Memref.whole main_v207) S1x1.size cc13_transform_2 reads13_2 false true 1 stage13_2 sem13_2
    hrank13 hreads13_2 hinb13_2 nbuf13_2 (Memref.isWhole_whole _) hwx13_2 hstage13_2

abbrev win13_3 : Pipeline.Window sig grid13 :=
  Pipeline.Window.ofSpec (Memref.whole main_v212) S128x128.size cc13_transform_3 reads13_3 false true 1 stage13_3 sem13_3
    hrank13 hreads13_3 hinb13_3 nbuf13_3 (Memref.isWhole_whole _) hwx13_3 hstage13_3

abbrev win13_4 : Pipeline.Window sig grid13 :=
  Pipeline.Window.ofSpec (Memref.whole main_v210) S1x128.size cc13_transform_4 reads13_4 false true 1 stage13_4 sem13_4
    hrank13 hreads13_4 hinb13_4 nbuf13_4 (Memref.isWhole_whole _) hwx13_4 hstage13_4

abbrev win13_5 : Pipeline.Window sig grid13 :=
  Pipeline.Window.ofSpec (Memref.whole main_v213_0) S5000x128.size cc13_transform_5 reads13_5 true false 2 stage13_5 sem13_5
    hrank13 hreads13_5 hinb13_5 nbuf13_5 (Memref.isWhole_whole _) hwx13_5 hstage13_5

abbrev win13_6 : Pipeline.Window sig grid13 :=
  Pipeline.Window.ofSpec (Memref.whole main_v213_1) S1x128.size cc13_transform_6 reads13_6 true true 1 stage13_6 sem13_6
    hrank13 hreads13_6 hinb13_6 nbuf13_6 (Memref.isWhole_whole _) hwx13_6 hstage13_6

abbrev win13_7 : Pipeline.Window sig grid13 :=
  Pipeline.Window.ofSpec (Memref.whole main_v213_2) S1x128.size cc13_transform_7 reads13_7 true true 1 stage13_7 sem13_7
    hrank13 hreads13_7 hinb13_7 nbuf13_7 (Memref.isWhole_whole _) hwx13_7 hstage13_7

abbrev win13 : Fin 8 → Pipeline.Window sig grid13 := fun | 0 => win13_0 | 1 => win13_1 | 2 => win13_2 | 3 => win13_3 | 4 => win13_4 | 5 => win13_5 | 6 => win13_6 | 7 => win13_7 | ⟨_ + 8, h⟩ => absurd h (Nat.not_lt.2 (Nat.le_add_left _ _))
abbrev spec13 : Fin 8 → Pipeline.WinSpec sig grid13.rank := fun w => (win13 w).toWinSpec

abbrev win14_0 : Pipeline.Window sig grid14 :=
  Pipeline.Window.ofSpec (Memref.whole main_v213_0) S5000x128.size cc14_transform_0 reads14_0 false false 2 stage14_0 sem14_0
    hrank14 hreads14_0 hinb14_0 nbuf14_0 (Memref.isWhole_whole _) hwx14_0 hstage14_0

abbrev win14_1 : Pipeline.Window sig grid14 :=
  Pipeline.Window.ofSpec (Memref.whole main_v215) S1x128.size cc14_transform_1 reads14_1 false true 1 stage14_1 sem14_1
    hrank14 hreads14_1 hinb14_1 nbuf14_1 (Memref.isWhole_whole _) hwx14_1 hstage14_1

abbrev win14_2 : Pipeline.Window sig grid14 :=
  Pipeline.Window.ofSpec (Memref.whole main_v219) S1x128.size cc14_transform_2 reads14_2 false true 1 stage14_2 sem14_2
    hrank14 hreads14_2 hinb14_2 nbuf14_2 (Memref.isWhole_whole _) hwx14_2 hstage14_2

abbrev win14_3 : Pipeline.Window sig grid14 :=
  Pipeline.Window.ofSpec (Memref.whole main_v222) S1x128.size cc14_transform_3 reads14_3 false true 1 stage14_3 sem14_3
    hrank14 hreads14_3 hinb14_3 nbuf14_3 (Memref.isWhole_whole _) hwx14_3 hstage14_3

abbrev win14_4 : Pipeline.Window sig grid14 :=
  Pipeline.Window.ofSpec (Memref.whole main_v225) S1x128.size cc14_transform_4 reads14_4 false true 1 stage14_4 sem14_4
    hrank14 hreads14_4 hinb14_4 nbuf14_4 (Memref.isWhole_whole _) hwx14_4 hstage14_4

abbrev win14_5 : Pipeline.Window sig grid14 :=
  Pipeline.Window.ofSpec (Memref.whole main_v230) S128x128.size cc14_transform_5 reads14_5 false true 1 stage14_5 sem14_5
    hrank14 hreads14_5 hinb14_5 nbuf14_5 (Memref.isWhole_whole _) hwx14_5 hstage14_5

abbrev win14_6 : Pipeline.Window sig grid14 :=
  Pipeline.Window.ofSpec (Memref.whole main_v228) S1x128.size cc14_transform_6 reads14_6 false true 1 stage14_6 sem14_6
    hrank14 hreads14_6 hinb14_6 nbuf14_6 (Memref.isWhole_whole _) hwx14_6 hstage14_6

abbrev win14_7 : Pipeline.Window sig grid14 :=
  Pipeline.Window.ofSpec (Memref.whole main_v231_0) S5000x128.size cc14_transform_7 reads14_7 true false 2 stage14_7 sem14_7
    hrank14 hreads14_7 hinb14_7 nbuf14_7 (Memref.isWhole_whole _) hwx14_7 hstage14_7

abbrev win14_8 : Pipeline.Window sig grid14 :=
  Pipeline.Window.ofSpec (Memref.whole main_v231_1) S1x128.size cc14_transform_8 reads14_8 true true 1 stage14_8 sem14_8
    hrank14 hreads14_8 hinb14_8 nbuf14_8 (Memref.isWhole_whole _) hwx14_8 hstage14_8

abbrev win14_9 : Pipeline.Window sig grid14 :=
  Pipeline.Window.ofSpec (Memref.whole main_v231_2) S1x128.size cc14_transform_9 reads14_9 true true 1 stage14_9 sem14_9
    hrank14 hreads14_9 hinb14_9 nbuf14_9 (Memref.isWhole_whole _) hwx14_9 hstage14_9

abbrev win14 : Fin 10 → Pipeline.Window sig grid14 := fun | 0 => win14_0 | 1 => win14_1 | 2 => win14_2 | 3 => win14_3 | 4 => win14_4 | 5 => win14_5 | 6 => win14_6 | 7 => win14_7 | 8 => win14_8 | 9 => win14_9 | ⟨_ + 10, h⟩ => absurd h (Nat.not_lt.2 (Nat.le_add_left _ _))
abbrev spec14 : Fin 10 → Pipeline.WinSpec sig grid14.rank := fun w => (win14 w).toWinSpec

abbrev win15_0 : Pipeline.Window sig grid15 :=
  Pipeline.Window.ofSpec (Memref.whole main_v231_0) S5000x128.size cc15_transform_0 reads15_0 false false 2 stage15_0 sem15_0
    hrank15 hreads15_0 hinb15_0 nbuf15_0 (Memref.isWhole_whole _) hwx15_0 hstage15_0

abbrev win15_1 : Pipeline.Window sig grid15 :=
  Pipeline.Window.ofSpec (Memref.whole main_v233) S1x128.size cc15_transform_1 reads15_1 false true 1 stage15_1 sem15_1
    hrank15 hreads15_1 hinb15_1 nbuf15_1 (Memref.isWhole_whole _) hwx15_1 hstage15_1

abbrev win15_2 : Pipeline.Window sig grid15 :=
  Pipeline.Window.ofSpec (Memref.whole main_v237) S1x128.size cc15_transform_2 reads15_2 false true 1 stage15_2 sem15_2
    hrank15 hreads15_2 hinb15_2 nbuf15_2 (Memref.isWhole_whole _) hwx15_2 hstage15_2

abbrev win15_3 : Pipeline.Window sig grid15 :=
  Pipeline.Window.ofSpec (Memref.whole main_v240) S1x128.size cc15_transform_3 reads15_3 false true 1 stage15_3 sem15_3
    hrank15 hreads15_3 hinb15_3 nbuf15_3 (Memref.isWhole_whole _) hwx15_3 hstage15_3

abbrev win15_4 : Pipeline.Window sig grid15 :=
  Pipeline.Window.ofSpec (Memref.whole main_v243) S1x128.size cc15_transform_4 reads15_4 false true 1 stage15_4 sem15_4
    hrank15 hreads15_4 hinb15_4 nbuf15_4 (Memref.isWhole_whole _) hwx15_4 hstage15_4

abbrev win15_5 : Pipeline.Window sig grid15 :=
  Pipeline.Window.ofSpec (Memref.whole main_v244_0) S5000x128.size cc15_transform_5 reads15_5 true false 2 stage15_5 sem15_5
    hrank15 hreads15_5 hinb15_5 nbuf15_5 (Memref.isWhole_whole _) hwx15_5 hstage15_5

abbrev win15_6 : Pipeline.Window sig grid15 :=
  Pipeline.Window.ofSpec (Memref.whole main_v244_1) S1x128.size cc15_transform_6 reads15_6 true true 1 stage15_6 sem15_6
    hrank15 hreads15_6 hinb15_6 nbuf15_6 (Memref.isWhole_whole _) hwx15_6 hstage15_6

abbrev win15_7 : Pipeline.Window sig grid15 :=
  Pipeline.Window.ofSpec (Memref.whole main_v244_2) S1x128.size cc15_transform_7 reads15_7 true true 1 stage15_7 sem15_7
    hrank15 hreads15_7 hinb15_7 nbuf15_7 (Memref.isWhole_whole _) hwx15_7 hstage15_7

abbrev win15 : Fin 8 → Pipeline.Window sig grid15 := fun | 0 => win15_0 | 1 => win15_1 | 2 => win15_2 | 3 => win15_3 | 4 => win15_4 | 5 => win15_5 | 6 => win15_6 | 7 => win15_7 | ⟨_ + 8, h⟩ => absurd h (Nat.not_lt.2 (Nat.le_add_left _ _))
abbrev spec15 : Fin 8 → Pipeline.WinSpec sig grid15.rank := fun w => (win15 w).toWinSpec

abbrev win16_0 : Pipeline.Window sig grid16 :=
  Pipeline.Window.ofSpec (Memref.whole main_v244_0) S5000x128.size cc16_transform_0 reads16_0 false false 2 stage16_0 sem16_0
    hrank16 hreads16_0 hinb16_0 nbuf16_0 (Memref.isWhole_whole _) hwx16_0 hstage16_0

abbrev win16_1 : Pipeline.Window sig grid16 :=
  Pipeline.Window.ofSpec (Memref.whole main_v246) S1x128.size cc16_transform_1 reads16_1 false true 1 stage16_1 sem16_1
    hrank16 hreads16_1 hinb16_1 nbuf16_1 (Memref.isWhole_whole _) hwx16_1 hstage16_1

abbrev win16_2 : Pipeline.Window sig grid16 :=
  Pipeline.Window.ofSpec (Memref.whole main_v250) S1x128.size cc16_transform_2 reads16_2 false true 1 stage16_2 sem16_2
    hrank16 hreads16_2 hinb16_2 nbuf16_2 (Memref.isWhole_whole _) hwx16_2 hstage16_2

abbrev win16_3 : Pipeline.Window sig grid16 :=
  Pipeline.Window.ofSpec (Memref.whole main_v253) S1x128.size cc16_transform_3 reads16_3 false true 1 stage16_3 sem16_3
    hrank16 hreads16_3 hinb16_3 nbuf16_3 (Memref.isWhole_whole _) hwx16_3 hstage16_3

abbrev win16_4 : Pipeline.Window sig grid16 :=
  Pipeline.Window.ofSpec (Memref.whole main_v256) S1x128.size cc16_transform_4 reads16_4 false true 1 stage16_4 sem16_4
    hrank16 hreads16_4 hinb16_4 nbuf16_4 (Memref.isWhole_whole _) hwx16_4 hstage16_4

abbrev win16_5 : Pipeline.Window sig grid16 :=
  Pipeline.Window.ofSpec (Memref.whole main_v193) S5000x128.size cc16_transform_5 reads16_5 false false 2 stage16_5 sem16_5
    hrank16 hreads16_5 hinb16_5 nbuf16_5 (Memref.isWhole_whole _) hwx16_5 hstage16_5

abbrev win16_6 : Pipeline.Window sig grid16 :=
  Pipeline.Window.ofSpec (Memref.whole main_v257) S5000x128.size cc16_transform_6 reads16_6 true false 2 stage16_6 sem16_6
    hrank16 hreads16_6 hinb16_6 nbuf16_6 (Memref.isWhole_whole _) hwx16_6 hstage16_6

abbrev win16 : Fin 7 → Pipeline.Window sig grid16 := fun | 0 => win16_0 | 1 => win16_1 | 2 => win16_2 | 3 => win16_3 | 4 => win16_4 | 5 => win16_5 | 6 => win16_6 | ⟨_ + 7, h⟩ => absurd h (Nat.not_lt.2 (Nat.le_add_left _ _))
abbrev spec16 : Fin 7 → Pipeline.WinSpec sig grid16.rank := fun w => (win16 w).toWinSpec

class Facts : Prop extends Facts₀ where

variable [Facts]
-- ==== ReferenceIdeal.lean ====
abbrev S50000x128 : Shape := ⟨2, ![50000, 128]⟩
abbrev S1600000 : Shape := ⟨1, ![1600000]⟩
abbrev S128x128 : Shape := ⟨2, ![128, 128]⟩
abbrev S128 : Shape := ⟨1, ![128]⟩
abbrev S4 : Shape := ⟨1, ![4]⟩
abbrev S4x128x128 : Shape := ⟨3, ![4, 128, 128]⟩
abbrev S4x128 : Shape := ⟨2, ![4, 128]⟩
abbrev S1x128 : Shape := ⟨2, ![1, 128]⟩
abbrev S_ : Shape := ⟨0, ![]⟩
abbrev S1600000x1 : Shape := ⟨2, ![1600000, 1]⟩
abbrev S1600000x128 : Shape := ⟨2, ![1600000, 128]⟩
abbrev S1 : Shape := ⟨1, ![1]⟩
abbrev S1x128x128 : Shape := ⟨3, ![1, 128, 128]⟩

abbrev nBuf : Space → Nat
  | .hbm => 780
  | .vmem => 0
  | .smem => 0
  | _ => 0

abbrev hbmTy0_0 (i : Nat) : BufTy := match i % 128 with
  | 0 => ⟨S50000x128, .f32⟩
  | 1 => ⟨S1600000, .i32⟩
  | 2 => ⟨S1600000, .i32⟩
  | 3 => ⟨S128x128, .f32⟩
  | 4 => ⟨S128, .f32⟩
  | 5 => ⟨S4, .f32⟩
  | 6 => ⟨S4x128x128, .f32⟩
  | 7 => ⟨S4x128, .f32⟩
  | 8 => ⟨S4x128, .f32⟩
  | 9 => ⟨S4x128, .f32⟩
  | 10 => ⟨S4x128x128, .f32⟩
  | 11 => ⟨S4x128, .f32⟩
  | 12 => ⟨S4x128, .f32⟩
  | 13 => ⟨S4x128, .f32⟩
  | 14 => ⟨S4x128, .f32⟩
  | 15 => ⟨S4x128, .f32⟩
  | 16 => ⟨S50000x128, .f32⟩
  | 17 => ⟨S1x128, .f32⟩
  | 18 => ⟨S50000x128, .f32⟩
  | 19 => ⟨S50000x128, .f32⟩
  | 20 => ⟨S_, .i32⟩
  | 21 => ⟨S1600000, .i32⟩
  | 22 => ⟨S1600000, .i1⟩
  | 23 => ⟨S_, .i32⟩
  | 24 => ⟨S1600000, .i32⟩
  | 25 => ⟨S1600000, .i32⟩
  | 26 => ⟨S1600000, .i32⟩
  | 27 => ⟨S1600000x1, .i32⟩
  | 28 => ⟨S1600000x128, .f32⟩
  | 29 => ⟨S_, .f32⟩
  | 30 => ⟨S50000x128, .f32⟩
  | 31 => ⟨S1600000x1, .i32⟩
  | 32 => ⟨S50000x128, .f32⟩
  | 33 => ⟨S1, .f32⟩
  | 34 => ⟨S_, .f32⟩
  | 35 => ⟨S_, .f32⟩
  | 36 => ⟨S_, .f32⟩
  | 37 => ⟨S50000x128, .f32⟩
  | 38 => ⟨S50000x128, .f32⟩
  | 39 => ⟨S50000x128, .f32⟩
  | 40 => ⟨S1x128x128, .f32⟩
  | 41 => ⟨S128x128, .f32⟩
  | 42 => ⟨S50000x128, .f32⟩
  | 43 => ⟨S1x128, .f32⟩
  | 44 => ⟨S128, .f32⟩
  | 45 => ⟨S1x128, .f32⟩
  | 46 => ⟨S50000x128, .f32⟩
  | 47 => ⟨S50000x128, .f32⟩
  | 48 => ⟨S1x128, .f32⟩
  | 49 => ⟨S128, .f32⟩
  | 50 => ⟨S1x128, .f32⟩
  | 51 => ⟨S128, .f32⟩
  | 52 => ⟨S_, .f32⟩
  | 53 => ⟨S128, .f32⟩
  | 54 => ⟨S1x128, .f32⟩
  | 55 => ⟨S_, .f32⟩
  | 56 => ⟨S1x128, .f32⟩
  | 57 => ⟨S1x128, .f32⟩
  | 58 => ⟨S_, .i32⟩
  | 59 => ⟨S_, .f32⟩
  | 60 => ⟨S128, .f32⟩
  | 61 => ⟨S1x128, .f32⟩
  | 62 => ⟨S_, .f32⟩
  | 63 => ⟨S1x128, .f32⟩
  | 64 => ⟨S1x128, .f32⟩
  | 65 => ⟨S50000x128, .f32⟩
  | 66 => ⟨S50000x128, .f32⟩
  | 67 => ⟨S50000x128, .f32⟩
  | 68 => ⟨S_, .f32⟩
  | 69 => ⟨S_, .f32⟩
  | 70 => ⟨S_, .f32⟩
  | 71 => ⟨S_, .f32⟩
  | 72 => ⟨S128, .f32⟩
  | 73 => ⟨S1x128, .f32⟩
  | 74 => ⟨S1x128, .f32⟩
  | 75 => ⟨S1x128, .f32⟩
  | 76 => ⟨S_, .f32⟩
  | 77 => ⟨S_, .i1⟩
  | 78 => ⟨S_, .f32⟩
  | 79 => ⟨S_, .f32⟩
  | 80 => ⟨S1x128, .f32⟩
  | 81 => ⟨S1x128, .f32⟩
  | 82 => ⟨S50000x128, .f32⟩
  | 83 => ⟨S50000x128, .f32⟩
  | 84 => ⟨S1x128, .f32⟩
  | 85 => ⟨S50000x128, .f32⟩
  | 86 => ⟨S50000x128, .f32⟩
  | 87 => ⟨S_, .f32⟩
  | 88 => ⟨S1x128, .f32⟩
  | 89 => ⟨S1x128, .f32⟩
  | 90 => ⟨S1x128, .f32⟩
  | 91 => ⟨S50000x128, .f32⟩
  | 92 => ⟨S50000x128, .f32⟩
  | 93 => ⟨S1x128, .f32⟩
  | 94 => ⟨S50000x128, .f32⟩
  | 95 => ⟨S50000x128, .f32⟩
  | 96 => ⟨S_, .f32⟩
  | 97 => ⟨S50000x128, .f32⟩
  | 98 => ⟨S50000x128, .f32⟩
  | 99 => ⟨S1x128x128, .f32⟩
  | 100 => ⟨S128x128, .f32⟩
  | 101 => ⟨S50000x128, .f32⟩
  | 102 => ⟨S1x128, .f32⟩
  | 103 => ⟨S128, .f32⟩
  | 104 => ⟨S1x128, .f32⟩
  | 105 => ⟨S50000x128, .f32⟩
  | 106 => ⟨S50000x128, .f32⟩
  | 107 => ⟨S1x128, .f32⟩
  | 108 => ⟨S128, .f32⟩
  | 109 => ⟨S1x128, .f32⟩
  | 110 => ⟨S128, .f32⟩
  | 111 => ⟨S_, .f32⟩
  | 112 => ⟨S128, .f32⟩
  | 113 => ⟨S1x128, .f32⟩
  | 114 => ⟨S_, .f32⟩
  | 115 => ⟨S1x128, .f32⟩
  | 116 => ⟨S1x128, .f32⟩
  | 117 => ⟨S_, .i32⟩
  | 118 => ⟨S_, .f32⟩
  | 119 => ⟨S128, .f32⟩
  | 120 => ⟨S1x128, .f32⟩
  | 121 => ⟨S_, .f32⟩
  | 122 => ⟨S1x128, .f32⟩
  | 123 => ⟨S1x128, .f32⟩
  | 124 => ⟨S50000x128, .f32⟩
  | 125 => ⟨S50000x128, .f32⟩
  | 126 => ⟨S50000x128, .f32⟩
  | 127 => ⟨S_, .f32⟩
  | _ => ⟨S50000x128, .f32⟩

abbrev hbmTy0_1 (i : Nat) : BufTy := match i % 128 with
  | 0 => ⟨S_, .f32⟩
  | 1 => ⟨S_, .f32⟩
  | 2 => ⟨S_, .f32⟩
  | 3 => ⟨S128, .f32⟩
  | 4 => ⟨S1x128, .f32⟩
  | 5 => ⟨S1x128, .f32⟩
  | 6 => ⟨S1x128, .f32⟩
  | 7 => ⟨S_, .f32⟩
  | 8 => ⟨S_, .i1⟩
  | 9 => ⟨S_, .f32⟩
  | 10 => ⟨S_, .f32⟩
  | 11 => ⟨S1x128, .f32⟩
  | 12 => ⟨S1x128, .f32⟩
  | 13 => ⟨S50000x128, .f32⟩
  | 14 => ⟨S50000x128, .f32⟩
  | 15 => ⟨S1x128, .f32⟩
  | 16 => ⟨S50000x128, .f32⟩
  | 17 => ⟨S50000x128, .f32⟩
  | 18 => ⟨S_, .f32⟩
  | 19 => ⟨S1x128, .f32⟩
  | 20 => ⟨S1x128, .f32⟩
  | 21 => ⟨S1x128, .f32⟩
  | 22 => ⟨S50000x128, .f32⟩
  | 23 => ⟨S50000x128, .f32⟩
  | 24 => ⟨S1x128, .f32⟩
  | 25 => ⟨S50000x128, .f32⟩
  | 26 => ⟨S50000x128, .f32⟩
  | 27 => ⟨S_, .f32⟩
  | 28 => ⟨S50000x128, .f32⟩
  | 29 => ⟨S50000x128, .f32⟩
  | 30 => ⟨S1x128, .f32⟩
  | 31 => ⟨S128, .f32⟩
  | 32 => ⟨S1x128, .f32⟩
  | 33 => ⟨S128, .f32⟩
  | 34 => ⟨S_, .f32⟩
  | 35 => ⟨S128, .f32⟩
  | 36 => ⟨S1x128, .f32⟩
  | 37 => ⟨S_, .f32⟩
  | 38 => ⟨S1x128, .f32⟩
  | 39 => ⟨S1x128, .f32⟩
  | 40 => ⟨S_, .i32⟩
  | 41 => ⟨S_, .f32⟩
  | 42 => ⟨S128, .f32⟩
  | 43 => ⟨S1x128, .f32⟩
  | 44 => ⟨S_, .f32⟩
  | 45 => ⟨S1x128, .f32⟩
  | 46 => ⟨S1x128, .f32⟩
  | 47 => ⟨S50000x128, .f32⟩
  | 48 => ⟨S50000x128, .f32⟩
  | 49 => ⟨S50000x128, .f32⟩
  | 50 => ⟨S_, .f32⟩
  | 51 => ⟨S_, .f32⟩
  | 52 => ⟨S_, .f32⟩
  | 53 => ⟨S_, .f32⟩
  | 54 => ⟨S128, .f32⟩
  | 55 => ⟨S1x128, .f32⟩
  | 56 => ⟨S1x128, .f32⟩
  | 57 => ⟨S1x128, .f32⟩
  | 58 => ⟨S_, .f32⟩
  | 59 => ⟨S_, .i1⟩
  | 60 => ⟨S_, .f32⟩
  | 61 => ⟨S_, .f32⟩
  | 62 => ⟨S1x128, .f32⟩
  | 63 => ⟨S1x128, .f32⟩
  | 64 => ⟨S50000x128, .f32⟩
  | 65 => ⟨S50000x128, .f32⟩
  | 66 => ⟨S1x128, .f32⟩
  | 67 => ⟨S50000x128, .f32⟩
  | 68 => ⟨S50000x128, .f32⟩
  | 69 => ⟨S_, .f32⟩
  | 70 => ⟨S1x128, .f32⟩
  | 71 => ⟨S1x128, .f32⟩
  | 72 => ⟨S1x128, .f32⟩
  | 73 => ⟨S50000x128, .f32⟩
  | 74 => ⟨S50000x128, .f32⟩
  | 75 => ⟨S1x128, .f32⟩
  | 76 => ⟨S50000x128, .f32⟩
  | 77 => ⟨S50000x128, .f32⟩
  | 78 => ⟨S_, .f32⟩
  | 79 => ⟨S50000x128, .f32⟩
  | 80 => ⟨S50000x128, .f32⟩
  | 81 => ⟨S50000x128, .f32⟩
  | 82 => ⟨S_, .i32⟩
  | 83 => ⟨S1600000, .i32⟩
  | 84 => ⟨S1600000, .i1⟩
  | 85 => ⟨S_, .i32⟩
  | 86 => ⟨S1600000, .i32⟩
  | 87 => ⟨S1600000, .i32⟩
  | 88 => ⟨S1600000, .i32⟩
  | 89 => ⟨S1600000x1, .i32⟩
  | 90 => ⟨S1600000x128, .f32⟩
  | 91 => ⟨S_, .f32⟩
  | 92 => ⟨S50000x128, .f32⟩
  | 93 => ⟨S1600000x1, .i32⟩
  | 94 => ⟨S50000x128, .f32⟩
  | 95 => ⟨S1, .f32⟩
  | 96 => ⟨S_, .f32⟩
  | 97 => ⟨S_, .f32⟩
  | 98 => ⟨S_, .f32⟩
  | 99 => ⟨S50000x128, .f32⟩
  | 100 => ⟨S50000x128, .f32⟩
  | 101 => ⟨S50000x128, .f32⟩
  | 102 => ⟨S1x128x128, .f32⟩
  | 103 => ⟨S128x128, .f32⟩
  | 104 => ⟨S50000x128, .f32⟩
  | 105 => ⟨S1x128, .f32⟩
  | 106 => ⟨S128, .f32⟩
  | 107 => ⟨S1x128, .f32⟩
  | 108 => ⟨S50000x128, .f32⟩
  | 109 => ⟨S50000x128, .f32⟩
  | 110 => ⟨S1x128, .f32⟩
  | 111 => ⟨S128, .f32⟩
  | 112 => ⟨S1x128, .f32⟩
  | 113 => ⟨S128, .f32⟩
  | 114 => ⟨S_, .f32⟩
  | 115 => ⟨S128, .f32⟩
  | 116 => ⟨S1x128, .f32⟩
  | 117 => ⟨S_, .f32⟩
  | 118 => ⟨S1x128, .f32⟩
  | 119 => ⟨S1x128, .f32⟩
  | 120 => ⟨S_, .i32⟩
  | 121 => ⟨S_, .f32⟩
  | 122 => ⟨S128, .f32⟩
  | 123 => ⟨S1x128, .f32⟩
  | 124 => ⟨S_, .f32⟩
  | 125 => ⟨S1x128, .f32⟩
  | 126 => ⟨S1x128, .f32⟩
  | 127 => ⟨S50000x128, .f32⟩
  | _ => ⟨S50000x128, .f32⟩

abbrev hbmTy0_2 (i : Nat) : BufTy := match i % 128 with
  | 0 => ⟨S50000x128, .f32⟩
  | 1 => ⟨S50000x128, .f32⟩
  | 2 => ⟨S_, .f32⟩
  | 3 => ⟨S_, .f32⟩
  | 4 => ⟨S_, .f32⟩
  | 5 => ⟨S_, .f32⟩
  | 6 => ⟨S128, .f32⟩
  | 7 => ⟨S1x128, .f32⟩
  | 8 => ⟨S1x128, .f32⟩
  | 9 => ⟨S1x128, .f32⟩
  | 10 => ⟨S_, .f32⟩
  | 11 => ⟨S_, .i1⟩
  | 12 => ⟨S_, .f32⟩
  | 13 => ⟨S_, .f32⟩
  | 14 => ⟨S1x128, .f32⟩
  | 15 => ⟨S1x128, .f32⟩
  | 16 => ⟨S50000x128, .f32⟩
  | 17 => ⟨S50000x128, .f32⟩
  | 18 => ⟨S1x128, .f32⟩
  | 19 => ⟨S50000x128, .f32⟩
  | 20 => ⟨S50000x128, .f32⟩
  | 21 => ⟨S_, .f32⟩
  | 22 => ⟨S1x128, .f32⟩
  | 23 => ⟨S1x128, .f32⟩
  | 24 => ⟨S1x128, .f32⟩
  | 25 => ⟨S50000x128, .f32⟩
  | 26 => ⟨S50000x128, .f32⟩
  | 27 => ⟨S1x128, .f32⟩
  | 28 => ⟨S50000x128, .f32⟩
  | 29 => ⟨S50000x128, .f32⟩
  | 30 => ⟨S_, .f32⟩
  | 31 => ⟨S50000x128, .f32⟩
  | 32 => ⟨S50000x128, .f32⟩
  | 33 => ⟨S1x128x128, .f32⟩
  | 34 => ⟨S128x128, .f32⟩
  | 35 => ⟨S50000x128, .f32⟩
  | 36 => ⟨S1x128, .f32⟩
  | 37 => ⟨S128, .f32⟩
  | 38 => ⟨S1x128, .f32⟩
  | 39 => ⟨S50000x128, .f32⟩
  | 40 => ⟨S50000x128, .f32⟩
  | 41 => ⟨S1x128, .f32⟩
  | 42 => ⟨S128, .f32⟩
  | 43 => ⟨S1x128, .f32⟩
  | 44 => ⟨S128, .f32⟩
  | 45 => ⟨S_, .f32⟩
  | 46 => ⟨S128, .f32⟩
  | 47 => ⟨S1x128, .f32⟩
  | 48 => ⟨S_, .f32⟩
  | 49 => ⟨S1x128, .f32⟩
  | 50 => ⟨S1x128, .f32⟩
  | 51 => ⟨S_, .i32⟩
  | 52 => ⟨S_, .f32⟩
  | 53 => ⟨S128, .f32⟩
  | 54 => ⟨S1x128, .f32⟩
  | 55 => ⟨S_, .f32⟩
  | 56 => ⟨S1x128, .f32⟩
  | 57 => ⟨S1x128, .f32⟩
  | 58 => ⟨S50000x128, .f32⟩
  | 59 => ⟨S50000x128, .f32⟩
  | 60 => ⟨S50000x128, .f32⟩
  | 61 => ⟨S_, .f32⟩
  | 62 => ⟨S_, .f32⟩
  | 63 => ⟨S_, .f32⟩
  | 64 => ⟨S_, .f32⟩
  | 65 => ⟨S128, .f32⟩
  | 66 => ⟨S1x128, .f32⟩
  | 67 => ⟨S1x128, .f32⟩
  | 68 => ⟨S1x128, .f32⟩
  | 69 => ⟨S_, .f32⟩
  | 70 => ⟨S_, .i1⟩
  | 71 => ⟨S_, .f32⟩
  | 72 => ⟨S_, .f32⟩
  | 73 => ⟨S1x128, .f32⟩
  | 74 => ⟨S1x128, .f32⟩
  | 75 => ⟨S50000x128, .f32⟩
  | 76 => ⟨S50000x128, .f32⟩
  | 77 => ⟨S1x128, .f32⟩
  | 78 => ⟨S50000x128, .f32⟩
  | 79 => ⟨S50000x128, .f32⟩
  | 80 => ⟨S_, .f32⟩
  | 81 => ⟨S1x128, .f32⟩
  | 82 => ⟨S1x128, .f32⟩
  | 83 => ⟨S1x128, .f32⟩
  | 84 => ⟨S50000x128, .f32⟩
  | 85 => ⟨S50000x128, .f32⟩
  | 86 => ⟨S1x128, .f32⟩
  | 87 => ⟨S50000x128, .f32⟩
  | 88 => ⟨S50000x128, .f32⟩
  | 89 => ⟨S_, .f32⟩
  | 90 => ⟨S50000x128, .f32⟩
  | 91 => ⟨S50000x128, .f32⟩
  | 92 => ⟨S1x128, .f32⟩
  | 93 => ⟨S128, .f32⟩
  | 94 => ⟨S1x128, .f32⟩
  | 95 => ⟨S128, .f32⟩
  | 96 => ⟨S_, .f32⟩
  | 97 => ⟨S128, .f32⟩
  | 98 => ⟨S1x128, .f32⟩
  | 99 => ⟨S_, .f32⟩
  | 100 => ⟨S1x128, .f32⟩
  | 101 => ⟨S1x128, .f32⟩
  | 102 => ⟨S_, .i32⟩
  | 103 => ⟨S_, .f32⟩
  | 104 => ⟨S128, .f32⟩
  | 105 => ⟨S1x128, .f32⟩
  | 106 => ⟨S_, .f32⟩
  | 107 => ⟨S1x128, .f32⟩
  | 108 => ⟨S1x128, .f32⟩
  | 109 => ⟨S50000x128, .f32⟩
  | 110 => ⟨S50000x128, .f32⟩
  | 111 => ⟨S50000x128, .f32⟩
  | 112 => ⟨S_, .f32⟩
  | 113 => ⟨S_, .f32⟩
  | 114 => ⟨S_, .f32⟩
  | 115 => ⟨S_, .f32⟩
  | 116 => ⟨S128, .f32⟩
  | 117 => ⟨S1x128, .f32⟩
  | 118 => ⟨S1x128, .f32⟩
  | 119 => ⟨S1x128, .f32⟩
  | 120 => ⟨S_, .f32⟩
  | 121 => ⟨S_, .i1⟩
  | 122 => ⟨S_, .f32⟩
  | 123 => ⟨S_, .f32⟩
  | 124 => ⟨S1x128, .f32⟩
  | 125 => ⟨S1x128, .f32⟩
  | 126 => ⟨S50000x128, .f32⟩
  | 127 => ⟨S50000x128, .f32⟩
  | _ => ⟨S50000x128, .f32⟩

abbrev hbmTy0_3 (i : Nat) : BufTy := match i % 128 with
  | 0 => ⟨S1x128, .f32⟩
  | 1 => ⟨S50000x128, .f32⟩
  | 2 => ⟨S50000x128, .f32⟩
  | 3 => ⟨S_, .f32⟩
  | 4 => ⟨S1x128, .f32⟩
  | 5 => ⟨S1x128, .f32⟩
  | 6 => ⟨S1x128, .f32⟩
  | 7 => ⟨S50000x128, .f32⟩
  | 8 => ⟨S50000x128, .f32⟩
  | 9 => ⟨S1x128, .f32⟩
  | 10 => ⟨S50000x128, .f32⟩
  | 11 => ⟨S50000x128, .f32⟩
  | 12 => ⟨S_, .f32⟩
  | 13 => ⟨S50000x128, .f32⟩
  | 14 => ⟨S50000x128, .f32⟩
  | 15 => ⟨S50000x128, .f32⟩
  | 16 => ⟨S_, .i32⟩
  | 17 => ⟨S1600000, .i32⟩
  | 18 => ⟨S1600000, .i1⟩
  | 19 => ⟨S_, .i32⟩
  | 20 => ⟨S1600000, .i32⟩
  | 21 => ⟨S1600000, .i32⟩
  | 22 => ⟨S1600000, .i32⟩
  | 23 => ⟨S1600000x1, .i32⟩
  | 24 => ⟨S1600000x128, .f32⟩
  | 25 => ⟨S_, .f32⟩
  | 26 => ⟨S50000x128, .f32⟩
  | 27 => ⟨S1600000x1, .i32⟩
  | 28 => ⟨S50000x128, .f32⟩
  | 29 => ⟨S1, .f32⟩
  | 30 => ⟨S_, .f32⟩
  | 31 => ⟨S_, .f32⟩
  | 32 => ⟨S_, .f32⟩
  | 33 => ⟨S50000x128, .f32⟩
  | 34 => ⟨S50000x128, .f32⟩
  | 35 => ⟨S50000x128, .f32⟩
  | 36 => ⟨S1x128x128, .f32⟩
  | 37 => ⟨S128x128, .f32⟩
  | 38 => ⟨S50000x128, .f32⟩
  | 39 => ⟨S1x128, .f32⟩
  | 40 => ⟨S128, .f32⟩
  | 41 => ⟨S1x128, .f32⟩
  | 42 => ⟨S50000x128, .f32⟩
  | 43 => ⟨S50000x128, .f32⟩
  | 44 => ⟨S1x128, .f32⟩
  | 45 => ⟨S128, .f32⟩
  | 46 => ⟨S1x128, .f32⟩
  | 47 => ⟨S128, .f32⟩
  | 48 => ⟨S_, .f32⟩
  | 49 => ⟨S128, .f32⟩
  | 50 => ⟨S1x128, .f32⟩
  | 51 => ⟨S_, .f32⟩
  | 52 => ⟨S1x128, .f32⟩
  | 53 => ⟨S1x128, .f32⟩
  | 54 => ⟨S_, .i32⟩
  | 55 => ⟨S_, .f32⟩
  | 56 => ⟨S128, .f32⟩
  | 57 => ⟨S1x128, .f32⟩
  | 58 => ⟨S_, .f32⟩
  | 59 => ⟨S1x128, .f32⟩
  | 60 => ⟨S1x128, .f32⟩
  | 61 => ⟨S50000x128, .f32⟩
  | 62 => ⟨S50000x128, .f32⟩
  | 63 => ⟨S50000x128, .f32⟩
  | 64 => ⟨S_, .f32⟩
  | 65 => ⟨S_, .f32⟩
  | 66 => ⟨S_, .f32⟩
  | 67 => ⟨S_, .f32⟩
  | 68 => ⟨S128, .f32⟩
  | 69 => ⟨S1x128, .f32⟩
  | 70 => ⟨S1x128, .f32⟩
  | 71 => ⟨S1x128, .f32⟩
  | 72 => ⟨S_, .f32⟩
  | 73 => ⟨S_, .i1⟩
  | 74 => ⟨S_, .f32⟩
  | 75 => ⟨S_, .f32⟩
  | 76 => ⟨S1x128, .f32⟩
  | 77 => ⟨S1x128, .f32⟩
  | 78 => ⟨S50000x128, .f32⟩
  | 79 => ⟨S50000x128, .f32⟩
  | 80 => ⟨S1x128, .f32⟩
  | 81 => ⟨S50000x128, .f32⟩
  | 82 => ⟨S50000x128, .f32⟩
  | 83 => ⟨S_, .f32⟩
  | 84 => ⟨S1x128, .f32⟩
  | 85 => ⟨S1x128, .f32⟩
  | 86 => ⟨S1x128, .f32⟩
  | 87 => ⟨S50000x128, .f32⟩
  | 88 => ⟨S50000x128, .f32⟩
  | 89 => ⟨S1x128, .f32⟩
  | 90 => ⟨S50000x128, .f32⟩
  | 91 => ⟨S50000x128, .f32⟩
  | 92 => ⟨S_, .f32⟩
  | 93 => ⟨S50000x128, .f32⟩
  | 94 => ⟨S50000x128, .f32⟩
  | 95 => ⟨S1x128x128, .f32⟩
  | 96 => ⟨S128x128, .f32⟩
  | 97 => ⟨S50000x128, .f32⟩
  | 98 => ⟨S1x128, .f32⟩
  | 99 => ⟨S128, .f32⟩
  | 100 => ⟨S1x128, .f32⟩
  | 101 => ⟨S50000x128, .f32⟩
  | 102 => ⟨S50000x128, .f32⟩
  | 103 => ⟨S1x128, .f32⟩
  | 104 => ⟨S128, .f32⟩
  | 105 => ⟨S1x128, .f32⟩
  | 106 => ⟨S128, .f32⟩
  | 107 => ⟨S_, .f32⟩
  | 108 => ⟨S128, .f32⟩
  | 109 => ⟨S1x128, .f32⟩
  | 110 => ⟨S_, .f32⟩
  | 111 => ⟨S1x128, .f32⟩
  | 112 => ⟨S1x128, .f32⟩
  | 113 => ⟨S_, .i32⟩
  | 114 => ⟨S_, .f32⟩
  | 115 => ⟨S128, .f32⟩
  | 116 => ⟨S1x128, .f32⟩
  | 117 => ⟨S_, .f32⟩
  | 118 => ⟨S1x128, .f32⟩
  | 119 => ⟨S1x128, .f32⟩
  | 120 => ⟨S50000x128, .f32⟩
  | 121 => ⟨S50000x128, .f32⟩
  | 122 => ⟨S50000x128, .f32⟩
  | 123 => ⟨S_, .f32⟩
  | 124 => ⟨S_, .f32⟩
  | 125 => ⟨S_, .f32⟩
  | 126 => ⟨S_, .f32⟩
  | 127 => ⟨S128, .f32⟩
  | _ => ⟨S50000x128, .f32⟩

abbrev hbmTy0_4 (i : Nat) : BufTy := match i % 128 with
  | 0 => ⟨S1x128, .f32⟩
  | 1 => ⟨S1x128, .f32⟩
  | 2 => ⟨S1x128, .f32⟩
  | 3 => ⟨S_, .f32⟩
  | 4 => ⟨S_, .i1⟩
  | 5 => ⟨S_, .f32⟩
  | 6 => ⟨S_, .f32⟩
  | 7 => ⟨S1x128, .f32⟩
  | 8 => ⟨S1x128, .f32⟩
  | 9 => ⟨S50000x128, .f32⟩
  | 10 => ⟨S50000x128, .f32⟩
  | 11 => ⟨S1x128, .f32⟩
  | 12 => ⟨S50000x128, .f32⟩
  | 13 => ⟨S50000x128, .f32⟩
  | 14 => ⟨S_, .f32⟩
  | 15 => ⟨S1x128, .f32⟩
  | 16 => ⟨S1x128, .f32⟩
  | 17 => ⟨S1x128, .f32⟩
  | 18 => ⟨S50000x128, .f32⟩
  | 19 => ⟨S50000x128, .f32⟩
  | 20 => ⟨S1x128, .f32⟩
  | 21 => ⟨S50000x128, .f32⟩
  | 22 => ⟨S50000x128, .f32⟩
  | 23 => ⟨S_, .f32⟩
  | 24 => ⟨S50000x128, .f32⟩
  | 25 => ⟨S50000x128, .f32⟩
  | 26 => ⟨S1x128, .f32⟩
  | 27 => ⟨S128, .f32⟩
  | 28 => ⟨S1x128, .f32⟩
  | 29 => ⟨S128, .f32⟩
  | 30 => ⟨S_, .f32⟩
  | 31 => ⟨S128, .f32⟩
  | 32 => ⟨S1x128, .f32⟩
  | 33 => ⟨S_, .f32⟩
  | 34 => ⟨S1x128, .f32⟩
  | 35 => ⟨S1x128, .f32⟩
  | 36 => ⟨S_, .i32⟩
  | 37 => ⟨S_, .f32⟩
  | 38 => ⟨S128, .f32⟩
  | 39 => ⟨S1x128, .f32⟩
  | 40 => ⟨S_, .f32⟩
  | 41 => ⟨S1x128, .f32⟩
  | 42 => ⟨S1x128, .f32⟩
  | 43 => ⟨S50000x128, .f32⟩
  | 44 => ⟨S50000x128, .f32⟩
  | 45 => ⟨S50000x128, .f32⟩
  | 46 => ⟨S_, .f32⟩
  | 47 => ⟨S_, .f32⟩
  | 48 => ⟨S_, .f32⟩
  | 49 => ⟨S_, .f32⟩
  | 50 => ⟨S128, .f32⟩
  | 51 => ⟨S1x128, .f32⟩
  | 52 => ⟨S1x128, .f32⟩
  | 53 => ⟨S1x128, .f32⟩
  | 54 => ⟨S_, .f32⟩
  | 55 => ⟨S_, .i1⟩
  | 56 => ⟨S_, .f32⟩
  | 57 => ⟨S_, .f32⟩
  | 58 => ⟨S1x128, .f32⟩
  | 59 => ⟨S1x128, .f32⟩
  | 60 => ⟨S50000x128, .f32⟩
  | 61 => ⟨S50000x128, .f32⟩
  | 62 => ⟨S1x128, .f32⟩
  | 63 => ⟨S50000x128, .f32⟩
  | 64 => ⟨S50000x128, .f32⟩
  | 65 => ⟨S_, .f32⟩
  | 66 => ⟨S1x128, .f32⟩
  | 67 => ⟨S1x128, .f32⟩
  | 68 => ⟨S1x128, .f32⟩
  | 69 => ⟨S50000x128, .f32⟩
  | 70 => ⟨S50000x128, .f32⟩
  | 71 => ⟨S1x128, .f32⟩
  | 72 => ⟨S50000x128, .f32⟩
  | 73 => ⟨S50000x128, .f32⟩
  | 74 => ⟨S_, .f32⟩
  | 75 => ⟨S50000x128, .f32⟩
  | 76 => ⟨S50000x128, .f32⟩
  | 77 => ⟨S50000x128, .f32⟩
  | 78 => ⟨S_, .i32⟩
  | 79 => ⟨S1600000, .i32⟩
  | 80 => ⟨S1600000, .i1⟩
  | 81 => ⟨S_, .i32⟩
  | 82 => ⟨S1600000, .i32⟩
  | 83 => ⟨S1600000, .i32⟩
  | 84 => ⟨S1600000, .i32⟩
  | 85 => ⟨S1600000x1, .i32⟩
  | 86 => ⟨S1600000x128, .f32⟩
  | 87 => ⟨S_, .f32⟩
  | 88 => ⟨S50000x128, .f32⟩
  | 89 => ⟨S1600000x1, .i32⟩
  | 90 => ⟨S50000x128, .f32⟩
  | 91 => ⟨S1, .f32⟩
  | 92 => ⟨S_, .f32⟩
  | 93 => ⟨S_, .f32⟩
  | 94 => ⟨S_, .f32⟩
  | 95 => ⟨S50000x128, .f32⟩
  | 96 => ⟨S50000x128, .f32⟩
  | 97 => ⟨S50000x128, .f32⟩
  | 98 => ⟨S1x128x128, .f32⟩
  | 99 => ⟨S128x128, .f32⟩
  | 100 => ⟨S50000x128, .f32⟩
  | 101 => ⟨S1x128, .f32⟩
  | 102 => ⟨S128, .f32⟩
  | 103 => ⟨S1x128, .f32⟩
  | 104 => ⟨S50000x128, .f32⟩
  | 105 => ⟨S50000x128, .f32⟩
  | 106 => ⟨S1x128, .f32⟩
  | 107 => ⟨S128, .f32⟩
  | 108 => ⟨S1x128, .f32⟩
  | 109 => ⟨S128, .f32⟩
  | 110 => ⟨S_, .f32⟩
  | 111 => ⟨S128, .f32⟩
  | 112 => ⟨S1x128, .f32⟩
  | 113 => ⟨S_, .f32⟩
  | 114 => ⟨S1x128, .f32⟩
  | 115 => ⟨S1x128, .f32⟩
  | 116 => ⟨S_, .i32⟩
  | 117 => ⟨S_, .f32⟩
  | 118 => ⟨S128, .f32⟩
  | 119 => ⟨S1x128, .f32⟩
  | 120 => ⟨S_, .f32⟩
  | 121 => ⟨S1x128, .f32⟩
  | 122 => ⟨S1x128, .f32⟩
  | 123 => ⟨S50000x128, .f32⟩
  | 124 => ⟨S50000x128, .f32⟩
  | 125 => ⟨S50000x128, .f32⟩
  | 126 => ⟨S_, .f32⟩
  | 127 => ⟨S_, .f32⟩
  | _ => ⟨S50000x128, .f32⟩

abbrev hbmTy0_5 (i : Nat) : BufTy := match i % 128 with
  | 0 => ⟨S_, .f32⟩
  | 1 => ⟨S_, .f32⟩
  | 2 => ⟨S128, .f32⟩
  | 3 => ⟨S1x128, .f32⟩
  | 4 => ⟨S1x128, .f32⟩
  | 5 => ⟨S1x128, .f32⟩
  | 6 => ⟨S_, .f32⟩
  | 7 => ⟨S_, .i1⟩
  | 8 => ⟨S_, .f32⟩
  | 9 => ⟨S_, .f32⟩
  | 10 => ⟨S1x128, .f32⟩
  | 11 => ⟨S1x128, .f32⟩
  | 12 => ⟨S50000x128, .f32⟩
  | 13 => ⟨S50000x128, .f32⟩
  | 14 => ⟨S1x128, .f32⟩
  | 15 => ⟨S50000x128, .f32⟩
  | 16 => ⟨S50000x128, .f32⟩
  | 17 => ⟨S_, .f32⟩
  | 18 => ⟨S1x128, .f32⟩
  | 19 => ⟨S1x128, .f32⟩
  | 20 => ⟨S1x128, .f32⟩
  | 21 => ⟨S50000x128, .f32⟩
  | 22 => ⟨S50000x128, .f32⟩
  | 23 => ⟨S1x128, .f32⟩
  | 24 => ⟨S50000x128, .f32⟩
  | 25 => ⟨S50000x128, .f32⟩
  | 26 => ⟨S_, .f32⟩
  | 27 => ⟨S50000x128, .f32⟩
  | 28 => ⟨S50000x128, .f32⟩
  | 29 => ⟨S1x128x128, .f32⟩
  | 30 => ⟨S128x128, .f32⟩
  | 31 => ⟨S50000x128, .f32⟩
  | 32 => ⟨S1x128, .f32⟩
  | 33 => ⟨S128, .f32⟩
  | 34 => ⟨S1x128, .f32⟩
  | 35 => ⟨S50000x128, .f32⟩
  | 36 => ⟨S50000x128, .f32⟩
  | 37 => ⟨S1x128, .f32⟩
  | 38 => ⟨S128, .f32⟩
  | 39 => ⟨S1x128, .f32⟩
  | 40 => ⟨S128, .f32⟩
  | 41 => ⟨S_, .f32⟩
  | 42 => ⟨S128, .f32⟩
  | 43 => ⟨S1x128, .f32⟩
  | 44 => ⟨S_, .f32⟩
  | 45 => ⟨S1x128, .f32⟩
  | 46 => ⟨S1x128, .f32⟩
  | 47 => ⟨S_, .i32⟩
  | 48 => ⟨S_, .f32⟩
  | 49 => ⟨S128, .f32⟩
  | 50 => ⟨S1x128, .f32⟩
  | 51 => ⟨S_, .f32⟩
  | 52 => ⟨S1x128, .f32⟩
  | 53 => ⟨S1x128, .f32⟩
  | 54 => ⟨S50000x128, .f32⟩
  | 55 => ⟨S50000x128, .f32⟩
  | 56 => ⟨S50000x128, .f32⟩
  | 57 => ⟨S_, .f32⟩
  | 58 => ⟨S_, .f32⟩
  | 59 => ⟨S_, .f32⟩
  | 60 => ⟨S_, .f32⟩
  | 61 => ⟨S128, .f32⟩
  | 62 => ⟨S1x128, .f32⟩
  | 63 => ⟨S1x128, .f32⟩
  | 64 => ⟨S1x128, .f32⟩
  | 65 => ⟨S_, .f32⟩
  | 66 => ⟨S_, .i1⟩
  | 67 => ⟨S_, .f32⟩
  | 68 => ⟨S_, .f32⟩
  | 69 => ⟨S1x128, .f32⟩
  | 70 => ⟨S1x128, .f32⟩
  | 71 => ⟨S50000x128, .f32⟩
  | 72 => ⟨S50000x128, .f32⟩
  | 73 => ⟨S1x128, .f32⟩
  | 74 => ⟨S50000x128, .f32⟩
  | 75 => ⟨S50000x128, .f32⟩
  | 76 => ⟨S_, .f32⟩
  | 77 => ⟨S1x128, .f32⟩
  | 78 => ⟨S1x128, .f32⟩
  | 79 => ⟨S1x128, .f32⟩
  | 80 => ⟨S50000x128, .f32⟩
  | 81 => ⟨S50000x128, .f32⟩
  | 82 => ⟨S1x128, .f32⟩
  | 83 => ⟨S50000x128, .f32⟩
  | 84 => ⟨S50000x128, .f32⟩
  | 85 => ⟨S_, .f32⟩
  | 86 => ⟨S50000x128, .f32⟩
  | 87 => ⟨S50000x128, .f32⟩
  | 88 => ⟨S1x128, .f32⟩
  | 89 => ⟨S128, .f32⟩
  | 90 => ⟨S1x128, .f32⟩
  | 91 => ⟨S128, .f32⟩
  | 92 => ⟨S_, .f32⟩
  | 93 => ⟨S128, .f32⟩
  | 94 => ⟨S1x128, .f32⟩
  | 95 => ⟨S_, .f32⟩
  | 96 => ⟨S1x128, .f32⟩
  | 97 => ⟨S1x128, .f32⟩
  | 98 => ⟨S_, .i32⟩
  | 99 => ⟨S_, .f32⟩
  | 100 => ⟨S128, .f32⟩
  | 101 => ⟨S1x128, .f32⟩
  | 102 => ⟨S_, .f32⟩
  | 103 => ⟨S1x128, .f32⟩
  | 104 => ⟨S1x128, .f32⟩
  | 105 => ⟨S50000x128, .f32⟩
  | 106 => ⟨S50000x128, .f32⟩
  | 107 => ⟨S50000x128, .f32⟩
  | 108 => ⟨S_, .f32⟩
  | 109 => ⟨S_, .f32⟩
  | 110 => ⟨S_, .f32⟩
  | 111 => ⟨S_, .f32⟩
  | 112 => ⟨S128, .f32⟩
  | 113 => ⟨S1x128, .f32⟩
  | 114 => ⟨S1x128, .f32⟩
  | 115 => ⟨S1x128, .f32⟩
  | 116 => ⟨S_, .f32⟩
  | 117 => ⟨S_, .i1⟩
  | 118 => ⟨S_, .f32⟩
  | 119 => ⟨S_, .f32⟩
  | 120 => ⟨S1x128, .f32⟩
  | 121 => ⟨S1x128, .f32⟩
  | 122 => ⟨S50000x128, .f32⟩
  | 123 => ⟨S50000x128, .f32⟩
  | 124 => ⟨S1x128, .f32⟩
  | 125 => ⟨S50000x128, .f32⟩
  | 126 => ⟨S50000x128, .f32⟩
  | 127 => ⟨S_, .f32⟩
  | _ => ⟨S50000x128, .f32⟩

abbrev hbmTy0_6 (i : Nat) : BufTy := match i % 128 with
  | 0 => ⟨S1x128, .f32⟩
  | 1 => ⟨S1x128, .f32⟩
  | 2 => ⟨S1x128, .f32⟩
  | 3 => ⟨S50000x128, .f32⟩
  | 4 => ⟨S50000x128, .f32⟩
  | 5 => ⟨S1x128, .f32⟩
  | 6 => ⟨S50000x128, .f32⟩
  | 7 => ⟨S50000x128, .f32⟩
  | 8 => ⟨S_, .f32⟩
  | 9 => ⟨S50000x128, .f32⟩
  | 10 => ⟨S50000x128, .f32⟩
  | 11 => ⟨S50000x128, .f32⟩
  | _ => ⟨S50000x128, .f32⟩

abbrev hbmTy (i : Nat) : BufTy := match i / 128 with
  | 0 => hbmTy0_0 i
  | 1 => hbmTy0_1 i
  | 2 => hbmTy0_2 i
  | 3 => hbmTy0_3 i
  | 4 => hbmTy0_4 i
  | 5 => hbmTy0_5 i
  | 6 => hbmTy0_6 i
  | _ => ⟨S50000x128, .f32⟩

abbrev bufTy : (tb : Table) → Fin (tcTables nBuf tb) → BufTy
  | .hbm, ⟨i, _⟩ => hbmTy i
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_v0 : Ref sig .tc := ⟨.hbm, 16, rfl⟩
abbrev main_v1 : Ref sig .tc := ⟨.hbm, 17, rfl⟩
abbrev main_v2 : Ref sig .tc := ⟨.hbm, 18, rfl⟩
abbrev main_v3 : Ref sig .tc := ⟨.hbm, 19, rfl⟩
abbrev main_c : Ref sig .tc := ⟨.hbm, 20, rfl⟩
abbrev main_v4 : Ref sig .tc := ⟨.hbm, 21, rfl⟩
abbrev main_v5 : Ref sig .tc := ⟨.hbm, 22, rfl⟩
abbrev main_c_0 : Ref sig .tc := ⟨.hbm, 23, rfl⟩
abbrev main_v6 : Ref sig .tc := ⟨.hbm, 24, rfl⟩
abbrev main_v7 : Ref sig .tc := ⟨.hbm, 25, rfl⟩
abbrev main_v8 : Ref sig .tc := ⟨.hbm, 26, rfl⟩
abbrev main_v9 : Ref sig .tc := ⟨.hbm, 27, rfl⟩
abbrev main_v10 : Ref sig .tc := ⟨.hbm, 28, rfl⟩
abbrev main_cst : Ref sig .tc := ⟨.hbm, 29, rfl⟩
abbrev main_v11 : Ref sig .tc := ⟨.hbm, 30, rfl⟩
abbrev main_v12 : Ref sig .tc := ⟨.hbm, 31, rfl⟩
abbrev main_v13 : Ref sig .tc := ⟨.hbm, 32, rfl⟩
abbrev main_v14 : Ref sig .tc := ⟨.hbm, 33, rfl⟩
abbrev main_v15 : Ref sig .tc := ⟨.hbm, 34, rfl⟩
abbrev main_cst_1 : Ref sig .tc := ⟨.hbm, 35, rfl⟩
abbrev main_v16 : Ref sig .tc := ⟨.hbm, 36, rfl⟩
abbrev main_v17 : Ref sig .tc := ⟨.hbm, 37, rfl⟩
abbrev main_v18 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩
abbrev main_v23 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_cst_2 : Ref sig .tc := ⟨.hbm, 52, rfl⟩
abbrev main_v32 : Ref sig .tc := ⟨.hbm, 53, rfl⟩
abbrev main_v33 : Ref sig .tc := ⟨.hbm, 54, rfl⟩
abbrev main_cst_3 : Ref sig .tc := ⟨.hbm, 55, rfl⟩
abbrev main_v34 : Ref sig .tc := ⟨.hbm, 56, rfl⟩
abbrev main_v35 : Ref sig .tc := ⟨.hbm, 57, rfl⟩
abbrev main_c_4 : Ref sig .tc := ⟨.hbm, 58, rfl⟩
abbrev main_call0_cst : Ref sig .tc := ⟨.hbm, 59, rfl⟩
abbrev main_call0_v0 : Ref sig .tc := ⟨.hbm, 60, rfl⟩
abbrev main_call0_v1 : Ref sig .tc := ⟨.hbm, 61, rfl⟩
abbrev main_call0_cst_0 : Ref sig .tc := ⟨.hbm, 62, rfl⟩
abbrev main_call0_v2 : Ref sig .tc := ⟨.hbm, 63, rfl⟩
abbrev main_call0_v3 : Ref sig .tc := ⟨.hbm, 64, rfl⟩
abbrev main_call0_v4 : Ref sig .tc := ⟨.hbm, 65, rfl⟩
abbrev main_call0_v5 : Ref sig .tc := ⟨.hbm, 66, rfl⟩
abbrev main_call0_v6 : Ref sig .tc := ⟨.hbm, 67, rfl⟩
abbrev main_call0_v7 : Ref sig .tc := ⟨.hbm, 68, rfl⟩
abbrev main_call0_cst_1 : Ref sig .tc := ⟨.hbm, 69, rfl⟩
abbrev main_call0_v8 : Ref sig .tc := ⟨.hbm, 70, rfl⟩
abbrev main_call0_cst_2 : Ref sig .tc := ⟨.hbm, 71, rfl⟩
abbrev main_call0_v9 : Ref sig .tc := ⟨.hbm, 72, rfl⟩
abbrev main_call0_v10 : Ref sig .tc := ⟨.hbm, 73, rfl⟩
abbrev main_call0_v11 : Ref sig .tc := ⟨.hbm, 74, rfl⟩
abbrev main_call0_v12 : Ref sig .tc := ⟨.hbm, 75, rfl⟩
abbrev main_call0_cst_3 : Ref sig .tc := ⟨.hbm, 76, rfl⟩
abbrev main_call0_v13 : Ref sig .tc := ⟨.hbm, 77, rfl⟩
abbrev main_call0_cst_4 : Ref sig .tc := ⟨.hbm, 78, rfl⟩
abbrev main_call0_call0_v0 : Ref sig .tc := ⟨.hbm, 79, rfl⟩
abbrev main_call0_call0_v1 : Ref sig .tc := ⟨.hbm, 80, rfl⟩
abbrev main_v36 : Ref sig .tc := ⟨.hbm, 81, rfl⟩
abbrev main_v37 : Ref sig .tc := ⟨.hbm, 82, rfl⟩
abbrev main_v38 : Ref sig .tc := ⟨.hbm, 83, rfl⟩
abbrev main_v39 : Ref sig .tc := ⟨.hbm, 84, rfl⟩
abbrev main_v40 : Ref sig .tc := ⟨.hbm, 85, rfl⟩
abbrev main_v41 : Ref sig .tc := ⟨.hbm, 86, rfl⟩
abbrev main_cst_5 : Ref sig .tc := ⟨.hbm, 87, rfl⟩
abbrev main_v42 : Ref sig .tc := ⟨.hbm, 88, rfl⟩
abbrev main_v43 : Ref sig .tc := ⟨.hbm, 89, rfl⟩
abbrev main_v44 : Ref sig .tc := ⟨.hbm, 90, rfl⟩
abbrev main_v45 : Ref sig .tc := ⟨.hbm, 91, rfl⟩
abbrev main_v46 : Ref sig .tc := ⟨.hbm, 92, rfl⟩
abbrev main_v47 : Ref sig .tc := ⟨.hbm, 93, rfl⟩
abbrev main_v48 : Ref sig .tc := ⟨.hbm, 94, rfl⟩
abbrev main_v49 : Ref sig .tc := ⟨.hbm, 95, rfl⟩
abbrev main_call1_cst : Ref sig .tc := ⟨.hbm, 96, rfl⟩
abbrev main_call1_v0 : Ref sig .tc := ⟨.hbm, 97, rfl⟩
abbrev main_v50 : Ref sig .tc := ⟨.hbm, 98, rfl⟩
abbrev main_v51 : Ref sig .tc := ⟨.hbm, 99, rfl⟩
abbrev main_v52 : Ref sig .tc := ⟨.hbm, 100, rfl⟩
abbrev main_v53 : Ref sig .tc := ⟨.hbm, 101, rfl⟩
abbrev main_v54 : Ref sig .tc := ⟨.hbm, 102, rfl⟩
abbrev main_v55 : Ref sig .tc := ⟨.hbm, 103, rfl⟩
abbrev main_v56 : Ref sig .tc := ⟨.hbm, 104, rfl⟩
abbrev main_v57 : Ref sig .tc := ⟨.hbm, 105, rfl⟩
abbrev main_v58 : Ref sig .tc := ⟨.hbm, 106, rfl⟩
abbrev main_v59 : Ref sig .tc := ⟨.hbm, 107, rfl⟩
abbrev main_v60 : Ref sig .tc := ⟨.hbm, 108, rfl⟩
abbrev main_v61 : Ref sig .tc := ⟨.hbm, 109, rfl⟩
abbrev main_v62 : Ref sig .tc := ⟨.hbm, 110, rfl⟩
abbrev main_cst_6 : Ref sig .tc := ⟨.hbm, 111, rfl⟩
abbrev main_v63 : Ref sig .tc := ⟨.hbm, 112, rfl⟩
abbrev main_v64 : Ref sig .tc := ⟨.hbm, 113, rfl⟩
abbrev main_cst_7 : Ref sig .tc := ⟨.hbm, 114, rfl⟩
abbrev main_v65 : Ref sig .tc := ⟨.hbm, 115, rfl⟩
abbrev main_v66 : Ref sig .tc := ⟨.hbm, 116, rfl⟩
abbrev main_c_8 : Ref sig .tc := ⟨.hbm, 117, rfl⟩
abbrev main_call2_cst : Ref sig .tc := ⟨.hbm, 118, rfl⟩
abbrev main_call2_v0 : Ref sig .tc := ⟨.hbm, 119, rfl⟩
abbrev main_call2_v1 : Ref sig .tc := ⟨.hbm, 120, rfl⟩
abbrev main_call2_cst_0 : Ref sig .tc := ⟨.hbm, 121, rfl⟩
abbrev main_call2_v2 : Ref sig .tc := ⟨.hbm, 122, rfl⟩
abbrev main_call2_v3 : Ref sig .tc := ⟨.hbm, 123, rfl⟩
abbrev main_call2_v4 : Ref sig .tc := ⟨.hbm, 124, rfl⟩
abbrev main_call2_v5 : Ref sig .tc := ⟨.hbm, 125, rfl⟩
abbrev main_call2_v6 : Ref sig .tc := ⟨.hbm, 126, rfl⟩
abbrev main_call2_v7 : Ref sig .tc := ⟨.hbm, 127, rfl⟩
abbrev main_call2_cst_1 : Ref sig .tc := ⟨.hbm, 128, rfl⟩
abbrev main_call2_v8 : Ref sig .tc := ⟨.hbm, 129, rfl⟩
abbrev main_call2_cst_2 : Ref sig .tc := ⟨.hbm, 130, rfl⟩
abbrev main_call2_v9 : Ref sig .tc := ⟨.hbm, 131, rfl⟩
abbrev main_call2_v10 : Ref sig .tc := ⟨.hbm, 132, rfl⟩
abbrev main_call2_v11 : Ref sig .tc := ⟨.hbm, 133, rfl⟩
abbrev main_call2_v12 : Ref sig .tc := ⟨.hbm, 134, rfl⟩
abbrev main_call2_cst_3 : Ref sig .tc := ⟨.hbm, 135, rfl⟩
abbrev main_call2_v13 : Ref sig .tc := ⟨.hbm, 136, rfl⟩
abbrev main_call2_cst_4 : Ref sig .tc := ⟨.hbm, 137, rfl⟩
abbrev main_call2_call0_v0 : Ref sig .tc := ⟨.hbm, 138, rfl⟩
abbrev main_call2_call0_v1 : Ref sig .tc := ⟨.hbm, 139, rfl⟩
abbrev main_v67 : Ref sig .tc := ⟨.hbm, 140, rfl⟩
abbrev main_v68 : Ref sig .tc := ⟨.hbm, 141, rfl⟩
abbrev main_v69 : Ref sig .tc := ⟨.hbm, 142, rfl⟩
abbrev main_v70 : Ref sig .tc := ⟨.hbm, 143, rfl⟩
abbrev main_v71 : Ref sig .tc := ⟨.hbm, 144, rfl⟩
abbrev main_v72 : Ref sig .tc := ⟨.hbm, 145, rfl⟩
abbrev main_cst_9 : Ref sig .tc := ⟨.hbm, 146, rfl⟩
abbrev main_v73 : Ref sig .tc := ⟨.hbm, 147, rfl⟩
abbrev main_v74 : Ref sig .tc := ⟨.hbm, 148, rfl⟩
abbrev main_v75 : Ref sig .tc := ⟨.hbm, 149, rfl⟩
abbrev main_v76 : Ref sig .tc := ⟨.hbm, 150, rfl⟩
abbrev main_v77 : Ref sig .tc := ⟨.hbm, 151, rfl⟩
abbrev main_v78 : Ref sig .tc := ⟨.hbm, 152, rfl⟩
abbrev main_v79 : Ref sig .tc := ⟨.hbm, 153, rfl⟩
abbrev main_v80 : Ref sig .tc := ⟨.hbm, 154, rfl⟩
abbrev main_call3_cst : Ref sig .tc := ⟨.hbm, 155, rfl⟩
abbrev main_call3_v0 : Ref sig .tc := ⟨.hbm, 156, rfl⟩
abbrev main_v81 : Ref sig .tc := ⟨.hbm, 157, rfl⟩
abbrev main_v82 : Ref sig .tc := ⟨.hbm, 158, rfl⟩
abbrev main_v83 : Ref sig .tc := ⟨.hbm, 159, rfl⟩
abbrev main_v84 : Ref sig .tc := ⟨.hbm, 160, rfl⟩
abbrev main_v85 : Ref sig .tc := ⟨.hbm, 161, rfl⟩
abbrev main_cst_10 : Ref sig .tc := ⟨.hbm, 162, rfl⟩
abbrev main_v86 : Ref sig .tc := ⟨.hbm, 163, rfl⟩
abbrev main_v87 : Ref sig .tc := ⟨.hbm, 164, rfl⟩
abbrev main_cst_11 : Ref sig .tc := ⟨.hbm, 165, rfl⟩
abbrev main_v88 : Ref sig .tc := ⟨.hbm, 166, rfl⟩
abbrev main_v89 : Ref sig .tc := ⟨.hbm, 167, rfl⟩
abbrev main_c_12 : Ref sig .tc := ⟨.hbm, 168, rfl⟩
abbrev main_call4_cst : Ref sig .tc := ⟨.hbm, 169, rfl⟩
abbrev main_call4_v0 : Ref sig .tc := ⟨.hbm, 170, rfl⟩
abbrev main_call4_v1 : Ref sig .tc := ⟨.hbm, 171, rfl⟩
abbrev main_call4_cst_0 : Ref sig .tc := ⟨.hbm, 172, rfl⟩
abbrev main_call4_v2 : Ref sig .tc := ⟨.hbm, 173, rfl⟩
abbrev main_call4_v3 : Ref sig .tc := ⟨.hbm, 174, rfl⟩
abbrev main_call4_v4 : Ref sig .tc := ⟨.hbm, 175, rfl⟩
abbrev main_call4_v5 : Ref sig .tc := ⟨.hbm, 176, rfl⟩
abbrev main_call4_v6 : Ref sig .tc := ⟨.hbm, 177, rfl⟩
abbrev main_call4_v7 : Ref sig .tc := ⟨.hbm, 178, rfl⟩
abbrev main_call4_cst_1 : Ref sig .tc := ⟨.hbm, 179, rfl⟩
abbrev main_call4_v8 : Ref sig .tc := ⟨.hbm, 180, rfl⟩
abbrev main_call4_cst_2 : Ref sig .tc := ⟨.hbm, 181, rfl⟩
abbrev main_call4_v9 : Ref sig .tc := ⟨.hbm, 182, rfl⟩
abbrev main_call4_v10 : Ref sig .tc := ⟨.hbm, 183, rfl⟩
abbrev main_call4_v11 : Ref sig .tc := ⟨.hbm, 184, rfl⟩
abbrev main_call4_v12 : Ref sig .tc := ⟨.hbm, 185, rfl⟩
abbrev main_call4_cst_3 : Ref sig .tc := ⟨.hbm, 186, rfl⟩
abbrev main_call4_v13 : Ref sig .tc := ⟨.hbm, 187, rfl⟩
abbrev main_call4_cst_4 : Ref sig .tc := ⟨.hbm, 188, rfl⟩
abbrev main_call4_call0_v0 : Ref sig .tc := ⟨.hbm, 189, rfl⟩
abbrev main_call4_call0_v1 : Ref sig .tc := ⟨.hbm, 190, rfl⟩
abbrev main_v90 : Ref sig .tc := ⟨.hbm, 191, rfl⟩
abbrev main_v91 : Ref sig .tc := ⟨.hbm, 192, rfl⟩
abbrev main_v92 : Ref sig .tc := ⟨.hbm, 193, rfl⟩
abbrev main_v93 : Ref sig .tc := ⟨.hbm, 194, rfl⟩
abbrev main_v94 : Ref sig .tc := ⟨.hbm, 195, rfl⟩
abbrev main_v95 : Ref sig .tc := ⟨.hbm, 196, rfl⟩
abbrev main_cst_13 : Ref sig .tc := ⟨.hbm, 197, rfl⟩
abbrev main_v96 : Ref sig .tc := ⟨.hbm, 198, rfl⟩
abbrev main_v97 : Ref sig .tc := ⟨.hbm, 199, rfl⟩
abbrev main_v98 : Ref sig .tc := ⟨.hbm, 200, rfl⟩
abbrev main_v99 : Ref sig .tc := ⟨.hbm, 201, rfl⟩
abbrev main_v100 : Ref sig .tc := ⟨.hbm, 202, rfl⟩
abbrev main_v101 : Ref sig .tc := ⟨.hbm, 203, rfl⟩
abbrev main_v102 : Ref sig .tc := ⟨.hbm, 204, rfl⟩
abbrev main_v103 : Ref sig .tc := ⟨.hbm, 205, rfl⟩
abbrev main_call5_cst : Ref sig .tc := ⟨.hbm, 206, rfl⟩
abbrev main_call5_v0 : Ref sig .tc := ⟨.hbm, 207, rfl⟩
abbrev main_v104 : Ref sig .tc := ⟨.hbm, 208, rfl⟩
abbrev main_v105 : Ref sig .tc := ⟨.hbm, 209, rfl⟩
abbrev main_c_14 : Ref sig .tc := ⟨.hbm, 210, rfl⟩
abbrev main_v106 : Ref sig .tc := ⟨.hbm, 211, rfl⟩
abbrev main_v107 : Ref sig .tc := ⟨.hbm, 212, rfl⟩
abbrev main_c_15 : Ref sig .tc := ⟨.hbm, 213, rfl⟩
abbrev main_v108 : Ref sig .tc := ⟨.hbm, 214, rfl⟩
abbrev main_v109 : Ref sig .tc := ⟨.hbm, 215, rfl⟩
abbrev main_v110 : Ref sig .tc := ⟨.hbm, 216, rfl⟩
abbrev main_v111 : Ref sig .tc := ⟨.hbm, 217, rfl⟩
abbrev main_v112 : Ref sig .tc := ⟨.hbm, 218, rfl⟩
abbrev main_cst_16 : Ref sig .tc := ⟨.hbm, 219, rfl⟩
abbrev main_v113 : Ref sig .tc := ⟨.hbm, 220, rfl⟩
abbrev main_v114 : Ref sig .tc := ⟨.hbm, 221, rfl⟩
abbrev main_v115 : Ref sig .tc := ⟨.hbm, 222, rfl⟩
abbrev main_v116 : Ref sig .tc := ⟨.hbm, 223, rfl⟩
abbrev main_v117 : Ref sig .tc := ⟨.hbm, 224, rfl⟩
abbrev main_cst_17 : Ref sig .tc := ⟨.hbm, 225, rfl⟩
abbrev main_v118 : Ref sig .tc := ⟨.hbm, 226, rfl⟩
abbrev main_v119 : Ref sig .tc := ⟨.hbm, 227, rfl⟩
abbrev main_v120 : Ref sig .tc := ⟨.hbm, 228, rfl⟩
abbrev main_v121 : Ref sig .tc := ⟨.hbm, 229, rfl⟩
abbrev main_v122 : Ref sig .tc := ⟨.hbm, 230, rfl⟩
abbrev main_v123 : Ref sig .tc := ⟨.hbm, 231, rfl⟩
abbrev main_v124 : Ref sig .tc := ⟨.hbm, 232, rfl⟩
abbrev main_v125 : Ref sig .tc := ⟨.hbm, 233, rfl⟩
abbrev main_v126 : Ref sig .tc := ⟨.hbm, 234, rfl⟩
abbrev main_v127 : Ref sig .tc := ⟨.hbm, 235, rfl⟩
abbrev main_v128 : Ref sig .tc := ⟨.hbm, 236, rfl⟩
abbrev main_v129 : Ref sig .tc := ⟨.hbm, 237, rfl⟩
abbrev main_v130 : Ref sig .tc := ⟨.hbm, 238, rfl⟩
abbrev main_v131 : Ref sig .tc := ⟨.hbm, 239, rfl⟩
abbrev main_v132 : Ref sig .tc := ⟨.hbm, 240, rfl⟩
abbrev main_v133 : Ref sig .tc := ⟨.hbm, 241, rfl⟩
abbrev main_cst_18 : Ref sig .tc := ⟨.hbm, 242, rfl⟩
abbrev main_v134 : Ref sig .tc := ⟨.hbm, 243, rfl⟩
abbrev main_v135 : Ref sig .tc := ⟨.hbm, 244, rfl⟩
abbrev main_cst_19 : Ref sig .tc := ⟨.hbm, 245, rfl⟩
abbrev main_v136 : Ref sig .tc := ⟨.hbm, 246, rfl⟩
abbrev main_v137 : Ref sig .tc := ⟨.hbm, 247, rfl⟩
abbrev main_c_20 : Ref sig .tc := ⟨.hbm, 248, rfl⟩
abbrev main_call6_cst : Ref sig .tc := ⟨.hbm, 249, rfl⟩
abbrev main_call6_v0 : Ref sig .tc := ⟨.hbm, 250, rfl⟩
abbrev main_call6_v1 : Ref sig .tc := ⟨.hbm, 251, rfl⟩
abbrev main_call6_cst_0 : Ref sig .tc := ⟨.hbm, 252, rfl⟩
abbrev main_call6_v2 : Ref sig .tc := ⟨.hbm, 253, rfl⟩
abbrev main_call6_v3 : Ref sig .tc := ⟨.hbm, 254, rfl⟩
abbrev main_call6_v4 : Ref sig .tc := ⟨.hbm, 255, rfl⟩
abbrev main_call6_v5 : Ref sig .tc := ⟨.hbm, 256, rfl⟩
abbrev main_call6_v6 : Ref sig .tc := ⟨.hbm, 257, rfl⟩
abbrev main_call6_v7 : Ref sig .tc := ⟨.hbm, 258, rfl⟩
abbrev main_call6_cst_1 : Ref sig .tc := ⟨.hbm, 259, rfl⟩
abbrev main_call6_v8 : Ref sig .tc := ⟨.hbm, 260, rfl⟩
abbrev main_call6_cst_2 : Ref sig .tc := ⟨.hbm, 261, rfl⟩
abbrev main_call6_v9 : Ref sig .tc := ⟨.hbm, 262, rfl⟩
abbrev main_call6_v10 : Ref sig .tc := ⟨.hbm, 263, rfl⟩
abbrev main_call6_v11 : Ref sig .tc := ⟨.hbm, 264, rfl⟩
abbrev main_call6_v12 : Ref sig .tc := ⟨.hbm, 265, rfl⟩
abbrev main_call6_cst_3 : Ref sig .tc := ⟨.hbm, 266, rfl⟩
abbrev main_call6_v13 : Ref sig .tc := ⟨.hbm, 267, rfl⟩
abbrev main_call6_cst_4 : Ref sig .tc := ⟨.hbm, 268, rfl⟩
abbrev main_call6_call0_v0 : Ref sig .tc := ⟨.hbm, 269, rfl⟩
abbrev main_call6_call0_v1 : Ref sig .tc := ⟨.hbm, 270, rfl⟩
abbrev main_v138 : Ref sig .tc := ⟨.hbm, 271, rfl⟩
abbrev main_v139 : Ref sig .tc := ⟨.hbm, 272, rfl⟩
abbrev main_v140 : Ref sig .tc := ⟨.hbm, 273, rfl⟩
abbrev main_v141 : Ref sig .tc := ⟨.hbm, 274, rfl⟩
abbrev main_v142 : Ref sig .tc := ⟨.hbm, 275, rfl⟩
abbrev main_v143 : Ref sig .tc := ⟨.hbm, 276, rfl⟩
abbrev main_cst_21 : Ref sig .tc := ⟨.hbm, 277, rfl⟩
abbrev main_v144 : Ref sig .tc := ⟨.hbm, 278, rfl⟩
abbrev main_v145 : Ref sig .tc := ⟨.hbm, 279, rfl⟩
abbrev main_v146 : Ref sig .tc := ⟨.hbm, 280, rfl⟩
abbrev main_v147 : Ref sig .tc := ⟨.hbm, 281, rfl⟩
abbrev main_v148 : Ref sig .tc := ⟨.hbm, 282, rfl⟩
abbrev main_v149 : Ref sig .tc := ⟨.hbm, 283, rfl⟩
abbrev main_v150 : Ref sig .tc := ⟨.hbm, 284, rfl⟩
abbrev main_v151 : Ref sig .tc := ⟨.hbm, 285, rfl⟩
abbrev main_call7_cst : Ref sig .tc := ⟨.hbm, 286, rfl⟩
abbrev main_call7_v0 : Ref sig .tc := ⟨.hbm, 287, rfl⟩
abbrev main_v152 : Ref sig .tc := ⟨.hbm, 288, rfl⟩
abbrev main_v153 : Ref sig .tc := ⟨.hbm, 289, rfl⟩
abbrev main_v154 : Ref sig .tc := ⟨.hbm, 290, rfl⟩
abbrev main_v155 : Ref sig .tc := ⟨.hbm, 291, rfl⟩
abbrev main_v156 : Ref sig .tc := ⟨.hbm, 292, rfl⟩
abbrev main_v157 : Ref sig .tc := ⟨.hbm, 293, rfl⟩
abbrev main_v158 : Ref sig .tc := ⟨.hbm, 294, rfl⟩
abbrev main_v159 : Ref sig .tc := ⟨.hbm, 295, rfl⟩
abbrev main_v160 : Ref sig .tc := ⟨.hbm, 296, rfl⟩
abbrev main_v161 : Ref sig .tc := ⟨.hbm, 297, rfl⟩
abbrev main_v162 : Ref sig .tc := ⟨.hbm, 298, rfl⟩
abbrev main_v163 : Ref sig .tc := ⟨.hbm, 299, rfl⟩
abbrev main_v164 : Ref sig .tc := ⟨.hbm, 300, rfl⟩
abbrev main_cst_22 : Ref sig .tc := ⟨.hbm, 301, rfl⟩
abbrev main_v165 : Ref sig .tc := ⟨.hbm, 302, rfl⟩
abbrev main_v166 : Ref sig .tc := ⟨.hbm, 303, rfl⟩
abbrev main_cst_23 : Ref sig .tc := ⟨.hbm, 304, rfl⟩
abbrev main_v167 : Ref sig .tc := ⟨.hbm, 305, rfl⟩
abbrev main_v168 : Ref sig .tc := ⟨.hbm, 306, rfl⟩
abbrev main_c_24 : Ref sig .tc := ⟨.hbm, 307, rfl⟩
abbrev main_call8_cst : Ref sig .tc := ⟨.hbm, 308, rfl⟩
abbrev main_call8_v0 : Ref sig .tc := ⟨.hbm, 309, rfl⟩
abbrev main_call8_v1 : Ref sig .tc := ⟨.hbm, 310, rfl⟩
abbrev main_call8_cst_0 : Ref sig .tc := ⟨.hbm, 311, rfl⟩
abbrev main_call8_v2 : Ref sig .tc := ⟨.hbm, 312, rfl⟩
abbrev main_call8_v3 : Ref sig .tc := ⟨.hbm, 313, rfl⟩
abbrev main_call8_v4 : Ref sig .tc := ⟨.hbm, 314, rfl⟩
abbrev main_call8_v5 : Ref sig .tc := ⟨.hbm, 315, rfl⟩
abbrev main_call8_v6 : Ref sig .tc := ⟨.hbm, 316, rfl⟩
abbrev main_call8_v7 : Ref sig .tc := ⟨.hbm, 317, rfl⟩
abbrev main_call8_cst_1 : Ref sig .tc := ⟨.hbm, 318, rfl⟩
abbrev main_call8_v8 : Ref sig .tc := ⟨.hbm, 319, rfl⟩
abbrev main_call8_cst_2 : Ref sig .tc := ⟨.hbm, 320, rfl⟩
abbrev main_call8_v9 : Ref sig .tc := ⟨.hbm, 321, rfl⟩
abbrev main_call8_v10 : Ref sig .tc := ⟨.hbm, 322, rfl⟩
abbrev main_call8_v11 : Ref sig .tc := ⟨.hbm, 323, rfl⟩
abbrev main_call8_v12 : Ref sig .tc := ⟨.hbm, 324, rfl⟩
abbrev main_call8_cst_3 : Ref sig .tc := ⟨.hbm, 325, rfl⟩
abbrev main_call8_v13 : Ref sig .tc := ⟨.hbm, 326, rfl⟩
abbrev main_call8_cst_4 : Ref sig .tc := ⟨.hbm, 327, rfl⟩
abbrev main_call8_call0_v0 : Ref sig .tc := ⟨.hbm, 328, rfl⟩
abbrev main_call8_call0_v1 : Ref sig .tc := ⟨.hbm, 329, rfl⟩
abbrev main_v169 : Ref sig .tc := ⟨.hbm, 330, rfl⟩
abbrev main_v170 : Ref sig .tc := ⟨.hbm, 331, rfl⟩
abbrev main_v171 : Ref sig .tc := ⟨.hbm, 332, rfl⟩
abbrev main_v172 : Ref sig .tc := ⟨.hbm, 333, rfl⟩
abbrev main_v173 : Ref sig .tc := ⟨.hbm, 334, rfl⟩
abbrev main_v174 : Ref sig .tc := ⟨.hbm, 335, rfl⟩
abbrev main_cst_25 : Ref sig .tc := ⟨.hbm, 336, rfl⟩
abbrev main_v175 : Ref sig .tc := ⟨.hbm, 337, rfl⟩
abbrev main_v176 : Ref sig .tc := ⟨.hbm, 338, rfl⟩
abbrev main_v177 : Ref sig .tc := ⟨.hbm, 339, rfl⟩
abbrev main_v178 : Ref sig .tc := ⟨.hbm, 340, rfl⟩
abbrev main_v179 : Ref sig .tc := ⟨.hbm, 341, rfl⟩
abbrev main_v180 : Ref sig .tc := ⟨.hbm, 342, rfl⟩
abbrev main_v181 : Ref sig .tc := ⟨.hbm, 343, rfl⟩
abbrev main_v182 : Ref sig .tc := ⟨.hbm, 344, rfl⟩
abbrev main_call9_cst : Ref sig .tc := ⟨.hbm, 345, rfl⟩
abbrev main_call9_v0 : Ref sig .tc := ⟨.hbm, 346, rfl⟩
abbrev main_v183 : Ref sig .tc := ⟨.hbm, 347, rfl⟩
abbrev main_v184 : Ref sig .tc := ⟨.hbm, 348, rfl⟩
abbrev main_v185 : Ref sig .tc := ⟨.hbm, 349, rfl⟩
abbrev main_v186 : Ref sig .tc := ⟨.hbm, 350, rfl⟩
abbrev main_v187 : Ref sig .tc := ⟨.hbm, 351, rfl⟩
abbrev main_cst_26 : Ref sig .tc := ⟨.hbm, 352, rfl⟩
abbrev main_v188 : Ref sig .tc := ⟨.hbm, 353, rfl⟩
abbrev main_v189 : Ref sig .tc := ⟨.hbm, 354, rfl⟩
abbrev main_cst_27 : Ref sig .tc := ⟨.hbm, 355, rfl⟩
abbrev main_v190 : Ref sig .tc := ⟨.hbm, 356, rfl⟩
abbrev main_v191 : Ref sig .tc := ⟨.hbm, 357, rfl⟩
abbrev main_c_28 : Ref sig .tc := ⟨.hbm, 358, rfl⟩
abbrev main_call10_cst : Ref sig .tc := ⟨.hbm, 359, rfl⟩
abbrev main_call10_v0 : Ref sig .tc := ⟨.hbm, 360, rfl⟩
abbrev main_call10_v1 : Ref sig .tc := ⟨.hbm, 361, rfl⟩
abbrev main_call10_cst_0 : Ref sig .tc := ⟨.hbm, 362, rfl⟩
abbrev main_call10_v2 : Ref sig .tc := ⟨.hbm, 363, rfl⟩
abbrev main_call10_v3 : Ref sig .tc := ⟨.hbm, 364, rfl⟩
abbrev main_call10_v4 : Ref sig .tc := ⟨.hbm, 365, rfl⟩
abbrev main_call10_v5 : Ref sig .tc := ⟨.hbm, 366, rfl⟩
abbrev main_call10_v6 : Ref sig .tc := ⟨.hbm, 367, rfl⟩
abbrev main_call10_v7 : Ref sig .tc := ⟨.hbm, 368, rfl⟩
abbrev main_call10_cst_1 : Ref sig .tc := ⟨.hbm, 369, rfl⟩
abbrev main_call10_v8 : Ref sig .tc := ⟨.hbm, 370, rfl⟩
abbrev main_call10_cst_2 : Ref sig .tc := ⟨.hbm, 371, rfl⟩
abbrev main_call10_v9 : Ref sig .tc := ⟨.hbm, 372, rfl⟩
abbrev main_call10_v10 : Ref sig .tc := ⟨.hbm, 373, rfl⟩
abbrev main_call10_v11 : Ref sig .tc := ⟨.hbm, 374, rfl⟩
abbrev main_call10_v12 : Ref sig .tc := ⟨.hbm, 375, rfl⟩
abbrev main_call10_cst_3 : Ref sig .tc := ⟨.hbm, 376, rfl⟩
abbrev main_call10_v13 : Ref sig .tc := ⟨.hbm, 377, rfl⟩
abbrev main_call10_cst_4 : Ref sig .tc := ⟨.hbm, 378, rfl⟩
abbrev main_call10_call0_v0 : Ref sig .tc := ⟨.hbm, 379, rfl⟩
abbrev main_call10_call0_v1 : Ref sig .tc := ⟨.hbm, 380, rfl⟩
abbrev main_v192 : Ref sig .tc := ⟨.hbm, 381, rfl⟩
abbrev main_v193 : Ref sig .tc := ⟨.hbm, 382, rfl⟩
abbrev main_v194 : Ref sig .tc := ⟨.hbm, 383, rfl⟩
abbrev main_v195 : Ref sig .tc := ⟨.hbm, 384, rfl⟩
abbrev main_v196 : Ref sig .tc := ⟨.hbm, 385, rfl⟩
abbrev main_v197 : Ref sig .tc := ⟨.hbm, 386, rfl⟩
abbrev main_cst_29 : Ref sig .tc := ⟨.hbm, 387, rfl⟩
abbrev main_v198 : Ref sig .tc := ⟨.hbm, 388, rfl⟩
abbrev main_v199 : Ref sig .tc := ⟨.hbm, 389, rfl⟩
abbrev main_v200 : Ref sig .tc := ⟨.hbm, 390, rfl⟩
abbrev main_v201 : Ref sig .tc := ⟨.hbm, 391, rfl⟩
abbrev main_v202 : Ref sig .tc := ⟨.hbm, 392, rfl⟩
abbrev main_v203 : Ref sig .tc := ⟨.hbm, 393, rfl⟩
abbrev main_v204 : Ref sig .tc := ⟨.hbm, 394, rfl⟩
abbrev main_v205 : Ref sig .tc := ⟨.hbm, 395, rfl⟩
abbrev main_call11_cst : Ref sig .tc := ⟨.hbm, 396, rfl⟩
abbrev main_call11_v0 : Ref sig .tc := ⟨.hbm, 397, rfl⟩
abbrev main_v206 : Ref sig .tc := ⟨.hbm, 398, rfl⟩
abbrev main_v207 : Ref sig .tc := ⟨.hbm, 399, rfl⟩
abbrev main_c_30 : Ref sig .tc := ⟨.hbm, 400, rfl⟩
abbrev main_v208 : Ref sig .tc := ⟨.hbm, 401, rfl⟩
abbrev main_v209 : Ref sig .tc := ⟨.hbm, 402, rfl⟩
abbrev main_c_31 : Ref sig .tc := ⟨.hbm, 403, rfl⟩
abbrev main_v210 : Ref sig .tc := ⟨.hbm, 404, rfl⟩
abbrev main_v211 : Ref sig .tc := ⟨.hbm, 405, rfl⟩
abbrev main_v212 : Ref sig .tc := ⟨.hbm, 406, rfl⟩
abbrev main_v213 : Ref sig .tc := ⟨.hbm, 407, rfl⟩
abbrev main_v214 : Ref sig .tc := ⟨.hbm, 408, rfl⟩
abbrev main_cst_32 : Ref sig .tc := ⟨.hbm, 409, rfl⟩
abbrev main_v215 : Ref sig .tc := ⟨.hbm, 410, rfl⟩
abbrev main_v216 : Ref sig .tc := ⟨.hbm, 411, rfl⟩
abbrev main_v217 : Ref sig .tc := ⟨.hbm, 412, rfl⟩
abbrev main_v218 : Ref sig .tc := ⟨.hbm, 413, rfl⟩
abbrev main_v219 : Ref sig .tc := ⟨.hbm, 414, rfl⟩
abbrev main_cst_33 : Ref sig .tc := ⟨.hbm, 415, rfl⟩
abbrev main_v220 : Ref sig .tc := ⟨.hbm, 416, rfl⟩
abbrev main_v221 : Ref sig .tc := ⟨.hbm, 417, rfl⟩
abbrev main_v222 : Ref sig .tc := ⟨.hbm, 418, rfl⟩
abbrev main_v223 : Ref sig .tc := ⟨.hbm, 419, rfl⟩
abbrev main_v224 : Ref sig .tc := ⟨.hbm, 420, rfl⟩
abbrev main_v225 : Ref sig .tc := ⟨.hbm, 421, rfl⟩
abbrev main_v226 : Ref sig .tc := ⟨.hbm, 422, rfl⟩
abbrev main_v227 : Ref sig .tc := ⟨.hbm, 423, rfl⟩
abbrev main_v228 : Ref sig .tc := ⟨.hbm, 424, rfl⟩
abbrev main_v229 : Ref sig .tc := ⟨.hbm, 425, rfl⟩
abbrev main_v230 : Ref sig .tc := ⟨.hbm, 426, rfl⟩
abbrev main_v231 : Ref sig .tc := ⟨.hbm, 427, rfl⟩
abbrev main_v232 : Ref sig .tc := ⟨.hbm, 428, rfl⟩
abbrev main_v233 : Ref sig .tc := ⟨.hbm, 429, rfl⟩
abbrev main_v234 : Ref sig .tc := ⟨.hbm, 430, rfl⟩
abbrev main_v235 : Ref sig .tc := ⟨.hbm, 431, rfl⟩
abbrev main_cst_34 : Ref sig .tc := ⟨.hbm, 432, rfl⟩
abbrev main_v236 : Ref sig .tc := ⟨.hbm, 433, rfl⟩
abbrev main_v237 : Ref sig .tc := ⟨.hbm, 434, rfl⟩
abbrev main_cst_35 : Ref sig .tc := ⟨.hbm, 435, rfl⟩
abbrev main_v238 : Ref sig .tc := ⟨.hbm, 436, rfl⟩
abbrev main_v239 : Ref sig .tc := ⟨.hbm, 437, rfl⟩
abbrev main_c_36 : Ref sig .tc := ⟨.hbm, 438, rfl⟩
abbrev main_call12_cst : Ref sig .tc := ⟨.hbm, 439, rfl⟩
abbrev main_call12_v0 : Ref sig .tc := ⟨.hbm, 440, rfl⟩
abbrev main_call12_v1 : Ref sig .tc := ⟨.hbm, 441, rfl⟩
abbrev main_call12_cst_0 : Ref sig .tc := ⟨.hbm, 442, rfl⟩
abbrev main_call12_v2 : Ref sig .tc := ⟨.hbm, 443, rfl⟩
abbrev main_call12_v3 : Ref sig .tc := ⟨.hbm, 444, rfl⟩
abbrev main_call12_v4 : Ref sig .tc := ⟨.hbm, 445, rfl⟩
abbrev main_call12_v5 : Ref sig .tc := ⟨.hbm, 446, rfl⟩
abbrev main_call12_v6 : Ref sig .tc := ⟨.hbm, 447, rfl⟩
abbrev main_call12_v7 : Ref sig .tc := ⟨.hbm, 448, rfl⟩
abbrev main_call12_cst_1 : Ref sig .tc := ⟨.hbm, 449, rfl⟩
abbrev main_call12_v8 : Ref sig .tc := ⟨.hbm, 450, rfl⟩
abbrev main_call12_cst_2 : Ref sig .tc := ⟨.hbm, 451, rfl⟩
abbrev main_call12_v9 : Ref sig .tc := ⟨.hbm, 452, rfl⟩
abbrev main_call12_v10 : Ref sig .tc := ⟨.hbm, 453, rfl⟩
abbrev main_call12_v11 : Ref sig .tc := ⟨.hbm, 454, rfl⟩
abbrev main_call12_v12 : Ref sig .tc := ⟨.hbm, 455, rfl⟩
abbrev main_call12_cst_3 : Ref sig .tc := ⟨.hbm, 456, rfl⟩
abbrev main_call12_v13 : Ref sig .tc := ⟨.hbm, 457, rfl⟩
abbrev main_call12_cst_4 : Ref sig .tc := ⟨.hbm, 458, rfl⟩
abbrev main_call12_call0_v0 : Ref sig .tc := ⟨.hbm, 459, rfl⟩
abbrev main_call12_call0_v1 : Ref sig .tc := ⟨.hbm, 460, rfl⟩
abbrev main_v240 : Ref sig .tc := ⟨.hbm, 461, rfl⟩
abbrev main_v241 : Ref sig .tc := ⟨.hbm, 462, rfl⟩
abbrev main_v242 : Ref sig .tc := ⟨.hbm, 463, rfl⟩
abbrev main_v243 : Ref sig .tc := ⟨.hbm, 464, rfl⟩
abbrev main_v244 : Ref sig .tc := ⟨.hbm, 465, rfl⟩
abbrev main_v245 : Ref sig .tc := ⟨.hbm, 466, rfl⟩
abbrev main_cst_37 : Ref sig .tc := ⟨.hbm, 467, rfl⟩
abbrev main_v246 : Ref sig .tc := ⟨.hbm, 468, rfl⟩
abbrev main_v247 : Ref sig .tc := ⟨.hbm, 469, rfl⟩
abbrev main_v248 : Ref sig .tc := ⟨.hbm, 470, rfl⟩
abbrev main_v249 : Ref sig .tc := ⟨.hbm, 471, rfl⟩
abbrev main_v250 : Ref sig .tc := ⟨.hbm, 472, rfl⟩
abbrev main_v251 : Ref sig .tc := ⟨.hbm, 473, rfl⟩
abbrev main_v252 : Ref sig .tc := ⟨.hbm, 474, rfl⟩
abbrev main_v253 : Ref sig .tc := ⟨.hbm, 475, rfl⟩
abbrev main_call13_cst : Ref sig .tc := ⟨.hbm, 476, rfl⟩
abbrev main_call13_v0 : Ref sig .tc := ⟨.hbm, 477, rfl⟩
abbrev main_v254 : Ref sig .tc := ⟨.hbm, 478, rfl⟩
abbrev main_v255 : Ref sig .tc := ⟨.hbm, 479, rfl⟩
abbrev main_v256 : Ref sig .tc := ⟨.hbm, 480, rfl⟩
abbrev main_v257 : Ref sig .tc := ⟨.hbm, 481, rfl⟩
abbrev main_v258 : Ref sig .tc := ⟨.hbm, 482, rfl⟩
abbrev main_v259 : Ref sig .tc := ⟨.hbm, 483, rfl⟩
abbrev main_v260 : Ref sig .tc := ⟨.hbm, 484, rfl⟩
abbrev main_v261 : Ref sig .tc := ⟨.hbm, 485, rfl⟩
abbrev main_v262 : Ref sig .tc := ⟨.hbm, 486, rfl⟩
abbrev main_v263 : Ref sig .tc := ⟨.hbm, 487, rfl⟩
abbrev main_v264 : Ref sig .tc := ⟨.hbm, 488, rfl⟩
abbrev main_v265 : Ref sig .tc := ⟨.hbm, 489, rfl⟩
abbrev main_v266 : Ref sig .tc := ⟨.hbm, 490, rfl⟩
abbrev main_cst_38 : Ref sig .tc := ⟨.hbm, 491, rfl⟩
abbrev main_v267 : Ref sig .tc := ⟨.hbm, 492, rfl⟩
abbrev main_v268 : Ref sig .tc := ⟨.hbm, 493, rfl⟩
abbrev main_cst_39 : Ref sig .tc := ⟨.hbm, 494, rfl⟩
abbrev main_v269 : Ref sig .tc := ⟨.hbm, 495, rfl⟩
abbrev main_v270 : Ref sig .tc := ⟨.hbm, 496, rfl⟩
abbrev main_c_40 : Ref sig .tc := ⟨.hbm, 497, rfl⟩
abbrev main_call14_cst : Ref sig .tc := ⟨.hbm, 498, rfl⟩
abbrev main_call14_v0 : Ref sig .tc := ⟨.hbm, 499, rfl⟩
abbrev main_call14_v1 : Ref sig .tc := ⟨.hbm, 500, rfl⟩
abbrev main_call14_cst_0 : Ref sig .tc := ⟨.hbm, 501, rfl⟩
abbrev main_call14_v2 : Ref sig .tc := ⟨.hbm, 502, rfl⟩
abbrev main_call14_v3 : Ref sig .tc := ⟨.hbm, 503, rfl⟩
abbrev main_call14_v4 : Ref sig .tc := ⟨.hbm, 504, rfl⟩
abbrev main_call14_v5 : Ref sig .tc := ⟨.hbm, 505, rfl⟩
abbrev main_call14_v6 : Ref sig .tc := ⟨.hbm, 506, rfl⟩
abbrev main_call14_v7 : Ref sig .tc := ⟨.hbm, 507, rfl⟩
abbrev main_call14_cst_1 : Ref sig .tc := ⟨.hbm, 508, rfl⟩
abbrev main_call14_v8 : Ref sig .tc := ⟨.hbm, 509, rfl⟩
abbrev main_call14_cst_2 : Ref sig .tc := ⟨.hbm, 510, rfl⟩
abbrev main_call14_v9 : Ref sig .tc := ⟨.hbm, 511, rfl⟩
abbrev main_call14_v10 : Ref sig .tc := ⟨.hbm, 512, rfl⟩
abbrev main_call14_v11 : Ref sig .tc := ⟨.hbm, 513, rfl⟩
abbrev main_call14_v12 : Ref sig .tc := ⟨.hbm, 514, rfl⟩
abbrev main_call14_cst_3 : Ref sig .tc := ⟨.hbm, 515, rfl⟩
abbrev main_call14_v13 : Ref sig .tc := ⟨.hbm, 516, rfl⟩
abbrev main_call14_cst_4 : Ref sig .tc := ⟨.hbm, 517, rfl⟩
abbrev main_call14_call0_v0 : Ref sig .tc := ⟨.hbm, 518, rfl⟩
abbrev main_call14_call0_v1 : Ref sig .tc := ⟨.hbm, 519, rfl⟩
abbrev main_v271 : Ref sig .tc := ⟨.hbm, 520, rfl⟩
abbrev main_v272 : Ref sig .tc := ⟨.hbm, 521, rfl⟩
abbrev main_v273 : Ref sig .tc := ⟨.hbm, 522, rfl⟩
abbrev main_v274 : Ref sig .tc := ⟨.hbm, 523, rfl⟩
abbrev main_v275 : Ref sig .tc := ⟨.hbm, 524, rfl⟩
abbrev main_v276 : Ref sig .tc := ⟨.hbm, 525, rfl⟩
abbrev main_cst_41 : Ref sig .tc := ⟨.hbm, 526, rfl⟩
abbrev main_v277 : Ref sig .tc := ⟨.hbm, 527, rfl⟩
abbrev main_v278 : Ref sig .tc := ⟨.hbm, 528, rfl⟩
abbrev main_v279 : Ref sig .tc := ⟨.hbm, 529, rfl⟩
abbrev main_v280 : Ref sig .tc := ⟨.hbm, 530, rfl⟩
abbrev main_v281 : Ref sig .tc := ⟨.hbm, 531, rfl⟩
abbrev main_v282 : Ref sig .tc := ⟨.hbm, 532, rfl⟩
abbrev main_v283 : Ref sig .tc := ⟨.hbm, 533, rfl⟩
abbrev main_v284 : Ref sig .tc := ⟨.hbm, 534, rfl⟩
abbrev main_call15_cst : Ref sig .tc := ⟨.hbm, 535, rfl⟩
abbrev main_call15_v0 : Ref sig .tc := ⟨.hbm, 536, rfl⟩
abbrev main_v285 : Ref sig .tc := ⟨.hbm, 537, rfl⟩
abbrev main_v286 : Ref sig .tc := ⟨.hbm, 538, rfl⟩
abbrev main_v287 : Ref sig .tc := ⟨.hbm, 539, rfl⟩
abbrev main_v288 : Ref sig .tc := ⟨.hbm, 540, rfl⟩
abbrev main_v289 : Ref sig .tc := ⟨.hbm, 541, rfl⟩
abbrev main_cst_42 : Ref sig .tc := ⟨.hbm, 542, rfl⟩
abbrev main_v290 : Ref sig .tc := ⟨.hbm, 543, rfl⟩
abbrev main_v291 : Ref sig .tc := ⟨.hbm, 544, rfl⟩
abbrev main_cst_43 : Ref sig .tc := ⟨.hbm, 545, rfl⟩
abbrev main_v292 : Ref sig .tc := ⟨.hbm, 546, rfl⟩
abbrev main_v293 : Ref sig .tc := ⟨.hbm, 547, rfl⟩
abbrev main_c_44 : Ref sig .tc := ⟨.hbm, 548, rfl⟩
abbrev main_call16_cst : Ref sig .tc := ⟨.hbm, 549, rfl⟩
abbrev main_call16_v0 : Ref sig .tc := ⟨.hbm, 550, rfl⟩
abbrev main_call16_v1 : Ref sig .tc := ⟨.hbm, 551, rfl⟩
abbrev main_call16_cst_0 : Ref sig .tc := ⟨.hbm, 552, rfl⟩
abbrev main_call16_v2 : Ref sig .tc := ⟨.hbm, 553, rfl⟩
abbrev main_call16_v3 : Ref sig .tc := ⟨.hbm, 554, rfl⟩
abbrev main_call16_v4 : Ref sig .tc := ⟨.hbm, 555, rfl⟩
abbrev main_call16_v5 : Ref sig .tc := ⟨.hbm, 556, rfl⟩
abbrev main_call16_v6 : Ref sig .tc := ⟨.hbm, 557, rfl⟩
abbrev main_call16_v7 : Ref sig .tc := ⟨.hbm, 558, rfl⟩
abbrev main_call16_cst_1 : Ref sig .tc := ⟨.hbm, 559, rfl⟩
abbrev main_call16_v8 : Ref sig .tc := ⟨.hbm, 560, rfl⟩
abbrev main_call16_cst_2 : Ref sig .tc := ⟨.hbm, 561, rfl⟩
abbrev main_call16_v9 : Ref sig .tc := ⟨.hbm, 562, rfl⟩
abbrev main_call16_v10 : Ref sig .tc := ⟨.hbm, 563, rfl⟩
abbrev main_call16_v11 : Ref sig .tc := ⟨.hbm, 564, rfl⟩
abbrev main_call16_v12 : Ref sig .tc := ⟨.hbm, 565, rfl⟩
abbrev main_call16_cst_3 : Ref sig .tc := ⟨.hbm, 566, rfl⟩
abbrev main_call16_v13 : Ref sig .tc := ⟨.hbm, 567, rfl⟩
abbrev main_call16_cst_4 : Ref sig .tc := ⟨.hbm, 568, rfl⟩
abbrev main_call16_call0_v0 : Ref sig .tc := ⟨.hbm, 569, rfl⟩
abbrev main_call16_call0_v1 : Ref sig .tc := ⟨.hbm, 570, rfl⟩
abbrev main_v294 : Ref sig .tc := ⟨.hbm, 571, rfl⟩
abbrev main_v295 : Ref sig .tc := ⟨.hbm, 572, rfl⟩
abbrev main_v296 : Ref sig .tc := ⟨.hbm, 573, rfl⟩
abbrev main_v297 : Ref sig .tc := ⟨.hbm, 574, rfl⟩
abbrev main_v298 : Ref sig .tc := ⟨.hbm, 575, rfl⟩
abbrev main_v299 : Ref sig .tc := ⟨.hbm, 576, rfl⟩
abbrev main_cst_45 : Ref sig .tc := ⟨.hbm, 577, rfl⟩
abbrev main_v300 : Ref sig .tc := ⟨.hbm, 578, rfl⟩
abbrev main_v301 : Ref sig .tc := ⟨.hbm, 579, rfl⟩
abbrev main_v302 : Ref sig .tc := ⟨.hbm, 580, rfl⟩
abbrev main_v303 : Ref sig .tc := ⟨.hbm, 581, rfl⟩
abbrev main_v304 : Ref sig .tc := ⟨.hbm, 582, rfl⟩
abbrev main_v305 : Ref sig .tc := ⟨.hbm, 583, rfl⟩
abbrev main_v306 : Ref sig .tc := ⟨.hbm, 584, rfl⟩
abbrev main_v307 : Ref sig .tc := ⟨.hbm, 585, rfl⟩
abbrev main_call17_cst : Ref sig .tc := ⟨.hbm, 586, rfl⟩
abbrev main_call17_v0 : Ref sig .tc := ⟨.hbm, 587, rfl⟩
abbrev main_v308 : Ref sig .tc := ⟨.hbm, 588, rfl⟩
abbrev main_v309 : Ref sig .tc := ⟨.hbm, 589, rfl⟩
abbrev main_c_46 : Ref sig .tc := ⟨.hbm, 590, rfl⟩
abbrev main_v310 : Ref sig .tc := ⟨.hbm, 591, rfl⟩
abbrev main_v311 : Ref sig .tc := ⟨.hbm, 592, rfl⟩
abbrev main_c_47 : Ref sig .tc := ⟨.hbm, 593, rfl⟩
abbrev main_v312 : Ref sig .tc := ⟨.hbm, 594, rfl⟩
abbrev main_v313 : Ref sig .tc := ⟨.hbm, 595, rfl⟩
abbrev main_v314 : Ref sig .tc := ⟨.hbm, 596, rfl⟩
abbrev main_v315 : Ref sig .tc := ⟨.hbm, 597, rfl⟩
abbrev main_v316 : Ref sig .tc := ⟨.hbm, 598, rfl⟩
abbrev main_cst_48 : Ref sig .tc := ⟨.hbm, 599, rfl⟩
abbrev main_v317 : Ref sig .tc := ⟨.hbm, 600, rfl⟩
abbrev main_v318 : Ref sig .tc := ⟨.hbm, 601, rfl⟩
abbrev main_v319 : Ref sig .tc := ⟨.hbm, 602, rfl⟩
abbrev main_v320 : Ref sig .tc := ⟨.hbm, 603, rfl⟩
abbrev main_v321 : Ref sig .tc := ⟨.hbm, 604, rfl⟩
abbrev main_cst_49 : Ref sig .tc := ⟨.hbm, 605, rfl⟩
abbrev main_v322 : Ref sig .tc := ⟨.hbm, 606, rfl⟩
abbrev main_v323 : Ref sig .tc := ⟨.hbm, 607, rfl⟩
abbrev main_v324 : Ref sig .tc := ⟨.hbm, 608, rfl⟩
abbrev main_v325 : Ref sig .tc := ⟨.hbm, 609, rfl⟩
abbrev main_v326 : Ref sig .tc := ⟨.hbm, 610, rfl⟩
abbrev main_v327 : Ref sig .tc := ⟨.hbm, 611, rfl⟩
abbrev main_v328 : Ref sig .tc := ⟨.hbm, 612, rfl⟩
abbrev main_v329 : Ref sig .tc := ⟨.hbm, 613, rfl⟩
abbrev main_v330 : Ref sig .tc := ⟨.hbm, 614, rfl⟩
abbrev main_v331 : Ref sig .tc := ⟨.hbm, 615, rfl⟩
abbrev main_v332 : Ref sig .tc := ⟨.hbm, 616, rfl⟩
abbrev main_v333 : Ref sig .tc := ⟨.hbm, 617, rfl⟩
abbrev main_v334 : Ref sig .tc := ⟨.hbm, 618, rfl⟩
abbrev main_v335 : Ref sig .tc := ⟨.hbm, 619, rfl⟩
abbrev main_v336 : Ref sig .tc := ⟨.hbm, 620, rfl⟩
abbrev main_v337 : Ref sig .tc := ⟨.hbm, 621, rfl⟩
abbrev main_cst_50 : Ref sig .tc := ⟨.hbm, 622, rfl⟩
abbrev main_v338 : Ref sig .tc := ⟨.hbm, 623, rfl⟩
abbrev main_v339 : Ref sig .tc := ⟨.hbm, 624, rfl⟩
abbrev main_cst_51 : Ref sig .tc := ⟨.hbm, 625, rfl⟩
abbrev main_v340 : Ref sig .tc := ⟨.hbm, 626, rfl⟩
abbrev main_v341 : Ref sig .tc := ⟨.hbm, 627, rfl⟩
abbrev main_c_52 : Ref sig .tc := ⟨.hbm, 628, rfl⟩
abbrev main_call18_cst : Ref sig .tc := ⟨.hbm, 629, rfl⟩
abbrev main_call18_v0 : Ref sig .tc := ⟨.hbm, 630, rfl⟩
abbrev main_call18_v1 : Ref sig .tc := ⟨.hbm, 631, rfl⟩
abbrev main_call18_cst_0 : Ref sig .tc := ⟨.hbm, 632, rfl⟩
abbrev main_call18_v2 : Ref sig .tc := ⟨.hbm, 633, rfl⟩
abbrev main_call18_v3 : Ref sig .tc := ⟨.hbm, 634, rfl⟩
abbrev main_call18_v4 : Ref sig .tc := ⟨.hbm, 635, rfl⟩
abbrev main_call18_v5 : Ref sig .tc := ⟨.hbm, 636, rfl⟩
abbrev main_call18_v6 : Ref sig .tc := ⟨.hbm, 637, rfl⟩
abbrev main_call18_v7 : Ref sig .tc := ⟨.hbm, 638, rfl⟩
abbrev main_call18_cst_1 : Ref sig .tc := ⟨.hbm, 639, rfl⟩
abbrev main_call18_v8 : Ref sig .tc := ⟨.hbm, 640, rfl⟩
abbrev main_call18_cst_2 : Ref sig .tc := ⟨.hbm, 641, rfl⟩
abbrev main_call18_v9 : Ref sig .tc := ⟨.hbm, 642, rfl⟩
abbrev main_call18_v10 : Ref sig .tc := ⟨.hbm, 643, rfl⟩
abbrev main_call18_v11 : Ref sig .tc := ⟨.hbm, 644, rfl⟩
abbrev main_call18_v12 : Ref sig .tc := ⟨.hbm, 645, rfl⟩
abbrev main_call18_cst_3 : Ref sig .tc := ⟨.hbm, 646, rfl⟩
abbrev main_call18_v13 : Ref sig .tc := ⟨.hbm, 647, rfl⟩
abbrev main_call18_cst_4 : Ref sig .tc := ⟨.hbm, 648, rfl⟩
abbrev main_call18_call0_v0 : Ref sig .tc := ⟨.hbm, 649, rfl⟩
abbrev main_call18_call0_v1 : Ref sig .tc := ⟨.hbm, 650, rfl⟩
abbrev main_v342 : Ref sig .tc := ⟨.hbm, 651, rfl⟩
abbrev main_v343 : Ref sig .tc := ⟨.hbm, 652, rfl⟩
abbrev main_v344 : Ref sig .tc := ⟨.hbm, 653, rfl⟩
abbrev main_v345 : Ref sig .tc := ⟨.hbm, 654, rfl⟩
abbrev main_v346 : Ref sig .tc := ⟨.hbm, 655, rfl⟩
abbrev main_v347 : Ref sig .tc := ⟨.hbm, 656, rfl⟩
abbrev main_cst_53 : Ref sig .tc := ⟨.hbm, 657, rfl⟩
abbrev main_v348 : Ref sig .tc := ⟨.hbm, 658, rfl⟩
abbrev main_v349 : Ref sig .tc := ⟨.hbm, 659, rfl⟩
abbrev main_v350 : Ref sig .tc := ⟨.hbm, 660, rfl⟩
abbrev main_v351 : Ref sig .tc := ⟨.hbm, 661, rfl⟩
abbrev main_v352 : Ref sig .tc := ⟨.hbm, 662, rfl⟩
abbrev main_v353 : Ref sig .tc := ⟨.hbm, 663, rfl⟩
abbrev main_v354 : Ref sig .tc := ⟨.hbm, 664, rfl⟩
abbrev main_v355 : Ref sig .tc := ⟨.hbm, 665, rfl⟩
abbrev main_call19_cst : Ref sig .tc := ⟨.hbm, 666, rfl⟩
abbrev main_call19_v0 : Ref sig .tc := ⟨.hbm, 667, rfl⟩
abbrev main_v356 : Ref sig .tc := ⟨.hbm, 668, rfl⟩
abbrev main_v357 : Ref sig .tc := ⟨.hbm, 669, rfl⟩
abbrev main_v358 : Ref sig .tc := ⟨.hbm, 670, rfl⟩
abbrev main_v359 : Ref sig .tc := ⟨.hbm, 671, rfl⟩
abbrev main_v360 : Ref sig .tc := ⟨.hbm, 672, rfl⟩
abbrev main_v361 : Ref sig .tc := ⟨.hbm, 673, rfl⟩
abbrev main_v362 : Ref sig .tc := ⟨.hbm, 674, rfl⟩
abbrev main_v363 : Ref sig .tc := ⟨.hbm, 675, rfl⟩
abbrev main_v364 : Ref sig .tc := ⟨.hbm, 676, rfl⟩
abbrev main_v365 : Ref sig .tc := ⟨.hbm, 677, rfl⟩
abbrev main_v366 : Ref sig .tc := ⟨.hbm, 678, rfl⟩
abbrev main_v367 : Ref sig .tc := ⟨.hbm, 679, rfl⟩
abbrev main_v368 : Ref sig .tc := ⟨.hbm, 680, rfl⟩
abbrev main_cst_54 : Ref sig .tc := ⟨.hbm, 681, rfl⟩
abbrev main_v369 : Ref sig .tc := ⟨.hbm, 682, rfl⟩
abbrev main_v370 : Ref sig .tc := ⟨.hbm, 683, rfl⟩
abbrev main_cst_55 : Ref sig .tc := ⟨.hbm, 684, rfl⟩
abbrev main_v371 : Ref sig .tc := ⟨.hbm, 685, rfl⟩
abbrev main_v372 : Ref sig .tc := ⟨.hbm, 686, rfl⟩
abbrev main_c_56 : Ref sig .tc := ⟨.hbm, 687, rfl⟩
abbrev main_call20_cst : Ref sig .tc := ⟨.hbm, 688, rfl⟩
abbrev main_call20_v0 : Ref sig .tc := ⟨.hbm, 689, rfl⟩
abbrev main_call20_v1 : Ref sig .tc := ⟨.hbm, 690, rfl⟩
abbrev main_call20_cst_0 : Ref sig .tc := ⟨.hbm, 691, rfl⟩
abbrev main_call20_v2 : Ref sig .tc := ⟨.hbm, 692, rfl⟩
abbrev main_call20_v3 : Ref sig .tc := ⟨.hbm, 693, rfl⟩
abbrev main_call20_v4 : Ref sig .tc := ⟨.hbm, 694, rfl⟩
abbrev main_call20_v5 : Ref sig .tc := ⟨.hbm, 695, rfl⟩
abbrev main_call20_v6 : Ref sig .tc := ⟨.hbm, 696, rfl⟩
abbrev main_call20_v7 : Ref sig .tc := ⟨.hbm, 697, rfl⟩
abbrev main_call20_cst_1 : Ref sig .tc := ⟨.hbm, 698, rfl⟩
abbrev main_call20_v8 : Ref sig .tc := ⟨.hbm, 699, rfl⟩
abbrev main_call20_cst_2 : Ref sig .tc := ⟨.hbm, 700, rfl⟩
abbrev main_call20_v9 : Ref sig .tc := ⟨.hbm, 701, rfl⟩
abbrev main_call20_v10 : Ref sig .tc := ⟨.hbm, 702, rfl⟩
abbrev main_call20_v11 : Ref sig .tc := ⟨.hbm, 703, rfl⟩
abbrev main_call20_v12 : Ref sig .tc := ⟨.hbm, 704, rfl⟩
abbrev main_call20_cst_3 : Ref sig .tc := ⟨.hbm, 705, rfl⟩
abbrev main_call20_v13 : Ref sig .tc := ⟨.hbm, 706, rfl⟩
abbrev main_call20_cst_4 : Ref sig .tc := ⟨.hbm, 707, rfl⟩
abbrev main_call20_call0_v0 : Ref sig .tc := ⟨.hbm, 708, rfl⟩
abbrev main_call20_call0_v1 : Ref sig .tc := ⟨.hbm, 709, rfl⟩
abbrev main_v373 : Ref sig .tc := ⟨.hbm, 710, rfl⟩
abbrev main_v374 : Ref sig .tc := ⟨.hbm, 711, rfl⟩
abbrev main_v375 : Ref sig .tc := ⟨.hbm, 712, rfl⟩
abbrev main_v376 : Ref sig .tc := ⟨.hbm, 713, rfl⟩
abbrev main_v377 : Ref sig .tc := ⟨.hbm, 714, rfl⟩
abbrev main_v378 : Ref sig .tc := ⟨.hbm, 715, rfl⟩
abbrev main_cst_57 : Ref sig .tc := ⟨.hbm, 716, rfl⟩
abbrev main_v379 : Ref sig .tc := ⟨.hbm, 717, rfl⟩
abbrev main_v380 : Ref sig .tc := ⟨.hbm, 718, rfl⟩
abbrev main_v381 : Ref sig .tc := ⟨.hbm, 719, rfl⟩
abbrev main_v382 : Ref sig .tc := ⟨.hbm, 720, rfl⟩
abbrev main_v383 : Ref sig .tc := ⟨.hbm, 721, rfl⟩
abbrev main_v384 : Ref sig .tc := ⟨.hbm, 722, rfl⟩
abbrev main_v385 : Ref sig .tc := ⟨.hbm, 723, rfl⟩
abbrev main_v386 : Ref sig .tc := ⟨.hbm, 724, rfl⟩
abbrev main_call21_cst : Ref sig .tc := ⟨.hbm, 725, rfl⟩
abbrev main_call21_v0 : Ref sig .tc := ⟨.hbm, 726, rfl⟩
abbrev main_v387 : Ref sig .tc := ⟨.hbm, 727, rfl⟩
abbrev main_v388 : Ref sig .tc := ⟨.hbm, 728, rfl⟩
abbrev main_v389 : Ref sig .tc := ⟨.hbm, 729, rfl⟩
abbrev main_v390 : Ref sig .tc := ⟨.hbm, 730, rfl⟩
abbrev main_v391 : Ref sig .tc := ⟨.hbm, 731, rfl⟩
abbrev main_cst_58 : Ref sig .tc := ⟨.hbm, 732, rfl⟩
abbrev main_v392 : Ref sig .tc := ⟨.hbm, 733, rfl⟩
abbrev main_v393 : Ref sig .tc := ⟨.hbm, 734, rfl⟩
abbrev main_cst_59 : Ref sig .tc := ⟨.hbm, 735, rfl⟩
abbrev main_v394 : Ref sig .tc := ⟨.hbm, 736, rfl⟩
abbrev main_v395 : Ref sig .tc := ⟨.hbm, 737, rfl⟩
abbrev main_c_60 : Ref sig .tc := ⟨.hbm, 738, rfl⟩
abbrev main_call22_cst : Ref sig .tc := ⟨.hbm, 739, rfl⟩
abbrev main_call22_v0 : Ref sig .tc := ⟨.hbm, 740, rfl⟩
abbrev main_call22_v1 : Ref sig .tc := ⟨.hbm, 741, rfl⟩
abbrev main_call22_cst_0 : Ref sig .tc := ⟨.hbm, 742, rfl⟩
abbrev main_call22_v2 : Ref sig .tc := ⟨.hbm, 743, rfl⟩
abbrev main_call22_v3 : Ref sig .tc := ⟨.hbm, 744, rfl⟩
abbrev main_call22_v4 : Ref sig .tc := ⟨.hbm, 745, rfl⟩
abbrev main_call22_v5 : Ref sig .tc := ⟨.hbm, 746, rfl⟩
abbrev main_call22_v6 : Ref sig .tc := ⟨.hbm, 747, rfl⟩
abbrev main_call22_v7 : Ref sig .tc := ⟨.hbm, 748, rfl⟩
abbrev main_call22_cst_1 : Ref sig .tc := ⟨.hbm, 749, rfl⟩
abbrev main_call22_v8 : Ref sig .tc := ⟨.hbm, 750, rfl⟩
abbrev main_call22_cst_2 : Ref sig .tc := ⟨.hbm, 751, rfl⟩
abbrev main_call22_v9 : Ref sig .tc := ⟨.hbm, 752, rfl⟩
abbrev main_call22_v10 : Ref sig .tc := ⟨.hbm, 753, rfl⟩
abbrev main_call22_v11 : Ref sig .tc := ⟨.hbm, 754, rfl⟩
abbrev main_call22_v12 : Ref sig .tc := ⟨.hbm, 755, rfl⟩
abbrev main_call22_cst_3 : Ref sig .tc := ⟨.hbm, 756, rfl⟩
abbrev main_call22_v13 : Ref sig .tc := ⟨.hbm, 757, rfl⟩
abbrev main_call22_cst_4 : Ref sig .tc := ⟨.hbm, 758, rfl⟩
abbrev main_call22_call0_v0 : Ref sig .tc := ⟨.hbm, 759, rfl⟩
abbrev main_call22_call0_v1 : Ref sig .tc := ⟨.hbm, 760, rfl⟩
abbrev main_v396 : Ref sig .tc := ⟨.hbm, 761, rfl⟩
abbrev main_v397 : Ref sig .tc := ⟨.hbm, 762, rfl⟩
abbrev main_v398 : Ref sig .tc := ⟨.hbm, 763, rfl⟩
abbrev main_v399 : Ref sig .tc := ⟨.hbm, 764, rfl⟩
abbrev main_v400 : Ref sig .tc := ⟨.hbm, 765, rfl⟩
abbrev main_v401 : Ref sig .tc := ⟨.hbm, 766, rfl⟩
abbrev main_cst_61 : Ref sig .tc := ⟨.hbm, 767, rfl⟩
abbrev main_v402 : Ref sig .tc := ⟨.hbm, 768, rfl⟩
abbrev main_v403 : Ref sig .tc := ⟨.hbm, 769, rfl⟩
abbrev main_v404 : Ref sig .tc := ⟨.hbm, 770, rfl⟩
abbrev main_v405 : Ref sig .tc := ⟨.hbm, 771, rfl⟩
abbrev main_v406 : Ref sig .tc := ⟨.hbm, 772, rfl⟩
abbrev main_v407 : Ref sig .tc := ⟨.hbm, 773, rfl⟩
abbrev main_v408 : Ref sig .tc := ⟨.hbm, 774, rfl⟩
abbrev main_v409 : Ref sig .tc := ⟨.hbm, 775, rfl⟩
abbrev main_call23_cst : Ref sig .tc := ⟨.hbm, 776, rfl⟩
abbrev main_call23_v0 : Ref sig .tc := ⟨.hbm, 777, rfl⟩
abbrev main_v410 : Ref sig .tc := ⟨.hbm, 778, rfl⟩
abbrev main_v411 : Ref sig .tc := ⟨.hbm, 779, rfl⟩

abbrev nD : Nat := 1
abbrev τ : Topo := Topo.v7x

variable {F : FTy → Type} [FloatOps F]

class Facts₀ : Prop where
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S50000x128 : S_.BroadcastsInDim S50000x128 (![] : Fin 0 → Fin S50000x128.rank)
  slices_S4_S1_0 : S4.Slices ![0] S1
  shapeCasts_S1_S_ : S1.ShapeCasts S_
  slices_S4x128x128_S1x128x128_0_0_0 : S4x128x128.Slices ![0, 0, 0] S1x128x128
  shapeCasts_S1x128x128_S128x128 : S1x128x128.ShapeCasts S128x128
  slices_S4x128_S1x128_0_0 : S4x128.Slices ![0, 0] S1x128
  shapeCasts_S1x128_S128 : S1x128.ShapeCasts S128
  reducesTo_S50000x128_S128_d0 : S50000x128.ReducesTo [0] S128
  h_S_ : 0 < S_.numel
  bcast_S_S1x128 : S_.BroadcastsInDim S1x128 (![] : Fin 0 → Fin S1x128.rank)
  slices_S4_S1_1 : S4.Slices ![1] S1
  slices_S4x128x128_S1x128x128_1_0_0 : S4x128x128.Slices ![1, 0, 0] S1x128x128
  slices_S4x128_S1x128_1_0 : S4x128.Slices ![1, 0] S1x128
  slices_S4_S1_2 : S4.Slices ![2] S1
  slices_S4x128x128_S1x128x128_2_0_0 : S4x128x128.Slices ![2, 0, 0] S1x128x128
  slices_S4x128_S1x128_2_0 : S4x128.Slices ![2, 0] S1x128
  slices_S4_S1_3 : S4.Slices ![3] S1
  slices_S4x128x128_S1x128x128_3_0_0 : S4x128x128.Slices ![3, 0, 0] S1x128x128
  slices_S4x128_S1x128_3_0 : S4x128.Slices ![3, 0] S1x128
  dot_S50000x128_S128x128_S50000x128_1_0_0_1_n_n_wf : DotDims.WF S50000x128 S128x128 S50000x128 [1] [0] [0] [1] [] []
  gather_S50000x128_S1600000x1_S1600000x128_1_0_n_n_0_1_1128_wf : GatherDims.WF S50000x128 S1600000x1 S1600000x128 [1] [0] [] [0] [] 1 ![1, 128]
  scatter_S50000x128_S1600000x1_S1600000x128_1_0_0_1_wf : ScatterDims.WF S50000x128 S1600000x1 S1600000x128 [1] [0] [0] 1

variable [Facts₀]

def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def gather_S50000x128_S1600000x1_S1600000x128_1_0_n_n_0_1_1128 : GatherDims S50000x128 S1600000x1 S1600000x128 where
  offsetDims := [1]
  collapsedSliceDims := [0]
  operandBatchingDims := []
  startIndicesBatchingDims := []
  startIndexMap := [0]
  indexVectorDim := 1
  sliceSizes := ![1, 128]
  wf := gather_S50000x128_S1600000x1_S1600000x128_1_0_n_n_0_1_1128_wf
def scatter_S50000x128_S1600000x1_S1600000x128_1_0_0_1 : ScatterDims S50000x128 S1600000x1 S1600000x128 where
  updateWindowDims := [1]
  insertedWindowDims := [0]
  scatterDimsToOperandDims := [0]
  indexVectorDim := 1
  wf := scatter_S50000x128_S1600000x1_S1600000x128_1_0_0_1_wf

class Facts : Prop extends Facts₀ where

variable [Facts]
-- ==== Proof.KernelRun.lean ====
/-
  The idealized kernel's run with its result named.  The program is seventeen pipelined regions among stretches of
  host operations; the generated frame follows the contents of the TensorCore's buffers through these thirty-four
  segments (each stretch a fold of its operations, each region its arrays at what its write-backs leave).  Here the
  same run is read once more at the end, at the result buffer as well as at the arguments: every weakly fair
  execution terminates, nothing faulting, with the result buffer at the last boundary's contents and the arguments
  as launched.
-/
import proofs.«140776_j80633716015159_1_alg».proof.Proof.Gen.KernelIdeal.Frame

set_option maxRecDepth 16384

noncomputable section

namespace Cert.KernelIdeal.KRun

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
theorem run_named : θ_run defs (onTc (τ := τ) (main (F := F))) ⟨m, fun _ => 0, ρ⟩ (fun r => ∀ c : Dev nD,
      r.2.mem ((c.tc : Thread nD τ).loc main_v257) = W34 m ρ c (Proc.devRef .tc main_v257)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W34 m ρ c b)
    (hfin := fun c s' => by
      iintro ⟨⟨Hh, -⟩, HSI⟩
      unfold StableHlo.held
      imodintro
      iapply (pointsTo_read_all (Pipeline.ucRefs τ sig) (fun b => (((c : Thread nD τ)).1, b)) (W34 m ρ c) s')
      isplitl [Hh] <;> iassumption)
    (hQ := fun s h c =>
      ⟨h c _ (mem_uc main_v257 (by decide)),
       (h c _ (mem_uc main_arg0 (by decide))).trans (W34_main_arg0 m ρ c),
       (h c _ (mem_uc main_arg1 (by decide))).trans (W34_main_arg1 m ρ c),
       (h c _ (mem_uc main_arg2 (by decide))).trans (W34_main_arg2 m ρ c),
       (h c _ (mem_uc main_arg3 (by decide))).trans (W34_main_arg3 m ρ c),
       (h c _ (mem_uc main_arg4 (by decide))).trans (W34_main_arg4 m ρ c),
       (h c _ (mem_uc main_arg5 (by decide))).trans (W34_main_arg5 m ρ c),
       (h c _ (mem_uc main_arg6 (by decide))).trans (W34_main_arg6 m ρ c),
       (h c _ (mem_uc main_arg7 (by decide))).trans (W34_main_arg7 m ρ c),
       (h c _ (mem_uc main_arg8 (by decide))).trans (W34_main_arg8 m ρ c),
       (h c _ (mem_uc main_arg9 (by decide))).trans (W34_main_arg9 m ρ c),
       (h c _ (mem_uc main_arg10 (by decide))).trans (W34_main_arg10 m ρ c),
       (h c _ (mem_uc main_arg11 (by decide))).trans (W34_main_arg11 m ρ c),
       (h c _ (mem_uc main_arg12 (by decide))).trans (W34_main_arg12 m ρ c),
       (h c _ (mem_uc main_arg13 (by decide))).trans (W34_main_arg13 m ρ c),
       (h c _ (mem_uc main_arg14 (by decide))).trans (W34_main_arg14 m ρ c),
       (h c _ (mem_uc main_arg15 (by decide))).trans (W34_main_arg15 m ρ c)⟩)

end Cert.KernelIdeal.KRun

end
-- ==== Proof.RefRun.lean ====
/-
  The reference program as a straight line.  Its entry function is printed in eight windows of at most sixty
  statements; three of the statements are calls (the variance, the rectifier and the selection the variance ends
  with), whose bodies are written out here at the place of each call over that call's own buffers.  Each window is
  then a list of host operations, the program is the run of the concatenated lists, and every weakly fair execution
  ends with each buffer holding the fold of the operations over the launch contents.
-/
import proofs.«140776_j80633716015159_1_alg».proof.Proof.Gen.ReferenceIdeal
import Idealize.ShloMosaic.Lib.StableHlo.Run

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- The argument buffers. -/
abbrev args : List (Ref sig .tc) := [main_arg0, main_arg1, main_arg2, main_arg3, main_arg4, main_arg5, main_arg6, main_arg7, main_arg8, main_arg9, main_arg10, main_arg11, main_arg12, main_arg13, main_arg14, main_arg15]

/-- A line of operations none of which writes an argument buffer leaves every argument buffer as it was. -/
theorem keep_of (l : List (HloOp τ sig (Elt F)))
    (h : l.Forall fun op => ∀ b ∈ op.writes, ∃ r : Ref sig .tc, b = Proc.devRef .tc r ∧ r ∉ args)
    (V : Valuation τ sig (Elt F)) (a : Ref sig .tc) (ha : a ∈ args) :
    after l V (Proc.devRef .tc a) = V (Proc.devRef .tc a) :=
  after_of_forall_not_mem l V fun op hop hb => by
    obtain ⟨r, he, hr⟩ := (List.forall_iff_forall_mem.mp h) op hop _ hb
    exact hr (Proc.devRef_injective _ he ▸ ha)

/-- The operations of window 0, calls written out. -/
abbrev ops0 : List (HloOp τ sig (Elt F)) :=
  [ StableHlo.binary main_arg0 main_arg3 main_v0 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    StableHlo.unary main_arg4 main_v1 (broadcastInDim S1x128 ![1] bcast_S128_S1x128_1 : (⟨S128, .f32⟩ : BufTy).Contents (Elt F) → (⟨S1x128, .f32⟩ : BufTy).Contents (Elt F)),
    StableHlo.unary main_v1 main_v2 (broadcastInDim S50000x128 ![0, 1] bcast_S1x128_S50000x128_0_1 : (⟨S1x128, .f32⟩ : BufTy).Contents (Elt F) → (⟨S50000x128, .f32⟩ : BufTy).Contents (Elt F)),
    StableHlo.binary main_v0 main_v2 main_v3 (addf : (⟨S50000x128, .f32⟩ : BufTy).Contents (Elt F) → (⟨S50000x128, .f32⟩ : BufTy).Contents (Elt F) → (⟨S50000x128, .f32⟩ : BufTy).Contents (Elt F)),
    StableHlo.nullary main_c (constantI S_ 32 0#32),
    StableHlo.unary main_c main_v4 (broadcastInDim S1600000 ![] bcast_S_S1600000 : (⟨S_, .i32⟩ : BufTy).Contents (Elt F) → (⟨S1600000, .i32⟩ : BufTy).Contents (Elt F)),
    StableHlo.binary main_arg1 main_v4 main_v5 (cmpi .slt : (⟨S1600000, .i32⟩ : BufTy).Contents (Elt F) → (⟨S1600000, .i32⟩ : BufTy).Contents (Elt F) → (⟨S1600000, .i1⟩ : BufTy).Contents (Elt F)),
    StableHlo.nullary main_c_0 (constantI S_ 32 50000#32),
    StableHlo.unary main_c_0 main_v6 (broadcastInDim S1600000 ![] bcast_S_S1600000 : (⟨S_, .i32⟩ : BufTy).Contents (Elt F) → (⟨S1600000, .i32⟩ : BufTy).Contents (Elt F)),
    StableHlo.binary main_arg1 main_v6 main_v7 (addi : (⟨S1600000, .i32⟩ : BufTy).Contents (Elt F) → (⟨S1600000, .i32⟩ : BufTy).Contents (Elt F) → (⟨S1600000, .i32⟩ : BufTy).Contents (Elt F)),
    StableHlo.ternary main_v5 main_v7 main_arg1 main_v8 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    StableHlo.unary main_v8 main_v9 (broadcastInDim S1600000x1 ![0] bcast_S1600000_S1600000x1_0 : (⟨S1600000, .i32⟩ : BufTy).Contents (Elt F) → (⟨S1600000x1, .i32⟩ : BufTy).Contents (Elt F)),
    StableHlo.binary main_v3 main_v9 main_v10 ((fun x i => Host.gather gather_S50000x128_S1600000x1_S1600000x128_1_0_n_n_0_1_1128 x i) : (⟨S50000x128, .f32⟩ : BufTy).Contents (Elt F) → (⟨S1600000x1, .i32⟩ : BufTy).Contents (Elt F) → (⟨S1600000x128, .f32⟩ : BufTy).Contents (Elt F)),
    StableHlo.nullary main_cst (constant S_ .f32 0x00000000#32),
    StableHlo.unary main_cst main_v11 (broadcastInDim S50000x128 ![] bcast_S_S50000x128 : (⟨S_, .f32⟩ : BufTy).Contents (Elt F) → (⟨S50000x128, .f32⟩ : BufTy).Contents (Elt F)),
    StableHlo.unary main_arg2 main_v12 (broadcastInDim S1600000x1 ![0] bcast_S1600000_S1600000x1_0 : (⟨S1600000, .i32⟩ : BufTy).Contents (Elt F) → (⟨S1600000x1, .i32⟩ : BufTy).Contents (Elt F)),
    StableHlo.ternary main_v11 main_v12 main_v10 main_v13 ((fun x i u => Host.scatterAdd scatter_S50000x128_S1600000x1_S1600000x128_1_0_0_1 x i u) : (⟨S50000x128, .f32⟩ : BufTy).Contents (Elt F) → (⟨S1600000x1, .i32⟩ : BufTy).Contents (Elt F) → (⟨S1600000x128, .f32⟩ : BufTy).Contents (Elt F) → (⟨S50000x128, .f32⟩ : BufTy).Contents (Elt F)),
    StableHlo.unary main_arg5 main_v14 ((extractStridedSlice S1 ![0] · slices_S4_S1_0) : (⟨S4, .f32⟩ : BufTy).Contents (Elt F) → (⟨S1, .f32⟩ : BufTy).Contents (Elt F)),
    StableHlo.reshape main_v14 main_v15 rfl shapeCasts_S1_S_,
    StableHlo.nullary main_cst_1 (constant S_ .f32 0x3F800000#32),
    StableHlo.binary main_cst_1 main_v15 main_v16 (addf : (⟨S_, .f32⟩ : BufTy).Contents (Elt F) → (⟨S_, .f32⟩ : BufTy).Contents (Elt F) → (⟨S_, .f32⟩ : BufTy).Contents (Elt F)),
    StableHlo.unary main_v16 main_v17 (broadcastInDim S50000x128 ![] bcast_S_S50000x128 : (⟨S_, .f32⟩ : BufTy).Contents (Elt F) → (⟨S50000x128, .f32⟩ : BufTy).Contents (Elt F)),
    StableHlo.binary main_v17 main_v3 main_v18 (mulf : (⟨S50000x128, .f32⟩ : BufTy).Contents (Elt F) → (⟨S50000x128, .f32⟩ : BufTy).Contents (Elt F) → (⟨S50000x128, .f32⟩ : BufTy).Contents (Elt F)),
    StableHlo.binary main_v18 main_v13 main_v19 (addf : (⟨S50000x128, .f32⟩ : BufTy).Contents (Elt F) → (⟨S50000x128, .f32⟩ : BufTy).Contents (Elt F) → (⟨S50000x128, .f32⟩ : BufTy).Contents (Elt F)),
    StableHlo.unary main_arg6 main_v20 ((extractStridedSlice S1x128x128 ![0, 0, 0] · slices_S4x128x128_S1x128x128_0_0_0) : (⟨S4x128x128, .f32⟩ : BufTy).Contents (Elt F) → (⟨S1x128x128, .f32⟩ : BufTy).Contents (Elt F)),
    StableHlo.reshape main_v20 main_v21 rfl shapeCasts_S1x128x128_S128x128,
    StableHlo.binary main_v19 main_v21 main_v22 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    StableHlo.unary main_arg7 main_v23 ((extractStridedSlice S1x128 ![0, 0] · slices_S4x128_S1x128_0_0) : (⟨S4x128, .f32⟩ : BufTy).Contents (Elt F) → (⟨S1x128, .f32⟩ : BufTy).Contents (Elt F)),
    StableHlo.reshape main_v23 main_v24 rfl shapeCasts_S1x128_S128,
    StableHlo.unary main_v24 main_v25 (broadcastInDim S1x128 ![1] bcast_S128_S1x128_1 : (⟨S128, .f32⟩ : BufTy).Contents (Elt F) → (⟨S1x128, .f32⟩ : BufTy).Contents (Elt F)),
    StableHlo.unary main_v25 main_v26 (broadcastInDim S50000x128 ![0, 1] bcast_S1x128_S50000x128_0_1 : (⟨S1x128, .f32⟩ : BufTy).Contents (Elt F) → (⟨S50000x128, .f32⟩ : BufTy).Contents (Elt F)),
    StableHlo.binary main_v22 main_v26 main_v27 (addf : (⟨S50000x128, .f32⟩ : BufTy).Contents (Elt F) → (⟨S50000x128, .f32⟩ : BufTy).Contents (Elt F) → (⟨S50000x128, .f32⟩ : BufTy).Contents (Elt F)),
    StableHlo.unary main_arg8 main_v28 ((extractStridedSlice S1x128 ![0, 0] · slices_S4x128_S1x128_0_0) : (⟨S4x128, .f32⟩ : BufTy).Contents (Elt F) → (⟨S1x128, .f32⟩ : BufTy).Contents (Elt F)),
    StableHlo.reshape main_v28 main_v29 rfl shapeCasts_S1x128_S128,
    StableHlo.unary main_arg9 main_v30 ((extractStridedSlice S1x128 ![0, 0] · slices_S4x128_S1x128_0_0) : (⟨S4x128, .f32⟩ : BufTy).Contents (Elt F) → (⟨S1x128, .f32⟩ : BufTy).Contents (Elt F)),
    StableHlo.reshape main_v30 main_v31 rfl shapeCasts_S1x128_S128,
    StableHlo.nullary main_cst_2 (constant S_ .f32 0x00000000#32),
    StableHlo.binary main_v27 main_cst_2 main_v32 ((fun x v => Host.reduceAdd x v reducesTo_S50000x128_S128_d0 h_S_) : (⟨S50000x128, .f32⟩ : BufTy).Contents (Elt F) → (⟨S_, .f32⟩ : BufTy).Contents (Elt F) → (⟨S128, .f32⟩ : BufTy).Contents (Elt F)),
    StableHlo.unary main_v32 main_v33 (broadcastInDim S1x128 ![1] bcast_S128_S1x128_1 : (⟨S128, .f32⟩ : BufTy).Contents (Elt F) → (⟨S1x128, .f32⟩ : BufTy).Contents (Elt F)),
    StableHlo.nullary main_cst_3 (constant S_ .f32 0x47435000#32),
    StableHlo.unary main_cst_3 main_v34 (broadcastInDim S1x128 ![] bcast_S_S1x128 : (⟨S_, .f32⟩ : BufTy).Contents (Elt F) → (⟨S1x128, .f32⟩ : BufTy).Contents (Elt F)),
    StableHlo.binary main_v33 main_v34 main_v35 (Host.divf : (⟨S1x128, .f32⟩ : BufTy).Contents (Elt F) → (⟨S1x128, .f32⟩ : BufTy).Contents (Elt F) → (⟨S1x128, .f32⟩ : BufTy).Contents (Elt F)),
    StableHlo.nullary main_c_4 (constantI S_ 32 0#32),
    StableHlo.TRef.nullary main_call0.cst (constant S_ .f32 0x00000000#32),
    StableHlo.TRef.binary (.of main_v27) main_call0.cst main_call0.v0 (fun x v => Host.reduceAdd x v reducesTo_S50000x128_S128_d0 h_S_),
    StableHlo.TRef.unary main_call0.v0 main_call0.v1 (broadcastInDim S1x128 ![1] bcast_S128_S1x128_1),
    StableHlo.TRef.nullary main_call0.cst_0 (constant S_ .f32 0x47435000#32),
    StableHlo.TRef.unary main_call0.cst_0 main_call0.v2 (broadcastInDim S1x128 ![] bcast_S_S1x128),
    StableHlo.TRef.binary main_call0.v1 main_call0.v2 main_call0.v3 Host.divf,
    StableHlo.TRef.unary main_call0.v3 main_call0.v4 (broadcastInDim S50000x128 ![0, 1] bcast_S1x128_S50000x128_0_1),
    StableHlo.TRef.binary (.of main_v27) main_call0.v4 main_call0.v5 subf,
    StableHlo.TRef.binary main_call0.v5 main_call0.v5 main_call0.v6 mulf,
    StableHlo.TRef.unary (.of main_c_4) main_call0.v7 (sitofp .f32),
    StableHlo.TRef.nullary main_call0.cst_1 (constant S_ .f32 0x47435000#32),
    StableHlo.TRef.binary main_call0.cst_1 main_call0.v7 main_call0.v8 subf,
    StableHlo.TRef.nullary main_call0.cst_2 (constant S_ .f32 0x00000000#32),
    StableHlo.TRef.binary main_call0.v6 main_call0.cst_2 main_call0.v9 (fun x v => Host.reduceAdd x v reducesTo_S50000x128_S128_d0 h_S_),
    StableHlo.TRef.unary main_call0.v9 main_call0.v10 (broadcastInDim S1x128 ![1] bcast_S128_S1x128_1),
    StableHlo.TRef.unary main_call0.v8 main_call0.v11 (broadcastInDim S1x128 ![] bcast_S_S1x128),
    StableHlo.TRef.binary main_call0.v10 main_call0.v11 main_call0.v12 Host.divf,
    StableHlo.TRef.nullary main_call0.cst_3 (constant S_ .f32 0x00000000#32),
    StableHlo.TRef.binary main_call0.v8 main_call0.cst_3 main_call0.v13 (cmpf .ogt),
    StableHlo.TRef.nullary main_call0.cst_4 (constant S_ .f32 0x7FC00000#32),
    StableHlo.TRef.unary main_call0.cst_4 main_call0.call0.v0 id,
    StableHlo.TRef.unary main_call0.call0.v0 main_call0.call0.v1 (broadcastInDim S1x128 ![] bcast_S_S1x128),
    StableHlo.TRef.ternary main_call0.v13 main_call0.v12 main_call0.call0.v1 main_call0.call0.v2 (fun p a b => select (broadcastInDim S1x128 ![] bcast_S_S1x128 p) a b),
    StableHlo.unary main_v35 main_v37 (broadcastInDim S50000x128 ![0, 1] bcast_S1x128_S50000x128_0_1 : (⟨S1x128, .f32⟩ : BufTy).Contents (Elt F) → (⟨S50000x128, .f32⟩ : BufTy).Contents (Elt F)),
    StableHlo.binary main_v27 main_v37 main_v38 (subf : (⟨S50000x128, .f32⟩ : BufTy).Contents (Elt F) → (⟨S50000x128, .f32⟩ : BufTy).Contents (Elt F) → (⟨S50000x128, .f32⟩ : BufTy).Contents (Elt F)),
    StableHlo.unary main_v29 main_v39 (broadcastInDim S1x128 ![1] bcast_S128_S1x128_1 : (⟨S128, .f32⟩ : BufTy).Contents (Elt F) → (⟨S1x128, .f32⟩ : BufTy).Contents (Elt F)),
    StableHlo.unary main_v39 main_v40 (broadcastInDim S50000x128 ![0, 1] bcast_S1x128_S50000x128_0_1 : (⟨S1x128, .f32⟩ : BufTy).Contents (Elt F) → (⟨S50000x128, .f32⟩ : BufTy).Contents (Elt F)),
    StableHlo.binary main_v40 main_v38 main_v41 (mulf : (⟨S50000x128, .f32⟩ : BufTy).Contents (Elt F) → (⟨S50000x128, .f32⟩ : BufTy).Contents (Elt F) → (⟨S50000x128, .f32⟩ : BufTy).Contents (Elt F)),
    StableHlo.nullary main_cst_5 (constant S_ .f32 0x3727C5AC#32),
    StableHlo.unary main_cst_5 main_v42 (broadcastInDim S1x128 ![] bcast_S_S1x128 : (⟨S_, .f32⟩ : BufTy).Contents (Elt F) → (⟨S1x128, .f32⟩ : BufTy).Contents (Elt F)),
    StableHlo.binary main_v36 main_v42 main_v43 (addf : (⟨S1x128, .f32⟩ : BufTy).Contents (Elt F) → (⟨S1x128, .f32⟩ : BufTy).Contents (Elt F) → (⟨S1x128, .f32⟩ : BufTy).Contents (Elt F)),
    StableHlo.unary main_v43 main_v44 (Host.rsqrt : (⟨S1x128, .f32⟩ : BufTy).Contents (Elt F) → (⟨S1x128, .f32⟩ : BufTy).Contents (Elt F)),
    StableHlo.unary main_v44 main_v45 (broadcastInDim S50000x128 ![0, 1] bcast_S1x128_S50000x128_0_1 : (⟨S1x128, .f32⟩ : BufTy).Contents (Elt F) → (⟨S50000x128, .f32⟩ : BufTy).Contents (Elt F)),
    StableHlo.binary main_v41 main_v45 main_v46 (mulf : (⟨S50000x128, .f32⟩ : BufTy).Contents (Elt F) → (⟨S50000x128, .f32⟩ : BufTy).Contents (Elt F) → (⟨S50000x128, .f32⟩ : BufTy).Contents (Elt F)),
    StableHlo.unary main_v31 main_v47 (broadcastInDim S1x128 ![1] bcast_S128_S1x128_1 : (⟨S128, .f32⟩ : BufTy).Contents (Elt F) → (⟨S1x128, .f32⟩ : BufTy).Contents (Elt F)),
    StableHlo.unary main_v47 main_v48 (broadcastInDim S50000x128 ![0, 1] bcast_S1x128_S50000x128_0_1 : (⟨S1x128, .f32⟩ : BufTy).Contents (Elt F) → (⟨S50000x128, .f32⟩ : BufTy).Contents (Elt F)),
    StableHlo.binary main_v46 main_v48 main_v49 (addf : (⟨S50000x128, .f32⟩ : BufTy).Contents (Elt F) → (⟨S50000x128, .f32⟩ : BufTy).Contents (Elt F) → (⟨S50000x128, .f32⟩ : BufTy).Contents (Elt F)),
    StableHlo.TRef.nullary main_call1.cst (constant S_ .f32 0x00000000#32),
    StableHlo.TRef.unary main_call1.cst main_call1.v0 (broadcastInDim S50000x128 ![] bcast_S_S50000x128),
    StableHlo.TRef.binary (.of main_v49) main_call1.v0 main_call1.v1 maximumf,
    StableHlo.unary main_arg10 main_v51 ((extractStridedSlice S1x128x128 ![0, 0, 0] · slices_S4x128x128_S1x128x128_0_0_0) : (⟨S4x128x128, .f32⟩ : BufTy).Contents (Elt F) → (⟨S1x128x128, .f32⟩ : BufTy).Contents (Elt F)) ]

set_option maxRecDepth 65536 in
theorem part0_eq (c : Dev nD) : main_part0 (F := F) c = seq ops0 := by
  simp only [main_part0, fn_var.body, fn_where.body, fn_relu.body, seq, bind_assoc, pure_bind]
  rfl

theorem ops0_keep : (ops0 : List (HloOp τ sig (Elt F))).Forall fun op => ∀ b ∈ op.writes, ∃ r : Ref sig .tc, b = Proc.devRef .tc r ∧ r ∉ args := by
  simp only [List.Forall, nullary_writes, unary_writes, binary_writes, ternary_writes, reshape_writes, Finset.mem_singleton, forall_eq]
  repeat' apply And.intro
  all_goals exact ⟨_, rfl, by decide⟩

theorem ops0_sub : (ops0 : List (HloOp τ sig (Elt F))).Forall fun op => op.bufs ⊆ tcRefs τ sig :=
  ⟨binary_bufs_sub .., unary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., unary_bufs_sub .., ternary_bufs_sub .., unary_bufs_sub .., reshape_bufs_sub .., nullary_bufs_sub .., binary_bufs_sub .., unary_bufs_sub .., binary_bufs_sub .., binary_bufs_sub .., unary_bufs_sub .., reshape_bufs_sub .., binary_bufs_sub .., unary_bufs_sub .., reshape_bufs_sub .., unary_bufs_sub .., unary_bufs_sub .., binary_bufs_sub .., unary_bufs_sub .., reshape_bufs_sub .., unary_bufs_sub .., reshape_bufs_sub .., nullary_bufs_sub .., binary_bufs_sub .., unary_bufs_sub .., nullary_bufs_sub .., unary_bufs_sub .., binary_bufs_sub .., nullary_bufs_sub .., nullary_bufs_sub .., binary_bufs_sub .., unary_bufs_sub .., nullary_bufs_sub .., unary_bufs_sub .., binary_bufs_sub .., unary_bufs_sub .., binary_bufs_sub .., binary_bufs_sub .., unary_bufs_sub .., nullary_bufs_sub .., binary_bufs_sub .., nullary_bufs_sub .., binary_bufs_sub .., unary_bufs_sub .., unary_bufs_sub .., binary_bufs_sub .., nullary_bufs_sub .., binary_bufs_sub .., nullary_bufs_sub .., unary_bufs_sub .., unary_bufs_sub .., ternary_bufs_sub .., unary_bufs_sub .., binary_bufs_sub .., unary_bufs_sub .., unary_bufs_sub .., binary_bufs_sub .., nullary_bufs_sub .., unary_bufs_sub .., binary_bufs_sub .., unary_bufs_sub .., unary_bufs_sub .., binary_bufs_sub .., unary_bufs_sub .., unary_bufs_sub .., binary_bufs_sub .., nullary_bufs_sub .., unary_bufs_sub .., binary_bufs_sub .., unary_bufs_sub ..⟩

theorem ops0_fresh : (ops0 : List (HloOp τ sig (Elt F))).Forall fun op => op.fresh = ∅ := by
  simp only [List.Forall]; repeat' constructor

/-- The operations of window 1, calls written out. -/
abbrev ops1 : List (HloOp τ sig (Elt F)) :=
  [ StableHlo.reshape main_v51 main_v52 rfl shapeCasts_S1x128x128_S128x128,
    StableHlo.binary main_v50 main_v52 main_v53 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    StableHlo.unary main_arg11 main_v54 ((extractStridedSlice S1x128 ![0, 0] · slices_S4x128_S1x128_0_0) : (⟨S4x128, .f32⟩ : BufTy).Contents (Elt F) → (⟨S1x128, .f32⟩ : BufTy).Contents (Elt F)),
    StableHlo.reshape main_v54 main_v55 rfl shapeCasts_S1x128_S128,
    StableHlo.unary main_v55 main_v56 (broadcastInDim S1x128 ![1] bcast_S128_S1x128_1 : (⟨S128, .f32⟩ : BufTy).Contents (Elt F) → (⟨S1x128, .f32⟩ : BufTy).Contents (Elt F)),
    StableHlo.unary main_v56 main_v57 (broadcastInDim S50000x128 ![0, 1] bcast_S1x128_S50000x128_0_1 : (⟨S1x128, .f32⟩ : BufTy).Contents (Elt F) → (⟨S50000x128, .f32⟩ : BufTy).Contents (Elt F)),
    StableHlo.binary main_v53 main_v57 main_v58 (addf : (⟨S50000x128, .f32⟩ : BufTy).Contents (Elt F) → (⟨S50000x128, .f32⟩ : BufTy).Contents (Elt F) → (⟨S50000x128, .f32⟩ : BufTy).Contents (Elt F)),
    StableHlo.unary main_arg12 main_v59 ((extractStridedSlice S1x128 ![0, 0] · slices_S4x128_S1x128_0_0) : (⟨S4x128, .f32⟩ : BufTy).Contents (Elt F) → (⟨S1x128, .f32⟩ : BufTy).Contents (Elt F)),
    StableHlo.reshape main_v59 main_v60 rfl shapeCasts_S1x128_S128,
    StableHlo.unary main_arg13 main_v61 ((extractStridedSlice S1x128 ![0, 0] · slices_S4x128_S1x128_0_0) : (⟨S4x128, .f32⟩ : BufTy).Contents (Elt F) → (⟨S1x128, .f32⟩ : BufTy).Contents (Elt F)),
    StableHlo.reshape main_v61 main_v62 rfl shapeCasts_S1x128_S128,
    StableHlo.nullary main_cst_6 (constant S_ .f32 0x00000000#32),
    StableHlo.binary main_v58 main_cst_6 main_v63 ((fun x v => Host.reduceAdd x v reducesTo_S50000x128_S128_d0 h_S_) : (⟨S50000x128, .f32⟩ : BufTy).Contents (Elt F) → (⟨S_, .f32⟩ : BufTy).Contents (Elt F) → (⟨S128, .f32⟩ : BufTy).Contents (Elt F)),
    StableHlo.unary main_v63 main_v64 (broadcastInDim S1x128 ![1] bcast_S128_S1x128_1 : (⟨S128, .f32⟩ : BufTy).Contents (Elt F) → (⟨S1x128, .f32⟩ : BufTy).Contents (Elt F)),
    StableHlo.nullary main_cst_7 (constant S_ .f32 0x47435000#32),
    StableHlo.unary main_cst_7 main_v65 (broadcastInDim S1x128 ![] bcast_S_S1x128 : (⟨S_, .f32⟩ : BufTy).Contents (Elt F) → (⟨S1x128, .f32⟩ : BufTy).Contents (Elt F)),
    StableHlo.binary main_v64 main_v65 main_v66 (Host.divf : (⟨S1x128, .f32⟩ : BufTy).Contents (Elt F) → (⟨S1x128, .f32⟩ : BufTy).Contents (Elt F) → (⟨S1x128, .f32⟩ : BufTy).Contents (Elt F)),
    StableHlo.nullary main_c_8 (constantI S_ 32 0#32),
    StableHlo.TRef.nullary main_call2.cst (constant S_ .f32 0x00000000#32),
    StableHlo.TRef.binary (.of main_v58) main_call2.cst main_call2.v0 (fun x v => Host.reduceAdd x v reducesTo_S50000x128_S128_d0 h_S_),
    StableHlo.TRef.unary main_call2.v0 main_call2.v1 (broadcastInDim S1x128 ![1] bcast_S128_S1x128_1),
    StableHlo.TRef.nullary main_call2.cst_0 (constant S_ .f32 0x47435000#32),
    StableHlo.TRef.unary main_call2.cst_0 main_call2.v2 (broadcastInDim S1x128 ![] bcast_S_S1x128),
    StableHlo.TRef.binary main_call2.v1 main_call2.v2 main_call2.v3 Host.divf,
    StableHlo.TRef.unary main_call2.v3 main_call2.v4 (broadcastInDim S50000x128 ![0, 1] bcast_S1x128_S50000x128_0_1),
    StableHlo.TRef.binary (.of main_v58) main_call2.v4 main_call2.v5 subf,
    StableHlo.TRef.binary main_call2.v5 main_call2.v5 main_call2.v6 mulf,
    StableHlo.TRef.unary (.of main_c_8) main_call2.v7 (sitofp .f32),
    StableHlo.TRef.nullary main_call2.cst_1 (constant S_ .f32 0x47435000#32),
    StableHlo.TRef.binary main_call2.cst_1 main_call2.v7 main_call2.v8 subf,
    StableHlo.TRef.nullary main_call2.cst_2 (constant S_ .f32 0x00000000#32),
    StableHlo.TRef.binary main_call2.v6 main_call2.cst_2 main_call2.v9 (fun x v => Host.reduceAdd x v reducesTo_S50000x128_S128_d0 h_S_),
    StableHlo.TRef.unary main_call2.v9 main_call2.v10 (broadcastInDim S1x128 ![1] bcast_S128_S1x128_1),
    StableHlo.TRef.unary main_call2.v8 main_call2.v11 (broadcastInDim S1x128 ![] bcast_S_S1x128),
    StableHlo.TRef.binary main_call2.v10 main_call2.v11 main_call2.v12 Host.divf,
    StableHlo.TRef.nullary main_call2.cst_3 (constant S_ .f32 0x00000000#32),
    StableHlo.TRef.binary main_call2.v8 main_call2.cst_3 main_call2.v13 (cmpf .ogt),
    StableHlo.TRef.nullary main_call2.cst_4 (constant S_ .f32 0x7FC00000#32),
    StableHlo.TRef.unary main_call2.cst_4 main_call2.call0.v0 id,
    StableHlo.TRef.unary main_call2.call0.v0 main_call2.call0.v1 (broadcastInDim S1x128 ![] bcast_S_S1x128),
    StableHlo.TRef.ternary main_call2.v13 main_call2.v12 main_call2.call0.v1 main_call2.call0.v2 (fun p a b => select (broadcastInDim S1x128 ![] bcast_S_S1x128 p) a b),
    StableHlo.unary main_v66 main_v68 (broadcastInDim S50000x128 ![0, 1] bcast_S1x128_S50000x128_0_1 : (⟨S1x128, .f32⟩ : BufTy).Contents (Elt F) → (⟨S50000x128, .f32⟩ : BufTy).Contents (Elt F)),
    StableHlo.binary main_v58 main_v68 main_v69 (subf : (⟨S50000x128, .f32⟩ : BufTy).Contents (Elt F) → (⟨S50000x128, .f32⟩ : BufTy).Contents (Elt F) → (⟨S50000x128, .f32⟩ : BufTy).Contents (Elt F)),
    StableHlo.unary main_v60 main_v70 (broadcastInDim S1x128 ![1] bcast_S128_S1x128_1 : (⟨S128, .f32⟩ : BufTy).Contents (Elt F) → (⟨S1x128, .f32⟩ : BufTy).Contents (Elt F)),
    StableHlo.unary main_v70 main_v71 (broadcastInDim S50000x128 ![0, 1] bcast_S1x128_S50000x128_0_1 : (⟨S1x128, .f32⟩ : BufTy).Contents (Elt F) → (⟨S50000x128, .f32⟩ : BufTy).Contents (Elt F)),
    StableHlo.binary main_v71 main_v69 main_v72 (mulf : (⟨S50000x128, .f32⟩ : BufTy).Contents (Elt F) → (⟨S50000x128, .f32⟩ : BufTy).Contents (Elt F) → (⟨S50000x128, .f32⟩ : BufTy).Contents (Elt F)),
    StableHlo.nullary main_cst_9 (constant S_ .f32 0x3727C5AC#32),
    StableHlo.unary main_cst_9 main_v73 (broadcastInDim S1x128 ![] bcast_S_S1x128 : (⟨S_, .f32⟩ : BufTy).Contents (Elt F) → (⟨S1x128, .f32⟩ : BufTy).Contents (Elt F)),
    StableHlo.binary main_v67 main_v73 main_v74 (addf : (⟨S1x128, .f32⟩ : BufTy).Contents (Elt F) → (⟨S1x128, .f32⟩ : BufTy).Contents (Elt F) → (⟨S1x128, .f32⟩ : BufTy).Contents (Elt F)),
    StableHlo.unary main_v74 main_v75 (Host.rsqrt : (⟨S1x128, .f32⟩ : BufTy).Contents (Elt F) → (⟨S1x128, .f32⟩ : BufTy).Contents (Elt F)),
    StableHlo.unary main_v75 main_v76 (broadcastInDim S50000x128 ![0, 1] bcast_S1x128_S50000x128_0_1 : (⟨S1x128, .f32⟩ : BufTy).Contents (Elt F) → (⟨S50000x128, .f32⟩ : BufTy).Contents (Elt F)),
    StableHlo.binary main_v72 main_v76 main_v77 (mulf : (⟨S50000x128, .f32⟩ : BufTy).Contents (Elt F) → (⟨S50000x128, .f32⟩ : BufTy).Contents (Elt F) → (⟨S50000x128, .f32⟩ : BufTy).Contents (Elt F)),
    StableHlo.unary main_v62 main_v78 (broadcastInDim S1x128 ![1] bcast_S128_S1x128_1 : (⟨S128, .f32⟩ : BufTy).Contents (Elt F) → (⟨S1x128, .f32⟩ : BufTy).Contents (Elt F)),
    StableHlo.unary main_v78 main_v79 (broadcastInDim S50000x128 ![0, 1] bcast_S1x128_S50000x128_0_1 : (⟨S1x128, .f32⟩ : BufTy).Contents (Elt F) → (⟨S50000x128, .f32⟩ : BufTy).Contents (Elt F)),
    StableHlo.binary main_v77 main_v79 main_v80 (addf : (⟨S50000x128, .f32⟩ : BufTy).Contents (Elt F) → (⟨S50000x128, .f32⟩ : BufTy).Contents (Elt F) → (⟨S50000x128, .f32⟩ : BufTy).Contents (Elt F)),
    StableHlo.TRef.nullary main_call3.cst (constant S_ .f32 0x00000000#32),
    StableHlo.TRef.unary main_call3.cst main_call3.v0 (broadcastInDim S50000x128 ![] bcast_S_S50000x128),
    StableHlo.TRef.binary (.of main_v80) main_call3.v0 main_call3.v1 maximumf,
    StableHlo.unary main_arg14 main_v82 ((extractStridedSlice S1x128 ![0, 0] · slices_S4x128_S1x128_0_0) : (⟨S4x128, .f32⟩ : BufTy).Contents (Elt F) → (⟨S1x128, .f32⟩ : BufTy).Contents (Elt F)),
    StableHlo.reshape main_v82 main_v83 rfl shapeCasts_S1x128_S128,
    StableHlo.unary main_arg15 main_v84 ((extractStridedSlice S1x128 ![0, 0] · slices_S4x128_S1x128_0_0) : (⟨S4x128, .f32⟩ : BufTy).Contents (Elt F) → (⟨S1x128, .f32⟩ : BufTy).Contents (Elt F)),
    StableHlo.reshape main_v84 main_v85 rfl shapeCasts_S1x128_S128,
    StableHlo.nullary main_cst_10 (constant S_ .f32 0x00000000#32),
    StableHlo.binary main_v81 main_cst_10 main_v86 ((fun x v => Host.reduceAdd x v reducesTo_S50000x128_S128_d0 h_S_) : (⟨S50000x128, .f32⟩ : BufTy).Contents (Elt F) → (⟨S_, .f32⟩ : BufTy).Contents (Elt F) → (⟨S128, .f32⟩ : BufTy).Contents (Elt F)),
    StableHlo.unary main_v86 main_v87 (broadcastInDim S1x128 ![1] bcast_S128_S1x128_1 : (⟨S128, .f32⟩ : BufTy).Contents (Elt F) → (⟨S1x128, .f32⟩ : BufTy).Contents (Elt F)),
    StableHlo.nullary main_cst_11 (constant S_ .f32 0x47435000#32),
    StableHlo.unary main_cst_11 main_v88 (broadcastInDim S1x128 ![] bcast_S_S1x128 : (⟨S_, .f32⟩ : BufTy).Contents (Elt F) → (⟨S1x128, .f32⟩ : BufTy).Contents (Elt F)),
    StableHlo.binary main_v87 main_v88 main_v89 (Host.divf : (⟨S1x128, .f32⟩ : BufTy).Contents (Elt F) → (⟨S1x128, .f32⟩ : BufTy).Contents (Elt F) → (⟨S1x128, .f32⟩ : BufTy).Contents (Elt F)),
    StableHlo.nullary main_c_12 (constantI S_ 32 0#32),
    StableHlo.TRef.nullary main_call4.cst (constant S_ .f32 0x00000000#32),
    StableHlo.TRef.binary (.of main_v81) main_call4.cst main_call4.v0 (fun x v => Host.reduceAdd x v reducesTo_S50000x128_S128_d0 h_S_),
    StableHlo.TRef.unary main_call4.v0 main_call4.v1 (broadcastInDim S1x128 ![1] bcast_S128_S1x128_1),
    StableHlo.TRef.nullary main_call4.cst_0 (constant S_ .f32 0x47435000#32),
    StableHlo.TRef.unary main_call4.cst_0 main_call4.v2 (broadcastInDim S1x128 ![] bcast_S_S1x128),
    StableHlo.TRef.binary main_call4.v1 main_call4.v2 main_call4.v3 Host.divf,
    StableHlo.TRef.unary main_call4.v3 main_call4.v4 (broadcastInDim S50000x128 ![0, 1] bcast_S1x128_S50000x128_0_1),
    StableHlo.TRef.binary (.of main_v81) main_call4.v4 main_call4.v5 subf,
    StableHlo.TRef.binary main_call4.v5 main_call4.v5 main_call4.v6 mulf,
    StableHlo.TRef.unary (.of main_c_12) main_call4.v7 (sitofp .f32),
    StableHlo.TRef.nullary main_call4.cst_1 (constant S_ .f32 0x47435000#32),
    StableHlo.TRef.binary main_call4.cst_1 main_call4.v7 main_call4.v8 subf,
    StableHlo.TRef.nullary main_call4.cst_2 (constant S_ .f32 0x00000000#32),
    StableHlo.TRef.binary main_call4.v6 main_call4.cst_2 main_call4.v9 (fun x v => Host.reduceAdd x v reducesTo_S50000x128_S128_d0 h_S_),
    StableHlo.TRef.unary main_call4.v9 main_call4.v10 (broadcastInDim S1x128 ![1] bcast_S128_S1x128_1),
    StableHlo.TRef.unary main_call4.v8 main_call4.v11 (broadcastInDim S1x128 ![] bcast_S_S1x128),
    StableHlo.TRef.binary main_call4.v10 main_call4.v11 main_call4.v12 Host.divf,
    StableHlo.TRef.nullary main_call4.cst_3 (constant S_ .f32 0x00000000#32),
    StableHlo.TRef.binary main_call4.v8 main_call4.cst_3 main_call4.v13 (cmpf .ogt),
    StableHlo.TRef.nullary main_call4.cst_4 (constant S_ .f32 0x7FC00000#32),
    StableHlo.TRef.unary main_call4.cst_4 main_call4.call0.v0 id,
    StableHlo.TRef.unary main_call4.call0.v0 main_call4.call0.v1 (broadcastInDim S1x128 ![] bcast_S_S1x128),
    StableHlo.TRef.ternary main_call4.v13 main_call4.v12 main_call4.call0.v1 main_call4.call0.v2 (fun p a b => select (broadcastInDim S1x128 ![] bcast_S_S1x128 p) a b),
    StableHlo.unary main_v89 main_v91 (broadcastInDim S50000x128 ![0, 1] bcast_S1x128_S50000x128_0_1 : (⟨S1x128, .f32⟩ : BufTy).Contents (Elt F) → (⟨S50000x128, .f32⟩ : BufTy).Contents (Elt F)),
    StableHlo.binary main_v81 main_v91 main_v92 (subf : (⟨S50000x128, .f32⟩ : BufTy).Contents (Elt F) → (⟨S50000x128, .f32⟩ : BufTy).Contents (Elt F) → (⟨S50000x128, .f32⟩ : BufTy).Contents (Elt F)),
    StableHlo.unary main_v83 main_v93 (broadcastInDim S1x128 ![1] bcast_S128_S1x128_1 : (⟨S128, .f32⟩ : BufTy).Contents (Elt F) → (⟨S1x128, .f32⟩ : BufTy).Contents (Elt F)),
    StableHlo.unary main_v93 main_v94 (broadcastInDim S50000x128 ![0, 1] bcast_S1x128_S50000x128_0_1 : (⟨S1x128, .f32⟩ : BufTy).Contents (Elt F) → (⟨S50000x128, .f32⟩ : BufTy).Contents (Elt F)),
    StableHlo.binary main_v94 main_v92 main_v95 (mulf : (⟨S50000x128, .f32⟩ : BufTy).Contents (Elt F) → (⟨S50000x128, .f32⟩ : BufTy).Contents (Elt F) → (⟨S50000x128, .f32⟩ : BufTy).Contents (Elt F)),
    StableHlo.nullary main_cst_13 (constant S_ .f32 0x3727C5AC#32),
    StableHlo.unary main_cst_13 main_v96 (broadcastInDim S1x128 ![] bcast_S_S1x128 : (⟨S_, .f32⟩ : BufTy).Contents (Elt F) → (⟨S1x128, .f32⟩ : BufTy).Contents (Elt F)),
    StableHlo.binary main_v90 main_v96 main_v97 (addf : (⟨S1x128, .f32⟩ : BufTy).Contents (Elt F) → (⟨S1x128, .f32⟩ : BufTy).Contents (Elt F) → (⟨S1x128, .f32⟩ : BufTy).Contents (Elt F)),
    StableHlo.unary main_v97 main_v98 (Host.rsqrt : (⟨S1x128, .f32⟩ : BufTy).Contents (Elt F) → (⟨S1x128, .f32⟩ : BufTy).Contents (Elt F)),
    StableHlo.unary main_v98 main_v99 (broadcastInDim S50000x128 ![0, 1] bcast_S1x128_S50000x128_0_1 : (⟨S1x128, .f32⟩ : BufTy).Contents (Elt F) → (⟨S50000x128, .f32⟩ : BufTy).Contents (Elt F)),
    StableHlo.binary main_v95 main_v99 main_v100 (mulf : (⟨S50000x128, .f32⟩ : BufTy).Contents (Elt F) → (⟨S50000x128, .f32⟩ : BufTy).Contents (Elt F) → (⟨S50000x128, .f32⟩ : BufTy).Contents (Elt F)),
    StableHlo.unary main_v85 main_v101 (broadcastInDim S1x128 ![1] bcast_S128_S1x128_1 : (⟨S128, .f32⟩ : BufTy).Contents (Elt F) → (⟨S1x128, .f32⟩ : BufTy).Contents (Elt F)),
    StableHlo.unary main_v101 main_v102 (broadcastInDim S50000x128 ![0, 1] bcast_S1x128_S50000x128_0_1 : (⟨S1x128, .f32⟩ : BufTy).Contents (Elt F) → (⟨S50000x128, .f32⟩ : BufTy).Contents (Elt F)),
    StableHlo.binary main_v100 main_v102 main_v103 (addf : (⟨S50000x128, .f32⟩ : BufTy).Contents (Elt F) → (⟨S50000x128, .f32⟩ : BufTy).Contents (Elt F) → (⟨S50000x128, .f32⟩ : BufTy).Contents (Elt F)) ]

set_option maxRecDepth 65536 in
theorem part1_eq (c : Dev nD) : main_part1 (F := F) c = seq ops1 := by
  simp only [main_part1, fn_var.body, fn_where.body, fn_relu.body, seq, bind_assoc, pure_bind]
  rfl

theorem ops1_keep : (ops1 : List (HloOp τ sig (Elt F))).Forall fun op => ∀ b ∈ op.writes, ∃ r : Ref sig .tc, b = Proc.devRef .tc r ∧ r ∉ args := by
  simp only [List.Forall, nullary_writes, unary_writes, binary_writes, ternary_writes, reshape_writes, Finset.mem_singleton, forall_eq]
  repeat' apply And.intro
  all_goals exact ⟨_, rfl, by decide⟩

theorem ops1_sub : (ops1 : List (HloOp τ sig (Elt F))).Forall fun op => op.bufs ⊆ tcRefs τ sig :=
  ⟨reshape_bufs_sub .., binary_bufs_sub .., unary_bufs_sub .., reshape_bufs_sub .., unary_bufs_sub .., unary_bufs_sub .., binary_bufs_sub .., unary_bufs_sub .., reshape_bufs_sub .., unary_bufs_sub .., reshape_bufs_sub .., nullary_bufs_sub .., binary_bufs_sub .., unary_bufs_sub .., nullary_bufs_sub .., unary_bufs_sub .., binary_bufs_sub .., nullary_bufs_sub .., nullary_bufs_sub .., binary_bufs_sub .., unary_bufs_sub .., nullary_bufs_sub .., unary_bufs_sub .., binary_bufs_sub .., unary_bufs_sub .., binary_bufs_sub .., binary_bufs_sub .., unary_bufs_sub .., nullary_bufs_sub .., binary_bufs_sub .., nullary_bufs_sub .., binary_bufs_sub .., unary_bufs_sub .., unary_bufs_sub .., binary_bufs_sub .., nullary_bufs_sub .., binary_bufs_sub .., nullary_bufs_sub .., unary_bufs_sub .., unary_bufs_sub .., ternary_bufs_sub .., unary_bufs_sub .., binary_bufs_sub .., unary_bufs_sub .., unary_bufs_sub .., binary_bufs_sub .., nullary_bufs_sub .., unary_bufs_sub .., binary_bufs_sub .., unary_bufs_sub .., unary_bufs_sub .., binary_bufs_sub .., unary_bufs_sub .., unary_bufs_sub .., binary_bufs_sub .., nullary_bufs_sub .., unary_bufs_sub .., binary_bufs_sub .., unary_bufs_sub .., reshape_bufs_sub .., unary_bufs_sub .., reshape_bufs_sub .., nullary_bufs_sub .., binary_bufs_sub .., unary_bufs_sub .., nullary_bufs_sub .., unary_bufs_sub .., binary_bufs_sub .., nullary_bufs_sub .., nullary_bufs_sub .., binary_bufs_sub .., unary_bufs_sub .., nullary_bufs_sub .., unary_bufs_sub .., binary_bufs_sub .., unary_bufs_sub .., binary_bufs_sub .., binary_bufs_sub .., unary_bufs_sub .., nullary_bufs_sub .., binary_bufs_sub .., nullary_bufs_sub .., binary_bufs_sub .., unary_bufs_sub .., unary_bufs_sub .., binary_bufs_sub .., nullary_bufs_sub .., binary_bufs_sub .., nullary_bufs_sub .., unary_bufs_sub .., unary_bufs_sub .., ternary_bufs_sub .., unary_bufs_sub .., binary_bufs_sub .., unary_bufs_sub .., unary_bufs_sub .., binary_bufs_sub .., nullary_bufs_sub .., unary_bufs_sub .., binary_bufs_sub .., unary_bufs_sub .., unary_bufs_sub .., binary_bufs_sub .., unary_bufs_sub .., unary_bufs_sub .., binary_bufs_sub ..⟩

theorem ops1_fresh : (ops1 : List (HloOp τ sig (Elt F))).Forall fun op => op.fresh = ∅ := by
  simp only [List.Forall]; repeat' constructor

/-- The operations of window 2, calls written out. -/
abbrev ops2 : List (HloOp τ sig (Elt F)) :=
  [ StableHlo.TRef.nullary main_call5.cst (constant S_ .f32 0x00000000#32),
    StableHlo.TRef.unary main_call5.cst main_call5.v0 (broadcastInDim S50000x128 ![] bcast_S_S50000x128),
    StableHlo.TRef.binary (.of main_v103) main_call5.v0 main_call5.v1 maximumf,
    StableHlo.binary main_v3 main_v104 main_v105 (addf : (⟨S50000x128, .f32⟩ : BufTy).Contents (Elt F) → (⟨S50000x128, .f32⟩ : BufTy).Contents (Elt F) → (⟨S50000x128, .f32⟩ : BufTy).Contents (Elt F)),
    StableHlo.nullary main_c_14 (constantI S_ 32 0#32),
    StableHlo.unary main_c_14 main_v106 (broadcastInDim S1600000 ![] bcast_S_S1600000 : (⟨S_, .i32⟩ : BufTy).Contents (Elt F) → (⟨S1600000, .i32⟩ : BufTy).Contents (Elt F)),
    StableHlo.binary main_arg1 main_v106 main_v107 (cmpi .slt : (⟨S1600000, .i32⟩ : BufTy).Contents (Elt F) → (⟨S1600000, .i32⟩ : BufTy).Contents (Elt F) → (⟨S1600000, .i1⟩ : BufTy).Contents (Elt F)),
    StableHlo.nullary main_c_15 (constantI S_ 32 50000#32),
    StableHlo.unary main_c_15 main_v108 (broadcastInDim S1600000 ![] bcast_S_S1600000 : (⟨S_, .i32⟩ : BufTy).Contents (Elt F) → (⟨S1600000, .i32⟩ : BufTy).Contents (Elt F)),
    StableHlo.binary main_arg1 main_v108 main_v109 (addi : (⟨S1600000, .i32⟩ : BufTy).Contents (Elt F) → (⟨S1600000, .i32⟩ : BufTy).Contents (Elt F) → (⟨S1600000, .i32⟩ : BufTy).Contents (Elt F)),
    StableHlo.ternary main_v107 main_v109 main_arg1 main_v110 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    StableHlo.unary main_v110 main_v111 (broadcastInDim S1600000x1 ![0] bcast_S1600000_S1600000x1_0 : (⟨S1600000, .i32⟩ : BufTy).Contents (Elt F) → (⟨S1600000x1, .i32⟩ : BufTy).Contents (Elt F)),
    StableHlo.binary main_v105 main_v111 main_v112 ((fun x i => Host.gather gather_S50000x128_S1600000x1_S1600000x128_1_0_n_n_0_1_1128 x i) : (⟨S50000x128, .f32⟩ : BufTy).Contents (Elt F) → (⟨S1600000x1, .i32⟩ : BufTy).Contents (Elt F) → (⟨S1600000x128, .f32⟩ : BufTy).Contents (Elt F)),
    StableHlo.nullary main_cst_16 (constant S_ .f32 0x00000000#32),
    StableHlo.unary main_cst_16 main_v113 (broadcastInDim S50000x128 ![] bcast_S_S50000x128 : (⟨S_, .f32⟩ : BufTy).Contents (Elt F) → (⟨S50000x128, .f32⟩ : BufTy).Contents (Elt F)),
    StableHlo.unary main_arg2 main_v114 (broadcastInDim S1600000x1 ![0] bcast_S1600000_S1600000x1_0 : (⟨S1600000, .i32⟩ : BufTy).Contents (Elt F) → (⟨S1600000x1, .i32⟩ : BufTy).Contents (Elt F)),
    StableHlo.ternary main_v113 main_v114 main_v112 main_v115 ((fun x i u => Host.scatterAdd scatter_S50000x128_S1600000x1_S1600000x128_1_0_0_1 x i u) : (⟨S50000x128, .f32⟩ : BufTy).Contents (Elt F) → (⟨S1600000x1, .i32⟩ : BufTy).Contents (Elt F) → (⟨S1600000x128, .f32⟩ : BufTy).Contents (Elt F) → (⟨S50000x128, .f32⟩ : BufTy).Contents (Elt F)),
    StableHlo.unary main_arg5 main_v116 ((extractStridedSlice S1 ![1] · slices_S4_S1_1) : (⟨S4, .f32⟩ : BufTy).Contents (Elt F) → (⟨S1, .f32⟩ : BufTy).Contents (Elt F)),
    StableHlo.reshape main_v116 main_v117 rfl shapeCasts_S1_S_,
    StableHlo.nullary main_cst_17 (constant S_ .f32 0x3F800000#32),
    StableHlo.binary main_cst_17 main_v117 main_v118 (addf : (⟨S_, .f32⟩ : BufTy).Contents (Elt F) → (⟨S_, .f32⟩ : BufTy).Contents (Elt F) → (⟨S_, .f32⟩ : BufTy).Contents (Elt F)),
    StableHlo.unary main_v118 main_v119 (broadcastInDim S50000x128 ![] bcast_S_S50000x128 : (⟨S_, .f32⟩ : BufTy).Contents (Elt F) → (⟨S50000x128, .f32⟩ : BufTy).Contents (Elt F)),
    StableHlo.binary main_v119 main_v105 main_v120 (mulf : (⟨S50000x128, .f32⟩ : BufTy).Contents (Elt F) → (⟨S50000x128, .f32⟩ : BufTy).Contents (Elt F) → (⟨S50000x128, .f32⟩ : BufTy).Contents (Elt F)),
    StableHlo.binary main_v120 main_v115 main_v121 (addf : (⟨S50000x128, .f32⟩ : BufTy).Contents (Elt F) → (⟨S50000x128, .f32⟩ : BufTy).Contents (Elt F) → (⟨S50000x128, .f32⟩ : BufTy).Contents (Elt F)),
    StableHlo.unary main_arg6 main_v122 ((extractStridedSlice S1x128x128 ![1, 0, 0] · slices_S4x128x128_S1x128x128_1_0_0) : (⟨S4x128x128, .f32⟩ : BufTy).Contents (Elt F) → (⟨S1x128x128, .f32⟩ : BufTy).Contents (Elt F)),
    StableHlo.reshape main_v122 main_v123 rfl shapeCasts_S1x128x128_S128x128,
    StableHlo.binary main_v121 main_v123 main_v124 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    StableHlo.unary main_arg7 main_v125 ((extractStridedSlice S1x128 ![1, 0] · slices_S4x128_S1x128_1_0) : (⟨S4x128, .f32⟩ : BufTy).Contents (Elt F) → (⟨S1x128, .f32⟩ : BufTy).Contents (Elt F)),
    StableHlo.reshape main_v125 main_v126 rfl shapeCasts_S1x128_S128,
    StableHlo.unary main_v126 main_v127 (broadcastInDim S1x128 ![1] bcast_S128_S1x128_1 : (⟨S128, .f32⟩ : BufTy).Contents (Elt F) → (⟨S1x128, .f32⟩ : BufTy).Contents (Elt F)),
    StableHlo.unary main_v127 main_v128 (broadcastInDim S50000x128 ![0, 1] bcast_S1x128_S50000x128_0_1 : (⟨S1x128, .f32⟩ : BufTy).Contents (Elt F) → (⟨S50000x128, .f32⟩ : BufTy).Contents (Elt F)),
    StableHlo.binary main_v124 main_v128 main_v129 (addf : (⟨S50000x128, .f32⟩ : BufTy).Contents (Elt F) → (⟨S50000x128, .f32⟩ : BufTy).Contents (Elt F) → (⟨S50000x128, .f32⟩ : BufTy).Contents (Elt F)),
    StableHlo.unary main_arg8 main_v130 ((extractStridedSlice S1x128 ![1, 0] · slices_S4x128_S1x128_1_0) : (⟨S4x128, .f32⟩ : BufTy).Contents (Elt F) → (⟨S1x128, .f32⟩ : BufTy).Contents (Elt F)),
    StableHlo.reshape main_v130 main_v131 rfl shapeCasts_S1x128_S128,
    StableHlo.unary main_arg9 main_v132 ((extractStridedSlice S1x128 ![1, 0] · slices_S4x128_S1x128_1_0) : (⟨S4x128, .f32⟩ : BufTy).Contents (Elt F) → (⟨S1x128, .f32⟩ : BufTy).Contents (Elt F)),
    StableHlo.reshape main_v132 main_v133 rfl shapeCasts_S1x128_S128,
    StableHlo.nullary main_cst_18 (constant S_ .f32 0x00000000#32),
    StableHlo.binary main_v129 main_cst_18 main_v134 ((fun x v => Host.reduceAdd x v reducesTo_S50000x128_S128_d0 h_S_) : (⟨S50000x128, .f32⟩ : BufTy).Contents (Elt F) → (⟨S_, .f32⟩ : BufTy).Contents (Elt F) → (⟨S128, .f32⟩ : BufTy).Contents (Elt F)),
    StableHlo.unary main_v134 main_v135 (broadcastInDim S1x128 ![1] bcast_S128_S1x128_1 : (⟨S128, .f32⟩ : BufTy).Contents (Elt F) → (⟨S1x128, .f32⟩ : BufTy).Contents (Elt F)),
    StableHlo.nullary main_cst_19 (constant S_ .f32 0x47435000#32),
    StableHlo.unary main_cst_19 main_v136 (broadcastInDim S1x128 ![] bcast_S_S1x128 : (⟨S_, .f32⟩ : BufTy).Contents (Elt F) → (⟨S1x128, .f32⟩ : BufTy).Contents (Elt F)),
    StableHlo.binary main_v135 main_v136 main_v137 (Host.divf : (⟨S1x128, .f32⟩ : BufTy).Contents (Elt F) → (⟨S1x128, .f32⟩ : BufTy).Contents (Elt F) → (⟨S1x128, .f32⟩ : BufTy).Contents (Elt F)),
    StableHlo.nullary main_c_20 (constantI S_ 32 0#32),
    StableHlo.TRef.nullary main_call6.cst (constant S_ .f32 0x00000000#32),
    StableHlo.TRef.binary (.of main_v129) main_call6.cst main_call6.v0 (fun x v => Host.reduceAdd x v reducesTo_S50000x128_S128_d0 h_S_),
    StableHlo.TRef.unary main_call6.v0 main_call6.v1 (broadcastInDim S1x128 ![1] bcast_S128_S1x128_1),
    StableHlo.TRef.nullary main_call6.cst_0 (constant S_ .f32 0x47435000#32),
    StableHlo.TRef.unary main_call6.cst_0 main_call6.v2 (broadcastInDim S1x128 ![] bcast_S_S1x128),
    StableHlo.TRef.binary main_call6.v1 main_call6.v2 main_call6.v3 Host.divf,
    StableHlo.TRef.unary main_call6.v3 main_call6.v4 (broadcastInDim S50000x128 ![0, 1] bcast_S1x128_S50000x128_0_1),
    StableHlo.TRef.binary (.of main_v129) main_call6.v4 main_call6.v5 subf,
    StableHlo.TRef.binary main_call6.v5 main_call6.v5 main_call6.v6 mulf,
    StableHlo.TRef.unary (.of main_c_20) main_call6.v7 (sitofp .f32),
    StableHlo.TRef.nullary main_call6.cst_1 (constant S_ .f32 0x47435000#32),
    StableHlo.TRef.binary main_call6.cst_1 main_call6.v7 main_call6.v8 subf,
    StableHlo.TRef.nullary main_call6.cst_2 (constant S_ .f32 0x00000000#32),
    StableHlo.TRef.binary main_call6.v6 main_call6.cst_2 main_call6.v9 (fun x v => Host.reduceAdd x v reducesTo_S50000x128_S128_d0 h_S_),
    StableHlo.TRef.unary main_call6.v9 main_call6.v10 (broadcastInDim S1x128 ![1] bcast_S128_S1x128_1),
    StableHlo.TRef.unary main_call6.v8 main_call6.v11 (broadcastInDim S1x128 ![] bcast_S_S1x128),
    StableHlo.TRef.binary main_call6.v10 main_call6.v11 main_call6.v12 Host.divf,
    StableHlo.TRef.nullary main_call6.cst_3 (constant S_ .f32 0x00000000#32),
    StableHlo.TRef.binary main_call6.v8 main_call6.cst_3 main_call6.v13 (cmpf .ogt),
    StableHlo.TRef.nullary main_call6.cst_4 (constant S_ .f32 0x7FC00000#32),
    StableHlo.TRef.unary main_call6.cst_4 main_call6.call0.v0 id,
    StableHlo.TRef.unary main_call6.call0.v0 main_call6.call0.v1 (broadcastInDim S1x128 ![] bcast_S_S1x128),
    StableHlo.TRef.ternary main_call6.v13 main_call6.v12 main_call6.call0.v1 main_call6.call0.v2 (fun p a b => select (broadcastInDim S1x128 ![] bcast_S_S1x128 p) a b),
    StableHlo.unary main_v137 main_v139 (broadcastInDim S50000x128 ![0, 1] bcast_S1x128_S50000x128_0_1 : (⟨S1x128, .f32⟩ : BufTy).Contents (Elt F) → (⟨S50000x128, .f32⟩ : BufTy).Contents (Elt F)),
    StableHlo.binary main_v129 main_v139 main_v140 (subf : (⟨S50000x128, .f32⟩ : BufTy).Contents (Elt F) → (⟨S50000x128, .f32⟩ : BufTy).Contents (Elt F) → (⟨S50000x128, .f32⟩ : BufTy).Contents (Elt F)),
    StableHlo.unary main_v131 main_v141 (broadcastInDim S1x128 ![1] bcast_S128_S1x128_1 : (⟨S128, .f32⟩ : BufTy).Contents (Elt F) → (⟨S1x128, .f32⟩ : BufTy).Contents (Elt F)),
    StableHlo.unary main_v141 main_v142 (broadcastInDim S50000x128 ![0, 1] bcast_S1x128_S50000x128_0_1 : (⟨S1x128, .f32⟩ : BufTy).Contents (Elt F) → (⟨S50000x128, .f32⟩ : BufTy).Contents (Elt F)),
    StableHlo.binary main_v142 main_v140 main_v143 (mulf : (⟨S50000x128, .f32⟩ : BufTy).Contents (Elt F) → (⟨S50000x128, .f32⟩ : BufTy).Contents (Elt F) → (⟨S50000x128, .f32⟩ : BufTy).Contents (Elt F)),
    StableHlo.nullary main_cst_21 (constant S_ .f32 0x3727C5AC#32),
    StableHlo.unary main_cst_21 main_v144 (broadcastInDim S1x128 ![] bcast_S_S1x128 : (⟨S_, .f32⟩ : BufTy).Contents (Elt F) → (⟨S1x128, .f32⟩ : BufTy).Contents (Elt F)),
    StableHlo.binary main_v138 main_v144 main_v145 (addf : (⟨S1x128, .f32⟩ : BufTy).Contents (Elt F) → (⟨S1x128, .f32⟩ : BufTy).Contents (Elt F) → (⟨S1x128, .f32⟩ : BufTy).Contents (Elt F)),
    StableHlo.unary main_v145 main_v146 (Host.rsqrt : (⟨S1x128, .f32⟩ : BufTy).Contents (Elt F) → (⟨S1x128, .f32⟩ : BufTy).Contents (Elt F)),
    StableHlo.unary main_v146 main_v147 (broadcastInDim S50000x128 ![0, 1] bcast_S1x128_S50000x128_0_1 : (⟨S1x128, .f32⟩ : BufTy).Contents (Elt F) → (⟨S50000x128, .f32⟩ : BufTy).Contents (Elt F)),
    StableHlo.binary main_v143 main_v147 main_v148 (mulf : (⟨S50000x128, .f32⟩ : BufTy).Contents (Elt F) → (⟨S50000x128, .f32⟩ : BufTy).Contents (Elt F) → (⟨S50000x128, .f32⟩ : BufTy).Contents (Elt F)),
    StableHlo.unary main_v133 main_v149 (broadcastInDim S1x128 ![1] bcast_S128_S1x128_1 : (⟨S128, .f32⟩ : BufTy).Contents (Elt F) → (⟨S1x128, .f32⟩ : BufTy).Contents (Elt F)),
    StableHlo.unary main_v149 main_v150 (broadcastInDim S50000x128 ![0, 1] bcast_S1x128_S50000x128_0_1 : (⟨S1x128, .f32⟩ : BufTy).Contents (Elt F) → (⟨S50000x128, .f32⟩ : BufTy).Contents (Elt F)),
    StableHlo.binary main_v148 main_v150 main_v151 (addf : (⟨S50000x128, .f32⟩ : BufTy).Contents (Elt F) → (⟨S50000x128, .f32⟩ : BufTy).Contents (Elt F) → (⟨S50000x128, .f32⟩ : BufTy).Contents (Elt F)),
    StableHlo.TRef.nullary main_call7.cst (constant S_ .f32 0x00000000#32),
    StableHlo.TRef.unary main_call7.cst main_call7.v0 (broadcastInDim S50000x128 ![] bcast_S_S50000x128),
    StableHlo.TRef.binary (.of main_v151) main_call7.v0 main_call7.v1 maximumf,
    StableHlo.unary main_arg10 main_v153 ((extractStridedSlice S1x128x128 ![1, 0, 0] · slices_S4x128x128_S1x128x128_1_0_0) : (⟨S4x128x128, .f32⟩ : BufTy).Contents (Elt F) → (⟨S1x128x128, .f32⟩ : BufTy).Contents (Elt F)),
    StableHlo.reshape main_v153 main_v154 rfl shapeCasts_S1x128x128_S128x128,
    StableHlo.binary main_v152 main_v154 main_v155 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)) ]

set_option maxRecDepth 65536 in
theorem part2_eq (c : Dev nD) : main_part2 (F := F) c = seq ops2 := by
  simp only [main_part2, fn_var.body, fn_where.body, fn_relu.body, seq, bind_assoc, pure_bind]
  rfl

theorem ops2_keep : (ops2 : List (HloOp τ sig (Elt F))).Forall fun op => ∀ b ∈ op.writes, ∃ r : Ref sig .tc, b = Proc.devRef .tc r ∧ r ∉ args := by
  simp only [List.Forall, nullary_writes, unary_writes, binary_writes, ternary_writes, reshape_writes, Finset.mem_singleton, forall_eq]
  repeat' apply And.intro
  all_goals exact ⟨_, rfl, by decide⟩

theorem ops2_sub : (ops2 : List (HloOp τ sig (Elt F))).Forall fun op => op.bufs ⊆ tcRefs τ sig :=
  ⟨nullary_bufs_sub .., unary_bufs_sub .., binary_bufs_sub .., binary_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., unary_bufs_sub .., ternary_bufs_sub .., unary_bufs_sub .., reshape_bufs_sub .., nullary_bufs_sub .., binary_bufs_sub .., unary_bufs_sub .., binary_bufs_sub .., binary_bufs_sub .., unary_bufs_sub .., reshape_bufs_sub .., binary_bufs_sub .., unary_bufs_sub .., reshape_bufs_sub .., unary_bufs_sub .., unary_bufs_sub .., binary_bufs_sub .., unary_bufs_sub .., reshape_bufs_sub .., unary_bufs_sub .., reshape_bufs_sub .., nullary_bufs_sub .., binary_bufs_sub .., unary_bufs_sub .., nullary_bufs_sub .., unary_bufs_sub .., binary_bufs_sub .., nullary_bufs_sub .., nullary_bufs_sub .., binary_bufs_sub .., unary_bufs_sub .., nullary_bufs_sub .., unary_bufs_sub .., binary_bufs_sub .., unary_bufs_sub .., binary_bufs_sub .., binary_bufs_sub .., unary_bufs_sub .., nullary_bufs_sub .., binary_bufs_sub .., nullary_bufs_sub .., binary_bufs_sub .., unary_bufs_sub .., unary_bufs_sub .., binary_bufs_sub .., nullary_bufs_sub .., binary_bufs_sub .., nullary_bufs_sub .., unary_bufs_sub .., unary_bufs_sub .., ternary_bufs_sub .., unary_bufs_sub .., binary_bufs_sub .., unary_bufs_sub .., unary_bufs_sub .., binary_bufs_sub .., nullary_bufs_sub .., unary_bufs_sub .., binary_bufs_sub .., unary_bufs_sub .., unary_bufs_sub .., binary_bufs_sub .., unary_bufs_sub .., unary_bufs_sub .., binary_bufs_sub .., nullary_bufs_sub .., unary_bufs_sub .., binary_bufs_sub .., unary_bufs_sub .., reshape_bufs_sub .., binary_bufs_sub ..⟩

theorem ops2_fresh : (ops2 : List (HloOp τ sig (Elt F))).Forall fun op => op.fresh = ∅ := by
  simp only [List.Forall]; repeat' constructor

/-- The operations of window 3, calls written out. -/
abbrev ops3 : List (HloOp τ sig (Elt F)) :=
  [ StableHlo.unary main_arg11 main_v156 ((extractStridedSlice S1x128 ![1, 0] · slices_S4x128_S1x128_1_0) : (⟨S4x128, .f32⟩ : BufTy).Contents (Elt F) → (⟨S1x128, .f32⟩ : BufTy).Contents (Elt F)),
    StableHlo.reshape main_v156 main_v157 rfl shapeCasts_S1x128_S128,
    StableHlo.unary main_v157 main_v158 (broadcastInDim S1x128 ![1] bcast_S128_S1x128_1 : (⟨S128, .f32⟩ : BufTy).Contents (Elt F) → (⟨S1x128, .f32⟩ : BufTy).Contents (Elt F)),
    StableHlo.unary main_v158 main_v159 (broadcastInDim S50000x128 ![0, 1] bcast_S1x128_S50000x128_0_1 : (⟨S1x128, .f32⟩ : BufTy).Contents (Elt F) → (⟨S50000x128, .f32⟩ : BufTy).Contents (Elt F)),
    StableHlo.binary main_v155 main_v159 main_v160 (addf : (⟨S50000x128, .f32⟩ : BufTy).Contents (Elt F) → (⟨S50000x128, .f32⟩ : BufTy).Contents (Elt F) → (⟨S50000x128, .f32⟩ : BufTy).Contents (Elt F)),
    StableHlo.unary main_arg12 main_v161 ((extractStridedSlice S1x128 ![1, 0] · slices_S4x128_S1x128_1_0) : (⟨S4x128, .f32⟩ : BufTy).Contents (Elt F) → (⟨S1x128, .f32⟩ : BufTy).Contents (Elt F)),
    StableHlo.reshape main_v161 main_v162 rfl shapeCasts_S1x128_S128,
    StableHlo.unary main_arg13 main_v163 ((extractStridedSlice S1x128 ![1, 0] · slices_S4x128_S1x128_1_0) : (⟨S4x128, .f32⟩ : BufTy).Contents (Elt F) → (⟨S1x128, .f32⟩ : BufTy).Contents (Elt F)),
    StableHlo.reshape main_v163 main_v164 rfl shapeCasts_S1x128_S128,
    StableHlo.nullary main_cst_22 (constant S_ .f32 0x00000000#32),
    StableHlo.binary main_v160 main_cst_22 main_v165 ((fun x v => Host.reduceAdd x v reducesTo_S50000x128_S128_d0 h_S_) : (⟨S50000x128, .f32⟩ : BufTy).Contents (Elt F) → (⟨S_, .f32⟩ : BufTy).Contents (Elt F) → (⟨S128, .f32⟩ : BufTy).Contents (Elt F)),
    StableHlo.unary main_v165 main_v166 (broadcastInDim S1x128 ![1] bcast_S128_S1x128_1 : (⟨S128, .f32⟩ : BufTy).Contents (Elt F) → (⟨S1x128, .f32⟩ : BufTy).Contents (Elt F)),
    StableHlo.nullary main_cst_23 (constant S_ .f32 0x47435000#32),
    StableHlo.unary main_cst_23 main_v167 (broadcastInDim S1x128 ![] bcast_S_S1x128 : (⟨S_, .f32⟩ : BufTy).Contents (Elt F) → (⟨S1x128, .f32⟩ : BufTy).Contents (Elt F)),
    StableHlo.binary main_v166 main_v167 main_v168 (Host.divf : (⟨S1x128, .f32⟩ : BufTy).Contents (Elt F) → (⟨S1x128, .f32⟩ : BufTy).Contents (Elt F) → (⟨S1x128, .f32⟩ : BufTy).Contents (Elt F)),
    StableHlo.nullary main_c_24 (constantI S_ 32 0#32),
    StableHlo.TRef.nullary main_call8.cst (constant S_ .f32 0x00000000#32),
    StableHlo.TRef.binary (.of main_v160) main_call8.cst main_call8.v0 (fun x v => Host.reduceAdd x v reducesTo_S50000x128_S128_d0 h_S_),
    StableHlo.TRef.unary main_call8.v0 main_call8.v1 (broadcastInDim S1x128 ![1] bcast_S128_S1x128_1),
    StableHlo.TRef.nullary main_call8.cst_0 (constant S_ .f32 0x47435000#32),
    StableHlo.TRef.unary main_call8.cst_0 main_call8.v2 (broadcastInDim S1x128 ![] bcast_S_S1x128),
    StableHlo.TRef.binary main_call8.v1 main_call8.v2 main_call8.v3 Host.divf,
    StableHlo.TRef.unary main_call8.v3 main_call8.v4 (broadcastInDim S50000x128 ![0, 1] bcast_S1x128_S50000x128_0_1),
    StableHlo.TRef.binary (.of main_v160) main_call8.v4 main_call8.v5 subf,
    StableHlo.TRef.binary main_call8.v5 main_call8.v5 main_call8.v6 mulf,
    StableHlo.TRef.unary (.of main_c_24) main_call8.v7 (sitofp .f32),
    StableHlo.TRef.nullary main_call8.cst_1 (constant S_ .f32 0x47435000#32),
    StableHlo.TRef.binary main_call8.cst_1 main_call8.v7 main_call8.v8 subf,
    StableHlo.TRef.nullary main_call8.cst_2 (constant S_ .f32 0x00000000#32),
    StableHlo.TRef.binary main_call8.v6 main_call8.cst_2 main_call8.v9 (fun x v => Host.reduceAdd x v reducesTo_S50000x128_S128_d0 h_S_),
    StableHlo.TRef.unary main_call8.v9 main_call8.v10 (broadcastInDim S1x128 ![1] bcast_S128_S1x128_1),
    StableHlo.TRef.unary main_call8.v8 main_call8.v11 (broadcastInDim S1x128 ![] bcast_S_S1x128),
    StableHlo.TRef.binary main_call8.v10 main_call8.v11 main_call8.v12 Host.divf,
    StableHlo.TRef.nullary main_call8.cst_3 (constant S_ .f32 0x00000000#32),
    StableHlo.TRef.binary main_call8.v8 main_call8.cst_3 main_call8.v13 (cmpf .ogt),
    StableHlo.TRef.nullary main_call8.cst_4 (constant S_ .f32 0x7FC00000#32),
    StableHlo.TRef.unary main_call8.cst_4 main_call8.call0.v0 id,
    StableHlo.TRef.unary main_call8.call0.v0 main_call8.call0.v1 (broadcastInDim S1x128 ![] bcast_S_S1x128),
    StableHlo.TRef.ternary main_call8.v13 main_call8.v12 main_call8.call0.v1 main_call8.call0.v2 (fun p a b => select (broadcastInDim S1x128 ![] bcast_S_S1x128 p) a b),
    StableHlo.unary main_v168 main_v170 (broadcastInDim S50000x128 ![0, 1] bcast_S1x128_S50000x128_0_1 : (⟨S1x128, .f32⟩ : BufTy).Contents (Elt F) → (⟨S50000x128, .f32⟩ : BufTy).Contents (Elt F)),
    StableHlo.binary main_v160 main_v170 main_v171 (subf : (⟨S50000x128, .f32⟩ : BufTy).Contents (Elt F) → (⟨S50000x128, .f32⟩ : BufTy).Contents (Elt F) → (⟨S50000x128, .f32⟩ : BufTy).Contents (Elt F)),
    StableHlo.unary main_v162 main_v172 (broadcastInDim S1x128 ![1] bcast_S128_S1x128_1 : (⟨S128, .f32⟩ : BufTy).Contents (Elt F) → (⟨S1x128, .f32⟩ : BufTy).Contents (Elt F)),
    StableHlo.unary main_v172 main_v173 (broadcastInDim S50000x128 ![0, 1] bcast_S1x128_S50000x128_0_1 : (⟨S1x128, .f32⟩ : BufTy).Contents (Elt F) → (⟨S50000x128, .f32⟩ : BufTy).Contents (Elt F)),
    StableHlo.binary main_v173 main_v171 main_v174 (mulf : (⟨S50000x128, .f32⟩ : BufTy).Contents (Elt F) → (⟨S50000x128, .f32⟩ : BufTy).Contents (Elt F) → (⟨S50000x128, .f32⟩ : BufTy).Contents (Elt F)),
    StableHlo.nullary main_cst_25 (constant S_ .f32 0x3727C5AC#32),
    StableHlo.unary main_cst_25 main_v175 (broadcastInDim S1x128 ![] bcast_S_S1x128 : (⟨S_, .f32⟩ : BufTy).Contents (Elt F) → (⟨S1x128, .f32⟩ : BufTy).Contents (Elt F)),
    StableHlo.binary main_v169 main_v175 main_v176 (addf : (⟨S1x128, .f32⟩ : BufTy).Contents (Elt F) → (⟨S1x128, .f32⟩ : BufTy).Contents (Elt F) → (⟨S1x128, .f32⟩ : BufTy).Contents (Elt F)),
    StableHlo.unary main_v176 main_v177 (Host.rsqrt : (⟨S1x128, .f32⟩ : BufTy).Contents (Elt F) → (⟨S1x128, .f32⟩ : BufTy).Contents (Elt F)),
    StableHlo.unary main_v177 main_v178 (broadcastInDim S50000x128 ![0, 1] bcast_S1x128_S50000x128_0_1 : (⟨S1x128, .f32⟩ : BufTy).Contents (Elt F) → (⟨S50000x128, .f32⟩ : BufTy).Contents (Elt F)),
    StableHlo.binary main_v174 main_v178 main_v179 (mulf : (⟨S50000x128, .f32⟩ : BufTy).Contents (Elt F) → (⟨S50000x128, .f32⟩ : BufTy).Contents (Elt F) → (⟨S50000x128, .f32⟩ : BufTy).Contents (Elt F)),
    StableHlo.unary main_v164 main_v180 (broadcastInDim S1x128 ![1] bcast_S128_S1x128_1 : (⟨S128, .f32⟩ : BufTy).Contents (Elt F) → (⟨S1x128, .f32⟩ : BufTy).Contents (Elt F)),
    StableHlo.unary main_v180 main_v181 (broadcastInDim S50000x128 ![0, 1] bcast_S1x128_S50000x128_0_1 : (⟨S1x128, .f32⟩ : BufTy).Contents (Elt F) → (⟨S50000x128, .f32⟩ : BufTy).Contents (Elt F)),
    StableHlo.binary main_v179 main_v181 main_v182 (addf : (⟨S50000x128, .f32⟩ : BufTy).Contents (Elt F) → (⟨S50000x128, .f32⟩ : BufTy).Contents (Elt F) → (⟨S50000x128, .f32⟩ : BufTy).Contents (Elt F)),
    StableHlo.TRef.nullary main_call9.cst (constant S_ .f32 0x00000000#32),
    StableHlo.TRef.unary main_call9.cst main_call9.v0 (broadcastInDim S50000x128 ![] bcast_S_S50000x128),
    StableHlo.TRef.binary (.of main_v182) main_call9.v0 main_call9.v1 maximumf,
    StableHlo.unary main_arg14 main_v184 ((extractStridedSlice S1x128 ![1, 0] · slices_S4x128_S1x128_1_0) : (⟨S4x128, .f32⟩ : BufTy).Contents (Elt F) → (⟨S1x128, .f32⟩ : BufTy).Contents (Elt F)),
    StableHlo.reshape main_v184 main_v185 rfl shapeCasts_S1x128_S128,
    StableHlo.unary main_arg15 main_v186 ((extractStridedSlice S1x128 ![1, 0] · slices_S4x128_S1x128_1_0) : (⟨S4x128, .f32⟩ : BufTy).Contents (Elt F) → (⟨S1x128, .f32⟩ : BufTy).Contents (Elt F)),
    StableHlo.reshape main_v186 main_v187 rfl shapeCasts_S1x128_S128,
    StableHlo.nullary main_cst_26 (constant S_ .f32 0x00000000#32),
    StableHlo.binary main_v183 main_cst_26 main_v188 ((fun x v => Host.reduceAdd x v reducesTo_S50000x128_S128_d0 h_S_) : (⟨S50000x128, .f32⟩ : BufTy).Contents (Elt F) → (⟨S_, .f32⟩ : BufTy).Contents (Elt F) → (⟨S128, .f32⟩ : BufTy).Contents (Elt F)),
    StableHlo.unary main_v188 main_v189 (broadcastInDim S1x128 ![1] bcast_S128_S1x128_1 : (⟨S128, .f32⟩ : BufTy).Contents (Elt F) → (⟨S1x128, .f32⟩ : BufTy).Contents (Elt F)),
    StableHlo.nullary main_cst_27 (constant S_ .f32 0x47435000#32),
    StableHlo.unary main_cst_27 main_v190 (broadcastInDim S1x128 ![] bcast_S_S1x128 : (⟨S_, .f32⟩ : BufTy).Contents (Elt F) → (⟨S1x128, .f32⟩ : BufTy).Contents (Elt F)),
    StableHlo.binary main_v189 main_v190 main_v191 (Host.divf : (⟨S1x128, .f32⟩ : BufTy).Contents (Elt F) → (⟨S1x128, .f32⟩ : BufTy).Contents (Elt F) → (⟨S1x128, .f32⟩ : BufTy).Contents (Elt F)),
    StableHlo.nullary main_c_28 (constantI S_ 32 0#32),
    StableHlo.TRef.nullary main_call10.cst (constant S_ .f32 0x00000000#32),
    StableHlo.TRef.binary (.of main_v183) main_call10.cst main_call10.v0 (fun x v => Host.reduceAdd x v reducesTo_S50000x128_S128_d0 h_S_),
    StableHlo.TRef.unary main_call10.v0 main_call10.v1 (broadcastInDim S1x128 ![1] bcast_S128_S1x128_1),
    StableHlo.TRef.nullary main_call10.cst_0 (constant S_ .f32 0x47435000#32),
    StableHlo.TRef.unary main_call10.cst_0 main_call10.v2 (broadcastInDim S1x128 ![] bcast_S_S1x128),
    StableHlo.TRef.binary main_call10.v1 main_call10.v2 main_call10.v3 Host.divf,
    StableHlo.TRef.unary main_call10.v3 main_call10.v4 (broadcastInDim S50000x128 ![0, 1] bcast_S1x128_S50000x128_0_1),
    StableHlo.TRef.binary (.of main_v183) main_call10.v4 main_call10.v5 subf,
    StableHlo.TRef.binary main_call10.v5 main_call10.v5 main_call10.v6 mulf,
    StableHlo.TRef.unary (.of main_c_28) main_call10.v7 (sitofp .f32),
    StableHlo.TRef.nullary main_call10.cst_1 (constant S_ .f32 0x47435000#32),
    StableHlo.TRef.binary main_call10.cst_1 main_call10.v7 main_call10.v8 subf,
    StableHlo.TRef.nullary main_call10.cst_2 (constant S_ .f32 0x00000000#32),
    StableHlo.TRef.binary main_call10.v6 main_call10.cst_2 main_call10.v9 (fun x v => Host.reduceAdd x v reducesTo_S50000x128_S128_d0 h_S_),
    StableHlo.TRef.unary main_call10.v9 main_call10.v10 (broadcastInDim S1x128 ![1] bcast_S128_S1x128_1),
    StableHlo.TRef.unary main_call10.v8 main_call10.v11 (broadcastInDim S1x128 ![] bcast_S_S1x128),
    StableHlo.TRef.binary main_call10.v10 main_call10.v11 main_call10.v12 Host.divf,
    StableHlo.TRef.nullary main_call10.cst_3 (constant S_ .f32 0x00000000#32),
    StableHlo.TRef.binary main_call10.v8 main_call10.cst_3 main_call10.v13 (cmpf .ogt),
    StableHlo.TRef.nullary main_call10.cst_4 (constant S_ .f32 0x7FC00000#32),
    StableHlo.TRef.unary main_call10.cst_4 main_call10.call0.v0 id,
    StableHlo.TRef.unary main_call10.call0.v0 main_call10.call0.v1 (broadcastInDim S1x128 ![] bcast_S_S1x128),
    StableHlo.TRef.ternary main_call10.v13 main_call10.v12 main_call10.call0.v1 main_call10.call0.v2 (fun p a b => select (broadcastInDim S1x128 ![] bcast_S_S1x128 p) a b),
    StableHlo.unary main_v191 main_v193 (broadcastInDim S50000x128 ![0, 1] bcast_S1x128_S50000x128_0_1 : (⟨S1x128, .f32⟩ : BufTy).Contents (Elt F) → (⟨S50000x128, .f32⟩ : BufTy).Contents (Elt F)),
    StableHlo.binary main_v183 main_v193 main_v194 (subf : (⟨S50000x128, .f32⟩ : BufTy).Contents (Elt F) → (⟨S50000x128, .f32⟩ : BufTy).Contents (Elt F) → (⟨S50000x128, .f32⟩ : BufTy).Contents (Elt F)),
    StableHlo.unary main_v185 main_v195 (broadcastInDim S1x128 ![1] bcast_S128_S1x128_1 : (⟨S128, .f32⟩ : BufTy).Contents (Elt F) → (⟨S1x128, .f32⟩ : BufTy).Contents (Elt F)),
    StableHlo.unary main_v195 main_v196 (broadcastInDim S50000x128 ![0, 1] bcast_S1x128_S50000x128_0_1 : (⟨S1x128, .f32⟩ : BufTy).Contents (Elt F) → (⟨S50000x128, .f32⟩ : BufTy).Contents (Elt F)),
    StableHlo.binary main_v196 main_v194 main_v197 (mulf : (⟨S50000x128, .f32⟩ : BufTy).Contents (Elt F) → (⟨S50000x128, .f32⟩ : BufTy).Contents (Elt F) → (⟨S50000x128, .f32⟩ : BufTy).Contents (Elt F)),
    StableHlo.nullary main_cst_29 (constant S_ .f32 0x3727C5AC#32),
    StableHlo.unary main_cst_29 main_v198 (broadcastInDim S1x128 ![] bcast_S_S1x128 : (⟨S_, .f32⟩ : BufTy).Contents (Elt F) → (⟨S1x128, .f32⟩ : BufTy).Contents (Elt F)),
    StableHlo.binary main_v192 main_v198 main_v199 (addf : (⟨S1x128, .f32⟩ : BufTy).Contents (Elt F) → (⟨S1x128, .f32⟩ : BufTy).Contents (Elt F) → (⟨S1x128, .f32⟩ : BufTy).Contents (Elt F)),
    StableHlo.unary main_v199 main_v200 (Host.rsqrt : (⟨S1x128, .f32⟩ : BufTy).Contents (Elt F) → (⟨S1x128, .f32⟩ : BufTy).Contents (Elt F)),
    StableHlo.unary main_v200 main_v201 (broadcastInDim S50000x128 ![0, 1] bcast_S1x128_S50000x128_0_1 : (⟨S1x128, .f32⟩ : BufTy).Contents (Elt F) → (⟨S50000x128, .f32⟩ : BufTy).Contents (Elt F)),
    StableHlo.binary main_v197 main_v201 main_v202 (mulf : (⟨S50000x128, .f32⟩ : BufTy).Contents (Elt F) → (⟨S50000x128, .f32⟩ : BufTy).Contents (Elt F) → (⟨S50000x128, .f32⟩ : BufTy).Contents (Elt F)),
    StableHlo.unary main_v187 main_v203 (broadcastInDim S1x128 ![1] bcast_S128_S1x128_1 : (⟨S128, .f32⟩ : BufTy).Contents (Elt F) → (⟨S1x128, .f32⟩ : BufTy).Contents (Elt F)),
    StableHlo.unary main_v203 main_v204 (broadcastInDim S50000x128 ![0, 1] bcast_S1x128_S50000x128_0_1 : (⟨S1x128, .f32⟩ : BufTy).Contents (Elt F) → (⟨S50000x128, .f32⟩ : BufTy).Contents (Elt F)),
    StableHlo.binary main_v202 main_v204 main_v205 (addf : (⟨S50000x128, .f32⟩ : BufTy).Contents (Elt F) → (⟨S50000x128, .f32⟩ : BufTy).Contents (Elt F) → (⟨S50000x128, .f32⟩ : BufTy).Contents (Elt F)),
    StableHlo.TRef.nullary main_call11.cst (constant S_ .f32 0x00000000#32),
    StableHlo.TRef.unary main_call11.cst main_call11.v0 (broadcastInDim S50000x128 ![] bcast_S_S50000x128),
    StableHlo.TRef.binary (.of main_v205) main_call11.v0 main_call11.v1 maximumf,
    StableHlo.binary main_v105 main_v206 main_v207 (addf : (⟨S50000x128, .f32⟩ : BufTy).Contents (Elt F) → (⟨S50000x128, .f32⟩ : BufTy).Contents (Elt F) → (⟨S50000x128, .f32⟩ : BufTy).Contents (Elt F)) ]

set_option maxRecDepth 65536 in
theorem part3_eq (c : Dev nD) : main_part3 (F := F) c = seq ops3 := by
  simp only [main_part3, fn_var.body, fn_where.body, fn_relu.body, seq, bind_assoc, pure_bind]
  rfl

theorem ops3_keep : (ops3 : List (HloOp τ sig (Elt F))).Forall fun op => ∀ b ∈ op.writes, ∃ r : Ref sig .tc, b = Proc.devRef .tc r ∧ r ∉ args := by
  simp only [List.Forall, nullary_writes, unary_writes, binary_writes, ternary_writes, reshape_writes, Finset.mem_singleton, forall_eq]
  repeat' apply And.intro
  all_goals exact ⟨_, rfl, by decide⟩

theorem ops3_sub : (ops3 : List (HloOp τ sig (Elt F))).Forall fun op => op.bufs ⊆ tcRefs τ sig :=
  ⟨unary_bufs_sub .., reshape_bufs_sub .., unary_bufs_sub .., unary_bufs_sub .., binary_bufs_sub .., unary_bufs_sub .., reshape_bufs_sub .., unary_bufs_sub .., reshape_bufs_sub .., nullary_bufs_sub .., binary_bufs_sub .., unary_bufs_sub .., nullary_bufs_sub .., unary_bufs_sub .., binary_bufs_sub .., nullary_bufs_sub .., nullary_bufs_sub .., binary_bufs_sub .., unary_bufs_sub .., nullary_bufs_sub .., unary_bufs_sub .., binary_bufs_sub .., unary_bufs_sub .., binary_bufs_sub .., binary_bufs_sub .., unary_bufs_sub .., nullary_bufs_sub .., binary_bufs_sub .., nullary_bufs_sub .., binary_bufs_sub .., unary_bufs_sub .., unary_bufs_sub .., binary_bufs_sub .., nullary_bufs_sub .., binary_bufs_sub .., nullary_bufs_sub .., unary_bufs_sub .., unary_bufs_sub .., ternary_bufs_sub .., unary_bufs_sub .., binary_bufs_sub .., unary_bufs_sub .., unary_bufs_sub .., binary_bufs_sub .., nullary_bufs_sub .., unary_bufs_sub .., binary_bufs_sub .., unary_bufs_sub .., unary_bufs_sub .., binary_bufs_sub .., unary_bufs_sub .., unary_bufs_sub .., binary_bufs_sub .., nullary_bufs_sub .., unary_bufs_sub .., binary_bufs_sub .., unary_bufs_sub .., reshape_bufs_sub .., unary_bufs_sub .., reshape_bufs_sub .., nullary_bufs_sub .., binary_bufs_sub .., unary_bufs_sub .., nullary_bufs_sub .., unary_bufs_sub .., binary_bufs_sub .., nullary_bufs_sub .., nullary_bufs_sub .., binary_bufs_sub .., unary_bufs_sub .., nullary_bufs_sub .., unary_bufs_sub .., binary_bufs_sub .., unary_bufs_sub .., binary_bufs_sub .., binary_bufs_sub .., unary_bufs_sub .., nullary_bufs_sub .., binary_bufs_sub .., nullary_bufs_sub .., binary_bufs_sub .., unary_bufs_sub .., unary_bufs_sub .., binary_bufs_sub .., nullary_bufs_sub .., binary_bufs_sub .., nullary_bufs_sub .., unary_bufs_sub .., unary_bufs_sub .., ternary_bufs_sub .., unary_bufs_sub .., binary_bufs_sub .., unary_bufs_sub .., unary_bufs_sub .., binary_bufs_sub .., nullary_bufs_sub .., unary_bufs_sub .., binary_bufs_sub .., unary_bufs_sub .., unary_bufs_sub .., binary_bufs_sub .., unary_bufs_sub .., unary_bufs_sub .., binary_bufs_sub .., nullary_bufs_sub .., unary_bufs_sub .., binary_bufs_sub .., binary_bufs_sub ..⟩

theorem ops3_fresh : (ops3 : List (HloOp τ sig (Elt F))).Forall fun op => op.fresh = ∅ := by
  simp only [List.Forall]; repeat' constructor

/-- The operations of window 4, calls written out. -/
abbrev ops4 : List (HloOp τ sig (Elt F)) :=
  [ StableHlo.nullary main_c_30 (constantI S_ 32 0#32),
    StableHlo.unary main_c_30 main_v208 (broadcastInDim S1600000 ![] bcast_S_S1600000 : (⟨S_, .i32⟩ : BufTy).Contents (Elt F) → (⟨S1600000, .i32⟩ : BufTy).Contents (Elt F)),
    StableHlo.binary main_arg1 main_v208 main_v209 (cmpi .slt : (⟨S1600000, .i32⟩ : BufTy).Contents (Elt F) → (⟨S1600000, .i32⟩ : BufTy).Contents (Elt F) → (⟨S1600000, .i1⟩ : BufTy).Contents (Elt F)),
    StableHlo.nullary main_c_31 (constantI S_ 32 50000#32),
    StableHlo.unary main_c_31 main_v210 (broadcastInDim S1600000 ![] bcast_S_S1600000 : (⟨S_, .i32⟩ : BufTy).Contents (Elt F) → (⟨S1600000, .i32⟩ : BufTy).Contents (Elt F)),
    StableHlo.binary main_arg1 main_v210 main_v211 (addi : (⟨S1600000, .i32⟩ : BufTy).Contents (Elt F) → (⟨S1600000, .i32⟩ : BufTy).Contents (Elt F) → (⟨S1600000, .i32⟩ : BufTy).Contents (Elt F)),
    StableHlo.ternary main_v209 main_v211 main_arg1 main_v212 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    StableHlo.unary main_v212 main_v213 (broadcastInDim S1600000x1 ![0] bcast_S1600000_S1600000x1_0 : (⟨S1600000, .i32⟩ : BufTy).Contents (Elt F) → (⟨S1600000x1, .i32⟩ : BufTy).Contents (Elt F)),
    StableHlo.binary main_v207 main_v213 main_v214 ((fun x i => Host.gather gather_S50000x128_S1600000x1_S1600000x128_1_0_n_n_0_1_1128 x i) : (⟨S50000x128, .f32⟩ : BufTy).Contents (Elt F) → (⟨S1600000x1, .i32⟩ : BufTy).Contents (Elt F) → (⟨S1600000x128, .f32⟩ : BufTy).Contents (Elt F)),
    StableHlo.nullary main_cst_32 (constant S_ .f32 0x00000000#32),
    StableHlo.unary main_cst_32 main_v215 (broadcastInDim S50000x128 ![] bcast_S_S50000x128 : (⟨S_, .f32⟩ : BufTy).Contents (Elt F) → (⟨S50000x128, .f32⟩ : BufTy).Contents (Elt F)),
    StableHlo.unary main_arg2 main_v216 (broadcastInDim S1600000x1 ![0] bcast_S1600000_S1600000x1_0 : (⟨S1600000, .i32⟩ : BufTy).Contents (Elt F) → (⟨S1600000x1, .i32⟩ : BufTy).Contents (Elt F)),
    StableHlo.ternary main_v215 main_v216 main_v214 main_v217 ((fun x i u => Host.scatterAdd scatter_S50000x128_S1600000x1_S1600000x128_1_0_0_1 x i u) : (⟨S50000x128, .f32⟩ : BufTy).Contents (Elt F) → (⟨S1600000x1, .i32⟩ : BufTy).Contents (Elt F) → (⟨S1600000x128, .f32⟩ : BufTy).Contents (Elt F) → (⟨S50000x128, .f32⟩ : BufTy).Contents (Elt F)),
    StableHlo.unary main_arg5 main_v218 ((extractStridedSlice S1 ![2] · slices_S4_S1_2) : (⟨S4, .f32⟩ : BufTy).Contents (Elt F) → (⟨S1, .f32⟩ : BufTy).Contents (Elt F)),
    StableHlo.reshape main_v218 main_v219 rfl shapeCasts_S1_S_,
    StableHlo.nullary main_cst_33 (constant S_ .f32 0x3F800000#32),
    StableHlo.binary main_cst_33 main_v219 main_v220 (addf : (⟨S_, .f32⟩ : BufTy).Contents (Elt F) → (⟨S_, .f32⟩ : BufTy).Contents (Elt F) → (⟨S_, .f32⟩ : BufTy).Contents (Elt F)),
    StableHlo.unary main_v220 main_v221 (broadcastInDim S50000x128 ![] bcast_S_S50000x128 : (⟨S_, .f32⟩ : BufTy).Contents (Elt F) → (⟨S50000x128, .f32⟩ : BufTy).Contents (Elt F)),
    StableHlo.binary main_v221 main_v207 main_v222 (mulf : (⟨S50000x128, .f32⟩ : BufTy).Contents (Elt F) → (⟨S50000x128, .f32⟩ : BufTy).Contents (Elt F) → (⟨S50000x128, .f32⟩ : BufTy).Contents (Elt F)),
    StableHlo.binary main_v222 main_v217 main_v223 (addf : (⟨S50000x128, .f32⟩ : BufTy).Contents (Elt F) → (⟨S50000x128, .f32⟩ : BufTy).Contents (Elt F) → (⟨S50000x128, .f32⟩ : BufTy).Contents (Elt F)),
    StableHlo.unary main_arg6 main_v224 ((extractStridedSlice S1x128x128 ![2, 0, 0] · slices_S4x128x128_S1x128x128_2_0_0) : (⟨S4x128x128, .f32⟩ : BufTy).Contents (Elt F) → (⟨S1x128x128, .f32⟩ : BufTy).Contents (Elt F)),
    StableHlo.reshape main_v224 main_v225 rfl shapeCasts_S1x128x128_S128x128,
    StableHlo.binary main_v223 main_v225 main_v226 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    StableHlo.unary main_arg7 main_v227 ((extractStridedSlice S1x128 ![2, 0] · slices_S4x128_S1x128_2_0) : (⟨S4x128, .f32⟩ : BufTy).Contents (Elt F) → (⟨S1x128, .f32⟩ : BufTy).Contents (Elt F)),
    StableHlo.reshape main_v227 main_v228 rfl shapeCasts_S1x128_S128,
    StableHlo.unary main_v228 main_v229 (broadcastInDim S1x128 ![1] bcast_S128_S1x128_1 : (⟨S128, .f32⟩ : BufTy).Contents (Elt F) → (⟨S1x128, .f32⟩ : BufTy).Contents (Elt F)),
    StableHlo.unary main_v229 main_v230 (broadcastInDim S50000x128 ![0, 1] bcast_S1x128_S50000x128_0_1 : (⟨S1x128, .f32⟩ : BufTy).Contents (Elt F) → (⟨S50000x128, .f32⟩ : BufTy).Contents (Elt F)),
    StableHlo.binary main_v226 main_v230 main_v231 (addf : (⟨S50000x128, .f32⟩ : BufTy).Contents (Elt F) → (⟨S50000x128, .f32⟩ : BufTy).Contents (Elt F) → (⟨S50000x128, .f32⟩ : BufTy).Contents (Elt F)),
    StableHlo.unary main_arg8 main_v232 ((extractStridedSlice S1x128 ![2, 0] · slices_S4x128_S1x128_2_0) : (⟨S4x128, .f32⟩ : BufTy).Contents (Elt F) → (⟨S1x128, .f32⟩ : BufTy).Contents (Elt F)),
    StableHlo.reshape main_v232 main_v233 rfl shapeCasts_S1x128_S128,
    StableHlo.unary main_arg9 main_v234 ((extractStridedSlice S1x128 ![2, 0] · slices_S4x128_S1x128_2_0) : (⟨S4x128, .f32⟩ : BufTy).Contents (Elt F) → (⟨S1x128, .f32⟩ : BufTy).Contents (Elt F)),
    StableHlo.reshape main_v234 main_v235 rfl shapeCasts_S1x128_S128,
    StableHlo.nullary main_cst_34 (constant S_ .f32 0x00000000#32),
    StableHlo.binary main_v231 main_cst_34 main_v236 ((fun x v => Host.reduceAdd x v reducesTo_S50000x128_S128_d0 h_S_) : (⟨S50000x128, .f32⟩ : BufTy).Contents (Elt F) → (⟨S_, .f32⟩ : BufTy).Contents (Elt F) → (⟨S128, .f32⟩ : BufTy).Contents (Elt F)),
    StableHlo.unary main_v236 main_v237 (broadcastInDim S1x128 ![1] bcast_S128_S1x128_1 : (⟨S128, .f32⟩ : BufTy).Contents (Elt F) → (⟨S1x128, .f32⟩ : BufTy).Contents (Elt F)),
    StableHlo.nullary main_cst_35 (constant S_ .f32 0x47435000#32),
    StableHlo.unary main_cst_35 main_v238 (broadcastInDim S1x128 ![] bcast_S_S1x128 : (⟨S_, .f32⟩ : BufTy).Contents (Elt F) → (⟨S1x128, .f32⟩ : BufTy).Contents (Elt F)),
    StableHlo.binary main_v237 main_v238 main_v239 (Host.divf : (⟨S1x128, .f32⟩ : BufTy).Contents (Elt F) → (⟨S1x128, .f32⟩ : BufTy).Contents (Elt F) → (⟨S1x128, .f32⟩ : BufTy).Contents (Elt F)),
    StableHlo.nullary main_c_36 (constantI S_ 32 0#32),
    StableHlo.TRef.nullary main_call12.cst (constant S_ .f32 0x00000000#32),
    StableHlo.TRef.binary (.of main_v231) main_call12.cst main_call12.v0 (fun x v => Host.reduceAdd x v reducesTo_S50000x128_S128_d0 h_S_),
    StableHlo.TRef.unary main_call12.v0 main_call12.v1 (broadcastInDim S1x128 ![1] bcast_S128_S1x128_1),
    StableHlo.TRef.nullary main_call12.cst_0 (constant S_ .f32 0x47435000#32),
    StableHlo.TRef.unary main_call12.cst_0 main_call12.v2 (broadcastInDim S1x128 ![] bcast_S_S1x128),
    StableHlo.TRef.binary main_call12.v1 main_call12.v2 main_call12.v3 Host.divf,
    StableHlo.TRef.unary main_call12.v3 main_call12.v4 (broadcastInDim S50000x128 ![0, 1] bcast_S1x128_S50000x128_0_1),
    StableHlo.TRef.binary (.of main_v231) main_call12.v4 main_call12.v5 subf,
    StableHlo.TRef.binary main_call12.v5 main_call12.v5 main_call12.v6 mulf,
    StableHlo.TRef.unary (.of main_c_36) main_call12.v7 (sitofp .f32),
    StableHlo.TRef.nullary main_call12.cst_1 (constant S_ .f32 0x47435000#32),
    StableHlo.TRef.binary main_call12.cst_1 main_call12.v7 main_call12.v8 subf,
    StableHlo.TRef.nullary main_call12.cst_2 (constant S_ .f32 0x00000000#32),
    StableHlo.TRef.binary main_call12.v6 main_call12.cst_2 main_call12.v9 (fun x v => Host.reduceAdd x v reducesTo_S50000x128_S128_d0 h_S_),
    StableHlo.TRef.unary main_call12.v9 main_call12.v10 (broadcastInDim S1x128 ![1] bcast_S128_S1x128_1),
    StableHlo.TRef.unary main_call12.v8 main_call12.v11 (broadcastInDim S1x128 ![] bcast_S_S1x128),
    StableHlo.TRef.binary main_call12.v10 main_call12.v11 main_call12.v12 Host.divf,
    StableHlo.TRef.nullary main_call12.cst_3 (constant S_ .f32 0x00000000#32),
    StableHlo.TRef.binary main_call12.v8 main_call12.cst_3 main_call12.v13 (cmpf .ogt),
    StableHlo.TRef.nullary main_call12.cst_4 (constant S_ .f32 0x7FC00000#32),
    StableHlo.TRef.unary main_call12.cst_4 main_call12.call0.v0 id,
    StableHlo.TRef.unary main_call12.call0.v0 main_call12.call0.v1 (broadcastInDim S1x128 ![] bcast_S_S1x128),
    StableHlo.TRef.ternary main_call12.v13 main_call12.v12 main_call12.call0.v1 main_call12.call0.v2 (fun p a b => select (broadcastInDim S1x128 ![] bcast_S_S1x128 p) a b),
    StableHlo.unary main_v239 main_v241 (broadcastInDim S50000x128 ![0, 1] bcast_S1x128_S50000x128_0_1 : (⟨S1x128, .f32⟩ : BufTy).Contents (Elt F) → (⟨S50000x128, .f32⟩ : BufTy).Contents (Elt F)),
    StableHlo.binary main_v231 main_v241 main_v242 (subf : (⟨S50000x128, .f32⟩ : BufTy).Contents (Elt F) → (⟨S50000x128, .f32⟩ : BufTy).Contents (Elt F) → (⟨S50000x128, .f32⟩ : BufTy).Contents (Elt F)),
    StableHlo.unary main_v233 main_v243 (broadcastInDim S1x128 ![1] bcast_S128_S1x128_1 : (⟨S128, .f32⟩ : BufTy).Contents (Elt F) → (⟨S1x128, .f32⟩ : BufTy).Contents (Elt F)),
    StableHlo.unary main_v243 main_v244 (broadcastInDim S50000x128 ![0, 1] bcast_S1x128_S50000x128_0_1 : (⟨S1x128, .f32⟩ : BufTy).Contents (Elt F) → (⟨S50000x128, .f32⟩ : BufTy).Contents (Elt F)),
    StableHlo.binary main_v244 main_v242 main_v245 (mulf : (⟨S50000x128, .f32⟩ : BufTy).Contents (Elt F) → (⟨S50000x128, .f32⟩ : BufTy).Contents (Elt F) → (⟨S50000x128, .f32⟩ : BufTy).Contents (Elt F)),
    StableHlo.nullary main_cst_37 (constant S_ .f32 0x3727C5AC#32),
    StableHlo.unary main_cst_37 main_v246 (broadcastInDim S1x128 ![] bcast_S_S1x128 : (⟨S_, .f32⟩ : BufTy).Contents (Elt F) → (⟨S1x128, .f32⟩ : BufTy).Contents (Elt F)),
    StableHlo.binary main_v240 main_v246 main_v247 (addf : (⟨S1x128, .f32⟩ : BufTy).Contents (Elt F) → (⟨S1x128, .f32⟩ : BufTy).Contents (Elt F) → (⟨S1x128, .f32⟩ : BufTy).Contents (Elt F)),
    StableHlo.unary main_v247 main_v248 (Host.rsqrt : (⟨S1x128, .f32⟩ : BufTy).Contents (Elt F) → (⟨S1x128, .f32⟩ : BufTy).Contents (Elt F)),
    StableHlo.unary main_v248 main_v249 (broadcastInDim S50000x128 ![0, 1] bcast_S1x128_S50000x128_0_1 : (⟨S1x128, .f32⟩ : BufTy).Contents (Elt F) → (⟨S50000x128, .f32⟩ : BufTy).Contents (Elt F)),
    StableHlo.binary main_v245 main_v249 main_v250 (mulf : (⟨S50000x128, .f32⟩ : BufTy).Contents (Elt F) → (⟨S50000x128, .f32⟩ : BufTy).Contents (Elt F) → (⟨S50000x128, .f32⟩ : BufTy).Contents (Elt F)),
    StableHlo.unary main_v235 main_v251 (broadcastInDim S1x128 ![1] bcast_S128_S1x128_1 : (⟨S128, .f32⟩ : BufTy).Contents (Elt F) → (⟨S1x128, .f32⟩ : BufTy).Contents (Elt F)),
    StableHlo.unary main_v251 main_v252 (broadcastInDim S50000x128 ![0, 1] bcast_S1x128_S50000x128_0_1 : (⟨S1x128, .f32⟩ : BufTy).Contents (Elt F) → (⟨S50000x128, .f32⟩ : BufTy).Contents (Elt F)),
    StableHlo.binary main_v250 main_v252 main_v253 (addf : (⟨S50000x128, .f32⟩ : BufTy).Contents (Elt F) → (⟨S50000x128, .f32⟩ : BufTy).Contents (Elt F) → (⟨S50000x128, .f32⟩ : BufTy).Contents (Elt F)),
    StableHlo.TRef.nullary main_call13.cst (constant S_ .f32 0x00000000#32),
    StableHlo.TRef.unary main_call13.cst main_call13.v0 (broadcastInDim S50000x128 ![] bcast_S_S50000x128),
    StableHlo.TRef.binary (.of main_v253) main_call13.v0 main_call13.v1 maximumf,
    StableHlo.unary main_arg10 main_v255 ((extractStridedSlice S1x128x128 ![2, 0, 0] · slices_S4x128x128_S1x128x128_2_0_0) : (⟨S4x128x128, .f32⟩ : BufTy).Contents (Elt F) → (⟨S1x128x128, .f32⟩ : BufTy).Contents (Elt F)),
    StableHlo.reshape main_v255 main_v256 rfl shapeCasts_S1x128x128_S128x128,
    StableHlo.binary main_v254 main_v256 main_v257 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    StableHlo.unary main_arg11 main_v258 ((extractStridedSlice S1x128 ![2, 0] · slices_S4x128_S1x128_2_0) : (⟨S4x128, .f32⟩ : BufTy).Contents (Elt F) → (⟨S1x128, .f32⟩ : BufTy).Contents (Elt F)),
    StableHlo.reshape main_v258 main_v259 rfl shapeCasts_S1x128_S128 ]

set_option maxRecDepth 65536 in
theorem part4_eq (c : Dev nD) : main_part4 (F := F) c = seq ops4 := by
  simp only [main_part4, fn_var.body, fn_where.body, fn_relu.body, seq, bind_assoc, pure_bind]
  rfl

theorem ops4_keep : (ops4 : List (HloOp τ sig (Elt F))).Forall fun op => ∀ b ∈ op.writes, ∃ r : Ref sig .tc, b = Proc.devRef .tc r ∧ r ∉ args := by
  simp only [List.Forall, nullary_writes, unary_writes, binary_writes, ternary_writes, reshape_writes, Finset.mem_singleton, forall_eq]
  repeat' apply And.intro
  all_goals exact ⟨_, rfl, by decide⟩

theorem ops4_sub : (ops4 : List (HloOp τ sig (Elt F))).Forall fun op => op.bufs ⊆ tcRefs τ sig :=
  ⟨nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., unary_bufs_sub .., ternary_bufs_sub .., unary_bufs_sub .., reshape_bufs_sub .., nullary_bufs_sub .., binary_bufs_sub .., unary_bufs_sub .., binary_bufs_sub .., binary_bufs_sub .., unary_bufs_sub .., reshape_bufs_sub .., binary_bufs_sub .., unary_bufs_sub .., reshape_bufs_sub .., unary_bufs_sub .., unary_bufs_sub .., binary_bufs_sub .., unary_bufs_sub .., reshape_bufs_sub .., unary_bufs_sub .., reshape_bufs_sub .., nullary_bufs_sub .., binary_bufs_sub .., unary_bufs_sub .., nullary_bufs_sub .., unary_bufs_sub .., binary_bufs_sub .., nullary_bufs_sub .., nullary_bufs_sub .., binary_bufs_sub .., unary_bufs_sub .., nullary_bufs_sub .., unary_bufs_sub .., binary_bufs_sub .., unary_bufs_sub .., binary_bufs_sub .., binary_bufs_sub .., unary_bufs_sub .., nullary_bufs_sub .., binary_bufs_sub .., nullary_bufs_sub .., binary_bufs_sub .., unary_bufs_sub .., unary_bufs_sub .., binary_bufs_sub .., nullary_bufs_sub .., binary_bufs_sub .., nullary_bufs_sub .., unary_bufs_sub .., unary_bufs_sub .., ternary_bufs_sub .., unary_bufs_sub .., binary_bufs_sub .., unary_bufs_sub .., unary_bufs_sub .., binary_bufs_sub .., nullary_bufs_sub .., unary_bufs_sub .., binary_bufs_sub .., unary_bufs_sub .., unary_bufs_sub .., binary_bufs_sub .., unary_bufs_sub .., unary_bufs_sub .., binary_bufs_sub .., nullary_bufs_sub .., unary_bufs_sub .., binary_bufs_sub .., unary_bufs_sub .., reshape_bufs_sub .., binary_bufs_sub .., unary_bufs_sub .., reshape_bufs_sub ..⟩

theorem ops4_fresh : (ops4 : List (HloOp τ sig (Elt F))).Forall fun op => op.fresh = ∅ := by
  simp only [List.Forall]; repeat' constructor

/-- The operations of window 5, calls written out. -/
abbrev ops5 : List (HloOp τ sig (Elt F)) :=
  [ StableHlo.unary main_v259 main_v260 (broadcastInDim S1x128 ![1] bcast_S128_S1x128_1 : (⟨S128, .f32⟩ : BufTy).Contents (Elt F) → (⟨S1x128, .f32⟩ : BufTy).Contents (Elt F)),
    StableHlo.unary main_v260 main_v261 (broadcastInDim S50000x128 ![0, 1] bcast_S1x128_S50000x128_0_1 : (⟨S1x128, .f32⟩ : BufTy).Contents (Elt F) → (⟨S50000x128, .f32⟩ : BufTy).Contents (Elt F)),
    StableHlo.binary main_v257 main_v261 main_v262 (addf : (⟨S50000x128, .f32⟩ : BufTy).Contents (Elt F) → (⟨S50000x128, .f32⟩ : BufTy).Contents (Elt F) → (⟨S50000x128, .f32⟩ : BufTy).Contents (Elt F)),
    StableHlo.unary main_arg12 main_v263 ((extractStridedSlice S1x128 ![2, 0] · slices_S4x128_S1x128_2_0) : (⟨S4x128, .f32⟩ : BufTy).Contents (Elt F) → (⟨S1x128, .f32⟩ : BufTy).Contents (Elt F)),
    StableHlo.reshape main_v263 main_v264 rfl shapeCasts_S1x128_S128,
    StableHlo.unary main_arg13 main_v265 ((extractStridedSlice S1x128 ![2, 0] · slices_S4x128_S1x128_2_0) : (⟨S4x128, .f32⟩ : BufTy).Contents (Elt F) → (⟨S1x128, .f32⟩ : BufTy).Contents (Elt F)),
    StableHlo.reshape main_v265 main_v266 rfl shapeCasts_S1x128_S128,
    StableHlo.nullary main_cst_38 (constant S_ .f32 0x00000000#32),
    StableHlo.binary main_v262 main_cst_38 main_v267 ((fun x v => Host.reduceAdd x v reducesTo_S50000x128_S128_d0 h_S_) : (⟨S50000x128, .f32⟩ : BufTy).Contents (Elt F) → (⟨S_, .f32⟩ : BufTy).Contents (Elt F) → (⟨S128, .f32⟩ : BufTy).Contents (Elt F)),
    StableHlo.unary main_v267 main_v268 (broadcastInDim S1x128 ![1] bcast_S128_S1x128_1 : (⟨S128, .f32⟩ : BufTy).Contents (Elt F) → (⟨S1x128, .f32⟩ : BufTy).Contents (Elt F)),
    StableHlo.nullary main_cst_39 (constant S_ .f32 0x47435000#32),
    StableHlo.unary main_cst_39 main_v269 (broadcastInDim S1x128 ![] bcast_S_S1x128 : (⟨S_, .f32⟩ : BufTy).Contents (Elt F) → (⟨S1x128, .f32⟩ : BufTy).Contents (Elt F)),
    StableHlo.binary main_v268 main_v269 main_v270 (Host.divf : (⟨S1x128, .f32⟩ : BufTy).Contents (Elt F) → (⟨S1x128, .f32⟩ : BufTy).Contents (Elt F) → (⟨S1x128, .f32⟩ : BufTy).Contents (Elt F)),
    StableHlo.nullary main_c_40 (constantI S_ 32 0#32),
    StableHlo.TRef.nullary main_call14.cst (constant S_ .f32 0x00000000#32),
    StableHlo.TRef.binary (.of main_v262) main_call14.cst main_call14.v0 (fun x v => Host.reduceAdd x v reducesTo_S50000x128_S128_d0 h_S_),
    StableHlo.TRef.unary main_call14.v0 main_call14.v1 (broadcastInDim S1x128 ![1] bcast_S128_S1x128_1),
    StableHlo.TRef.nullary main_call14.cst_0 (constant S_ .f32 0x47435000#32),
    StableHlo.TRef.unary main_call14.cst_0 main_call14.v2 (broadcastInDim S1x128 ![] bcast_S_S1x128),
    StableHlo.TRef.binary main_call14.v1 main_call14.v2 main_call14.v3 Host.divf,
    StableHlo.TRef.unary main_call14.v3 main_call14.v4 (broadcastInDim S50000x128 ![0, 1] bcast_S1x128_S50000x128_0_1),
    StableHlo.TRef.binary (.of main_v262) main_call14.v4 main_call14.v5 subf,
    StableHlo.TRef.binary main_call14.v5 main_call14.v5 main_call14.v6 mulf,
    StableHlo.TRef.unary (.of main_c_40) main_call14.v7 (sitofp .f32),
    StableHlo.TRef.nullary main_call14.cst_1 (constant S_ .f32 0x47435000#32),
    StableHlo.TRef.binary main_call14.cst_1 main_call14.v7 main_call14.v8 subf,
    StableHlo.TRef.nullary main_call14.cst_2 (constant S_ .f32 0x00000000#32),
    StableHlo.TRef.binary main_call14.v6 main_call14.cst_2 main_call14.v9 (fun x v => Host.reduceAdd x v reducesTo_S50000x128_S128_d0 h_S_),
    StableHlo.TRef.unary main_call14.v9 main_call14.v10 (broadcastInDim S1x128 ![1] bcast_S128_S1x128_1),
    StableHlo.TRef.unary main_call14.v8 main_call14.v11 (broadcastInDim S1x128 ![] bcast_S_S1x128),
    StableHlo.TRef.binary main_call14.v10 main_call14.v11 main_call14.v12 Host.divf,
    StableHlo.TRef.nullary main_call14.cst_3 (constant S_ .f32 0x00000000#32),
    StableHlo.TRef.binary main_call14.v8 main_call14.cst_3 main_call14.v13 (cmpf .ogt),
    StableHlo.TRef.nullary main_call14.cst_4 (constant S_ .f32 0x7FC00000#32),
    StableHlo.TRef.unary main_call14.cst_4 main_call14.call0.v0 id,
    StableHlo.TRef.unary main_call14.call0.v0 main_call14.call0.v1 (broadcastInDim S1x128 ![] bcast_S_S1x128),
    StableHlo.TRef.ternary main_call14.v13 main_call14.v12 main_call14.call0.v1 main_call14.call0.v2 (fun p a b => select (broadcastInDim S1x128 ![] bcast_S_S1x128 p) a b),
    StableHlo.unary main_v270 main_v272 (broadcastInDim S50000x128 ![0, 1] bcast_S1x128_S50000x128_0_1 : (⟨S1x128, .f32⟩ : BufTy).Contents (Elt F) → (⟨S50000x128, .f32⟩ : BufTy).Contents (Elt F)),
    StableHlo.binary main_v262 main_v272 main_v273 (subf : (⟨S50000x128, .f32⟩ : BufTy).Contents (Elt F) → (⟨S50000x128, .f32⟩ : BufTy).Contents (Elt F) → (⟨S50000x128, .f32⟩ : BufTy).Contents (Elt F)),
    StableHlo.unary main_v264 main_v274 (broadcastInDim S1x128 ![1] bcast_S128_S1x128_1 : (⟨S128, .f32⟩ : BufTy).Contents (Elt F) → (⟨S1x128, .f32⟩ : BufTy).Contents (Elt F)),
    StableHlo.unary main_v274 main_v275 (broadcastInDim S50000x128 ![0, 1] bcast_S1x128_S50000x128_0_1 : (⟨S1x128, .f32⟩ : BufTy).Contents (Elt F) → (⟨S50000x128, .f32⟩ : BufTy).Contents (Elt F)),
    StableHlo.binary main_v275 main_v273 main_v276 (mulf : (⟨S50000x128, .f32⟩ : BufTy).Contents (Elt F) → (⟨S50000x128, .f32⟩ : BufTy).Contents (Elt F) → (⟨S50000x128, .f32⟩ : BufTy).Contents (Elt F)),
    StableHlo.nullary main_cst_41 (constant S_ .f32 0x3727C5AC#32),
    StableHlo.unary main_cst_41 main_v277 (broadcastInDim S1x128 ![] bcast_S_S1x128 : (⟨S_, .f32⟩ : BufTy).Contents (Elt F) → (⟨S1x128, .f32⟩ : BufTy).Contents (Elt F)),
    StableHlo.binary main_v271 main_v277 main_v278 (addf : (⟨S1x128, .f32⟩ : BufTy).Contents (Elt F) → (⟨S1x128, .f32⟩ : BufTy).Contents (Elt F) → (⟨S1x128, .f32⟩ : BufTy).Contents (Elt F)),
    StableHlo.unary main_v278 main_v279 (Host.rsqrt : (⟨S1x128, .f32⟩ : BufTy).Contents (Elt F) → (⟨S1x128, .f32⟩ : BufTy).Contents (Elt F)),
    StableHlo.unary main_v279 main_v280 (broadcastInDim S50000x128 ![0, 1] bcast_S1x128_S50000x128_0_1 : (⟨S1x128, .f32⟩ : BufTy).Contents (Elt F) → (⟨S50000x128, .f32⟩ : BufTy).Contents (Elt F)),
    StableHlo.binary main_v276 main_v280 main_v281 (mulf : (⟨S50000x128, .f32⟩ : BufTy).Contents (Elt F) → (⟨S50000x128, .f32⟩ : BufTy).Contents (Elt F) → (⟨S50000x128, .f32⟩ : BufTy).Contents (Elt F)),
    StableHlo.unary main_v266 main_v282 (broadcastInDim S1x128 ![1] bcast_S128_S1x128_1 : (⟨S128, .f32⟩ : BufTy).Contents (Elt F) → (⟨S1x128, .f32⟩ : BufTy).Contents (Elt F)),
    StableHlo.unary main_v282 main_v283 (broadcastInDim S50000x128 ![0, 1] bcast_S1x128_S50000x128_0_1 : (⟨S1x128, .f32⟩ : BufTy).Contents (Elt F) → (⟨S50000x128, .f32⟩ : BufTy).Contents (Elt F)),
    StableHlo.binary main_v281 main_v283 main_v284 (addf : (⟨S50000x128, .f32⟩ : BufTy).Contents (Elt F) → (⟨S50000x128, .f32⟩ : BufTy).Contents (Elt F) → (⟨S50000x128, .f32⟩ : BufTy).Contents (Elt F)),
    StableHlo.TRef.nullary main_call15.cst (constant S_ .f32 0x00000000#32),
    StableHlo.TRef.unary main_call15.cst main_call15.v0 (broadcastInDim S50000x128 ![] bcast_S_S50000x128),
    StableHlo.TRef.binary (.of main_v284) main_call15.v0 main_call15.v1 maximumf,
    StableHlo.unary main_arg14 main_v286 ((extractStridedSlice S1x128 ![2, 0] · slices_S4x128_S1x128_2_0) : (⟨S4x128, .f32⟩ : BufTy).Contents (Elt F) → (⟨S1x128, .f32⟩ : BufTy).Contents (Elt F)),
    StableHlo.reshape main_v286 main_v287 rfl shapeCasts_S1x128_S128,
    StableHlo.unary main_arg15 main_v288 ((extractStridedSlice S1x128 ![2, 0] · slices_S4x128_S1x128_2_0) : (⟨S4x128, .f32⟩ : BufTy).Contents (Elt F) → (⟨S1x128, .f32⟩ : BufTy).Contents (Elt F)),
    StableHlo.reshape main_v288 main_v289 rfl shapeCasts_S1x128_S128,
    StableHlo.nullary main_cst_42 (constant S_ .f32 0x00000000#32),
    StableHlo.binary main_v285 main_cst_42 main_v290 ((fun x v => Host.reduceAdd x v reducesTo_S50000x128_S128_d0 h_S_) : (⟨S50000x128, .f32⟩ : BufTy).Contents (Elt F) → (⟨S_, .f32⟩ : BufTy).Contents (Elt F) → (⟨S128, .f32⟩ : BufTy).Contents (Elt F)),
    StableHlo.unary main_v290 main_v291 (broadcastInDim S1x128 ![1] bcast_S128_S1x128_1 : (⟨S128, .f32⟩ : BufTy).Contents (Elt F) → (⟨S1x128, .f32⟩ : BufTy).Contents (Elt F)),
    StableHlo.nullary main_cst_43 (constant S_ .f32 0x47435000#32),
    StableHlo.unary main_cst_43 main_v292 (broadcastInDim S1x128 ![] bcast_S_S1x128 : (⟨S_, .f32⟩ : BufTy).Contents (Elt F) → (⟨S1x128, .f32⟩ : BufTy).Contents (Elt F)),
    StableHlo.binary main_v291 main_v292 main_v293 (Host.divf : (⟨S1x128, .f32⟩ : BufTy).Contents (Elt F) → (⟨S1x128, .f32⟩ : BufTy).Contents (Elt F) → (⟨S1x128, .f32⟩ : BufTy).Contents (Elt F)),
    StableHlo.nullary main_c_44 (constantI S_ 32 0#32),
    StableHlo.TRef.nullary main_call16.cst (constant S_ .f32 0x00000000#32),
    StableHlo.TRef.binary (.of main_v285) main_call16.cst main_call16.v0 (fun x v => Host.reduceAdd x v reducesTo_S50000x128_S128_d0 h_S_),
    StableHlo.TRef.unary main_call16.v0 main_call16.v1 (broadcastInDim S1x128 ![1] bcast_S128_S1x128_1),
    StableHlo.TRef.nullary main_call16.cst_0 (constant S_ .f32 0x47435000#32),
    StableHlo.TRef.unary main_call16.cst_0 main_call16.v2 (broadcastInDim S1x128 ![] bcast_S_S1x128),
    StableHlo.TRef.binary main_call16.v1 main_call16.v2 main_call16.v3 Host.divf,
    StableHlo.TRef.unary main_call16.v3 main_call16.v4 (broadcastInDim S50000x128 ![0, 1] bcast_S1x128_S50000x128_0_1),
    StableHlo.TRef.binary (.of main_v285) main_call16.v4 main_call16.v5 subf,
    StableHlo.TRef.binary main_call16.v5 main_call16.v5 main_call16.v6 mulf,
    StableHlo.TRef.unary (.of main_c_44) main_call16.v7 (sitofp .f32),
    StableHlo.TRef.nullary main_call16.cst_1 (constant S_ .f32 0x47435000#32),
    StableHlo.TRef.binary main_call16.cst_1 main_call16.v7 main_call16.v8 subf,
    StableHlo.TRef.nullary main_call16.cst_2 (constant S_ .f32 0x00000000#32),
    StableHlo.TRef.binary main_call16.v6 main_call16.cst_2 main_call16.v9 (fun x v => Host.reduceAdd x v reducesTo_S50000x128_S128_d0 h_S_),
    StableHlo.TRef.unary main_call16.v9 main_call16.v10 (broadcastInDim S1x128 ![1] bcast_S128_S1x128_1),
    StableHlo.TRef.unary main_call16.v8 main_call16.v11 (broadcastInDim S1x128 ![] bcast_S_S1x128),
    StableHlo.TRef.binary main_call16.v10 main_call16.v11 main_call16.v12 Host.divf,
    StableHlo.TRef.nullary main_call16.cst_3 (constant S_ .f32 0x00000000#32),
    StableHlo.TRef.binary main_call16.v8 main_call16.cst_3 main_call16.v13 (cmpf .ogt),
    StableHlo.TRef.nullary main_call16.cst_4 (constant S_ .f32 0x7FC00000#32),
    StableHlo.TRef.unary main_call16.cst_4 main_call16.call0.v0 id,
    StableHlo.TRef.unary main_call16.call0.v0 main_call16.call0.v1 (broadcastInDim S1x128 ![] bcast_S_S1x128),
    StableHlo.TRef.ternary main_call16.v13 main_call16.v12 main_call16.call0.v1 main_call16.call0.v2 (fun p a b => select (broadcastInDim S1x128 ![] bcast_S_S1x128 p) a b),
    StableHlo.unary main_v293 main_v295 (broadcastInDim S50000x128 ![0, 1] bcast_S1x128_S50000x128_0_1 : (⟨S1x128, .f32⟩ : BufTy).Contents (Elt F) → (⟨S50000x128, .f32⟩ : BufTy).Contents (Elt F)),
    StableHlo.binary main_v285 main_v295 main_v296 (subf : (⟨S50000x128, .f32⟩ : BufTy).Contents (Elt F) → (⟨S50000x128, .f32⟩ : BufTy).Contents (Elt F) → (⟨S50000x128, .f32⟩ : BufTy).Contents (Elt F)),
    StableHlo.unary main_v287 main_v297 (broadcastInDim S1x128 ![1] bcast_S128_S1x128_1 : (⟨S128, .f32⟩ : BufTy).Contents (Elt F) → (⟨S1x128, .f32⟩ : BufTy).Contents (Elt F)),
    StableHlo.unary main_v297 main_v298 (broadcastInDim S50000x128 ![0, 1] bcast_S1x128_S50000x128_0_1 : (⟨S1x128, .f32⟩ : BufTy).Contents (Elt F) → (⟨S50000x128, .f32⟩ : BufTy).Contents (Elt F)),
    StableHlo.binary main_v298 main_v296 main_v299 (mulf : (⟨S50000x128, .f32⟩ : BufTy).Contents (Elt F) → (⟨S50000x128, .f32⟩ : BufTy).Contents (Elt F) → (⟨S50000x128, .f32⟩ : BufTy).Contents (Elt F)),
    StableHlo.nullary main_cst_45 (constant S_ .f32 0x3727C5AC#32),
    StableHlo.unary main_cst_45 main_v300 (broadcastInDim S1x128 ![] bcast_S_S1x128 : (⟨S_, .f32⟩ : BufTy).Contents (Elt F) → (⟨S1x128, .f32⟩ : BufTy).Contents (Elt F)),
    StableHlo.binary main_v294 main_v300 main_v301 (addf : (⟨S1x128, .f32⟩ : BufTy).Contents (Elt F) → (⟨S1x128, .f32⟩ : BufTy).Contents (Elt F) → (⟨S1x128, .f32⟩ : BufTy).Contents (Elt F)),
    StableHlo.unary main_v301 main_v302 (Host.rsqrt : (⟨S1x128, .f32⟩ : BufTy).Contents (Elt F) → (⟨S1x128, .f32⟩ : BufTy).Contents (Elt F)),
    StableHlo.unary main_v302 main_v303 (broadcastInDim S50000x128 ![0, 1] bcast_S1x128_S50000x128_0_1 : (⟨S1x128, .f32⟩ : BufTy).Contents (Elt F) → (⟨S50000x128, .f32⟩ : BufTy).Contents (Elt F)),
    StableHlo.binary main_v299 main_v303 main_v304 (mulf : (⟨S50000x128, .f32⟩ : BufTy).Contents (Elt F) → (⟨S50000x128, .f32⟩ : BufTy).Contents (Elt F) → (⟨S50000x128, .f32⟩ : BufTy).Contents (Elt F)),
    StableHlo.unary main_v289 main_v305 (broadcastInDim S1x128 ![1] bcast_S128_S1x128_1 : (⟨S128, .f32⟩ : BufTy).Contents (Elt F) → (⟨S1x128, .f32⟩ : BufTy).Contents (Elt F)),
    StableHlo.unary main_v305 main_v306 (broadcastInDim S50000x128 ![0, 1] bcast_S1x128_S50000x128_0_1 : (⟨S1x128, .f32⟩ : BufTy).Contents (Elt F) → (⟨S50000x128, .f32⟩ : BufTy).Contents (Elt F)),
    StableHlo.binary main_v304 main_v306 main_v307 (addf : (⟨S50000x128, .f32⟩ : BufTy).Contents (Elt F) → (⟨S50000x128, .f32⟩ : BufTy).Contents (Elt F) → (⟨S50000x128, .f32⟩ : BufTy).Contents (Elt F)),
    StableHlo.TRef.nullary main_call17.cst (constant S_ .f32 0x00000000#32),
    StableHlo.TRef.unary main_call17.cst main_call17.v0 (broadcastInDim S50000x128 ![] bcast_S_S50000x128),
    StableHlo.TRef.binary (.of main_v307) main_call17.v0 main_call17.v1 maximumf,
    StableHlo.binary main_v207 main_v308 main_v309 (addf : (⟨S50000x128, .f32⟩ : BufTy).Contents (Elt F) → (⟨S50000x128, .f32⟩ : BufTy).Contents (Elt F) → (⟨S50000x128, .f32⟩ : BufTy).Contents (Elt F)),
    StableHlo.nullary main_c_46 (constantI S_ 32 0#32),
    StableHlo.unary main_c_46 main_v310 (broadcastInDim S1600000 ![] bcast_S_S1600000 : (⟨S_, .i32⟩ : BufTy).Contents (Elt F) → (⟨S1600000, .i32⟩ : BufTy).Contents (Elt F)) ]

set_option maxRecDepth 65536 in
theorem part5_eq (c : Dev nD) : main_part5 (F := F) c = seq ops5 := by
  simp only [main_part5, fn_var.body, fn_where.body, fn_relu.body, seq, bind_assoc, pure_bind]
  rfl

theorem ops5_keep : (ops5 : List (HloOp τ sig (Elt F))).Forall fun op => ∀ b ∈ op.writes, ∃ r : Ref sig .tc, b = Proc.devRef .tc r ∧ r ∉ args := by
  simp only [List.Forall, nullary_writes, unary_writes, binary_writes, ternary_writes, reshape_writes, Finset.mem_singleton, forall_eq]
  repeat' apply And.intro
  all_goals exact ⟨_, rfl, by decide⟩

theorem ops5_sub : (ops5 : List (HloOp τ sig (Elt F))).Forall fun op => op.bufs ⊆ tcRefs τ sig :=
  ⟨unary_bufs_sub .., unary_bufs_sub .., binary_bufs_sub .., unary_bufs_sub .., reshape_bufs_sub .., unary_bufs_sub .., reshape_bufs_sub .., nullary_bufs_sub .., binary_bufs_sub .., unary_bufs_sub .., nullary_bufs_sub .., unary_bufs_sub .., binary_bufs_sub .., nullary_bufs_sub .., nullary_bufs_sub .., binary_bufs_sub .., unary_bufs_sub .., nullary_bufs_sub .., unary_bufs_sub .., binary_bufs_sub .., unary_bufs_sub .., binary_bufs_sub .., binary_bufs_sub .., unary_bufs_sub .., nullary_bufs_sub .., binary_bufs_sub .., nullary_bufs_sub .., binary_bufs_sub .., unary_bufs_sub .., unary_bufs_sub .., binary_bufs_sub .., nullary_bufs_sub .., binary_bufs_sub .., nullary_bufs_sub .., unary_bufs_sub .., unary_bufs_sub .., ternary_bufs_sub .., unary_bufs_sub .., binary_bufs_sub .., unary_bufs_sub .., unary_bufs_sub .., binary_bufs_sub .., nullary_bufs_sub .., unary_bufs_sub .., binary_bufs_sub .., unary_bufs_sub .., unary_bufs_sub .., binary_bufs_sub .., unary_bufs_sub .., unary_bufs_sub .., binary_bufs_sub .., nullary_bufs_sub .., unary_bufs_sub .., binary_bufs_sub .., unary_bufs_sub .., reshape_bufs_sub .., unary_bufs_sub .., reshape_bufs_sub .., nullary_bufs_sub .., binary_bufs_sub .., unary_bufs_sub .., nullary_bufs_sub .., unary_bufs_sub .., binary_bufs_sub .., nullary_bufs_sub .., nullary_bufs_sub .., binary_bufs_sub .., unary_bufs_sub .., nullary_bufs_sub .., unary_bufs_sub .., binary_bufs_sub .., unary_bufs_sub .., binary_bufs_sub .., binary_bufs_sub .., unary_bufs_sub .., nullary_bufs_sub .., binary_bufs_sub .., nullary_bufs_sub .., binary_bufs_sub .., unary_bufs_sub .., unary_bufs_sub .., binary_bufs_sub .., nullary_bufs_sub .., binary_bufs_sub .., nullary_bufs_sub .., unary_bufs_sub .., unary_bufs_sub .., ternary_bufs_sub .., unary_bufs_sub .., binary_bufs_sub .., unary_bufs_sub .., unary_bufs_sub .., binary_bufs_sub .., nullary_bufs_sub .., unary_bufs_sub .., binary_bufs_sub .., unary_bufs_sub .., unary_bufs_sub .., binary_bufs_sub .., unary_bufs_sub .., unary_bufs_sub .., binary_bufs_sub .., nullary_bufs_sub .., unary_bufs_sub .., binary_bufs_sub .., binary_bufs_sub .., nullary_bufs_sub .., unary_bufs_sub ..⟩

theorem ops5_fresh : (ops5 : List (HloOp τ sig (Elt F))).Forall fun op => op.fresh = ∅ := by
  simp only [List.Forall]; repeat' constructor

/-- The operations of window 6, calls written out. -/
abbrev ops6 : List (HloOp τ sig (Elt F)) :=
  [ StableHlo.binary main_arg1 main_v310 main_v311 (cmpi .slt : (⟨S1600000, .i32⟩ : BufTy).Contents (Elt F) → (⟨S1600000, .i32⟩ : BufTy).Contents (Elt F) → (⟨S1600000, .i1⟩ : BufTy).Contents (Elt F)),
    StableHlo.nullary main_c_47 (constantI S_ 32 50000#32),
    StableHlo.unary main_c_47 main_v312 (broadcastInDim S1600000 ![] bcast_S_S1600000 : (⟨S_, .i32⟩ : BufTy).Contents (Elt F) → (⟨S1600000, .i32⟩ : BufTy).Contents (Elt F)),
    StableHlo.binary main_arg1 main_v312 main_v313 (addi : (⟨S1600000, .i32⟩ : BufTy).Contents (Elt F) → (⟨S1600000, .i32⟩ : BufTy).Contents (Elt F) → (⟨S1600000, .i32⟩ : BufTy).Contents (Elt F)),
    StableHlo.ternary main_v311 main_v313 main_arg1 main_v314 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    StableHlo.unary main_v314 main_v315 (broadcastInDim S1600000x1 ![0] bcast_S1600000_S1600000x1_0 : (⟨S1600000, .i32⟩ : BufTy).Contents (Elt F) → (⟨S1600000x1, .i32⟩ : BufTy).Contents (Elt F)),
    StableHlo.binary main_v309 main_v315 main_v316 ((fun x i => Host.gather gather_S50000x128_S1600000x1_S1600000x128_1_0_n_n_0_1_1128 x i) : (⟨S50000x128, .f32⟩ : BufTy).Contents (Elt F) → (⟨S1600000x1, .i32⟩ : BufTy).Contents (Elt F) → (⟨S1600000x128, .f32⟩ : BufTy).Contents (Elt F)),
    StableHlo.nullary main_cst_48 (constant S_ .f32 0x00000000#32),
    StableHlo.unary main_cst_48 main_v317 (broadcastInDim S50000x128 ![] bcast_S_S50000x128 : (⟨S_, .f32⟩ : BufTy).Contents (Elt F) → (⟨S50000x128, .f32⟩ : BufTy).Contents (Elt F)),
    StableHlo.unary main_arg2 main_v318 (broadcastInDim S1600000x1 ![0] bcast_S1600000_S1600000x1_0 : (⟨S1600000, .i32⟩ : BufTy).Contents (Elt F) → (⟨S1600000x1, .i32⟩ : BufTy).Contents (Elt F)),
    StableHlo.ternary main_v317 main_v318 main_v316 main_v319 ((fun x i u => Host.scatterAdd scatter_S50000x128_S1600000x1_S1600000x128_1_0_0_1 x i u) : (⟨S50000x128, .f32⟩ : BufTy).Contents (Elt F) → (⟨S1600000x1, .i32⟩ : BufTy).Contents (Elt F) → (⟨S1600000x128, .f32⟩ : BufTy).Contents (Elt F) → (⟨S50000x128, .f32⟩ : BufTy).Contents (Elt F)),
    StableHlo.unary main_arg5 main_v320 ((extractStridedSlice S1 ![3] · slices_S4_S1_3) : (⟨S4, .f32⟩ : BufTy).Contents (Elt F) → (⟨S1, .f32⟩ : BufTy).Contents (Elt F)),
    StableHlo.reshape main_v320 main_v321 rfl shapeCasts_S1_S_,
    StableHlo.nullary main_cst_49 (constant S_ .f32 0x3F800000#32),
    StableHlo.binary main_cst_49 main_v321 main_v322 (addf : (⟨S_, .f32⟩ : BufTy).Contents (Elt F) → (⟨S_, .f32⟩ : BufTy).Contents (Elt F) → (⟨S_, .f32⟩ : BufTy).Contents (Elt F)),
    StableHlo.unary main_v322 main_v323 (broadcastInDim S50000x128 ![] bcast_S_S50000x128 : (⟨S_, .f32⟩ : BufTy).Contents (Elt F) → (⟨S50000x128, .f32⟩ : BufTy).Contents (Elt F)),
    StableHlo.binary main_v323 main_v309 main_v324 (mulf : (⟨S50000x128, .f32⟩ : BufTy).Contents (Elt F) → (⟨S50000x128, .f32⟩ : BufTy).Contents (Elt F) → (⟨S50000x128, .f32⟩ : BufTy).Contents (Elt F)),
    StableHlo.binary main_v324 main_v319 main_v325 (addf : (⟨S50000x128, .f32⟩ : BufTy).Contents (Elt F) → (⟨S50000x128, .f32⟩ : BufTy).Contents (Elt F) → (⟨S50000x128, .f32⟩ : BufTy).Contents (Elt F)),
    StableHlo.unary main_arg6 main_v326 ((extractStridedSlice S1x128x128 ![3, 0, 0] · slices_S4x128x128_S1x128x128_3_0_0) : (⟨S4x128x128, .f32⟩ : BufTy).Contents (Elt F) → (⟨S1x128x128, .f32⟩ : BufTy).Contents (Elt F)),
    StableHlo.reshape main_v326 main_v327 rfl shapeCasts_S1x128x128_S128x128,
    StableHlo.binary main_v325 main_v327 main_v328 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    StableHlo.unary main_arg7 main_v329 ((extractStridedSlice S1x128 ![3, 0] · slices_S4x128_S1x128_3_0) : (⟨S4x128, .f32⟩ : BufTy).Contents (Elt F) → (⟨S1x128, .f32⟩ : BufTy).Contents (Elt F)),
    StableHlo.reshape main_v329 main_v330 rfl shapeCasts_S1x128_S128,
    StableHlo.unary main_v330 main_v331 (broadcastInDim S1x128 ![1] bcast_S128_S1x128_1 : (⟨S128, .f32⟩ : BufTy).Contents (Elt F) → (⟨S1x128, .f32⟩ : BufTy).Contents (Elt F)),
    StableHlo.unary main_v331 main_v332 (broadcastInDim S50000x128 ![0, 1] bcast_S1x128_S50000x128_0_1 : (⟨S1x128, .f32⟩ : BufTy).Contents (Elt F) → (⟨S50000x128, .f32⟩ : BufTy).Contents (Elt F)),
    StableHlo.binary main_v328 main_v332 main_v333 (addf : (⟨S50000x128, .f32⟩ : BufTy).Contents (Elt F) → (⟨S50000x128, .f32⟩ : BufTy).Contents (Elt F) → (⟨S50000x128, .f32⟩ : BufTy).Contents (Elt F)),
    StableHlo.unary main_arg8 main_v334 ((extractStridedSlice S1x128 ![3, 0] · slices_S4x128_S1x128_3_0) : (⟨S4x128, .f32⟩ : BufTy).Contents (Elt F) → (⟨S1x128, .f32⟩ : BufTy).Contents (Elt F)),
    StableHlo.reshape main_v334 main_v335 rfl shapeCasts_S1x128_S128,
    StableHlo.unary main_arg9 main_v336 ((extractStridedSlice S1x128 ![3, 0] · slices_S4x128_S1x128_3_0) : (⟨S4x128, .f32⟩ : BufTy).Contents (Elt F) → (⟨S1x128, .f32⟩ : BufTy).Contents (Elt F)),
    StableHlo.reshape main_v336 main_v337 rfl shapeCasts_S1x128_S128,
    StableHlo.nullary main_cst_50 (constant S_ .f32 0x00000000#32),
    StableHlo.binary main_v333 main_cst_50 main_v338 ((fun x v => Host.reduceAdd x v reducesTo_S50000x128_S128_d0 h_S_) : (⟨S50000x128, .f32⟩ : BufTy).Contents (Elt F) → (⟨S_, .f32⟩ : BufTy).Contents (Elt F) → (⟨S128, .f32⟩ : BufTy).Contents (Elt F)),
    StableHlo.unary main_v338 main_v339 (broadcastInDim S1x128 ![1] bcast_S128_S1x128_1 : (⟨S128, .f32⟩ : BufTy).Contents (Elt F) → (⟨S1x128, .f32⟩ : BufTy).Contents (Elt F)),
    StableHlo.nullary main_cst_51 (constant S_ .f32 0x47435000#32),
    StableHlo.unary main_cst_51 main_v340 (broadcastInDim S1x128 ![] bcast_S_S1x128 : (⟨S_, .f32⟩ : BufTy).Contents (Elt F) → (⟨S1x128, .f32⟩ : BufTy).Contents (Elt F)),
    StableHlo.binary main_v339 main_v340 main_v341 (Host.divf : (⟨S1x128, .f32⟩ : BufTy).Contents (Elt F) → (⟨S1x128, .f32⟩ : BufTy).Contents (Elt F) → (⟨S1x128, .f32⟩ : BufTy).Contents (Elt F)),
    StableHlo.nullary main_c_52 (constantI S_ 32 0#32),
    StableHlo.TRef.nullary main_call18.cst (constant S_ .f32 0x00000000#32),
    StableHlo.TRef.binary (.of main_v333) main_call18.cst main_call18.v0 (fun x v => Host.reduceAdd x v reducesTo_S50000x128_S128_d0 h_S_),
    StableHlo.TRef.unary main_call18.v0 main_call18.v1 (broadcastInDim S1x128 ![1] bcast_S128_S1x128_1),
    StableHlo.TRef.nullary main_call18.cst_0 (constant S_ .f32 0x47435000#32),
    StableHlo.TRef.unary main_call18.cst_0 main_call18.v2 (broadcastInDim S1x128 ![] bcast_S_S1x128),
    StableHlo.TRef.binary main_call18.v1 main_call18.v2 main_call18.v3 Host.divf,
    StableHlo.TRef.unary main_call18.v3 main_call18.v4 (broadcastInDim S50000x128 ![0, 1] bcast_S1x128_S50000x128_0_1),
    StableHlo.TRef.binary (.of main_v333) main_call18.v4 main_call18.v5 subf,
    StableHlo.TRef.binary main_call18.v5 main_call18.v5 main_call18.v6 mulf,
    StableHlo.TRef.unary (.of main_c_52) main_call18.v7 (sitofp .f32),
    StableHlo.TRef.nullary main_call18.cst_1 (constant S_ .f32 0x47435000#32),
    StableHlo.TRef.binary main_call18.cst_1 main_call18.v7 main_call18.v8 subf,
    StableHlo.TRef.nullary main_call18.cst_2 (constant S_ .f32 0x00000000#32),
    StableHlo.TRef.binary main_call18.v6 main_call18.cst_2 main_call18.v9 (fun x v => Host.reduceAdd x v reducesTo_S50000x128_S128_d0 h_S_),
    StableHlo.TRef.unary main_call18.v9 main_call18.v10 (broadcastInDim S1x128 ![1] bcast_S128_S1x128_1),
    StableHlo.TRef.unary main_call18.v8 main_call18.v11 (broadcastInDim S1x128 ![] bcast_S_S1x128),
    StableHlo.TRef.binary main_call18.v10 main_call18.v11 main_call18.v12 Host.divf,
    StableHlo.TRef.nullary main_call18.cst_3 (constant S_ .f32 0x00000000#32),
    StableHlo.TRef.binary main_call18.v8 main_call18.cst_3 main_call18.v13 (cmpf .ogt),
    StableHlo.TRef.nullary main_call18.cst_4 (constant S_ .f32 0x7FC00000#32),
    StableHlo.TRef.unary main_call18.cst_4 main_call18.call0.v0 id,
    StableHlo.TRef.unary main_call18.call0.v0 main_call18.call0.v1 (broadcastInDim S1x128 ![] bcast_S_S1x128),
    StableHlo.TRef.ternary main_call18.v13 main_call18.v12 main_call18.call0.v1 main_call18.call0.v2 (fun p a b => select (broadcastInDim S1x128 ![] bcast_S_S1x128 p) a b),
    StableHlo.unary main_v341 main_v343 (broadcastInDim S50000x128 ![0, 1] bcast_S1x128_S50000x128_0_1 : (⟨S1x128, .f32⟩ : BufTy).Contents (Elt F) → (⟨S50000x128, .f32⟩ : BufTy).Contents (Elt F)),
    StableHlo.binary main_v333 main_v343 main_v344 (subf : (⟨S50000x128, .f32⟩ : BufTy).Contents (Elt F) → (⟨S50000x128, .f32⟩ : BufTy).Contents (Elt F) → (⟨S50000x128, .f32⟩ : BufTy).Contents (Elt F)),
    StableHlo.unary main_v335 main_v345 (broadcastInDim S1x128 ![1] bcast_S128_S1x128_1 : (⟨S128, .f32⟩ : BufTy).Contents (Elt F) → (⟨S1x128, .f32⟩ : BufTy).Contents (Elt F)),
    StableHlo.unary main_v345 main_v346 (broadcastInDim S50000x128 ![0, 1] bcast_S1x128_S50000x128_0_1 : (⟨S1x128, .f32⟩ : BufTy).Contents (Elt F) → (⟨S50000x128, .f32⟩ : BufTy).Contents (Elt F)),
    StableHlo.binary main_v346 main_v344 main_v347 (mulf : (⟨S50000x128, .f32⟩ : BufTy).Contents (Elt F) → (⟨S50000x128, .f32⟩ : BufTy).Contents (Elt F) → (⟨S50000x128, .f32⟩ : BufTy).Contents (Elt F)),
    StableHlo.nullary main_cst_53 (constant S_ .f32 0x3727C5AC#32),
    StableHlo.unary main_cst_53 main_v348 (broadcastInDim S1x128 ![] bcast_S_S1x128 : (⟨S_, .f32⟩ : BufTy).Contents (Elt F) → (⟨S1x128, .f32⟩ : BufTy).Contents (Elt F)),
    StableHlo.binary main_v342 main_v348 main_v349 (addf : (⟨S1x128, .f32⟩ : BufTy).Contents (Elt F) → (⟨S1x128, .f32⟩ : BufTy).Contents (Elt F) → (⟨S1x128, .f32⟩ : BufTy).Contents (Elt F)),
    StableHlo.unary main_v349 main_v350 (Host.rsqrt : (⟨S1x128, .f32⟩ : BufTy).Contents (Elt F) → (⟨S1x128, .f32⟩ : BufTy).Contents (Elt F)),
    StableHlo.unary main_v350 main_v351 (broadcastInDim S50000x128 ![0, 1] bcast_S1x128_S50000x128_0_1 : (⟨S1x128, .f32⟩ : BufTy).Contents (Elt F) → (⟨S50000x128, .f32⟩ : BufTy).Contents (Elt F)),
    StableHlo.binary main_v347 main_v351 main_v352 (mulf : (⟨S50000x128, .f32⟩ : BufTy).Contents (Elt F) → (⟨S50000x128, .f32⟩ : BufTy).Contents (Elt F) → (⟨S50000x128, .f32⟩ : BufTy).Contents (Elt F)),
    StableHlo.unary main_v337 main_v353 (broadcastInDim S1x128 ![1] bcast_S128_S1x128_1 : (⟨S128, .f32⟩ : BufTy).Contents (Elt F) → (⟨S1x128, .f32⟩ : BufTy).Contents (Elt F)),
    StableHlo.unary main_v353 main_v354 (broadcastInDim S50000x128 ![0, 1] bcast_S1x128_S50000x128_0_1 : (⟨S1x128, .f32⟩ : BufTy).Contents (Elt F) → (⟨S50000x128, .f32⟩ : BufTy).Contents (Elt F)),
    StableHlo.binary main_v352 main_v354 main_v355 (addf : (⟨S50000x128, .f32⟩ : BufTy).Contents (Elt F) → (⟨S50000x128, .f32⟩ : BufTy).Contents (Elt F) → (⟨S50000x128, .f32⟩ : BufTy).Contents (Elt F)),
    StableHlo.TRef.nullary main_call19.cst (constant S_ .f32 0x00000000#32),
    StableHlo.TRef.unary main_call19.cst main_call19.v0 (broadcastInDim S50000x128 ![] bcast_S_S50000x128),
    StableHlo.TRef.binary (.of main_v355) main_call19.v0 main_call19.v1 maximumf,
    StableHlo.unary main_arg10 main_v357 ((extractStridedSlice S1x128x128 ![3, 0, 0] · slices_S4x128x128_S1x128x128_3_0_0) : (⟨S4x128x128, .f32⟩ : BufTy).Contents (Elt F) → (⟨S1x128x128, .f32⟩ : BufTy).Contents (Elt F)),
    StableHlo.reshape main_v357 main_v358 rfl shapeCasts_S1x128x128_S128x128,
    StableHlo.binary main_v356 main_v358 main_v359 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    StableHlo.unary main_arg11 main_v360 ((extractStridedSlice S1x128 ![3, 0] · slices_S4x128_S1x128_3_0) : (⟨S4x128, .f32⟩ : BufTy).Contents (Elt F) → (⟨S1x128, .f32⟩ : BufTy).Contents (Elt F)),
    StableHlo.reshape main_v360 main_v361 rfl shapeCasts_S1x128_S128,
    StableHlo.unary main_v361 main_v362 (broadcastInDim S1x128 ![1] bcast_S128_S1x128_1 : (⟨S128, .f32⟩ : BufTy).Contents (Elt F) → (⟨S1x128, .f32⟩ : BufTy).Contents (Elt F)),
    StableHlo.unary main_v362 main_v363 (broadcastInDim S50000x128 ![0, 1] bcast_S1x128_S50000x128_0_1 : (⟨S1x128, .f32⟩ : BufTy).Contents (Elt F) → (⟨S50000x128, .f32⟩ : BufTy).Contents (Elt F)) ]

set_option maxRecDepth 65536 in
theorem part6_eq (c : Dev nD) : main_part6 (F := F) c = seq ops6 := by
  simp only [main_part6, fn_var.body, fn_where.body, fn_relu.body, seq, bind_assoc, pure_bind]
  rfl

theorem ops6_keep : (ops6 : List (HloOp τ sig (Elt F))).Forall fun op => ∀ b ∈ op.writes, ∃ r : Ref sig .tc, b = Proc.devRef .tc r ∧ r ∉ args := by
  simp only [List.Forall, nullary_writes, unary_writes, binary_writes, ternary_writes, reshape_writes, Finset.mem_singleton, forall_eq]
  repeat' apply And.intro
  all_goals exact ⟨_, rfl, by decide⟩

theorem ops6_sub : (ops6 : List (HloOp τ sig (Elt F))).Forall fun op => op.bufs ⊆ tcRefs τ sig :=
  ⟨binary_bufs_sub .., nullary_bufs_sub .., unary_bufs_sub .., binary_bufs_sub .., ternary_bufs_sub .., unary_bufs_sub .., binary_bufs_sub .., nullary_bufs_sub .., unary_bufs_sub .., unary_bufs_sub .., ternary_bufs_sub .., unary_bufs_sub .., reshape_bufs_sub .., nullary_bufs_sub .., binary_bufs_sub .., unary_bufs_sub .., binary_bufs_sub .., binary_bufs_sub .., unary_bufs_sub .., reshape_bufs_sub .., binary_bufs_sub .., unary_bufs_sub .., reshape_bufs_sub .., unary_bufs_sub .., unary_bufs_sub .., binary_bufs_sub .., unary_bufs_sub .., reshape_bufs_sub .., unary_bufs_sub .., reshape_bufs_sub .., nullary_bufs_sub .., binary_bufs_sub .., unary_bufs_sub .., nullary_bufs_sub .., unary_bufs_sub .., binary_bufs_sub .., nullary_bufs_sub .., nullary_bufs_sub .., binary_bufs_sub .., unary_bufs_sub .., nullary_bufs_sub .., unary_bufs_sub .., binary_bufs_sub .., unary_bufs_sub .., binary_bufs_sub .., binary_bufs_sub .., unary_bufs_sub .., nullary_bufs_sub .., binary_bufs_sub .., nullary_bufs_sub .., binary_bufs_sub .., unary_bufs_sub .., unary_bufs_sub .., binary_bufs_sub .., nullary_bufs_sub .., binary_bufs_sub .., nullary_bufs_sub .., unary_bufs_sub .., unary_bufs_sub .., ternary_bufs_sub .., unary_bufs_sub .., binary_bufs_sub .., unary_bufs_sub .., unary_bufs_sub .., binary_bufs_sub .., nullary_bufs_sub .., unary_bufs_sub .., binary_bufs_sub .., unary_bufs_sub .., unary_bufs_sub .., binary_bufs_sub .., unary_bufs_sub .., unary_bufs_sub .., binary_bufs_sub .., nullary_bufs_sub .., unary_bufs_sub .., binary_bufs_sub .., unary_bufs_sub .., reshape_bufs_sub .., binary_bufs_sub .., unary_bufs_sub .., reshape_bufs_sub .., unary_bufs_sub .., unary_bufs_sub ..⟩

theorem ops6_fresh : (ops6 : List (HloOp τ sig (Elt F))).Forall fun op => op.fresh = ∅ := by
  simp only [List.Forall]; repeat' constructor

/-- The operations of window 7, calls written out. -/
abbrev ops7 : List (HloOp τ sig (Elt F)) :=
  [ StableHlo.binary main_v359 main_v363 main_v364 (addf : (⟨S50000x128, .f32⟩ : BufTy).Contents (Elt F) → (⟨S50000x128, .f32⟩ : BufTy).Contents (Elt F) → (⟨S50000x128, .f32⟩ : BufTy).Contents (Elt F)),
    StableHlo.unary main_arg12 main_v365 ((extractStridedSlice S1x128 ![3, 0] · slices_S4x128_S1x128_3_0) : (⟨S4x128, .f32⟩ : BufTy).Contents (Elt F) → (⟨S1x128, .f32⟩ : BufTy).Contents (Elt F)),
    StableHlo.reshape main_v365 main_v366 rfl shapeCasts_S1x128_S128,
    StableHlo.unary main_arg13 main_v367 ((extractStridedSlice S1x128 ![3, 0] · slices_S4x128_S1x128_3_0) : (⟨S4x128, .f32⟩ : BufTy).Contents (Elt F) → (⟨S1x128, .f32⟩ : BufTy).Contents (Elt F)),
    StableHlo.reshape main_v367 main_v368 rfl shapeCasts_S1x128_S128,
    StableHlo.nullary main_cst_54 (constant S_ .f32 0x00000000#32),
    StableHlo.binary main_v364 main_cst_54 main_v369 ((fun x v => Host.reduceAdd x v reducesTo_S50000x128_S128_d0 h_S_) : (⟨S50000x128, .f32⟩ : BufTy).Contents (Elt F) → (⟨S_, .f32⟩ : BufTy).Contents (Elt F) → (⟨S128, .f32⟩ : BufTy).Contents (Elt F)),
    StableHlo.unary main_v369 main_v370 (broadcastInDim S1x128 ![1] bcast_S128_S1x128_1 : (⟨S128, .f32⟩ : BufTy).Contents (Elt F) → (⟨S1x128, .f32⟩ : BufTy).Contents (Elt F)),
    StableHlo.nullary main_cst_55 (constant S_ .f32 0x47435000#32),
    StableHlo.unary main_cst_55 main_v371 (broadcastInDim S1x128 ![] bcast_S_S1x128 : (⟨S_, .f32⟩ : BufTy).Contents (Elt F) → (⟨S1x128, .f32⟩ : BufTy).Contents (Elt F)),
    StableHlo.binary main_v370 main_v371 main_v372 (Host.divf : (⟨S1x128, .f32⟩ : BufTy).Contents (Elt F) → (⟨S1x128, .f32⟩ : BufTy).Contents (Elt F) → (⟨S1x128, .f32⟩ : BufTy).Contents (Elt F)),
    StableHlo.nullary main_c_56 (constantI S_ 32 0#32),
    StableHlo.TRef.nullary main_call20.cst (constant S_ .f32 0x00000000#32),
    StableHlo.TRef.binary (.of main_v364) main_call20.cst main_call20.v0 (fun x v => Host.reduceAdd x v reducesTo_S50000x128_S128_d0 h_S_),
    StableHlo.TRef.unary main_call20.v0 main_call20.v1 (broadcastInDim S1x128 ![1] bcast_S128_S1x128_1),
    StableHlo.TRef.nullary main_call20.cst_0 (constant S_ .f32 0x47435000#32),
    StableHlo.TRef.unary main_call20.cst_0 main_call20.v2 (broadcastInDim S1x128 ![] bcast_S_S1x128),
    StableHlo.TRef.binary main_call20.v1 main_call20.v2 main_call20.v3 Host.divf,
    StableHlo.TRef.unary main_call20.v3 main_call20.v4 (broadcastInDim S50000x128 ![0, 1] bcast_S1x128_S50000x128_0_1),
    StableHlo.TRef.binary (.of main_v364) main_call20.v4 main_call20.v5 subf,
    StableHlo.TRef.binary main_call20.v5 main_call20.v5 main_call20.v6 mulf,
    StableHlo.TRef.unary (.of main_c_56) main_call20.v7 (sitofp .f32),
    StableHlo.TRef.nullary main_call20.cst_1 (constant S_ .f32 0x47435000#32),
    StableHlo.TRef.binary main_call20.cst_1 main_call20.v7 main_call20.v8 subf,
    StableHlo.TRef.nullary main_call20.cst_2 (constant S_ .f32 0x00000000#32),
    StableHlo.TRef.binary main_call20.v6 main_call20.cst_2 main_call20.v9 (fun x v => Host.reduceAdd x v reducesTo_S50000x128_S128_d0 h_S_),
    StableHlo.TRef.unary main_call20.v9 main_call20.v10 (broadcastInDim S1x128 ![1] bcast_S128_S1x128_1),
    StableHlo.TRef.unary main_call20.v8 main_call20.v11 (broadcastInDim S1x128 ![] bcast_S_S1x128),
    StableHlo.TRef.binary main_call20.v10 main_call20.v11 main_call20.v12 Host.divf,
    StableHlo.TRef.nullary main_call20.cst_3 (constant S_ .f32 0x00000000#32),
    StableHlo.TRef.binary main_call20.v8 main_call20.cst_3 main_call20.v13 (cmpf .ogt),
    StableHlo.TRef.nullary main_call20.cst_4 (constant S_ .f32 0x7FC00000#32),
    StableHlo.TRef.unary main_call20.cst_4 main_call20.call0.v0 id,
    StableHlo.TRef.unary main_call20.call0.v0 main_call20.call0.v1 (broadcastInDim S1x128 ![] bcast_S_S1x128),
    StableHlo.TRef.ternary main_call20.v13 main_call20.v12 main_call20.call0.v1 main_call20.call0.v2 (fun p a b => select (broadcastInDim S1x128 ![] bcast_S_S1x128 p) a b),
    StableHlo.unary main_v372 main_v374 (broadcastInDim S50000x128 ![0, 1] bcast_S1x128_S50000x128_0_1 : (⟨S1x128, .f32⟩ : BufTy).Contents (Elt F) → (⟨S50000x128, .f32⟩ : BufTy).Contents (Elt F)),
    StableHlo.binary main_v364 main_v374 main_v375 (subf : (⟨S50000x128, .f32⟩ : BufTy).Contents (Elt F) → (⟨S50000x128, .f32⟩ : BufTy).Contents (Elt F) → (⟨S50000x128, .f32⟩ : BufTy).Contents (Elt F)),
    StableHlo.unary main_v366 main_v376 (broadcastInDim S1x128 ![1] bcast_S128_S1x128_1 : (⟨S128, .f32⟩ : BufTy).Contents (Elt F) → (⟨S1x128, .f32⟩ : BufTy).Contents (Elt F)),
    StableHlo.unary main_v376 main_v377 (broadcastInDim S50000x128 ![0, 1] bcast_S1x128_S50000x128_0_1 : (⟨S1x128, .f32⟩ : BufTy).Contents (Elt F) → (⟨S50000x128, .f32⟩ : BufTy).Contents (Elt F)),
    StableHlo.binary main_v377 main_v375 main_v378 (mulf : (⟨S50000x128, .f32⟩ : BufTy).Contents (Elt F) → (⟨S50000x128, .f32⟩ : BufTy).Contents (Elt F) → (⟨S50000x128, .f32⟩ : BufTy).Contents (Elt F)),
    StableHlo.nullary main_cst_57 (constant S_ .f32 0x3727C5AC#32),
    StableHlo.unary main_cst_57 main_v379 (broadcastInDim S1x128 ![] bcast_S_S1x128 : (⟨S_, .f32⟩ : BufTy).Contents (Elt F) → (⟨S1x128, .f32⟩ : BufTy).Contents (Elt F)),
    StableHlo.binary main_v373 main_v379 main_v380 (addf : (⟨S1x128, .f32⟩ : BufTy).Contents (Elt F) → (⟨S1x128, .f32⟩ : BufTy).Contents (Elt F) → (⟨S1x128, .f32⟩ : BufTy).Contents (Elt F)),
    StableHlo.unary main_v380 main_v381 (Host.rsqrt : (⟨S1x128, .f32⟩ : BufTy).Contents (Elt F) → (⟨S1x128, .f32⟩ : BufTy).Contents (Elt F)),
    StableHlo.unary main_v381 main_v382 (broadcastInDim S50000x128 ![0, 1] bcast_S1x128_S50000x128_0_1 : (⟨S1x128, .f32⟩ : BufTy).Contents (Elt F) → (⟨S50000x128, .f32⟩ : BufTy).Contents (Elt F)),
    StableHlo.binary main_v378 main_v382 main_v383 (mulf : (⟨S50000x128, .f32⟩ : BufTy).Contents (Elt F) → (⟨S50000x128, .f32⟩ : BufTy).Contents (Elt F) → (⟨S50000x128, .f32⟩ : BufTy).Contents (Elt F)),
    StableHlo.unary main_v368 main_v384 (broadcastInDim S1x128 ![1] bcast_S128_S1x128_1 : (⟨S128, .f32⟩ : BufTy).Contents (Elt F) → (⟨S1x128, .f32⟩ : BufTy).Contents (Elt F)),
    StableHlo.unary main_v384 main_v385 (broadcastInDim S50000x128 ![0, 1] bcast_S1x128_S50000x128_0_1 : (⟨S1x128, .f32⟩ : BufTy).Contents (Elt F) → (⟨S50000x128, .f32⟩ : BufTy).Contents (Elt F)),
    StableHlo.binary main_v383 main_v385 main_v386 (addf : (⟨S50000x128, .f32⟩ : BufTy).Contents (Elt F) → (⟨S50000x128, .f32⟩ : BufTy).Contents (Elt F) → (⟨S50000x128, .f32⟩ : BufTy).Contents (Elt F)),
    StableHlo.TRef.nullary main_call21.cst (constant S_ .f32 0x00000000#32),
    StableHlo.TRef.unary main_call21.cst main_call21.v0 (broadcastInDim S50000x128 ![] bcast_S_S50000x128),
    StableHlo.TRef.binary (.of main_v386) main_call21.v0 main_call21.v1 maximumf,
    StableHlo.unary main_arg14 main_v388 ((extractStridedSlice S1x128 ![3, 0] · slices_S4x128_S1x128_3_0) : (⟨S4x128, .f32⟩ : BufTy).Contents (Elt F) → (⟨S1x128, .f32⟩ : BufTy).Contents (Elt F)),
    StableHlo.reshape main_v388 main_v389 rfl shapeCasts_S1x128_S128,
    StableHlo.unary main_arg15 main_v390 ((extractStridedSlice S1x128 ![3, 0] · slices_S4x128_S1x128_3_0) : (⟨S4x128, .f32⟩ : BufTy).Contents (Elt F) → (⟨S1x128, .f32⟩ : BufTy).Contents (Elt F)),
    StableHlo.reshape main_v390 main_v391 rfl shapeCasts_S1x128_S128,
    StableHlo.nullary main_cst_58 (constant S_ .f32 0x00000000#32),
    StableHlo.binary main_v387 main_cst_58 main_v392 ((fun x v => Host.reduceAdd x v reducesTo_S50000x128_S128_d0 h_S_) : (⟨S50000x128, .f32⟩ : BufTy).Contents (Elt F) → (⟨S_, .f32⟩ : BufTy).Contents (Elt F) → (⟨S128, .f32⟩ : BufTy).Contents (Elt F)),
    StableHlo.unary main_v392 main_v393 (broadcastInDim S1x128 ![1] bcast_S128_S1x128_1 : (⟨S128, .f32⟩ : BufTy).Contents (Elt F) → (⟨S1x128, .f32⟩ : BufTy).Contents (Elt F)),
    StableHlo.nullary main_cst_59 (constant S_ .f32 0x47435000#32),
    StableHlo.unary main_cst_59 main_v394 (broadcastInDim S1x128 ![] bcast_S_S1x128 : (⟨S_, .f32⟩ : BufTy).Contents (Elt F) → (⟨S1x128, .f32⟩ : BufTy).Contents (Elt F)),
    StableHlo.binary main_v393 main_v394 main_v395 (Host.divf : (⟨S1x128, .f32⟩ : BufTy).Contents (Elt F) → (⟨S1x128, .f32⟩ : BufTy).Contents (Elt F) → (⟨S1x128, .f32⟩ : BufTy).Contents (Elt F)),
    StableHlo.nullary main_c_60 (constantI S_ 32 0#32),
    StableHlo.TRef.nullary main_call22.cst (constant S_ .f32 0x00000000#32),
    StableHlo.TRef.binary (.of main_v387) main_call22.cst main_call22.v0 (fun x v => Host.reduceAdd x v reducesTo_S50000x128_S128_d0 h_S_),
    StableHlo.TRef.unary main_call22.v0 main_call22.v1 (broadcastInDim S1x128 ![1] bcast_S128_S1x128_1),
    StableHlo.TRef.nullary main_call22.cst_0 (constant S_ .f32 0x47435000#32),
    StableHlo.TRef.unary main_call22.cst_0 main_call22.v2 (broadcastInDim S1x128 ![] bcast_S_S1x128),
    StableHlo.TRef.binary main_call22.v1 main_call22.v2 main_call22.v3 Host.divf,
    StableHlo.TRef.unary main_call22.v3 main_call22.v4 (broadcastInDim S50000x128 ![0, 1] bcast_S1x128_S50000x128_0_1),
    StableHlo.TRef.binary (.of main_v387) main_call22.v4 main_call22.v5 subf,
    StableHlo.TRef.binary main_call22.v5 main_call22.v5 main_call22.v6 mulf,
    StableHlo.TRef.unary (.of main_c_60) main_call22.v7 (sitofp .f32),
    StableHlo.TRef.nullary main_call22.cst_1 (constant S_ .f32 0x47435000#32),
    StableHlo.TRef.binary main_call22.cst_1 main_call22.v7 main_call22.v8 subf,
    StableHlo.TRef.nullary main_call22.cst_2 (constant S_ .f32 0x00000000#32),
    StableHlo.TRef.binary main_call22.v6 main_call22.cst_2 main_call22.v9 (fun x v => Host.reduceAdd x v reducesTo_S50000x128_S128_d0 h_S_),
    StableHlo.TRef.unary main_call22.v9 main_call22.v10 (broadcastInDim S1x128 ![1] bcast_S128_S1x128_1),
    StableHlo.TRef.unary main_call22.v8 main_call22.v11 (broadcastInDim S1x128 ![] bcast_S_S1x128),
    StableHlo.TRef.binary main_call22.v10 main_call22.v11 main_call22.v12 Host.divf,
    StableHlo.TRef.nullary main_call22.cst_3 (constant S_ .f32 0x00000000#32),
    StableHlo.TRef.binary main_call22.v8 main_call22.cst_3 main_call22.v13 (cmpf .ogt),
    StableHlo.TRef.nullary main_call22.cst_4 (constant S_ .f32 0x7FC00000#32),
    StableHlo.TRef.unary main_call22.cst_4 main_call22.call0.v0 id,
    StableHlo.TRef.unary main_call22.call0.v0 main_call22.call0.v1 (broadcastInDim S1x128 ![] bcast_S_S1x128),
    StableHlo.TRef.ternary main_call22.v13 main_call22.v12 main_call22.call0.v1 main_call22.call0.v2 (fun p a b => select (broadcastInDim S1x128 ![] bcast_S_S1x128 p) a b),
    StableHlo.unary main_v395 main_v397 (broadcastInDim S50000x128 ![0, 1] bcast_S1x128_S50000x128_0_1 : (⟨S1x128, .f32⟩ : BufTy).Contents (Elt F) → (⟨S50000x128, .f32⟩ : BufTy).Contents (Elt F)),
    StableHlo.binary main_v387 main_v397 main_v398 (subf : (⟨S50000x128, .f32⟩ : BufTy).Contents (Elt F) → (⟨S50000x128, .f32⟩ : BufTy).Contents (Elt F) → (⟨S50000x128, .f32⟩ : BufTy).Contents (Elt F)),
    StableHlo.unary main_v389 main_v399 (broadcastInDim S1x128 ![1] bcast_S128_S1x128_1 : (⟨S128, .f32⟩ : BufTy).Contents (Elt F) → (⟨S1x128, .f32⟩ : BufTy).Contents (Elt F)),
    StableHlo.unary main_v399 main_v400 (broadcastInDim S50000x128 ![0, 1] bcast_S1x128_S50000x128_0_1 : (⟨S1x128, .f32⟩ : BufTy).Contents (Elt F) → (⟨S50000x128, .f32⟩ : BufTy).Contents (Elt F)),
    StableHlo.binary main_v400 main_v398 main_v401 (mulf : (⟨S50000x128, .f32⟩ : BufTy).Contents (Elt F) → (⟨S50000x128, .f32⟩ : BufTy).Contents (Elt F) → (⟨S50000x128, .f32⟩ : BufTy).Contents (Elt F)),
    StableHlo.nullary main_cst_61 (constant S_ .f32 0x3727C5AC#32),
    StableHlo.unary main_cst_61 main_v402 (broadcastInDim S1x128 ![] bcast_S_S1x128 : (⟨S_, .f32⟩ : BufTy).Contents (Elt F) → (⟨S1x128, .f32⟩ : BufTy).Contents (Elt F)),
    StableHlo.binary main_v396 main_v402 main_v403 (addf : (⟨S1x128, .f32⟩ : BufTy).Contents (Elt F) → (⟨S1x128, .f32⟩ : BufTy).Contents (Elt F) → (⟨S1x128, .f32⟩ : BufTy).Contents (Elt F)),
    StableHlo.unary main_v403 main_v404 (Host.rsqrt : (⟨S1x128, .f32⟩ : BufTy).Contents (Elt F) → (⟨S1x128, .f32⟩ : BufTy).Contents (Elt F)),
    StableHlo.unary main_v404 main_v405 (broadcastInDim S50000x128 ![0, 1] bcast_S1x128_S50000x128_0_1 : (⟨S1x128, .f32⟩ : BufTy).Contents (Elt F) → (⟨S50000x128, .f32⟩ : BufTy).Contents (Elt F)),
    StableHlo.binary main_v401 main_v405 main_v406 (mulf : (⟨S50000x128, .f32⟩ : BufTy).Contents (Elt F) → (⟨S50000x128, .f32⟩ : BufTy).Contents (Elt F) → (⟨S50000x128, .f32⟩ : BufTy).Contents (Elt F)),
    StableHlo.unary main_v391 main_v407 (broadcastInDim S1x128 ![1] bcast_S128_S1x128_1 : (⟨S128, .f32⟩ : BufTy).Contents (Elt F) → (⟨S1x128, .f32⟩ : BufTy).Contents (Elt F)),
    StableHlo.unary main_v407 main_v408 (broadcastInDim S50000x128 ![0, 1] bcast_S1x128_S50000x128_0_1 : (⟨S1x128, .f32⟩ : BufTy).Contents (Elt F) → (⟨S50000x128, .f32⟩ : BufTy).Contents (Elt F)),
    StableHlo.binary main_v406 main_v408 main_v409 (addf : (⟨S50000x128, .f32⟩ : BufTy).Contents (Elt F) → (⟨S50000x128, .f32⟩ : BufTy).Contents (Elt F) → (⟨S50000x128, .f32⟩ : BufTy).Contents (Elt F)),
    StableHlo.TRef.nullary main_call23.cst (constant S_ .f32 0x00000000#32),
    StableHlo.TRef.unary main_call23.cst main_call23.v0 (broadcastInDim S50000x128 ![] bcast_S_S50000x128),
    StableHlo.TRef.binary (.of main_v409) main_call23.v0 main_call23.v1 maximumf,
    StableHlo.binary main_v309 main_v410 main_v411 (addf : (⟨S50000x128, .f32⟩ : BufTy).Contents (Elt F) → (⟨S50000x128, .f32⟩ : BufTy).Contents (Elt F) → (⟨S50000x128, .f32⟩ : BufTy).Contents (Elt F)) ]

set_option maxRecDepth 65536 in
theorem part7_eq (c : Dev nD) : main_part7 (F := F) c = seq ops7 := by
  simp only [main_part7, fn_var.body, fn_where.body, fn_relu.body, seq, bind_assoc, pure_bind]

theorem ops7_keep : (ops7 : List (HloOp τ sig (Elt F))).Forall fun op => ∀ b ∈ op.writes, ∃ r : Ref sig .tc, b = Proc.devRef .tc r ∧ r ∉ args := by
  simp only [List.Forall, nullary_writes, unary_writes, binary_writes, ternary_writes, reshape_writes, Finset.mem_singleton, forall_eq]
  repeat' apply And.intro
  all_goals exact ⟨_, rfl, by decide⟩

theorem ops7_sub : (ops7 : List (HloOp τ sig (Elt F))).Forall fun op => op.bufs ⊆ tcRefs τ sig :=
  ⟨binary_bufs_sub .., unary_bufs_sub .., reshape_bufs_sub .., unary_bufs_sub .., reshape_bufs_sub .., nullary_bufs_sub .., binary_bufs_sub .., unary_bufs_sub .., nullary_bufs_sub .., unary_bufs_sub .., binary_bufs_sub .., nullary_bufs_sub .., nullary_bufs_sub .., binary_bufs_sub .., unary_bufs_sub .., nullary_bufs_sub .., unary_bufs_sub .., binary_bufs_sub .., unary_bufs_sub .., binary_bufs_sub .., binary_bufs_sub .., unary_bufs_sub .., nullary_bufs_sub .., binary_bufs_sub .., nullary_bufs_sub .., binary_bufs_sub .., unary_bufs_sub .., unary_bufs_sub .., binary_bufs_sub .., nullary_bufs_sub .., binary_bufs_sub .., nullary_bufs_sub .., unary_bufs_sub .., unary_bufs_sub .., ternary_bufs_sub .., unary_bufs_sub .., binary_bufs_sub .., unary_bufs_sub .., unary_bufs_sub .., binary_bufs_sub .., nullary_bufs_sub .., unary_bufs_sub .., binary_bufs_sub .., unary_bufs_sub .., unary_bufs_sub .., binary_bufs_sub .., unary_bufs_sub .., unary_bufs_sub .., binary_bufs_sub .., nullary_bufs_sub .., unary_bufs_sub .., binary_bufs_sub .., unary_bufs_sub .., reshape_bufs_sub .., unary_bufs_sub .., reshape_bufs_sub .., nullary_bufs_sub .., binary_bufs_sub .., unary_bufs_sub .., nullary_bufs_sub .., unary_bufs_sub .., binary_bufs_sub .., nullary_bufs_sub .., nullary_bufs_sub .., binary_bufs_sub .., unary_bufs_sub .., nullary_bufs_sub .., unary_bufs_sub .., binary_bufs_sub .., unary_bufs_sub .., binary_bufs_sub .., binary_bufs_sub .., unary_bufs_sub .., nullary_bufs_sub .., binary_bufs_sub .., nullary_bufs_sub .., binary_bufs_sub .., unary_bufs_sub .., unary_bufs_sub .., binary_bufs_sub .., nullary_bufs_sub .., binary_bufs_sub .., nullary_bufs_sub .., unary_bufs_sub .., unary_bufs_sub .., ternary_bufs_sub .., unary_bufs_sub .., binary_bufs_sub .., unary_bufs_sub .., unary_bufs_sub .., binary_bufs_sub .., nullary_bufs_sub .., unary_bufs_sub .., binary_bufs_sub .., unary_bufs_sub .., unary_bufs_sub .., binary_bufs_sub .., unary_bufs_sub .., unary_bufs_sub .., binary_bufs_sub .., nullary_bufs_sub .., unary_bufs_sub .., binary_bufs_sub .., binary_bufs_sub ..⟩

theorem ops7_fresh : (ops7 : List (HloOp τ sig (Elt F))).Forall fun op => op.fresh = ∅ := by
  simp only [List.Forall]; repeat' constructor

/-- The whole program's operations: the windows one after the other. -/
abbrev ops : List (HloOp τ sig (Elt F)) := ops0 ++ ops1 ++ ops2 ++ ops3 ++ ops4 ++ ops5 ++ ops6 ++ ops7

theorem main_eq (c : Dev nD) : main (F := F) c = seq ops := by
  simp only [main, part0_eq, part1_eq, part2_eq, part3_eq, part4_eq, part5_eq, part6_eq, part7_eq, ops, seq_append, bind_assoc]

theorem scopedRefs_eq : (Finset.univ.filter fun b : Ref sig .tc => b.isScoped) = ∅ := by decide
theorem scopedSems_eq : (Finset.univ.filter fun sm : SemLoc sig => sm.isScoped .tc) = ∅ := by decide

theorem ops_sub : (ops : List (HloOp τ sig (Elt F))).Forall fun op => op.bufs ⊆ tcRefs τ sig :=
  List.forall_append.2 ⟨List.forall_append.2 ⟨List.forall_append.2 ⟨List.forall_append.2 ⟨List.forall_append.2 ⟨List.forall_append.2 ⟨List.forall_append.2 ⟨ops0_sub, ops1_sub⟩, ops2_sub⟩, ops3_sub⟩, ops4_sub⟩, ops5_sub⟩, ops6_sub⟩, ops7_sub⟩

theorem ops_fresh : (ops : List (HloOp τ sig (Elt F))).Forall fun op => op.fresh = ∅ :=
  List.forall_append.2 ⟨List.forall_append.2 ⟨List.forall_append.2 ⟨List.forall_append.2 ⟨List.forall_append.2 ⟨List.forall_append.2 ⟨List.forall_append.2 ⟨ops0_fresh, ops1_fresh⟩, ops2_fresh⟩, ops3_fresh⟩, ops4_fresh⟩, ops5_fresh⟩, ops6_fresh⟩, ops7_fresh⟩

theorem ops_keep : (ops : List (HloOp τ sig (Elt F))).Forall fun op => ∀ b ∈ op.writes, ∃ r : Ref sig .tc, b = Proc.devRef .tc r ∧ r ∉ args :=
  List.forall_append.2 ⟨List.forall_append.2 ⟨List.forall_append.2 ⟨List.forall_append.2 ⟨List.forall_append.2 ⟨List.forall_append.2 ⟨List.forall_append.2 ⟨ops0_keep, ops1_keep⟩, ops2_keep⟩, ops3_keep⟩, ops4_keep⟩, ops5_keep⟩, ops6_keep⟩, ops7_keep⟩

/-- Every weakly fair execution of the reference terminates, nothing faulting, with every TensorCore buffer at the
    fold of the operations over the launch contents. -/
theorem run (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after ops (launchContents m c) (Proc.devRef .tc b) :=
  run_seq scopedRefs_eq scopedSems_eq defs main (fun _ => ops) main_eq (fun _ => ops_sub) m ρ
    (fun _ => List.forall_iff_forall_mem.mp ops_fresh)

/-- The arguments end as launched. -/
theorem arg_kept (m : (ℓ : Loc nD τ sig) → Buf (Elt F) ℓ) (c : Dev nD) (a : Ref sig .tc) (ha : a ∈ args) :
    after ops (launchContents m c) (Proc.devRef .tc a) = m ((c.tc : Thread nD τ).loc a) :=
  keep_of ops ops_keep _ a ha

end Cert.ReferenceIdeal.RefRun

end
-- ==== Proof.RefDense.lean ====
/-
  The reference's dense layers read at an entry: a matrix product of an [n, 128] array with a [128, 128] matrix
  followed by the addition of a bias vector broadcast down the rows is, at (r, j),

      Σ_k x (r, k) · w (k, j) + b (j).
-/
import proofs.«140776_j80633716015159_1_alg».proof.Proof.Gen.ReferenceIdeal
import Idealize.ShloMosaic.Lib.ValueIdx
import Idealize.ShloMosaic.Lib.ValueLayout
import Idealize.ShloMosaic.Lib.Pipeline.Value
import Idealize.ShloMosaic.PureOps.Ideal.Laws

set_option maxRecDepth 16384

noncomputable section

namespace Cert.ReferenceIdeal.RefDense

open Cert.ReferenceIdeal Cert.ReferenceIdeal.Gen
open Idealize.ShloMosaic Idealize.ShloMosaic.TcCoe Idealize.ShloMosaic.ValueIdx Idealize.SL.Sem

/-- The whole-array product's dimension numbers. -/
abbrev DR := dot_S50000x128_S128x128_S50000x128_1_0_0_1_n_n

theorem lhs0 (i : S50000x128.Idx) (q : DR.contr.Idx) : (DR.lhsIdx i q 0).val = (i 0).val := by
  unfold DotDims.lhsIdx
  rw [dif_neg (show ¬(0 : Fin S50000x128.rank) ∈ DR.lhsBatch by decide), dif_pos (show (0 : Fin S50000x128.rank) ∈ DR.lhsNonContracting by decide)]
  rfl
theorem lhs1 (i : S50000x128.Idx) (q : DR.contr.Idx) : (DR.lhsIdx i q 1).val = (q ⟨0, by decide⟩).val :=
  DR.lhsIdx_val_of_single rfl i q
theorem rhs0 (i : S50000x128.Idx) (q : DR.contr.Idx) : (DR.rhsIdx i q 0).val = (q ⟨0, by decide⟩).val :=
  DR.rhsIdx_val_of_single rfl i q
theorem rhs1 (i : S50000x128.Idx) (q : DR.contr.Idx) : (DR.rhsIdx i q 1).val = (i 1).val := by
  unfold DotDims.rhsIdx
  rw [dif_neg (show ¬(1 : Fin S128x128.rank) ∈ DR.rhsBatch by decide), dif_pos (show (1 : Fin S128x128.rank) ∈ DR.rhsNonContracting by decide)]
  rfl

/-- The host matrix product at an entry. -/
theorem dot_apply (x : FVec Ideal S50000x128 .f32) (w : FVec Ideal S128x128 .f32) (p : Fin 50000) (q : Fin 128) :
    (Host.dotGeneral DR none x w : FVec Ideal S50000x128 .f32) (ix2 p q) = ∑ k : Fin 128, x (ix2 p k) * w (ix2 k q) := by
  simp only [Host.dotGeneral]
  rw [Ideal.dotGeneral_apply, ← Equiv.sum_comp (contrEquiv1 DR 128 rfl rfl).symm]
  refine Finset.sum_congr rfl fun k _ => ?_
  have hk := contrEquiv1_symm_val DR 128 rfl rfl k
  have el : DR.lhsIdx (ix2 p q) ((contrEquiv1 DR 128 rfl rfl).symm k) = ix2 p k := funext fun a => Fin.ext (by
    match a with
    | ⟨0, _⟩ => exact lhs0 _ _
    | ⟨1, _⟩ => exact (lhs1 _ _).trans hk)
  have er : DR.rhsIdx (ix2 p q) ((contrEquiv1 DR 128 rfl rfl).symm k) = ix2 k q := funext fun a => Fin.ext (by
    match a with
    | ⟨0, _⟩ => exact (rhs0 _ _).trans hk
    | ⟨1, _⟩ => exact rhs1 _ _)
  rw [el, er]

/-- A vector made a one-row matrix and broadcast down the rows, at an entry. -/
theorem bias_apply (b : FVec Ideal S128 .f32) (p : Fin 50000) (q : Fin 128) :
    (broadcastInDim S50000x128 ![0, 1] bcast_S1x128_S50000x128_0_1 (broadcastInDim S1x128 ![1] bcast_S128_S1x128_1 b) :
      FVec Ideal S50000x128 .f32) (ix2 p q) = b (ix1 q) := by
  refine (broadcastInDim_apply _ _ _ (ix2 p q) (ix2 (0 : Fin 1) q) fun a => ?_).trans
    (broadcastInDim_apply _ _ b (ix2 (0 : Fin 1) q) (ix1 q) fun a => ?_)
  · match a with
    | ⟨0, _⟩ => rfl
    | ⟨1, _⟩ => rfl
  · match a with
    | ⟨0, _⟩ => rfl

/-- The dense layer `x · w + b` at an entry. -/
theorem dense_apply (x : FVec Ideal S50000x128 .f32) (w : FVec Ideal S128x128 .f32) (b : FVec Ideal S128 .f32)
    (p : Fin 50000) (q : Fin 128) :
    (addf (Host.dotGeneral DR none x w)
        (broadcastInDim S50000x128 ![0, 1] bcast_S1x128_S50000x128_0_1 (broadcastInDim S1x128 ![1] bcast_S128_S1x128_1 b)) :
      FVec Ideal S50000x128 .f32) (ix2 p q) = (∑ k : Fin 128, x (ix2 p k) * w (ix2 k q)) + b (ix1 q) :=
  congrArg₂ (· + ·) (dot_apply x w p q) (bias_apply b p q)

end Cert.ReferenceIdeal.RefDense

end
-- ==== Proof.Consts.lean ====
/-
  The three float literals of the two programs, read exactly: the node count 50000, zero, and the batch
  normalisation's `1e-5` (as an f32: 10995116 · 2⁻⁴⁰, a positive real).
-/
import Idealize.ShloMosaic.PureOps.Ideal
import Idealize.ShloMosaic.PureOps.Ideal.Laws

namespace Cert.Consts

open Idealize.ShloMosaic

/-- The f32 pattern of `50000.0` denotes the real `50000`. -/
theorem ofBits_n : Ideal.ofBits .f32 0x47435000#32 = ((50000 : ℝ) : EReal) := by
  simp [Ideal.ofBits, Ideal.ieee, -EReal.coe_mul]; norm_num

/-- The f32 nearest `1e-5`. -/
noncomputable def eps : ℝ := 10995116 * (2 : ℝ) ^ (-40 : ℤ)

theorem eps_pos : 0 < eps := by unfold eps; positivity

/-- The f32 pattern of `1e-5` denotes that positive real. -/
theorem ofBits_eps : Ideal.ofBits .f32 0x3727C5AC#32 = ((eps : ℝ) : EReal) := by
  unfold eps
  simp [Ideal.ofBits, Ideal.ieee, -EReal.coe_mul]

/-- `50000 − 0 > 0`: the guard of the reference's variance is taken. -/
theorem guard : Ideal.cmp .ogt (Ideal.ofBits .f32 0x47435000#32 - (((0#32 : BitVec 32).toInt : ℝ) : EReal)) (Ideal.ofBits .f32 0x00000000#32) = 1#1 := by
  rw [ofBits_n, Ideal.ofBits_zero_f32]
  simp [Ideal.cmp]

/-- `50000 − 0` is the real `50000`. -/
theorem n_sub_zero : Ideal.ofBits .f32 0x47435000#32 - (((0#32 : BitVec 32).toInt : ℝ) : EReal) = ((50000 : ℝ) : EReal) := by
  rw [ofBits_n]; simp

end Cert.Consts
-- ==== Proof.RefStats.lean ====
/-
  The reference's column statistics read at a column: a sum down the 50000 rows, and the row vector
  of such sums made a one-row matrix.
-/
import proofs.«140776_j80633716015159_1_alg».proof.Proof.Gen.ReferenceIdeal
import Idealize.ShloMosaic.Lib.ValueIdx
import Idealize.ShloMosaic.Lib.ValueLayout
import Idealize.ShloMosaic.Lib.Pipeline.Value
import Idealize.ShloMosaic.PureOps.Ideal.Laws
import proofs.«140776_j80633716015159_1_alg».proof.Proof.Consts

set_option maxRecDepth 16384

noncomputable section

namespace Cert.ReferenceIdeal.RefStats

open Cert.ReferenceIdeal Cert.ReferenceIdeal.Gen
open Idealize.ShloMosaic Idealize.ShloMosaic.TcCoe Idealize.ShloMosaic.ValueIdx Idealize.SL.Sem

theorem reduces_rows : S50000x128.Reduces [0] S128 := by decide

/-- The host's sum down the rows at a column: the initial value plus the column's entries. -/
theorem col_sum_apply (y : FVec Ideal S50000x128 .f32) (z : S_.Idx → EReal) (q : Fin 128) :
    (Host.reduceAdd y z reducesTo_S50000x128_S128_d0 h_S_ : FVec Ideal S128 .f32) (ix1 q)
      = z (Shape.Idx.first h_S_) + ∑ r : Fin 50000, y (ix2 r q) := by
  unfold Host.reduceAdd
  rw [Ideal.hostReduceAdd_def]
  refine (Ideal.hostReduceAdd_single reducesTo_S50000x128_S128_d0 reduces_rows y _ (ix1 q)).trans ?_
  refine congrArg (_ + ·) (Finset.sum_congr rfl fun r _ => congrArg y (funext fun a => ?_))
  match a with
  | ⟨0, _⟩ => rfl
  | ⟨1, _⟩ => rfl

/-! ## Broadcasts at an entry -/

variable {α : Type}

/-- A scalar broadcast to a one-row matrix. -/
theorem scalar_row (z : S_.Idx → α) (q : Fin 128) :
    broadcastInDim S1x128 ![] bcast_S_S1x128 z (ix2 (0 : Fin 1) q) = z (Shape.Idx.first h_S_) :=
  broadcastInDim_apply _ _ z (ix2 (0 : Fin 1) q) (Shape.Idx.first h_S_) fun a => a.elim0

/-- A vector made a one-row matrix. -/
theorem vec_row (v : S128.Idx → α) (q : Fin 128) :
    broadcastInDim S1x128 ![1] bcast_S128_S1x128_1 v (ix2 (0 : Fin 1) q) = v (ix1 q) :=
  broadcastInDim_apply _ _ v (ix2 (0 : Fin 1) q) (ix1 q) fun a => by
    match a with
    | ⟨0, _⟩ => rfl

/-- A one-row matrix broadcast down the rows. -/
theorem row_mat (u : S1x128.Idx → α) (p : Fin 50000) (q : Fin 128) :
    broadcastInDim S50000x128 ![0, 1] bcast_S1x128_S50000x128_0_1 u (ix2 p q) = u (ix2 (0 : Fin 1) q) :=
  broadcastInDim_apply _ _ u (ix2 p q) (ix2 (0 : Fin 1) q) fun a => by
    match a with
    | ⟨0, _⟩ => rfl
    | ⟨1, _⟩ => rfl

/-! ## The column statistics -/

/-- The mean of column `q`: the column's sum over `50000`. -/
def meanAt (y : FVec Ideal S50000x128 .f32) (q : Fin 128) : EReal :=
  Ideal.div (Ideal.ofBits .f32 0x00000000#32 + ∑ r : Fin 50000, y (ix2 r q)) (Ideal.ofBits .f32 0x47435000#32)

/-- The centred variance of column `q`. -/
def varAt (y : FVec Ideal S50000x128 .f32) (q : Fin 128) : EReal :=
  Ideal.div (Ideal.ofBits .f32 0x00000000#32 + ∑ r : Fin 50000, (y (ix2 r q) - meanAt y q) * (y (ix2 r q) - meanAt y q))
    (Ideal.ofBits .f32 0x47435000#32 - (((0#32 : BitVec 32).toInt : ℝ) : EReal))

/-- The reference's mean row at a column. -/
theorem mean_apply (y : FVec Ideal S50000x128 .f32) (q : Fin 128) :
    (Host.divf (broadcastInDim S1x128 ![1] bcast_S128_S1x128_1
        (Host.reduceAdd y (constant (F := Ideal) S_ .f32 0x00000000#32) reducesTo_S50000x128_S128_d0 h_S_))
      (broadcastInDim S1x128 ![] bcast_S_S1x128 (constant (F := Ideal) S_ .f32 0x47435000#32)) : FVec Ideal S1x128 .f32)
      (ix2 (0 : Fin 1) q) = meanAt y q := by
  unfold Host.divf
  rw [vec_row, scalar_row, col_sum_apply]
  rfl

/-- The reference's variance row at a column, for any mean row `M` that is the column means: the guard
    `50000 − 0 > 0` of the library's variance is taken, so it is the centred variance. -/
theorem var_apply (y : FVec Ideal S50000x128 .f32) (M : FVec Ideal S1x128 .f32)
    (hM : ∀ q : Fin 128, M (ix2 (0 : Fin 1) q) = meanAt y q) (q : Fin 128) :
    (select
        (broadcastInDim S1x128 ![] bcast_S_S1x128
          (cmpf .ogt (subf (constant (F := Ideal) S_ .f32 0x47435000#32) (sitofp .f32 (constantI S_ 32 0#32)))
            (constant (F := Ideal) S_ .f32 0x00000000#32)))
        (Host.divf
          (broadcastInDim S1x128 ![1] bcast_S128_S1x128_1
            (Host.reduceAdd
              (mulf (subf y (broadcastInDim S50000x128 ![0, 1] bcast_S1x128_S50000x128_0_1 M))
                (subf y (broadcastInDim S50000x128 ![0, 1] bcast_S1x128_S50000x128_0_1 M)))
              (constant (F := Ideal) S_ .f32 0x00000000#32) reducesTo_S50000x128_S128_d0 h_S_))
          (broadcastInDim S1x128 ![] bcast_S_S1x128
            (subf (constant (F := Ideal) S_ .f32 0x47435000#32) (sitofp .f32 (constantI S_ 32 0#32)))))
        (broadcastInDim S1x128 ![] bcast_S_S1x128 (id (constant (F := Ideal) S_ .f32 0x7FC00000#32))) :
      FVec Ideal S1x128 .f32) (ix2 (0 : Fin 1) q) = varAt y q := by
  rw [select_apply, scalar_row]
  have hg : (cmpf .ogt (subf (constant (F := Ideal) S_ .f32 0x47435000#32) (sitofp .f32 (constantI S_ 32 0#32)))
      (constant (F := Ideal) S_ .f32 0x00000000#32) : IVec S_ 1) (Shape.Idx.first h_S_) = 1#1 := Cert.Consts.guard
  rw [hg, select_one]
  unfold Host.divf
  rw [vec_row, scalar_row, col_sum_apply]
  unfold varAt
  refine congrArg₂ Ideal.div (congrArg (_ + ·) (Finset.sum_congr rfl fun r _ => ?_)) rfl
  show (y (ix2 r q) - broadcastInDim S50000x128 ![0, 1] bcast_S1x128_S50000x128_0_1 M (ix2 r q))
      * (y (ix2 r q) - broadcastInDim S50000x128 ![0, 1] bcast_S1x128_S50000x128_0_1 M (ix2 r q)) = _
  rw [row_mat, hM]

/-- One normalised and rectified value: `max (γ·(x − μ)·rsqrt(v + 1e-5) + β) 0`. -/
def bnrelu (v g μ β x : EReal) : EReal :=
  max (g * (x - μ) * Ideal.rsqrt (v + Ideal.ofBits .f32 0x3727C5AC#32) + β) (Ideal.ofBits .f32 0x00000000#32)

/-- The reference's normalisation followed by the rectifier, at an entry. -/
theorem bn_apply (y : FVec Ideal S50000x128 .f32) (M V : FVec Ideal S1x128 .f32) (g β : FVec Ideal S128 .f32)
    (p : Fin 50000) (q : Fin 128) :
    (maximumf
        (addf
          (mulf
            (mulf (broadcastInDim S50000x128 ![0, 1] bcast_S1x128_S50000x128_0_1 (broadcastInDim S1x128 ![1] bcast_S128_S1x128_1 g))
              (subf y (broadcastInDim S50000x128 ![0, 1] bcast_S1x128_S50000x128_0_1 M)))
            (broadcastInDim S50000x128 ![0, 1] bcast_S1x128_S50000x128_0_1
              (Host.rsqrt (addf V (broadcastInDim S1x128 ![] bcast_S_S1x128 (constant (F := Ideal) S_ .f32 0x3727C5AC#32))))))
          (broadcastInDim S50000x128 ![0, 1] bcast_S1x128_S50000x128_0_1 (broadcastInDim S1x128 ![1] bcast_S128_S1x128_1 β)))
        (broadcastInDim S50000x128 ![] bcast_S_S50000x128 (constant (F := Ideal) S_ .f32 0x00000000#32)) :
      FVec Ideal S50000x128 .f32) (ix2 p q)
      = bnrelu (V (ix2 (0 : Fin 1) q)) (g (ix1 q)) (M (ix2 (0 : Fin 1) q)) (β (ix1 q)) (y (ix2 p q)) := by
  have hz : (broadcastInDim S50000x128 ![] bcast_S_S50000x128 (constant (F := Ideal) S_ .f32 0x00000000#32) :
      FVec Ideal S50000x128 .f32) (ix2 p q) = Ideal.ofBits .f32 0x00000000#32 :=
    broadcastInDim_apply _ _ _ (ix2 p q) (Shape.Idx.first h_S_) fun a => a.elim0
  show max
      (broadcastInDim S50000x128 ![0, 1] bcast_S1x128_S50000x128_0_1 (broadcastInDim S1x128 ![1] bcast_S128_S1x128_1 g) (ix2 p q)
          * (y (ix2 p q) - broadcastInDim S50000x128 ![0, 1] bcast_S1x128_S50000x128_0_1 M (ix2 p q))
          * broadcastInDim S50000x128 ![0, 1] bcast_S1x128_S50000x128_0_1
              (Host.rsqrt (addf V (broadcastInDim S1x128 ![] bcast_S_S1x128 (constant (F := Ideal) S_ .f32 0x3727C5AC#32)))) (ix2 p q)
        + broadcastInDim S50000x128 ![0, 1] bcast_S1x128_S50000x128_0_1 (broadcastInDim S1x128 ![1] bcast_S128_S1x128_1 β) (ix2 p q))
      (broadcastInDim S50000x128 ![] bcast_S_S50000x128 (constant (F := Ideal) S_ .f32 0x00000000#32) (ix2 p q)) = _
  rw [hz, row_mat, row_mat, row_mat, row_mat, vec_row, vec_row]
  unfold Host.rsqrt bnrelu
  show max (g (ix1 q) * (y (ix2 p q) - M (ix2 (0 : Fin 1) q))
      * Ideal.rsqrt (V (ix2 (0 : Fin 1) q) + broadcastInDim S1x128 ![] bcast_S_S1x128 (constant (F := Ideal) S_ .f32 0x3727C5AC#32) (ix2 (0 : Fin 1) q))
      + β (ix1 q)) _ = _
  rw [scalar_row]
  rfl

end Cert.ReferenceIdeal.RefStats

end
-- ==== Proof.RefSpec.lean ====
/-
  One layer of the network as array code, stage by stage, in the reference's own operations: the aggregation over the
  edges, a dense layer, the row of column means, the row of column variances (the library's centred form, with its
  guard on the divisor), a batch normalisation followed by the rectifier — and the layer put together from them.
  Each stage is then read at an entry.
-/
import proofs.«140776_j80633716015159_1_alg».proof.Proof.RefDense
import proofs.«140776_j80633716015159_1_alg».proof.Proof.RefStats

noncomputable section

namespace Cert.ReferenceIdeal.RefSpec

open Cert.ReferenceIdeal Cert.ReferenceIdeal.Gen
open Idealize.ShloMosaic Idealize.ShloMosaic.TcCoe Idealize.ShloMosaic.ValueIdx Idealize.SL.Sem
open Cert.ReferenceIdeal.RefStats (meanAt varAt bnrelu)

variable {F : FTy → Type} [FloatOps F]

/-- The neighbourhood sums: every edge adds its source node's row (the source index wrapped if negative, then read
    clamped) into its destination node's row (an edge whose destination is out of range adds nothing). -/
def agg (h : FVec F S50000x128 .f32) (src dst : IVec S1600000 32) : FVec F S50000x128 .f32 :=
  Host.scatterAdd scatter_S50000x128_S1600000x1_S1600000x128_1_0_0_1
    (broadcastInDim S50000x128 ![] bcast_S_S50000x128 (constant S_ .f32 0x00000000#32))
    (broadcastInDim S1600000x1 ![0] bcast_S1600000_S1600000x1_0 dst)
    (Host.gather gather_S50000x128_S1600000x1_S1600000x128_1_0_n_n_0_1_1128 h
      (broadcastInDim S1600000x1 ![0] bcast_S1600000_S1600000x1_0
        (select (cmpi .slt src (broadcastInDim S1600000 ![] bcast_S_S1600000 (constantI S_ 32 0#32)))
          (addi src (broadcastInDim S1600000 ![] bcast_S_S1600000 (constantI S_ 32 50000#32))) src)))

/-- The layer's input to its perceptron: `(1 + ε)·h + agg h`. -/
def mix (e : FVec F S_ .f32) (h : FVec F S50000x128 .f32) (src dst : IVec S1600000 32) : FVec F S50000x128 .f32 :=
  addf (mulf (broadcastInDim S50000x128 ![] bcast_S_S50000x128 (addf (constant S_ .f32 0x3F800000#32) e)) h) (agg h src dst)

/-- A dense layer `x · w + b`. -/
def dense (x : FVec F S50000x128 .f32) (w : FVec F S128x128 .f32) (b : FVec F S128 .f32) : FVec F S50000x128 .f32 :=
  addf (Host.dotGeneral dot_S50000x128_S128x128_S50000x128_1_0_0_1_n_n none x w)
    (broadcastInDim S50000x128 ![0, 1] bcast_S1x128_S50000x128_0_1 (broadcastInDim S1x128 ![1] bcast_S128_S1x128_1 b))

/-- The row of column means. -/
def meanRow (y : FVec F S50000x128 .f32) : FVec F S1x128 .f32 :=
  Host.divf (broadcastInDim S1x128 ![1] bcast_S128_S1x128_1
      (Host.reduceAdd y (constant S_ .f32 0x00000000#32) reducesTo_S50000x128_S128_d0 h_S_))
    (broadcastInDim S1x128 ![] bcast_S_S1x128 (constant S_ .f32 0x47435000#32))

/-- The row of column variances, as the library computes a variance. -/
def varRow (y : FVec F S50000x128 .f32) : FVec F S1x128 .f32 :=
  select
    (broadcastInDim S1x128 ![] bcast_S_S1x128
      (cmpf .ogt (subf (constant (F := F) S_ .f32 0x47435000#32) (sitofp .f32 (constantI S_ 32 0#32)))
        (constant (F := F) S_ .f32 0x00000000#32)))
    (Host.divf
      (broadcastInDim S1x128 ![1] bcast_S128_S1x128_1
        (Host.reduceAdd
          (mulf (subf y (broadcastInDim S50000x128 ![0, 1] bcast_S1x128_S50000x128_0_1 (meanRow y)))
            (subf y (broadcastInDim S50000x128 ![0, 1] bcast_S1x128_S50000x128_0_1 (meanRow y))))
          (constant S_ .f32 0x00000000#32) reducesTo_S50000x128_S128_d0 h_S_))
      (broadcastInDim S1x128 ![] bcast_S_S1x128
        (subf (constant S_ .f32 0x47435000#32) (sitofp .f32 (constantI S_ 32 0#32)))))
    (broadcastInDim S1x128 ![] bcast_S_S1x128 (id (constant S_ .f32 0x7FC00000#32)))

/-- A batch normalisation with the given rows of means and variances, followed by the rectifier. -/
def bnRelu (y : FVec F S50000x128 .f32) (M V : FVec F S1x128 .f32) (g β : FVec F S128 .f32) : FVec F S50000x128 .f32 :=
  maximumf
    (addf
      (mulf
        (mulf (broadcastInDim S50000x128 ![0, 1] bcast_S1x128_S50000x128_0_1 (broadcastInDim S1x128 ![1] bcast_S128_S1x128_1 g))
          (subf y (broadcastInDim S50000x128 ![0, 1] bcast_S1x128_S50000x128_0_1 M)))
        (broadcastInDim S50000x128 ![0, 1] bcast_S1x128_S50000x128_0_1
          (Host.rsqrt (addf V (broadcastInDim S1x128 ![] bcast_S_S1x128 (constant S_ .f32 0x3727C5AC#32))))))
      (broadcastInDim S50000x128 ![0, 1] bcast_S1x128_S50000x128_0_1 (broadcastInDim S1x128 ![1] bcast_S128_S1x128_1 β)))
    (broadcastInDim S50000x128 ![] bcast_S_S50000x128 (constant S_ .f32 0x00000000#32))

/-- A batch normalisation with the batch's own statistics, followed by the rectifier. -/
def norm (y : FVec F S50000x128 .f32) (g β : FVec F S128 .f32) : FVec F S50000x128 .f32 :=
  bnRelu y (meanRow y) (varRow y) g β

/-- The layer: `h + norm (norm (dense (norm (dense (mix h)))))`. -/
def layer (src : IVec S1600000 32) (h : FVec F S50000x128 .f32) (dst : IVec S1600000 32) (e : FVec F S_ .f32)
    (w1 : FVec F S128x128 .f32) (b1 g1 be1 : FVec F S128 .f32) (w2 : FVec F S128x128 .f32) (b2 ga ba gl bl : FVec F S128 .f32) :
    FVec F S50000x128 .f32 :=
  addf h (norm (norm (dense (norm (dense (mix e h src dst) w1 b1) g1 be1) w2 b2) ga ba) gl bl)

/-! ## The stages at an entry, at the exact reading -/

theorem dense_apply (x : FVec Ideal S50000x128 .f32) (w : FVec Ideal S128x128 .f32) (b : FVec Ideal S128 .f32)
    (p : Fin 50000) (q : Fin 128) :
    dense x w b (ix2 p q) = (∑ k : Fin 128, x (ix2 p k) * w (ix2 k q)) + b (ix1 q) :=
  RefDense.dense_apply x w b p q

theorem meanRow_apply (y : FVec Ideal S50000x128 .f32) (q : Fin 128) : meanRow y (ix2 (0 : Fin 1) q) = meanAt y q :=
  RefStats.mean_apply y q

theorem varRow_apply (y : FVec Ideal S50000x128 .f32) (q : Fin 128) : varRow y (ix2 (0 : Fin 1) q) = varAt y q :=
  RefStats.var_apply y (meanRow y) (meanRow_apply y) q

theorem bnRelu_apply (y : FVec Ideal S50000x128 .f32) (M V : FVec Ideal S1x128 .f32) (g β : FVec Ideal S128 .f32)
    (p : Fin 50000) (q : Fin 128) :
    bnRelu y M V g β (ix2 p q)
      = bnrelu (V (ix2 (0 : Fin 1) q)) (g (ix1 q)) (M (ix2 (0 : Fin 1) q)) (β (ix1 q)) (y (ix2 p q)) :=
  RefStats.bn_apply y M V g β p q

theorem norm_apply (y : FVec Ideal S50000x128 .f32) (g β : FVec Ideal S128 .f32) (p : Fin 50000) (q : Fin 128) :
    norm y g β (ix2 p q) = bnrelu (varAt y q) (g (ix1 q)) (meanAt y q) (β (ix1 q)) (y (ix2 p q)) := by
  unfold norm
  rw [bnRelu_apply, meanRow_apply, varRow_apply]

theorem mix_apply (e : FVec Ideal S_ .f32) (h : FVec Ideal S50000x128 .f32) (src dst : IVec S1600000 32)
    (p : Fin 50000) (q : Fin 128) :
    mix e h src dst (ix2 p q)
      = (Ideal.ofBits .f32 0x3F800000#32 + e (Shape.Idx.first h_S_)) * h (ix2 p q) + agg h src dst (ix2 p q) := by
  unfold mix
  show broadcastInDim S50000x128 ![] bcast_S_S50000x128 (addf (constant (F := Ideal) S_ .f32 0x3F800000#32) e) (ix2 p q) * h (ix2 p q)
      + agg h src dst (ix2 p q) = _
  rw [broadcastInDim_apply _ _ _ (ix2 p q) (Shape.Idx.first h_S_) fun a => a.elim0]
  rfl

end Cert.ReferenceIdeal.RefSpec

end
-- ==== Proof.RefLayers.lean ====
/-
  The reference by layers.  Its operations are the four of the embedding followed by four runs of 190 operations,
  one per layer, which differ only in the buffers they name and in which of the four parameter slices they take.
  `refLayer` is one layer's operations composed into a function of the layer's input features, the edge lists and
  the layer's parameter slices; each layer's run of operations, folded over any buffer contents, leaves that function
  of the contents at the layer's output buffer.
-/
import proofs.«140776_j80633716015159_1_alg».proof.Proof.RefRun
import proofs.«140776_j80633716015159_1_alg».proof.Proof.RefSpec

noncomputable section

namespace Cert.ReferenceIdeal.RefLayers

open Cert.ReferenceIdeal Cert.ReferenceIdeal.Gen Idealize.ShloMosaic Idealize.ShloMosaic.TcCoe Idealize.SL.Sem Idealize.ShloMosaic.StableHlo

variable {F : FTy → Type} [FloatOps F]

/-- The embedding's four operations. -/
abbrev opsE : List (HloOp τ sig (Elt F)) :=
  [ StableHlo.binary main_arg0 main_arg3 main_v0 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    StableHlo.unary main_arg4 main_v1 (broadcastInDim S1x128 ![1] bcast_S128_S1x128_1 : (⟨S128, .f32⟩ : BufTy).Contents (Elt F) → (⟨S1x128, .f32⟩ : BufTy).Contents (Elt F)),
    StableHlo.unary main_v1 main_v2 (broadcastInDim S50000x128 ![0, 1] bcast_S1x128_S50000x128_0_1 : (⟨S1x128, .f32⟩ : BufTy).Contents (Elt F) → (⟨S50000x128, .f32⟩ : BufTy).Contents (Elt F)),
    StableHlo.binary main_v0 main_v2 main_v3 (addf : (⟨S50000x128, .f32⟩ : BufTy).Contents (Elt F) → (⟨S50000x128, .f32⟩ : BufTy).Contents (Elt F) → (⟨S50000x128, .f32⟩ : BufTy).Contents (Elt F)) ]

/-- Layer 0's operations. -/
abbrev opsL0 : List (HloOp τ sig (Elt F)) :=
  [ StableHlo.nullary main_c (constantI S_ 32 0#32),
    StableHlo.unary main_c main_v4 (broadcastInDim S1600000 ![] bcast_S_S1600000 : (⟨S_, .i32⟩ : BufTy).Contents (Elt F) → (⟨S1600000, .i32⟩ : BufTy).Contents (Elt F)),
    StableHlo.binary main_arg1 main_v4 main_v5 (cmpi .slt : (⟨S1600000, .i32⟩ : BufTy).Contents (Elt F) → (⟨S1600000, .i32⟩ : BufTy).Contents (Elt F) → (⟨S1600000, .i1⟩ : BufTy).Contents (Elt F)),
    StableHlo.nullary main_c_0 (constantI S_ 32 50000#32),
    StableHlo.unary main_c_0 main_v6 (broadcastInDim S1600000 ![] bcast_S_S1600000 : (⟨S_, .i32⟩ : BufTy).Contents (Elt F) → (⟨S1600000, .i32⟩ : BufTy).Contents (Elt F)),
    StableHlo.binary main_arg1 main_v6 main_v7 (addi : (⟨S1600000, .i32⟩ : BufTy).Contents (Elt F) → (⟨S1600000, .i32⟩ : BufTy).Contents (Elt F) → (⟨S1600000, .i32⟩ : BufTy).Contents (Elt F)),
    StableHlo.ternary main_v5 main_v7 main_arg1 main_v8 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    StableHlo.unary main_v8 main_v9 (broadcastInDim S1600000x1 ![0] bcast_S1600000_S1600000x1_0 : (⟨S1600000, .i32⟩ : BufTy).Contents (Elt F) → (⟨S1600000x1, .i32⟩ : BufTy).Contents (Elt F)),
    StableHlo.binary main_v3 main_v9 main_v10 ((fun x i => Host.gather gather_S50000x128_S1600000x1_S1600000x128_1_0_n_n_0_1_1128 x i) : (⟨S50000x128, .f32⟩ : BufTy).Contents (Elt F) → (⟨S1600000x1, .i32⟩ : BufTy).Contents (Elt F) → (⟨S1600000x128, .f32⟩ : BufTy).Contents (Elt F)),
    StableHlo.nullary main_cst (constant S_ .f32 0x00000000#32),
    StableHlo.unary main_cst main_v11 (broadcastInDim S50000x128 ![] bcast_S_S50000x128 : (⟨S_, .f32⟩ : BufTy).Contents (Elt F) → (⟨S50000x128, .f32⟩ : BufTy).Contents (Elt F)),
    StableHlo.unary main_arg2 main_v12 (broadcastInDim S1600000x1 ![0] bcast_S1600000_S1600000x1_0 : (⟨S1600000, .i32⟩ : BufTy).Contents (Elt F) → (⟨S1600000x1, .i32⟩ : BufTy).Contents (Elt F)),
    StableHlo.ternary main_v11 main_v12 main_v10 main_v13 ((fun x i u => Host.scatterAdd scatter_S50000x128_S1600000x1_S1600000x128_1_0_0_1 x i u) : (⟨S50000x128, .f32⟩ : BufTy).Contents (Elt F) → (⟨S1600000x1, .i32⟩ : BufTy).Contents (Elt F) → (⟨S1600000x128, .f32⟩ : BufTy).Contents (Elt F) → (⟨S50000x128, .f32⟩ : BufTy).Contents (Elt F)),
    StableHlo.unary main_arg5 main_v14 ((extractStridedSlice S1 ![0] · slices_S4_S1_0) : (⟨S4, .f32⟩ : BufTy).Contents (Elt F) → (⟨S1, .f32⟩ : BufTy).Contents (Elt F)),
    StableHlo.reshape main_v14 main_v15 rfl shapeCasts_S1_S_,
    StableHlo.nullary main_cst_1 (constant S_ .f32 0x3F800000#32),
    StableHlo.binary main_cst_1 main_v15 main_v16 (addf : (⟨S_, .f32⟩ : BufTy).Contents (Elt F) → (⟨S_, .f32⟩ : BufTy).Contents (Elt F) → (⟨S_, .f32⟩ : BufTy).Contents (Elt F)),
    StableHlo.unary main_v16 main_v17 (broadcastInDim S50000x128 ![] bcast_S_S50000x128 : (⟨S_, .f32⟩ : BufTy).Contents (Elt F) → (⟨S50000x128, .f32⟩ : BufTy).Contents (Elt F)),
    StableHlo.binary main_v17 main_v3 main_v18 (mulf : (⟨S50000x128, .f32⟩ : BufTy).Contents (Elt F) → (⟨S50000x128, .f32⟩ : BufTy).Contents (Elt F) → (⟨S50000x128, .f32⟩ : BufTy).Contents (Elt F)),
    StableHlo.binary main_v18 main_v13 main_v19 (addf : (⟨S50000x128, .f32⟩ : BufTy).Contents (Elt F) → (⟨S50000x128, .f32⟩ : BufTy).Contents (Elt F) → (⟨S50000x128, .f32⟩ : BufTy).Contents (Elt F)),
    StableHlo.unary main_arg6 main_v20 ((extractStridedSlice S1x128x128 ![0, 0, 0] · slices_S4x128x128_S1x128x128_0_0_0) : (⟨S4x128x128, .f32⟩ : BufTy).Contents (Elt F) → (⟨S1x128x128, .f32⟩ : BufTy).Contents (Elt F)),
    StableHlo.reshape main_v20 main_v21 rfl shapeCasts_S1x128x128_S128x128,
    StableHlo.binary main_v19 main_v21 main_v22 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    StableHlo.unary main_arg7 main_v23 ((extractStridedSlice S1x128 ![0, 0] · slices_S4x128_S1x128_0_0) : (⟨S4x128, .f32⟩ : BufTy).Contents (Elt F) → (⟨S1x128, .f32⟩ : BufTy).Contents (Elt F)),
    StableHlo.reshape main_v23 main_v24 rfl shapeCasts_S1x128_S128,
    StableHlo.unary main_v24 main_v25 (broadcastInDim S1x128 ![1] bcast_S128_S1x128_1 : (⟨S128, .f32⟩ : BufTy).Contents (Elt F) → (⟨S1x128, .f32⟩ : BufTy).Contents (Elt F)),
    StableHlo.unary main_v25 main_v26 (broadcastInDim S50000x128 ![0, 1] bcast_S1x128_S50000x128_0_1 : (⟨S1x128, .f32⟩ : BufTy).Contents (Elt F) → (⟨S50000x128, .f32⟩ : BufTy).Contents (Elt F)),
    StableHlo.binary main_v22 main_v26 main_v27 (addf : (⟨S50000x128, .f32⟩ : BufTy).Contents (Elt F) → (⟨S50000x128, .f32⟩ : BufTy).Contents (Elt F) → (⟨S50000x128, .f32⟩ : BufTy).Contents (Elt F)),
    StableHlo.unary main_arg8 main_v28 ((extractStridedSlice S1x128 ![0, 0] · slices_S4x128_S1x128_0_0) : (⟨S4x128, .f32⟩ : BufTy).Contents (Elt F) → (⟨S1x128, .f32⟩ : BufTy).Contents (Elt F)),
    StableHlo.reshape main_v28 main_v29 rfl shapeCasts_S1x128_S128,
    StableHlo.unary main_arg9 main_v30 ((extractStridedSlice S1x128 ![0, 0] · slices_S4x128_S1x128_0_0) : (⟨S4x128, .f32⟩ : BufTy).Contents (Elt F) → (⟨S1x128, .f32⟩ : BufTy).Contents (Elt F)),
    StableHlo.reshape main_v30 main_v31 rfl shapeCasts_S1x128_S128,
    StableHlo.nullary main_cst_2 (constant S_ .f32 0x00000000#32),
    StableHlo.binary main_v27 main_cst_2 main_v32 ((fun x v => Host.reduceAdd x v reducesTo_S50000x128_S128_d0 h_S_) : (⟨S50000x128, .f32⟩ : BufTy).Contents (Elt F) → (⟨S_, .f32⟩ : BufTy).Contents (Elt F) → (⟨S128, .f32⟩ : BufTy).Contents (Elt F)),
    StableHlo.unary main_v32 main_v33 (broadcastInDim S1x128 ![1] bcast_S128_S1x128_1 : (⟨S128, .f32⟩ : BufTy).Contents (Elt F) → (⟨S1x128, .f32⟩ : BufTy).Contents (Elt F)),
    StableHlo.nullary main_cst_3 (constant S_ .f32 0x47435000#32),
    StableHlo.unary main_cst_3 main_v34 (broadcastInDim S1x128 ![] bcast_S_S1x128 : (⟨S_, .f32⟩ : BufTy).Contents (Elt F) → (⟨S1x128, .f32⟩ : BufTy).Contents (Elt F)),
    StableHlo.binary main_v33 main_v34 main_v35 (Host.divf : (⟨S1x128, .f32⟩ : BufTy).Contents (Elt F) → (⟨S1x128, .f32⟩ : BufTy).Contents (Elt F) → (⟨S1x128, .f32⟩ : BufTy).Contents (Elt F)),
    StableHlo.nullary main_c_4 (constantI S_ 32 0#32),
    StableHlo.TRef.nullary main_call0.cst (constant S_ .f32 0x00000000#32),
    StableHlo.TRef.binary (.of main_v27) main_call0.cst main_call0.v0 (fun x v => Host.reduceAdd x v reducesTo_S50000x128_S128_d0 h_S_),
    StableHlo.TRef.unary main_call0.v0 main_call0.v1 (broadcastInDim S1x128 ![1] bcast_S128_S1x128_1),
    StableHlo.TRef.nullary main_call0.cst_0 (constant S_ .f32 0x47435000#32),
    StableHlo.TRef.unary main_call0.cst_0 main_call0.v2 (broadcastInDim S1x128 ![] bcast_S_S1x128),
    StableHlo.TRef.binary main_call0.v1 main_call0.v2 main_call0.v3 Host.divf,
    StableHlo.TRef.unary main_call0.v3 main_call0.v4 (broadcastInDim S50000x128 ![0, 1] bcast_S1x128_S50000x128_0_1),
    StableHlo.TRef.binary (.of main_v27) main_call0.v4 main_call0.v5 subf,
    StableHlo.TRef.binary main_call0.v5 main_call0.v5 main_call0.v6 mulf,
    StableHlo.TRef.unary (.of main_c_4) main_call0.v7 (sitofp .f32),
    StableHlo.TRef.nullary main_call0.cst_1 (constant S_ .f32 0x47435000#32),
    StableHlo.TRef.binary main_call0.cst_1 main_call0.v7 main_call0.v8 subf,
    StableHlo.TRef.nullary main_call0.cst_2 (constant S_ .f32 0x00000000#32),
    StableHlo.TRef.binary main_call0.v6 main_call0.cst_2 main_call0.v9 (fun x v => Host.reduceAdd x v reducesTo_S50000x128_S128_d0 h_S_),
    StableHlo.TRef.unary main_call0.v9 main_call0.v10 (broadcastInDim S1x128 ![1] bcast_S128_S1x128_1),
    StableHlo.TRef.unary main_call0.v8 main_call0.v11 (broadcastInDim S1x128 ![] bcast_S_S1x128),
    StableHlo.TRef.binary main_call0.v10 main_call0.v11 main_call0.v12 Host.divf,
    StableHlo.TRef.nullary main_call0.cst_3 (constant S_ .f32 0x00000000#32),
    StableHlo.TRef.binary main_call0.v8 main_call0.cst_3 main_call0.v13 (cmpf .ogt),
    StableHlo.TRef.nullary main_call0.cst_4 (constant S_ .f32 0x7FC00000#32),
    StableHlo.TRef.unary main_call0.cst_4 main_call0.call0.v0 id,
    StableHlo.TRef.unary main_call0.call0.v0 main_call0.call0.v1 (broadcastInDim S1x128 ![] bcast_S_S1x128),
    StableHlo.TRef.ternary main_call0.v13 main_call0.v12 main_call0.call0.v1 main_call0.call0.v2 (fun p a b => select (broadcastInDim S1x128 ![] bcast_S_S1x128 p) a b),
    StableHlo.unary main_v35 main_v37 (broadcastInDim S50000x128 ![0, 1] bcast_S1x128_S50000x128_0_1 : (⟨S1x128, .f32⟩ : BufTy).Contents (Elt F) → (⟨S50000x128, .f32⟩ : BufTy).Contents (Elt F)),
    StableHlo.binary main_v27 main_v37 main_v38 (subf : (⟨S50000x128, .f32⟩ : BufTy).Contents (Elt F) → (⟨S50000x128, .f32⟩ : BufTy).Contents (Elt F) → (⟨S50000x128, .f32⟩ : BufTy).Contents (Elt F)),
    StableHlo.unary main_v29 main_v39 (broadcastInDim S1x128 ![1] bcast_S128_S1x128_1 : (⟨S128, .f32⟩ : BufTy).Contents (Elt F) → (⟨S1x128, .f32⟩ : BufTy).Contents (Elt F)),
    StableHlo.unary main_v39 main_v40 (broadcastInDim S50000x128 ![0, 1] bcast_S1x128_S50000x128_0_1 : (⟨S1x128, .f32⟩ : BufTy).Contents (Elt F) → (⟨S50000x128, .f32⟩ : BufTy).Contents (Elt F)),
    StableHlo.binary main_v40 main_v38 main_v41 (mulf : (⟨S50000x128, .f32⟩ : BufTy).Contents (Elt F) → (⟨S50000x128, .f32⟩ : BufTy).Contents (Elt F) → (⟨S50000x128, .f32⟩ : BufTy).Contents (Elt F)),
    StableHlo.nullary main_cst_5 (constant S_ .f32 0x3727C5AC#32),
    StableHlo.unary main_cst_5 main_v42 (broadcastInDim S1x128 ![] bcast_S_S1x128 : (⟨S_, .f32⟩ : BufTy).Contents (Elt F) → (⟨S1x128, .f32⟩ : BufTy).Contents (Elt F)),
    StableHlo.binary main_v36 main_v42 main_v43 (addf : (⟨S1x128, .f32⟩ : BufTy).Contents (Elt F) → (⟨S1x128, .f32⟩ : BufTy).Contents (Elt F) → (⟨S1x128, .f32⟩ : BufTy).Contents (Elt F)),
    StableHlo.unary main_v43 main_v44 (Host.rsqrt : (⟨S1x128, .f32⟩ : BufTy).Contents (Elt F) → (⟨S1x128, .f32⟩ : BufTy).Contents (Elt F)),
    StableHlo.unary main_v44 main_v45 (broadcastInDim S50000x128 ![0, 1] bcast_S1x128_S50000x128_0_1 : (⟨S1x128, .f32⟩ : BufTy).Contents (Elt F) → (⟨S50000x128, .f32⟩ : BufTy).Contents (Elt F)),
    StableHlo.binary main_v41 main_v45 main_v46 (mulf : (⟨S50000x128, .f32⟩ : BufTy).Contents (Elt F) → (⟨S50000x128, .f32⟩ : BufTy).Contents (Elt F) → (⟨S50000x128, .f32⟩ : BufTy).Contents (Elt F)),
    StableHlo.unary main_v31 main_v47 (broadcastInDim S1x128 ![1] bcast_S128_S1x128_1 : (⟨S128, .f32⟩ : BufTy).Contents (Elt F) → (⟨S1x128, .f32⟩ : BufTy).Contents (Elt F)),
    StableHlo.unary main_v47 main_v48 (broadcastInDim S50000x128 ![0, 1] bcast_S1x128_S50000x128_0_1 : (⟨S1x128, .f32⟩ : BufTy).Contents (Elt F) → (⟨S50000x128, .f32⟩ : BufTy).Contents (Elt F)),
    StableHlo.binary main_v46 main_v48 main_v49 (addf : (⟨S50000x128, .f32⟩ : BufTy).Contents (Elt F) → (⟨S50000x128, .f32⟩ : BufTy).Contents (Elt F) → (⟨S50000x128, .f32⟩ : BufTy).Contents (Elt F)),
    StableHlo.TRef.nullary main_call1.cst (constant S_ .f32 0x00000000#32),
    StableHlo.TRef.unary main_call1.cst main_call1.v0 (broadcastInDim S50000x128 ![] bcast_S_S50000x128),
    StableHlo.TRef.binary (.of main_v49) main_call1.v0 main_call1.v1 maximumf,
    StableHlo.unary main_arg10 main_v51 ((extractStridedSlice S1x128x128 ![0, 0, 0] · slices_S4x128x128_S1x128x128_0_0_0) : (⟨S4x128x128, .f32⟩ : BufTy).Contents (Elt F) → (⟨S1x128x128, .f32⟩ : BufTy).Contents (Elt F)),
    StableHlo.reshape main_v51 main_v52 rfl shapeCasts_S1x128x128_S128x128,
    StableHlo.binary main_v50 main_v52 main_v53 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    StableHlo.unary main_arg11 main_v54 ((extractStridedSlice S1x128 ![0, 0] · slices_S4x128_S1x128_0_0) : (⟨S4x128, .f32⟩ : BufTy).Contents (Elt F) → (⟨S1x128, .f32⟩ : BufTy).Contents (Elt F)),
    StableHlo.reshape main_v54 main_v55 rfl shapeCasts_S1x128_S128,
    StableHlo.unary main_v55 main_v56 (broadcastInDim S1x128 ![1] bcast_S128_S1x128_1 : (⟨S128, .f32⟩ : BufTy).Contents (Elt F) → (⟨S1x128, .f32⟩ : BufTy).Contents (Elt F)),
    StableHlo.unary main_v56 main_v57 (broadcastInDim S50000x128 ![0, 1] bcast_S1x128_S50000x128_0_1 : (⟨S1x128, .f32⟩ : BufTy).Contents (Elt F) → (⟨S50000x128, .f32⟩ : BufTy).Contents (Elt F)),
    StableHlo.binary main_v53 main_v57 main_v58 (addf : (⟨S50000x128, .f32⟩ : BufTy).Contents (Elt F) → (⟨S50000x128, .f32⟩ : BufTy).Contents (Elt F) → (⟨S50000x128, .f32⟩ : BufTy).Contents (Elt F)),
    StableHlo.unary main_arg12 main_v59 ((extractStridedSlice S1x128 ![0, 0] · slices_S4x128_S1x128_0_0) : (⟨S4x128, .f32⟩ : BufTy).Contents (Elt F) → (⟨S1x128, .f32⟩ : BufTy).Contents (Elt F)),
    StableHlo.reshape main_v59 main_v60 rfl shapeCasts_S1x128_S128,
    StableHlo.unary main_arg13 main_v61 ((extractStridedSlice S1x128 ![0, 0] · slices_S4x128_S1x128_0_0) : (⟨S4x128, .f32⟩ : BufTy).Contents (Elt F) → (⟨S1x128, .f32⟩ : BufTy).Contents (Elt F)),
    StableHlo.reshape main_v61 main_v62 rfl shapeCasts_S1x128_S128,
    StableHlo.nullary main_cst_6 (constant S_ .f32 0x00000000#32),
    StableHlo.binary main_v58 main_cst_6 main_v63 ((fun x v => Host.reduceAdd x v reducesTo_S50000x128_S128_d0 h_S_) : (⟨S50000x128, .f32⟩ : BufTy).Contents (Elt F) → (⟨S_, .f32⟩ : BufTy).Contents (Elt F) → (⟨S128, .f32⟩ : BufTy).Contents (Elt F)),
    StableHlo.unary main_v63 main_v64 (broadcastInDim S1x128 ![1] bcast_S128_S1x128_1 : (⟨S128, .f32⟩ : BufTy).Contents (Elt F) → (⟨S1x128, .f32⟩ : BufTy).Contents (Elt F)),
    StableHlo.nullary main_cst_7 (constant S_ .f32 0x47435000#32),
    StableHlo.unary main_cst_7 main_v65 (broadcastInDim S1x128 ![] bcast_S_S1x128 : (⟨S_, .f32⟩ : BufTy).Contents (Elt F) → (⟨S1x128, .f32⟩ : BufTy).Contents (Elt F)),
    StableHlo.binary main_v64 main_v65 main_v66 (Host.divf : (⟨S1x128, .f32⟩ : BufTy).Contents (Elt F) → (⟨S1x128, .f32⟩ : BufTy).Contents (Elt F) → (⟨S1x128, .f32⟩ : BufTy).Contents (Elt F)),
    StableHlo.nullary main_c_8 (constantI S_ 32 0#32),
    StableHlo.TRef.nullary main_call2.cst (constant S_ .f32 0x00000000#32),
    StableHlo.TRef.binary (.of main_v58) main_call2.cst main_call2.v0 (fun x v => Host.reduceAdd x v reducesTo_S50000x128_S128_d0 h_S_),
    StableHlo.TRef.unary main_call2.v0 main_call2.v1 (broadcastInDim S1x128 ![1] bcast_S128_S1x128_1),
    StableHlo.TRef.nullary main_call2.cst_0 (constant S_ .f32 0x47435000#32),
    StableHlo.TRef.unary main_call2.cst_0 main_call2.v2 (broadcastInDim S1x128 ![] bcast_S_S1x128),
    StableHlo.TRef.binary main_call2.v1 main_call2.v2 main_call2.v3 Host.divf,
    StableHlo.TRef.unary main_call2.v3 main_call2.v4 (broadcastInDim S50000x128 ![0, 1] bcast_S1x128_S50000x128_0_1),
    StableHlo.TRef.binary (.of main_v58) main_call2.v4 main_call2.v5 subf,
    StableHlo.TRef.binary main_call2.v5 main_call2.v5 main_call2.v6 mulf,
    StableHlo.TRef.unary (.of main_c_8) main_call2.v7 (sitofp .f32),
    StableHlo.TRef.nullary main_call2.cst_1 (constant S_ .f32 0x47435000#32),
    StableHlo.TRef.binary main_call2.cst_1 main_call2.v7 main_call2.v8 subf,
    StableHlo.TRef.nullary main_call2.cst_2 (constant S_ .f32 0x00000000#32),
    StableHlo.TRef.binary main_call2.v6 main_call2.cst_2 main_call2.v9 (fun x v => Host.reduceAdd x v reducesTo_S50000x128_S128_d0 h_S_),
    StableHlo.TRef.unary main_call2.v9 main_call2.v10 (broadcastInDim S1x128 ![1] bcast_S128_S1x128_1),
    StableHlo.TRef.unary main_call2.v8 main_call2.v11 (broadcastInDim S1x128 ![] bcast_S_S1x128),
    StableHlo.TRef.binary main_call2.v10 main_call2.v11 main_call2.v12 Host.divf,
    StableHlo.TRef.nullary main_call2.cst_3 (constant S_ .f32 0x00000000#32),
    StableHlo.TRef.binary main_call2.v8 main_call2.cst_3 main_call2.v13 (cmpf .ogt),
    StableHlo.TRef.nullary main_call2.cst_4 (constant S_ .f32 0x7FC00000#32),
    StableHlo.TRef.unary main_call2.cst_4 main_call2.call0.v0 id,
    StableHlo.TRef.unary main_call2.call0.v0 main_call2.call0.v1 (broadcastInDim S1x128 ![] bcast_S_S1x128),
    StableHlo.TRef.ternary main_call2.v13 main_call2.v12 main_call2.call0.v1 main_call2.call0.v2 (fun p a b => select (broadcastInDim S1x128 ![] bcast_S_S1x128 p) a b),
    StableHlo.unary main_v66 main_v68 (broadcastInDim S50000x128 ![0, 1] bcast_S1x128_S50000x128_0_1 : (⟨S1x128, .f32⟩ : BufTy).Contents (Elt F) → (⟨S50000x128, .f32⟩ : BufTy).Contents (Elt F)),
    StableHlo.binary main_v58 main_v68 main_v69 (subf : (⟨S50000x128, .f32⟩ : BufTy).Contents (Elt F) → (⟨S50000x128, .f32⟩ : BufTy).Contents (Elt F) → (⟨S50000x128, .f32⟩ : BufTy).Contents (Elt F)),
    StableHlo.unary main_v60 main_v70 (broadcastInDim S1x128 ![1] bcast_S128_S1x128_1 : (⟨S128, .f32⟩ : BufTy).Contents (Elt F) → (⟨S1x128, .f32⟩ : BufTy).Contents (Elt F)),
    StableHlo.unary main_v70 main_v71 (broadcastInDim S50000x128 ![0, 1] bcast_S1x128_S50000x128_0_1 : (⟨S1x128, .f32⟩ : BufTy).Contents (Elt F) → (⟨S50000x128, .f32⟩ : BufTy).Contents (Elt F)),
    StableHlo.binary main_v71 main_v69 main_v72 (mulf : (⟨S50000x128, .f32⟩ : BufTy).Contents (Elt F) → (⟨S50000x128, .f32⟩ : BufTy).Contents (Elt F) → (⟨S50000x128, .f32⟩ : BufTy).Contents (Elt F)),
    StableHlo.nullary main_cst_9 (constant S_ .f32 0x3727C5AC#32),
    StableHlo.unary main_cst_9 main_v73 (broadcastInDim S1x128 ![] bcast_S_S1x128 : (⟨S_, .f32⟩ : BufTy).Contents (Elt F) → (⟨S1x128, .f32⟩ : BufTy).Contents (Elt F)),
    StableHlo.binary main_v67 main_v73 main_v74 (addf : (⟨S1x128, .f32⟩ : BufTy).Contents (Elt F) → (⟨S1x128, .f32⟩ : BufTy).Contents (Elt F) → (⟨S1x128, .f32⟩ : BufTy).Contents (Elt F)),
    StableHlo.unary main_v74 main_v75 (Host.rsqrt : (⟨S1x128, .f32⟩ : BufTy).Contents (Elt F) → (⟨S1x128, .f32⟩ : BufTy).Contents (Elt F)),
    StableHlo.unary main_v75 main_v76 (broadcastInDim S50000x128 ![0, 1] bcast_S1x128_S50000x128_0_1 : (⟨S1x128, .f32⟩ : BufTy).Contents (Elt F) → (⟨S50000x128, .f32⟩ : BufTy).Contents (Elt F)),
    StableHlo.binary main_v72 main_v76 main_v77 (mulf : (⟨S50000x128, .f32⟩ : BufTy).Contents (Elt F) → (⟨S50000x128, .f32⟩ : BufTy).Contents (Elt F) → (⟨S50000x128, .f32⟩ : BufTy).Contents (Elt F)),
    StableHlo.unary main_v62 main_v78 (broadcastInDim S1x128 ![1] bcast_S128_S1x128_1 : (⟨S128, .f32⟩ : BufTy).Contents (Elt F) → (⟨S1x128, .f32⟩ : BufTy).Contents (Elt F)),
    StableHlo.unary main_v78 main_v79 (broadcastInDim S50000x128 ![0, 1] bcast_S1x128_S50000x128_0_1 : (⟨S1x128, .f32⟩ : BufTy).Contents (Elt F) → (⟨S50000x128, .f32⟩ : BufTy).Contents (Elt F)),
    StableHlo.binary main_v77 main_v79 main_v80 (addf : (⟨S50000x128, .f32⟩ : BufTy).Contents (Elt F) → (⟨S50000x128, .f32⟩ : BufTy).Contents (Elt F) → (⟨S50000x128, .f32⟩ : BufTy).Contents (Elt F)),
    StableHlo.TRef.nullary main_call3.cst (constant S_ .f32 0x00000000#32),
    StableHlo.TRef.unary main_call3.cst main_call3.v0 (broadcastInDim S50000x128 ![] bcast_S_S50000x128),
    StableHlo.TRef.binary (.of main_v80) main_call3.v0 main_call3.v1 maximumf,
    StableHlo.unary main_arg14 main_v82 ((extractStridedSlice S1x128 ![0, 0] · slices_S4x128_S1x128_0_0) : (⟨S4x128, .f32⟩ : BufTy).Contents (Elt F) → (⟨S1x128, .f32⟩ : BufTy).Contents (Elt F)),
    StableHlo.reshape main_v82 main_v83 rfl shapeCasts_S1x128_S128,
    StableHlo.unary main_arg15 main_v84 ((extractStridedSlice S1x128 ![0, 0] · slices_S4x128_S1x128_0_0) : (⟨S4x128, .f32⟩ : BufTy).Contents (Elt F) → (⟨S1x128, .f32⟩ : BufTy).Contents (Elt F)),
    StableHlo.reshape main_v84 main_v85 rfl shapeCasts_S1x128_S128,
    StableHlo.nullary main_cst_10 (constant S_ .f32 0x00000000#32),
    StableHlo.binary main_v81 main_cst_10 main_v86 ((fun x v => Host.reduceAdd x v reducesTo_S50000x128_S128_d0 h_S_) : (⟨S50000x128, .f32⟩ : BufTy).Contents (Elt F) → (⟨S_, .f32⟩ : BufTy).Contents (Elt F) → (⟨S128, .f32⟩ : BufTy).Contents (Elt F)),
    StableHlo.unary main_v86 main_v87 (broadcastInDim S1x128 ![1] bcast_S128_S1x128_1 : (⟨S128, .f32⟩ : BufTy).Contents (Elt F) → (⟨S1x128, .f32⟩ : BufTy).Contents (Elt F)),
    StableHlo.nullary main_cst_11 (constant S_ .f32 0x47435000#32),
    StableHlo.unary main_cst_11 main_v88 (broadcastInDim S1x128 ![] bcast_S_S1x128 : (⟨S_, .f32⟩ : BufTy).Contents (Elt F) → (⟨S1x128, .f32⟩ : BufTy).Contents (Elt F)),
    StableHlo.binary main_v87 main_v88 main_v89 (Host.divf : (⟨S1x128, .f32⟩ : BufTy).Contents (Elt F) → (⟨S1x128, .f32⟩ : BufTy).Contents (Elt F) → (⟨S1x128, .f32⟩ : BufTy).Contents (Elt F)),
    StableHlo.nullary main_c_12 (constantI S_ 32 0#32),
    StableHlo.TRef.nullary main_call4.cst (constant S_ .f32 0x00000000#32),
    StableHlo.TRef.binary (.of main_v81) main_call4.cst main_call4.v0 (fun x v => Host.reduceAdd x v reducesTo_S50000x128_S128_d0 h_S_),
    StableHlo.TRef.unary main_call4.v0 main_call4.v1 (broadcastInDim S1x128 ![1] bcast_S128_S1x128_1),
    StableHlo.TRef.nullary main_call4.cst_0 (constant S_ .f32 0x47435000#32),
    StableHlo.TRef.unary main_call4.cst_0 main_call4.v2 (broadcastInDim S1x128 ![] bcast_S_S1x128),
    StableHlo.TRef.binary main_call4.v1 main_call4.v2 main_call4.v3 Host.divf,
    StableHlo.TRef.unary main_call4.v3 main_call4.v4 (broadcastInDim S50000x128 ![0, 1] bcast_S1x128_S50000x128_0_1),
    StableHlo.TRef.binary (.of main_v81) main_call4.v4 main_call4.v5 subf,
    StableHlo.TRef.binary main_call4.v5 main_call4.v5 main_call4.v6 mulf,
    StableHlo.TRef.unary (.of main_c_12) main_call4.v7 (sitofp .f32),
    StableHlo.TRef.nullary main_call4.cst_1 (constant S_ .f32 0x47435000#32),
    StableHlo.TRef.binary main_call4.cst_1 main_call4.v7 main_call4.v8 subf,
    StableHlo.TRef.nullary main_call4.cst_2 (constant S_ .f32 0x00000000#32),
    StableHlo.TRef.binary main_call4.v6 main_call4.cst_2 main_call4.v9 (fun x v => Host.reduceAdd x v reducesTo_S50000x128_S128_d0 h_S_),
    StableHlo.TRef.unary main_call4.v9 main_call4.v10 (broadcastInDim S1x128 ![1] bcast_S128_S1x128_1),
    StableHlo.TRef.unary main_call4.v8 main_call4.v11 (broadcastInDim S1x128 ![] bcast_S_S1x128),
    StableHlo.TRef.binary main_call4.v10 main_call4.v11 main_call4.v12 Host.divf,
    StableHlo.TRef.nullary main_call4.cst_3 (constant S_ .f32 0x00000000#32),
    StableHlo.TRef.binary main_call4.v8 main_call4.cst_3 main_call4.v13 (cmpf .ogt),
    StableHlo.TRef.nullary main_call4.cst_4 (constant S_ .f32 0x7FC00000#32),
    StableHlo.TRef.unary main_call4.cst_4 main_call4.call0.v0 id,
    StableHlo.TRef.unary main_call4.call0.v0 main_call4.call0.v1 (broadcastInDim S1x128 ![] bcast_S_S1x128),
    StableHlo.TRef.ternary main_call4.v13 main_call4.v12 main_call4.call0.v1 main_call4.call0.v2 (fun p a b => select (broadcastInDim S1x128 ![] bcast_S_S1x128 p) a b),
    StableHlo.unary main_v89 main_v91 (broadcastInDim S50000x128 ![0, 1] bcast_S1x128_S50000x128_0_1 : (⟨S1x128, .f32⟩ : BufTy).Contents (Elt F) → (⟨S50000x128, .f32⟩ : BufTy).Contents (Elt F)),
    StableHlo.binary main_v81 main_v91 main_v92 (subf : (⟨S50000x128, .f32⟩ : BufTy).Contents (Elt F) → (⟨S50000x128, .f32⟩ : BufTy).Contents (Elt F) → (⟨S50000x128, .f32⟩ : BufTy).Contents (Elt F)),
    StableHlo.unary main_v83 main_v93 (broadcastInDim S1x128 ![1] bcast_S128_S1x128_1 : (⟨S128, .f32⟩ : BufTy).Contents (Elt F) → (⟨S1x128, .f32⟩ : BufTy).Contents (Elt F)),
    StableHlo.unary main_v93 main_v94 (broadcastInDim S50000x128 ![0, 1] bcast_S1x128_S50000x128_0_1 : (⟨S1x128, .f32⟩ : BufTy).Contents (Elt F) → (⟨S50000x128, .f32⟩ : BufTy).Contents (Elt F)),
    StableHlo.binary main_v94 main_v92 main_v95 (mulf : (⟨S50000x128, .f32⟩ : BufTy).Contents (Elt F) → (⟨S50000x128, .f32⟩ : BufTy).Contents (Elt F) → (⟨S50000x128, .f32⟩ : BufTy).Contents (Elt F)),
    StableHlo.nullary main_cst_13 (constant S_ .f32 0x3727C5AC#32),
    StableHlo.unary main_cst_13 main_v96 (broadcastInDim S1x128 ![] bcast_S_S1x128 : (⟨S_, .f32⟩ : BufTy).Contents (Elt F) → (⟨S1x128, .f32⟩ : BufTy).Contents (Elt F)),
    StableHlo.binary main_v90 main_v96 main_v97 (addf : (⟨S1x128, .f32⟩ : BufTy).Contents (Elt F) → (⟨S1x128, .f32⟩ : BufTy).Contents (Elt F) → (⟨S1x128, .f32⟩ : BufTy).Contents (Elt F)),
    StableHlo.unary main_v97 main_v98 (Host.rsqrt : (⟨S1x128, .f32⟩ : BufTy).Contents (Elt F) → (⟨S1x128, .f32⟩ : BufTy).Contents (Elt F)),
    StableHlo.unary main_v98 main_v99 (broadcastInDim S50000x128 ![0, 1] bcast_S1x128_S50000x128_0_1 : (⟨S1x128, .f32⟩ : BufTy).Contents (Elt F) → (⟨S50000x128, .f32⟩ : BufTy).Contents (Elt F)),
    StableHlo.binary main_v95 main_v99 main_v100 (mulf : (⟨S50000x128, .f32⟩ : BufTy).Contents (Elt F) → (⟨S50000x128, .f32⟩ : BufTy).Contents (Elt F) → (⟨S50000x128, .f32⟩ : BufTy).Contents (Elt F)),
    StableHlo.unary main_v85 main_v101 (broadcastInDim S1x128 ![1] bcast_S128_S1x128_1 : (⟨S128, .f32⟩ : BufTy).Contents (Elt F) → (⟨S1x128, .f32⟩ : BufTy).Contents (Elt F)),
    StableHlo.unary main_v101 main_v102 (broadcastInDim S50000x128 ![0, 1] bcast_S1x128_S50000x128_0_1 : (⟨S1x128, .f32⟩ : BufTy).Contents (Elt F) → (⟨S50000x128, .f32⟩ : BufTy).Contents (Elt F)),
    StableHlo.binary main_v100 main_v102 main_v103 (addf : (⟨S50000x128, .f32⟩ : BufTy).Contents (Elt F) → (⟨S50000x128, .f32⟩ : BufTy).Contents (Elt F) → (⟨S50000x128, .f32⟩ : BufTy).Contents (Elt F)),
    StableHlo.TRef.nullary main_call5.cst (constant S_ .f32 0x00000000#32),
    StableHlo.TRef.unary main_call5.cst main_call5.v0 (broadcastInDim S50000x128 ![] bcast_S_S50000x128),
    StableHlo.TRef.binary (.of main_v103) main_call5.v0 main_call5.v1 maximumf,
    StableHlo.binary main_v3 main_v104 main_v105 (addf : (⟨S50000x128, .f32⟩ : BufTy).Contents (Elt F) → (⟨S50000x128, .f32⟩ : BufTy).Contents (Elt F) → (⟨S50000x128, .f32⟩ : BufTy).Contents (Elt F)) ]

/-- Layer 1's operations. -/
abbrev opsL1 : List (HloOp τ sig (Elt F)) :=
  [ StableHlo.nullary main_c_14 (constantI S_ 32 0#32),
    StableHlo.unary main_c_14 main_v106 (broadcastInDim S1600000 ![] bcast_S_S1600000 : (⟨S_, .i32⟩ : BufTy).Contents (Elt F) → (⟨S1600000, .i32⟩ : BufTy).Contents (Elt F)),
    StableHlo.binary main_arg1 main_v106 main_v107 (cmpi .slt : (⟨S1600000, .i32⟩ : BufTy).Contents (Elt F) → (⟨S1600000, .i32⟩ : BufTy).Contents (Elt F) → (⟨S1600000, .i1⟩ : BufTy).Contents (Elt F)),
    StableHlo.nullary main_c_15 (constantI S_ 32 50000#32),
    StableHlo.unary main_c_15 main_v108 (broadcastInDim S1600000 ![] bcast_S_S1600000 : (⟨S_, .i32⟩ : BufTy).Contents (Elt F) → (⟨S1600000, .i32⟩ : BufTy).Contents (Elt F)),
    StableHlo.binary main_arg1 main_v108 main_v109 (addi : (⟨S1600000, .i32⟩ : BufTy).Contents (Elt F) → (⟨S1600000, .i32⟩ : BufTy).Contents (Elt F) → (⟨S1600000, .i32⟩ : BufTy).Contents (Elt F)),
    StableHlo.ternary main_v107 main_v109 main_arg1 main_v110 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    StableHlo.unary main_v110 main_v111 (broadcastInDim S1600000x1 ![0] bcast_S1600000_S1600000x1_0 : (⟨S1600000, .i32⟩ : BufTy).Contents (Elt F) → (⟨S1600000x1, .i32⟩ : BufTy).Contents (Elt F)),
    StableHlo.binary main_v105 main_v111 main_v112 ((fun x i => Host.gather gather_S50000x128_S1600000x1_S1600000x128_1_0_n_n_0_1_1128 x i) : (⟨S50000x128, .f32⟩ : BufTy).Contents (Elt F) → (⟨S1600000x1, .i32⟩ : BufTy).Contents (Elt F) → (⟨S1600000x128, .f32⟩ : BufTy).Contents (Elt F)),
    StableHlo.nullary main_cst_16 (constant S_ .f32 0x00000000#32),
    StableHlo.unary main_cst_16 main_v113 (broadcastInDim S50000x128 ![] bcast_S_S50000x128 : (⟨S_, .f32⟩ : BufTy).Contents (Elt F) → (⟨S50000x128, .f32⟩ : BufTy).Contents (Elt F)),
    StableHlo.unary main_arg2 main_v114 (broadcastInDim S1600000x1 ![0] bcast_S1600000_S1600000x1_0 : (⟨S1600000, .i32⟩ : BufTy).Contents (Elt F) → (⟨S1600000x1, .i32⟩ : BufTy).Contents (Elt F)),
    StableHlo.ternary main_v113 main_v114 main_v112 main_v115 ((fun x i u => Host.scatterAdd scatter_S50000x128_S1600000x1_S1600000x128_1_0_0_1 x i u) : (⟨S50000x128, .f32⟩ : BufTy).Contents (Elt F) → (⟨S1600000x1, .i32⟩ : BufTy).Contents (Elt F) → (⟨S1600000x128, .f32⟩ : BufTy).Contents (Elt F) → (⟨S50000x128, .f32⟩ : BufTy).Contents (Elt F)),
    StableHlo.unary main_arg5 main_v116 ((extractStridedSlice S1 ![1] · slices_S4_S1_1) : (⟨S4, .f32⟩ : BufTy).Contents (Elt F) → (⟨S1, .f32⟩ : BufTy).Contents (Elt F)),
    StableHlo.reshape main_v116 main_v117 rfl shapeCasts_S1_S_,
    StableHlo.nullary main_cst_17 (constant S_ .f32 0x3F800000#32),
    StableHlo.binary main_cst_17 main_v117 main_v118 (addf : (⟨S_, .f32⟩ : BufTy).Contents (Elt F) → (⟨S_, .f32⟩ : BufTy).Contents (Elt F) → (⟨S_, .f32⟩ : BufTy).Contents (Elt F)),
    StableHlo.unary main_v118 main_v119 (broadcastInDim S50000x128 ![] bcast_S_S50000x128 : (⟨S_, .f32⟩ : BufTy).Contents (Elt F) → (⟨S50000x128, .f32⟩ : BufTy).Contents (Elt F)),
    StableHlo.binary main_v119 main_v105 main_v120 (mulf : (⟨S50000x128, .f32⟩ : BufTy).Contents (Elt F) → (⟨S50000x128, .f32⟩ : BufTy).Contents (Elt F) → (⟨S50000x128, .f32⟩ : BufTy).Contents (Elt F)),
    StableHlo.binary main_v120 main_v115 main_v121 (addf : (⟨S50000x128, .f32⟩ : BufTy).Contents (Elt F) → (⟨S50000x128, .f32⟩ : BufTy).Contents (Elt F) → (⟨S50000x128, .f32⟩ : BufTy).Contents (Elt F)),
    StableHlo.unary main_arg6 main_v122 ((extractStridedSlice S1x128x128 ![1, 0, 0] · slices_S4x128x128_S1x128x128_1_0_0) : (⟨S4x128x128, .f32⟩ : BufTy).Contents (Elt F) → (⟨S1x128x128, .f32⟩ : BufTy).Contents (Elt F)),
    StableHlo.reshape main_v122 main_v123 rfl shapeCasts_S1x128x128_S128x128,
    StableHlo.binary main_v121 main_v123 main_v124 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    StableHlo.unary main_arg7 main_v125 ((extractStridedSlice S1x128 ![1, 0] · slices_S4x128_S1x128_1_0) : (⟨S4x128, .f32⟩ : BufTy).Contents (Elt F) → (⟨S1x128, .f32⟩ : BufTy).Contents (Elt F)),
    StableHlo.reshape main_v125 main_v126 rfl shapeCasts_S1x128_S128,
    StableHlo.unary main_v126 main_v127 (broadcastInDim S1x128 ![1] bcast_S128_S1x128_1 : (⟨S128, .f32⟩ : BufTy).Contents (Elt F) → (⟨S1x128, .f32⟩ : BufTy).Contents (Elt F)),
    StableHlo.unary main_v127 main_v128 (broadcastInDim S50000x128 ![0, 1] bcast_S1x128_S50000x128_0_1 : (⟨S1x128, .f32⟩ : BufTy).Contents (Elt F) → (⟨S50000x128, .f32⟩ : BufTy).Contents (Elt F)),
    StableHlo.binary main_v124 main_v128 main_v129 (addf : (⟨S50000x128, .f32⟩ : BufTy).Contents (Elt F) → (⟨S50000x128, .f32⟩ : BufTy).Contents (Elt F) → (⟨S50000x128, .f32⟩ : BufTy).Contents (Elt F)),
    StableHlo.unary main_arg8 main_v130 ((extractStridedSlice S1x128 ![1, 0] · slices_S4x128_S1x128_1_0) : (⟨S4x128, .f32⟩ : BufTy).Contents (Elt F) → (⟨S1x128, .f32⟩ : BufTy).Contents (Elt F)),
    StableHlo.reshape main_v130 main_v131 rfl shapeCasts_S1x128_S128,
    StableHlo.unary main_arg9 main_v132 ((extractStridedSlice S1x128 ![1, 0] · slices_S4x128_S1x128_1_0) : (⟨S4x128, .f32⟩ : BufTy).Contents (Elt F) → (⟨S1x128, .f32⟩ : BufTy).Contents (Elt F)),
    StableHlo.reshape main_v132 main_v133 rfl shapeCasts_S1x128_S128,
    StableHlo.nullary main_cst_18 (constant S_ .f32 0x00000000#32),
    StableHlo.binary main_v129 main_cst_18 main_v134 ((fun x v => Host.reduceAdd x v reducesTo_S50000x128_S128_d0 h_S_) : (⟨S50000x128, .f32⟩ : BufTy).Contents (Elt F) → (⟨S_, .f32⟩ : BufTy).Contents (Elt F) → (⟨S128, .f32⟩ : BufTy).Contents (Elt F)),
    StableHlo.unary main_v134 main_v135 (broadcastInDim S1x128 ![1] bcast_S128_S1x128_1 : (⟨S128, .f32⟩ : BufTy).Contents (Elt F) → (⟨S1x128, .f32⟩ : BufTy).Contents (Elt F)),
    StableHlo.nullary main_cst_19 (constant S_ .f32 0x47435000#32),
    StableHlo.unary main_cst_19 main_v136 (broadcastInDim S1x128 ![] bcast_S_S1x128 : (⟨S_, .f32⟩ : BufTy).Contents (Elt F) → (⟨S1x128, .f32⟩ : BufTy).Contents (Elt F)),
    StableHlo.binary main_v135 main_v136 main_v137 (Host.divf : (⟨S1x128, .f32⟩ : BufTy).Contents (Elt F) → (⟨S1x128, .f32⟩ : BufTy).Contents (Elt F) → (⟨S1x128, .f32⟩ : BufTy).Contents (Elt F)),
    StableHlo.nullary main_c_20 (constantI S_ 32 0#32),
    StableHlo.TRef.nullary main_call6.cst (constant S_ .f32 0x00000000#32),
    StableHlo.TRef.binary (.of main_v129) main_call6.cst main_call6.v0 (fun x v => Host.reduceAdd x v reducesTo_S50000x128_S128_d0 h_S_),
    StableHlo.TRef.unary main_call6.v0 main_call6.v1 (broadcastInDim S1x128 ![1] bcast_S128_S1x128_1),
    StableHlo.TRef.nullary main_call6.cst_0 (constant S_ .f32 0x47435000#32),
    StableHlo.TRef.unary main_call6.cst_0 main_call6.v2 (broadcastInDim S1x128 ![] bcast_S_S1x128),
    StableHlo.TRef.binary main_call6.v1 main_call6.v2 main_call6.v3 Host.divf,
    StableHlo.TRef.unary main_call6.v3 main_call6.v4 (broadcastInDim S50000x128 ![0, 1] bcast_S1x128_S50000x128_0_1),
    StableHlo.TRef.binary (.of main_v129) main_call6.v4 main_call6.v5 subf,
    StableHlo.TRef.binary main_call6.v5 main_call6.v5 main_call6.v6 mulf,
    StableHlo.TRef.unary (.of main_c_20) main_call6.v7 (sitofp .f32),
    StableHlo.TRef.nullary main_call6.cst_1 (constant S_ .f32 0x47435000#32),
    StableHlo.TRef.binary main_call6.cst_1 main_call6.v7 main_call6.v8 subf,
    StableHlo.TRef.nullary main_call6.cst_2 (constant S_ .f32 0x00000000#32),
    StableHlo.TRef.binary main_call6.v6 main_call6.cst_2 main_call6.v9 (fun x v => Host.reduceAdd x v reducesTo_S50000x128_S128_d0 h_S_),
    StableHlo.TRef.unary main_call6.v9 main_call6.v10 (broadcastInDim S1x128 ![1] bcast_S128_S1x128_1),
    StableHlo.TRef.unary main_call6.v8 main_call6.v11 (broadcastInDim S1x128 ![] bcast_S_S1x128),
    StableHlo.TRef.binary main_call6.v10 main_call6.v11 main_call6.v12 Host.divf,
    StableHlo.TRef.nullary main_call6.cst_3 (constant S_ .f32 0x00000000#32),
    StableHlo.TRef.binary main_call6.v8 main_call6.cst_3 main_call6.v13 (cmpf .ogt),
    StableHlo.TRef.nullary main_call6.cst_4 (constant S_ .f32 0x7FC00000#32),
    StableHlo.TRef.unary main_call6.cst_4 main_call6.call0.v0 id,
    StableHlo.TRef.unary main_call6.call0.v0 main_call6.call0.v1 (broadcastInDim S1x128 ![] bcast_S_S1x128),
    StableHlo.TRef.ternary main_call6.v13 main_call6.v12 main_call6.call0.v1 main_call6.call0.v2 (fun p a b => select (broadcastInDim S1x128 ![] bcast_S_S1x128 p) a b),
    StableHlo.unary main_v137 main_v139 (broadcastInDim S50000x128 ![0, 1] bcast_S1x128_S50000x128_0_1 : (⟨S1x128, .f32⟩ : BufTy).Contents (Elt F) → (⟨S50000x128, .f32⟩ : BufTy).Contents (Elt F)),
    StableHlo.binary main_v129 main_v139 main_v140 (subf : (⟨S50000x128, .f32⟩ : BufTy).Contents (Elt F) → (⟨S50000x128, .f32⟩ : BufTy).Contents (Elt F) → (⟨S50000x128, .f32⟩ : BufTy).Contents (Elt F)),
    StableHlo.unary main_v131 main_v141 (broadcastInDim S1x128 ![1] bcast_S128_S1x128_1 : (⟨S128, .f32⟩ : BufTy).Contents (Elt F) → (⟨S1x128, .f32⟩ : BufTy).Contents (Elt F)),
    StableHlo.unary main_v141 main_v142 (broadcastInDim S50000x128 ![0, 1] bcast_S1x128_S50000x128_0_1 : (⟨S1x128, .f32⟩ : BufTy).Contents (Elt F) → (⟨S50000x128, .f32⟩ : BufTy).Contents (Elt F)),
    StableHlo.binary main_v142 main_v140 main_v143 (mulf : (⟨S50000x128, .f32⟩ : BufTy).Contents (Elt F) → (⟨S50000x128, .f32⟩ : BufTy).Contents (Elt F) → (⟨S50000x128, .f32⟩ : BufTy).Contents (Elt F)),
    StableHlo.nullary main_cst_21 (constant S_ .f32 0x3727C5AC#32),
    StableHlo.unary main_cst_21 main_v144 (broadcastInDim S1x128 ![] bcast_S_S1x128 : (⟨S_, .f32⟩ : BufTy).Contents (Elt F) → (⟨S1x128, .f32⟩ : BufTy).Contents (Elt F)),
    StableHlo.binary main_v138 main_v144 main_v145 (addf : (⟨S1x128, .f32⟩ : BufTy).Contents (Elt F) → (⟨S1x128, .f32⟩ : BufTy).Contents (Elt F) → (⟨S1x128, .f32⟩ : BufTy).Contents (Elt F)),
    StableHlo.unary main_v145 main_v146 (Host.rsqrt : (⟨S1x128, .f32⟩ : BufTy).Contents (Elt F) → (⟨S1x128, .f32⟩ : BufTy).Contents (Elt F)),
    StableHlo.unary main_v146 main_v147 (broadcastInDim S50000x128 ![0, 1] bcast_S1x128_S50000x128_0_1 : (⟨S1x128, .f32⟩ : BufTy).Contents (Elt F) → (⟨S50000x128, .f32⟩ : BufTy).Contents (Elt F)),
    StableHlo.binary main_v143 main_v147 main_v148 (mulf : (⟨S50000x128, .f32⟩ : BufTy).Contents (Elt F) → (⟨S50000x128, .f32⟩ : BufTy).Contents (Elt F) → (⟨S50000x128, .f32⟩ : BufTy).Contents (Elt F)),
    StableHlo.unary main_v133 main_v149 (broadcastInDim S1x128 ![1] bcast_S128_S1x128_1 : (⟨S128, .f32⟩ : BufTy).Contents (Elt F) → (⟨S1x128, .f32⟩ : BufTy).Contents (Elt F)),
    StableHlo.unary main_v149 main_v150 (broadcastInDim S50000x128 ![0, 1] bcast_S1x128_S50000x128_0_1 : (⟨S1x128, .f32⟩ : BufTy).Contents (Elt F) → (⟨S50000x128, .f32⟩ : BufTy).Contents (Elt F)),
    StableHlo.binary main_v148 main_v150 main_v151 (addf : (⟨S50000x128, .f32⟩ : BufTy).Contents (Elt F) → (⟨S50000x128, .f32⟩ : BufTy).Contents (Elt F) → (⟨S50000x128, .f32⟩ : BufTy).Contents (Elt F)),
    StableHlo.TRef.nullary main_call7.cst (constant S_ .f32 0x00000000#32),
    StableHlo.TRef.unary main_call7.cst main_call7.v0 (broadcastInDim S50000x128 ![] bcast_S_S50000x128),
    StableHlo.TRef.binary (.of main_v151) main_call7.v0 main_call7.v1 maximumf,
    StableHlo.unary main_arg10 main_v153 ((extractStridedSlice S1x128x128 ![1, 0, 0] · slices_S4x128x128_S1x128x128_1_0_0) : (⟨S4x128x128, .f32⟩ : BufTy).Contents (Elt F) → (⟨S1x128x128, .f32⟩ : BufTy).Contents (Elt F)),
    StableHlo.reshape main_v153 main_v154 rfl shapeCasts_S1x128x128_S128x128,
    StableHlo.binary main_v152 main_v154 main_v155 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    StableHlo.unary main_arg11 main_v156 ((extractStridedSlice S1x128 ![1, 0] · slices_S4x128_S1x128_1_0) : (⟨S4x128, .f32⟩ : BufTy).Contents (Elt F) → (⟨S1x128, .f32⟩ : BufTy).Contents (Elt F)),
    StableHlo.reshape main_v156 main_v157 rfl shapeCasts_S1x128_S128,
    StableHlo.unary main_v157 main_v158 (broadcastInDim S1x128 ![1] bcast_S128_S1x128_1 : (⟨S128, .f32⟩ : BufTy).Contents (Elt F) → (⟨S1x128, .f32⟩ : BufTy).Contents (Elt F)),
    StableHlo.unary main_v158 main_v159 (broadcastInDim S50000x128 ![0, 1] bcast_S1x128_S50000x128_0_1 : (⟨S1x128, .f32⟩ : BufTy).Contents (Elt F) → (⟨S50000x128, .f32⟩ : BufTy).Contents (Elt F)),
    StableHlo.binary main_v155 main_v159 main_v160 (addf : (⟨S50000x128, .f32⟩ : BufTy).Contents (Elt F) → (⟨S50000x128, .f32⟩ : BufTy).Contents (Elt F) → (⟨S50000x128, .f32⟩ : BufTy).Contents (Elt F)),
    StableHlo.unary main_arg12 main_v161 ((extractStridedSlice S1x128 ![1, 0] · slices_S4x128_S1x128_1_0) : (⟨S4x128, .f32⟩ : BufTy).Contents (Elt F) → (⟨S1x128, .f32⟩ : BufTy).Contents (Elt F)),
    StableHlo.reshape main_v161 main_v162 rfl shapeCasts_S1x128_S128,
    StableHlo.unary main_arg13 main_v163 ((extractStridedSlice S1x128 ![1, 0] · slices_S4x128_S1x128_1_0) : (⟨S4x128, .f32⟩ : BufTy).Contents (Elt F) → (⟨S1x128, .f32⟩ : BufTy).Contents (Elt F)),
    StableHlo.reshape main_v163 main_v164 rfl shapeCasts_S1x128_S128,
    StableHlo.nullary main_cst_22 (constant S_ .f32 0x00000000#32),
    StableHlo.binary main_v160 main_cst_22 main_v165 ((fun x v => Host.reduceAdd x v reducesTo_S50000x128_S128_d0 h_S_) : (⟨S50000x128, .f32⟩ : BufTy).Contents (Elt F) → (⟨S_, .f32⟩ : BufTy).Contents (Elt F) → (⟨S128, .f32⟩ : BufTy).Contents (Elt F)),
    StableHlo.unary main_v165 main_v166 (broadcastInDim S1x128 ![1] bcast_S128_S1x128_1 : (⟨S128, .f32⟩ : BufTy).Contents (Elt F) → (⟨S1x128, .f32⟩ : BufTy).Contents (Elt F)),
    StableHlo.nullary main_cst_23 (constant S_ .f32 0x47435000#32),
    StableHlo.unary main_cst_23 main_v167 (broadcastInDim S1x128 ![] bcast_S_S1x128 : (⟨S_, .f32⟩ : BufTy).Contents (Elt F) → (⟨S1x128, .f32⟩ : BufTy).Contents (Elt F)),
    StableHlo.binary main_v166 main_v167 main_v168 (Host.divf : (⟨S1x128, .f32⟩ : BufTy).Contents (Elt F) → (⟨S1x128, .f32⟩ : BufTy).Contents (Elt F) → (⟨S1x128, .f32⟩ : BufTy).Contents (Elt F)),
    StableHlo.nullary main_c_24 (constantI S_ 32 0#32),
    StableHlo.TRef.nullary main_call8.cst (constant S_ .f32 0x00000000#32),
    StableHlo.TRef.binary (.of main_v160) main_call8.cst main_call8.v0 (fun x v => Host.reduceAdd x v reducesTo_S50000x128_S128_d0 h_S_),
    StableHlo.TRef.unary main_call8.v0 main_call8.v1 (broadcastInDim S1x128 ![1] bcast_S128_S1x128_1),
    StableHlo.TRef.nullary main_call8.cst_0 (constant S_ .f32 0x47435000#32),
    StableHlo.TRef.unary main_call8.cst_0 main_call8.v2 (broadcastInDim S1x128 ![] bcast_S_S1x128),
    StableHlo.TRef.binary main_call8.v1 main_call8.v2 main_call8.v3 Host.divf,
    StableHlo.TRef.unary main_call8.v3 main_call8.v4 (broadcastInDim S50000x128 ![0, 1] bcast_S1x128_S50000x128_0_1),
    StableHlo.TRef.binary (.of main_v160) main_call8.v4 main_call8.v5 subf,
    StableHlo.TRef.binary main_call8.v5 main_call8.v5 main_call8.v6 mulf,
    StableHlo.TRef.unary (.of main_c_24) main_call8.v7 (sitofp .f32),
    StableHlo.TRef.nullary main_call8.cst_1 (constant S_ .f32 0x47435000#32),
    StableHlo.TRef.binary main_call8.cst_1 main_call8.v7 main_call8.v8 subf,
    StableHlo.TRef.nullary main_call8.cst_2 (constant S_ .f32 0x00000000#32),
    StableHlo.TRef.binary main_call8.v6 main_call8.cst_2 main_call8.v9 (fun x v => Host.reduceAdd x v reducesTo_S50000x128_S128_d0 h_S_),
    StableHlo.TRef.unary main_call8.v9 main_call8.v10 (broadcastInDim S1x128 ![1] bcast_S128_S1x128_1),
    StableHlo.TRef.unary main_call8.v8 main_call8.v11 (broadcastInDim S1x128 ![] bcast_S_S1x128),
    StableHlo.TRef.binary main_call8.v10 main_call8.v11 main_call8.v12 Host.divf,
    StableHlo.TRef.nullary main_call8.cst_3 (constant S_ .f32 0x00000000#32),
    StableHlo.TRef.binary main_call8.v8 main_call8.cst_3 main_call8.v13 (cmpf .ogt),
    StableHlo.TRef.nullary main_call8.cst_4 (constant S_ .f32 0x7FC00000#32),
    StableHlo.TRef.unary main_call8.cst_4 main_call8.call0.v0 id,
    StableHlo.TRef.unary main_call8.call0.v0 main_call8.call0.v1 (broadcastInDim S1x128 ![] bcast_S_S1x128),
    StableHlo.TRef.ternary main_call8.v13 main_call8.v12 main_call8.call0.v1 main_call8.call0.v2 (fun p a b => select (broadcastInDim S1x128 ![] bcast_S_S1x128 p) a b),
    StableHlo.unary main_v168 main_v170 (broadcastInDim S50000x128 ![0, 1] bcast_S1x128_S50000x128_0_1 : (⟨S1x128, .f32⟩ : BufTy).Contents (Elt F) → (⟨S50000x128, .f32⟩ : BufTy).Contents (Elt F)),
    StableHlo.binary main_v160 main_v170 main_v171 (subf : (⟨S50000x128, .f32⟩ : BufTy).Contents (Elt F) → (⟨S50000x128, .f32⟩ : BufTy).Contents (Elt F) → (⟨S50000x128, .f32⟩ : BufTy).Contents (Elt F)),
    StableHlo.unary main_v162 main_v172 (broadcastInDim S1x128 ![1] bcast_S128_S1x128_1 : (⟨S128, .f32⟩ : BufTy).Contents (Elt F) → (⟨S1x128, .f32⟩ : BufTy).Contents (Elt F)),
    StableHlo.unary main_v172 main_v173 (broadcastInDim S50000x128 ![0, 1] bcast_S1x128_S50000x128_0_1 : (⟨S1x128, .f32⟩ : BufTy).Contents (Elt F) → (⟨S50000x128, .f32⟩ : BufTy).Contents (Elt F)),
    StableHlo.binary main_v173 main_v171 main_v174 (mulf : (⟨S50000x128, .f32⟩ : BufTy).Contents (Elt F) → (⟨S50000x128, .f32⟩ : BufTy).Contents (Elt F) → (⟨S50000x128, .f32⟩ : BufTy).Contents (Elt F)),
    StableHlo.nullary main_cst_25 (constant S_ .f32 0x3727C5AC#32),
    StableHlo.unary main_cst_25 main_v175 (broadcastInDim S1x128 ![] bcast_S_S1x128 : (⟨S_, .f32⟩ : BufTy).Contents (Elt F) → (⟨S1x128, .f32⟩ : BufTy).Contents (Elt F)),
    StableHlo.binary main_v169 main_v175 main_v176 (addf : (⟨S1x128, .f32⟩ : BufTy).Contents (Elt F) → (⟨S1x128, .f32⟩ : BufTy).Contents (Elt F) → (⟨S1x128, .f32⟩ : BufTy).Contents (Elt F)),
    StableHlo.unary main_v176 main_v177 (Host.rsqrt : (⟨S1x128, .f32⟩ : BufTy).Contents (Elt F) → (⟨S1x128, .f32⟩ : BufTy).Contents (Elt F)),
    StableHlo.unary main_v177 main_v178 (broadcastInDim S50000x128 ![0, 1] bcast_S1x128_S50000x128_0_1 : (⟨S1x128, .f32⟩ : BufTy).Contents (Elt F) → (⟨S50000x128, .f32⟩ : BufTy).Contents (Elt F)),
    StableHlo.binary main_v174 main_v178 main_v179 (mulf : (⟨S50000x128, .f32⟩ : BufTy).Contents (Elt F) → (⟨S50000x128, .f32⟩ : BufTy).Contents (Elt F) → (⟨S50000x128, .f32⟩ : BufTy).Contents (Elt F)),
    StableHlo.unary main_v164 main_v180 (broadcastInDim S1x128 ![1] bcast_S128_S1x128_1 : (⟨S128, .f32⟩ : BufTy).Contents (Elt F) → (⟨S1x128, .f32⟩ : BufTy).Contents (Elt F)),
    StableHlo.unary main_v180 main_v181 (broadcastInDim S50000x128 ![0, 1] bcast_S1x128_S50000x128_0_1 : (⟨S1x128, .f32⟩ : BufTy).Contents (Elt F) → (⟨S50000x128, .f32⟩ : BufTy).Contents (Elt F)),
    StableHlo.binary main_v179 main_v181 main_v182 (addf : (⟨S50000x128, .f32⟩ : BufTy).Contents (Elt F) → (⟨S50000x128, .f32⟩ : BufTy).Contents (Elt F) → (⟨S50000x128, .f32⟩ : BufTy).Contents (Elt F)),
    StableHlo.TRef.nullary main_call9.cst (constant S_ .f32 0x00000000#32),
    StableHlo.TRef.unary main_call9.cst main_call9.v0 (broadcastInDim S50000x128 ![] bcast_S_S50000x128),
    StableHlo.TRef.binary (.of main_v182) main_call9.v0 main_call9.v1 maximumf,
    StableHlo.unary main_arg14 main_v184 ((extractStridedSlice S1x128 ![1, 0] · slices_S4x128_S1x128_1_0) : (⟨S4x128, .f32⟩ : BufTy).Contents (Elt F) → (⟨S1x128, .f32⟩ : BufTy).Contents (Elt F)),
    StableHlo.reshape main_v184 main_v185 rfl shapeCasts_S1x128_S128,
    StableHlo.unary main_arg15 main_v186 ((extractStridedSlice S1x128 ![1, 0] · slices_S4x128_S1x128_1_0) : (⟨S4x128, .f32⟩ : BufTy).Contents (Elt F) → (⟨S1x128, .f32⟩ : BufTy).Contents (Elt F)),
    StableHlo.reshape main_v186 main_v187 rfl shapeCasts_S1x128_S128,
    StableHlo.nullary main_cst_26 (constant S_ .f32 0x00000000#32),
    StableHlo.binary main_v183 main_cst_26 main_v188 ((fun x v => Host.reduceAdd x v reducesTo_S50000x128_S128_d0 h_S_) : (⟨S50000x128, .f32⟩ : BufTy).Contents (Elt F) → (⟨S_, .f32⟩ : BufTy).Contents (Elt F) → (⟨S128, .f32⟩ : BufTy).Contents (Elt F)),
    StableHlo.unary main_v188 main_v189 (broadcastInDim S1x128 ![1] bcast_S128_S1x128_1 : (⟨S128, .f32⟩ : BufTy).Contents (Elt F) → (⟨S1x128, .f32⟩ : BufTy).Contents (Elt F)),
    StableHlo.nullary main_cst_27 (constant S_ .f32 0x47435000#32),
    StableHlo.unary main_cst_27 main_v190 (broadcastInDim S1x128 ![] bcast_S_S1x128 : (⟨S_, .f32⟩ : BufTy).Contents (Elt F) → (⟨S1x128, .f32⟩ : BufTy).Contents (Elt F)),
    StableHlo.binary main_v189 main_v190 main_v191 (Host.divf : (⟨S1x128, .f32⟩ : BufTy).Contents (Elt F) → (⟨S1x128, .f32⟩ : BufTy).Contents (Elt F) → (⟨S1x128, .f32⟩ : BufTy).Contents (Elt F)),
    StableHlo.nullary main_c_28 (constantI S_ 32 0#32),
    StableHlo.TRef.nullary main_call10.cst (constant S_ .f32 0x00000000#32),
    StableHlo.TRef.binary (.of main_v183) main_call10.cst main_call10.v0 (fun x v => Host.reduceAdd x v reducesTo_S50000x128_S128_d0 h_S_),
    StableHlo.TRef.unary main_call10.v0 main_call10.v1 (broadcastInDim S1x128 ![1] bcast_S128_S1x128_1),
    StableHlo.TRef.nullary main_call10.cst_0 (constant S_ .f32 0x47435000#32),
    StableHlo.TRef.unary main_call10.cst_0 main_call10.v2 (broadcastInDim S1x128 ![] bcast_S_S1x128),
    StableHlo.TRef.binary main_call10.v1 main_call10.v2 main_call10.v3 Host.divf,
    StableHlo.TRef.unary main_call10.v3 main_call10.v4 (broadcastInDim S50000x128 ![0, 1] bcast_S1x128_S50000x128_0_1),
    StableHlo.TRef.binary (.of main_v183) main_call10.v4 main_call10.v5 subf,
    StableHlo.TRef.binary main_call10.v5 main_call10.v5 main_call10.v6 mulf,
    StableHlo.TRef.unary (.of main_c_28) main_call10.v7 (sitofp .f32),
    StableHlo.TRef.nullary main_call10.cst_1 (constant S_ .f32 0x47435000#32),
    StableHlo.TRef.binary main_call10.cst_1 main_call10.v7 main_call10.v8 subf,
    StableHlo.TRef.nullary main_call10.cst_2 (constant S_ .f32 0x00000000#32),
    StableHlo.TRef.binary main_call10.v6 main_call10.cst_2 main_call10.v9 (fun x v => Host.reduceAdd x v reducesTo_S50000x128_S128_d0 h_S_),
    StableHlo.TRef.unary main_call10.v9 main_call10.v10 (broadcastInDim S1x128 ![1] bcast_S128_S1x128_1),
    StableHlo.TRef.unary main_call10.v8 main_call10.v11 (broadcastInDim S1x128 ![] bcast_S_S1x128),
    StableHlo.TRef.binary main_call10.v10 main_call10.v11 main_call10.v12 Host.divf,
    StableHlo.TRef.nullary main_call10.cst_3 (constant S_ .f32 0x00000000#32),
    StableHlo.TRef.binary main_call10.v8 main_call10.cst_3 main_call10.v13 (cmpf .ogt),
    StableHlo.TRef.nullary main_call10.cst_4 (constant S_ .f32 0x7FC00000#32),
    StableHlo.TRef.unary main_call10.cst_4 main_call10.call0.v0 id,
    StableHlo.TRef.unary main_call10.call0.v0 main_call10.call0.v1 (broadcastInDim S1x128 ![] bcast_S_S1x128),
    StableHlo.TRef.ternary main_call10.v13 main_call10.v12 main_call10.call0.v1 main_call10.call0.v2 (fun p a b => select (broadcastInDim S1x128 ![] bcast_S_S1x128 p) a b),
    StableHlo.unary main_v191 main_v193 (broadcastInDim S50000x128 ![0, 1] bcast_S1x128_S50000x128_0_1 : (⟨S1x128, .f32⟩ : BufTy).Contents (Elt F) → (⟨S50000x128, .f32⟩ : BufTy).Contents (Elt F)),
    StableHlo.binary main_v183 main_v193 main_v194 (subf : (⟨S50000x128, .f32⟩ : BufTy).Contents (Elt F) → (⟨S50000x128, .f32⟩ : BufTy).Contents (Elt F) → (⟨S50000x128, .f32⟩ : BufTy).Contents (Elt F)),
    StableHlo.unary main_v185 main_v195 (broadcastInDim S1x128 ![1] bcast_S128_S1x128_1 : (⟨S128, .f32⟩ : BufTy).Contents (Elt F) → (⟨S1x128, .f32⟩ : BufTy).Contents (Elt F)),
    StableHlo.unary main_v195 main_v196 (broadcastInDim S50000x128 ![0, 1] bcast_S1x128_S50000x128_0_1 : (⟨S1x128, .f32⟩ : BufTy).Contents (Elt F) → (⟨S50000x128, .f32⟩ : BufTy).Contents (Elt F)),
    StableHlo.binary main_v196 main_v194 main_v197 (mulf : (⟨S50000x128, .f32⟩ : BufTy).Contents (Elt F) → (⟨S50000x128, .f32⟩ : BufTy).Contents (Elt F) → (⟨S50000x128, .f32⟩ : BufTy).Contents (Elt F)),
    StableHlo.nullary main_cst_29 (constant S_ .f32 0x3727C5AC#32),
    StableHlo.unary main_cst_29 main_v198 (broadcastInDim S1x128 ![] bcast_S_S1x128 : (⟨S_, .f32⟩ : BufTy).Contents (Elt F) → (⟨S1x128, .f32⟩ : BufTy).Contents (Elt F)),
    StableHlo.binary main_v192 main_v198 main_v199 (addf : (⟨S1x128, .f32⟩ : BufTy).Contents (Elt F) → (⟨S1x128, .f32⟩ : BufTy).Contents (Elt F) → (⟨S1x128, .f32⟩ : BufTy).Contents (Elt F)),
    StableHlo.unary main_v199 main_v200 (Host.rsqrt : (⟨S1x128, .f32⟩ : BufTy).Contents (Elt F) → (⟨S1x128, .f32⟩ : BufTy).Contents (Elt F)),
    StableHlo.unary main_v200 main_v201 (broadcastInDim S50000x128 ![0, 1] bcast_S1x128_S50000x128_0_1 : (⟨S1x128, .f32⟩ : BufTy).Contents (Elt F) → (⟨S50000x128, .f32⟩ : BufTy).Contents (Elt F)),
    StableHlo.binary main_v197 main_v201 main_v202 (mulf : (⟨S50000x128, .f32⟩ : BufTy).Contents (Elt F) → (⟨S50000x128, .f32⟩ : BufTy).Contents (Elt F) → (⟨S50000x128, .f32⟩ : BufTy).Contents (Elt F)),
    StableHlo.unary main_v187 main_v203 (broadcastInDim S1x128 ![1] bcast_S128_S1x128_1 : (⟨S128, .f32⟩ : BufTy).Contents (Elt F) → (⟨S1x128, .f32⟩ : BufTy).Contents (Elt F)),
    StableHlo.unary main_v203 main_v204 (broadcastInDim S50000x128 ![0, 1] bcast_S1x128_S50000x128_0_1 : (⟨S1x128, .f32⟩ : BufTy).Contents (Elt F) → (⟨S50000x128, .f32⟩ : BufTy).Contents (Elt F)),
    StableHlo.binary main_v202 main_v204 main_v205 (addf : (⟨S50000x128, .f32⟩ : BufTy).Contents (Elt F) → (⟨S50000x128, .f32⟩ : BufTy).Contents (Elt F) → (⟨S50000x128, .f32⟩ : BufTy).Contents (Elt F)),
    StableHlo.TRef.nullary main_call11.cst (constant S_ .f32 0x00000000#32),
    StableHlo.TRef.unary main_call11.cst main_call11.v0 (broadcastInDim S50000x128 ![] bcast_S_S50000x128),
    StableHlo.TRef.binary (.of main_v205) main_call11.v0 main_call11.v1 maximumf,
    StableHlo.binary main_v105 main_v206 main_v207 (addf : (⟨S50000x128, .f32⟩ : BufTy).Contents (Elt F) → (⟨S50000x128, .f32⟩ : BufTy).Contents (Elt F) → (⟨S50000x128, .f32⟩ : BufTy).Contents (Elt F)) ]

/-- Layer 2's operations. -/
abbrev opsL2 : List (HloOp τ sig (Elt F)) :=
  [ StableHlo.nullary main_c_30 (constantI S_ 32 0#32),
    StableHlo.unary main_c_30 main_v208 (broadcastInDim S1600000 ![] bcast_S_S1600000 : (⟨S_, .i32⟩ : BufTy).Contents (Elt F) → (⟨S1600000, .i32⟩ : BufTy).Contents (Elt F)),
    StableHlo.binary main_arg1 main_v208 main_v209 (cmpi .slt : (⟨S1600000, .i32⟩ : BufTy).Contents (Elt F) → (⟨S1600000, .i32⟩ : BufTy).Contents (Elt F) → (⟨S1600000, .i1⟩ : BufTy).Contents (Elt F)),
    StableHlo.nullary main_c_31 (constantI S_ 32 50000#32),
    StableHlo.unary main_c_31 main_v210 (broadcastInDim S1600000 ![] bcast_S_S1600000 : (⟨S_, .i32⟩ : BufTy).Contents (Elt F) → (⟨S1600000, .i32⟩ : BufTy).Contents (Elt F)),
    StableHlo.binary main_arg1 main_v210 main_v211 (addi : (⟨S1600000, .i32⟩ : BufTy).Contents (Elt F) → (⟨S1600000, .i32⟩ : BufTy).Contents (Elt F) → (⟨S1600000, .i32⟩ : BufTy).Contents (Elt F)),
    StableHlo.ternary main_v209 main_v211 main_arg1 main_v212 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    StableHlo.unary main_v212 main_v213 (broadcastInDim S1600000x1 ![0] bcast_S1600000_S1600000x1_0 : (⟨S1600000, .i32⟩ : BufTy).Contents (Elt F) → (⟨S1600000x1, .i32⟩ : BufTy).Contents (Elt F)),
    StableHlo.binary main_v207 main_v213 main_v214 ((fun x i => Host.gather gather_S50000x128_S1600000x1_S1600000x128_1_0_n_n_0_1_1128 x i) : (⟨S50000x128, .f32⟩ : BufTy).Contents (Elt F) → (⟨S1600000x1, .i32⟩ : BufTy).Contents (Elt F) → (⟨S1600000x128, .f32⟩ : BufTy).Contents (Elt F)),
    StableHlo.nullary main_cst_32 (constant S_ .f32 0x00000000#32),
    StableHlo.unary main_cst_32 main_v215 (broadcastInDim S50000x128 ![] bcast_S_S50000x128 : (⟨S_, .f32⟩ : BufTy).Contents (Elt F) → (⟨S50000x128, .f32⟩ : BufTy).Contents (Elt F)),
    StableHlo.unary main_arg2 main_v216 (broadcastInDim S1600000x1 ![0] bcast_S1600000_S1600000x1_0 : (⟨S1600000, .i32⟩ : BufTy).Contents (Elt F) → (⟨S1600000x1, .i32⟩ : BufTy).Contents (Elt F)),
    StableHlo.ternary main_v215 main_v216 main_v214 main_v217 ((fun x i u => Host.scatterAdd scatter_S50000x128_S1600000x1_S1600000x128_1_0_0_1 x i u) : (⟨S50000x128, .f32⟩ : BufTy).Contents (Elt F) → (⟨S1600000x1, .i32⟩ : BufTy).Contents (Elt F) → (⟨S1600000x128, .f32⟩ : BufTy).Contents (Elt F) → (⟨S50000x128, .f32⟩ : BufTy).Contents (Elt F)),
    StableHlo.unary main_arg5 main_v218 ((extractStridedSlice S1 ![2] · slices_S4_S1_2) : (⟨S4, .f32⟩ : BufTy).Contents (Elt F) → (⟨S1, .f32⟩ : BufTy).Contents (Elt F)),
    StableHlo.reshape main_v218 main_v219 rfl shapeCasts_S1_S_,
    StableHlo.nullary main_cst_33 (constant S_ .f32 0x3F800000#32),
    StableHlo.binary main_cst_33 main_v219 main_v220 (addf : (⟨S_, .f32⟩ : BufTy).Contents (Elt F) → (⟨S_, .f32⟩ : BufTy).Contents (Elt F) → (⟨S_, .f32⟩ : BufTy).Contents (Elt F)),
    StableHlo.unary main_v220 main_v221 (broadcastInDim S50000x128 ![] bcast_S_S50000x128 : (⟨S_, .f32⟩ : BufTy).Contents (Elt F) → (⟨S50000x128, .f32⟩ : BufTy).Contents (Elt F)),
    StableHlo.binary main_v221 main_v207 main_v222 (mulf : (⟨S50000x128, .f32⟩ : BufTy).Contents (Elt F) → (⟨S50000x128, .f32⟩ : BufTy).Contents (Elt F) → (⟨S50000x128, .f32⟩ : BufTy).Contents (Elt F)),
    StableHlo.binary main_v222 main_v217 main_v223 (addf : (⟨S50000x128, .f32⟩ : BufTy).Contents (Elt F) → (⟨S50000x128, .f32⟩ : BufTy).Contents (Elt F) → (⟨S50000x128, .f32⟩ : BufTy).Contents (Elt F)),
    StableHlo.unary main_arg6 main_v224 ((extractStridedSlice S1x128x128 ![2, 0, 0] · slices_S4x128x128_S1x128x128_2_0_0) : (⟨S4x128x128, .f32⟩ : BufTy).Contents (Elt F) → (⟨S1x128x128, .f32⟩ : BufTy).Contents (Elt F)),
    StableHlo.reshape main_v224 main_v225 rfl shapeCasts_S1x128x128_S128x128,
    StableHlo.binary main_v223 main_v225 main_v226 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    StableHlo.unary main_arg7 main_v227 ((extractStridedSlice S1x128 ![2, 0] · slices_S4x128_S1x128_2_0) : (⟨S4x128, .f32⟩ : BufTy).Contents (Elt F) → (⟨S1x128, .f32⟩ : BufTy).Contents (Elt F)),
    StableHlo.reshape main_v227 main_v228 rfl shapeCasts_S1x128_S128,
    StableHlo.unary main_v228 main_v229 (broadcastInDim S1x128 ![1] bcast_S128_S1x128_1 : (⟨S128, .f32⟩ : BufTy).Contents (Elt F) → (⟨S1x128, .f32⟩ : BufTy).Contents (Elt F)),
    StableHlo.unary main_v229 main_v230 (broadcastInDim S50000x128 ![0, 1] bcast_S1x128_S50000x128_0_1 : (⟨S1x128, .f32⟩ : BufTy).Contents (Elt F) → (⟨S50000x128, .f32⟩ : BufTy).Contents (Elt F)),
    StableHlo.binary main_v226 main_v230 main_v231 (addf : (⟨S50000x128, .f32⟩ : BufTy).Contents (Elt F) → (⟨S50000x128, .f32⟩ : BufTy).Contents (Elt F) → (⟨S50000x128, .f32⟩ : BufTy).Contents (Elt F)),
    StableHlo.unary main_arg8 main_v232 ((extractStridedSlice S1x128 ![2, 0] · slices_S4x128_S1x128_2_0) : (⟨S4x128, .f32⟩ : BufTy).Contents (Elt F) → (⟨S1x128, .f32⟩ : BufTy).Contents (Elt F)),
    StableHlo.reshape main_v232 main_v233 rfl shapeCasts_S1x128_S128,
    StableHlo.unary main_arg9 main_v234 ((extractStridedSlice S1x128 ![2, 0] · slices_S4x128_S1x128_2_0) : (⟨S4x128, .f32⟩ : BufTy).Contents (Elt F) → (⟨S1x128, .f32⟩ : BufTy).Contents (Elt F)),
    StableHlo.reshape main_v234 main_v235 rfl shapeCasts_S1x128_S128,
    StableHlo.nullary main_cst_34 (constant S_ .f32 0x00000000#32),
    StableHlo.binary main_v231 main_cst_34 main_v236 ((fun x v => Host.reduceAdd x v reducesTo_S50000x128_S128_d0 h_S_) : (⟨S50000x128, .f32⟩ : BufTy).Contents (Elt F) → (⟨S_, .f32⟩ : BufTy).Contents (Elt F) → (⟨S128, .f32⟩ : BufTy).Contents (Elt F)),
    StableHlo.unary main_v236 main_v237 (broadcastInDim S1x128 ![1] bcast_S128_S1x128_1 : (⟨S128, .f32⟩ : BufTy).Contents (Elt F) → (⟨S1x128, .f32⟩ : BufTy).Contents (Elt F)),
    StableHlo.nullary main_cst_35 (constant S_ .f32 0x47435000#32),
    StableHlo.unary main_cst_35 main_v238 (broadcastInDim S1x128 ![] bcast_S_S1x128 : (⟨S_, .f32⟩ : BufTy).Contents (Elt F) → (⟨S1x128, .f32⟩ : BufTy).Contents (Elt F)),
    StableHlo.binary main_v237 main_v238 main_v239 (Host.divf : (⟨S1x128, .f32⟩ : BufTy).Contents (Elt F) → (⟨S1x128, .f32⟩ : BufTy).Contents (Elt F) → (⟨S1x128, .f32⟩ : BufTy).Contents (Elt F)),
    StableHlo.nullary main_c_36 (constantI S_ 32 0#32),
    StableHlo.TRef.nullary main_call12.cst (constant S_ .f32 0x00000000#32),
    StableHlo.TRef.binary (.of main_v231) main_call12.cst main_call12.v0 (fun x v => Host.reduceAdd x v reducesTo_S50000x128_S128_d0 h_S_),
    StableHlo.TRef.unary main_call12.v0 main_call12.v1 (broadcastInDim S1x128 ![1] bcast_S128_S1x128_1),
    StableHlo.TRef.nullary main_call12.cst_0 (constant S_ .f32 0x47435000#32),
    StableHlo.TRef.unary main_call12.cst_0 main_call12.v2 (broadcastInDim S1x128 ![] bcast_S_S1x128),
    StableHlo.TRef.binary main_call12.v1 main_call12.v2 main_call12.v3 Host.divf,
    StableHlo.TRef.unary main_call12.v3 main_call12.v4 (broadcastInDim S50000x128 ![0, 1] bcast_S1x128_S50000x128_0_1),
    StableHlo.TRef.binary (.of main_v231) main_call12.v4 main_call12.v5 subf,
    StableHlo.TRef.binary main_call12.v5 main_call12.v5 main_call12.v6 mulf,
    StableHlo.TRef.unary (.of main_c_36) main_call12.v7 (sitofp .f32),
    StableHlo.TRef.nullary main_call12.cst_1 (constant S_ .f32 0x47435000#32),
    StableHlo.TRef.binary main_call12.cst_1 main_call12.v7 main_call12.v8 subf,
    StableHlo.TRef.nullary main_call12.cst_2 (constant S_ .f32 0x00000000#32),
    StableHlo.TRef.binary main_call12.v6 main_call12.cst_2 main_call12.v9 (fun x v => Host.reduceAdd x v reducesTo_S50000x128_S128_d0 h_S_),
    StableHlo.TRef.unary main_call12.v9 main_call12.v10 (broadcastInDim S1x128 ![1] bcast_S128_S1x128_1),
    StableHlo.TRef.unary main_call12.v8 main_call12.v11 (broadcastInDim S1x128 ![] bcast_S_S1x128),
    StableHlo.TRef.binary main_call12.v10 main_call12.v11 main_call12.v12 Host.divf,
    StableHlo.TRef.nullary main_call12.cst_3 (constant S_ .f32 0x00000000#32),
    StableHlo.TRef.binary main_call12.v8 main_call12.cst_3 main_call12.v13 (cmpf .ogt),
    StableHlo.TRef.nullary main_call12.cst_4 (constant S_ .f32 0x7FC00000#32),
    StableHlo.TRef.unary main_call12.cst_4 main_call12.call0.v0 id,
    StableHlo.TRef.unary main_call12.call0.v0 main_call12.call0.v1 (broadcastInDim S1x128 ![] bcast_S_S1x128),
    StableHlo.TRef.ternary main_call12.v13 main_call12.v12 main_call12.call0.v1 main_call12.call0.v2 (fun p a b => select (broadcastInDim S1x128 ![] bcast_S_S1x128 p) a b),
    StableHlo.unary main_v239 main_v241 (broadcastInDim S50000x128 ![0, 1] bcast_S1x128_S50000x128_0_1 : (⟨S1x128, .f32⟩ : BufTy).Contents (Elt F) → (⟨S50000x128, .f32⟩ : BufTy).Contents (Elt F)),
    StableHlo.binary main_v231 main_v241 main_v242 (subf : (⟨S50000x128, .f32⟩ : BufTy).Contents (Elt F) → (⟨S50000x128, .f32⟩ : BufTy).Contents (Elt F) → (⟨S50000x128, .f32⟩ : BufTy).Contents (Elt F)),
    StableHlo.unary main_v233 main_v243 (broadcastInDim S1x128 ![1] bcast_S128_S1x128_1 : (⟨S128, .f32⟩ : BufTy).Contents (Elt F) → (⟨S1x128, .f32⟩ : BufTy).Contents (Elt F)),
    StableHlo.unary main_v243 main_v244 (broadcastInDim S50000x128 ![0, 1] bcast_S1x128_S50000x128_0_1 : (⟨S1x128, .f32⟩ : BufTy).Contents (Elt F) → (⟨S50000x128, .f32⟩ : BufTy).Contents (Elt F)),
    StableHlo.binary main_v244 main_v242 main_v245 (mulf : (⟨S50000x128, .f32⟩ : BufTy).Contents (Elt F) → (⟨S50000x128, .f32⟩ : BufTy).Contents (Elt F) → (⟨S50000x128, .f32⟩ : BufTy).Contents (Elt F)),
    StableHlo.nullary main_cst_37 (constant S_ .f32 0x3727C5AC#32),
    StableHlo.unary main_cst_37 main_v246 (broadcastInDim S1x128 ![] bcast_S_S1x128 : (⟨S_, .f32⟩ : BufTy).Contents (Elt F) → (⟨S1x128, .f32⟩ : BufTy).Contents (Elt F)),
    StableHlo.binary main_v240 main_v246 main_v247 (addf : (⟨S1x128, .f32⟩ : BufTy).Contents (Elt F) → (⟨S1x128, .f32⟩ : BufTy).Contents (Elt F) → (⟨S1x128, .f32⟩ : BufTy).Contents (Elt F)),
    StableHlo.unary main_v247 main_v248 (Host.rsqrt : (⟨S1x128, .f32⟩ : BufTy).Contents (Elt F) → (⟨S1x128, .f32⟩ : BufTy).Contents (Elt F)),
    StableHlo.unary main_v248 main_v249 (broadcastInDim S50000x128 ![0, 1] bcast_S1x128_S50000x128_0_1 : (⟨S1x128, .f32⟩ : BufTy).Contents (Elt F) → (⟨S50000x128, .f32⟩ : BufTy).Contents (Elt F)),
    StableHlo.binary main_v245 main_v249 main_v250 (mulf : (⟨S50000x128, .f32⟩ : BufTy).Contents (Elt F) → (⟨S50000x128, .f32⟩ : BufTy).Contents (Elt F) → (⟨S50000x128, .f32⟩ : BufTy).Contents (Elt F)),
    StableHlo.unary main_v235 main_v251 (broadcastInDim S1x128 ![1] bcast_S128_S1x128_1 : (⟨S128, .f32⟩ : BufTy).Contents (Elt F) → (⟨S1x128, .f32⟩ : BufTy).Contents (Elt F)),
    StableHlo.unary main_v251 main_v252 (broadcastInDim S50000x128 ![0, 1] bcast_S1x128_S50000x128_0_1 : (⟨S1x128, .f32⟩ : BufTy).Contents (Elt F) → (⟨S50000x128, .f32⟩ : BufTy).Contents (Elt F)),
    StableHlo.binary main_v250 main_v252 main_v253 (addf : (⟨S50000x128, .f32⟩ : BufTy).Contents (Elt F) → (⟨S50000x128, .f32⟩ : BufTy).Contents (Elt F) → (⟨S50000x128, .f32⟩ : BufTy).Contents (Elt F)),
    StableHlo.TRef.nullary main_call13.cst (constant S_ .f32 0x00000000#32),
    StableHlo.TRef.unary main_call13.cst main_call13.v0 (broadcastInDim S50000x128 ![] bcast_S_S50000x128),
    StableHlo.TRef.binary (.of main_v253) main_call13.v0 main_call13.v1 maximumf,
    StableHlo.unary main_arg10 main_v255 ((extractStridedSlice S1x128x128 ![2, 0, 0] · slices_S4x128x128_S1x128x128_2_0_0) : (⟨S4x128x128, .f32⟩ : BufTy).Contents (Elt F) → (⟨S1x128x128, .f32⟩ : BufTy).Contents (Elt F)),
    StableHlo.reshape main_v255 main_v256 rfl shapeCasts_S1x128x128_S128x128,
    StableHlo.binary main_v254 main_v256 main_v257 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    StableHlo.unary main_arg11 main_v258 ((extractStridedSlice S1x128 ![2, 0] · slices_S4x128_S1x128_2_0) : (⟨S4x128, .f32⟩ : BufTy).Contents (Elt F) → (⟨S1x128, .f32⟩ : BufTy).Contents (Elt F)),
    StableHlo.reshape main_v258 main_v259 rfl shapeCasts_S1x128_S128,
    StableHlo.unary main_v259 main_v260 (broadcastInDim S1x128 ![1] bcast_S128_S1x128_1 : (⟨S128, .f32⟩ : BufTy).Contents (Elt F) → (⟨S1x128, .f32⟩ : BufTy).Contents (Elt F)),
    StableHlo.unary main_v260 main_v261 (broadcastInDim S50000x128 ![0, 1] bcast_S1x128_S50000x128_0_1 : (⟨S1x128, .f32⟩ : BufTy).Contents (Elt F) → (⟨S50000x128, .f32⟩ : BufTy).Contents (Elt F)),
    StableHlo.binary main_v257 main_v261 main_v262 (addf : (⟨S50000x128, .f32⟩ : BufTy).Contents (Elt F) → (⟨S50000x128, .f32⟩ : BufTy).Contents (Elt F) → (⟨S50000x128, .f32⟩ : BufTy).Contents (Elt F)),
    StableHlo.unary main_arg12 main_v263 ((extractStridedSlice S1x128 ![2, 0] · slices_S4x128_S1x128_2_0) : (⟨S4x128, .f32⟩ : BufTy).Contents (Elt F) → (⟨S1x128, .f32⟩ : BufTy).Contents (Elt F)),
    StableHlo.reshape main_v263 main_v264 rfl shapeCasts_S1x128_S128,
    StableHlo.unary main_arg13 main_v265 ((extractStridedSlice S1x128 ![2, 0] · slices_S4x128_S1x128_2_0) : (⟨S4x128, .f32⟩ : BufTy).Contents (Elt F) → (⟨S1x128, .f32⟩ : BufTy).Contents (Elt F)),
    StableHlo.reshape main_v265 main_v266 rfl shapeCasts_S1x128_S128,
    StableHlo.nullary main_cst_38 (constant S_ .f32 0x00000000#32),
    StableHlo.binary main_v262 main_cst_38 main_v267 ((fun x v => Host.reduceAdd x v reducesTo_S50000x128_S128_d0 h_S_) : (⟨S50000x128, .f32⟩ : BufTy).Contents (Elt F) → (⟨S_, .f32⟩ : BufTy).Contents (Elt F) → (⟨S128, .f32⟩ : BufTy).Contents (Elt F)),
    StableHlo.unary main_v267 main_v268 (broadcastInDim S1x128 ![1] bcast_S128_S1x128_1 : (⟨S128, .f32⟩ : BufTy).Contents (Elt F) → (⟨S1x128, .f32⟩ : BufTy).Contents (Elt F)),
    StableHlo.nullary main_cst_39 (constant S_ .f32 0x47435000#32),
    StableHlo.unary main_cst_39 main_v269 (broadcastInDim S1x128 ![] bcast_S_S1x128 : (⟨S_, .f32⟩ : BufTy).Contents (Elt F) → (⟨S1x128, .f32⟩ : BufTy).Contents (Elt F)),
    StableHlo.binary main_v268 main_v269 main_v270 (Host.divf : (⟨S1x128, .f32⟩ : BufTy).Contents (Elt F) → (⟨S1x128, .f32⟩ : BufTy).Contents (Elt F) → (⟨S1x128, .f32⟩ : BufTy).Contents (Elt F)),
    StableHlo.nullary main_c_40 (constantI S_ 32 0#32),
    StableHlo.TRef.nullary main_call14.cst (constant S_ .f32 0x00000000#32),
    StableHlo.TRef.binary (.of main_v262) main_call14.cst main_call14.v0 (fun x v => Host.reduceAdd x v reducesTo_S50000x128_S128_d0 h_S_),
    StableHlo.TRef.unary main_call14.v0 main_call14.v1 (broadcastInDim S1x128 ![1] bcast_S128_S1x128_1),
    StableHlo.TRef.nullary main_call14.cst_0 (constant S_ .f32 0x47435000#32),
    StableHlo.TRef.unary main_call14.cst_0 main_call14.v2 (broadcastInDim S1x128 ![] bcast_S_S1x128),
    StableHlo.TRef.binary main_call14.v1 main_call14.v2 main_call14.v3 Host.divf,
    StableHlo.TRef.unary main_call14.v3 main_call14.v4 (broadcastInDim S50000x128 ![0, 1] bcast_S1x128_S50000x128_0_1),
    StableHlo.TRef.binary (.of main_v262) main_call14.v4 main_call14.v5 subf,
    StableHlo.TRef.binary main_call14.v5 main_call14.v5 main_call14.v6 mulf,
    StableHlo.TRef.unary (.of main_c_40) main_call14.v7 (sitofp .f32),
    StableHlo.TRef.nullary main_call14.cst_1 (constant S_ .f32 0x47435000#32),
    StableHlo.TRef.binary main_call14.cst_1 main_call14.v7 main_call14.v8 subf,
    StableHlo.TRef.nullary main_call14.cst_2 (constant S_ .f32 0x00000000#32),
    StableHlo.TRef.binary main_call14.v6 main_call14.cst_2 main_call14.v9 (fun x v => Host.reduceAdd x v reducesTo_S50000x128_S128_d0 h_S_),
    StableHlo.TRef.unary main_call14.v9 main_call14.v10 (broadcastInDim S1x128 ![1] bcast_S128_S1x128_1),
    StableHlo.TRef.unary main_call14.v8 main_call14.v11 (broadcastInDim S1x128 ![] bcast_S_S1x128),
    StableHlo.TRef.binary main_call14.v10 main_call14.v11 main_call14.v12 Host.divf,
    StableHlo.TRef.nullary main_call14.cst_3 (constant S_ .f32 0x00000000#32),
    StableHlo.TRef.binary main_call14.v8 main_call14.cst_3 main_call14.v13 (cmpf .ogt),
    StableHlo.TRef.nullary main_call14.cst_4 (constant S_ .f32 0x7FC00000#32),
    StableHlo.TRef.unary main_call14.cst_4 main_call14.call0.v0 id,
    StableHlo.TRef.unary main_call14.call0.v0 main_call14.call0.v1 (broadcastInDim S1x128 ![] bcast_S_S1x128),
    StableHlo.TRef.ternary main_call14.v13 main_call14.v12 main_call14.call0.v1 main_call14.call0.v2 (fun p a b => select (broadcastInDim S1x128 ![] bcast_S_S1x128 p) a b),
    StableHlo.unary main_v270 main_v272 (broadcastInDim S50000x128 ![0, 1] bcast_S1x128_S50000x128_0_1 : (⟨S1x128, .f32⟩ : BufTy).Contents (Elt F) → (⟨S50000x128, .f32⟩ : BufTy).Contents (Elt F)),
    StableHlo.binary main_v262 main_v272 main_v273 (subf : (⟨S50000x128, .f32⟩ : BufTy).Contents (Elt F) → (⟨S50000x128, .f32⟩ : BufTy).Contents (Elt F) → (⟨S50000x128, .f32⟩ : BufTy).Contents (Elt F)),
    StableHlo.unary main_v264 main_v274 (broadcastInDim S1x128 ![1] bcast_S128_S1x128_1 : (⟨S128, .f32⟩ : BufTy).Contents (Elt F) → (⟨S1x128, .f32⟩ : BufTy).Contents (Elt F)),
    StableHlo.unary main_v274 main_v275 (broadcastInDim S50000x128 ![0, 1] bcast_S1x128_S50000x128_0_1 : (⟨S1x128, .f32⟩ : BufTy).Contents (Elt F) → (⟨S50000x128, .f32⟩ : BufTy).Contents (Elt F)),
    StableHlo.binary main_v275 main_v273 main_v276 (mulf : (⟨S50000x128, .f32⟩ : BufTy).Contents (Elt F) → (⟨S50000x128, .f32⟩ : BufTy).Contents (Elt F) → (⟨S50000x128, .f32⟩ : BufTy).Contents (Elt F)),
    StableHlo.nullary main_cst_41 (constant S_ .f32 0x3727C5AC#32),
    StableHlo.unary main_cst_41 main_v277 (broadcastInDim S1x128 ![] bcast_S_S1x128 : (⟨S_, .f32⟩ : BufTy).Contents (Elt F) → (⟨S1x128, .f32⟩ : BufTy).Contents (Elt F)),
    StableHlo.binary main_v271 main_v277 main_v278 (addf : (⟨S1x128, .f32⟩ : BufTy).Contents (Elt F) → (⟨S1x128, .f32⟩ : BufTy).Contents (Elt F) → (⟨S1x128, .f32⟩ : BufTy).Contents (Elt F)),
    StableHlo.unary main_v278 main_v279 (Host.rsqrt : (⟨S1x128, .f32⟩ : BufTy).Contents (Elt F) → (⟨S1x128, .f32⟩ : BufTy).Contents (Elt F)),
    StableHlo.unary main_v279 main_v280 (broadcastInDim S50000x128 ![0, 1] bcast_S1x128_S50000x128_0_1 : (⟨S1x128, .f32⟩ : BufTy).Contents (Elt F) → (⟨S50000x128, .f32⟩ : BufTy).Contents (Elt F)),
    StableHlo.binary main_v276 main_v280 main_v281 (mulf : (⟨S50000x128, .f32⟩ : BufTy).Contents (Elt F) → (⟨S50000x128, .f32⟩ : BufTy).Contents (Elt F) → (⟨S50000x128, .f32⟩ : BufTy).Contents (Elt F)),
    StableHlo.unary main_v266 main_v282 (broadcastInDim S1x128 ![1] bcast_S128_S1x128_1 : (⟨S128, .f32⟩ : BufTy).Contents (Elt F) → (⟨S1x128, .f32⟩ : BufTy).Contents (Elt F)),
    StableHlo.unary main_v282 main_v283 (broadcastInDim S50000x128 ![0, 1] bcast_S1x128_S50000x128_0_1 : (⟨S1x128, .f32⟩ : BufTy).Contents (Elt F) → (⟨S50000x128, .f32⟩ : BufTy).Contents (Elt F)),
    StableHlo.binary main_v281 main_v283 main_v284 (addf : (⟨S50000x128, .f32⟩ : BufTy).Contents (Elt F) → (⟨S50000x128, .f32⟩ : BufTy).Contents (Elt F) → (⟨S50000x128, .f32⟩ : BufTy).Contents (Elt F)),
    StableHlo.TRef.nullary main_call15.cst (constant S_ .f32 0x00000000#32),
    StableHlo.TRef.unary main_call15.cst main_call15.v0 (broadcastInDim S50000x128 ![] bcast_S_S50000x128),
    StableHlo.TRef.binary (.of main_v284) main_call15.v0 main_call15.v1 maximumf,
    StableHlo.unary main_arg14 main_v286 ((extractStridedSlice S1x128 ![2, 0] · slices_S4x128_S1x128_2_0) : (⟨S4x128, .f32⟩ : BufTy).Contents (Elt F) → (⟨S1x128, .f32⟩ : BufTy).Contents (Elt F)),
    StableHlo.reshape main_v286 main_v287 rfl shapeCasts_S1x128_S128,
    StableHlo.unary main_arg15 main_v288 ((extractStridedSlice S1x128 ![2, 0] · slices_S4x128_S1x128_2_0) : (⟨S4x128, .f32⟩ : BufTy).Contents (Elt F) → (⟨S1x128, .f32⟩ : BufTy).Contents (Elt F)),
    StableHlo.reshape main_v288 main_v289 rfl shapeCasts_S1x128_S128,
    StableHlo.nullary main_cst_42 (constant S_ .f32 0x00000000#32),
    StableHlo.binary main_v285 main_cst_42 main_v290 ((fun x v => Host.reduceAdd x v reducesTo_S50000x128_S128_d0 h_S_) : (⟨S50000x128, .f32⟩ : BufTy).Contents (Elt F) → (⟨S_, .f32⟩ : BufTy).Contents (Elt F) → (⟨S128, .f32⟩ : BufTy).Contents (Elt F)),
    StableHlo.unary main_v290 main_v291 (broadcastInDim S1x128 ![1] bcast_S128_S1x128_1 : (⟨S128, .f32⟩ : BufTy).Contents (Elt F) → (⟨S1x128, .f32⟩ : BufTy).Contents (Elt F)),
    StableHlo.nullary main_cst_43 (constant S_ .f32 0x47435000#32),
    StableHlo.unary main_cst_43 main_v292 (broadcastInDim S1x128 ![] bcast_S_S1x128 : (⟨S_, .f32⟩ : BufTy).Contents (Elt F) → (⟨S1x128, .f32⟩ : BufTy).Contents (Elt F)),
    StableHlo.binary main_v291 main_v292 main_v293 (Host.divf : (⟨S1x128, .f32⟩ : BufTy).Contents (Elt F) → (⟨S1x128, .f32⟩ : BufTy).Contents (Elt F) → (⟨S1x128, .f32⟩ : BufTy).Contents (Elt F)),
    StableHlo.nullary main_c_44 (constantI S_ 32 0#32),
    StableHlo.TRef.nullary main_call16.cst (constant S_ .f32 0x00000000#32),
    StableHlo.TRef.binary (.of main_v285) main_call16.cst main_call16.v0 (fun x v => Host.reduceAdd x v reducesTo_S50000x128_S128_d0 h_S_),
    StableHlo.TRef.unary main_call16.v0 main_call16.v1 (broadcastInDim S1x128 ![1] bcast_S128_S1x128_1),
    StableHlo.TRef.nullary main_call16.cst_0 (constant S_ .f32 0x47435000#32),
    StableHlo.TRef.unary main_call16.cst_0 main_call16.v2 (broadcastInDim S1x128 ![] bcast_S_S1x128),
    StableHlo.TRef.binary main_call16.v1 main_call16.v2 main_call16.v3 Host.divf,
    StableHlo.TRef.unary main_call16.v3 main_call16.v4 (broadcastInDim S50000x128 ![0, 1] bcast_S1x128_S50000x128_0_1),
    StableHlo.TRef.binary (.of main_v285) main_call16.v4 main_call16.v5 subf,
    StableHlo.TRef.binary main_call16.v5 main_call16.v5 main_call16.v6 mulf,
    StableHlo.TRef.unary (.of main_c_44) main_call16.v7 (sitofp .f32),
    StableHlo.TRef.nullary main_call16.cst_1 (constant S_ .f32 0x47435000#32),
    StableHlo.TRef.binary main_call16.cst_1 main_call16.v7 main_call16.v8 subf,
    StableHlo.TRef.nullary main_call16.cst_2 (constant S_ .f32 0x00000000#32),
    StableHlo.TRef.binary main_call16.v6 main_call16.cst_2 main_call16.v9 (fun x v => Host.reduceAdd x v reducesTo_S50000x128_S128_d0 h_S_),
    StableHlo.TRef.unary main_call16.v9 main_call16.v10 (broadcastInDim S1x128 ![1] bcast_S128_S1x128_1),
    StableHlo.TRef.unary main_call16.v8 main_call16.v11 (broadcastInDim S1x128 ![] bcast_S_S1x128),
    StableHlo.TRef.binary main_call16.v10 main_call16.v11 main_call16.v12 Host.divf,
    StableHlo.TRef.nullary main_call16.cst_3 (constant S_ .f32 0x00000000#32),
    StableHlo.TRef.binary main_call16.v8 main_call16.cst_3 main_call16.v13 (cmpf .ogt),
    StableHlo.TRef.nullary main_call16.cst_4 (constant S_ .f32 0x7FC00000#32),
    StableHlo.TRef.unary main_call16.cst_4 main_call16.call0.v0 id,
    StableHlo.TRef.unary main_call16.call0.v0 main_call16.call0.v1 (broadcastInDim S1x128 ![] bcast_S_S1x128),
    StableHlo.TRef.ternary main_call16.v13 main_call16.v12 main_call16.call0.v1 main_call16.call0.v2 (fun p a b => select (broadcastInDim S1x128 ![] bcast_S_S1x128 p) a b),
    StableHlo.unary main_v293 main_v295 (broadcastInDim S50000x128 ![0, 1] bcast_S1x128_S50000x128_0_1 : (⟨S1x128, .f32⟩ : BufTy).Contents (Elt F) → (⟨S50000x128, .f32⟩ : BufTy).Contents (Elt F)),
    StableHlo.binary main_v285 main_v295 main_v296 (subf : (⟨S50000x128, .f32⟩ : BufTy).Contents (Elt F) → (⟨S50000x128, .f32⟩ : BufTy).Contents (Elt F) → (⟨S50000x128, .f32⟩ : BufTy).Contents (Elt F)),
    StableHlo.unary main_v287 main_v297 (broadcastInDim S1x128 ![1] bcast_S128_S1x128_1 : (⟨S128, .f32⟩ : BufTy).Contents (Elt F) → (⟨S1x128, .f32⟩ : BufTy).Contents (Elt F)),
    StableHlo.unary main_v297 main_v298 (broadcastInDim S50000x128 ![0, 1] bcast_S1x128_S50000x128_0_1 : (⟨S1x128, .f32⟩ : BufTy).Contents (Elt F) → (⟨S50000x128, .f32⟩ : BufTy).Contents (Elt F)),
    StableHlo.binary main_v298 main_v296 main_v299 (mulf : (⟨S50000x128, .f32⟩ : BufTy).Contents (Elt F) → (⟨S50000x128, .f32⟩ : BufTy).Contents (Elt F) → (⟨S50000x128, .f32⟩ : BufTy).Contents (Elt F)),
    StableHlo.nullary main_cst_45 (constant S_ .f32 0x3727C5AC#32),
    StableHlo.unary main_cst_45 main_v300 (broadcastInDim S1x128 ![] bcast_S_S1x128 : (⟨S_, .f32⟩ : BufTy).Contents (Elt F) → (⟨S1x128, .f32⟩ : BufTy).Contents (Elt F)),
    StableHlo.binary main_v294 main_v300 main_v301 (addf : (⟨S1x128, .f32⟩ : BufTy).Contents (Elt F) → (⟨S1x128, .f32⟩ : BufTy).Contents (Elt F) → (⟨S1x128, .f32⟩ : BufTy).Contents (Elt F)),
    StableHlo.unary main_v301 main_v302 (Host.rsqrt : (⟨S1x128, .f32⟩ : BufTy).Contents (Elt F) → (⟨S1x128, .f32⟩ : BufTy).Contents (Elt F)),
    StableHlo.unary main_v302 main_v303 (broadcastInDim S50000x128 ![0, 1] bcast_S1x128_S50000x128_0_1 : (⟨S1x128, .f32⟩ : BufTy).Contents (Elt F) → (⟨S50000x128, .f32⟩ : BufTy).Contents (Elt F)),
    StableHlo.binary main_v299 main_v303 main_v304 (mulf : (⟨S50000x128, .f32⟩ : BufTy).Contents (Elt F) → (⟨S50000x128, .f32⟩ : BufTy).Contents (Elt F) → (⟨S50000x128, .f32⟩ : BufTy).Contents (Elt F)),
    StableHlo.unary main_v289 main_v305 (broadcastInDim S1x128 ![1] bcast_S128_S1x128_1 : (⟨S128, .f32⟩ : BufTy).Contents (Elt F) → (⟨S1x128, .f32⟩ : BufTy).Contents (Elt F)),
    StableHlo.unary main_v305 main_v306 (broadcastInDim S50000x128 ![0, 1] bcast_S1x128_S50000x128_0_1 : (⟨S1x128, .f32⟩ : BufTy).Contents (Elt F) → (⟨S50000x128, .f32⟩ : BufTy).Contents (Elt F)),
    StableHlo.binary main_v304 main_v306 main_v307 (addf : (⟨S50000x128, .f32⟩ : BufTy).Contents (Elt F) → (⟨S50000x128, .f32⟩ : BufTy).Contents (Elt F) → (⟨S50000x128, .f32⟩ : BufTy).Contents (Elt F)),
    StableHlo.TRef.nullary main_call17.cst (constant S_ .f32 0x00000000#32),
    StableHlo.TRef.unary main_call17.cst main_call17.v0 (broadcastInDim S50000x128 ![] bcast_S_S50000x128),
    StableHlo.TRef.binary (.of main_v307) main_call17.v0 main_call17.v1 maximumf,
    StableHlo.binary main_v207 main_v308 main_v309 (addf : (⟨S50000x128, .f32⟩ : BufTy).Contents (Elt F) → (⟨S50000x128, .f32⟩ : BufTy).Contents (Elt F) → (⟨S50000x128, .f32⟩ : BufTy).Contents (Elt F)) ]

/-- Layer 3's operations. -/
abbrev opsL3 : List (HloOp τ sig (Elt F)) :=
  [ StableHlo.nullary main_c_46 (constantI S_ 32 0#32),
    StableHlo.unary main_c_46 main_v310 (broadcastInDim S1600000 ![] bcast_S_S1600000 : (⟨S_, .i32⟩ : BufTy).Contents (Elt F) → (⟨S1600000, .i32⟩ : BufTy).Contents (Elt F)),
    StableHlo.binary main_arg1 main_v310 main_v311 (cmpi .slt : (⟨S1600000, .i32⟩ : BufTy).Contents (Elt F) → (⟨S1600000, .i32⟩ : BufTy).Contents (Elt F) → (⟨S1600000, .i1⟩ : BufTy).Contents (Elt F)),
    StableHlo.nullary main_c_47 (constantI S_ 32 50000#32),
    StableHlo.unary main_c_47 main_v312 (broadcastInDim S1600000 ![] bcast_S_S1600000 : (⟨S_, .i32⟩ : BufTy).Contents (Elt F) → (⟨S1600000, .i32⟩ : BufTy).Contents (Elt F)),
    StableHlo.binary main_arg1 main_v312 main_v313 (addi : (⟨S1600000, .i32⟩ : BufTy).Contents (Elt F) → (⟨S1600000, .i32⟩ : BufTy).Contents (Elt F) → (⟨S1600000, .i32⟩ : BufTy).Contents (Elt F)),
    StableHlo.ternary main_v311 main_v313 main_arg1 main_v314 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    StableHlo.unary main_v314 main_v315 (broadcastInDim S1600000x1 ![0] bcast_S1600000_S1600000x1_0 : (⟨S1600000, .i32⟩ : BufTy).Contents (Elt F) → (⟨S1600000x1, .i32⟩ : BufTy).Contents (Elt F)),
    StableHlo.binary main_v309 main_v315 main_v316 ((fun x i => Host.gather gather_S50000x128_S1600000x1_S1600000x128_1_0_n_n_0_1_1128 x i) : (⟨S50000x128, .f32⟩ : BufTy).Contents (Elt F) → (⟨S1600000x1, .i32⟩ : BufTy).Contents (Elt F) → (⟨S1600000x128, .f32⟩ : BufTy).Contents (Elt F)),
    StableHlo.nullary main_cst_48 (constant S_ .f32 0x00000000#32),
    StableHlo.unary main_cst_48 main_v317 (broadcastInDim S50000x128 ![] bcast_S_S50000x128 : (⟨S_, .f32⟩ : BufTy).Contents (Elt F) → (⟨S50000x128, .f32⟩ : BufTy).Contents (Elt F)),
    StableHlo.unary main_arg2 main_v318 (broadcastInDim S1600000x1 ![0] bcast_S1600000_S1600000x1_0 : (⟨S1600000, .i32⟩ : BufTy).Contents (Elt F) → (⟨S1600000x1, .i32⟩ : BufTy).Contents (Elt F)),
    StableHlo.ternary main_v317 main_v318 main_v316 main_v319 ((fun x i u => Host.scatterAdd scatter_S50000x128_S1600000x1_S1600000x128_1_0_0_1 x i u) : (⟨S50000x128, .f32⟩ : BufTy).Contents (Elt F) → (⟨S1600000x1, .i32⟩ : BufTy).Contents (Elt F) → (⟨S1600000x128, .f32⟩ : BufTy).Contents (Elt F) → (⟨S50000x128, .f32⟩ : BufTy).Contents (Elt F)),
    StableHlo.unary main_arg5 main_v320 ((extractStridedSlice S1 ![3] · slices_S4_S1_3) : (⟨S4, .f32⟩ : BufTy).Contents (Elt F) → (⟨S1, .f32⟩ : BufTy).Contents (Elt F)),
    StableHlo.reshape main_v320 main_v321 rfl shapeCasts_S1_S_,
    StableHlo.nullary main_cst_49 (constant S_ .f32 0x3F800000#32),
    StableHlo.binary main_cst_49 main_v321 main_v322 (addf : (⟨S_, .f32⟩ : BufTy).Contents (Elt F) → (⟨S_, .f32⟩ : BufTy).Contents (Elt F) → (⟨S_, .f32⟩ : BufTy).Contents (Elt F)),
    StableHlo.unary main_v322 main_v323 (broadcastInDim S50000x128 ![] bcast_S_S50000x128 : (⟨S_, .f32⟩ : BufTy).Contents (Elt F) → (⟨S50000x128, .f32⟩ : BufTy).Contents (Elt F)),
    StableHlo.binary main_v323 main_v309 main_v324 (mulf : (⟨S50000x128, .f32⟩ : BufTy).Contents (Elt F) → (⟨S50000x128, .f32⟩ : BufTy).Contents (Elt F) → (⟨S50000x128, .f32⟩ : BufTy).Contents (Elt F)),
    StableHlo.binary main_v324 main_v319 main_v325 (addf : (⟨S50000x128, .f32⟩ : BufTy).Contents (Elt F) → (⟨S50000x128, .f32⟩ : BufTy).Contents (Elt F) → (⟨S50000x128, .f32⟩ : BufTy).Contents (Elt F)),
    StableHlo.unary main_arg6 main_v326 ((extractStridedSlice S1x128x128 ![3, 0, 0] · slices_S4x128x128_S1x128x128_3_0_0) : (⟨S4x128x128, .f32⟩ : BufTy).Contents (Elt F) → (⟨S1x128x128, .f32⟩ : BufTy).Contents (Elt F)),
    StableHlo.reshape main_v326 main_v327 rfl shapeCasts_S1x128x128_S128x128,
    StableHlo.binary main_v325 main_v327 main_v328 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    StableHlo.unary main_arg7 main_v329 ((extractStridedSlice S1x128 ![3, 0] · slices_S4x128_S1x128_3_0) : (⟨S4x128, .f32⟩ : BufTy).Contents (Elt F) → (⟨S1x128, .f32⟩ : BufTy).Contents (Elt F)),
    StableHlo.reshape main_v329 main_v330 rfl shapeCasts_S1x128_S128,
    StableHlo.unary main_v330 main_v331 (broadcastInDim S1x128 ![1] bcast_S128_S1x128_1 : (⟨S128, .f32⟩ : BufTy).Contents (Elt F) → (⟨S1x128, .f32⟩ : BufTy).Contents (Elt F)),
    StableHlo.unary main_v331 main_v332 (broadcastInDim S50000x128 ![0, 1] bcast_S1x128_S50000x128_0_1 : (⟨S1x128, .f32⟩ : BufTy).Contents (Elt F) → (⟨S50000x128, .f32⟩ : BufTy).Contents (Elt F)),
    StableHlo.binary main_v328 main_v332 main_v333 (addf : (⟨S50000x128, .f32⟩ : BufTy).Contents (Elt F) → (⟨S50000x128, .f32⟩ : BufTy).Contents (Elt F) → (⟨S50000x128, .f32⟩ : BufTy).Contents (Elt F)),
    StableHlo.unary main_arg8 main_v334 ((extractStridedSlice S1x128 ![3, 0] · slices_S4x128_S1x128_3_0) : (⟨S4x128, .f32⟩ : BufTy).Contents (Elt F) → (⟨S1x128, .f32⟩ : BufTy).Contents (Elt F)),
    StableHlo.reshape main_v334 main_v335 rfl shapeCasts_S1x128_S128,
    StableHlo.unary main_arg9 main_v336 ((extractStridedSlice S1x128 ![3, 0] · slices_S4x128_S1x128_3_0) : (⟨S4x128, .f32⟩ : BufTy).Contents (Elt F) → (⟨S1x128, .f32⟩ : BufTy).Contents (Elt F)),
    StableHlo.reshape main_v336 main_v337 rfl shapeCasts_S1x128_S128,
    StableHlo.nullary main_cst_50 (constant S_ .f32 0x00000000#32),
    StableHlo.binary main_v333 main_cst_50 main_v338 ((fun x v => Host.reduceAdd x v reducesTo_S50000x128_S128_d0 h_S_) : (⟨S50000x128, .f32⟩ : BufTy).Contents (Elt F) → (⟨S_, .f32⟩ : BufTy).Contents (Elt F) → (⟨S128, .f32⟩ : BufTy).Contents (Elt F)),
    StableHlo.unary main_v338 main_v339 (broadcastInDim S1x128 ![1] bcast_S128_S1x128_1 : (⟨S128, .f32⟩ : BufTy).Contents (Elt F) → (⟨S1x128, .f32⟩ : BufTy).Contents (Elt F)),
    StableHlo.nullary main_cst_51 (constant S_ .f32 0x47435000#32),
    StableHlo.unary main_cst_51 main_v340 (broadcastInDim S1x128 ![] bcast_S_S1x128 : (⟨S_, .f32⟩ : BufTy).Contents (Elt F) → (⟨S1x128, .f32⟩ : BufTy).Contents (Elt F)),
    StableHlo.binary main_v339 main_v340 main_v341 (Host.divf : (⟨S1x128, .f32⟩ : BufTy).Contents (Elt F) → (⟨S1x128, .f32⟩ : BufTy).Contents (Elt F) → (⟨S1x128, .f32⟩ : BufTy).Contents (Elt F)),
    StableHlo.nullary main_c_52 (constantI S_ 32 0#32),
    StableHlo.TRef.nullary main_call18.cst (constant S_ .f32 0x00000000#32),
    StableHlo.TRef.binary (.of main_v333) main_call18.cst main_call18.v0 (fun x v => Host.reduceAdd x v reducesTo_S50000x128_S128_d0 h_S_),
    StableHlo.TRef.unary main_call18.v0 main_call18.v1 (broadcastInDim S1x128 ![1] bcast_S128_S1x128_1),
    StableHlo.TRef.nullary main_call18.cst_0 (constant S_ .f32 0x47435000#32),
    StableHlo.TRef.unary main_call18.cst_0 main_call18.v2 (broadcastInDim S1x128 ![] bcast_S_S1x128),
    StableHlo.TRef.binary main_call18.v1 main_call18.v2 main_call18.v3 Host.divf,
    StableHlo.TRef.unary main_call18.v3 main_call18.v4 (broadcastInDim S50000x128 ![0, 1] bcast_S1x128_S50000x128_0_1),
    StableHlo.TRef.binary (.of main_v333) main_call18.v4 main_call18.v5 subf,
    StableHlo.TRef.binary main_call18.v5 main_call18.v5 main_call18.v6 mulf,
    StableHlo.TRef.unary (.of main_c_52) main_call18.v7 (sitofp .f32),
    StableHlo.TRef.nullary main_call18.cst_1 (constant S_ .f32 0x47435000#32),
    StableHlo.TRef.binary main_call18.cst_1 main_call18.v7 main_call18.v8 subf,
    StableHlo.TRef.nullary main_call18.cst_2 (constant S_ .f32 0x00000000#32),
    StableHlo.TRef.binary main_call18.v6 main_call18.cst_2 main_call18.v9 (fun x v => Host.reduceAdd x v reducesTo_S50000x128_S128_d0 h_S_),
    StableHlo.TRef.unary main_call18.v9 main_call18.v10 (broadcastInDim S1x128 ![1] bcast_S128_S1x128_1),
    StableHlo.TRef.unary main_call18.v8 main_call18.v11 (broadcastInDim S1x128 ![] bcast_S_S1x128),
    StableHlo.TRef.binary main_call18.v10 main_call18.v11 main_call18.v12 Host.divf,
    StableHlo.TRef.nullary main_call18.cst_3 (constant S_ .f32 0x00000000#32),
    StableHlo.TRef.binary main_call18.v8 main_call18.cst_3 main_call18.v13 (cmpf .ogt),
    StableHlo.TRef.nullary main_call18.cst_4 (constant S_ .f32 0x7FC00000#32),
    StableHlo.TRef.unary main_call18.cst_4 main_call18.call0.v0 id,
    StableHlo.TRef.unary main_call18.call0.v0 main_call18.call0.v1 (broadcastInDim S1x128 ![] bcast_S_S1x128),
    StableHlo.TRef.ternary main_call18.v13 main_call18.v12 main_call18.call0.v1 main_call18.call0.v2 (fun p a b => select (broadcastInDim S1x128 ![] bcast_S_S1x128 p) a b),
    StableHlo.unary main_v341 main_v343 (broadcastInDim S50000x128 ![0, 1] bcast_S1x128_S50000x128_0_1 : (⟨S1x128, .f32⟩ : BufTy).Contents (Elt F) → (⟨S50000x128, .f32⟩ : BufTy).Contents (Elt F)),
    StableHlo.binary main_v333 main_v343 main_v344 (subf : (⟨S50000x128, .f32⟩ : BufTy).Contents (Elt F) → (⟨S50000x128, .f32⟩ : BufTy).Contents (Elt F) → (⟨S50000x128, .f32⟩ : BufTy).Contents (Elt F)),
    StableHlo.unary main_v335 main_v345 (broadcastInDim S1x128 ![1] bcast_S128_S1x128_1 : (⟨S128, .f32⟩ : BufTy).Contents (Elt F) → (⟨S1x128, .f32⟩ : BufTy).Contents (Elt F)),
    StableHlo.unary main_v345 main_v346 (broadcastInDim S50000x128 ![0, 1] bcast_S1x128_S50000x128_0_1 : (⟨S1x128, .f32⟩ : BufTy).Contents (Elt F) → (⟨S50000x128, .f32⟩ : BufTy).Contents (Elt F)),
    StableHlo.binary main_v346 main_v344 main_v347 (mulf : (⟨S50000x128, .f32⟩ : BufTy).Contents (Elt F) → (⟨S50000x128, .f32⟩ : BufTy).Contents (Elt F) → (⟨S50000x128, .f32⟩ : BufTy).Contents (Elt F)),
    StableHlo.nullary main_cst_53 (constant S_ .f32 0x3727C5AC#32),
    StableHlo.unary main_cst_53 main_v348 (broadcastInDim S1x128 ![] bcast_S_S1x128 : (⟨S_, .f32⟩ : BufTy).Contents (Elt F) → (⟨S1x128, .f32⟩ : BufTy).Contents (Elt F)),
    StableHlo.binary main_v342 main_v348 main_v349 (addf : (⟨S1x128, .f32⟩ : BufTy).Contents (Elt F) → (⟨S1x128, .f32⟩ : BufTy).Contents (Elt F) → (⟨S1x128, .f32⟩ : BufTy).Contents (Elt F)),
    StableHlo.unary main_v349 main_v350 (Host.rsqrt : (⟨S1x128, .f32⟩ : BufTy).Contents (Elt F) → (⟨S1x128, .f32⟩ : BufTy).Contents (Elt F)),
    StableHlo.unary main_v350 main_v351 (broadcastInDim S50000x128 ![0, 1] bcast_S1x128_S50000x128_0_1 : (⟨S1x128, .f32⟩ : BufTy).Contents (Elt F) → (⟨S50000x128, .f32⟩ : BufTy).Contents (Elt F)),
    StableHlo.binary main_v347 main_v351 main_v352 (mulf : (⟨S50000x128, .f32⟩ : BufTy).Contents (Elt F) → (⟨S50000x128, .f32⟩ : BufTy).Contents (Elt F) → (⟨S50000x128, .f32⟩ : BufTy).Contents (Elt F)),
    StableHlo.unary main_v337 main_v353 (broadcastInDim S1x128 ![1] bcast_S128_S1x128_1 : (⟨S128, .f32⟩ : BufTy).Contents (Elt F) → (⟨S1x128, .f32⟩ : BufTy).Contents (Elt F)),
    StableHlo.unary main_v353 main_v354 (broadcastInDim S50000x128 ![0, 1] bcast_S1x128_S50000x128_0_1 : (⟨S1x128, .f32⟩ : BufTy).Contents (Elt F) → (⟨S50000x128, .f32⟩ : BufTy).Contents (Elt F)),
    StableHlo.binary main_v352 main_v354 main_v355 (addf : (⟨S50000x128, .f32⟩ : BufTy).Contents (Elt F) → (⟨S50000x128, .f32⟩ : BufTy).Contents (Elt F) → (⟨S50000x128, .f32⟩ : BufTy).Contents (Elt F)),
    StableHlo.TRef.nullary main_call19.cst (constant S_ .f32 0x00000000#32),
    StableHlo.TRef.unary main_call19.cst main_call19.v0 (broadcastInDim S50000x128 ![] bcast_S_S50000x128),
    StableHlo.TRef.binary (.of main_v355) main_call19.v0 main_call19.v1 maximumf,
    StableHlo.unary main_arg10 main_v357 ((extractStridedSlice S1x128x128 ![3, 0, 0] · slices_S4x128x128_S1x128x128_3_0_0) : (⟨S4x128x128, .f32⟩ : BufTy).Contents (Elt F) → (⟨S1x128x128, .f32⟩ : BufTy).Contents (Elt F)),
    StableHlo.reshape main_v357 main_v358 rfl shapeCasts_S1x128x128_S128x128,
    StableHlo.binary main_v356 main_v358 main_v359 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    StableHlo.unary main_arg11 main_v360 ((extractStridedSlice S1x128 ![3, 0] · slices_S4x128_S1x128_3_0) : (⟨S4x128, .f32⟩ : BufTy).Contents (Elt F) → (⟨S1x128, .f32⟩ : BufTy).Contents (Elt F)),
    StableHlo.reshape main_v360 main_v361 rfl shapeCasts_S1x128_S128,
    StableHlo.unary main_v361 main_v362 (broadcastInDim S1x128 ![1] bcast_S128_S1x128_1 : (⟨S128, .f32⟩ : BufTy).Contents (Elt F) → (⟨S1x128, .f32⟩ : BufTy).Contents (Elt F)),
    StableHlo.unary main_v362 main_v363 (broadcastInDim S50000x128 ![0, 1] bcast_S1x128_S50000x128_0_1 : (⟨S1x128, .f32⟩ : BufTy).Contents (Elt F) → (⟨S50000x128, .f32⟩ : BufTy).Contents (Elt F)),
    StableHlo.binary main_v359 main_v363 main_v364 (addf : (⟨S50000x128, .f32⟩ : BufTy).Contents (Elt F) → (⟨S50000x128, .f32⟩ : BufTy).Contents (Elt F) → (⟨S50000x128, .f32⟩ : BufTy).Contents (Elt F)),
    StableHlo.unary main_arg12 main_v365 ((extractStridedSlice S1x128 ![3, 0] · slices_S4x128_S1x128_3_0) : (⟨S4x128, .f32⟩ : BufTy).Contents (Elt F) → (⟨S1x128, .f32⟩ : BufTy).Contents (Elt F)),
    StableHlo.reshape main_v365 main_v366 rfl shapeCasts_S1x128_S128,
    StableHlo.unary main_arg13 main_v367 ((extractStridedSlice S1x128 ![3, 0] · slices_S4x128_S1x128_3_0) : (⟨S4x128, .f32⟩ : BufTy).Contents (Elt F) → (⟨S1x128, .f32⟩ : BufTy).Contents (Elt F)),
    StableHlo.reshape main_v367 main_v368 rfl shapeCasts_S1x128_S128,
    StableHlo.nullary main_cst_54 (constant S_ .f32 0x00000000#32),
    StableHlo.binary main_v364 main_cst_54 main_v369 ((fun x v => Host.reduceAdd x v reducesTo_S50000x128_S128_d0 h_S_) : (⟨S50000x128, .f32⟩ : BufTy).Contents (Elt F) → (⟨S_, .f32⟩ : BufTy).Contents (Elt F) → (⟨S128, .f32⟩ : BufTy).Contents (Elt F)),
    StableHlo.unary main_v369 main_v370 (broadcastInDim S1x128 ![1] bcast_S128_S1x128_1 : (⟨S128, .f32⟩ : BufTy).Contents (Elt F) → (⟨S1x128, .f32⟩ : BufTy).Contents (Elt F)),
    StableHlo.nullary main_cst_55 (constant S_ .f32 0x47435000#32),
    StableHlo.unary main_cst_55 main_v371 (broadcastInDim S1x128 ![] bcast_S_S1x128 : (⟨S_, .f32⟩ : BufTy).Contents (Elt F) → (⟨S1x128, .f32⟩ : BufTy).Contents (Elt F)),
    StableHlo.binary main_v370 main_v371 main_v372 (Host.divf : (⟨S1x128, .f32⟩ : BufTy).Contents (Elt F) → (⟨S1x128, .f32⟩ : BufTy).Contents (Elt F) → (⟨S1x128, .f32⟩ : BufTy).Contents (Elt F)),
    StableHlo.nullary main_c_56 (constantI S_ 32 0#32),
    StableHlo.TRef.nullary main_call20.cst (constant S_ .f32 0x00000000#32),
    StableHlo.TRef.binary (.of main_v364) main_call20.cst main_call20.v0 (fun x v => Host.reduceAdd x v reducesTo_S50000x128_S128_d0 h_S_),
    StableHlo.TRef.unary main_call20.v0 main_call20.v1 (broadcastInDim S1x128 ![1] bcast_S128_S1x128_1),
    StableHlo.TRef.nullary main_call20.cst_0 (constant S_ .f32 0x47435000#32),
    StableHlo.TRef.unary main_call20.cst_0 main_call20.v2 (broadcastInDim S1x128 ![] bcast_S_S1x128),
    StableHlo.TRef.binary main_call20.v1 main_call20.v2 main_call20.v3 Host.divf,
    StableHlo.TRef.unary main_call20.v3 main_call20.v4 (broadcastInDim S50000x128 ![0, 1] bcast_S1x128_S50000x128_0_1),
    StableHlo.TRef.binary (.of main_v364) main_call20.v4 main_call20.v5 subf,
    StableHlo.TRef.binary main_call20.v5 main_call20.v5 main_call20.v6 mulf,
    StableHlo.TRef.unary (.of main_c_56) main_call20.v7 (sitofp .f32),
    StableHlo.TRef.nullary main_call20.cst_1 (constant S_ .f32 0x47435000#32),
    StableHlo.TRef.binary main_call20.cst_1 main_call20.v7 main_call20.v8 subf,
    StableHlo.TRef.nullary main_call20.cst_2 (constant S_ .f32 0x00000000#32),
    StableHlo.TRef.binary main_call20.v6 main_call20.cst_2 main_call20.v9 (fun x v => Host.reduceAdd x v reducesTo_S50000x128_S128_d0 h_S_),
    StableHlo.TRef.unary main_call20.v9 main_call20.v10 (broadcastInDim S1x128 ![1] bcast_S128_S1x128_1),
    StableHlo.TRef.unary main_call20.v8 main_call20.v11 (broadcastInDim S1x128 ![] bcast_S_S1x128),
    StableHlo.TRef.binary main_call20.v10 main_call20.v11 main_call20.v12 Host.divf,
    StableHlo.TRef.nullary main_call20.cst_3 (constant S_ .f32 0x00000000#32),
    StableHlo.TRef.binary main_call20.v8 main_call20.cst_3 main_call20.v13 (cmpf .ogt),
    StableHlo.TRef.nullary main_call20.cst_4 (constant S_ .f32 0x7FC00000#32),
    StableHlo.TRef.unary main_call20.cst_4 main_call20.call0.v0 id,
    StableHlo.TRef.unary main_call20.call0.v0 main_call20.call0.v1 (broadcastInDim S1x128 ![] bcast_S_S1x128),
    StableHlo.TRef.ternary main_call20.v13 main_call20.v12 main_call20.call0.v1 main_call20.call0.v2 (fun p a b => select (broadcastInDim S1x128 ![] bcast_S_S1x128 p) a b),
    StableHlo.unary main_v372 main_v374 (broadcastInDim S50000x128 ![0, 1] bcast_S1x128_S50000x128_0_1 : (⟨S1x128, .f32⟩ : BufTy).Contents (Elt F) → (⟨S50000x128, .f32⟩ : BufTy).Contents (Elt F)),
    StableHlo.binary main_v364 main_v374 main_v375 (subf : (⟨S50000x128, .f32⟩ : BufTy).Contents (Elt F) → (⟨S50000x128, .f32⟩ : BufTy).Contents (Elt F) → (⟨S50000x128, .f32⟩ : BufTy).Contents (Elt F)),
    StableHlo.unary main_v366 main_v376 (broadcastInDim S1x128 ![1] bcast_S128_S1x128_1 : (⟨S128, .f32⟩ : BufTy).Contents (Elt F) → (⟨S1x128, .f32⟩ : BufTy).Contents (Elt F)),
    StableHlo.unary main_v376 main_v377 (broadcastInDim S50000x128 ![0, 1] bcast_S1x128_S50000x128_0_1 : (⟨S1x128, .f32⟩ : BufTy).Contents (Elt F) → (⟨S50000x128, .f32⟩ : BufTy).Contents (Elt F)),
    StableHlo.binary main_v377 main_v375 main_v378 (mulf : (⟨S50000x128, .f32⟩ : BufTy).Contents (Elt F) → (⟨S50000x128, .f32⟩ : BufTy).Contents (Elt F) → (⟨S50000x128, .f32⟩ : BufTy).Contents (Elt F)),
    StableHlo.nullary main_cst_57 (constant S_ .f32 0x3727C5AC#32),
    StableHlo.unary main_cst_57 main_v379 (broadcastInDim S1x128 ![] bcast_S_S1x128 : (⟨S_, .f32⟩ : BufTy).Contents (Elt F) → (⟨S1x128, .f32⟩ : BufTy).Contents (Elt F)),
    StableHlo.binary main_v373 main_v379 main_v380 (addf : (⟨S1x128, .f32⟩ : BufTy).Contents (Elt F) → (⟨S1x128, .f32⟩ : BufTy).Contents (Elt F) → (⟨S1x128, .f32⟩ : BufTy).Contents (Elt F)),
    StableHlo.unary main_v380 main_v381 (Host.rsqrt : (⟨S1x128, .f32⟩ : BufTy).Contents (Elt F) → (⟨S1x128, .f32⟩ : BufTy).Contents (Elt F)),
    StableHlo.unary main_v381 main_v382 (broadcastInDim S50000x128 ![0, 1] bcast_S1x128_S50000x128_0_1 : (⟨S1x128, .f32⟩ : BufTy).Contents (Elt F) → (⟨S50000x128, .f32⟩ : BufTy).Contents (Elt F)),
    StableHlo.binary main_v378 main_v382 main_v383 (mulf : (⟨S50000x128, .f32⟩ : BufTy).Contents (Elt F) → (⟨S50000x128, .f32⟩ : BufTy).Contents (Elt F) → (⟨S50000x128, .f32⟩ : BufTy).Contents (Elt F)),
    StableHlo.unary main_v368 main_v384 (broadcastInDim S1x128 ![1] bcast_S128_S1x128_1 : (⟨S128, .f32⟩ : BufTy).Contents (Elt F) → (⟨S1x128, .f32⟩ : BufTy).Contents (Elt F)),
    StableHlo.unary main_v384 main_v385 (broadcastInDim S50000x128 ![0, 1] bcast_S1x128_S50000x128_0_1 : (⟨S1x128, .f32⟩ : BufTy).Contents (Elt F) → (⟨S50000x128, .f32⟩ : BufTy).Contents (Elt F)),
    StableHlo.binary main_v383 main_v385 main_v386 (addf : (⟨S50000x128, .f32⟩ : BufTy).Contents (Elt F) → (⟨S50000x128, .f32⟩ : BufTy).Contents (Elt F) → (⟨S50000x128, .f32⟩ : BufTy).Contents (Elt F)),
    StableHlo.TRef.nullary main_call21.cst (constant S_ .f32 0x00000000#32),
    StableHlo.TRef.unary main_call21.cst main_call21.v0 (broadcastInDim S50000x128 ![] bcast_S_S50000x128),
    StableHlo.TRef.binary (.of main_v386) main_call21.v0 main_call21.v1 maximumf,
    StableHlo.unary main_arg14 main_v388 ((extractStridedSlice S1x128 ![3, 0] · slices_S4x128_S1x128_3_0) : (⟨S4x128, .f32⟩ : BufTy).Contents (Elt F) → (⟨S1x128, .f32⟩ : BufTy).Contents (Elt F)),
    StableHlo.reshape main_v388 main_v389 rfl shapeCasts_S1x128_S128,
    StableHlo.unary main_arg15 main_v390 ((extractStridedSlice S1x128 ![3, 0] · slices_S4x128_S1x128_3_0) : (⟨S4x128, .f32⟩ : BufTy).Contents (Elt F) → (⟨S1x128, .f32⟩ : BufTy).Contents (Elt F)),
    StableHlo.reshape main_v390 main_v391 rfl shapeCasts_S1x128_S128,
    StableHlo.nullary main_cst_58 (constant S_ .f32 0x00000000#32),
    StableHlo.binary main_v387 main_cst_58 main_v392 ((fun x v => Host.reduceAdd x v reducesTo_S50000x128_S128_d0 h_S_) : (⟨S50000x128, .f32⟩ : BufTy).Contents (Elt F) → (⟨S_, .f32⟩ : BufTy).Contents (Elt F) → (⟨S128, .f32⟩ : BufTy).Contents (Elt F)),
    StableHlo.unary main_v392 main_v393 (broadcastInDim S1x128 ![1] bcast_S128_S1x128_1 : (⟨S128, .f32⟩ : BufTy).Contents (Elt F) → (⟨S1x128, .f32⟩ : BufTy).Contents (Elt F)),
    StableHlo.nullary main_cst_59 (constant S_ .f32 0x47435000#32),
    StableHlo.unary main_cst_59 main_v394 (broadcastInDim S1x128 ![] bcast_S_S1x128 : (⟨S_, .f32⟩ : BufTy).Contents (Elt F) → (⟨S1x128, .f32⟩ : BufTy).Contents (Elt F)),
    StableHlo.binary main_v393 main_v394 main_v395 (Host.divf : (⟨S1x128, .f32⟩ : BufTy).Contents (Elt F) → (⟨S1x128, .f32⟩ : BufTy).Contents (Elt F) → (⟨S1x128, .f32⟩ : BufTy).Contents (Elt F)),
    StableHlo.nullary main_c_60 (constantI S_ 32 0#32),
    StableHlo.TRef.nullary main_call22.cst (constant S_ .f32 0x00000000#32),
    StableHlo.TRef.binary (.of main_v387) main_call22.cst main_call22.v0 (fun x v => Host.reduceAdd x v reducesTo_S50000x128_S128_d0 h_S_),
    StableHlo.TRef.unary main_call22.v0 main_call22.v1 (broadcastInDim S1x128 ![1] bcast_S128_S1x128_1),
    StableHlo.TRef.nullary main_call22.cst_0 (constant S_ .f32 0x47435000#32),
    StableHlo.TRef.unary main_call22.cst_0 main_call22.v2 (broadcastInDim S1x128 ![] bcast_S_S1x128),
    StableHlo.TRef.binary main_call22.v1 main_call22.v2 main_call22.v3 Host.divf,
    StableHlo.TRef.unary main_call22.v3 main_call22.v4 (broadcastInDim S50000x128 ![0, 1] bcast_S1x128_S50000x128_0_1),
    StableHlo.TRef.binary (.of main_v387) main_call22.v4 main_call22.v5 subf,
    StableHlo.TRef.binary main_call22.v5 main_call22.v5 main_call22.v6 mulf,
    StableHlo.TRef.unary (.of main_c_60) main_call22.v7 (sitofp .f32),
    StableHlo.TRef.nullary main_call22.cst_1 (constant S_ .f32 0x47435000#32),
    StableHlo.TRef.binary main_call22.cst_1 main_call22.v7 main_call22.v8 subf,
    StableHlo.TRef.nullary main_call22.cst_2 (constant S_ .f32 0x00000000#32),
    StableHlo.TRef.binary main_call22.v6 main_call22.cst_2 main_call22.v9 (fun x v => Host.reduceAdd x v reducesTo_S50000x128_S128_d0 h_S_),
    StableHlo.TRef.unary main_call22.v9 main_call22.v10 (broadcastInDim S1x128 ![1] bcast_S128_S1x128_1),
    StableHlo.TRef.unary main_call22.v8 main_call22.v11 (broadcastInDim S1x128 ![] bcast_S_S1x128),
    StableHlo.TRef.binary main_call22.v10 main_call22.v11 main_call22.v12 Host.divf,
    StableHlo.TRef.nullary main_call22.cst_3 (constant S_ .f32 0x00000000#32),
    StableHlo.TRef.binary main_call22.v8 main_call22.cst_3 main_call22.v13 (cmpf .ogt),
    StableHlo.TRef.nullary main_call22.cst_4 (constant S_ .f32 0x7FC00000#32),
    StableHlo.TRef.unary main_call22.cst_4 main_call22.call0.v0 id,
    StableHlo.TRef.unary main_call22.call0.v0 main_call22.call0.v1 (broadcastInDim S1x128 ![] bcast_S_S1x128),
    StableHlo.TRef.ternary main_call22.v13 main_call22.v12 main_call22.call0.v1 main_call22.call0.v2 (fun p a b => select (broadcastInDim S1x128 ![] bcast_S_S1x128 p) a b),
    StableHlo.unary main_v395 main_v397 (broadcastInDim S50000x128 ![0, 1] bcast_S1x128_S50000x128_0_1 : (⟨S1x128, .f32⟩ : BufTy).Contents (Elt F) → (⟨S50000x128, .f32⟩ : BufTy).Contents (Elt F)),
    StableHlo.binary main_v387 main_v397 main_v398 (subf : (⟨S50000x128, .f32⟩ : BufTy).Contents (Elt F) → (⟨S50000x128, .f32⟩ : BufTy).Contents (Elt F) → (⟨S50000x128, .f32⟩ : BufTy).Contents (Elt F)),
    StableHlo.unary main_v389 main_v399 (broadcastInDim S1x128 ![1] bcast_S128_S1x128_1 : (⟨S128, .f32⟩ : BufTy).Contents (Elt F) → (⟨S1x128, .f32⟩ : BufTy).Contents (Elt F)),
    StableHlo.unary main_v399 main_v400 (broadcastInDim S50000x128 ![0, 1] bcast_S1x128_S50000x128_0_1 : (⟨S1x128, .f32⟩ : BufTy).Contents (Elt F) → (⟨S50000x128, .f32⟩ : BufTy).Contents (Elt F)),
    StableHlo.binary main_v400 main_v398 main_v401 (mulf : (⟨S50000x128, .f32⟩ : BufTy).Contents (Elt F) → (⟨S50000x128, .f32⟩ : BufTy).Contents (Elt F) → (⟨S50000x128, .f32⟩ : BufTy).Contents (Elt F)),
    StableHlo.nullary main_cst_61 (constant S_ .f32 0x3727C5AC#32),
    StableHlo.unary main_cst_61 main_v402 (broadcastInDim S1x128 ![] bcast_S_S1x128 : (⟨S_, .f32⟩ : BufTy).Contents (Elt F) → (⟨S1x128, .f32⟩ : BufTy).Contents (Elt F)),
    StableHlo.binary main_v396 main_v402 main_v403 (addf : (⟨S1x128, .f32⟩ : BufTy).Contents (Elt F) → (⟨S1x128, .f32⟩ : BufTy).Contents (Elt F) → (⟨S1x128, .f32⟩ : BufTy).Contents (Elt F)),
    StableHlo.unary main_v403 main_v404 (Host.rsqrt : (⟨S1x128, .f32⟩ : BufTy).Contents (Elt F) → (⟨S1x128, .f32⟩ : BufTy).Contents (Elt F)),
    StableHlo.unary main_v404 main_v405 (broadcastInDim S50000x128 ![0, 1] bcast_S1x128_S50000x128_0_1 : (⟨S1x128, .f32⟩ : BufTy).Contents (Elt F) → (⟨S50000x128, .f32⟩ : BufTy).Contents (Elt F)),
    StableHlo.binary main_v401 main_v405 main_v406 (mulf : (⟨S50000x128, .f32⟩ : BufTy).Contents (Elt F) → (⟨S50000x128, .f32⟩ : BufTy).Contents (Elt F) → (⟨S50000x128, .f32⟩ : BufTy).Contents (Elt F)),
    StableHlo.unary main_v391 main_v407 (broadcastInDim S1x128 ![1] bcast_S128_S1x128_1 : (⟨S128, .f32⟩ : BufTy).Contents (Elt F) → (⟨S1x128, .f32⟩ : BufTy).Contents (Elt F)),
    StableHlo.unary main_v407 main_v408 (broadcastInDim S50000x128 ![0, 1] bcast_S1x128_S50000x128_0_1 : (⟨S1x128, .f32⟩ : BufTy).Contents (Elt F) → (⟨S50000x128, .f32⟩ : BufTy).Contents (Elt F)),
    StableHlo.binary main_v406 main_v408 main_v409 (addf : (⟨S50000x128, .f32⟩ : BufTy).Contents (Elt F) → (⟨S50000x128, .f32⟩ : BufTy).Contents (Elt F) → (⟨S50000x128, .f32⟩ : BufTy).Contents (Elt F)),
    StableHlo.TRef.nullary main_call23.cst (constant S_ .f32 0x00000000#32),
    StableHlo.TRef.unary main_call23.cst main_call23.v0 (broadcastInDim S50000x128 ![] bcast_S_S50000x128),
    StableHlo.TRef.binary (.of main_v409) main_call23.v0 main_call23.v1 maximumf,
    StableHlo.binary main_v309 main_v410 main_v411 (addf : (⟨S50000x128, .f32⟩ : BufTy).Contents (Elt F) → (⟨S50000x128, .f32⟩ : BufTy).Contents (Elt F) → (⟨S50000x128, .f32⟩ : BufTy).Contents (Elt F)) ]

/-- The program's operations are the embedding's followed by the layers'. -/
theorem ops_split : (RefRun.ops : List (HloOp τ sig (Elt F))) = opsE ++ opsL0 ++ opsL1 ++ opsL2 ++ opsL3 := rfl

/-- One layer: the aggregation over the edges, the two-layer perceptron with its batch normalisation, the two further
    batch normalisations and the residual connection, as the reference's operations compose. -/
def refLayer (main_arg1 : IVec S1600000 32) (main_v3 : FVec F S50000x128 .f32) (main_arg2 : IVec S1600000 32) (main_v15 : FVec F S_ .f32) (main_v21 : FVec F S128x128 .f32) (main_v24 : FVec F S128 .f32) (main_v29 : FVec F S128 .f32) (main_v31 : FVec F S128 .f32) (main_v52 : FVec F S128x128 .f32) (main_v55 : FVec F S128 .f32) (main_v60 : FVec F S128 .f32) (main_v62 : FVec F S128 .f32) (main_v83 : FVec F S128 .f32) (main_v85 : FVec F S128 .f32) : FVec F S50000x128 .f32 :=
  have main_c : IVec S_ 32 := (constantI S_ 32 0#32)
  have main_v4 : IVec S1600000 32 := (broadcastInDim S1600000 ![] bcast_S_S1600000 : (⟨S_, .i32⟩ : BufTy).Contents (Elt F) → (⟨S1600000, .i32⟩ : BufTy).Contents (Elt F)) main_c
  have main_v5 : IVec S1600000 1 := (cmpi .slt : (⟨S1600000, .i32⟩ : BufTy).Contents (Elt F) → (⟨S1600000, .i32⟩ : BufTy).Contents (Elt F) → (⟨S1600000, .i1⟩ : BufTy).Contents (Elt F)) main_arg1 main_v4
  have main_c_0 : IVec S_ 32 := (constantI S_ 32 50000#32)
  have main_v6 : IVec S1600000 32 := (broadcastInDim S1600000 ![] bcast_S_S1600000 : (⟨S_, .i32⟩ : BufTy).Contents (Elt F) → (⟨S1600000, .i32⟩ : BufTy).Contents (Elt F)) main_c_0
  have main_v7 : IVec S1600000 32 := (addi : (⟨S1600000, .i32⟩ : BufTy).Contents (Elt F) → (⟨S1600000, .i32⟩ : BufTy).Contents (Elt F) → (⟨S1600000, .i32⟩ : BufTy).Contents (Elt F)) main_arg1 main_v6
  have main_v8 : IVec S1600000 32 := (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)) main_v5 main_v7 main_arg1
  have main_v9 : IVec S1600000x1 32 := (broadcastInDim S1600000x1 ![0] bcast_S1600000_S1600000x1_0 : (⟨S1600000, .i32⟩ : BufTy).Contents (Elt F) → (⟨S1600000x1, .i32⟩ : BufTy).Contents (Elt F)) main_v8
  have main_v10 : FVec F S1600000x128 .f32 := ((fun x i => Host.gather gather_S50000x128_S1600000x1_S1600000x128_1_0_n_n_0_1_1128 x i) : (⟨S50000x128, .f32⟩ : BufTy).Contents (Elt F) → (⟨S1600000x1, .i32⟩ : BufTy).Contents (Elt F) → (⟨S1600000x128, .f32⟩ : BufTy).Contents (Elt F)) main_v3 main_v9
  have main_cst : FVec F S_ .f32 := (constant S_ .f32 0x00000000#32)
  have main_v11 : FVec F S50000x128 .f32 := (broadcastInDim S50000x128 ![] bcast_S_S50000x128 : (⟨S_, .f32⟩ : BufTy).Contents (Elt F) → (⟨S50000x128, .f32⟩ : BufTy).Contents (Elt F)) main_cst
  have main_v12 : IVec S1600000x1 32 := (broadcastInDim S1600000x1 ![0] bcast_S1600000_S1600000x1_0 : (⟨S1600000, .i32⟩ : BufTy).Contents (Elt F) → (⟨S1600000x1, .i32⟩ : BufTy).Contents (Elt F)) main_arg2
  have main_v13 : FVec F S50000x128 .f32 := ((fun x i u => Host.scatterAdd scatter_S50000x128_S1600000x1_S1600000x128_1_0_0_1 x i u) : (⟨S50000x128, .f32⟩ : BufTy).Contents (Elt F) → (⟨S1600000x1, .i32⟩ : BufTy).Contents (Elt F) → (⟨S1600000x128, .f32⟩ : BufTy).Contents (Elt F) → (⟨S50000x128, .f32⟩ : BufTy).Contents (Elt F)) main_v11 main_v12 main_v10
  have main_cst_1 : FVec F S_ .f32 := (constant S_ .f32 0x3F800000#32)
  have main_v16 : FVec F S_ .f32 := (addf : (⟨S_, .f32⟩ : BufTy).Contents (Elt F) → (⟨S_, .f32⟩ : BufTy).Contents (Elt F) → (⟨S_, .f32⟩ : BufTy).Contents (Elt F)) main_cst_1 main_v15
  have main_v17 : FVec F S50000x128 .f32 := (broadcastInDim S50000x128 ![] bcast_S_S50000x128 : (⟨S_, .f32⟩ : BufTy).Contents (Elt F) → (⟨S50000x128, .f32⟩ : BufTy).Contents (Elt F)) main_v16
  have main_v18 : FVec F S50000x128 .f32 := (mulf : (⟨S50000x128, .f32⟩ : BufTy).Contents (Elt F) → (⟨S50000x128, .f32⟩ : BufTy).Contents (Elt F) → (⟨S50000x128, .f32⟩ : BufTy).Contents (Elt F)) main_v17 main_v3
  have main_v19 : FVec F S50000x128 .f32 := (addf : (⟨S50000x128, .f32⟩ : BufTy).Contents (Elt F) → (⟨S50000x128, .f32⟩ : BufTy).Contents (Elt F) → (⟨S50000x128, .f32⟩ : BufTy).Contents (Elt F)) main_v18 main_v13
  have main_v22 : FVec F S50000x128 .f32 := ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)) main_v19 main_v21
  have main_v25 : FVec F S1x128 .f32 := (broadcastInDim S1x128 ![1] bcast_S128_S1x128_1 : (⟨S128, .f32⟩ : BufTy).Contents (Elt F) → (⟨S1x128, .f32⟩ : BufTy).Contents (Elt F)) main_v24
  have main_v26 : FVec F S50000x128 .f32 := (broadcastInDim S50000x128 ![0, 1] bcast_S1x128_S50000x128_0_1 : (⟨S1x128, .f32⟩ : BufTy).Contents (Elt F) → (⟨S50000x128, .f32⟩ : BufTy).Contents (Elt F)) main_v25
  have main_v27 : FVec F S50000x128 .f32 := (addf : (⟨S50000x128, .f32⟩ : BufTy).Contents (Elt F) → (⟨S50000x128, .f32⟩ : BufTy).Contents (Elt F) → (⟨S50000x128, .f32⟩ : BufTy).Contents (Elt F)) main_v22 main_v26
  have main_cst_2 : FVec F S_ .f32 := (constant S_ .f32 0x00000000#32)
  have main_v32 : FVec F S128 .f32 := ((fun x v => Host.reduceAdd x v reducesTo_S50000x128_S128_d0 h_S_) : (⟨S50000x128, .f32⟩ : BufTy).Contents (Elt F) → (⟨S_, .f32⟩ : BufTy).Contents (Elt F) → (⟨S128, .f32⟩ : BufTy).Contents (Elt F)) main_v27 main_cst_2
  have main_v33 : FVec F S1x128 .f32 := (broadcastInDim S1x128 ![1] bcast_S128_S1x128_1 : (⟨S128, .f32⟩ : BufTy).Contents (Elt F) → (⟨S1x128, .f32⟩ : BufTy).Contents (Elt F)) main_v32
  have main_cst_3 : FVec F S_ .f32 := (constant S_ .f32 0x47435000#32)
  have main_v34 : FVec F S1x128 .f32 := (broadcastInDim S1x128 ![] bcast_S_S1x128 : (⟨S_, .f32⟩ : BufTy).Contents (Elt F) → (⟨S1x128, .f32⟩ : BufTy).Contents (Elt F)) main_cst_3
  have main_v35 : FVec F S1x128 .f32 := (Host.divf : (⟨S1x128, .f32⟩ : BufTy).Contents (Elt F) → (⟨S1x128, .f32⟩ : BufTy).Contents (Elt F) → (⟨S1x128, .f32⟩ : BufTy).Contents (Elt F)) main_v33 main_v34
  have main_c_4 : IVec S_ 32 := (constantI S_ 32 0#32)
  have main_call0_cst : FVec F S_ .f32 := (constant S_ .f32 0x00000000#32)
  have main_call0_v0 : FVec F S128 .f32 := (fun x v => Host.reduceAdd x v reducesTo_S50000x128_S128_d0 h_S_) main_v27 main_call0_cst
  have main_call0_v1 : FVec F S1x128 .f32 := (broadcastInDim S1x128 ![1] bcast_S128_S1x128_1) main_call0_v0
  have main_call0_cst_0 : FVec F S_ .f32 := (constant S_ .f32 0x47435000#32)
  have main_call0_v2 : FVec F S1x128 .f32 := (broadcastInDim S1x128 ![] bcast_S_S1x128) main_call0_cst_0
  have main_call0_v3 : FVec F S1x128 .f32 := Host.divf main_call0_v1 main_call0_v2
  have main_call0_v4 : FVec F S50000x128 .f32 := (broadcastInDim S50000x128 ![0, 1] bcast_S1x128_S50000x128_0_1) main_call0_v3
  have main_call0_v5 : FVec F S50000x128 .f32 := subf main_v27 main_call0_v4
  have main_call0_v6 : FVec F S50000x128 .f32 := mulf main_call0_v5 main_call0_v5
  have main_call0_v7 : FVec F S_ .f32 := (sitofp .f32) main_c_4
  have main_call0_cst_1 : FVec F S_ .f32 := (constant S_ .f32 0x47435000#32)
  have main_call0_v8 : FVec F S_ .f32 := subf main_call0_cst_1 main_call0_v7
  have main_call0_cst_2 : FVec F S_ .f32 := (constant S_ .f32 0x00000000#32)
  have main_call0_v9 : FVec F S128 .f32 := (fun x v => Host.reduceAdd x v reducesTo_S50000x128_S128_d0 h_S_) main_call0_v6 main_call0_cst_2
  have main_call0_v10 : FVec F S1x128 .f32 := (broadcastInDim S1x128 ![1] bcast_S128_S1x128_1) main_call0_v9
  have main_call0_v11 : FVec F S1x128 .f32 := (broadcastInDim S1x128 ![] bcast_S_S1x128) main_call0_v8
  have main_call0_v12 : FVec F S1x128 .f32 := Host.divf main_call0_v10 main_call0_v11
  have main_call0_cst_3 : FVec F S_ .f32 := (constant S_ .f32 0x00000000#32)
  have main_call0_v13 : IVec S_ 1 := (cmpf .ogt) main_call0_v8 main_call0_cst_3
  have main_call0_cst_4 : FVec F S_ .f32 := (constant S_ .f32 0x7FC00000#32)
  have main_call0_call0_v0 : FVec F S_ .f32 := id main_call0_cst_4
  have main_call0_call0_v1 : FVec F S1x128 .f32 := (broadcastInDim S1x128 ![] bcast_S_S1x128) main_call0_call0_v0
  have main_v36 : FVec F S1x128 .f32 := (fun p a b => select (broadcastInDim S1x128 ![] bcast_S_S1x128 p) a b) main_call0_v13 main_call0_v12 main_call0_call0_v1
  have main_v37 : FVec F S50000x128 .f32 := (broadcastInDim S50000x128 ![0, 1] bcast_S1x128_S50000x128_0_1 : (⟨S1x128, .f32⟩ : BufTy).Contents (Elt F) → (⟨S50000x128, .f32⟩ : BufTy).Contents (Elt F)) main_v35
  have main_v38 : FVec F S50000x128 .f32 := (subf : (⟨S50000x128, .f32⟩ : BufTy).Contents (Elt F) → (⟨S50000x128, .f32⟩ : BufTy).Contents (Elt F) → (⟨S50000x128, .f32⟩ : BufTy).Contents (Elt F)) main_v27 main_v37
  have main_v39 : FVec F S1x128 .f32 := (broadcastInDim S1x128 ![1] bcast_S128_S1x128_1 : (⟨S128, .f32⟩ : BufTy).Contents (Elt F) → (⟨S1x128, .f32⟩ : BufTy).Contents (Elt F)) main_v29
  have main_v40 : FVec F S50000x128 .f32 := (broadcastInDim S50000x128 ![0, 1] bcast_S1x128_S50000x128_0_1 : (⟨S1x128, .f32⟩ : BufTy).Contents (Elt F) → (⟨S50000x128, .f32⟩ : BufTy).Contents (Elt F)) main_v39
  have main_v41 : FVec F S50000x128 .f32 := (mulf : (⟨S50000x128, .f32⟩ : BufTy).Contents (Elt F) → (⟨S50000x128, .f32⟩ : BufTy).Contents (Elt F) → (⟨S50000x128, .f32⟩ : BufTy).Contents (Elt F)) main_v40 main_v38
  have main_cst_5 : FVec F S_ .f32 := (constant S_ .f32 0x3727C5AC#32)
  have main_v42 : FVec F S1x128 .f32 := (broadcastInDim S1x128 ![] bcast_S_S1x128 : (⟨S_, .f32⟩ : BufTy).Contents (Elt F) → (⟨S1x128, .f32⟩ : BufTy).Contents (Elt F)) main_cst_5
  have main_v43 : FVec F S1x128 .f32 := (addf : (⟨S1x128, .f32⟩ : BufTy).Contents (Elt F) → (⟨S1x128, .f32⟩ : BufTy).Contents (Elt F) → (⟨S1x128, .f32⟩ : BufTy).Contents (Elt F)) main_v36 main_v42
  have main_v44 : FVec F S1x128 .f32 := (Host.rsqrt : (⟨S1x128, .f32⟩ : BufTy).Contents (Elt F) → (⟨S1x128, .f32⟩ : BufTy).Contents (Elt F)) main_v43
  have main_v45 : FVec F S50000x128 .f32 := (broadcastInDim S50000x128 ![0, 1] bcast_S1x128_S50000x128_0_1 : (⟨S1x128, .f32⟩ : BufTy).Contents (Elt F) → (⟨S50000x128, .f32⟩ : BufTy).Contents (Elt F)) main_v44
  have main_v46 : FVec F S50000x128 .f32 := (mulf : (⟨S50000x128, .f32⟩ : BufTy).Contents (Elt F) → (⟨S50000x128, .f32⟩ : BufTy).Contents (Elt F) → (⟨S50000x128, .f32⟩ : BufTy).Contents (Elt F)) main_v41 main_v45
  have main_v47 : FVec F S1x128 .f32 := (broadcastInDim S1x128 ![1] bcast_S128_S1x128_1 : (⟨S128, .f32⟩ : BufTy).Contents (Elt F) → (⟨S1x128, .f32⟩ : BufTy).Contents (Elt F)) main_v31
  have main_v48 : FVec F S50000x128 .f32 := (broadcastInDim S50000x128 ![0, 1] bcast_S1x128_S50000x128_0_1 : (⟨S1x128, .f32⟩ : BufTy).Contents (Elt F) → (⟨S50000x128, .f32⟩ : BufTy).Contents (Elt F)) main_v47
  have main_v49 : FVec F S50000x128 .f32 := (addf : (⟨S50000x128, .f32⟩ : BufTy).Contents (Elt F) → (⟨S50000x128, .f32⟩ : BufTy).Contents (Elt F) → (⟨S50000x128, .f32⟩ : BufTy).Contents (Elt F)) main_v46 main_v48
  have main_call1_cst : FVec F S_ .f32 := (constant S_ .f32 0x00000000#32)
  have main_call1_v0 : FVec F S50000x128 .f32 := (broadcastInDim S50000x128 ![] bcast_S_S50000x128) main_call1_cst
  have main_v50 : FVec F S50000x128 .f32 := maximumf main_v49 main_call1_v0
  have main_v53 : FVec F S50000x128 .f32 := ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)) main_v50 main_v52
  have main_v56 : FVec F S1x128 .f32 := (broadcastInDim S1x128 ![1] bcast_S128_S1x128_1 : (⟨S128, .f32⟩ : BufTy).Contents (Elt F) → (⟨S1x128, .f32⟩ : BufTy).Contents (Elt F)) main_v55
  have main_v57 : FVec F S50000x128 .f32 := (broadcastInDim S50000x128 ![0, 1] bcast_S1x128_S50000x128_0_1 : (⟨S1x128, .f32⟩ : BufTy).Contents (Elt F) → (⟨S50000x128, .f32⟩ : BufTy).Contents (Elt F)) main_v56
  have main_v58 : FVec F S50000x128 .f32 := (addf : (⟨S50000x128, .f32⟩ : BufTy).Contents (Elt F) → (⟨S50000x128, .f32⟩ : BufTy).Contents (Elt F) → (⟨S50000x128, .f32⟩ : BufTy).Contents (Elt F)) main_v53 main_v57
  have main_cst_6 : FVec F S_ .f32 := (constant S_ .f32 0x00000000#32)
  have main_v63 : FVec F S128 .f32 := ((fun x v => Host.reduceAdd x v reducesTo_S50000x128_S128_d0 h_S_) : (⟨S50000x128, .f32⟩ : BufTy).Contents (Elt F) → (⟨S_, .f32⟩ : BufTy).Contents (Elt F) → (⟨S128, .f32⟩ : BufTy).Contents (Elt F)) main_v58 main_cst_6
  have main_v64 : FVec F S1x128 .f32 := (broadcastInDim S1x128 ![1] bcast_S128_S1x128_1 : (⟨S128, .f32⟩ : BufTy).Contents (Elt F) → (⟨S1x128, .f32⟩ : BufTy).Contents (Elt F)) main_v63
  have main_cst_7 : FVec F S_ .f32 := (constant S_ .f32 0x47435000#32)
  have main_v65 : FVec F S1x128 .f32 := (broadcastInDim S1x128 ![] bcast_S_S1x128 : (⟨S_, .f32⟩ : BufTy).Contents (Elt F) → (⟨S1x128, .f32⟩ : BufTy).Contents (Elt F)) main_cst_7
  have main_v66 : FVec F S1x128 .f32 := (Host.divf : (⟨S1x128, .f32⟩ : BufTy).Contents (Elt F) → (⟨S1x128, .f32⟩ : BufTy).Contents (Elt F) → (⟨S1x128, .f32⟩ : BufTy).Contents (Elt F)) main_v64 main_v65
  have main_c_8 : IVec S_ 32 := (constantI S_ 32 0#32)
  have main_call2_cst : FVec F S_ .f32 := (constant S_ .f32 0x00000000#32)
  have main_call2_v0 : FVec F S128 .f32 := (fun x v => Host.reduceAdd x v reducesTo_S50000x128_S128_d0 h_S_) main_v58 main_call2_cst
  have main_call2_v1 : FVec F S1x128 .f32 := (broadcastInDim S1x128 ![1] bcast_S128_S1x128_1) main_call2_v0
  have main_call2_cst_0 : FVec F S_ .f32 := (constant S_ .f32 0x47435000#32)
  have main_call2_v2 : FVec F S1x128 .f32 := (broadcastInDim S1x128 ![] bcast_S_S1x128) main_call2_cst_0
  have main_call2_v3 : FVec F S1x128 .f32 := Host.divf main_call2_v1 main_call2_v2
  have main_call2_v4 : FVec F S50000x128 .f32 := (broadcastInDim S50000x128 ![0, 1] bcast_S1x128_S50000x128_0_1) main_call2_v3
  have main_call2_v5 : FVec F S50000x128 .f32 := subf main_v58 main_call2_v4
  have main_call2_v6 : FVec F S50000x128 .f32 := mulf main_call2_v5 main_call2_v5
  have main_call2_v7 : FVec F S_ .f32 := (sitofp .f32) main_c_8
  have main_call2_cst_1 : FVec F S_ .f32 := (constant S_ .f32 0x47435000#32)
  have main_call2_v8 : FVec F S_ .f32 := subf main_call2_cst_1 main_call2_v7
  have main_call2_cst_2 : FVec F S_ .f32 := (constant S_ .f32 0x00000000#32)
  have main_call2_v9 : FVec F S128 .f32 := (fun x v => Host.reduceAdd x v reducesTo_S50000x128_S128_d0 h_S_) main_call2_v6 main_call2_cst_2
  have main_call2_v10 : FVec F S1x128 .f32 := (broadcastInDim S1x128 ![1] bcast_S128_S1x128_1) main_call2_v9
  have main_call2_v11 : FVec F S1x128 .f32 := (broadcastInDim S1x128 ![] bcast_S_S1x128) main_call2_v8
  have main_call2_v12 : FVec F S1x128 .f32 := Host.divf main_call2_v10 main_call2_v11
  have main_call2_cst_3 : FVec F S_ .f32 := (constant S_ .f32 0x00000000#32)
  have main_call2_v13 : IVec S_ 1 := (cmpf .ogt) main_call2_v8 main_call2_cst_3
  have main_call2_cst_4 : FVec F S_ .f32 := (constant S_ .f32 0x7FC00000#32)
  have main_call2_call0_v0 : FVec F S_ .f32 := id main_call2_cst_4
  have main_call2_call0_v1 : FVec F S1x128 .f32 := (broadcastInDim S1x128 ![] bcast_S_S1x128) main_call2_call0_v0
  have main_v67 : FVec F S1x128 .f32 := (fun p a b => select (broadcastInDim S1x128 ![] bcast_S_S1x128 p) a b) main_call2_v13 main_call2_v12 main_call2_call0_v1
  have main_v68 : FVec F S50000x128 .f32 := (broadcastInDim S50000x128 ![0, 1] bcast_S1x128_S50000x128_0_1 : (⟨S1x128, .f32⟩ : BufTy).Contents (Elt F) → (⟨S50000x128, .f32⟩ : BufTy).Contents (Elt F)) main_v66
  have main_v69 : FVec F S50000x128 .f32 := (subf : (⟨S50000x128, .f32⟩ : BufTy).Contents (Elt F) → (⟨S50000x128, .f32⟩ : BufTy).Contents (Elt F) → (⟨S50000x128, .f32⟩ : BufTy).Contents (Elt F)) main_v58 main_v68
  have main_v70 : FVec F S1x128 .f32 := (broadcastInDim S1x128 ![1] bcast_S128_S1x128_1 : (⟨S128, .f32⟩ : BufTy).Contents (Elt F) → (⟨S1x128, .f32⟩ : BufTy).Contents (Elt F)) main_v60
  have main_v71 : FVec F S50000x128 .f32 := (broadcastInDim S50000x128 ![0, 1] bcast_S1x128_S50000x128_0_1 : (⟨S1x128, .f32⟩ : BufTy).Contents (Elt F) → (⟨S50000x128, .f32⟩ : BufTy).Contents (Elt F)) main_v70
  have main_v72 : FVec F S50000x128 .f32 := (mulf : (⟨S50000x128, .f32⟩ : BufTy).Contents (Elt F) → (⟨S50000x128, .f32⟩ : BufTy).Contents (Elt F) → (⟨S50000x128, .f32⟩ : BufTy).Contents (Elt F)) main_v71 main_v69
  have main_cst_9 : FVec F S_ .f32 := (constant S_ .f32 0x3727C5AC#32)
  have main_v73 : FVec F S1x128 .f32 := (broadcastInDim S1x128 ![] bcast_S_S1x128 : (⟨S_, .f32⟩ : BufTy).Contents (Elt F) → (⟨S1x128, .f32⟩ : BufTy).Contents (Elt F)) main_cst_9
  have main_v74 : FVec F S1x128 .f32 := (addf : (⟨S1x128, .f32⟩ : BufTy).Contents (Elt F) → (⟨S1x128, .f32⟩ : BufTy).Contents (Elt F) → (⟨S1x128, .f32⟩ : BufTy).Contents (Elt F)) main_v67 main_v73
  have main_v75 : FVec F S1x128 .f32 := (Host.rsqrt : (⟨S1x128, .f32⟩ : BufTy).Contents (Elt F) → (⟨S1x128, .f32⟩ : BufTy).Contents (Elt F)) main_v74
  have main_v76 : FVec F S50000x128 .f32 := (broadcastInDim S50000x128 ![0, 1] bcast_S1x128_S50000x128_0_1 : (⟨S1x128, .f32⟩ : BufTy).Contents (Elt F) → (⟨S50000x128, .f32⟩ : BufTy).Contents (Elt F)) main_v75
  have main_v77 : FVec F S50000x128 .f32 := (mulf : (⟨S50000x128, .f32⟩ : BufTy).Contents (Elt F) → (⟨S50000x128, .f32⟩ : BufTy).Contents (Elt F) → (⟨S50000x128, .f32⟩ : BufTy).Contents (Elt F)) main_v72 main_v76
  have main_v78 : FVec F S1x128 .f32 := (broadcastInDim S1x128 ![1] bcast_S128_S1x128_1 : (⟨S128, .f32⟩ : BufTy).Contents (Elt F) → (⟨S1x128, .f32⟩ : BufTy).Contents (Elt F)) main_v62
  have main_v79 : FVec F S50000x128 .f32 := (broadcastInDim S50000x128 ![0, 1] bcast_S1x128_S50000x128_0_1 : (⟨S1x128, .f32⟩ : BufTy).Contents (Elt F) → (⟨S50000x128, .f32⟩ : BufTy).Contents (Elt F)) main_v78
  have main_v80 : FVec F S50000x128 .f32 := (addf : (⟨S50000x128, .f32⟩ : BufTy).Contents (Elt F) → (⟨S50000x128, .f32⟩ : BufTy).Contents (Elt F) → (⟨S50000x128, .f32⟩ : BufTy).Contents (Elt F)) main_v77 main_v79
  have main_call3_cst : FVec F S_ .f32 := (constant S_ .f32 0x00000000#32)
  have main_call3_v0 : FVec F S50000x128 .f32 := (broadcastInDim S50000x128 ![] bcast_S_S50000x128) main_call3_cst
  have main_v81 : FVec F S50000x128 .f32 := maximumf main_v80 main_call3_v0
  have main_cst_10 : FVec F S_ .f32 := (constant S_ .f32 0x00000000#32)
  have main_v86 : FVec F S128 .f32 := ((fun x v => Host.reduceAdd x v reducesTo_S50000x128_S128_d0 h_S_) : (⟨S50000x128, .f32⟩ : BufTy).Contents (Elt F) → (⟨S_, .f32⟩ : BufTy).Contents (Elt F) → (⟨S128, .f32⟩ : BufTy).Contents (Elt F)) main_v81 main_cst_10
  have main_v87 : FVec F S1x128 .f32 := (broadcastInDim S1x128 ![1] bcast_S128_S1x128_1 : (⟨S128, .f32⟩ : BufTy).Contents (Elt F) → (⟨S1x128, .f32⟩ : BufTy).Contents (Elt F)) main_v86
  have main_cst_11 : FVec F S_ .f32 := (constant S_ .f32 0x47435000#32)
  have main_v88 : FVec F S1x128 .f32 := (broadcastInDim S1x128 ![] bcast_S_S1x128 : (⟨S_, .f32⟩ : BufTy).Contents (Elt F) → (⟨S1x128, .f32⟩ : BufTy).Contents (Elt F)) main_cst_11
  have main_v89 : FVec F S1x128 .f32 := (Host.divf : (⟨S1x128, .f32⟩ : BufTy).Contents (Elt F) → (⟨S1x128, .f32⟩ : BufTy).Contents (Elt F) → (⟨S1x128, .f32⟩ : BufTy).Contents (Elt F)) main_v87 main_v88
  have main_c_12 : IVec S_ 32 := (constantI S_ 32 0#32)
  have main_call4_cst : FVec F S_ .f32 := (constant S_ .f32 0x00000000#32)
  have main_call4_v0 : FVec F S128 .f32 := (fun x v => Host.reduceAdd x v reducesTo_S50000x128_S128_d0 h_S_) main_v81 main_call4_cst
  have main_call4_v1 : FVec F S1x128 .f32 := (broadcastInDim S1x128 ![1] bcast_S128_S1x128_1) main_call4_v0
  have main_call4_cst_0 : FVec F S_ .f32 := (constant S_ .f32 0x47435000#32)
  have main_call4_v2 : FVec F S1x128 .f32 := (broadcastInDim S1x128 ![] bcast_S_S1x128) main_call4_cst_0
  have main_call4_v3 : FVec F S1x128 .f32 := Host.divf main_call4_v1 main_call4_v2
  have main_call4_v4 : FVec F S50000x128 .f32 := (broadcastInDim S50000x128 ![0, 1] bcast_S1x128_S50000x128_0_1) main_call4_v3
  have main_call4_v5 : FVec F S50000x128 .f32 := subf main_v81 main_call4_v4
  have main_call4_v6 : FVec F S50000x128 .f32 := mulf main_call4_v5 main_call4_v5
  have main_call4_v7 : FVec F S_ .f32 := (sitofp .f32) main_c_12
  have main_call4_cst_1 : FVec F S_ .f32 := (constant S_ .f32 0x47435000#32)
  have main_call4_v8 : FVec F S_ .f32 := subf main_call4_cst_1 main_call4_v7
  have main_call4_cst_2 : FVec F S_ .f32 := (constant S_ .f32 0x00000000#32)
  have main_call4_v9 : FVec F S128 .f32 := (fun x v => Host.reduceAdd x v reducesTo_S50000x128_S128_d0 h_S_) main_call4_v6 main_call4_cst_2
  have main_call4_v10 : FVec F S1x128 .f32 := (broadcastInDim S1x128 ![1] bcast_S128_S1x128_1) main_call4_v9
  have main_call4_v11 : FVec F S1x128 .f32 := (broadcastInDim S1x128 ![] bcast_S_S1x128) main_call4_v8
  have main_call4_v12 : FVec F S1x128 .f32 := Host.divf main_call4_v10 main_call4_v11
  have main_call4_cst_3 : FVec F S_ .f32 := (constant S_ .f32 0x00000000#32)
  have main_call4_v13 : IVec S_ 1 := (cmpf .ogt) main_call4_v8 main_call4_cst_3
  have main_call4_cst_4 : FVec F S_ .f32 := (constant S_ .f32 0x7FC00000#32)
  have main_call4_call0_v0 : FVec F S_ .f32 := id main_call4_cst_4
  have main_call4_call0_v1 : FVec F S1x128 .f32 := (broadcastInDim S1x128 ![] bcast_S_S1x128) main_call4_call0_v0
  have main_v90 : FVec F S1x128 .f32 := (fun p a b => select (broadcastInDim S1x128 ![] bcast_S_S1x128 p) a b) main_call4_v13 main_call4_v12 main_call4_call0_v1
  have main_v91 : FVec F S50000x128 .f32 := (broadcastInDim S50000x128 ![0, 1] bcast_S1x128_S50000x128_0_1 : (⟨S1x128, .f32⟩ : BufTy).Contents (Elt F) → (⟨S50000x128, .f32⟩ : BufTy).Contents (Elt F)) main_v89
  have main_v92 : FVec F S50000x128 .f32 := (subf : (⟨S50000x128, .f32⟩ : BufTy).Contents (Elt F) → (⟨S50000x128, .f32⟩ : BufTy).Contents (Elt F) → (⟨S50000x128, .f32⟩ : BufTy).Contents (Elt F)) main_v81 main_v91
  have main_v93 : FVec F S1x128 .f32 := (broadcastInDim S1x128 ![1] bcast_S128_S1x128_1 : (⟨S128, .f32⟩ : BufTy).Contents (Elt F) → (⟨S1x128, .f32⟩ : BufTy).Contents (Elt F)) main_v83
  have main_v94 : FVec F S50000x128 .f32 := (broadcastInDim S50000x128 ![0, 1] bcast_S1x128_S50000x128_0_1 : (⟨S1x128, .f32⟩ : BufTy).Contents (Elt F) → (⟨S50000x128, .f32⟩ : BufTy).Contents (Elt F)) main_v93
  have main_v95 : FVec F S50000x128 .f32 := (mulf : (⟨S50000x128, .f32⟩ : BufTy).Contents (Elt F) → (⟨S50000x128, .f32⟩ : BufTy).Contents (Elt F) → (⟨S50000x128, .f32⟩ : BufTy).Contents (Elt F)) main_v94 main_v92
  have main_cst_13 : FVec F S_ .f32 := (constant S_ .f32 0x3727C5AC#32)
  have main_v96 : FVec F S1x128 .f32 := (broadcastInDim S1x128 ![] bcast_S_S1x128 : (⟨S_, .f32⟩ : BufTy).Contents (Elt F) → (⟨S1x128, .f32⟩ : BufTy).Contents (Elt F)) main_cst_13
  have main_v97 : FVec F S1x128 .f32 := (addf : (⟨S1x128, .f32⟩ : BufTy).Contents (Elt F) → (⟨S1x128, .f32⟩ : BufTy).Contents (Elt F) → (⟨S1x128, .f32⟩ : BufTy).Contents (Elt F)) main_v90 main_v96
  have main_v98 : FVec F S1x128 .f32 := (Host.rsqrt : (⟨S1x128, .f32⟩ : BufTy).Contents (Elt F) → (⟨S1x128, .f32⟩ : BufTy).Contents (Elt F)) main_v97
  have main_v99 : FVec F S50000x128 .f32 := (broadcastInDim S50000x128 ![0, 1] bcast_S1x128_S50000x128_0_1 : (⟨S1x128, .f32⟩ : BufTy).Contents (Elt F) → (⟨S50000x128, .f32⟩ : BufTy).Contents (Elt F)) main_v98
  have main_v100 : FVec F S50000x128 .f32 := (mulf : (⟨S50000x128, .f32⟩ : BufTy).Contents (Elt F) → (⟨S50000x128, .f32⟩ : BufTy).Contents (Elt F) → (⟨S50000x128, .f32⟩ : BufTy).Contents (Elt F)) main_v95 main_v99
  have main_v101 : FVec F S1x128 .f32 := (broadcastInDim S1x128 ![1] bcast_S128_S1x128_1 : (⟨S128, .f32⟩ : BufTy).Contents (Elt F) → (⟨S1x128, .f32⟩ : BufTy).Contents (Elt F)) main_v85
  have main_v102 : FVec F S50000x128 .f32 := (broadcastInDim S50000x128 ![0, 1] bcast_S1x128_S50000x128_0_1 : (⟨S1x128, .f32⟩ : BufTy).Contents (Elt F) → (⟨S50000x128, .f32⟩ : BufTy).Contents (Elt F)) main_v101
  have main_v103 : FVec F S50000x128 .f32 := (addf : (⟨S50000x128, .f32⟩ : BufTy).Contents (Elt F) → (⟨S50000x128, .f32⟩ : BufTy).Contents (Elt F) → (⟨S50000x128, .f32⟩ : BufTy).Contents (Elt F)) main_v100 main_v102
  have main_call5_cst : FVec F S_ .f32 := (constant S_ .f32 0x00000000#32)
  have main_call5_v0 : FVec F S50000x128 .f32 := (broadcastInDim S50000x128 ![] bcast_S_S50000x128) main_call5_cst
  have main_v104 : FVec F S50000x128 .f32 := maximumf main_v103 main_call5_v0
  have main_v105 : FVec F S50000x128 .f32 := (addf : (⟨S50000x128, .f32⟩ : BufTy).Contents (Elt F) → (⟨S50000x128, .f32⟩ : BufTy).Contents (Elt F) → (⟨S50000x128, .f32⟩ : BufTy).Contents (Elt F)) main_v3 main_v104
  main_v105

/-- The composed operations are the layer as array code. -/
theorem refLayer_eq (main_arg1 : IVec S1600000 32) (main_v3 : FVec F S50000x128 .f32) (main_arg2 : IVec S1600000 32) (main_v15 : FVec F S_ .f32) (main_v21 : FVec F S128x128 .f32) (main_v24 : FVec F S128 .f32) (main_v29 : FVec F S128 .f32) (main_v31 : FVec F S128 .f32) (main_v52 : FVec F S128x128 .f32) (main_v55 : FVec F S128 .f32) (main_v60 : FVec F S128 .f32) (main_v62 : FVec F S128 .f32) (main_v83 : FVec F S128 .f32) (main_v85 : FVec F S128 .f32) :
    refLayer main_arg1 main_v3 main_arg2 main_v15 main_v21 main_v24 main_v29 main_v31 main_v52 main_v55 main_v60 main_v62 main_v83 main_v85 = RefSpec.layer main_arg1 main_v3 main_arg2 main_v15 main_v21 main_v24 main_v29 main_v31 main_v52 main_v55 main_v60 main_v62 main_v83 main_v85 := rfl

/-- The embedding, as the reference's operations compose. -/
def refEmbed (main_arg0 : FVec F S50000x128 .f32) (main_arg3 : FVec F S128x128 .f32) (main_arg4 : FVec F S128 .f32) : FVec F S50000x128 .f32 :=
  have main_v0 : FVec F S50000x128 .f32 := ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)) main_arg0 main_arg3
  have main_v1 : FVec F S1x128 .f32 := (broadcastInDim S1x128 ![1] bcast_S128_S1x128_1 : (⟨S128, .f32⟩ : BufTy).Contents (Elt F) → (⟨S1x128, .f32⟩ : BufTy).Contents (Elt F)) main_arg4
  have main_v2 : FVec F S50000x128 .f32 := (broadcastInDim S50000x128 ![0, 1] bcast_S1x128_S50000x128_0_1 : (⟨S1x128, .f32⟩ : BufTy).Contents (Elt F) → (⟨S50000x128, .f32⟩ : BufTy).Contents (Elt F)) main_v1
  have main_v3 : FVec F S50000x128 .f32 := (addf : (⟨S50000x128, .f32⟩ : BufTy).Contents (Elt F) → (⟨S50000x128, .f32⟩ : BufTy).Contents (Elt F) → (⟨S50000x128, .f32⟩ : BufTy).Contents (Elt F)) main_v0 main_v2
  main_v3

theorem refEmbed_eq (main_arg0 : FVec F S50000x128 .f32) (main_arg3 : FVec F S128x128 .f32) (main_arg4 : FVec F S128 .f32) : refEmbed main_arg0 main_arg3 main_arg4 = RefSpec.dense main_arg0 main_arg3 main_arg4 := rfl

theorem embed_read (V : Valuation τ sig (Elt F)) :
    after opsE V (Proc.devRef .tc main_v3) = refEmbed (V (Proc.devRef .tc main_arg0)) (V (Proc.devRef .tc main_arg3)) (V (Proc.devRef .tc main_arg4)) := by
  after_results_simp
  rfl

set_option maxRecDepth 65536 in
set_option maxHeartbeats 4000000 in
/-- Layer 0's operations leave `refLayer` of the contents at the layer's output buffer. -/
theorem layer0_read (V : Valuation τ sig (Elt F)) :
    after opsL0 V (Proc.devRef .tc main_v105) = refLayer (V (Proc.devRef .tc main_arg1)) (V (Proc.devRef .tc main_v3)) (V (Proc.devRef .tc main_arg2))
      (shapeCast S_ (((extractStridedSlice S1 ![0] · slices_S4_S1_0) : (⟨S4, .f32⟩ : BufTy).Contents (Elt F) → (⟨S1, .f32⟩ : BufTy).Contents (Elt F)) (V (Proc.devRef .tc main_arg5))) shapeCasts_S1_S_)
      (shapeCast S128x128 (((extractStridedSlice S1x128x128 ![0, 0, 0] · slices_S4x128x128_S1x128x128_0_0_0) : (⟨S4x128x128, .f32⟩ : BufTy).Contents (Elt F) → (⟨S1x128x128, .f32⟩ : BufTy).Contents (Elt F)) (V (Proc.devRef .tc main_arg6))) shapeCasts_S1x128x128_S128x128)
      (shapeCast S128 (((extractStridedSlice S1x128 ![0, 0] · slices_S4x128_S1x128_0_0) : (⟨S4x128, .f32⟩ : BufTy).Contents (Elt F) → (⟨S1x128, .f32⟩ : BufTy).Contents (Elt F)) (V (Proc.devRef .tc main_arg7))) shapeCasts_S1x128_S128)
      (shapeCast S128 (((extractStridedSlice S1x128 ![0, 0] · slices_S4x128_S1x128_0_0) : (⟨S4x128, .f32⟩ : BufTy).Contents (Elt F) → (⟨S1x128, .f32⟩ : BufTy).Contents (Elt F)) (V (Proc.devRef .tc main_arg8))) shapeCasts_S1x128_S128)
      (shapeCast S128 (((extractStridedSlice S1x128 ![0, 0] · slices_S4x128_S1x128_0_0) : (⟨S4x128, .f32⟩ : BufTy).Contents (Elt F) → (⟨S1x128, .f32⟩ : BufTy).Contents (Elt F)) (V (Proc.devRef .tc main_arg9))) shapeCasts_S1x128_S128)
      (shapeCast S128x128 (((extractStridedSlice S1x128x128 ![0, 0, 0] · slices_S4x128x128_S1x128x128_0_0_0) : (⟨S4x128x128, .f32⟩ : BufTy).Contents (Elt F) → (⟨S1x128x128, .f32⟩ : BufTy).Contents (Elt F)) (V (Proc.devRef .tc main_arg10))) shapeCasts_S1x128x128_S128x128)
      (shapeCast S128 (((extractStridedSlice S1x128 ![0, 0] · slices_S4x128_S1x128_0_0) : (⟨S4x128, .f32⟩ : BufTy).Contents (Elt F) → (⟨S1x128, .f32⟩ : BufTy).Contents (Elt F)) (V (Proc.devRef .tc main_arg11))) shapeCasts_S1x128_S128)
      (shapeCast S128 (((extractStridedSlice S1x128 ![0, 0] · slices_S4x128_S1x128_0_0) : (⟨S4x128, .f32⟩ : BufTy).Contents (Elt F) → (⟨S1x128, .f32⟩ : BufTy).Contents (Elt F)) (V (Proc.devRef .tc main_arg12))) shapeCasts_S1x128_S128)
      (shapeCast S128 (((extractStridedSlice S1x128 ![0, 0] · slices_S4x128_S1x128_0_0) : (⟨S4x128, .f32⟩ : BufTy).Contents (Elt F) → (⟨S1x128, .f32⟩ : BufTy).Contents (Elt F)) (V (Proc.devRef .tc main_arg13))) shapeCasts_S1x128_S128)
      (shapeCast S128 (((extractStridedSlice S1x128 ![0, 0] · slices_S4x128_S1x128_0_0) : (⟨S4x128, .f32⟩ : BufTy).Contents (Elt F) → (⟨S1x128, .f32⟩ : BufTy).Contents (Elt F)) (V (Proc.devRef .tc main_arg14))) shapeCasts_S1x128_S128)
      (shapeCast S128 (((extractStridedSlice S1x128 ![0, 0] · slices_S4x128_S1x128_0_0) : (⟨S4x128, .f32⟩ : BufTy).Contents (Elt F) → (⟨S1x128, .f32⟩ : BufTy).Contents (Elt F)) (V (Proc.devRef .tc main_arg15))) shapeCasts_S1x128_S128) := by
  after_results_simp
  rfl

set_option maxRecDepth 65536 in
set_option maxHeartbeats 4000000 in
/-- Layer 1's operations leave `refLayer` of the contents at the layer's output buffer. -/
theorem layer1_read (V : Valuation τ sig (Elt F)) :
    after opsL1 V (Proc.devRef .tc main_v207) = refLayer (V (Proc.devRef .tc main_arg1)) (V (Proc.devRef .tc main_v105)) (V (Proc.devRef .tc main_arg2))
      (shapeCast S_ (((extractStridedSlice S1 ![1] · slices_S4_S1_1) : (⟨S4, .f32⟩ : BufTy).Contents (Elt F) → (⟨S1, .f32⟩ : BufTy).Contents (Elt F)) (V (Proc.devRef .tc main_arg5))) shapeCasts_S1_S_)
      (shapeCast S128x128 (((extractStridedSlice S1x128x128 ![1, 0, 0] · slices_S4x128x128_S1x128x128_1_0_0) : (⟨S4x128x128, .f32⟩ : BufTy).Contents (Elt F) → (⟨S1x128x128, .f32⟩ : BufTy).Contents (Elt F)) (V (Proc.devRef .tc main_arg6))) shapeCasts_S1x128x128_S128x128)
      (shapeCast S128 (((extractStridedSlice S1x128 ![1, 0] · slices_S4x128_S1x128_1_0) : (⟨S4x128, .f32⟩ : BufTy).Contents (Elt F) → (⟨S1x128, .f32⟩ : BufTy).Contents (Elt F)) (V (Proc.devRef .tc main_arg7))) shapeCasts_S1x128_S128)
      (shapeCast S128 (((extractStridedSlice S1x128 ![1, 0] · slices_S4x128_S1x128_1_0) : (⟨S4x128, .f32⟩ : BufTy).Contents (Elt F) → (⟨S1x128, .f32⟩ : BufTy).Contents (Elt F)) (V (Proc.devRef .tc main_arg8))) shapeCasts_S1x128_S128)
      (shapeCast S128 (((extractStridedSlice S1x128 ![1, 0] · slices_S4x128_S1x128_1_0) : (⟨S4x128, .f32⟩ : BufTy).Contents (Elt F) → (⟨S1x128, .f32⟩ : BufTy).Contents (Elt F)) (V (Proc.devRef .tc main_arg9))) shapeCasts_S1x128_S128)
      (shapeCast S128x128 (((extractStridedSlice S1x128x128 ![1, 0, 0] · slices_S4x128x128_S1x128x128_1_0_0) : (⟨S4x128x128, .f32⟩ : BufTy).Contents (Elt F) → (⟨S1x128x128, .f32⟩ : BufTy).Contents (Elt F)) (V (Proc.devRef .tc main_arg10))) shapeCasts_S1x128x128_S128x128)
      (shapeCast S128 (((extractStridedSlice S1x128 ![1, 0] · slices_S4x128_S1x128_1_0) : (⟨S4x128, .f32⟩ : BufTy).Contents (Elt F) → (⟨S1x128, .f32⟩ : BufTy).Contents (Elt F)) (V (Proc.devRef .tc main_arg11))) shapeCasts_S1x128_S128)
      (shapeCast S128 (((extractStridedSlice S1x128 ![1, 0] · slices_S4x128_S1x128_1_0) : (⟨S4x128, .f32⟩ : BufTy).Contents (Elt F) → (⟨S1x128, .f32⟩ : BufTy).Contents (Elt F)) (V (Proc.devRef .tc main_arg12))) shapeCasts_S1x128_S128)
      (shapeCast S128 (((extractStridedSlice S1x128 ![1, 0] · slices_S4x128_S1x128_1_0) : (⟨S4x128, .f32⟩ : BufTy).Contents (Elt F) → (⟨S1x128, .f32⟩ : BufTy).Contents (Elt F)) (V (Proc.devRef .tc main_arg13))) shapeCasts_S1x128_S128)
      (shapeCast S128 (((extractStridedSlice S1x128 ![1, 0] · slices_S4x128_S1x128_1_0) : (⟨S4x128, .f32⟩ : BufTy).Contents (Elt F) → (⟨S1x128, .f32⟩ : BufTy).Contents (Elt F)) (V (Proc.devRef .tc main_arg14))) shapeCasts_S1x128_S128)
      (shapeCast S128 (((extractStridedSlice S1x128 ![1, 0] · slices_S4x128_S1x128_1_0) : (⟨S4x128, .f32⟩ : BufTy).Contents (Elt F) → (⟨S1x128, .f32⟩ : BufTy).Contents (Elt F)) (V (Proc.devRef .tc main_arg15))) shapeCasts_S1x128_S128) := by
  after_results_simp
  rfl

set_option maxRecDepth 65536 in
set_option maxHeartbeats 4000000 in
/-- Layer 2's operations leave `refLayer` of the contents at the layer's output buffer. -/
theorem layer2_read (V : Valuation τ sig (Elt F)) :
    after opsL2 V (Proc.devRef .tc main_v309) = refLayer (V (Proc.devRef .tc main_arg1)) (V (Proc.devRef .tc main_v207)) (V (Proc.devRef .tc main_arg2))
      (shapeCast S_ (((extractStridedSlice S1 ![2] · slices_S4_S1_2) : (⟨S4, .f32⟩ : BufTy).Contents (Elt F) → (⟨S1, .f32⟩ : BufTy).Contents (Elt F)) (V (Proc.devRef .tc main_arg5))) shapeCasts_S1_S_)
      (shapeCast S128x128 (((extractStridedSlice S1x128x128 ![2, 0, 0] · slices_S4x128x128_S1x128x128_2_0_0) : (⟨S4x128x128, .f32⟩ : BufTy).Contents (Elt F) → (⟨S1x128x128, .f32⟩ : BufTy).Contents (Elt F)) (V (Proc.devRef .tc main_arg6))) shapeCasts_S1x128x128_S128x128)
      (shapeCast S128 (((extractStridedSlice S1x128 ![2, 0] · slices_S4x128_S1x128_2_0) : (⟨S4x128, .f32⟩ : BufTy).Contents (Elt F) → (⟨S1x128, .f32⟩ : BufTy).Contents (Elt F)) (V (Proc.devRef .tc main_arg7))) shapeCasts_S1x128_S128)
      (shapeCast S128 (((extractStridedSlice S1x128 ![2, 0] · slices_S4x128_S1x128_2_0) : (⟨S4x128, .f32⟩ : BufTy).Contents (Elt F) → (⟨S1x128, .f32⟩ : BufTy).Contents (Elt F)) (V (Proc.devRef .tc main_arg8))) shapeCasts_S1x128_S128)
      (shapeCast S128 (((extractStridedSlice S1x128 ![2, 0] · slices_S4x128_S1x128_2_0) : (⟨S4x128, .f32⟩ : BufTy).Contents (Elt F) → (⟨S1x128, .f32⟩ : BufTy).Contents (Elt F)) (V (Proc.devRef .tc main_arg9))) shapeCasts_S1x128_S128)
      (shapeCast S128x128 (((extractStridedSlice S1x128x128 ![2, 0, 0] · slices_S4x128x128_S1x128x128_2_0_0) : (⟨S4x128x128, .f32⟩ : BufTy).Contents (Elt F) → (⟨S1x128x128, .f32⟩ : BufTy).Contents (Elt F)) (V (Proc.devRef .tc main_arg10))) shapeCasts_S1x128x128_S128x128)
      (shapeCast S128 (((extractStridedSlice S1x128 ![2, 0] · slices_S4x128_S1x128_2_0) : (⟨S4x128, .f32⟩ : BufTy).Contents (Elt F) → (⟨S1x128, .f32⟩ : BufTy).Contents (Elt F)) (V (Proc.devRef .tc main_arg11))) shapeCasts_S1x128_S128)
      (shapeCast S128 (((extractStridedSlice S1x128 ![2, 0] · slices_S4x128_S1x128_2_0) : (⟨S4x128, .f32⟩ : BufTy).Contents (Elt F) → (⟨S1x128, .f32⟩ : BufTy).Contents (Elt F)) (V (Proc.devRef .tc main_arg12))) shapeCasts_S1x128_S128)
      (shapeCast S128 (((extractStridedSlice S1x128 ![2, 0] · slices_S4x128_S1x128_2_0) : (⟨S4x128, .f32⟩ : BufTy).Contents (Elt F) → (⟨S1x128, .f32⟩ : BufTy).Contents (Elt F)) (V (Proc.devRef .tc main_arg13))) shapeCasts_S1x128_S128)
      (shapeCast S128 (((extractStridedSlice S1x128 ![2, 0] · slices_S4x128_S1x128_2_0) : (⟨S4x128, .f32⟩ : BufTy).Contents (Elt F) → (⟨S1x128, .f32⟩ : BufTy).Contents (Elt F)) (V (Proc.devRef .tc main_arg14))) shapeCasts_S1x128_S128)
      (shapeCast S128 (((extractStridedSlice S1x128 ![2, 0] · slices_S4x128_S1x128_2_0) : (⟨S4x128, .f32⟩ : BufTy).Contents (Elt F) → (⟨S1x128, .f32⟩ : BufTy).Contents (Elt F)) (V (Proc.devRef .tc main_arg15))) shapeCasts_S1x128_S128) := by
  after_results_simp
  rfl

set_option maxRecDepth 65536 in
set_option maxHeartbeats 4000000 in
/-- Layer 3's operations leave `refLayer` of the contents at the layer's output buffer. -/
theorem layer3_read (V : Valuation τ sig (Elt F)) :
    after opsL3 V (Proc.devRef .tc main_v411) = refLayer (V (Proc.devRef .tc main_arg1)) (V (Proc.devRef .tc main_v309)) (V (Proc.devRef .tc main_arg2))
      (shapeCast S_ (((extractStridedSlice S1 ![3] · slices_S4_S1_3) : (⟨S4, .f32⟩ : BufTy).Contents (Elt F) → (⟨S1, .f32⟩ : BufTy).Contents (Elt F)) (V (Proc.devRef .tc main_arg5))) shapeCasts_S1_S_)
      (shapeCast S128x128 (((extractStridedSlice S1x128x128 ![3, 0, 0] · slices_S4x128x128_S1x128x128_3_0_0) : (⟨S4x128x128, .f32⟩ : BufTy).Contents (Elt F) → (⟨S1x128x128, .f32⟩ : BufTy).Contents (Elt F)) (V (Proc.devRef .tc main_arg6))) shapeCasts_S1x128x128_S128x128)
      (shapeCast S128 (((extractStridedSlice S1x128 ![3, 0] · slices_S4x128_S1x128_3_0) : (⟨S4x128, .f32⟩ : BufTy).Contents (Elt F) → (⟨S1x128, .f32⟩ : BufTy).Contents (Elt F)) (V (Proc.devRef .tc main_arg7))) shapeCasts_S1x128_S128)
      (shapeCast S128 (((extractStridedSlice S1x128 ![3, 0] · slices_S4x128_S1x128_3_0) : (⟨S4x128, .f32⟩ : BufTy).Contents (Elt F) → (⟨S1x128, .f32⟩ : BufTy).Contents (Elt F)) (V (Proc.devRef .tc main_arg8))) shapeCasts_S1x128_S128)
      (shapeCast S128 (((extractStridedSlice S1x128 ![3, 0] · slices_S4x128_S1x128_3_0) : (⟨S4x128, .f32⟩ : BufTy).Contents (Elt F) → (⟨S1x128, .f32⟩ : BufTy).Contents (Elt F)) (V (Proc.devRef .tc main_arg9))) shapeCasts_S1x128_S128)
      (shapeCast S128x128 (((extractStridedSlice S1x128x128 ![3, 0, 0] · slices_S4x128x128_S1x128x128_3_0_0) : (⟨S4x128x128, .f32⟩ : BufTy).Contents (Elt F) → (⟨S1x128x128, .f32⟩ : BufTy).Contents (Elt F)) (V (Proc.devRef .tc main_arg10))) shapeCasts_S1x128x128_S128x128)
      (shapeCast S128 (((extractStridedSlice S1x128 ![3, 0] · slices_S4x128_S1x128_3_0) : (⟨S4x128, .f32⟩ : BufTy).Contents (Elt F) → (⟨S1x128, .f32⟩ : BufTy).Contents (Elt F)) (V (Proc.devRef .tc main_arg11))) shapeCasts_S1x128_S128)
      (shapeCast S128 (((extractStridedSlice S1x128 ![3, 0] · slices_S4x128_S1x128_3_0) : (⟨S4x128, .f32⟩ : BufTy).Contents (Elt F) → (⟨S1x128, .f32⟩ : BufTy).Contents (Elt F)) (V (Proc.devRef .tc main_arg12))) shapeCasts_S1x128_S128)
      (shapeCast S128 (((extractStridedSlice S1x128 ![3, 0] · slices_S4x128_S1x128_3_0) : (⟨S4x128, .f32⟩ : BufTy).Contents (Elt F) → (⟨S1x128, .f32⟩ : BufTy).Contents (Elt F)) (V (Proc.devRef .tc main_arg13))) shapeCasts_S1x128_S128)
      (shapeCast S128 (((extractStridedSlice S1x128 ![3, 0] · slices_S4x128_S1x128_3_0) : (⟨S4x128, .f32⟩ : BufTy).Contents (Elt F) → (⟨S1x128, .f32⟩ : BufTy).Contents (Elt F)) (V (Proc.devRef .tc main_arg14))) shapeCasts_S1x128_S128)
      (shapeCast S128 (((extractStridedSlice S1x128 ![3, 0] · slices_S4x128_S1x128_3_0) : (⟨S4x128, .f32⟩ : BufTy).Contents (Elt F) → (⟨S1x128, .f32⟩ : BufTy).Contents (Elt F)) (V (Proc.devRef .tc main_arg15))) shapeCasts_S1x128_S128) := by
  after_results_simp
  rfl

theorem opsE_keep : (opsE : List (HloOp τ sig (Elt F))).Forall fun op => ∀ b ∈ op.writes, ∃ r : Ref sig .tc, b = Proc.devRef .tc r ∧ r ∉ RefRun.args := by
  simp only [List.Forall, nullary_writes, unary_writes, binary_writes, ternary_writes, reshape_writes, Finset.mem_singleton, forall_eq]
  repeat' apply And.intro
  all_goals exact ⟨_, rfl, by decide⟩

theorem opsE_arg (V : Valuation τ sig (Elt F)) (a : Ref sig .tc) (ha : a ∈ RefRun.args) :
    after opsE V (Proc.devRef .tc a) = V (Proc.devRef .tc a) := RefRun.keep_of opsE opsE_keep V a ha

theorem opsL0_keep : (opsL0 : List (HloOp τ sig (Elt F))).Forall fun op => ∀ b ∈ op.writes, ∃ r : Ref sig .tc, b = Proc.devRef .tc r ∧ r ∉ RefRun.args := by
  simp only [List.Forall, nullary_writes, unary_writes, binary_writes, ternary_writes, reshape_writes, Finset.mem_singleton, forall_eq]
  repeat' apply And.intro
  all_goals exact ⟨_, rfl, by decide⟩

theorem opsL0_arg (V : Valuation τ sig (Elt F)) (a : Ref sig .tc) (ha : a ∈ RefRun.args) :
    after opsL0 V (Proc.devRef .tc a) = V (Proc.devRef .tc a) := RefRun.keep_of opsL0 opsL0_keep V a ha

theorem opsL1_keep : (opsL1 : List (HloOp τ sig (Elt F))).Forall fun op => ∀ b ∈ op.writes, ∃ r : Ref sig .tc, b = Proc.devRef .tc r ∧ r ∉ RefRun.args := by
  simp only [List.Forall, nullary_writes, unary_writes, binary_writes, ternary_writes, reshape_writes, Finset.mem_singleton, forall_eq]
  repeat' apply And.intro
  all_goals exact ⟨_, rfl, by decide⟩

theorem opsL1_arg (V : Valuation τ sig (Elt F)) (a : Ref sig .tc) (ha : a ∈ RefRun.args) :
    after opsL1 V (Proc.devRef .tc a) = V (Proc.devRef .tc a) := RefRun.keep_of opsL1 opsL1_keep V a ha

theorem opsL2_keep : (opsL2 : List (HloOp τ sig (Elt F))).Forall fun op => ∀ b ∈ op.writes, ∃ r : Ref sig .tc, b = Proc.devRef .tc r ∧ r ∉ RefRun.args := by
  simp only [List.Forall, nullary_writes, unary_writes, binary_writes, ternary_writes, reshape_writes, Finset.mem_singleton, forall_eq]
  repeat' apply And.intro
  all_goals exact ⟨_, rfl, by decide⟩

theorem opsL2_arg (V : Valuation τ sig (Elt F)) (a : Ref sig .tc) (ha : a ∈ RefRun.args) :
    after opsL2 V (Proc.devRef .tc a) = V (Proc.devRef .tc a) := RefRun.keep_of opsL2 opsL2_keep V a ha

theorem opsL3_keep : (opsL3 : List (HloOp τ sig (Elt F))).Forall fun op => ∀ b ∈ op.writes, ∃ r : Ref sig .tc, b = Proc.devRef .tc r ∧ r ∉ RefRun.args := by
  simp only [List.Forall, nullary_writes, unary_writes, binary_writes, ternary_writes, reshape_writes, Finset.mem_singleton, forall_eq]
  repeat' apply And.intro
  all_goals exact ⟨_, rfl, by decide⟩

theorem opsL3_arg (V : Valuation τ sig (Elt F)) (a : Ref sig .tc) (ha : a ∈ RefRun.args) :
    after opsL3 V (Proc.devRef .tc a) = V (Proc.devRef .tc a) := RefRun.keep_of opsL3 opsL3_keep V a ha

/-- Two lines of operations folded one after the other. -/
theorem after_app : ∀ (l₁ l₂ : List (HloOp τ sig (Elt F))) (V : Valuation τ sig (Elt F)), after (l₁ ++ l₂) V = after l₂ (after l₁ V)
  | [], _, _ => rfl
  | op :: l₁, l₂, V => by rw [List.cons_append, after_cons, after_cons, after_app l₁ l₂]

end Cert.ReferenceIdeal.RefLayers

end
-- ==== Proof.RefNet.lean ====
/-
  The reference as a whole: its fold at the result buffer is the embedding followed by the four layers, each applied
  to its own slice of the parameter arrays.
-/
import proofs.«140776_j80633716015159_1_alg».proof.Proof.RefLayers

noncomputable section

namespace Cert.ReferenceIdeal.RefLayers

open Cert.ReferenceIdeal Cert.ReferenceIdeal.Gen Idealize.ShloMosaic Idealize.ShloMosaic.TcCoe Idealize.SL.Sem Idealize.ShloMosaic.StableHlo

variable {F : FTy → Type} [FloatOps F]

/-- Layer 0's read, from contents `W` that agree with `V` on the argument buffers. -/
theorem layer0_read' (V W : Valuation τ sig (Elt F)) (hW : ∀ a ∈ RefRun.args, W (Proc.devRef .tc a) = V (Proc.devRef .tc a)) :
    after opsL0 W (Proc.devRef .tc main_v105) = refLayer (V (Proc.devRef .tc main_arg1)) (W (Proc.devRef .tc main_v3)) (V (Proc.devRef .tc main_arg2))
      (shapeCast S_ (((extractStridedSlice S1 ![0] · slices_S4_S1_0) : (⟨S4, .f32⟩ : BufTy).Contents (Elt F) → (⟨S1, .f32⟩ : BufTy).Contents (Elt F)) (V (Proc.devRef .tc main_arg5))) shapeCasts_S1_S_)
      (shapeCast S128x128 (((extractStridedSlice S1x128x128 ![0, 0, 0] · slices_S4x128x128_S1x128x128_0_0_0) : (⟨S4x128x128, .f32⟩ : BufTy).Contents (Elt F) → (⟨S1x128x128, .f32⟩ : BufTy).Contents (Elt F)) (V (Proc.devRef .tc main_arg6))) shapeCasts_S1x128x128_S128x128)
      (shapeCast S128 (((extractStridedSlice S1x128 ![0, 0] · slices_S4x128_S1x128_0_0) : (⟨S4x128, .f32⟩ : BufTy).Contents (Elt F) → (⟨S1x128, .f32⟩ : BufTy).Contents (Elt F)) (V (Proc.devRef .tc main_arg7))) shapeCasts_S1x128_S128)
      (shapeCast S128 (((extractStridedSlice S1x128 ![0, 0] · slices_S4x128_S1x128_0_0) : (⟨S4x128, .f32⟩ : BufTy).Contents (Elt F) → (⟨S1x128, .f32⟩ : BufTy).Contents (Elt F)) (V (Proc.devRef .tc main_arg8))) shapeCasts_S1x128_S128)
      (shapeCast S128 (((extractStridedSlice S1x128 ![0, 0] · slices_S4x128_S1x128_0_0) : (⟨S4x128, .f32⟩ : BufTy).Contents (Elt F) → (⟨S1x128, .f32⟩ : BufTy).Contents (Elt F)) (V (Proc.devRef .tc main_arg9))) shapeCasts_S1x128_S128)
      (shapeCast S128x128 (((extractStridedSlice S1x128x128 ![0, 0, 0] · slices_S4x128x128_S1x128x128_0_0_0) : (⟨S4x128x128, .f32⟩ : BufTy).Contents (Elt F) → (⟨S1x128x128, .f32⟩ : BufTy).Contents (Elt F)) (V (Proc.devRef .tc main_arg10))) shapeCasts_S1x128x128_S128x128)
      (shapeCast S128 (((extractStridedSlice S1x128 ![0, 0] · slices_S4x128_S1x128_0_0) : (⟨S4x128, .f32⟩ : BufTy).Contents (Elt F) → (⟨S1x128, .f32⟩ : BufTy).Contents (Elt F)) (V (Proc.devRef .tc main_arg11))) shapeCasts_S1x128_S128)
      (shapeCast S128 (((extractStridedSlice S1x128 ![0, 0] · slices_S4x128_S1x128_0_0) : (⟨S4x128, .f32⟩ : BufTy).Contents (Elt F) → (⟨S1x128, .f32⟩ : BufTy).Contents (Elt F)) (V (Proc.devRef .tc main_arg12))) shapeCasts_S1x128_S128)
      (shapeCast S128 (((extractStridedSlice S1x128 ![0, 0] · slices_S4x128_S1x128_0_0) : (⟨S4x128, .f32⟩ : BufTy).Contents (Elt F) → (⟨S1x128, .f32⟩ : BufTy).Contents (Elt F)) (V (Proc.devRef .tc main_arg13))) shapeCasts_S1x128_S128)
      (shapeCast S128 (((extractStridedSlice S1x128 ![0, 0] · slices_S4x128_S1x128_0_0) : (⟨S4x128, .f32⟩ : BufTy).Contents (Elt F) → (⟨S1x128, .f32⟩ : BufTy).Contents (Elt F)) (V (Proc.devRef .tc main_arg14))) shapeCasts_S1x128_S128)
      (shapeCast S128 (((extractStridedSlice S1x128 ![0, 0] · slices_S4x128_S1x128_0_0) : (⟨S4x128, .f32⟩ : BufTy).Contents (Elt F) → (⟨S1x128, .f32⟩ : BufTy).Contents (Elt F)) (V (Proc.devRef .tc main_arg15))) shapeCasts_S1x128_S128) := by
  rw [layer0_read, hW main_arg1 (by decide), hW main_arg2 (by decide), hW main_arg5 (by decide), hW main_arg6 (by decide), hW main_arg7 (by decide), hW main_arg8 (by decide), hW main_arg9 (by decide), hW main_arg10 (by decide), hW main_arg11 (by decide), hW main_arg12 (by decide), hW main_arg13 (by decide), hW main_arg14 (by decide), hW main_arg15 (by decide)]

/-- Layer 1's read, from contents `W` that agree with `V` on the argument buffers. -/
theorem layer1_read' (V W : Valuation τ sig (Elt F)) (hW : ∀ a ∈ RefRun.args, W (Proc.devRef .tc a) = V (Proc.devRef .tc a)) :
    after opsL1 W (Proc.devRef .tc main_v207) = refLayer (V (Proc.devRef .tc main_arg1)) (W (Proc.devRef .tc main_v105)) (V (Proc.devRef .tc main_arg2))
      (shapeCast S_ (((extractStridedSlice S1 ![1] · slices_S4_S1_1) : (⟨S4, .f32⟩ : BufTy).Contents (Elt F) → (⟨S1, .f32⟩ : BufTy).Contents (Elt F)) (V (Proc.devRef .tc main_arg5))) shapeCasts_S1_S_)
      (shapeCast S128x128 (((extractStridedSlice S1x128x128 ![1, 0, 0] · slices_S4x128x128_S1x128x128_1_0_0) : (⟨S4x128x128, .f32⟩ : BufTy).Contents (Elt F) → (⟨S1x128x128, .f32⟩ : BufTy).Contents (Elt F)) (V (Proc.devRef .tc main_arg6))) shapeCasts_S1x128x128_S128x128)
      (shapeCast S128 (((extractStridedSlice S1x128 ![1, 0] · slices_S4x128_S1x128_1_0) : (⟨S4x128, .f32⟩ : BufTy).Contents (Elt F) → (⟨S1x128, .f32⟩ : BufTy).Contents (Elt F)) (V (Proc.devRef .tc main_arg7))) shapeCasts_S1x128_S128)
      (shapeCast S128 (((extractStridedSlice S1x128 ![1, 0] · slices_S4x128_S1x128_1_0) : (⟨S4x128, .f32⟩ : BufTy).Contents (Elt F) → (⟨S1x128, .f32⟩ : BufTy).Contents (Elt F)) (V (Proc.devRef .tc main_arg8))) shapeCasts_S1x128_S128)
      (shapeCast S128 (((extractStridedSlice S1x128 ![1, 0] · slices_S4x128_S1x128_1_0) : (⟨S4x128, .f32⟩ : BufTy).Contents (Elt F) → (⟨S1x128, .f32⟩ : BufTy).Contents (Elt F)) (V (Proc.devRef .tc main_arg9))) shapeCasts_S1x128_S128)
      (shapeCast S128x128 (((extractStridedSlice S1x128x128 ![1, 0, 0] · slices_S4x128x128_S1x128x128_1_0_0) : (⟨S4x128x128, .f32⟩ : BufTy).Contents (Elt F) → (⟨S1x128x128, .f32⟩ : BufTy).Contents (Elt F)) (V (Proc.devRef .tc main_arg10))) shapeCasts_S1x128x128_S128x128)
      (shapeCast S128 (((extractStridedSlice S1x128 ![1, 0] · slices_S4x128_S1x128_1_0) : (⟨S4x128, .f32⟩ : BufTy).Contents (Elt F) → (⟨S1x128, .f32⟩ : BufTy).Contents (Elt F)) (V (Proc.devRef .tc main_arg11))) shapeCasts_S1x128_S128)
      (shapeCast S128 (((extractStridedSlice S1x128 ![1, 0] · slices_S4x128_S1x128_1_0) : (⟨S4x128, .f32⟩ : BufTy).Contents (Elt F) → (⟨S1x128, .f32⟩ : BufTy).Contents (Elt F)) (V (Proc.devRef .tc main_arg12))) shapeCasts_S1x128_S128)
      (shapeCast S128 (((extractStridedSlice S1x128 ![1, 0] · slices_S4x128_S1x128_1_0) : (⟨S4x128, .f32⟩ : BufTy).Contents (Elt F) → (⟨S1x128, .f32⟩ : BufTy).Contents (Elt F)) (V (Proc.devRef .tc main_arg13))) shapeCasts_S1x128_S128)
      (shapeCast S128 (((extractStridedSlice S1x128 ![1, 0] · slices_S4x128_S1x128_1_0) : (⟨S4x128, .f32⟩ : BufTy).Contents (Elt F) → (⟨S1x128, .f32⟩ : BufTy).Contents (Elt F)) (V (Proc.devRef .tc main_arg14))) shapeCasts_S1x128_S128)
      (shapeCast S128 (((extractStridedSlice S1x128 ![1, 0] · slices_S4x128_S1x128_1_0) : (⟨S4x128, .f32⟩ : BufTy).Contents (Elt F) → (⟨S1x128, .f32⟩ : BufTy).Contents (Elt F)) (V (Proc.devRef .tc main_arg15))) shapeCasts_S1x128_S128) := by
  rw [layer1_read, hW main_arg1 (by decide), hW main_arg2 (by decide), hW main_arg5 (by decide), hW main_arg6 (by decide), hW main_arg7 (by decide), hW main_arg8 (by decide), hW main_arg9 (by decide), hW main_arg10 (by decide), hW main_arg11 (by decide), hW main_arg12 (by decide), hW main_arg13 (by decide), hW main_arg14 (by decide), hW main_arg15 (by decide)]

/-- Layer 2's read, from contents `W` that agree with `V` on the argument buffers. -/
theorem layer2_read' (V W : Valuation τ sig (Elt F)) (hW : ∀ a ∈ RefRun.args, W (Proc.devRef .tc a) = V (Proc.devRef .tc a)) :
    after opsL2 W (Proc.devRef .tc main_v309) = refLayer (V (Proc.devRef .tc main_arg1)) (W (Proc.devRef .tc main_v207)) (V (Proc.devRef .tc main_arg2))
      (shapeCast S_ (((extractStridedSlice S1 ![2] · slices_S4_S1_2) : (⟨S4, .f32⟩ : BufTy).Contents (Elt F) → (⟨S1, .f32⟩ : BufTy).Contents (Elt F)) (V (Proc.devRef .tc main_arg5))) shapeCasts_S1_S_)
      (shapeCast S128x128 (((extractStridedSlice S1x128x128 ![2, 0, 0] · slices_S4x128x128_S1x128x128_2_0_0) : (⟨S4x128x128, .f32⟩ : BufTy).Contents (Elt F) → (⟨S1x128x128, .f32⟩ : BufTy).Contents (Elt F)) (V (Proc.devRef .tc main_arg6))) shapeCasts_S1x128x128_S128x128)
      (shapeCast S128 (((extractStridedSlice S1x128 ![2, 0] · slices_S4x128_S1x128_2_0) : (⟨S4x128, .f32⟩ : BufTy).Contents (Elt F) → (⟨S1x128, .f32⟩ : BufTy).Contents (Elt F)) (V (Proc.devRef .tc main_arg7))) shapeCasts_S1x128_S128)
      (shapeCast S128 (((extractStridedSlice S1x128 ![2, 0] · slices_S4x128_S1x128_2_0) : (⟨S4x128, .f32⟩ : BufTy).Contents (Elt F) → (⟨S1x128, .f32⟩ : BufTy).Contents (Elt F)) (V (Proc.devRef .tc main_arg8))) shapeCasts_S1x128_S128)
      (shapeCast S128 (((extractStridedSlice S1x128 ![2, 0] · slices_S4x128_S1x128_2_0) : (⟨S4x128, .f32⟩ : BufTy).Contents (Elt F) → (⟨S1x128, .f32⟩ : BufTy).Contents (Elt F)) (V (Proc.devRef .tc main_arg9))) shapeCasts_S1x128_S128)
      (shapeCast S128x128 (((extractStridedSlice S1x128x128 ![2, 0, 0] · slices_S4x128x128_S1x128x128_2_0_0) : (⟨S4x128x128, .f32⟩ : BufTy).Contents (Elt F) → (⟨S1x128x128, .f32⟩ : BufTy).Contents (Elt F)) (V (Proc.devRef .tc main_arg10))) shapeCasts_S1x128x128_S128x128)
      (shapeCast S128 (((extractStridedSlice S1x128 ![2, 0] · slices_S4x128_S1x128_2_0) : (⟨S4x128, .f32⟩ : BufTy).Contents (Elt F) → (⟨S1x128, .f32⟩ : BufTy).Contents (Elt F)) (V (Proc.devRef .tc main_arg11))) shapeCasts_S1x128_S128)
      (shapeCast S128 (((extractStridedSlice S1x128 ![2, 0] · slices_S4x128_S1x128_2_0) : (⟨S4x128, .f32⟩ : BufTy).Contents (Elt F) → (⟨S1x128, .f32⟩ : BufTy).Contents (Elt F)) (V (Proc.devRef .tc main_arg12))) shapeCasts_S1x128_S128)
      (shapeCast S128 (((extractStridedSlice S1x128 ![2, 0] · slices_S4x128_S1x128_2_0) : (⟨S4x128, .f32⟩ : BufTy).Contents (Elt F) → (⟨S1x128, .f32⟩ : BufTy).Contents (Elt F)) (V (Proc.devRef .tc main_arg13))) shapeCasts_S1x128_S128)
      (shapeCast S128 (((extractStridedSlice S1x128 ![2, 0] · slices_S4x128_S1x128_2_0) : (⟨S4x128, .f32⟩ : BufTy).Contents (Elt F) → (⟨S1x128, .f32⟩ : BufTy).Contents (Elt F)) (V (Proc.devRef .tc main_arg14))) shapeCasts_S1x128_S128)
      (shapeCast S128 (((extractStridedSlice S1x128 ![2, 0] · slices_S4x128_S1x128_2_0) : (⟨S4x128, .f32⟩ : BufTy).Contents (Elt F) → (⟨S1x128, .f32⟩ : BufTy).Contents (Elt F)) (V (Proc.devRef .tc main_arg15))) shapeCasts_S1x128_S128) := by
  rw [layer2_read, hW main_arg1 (by decide), hW main_arg2 (by decide), hW main_arg5 (by decide), hW main_arg6 (by decide), hW main_arg7 (by decide), hW main_arg8 (by decide), hW main_arg9 (by decide), hW main_arg10 (by decide), hW main_arg11 (by decide), hW main_arg12 (by decide), hW main_arg13 (by decide), hW main_arg14 (by decide), hW main_arg15 (by decide)]

/-- Layer 3's read, from contents `W` that agree with `V` on the argument buffers. -/
theorem layer3_read' (V W : Valuation τ sig (Elt F)) (hW : ∀ a ∈ RefRun.args, W (Proc.devRef .tc a) = V (Proc.devRef .tc a)) :
    after opsL3 W (Proc.devRef .tc main_v411) = refLayer (V (Proc.devRef .tc main_arg1)) (W (Proc.devRef .tc main_v309)) (V (Proc.devRef .tc main_arg2))
      (shapeCast S_ (((extractStridedSlice S1 ![3] · slices_S4_S1_3) : (⟨S4, .f32⟩ : BufTy).Contents (Elt F) → (⟨S1, .f32⟩ : BufTy).Contents (Elt F)) (V (Proc.devRef .tc main_arg5))) shapeCasts_S1_S_)
      (shapeCast S128x128 (((extractStridedSlice S1x128x128 ![3, 0, 0] · slices_S4x128x128_S1x128x128_3_0_0) : (⟨S4x128x128, .f32⟩ : BufTy).Contents (Elt F) → (⟨S1x128x128, .f32⟩ : BufTy).Contents (Elt F)) (V (Proc.devRef .tc main_arg6))) shapeCasts_S1x128x128_S128x128)
      (shapeCast S128 (((extractStridedSlice S1x128 ![3, 0] · slices_S4x128_S1x128_3_0) : (⟨S4x128, .f32⟩ : BufTy).Contents (Elt F) → (⟨S1x128, .f32⟩ : BufTy).Contents (Elt F)) (V (Proc.devRef .tc main_arg7))) shapeCasts_S1x128_S128)
      (shapeCast S128 (((extractStridedSlice S1x128 ![3, 0] · slices_S4x128_S1x128_3_0) : (⟨S4x128, .f32⟩ : BufTy).Contents (Elt F) → (⟨S1x128, .f32⟩ : BufTy).Contents (Elt F)) (V (Proc.devRef .tc main_arg8))) shapeCasts_S1x128_S128)
      (shapeCast S128 (((extractStridedSlice S1x128 ![3, 0] · slices_S4x128_S1x128_3_0) : (⟨S4x128, .f32⟩ : BufTy).Contents (Elt F) → (⟨S1x128, .f32⟩ : BufTy).Contents (Elt F)) (V (Proc.devRef .tc main_arg9))) shapeCasts_S1x128_S128)
      (shapeCast S128x128 (((extractStridedSlice S1x128x128 ![3, 0, 0] · slices_S4x128x128_S1x128x128_3_0_0) : (⟨S4x128x128, .f32⟩ : BufTy).Contents (Elt F) → (⟨S1x128x128, .f32⟩ : BufTy).Contents (Elt F)) (V (Proc.devRef .tc main_arg10))) shapeCasts_S1x128x128_S128x128)
      (shapeCast S128 (((extractStridedSlice S1x128 ![3, 0] · slices_S4x128_S1x128_3_0) : (⟨S4x128, .f32⟩ : BufTy).Contents (Elt F) → (⟨S1x128, .f32⟩ : BufTy).Contents (Elt F)) (V (Proc.devRef .tc main_arg11))) shapeCasts_S1x128_S128)
      (shapeCast S128 (((extractStridedSlice S1x128 ![3, 0] · slices_S4x128_S1x128_3_0) : (⟨S4x128, .f32⟩ : BufTy).Contents (Elt F) → (⟨S1x128, .f32⟩ : BufTy).Contents (Elt F)) (V (Proc.devRef .tc main_arg12))) shapeCasts_S1x128_S128)
      (shapeCast S128 (((extractStridedSlice S1x128 ![3, 0] · slices_S4x128_S1x128_3_0) : (⟨S4x128, .f32⟩ : BufTy).Contents (Elt F) → (⟨S1x128, .f32⟩ : BufTy).Contents (Elt F)) (V (Proc.devRef .tc main_arg13))) shapeCasts_S1x128_S128)
      (shapeCast S128 (((extractStridedSlice S1x128 ![3, 0] · slices_S4x128_S1x128_3_0) : (⟨S4x128, .f32⟩ : BufTy).Contents (Elt F) → (⟨S1x128, .f32⟩ : BufTy).Contents (Elt F)) (V (Proc.devRef .tc main_arg14))) shapeCasts_S1x128_S128)
      (shapeCast S128 (((extractStridedSlice S1x128 ![3, 0] · slices_S4x128_S1x128_3_0) : (⟨S4x128, .f32⟩ : BufTy).Contents (Elt F) → (⟨S1x128, .f32⟩ : BufTy).Contents (Elt F)) (V (Proc.devRef .tc main_arg15))) shapeCasts_S1x128_S128) := by
  rw [layer3_read, hW main_arg1 (by decide), hW main_arg2 (by decide), hW main_arg5 (by decide), hW main_arg6 (by decide), hW main_arg7 (by decide), hW main_arg8 (by decide), hW main_arg9 (by decide), hW main_arg10 (by decide), hW main_arg11 (by decide), hW main_arg12 (by decide), hW main_arg13 (by decide), hW main_arg14 (by decide), hW main_arg15 (by decide)]

/-- The reference as a whole: the embedding followed by the four layers, each with its slice of the parameters. -/
def refNet (a0 : FVec F S50000x128 .f32) (a1 : IVec S1600000 32) (a2 : IVec S1600000 32) (a3 : FVec F S128x128 .f32) (a4 : FVec F S128 .f32) (a5 : FVec F S4 .f32) (a6 : FVec F S4x128x128 .f32) (a7 : FVec F S4x128 .f32) (a8 : FVec F S4x128 .f32) (a9 : FVec F S4x128 .f32) (a10 : FVec F S4x128x128 .f32) (a11 : FVec F S4x128 .f32) (a12 : FVec F S4x128 .f32) (a13 : FVec F S4x128 .f32) (a14 : FVec F S4x128 .f32) (a15 : FVec F S4x128 .f32) : FVec F S50000x128 .f32 :=
  (refLayer a1 (refLayer a1 (refLayer a1 (refLayer a1 (refEmbed a0 a3 a4) a2
      (shapeCast S_ (((extractStridedSlice S1 ![0] · slices_S4_S1_0) : (⟨S4, .f32⟩ : BufTy).Contents (Elt F) → (⟨S1, .f32⟩ : BufTy).Contents (Elt F)) a5) shapeCasts_S1_S_)
      (shapeCast S128x128 (((extractStridedSlice S1x128x128 ![0, 0, 0] · slices_S4x128x128_S1x128x128_0_0_0) : (⟨S4x128x128, .f32⟩ : BufTy).Contents (Elt F) → (⟨S1x128x128, .f32⟩ : BufTy).Contents (Elt F)) a6) shapeCasts_S1x128x128_S128x128)
      (shapeCast S128 (((extractStridedSlice S1x128 ![0, 0] · slices_S4x128_S1x128_0_0) : (⟨S4x128, .f32⟩ : BufTy).Contents (Elt F) → (⟨S1x128, .f32⟩ : BufTy).Contents (Elt F)) a7) shapeCasts_S1x128_S128)
      (shapeCast S128 (((extractStridedSlice S1x128 ![0, 0] · slices_S4x128_S1x128_0_0) : (⟨S4x128, .f32⟩ : BufTy).Contents (Elt F) → (⟨S1x128, .f32⟩ : BufTy).Contents (Elt F)) a8) shapeCasts_S1x128_S128)
      (shapeCast S128 (((extractStridedSlice S1x128 ![0, 0] · slices_S4x128_S1x128_0_0) : (⟨S4x128, .f32⟩ : BufTy).Contents (Elt F) → (⟨S1x128, .f32⟩ : BufTy).Contents (Elt F)) a9) shapeCasts_S1x128_S128)
      (shapeCast S128x128 (((extractStridedSlice S1x128x128 ![0, 0, 0] · slices_S4x128x128_S1x128x128_0_0_0) : (⟨S4x128x128, .f32⟩ : BufTy).Contents (Elt F) → (⟨S1x128x128, .f32⟩ : BufTy).Contents (Elt F)) a10) shapeCasts_S1x128x128_S128x128)
      (shapeCast S128 (((extractStridedSlice S1x128 ![0, 0] · slices_S4x128_S1x128_0_0) : (⟨S4x128, .f32⟩ : BufTy).Contents (Elt F) → (⟨S1x128, .f32⟩ : BufTy).Contents (Elt F)) a11) shapeCasts_S1x128_S128)
      (shapeCast S128 (((extractStridedSlice S1x128 ![0, 0] · slices_S4x128_S1x128_0_0) : (⟨S4x128, .f32⟩ : BufTy).Contents (Elt F) → (⟨S1x128, .f32⟩ : BufTy).Contents (Elt F)) a12) shapeCasts_S1x128_S128)
      (shapeCast S128 (((extractStridedSlice S1x128 ![0, 0] · slices_S4x128_S1x128_0_0) : (⟨S4x128, .f32⟩ : BufTy).Contents (Elt F) → (⟨S1x128, .f32⟩ : BufTy).Contents (Elt F)) a13) shapeCasts_S1x128_S128)
      (shapeCast S128 (((extractStridedSlice S1x128 ![0, 0] · slices_S4x128_S1x128_0_0) : (⟨S4x128, .f32⟩ : BufTy).Contents (Elt F) → (⟨S1x128, .f32⟩ : BufTy).Contents (Elt F)) a14) shapeCasts_S1x128_S128)
      (shapeCast S128 (((extractStridedSlice S1x128 ![0, 0] · slices_S4x128_S1x128_0_0) : (⟨S4x128, .f32⟩ : BufTy).Contents (Elt F) → (⟨S1x128, .f32⟩ : BufTy).Contents (Elt F)) a15) shapeCasts_S1x128_S128)) a2
      (shapeCast S_ (((extractStridedSlice S1 ![1] · slices_S4_S1_1) : (⟨S4, .f32⟩ : BufTy).Contents (Elt F) → (⟨S1, .f32⟩ : BufTy).Contents (Elt F)) a5) shapeCasts_S1_S_)
      (shapeCast S128x128 (((extractStridedSlice S1x128x128 ![1, 0, 0] · slices_S4x128x128_S1x128x128_1_0_0) : (⟨S4x128x128, .f32⟩ : BufTy).Contents (Elt F) → (⟨S1x128x128, .f32⟩ : BufTy).Contents (Elt F)) a6) shapeCasts_S1x128x128_S128x128)
      (shapeCast S128 (((extractStridedSlice S1x128 ![1, 0] · slices_S4x128_S1x128_1_0) : (⟨S4x128, .f32⟩ : BufTy).Contents (Elt F) → (⟨S1x128, .f32⟩ : BufTy).Contents (Elt F)) a7) shapeCasts_S1x128_S128)
      (shapeCast S128 (((extractStridedSlice S1x128 ![1, 0] · slices_S4x128_S1x128_1_0) : (⟨S4x128, .f32⟩ : BufTy).Contents (Elt F) → (⟨S1x128, .f32⟩ : BufTy).Contents (Elt F)) a8) shapeCasts_S1x128_S128)
      (shapeCast S128 (((extractStridedSlice S1x128 ![1, 0] · slices_S4x128_S1x128_1_0) : (⟨S4x128, .f32⟩ : BufTy).Contents (Elt F) → (⟨S1x128, .f32⟩ : BufTy).Contents (Elt F)) a9) shapeCasts_S1x128_S128)
      (shapeCast S128x128 (((extractStridedSlice S1x128x128 ![1, 0, 0] · slices_S4x128x128_S1x128x128_1_0_0) : (⟨S4x128x128, .f32⟩ : BufTy).Contents (Elt F) → (⟨S1x128x128, .f32⟩ : BufTy).Contents (Elt F)) a10) shapeCasts_S1x128x128_S128x128)
      (shapeCast S128 (((extractStridedSlice S1x128 ![1, 0] · slices_S4x128_S1x128_1_0) : (⟨S4x128, .f32⟩ : BufTy).Contents (Elt F) → (⟨S1x128, .f32⟩ : BufTy).Contents (Elt F)) a11) shapeCasts_S1x128_S128)
      (shapeCast S128 (((extractStridedSlice S1x128 ![1, 0] · slices_S4x128_S1x128_1_0) : (⟨S4x128, .f32⟩ : BufTy).Contents (Elt F) → (⟨S1x128, .f32⟩ : BufTy).Contents (Elt F)) a12) shapeCasts_S1x128_S128)
      (shapeCast S128 (((extractStridedSlice S1x128 ![1, 0] · slices_S4x128_S1x128_1_0) : (⟨S4x128, .f32⟩ : BufTy).Contents (Elt F) → (⟨S1x128, .f32⟩ : BufTy).Contents (Elt F)) a13) shapeCasts_S1x128_S128)
      (shapeCast S128 (((extractStridedSlice S1x128 ![1, 0] · slices_S4x128_S1x128_1_0) : (⟨S4x128, .f32⟩ : BufTy).Contents (Elt F) → (⟨S1x128, .f32⟩ : BufTy).Contents (Elt F)) a14) shapeCasts_S1x128_S128)
      (shapeCast S128 (((extractStridedSlice S1x128 ![1, 0] · slices_S4x128_S1x128_1_0) : (⟨S4x128, .f32⟩ : BufTy).Contents (Elt F) → (⟨S1x128, .f32⟩ : BufTy).Contents (Elt F)) a15) shapeCasts_S1x128_S128)) a2
      (shapeCast S_ (((extractStridedSlice S1 ![2] · slices_S4_S1_2) : (⟨S4, .f32⟩ : BufTy).Contents (Elt F) → (⟨S1, .f32⟩ : BufTy).Contents (Elt F)) a5) shapeCasts_S1_S_)
      (shapeCast S128x128 (((extractStridedSlice S1x128x128 ![2, 0, 0] · slices_S4x128x128_S1x128x128_2_0_0) : (⟨S4x128x128, .f32⟩ : BufTy).Contents (Elt F) → (⟨S1x128x128, .f32⟩ : BufTy).Contents (Elt F)) a6) shapeCasts_S1x128x128_S128x128)
      (shapeCast S128 (((extractStridedSlice S1x128 ![2, 0] · slices_S4x128_S1x128_2_0) : (⟨S4x128, .f32⟩ : BufTy).Contents (Elt F) → (⟨S1x128, .f32⟩ : BufTy).Contents (Elt F)) a7) shapeCasts_S1x128_S128)
      (shapeCast S128 (((extractStridedSlice S1x128 ![2, 0] · slices_S4x128_S1x128_2_0) : (⟨S4x128, .f32⟩ : BufTy).Contents (Elt F) → (⟨S1x128, .f32⟩ : BufTy).Contents (Elt F)) a8) shapeCasts_S1x128_S128)
      (shapeCast S128 (((extractStridedSlice S1x128 ![2, 0] · slices_S4x128_S1x128_2_0) : (⟨S4x128, .f32⟩ : BufTy).Contents (Elt F) → (⟨S1x128, .f32⟩ : BufTy).Contents (Elt F)) a9) shapeCasts_S1x128_S128)
      (shapeCast S128x128 (((extractStridedSlice S1x128x128 ![2, 0, 0] · slices_S4x128x128_S1x128x128_2_0_0) : (⟨S4x128x128, .f32⟩ : BufTy).Contents (Elt F) → (⟨S1x128x128, .f32⟩ : BufTy).Contents (Elt F)) a10) shapeCasts_S1x128x128_S128x128)
      (shapeCast S128 (((extractStridedSlice S1x128 ![2, 0] · slices_S4x128_S1x128_2_0) : (⟨S4x128, .f32⟩ : BufTy).Contents (Elt F) → (⟨S1x128, .f32⟩ : BufTy).Contents (Elt F)) a11) shapeCasts_S1x128_S128)
      (shapeCast S128 (((extractStridedSlice S1x128 ![2, 0] · slices_S4x128_S1x128_2_0) : (⟨S4x128, .f32⟩ : BufTy).Contents (Elt F) → (⟨S1x128, .f32⟩ : BufTy).Contents (Elt F)) a12) shapeCasts_S1x128_S128)
      (shapeCast S128 (((extractStridedSlice S1x128 ![2, 0] · slices_S4x128_S1x128_2_0) : (⟨S4x128, .f32⟩ : BufTy).Contents (Elt F) → (⟨S1x128, .f32⟩ : BufTy).Contents (Elt F)) a13) shapeCasts_S1x128_S128)
      (shapeCast S128 (((extractStridedSlice S1x128 ![2, 0] · slices_S4x128_S1x128_2_0) : (⟨S4x128, .f32⟩ : BufTy).Contents (Elt F) → (⟨S1x128, .f32⟩ : BufTy).Contents (Elt F)) a14) shapeCasts_S1x128_S128)
      (shapeCast S128 (((extractStridedSlice S1x128 ![2, 0] · slices_S4x128_S1x128_2_0) : (⟨S4x128, .f32⟩ : BufTy).Contents (Elt F) → (⟨S1x128, .f32⟩ : BufTy).Contents (Elt F)) a15) shapeCasts_S1x128_S128)) a2
      (shapeCast S_ (((extractStridedSlice S1 ![3] · slices_S4_S1_3) : (⟨S4, .f32⟩ : BufTy).Contents (Elt F) → (⟨S1, .f32⟩ : BufTy).Contents (Elt F)) a5) shapeCasts_S1_S_)
      (shapeCast S128x128 (((extractStridedSlice S1x128x128 ![3, 0, 0] · slices_S4x128x128_S1x128x128_3_0_0) : (⟨S4x128x128, .f32⟩ : BufTy).Contents (Elt F) → (⟨S1x128x128, .f32⟩ : BufTy).Contents (Elt F)) a6) shapeCasts_S1x128x128_S128x128)
      (shapeCast S128 (((extractStridedSlice S1x128 ![3, 0] · slices_S4x128_S1x128_3_0) : (⟨S4x128, .f32⟩ : BufTy).Contents (Elt F) → (⟨S1x128, .f32⟩ : BufTy).Contents (Elt F)) a7) shapeCasts_S1x128_S128)
      (shapeCast S128 (((extractStridedSlice S1x128 ![3, 0] · slices_S4x128_S1x128_3_0) : (⟨S4x128, .f32⟩ : BufTy).Contents (Elt F) → (⟨S1x128, .f32⟩ : BufTy).Contents (Elt F)) a8) shapeCasts_S1x128_S128)
      (shapeCast S128 (((extractStridedSlice S1x128 ![3, 0] · slices_S4x128_S1x128_3_0) : (⟨S4x128, .f32⟩ : BufTy).Contents (Elt F) → (⟨S1x128, .f32⟩ : BufTy).Contents (Elt F)) a9) shapeCasts_S1x128_S128)
      (shapeCast S128x128 (((extractStridedSlice S1x128x128 ![3, 0, 0] · slices_S4x128x128_S1x128x128_3_0_0) : (⟨S4x128x128, .f32⟩ : BufTy).Contents (Elt F) → (⟨S1x128x128, .f32⟩ : BufTy).Contents (Elt F)) a10) shapeCasts_S1x128x128_S128x128)
      (shapeCast S128 (((extractStridedSlice S1x128 ![3, 0] · slices_S4x128_S1x128_3_0) : (⟨S4x128, .f32⟩ : BufTy).Contents (Elt F) → (⟨S1x128, .f32⟩ : BufTy).Contents (Elt F)) a11) shapeCasts_S1x128_S128)
      (shapeCast S128 (((extractStridedSlice S1x128 ![3, 0] · slices_S4x128_S1x128_3_0) : (⟨S4x128, .f32⟩ : BufTy).Contents (Elt F) → (⟨S1x128, .f32⟩ : BufTy).Contents (Elt F)) a12) shapeCasts_S1x128_S128)
      (shapeCast S128 (((extractStridedSlice S1x128 ![3, 0] · slices_S4x128_S1x128_3_0) : (⟨S4x128, .f32⟩ : BufTy).Contents (Elt F) → (⟨S1x128, .f32⟩ : BufTy).Contents (Elt F)) a13) shapeCasts_S1x128_S128)
      (shapeCast S128 (((extractStridedSlice S1x128 ![3, 0] · slices_S4x128_S1x128_3_0) : (⟨S4x128, .f32⟩ : BufTy).Contents (Elt F) → (⟨S1x128, .f32⟩ : BufTy).Contents (Elt F)) a14) shapeCasts_S1x128_S128)
      (shapeCast S128 (((extractStridedSlice S1x128 ![3, 0] · slices_S4x128_S1x128_3_0) : (⟨S4x128, .f32⟩ : BufTy).Contents (Elt F) → (⟨S1x128, .f32⟩ : BufTy).Contents (Elt F)) a15) shapeCasts_S1x128_S128))

/-- The reference's fold at its result buffer is `refNet` of the contents of the argument buffers. -/
theorem ref_value (V : Valuation τ sig (Elt F)) :
    after RefRun.ops V (Proc.devRef .tc main_v411) = refNet (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) (V (Proc.devRef .tc main_arg10)) (V (Proc.devRef .tc main_arg11)) (V (Proc.devRef .tc main_arg12)) (V (Proc.devRef .tc main_arg13)) (V (Proc.devRef .tc main_arg14)) (V (Proc.devRef .tc main_arg15)) := by
  have k0 : ∀ a ∈ RefRun.args, after opsE V (Proc.devRef .tc a) = V (Proc.devRef .tc a) := fun a ha => opsE_arg V a ha
  have k1 : ∀ a ∈ RefRun.args, after opsL0 (after opsE V) (Proc.devRef .tc a) = V (Proc.devRef .tc a) := fun a ha => (opsL0_arg _ a ha).trans (k0 a ha)
  have k2 : ∀ a ∈ RefRun.args, after opsL1 (after opsL0 (after opsE V)) (Proc.devRef .tc a) = V (Proc.devRef .tc a) := fun a ha => (opsL1_arg _ a ha).trans (k1 a ha)
  have k3 : ∀ a ∈ RefRun.args, after opsL2 (after opsL1 (after opsL0 (after opsE V))) (Proc.devRef .tc a) = V (Proc.devRef .tc a) := fun a ha => (opsL2_arg _ a ha).trans (k2 a ha)
  unfold refNet
  rw [ops_split, after_app, after_app, after_app, after_app, layer3_read' V _ k3, layer2_read' V _ k2, layer1_read' V _ k1, layer0_read' V _ k0, embed_read]

end Cert.ReferenceIdeal.RefLayers

end
-- ==== Proof.KHost.lean ====
/-
  The kernel program's host stretches, read.  Between the pipelined regions the program runs short lines of host
  operations (the aggregation over the edges, the means and variances from the accumulated sums, the slices of the
  parameter arrays).  For each stretch and each buffer it writes that a region later reads: what the stretch leaves
  there, as the operations compose over the contents before the stretch; and the buffers of the next region that the
  stretch does not write keep their contents.
-/
import proofs.«140776_j80633716015159_1_alg».proof.Proof.Gen.KernelIdeal.Launch
import Idealize.ShloMosaic.Lib.StableHlo.Run

noncomputable section

namespace Cert.KernelIdeal.KHost

open Cert.KernelIdeal Cert.KernelIdeal.Gen Idealize.ShloMosaic Idealize.ShloMosaic.TcCoe Idealize.SL.Sem Idealize.ShloMosaic.StableHlo

variable {F : FTy → Type} [FloatOps F]

set_option maxHeartbeats 2000000 in
theorem h0_main_v0 (W : Valuation τ sig (Elt F)) :
    after hostOps0 W (Proc.devRef .tc main_v0) = (shapeCast S1x128 (W (Proc.devRef .tc main_arg4)) shapeCasts_S128_S1x128) := by
  after_results
  all_goals rfl

theorem h0_keep_main_arg1 (W : Valuation τ sig (Elt F)) : after hostOps0 W (Proc.devRef .tc main_arg1) = W (Proc.devRef .tc main_arg1) := by
  after_results

theorem h0_keep_main_arg2 (W : Valuation τ sig (Elt F)) : after hostOps0 W (Proc.devRef .tc main_arg2) = W (Proc.devRef .tc main_arg2) := by
  after_results

theorem h0_keep_main_arg5 (W : Valuation τ sig (Elt F)) : after hostOps0 W (Proc.devRef .tc main_arg5) = W (Proc.devRef .tc main_arg5) := by
  after_results

theorem h0_keep_main_arg7 (W : Valuation τ sig (Elt F)) : after hostOps0 W (Proc.devRef .tc main_arg7) = W (Proc.devRef .tc main_arg7) := by
  after_results

theorem h0_keep_main_arg6 (W : Valuation τ sig (Elt F)) : after hostOps0 W (Proc.devRef .tc main_arg6) = W (Proc.devRef .tc main_arg6) := by
  after_results

theorem h0_keep_main_arg8 (W : Valuation τ sig (Elt F)) : after hostOps0 W (Proc.devRef .tc main_arg8) = W (Proc.devRef .tc main_arg8) := by
  after_results

theorem h0_keep_main_arg9 (W : Valuation τ sig (Elt F)) : after hostOps0 W (Proc.devRef .tc main_arg9) = W (Proc.devRef .tc main_arg9) := by
  after_results

theorem h0_keep_main_arg11 (W : Valuation τ sig (Elt F)) : after hostOps0 W (Proc.devRef .tc main_arg11) = W (Proc.devRef .tc main_arg11) := by
  after_results

theorem h0_keep_main_arg10 (W : Valuation τ sig (Elt F)) : after hostOps0 W (Proc.devRef .tc main_arg10) = W (Proc.devRef .tc main_arg10) := by
  after_results

theorem h0_keep_main_arg12 (W : Valuation τ sig (Elt F)) : after hostOps0 W (Proc.devRef .tc main_arg12) = W (Proc.devRef .tc main_arg12) := by
  after_results

theorem h0_keep_main_arg13 (W : Valuation τ sig (Elt F)) : after hostOps0 W (Proc.devRef .tc main_arg13) = W (Proc.devRef .tc main_arg13) := by
  after_results

theorem h0_keep_main_arg14 (W : Valuation τ sig (Elt F)) : after hostOps0 W (Proc.devRef .tc main_arg14) = W (Proc.devRef .tc main_arg14) := by
  after_results

theorem h0_keep_main_arg15 (W : Valuation τ sig (Elt F)) : after hostOps0 W (Proc.devRef .tc main_arg15) = W (Proc.devRef .tc main_arg15) := by
  after_results

theorem h0_keep_main_arg0 (W : Valuation τ sig (Elt F)) : after hostOps0 W (Proc.devRef .tc main_arg0) = W (Proc.devRef .tc main_arg0) := by
  after_results

theorem h0_keep_main_arg3 (W : Valuation τ sig (Elt F)) : after hostOps0 W (Proc.devRef .tc main_arg3) = W (Proc.devRef .tc main_arg3) := by
  after_results

set_option maxHeartbeats 2000000 in
theorem h1_main_v11 (W : Valuation τ sig (Elt F)) :
    after hostOps1 W (Proc.devRef .tc main_v11) = (((fun x i u => Host.scatterAdd scatter_S50000x128_S1600000x1_S1600000x128_1_0_0_1 x i u) : (⟨S50000x128, .f32⟩ : BufTy).Contents (Elt F) → (⟨S1600000x1, .i32⟩ : BufTy).Contents (Elt F) → (⟨S1600000x128, .f32⟩ : BufTy).Contents (Elt F) → (⟨S50000x128, .f32⟩ : BufTy).Contents (Elt F)) ((broadcastInDim S50000x128 ![] bcast_S_S50000x128 : (⟨S_, .f32⟩ : BufTy).Contents (Elt F) → (⟨S50000x128, .f32⟩ : BufTy).Contents (Elt F)) ((constant S_ .f32 0x00000000#32))) ((broadcastInDim S1600000x1 ![0] bcast_S1600000_S1600000x1_0 : (⟨S1600000, .i32⟩ : BufTy).Contents (Elt F) → (⟨S1600000x1, .i32⟩ : BufTy).Contents (Elt F)) (W (Proc.devRef .tc main_arg2))) (((fun x i => Host.gather gather_S50000x128_S1600000x1_S1600000x128_1_0_n_n_0_1_1128 x i) : (⟨S50000x128, .f32⟩ : BufTy).Contents (Elt F) → (⟨S1600000x1, .i32⟩ : BufTy).Contents (Elt F) → (⟨S1600000x128, .f32⟩ : BufTy).Contents (Elt F)) (W (Proc.devRef .tc main_v1)) ((broadcastInDim S1600000x1 ![0] bcast_S1600000_S1600000x1_0 : (⟨S1600000, .i32⟩ : BufTy).Contents (Elt F) → (⟨S1600000x1, .i32⟩ : BufTy).Contents (Elt F)) ((select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)) ((cmpi .slt : (⟨S1600000, .i32⟩ : BufTy).Contents (Elt F) → (⟨S1600000, .i32⟩ : BufTy).Contents (Elt F) → (⟨S1600000, .i1⟩ : BufTy).Contents (Elt F)) (W (Proc.devRef .tc main_arg1)) ((broadcastInDim S1600000 ![] bcast_S_S1600000 : (⟨S_, .i32⟩ : BufTy).Contents (Elt F) → (⟨S1600000, .i32⟩ : BufTy).Contents (Elt F)) ((constantI S_ 32 0#32)))) ((addi : (⟨S1600000, .i32⟩ : BufTy).Contents (Elt F) → (⟨S1600000, .i32⟩ : BufTy).Contents (Elt F) → (⟨S1600000, .i32⟩ : BufTy).Contents (Elt F)) (W (Proc.devRef .tc main_arg1)) ((broadcastInDim S1600000 ![] bcast_S_S1600000 : (⟨S_, .i32⟩ : BufTy).Contents (Elt F) → (⟨S1600000, .i32⟩ : BufTy).Contents (Elt F)) ((constantI S_ 32 50000#32)))) (W (Proc.devRef .tc main_arg1)))))) := by
  after_results
  all_goals rfl

set_option maxHeartbeats 2000000 in
theorem h1_main_v15 (W : Valuation τ sig (Elt F)) :
    after hostOps1 W (Proc.devRef .tc main_v15) = (shapeCast S1x1 ((addf : (⟨S_, .f32⟩ : BufTy).Contents (Elt F) → (⟨S_, .f32⟩ : BufTy).Contents (Elt F) → (⟨S_, .f32⟩ : BufTy).Contents (Elt F)) ((constant S_ .f32 0x3F800000#32)) (shapeCast S_ (((extractStridedSlice S1 ![0] · slices_S4_S1_0) : (⟨S4, .f32⟩ : BufTy).Contents (Elt F) → (⟨S1, .f32⟩ : BufTy).Contents (Elt F)) (W (Proc.devRef .tc main_arg5))) shapeCasts_S1_S_)) shapeCasts_S_S1x1) := by
  after_results
  all_goals rfl

set_option maxHeartbeats 2000000 in
theorem h1_main_v18 (W : Valuation τ sig (Elt F)) :
    after hostOps1 W (Proc.devRef .tc main_v18) = (shapeCast S1x128 (shapeCast S128 (((extractStridedSlice S1x128 ![0, 0] · slices_S4x128_S1x128_0_0) : (⟨S4x128, .f32⟩ : BufTy).Contents (Elt F) → (⟨S1x128, .f32⟩ : BufTy).Contents (Elt F)) (W (Proc.devRef .tc main_arg7))) shapeCasts_S1x128_S128) shapeCasts_S128_S1x128) := by
  after_results
  all_goals rfl

set_option maxHeartbeats 2000000 in
theorem h1_main_v20 (W : Valuation τ sig (Elt F)) :
    after hostOps1 W (Proc.devRef .tc main_v20) = (shapeCast S128x128 (((extractStridedSlice S1x128x128 ![0, 0, 0] · slices_S4x128x128_S1x128x128_0_0_0) : (⟨S4x128x128, .f32⟩ : BufTy).Contents (Elt F) → (⟨S1x128x128, .f32⟩ : BufTy).Contents (Elt F)) (W (Proc.devRef .tc main_arg6))) shapeCasts_S1x128x128_S128x128) := by
  after_results
  all_goals rfl

theorem h1_keep_main_arg1 (W : Valuation τ sig (Elt F)) : after hostOps1 W (Proc.devRef .tc main_arg1) = W (Proc.devRef .tc main_arg1) := by
  after_results

theorem h1_keep_main_v1 (W : Valuation τ sig (Elt F)) : after hostOps1 W (Proc.devRef .tc main_v1) = W (Proc.devRef .tc main_v1) := by
  after_results

theorem h1_keep_main_arg2 (W : Valuation τ sig (Elt F)) : after hostOps1 W (Proc.devRef .tc main_arg2) = W (Proc.devRef .tc main_arg2) := by
  after_results

theorem h1_keep_main_arg5 (W : Valuation τ sig (Elt F)) : after hostOps1 W (Proc.devRef .tc main_arg5) = W (Proc.devRef .tc main_arg5) := by
  after_results

theorem h1_keep_main_arg7 (W : Valuation τ sig (Elt F)) : after hostOps1 W (Proc.devRef .tc main_arg7) = W (Proc.devRef .tc main_arg7) := by
  after_results

theorem h1_keep_main_arg6 (W : Valuation τ sig (Elt F)) : after hostOps1 W (Proc.devRef .tc main_arg6) = W (Proc.devRef .tc main_arg6) := by
  after_results

theorem h1_keep_main_arg8 (W : Valuation τ sig (Elt F)) : after hostOps1 W (Proc.devRef .tc main_arg8) = W (Proc.devRef .tc main_arg8) := by
  after_results

theorem h1_keep_main_arg9 (W : Valuation τ sig (Elt F)) : after hostOps1 W (Proc.devRef .tc main_arg9) = W (Proc.devRef .tc main_arg9) := by
  after_results

theorem h1_keep_main_arg11 (W : Valuation τ sig (Elt F)) : after hostOps1 W (Proc.devRef .tc main_arg11) = W (Proc.devRef .tc main_arg11) := by
  after_results

theorem h1_keep_main_arg10 (W : Valuation τ sig (Elt F)) : after hostOps1 W (Proc.devRef .tc main_arg10) = W (Proc.devRef .tc main_arg10) := by
  after_results

theorem h1_keep_main_arg12 (W : Valuation τ sig (Elt F)) : after hostOps1 W (Proc.devRef .tc main_arg12) = W (Proc.devRef .tc main_arg12) := by
  after_results

theorem h1_keep_main_arg13 (W : Valuation τ sig (Elt F)) : after hostOps1 W (Proc.devRef .tc main_arg13) = W (Proc.devRef .tc main_arg13) := by
  after_results

theorem h1_keep_main_arg14 (W : Valuation τ sig (Elt F)) : after hostOps1 W (Proc.devRef .tc main_arg14) = W (Proc.devRef .tc main_arg14) := by
  after_results

theorem h1_keep_main_arg15 (W : Valuation τ sig (Elt F)) : after hostOps1 W (Proc.devRef .tc main_arg15) = W (Proc.devRef .tc main_arg15) := by
  after_results

set_option maxHeartbeats 2000000 in
theorem h2_main_v23 (W : Valuation τ sig (Elt F)) :
    after hostOps2 W (Proc.devRef .tc main_v23) = ((Host.divf : (⟨S1x128, .f32⟩ : BufTy).Contents (Elt F) → (⟨S1x128, .f32⟩ : BufTy).Contents (Elt F) → (⟨S1x128, .f32⟩ : BufTy).Contents (Elt F)) (W (Proc.devRef .tc main_v21_1)) ((broadcastInDim S1x128 ![] bcast_S_S1x128 : (⟨S_, .f32⟩ : BufTy).Contents (Elt F) → (⟨S1x128, .f32⟩ : BufTy).Contents (Elt F)) ((constant S_ .f32 0x47435000#32)))) := by
  after_results
  all_goals rfl

set_option maxHeartbeats 2000000 in
theorem h2_main_v27 (W : Valuation τ sig (Elt F)) :
    after hostOps2 W (Proc.devRef .tc main_v27) = ((subf : (⟨S1x128, .f32⟩ : BufTy).Contents (Elt F) → (⟨S1x128, .f32⟩ : BufTy).Contents (Elt F) → (⟨S1x128, .f32⟩ : BufTy).Contents (Elt F)) ((Host.divf : (⟨S1x128, .f32⟩ : BufTy).Contents (Elt F) → (⟨S1x128, .f32⟩ : BufTy).Contents (Elt F) → (⟨S1x128, .f32⟩ : BufTy).Contents (Elt F)) (W (Proc.devRef .tc main_v21_2)) ((broadcastInDim S1x128 ![] bcast_S_S1x128 : (⟨S_, .f32⟩ : BufTy).Contents (Elt F) → (⟨S1x128, .f32⟩ : BufTy).Contents (Elt F)) ((constant S_ .f32 0x47435000#32)))) ((mulf : (⟨S1x128, .f32⟩ : BufTy).Contents (Elt F) → (⟨S1x128, .f32⟩ : BufTy).Contents (Elt F) → (⟨S1x128, .f32⟩ : BufTy).Contents (Elt F)) ((Host.divf : (⟨S1x128, .f32⟩ : BufTy).Contents (Elt F) → (⟨S1x128, .f32⟩ : BufTy).Contents (Elt F) → (⟨S1x128, .f32⟩ : BufTy).Contents (Elt F)) (W (Proc.devRef .tc main_v21_1)) ((broadcastInDim S1x128 ![] bcast_S_S1x128 : (⟨S_, .f32⟩ : BufTy).Contents (Elt F) → (⟨S1x128, .f32⟩ : BufTy).Contents (Elt F)) ((constant S_ .f32 0x47435000#32)))) ((Host.divf : (⟨S1x128, .f32⟩ : BufTy).Contents (Elt F) → (⟨S1x128, .f32⟩ : BufTy).Contents (Elt F) → (⟨S1x128, .f32⟩ : BufTy).Contents (Elt F)) (W (Proc.devRef .tc main_v21_1)) ((broadcastInDim S1x128 ![] bcast_S_S1x128 : (⟨S_, .f32⟩ : BufTy).Contents (Elt F) → (⟨S1x128, .f32⟩ : BufTy).Contents (Elt F)) ((constant S_ .f32 0x47435000#32)))))) := by
  after_results
  all_goals rfl

set_option maxHeartbeats 2000000 in
theorem h2_main_v30 (W : Valuation τ sig (Elt F)) :
    after hostOps2 W (Proc.devRef .tc main_v30) = (shapeCast S1x128 (shapeCast S128 (((extractStridedSlice S1x128 ![0, 0] · slices_S4x128_S1x128_0_0) : (⟨S4x128, .f32⟩ : BufTy).Contents (Elt F) → (⟨S1x128, .f32⟩ : BufTy).Contents (Elt F)) (W (Proc.devRef .tc main_arg8))) shapeCasts_S1x128_S128) shapeCasts_S128_S1x128) := by
  after_results
  all_goals rfl

set_option maxHeartbeats 2000000 in
theorem h2_main_v33 (W : Valuation τ sig (Elt F)) :
    after hostOps2 W (Proc.devRef .tc main_v33) = (shapeCast S1x128 (shapeCast S128 (((extractStridedSlice S1x128 ![0, 0] · slices_S4x128_S1x128_0_0) : (⟨S4x128, .f32⟩ : BufTy).Contents (Elt F) → (⟨S1x128, .f32⟩ : BufTy).Contents (Elt F)) (W (Proc.devRef .tc main_arg9))) shapeCasts_S1x128_S128) shapeCasts_S128_S1x128) := by
  after_results
  all_goals rfl

set_option maxHeartbeats 2000000 in
theorem h2_main_v36 (W : Valuation τ sig (Elt F)) :
    after hostOps2 W (Proc.devRef .tc main_v36) = (shapeCast S1x128 (shapeCast S128 (((extractStridedSlice S1x128 ![0, 0] · slices_S4x128_S1x128_0_0) : (⟨S4x128, .f32⟩ : BufTy).Contents (Elt F) → (⟨S1x128, .f32⟩ : BufTy).Contents (Elt F)) (W (Proc.devRef .tc main_arg11))) shapeCasts_S1x128_S128) shapeCasts_S128_S1x128) := by
  after_results
  all_goals rfl

set_option maxHeartbeats 2000000 in
theorem h2_main_v38 (W : Valuation τ sig (Elt F)) :
    after hostOps2 W (Proc.devRef .tc main_v38) = (shapeCast S128x128 (((extractStridedSlice S1x128x128 ![0, 0, 0] · slices_S4x128x128_S1x128x128_0_0_0) : (⟨S4x128x128, .f32⟩ : BufTy).Contents (Elt F) → (⟨S1x128x128, .f32⟩ : BufTy).Contents (Elt F)) (W (Proc.devRef .tc main_arg10))) shapeCasts_S1x128x128_S128x128) := by
  after_results
  all_goals rfl

theorem h2_keep_main_arg1 (W : Valuation τ sig (Elt F)) : after hostOps2 W (Proc.devRef .tc main_arg1) = W (Proc.devRef .tc main_arg1) := by
  after_results

theorem h2_keep_main_v1 (W : Valuation τ sig (Elt F)) : after hostOps2 W (Proc.devRef .tc main_v1) = W (Proc.devRef .tc main_v1) := by
  after_results

theorem h2_keep_main_arg2 (W : Valuation τ sig (Elt F)) : after hostOps2 W (Proc.devRef .tc main_arg2) = W (Proc.devRef .tc main_arg2) := by
  after_results

theorem h2_keep_main_arg5 (W : Valuation τ sig (Elt F)) : after hostOps2 W (Proc.devRef .tc main_arg5) = W (Proc.devRef .tc main_arg5) := by
  after_results

theorem h2_keep_main_arg7 (W : Valuation τ sig (Elt F)) : after hostOps2 W (Proc.devRef .tc main_arg7) = W (Proc.devRef .tc main_arg7) := by
  after_results

theorem h2_keep_main_arg6 (W : Valuation τ sig (Elt F)) : after hostOps2 W (Proc.devRef .tc main_arg6) = W (Proc.devRef .tc main_arg6) := by
  after_results

theorem h2_keep_main_arg8 (W : Valuation τ sig (Elt F)) : after hostOps2 W (Proc.devRef .tc main_arg8) = W (Proc.devRef .tc main_arg8) := by
  after_results

theorem h2_keep_main_arg9 (W : Valuation τ sig (Elt F)) : after hostOps2 W (Proc.devRef .tc main_arg9) = W (Proc.devRef .tc main_arg9) := by
  after_results

theorem h2_keep_main_arg11 (W : Valuation τ sig (Elt F)) : after hostOps2 W (Proc.devRef .tc main_arg11) = W (Proc.devRef .tc main_arg11) := by
  after_results

theorem h2_keep_main_arg10 (W : Valuation τ sig (Elt F)) : after hostOps2 W (Proc.devRef .tc main_arg10) = W (Proc.devRef .tc main_arg10) := by
  after_results

theorem h2_keep_main_arg12 (W : Valuation τ sig (Elt F)) : after hostOps2 W (Proc.devRef .tc main_arg12) = W (Proc.devRef .tc main_arg12) := by
  after_results

theorem h2_keep_main_arg13 (W : Valuation τ sig (Elt F)) : after hostOps2 W (Proc.devRef .tc main_arg13) = W (Proc.devRef .tc main_arg13) := by
  after_results

theorem h2_keep_main_arg14 (W : Valuation τ sig (Elt F)) : after hostOps2 W (Proc.devRef .tc main_arg14) = W (Proc.devRef .tc main_arg14) := by
  after_results

theorem h2_keep_main_arg15 (W : Valuation τ sig (Elt F)) : after hostOps2 W (Proc.devRef .tc main_arg15) = W (Proc.devRef .tc main_arg15) := by
  after_results

theorem h2_keep_main_v21_0 (W : Valuation τ sig (Elt F)) : after hostOps2 W (Proc.devRef .tc main_v21_0) = W (Proc.devRef .tc main_v21_0) := by
  after_results

set_option maxHeartbeats 2000000 in
theorem h3_main_v41 (W : Valuation τ sig (Elt F)) :
    after hostOps3 W (Proc.devRef .tc main_v41) = ((Host.divf : (⟨S1x128, .f32⟩ : BufTy).Contents (Elt F) → (⟨S1x128, .f32⟩ : BufTy).Contents (Elt F) → (⟨S1x128, .f32⟩ : BufTy).Contents (Elt F)) (W (Proc.devRef .tc main_v39_1)) ((broadcastInDim S1x128 ![] bcast_S_S1x128 : (⟨S_, .f32⟩ : BufTy).Contents (Elt F) → (⟨S1x128, .f32⟩ : BufTy).Contents (Elt F)) ((constant S_ .f32 0x47435000#32)))) := by
  after_results
  all_goals rfl

set_option maxHeartbeats 2000000 in
theorem h3_main_v45 (W : Valuation τ sig (Elt F)) :
    after hostOps3 W (Proc.devRef .tc main_v45) = ((subf : (⟨S1x128, .f32⟩ : BufTy).Contents (Elt F) → (⟨S1x128, .f32⟩ : BufTy).Contents (Elt F) → (⟨S1x128, .f32⟩ : BufTy).Contents (Elt F)) ((Host.divf : (⟨S1x128, .f32⟩ : BufTy).Contents (Elt F) → (⟨S1x128, .f32⟩ : BufTy).Contents (Elt F) → (⟨S1x128, .f32⟩ : BufTy).Contents (Elt F)) (W (Proc.devRef .tc main_v39_2)) ((broadcastInDim S1x128 ![] bcast_S_S1x128 : (⟨S_, .f32⟩ : BufTy).Contents (Elt F) → (⟨S1x128, .f32⟩ : BufTy).Contents (Elt F)) ((constant S_ .f32 0x47435000#32)))) ((mulf : (⟨S1x128, .f32⟩ : BufTy).Contents (Elt F) → (⟨S1x128, .f32⟩ : BufTy).Contents (Elt F) → (⟨S1x128, .f32⟩ : BufTy).Contents (Elt F)) ((Host.divf : (⟨S1x128, .f32⟩ : BufTy).Contents (Elt F) → (⟨S1x128, .f32⟩ : BufTy).Contents (Elt F) → (⟨S1x128, .f32⟩ : BufTy).Contents (Elt F)) (W (Proc.devRef .tc main_v39_1)) ((broadcastInDim S1x128 ![] bcast_S_S1x128 : (⟨S_, .f32⟩ : BufTy).Contents (Elt F) → (⟨S1x128, .f32⟩ : BufTy).Contents (Elt F)) ((constant S_ .f32 0x47435000#32)))) ((Host.divf : (⟨S1x128, .f32⟩ : BufTy).Contents (Elt F) → (⟨S1x128, .f32⟩ : BufTy).Contents (Elt F) → (⟨S1x128, .f32⟩ : BufTy).Contents (Elt F)) (W (Proc.devRef .tc main_v39_1)) ((broadcastInDim S1x128 ![] bcast_S_S1x128 : (⟨S_, .f32⟩ : BufTy).Contents (Elt F) → (⟨S1x128, .f32⟩ : BufTy).Contents (Elt F)) ((constant S_ .f32 0x47435000#32)))))) := by
  after_results
  all_goals rfl

set_option maxHeartbeats 2000000 in
theorem h3_main_v48 (W : Valuation τ sig (Elt F)) :
    after hostOps3 W (Proc.devRef .tc main_v48) = (shapeCast S1x128 (shapeCast S128 (((extractStridedSlice S1x128 ![0, 0] · slices_S4x128_S1x128_0_0) : (⟨S4x128, .f32⟩ : BufTy).Contents (Elt F) → (⟨S1x128, .f32⟩ : BufTy).Contents (Elt F)) (W (Proc.devRef .tc main_arg12))) shapeCasts_S1x128_S128) shapeCasts_S128_S1x128) := by
  after_results
  all_goals rfl

set_option maxHeartbeats 2000000 in
theorem h3_main_v51 (W : Valuation τ sig (Elt F)) :
    after hostOps3 W (Proc.devRef .tc main_v51) = (shapeCast S1x128 (shapeCast S128 (((extractStridedSlice S1x128 ![0, 0] · slices_S4x128_S1x128_0_0) : (⟨S4x128, .f32⟩ : BufTy).Contents (Elt F) → (⟨S1x128, .f32⟩ : BufTy).Contents (Elt F)) (W (Proc.devRef .tc main_arg13))) shapeCasts_S1x128_S128) shapeCasts_S128_S1x128) := by
  after_results
  all_goals rfl

theorem h3_keep_main_arg1 (W : Valuation τ sig (Elt F)) : after hostOps3 W (Proc.devRef .tc main_arg1) = W (Proc.devRef .tc main_arg1) := by
  after_results

theorem h3_keep_main_v1 (W : Valuation τ sig (Elt F)) : after hostOps3 W (Proc.devRef .tc main_v1) = W (Proc.devRef .tc main_v1) := by
  after_results

theorem h3_keep_main_arg2 (W : Valuation τ sig (Elt F)) : after hostOps3 W (Proc.devRef .tc main_arg2) = W (Proc.devRef .tc main_arg2) := by
  after_results

theorem h3_keep_main_arg5 (W : Valuation τ sig (Elt F)) : after hostOps3 W (Proc.devRef .tc main_arg5) = W (Proc.devRef .tc main_arg5) := by
  after_results

theorem h3_keep_main_arg7 (W : Valuation τ sig (Elt F)) : after hostOps3 W (Proc.devRef .tc main_arg7) = W (Proc.devRef .tc main_arg7) := by
  after_results

theorem h3_keep_main_arg6 (W : Valuation τ sig (Elt F)) : after hostOps3 W (Proc.devRef .tc main_arg6) = W (Proc.devRef .tc main_arg6) := by
  after_results

theorem h3_keep_main_arg8 (W : Valuation τ sig (Elt F)) : after hostOps3 W (Proc.devRef .tc main_arg8) = W (Proc.devRef .tc main_arg8) := by
  after_results

theorem h3_keep_main_arg9 (W : Valuation τ sig (Elt F)) : after hostOps3 W (Proc.devRef .tc main_arg9) = W (Proc.devRef .tc main_arg9) := by
  after_results

theorem h3_keep_main_arg11 (W : Valuation τ sig (Elt F)) : after hostOps3 W (Proc.devRef .tc main_arg11) = W (Proc.devRef .tc main_arg11) := by
  after_results

theorem h3_keep_main_arg10 (W : Valuation τ sig (Elt F)) : after hostOps3 W (Proc.devRef .tc main_arg10) = W (Proc.devRef .tc main_arg10) := by
  after_results

theorem h3_keep_main_arg12 (W : Valuation τ sig (Elt F)) : after hostOps3 W (Proc.devRef .tc main_arg12) = W (Proc.devRef .tc main_arg12) := by
  after_results

theorem h3_keep_main_arg13 (W : Valuation τ sig (Elt F)) : after hostOps3 W (Proc.devRef .tc main_arg13) = W (Proc.devRef .tc main_arg13) := by
  after_results

theorem h3_keep_main_arg14 (W : Valuation τ sig (Elt F)) : after hostOps3 W (Proc.devRef .tc main_arg14) = W (Proc.devRef .tc main_arg14) := by
  after_results

theorem h3_keep_main_arg15 (W : Valuation τ sig (Elt F)) : after hostOps3 W (Proc.devRef .tc main_arg15) = W (Proc.devRef .tc main_arg15) := by
  after_results

theorem h3_keep_main_v39_0 (W : Valuation τ sig (Elt F)) : after hostOps3 W (Proc.devRef .tc main_v39_0) = W (Proc.devRef .tc main_v39_0) := by
  after_results

set_option maxHeartbeats 2000000 in
theorem h4_main_v54 (W : Valuation τ sig (Elt F)) :
    after hostOps4 W (Proc.devRef .tc main_v54) = ((Host.divf : (⟨S1x128, .f32⟩ : BufTy).Contents (Elt F) → (⟨S1x128, .f32⟩ : BufTy).Contents (Elt F) → (⟨S1x128, .f32⟩ : BufTy).Contents (Elt F)) (W (Proc.devRef .tc main_v52_1)) ((broadcastInDim S1x128 ![] bcast_S_S1x128 : (⟨S_, .f32⟩ : BufTy).Contents (Elt F) → (⟨S1x128, .f32⟩ : BufTy).Contents (Elt F)) ((constant S_ .f32 0x47435000#32)))) := by
  after_results
  all_goals rfl

set_option maxHeartbeats 2000000 in
theorem h4_main_v58 (W : Valuation τ sig (Elt F)) :
    after hostOps4 W (Proc.devRef .tc main_v58) = ((subf : (⟨S1x128, .f32⟩ : BufTy).Contents (Elt F) → (⟨S1x128, .f32⟩ : BufTy).Contents (Elt F) → (⟨S1x128, .f32⟩ : BufTy).Contents (Elt F)) ((Host.divf : (⟨S1x128, .f32⟩ : BufTy).Contents (Elt F) → (⟨S1x128, .f32⟩ : BufTy).Contents (Elt F) → (⟨S1x128, .f32⟩ : BufTy).Contents (Elt F)) (W (Proc.devRef .tc main_v52_2)) ((broadcastInDim S1x128 ![] bcast_S_S1x128 : (⟨S_, .f32⟩ : BufTy).Contents (Elt F) → (⟨S1x128, .f32⟩ : BufTy).Contents (Elt F)) ((constant S_ .f32 0x47435000#32)))) ((mulf : (⟨S1x128, .f32⟩ : BufTy).Contents (Elt F) → (⟨S1x128, .f32⟩ : BufTy).Contents (Elt F) → (⟨S1x128, .f32⟩ : BufTy).Contents (Elt F)) ((Host.divf : (⟨S1x128, .f32⟩ : BufTy).Contents (Elt F) → (⟨S1x128, .f32⟩ : BufTy).Contents (Elt F) → (⟨S1x128, .f32⟩ : BufTy).Contents (Elt F)) (W (Proc.devRef .tc main_v52_1)) ((broadcastInDim S1x128 ![] bcast_S_S1x128 : (⟨S_, .f32⟩ : BufTy).Contents (Elt F) → (⟨S1x128, .f32⟩ : BufTy).Contents (Elt F)) ((constant S_ .f32 0x47435000#32)))) ((Host.divf : (⟨S1x128, .f32⟩ : BufTy).Contents (Elt F) → (⟨S1x128, .f32⟩ : BufTy).Contents (Elt F) → (⟨S1x128, .f32⟩ : BufTy).Contents (Elt F)) (W (Proc.devRef .tc main_v52_1)) ((broadcastInDim S1x128 ![] bcast_S_S1x128 : (⟨S_, .f32⟩ : BufTy).Contents (Elt F) → (⟨S1x128, .f32⟩ : BufTy).Contents (Elt F)) ((constant S_ .f32 0x47435000#32)))))) := by
  after_results
  all_goals rfl

set_option maxHeartbeats 2000000 in
theorem h4_main_v61 (W : Valuation τ sig (Elt F)) :
    after hostOps4 W (Proc.devRef .tc main_v61) = (shapeCast S1x128 (shapeCast S128 (((extractStridedSlice S1x128 ![0, 0] · slices_S4x128_S1x128_0_0) : (⟨S4x128, .f32⟩ : BufTy).Contents (Elt F) → (⟨S1x128, .f32⟩ : BufTy).Contents (Elt F)) (W (Proc.devRef .tc main_arg14))) shapeCasts_S1x128_S128) shapeCasts_S128_S1x128) := by
  after_results
  all_goals rfl

set_option maxHeartbeats 2000000 in
theorem h4_main_v64 (W : Valuation τ sig (Elt F)) :
    after hostOps4 W (Proc.devRef .tc main_v64) = (shapeCast S1x128 (shapeCast S128 (((extractStridedSlice S1x128 ![0, 0] · slices_S4x128_S1x128_0_0) : (⟨S4x128, .f32⟩ : BufTy).Contents (Elt F) → (⟨S1x128, .f32⟩ : BufTy).Contents (Elt F)) (W (Proc.devRef .tc main_arg15))) shapeCasts_S1x128_S128) shapeCasts_S128_S1x128) := by
  after_results
  all_goals rfl

theorem h4_keep_main_arg1 (W : Valuation τ sig (Elt F)) : after hostOps4 W (Proc.devRef .tc main_arg1) = W (Proc.devRef .tc main_arg1) := by
  after_results

theorem h4_keep_main_v1 (W : Valuation τ sig (Elt F)) : after hostOps4 W (Proc.devRef .tc main_v1) = W (Proc.devRef .tc main_v1) := by
  after_results

theorem h4_keep_main_arg2 (W : Valuation τ sig (Elt F)) : after hostOps4 W (Proc.devRef .tc main_arg2) = W (Proc.devRef .tc main_arg2) := by
  after_results

theorem h4_keep_main_arg5 (W : Valuation τ sig (Elt F)) : after hostOps4 W (Proc.devRef .tc main_arg5) = W (Proc.devRef .tc main_arg5) := by
  after_results

theorem h4_keep_main_arg7 (W : Valuation τ sig (Elt F)) : after hostOps4 W (Proc.devRef .tc main_arg7) = W (Proc.devRef .tc main_arg7) := by
  after_results

theorem h4_keep_main_arg6 (W : Valuation τ sig (Elt F)) : after hostOps4 W (Proc.devRef .tc main_arg6) = W (Proc.devRef .tc main_arg6) := by
  after_results

theorem h4_keep_main_arg8 (W : Valuation τ sig (Elt F)) : after hostOps4 W (Proc.devRef .tc main_arg8) = W (Proc.devRef .tc main_arg8) := by
  after_results

theorem h4_keep_main_arg9 (W : Valuation τ sig (Elt F)) : after hostOps4 W (Proc.devRef .tc main_arg9) = W (Proc.devRef .tc main_arg9) := by
  after_results

theorem h4_keep_main_arg11 (W : Valuation τ sig (Elt F)) : after hostOps4 W (Proc.devRef .tc main_arg11) = W (Proc.devRef .tc main_arg11) := by
  after_results

theorem h4_keep_main_arg10 (W : Valuation τ sig (Elt F)) : after hostOps4 W (Proc.devRef .tc main_arg10) = W (Proc.devRef .tc main_arg10) := by
  after_results

theorem h4_keep_main_arg12 (W : Valuation τ sig (Elt F)) : after hostOps4 W (Proc.devRef .tc main_arg12) = W (Proc.devRef .tc main_arg12) := by
  after_results

theorem h4_keep_main_arg13 (W : Valuation τ sig (Elt F)) : after hostOps4 W (Proc.devRef .tc main_arg13) = W (Proc.devRef .tc main_arg13) := by
  after_results

theorem h4_keep_main_arg14 (W : Valuation τ sig (Elt F)) : after hostOps4 W (Proc.devRef .tc main_arg14) = W (Proc.devRef .tc main_arg14) := by
  after_results

theorem h4_keep_main_arg15 (W : Valuation τ sig (Elt F)) : after hostOps4 W (Proc.devRef .tc main_arg15) = W (Proc.devRef .tc main_arg15) := by
  after_results

theorem h4_keep_main_v52_0 (W : Valuation τ sig (Elt F)) : after hostOps4 W (Proc.devRef .tc main_v52_0) = W (Proc.devRef .tc main_v52_0) := by
  after_results

set_option maxHeartbeats 2000000 in
theorem h5_main_v75 (W : Valuation τ sig (Elt F)) :
    after hostOps5 W (Proc.devRef .tc main_v75) = (((fun x i u => Host.scatterAdd scatter_S50000x128_S1600000x1_S1600000x128_1_0_0_1 x i u) : (⟨S50000x128, .f32⟩ : BufTy).Contents (Elt F) → (⟨S1600000x1, .i32⟩ : BufTy).Contents (Elt F) → (⟨S1600000x128, .f32⟩ : BufTy).Contents (Elt F) → (⟨S50000x128, .f32⟩ : BufTy).Contents (Elt F)) ((broadcastInDim S50000x128 ![] bcast_S_S50000x128 : (⟨S_, .f32⟩ : BufTy).Contents (Elt F) → (⟨S50000x128, .f32⟩ : BufTy).Contents (Elt F)) ((constant S_ .f32 0x00000000#32))) ((broadcastInDim S1600000x1 ![0] bcast_S1600000_S1600000x1_0 : (⟨S1600000, .i32⟩ : BufTy).Contents (Elt F) → (⟨S1600000x1, .i32⟩ : BufTy).Contents (Elt F)) (W (Proc.devRef .tc main_arg2))) (((fun x i => Host.gather gather_S50000x128_S1600000x1_S1600000x128_1_0_n_n_0_1_1128 x i) : (⟨S50000x128, .f32⟩ : BufTy).Contents (Elt F) → (⟨S1600000x1, .i32⟩ : BufTy).Contents (Elt F) → (⟨S1600000x128, .f32⟩ : BufTy).Contents (Elt F)) (W (Proc.devRef .tc main_v65)) ((broadcastInDim S1600000x1 ![0] bcast_S1600000_S1600000x1_0 : (⟨S1600000, .i32⟩ : BufTy).Contents (Elt F) → (⟨S1600000x1, .i32⟩ : BufTy).Contents (Elt F)) ((select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)) ((cmpi .slt : (⟨S1600000, .i32⟩ : BufTy).Contents (Elt F) → (⟨S1600000, .i32⟩ : BufTy).Contents (Elt F) → (⟨S1600000, .i1⟩ : BufTy).Contents (Elt F)) (W (Proc.devRef .tc main_arg1)) ((broadcastInDim S1600000 ![] bcast_S_S1600000 : (⟨S_, .i32⟩ : BufTy).Contents (Elt F) → (⟨S1600000, .i32⟩ : BufTy).Contents (Elt F)) ((constantI S_ 32 0#32)))) ((addi : (⟨S1600000, .i32⟩ : BufTy).Contents (Elt F) → (⟨S1600000, .i32⟩ : BufTy).Contents (Elt F) → (⟨S1600000, .i32⟩ : BufTy).Contents (Elt F)) (W (Proc.devRef .tc main_arg1)) ((broadcastInDim S1600000 ![] bcast_S_S1600000 : (⟨S_, .i32⟩ : BufTy).Contents (Elt F) → (⟨S1600000, .i32⟩ : BufTy).Contents (Elt F)) ((constantI S_ 32 50000#32)))) (W (Proc.devRef .tc main_arg1)))))) := by
  after_results
  all_goals rfl

set_option maxHeartbeats 2000000 in
theorem h5_main_v79 (W : Valuation τ sig (Elt F)) :
    after hostOps5 W (Proc.devRef .tc main_v79) = (shapeCast S1x1 ((addf : (⟨S_, .f32⟩ : BufTy).Contents (Elt F) → (⟨S_, .f32⟩ : BufTy).Contents (Elt F) → (⟨S_, .f32⟩ : BufTy).Contents (Elt F)) ((constant S_ .f32 0x3F800000#32)) (shapeCast S_ (((extractStridedSlice S1 ![1] · slices_S4_S1_1) : (⟨S4, .f32⟩ : BufTy).Contents (Elt F) → (⟨S1, .f32⟩ : BufTy).Contents (Elt F)) (W (Proc.devRef .tc main_arg5))) shapeCasts_S1_S_)) shapeCasts_S_S1x1) := by
  after_results
  all_goals rfl

set_option maxHeartbeats 2000000 in
theorem h5_main_v82 (W : Valuation τ sig (Elt F)) :
    after hostOps5 W (Proc.devRef .tc main_v82) = (shapeCast S1x128 (shapeCast S128 (((extractStridedSlice S1x128 ![1, 0] · slices_S4x128_S1x128_1_0) : (⟨S4x128, .f32⟩ : BufTy).Contents (Elt F) → (⟨S1x128, .f32⟩ : BufTy).Contents (Elt F)) (W (Proc.devRef .tc main_arg7))) shapeCasts_S1x128_S128) shapeCasts_S128_S1x128) := by
  after_results
  all_goals rfl

set_option maxHeartbeats 2000000 in
theorem h5_main_v84 (W : Valuation τ sig (Elt F)) :
    after hostOps5 W (Proc.devRef .tc main_v84) = (shapeCast S128x128 (((extractStridedSlice S1x128x128 ![1, 0, 0] · slices_S4x128x128_S1x128x128_1_0_0) : (⟨S4x128x128, .f32⟩ : BufTy).Contents (Elt F) → (⟨S1x128x128, .f32⟩ : BufTy).Contents (Elt F)) (W (Proc.devRef .tc main_arg6))) shapeCasts_S1x128x128_S128x128) := by
  after_results
  all_goals rfl

theorem h5_keep_main_arg1 (W : Valuation τ sig (Elt F)) : after hostOps5 W (Proc.devRef .tc main_arg1) = W (Proc.devRef .tc main_arg1) := by
  after_results

theorem h5_keep_main_arg2 (W : Valuation τ sig (Elt F)) : after hostOps5 W (Proc.devRef .tc main_arg2) = W (Proc.devRef .tc main_arg2) := by
  after_results

theorem h5_keep_main_arg5 (W : Valuation τ sig (Elt F)) : after hostOps5 W (Proc.devRef .tc main_arg5) = W (Proc.devRef .tc main_arg5) := by
  after_results

theorem h5_keep_main_arg7 (W : Valuation τ sig (Elt F)) : after hostOps5 W (Proc.devRef .tc main_arg7) = W (Proc.devRef .tc main_arg7) := by
  after_results

theorem h5_keep_main_arg6 (W : Valuation τ sig (Elt F)) : after hostOps5 W (Proc.devRef .tc main_arg6) = W (Proc.devRef .tc main_arg6) := by
  after_results

theorem h5_keep_main_arg8 (W : Valuation τ sig (Elt F)) : after hostOps5 W (Proc.devRef .tc main_arg8) = W (Proc.devRef .tc main_arg8) := by
  after_results

theorem h5_keep_main_arg9 (W : Valuation τ sig (Elt F)) : after hostOps5 W (Proc.devRef .tc main_arg9) = W (Proc.devRef .tc main_arg9) := by
  after_results

theorem h5_keep_main_arg11 (W : Valuation τ sig (Elt F)) : after hostOps5 W (Proc.devRef .tc main_arg11) = W (Proc.devRef .tc main_arg11) := by
  after_results

theorem h5_keep_main_arg10 (W : Valuation τ sig (Elt F)) : after hostOps5 W (Proc.devRef .tc main_arg10) = W (Proc.devRef .tc main_arg10) := by
  after_results

theorem h5_keep_main_arg12 (W : Valuation τ sig (Elt F)) : after hostOps5 W (Proc.devRef .tc main_arg12) = W (Proc.devRef .tc main_arg12) := by
  after_results

theorem h5_keep_main_arg13 (W : Valuation τ sig (Elt F)) : after hostOps5 W (Proc.devRef .tc main_arg13) = W (Proc.devRef .tc main_arg13) := by
  after_results

theorem h5_keep_main_arg14 (W : Valuation τ sig (Elt F)) : after hostOps5 W (Proc.devRef .tc main_arg14) = W (Proc.devRef .tc main_arg14) := by
  after_results

theorem h5_keep_main_arg15 (W : Valuation τ sig (Elt F)) : after hostOps5 W (Proc.devRef .tc main_arg15) = W (Proc.devRef .tc main_arg15) := by
  after_results

theorem h5_keep_main_v65 (W : Valuation τ sig (Elt F)) : after hostOps5 W (Proc.devRef .tc main_v65) = W (Proc.devRef .tc main_v65) := by
  after_results

set_option maxHeartbeats 2000000 in
theorem h6_main_v87 (W : Valuation τ sig (Elt F)) :
    after hostOps6 W (Proc.devRef .tc main_v87) = ((Host.divf : (⟨S1x128, .f32⟩ : BufTy).Contents (Elt F) → (⟨S1x128, .f32⟩ : BufTy).Contents (Elt F) → (⟨S1x128, .f32⟩ : BufTy).Contents (Elt F)) (W (Proc.devRef .tc main_v85_1)) ((broadcastInDim S1x128 ![] bcast_S_S1x128 : (⟨S_, .f32⟩ : BufTy).Contents (Elt F) → (⟨S1x128, .f32⟩ : BufTy).Contents (Elt F)) ((constant S_ .f32 0x47435000#32)))) := by
  after_results
  all_goals rfl

set_option maxHeartbeats 2000000 in
theorem h6_main_v91 (W : Valuation τ sig (Elt F)) :
    after hostOps6 W (Proc.devRef .tc main_v91) = ((subf : (⟨S1x128, .f32⟩ : BufTy).Contents (Elt F) → (⟨S1x128, .f32⟩ : BufTy).Contents (Elt F) → (⟨S1x128, .f32⟩ : BufTy).Contents (Elt F)) ((Host.divf : (⟨S1x128, .f32⟩ : BufTy).Contents (Elt F) → (⟨S1x128, .f32⟩ : BufTy).Contents (Elt F) → (⟨S1x128, .f32⟩ : BufTy).Contents (Elt F)) (W (Proc.devRef .tc main_v85_2)) ((broadcastInDim S1x128 ![] bcast_S_S1x128 : (⟨S_, .f32⟩ : BufTy).Contents (Elt F) → (⟨S1x128, .f32⟩ : BufTy).Contents (Elt F)) ((constant S_ .f32 0x47435000#32)))) ((mulf : (⟨S1x128, .f32⟩ : BufTy).Contents (Elt F) → (⟨S1x128, .f32⟩ : BufTy).Contents (Elt F) → (⟨S1x128, .f32⟩ : BufTy).Contents (Elt F)) ((Host.divf : (⟨S1x128, .f32⟩ : BufTy).Contents (Elt F) → (⟨S1x128, .f32⟩ : BufTy).Contents (Elt F) → (⟨S1x128, .f32⟩ : BufTy).Contents (Elt F)) (W (Proc.devRef .tc main_v85_1)) ((broadcastInDim S1x128 ![] bcast_S_S1x128 : (⟨S_, .f32⟩ : BufTy).Contents (Elt F) → (⟨S1x128, .f32⟩ : BufTy).Contents (Elt F)) ((constant S_ .f32 0x47435000#32)))) ((Host.divf : (⟨S1x128, .f32⟩ : BufTy).Contents (Elt F) → (⟨S1x128, .f32⟩ : BufTy).Contents (Elt F) → (⟨S1x128, .f32⟩ : BufTy).Contents (Elt F)) (W (Proc.devRef .tc main_v85_1)) ((broadcastInDim S1x128 ![] bcast_S_S1x128 : (⟨S_, .f32⟩ : BufTy).Contents (Elt F) → (⟨S1x128, .f32⟩ : BufTy).Contents (Elt F)) ((constant S_ .f32 0x47435000#32)))))) := by
  after_results
  all_goals rfl

set_option maxHeartbeats 2000000 in
theorem h6_main_v94 (W : Valuation τ sig (Elt F)) :
    after hostOps6 W (Proc.devRef .tc main_v94) = (shapeCast S1x128 (shapeCast S128 (((extractStridedSlice S1x128 ![1, 0] · slices_S4x128_S1x128_1_0) : (⟨S4x128, .f32⟩ : BufTy).Contents (Elt F) → (⟨S1x128, .f32⟩ : BufTy).Contents (Elt F)) (W (Proc.devRef .tc main_arg8))) shapeCasts_S1x128_S128) shapeCasts_S128_S1x128) := by
  after_results
  all_goals rfl

set_option maxHeartbeats 2000000 in
theorem h6_main_v97 (W : Valuation τ sig (Elt F)) :
    after hostOps6 W (Proc.devRef .tc main_v97) = (shapeCast S1x128 (shapeCast S128 (((extractStridedSlice S1x128 ![1, 0] · slices_S4x128_S1x128_1_0) : (⟨S4x128, .f32⟩ : BufTy).Contents (Elt F) → (⟨S1x128, .f32⟩ : BufTy).Contents (Elt F)) (W (Proc.devRef .tc main_arg9))) shapeCasts_S1x128_S128) shapeCasts_S128_S1x128) := by
  after_results
  all_goals rfl

set_option maxHeartbeats 2000000 in
theorem h6_main_v100 (W : Valuation τ sig (Elt F)) :
    after hostOps6 W (Proc.devRef .tc main_v100) = (shapeCast S1x128 (shapeCast S128 (((extractStridedSlice S1x128 ![1, 0] · slices_S4x128_S1x128_1_0) : (⟨S4x128, .f32⟩ : BufTy).Contents (Elt F) → (⟨S1x128, .f32⟩ : BufTy).Contents (Elt F)) (W (Proc.devRef .tc main_arg11))) shapeCasts_S1x128_S128) shapeCasts_S128_S1x128) := by
  after_results
  all_goals rfl

set_option maxHeartbeats 2000000 in
theorem h6_main_v102 (W : Valuation τ sig (Elt F)) :
    after hostOps6 W (Proc.devRef .tc main_v102) = (shapeCast S128x128 (((extractStridedSlice S1x128x128 ![1, 0, 0] · slices_S4x128x128_S1x128x128_1_0_0) : (⟨S4x128x128, .f32⟩ : BufTy).Contents (Elt F) → (⟨S1x128x128, .f32⟩ : BufTy).Contents (Elt F)) (W (Proc.devRef .tc main_arg10))) shapeCasts_S1x128x128_S128x128) := by
  after_results
  all_goals rfl

theorem h6_keep_main_arg1 (W : Valuation τ sig (Elt F)) : after hostOps6 W (Proc.devRef .tc main_arg1) = W (Proc.devRef .tc main_arg1) := by
  after_results

theorem h6_keep_main_arg2 (W : Valuation τ sig (Elt F)) : after hostOps6 W (Proc.devRef .tc main_arg2) = W (Proc.devRef .tc main_arg2) := by
  after_results

theorem h6_keep_main_arg5 (W : Valuation τ sig (Elt F)) : after hostOps6 W (Proc.devRef .tc main_arg5) = W (Proc.devRef .tc main_arg5) := by
  after_results

theorem h6_keep_main_arg7 (W : Valuation τ sig (Elt F)) : after hostOps6 W (Proc.devRef .tc main_arg7) = W (Proc.devRef .tc main_arg7) := by
  after_results

theorem h6_keep_main_arg6 (W : Valuation τ sig (Elt F)) : after hostOps6 W (Proc.devRef .tc main_arg6) = W (Proc.devRef .tc main_arg6) := by
  after_results

theorem h6_keep_main_arg8 (W : Valuation τ sig (Elt F)) : after hostOps6 W (Proc.devRef .tc main_arg8) = W (Proc.devRef .tc main_arg8) := by
  after_results

theorem h6_keep_main_arg9 (W : Valuation τ sig (Elt F)) : after hostOps6 W (Proc.devRef .tc main_arg9) = W (Proc.devRef .tc main_arg9) := by
  after_results

theorem h6_keep_main_arg11 (W : Valuation τ sig (Elt F)) : after hostOps6 W (Proc.devRef .tc main_arg11) = W (Proc.devRef .tc main_arg11) := by
  after_results

theorem h6_keep_main_arg10 (W : Valuation τ sig (Elt F)) : after hostOps6 W (Proc.devRef .tc main_arg10) = W (Proc.devRef .tc main_arg10) := by
  after_results

theorem h6_keep_main_arg12 (W : Valuation τ sig (Elt F)) : after hostOps6 W (Proc.devRef .tc main_arg12) = W (Proc.devRef .tc main_arg12) := by
  after_results

theorem h6_keep_main_arg13 (W : Valuation τ sig (Elt F)) : after hostOps6 W (Proc.devRef .tc main_arg13) = W (Proc.devRef .tc main_arg13) := by
  after_results

theorem h6_keep_main_arg14 (W : Valuation τ sig (Elt F)) : after hostOps6 W (Proc.devRef .tc main_arg14) = W (Proc.devRef .tc main_arg14) := by
  after_results

theorem h6_keep_main_arg15 (W : Valuation τ sig (Elt F)) : after hostOps6 W (Proc.devRef .tc main_arg15) = W (Proc.devRef .tc main_arg15) := by
  after_results

theorem h6_keep_main_v65 (W : Valuation τ sig (Elt F)) : after hostOps6 W (Proc.devRef .tc main_v65) = W (Proc.devRef .tc main_v65) := by
  after_results

theorem h6_keep_main_v85_0 (W : Valuation τ sig (Elt F)) : after hostOps6 W (Proc.devRef .tc main_v85_0) = W (Proc.devRef .tc main_v85_0) := by
  after_results

set_option maxHeartbeats 2000000 in
theorem h7_main_v105 (W : Valuation τ sig (Elt F)) :
    after hostOps7 W (Proc.devRef .tc main_v105) = ((Host.divf : (⟨S1x128, .f32⟩ : BufTy).Contents (Elt F) → (⟨S1x128, .f32⟩ : BufTy).Contents (Elt F) → (⟨S1x128, .f32⟩ : BufTy).Contents (Elt F)) (W (Proc.devRef .tc main_v103_1)) ((broadcastInDim S1x128 ![] bcast_S_S1x128 : (⟨S_, .f32⟩ : BufTy).Contents (Elt F) → (⟨S1x128, .f32⟩ : BufTy).Contents (Elt F)) ((constant S_ .f32 0x47435000#32)))) := by
  after_results
  all_goals rfl

set_option maxHeartbeats 2000000 in
theorem h7_main_v109 (W : Valuation τ sig (Elt F)) :
    after hostOps7 W (Proc.devRef .tc main_v109) = ((subf : (⟨S1x128, .f32⟩ : BufTy).Contents (Elt F) → (⟨S1x128, .f32⟩ : BufTy).Contents (Elt F) → (⟨S1x128, .f32⟩ : BufTy).Contents (Elt F)) ((Host.divf : (⟨S1x128, .f32⟩ : BufTy).Contents (Elt F) → (⟨S1x128, .f32⟩ : BufTy).Contents (Elt F) → (⟨S1x128, .f32⟩ : BufTy).Contents (Elt F)) (W (Proc.devRef .tc main_v103_2)) ((broadcastInDim S1x128 ![] bcast_S_S1x128 : (⟨S_, .f32⟩ : BufTy).Contents (Elt F) → (⟨S1x128, .f32⟩ : BufTy).Contents (Elt F)) ((constant S_ .f32 0x47435000#32)))) ((mulf : (⟨S1x128, .f32⟩ : BufTy).Contents (Elt F) → (⟨S1x128, .f32⟩ : BufTy).Contents (Elt F) → (⟨S1x128, .f32⟩ : BufTy).Contents (Elt F)) ((Host.divf : (⟨S1x128, .f32⟩ : BufTy).Contents (Elt F) → (⟨S1x128, .f32⟩ : BufTy).Contents (Elt F) → (⟨S1x128, .f32⟩ : BufTy).Contents (Elt F)) (W (Proc.devRef .tc main_v103_1)) ((broadcastInDim S1x128 ![] bcast_S_S1x128 : (⟨S_, .f32⟩ : BufTy).Contents (Elt F) → (⟨S1x128, .f32⟩ : BufTy).Contents (Elt F)) ((constant S_ .f32 0x47435000#32)))) ((Host.divf : (⟨S1x128, .f32⟩ : BufTy).Contents (Elt F) → (⟨S1x128, .f32⟩ : BufTy).Contents (Elt F) → (⟨S1x128, .f32⟩ : BufTy).Contents (Elt F)) (W (Proc.devRef .tc main_v103_1)) ((broadcastInDim S1x128 ![] bcast_S_S1x128 : (⟨S_, .f32⟩ : BufTy).Contents (Elt F) → (⟨S1x128, .f32⟩ : BufTy).Contents (Elt F)) ((constant S_ .f32 0x47435000#32)))))) := by
  after_results
  all_goals rfl

set_option maxHeartbeats 2000000 in
theorem h7_main_v112 (W : Valuation τ sig (Elt F)) :
    after hostOps7 W (Proc.devRef .tc main_v112) = (shapeCast S1x128 (shapeCast S128 (((extractStridedSlice S1x128 ![1, 0] · slices_S4x128_S1x128_1_0) : (⟨S4x128, .f32⟩ : BufTy).Contents (Elt F) → (⟨S1x128, .f32⟩ : BufTy).Contents (Elt F)) (W (Proc.devRef .tc main_arg12))) shapeCasts_S1x128_S128) shapeCasts_S128_S1x128) := by
  after_results
  all_goals rfl

set_option maxHeartbeats 2000000 in
theorem h7_main_v115 (W : Valuation τ sig (Elt F)) :
    after hostOps7 W (Proc.devRef .tc main_v115) = (shapeCast S1x128 (shapeCast S128 (((extractStridedSlice S1x128 ![1, 0] · slices_S4x128_S1x128_1_0) : (⟨S4x128, .f32⟩ : BufTy).Contents (Elt F) → (⟨S1x128, .f32⟩ : BufTy).Contents (Elt F)) (W (Proc.devRef .tc main_arg13))) shapeCasts_S1x128_S128) shapeCasts_S128_S1x128) := by
  after_results
  all_goals rfl

theorem h7_keep_main_arg1 (W : Valuation τ sig (Elt F)) : after hostOps7 W (Proc.devRef .tc main_arg1) = W (Proc.devRef .tc main_arg1) := by
  after_results

theorem h7_keep_main_arg2 (W : Valuation τ sig (Elt F)) : after hostOps7 W (Proc.devRef .tc main_arg2) = W (Proc.devRef .tc main_arg2) := by
  after_results

theorem h7_keep_main_arg5 (W : Valuation τ sig (Elt F)) : after hostOps7 W (Proc.devRef .tc main_arg5) = W (Proc.devRef .tc main_arg5) := by
  after_results

theorem h7_keep_main_arg7 (W : Valuation τ sig (Elt F)) : after hostOps7 W (Proc.devRef .tc main_arg7) = W (Proc.devRef .tc main_arg7) := by
  after_results

theorem h7_keep_main_arg6 (W : Valuation τ sig (Elt F)) : after hostOps7 W (Proc.devRef .tc main_arg6) = W (Proc.devRef .tc main_arg6) := by
  after_results

theorem h7_keep_main_arg8 (W : Valuation τ sig (Elt F)) : after hostOps7 W (Proc.devRef .tc main_arg8) = W (Proc.devRef .tc main_arg8) := by
  after_results

theorem h7_keep_main_arg9 (W : Valuation τ sig (Elt F)) : after hostOps7 W (Proc.devRef .tc main_arg9) = W (Proc.devRef .tc main_arg9) := by
  after_results

theorem h7_keep_main_arg11 (W : Valuation τ sig (Elt F)) : after hostOps7 W (Proc.devRef .tc main_arg11) = W (Proc.devRef .tc main_arg11) := by
  after_results

theorem h7_keep_main_arg10 (W : Valuation τ sig (Elt F)) : after hostOps7 W (Proc.devRef .tc main_arg10) = W (Proc.devRef .tc main_arg10) := by
  after_results

theorem h7_keep_main_arg12 (W : Valuation τ sig (Elt F)) : after hostOps7 W (Proc.devRef .tc main_arg12) = W (Proc.devRef .tc main_arg12) := by
  after_results

theorem h7_keep_main_arg13 (W : Valuation τ sig (Elt F)) : after hostOps7 W (Proc.devRef .tc main_arg13) = W (Proc.devRef .tc main_arg13) := by
  after_results

theorem h7_keep_main_arg14 (W : Valuation τ sig (Elt F)) : after hostOps7 W (Proc.devRef .tc main_arg14) = W (Proc.devRef .tc main_arg14) := by
  after_results

theorem h7_keep_main_arg15 (W : Valuation τ sig (Elt F)) : after hostOps7 W (Proc.devRef .tc main_arg15) = W (Proc.devRef .tc main_arg15) := by
  after_results

theorem h7_keep_main_v65 (W : Valuation τ sig (Elt F)) : after hostOps7 W (Proc.devRef .tc main_v65) = W (Proc.devRef .tc main_v65) := by
  after_results

theorem h7_keep_main_v103_0 (W : Valuation τ sig (Elt F)) : after hostOps7 W (Proc.devRef .tc main_v103_0) = W (Proc.devRef .tc main_v103_0) := by
  after_results

set_option maxHeartbeats 2000000 in
theorem h8_main_v118 (W : Valuation τ sig (Elt F)) :
    after hostOps8 W (Proc.devRef .tc main_v118) = ((Host.divf : (⟨S1x128, .f32⟩ : BufTy).Contents (Elt F) → (⟨S1x128, .f32⟩ : BufTy).Contents (Elt F) → (⟨S1x128, .f32⟩ : BufTy).Contents (Elt F)) (W (Proc.devRef .tc main_v116_1)) ((broadcastInDim S1x128 ![] bcast_S_S1x128 : (⟨S_, .f32⟩ : BufTy).Contents (Elt F) → (⟨S1x128, .f32⟩ : BufTy).Contents (Elt F)) ((constant S_ .f32 0x47435000#32)))) := by
  after_results
  all_goals rfl

set_option maxHeartbeats 2000000 in
theorem h8_main_v122 (W : Valuation τ sig (Elt F)) :
    after hostOps8 W (Proc.devRef .tc main_v122) = ((subf : (⟨S1x128, .f32⟩ : BufTy).Contents (Elt F) → (⟨S1x128, .f32⟩ : BufTy).Contents (Elt F) → (⟨S1x128, .f32⟩ : BufTy).Contents (Elt F)) ((Host.divf : (⟨S1x128, .f32⟩ : BufTy).Contents (Elt F) → (⟨S1x128, .f32⟩ : BufTy).Contents (Elt F) → (⟨S1x128, .f32⟩ : BufTy).Contents (Elt F)) (W (Proc.devRef .tc main_v116_2)) ((broadcastInDim S1x128 ![] bcast_S_S1x128 : (⟨S_, .f32⟩ : BufTy).Contents (Elt F) → (⟨S1x128, .f32⟩ : BufTy).Contents (Elt F)) ((constant S_ .f32 0x47435000#32)))) ((mulf : (⟨S1x128, .f32⟩ : BufTy).Contents (Elt F) → (⟨S1x128, .f32⟩ : BufTy).Contents (Elt F) → (⟨S1x128, .f32⟩ : BufTy).Contents (Elt F)) ((Host.divf : (⟨S1x128, .f32⟩ : BufTy).Contents (Elt F) → (⟨S1x128, .f32⟩ : BufTy).Contents (Elt F) → (⟨S1x128, .f32⟩ : BufTy).Contents (Elt F)) (W (Proc.devRef .tc main_v116_1)) ((broadcastInDim S1x128 ![] bcast_S_S1x128 : (⟨S_, .f32⟩ : BufTy).Contents (Elt F) → (⟨S1x128, .f32⟩ : BufTy).Contents (Elt F)) ((constant S_ .f32 0x47435000#32)))) ((Host.divf : (⟨S1x128, .f32⟩ : BufTy).Contents (Elt F) → (⟨S1x128, .f32⟩ : BufTy).Contents (Elt F) → (⟨S1x128, .f32⟩ : BufTy).Contents (Elt F)) (W (Proc.devRef .tc main_v116_1)) ((broadcastInDim S1x128 ![] bcast_S_S1x128 : (⟨S_, .f32⟩ : BufTy).Contents (Elt F) → (⟨S1x128, .f32⟩ : BufTy).Contents (Elt F)) ((constant S_ .f32 0x47435000#32)))))) := by
  after_results
  all_goals rfl

set_option maxHeartbeats 2000000 in
theorem h8_main_v125 (W : Valuation τ sig (Elt F)) :
    after hostOps8 W (Proc.devRef .tc main_v125) = (shapeCast S1x128 (shapeCast S128 (((extractStridedSlice S1x128 ![1, 0] · slices_S4x128_S1x128_1_0) : (⟨S4x128, .f32⟩ : BufTy).Contents (Elt F) → (⟨S1x128, .f32⟩ : BufTy).Contents (Elt F)) (W (Proc.devRef .tc main_arg14))) shapeCasts_S1x128_S128) shapeCasts_S128_S1x128) := by
  after_results
  all_goals rfl

set_option maxHeartbeats 2000000 in
theorem h8_main_v128 (W : Valuation τ sig (Elt F)) :
    after hostOps8 W (Proc.devRef .tc main_v128) = (shapeCast S1x128 (shapeCast S128 (((extractStridedSlice S1x128 ![1, 0] · slices_S4x128_S1x128_1_0) : (⟨S4x128, .f32⟩ : BufTy).Contents (Elt F) → (⟨S1x128, .f32⟩ : BufTy).Contents (Elt F)) (W (Proc.devRef .tc main_arg15))) shapeCasts_S1x128_S128) shapeCasts_S128_S1x128) := by
  after_results
  all_goals rfl

theorem h8_keep_main_arg1 (W : Valuation τ sig (Elt F)) : after hostOps8 W (Proc.devRef .tc main_arg1) = W (Proc.devRef .tc main_arg1) := by
  after_results

theorem h8_keep_main_arg2 (W : Valuation τ sig (Elt F)) : after hostOps8 W (Proc.devRef .tc main_arg2) = W (Proc.devRef .tc main_arg2) := by
  after_results

theorem h8_keep_main_arg5 (W : Valuation τ sig (Elt F)) : after hostOps8 W (Proc.devRef .tc main_arg5) = W (Proc.devRef .tc main_arg5) := by
  after_results

theorem h8_keep_main_arg7 (W : Valuation τ sig (Elt F)) : after hostOps8 W (Proc.devRef .tc main_arg7) = W (Proc.devRef .tc main_arg7) := by
  after_results

theorem h8_keep_main_arg6 (W : Valuation τ sig (Elt F)) : after hostOps8 W (Proc.devRef .tc main_arg6) = W (Proc.devRef .tc main_arg6) := by
  after_results

theorem h8_keep_main_arg8 (W : Valuation τ sig (Elt F)) : after hostOps8 W (Proc.devRef .tc main_arg8) = W (Proc.devRef .tc main_arg8) := by
  after_results

theorem h8_keep_main_arg9 (W : Valuation τ sig (Elt F)) : after hostOps8 W (Proc.devRef .tc main_arg9) = W (Proc.devRef .tc main_arg9) := by
  after_results

theorem h8_keep_main_arg11 (W : Valuation τ sig (Elt F)) : after hostOps8 W (Proc.devRef .tc main_arg11) = W (Proc.devRef .tc main_arg11) := by
  after_results

theorem h8_keep_main_arg10 (W : Valuation τ sig (Elt F)) : after hostOps8 W (Proc.devRef .tc main_arg10) = W (Proc.devRef .tc main_arg10) := by
  after_results

theorem h8_keep_main_arg12 (W : Valuation τ sig (Elt F)) : after hostOps8 W (Proc.devRef .tc main_arg12) = W (Proc.devRef .tc main_arg12) := by
  after_results

theorem h8_keep_main_arg13 (W : Valuation τ sig (Elt F)) : after hostOps8 W (Proc.devRef .tc main_arg13) = W (Proc.devRef .tc main_arg13) := by
  after_results

theorem h8_keep_main_arg14 (W : Valuation τ sig (Elt F)) : after hostOps8 W (Proc.devRef .tc main_arg14) = W (Proc.devRef .tc main_arg14) := by
  after_results

theorem h8_keep_main_arg15 (W : Valuation τ sig (Elt F)) : after hostOps8 W (Proc.devRef .tc main_arg15) = W (Proc.devRef .tc main_arg15) := by
  after_results

theorem h8_keep_main_v65 (W : Valuation τ sig (Elt F)) : after hostOps8 W (Proc.devRef .tc main_v65) = W (Proc.devRef .tc main_v65) := by
  after_results

theorem h8_keep_main_v116_0 (W : Valuation τ sig (Elt F)) : after hostOps8 W (Proc.devRef .tc main_v116_0) = W (Proc.devRef .tc main_v116_0) := by
  after_results

set_option maxHeartbeats 2000000 in
theorem h9_main_v139 (W : Valuation τ sig (Elt F)) :
    after hostOps9 W (Proc.devRef .tc main_v139) = (((fun x i u => Host.scatterAdd scatter_S50000x128_S1600000x1_S1600000x128_1_0_0_1 x i u) : (⟨S50000x128, .f32⟩ : BufTy).Contents (Elt F) → (⟨S1600000x1, .i32⟩ : BufTy).Contents (Elt F) → (⟨S1600000x128, .f32⟩ : BufTy).Contents (Elt F) → (⟨S50000x128, .f32⟩ : BufTy).Contents (Elt F)) ((broadcastInDim S50000x128 ![] bcast_S_S50000x128 : (⟨S_, .f32⟩ : BufTy).Contents (Elt F) → (⟨S50000x128, .f32⟩ : BufTy).Contents (Elt F)) ((constant S_ .f32 0x00000000#32))) ((broadcastInDim S1600000x1 ![0] bcast_S1600000_S1600000x1_0 : (⟨S1600000, .i32⟩ : BufTy).Contents (Elt F) → (⟨S1600000x1, .i32⟩ : BufTy).Contents (Elt F)) (W (Proc.devRef .tc main_arg2))) (((fun x i => Host.gather gather_S50000x128_S1600000x1_S1600000x128_1_0_n_n_0_1_1128 x i) : (⟨S50000x128, .f32⟩ : BufTy).Contents (Elt F) → (⟨S1600000x1, .i32⟩ : BufTy).Contents (Elt F) → (⟨S1600000x128, .f32⟩ : BufTy).Contents (Elt F)) (W (Proc.devRef .tc main_v129)) ((broadcastInDim S1600000x1 ![0] bcast_S1600000_S1600000x1_0 : (⟨S1600000, .i32⟩ : BufTy).Contents (Elt F) → (⟨S1600000x1, .i32⟩ : BufTy).Contents (Elt F)) ((select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)) ((cmpi .slt : (⟨S1600000, .i32⟩ : BufTy).Contents (Elt F) → (⟨S1600000, .i32⟩ : BufTy).Contents (Elt F) → (⟨S1600000, .i1⟩ : BufTy).Contents (Elt F)) (W (Proc.devRef .tc main_arg1)) ((broadcastInDim S1600000 ![] bcast_S_S1600000 : (⟨S_, .i32⟩ : BufTy).Contents (Elt F) → (⟨S1600000, .i32⟩ : BufTy).Contents (Elt F)) ((constantI S_ 32 0#32)))) ((addi : (⟨S1600000, .i32⟩ : BufTy).Contents (Elt F) → (⟨S1600000, .i32⟩ : BufTy).Contents (Elt F) → (⟨S1600000, .i32⟩ : BufTy).Contents (Elt F)) (W (Proc.devRef .tc main_arg1)) ((broadcastInDim S1600000 ![] bcast_S_S1600000 : (⟨S_, .i32⟩ : BufTy).Contents (Elt F) → (⟨S1600000, .i32⟩ : BufTy).Contents (Elt F)) ((constantI S_ 32 50000#32)))) (W (Proc.devRef .tc main_arg1)))))) := by
  after_results
  all_goals rfl

set_option maxHeartbeats 2000000 in
theorem h9_main_v143 (W : Valuation τ sig (Elt F)) :
    after hostOps9 W (Proc.devRef .tc main_v143) = (shapeCast S1x1 ((addf : (⟨S_, .f32⟩ : BufTy).Contents (Elt F) → (⟨S_, .f32⟩ : BufTy).Contents (Elt F) → (⟨S_, .f32⟩ : BufTy).Contents (Elt F)) ((constant S_ .f32 0x3F800000#32)) (shapeCast S_ (((extractStridedSlice S1 ![2] · slices_S4_S1_2) : (⟨S4, .f32⟩ : BufTy).Contents (Elt F) → (⟨S1, .f32⟩ : BufTy).Contents (Elt F)) (W (Proc.devRef .tc main_arg5))) shapeCasts_S1_S_)) shapeCasts_S_S1x1) := by
  after_results
  all_goals rfl

set_option maxHeartbeats 2000000 in
theorem h9_main_v146 (W : Valuation τ sig (Elt F)) :
    after hostOps9 W (Proc.devRef .tc main_v146) = (shapeCast S1x128 (shapeCast S128 (((extractStridedSlice S1x128 ![2, 0] · slices_S4x128_S1x128_2_0) : (⟨S4x128, .f32⟩ : BufTy).Contents (Elt F) → (⟨S1x128, .f32⟩ : BufTy).Contents (Elt F)) (W (Proc.devRef .tc main_arg7))) shapeCasts_S1x128_S128) shapeCasts_S128_S1x128) := by
  after_results
  all_goals rfl

set_option maxHeartbeats 2000000 in
theorem h9_main_v148 (W : Valuation τ sig (Elt F)) :
    after hostOps9 W (Proc.devRef .tc main_v148) = (shapeCast S128x128 (((extractStridedSlice S1x128x128 ![2, 0, 0] · slices_S4x128x128_S1x128x128_2_0_0) : (⟨S4x128x128, .f32⟩ : BufTy).Contents (Elt F) → (⟨S1x128x128, .f32⟩ : BufTy).Contents (Elt F)) (W (Proc.devRef .tc main_arg6))) shapeCasts_S1x128x128_S128x128) := by
  after_results
  all_goals rfl

theorem h9_keep_main_arg1 (W : Valuation τ sig (Elt F)) : after hostOps9 W (Proc.devRef .tc main_arg1) = W (Proc.devRef .tc main_arg1) := by
  after_results

theorem h9_keep_main_arg2 (W : Valuation τ sig (Elt F)) : after hostOps9 W (Proc.devRef .tc main_arg2) = W (Proc.devRef .tc main_arg2) := by
  after_results

theorem h9_keep_main_arg5 (W : Valuation τ sig (Elt F)) : after hostOps9 W (Proc.devRef .tc main_arg5) = W (Proc.devRef .tc main_arg5) := by
  after_results

theorem h9_keep_main_arg7 (W : Valuation τ sig (Elt F)) : after hostOps9 W (Proc.devRef .tc main_arg7) = W (Proc.devRef .tc main_arg7) := by
  after_results

theorem h9_keep_main_arg6 (W : Valuation τ sig (Elt F)) : after hostOps9 W (Proc.devRef .tc main_arg6) = W (Proc.devRef .tc main_arg6) := by
  after_results

theorem h9_keep_main_arg8 (W : Valuation τ sig (Elt F)) : after hostOps9 W (Proc.devRef .tc main_arg8) = W (Proc.devRef .tc main_arg8) := by
  after_results

theorem h9_keep_main_arg9 (W : Valuation τ sig (Elt F)) : after hostOps9 W (Proc.devRef .tc main_arg9) = W (Proc.devRef .tc main_arg9) := by
  after_results

theorem h9_keep_main_arg11 (W : Valuation τ sig (Elt F)) : after hostOps9 W (Proc.devRef .tc main_arg11) = W (Proc.devRef .tc main_arg11) := by
  after_results

theorem h9_keep_main_arg10 (W : Valuation τ sig (Elt F)) : after hostOps9 W (Proc.devRef .tc main_arg10) = W (Proc.devRef .tc main_arg10) := by
  after_results

theorem h9_keep_main_arg12 (W : Valuation τ sig (Elt F)) : after hostOps9 W (Proc.devRef .tc main_arg12) = W (Proc.devRef .tc main_arg12) := by
  after_results

theorem h9_keep_main_arg13 (W : Valuation τ sig (Elt F)) : after hostOps9 W (Proc.devRef .tc main_arg13) = W (Proc.devRef .tc main_arg13) := by
  after_results

theorem h9_keep_main_arg14 (W : Valuation τ sig (Elt F)) : after hostOps9 W (Proc.devRef .tc main_arg14) = W (Proc.devRef .tc main_arg14) := by
  after_results

theorem h9_keep_main_arg15 (W : Valuation τ sig (Elt F)) : after hostOps9 W (Proc.devRef .tc main_arg15) = W (Proc.devRef .tc main_arg15) := by
  after_results

theorem h9_keep_main_v129 (W : Valuation τ sig (Elt F)) : after hostOps9 W (Proc.devRef .tc main_v129) = W (Proc.devRef .tc main_v129) := by
  after_results

set_option maxHeartbeats 2000000 in
theorem h10_main_v151 (W : Valuation τ sig (Elt F)) :
    after hostOps10 W (Proc.devRef .tc main_v151) = ((Host.divf : (⟨S1x128, .f32⟩ : BufTy).Contents (Elt F) → (⟨S1x128, .f32⟩ : BufTy).Contents (Elt F) → (⟨S1x128, .f32⟩ : BufTy).Contents (Elt F)) (W (Proc.devRef .tc main_v149_1)) ((broadcastInDim S1x128 ![] bcast_S_S1x128 : (⟨S_, .f32⟩ : BufTy).Contents (Elt F) → (⟨S1x128, .f32⟩ : BufTy).Contents (Elt F)) ((constant S_ .f32 0x47435000#32)))) := by
  after_results
  all_goals rfl

set_option maxHeartbeats 2000000 in
theorem h10_main_v155 (W : Valuation τ sig (Elt F)) :
    after hostOps10 W (Proc.devRef .tc main_v155) = ((subf : (⟨S1x128, .f32⟩ : BufTy).Contents (Elt F) → (⟨S1x128, .f32⟩ : BufTy).Contents (Elt F) → (⟨S1x128, .f32⟩ : BufTy).Contents (Elt F)) ((Host.divf : (⟨S1x128, .f32⟩ : BufTy).Contents (Elt F) → (⟨S1x128, .f32⟩ : BufTy).Contents (Elt F) → (⟨S1x128, .f32⟩ : BufTy).Contents (Elt F)) (W (Proc.devRef .tc main_v149_2)) ((broadcastInDim S1x128 ![] bcast_S_S1x128 : (⟨S_, .f32⟩ : BufTy).Contents (Elt F) → (⟨S1x128, .f32⟩ : BufTy).Contents (Elt F)) ((constant S_ .f32 0x47435000#32)))) ((mulf : (⟨S1x128, .f32⟩ : BufTy).Contents (Elt F) → (⟨S1x128, .f32⟩ : BufTy).Contents (Elt F) → (⟨S1x128, .f32⟩ : BufTy).Contents (Elt F)) ((Host.divf : (⟨S1x128, .f32⟩ : BufTy).Contents (Elt F) → (⟨S1x128, .f32⟩ : BufTy).Contents (Elt F) → (⟨S1x128, .f32⟩ : BufTy).Contents (Elt F)) (W (Proc.devRef .tc main_v149_1)) ((broadcastInDim S1x128 ![] bcast_S_S1x128 : (⟨S_, .f32⟩ : BufTy).Contents (Elt F) → (⟨S1x128, .f32⟩ : BufTy).Contents (Elt F)) ((constant S_ .f32 0x47435000#32)))) ((Host.divf : (⟨S1x128, .f32⟩ : BufTy).Contents (Elt F) → (⟨S1x128, .f32⟩ : BufTy).Contents (Elt F) → (⟨S1x128, .f32⟩ : BufTy).Contents (Elt F)) (W (Proc.devRef .tc main_v149_1)) ((broadcastInDim S1x128 ![] bcast_S_S1x128 : (⟨S_, .f32⟩ : BufTy).Contents (Elt F) → (⟨S1x128, .f32⟩ : BufTy).Contents (Elt F)) ((constant S_ .f32 0x47435000#32)))))) := by
  after_results
  all_goals rfl

set_option maxHeartbeats 2000000 in
theorem h10_main_v158 (W : Valuation τ sig (Elt F)) :
    after hostOps10 W (Proc.devRef .tc main_v158) = (shapeCast S1x128 (shapeCast S128 (((extractStridedSlice S1x128 ![2, 0] · slices_S4x128_S1x128_2_0) : (⟨S4x128, .f32⟩ : BufTy).Contents (Elt F) → (⟨S1x128, .f32⟩ : BufTy).Contents (Elt F)) (W (Proc.devRef .tc main_arg8))) shapeCasts_S1x128_S128) shapeCasts_S128_S1x128) := by
  after_results
  all_goals rfl

set_option maxHeartbeats 2000000 in
theorem h10_main_v161 (W : Valuation τ sig (Elt F)) :
    after hostOps10 W (Proc.devRef .tc main_v161) = (shapeCast S1x128 (shapeCast S128 (((extractStridedSlice S1x128 ![2, 0] · slices_S4x128_S1x128_2_0) : (⟨S4x128, .f32⟩ : BufTy).Contents (Elt F) → (⟨S1x128, .f32⟩ : BufTy).Contents (Elt F)) (W (Proc.devRef .tc main_arg9))) shapeCasts_S1x128_S128) shapeCasts_S128_S1x128) := by
  after_results
  all_goals rfl

set_option maxHeartbeats 2000000 in
theorem h10_main_v164 (W : Valuation τ sig (Elt F)) :
    after hostOps10 W (Proc.devRef .tc main_v164) = (shapeCast S1x128 (shapeCast S128 (((extractStridedSlice S1x128 ![2, 0] · slices_S4x128_S1x128_2_0) : (⟨S4x128, .f32⟩ : BufTy).Contents (Elt F) → (⟨S1x128, .f32⟩ : BufTy).Contents (Elt F)) (W (Proc.devRef .tc main_arg11))) shapeCasts_S1x128_S128) shapeCasts_S128_S1x128) := by
  after_results
  all_goals rfl

set_option maxHeartbeats 2000000 in
theorem h10_main_v166 (W : Valuation τ sig (Elt F)) :
    after hostOps10 W (Proc.devRef .tc main_v166) = (shapeCast S128x128 (((extractStridedSlice S1x128x128 ![2, 0, 0] · slices_S4x128x128_S1x128x128_2_0_0) : (⟨S4x128x128, .f32⟩ : BufTy).Contents (Elt F) → (⟨S1x128x128, .f32⟩ : BufTy).Contents (Elt F)) (W (Proc.devRef .tc main_arg10))) shapeCasts_S1x128x128_S128x128) := by
  after_results
  all_goals rfl

theorem h10_keep_main_arg1 (W : Valuation τ sig (Elt F)) : after hostOps10 W (Proc.devRef .tc main_arg1) = W (Proc.devRef .tc main_arg1) := by
  after_results

theorem h10_keep_main_arg2 (W : Valuation τ sig (Elt F)) : after hostOps10 W (Proc.devRef .tc main_arg2) = W (Proc.devRef .tc main_arg2) := by
  after_results

theorem h10_keep_main_arg5 (W : Valuation τ sig (Elt F)) : after hostOps10 W (Proc.devRef .tc main_arg5) = W (Proc.devRef .tc main_arg5) := by
  after_results

theorem h10_keep_main_arg7 (W : Valuation τ sig (Elt F)) : after hostOps10 W (Proc.devRef .tc main_arg7) = W (Proc.devRef .tc main_arg7) := by
  after_results

theorem h10_keep_main_arg6 (W : Valuation τ sig (Elt F)) : after hostOps10 W (Proc.devRef .tc main_arg6) = W (Proc.devRef .tc main_arg6) := by
  after_results

theorem h10_keep_main_arg8 (W : Valuation τ sig (Elt F)) : after hostOps10 W (Proc.devRef .tc main_arg8) = W (Proc.devRef .tc main_arg8) := by
  after_results

theorem h10_keep_main_arg9 (W : Valuation τ sig (Elt F)) : after hostOps10 W (Proc.devRef .tc main_arg9) = W (Proc.devRef .tc main_arg9) := by
  after_results

theorem h10_keep_main_arg11 (W : Valuation τ sig (Elt F)) : after hostOps10 W (Proc.devRef .tc main_arg11) = W (Proc.devRef .tc main_arg11) := by
  after_results

theorem h10_keep_main_arg10 (W : Valuation τ sig (Elt F)) : after hostOps10 W (Proc.devRef .tc main_arg10) = W (Proc.devRef .tc main_arg10) := by
  after_results

theorem h10_keep_main_arg12 (W : Valuation τ sig (Elt F)) : after hostOps10 W (Proc.devRef .tc main_arg12) = W (Proc.devRef .tc main_arg12) := by
  after_results

theorem h10_keep_main_arg13 (W : Valuation τ sig (Elt F)) : after hostOps10 W (Proc.devRef .tc main_arg13) = W (Proc.devRef .tc main_arg13) := by
  after_results

theorem h10_keep_main_arg14 (W : Valuation τ sig (Elt F)) : after hostOps10 W (Proc.devRef .tc main_arg14) = W (Proc.devRef .tc main_arg14) := by
  after_results

theorem h10_keep_main_arg15 (W : Valuation τ sig (Elt F)) : after hostOps10 W (Proc.devRef .tc main_arg15) = W (Proc.devRef .tc main_arg15) := by
  after_results

theorem h10_keep_main_v129 (W : Valuation τ sig (Elt F)) : after hostOps10 W (Proc.devRef .tc main_v129) = W (Proc.devRef .tc main_v129) := by
  after_results

theorem h10_keep_main_v149_0 (W : Valuation τ sig (Elt F)) : after hostOps10 W (Proc.devRef .tc main_v149_0) = W (Proc.devRef .tc main_v149_0) := by
  after_results

set_option maxHeartbeats 2000000 in
theorem h11_main_v169 (W : Valuation τ sig (Elt F)) :
    after hostOps11 W (Proc.devRef .tc main_v169) = ((Host.divf : (⟨S1x128, .f32⟩ : BufTy).Contents (Elt F) → (⟨S1x128, .f32⟩ : BufTy).Contents (Elt F) → (⟨S1x128, .f32⟩ : BufTy).Contents (Elt F)) (W (Proc.devRef .tc main_v167_1)) ((broadcastInDim S1x128 ![] bcast_S_S1x128 : (⟨S_, .f32⟩ : BufTy).Contents (Elt F) → (⟨S1x128, .f32⟩ : BufTy).Contents (Elt F)) ((constant S_ .f32 0x47435000#32)))) := by
  after_results
  all_goals rfl

set_option maxHeartbeats 2000000 in
theorem h11_main_v173 (W : Valuation τ sig (Elt F)) :
    after hostOps11 W (Proc.devRef .tc main_v173) = ((subf : (⟨S1x128, .f32⟩ : BufTy).Contents (Elt F) → (⟨S1x128, .f32⟩ : BufTy).Contents (Elt F) → (⟨S1x128, .f32⟩ : BufTy).Contents (Elt F)) ((Host.divf : (⟨S1x128, .f32⟩ : BufTy).Contents (Elt F) → (⟨S1x128, .f32⟩ : BufTy).Contents (Elt F) → (⟨S1x128, .f32⟩ : BufTy).Contents (Elt F)) (W (Proc.devRef .tc main_v167_2)) ((broadcastInDim S1x128 ![] bcast_S_S1x128 : (⟨S_, .f32⟩ : BufTy).Contents (Elt F) → (⟨S1x128, .f32⟩ : BufTy).Contents (Elt F)) ((constant S_ .f32 0x47435000#32)))) ((mulf : (⟨S1x128, .f32⟩ : BufTy).Contents (Elt F) → (⟨S1x128, .f32⟩ : BufTy).Contents (Elt F) → (⟨S1x128, .f32⟩ : BufTy).Contents (Elt F)) ((Host.divf : (⟨S1x128, .f32⟩ : BufTy).Contents (Elt F) → (⟨S1x128, .f32⟩ : BufTy).Contents (Elt F) → (⟨S1x128, .f32⟩ : BufTy).Contents (Elt F)) (W (Proc.devRef .tc main_v167_1)) ((broadcastInDim S1x128 ![] bcast_S_S1x128 : (⟨S_, .f32⟩ : BufTy).Contents (Elt F) → (⟨S1x128, .f32⟩ : BufTy).Contents (Elt F)) ((constant S_ .f32 0x47435000#32)))) ((Host.divf : (⟨S1x128, .f32⟩ : BufTy).Contents (Elt F) → (⟨S1x128, .f32⟩ : BufTy).Contents (Elt F) → (⟨S1x128, .f32⟩ : BufTy).Contents (Elt F)) (W (Proc.devRef .tc main_v167_1)) ((broadcastInDim S1x128 ![] bcast_S_S1x128 : (⟨S_, .f32⟩ : BufTy).Contents (Elt F) → (⟨S1x128, .f32⟩ : BufTy).Contents (Elt F)) ((constant S_ .f32 0x47435000#32)))))) := by
  after_results
  all_goals rfl

set_option maxHeartbeats 2000000 in
theorem h11_main_v176 (W : Valuation τ sig (Elt F)) :
    after hostOps11 W (Proc.devRef .tc main_v176) = (shapeCast S1x128 (shapeCast S128 (((extractStridedSlice S1x128 ![2, 0] · slices_S4x128_S1x128_2_0) : (⟨S4x128, .f32⟩ : BufTy).Contents (Elt F) → (⟨S1x128, .f32⟩ : BufTy).Contents (Elt F)) (W (Proc.devRef .tc main_arg12))) shapeCasts_S1x128_S128) shapeCasts_S128_S1x128) := by
  after_results
  all_goals rfl

set_option maxHeartbeats 2000000 in
theorem h11_main_v179 (W : Valuation τ sig (Elt F)) :
    after hostOps11 W (Proc.devRef .tc main_v179) = (shapeCast S1x128 (shapeCast S128 (((extractStridedSlice S1x128 ![2, 0] · slices_S4x128_S1x128_2_0) : (⟨S4x128, .f32⟩ : BufTy).Contents (Elt F) → (⟨S1x128, .f32⟩ : BufTy).Contents (Elt F)) (W (Proc.devRef .tc main_arg13))) shapeCasts_S1x128_S128) shapeCasts_S128_S1x128) := by
  after_results
  all_goals rfl

theorem h11_keep_main_arg1 (W : Valuation τ sig (Elt F)) : after hostOps11 W (Proc.devRef .tc main_arg1) = W (Proc.devRef .tc main_arg1) := by
  after_results

theorem h11_keep_main_arg2 (W : Valuation τ sig (Elt F)) : after hostOps11 W (Proc.devRef .tc main_arg2) = W (Proc.devRef .tc main_arg2) := by
  after_results

theorem h11_keep_main_arg5 (W : Valuation τ sig (Elt F)) : after hostOps11 W (Proc.devRef .tc main_arg5) = W (Proc.devRef .tc main_arg5) := by
  after_results

theorem h11_keep_main_arg7 (W : Valuation τ sig (Elt F)) : after hostOps11 W (Proc.devRef .tc main_arg7) = W (Proc.devRef .tc main_arg7) := by
  after_results

theorem h11_keep_main_arg6 (W : Valuation τ sig (Elt F)) : after hostOps11 W (Proc.devRef .tc main_arg6) = W (Proc.devRef .tc main_arg6) := by
  after_results

theorem h11_keep_main_arg8 (W : Valuation τ sig (Elt F)) : after hostOps11 W (Proc.devRef .tc main_arg8) = W (Proc.devRef .tc main_arg8) := by
  after_results

theorem h11_keep_main_arg9 (W : Valuation τ sig (Elt F)) : after hostOps11 W (Proc.devRef .tc main_arg9) = W (Proc.devRef .tc main_arg9) := by
  after_results

theorem h11_keep_main_arg11 (W : Valuation τ sig (Elt F)) : after hostOps11 W (Proc.devRef .tc main_arg11) = W (Proc.devRef .tc main_arg11) := by
  after_results

theorem h11_keep_main_arg10 (W : Valuation τ sig (Elt F)) : after hostOps11 W (Proc.devRef .tc main_arg10) = W (Proc.devRef .tc main_arg10) := by
  after_results

theorem h11_keep_main_arg12 (W : Valuation τ sig (Elt F)) : after hostOps11 W (Proc.devRef .tc main_arg12) = W (Proc.devRef .tc main_arg12) := by
  after_results

theorem h11_keep_main_arg13 (W : Valuation τ sig (Elt F)) : after hostOps11 W (Proc.devRef .tc main_arg13) = W (Proc.devRef .tc main_arg13) := by
  after_results

theorem h11_keep_main_arg14 (W : Valuation τ sig (Elt F)) : after hostOps11 W (Proc.devRef .tc main_arg14) = W (Proc.devRef .tc main_arg14) := by
  after_results

theorem h11_keep_main_arg15 (W : Valuation τ sig (Elt F)) : after hostOps11 W (Proc.devRef .tc main_arg15) = W (Proc.devRef .tc main_arg15) := by
  after_results

theorem h11_keep_main_v129 (W : Valuation τ sig (Elt F)) : after hostOps11 W (Proc.devRef .tc main_v129) = W (Proc.devRef .tc main_v129) := by
  after_results

theorem h11_keep_main_v167_0 (W : Valuation τ sig (Elt F)) : after hostOps11 W (Proc.devRef .tc main_v167_0) = W (Proc.devRef .tc main_v167_0) := by
  after_results

set_option maxHeartbeats 2000000 in
theorem h12_main_v182 (W : Valuation τ sig (Elt F)) :
    after hostOps12 W (Proc.devRef .tc main_v182) = ((Host.divf : (⟨S1x128, .f32⟩ : BufTy).Contents (Elt F) → (⟨S1x128, .f32⟩ : BufTy).Contents (Elt F) → (⟨S1x128, .f32⟩ : BufTy).Contents (Elt F)) (W (Proc.devRef .tc main_v180_1)) ((broadcastInDim S1x128 ![] bcast_S_S1x128 : (⟨S_, .f32⟩ : BufTy).Contents (Elt F) → (⟨S1x128, .f32⟩ : BufTy).Contents (Elt F)) ((constant S_ .f32 0x47435000#32)))) := by
  after_results
  all_goals rfl

set_option maxHeartbeats 2000000 in
theorem h12_main_v186 (W : Valuation τ sig (Elt F)) :
    after hostOps12 W (Proc.devRef .tc main_v186) = ((subf : (⟨S1x128, .f32⟩ : BufTy).Contents (Elt F) → (⟨S1x128, .f32⟩ : BufTy).Contents (Elt F) → (⟨S1x128, .f32⟩ : BufTy).Contents (Elt F)) ((Host.divf : (⟨S1x128, .f32⟩ : BufTy).Contents (Elt F) → (⟨S1x128, .f32⟩ : BufTy).Contents (Elt F) → (⟨S1x128, .f32⟩ : BufTy).Contents (Elt F)) (W (Proc.devRef .tc main_v180_2)) ((broadcastInDim S1x128 ![] bcast_S_S1x128 : (⟨S_, .f32⟩ : BufTy).Contents (Elt F) → (⟨S1x128, .f32⟩ : BufTy).Contents (Elt F)) ((constant S_ .f32 0x47435000#32)))) ((mulf : (⟨S1x128, .f32⟩ : BufTy).Contents (Elt F) → (⟨S1x128, .f32⟩ : BufTy).Contents (Elt F) → (⟨S1x128, .f32⟩ : BufTy).Contents (Elt F)) ((Host.divf : (⟨S1x128, .f32⟩ : BufTy).Contents (Elt F) → (⟨S1x128, .f32⟩ : BufTy).Contents (Elt F) → (⟨S1x128, .f32⟩ : BufTy).Contents (Elt F)) (W (Proc.devRef .tc main_v180_1)) ((broadcastInDim S1x128 ![] bcast_S_S1x128 : (⟨S_, .f32⟩ : BufTy).Contents (Elt F) → (⟨S1x128, .f32⟩ : BufTy).Contents (Elt F)) ((constant S_ .f32 0x47435000#32)))) ((Host.divf : (⟨S1x128, .f32⟩ : BufTy).Contents (Elt F) → (⟨S1x128, .f32⟩ : BufTy).Contents (Elt F) → (⟨S1x128, .f32⟩ : BufTy).Contents (Elt F)) (W (Proc.devRef .tc main_v180_1)) ((broadcastInDim S1x128 ![] bcast_S_S1x128 : (⟨S_, .f32⟩ : BufTy).Contents (Elt F) → (⟨S1x128, .f32⟩ : BufTy).Contents (Elt F)) ((constant S_ .f32 0x47435000#32)))))) := by
  after_results
  all_goals rfl

set_option maxHeartbeats 2000000 in
theorem h12_main_v189 (W : Valuation τ sig (Elt F)) :
    after hostOps12 W (Proc.devRef .tc main_v189) = (shapeCast S1x128 (shapeCast S128 (((extractStridedSlice S1x128 ![2, 0] · slices_S4x128_S1x128_2_0) : (⟨S4x128, .f32⟩ : BufTy).Contents (Elt F) → (⟨S1x128, .f32⟩ : BufTy).Contents (Elt F)) (W (Proc.devRef .tc main_arg14))) shapeCasts_S1x128_S128) shapeCasts_S128_S1x128) := by
  after_results
  all_goals rfl

set_option maxHeartbeats 2000000 in
theorem h12_main_v192 (W : Valuation τ sig (Elt F)) :
    after hostOps12 W (Proc.devRef .tc main_v192) = (shapeCast S1x128 (shapeCast S128 (((extractStridedSlice S1x128 ![2, 0] · slices_S4x128_S1x128_2_0) : (⟨S4x128, .f32⟩ : BufTy).Contents (Elt F) → (⟨S1x128, .f32⟩ : BufTy).Contents (Elt F)) (W (Proc.devRef .tc main_arg15))) shapeCasts_S1x128_S128) shapeCasts_S128_S1x128) := by
  after_results
  all_goals rfl

theorem h12_keep_main_arg1 (W : Valuation τ sig (Elt F)) : after hostOps12 W (Proc.devRef .tc main_arg1) = W (Proc.devRef .tc main_arg1) := by
  after_results

theorem h12_keep_main_arg2 (W : Valuation τ sig (Elt F)) : after hostOps12 W (Proc.devRef .tc main_arg2) = W (Proc.devRef .tc main_arg2) := by
  after_results

theorem h12_keep_main_arg5 (W : Valuation τ sig (Elt F)) : after hostOps12 W (Proc.devRef .tc main_arg5) = W (Proc.devRef .tc main_arg5) := by
  after_results

theorem h12_keep_main_arg7 (W : Valuation τ sig (Elt F)) : after hostOps12 W (Proc.devRef .tc main_arg7) = W (Proc.devRef .tc main_arg7) := by
  after_results

theorem h12_keep_main_arg6 (W : Valuation τ sig (Elt F)) : after hostOps12 W (Proc.devRef .tc main_arg6) = W (Proc.devRef .tc main_arg6) := by
  after_results

theorem h12_keep_main_arg8 (W : Valuation τ sig (Elt F)) : after hostOps12 W (Proc.devRef .tc main_arg8) = W (Proc.devRef .tc main_arg8) := by
  after_results

theorem h12_keep_main_arg9 (W : Valuation τ sig (Elt F)) : after hostOps12 W (Proc.devRef .tc main_arg9) = W (Proc.devRef .tc main_arg9) := by
  after_results

theorem h12_keep_main_arg11 (W : Valuation τ sig (Elt F)) : after hostOps12 W (Proc.devRef .tc main_arg11) = W (Proc.devRef .tc main_arg11) := by
  after_results

theorem h12_keep_main_arg10 (W : Valuation τ sig (Elt F)) : after hostOps12 W (Proc.devRef .tc main_arg10) = W (Proc.devRef .tc main_arg10) := by
  after_results

theorem h12_keep_main_arg12 (W : Valuation τ sig (Elt F)) : after hostOps12 W (Proc.devRef .tc main_arg12) = W (Proc.devRef .tc main_arg12) := by
  after_results

theorem h12_keep_main_arg13 (W : Valuation τ sig (Elt F)) : after hostOps12 W (Proc.devRef .tc main_arg13) = W (Proc.devRef .tc main_arg13) := by
  after_results

theorem h12_keep_main_arg14 (W : Valuation τ sig (Elt F)) : after hostOps12 W (Proc.devRef .tc main_arg14) = W (Proc.devRef .tc main_arg14) := by
  after_results

theorem h12_keep_main_arg15 (W : Valuation τ sig (Elt F)) : after hostOps12 W (Proc.devRef .tc main_arg15) = W (Proc.devRef .tc main_arg15) := by
  after_results

theorem h12_keep_main_v129 (W : Valuation τ sig (Elt F)) : after hostOps12 W (Proc.devRef .tc main_v129) = W (Proc.devRef .tc main_v129) := by
  after_results

theorem h12_keep_main_v180_0 (W : Valuation τ sig (Elt F)) : after hostOps12 W (Proc.devRef .tc main_v180_0) = W (Proc.devRef .tc main_v180_0) := by
  after_results

set_option maxHeartbeats 2000000 in
theorem h13_main_v203 (W : Valuation τ sig (Elt F)) :
    after hostOps13 W (Proc.devRef .tc main_v203) = (((fun x i u => Host.scatterAdd scatter_S50000x128_S1600000x1_S1600000x128_1_0_0_1 x i u) : (⟨S50000x128, .f32⟩ : BufTy).Contents (Elt F) → (⟨S1600000x1, .i32⟩ : BufTy).Contents (Elt F) → (⟨S1600000x128, .f32⟩ : BufTy).Contents (Elt F) → (⟨S50000x128, .f32⟩ : BufTy).Contents (Elt F)) ((broadcastInDim S50000x128 ![] bcast_S_S50000x128 : (⟨S_, .f32⟩ : BufTy).Contents (Elt F) → (⟨S50000x128, .f32⟩ : BufTy).Contents (Elt F)) ((constant S_ .f32 0x00000000#32))) ((broadcastInDim S1600000x1 ![0] bcast_S1600000_S1600000x1_0 : (⟨S1600000, .i32⟩ : BufTy).Contents (Elt F) → (⟨S1600000x1, .i32⟩ : BufTy).Contents (Elt F)) (W (Proc.devRef .tc main_arg2))) (((fun x i => Host.gather gather_S50000x128_S1600000x1_S1600000x128_1_0_n_n_0_1_1128 x i) : (⟨S50000x128, .f32⟩ : BufTy).Contents (Elt F) → (⟨S1600000x1, .i32⟩ : BufTy).Contents (Elt F) → (⟨S1600000x128, .f32⟩ : BufTy).Contents (Elt F)) (W (Proc.devRef .tc main_v193)) ((broadcastInDim S1600000x1 ![0] bcast_S1600000_S1600000x1_0 : (⟨S1600000, .i32⟩ : BufTy).Contents (Elt F) → (⟨S1600000x1, .i32⟩ : BufTy).Contents (Elt F)) ((select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)) ((cmpi .slt : (⟨S1600000, .i32⟩ : BufTy).Contents (Elt F) → (⟨S1600000, .i32⟩ : BufTy).Contents (Elt F) → (⟨S1600000, .i1⟩ : BufTy).Contents (Elt F)) (W (Proc.devRef .tc main_arg1)) ((broadcastInDim S1600000 ![] bcast_S_S1600000 : (⟨S_, .i32⟩ : BufTy).Contents (Elt F) → (⟨S1600000, .i32⟩ : BufTy).Contents (Elt F)) ((constantI S_ 32 0#32)))) ((addi : (⟨S1600000, .i32⟩ : BufTy).Contents (Elt F) → (⟨S1600000, .i32⟩ : BufTy).Contents (Elt F) → (⟨S1600000, .i32⟩ : BufTy).Contents (Elt F)) (W (Proc.devRef .tc main_arg1)) ((broadcastInDim S1600000 ![] bcast_S_S1600000 : (⟨S_, .i32⟩ : BufTy).Contents (Elt F) → (⟨S1600000, .i32⟩ : BufTy).Contents (Elt F)) ((constantI S_ 32 50000#32)))) (W (Proc.devRef .tc main_arg1)))))) := by
  after_results
  all_goals rfl

set_option maxHeartbeats 2000000 in
theorem h13_main_v207 (W : Valuation τ sig (Elt F)) :
    after hostOps13 W (Proc.devRef .tc main_v207) = (shapeCast S1x1 ((addf : (⟨S_, .f32⟩ : BufTy).Contents (Elt F) → (⟨S_, .f32⟩ : BufTy).Contents (Elt F) → (⟨S_, .f32⟩ : BufTy).Contents (Elt F)) ((constant S_ .f32 0x3F800000#32)) (shapeCast S_ (((extractStridedSlice S1 ![3] · slices_S4_S1_3) : (⟨S4, .f32⟩ : BufTy).Contents (Elt F) → (⟨S1, .f32⟩ : BufTy).Contents (Elt F)) (W (Proc.devRef .tc main_arg5))) shapeCasts_S1_S_)) shapeCasts_S_S1x1) := by
  after_results
  all_goals rfl

set_option maxHeartbeats 2000000 in
theorem h13_main_v210 (W : Valuation τ sig (Elt F)) :
    after hostOps13 W (Proc.devRef .tc main_v210) = (shapeCast S1x128 (shapeCast S128 (((extractStridedSlice S1x128 ![3, 0] · slices_S4x128_S1x128_3_0) : (⟨S4x128, .f32⟩ : BufTy).Contents (Elt F) → (⟨S1x128, .f32⟩ : BufTy).Contents (Elt F)) (W (Proc.devRef .tc main_arg7))) shapeCasts_S1x128_S128) shapeCasts_S128_S1x128) := by
  after_results
  all_goals rfl

set_option maxHeartbeats 2000000 in
theorem h13_main_v212 (W : Valuation τ sig (Elt F)) :
    after hostOps13 W (Proc.devRef .tc main_v212) = (shapeCast S128x128 (((extractStridedSlice S1x128x128 ![3, 0, 0] · slices_S4x128x128_S1x128x128_3_0_0) : (⟨S4x128x128, .f32⟩ : BufTy).Contents (Elt F) → (⟨S1x128x128, .f32⟩ : BufTy).Contents (Elt F)) (W (Proc.devRef .tc main_arg6))) shapeCasts_S1x128x128_S128x128) := by
  after_results
  all_goals rfl

theorem h13_keep_main_arg8 (W : Valuation τ sig (Elt F)) : after hostOps13 W (Proc.devRef .tc main_arg8) = W (Proc.devRef .tc main_arg8) := by
  after_results

theorem h13_keep_main_arg9 (W : Valuation τ sig (Elt F)) : after hostOps13 W (Proc.devRef .tc main_arg9) = W (Proc.devRef .tc main_arg9) := by
  after_results

theorem h13_keep_main_arg11 (W : Valuation τ sig (Elt F)) : after hostOps13 W (Proc.devRef .tc main_arg11) = W (Proc.devRef .tc main_arg11) := by
  after_results

theorem h13_keep_main_arg10 (W : Valuation τ sig (Elt F)) : after hostOps13 W (Proc.devRef .tc main_arg10) = W (Proc.devRef .tc main_arg10) := by
  after_results

theorem h13_keep_main_arg12 (W : Valuation τ sig (Elt F)) : after hostOps13 W (Proc.devRef .tc main_arg12) = W (Proc.devRef .tc main_arg12) := by
  after_results

theorem h13_keep_main_arg13 (W : Valuation τ sig (Elt F)) : after hostOps13 W (Proc.devRef .tc main_arg13) = W (Proc.devRef .tc main_arg13) := by
  after_results

theorem h13_keep_main_arg14 (W : Valuation τ sig (Elt F)) : after hostOps13 W (Proc.devRef .tc main_arg14) = W (Proc.devRef .tc main_arg14) := by
  after_results

theorem h13_keep_main_arg15 (W : Valuation τ sig (Elt F)) : after hostOps13 W (Proc.devRef .tc main_arg15) = W (Proc.devRef .tc main_arg15) := by
  after_results

theorem h13_keep_main_v193 (W : Valuation τ sig (Elt F)) : after hostOps13 W (Proc.devRef .tc main_v193) = W (Proc.devRef .tc main_v193) := by
  after_results

set_option maxHeartbeats 2000000 in
theorem h14_main_v215 (W : Valuation τ sig (Elt F)) :
    after hostOps14 W (Proc.devRef .tc main_v215) = ((Host.divf : (⟨S1x128, .f32⟩ : BufTy).Contents (Elt F) → (⟨S1x128, .f32⟩ : BufTy).Contents (Elt F) → (⟨S1x128, .f32⟩ : BufTy).Contents (Elt F)) (W (Proc.devRef .tc main_v213_1)) ((broadcastInDim S1x128 ![] bcast_S_S1x128 : (⟨S_, .f32⟩ : BufTy).Contents (Elt F) → (⟨S1x128, .f32⟩ : BufTy).Contents (Elt F)) ((constant S_ .f32 0x47435000#32)))) := by
  after_results
  all_goals rfl

set_option maxHeartbeats 2000000 in
theorem h14_main_v219 (W : Valuation τ sig (Elt F)) :
    after hostOps14 W (Proc.devRef .tc main_v219) = ((subf : (⟨S1x128, .f32⟩ : BufTy).Contents (Elt F) → (⟨S1x128, .f32⟩ : BufTy).Contents (Elt F) → (⟨S1x128, .f32⟩ : BufTy).Contents (Elt F)) ((Host.divf : (⟨S1x128, .f32⟩ : BufTy).Contents (Elt F) → (⟨S1x128, .f32⟩ : BufTy).Contents (Elt F) → (⟨S1x128, .f32⟩ : BufTy).Contents (Elt F)) (W (Proc.devRef .tc main_v213_2)) ((broadcastInDim S1x128 ![] bcast_S_S1x128 : (⟨S_, .f32⟩ : BufTy).Contents (Elt F) → (⟨S1x128, .f32⟩ : BufTy).Contents (Elt F)) ((constant S_ .f32 0x47435000#32)))) ((mulf : (⟨S1x128, .f32⟩ : BufTy).Contents (Elt F) → (⟨S1x128, .f32⟩ : BufTy).Contents (Elt F) → (⟨S1x128, .f32⟩ : BufTy).Contents (Elt F)) ((Host.divf : (⟨S1x128, .f32⟩ : BufTy).Contents (Elt F) → (⟨S1x128, .f32⟩ : BufTy).Contents (Elt F) → (⟨S1x128, .f32⟩ : BufTy).Contents (Elt F)) (W (Proc.devRef .tc main_v213_1)) ((broadcastInDim S1x128 ![] bcast_S_S1x128 : (⟨S_, .f32⟩ : BufTy).Contents (Elt F) → (⟨S1x128, .f32⟩ : BufTy).Contents (Elt F)) ((constant S_ .f32 0x47435000#32)))) ((Host.divf : (⟨S1x128, .f32⟩ : BufTy).Contents (Elt F) → (⟨S1x128, .f32⟩ : BufTy).Contents (Elt F) → (⟨S1x128, .f32⟩ : BufTy).Contents (Elt F)) (W (Proc.devRef .tc main_v213_1)) ((broadcastInDim S1x128 ![] bcast_S_S1x128 : (⟨S_, .f32⟩ : BufTy).Contents (Elt F) → (⟨S1x128, .f32⟩ : BufTy).Contents (Elt F)) ((constant S_ .f32 0x47435000#32)))))) := by
  after_results
  all_goals rfl

set_option maxHeartbeats 2000000 in
theorem h14_main_v222 (W : Valuation τ sig (Elt F)) :
    after hostOps14 W (Proc.devRef .tc main_v222) = (shapeCast S1x128 (shapeCast S128 (((extractStridedSlice S1x128 ![3, 0] · slices_S4x128_S1x128_3_0) : (⟨S4x128, .f32⟩ : BufTy).Contents (Elt F) → (⟨S1x128, .f32⟩ : BufTy).Contents (Elt F)) (W (Proc.devRef .tc main_arg8))) shapeCasts_S1x128_S128) shapeCasts_S128_S1x128) := by
  after_results
  all_goals rfl

set_option maxHeartbeats 2000000 in
theorem h14_main_v225 (W : Valuation τ sig (Elt F)) :
    after hostOps14 W (Proc.devRef .tc main_v225) = (shapeCast S1x128 (shapeCast S128 (((extractStridedSlice S1x128 ![3, 0] · slices_S4x128_S1x128_3_0) : (⟨S4x128, .f32⟩ : BufTy).Contents (Elt F) → (⟨S1x128, .f32⟩ : BufTy).Contents (Elt F)) (W (Proc.devRef .tc main_arg9))) shapeCasts_S1x128_S128) shapeCasts_S128_S1x128) := by
  after_results
  all_goals rfl

set_option maxHeartbeats 2000000 in
theorem h14_main_v228 (W : Valuation τ sig (Elt F)) :
    after hostOps14 W (Proc.devRef .tc main_v228) = (shapeCast S1x128 (shapeCast S128 (((extractStridedSlice S1x128 ![3, 0] · slices_S4x128_S1x128_3_0) : (⟨S4x128, .f32⟩ : BufTy).Contents (Elt F) → (⟨S1x128, .f32⟩ : BufTy).Contents (Elt F)) (W (Proc.devRef .tc main_arg11))) shapeCasts_S1x128_S128) shapeCasts_S128_S1x128) := by
  after_results
  all_goals rfl

set_option maxHeartbeats 2000000 in
theorem h14_main_v230 (W : Valuation τ sig (Elt F)) :
    after hostOps14 W (Proc.devRef .tc main_v230) = (shapeCast S128x128 (((extractStridedSlice S1x128x128 ![3, 0, 0] · slices_S4x128x128_S1x128x128_3_0_0) : (⟨S4x128x128, .f32⟩ : BufTy).Contents (Elt F) → (⟨S1x128x128, .f32⟩ : BufTy).Contents (Elt F)) (W (Proc.devRef .tc main_arg10))) shapeCasts_S1x128x128_S128x128) := by
  after_results
  all_goals rfl

theorem h14_keep_main_arg12 (W : Valuation τ sig (Elt F)) : after hostOps14 W (Proc.devRef .tc main_arg12) = W (Proc.devRef .tc main_arg12) := by
  after_results

theorem h14_keep_main_arg13 (W : Valuation τ sig (Elt F)) : after hostOps14 W (Proc.devRef .tc main_arg13) = W (Proc.devRef .tc main_arg13) := by
  after_results

theorem h14_keep_main_arg14 (W : Valuation τ sig (Elt F)) : after hostOps14 W (Proc.devRef .tc main_arg14) = W (Proc.devRef .tc main_arg14) := by
  after_results

theorem h14_keep_main_arg15 (W : Valuation τ sig (Elt F)) : after hostOps14 W (Proc.devRef .tc main_arg15) = W (Proc.devRef .tc main_arg15) := by
  after_results

theorem h14_keep_main_v193 (W : Valuation τ sig (Elt F)) : after hostOps14 W (Proc.devRef .tc main_v193) = W (Proc.devRef .tc main_v193) := by
  after_results

theorem h14_keep_main_v213_0 (W : Valuation τ sig (Elt F)) : after hostOps14 W (Proc.devRef .tc main_v213_0) = W (Proc.devRef .tc main_v213_0) := by
  after_results

set_option maxHeartbeats 2000000 in
theorem h15_main_v233 (W : Valuation τ sig (Elt F)) :
    after hostOps15 W (Proc.devRef .tc main_v233) = ((Host.divf : (⟨S1x128, .f32⟩ : BufTy).Contents (Elt F) → (⟨S1x128, .f32⟩ : BufTy).Contents (Elt F) → (⟨S1x128, .f32⟩ : BufTy).Contents (Elt F)) (W (Proc.devRef .tc main_v231_1)) ((broadcastInDim S1x128 ![] bcast_S_S1x128 : (⟨S_, .f32⟩ : BufTy).Contents (Elt F) → (⟨S1x128, .f32⟩ : BufTy).Contents (Elt F)) ((constant S_ .f32 0x47435000#32)))) := by
  after_results
  all_goals rfl

set_option maxHeartbeats 2000000 in
theorem h15_main_v237 (W : Valuation τ sig (Elt F)) :
    after hostOps15 W (Proc.devRef .tc main_v237) = ((subf : (⟨S1x128, .f32⟩ : BufTy).Contents (Elt F) → (⟨S1x128, .f32⟩ : BufTy).Contents (Elt F) → (⟨S1x128, .f32⟩ : BufTy).Contents (Elt F)) ((Host.divf : (⟨S1x128, .f32⟩ : BufTy).Contents (Elt F) → (⟨S1x128, .f32⟩ : BufTy).Contents (Elt F) → (⟨S1x128, .f32⟩ : BufTy).Contents (Elt F)) (W (Proc.devRef .tc main_v231_2)) ((broadcastInDim S1x128 ![] bcast_S_S1x128 : (⟨S_, .f32⟩ : BufTy).Contents (Elt F) → (⟨S1x128, .f32⟩ : BufTy).Contents (Elt F)) ((constant S_ .f32 0x47435000#32)))) ((mulf : (⟨S1x128, .f32⟩ : BufTy).Contents (Elt F) → (⟨S1x128, .f32⟩ : BufTy).Contents (Elt F) → (⟨S1x128, .f32⟩ : BufTy).Contents (Elt F)) ((Host.divf : (⟨S1x128, .f32⟩ : BufTy).Contents (Elt F) → (⟨S1x128, .f32⟩ : BufTy).Contents (Elt F) → (⟨S1x128, .f32⟩ : BufTy).Contents (Elt F)) (W (Proc.devRef .tc main_v231_1)) ((broadcastInDim S1x128 ![] bcast_S_S1x128 : (⟨S_, .f32⟩ : BufTy).Contents (Elt F) → (⟨S1x128, .f32⟩ : BufTy).Contents (Elt F)) ((constant S_ .f32 0x47435000#32)))) ((Host.divf : (⟨S1x128, .f32⟩ : BufTy).Contents (Elt F) → (⟨S1x128, .f32⟩ : BufTy).Contents (Elt F) → (⟨S1x128, .f32⟩ : BufTy).Contents (Elt F)) (W (Proc.devRef .tc main_v231_1)) ((broadcastInDim S1x128 ![] bcast_S_S1x128 : (⟨S_, .f32⟩ : BufTy).Contents (Elt F) → (⟨S1x128, .f32⟩ : BufTy).Contents (Elt F)) ((constant S_ .f32 0x47435000#32)))))) := by
  after_results
  all_goals rfl

set_option maxHeartbeats 2000000 in
theorem h15_main_v240 (W : Valuation τ sig (Elt F)) :
    after hostOps15 W (Proc.devRef .tc main_v240) = (shapeCast S1x128 (shapeCast S128 (((extractStridedSlice S1x128 ![3, 0] · slices_S4x128_S1x128_3_0) : (⟨S4x128, .f32⟩ : BufTy).Contents (Elt F) → (⟨S1x128, .f32⟩ : BufTy).Contents (Elt F)) (W (Proc.devRef .tc main_arg12))) shapeCasts_S1x128_S128) shapeCasts_S128_S1x128) := by
  after_results
  all_goals rfl

set_option maxHeartbeats 2000000 in
theorem h15_main_v243 (W : Valuation τ sig (Elt F)) :
    after hostOps15 W (Proc.devRef .tc main_v243) = (shapeCast S1x128 (shapeCast S128 (((extractStridedSlice S1x128 ![3, 0] · slices_S4x128_S1x128_3_0) : (⟨S4x128, .f32⟩ : BufTy).Contents (Elt F) → (⟨S1x128, .f32⟩ : BufTy).Contents (Elt F)) (W (Proc.devRef .tc main_arg13))) shapeCasts_S1x128_S128) shapeCasts_S128_S1x128) := by
  after_results
  all_goals rfl

theorem h15_keep_main_arg14 (W : Valuation τ sig (Elt F)) : after hostOps15 W (Proc.devRef .tc main_arg14) = W (Proc.devRef .tc main_arg14) := by
  after_results

theorem h15_keep_main_arg15 (W : Valuation τ sig (Elt F)) : after hostOps15 W (Proc.devRef .tc main_arg15) = W (Proc.devRef .tc main_arg15) := by
  after_results

theorem h15_keep_main_v193 (W : Valuation τ sig (Elt F)) : after hostOps15 W (Proc.devRef .tc main_v193) = W (Proc.devRef .tc main_v193) := by
  after_results

theorem h15_keep_main_v231_0 (W : Valuation τ sig (Elt F)) : after hostOps15 W (Proc.devRef .tc main_v231_0) = W (Proc.devRef .tc main_v231_0) := by
  after_results

set_option maxHeartbeats 2000000 in
theorem h16_main_v246 (W : Valuation τ sig (Elt F)) :
    after hostOps16 W (Proc.devRef .tc main_v246) = ((Host.divf : (⟨S1x128, .f32⟩ : BufTy).Contents (Elt F) → (⟨S1x128, .f32⟩ : BufTy).Contents (Elt F) → (⟨S1x128, .f32⟩ : BufTy).Contents (Elt F)) (W (Proc.devRef .tc main_v244_1)) ((broadcastInDim S1x128 ![] bcast_S_S1x128 : (⟨S_, .f32⟩ : BufTy).Contents (Elt F) → (⟨S1x128, .f32⟩ : BufTy).Contents (Elt F)) ((constant S_ .f32 0x47435000#32)))) := by
  after_results
  all_goals rfl

set_option maxHeartbeats 2000000 in
theorem h16_main_v250 (W : Valuation τ sig (Elt F)) :
    after hostOps16 W (Proc.devRef .tc main_v250) = ((subf : (⟨S1x128, .f32⟩ : BufTy).Contents (Elt F) → (⟨S1x128, .f32⟩ : BufTy).Contents (Elt F) → (⟨S1x128, .f32⟩ : BufTy).Contents (Elt F)) ((Host.divf : (⟨S1x128, .f32⟩ : BufTy).Contents (Elt F) → (⟨S1x128, .f32⟩ : BufTy).Contents (Elt F) → (⟨S1x128, .f32⟩ : BufTy).Contents (Elt F)) (W (Proc.devRef .tc main_v244_2)) ((broadcastInDim S1x128 ![] bcast_S_S1x128 : (⟨S_, .f32⟩ : BufTy).Contents (Elt F) → (⟨S1x128, .f32⟩ : BufTy).Contents (Elt F)) ((constant S_ .f32 0x47435000#32)))) ((mulf : (⟨S1x128, .f32⟩ : BufTy).Contents (Elt F) → (⟨S1x128, .f32⟩ : BufTy).Contents (Elt F) → (⟨S1x128, .f32⟩ : BufTy).Contents (Elt F)) ((Host.divf : (⟨S1x128, .f32⟩ : BufTy).Contents (Elt F) → (⟨S1x128, .f32⟩ : BufTy).Contents (Elt F) → (⟨S1x128, .f32⟩ : BufTy).Contents (Elt F)) (W (Proc.devRef .tc main_v244_1)) ((broadcastInDim S1x128 ![] bcast_S_S1x128 : (⟨S_, .f32⟩ : BufTy).Contents (Elt F) → (⟨S1x128, .f32⟩ : BufTy).Contents (Elt F)) ((constant S_ .f32 0x47435000#32)))) ((Host.divf : (⟨S1x128, .f32⟩ : BufTy).Contents (Elt F) → (⟨S1x128, .f32⟩ : BufTy).Contents (Elt F) → (⟨S1x128, .f32⟩ : BufTy).Contents (Elt F)) (W (Proc.devRef .tc main_v244_1)) ((broadcastInDim S1x128 ![] bcast_S_S1x128 : (⟨S_, .f32⟩ : BufTy).Contents (Elt F) → (⟨S1x128, .f32⟩ : BufTy).Contents (Elt F)) ((constant S_ .f32 0x47435000#32)))))) := by
  after_results
  all_goals rfl

set_option maxHeartbeats 2000000 in
theorem h16_main_v253 (W : Valuation τ sig (Elt F)) :
    after hostOps16 W (Proc.devRef .tc main_v253) = (shapeCast S1x128 (shapeCast S128 (((extractStridedSlice S1x128 ![3, 0] · slices_S4x128_S1x128_3_0) : (⟨S4x128, .f32⟩ : BufTy).Contents (Elt F) → (⟨S1x128, .f32⟩ : BufTy).Contents (Elt F)) (W (Proc.devRef .tc main_arg14))) shapeCasts_S1x128_S128) shapeCasts_S128_S1x128) := by
  after_results
  all_goals rfl

set_option maxHeartbeats 2000000 in
theorem h16_main_v256 (W : Valuation τ sig (Elt F)) :
    after hostOps16 W (Proc.devRef .tc main_v256) = (shapeCast S1x128 (shapeCast S128 (((extractStridedSlice S1x128 ![3, 0] · slices_S4x128_S1x128_3_0) : (⟨S4x128, .f32⟩ : BufTy).Contents (Elt F) → (⟨S1x128, .f32⟩ : BufTy).Contents (Elt F)) (W (Proc.devRef .tc main_arg15))) shapeCasts_S1x128_S128) shapeCasts_S128_S1x128) := by
  after_results
  all_goals rfl

theorem h16_keep_main_v193 (W : Valuation τ sig (Elt F)) : after hostOps16 W (Proc.devRef .tc main_v193) = W (Proc.devRef .tc main_v193) := by
  after_results

theorem h16_keep_main_v244_0 (W : Valuation τ sig (Elt F)) : after hostOps16 W (Proc.devRef .tc main_v244_0) = W (Proc.devRef .tc main_v244_0) := by
  after_results

end Cert.KernelIdeal.KHost

end
-- ==== Proof.KStageA.lean ====
/-
  The first stage of a layer at one grid point, entry by entry: the tile of `y₁ = (s·h + neigh) · W₁ + b₁`
  (`s` the scalar `1 + ε`), its column sums added to the running column sums, and the column sums of its squares.
-/
import proofs.«140776_j80633716015159_1_alg».proof.Proof.Gen.KernelIdeal.Skeleton
import Idealize.ShloMosaic.Lib.ValueIdx
import Idealize.ShloMosaic.Lib.ValueLayout
import Idealize.ShloMosaic.Lib.Pipeline.Value
import Idealize.ShloMosaic.PureOps.Ideal.Laws

set_option maxRecDepth 16384

noncomputable section

namespace Cert.KernelIdeal.KStageA

open Cert.KernelIdeal Cert.KernelIdeal.Gen
open Idealize.ShloMosaic Idealize.ShloMosaic.TcCoe Idealize.ShloMosaic.ValueIdx Idealize.SL.Sem

/-- The tile product's dimension numbers. -/
abbrev D0 := dot_S5000x128_S128x128_S5000x128_1_0_0_1_n_n

theorem lhs0 (i : S5000x128.Idx) (q : D0.contr.Idx) : (D0.lhsIdx i q 0).val = (i 0).val := by
  unfold DotDims.lhsIdx
  rw [dif_neg (show ¬(0 : Fin S5000x128.rank) ∈ D0.lhsBatch by decide), dif_pos (show (0 : Fin S5000x128.rank) ∈ D0.lhsNonContracting by decide)]
  rfl
theorem lhs1 (i : S5000x128.Idx) (q : D0.contr.Idx) : (D0.lhsIdx i q 1).val = (q ⟨0, by decide⟩).val :=
  D0.lhsIdx_val_of_single rfl i q
theorem rhs0 (i : S5000x128.Idx) (q : D0.contr.Idx) : (D0.rhsIdx i q 0).val = (q ⟨0, by decide⟩).val :=
  D0.rhsIdx_val_of_single rfl i q
theorem rhs1 (i : S5000x128.Idx) (q : D0.contr.Idx) : (D0.rhsIdx i q 1).val = (i 1).val := by
  unfold DotDims.rhsIdx
  rw [dif_neg (show ¬(1 : Fin S128x128.rank) ∈ D0.rhsBatch by decide), dif_pos (show (1 : Fin S128x128.rank) ∈ D0.rhsNonContracting by decide)]
  rfl

/-- A tile product into a zero accumulator at an entry: the sum over the contracted coordinate. -/
theorem tile_dot_apply (a : FVec Ideal S5000x128 .bf16) (w : FVec Ideal S128x128 .bf16) (p : Fin 5000) (q : Fin 128) :
    (matmul D0 none a w (constant S5000x128 .f32 0x00000000#32) : FVec Ideal S5000x128 .f32) (ix2 p q)
      = ∑ k : Fin 128, a (ix2 p k) * w (ix2 k q) := by
  refine (Ideal.matmul_constant_zero_apply D0 none _ _ (ix2 p q)).trans ?_
  rw [← Equiv.sum_comp (contrEquiv1 D0 128 rfl rfl).symm]
  refine Finset.sum_congr rfl fun k _ => ?_
  have hk := contrEquiv1_symm_val D0 128 rfl rfl k
  have el : D0.lhsIdx (ix2 p q) ((contrEquiv1 D0 128 rfl rfl).symm k) = ix2 p k := funext fun a => Fin.ext (by
    match a with
    | ⟨0, _⟩ => exact lhs0 _ _
    | ⟨1, _⟩ => exact (lhs1 _ _).trans hk)
  have er : D0.rhsIdx (ix2 p q) ((contrEquiv1 D0 128 rfl rfl).symm k) = ix2 k q := funext fun a => Fin.ext (by
    match a with
    | ⟨0, _⟩ => exact (rhs0 _ _).trans hk
    | ⟨1, _⟩ => exact rhs1 _ _)
  rw [el, er]

/-- A sum down the 5000 rows of a tile, at a column. -/
theorem col_sum_apply (src : FVec Ideal S5000x128 .f32) (q : Fin 128) :
    (multiReduction .add [0] S128 src 0x00000000#32 reduces_S5000x128_S128 (.inl rfl) rfl : FVec Ideal S128 .f32) (ix1 q)
      = ∑ r : Fin 5000, src (ix2 r q) := by
  refine (Ideal.multiReduction_add_single src 0x00000000#32 reduces_S5000x128_S128 (.inl rfl) rfl (ix1 q)).trans ?_
  refine Finset.sum_congr rfl fun r _ => congrArg src (funext fun a => ?_)
  match a with
  | ⟨0, _⟩ => rfl
  | ⟨1, _⟩ => rfl

/-- The tile of `y₁` at an entry. -/
theorem pay4_apply (v3 : Vec Ideal S1x1 .f32) (v5 v9 : Vec Ideal S5000x128 .f32) (v13 : Vec Ideal S128x128 .f32)
    (v17 : Vec Ideal S1x128 .f32) (p : Fin 5000) (q : Fin 128) :
    k1_pay4 v3 v5 v9 v13 v17 (ix2 p q)
      = (∑ k : Fin 128, (v3 (ix2 (0 : Fin 1) (0 : Fin 1)) * v5 (ix2 p k) + v9 (ix2 p k)) * v13 (ix2 k q))
        + v17 (ix2 (0 : Fin 1) q) := by
  have hs : extractAt ![0, 0] v3 inpos_S1x1_p0_0 = v3 (ix2 (0 : Fin 1) (0 : Fin 1)) := by
    unfold extractAt
    refine congrArg v3 (funext fun a => ?_)
    match a with
    | ⟨0, _⟩ => rfl
    | ⟨1, _⟩ => rfl
  have h2 : (broadcastTo S5000x128 (shapeCast S1x128 v17 shapeCasts_S1x128_S1x128) broadcasts_S1x128_S5000x128 :
      FVec Ideal S5000x128 .f32) (ix2 p q) = v17 (ix2 (0 : Fin 1) q) := by
    rw [shapeCast_self]
    exact broadcastTo_1b_ab_apply v17 broadcasts_S1x128_S5000x128 p q
  unfold k1_pay4
  refine (congrArg₂ (· + ·) (tile_dot_apply _ _ p q) h2).trans ?_
  simp only [shapeCast_self]
  rw [hs]
  rfl

/-- The running column sums after the point, at a column. -/
theorem pay5_apply (v3 : Vec Ideal S1x1 .f32) (v5 v9 : Vec Ideal S5000x128 .f32) (v13 : Vec Ideal S128x128 .f32)
    (v17 v22 : Vec Ideal S1x128 .f32) (q : Fin 128) :
    k1_pay5 v3 v5 v9 v13 v17 v22 (ix2 (0 : Fin 1) q)
      = v22 (ix2 (0 : Fin 1) q) + ∑ r : Fin 5000, k1_pay4 v3 v5 v9 v13 v17 (ix2 r q) := by
  unfold k1_pay5
  simp only [shapeCast_self]
  refine congrArg (v22 (ix2 (0 : Fin 1) q) + ·) ?_
  refine (shapeCast_a_1a_apply _ shapeCasts_S128_S1x128 (0 : Fin 1) q).trans ?_
  exact col_sum_apply _ q

/-- The column sums of the squares of the point's tile, at a column. -/
theorem pay7_apply (v3 : Vec Ideal S1x1 .f32) (v5 v9 : Vec Ideal S5000x128 .f32) (v13 : Vec Ideal S128x128 .f32)
    (v17 : Vec Ideal S1x128 .f32) (q : Fin 128) :
    k1_pay7 v3 v5 v9 v13 v17 (ix2 (0 : Fin 1) q)
      = ∑ r : Fin 5000, k1_pay4 v3 v5 v9 v13 v17 (ix2 r q) * k1_pay4 v3 v5 v9 v13 v17 (ix2 r q) := by
  unfold k1_pay7
  refine (shapeCast_a_1a_apply _ shapeCasts_S128_S1x128 (0 : Fin 1) q).trans ?_
  exact col_sum_apply _ q

end Cert.KernelIdeal.KStageA

end
-- ==== Proof.LibFinSum.lean ====
/-
  A sum over `Fin (m * n)` as a double sum over quotient and remainder.

  Every `i < m * n` is `a * n + b` for exactly one pair `a < m`, `b < n`, so in any commutative monoid the sum of `f` over
  `Fin (m * n)` is the sum over `a` of the sum over `b` of `f (a * n + b)`. This is the only re-indexing a tiled sum needs.
-/
import Mathlib.Algebra.BigOperators.Fin
import Mathlib.Logic.Equiv.Fin.Basic

open scoped BigOperators

namespace Cert.FinSum

/-- `a * n + b < m * n` for `a < m`, `b < n`. -/
theorem lt_mul {m n : ℕ} (a : Fin m) (b : Fin n) : a.val * n + b.val < m * n :=
  calc a.val * n + b.val < a.val * n + n := Nat.add_lt_add_left b.isLt _
    _ = (a.val + 1) * n := (Nat.succ_mul _ _).symm
    _ ≤ m * n := Nat.mul_le_mul_right n a.isLt

/-- The sum over `Fin k`, `k = m * n`, is the sum over quotients `a` of the sum over remainders `b` at `a * n + b`. -/
theorem sum_mul {M : Type*} [AddCommMonoid M] (m n k : ℕ) (hk : m * n = k) (f : Fin k → M) :
    ∑ i : Fin k, f i = ∑ a : Fin m, ∑ b : Fin n, f ⟨a.val * n + b.val, hk ▸ lt_mul a b⟩ := by
  subst hk
  rw [← finProdFinEquiv.sum_comp, Fintype.sum_prod_type]
  refine Finset.sum_congr rfl fun a _ => Finset.sum_congr rfl fun b _ => congrArg f (Fin.ext ?_)
  show b.val + n * a.val = a.val * n + b.val
  rw [Nat.mul_comm, Nat.add_comm]

/-- A sequence built by "start from `z` plus the first term, then add one more term at each step" is, at step `n`,
    `z` plus the sum of the first `n + 1` terms. -/
theorem sum_of_steps {M : Type*} [AddCommMonoid M] (N : ℕ) (a : (n : ℕ) → n < N → M) (p : Fin N → M) (z : M)
    (h0 : ∀ h : 0 < N, a 0 h = z + p ⟨0, h⟩)
    (hs : ∀ (n : ℕ) (h : n + 1 < N), a (n + 1) h = a n (Nat.lt_of_succ_lt h) + p ⟨n + 1, h⟩) :
    ∀ (n : ℕ) (h : n < N), a n h = z + ∑ t : Fin (n + 1), p ⟨t.val, lt_of_lt_of_le t.isLt h⟩
  | 0, h => by
    rw [h0 h, Fin.sum_univ_one]
    rfl
  | n + 1, h => by
    rw [hs n h, sum_of_steps N a p z h0 hs n (Nat.lt_of_succ_lt h), add_assoc]
    refine congrArg (z + ·) ?_
    exact (Fin.sum_univ_castSucc (fun t : Fin (n + 1 + 1) => p ⟨t.val, lt_of_lt_of_le t.isLt h⟩)).symm

end Cert.FinSum
-- ==== Proof.KStageAVal.lean ====
/-
  The first stage's region, read as values.  At each of the ten grid points the body writes the point's tile of
  `y₁` and updates two one-row accumulators: at the first point they are reset to zero before the tile's column sums
  (and column sums of squares) are added, at the later points the sums are added to what the point before left.
-/
import proofs.«140776_j80633716015159_1_alg».proof.Proof.Gen.KernelIdeal.Frame
import proofs.«140776_j80633716015159_1_alg».proof.Proof.KStageA
import proofs.«140776_j80633716015159_1_alg».proof.Proof.LibFinSum
import Idealize.ShloMosaic.Lib.Pipeline.Value
import Idealize.ShloMosaic.Lib.Tactic

set_option maxRecDepth 16384

noncomputable section

namespace Cert.KernelIdeal.KStageAVal

open Cert.KernelIdeal Cert.KernelIdeal.Gen
open Idealize.ShloMosaic Idealize.ShloMosaic.TcCoe Idealize.ShloMosaic.ValueIdx Idealize.SL.Sem
open Idealize.ShloMosaic.Pipeline (Dat Cfg Window)

variable {F : FTy → Type} [FloatOps F]

theorem hz : (![0, 0] : Fin 2 → Nat) = fun _ => 0 := funext fun a => by fin_cases a <;> rfl

/-- The zero row the reset stores. -/
abbrev zrow : Vec F S1x128 .f32 := broadcast S1x128 (Scalar.ofBits .f32 0x00000000#32)

/-- First point, the tile of `y₁`. -/
theorem outA5 (c : Dev nD) (i : grid1.Coords) (a1 : Memref sig .tc .vmem S5000x128 .f32) (h1 : a1.IsWhole) (a2 : Memref sig .tc .vmem S5000x128 .f32) (h2 : a2.IsWhole) (a3 : Memref sig .tc .vmem S1x1 .f32) (h3 : a3.IsWhole) (a4 : Memref sig .tc .vmem S128x128 .f32) (h4 : a4.IsWhole) (a5 : Memref sig .tc .vmem S1x128 .f32) (h5 : a5.IsWhole) (a6 : Memref sig .tc .vmem S5000x128 .f32) (h6 : a6.IsWhole) (a7 : Memref sig .tc .vmem S1x128 .f32) (h7 : a7.IsWhole) (a8 : Memref sig .tc .vmem S1x128 .f32) (h8 : a8.IsWhole) (hc : cond1_0 i) (x0 x1 : Vec F S5000x128 .f32) (x2 : Vec F S1x1 .f32) (x3 : Vec F S128x128 .f32) (x4 : Vec F S1x128 .f32) :
    out1_A_5 c i a1 h1 a2 h2 a3 h3 a4 h4 a5 h5 a6 h6 a7 h7 a8 h8 hc x0 x1 x2 x3 x4 = k1_pay4 x2 x0 x1 x3 x4 := by
  unfold out1_A_5
  rw [View.read_writes_eq_canon _ _ _ (cover1_A_5 c i a1 h1 a2 h2 a3 h3 a4 h4 a5 h5 a6 h6 a7 h7 a8 h8 hc x0 x1 x2 x3 x4)]
  unfold kernelRun1_A
  dsimp only
  sl_unfold_words
  rw [View.canon_unit_zero hz]
  simp only [View.readAt_eq_ld, h1.read_unread, h2.read_unread, h3.read_unread, h4.read_unread, h5.read_unread, View.ld_unit_zero (S := S5000x128) hz, View.ld_unit_zero (S := S1x1) hz, View.ld_unit_zero (S := S128x128) hz, View.ld_unit_zero (S := S1x128) hz]

theorem outA6 (c : Dev nD) (i : grid1.Coords) (a1 : Memref sig .tc .vmem S5000x128 .f32) (h1 : a1.IsWhole) (a2 : Memref sig .tc .vmem S5000x128 .f32) (h2 : a2.IsWhole) (a3 : Memref sig .tc .vmem S1x1 .f32) (h3 : a3.IsWhole) (a4 : Memref sig .tc .vmem S128x128 .f32) (h4 : a4.IsWhole) (a5 : Memref sig .tc .vmem S1x128 .f32) (h5 : a5.IsWhole) (a6 : Memref sig .tc .vmem S5000x128 .f32) (h6 : a6.IsWhole) (a7 : Memref sig .tc .vmem S1x128 .f32) (h7 : a7.IsWhole) (a8 : Memref sig .tc .vmem S1x128 .f32) (h8 : a8.IsWhole) (hc : cond1_0 i) (x0 x1 : Vec F S5000x128 .f32) (x2 : Vec F S1x1 .f32) (x3 : Vec F S128x128 .f32) (x4 : Vec F S1x128 .f32) :
    out1_A_6 c i a1 h1 a2 h2 a3 h3 a4 h4 a5 h5 a6 h6 a7 h7 a8 h8 hc x0 x1 x2 x3 x4 = k1_pay5 x2 x0 x1 x3 x4 zrow := by
  unfold out1_A_6
  rw [View.read_writes_eq_canon _ _ _ (cover1_A_6 c i a1 h1 a2 h2 a3 h3 a4 h4 a5 h5 a6 h6 a7 h7 a8 h8 hc x0 x1 x2 x3 x4)]
  unfold kernelRun1_A
  dsimp only
  sl_unfold_words
  rw [View.canon_cons_unit_zero (S := S1x128) hz, View.readCov_unit_zero (S := S1x128) _ hz]
  simp only [View.readAt_eq_ld, h1.read_unread, h2.read_unread, h3.read_unread, h4.read_unread, h5.read_unread, h7.read_unread, h8.read_unread, View.ld_unit_zero (S := S5000x128) hz, View.ld_unit_zero (S := S1x1) hz, View.ld_unit_zero (S := S128x128) hz, View.ld_unit_zero (S := S1x128) hz]
  rfl

theorem outA7 (c : Dev nD) (i : grid1.Coords) (a1 : Memref sig .tc .vmem S5000x128 .f32) (h1 : a1.IsWhole) (a2 : Memref sig .tc .vmem S5000x128 .f32) (h2 : a2.IsWhole) (a3 : Memref sig .tc .vmem S1x1 .f32) (h3 : a3.IsWhole) (a4 : Memref sig .tc .vmem S128x128 .f32) (h4 : a4.IsWhole) (a5 : Memref sig .tc .vmem S1x128 .f32) (h5 : a5.IsWhole) (a6 : Memref sig .tc .vmem S5000x128 .f32) (h6 : a6.IsWhole) (a7 : Memref sig .tc .vmem S1x128 .f32) (h7 : a7.IsWhole) (a8 : Memref sig .tc .vmem S1x128 .f32) (h8 : a8.IsWhole) (hc : cond1_0 i) (x0 x1 : Vec F S5000x128 .f32) (x2 : Vec F S1x1 .f32) (x3 : Vec F S128x128 .f32) (x4 : Vec F S1x128 .f32) :
    out1_A_7 c i a1 h1 a2 h2 a3 h3 a4 h4 a5 h5 a6 h6 a7 h7 a8 h8 hc x0 x1 x2 x3 x4 = k1_pay1 (k1_pay6 zrow) (k1_pay7 x2 x0 x1 x3 x4) := by
  unfold out1_A_7
  rw [View.read_writes_eq_canon _ _ _ (cover1_A_7 c i a1 h1 a2 h2 a3 h3 a4 h4 a5 h5 a6 h6 a7 h7 a8 h8 hc x0 x1 x2 x3 x4)]
  unfold kernelRun1_A
  dsimp only
  sl_unfold_words
  rw [View.canon_cons_unit_zero (S := S1x128) hz, View.readCov_unit_zero (S := S1x128) _ hz]
  simp only [View.readAt_eq_ld, h1.read_unread, h2.read_unread, h3.read_unread, h4.read_unread, h5.read_unread, h7.read_unread, h8.read_unread, View.ld_unit_zero (S := S5000x128) hz, View.ld_unit_zero (S := S1x1) hz, View.ld_unit_zero (S := S128x128) hz, View.ld_unit_zero (S := S1x128) hz]
  rfl

theorem outB5 (c : Dev nD) (i : grid1.Coords) (a1 : Memref sig .tc .vmem S5000x128 .f32) (h1 : a1.IsWhole) (a2 : Memref sig .tc .vmem S5000x128 .f32) (h2 : a2.IsWhole) (a3 : Memref sig .tc .vmem S1x1 .f32) (h3 : a3.IsWhole) (a4 : Memref sig .tc .vmem S128x128 .f32) (h4 : a4.IsWhole) (a5 : Memref sig .tc .vmem S1x128 .f32) (h5 : a5.IsWhole) (a6 : Memref sig .tc .vmem S5000x128 .f32) (h6 : a6.IsWhole) (a7 : Memref sig .tc .vmem S1x128 .f32) (h7 : a7.IsWhole) (a8 : Memref sig .tc .vmem S1x128 .f32) (h8 : a8.IsWhole) (hc : ¬cond1_0 i) (x0 x1 : Vec F S5000x128 .f32) (x2 : Vec F S1x1 .f32) (x3 : Vec F S128x128 .f32) (x4 : Vec F S1x128 .f32) (s6 s7 : Vec F S1x128 .f32) :
    out1_B_5 c i a1 h1 a2 h2 a3 h3 a4 h4 a5 h5 a6 h6 a7 h7 a8 h8 hc x0 x1 x2 x3 x4 s6 s7 = k1_pay4 x2 x0 x1 x3 x4 := by
  unfold out1_B_5
  rw [View.read_writes_eq_canon _ _ _ (cover1_B_5 c i a1 h1 a2 h2 a3 h3 a4 h4 a5 h5 a6 h6 a7 h7 a8 h8 hc x0 x1 x2 x3 x4 s6 s7)]
  unfold kernelRun1_B
  dsimp only
  sl_unfold_words
  rw [View.canon_unit_zero hz]
  simp only [View.readAt_eq_ld, h1.read_unread, h2.read_unread, h3.read_unread, h4.read_unread, h5.read_unread, h7.read_unread, h8.read_unread, View.ld_unit_zero (S := S5000x128) hz, View.ld_unit_zero (S := S1x1) hz, View.ld_unit_zero (S := S128x128) hz, View.ld_unit_zero (S := S1x128) hz]

theorem outB6 (c : Dev nD) (i : grid1.Coords) (a1 : Memref sig .tc .vmem S5000x128 .f32) (h1 : a1.IsWhole) (a2 : Memref sig .tc .vmem S5000x128 .f32) (h2 : a2.IsWhole) (a3 : Memref sig .tc .vmem S1x1 .f32) (h3 : a3.IsWhole) (a4 : Memref sig .tc .vmem S128x128 .f32) (h4 : a4.IsWhole) (a5 : Memref sig .tc .vmem S1x128 .f32) (h5 : a5.IsWhole) (a6 : Memref sig .tc .vmem S5000x128 .f32) (h6 : a6.IsWhole) (a7 : Memref sig .tc .vmem S1x128 .f32) (h7 : a7.IsWhole) (a8 : Memref sig .tc .vmem S1x128 .f32) (h8 : a8.IsWhole) (hc : ¬cond1_0 i) (x0 x1 : Vec F S5000x128 .f32) (x2 : Vec F S1x1 .f32) (x3 : Vec F S128x128 .f32) (x4 : Vec F S1x128 .f32) (s6 s7 : Vec F S1x128 .f32) :
    out1_B_6 c i a1 h1 a2 h2 a3 h3 a4 h4 a5 h5 a6 h6 a7 h7 a8 h8 hc x0 x1 x2 x3 x4 s6 s7 = k1_pay5 x2 x0 x1 x3 x4 s6 := by
  unfold out1_B_6
  rw [View.read_writes_eq_canon _ _ _ (cover1_B_6 c i a1 h1 a2 h2 a3 h3 a4 h4 a5 h5 a6 h6 a7 h7 a8 h8 hc x0 x1 x2 x3 x4 s6 s7)]
  unfold kernelRun1_B
  dsimp only
  sl_unfold_words
  rw [View.canon_unit_zero hz]
  simp only [View.readAt_eq_ld, h1.read_unread, h2.read_unread, h3.read_unread, h4.read_unread, h5.read_unread, h7.read_unread, h8.read_unread, View.ld_unit_zero (S := S5000x128) hz, View.ld_unit_zero (S := S1x1) hz, View.ld_unit_zero (S := S128x128) hz, View.ld_unit_zero (S := S1x128) hz]

theorem outB7 (c : Dev nD) (i : grid1.Coords) (a1 : Memref sig .tc .vmem S5000x128 .f32) (h1 : a1.IsWhole) (a2 : Memref sig .tc .vmem S5000x128 .f32) (h2 : a2.IsWhole) (a3 : Memref sig .tc .vmem S1x1 .f32) (h3 : a3.IsWhole) (a4 : Memref sig .tc .vmem S128x128 .f32) (h4 : a4.IsWhole) (a5 : Memref sig .tc .vmem S1x128 .f32) (h5 : a5.IsWhole) (a6 : Memref sig .tc .vmem S5000x128 .f32) (h6 : a6.IsWhole) (a7 : Memref sig .tc .vmem S1x128 .f32) (h7 : a7.IsWhole) (a8 : Memref sig .tc .vmem S1x128 .f32) (h8 : a8.IsWhole) (hc : ¬cond1_0 i) (x0 x1 : Vec F S5000x128 .f32) (x2 : Vec F S1x1 .f32) (x3 : Vec F S128x128 .f32) (x4 : Vec F S1x128 .f32) (s6 s7 : Vec F S1x128 .f32) :
    out1_B_7 c i a1 h1 a2 h2 a3 h3 a4 h4 a5 h5 a6 h6 a7 h7 a8 h8 hc x0 x1 x2 x3 x4 s6 s7 = k1_pay1 (k1_pay6 s7) (k1_pay7 x2 x0 x1 x3 x4) := by
  unfold out1_B_7
  rw [View.read_writes_eq_canon _ _ _ (cover1_B_7 c i a1 h1 a2 h2 a3 h3 a4 h4 a5 h5 a6 h6 a7 h7 a8 h8 hc x0 x1 x2 x3 x4 s6 s7)]
  unfold kernelRun1_B
  dsimp only
  sl_unfold_words
  rw [View.canon_unit_zero hz]
  simp only [View.readAt_eq_ld, h1.read_unread, h2.read_unread, h3.read_unread, h4.read_unread, h5.read_unread, h7.read_unread, h8.read_unread, View.ld_unit_zero (S := S5000x128) hz, View.ld_unit_zero (S := S1x1) hz, View.ld_unit_zero (S := S128x128) hz, View.ld_unit_zero (S := S1x128) hz]

/-! ## The outputs after each point -/

variable (V : (c : Dev nD) → (b : Ref sig .tc) → Buf (Elt F) ((c : Thread nD τ).loc b))

/-- The point's tile of `y₁`. -/
def tileY (c : Dev nD) (t : Fin cfg1.N) : Vec F S5000x128 .f32 := k1_pay4 (iblk1 V c 2 t) (iblk1 V c 0 t) (iblk1 V c 1 t) (iblk1 V c 3 t) (iblk1 V c 4 t)

/-- The running column sums after point `n`. -/
def acc6 (c : Dev nD) : (n : ℕ) → n < cfg1.N → Vec F S1x128 .f32
  | 0, h => k1_pay5 (iblk1 V c 2 ⟨0, h⟩) (iblk1 V c 0 ⟨0, h⟩) (iblk1 V c 1 ⟨0, h⟩) (iblk1 V c 3 ⟨0, h⟩) (iblk1 V c 4 ⟨0, h⟩) zrow
  | n + 1, h => k1_pay5 (iblk1 V c 2 ⟨n + 1, h⟩) (iblk1 V c 0 ⟨n + 1, h⟩) (iblk1 V c 1 ⟨n + 1, h⟩) (iblk1 V c 3 ⟨n + 1, h⟩) (iblk1 V c 4 ⟨n + 1, h⟩) (acc6 c n (Nat.lt_of_succ_lt h))

/-- The running column sums of squares after point `n`. -/
def acc7 (c : Dev nD) : (n : ℕ) → n < cfg1.N → Vec F S1x128 .f32
  | 0, h => k1_pay1 (k1_pay6 zrow) (k1_pay7 (iblk1 V c 2 ⟨0, h⟩) (iblk1 V c 0 ⟨0, h⟩) (iblk1 V c 1 ⟨0, h⟩) (iblk1 V c 3 ⟨0, h⟩) (iblk1 V c 4 ⟨0, h⟩))
  | n + 1, h => k1_pay1 (k1_pay6 (acc7 c n (Nat.lt_of_succ_lt h))) (k1_pay7 (iblk1 V c 2 ⟨n + 1, h⟩) (iblk1 V c 0 ⟨n + 1, h⟩) (iblk1 V c 1 ⟨n + 1, h⟩) (iblk1 V c 3 ⟨n + 1, h⟩) (iblk1 V c 4 ⟨n + 1, h⟩))

/-- What the three outputs' staging buffers hold after point `n`: the tile and the two running sums. -/
theorem outsAt_eq (c : Dev nD) : ∀ (n : ℕ) (h : n < cfg1.N), outsAt1 V c n h = (tileY V c ⟨n, h⟩, acc6 V c n h, acc7 V c n h)
  | 0, h => (outsAt1_A V c ⟨0, h⟩ rfl).trans (by rw [outA5, outA6, outA7]; rfl)
  | n + 1, h => by
    have hN : grid1.N = 10 := N_1
    have hB : ¬(⟨n + 1, h⟩ : Fin cfg1.N).val % 10 = 0 := by
      have : n + 1 < 10 := by have := h; rw [show cfg1.N = grid1.N from rfl, hN] at this; exact this
      dsimp only; omega
    rw [outsAt1_B V c ⟨n + 1, h⟩ hB, outB5, outB6, outB7]
    show (_, k1_pay5 _ _ _ _ _ (outsAt1 V c n _).2.1, k1_pay1 (k1_pay6 (outsAt1 V c n _).2.2) _) = _
    rw [outsAt_eq c n]
    rfl

/-! ## At the exact reading: the accumulators are sums, the tiles an array -/

section Exact

variable (V : (c : Dev nD) → (b : Ref sig .tc) → Buf (Elt Ideal) ((c : Thread nD τ).loc b))

theorem acc6_apply (c : Dev nD) (q : Fin 128) : ∀ (n : ℕ) (h : n < cfg1.N),
    acc6 V c n h (ix2 (0 : Fin 1) q)
      = Ideal.ofBits .f32 0x00000000#32
        + ∑ t : Fin (n + 1), ∑ r : Fin 5000, tileY V c ⟨t.val, lt_of_lt_of_le t.isLt h⟩ (ix2 r q) :=
  Cert.FinSum.sum_of_steps cfg1.N (fun n h => acc6 V c n h (ix2 (0 : Fin 1) q))
    (fun t => ∑ r : Fin 5000, tileY V c t (ix2 r q)) (Ideal.ofBits .f32 0x00000000#32)
    (fun h => KStageA.pay5_apply _ _ _ _ _ _ q)
    (fun n h => KStageA.pay5_apply _ _ _ _ _ _ q)

/-- The accumulator update at a column: what was there plus the new row. -/
theorem step_apply (s7 v32 : FVec Ideal S1x128 .f32) (q : Fin 128) :
    k1_pay1 (k1_pay6 s7) v32 (ix2 (0 : Fin 1) q) = s7 (ix2 (0 : Fin 1) q) + v32 (ix2 (0 : Fin 1) q) := by
  unfold k1_pay1 k1_pay6
  rw [shapeCast_self]
  rfl

theorem acc7_apply (c : Dev nD) (q : Fin 128) : ∀ (n : ℕ) (h : n < cfg1.N),
    acc7 V c n h (ix2 (0 : Fin 1) q)
      = Ideal.ofBits .f32 0x00000000#32
        + ∑ t : Fin (n + 1), ∑ r : Fin 5000,
            tileY V c ⟨t.val, lt_of_lt_of_le t.isLt h⟩ (ix2 r q) * tileY V c ⟨t.val, lt_of_lt_of_le t.isLt h⟩ (ix2 r q) :=
  Cert.FinSum.sum_of_steps cfg1.N (fun n h => acc7 V c n h (ix2 (0 : Fin 1) q))
    (fun t => ∑ r : Fin 5000, tileY V c t (ix2 r q) * tileY V c t (ix2 r q)) (Ideal.ofBits .f32 0x00000000#32)
    (fun h => (step_apply _ _ q).trans (congrArg (Ideal.ofBits .f32 0x00000000#32 + ·) (KStageA.pay7_apply _ _ _ _ _ q)))
    (fun n h => (step_apply _ _ q).trans (congrArg (acc7 V c n _ (ix2 (0 : Fin 1) q) + ·) (KStageA.pay7_apply _ _ _ _ _ q)))

end Exact

/-! ## The arrays after the region -/

/-- One entry of `y₁ = (s·h + neigh) · w + b`. -/
def y1At (h nb : (⟨2, ![50000, 128]⟩ : Shape).Idx → EReal) (s : (⟨2, ![1, 1]⟩ : Shape).Idx → EReal)
    (w : (⟨2, ![128, 128]⟩ : Shape).Idx → EReal) (b : (⟨2, ![1, 128]⟩ : Shape).Idx → EReal) (p : Fin 50000) (q : Fin 128) : EReal :=
  (∑ k : Fin 128, (s (ix2 (0 : Fin 1) (0 : Fin 1)) * h (ix2 p k) + nb (ix2 p k)) * w (ix2 k q)) + b (ix2 (0 : Fin 1) q)

/-- `y₁` as an array. -/
def y1 (h nb : (⟨2, ![50000, 128]⟩ : Shape).Idx → EReal) (s : (⟨2, ![1, 1]⟩ : Shape).Idx → EReal)
    (w : (⟨2, ![128, 128]⟩ : Shape).Idx → EReal) (b : (⟨2, ![1, 128]⟩ : Shape).Idx → EReal) :
    (⟨2, ![50000, 128]⟩ : Shape).Idx → EReal :=
  fun i => y1At h nb s w b ⟨(i 0).val, idx2_lt0 i⟩ ⟨(i 1).val, idx2_lt1 i⟩

section Arrays

variable (V : (c : Dev nD) → (b : Ref sig .tc) → Buf (Elt Ideal) ((c : Thread nD τ).loc b))

/-- The arrays the region finds. -/
abbrev H (c : Dev nD) : S50000x128.Idx → EReal := V c (Pipeline.arrRef spec1 0)
abbrev NB (c : Dev nD) : S50000x128.Idx → EReal := V c (Pipeline.arrRef spec1 1)
abbrev SC (c : Dev nD) : S1x1.Idx → EReal := V c (Pipeline.arrRef spec1 2)
abbrev Wt (c : Dev nD) : S128x128.Idx → EReal := V c (Pipeline.arrRef spec1 3)
abbrev Bs (c : Dev nD) : S1x128.Idx → EReal := V c (Pipeline.arrRef spec1 4)

/-- The printed index maps over the ten points: the two feature tiles and the output tile move down the rows with the
    point; the scalar, the weight matrix, the bias row and the two accumulator rows are block (0, 0). -/
theorem idx_facts : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = t.val ∧ win1_5.index t (1 : Fin 2) = 0 :=
  (by decide +kernel : ∀ t : Fin grid1.N, _)

theorem iblk_h (c : Dev nD) (t : Fin cfg1.N) (p : Fin 5000) (k : Fin 128) (hp : t.val * 5000 + p.val < 50000) :
    (iblk1 V c 0 t : Vec Ideal S5000x128 .f32) (ix2 p k) = H V c (ix2 ⟨t.val * 5000 + p.val, hp⟩ k) := by
  obtain ⟨e0, e1, -⟩ := idx_facts t
  unfold iblk1
  rw [View.read_apply]
  refine congrArg (V c (Pipeline.arrRef spec1 0)) (funext fun a => Fin.ext ?_)
  match a with
  | ⟨0, _⟩ => show win1_0.index t 0 * 5000 + 1 * p.val = t.val * 5000 + p.val; rw [e0]; omega
  | ⟨1, _⟩ => show win1_0.index t 1 * 128 + 1 * k.val = k.val; rw [e1]; omega

theorem iblk_nb (c : Dev nD) (t : Fin cfg1.N) (p : Fin 5000) (k : Fin 128) (hp : t.val * 5000 + p.val < 50000) :
    (iblk1 V c 1 t : Vec Ideal S5000x128 .f32) (ix2 p k) = NB V c (ix2 ⟨t.val * 5000 + p.val, hp⟩ k) := by
  obtain ⟨-, -, e0, e1, -⟩ := idx_facts t
  unfold iblk1
  rw [View.read_apply]
  refine congrArg (V c (Pipeline.arrRef spec1 1)) (funext fun a => Fin.ext ?_)
  match a with
  | ⟨0, _⟩ => show win1_1.index t 0 * 5000 + 1 * p.val = t.val * 5000 + p.val; rw [e0]; omega
  | ⟨1, _⟩ => show win1_1.index t 1 * 128 + 1 * k.val = k.val; rw [e1]; omega

theorem iblk_s (c : Dev nD) (t : Fin cfg1.N) : (iblk1 V c 2 t : Vec Ideal S1x1 .f32) = SC V c := by
  obtain ⟨-, -, -, -, e0, e1, -⟩ := idx_facts t
  funext y
  unfold iblk1
  rw [View.read_apply]
  refine congrArg (V c (Pipeline.arrRef spec1 2)) (funext fun a => Fin.ext ?_)
  match a with
  | ⟨0, _⟩ => show win1_2.index t 0 * 1 + 1 * (y 0).val = (y 0).val; rw [e0]; omega
  | ⟨1, _⟩ => show win1_2.index t 1 * 1 + 1 * (y 1).val = (y 1).val; rw [e1]; omega

theorem iblk_w (c : Dev nD) (t : Fin cfg1.N) : (iblk1 V c 3 t : Vec Ideal S128x128 .f32) = Wt V c := by
  obtain ⟨-, -, -, -, -, -, e0, e1, -⟩ := idx_facts t
  funext y
  unfold iblk1
  rw [View.read_apply]
  refine congrArg (V c (Pipeline.arrRef spec1 3)) (funext fun a => Fin.ext ?_)
  match a with
  | ⟨0, _⟩ => show win1_3.index t 0 * 128 + 1 * (y 0).val = (y 0).val; rw [e0]; omega
  | ⟨1, _⟩ => show win1_3.index t 1 * 128 + 1 * (y 1).val = (y 1).val; rw [e1]; omega

theorem iblk_b (c : Dev nD) (t : Fin cfg1.N) : (iblk1 V c 4 t : Vec Ideal S1x128 .f32) = Bs V c := by
  obtain ⟨-, -, -, -, -, -, -, -, e0, e1, -⟩ := idx_facts t
  funext y
  unfold iblk1
  rw [View.read_apply]
  refine congrArg (V c (Pipeline.arrRef spec1 4)) (funext fun a => Fin.ext ?_)
  match a with
  | ⟨0, _⟩ => show win1_4.index t 0 * 1 + 1 * (y 0).val = (y 0).val; rw [e0]; omega
  | ⟨1, _⟩ => show win1_4.index t 1 * 128 + 1 * (y 1).val = (y 1).val; rw [e1]; omega

/-- The tile at point `t`, entry `(p, q)`, is `y₁` at row `5000·t + p`. -/
theorem tile_apply (c : Dev nD) (t : Fin cfg1.N) (p : Fin 5000) (q : Fin 128) (hp : t.val * 5000 + p.val < 50000) :
    tileY V c t (ix2 p q) = y1At (H V c) (NB V c) (SC V c) (Wt V c) (Bs V c) ⟨t.val * 5000 + p.val, hp⟩ q := by
  unfold tileY y1At
  rw [KStageA.pay4_apply, iblk_s, iblk_w, iblk_b]
  refine congrArg (· + _) (Finset.sum_congr rfl fun k _ => ?_)
  rw [iblk_h V c t p k hp, iblk_nb V c t p k hp]

end Arrays

section Final

variable (V : (c : Dev nD) → (b : Ref sig .tc) → Buf (Elt Ideal) ((c : Thread nD τ).loc b))

/-- An entry of the tile at point `t` is the entry of `y₁` at row `5000·t + ` the tile's row. -/
theorem point5 (c : Dev nD) (t : Fin cfg1.N) (j : S5000x128.Idx) (i : S50000x128.Idx)
    (hi0 : (i 0).val = t.val * 5000 + (j 0).val) (hi1 : (i 1).val = (j 1).val) :
    tileY V c t j = y1 (H V c) (NB V c) (SC V c) (Wt V c) (Bs V c) i := by
  obtain ⟨p, q, rfl⟩ : ∃ (p : Fin 5000) (q : Fin 128), j = ix2 p q := ⟨j 0, j 1, eq_ix2 j⟩
  have ht : t.val < 10 := lt_of_lt_of_eq t.isLt (show cfg1.N = 10 from N_1)
  have hp : t.val * 5000 + p.val < 50000 := by have := p.isLt; omega
  rw [tile_apply V c t p q hp]
  unfold y1
  congr 1
  · exact Fin.ext hi0.symm
  · exact Fin.ext hi1.symm

/-- What point `t` writes back of `y₁` is tile `t` of the array `y₁`. -/
theorem flushed5_eq (c : Dev nD) (t : Fin cfg1.N) :
    (dat1 V c).flushed 5 t
      = ((cfg1.win 5).blk t).view.read (Elt Ideal) (y1 (H V c) (NB V c) (SC V c) (Wt V c) (Bs V c)) := by
  show (cfg1.win 5).cut (grid1.coords t) ((dat1 V c).after 5 t) = _
  rw [after1_5, outsAt_eq]
  obtain ⟨-, -, -, -, -, -, -, -, -, -, e0, e1⟩ := idx_facts t
  funext j
  rw [View.read_apply]
  refine point5 V c t j _ ?_ ?_
  · show win1_5.index t 0 * 5000 + 1 * (j 0).val = t.val * 5000 + (j 0).val
    rw [e0]; omega
  · show win1_5.index t 1 * 128 + 1 * (j 1).val = (j 1).val
    rw [e1]; omega

theorem mem_blk5 (t : Fin cfg1.N) (i : S50000x128.Idx) :
    i ∈ ((cfg1.win 5).blk t).view.set ↔ ∀ a : Fin 2, win1_5.index t a * S5000x128.size a ≤ (i a).val
      ∧ (i a).val < win1_5.index t a * S5000x128.size a + S5000x128.size a := by
  show i ∈ ((View.whole main_v21_0).slice (win1_5.rect t)).set ↔ _
  rw [View.set_slice_whole, Rect.mem_set_unit]
  exact Iff.rfl

theorem cover5 (i : S50000x128.Idx) :
    ∃ t : Fin cfg1.N, (cfg1.win 5).flush t = true ∧ i ∈ ((cfg1.win 5).blk t).view.set := by
  have hi0 : (i 0).val < 50000 := idx2_lt0 i
  have hi1 : (i 1).val < 128 := idx2_lt1 i
  have hN : grid1.N = 10 := N_1
  have ht : (i 0).val / 5000 < cfg1.N := by show _ < grid1.N; rw [hN]; omega
  obtain ⟨-, -, -, -, -, -, -, -, -, -, e0, e1⟩ := idx_facts ⟨(i 0).val / 5000, ht⟩
  refine ⟨⟨(i 0).val / 5000, ht⟩, flush1_5 _, ?_⟩
  rw [mem_blk5]
  intro a
  match a with
  | ⟨0, _⟩ =>
    show win1_5.index ⟨(i 0).val / 5000, ht⟩ 0 * 5000 ≤ (i 0).val ∧ (i 0).val < win1_5.index ⟨(i 0).val / 5000, ht⟩ 0 * 5000 + 5000
    rw [e0]; show (i 0).val / 5000 * 5000 ≤ (i 0).val ∧ (i 0).val < (i 0).val / 5000 * 5000 + 5000; omega
  | ⟨1, _⟩ =>
    show win1_5.index ⟨(i 0).val / 5000, ht⟩ 1 * 128 ≤ (i 1).val ∧ (i 1).val < win1_5.index ⟨(i 0).val / 5000, ht⟩ 1 * 128 + 128
    rw [e1]; omega

/-- After the region the first output array is `y₁` of the arrays the region finds. -/
theorem final5 (c : Dev nD) : (dat1 V c).arrAt 5 cfg1.N = y1 (H V c) (NB V c) (SC V c) (Wt V c) (Bs V c) :=
  (dat1 V c).arrAt_eq_of_cover 5 _ (fun t _ => flushed5_eq V c t) cover5

theorem lastLt : 9 < cfg1.N := by show 9 < grid1.N; rw [N_1]; decide

/-- The accumulated column sums after the last point, as the contents of the second output array. -/
abbrev res6 (c : Dev nD) : Buf (Elt Ideal) ((c : Thread nD τ).loc main_v21_1) := acc6 V c 9 lastLt
/-- The accumulated column sums of squares after the last point, as the contents of the third output array. -/
abbrev res7 (c : Dev nD) : Buf (Elt Ideal) ((c : Thread nD τ).loc main_v21_2) := acc7 V c 9 lastLt

theorem flushed6_eq (c : Dev nD) (t : Fin cfg1.N) (hf : (cfg1.win 6).flush t = true) :
    (dat1 V c).flushed 6 t = ((cfg1.win 6).blk t).view.read (Elt Ideal) (res6 V c) := by
  have hN : grid1.N = 10 := N_1
  have h9 : t.val = 9 := by
    have := (flush1_6 t).mp hf; have h := lt_of_lt_of_eq t.isLt (show cfg1.N = 10 from N_1); omega
  obtain rfl : t = t1_9 := Fin.ext h9
  show (cfg1.win 6).cut (grid1.coords t1_9) ((dat1 V c).after 6 t1_9) = _
  rw [after1_6, outsAt_eq]
  have hz' : (fun a => win1_6.index t1_9 a * main_v21_1.ty.shape.size a) = fun _ => 0 := funext fun a => by fin_cases a <;> decide
  exact (Memref.read_access_unit_zero (Elt Ideal) main_v21_1 hz' (fun a => by rw [congrFun hz' a]; simp) (res6 V c)).symm

theorem flushed7_eq (c : Dev nD) (t : Fin cfg1.N) (hf : (cfg1.win 7).flush t = true) :
    (dat1 V c).flushed 7 t = ((cfg1.win 7).blk t).view.read (Elt Ideal) (res7 V c) := by
  have hN : grid1.N = 10 := N_1
  have h9 : t.val = 9 := by
    have := (flush1_7 t).mp hf; have h := lt_of_lt_of_eq t.isLt (show cfg1.N = 10 from N_1); omega
  obtain rfl : t = t1_9 := Fin.ext h9
  show (cfg1.win 7).cut (grid1.coords t1_9) ((dat1 V c).after 7 t1_9) = _
  rw [after1_7, outsAt_eq]
  have hz' : (fun a => win1_7.index t1_9 a * main_v21_2.ty.shape.size a) = fun _ => 0 := funext fun a => by fin_cases a <;> decide
  exact (Memref.read_access_unit_zero (Elt Ideal) main_v21_2 hz' (fun a => by rw [congrFun hz' a]; simp) (res7 V c)).symm

/-- The last point's write-back covers the one-row array. -/
theorem final6 (c : Dev nD) : (dat1 V c).arrAt 6 cfg1.N = res6 V c :=
  (dat1 V c).arrAt_eq_of_cover 6 (res6 V c) (flushed6_eq V c) fun i =>
    ⟨t1_9, (flush1_6 t1_9).mpr rfl, by
      show i ∈ ((View.whole main_v21_1).slice (win1_6.rect t1_9)).set
      rw [View.set_slice_whole, Rect.mem_set_unit]
      intro a
      have h0 : (i 0 : Nat) < 1 := (i 0).isLt
      have h1 : (i 1 : Nat) < 128 := (i 1).isLt
      match a with
      | ⟨0, _⟩ => show win1_6.index t1_9 0 * win1_6.size 0 ≤ (i 0 : Nat) ∧ (i 0 : Nat) < win1_6.index t1_9 0 * win1_6.size 0 + win1_6.xsize (grid1.coords t1_9) 0
                  rw [show win1_6.index t1_9 0 * win1_6.size 0 = 0 from by decide +kernel, show win1_6.xsize (grid1.coords t1_9) 0 = 1 from by decide +kernel]; omega
      | ⟨1, _⟩ => show win1_6.index t1_9 1 * win1_6.size 1 ≤ (i 1 : Nat) ∧ (i 1 : Nat) < win1_6.index t1_9 1 * win1_6.size 1 + win1_6.xsize (grid1.coords t1_9) 1
                  rw [show win1_6.index t1_9 1 * win1_6.size 1 = 0 from by decide +kernel, show win1_6.xsize (grid1.coords t1_9) 1 = 128 from by decide +kernel]; omega⟩

theorem final7 (c : Dev nD) : (dat1 V c).arrAt 7 cfg1.N = res7 V c :=
  (dat1 V c).arrAt_eq_of_cover 7 (res7 V c) (flushed7_eq V c) fun i =>
    ⟨t1_9, (flush1_7 t1_9).mpr rfl, by
      show i ∈ ((View.whole main_v21_2).slice (win1_7.rect t1_9)).set
      rw [View.set_slice_whole, Rect.mem_set_unit]
      intro a
      have h0 : (i 0 : Nat) < 1 := (i 0).isLt
      have h1 : (i 1 : Nat) < 128 := (i 1).isLt
      match a with
      | ⟨0, _⟩ => show win1_7.index t1_9 0 * win1_7.size 0 ≤ (i 0 : Nat) ∧ (i 0 : Nat) < win1_7.index t1_9 0 * win1_7.size 0 + win1_7.xsize (grid1.coords t1_9) 0
                  rw [show win1_7.index t1_9 0 * win1_7.size 0 = 0 from by decide +kernel, show win1_7.xsize (grid1.coords t1_9) 0 = 1 from by decide +kernel]; omega
      | ⟨1, _⟩ => show win1_7.index t1_9 1 * win1_7.size 1 ≤ (i 1 : Nat) ∧ (i 1 : Nat) < win1_7.index t1_9 1 * win1_7.size 1 + win1_7.xsize (grid1.coords t1_9) 1
                  rw [show win1_7.index t1_9 1 * win1_7.size 1 = 0 from by decide +kernel, show win1_7.xsize (grid1.coords t1_9) 1 = 128 from by decide +kernel]; omega⟩

/-- Summing the ten tiles' column sums is summing down all 50000 rows. -/
theorem tiles_sum (c : Dev nD) (f : EReal → EReal) (q : Fin 128) :
    ∑ t : Fin (9 + 1), ∑ r : Fin 5000, f (tileY V c ⟨t.val, lt_of_lt_of_le t.isLt lastLt⟩ (ix2 r q))
      = ∑ r : Fin 50000, f (y1 (H V c) (NB V c) (SC V c) (Wt V c) (Bs V c) (ix2 r q)) := by
  rw [Cert.FinSum.sum_mul 10 5000 50000 rfl]
  refine Finset.sum_congr rfl fun t _ => Finset.sum_congr rfl fun r _ => ?_
  have hp : t.val * 5000 + r.val < 50000 := by have := t.isLt; have := r.isLt; omega
  rw [tile_apply V c ⟨t.val, _⟩ r q hp]
  rfl

/-- The second output array at a column: the sum of `y₁` down the column (from zero). -/
theorem sum_apply (c : Dev nD) (q : Fin 128) :
    (dat1 V c).arrAt 6 cfg1.N (ix2 (0 : Fin 1) q)
      = Ideal.ofBits .f32 0x00000000#32 + ∑ r : Fin 50000, y1 (H V c) (NB V c) (SC V c) (Wt V c) (Bs V c) (ix2 r q) := by
  rw [final6]
  show acc6 V c 9 lastLt (ix2 (0 : Fin 1) q) = _
  rw [acc6_apply V c q 9 lastLt]
  exact congrArg (_ + ·) (tiles_sum V c id q)

/-- The third output array at a column: the sum of the squares of `y₁` down the column (from zero). -/
theorem sumsq_apply (c : Dev nD) (q : Fin 128) :
    (dat1 V c).arrAt 7 cfg1.N (ix2 (0 : Fin 1) q)
      = Ideal.ofBits .f32 0x00000000#32
        + ∑ r : Fin 50000, y1 (H V c) (NB V c) (SC V c) (Wt V c) (Bs V c) (ix2 r q) * y1 (H V c) (NB V c) (SC V c) (Wt V c) (Bs V c) (ix2 r q) := by
  rw [final7]
  show acc7 V c 9 lastLt (ix2 (0 : Fin 1) q) = _
  rw [acc7_apply V c q 9 lastLt]
  exact congrArg (_ + ·) (tiles_sum V c (fun x => x * x) q)

end Final

end Cert.KernelIdeal.KStageAVal

end
-- ==== Proof.KStageB.lean ====
/-
  The second stage of a layer at one grid point, entry by entry: the tile of
  `y₂ = relu(γ·(y₁ − μ)·rsqrt(v + 1e-5) + β) · W₂ + b₂` (`μ`, `v` the column means and variances the stage is given),
  its column sums and the column sums of its squares added to the running sums.
-/
import proofs.«140776_j80633716015159_1_alg».proof.Proof.KStageA

set_option maxRecDepth 16384

noncomputable section

namespace Cert.KernelIdeal.KStageB

open Cert.KernelIdeal Cert.KernelIdeal.Gen
open Idealize.ShloMosaic Idealize.ShloMosaic.TcCoe Idealize.ShloMosaic.ValueIdx Idealize.SL.Sem
open Cert.KernelIdeal.KStageA (tile_dot_apply col_sum_apply)

/-- One normalised and rectified value: `max (γ·(x − μ)·rsqrt(v + 1e-5) + β) 0`. -/
def bnrelu (v g μ β x : EReal) : EReal :=
  max (g * (x - μ) * Ideal.rsqrt (v + Ideal.ofBits .f32 0x3727C5AC#32) + β) (Ideal.ofBits .f32 0x00000000#32)

/-- The tile of `y₂` at an entry. -/
theorem pay5_apply (v3 : Vec Ideal S5000x128 .f32) (v5 v10 v12 v20 : Vec Ideal S1x128 .f32) (v27 : Vec Ideal S128x128 .f32)
    (v31 : Vec Ideal S1x128 .f32) (p : Fin 5000) (q : Fin 128) :
    k2_pay5 v3 v5 v10 v12 v20 v27 v31 (ix2 p q)
      = (∑ k : Fin 128, bnrelu (v5 (ix2 (0 : Fin 1) k)) (v10 (ix2 (0 : Fin 1) k)) (v12 (ix2 (0 : Fin 1) k))
            (v20 (ix2 (0 : Fin 1) k)) (v3 (ix2 p k)) * v27 (ix2 k q))
        + v31 (ix2 (0 : Fin 1) q) := by
  have hb : ∀ (u : Vec Ideal S1x128 .f32) (a : Fin 5000) (c : Fin 128),
      (broadcastTo S5000x128 u broadcasts_S1x128_S5000x128 : FVec Ideal S5000x128 .f32) (ix2 a c) = u (ix2 (0 : Fin 1) c) :=
    fun u a c => broadcastTo_1b_ab_apply u broadcasts_S1x128_S5000x128 a c
  unfold k2_pay5
  simp only [shapeCast_self]
  refine (congrArg₂ (· + ·) (tile_dot_apply _ _ p q) (hb v31 p q)).trans ?_
  refine congrArg (· + _) (Finset.sum_congr rfl fun k _ => ?_)
  refine congrArg (· * _) ?_
  show max (((broadcastTo S5000x128 v10 broadcasts_S1x128_S5000x128 : FVec Ideal S5000x128 .f32) (ix2 p k)
        * (v3 (ix2 p k) - (broadcastTo S5000x128 v12 broadcasts_S1x128_S5000x128 : FVec Ideal S5000x128 .f32) (ix2 p k)))
        * (broadcastTo S5000x128 (rsqrt (addf v5 (broadcast S1x128 (Scalar.ofBits .f32 0x3727C5AC#32)))) broadcasts_S1x128_S5000x128 : FVec Ideal S5000x128 .f32) (ix2 p k)
        + (broadcastTo S5000x128 v20 broadcasts_S1x128_S5000x128 : FVec Ideal S5000x128 .f32) (ix2 p k))
      (Ideal.ofBits .f32 0x00000000#32) = _
  rw [hb, hb, hb, hb]
  rfl

/-- The running column sums after the point, at a column. -/
theorem pay1_apply (v34 : FVec Ideal S5000x128 .f32) (v36 : Vec Ideal S1x128 .f32) (q : Fin 128) :
    k2_pay1 v34 v36 (ix2 (0 : Fin 1) q) = v36 (ix2 (0 : Fin 1) q) + ∑ r : Fin 5000, v34 (ix2 r q) := by
  unfold k2_pay1
  simp only [shapeCast_self]
  refine congrArg (v36 (ix2 (0 : Fin 1) q) + ·) ?_
  refine (shapeCast_a_1a_apply _ shapeCasts_S128_S1x128 (0 : Fin 1) q).trans ?_
  exact col_sum_apply _ q

/-- The running column sums of squares after the point, at a column. -/
theorem pay2_apply (v34 : FVec Ideal S5000x128 .f32) (v42 : Vec Ideal S1x128 .f32) (q : Fin 128) :
    k2_pay2 v34 v42 (ix2 (0 : Fin 1) q) = v42 (ix2 (0 : Fin 1) q) + ∑ r : Fin 5000, v34 (ix2 r q) * v34 (ix2 r q) := by
  unfold k2_pay2
  simp only [shapeCast_self]
  refine congrArg (v42 (ix2 (0 : Fin 1) q) + ·) ?_
  refine (shapeCast_a_1a_apply _ shapeCasts_S128_S1x128 (0 : Fin 1) q).trans ?_
  exact col_sum_apply _ q

end Cert.KernelIdeal.KStageB

end
-- ==== Proof.KStageCD.lean ====
/-
  The third and the closing stage of a layer at one grid point, entry by entry.  The third stage normalises and
  rectifies its tile (`c = relu(γ·(y₂ − μ)·rsqrt(v + 1e-5) + β)`) and adds the tile's column sums and the column
  sums of its squares to the running sums; the closing stage normalises and rectifies once more and adds the layer's
  input (the residual connection).
-/
import proofs.«140776_j80633716015159_1_alg».proof.Proof.KStageB

set_option maxRecDepth 16384

noncomputable section

namespace Cert.KernelIdeal.KStageCD

open Cert.KernelIdeal Cert.KernelIdeal.Gen
open Idealize.ShloMosaic Idealize.ShloMosaic.TcCoe Idealize.ShloMosaic.ValueIdx Idealize.SL.Sem
open Cert.KernelIdeal.KStageA (col_sum_apply)
open Cert.KernelIdeal.KStageB (bnrelu)

theorem row_bcast (u : Vec Ideal S1x128 .f32) (a : Fin 5000) (c : Fin 128) :
    (broadcastTo S5000x128 u broadcasts_S1x128_S5000x128 : FVec Ideal S5000x128 .f32) (ix2 a c) = u (ix2 (0 : Fin 1) c) :=
  broadcastTo_1b_ab_apply u broadcasts_S1x128_S5000x128 a c

/-- The third stage's tile at an entry. -/
theorem pay4_apply (v3 : Vec Ideal S5000x128 .f32) (v5 v10 v12 v20 : Vec Ideal S1x128 .f32) (p : Fin 5000) (q : Fin 128) :
    k3_pay4 v3 v5 v10 v12 v20 (ix2 p q)
      = bnrelu (v5 (ix2 (0 : Fin 1) q)) (v10 (ix2 (0 : Fin 1) q)) (v12 (ix2 (0 : Fin 1) q)) (v20 (ix2 (0 : Fin 1) q))
          (v3 (ix2 p q)) := by
  unfold k3_pay4
  simp only [shapeCast_self]
  show max (((broadcastTo S5000x128 v10 broadcasts_S1x128_S5000x128 : FVec Ideal S5000x128 .f32) (ix2 p q)
        * (v3 (ix2 p q) - (broadcastTo S5000x128 v12 broadcasts_S1x128_S5000x128 : FVec Ideal S5000x128 .f32) (ix2 p q)))
        * (broadcastTo S5000x128 (rsqrt (addf v5 (broadcast S1x128 (Scalar.ofBits .f32 0x3727C5AC#32)))) broadcasts_S1x128_S5000x128 : FVec Ideal S5000x128 .f32) (ix2 p q)
        + (broadcastTo S5000x128 v20 broadcasts_S1x128_S5000x128 : FVec Ideal S5000x128 .f32) (ix2 p q))
      (Ideal.ofBits .f32 0x00000000#32) = _
  rw [row_bcast, row_bcast, row_bcast, row_bcast]
  rfl

/-- The third stage's running column sums after the point. -/
theorem pay5_apply (v3 : Vec Ideal S5000x128 .f32) (v5 v10 v12 v20 v27 : Vec Ideal S1x128 .f32) (q : Fin 128) :
    k3_pay5 v3 v5 v10 v12 v20 v27 (ix2 (0 : Fin 1) q)
      = v27 (ix2 (0 : Fin 1) q) + ∑ r : Fin 5000, k3_pay4 v3 v5 v10 v12 v20 (ix2 r q) := by
  unfold k3_pay5
  simp only [shapeCast_self]
  refine congrArg (v27 (ix2 (0 : Fin 1) q) + ·) ?_
  refine (shapeCast_a_1a_apply _ shapeCasts_S128_S1x128 (0 : Fin 1) q).trans ?_
  exact col_sum_apply _ q

/-- The third stage's running column sums of squares after the point. -/
theorem pay1_apply (v25 : FVec Ideal S5000x128 .f32) (v33 : Vec Ideal S1x128 .f32) (q : Fin 128) :
    k3_pay1 v25 v33 (ix2 (0 : Fin 1) q) = v33 (ix2 (0 : Fin 1) q) + ∑ r : Fin 5000, v25 (ix2 r q) * v25 (ix2 r q) := by
  unfold k3_pay1
  simp only [shapeCast_self]
  refine congrArg (v33 (ix2 (0 : Fin 1) q) + ·) ?_
  refine (shapeCast_a_1a_apply _ shapeCasts_S128_S1x128 (0 : Fin 1) q).trans ?_
  exact col_sum_apply _ q

/-- The closing stage's tile at an entry: the layer's input plus the normalised, rectified value. -/
theorem payD_apply (v0 : Vec Ideal S5000x128 .f32) (v2 v7 v9 v17 : Vec Ideal S1x128 .f32) (v23 : Vec Ideal S5000x128 .f32)
    (p : Fin 5000) (q : Fin 128) :
    k4_pay1 v0 v2 v7 v9 v17 v23 (ix2 p q)
      = v23 (ix2 p q) + bnrelu (v2 (ix2 (0 : Fin 1) q)) (v7 (ix2 (0 : Fin 1) q)) (v9 (ix2 (0 : Fin 1) q))
          (v17 (ix2 (0 : Fin 1) q)) (v0 (ix2 p q)) := by
  unfold k4_pay1
  simp only [shapeCast_self]
  show v23 (ix2 p q) + max (((broadcastTo S5000x128 v7 broadcasts_S1x128_S5000x128 : FVec Ideal S5000x128 .f32) (ix2 p q)
        * (v0 (ix2 p q) - (broadcastTo S5000x128 v9 broadcasts_S1x128_S5000x128 : FVec Ideal S5000x128 .f32) (ix2 p q)))
        * (broadcastTo S5000x128 (rsqrt (addf v2 (broadcast S1x128 (Scalar.ofBits .f32 0x3727C5AC#32)))) broadcasts_S1x128_S5000x128 : FVec Ideal S5000x128 .f32) (ix2 p q)
        + (broadcastTo S5000x128 v17 broadcasts_S1x128_S5000x128 : FVec Ideal S5000x128 .f32) (ix2 p q))
      (Ideal.ofBits .f32 0x00000000#32) = _
  rw [row_bcast, row_bcast, row_bcast, row_bcast]
  rfl

end Cert.KernelIdeal.KStageCD

end
-- ==== Proof.KStageBVal.lean ====
/-
  The second stage's region, read as values.  At each of the ten grid points the body writes the point's tile of
  `y₂` and updates two one-row accumulators: at the first point they are reset to zero before the tile's column sums
  (and column sums of squares) are added, at the later points the sums are added to what the point before left.
-/
import proofs.«140776_j80633716015159_1_alg».proof.Proof.Gen.KernelIdeal.Frame
import proofs.«140776_j80633716015159_1_alg».proof.Proof.KStageB
import proofs.«140776_j80633716015159_1_alg».proof.Proof.KStageCD
import proofs.«140776_j80633716015159_1_alg».proof.Proof.LibFinSum
import Idealize.ShloMosaic.Lib.Pipeline.Value
import Idealize.ShloMosaic.Lib.Tactic

set_option maxRecDepth 16384

noncomputable section

namespace Cert.KernelIdeal.KStageBVal

open Cert.KernelIdeal Cert.KernelIdeal.Gen
open Idealize.ShloMosaic Idealize.ShloMosaic.TcCoe Idealize.ShloMosaic.ValueIdx Idealize.SL.Sem
open Idealize.ShloMosaic.Pipeline (Dat Cfg Window)

variable {F : FTy → Type} [FloatOps F]

theorem hz : (![0, 0] : Fin 2 → Nat) = fun _ => 0 := funext fun a => by fin_cases a <;> rfl

/-- The zero row the reset stores. -/
abbrev zrow : Vec F S1x128 .f32 := broadcast S1x128 (Scalar.ofBits .f32 0x00000000#32)

/-- First point, the tile of `y₂`. -/
theorem outA7 (c : Dev nD) (i : grid2.Coords) (a1 : Memref sig .tc .vmem S5000x128 .f32) (h1 : a1.IsWhole) (a2 : Memref sig .tc .vmem S1x128 .f32) (h2 : a2.IsWhole) (a3 : Memref sig .tc .vmem S1x128 .f32) (h3 : a3.IsWhole) (a4 : Memref sig .tc .vmem S1x128 .f32) (h4 : a4.IsWhole) (a5 : Memref sig .tc .vmem S1x128 .f32) (h5 : a5.IsWhole) (a6 : Memref sig .tc .vmem S128x128 .f32) (h6 : a6.IsWhole) (a7 : Memref sig .tc .vmem S1x128 .f32) (h7 : a7.IsWhole) (a8 : Memref sig .tc .vmem S5000x128 .f32) (h8 : a8.IsWhole) (a9 : Memref sig .tc .vmem S1x128 .f32) (h9 : a9.IsWhole) (a10 : Memref sig .tc .vmem S1x128 .f32) (h10 : a10.IsWhole) (hc : cond2_0 i) (x0 : Vec F S5000x128 .f32) (x1 x2 x3 x4 : Vec F S1x128 .f32) (x5 : Vec F S128x128 .f32) (x6 : Vec F S1x128 .f32) :
    out2_A_7 c i a1 h1 a2 h2 a3 h3 a4 h4 a5 h5 a6 h6 a7 h7 a8 h8 a9 h9 a10 h10 hc x0 x1 x2 x3 x4 x5 x6 = k2_pay5 x0 x2 x3 x1 x4 x5 x6 := by
  unfold out2_A_7
  rw [View.read_writes_eq_canon _ _ _ (cover2_A_7 c i a1 h1 a2 h2 a3 h3 a4 h4 a5 h5 a6 h6 a7 h7 a8 h8 a9 h9 a10 h10 hc x0 x1 x2 x3 x4 x5 x6)]
  unfold kernelRun2_A
  dsimp only
  sl_unfold_words
  rw [View.canon_unit_zero hz]
  simp only [View.readAt_eq_ld, h1.read_unread, h2.read_unread, h3.read_unread, h4.read_unread, h5.read_unread, h6.read_unread, h7.read_unread, h9.read_unread, h10.read_unread, View.ld_unit_zero (S := S5000x128) hz, View.ld_unit_zero (S := S128x128) hz, View.ld_unit_zero (S := S1x128) hz]

theorem outA8 (c : Dev nD) (i : grid2.Coords) (a1 : Memref sig .tc .vmem S5000x128 .f32) (h1 : a1.IsWhole) (a2 : Memref sig .tc .vmem S1x128 .f32) (h2 : a2.IsWhole) (a3 : Memref sig .tc .vmem S1x128 .f32) (h3 : a3.IsWhole) (a4 : Memref sig .tc .vmem S1x128 .f32) (h4 : a4.IsWhole) (a5 : Memref sig .tc .vmem S1x128 .f32) (h5 : a5.IsWhole) (a6 : Memref sig .tc .vmem S128x128 .f32) (h6 : a6.IsWhole) (a7 : Memref sig .tc .vmem S1x128 .f32) (h7 : a7.IsWhole) (a8 : Memref sig .tc .vmem S5000x128 .f32) (h8 : a8.IsWhole) (a9 : Memref sig .tc .vmem S1x128 .f32) (h9 : a9.IsWhole) (a10 : Memref sig .tc .vmem S1x128 .f32) (h10 : a10.IsWhole) (hc : cond2_0 i) (x0 : Vec F S5000x128 .f32) (x1 x2 x3 x4 : Vec F S1x128 .f32) (x5 : Vec F S128x128 .f32) (x6 : Vec F S1x128 .f32) :
    out2_A_8 c i a1 h1 a2 h2 a3 h3 a4 h4 a5 h5 a6 h6 a7 h7 a8 h8 a9 h9 a10 h10 hc x0 x1 x2 x3 x4 x5 x6 = k2_pay1 (k2_pay5 x0 x2 x3 x1 x4 x5 x6) zrow := by
  unfold out2_A_8
  rw [View.read_writes_eq_canon _ _ _ (cover2_A_8 c i a1 h1 a2 h2 a3 h3 a4 h4 a5 h5 a6 h6 a7 h7 a8 h8 a9 h9 a10 h10 hc x0 x1 x2 x3 x4 x5 x6)]
  unfold kernelRun2_A
  dsimp only
  sl_unfold_words
  rw [View.canon_cons_unit_zero (S := S1x128) hz, View.readCov_unit_zero (S := S1x128) _ hz]
  simp only [View.readAt_eq_ld, h1.read_unread, h2.read_unread, h3.read_unread, h4.read_unread, h5.read_unread, h6.read_unread, h7.read_unread, h9.read_unread, h10.read_unread, View.ld_unit_zero (S := S5000x128) hz, View.ld_unit_zero (S := S128x128) hz, View.ld_unit_zero (S := S1x128) hz]
  rfl

theorem outA9 (c : Dev nD) (i : grid2.Coords) (a1 : Memref sig .tc .vmem S5000x128 .f32) (h1 : a1.IsWhole) (a2 : Memref sig .tc .vmem S1x128 .f32) (h2 : a2.IsWhole) (a3 : Memref sig .tc .vmem S1x128 .f32) (h3 : a3.IsWhole) (a4 : Memref sig .tc .vmem S1x128 .f32) (h4 : a4.IsWhole) (a5 : Memref sig .tc .vmem S1x128 .f32) (h5 : a5.IsWhole) (a6 : Memref sig .tc .vmem S128x128 .f32) (h6 : a6.IsWhole) (a7 : Memref sig .tc .vmem S1x128 .f32) (h7 : a7.IsWhole) (a8 : Memref sig .tc .vmem S5000x128 .f32) (h8 : a8.IsWhole) (a9 : Memref sig .tc .vmem S1x128 .f32) (h9 : a9.IsWhole) (a10 : Memref sig .tc .vmem S1x128 .f32) (h10 : a10.IsWhole) (hc : cond2_0 i) (x0 : Vec F S5000x128 .f32) (x1 x2 x3 x4 : Vec F S1x128 .f32) (x5 : Vec F S128x128 .f32) (x6 : Vec F S1x128 .f32) :
    out2_A_9 c i a1 h1 a2 h2 a3 h3 a4 h4 a5 h5 a6 h6 a7 h7 a8 h8 a9 h9 a10 h10 hc x0 x1 x2 x3 x4 x5 x6 = k2_pay2 (k2_pay5 x0 x2 x3 x1 x4 x5 x6) zrow := by
  unfold out2_A_9
  rw [View.read_writes_eq_canon _ _ _ (cover2_A_9 c i a1 h1 a2 h2 a3 h3 a4 h4 a5 h5 a6 h6 a7 h7 a8 h8 a9 h9 a10 h10 hc x0 x1 x2 x3 x4 x5 x6)]
  unfold kernelRun2_A
  dsimp only
  sl_unfold_words
  rw [View.canon_cons_unit_zero (S := S1x128) hz, View.readCov_unit_zero (S := S1x128) _ hz]
  simp only [View.readAt_eq_ld, h1.read_unread, h2.read_unread, h3.read_unread, h4.read_unread, h5.read_unread, h6.read_unread, h7.read_unread, h9.read_unread, h10.read_unread, View.ld_unit_zero (S := S5000x128) hz, View.ld_unit_zero (S := S128x128) hz, View.ld_unit_zero (S := S1x128) hz]
  rfl

theorem outB7 (c : Dev nD) (i : grid2.Coords) (a1 : Memref sig .tc .vmem S5000x128 .f32) (h1 : a1.IsWhole) (a2 : Memref sig .tc .vmem S1x128 .f32) (h2 : a2.IsWhole) (a3 : Memref sig .tc .vmem S1x128 .f32) (h3 : a3.IsWhole) (a4 : Memref sig .tc .vmem S1x128 .f32) (h4 : a4.IsWhole) (a5 : Memref sig .tc .vmem S1x128 .f32) (h5 : a5.IsWhole) (a6 : Memref sig .tc .vmem S128x128 .f32) (h6 : a6.IsWhole) (a7 : Memref sig .tc .vmem S1x128 .f32) (h7 : a7.IsWhole) (a8 : Memref sig .tc .vmem S5000x128 .f32) (h8 : a8.IsWhole) (a9 : Memref sig .tc .vmem S1x128 .f32) (h9 : a9.IsWhole) (a10 : Memref sig .tc .vmem S1x128 .f32) (h10 : a10.IsWhole) (hc : ¬cond2_0 i) (x0 : Vec F S5000x128 .f32) (x1 x2 x3 x4 : Vec F S1x128 .f32) (x5 : Vec F S128x128 .f32) (x6 : Vec F S1x128 .f32) (s8 s9 : Vec F S1x128 .f32) :
    out2_B_7 c i a1 h1 a2 h2 a3 h3 a4 h4 a5 h5 a6 h6 a7 h7 a8 h8 a9 h9 a10 h10 hc x0 x1 x2 x3 x4 x5 x6 s8 s9 = k2_pay5 x0 x2 x3 x1 x4 x5 x6 := by
  unfold out2_B_7
  rw [View.read_writes_eq_canon _ _ _ (cover2_B_7 c i a1 h1 a2 h2 a3 h3 a4 h4 a5 h5 a6 h6 a7 h7 a8 h8 a9 h9 a10 h10 hc x0 x1 x2 x3 x4 x5 x6 s8 s9)]
  unfold kernelRun2_B
  dsimp only
  sl_unfold_words
  rw [View.canon_unit_zero hz]
  simp only [View.readAt_eq_ld, h1.read_unread, h2.read_unread, h3.read_unread, h4.read_unread, h5.read_unread, h6.read_unread, h7.read_unread, h9.read_unread, h10.read_unread, View.ld_unit_zero (S := S5000x128) hz, View.ld_unit_zero (S := S128x128) hz, View.ld_unit_zero (S := S1x128) hz]

theorem outB8 (c : Dev nD) (i : grid2.Coords) (a1 : Memref sig .tc .vmem S5000x128 .f32) (h1 : a1.IsWhole) (a2 : Memref sig .tc .vmem S1x128 .f32) (h2 : a2.IsWhole) (a3 : Memref sig .tc .vmem S1x128 .f32) (h3 : a3.IsWhole) (a4 : Memref sig .tc .vmem S1x128 .f32) (h4 : a4.IsWhole) (a5 : Memref sig .tc .vmem S1x128 .f32) (h5 : a5.IsWhole) (a6 : Memref sig .tc .vmem S128x128 .f32) (h6 : a6.IsWhole) (a7 : Memref sig .tc .vmem S1x128 .f32) (h7 : a7.IsWhole) (a8 : Memref sig .tc .vmem S5000x128 .f32) (h8 : a8.IsWhole) (a9 : Memref sig .tc .vmem S1x128 .f32) (h9 : a9.IsWhole) (a10 : Memref sig .tc .vmem S1x128 .f32) (h10 : a10.IsWhole) (hc : ¬cond2_0 i) (x0 : Vec F S5000x128 .f32) (x1 x2 x3 x4 : Vec F S1x128 .f32) (x5 : Vec F S128x128 .f32) (x6 : Vec F S1x128 .f32) (s8 s9 : Vec F S1x128 .f32) :
    out2_B_8 c i a1 h1 a2 h2 a3 h3 a4 h4 a5 h5 a6 h6 a7 h7 a8 h8 a9 h9 a10 h10 hc x0 x1 x2 x3 x4 x5 x6 s8 s9 = k2_pay1 (k2_pay5 x0 x2 x3 x1 x4 x5 x6) s8 := by
  unfold out2_B_8
  rw [View.read_writes_eq_canon _ _ _ (cover2_B_8 c i a1 h1 a2 h2 a3 h3 a4 h4 a5 h5 a6 h6 a7 h7 a8 h8 a9 h9 a10 h10 hc x0 x1 x2 x3 x4 x5 x6 s8 s9)]
  unfold kernelRun2_B
  dsimp only
  sl_unfold_words
  rw [View.canon_unit_zero hz]
  simp only [View.readAt_eq_ld, h1.read_unread, h2.read_unread, h3.read_unread, h4.read_unread, h5.read_unread, h6.read_unread, h7.read_unread, h9.read_unread, h10.read_unread, View.ld_unit_zero (S := S5000x128) hz, View.ld_unit_zero (S := S128x128) hz, View.ld_unit_zero (S := S1x128) hz]

theorem outB9 (c : Dev nD) (i : grid2.Coords) (a1 : Memref sig .tc .vmem S5000x128 .f32) (h1 : a1.IsWhole) (a2 : Memref sig .tc .vmem S1x128 .f32) (h2 : a2.IsWhole) (a3 : Memref sig .tc .vmem S1x128 .f32) (h3 : a3.IsWhole) (a4 : Memref sig .tc .vmem S1x128 .f32) (h4 : a4.IsWhole) (a5 : Memref sig .tc .vmem S1x128 .f32) (h5 : a5.IsWhole) (a6 : Memref sig .tc .vmem S128x128 .f32) (h6 : a6.IsWhole) (a7 : Memref sig .tc .vmem S1x128 .f32) (h7 : a7.IsWhole) (a8 : Memref sig .tc .vmem S5000x128 .f32) (h8 : a8.IsWhole) (a9 : Memref sig .tc .vmem S1x128 .f32) (h9 : a9.IsWhole) (a10 : Memref sig .tc .vmem S1x128 .f32) (h10 : a10.IsWhole) (hc : ¬cond2_0 i) (x0 : Vec F S5000x128 .f32) (x1 x2 x3 x4 : Vec F S1x128 .f32) (x5 : Vec F S128x128 .f32) (x6 : Vec F S1x128 .f32) (s8 s9 : Vec F S1x128 .f32) :
    out2_B_9 c i a1 h1 a2 h2 a3 h3 a4 h4 a5 h5 a6 h6 a7 h7 a8 h8 a9 h9 a10 h10 hc x0 x1 x2 x3 x4 x5 x6 s8 s9 = k2_pay2 (k2_pay5 x0 x2 x3 x1 x4 x5 x6) s9 := by
  unfold out2_B_9
  rw [View.read_writes_eq_canon _ _ _ (cover2_B_9 c i a1 h1 a2 h2 a3 h3 a4 h4 a5 h5 a6 h6 a7 h7 a8 h8 a9 h9 a10 h10 hc x0 x1 x2 x3 x4 x5 x6 s8 s9)]
  unfold kernelRun2_B
  dsimp only
  sl_unfold_words
  rw [View.canon_unit_zero hz]
  simp only [View.readAt_eq_ld, h1.read_unread, h2.read_unread, h3.read_unread, h4.read_unread, h5.read_unread, h6.read_unread, h7.read_unread, h9.read_unread, h10.read_unread, View.ld_unit_zero (S := S5000x128) hz, View.ld_unit_zero (S := S128x128) hz, View.ld_unit_zero (S := S1x128) hz]

/-! ## The outputs after each point -/

variable (V : (c : Dev nD) → (b : Ref sig .tc) → Buf (Elt F) ((c : Thread nD τ).loc b))

/-- The point's tile of `y₂`. -/
def tileY (c : Dev nD) (t : Fin cfg2.N) : Vec F S5000x128 .f32 := k2_pay5 (iblk2 V c 0 t) (iblk2 V c 2 t) (iblk2 V c 3 t) (iblk2 V c 1 t) (iblk2 V c 4 t) (iblk2 V c 5 t) (iblk2 V c 6 t)

/-- The running column sums after point `n`. -/
def acc8 (c : Dev nD) : (n : ℕ) → n < cfg2.N → Vec F S1x128 .f32
  | 0, h => k2_pay1 (tileY V c ⟨0, h⟩) zrow
  | n + 1, h => k2_pay1 (tileY V c ⟨n + 1, h⟩) (acc8 c n (Nat.lt_of_succ_lt h))

/-- The running column sums of squares after point `n`. -/
def acc9 (c : Dev nD) : (n : ℕ) → n < cfg2.N → Vec F S1x128 .f32
  | 0, h => k2_pay2 (tileY V c ⟨0, h⟩) zrow
  | n + 1, h => k2_pay2 (tileY V c ⟨n + 1, h⟩) (acc9 c n (Nat.lt_of_succ_lt h))

/-- What the three outputs' staging buffers hold after point `n`: the tile and the two running sums. -/
theorem outsAt_eq (c : Dev nD) : ∀ (n : ℕ) (h : n < cfg2.N), outsAt2 V c n h = (tileY V c ⟨n, h⟩, acc8 V c n h, acc9 V c n h)
  | 0, h => (outsAt2_A V c ⟨0, h⟩ rfl).trans (by rw [outA7, outA8, outA9]; rfl)
  | n + 1, h => by
    have hN : grid2.N = 10 := N_2
    have hB : ¬(⟨n + 1, h⟩ : Fin cfg2.N).val % 10 = 0 := by
      have : n + 1 < 10 := by have := h; rw [show cfg2.N = grid2.N from rfl, hN] at this; exact this
      dsimp only; omega
    rw [outsAt2_B V c ⟨n + 1, h⟩ hB, outB7, outB8, outB9]
    show (_, k2_pay1 _ (outsAt2 V c n _).2.1, k2_pay2 _ (outsAt2 V c n _).2.2) = _
    rw [outsAt_eq c n]
    rfl

/-! ## At the exact reading: the accumulators are sums, the tiles an array -/

section Exact

variable (V : (c : Dev nD) → (b : Ref sig .tc) → Buf (Elt Ideal) ((c : Thread nD τ).loc b))

theorem acc8_apply (c : Dev nD) (q : Fin 128) : ∀ (n : ℕ) (h : n < cfg2.N),
    acc8 V c n h (ix2 (0 : Fin 1) q)
      = Ideal.ofBits .f32 0x00000000#32
        + ∑ t : Fin (n + 1), ∑ r : Fin 5000, tileY V c ⟨t.val, lt_of_lt_of_le t.isLt h⟩ (ix2 r q) :=
  Cert.FinSum.sum_of_steps cfg2.N (fun n h => acc8 V c n h (ix2 (0 : Fin 1) q))
    (fun t => ∑ r : Fin 5000, tileY V c t (ix2 r q)) (Ideal.ofBits .f32 0x00000000#32)
    (fun h => KStageB.pay1_apply _ _ q)
    (fun n h => KStageB.pay1_apply _ _ q)

theorem acc9_apply (c : Dev nD) (q : Fin 128) : ∀ (n : ℕ) (h : n < cfg2.N),
    acc9 V c n h (ix2 (0 : Fin 1) q)
      = Ideal.ofBits .f32 0x00000000#32
        + ∑ t : Fin (n + 1), ∑ r : Fin 5000,
            tileY V c ⟨t.val, lt_of_lt_of_le t.isLt h⟩ (ix2 r q) * tileY V c ⟨t.val, lt_of_lt_of_le t.isLt h⟩ (ix2 r q) :=
  Cert.FinSum.sum_of_steps cfg2.N (fun n h => acc9 V c n h (ix2 (0 : Fin 1) q))
    (fun t => ∑ r : Fin 5000, tileY V c t (ix2 r q) * tileY V c t (ix2 r q)) (Ideal.ofBits .f32 0x00000000#32)
    (fun h => KStageB.pay2_apply _ _ q)
    (fun n h => KStageB.pay2_apply _ _ q)

end Exact

/-! ## The arrays after the region -/

/-- One entry of `y₂ = relu(γ·(y₁ − μ)·rsqrt(v + ε) + β) · w + b`. -/
def y2At (y1 : (⟨2, ![50000, 128]⟩ : Shape).Idx → EReal) (m vr g be : (⟨2, ![1, 128]⟩ : Shape).Idx → EReal)
    (w : (⟨2, ![128, 128]⟩ : Shape).Idx → EReal) (b : (⟨2, ![1, 128]⟩ : Shape).Idx → EReal) (p : Fin 50000) (q : Fin 128) : EReal :=
  (∑ k : Fin 128, KStageB.bnrelu (vr (ix2 (0 : Fin 1) k)) (g (ix2 (0 : Fin 1) k)) (m (ix2 (0 : Fin 1) k)) (be (ix2 (0 : Fin 1) k))
      (y1 (ix2 p k)) * w (ix2 k q)) + b (ix2 (0 : Fin 1) q)

/-- `y₂` as an array. -/
def y2 (y1 : (⟨2, ![50000, 128]⟩ : Shape).Idx → EReal) (m vr g be : (⟨2, ![1, 128]⟩ : Shape).Idx → EReal)
    (w : (⟨2, ![128, 128]⟩ : Shape).Idx → EReal) (b : (⟨2, ![1, 128]⟩ : Shape).Idx → EReal) :
    (⟨2, ![50000, 128]⟩ : Shape).Idx → EReal :=
  fun i => y2At y1 m vr g be w b ⟨(i 0).val, idx2_lt0 i⟩ ⟨(i 1).val, idx2_lt1 i⟩

section Arrays

variable (V : (c : Dev nD) → (b : Ref sig .tc) → Buf (Elt Ideal) ((c : Thread nD τ).loc b))

/-- The arrays the region finds: the first stage's output, the column means and variances, the scale and shift rows,
    the weight matrix and the bias row. -/
abbrev Y1 (c : Dev nD) : S50000x128.Idx → EReal := V c (Pipeline.arrRef spec2 0)
abbrev M (c : Dev nD) : S1x128.Idx → EReal := V c (Pipeline.arrRef spec2 1)
abbrev Vr (c : Dev nD) : S1x128.Idx → EReal := V c (Pipeline.arrRef spec2 2)
abbrev G (c : Dev nD) : S1x128.Idx → EReal := V c (Pipeline.arrRef spec2 3)
abbrev Be (c : Dev nD) : S1x128.Idx → EReal := V c (Pipeline.arrRef spec2 4)
abbrev Wt (c : Dev nD) : S128x128.Idx → EReal := V c (Pipeline.arrRef spec2 5)
abbrev Bs (c : Dev nD) : S1x128.Idx → EReal := V c (Pipeline.arrRef spec2 6)

/-- The printed index maps over the ten points: the input tile and the output tile move down the rows with the
    point; the four statistics rows, the weight matrix and the bias row are block (0, 0). -/
theorem idx_facts : ∀ t : Fin cfg2.N,
    win2_0.index t (0 : Fin 2) = t.val ∧ win2_0.index t (1 : Fin 2) = 0
    ∧ win2_1.index t (0 : Fin 2) = 0 ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0
    ∧ win2_5.index t (0 : Fin 2) = 0 ∧ win2_5.index t (1 : Fin 2) = 0
    ∧ win2_6.index t (0 : Fin 2) = 0 ∧ win2_6.index t (1 : Fin 2) = 0
    ∧ win2_7.index t (0 : Fin 2) = t.val ∧ win2_7.index t (1 : Fin 2) = 0 :=
  (by decide +kernel : ∀ t : Fin grid2.N, _)

theorem iblk_y1 (c : Dev nD) (t : Fin cfg2.N) (p : Fin 5000) (k : Fin 128) (hp : t.val * 5000 + p.val < 50000) :
    (iblk2 V c 0 t : Vec Ideal S5000x128 .f32) (ix2 p k) = Y1 V c (ix2 ⟨t.val * 5000 + p.val, hp⟩ k) := by
  obtain ⟨e0, e1, -⟩ := idx_facts t
  unfold iblk2
  rw [View.read_apply]
  refine congrArg (V c (Pipeline.arrRef spec2 0)) (funext fun a => Fin.ext ?_)
  match a with
  | ⟨0, _⟩ => show win2_0.index t 0 * 5000 + 1 * p.val = t.val * 5000 + p.val; rw [e0]; omega
  | ⟨1, _⟩ => show win2_0.index t 1 * 128 + 1 * k.val = k.val; rw [e1]; omega

theorem iblk_m (c : Dev nD) (t : Fin cfg2.N) : (iblk2 V c 1 t : Vec Ideal S1x128 .f32) = M V c := by
  obtain ⟨-, -, e0, e1, -⟩ := idx_facts t
  funext y
  unfold iblk2
  rw [View.read_apply]
  refine congrArg (V c (Pipeline.arrRef spec2 1)) (funext fun a => Fin.ext ?_)
  match a with
  | ⟨0, _⟩ => show win2_1.index t 0 * 1 + 1 * (y 0).val = (y 0).val; rw [e0]; omega
  | ⟨1, _⟩ => show win2_1.index t 1 * 128 + 1 * (y 1).val = (y 1).val; rw [e1]; omega

theorem iblk_vr (c : Dev nD) (t : Fin cfg2.N) : (iblk2 V c 2 t : Vec Ideal S1x128 .f32) = Vr V c := by
  obtain ⟨-, -, -, -, e0, e1, -⟩ := idx_facts t
  funext y
  unfold iblk2
  rw [View.read_apply]
  refine congrArg (V c (Pipeline.arrRef spec2 2)) (funext fun a => Fin.ext ?_)
  match a with
  | ⟨0, _⟩ => show win2_2.index t 0 * 1 + 1 * (y 0).val = (y 0).val; rw [e0]; omega
  | ⟨1, _⟩ => show win2_2.index t 1 * 128 + 1 * (y 1).val = (y 1).val; rw [e1]; omega

theorem iblk_g (c : Dev nD) (t : Fin cfg2.N) : (iblk2 V c 3 t : Vec Ideal S1x128 .f32) = G V c := by
  obtain ⟨-, -, -, -, -, -, e0, e1, -⟩ := idx_facts t
  funext y
  unfold iblk2
  rw [View.read_apply]
  refine congrArg (V c (Pipeline.arrRef spec2 3)) (funext fun a => Fin.ext ?_)
  match a with
  | ⟨0, _⟩ => show win2_3.index t 0 * 1 + 1 * (y 0).val = (y 0).val; rw [e0]; omega
  | ⟨1, _⟩ => show win2_3.index t 1 * 128 + 1 * (y 1).val = (y 1).val; rw [e1]; omega

theorem iblk_be (c : Dev nD) (t : Fin cfg2.N) : (iblk2 V c 4 t : Vec Ideal S1x128 .f32) = Be V c := by
  obtain ⟨-, -, -, -, -, -, -, -, e0, e1, -⟩ := idx_facts t
  funext y
  unfold iblk2
  rw [View.read_apply]
  refine congrArg (V c (Pipeline.arrRef spec2 4)) (funext fun a => Fin.ext ?_)
  match a with
  | ⟨0, _⟩ => show win2_4.index t 0 * 1 + 1 * (y 0).val = (y 0).val; rw [e0]; omega
  | ⟨1, _⟩ => show win2_4.index t 1 * 128 + 1 * (y 1).val = (y 1).val; rw [e1]; omega

theorem iblk_w (c : Dev nD) (t : Fin cfg2.N) : (iblk2 V c 5 t : Vec Ideal S128x128 .f32) = Wt V c := by
  obtain ⟨-, -, -, -, -, -, -, -, -, -, e0, e1, -⟩ := idx_facts t
  funext y
  unfold iblk2
  rw [View.read_apply]
  refine congrArg (V c (Pipeline.arrRef spec2 5)) (funext fun a => Fin.ext ?_)
  match a with
  | ⟨0, _⟩ => show win2_5.index t 0 * 128 + 1 * (y 0).val = (y 0).val; rw [e0]; omega
  | ⟨1, _⟩ => show win2_5.index t 1 * 128 + 1 * (y 1).val = (y 1).val; rw [e1]; omega

theorem iblk_b (c : Dev nD) (t : Fin cfg2.N) : (iblk2 V c 6 t : Vec Ideal S1x128 .f32) = Bs V c := by
  obtain ⟨-, -, -, -, -, -, -, -, -, -, -, -, e0, e1, -⟩ := idx_facts t
  funext y
  unfold iblk2
  rw [View.read_apply]
  refine congrArg (V c (Pipeline.arrRef spec2 6)) (funext fun a => Fin.ext ?_)
  match a with
  | ⟨0, _⟩ => show win2_6.index t 0 * 1 + 1 * (y 0).val = (y 0).val; rw [e0]; omega
  | ⟨1, _⟩ => show win2_6.index t 1 * 128 + 1 * (y 1).val = (y 1).val; rw [e1]; omega

/-- The tile at point `t`, entry `(p, q)`, is `y₂` at row `5000·t + p`. -/
theorem tile_apply (c : Dev nD) (t : Fin cfg2.N) (p : Fin 5000) (q : Fin 128) (hp : t.val * 5000 + p.val < 50000) :
    tileY V c t (ix2 p q) = y2At (Y1 V c) (M V c) (Vr V c) (G V c) (Be V c) (Wt V c) (Bs V c) ⟨t.val * 5000 + p.val, hp⟩ q := by
  unfold tileY y2At
  rw [KStageB.pay5_apply, iblk_m, iblk_vr, iblk_g, iblk_be, iblk_w, iblk_b]
  refine congrArg (· + _) (Finset.sum_congr rfl fun k _ => ?_)
  rw [iblk_y1 V c t p k hp]

end Arrays

section Final

variable (V : (c : Dev nD) → (b : Ref sig .tc) → Buf (Elt Ideal) ((c : Thread nD τ).loc b))

/-- An entry of the tile at point `t` is the entry of `y₂` at row `5000·t + ` the tile's row. -/
theorem point7 (c : Dev nD) (t : Fin cfg2.N) (j : S5000x128.Idx) (i : S50000x128.Idx)
    (hi0 : (i 0).val = t.val * 5000 + (j 0).val) (hi1 : (i 1).val = (j 1).val) :
    tileY V c t j = y2 (Y1 V c) (M V c) (Vr V c) (G V c) (Be V c) (Wt V c) (Bs V c) i := by
  obtain ⟨p, q, rfl⟩ : ∃ (p : Fin 5000) (q : Fin 128), j = ix2 p q := ⟨j 0, j 1, eq_ix2 j⟩
  have ht : t.val < 10 := lt_of_lt_of_eq t.isLt (show cfg2.N = 10 from N_2)
  have hp : t.val * 5000 + p.val < 50000 := by have := p.isLt; omega
  rw [tile_apply V c t p q hp]
  unfold y2
  congr 1
  · exact Fin.ext hi0.symm
  · exact Fin.ext hi1.symm

/-- What point `t` writes back of `y₂` is tile `t` of the array `y₂`. -/
theorem flushed7_eq (c : Dev nD) (t : Fin cfg2.N) :
    (dat2 V c).flushed 7 t
      = ((cfg2.win 7).blk t).view.read (Elt Ideal) (y2 (Y1 V c) (M V c) (Vr V c) (G V c) (Be V c) (Wt V c) (Bs V c)) := by
  show (cfg2.win 7).cut (grid2.coords t) ((dat2 V c).after 7 t) = _
  rw [after2_7, outsAt_eq]
  obtain ⟨-, -, -, -, -, -, -, -, -, -, -, -, -, -, e0, e1⟩ := idx_facts t
  funext j
  rw [View.read_apply]
  refine point7 V c t j _ ?_ ?_
  · show win2_7.index t 0 * 5000 + 1 * (j 0).val = t.val * 5000 + (j 0).val
    rw [e0]; omega
  · show win2_7.index t 1 * 128 + 1 * (j 1).val = (j 1).val
    rw [e1]; omega

theorem mem_blk7 (t : Fin cfg2.N) (i : S50000x128.Idx) :
    i ∈ ((cfg2.win 7).blk t).view.set ↔ ∀ a : Fin 2, win2_7.index t a * S5000x128.size a ≤ (i a).val
      ∧ (i a).val < win2_7.index t a * S5000x128.size a + S5000x128.size a := by
  show i ∈ ((View.whole main_v39_0).slice (win2_7.rect t)).set ↔ _
  rw [View.set_slice_whole, Rect.mem_set_unit]
  exact Iff.rfl

theorem cover7 (i : S50000x128.Idx) :
    ∃ t : Fin cfg2.N, (cfg2.win 7).flush t = true ∧ i ∈ ((cfg2.win 7).blk t).view.set := by
  have hi0 : (i 0).val < 50000 := idx2_lt0 i
  have hi1 : (i 1).val < 128 := idx2_lt1 i
  have hN : grid2.N = 10 := N_2
  have ht : (i 0).val / 5000 < cfg2.N := by show _ < grid2.N; rw [hN]; omega
  obtain ⟨-, -, -, -, -, -, -, -, -, -, -, -, -, -, e0, e1⟩ := idx_facts ⟨(i 0).val / 5000, ht⟩
  refine ⟨⟨(i 0).val / 5000, ht⟩, flush2_7 _, ?_⟩
  rw [mem_blk7]
  intro a
  match a with
  | ⟨0, _⟩ =>
    show win2_7.index ⟨(i 0).val / 5000, ht⟩ 0 * 5000 ≤ (i 0).val ∧ (i 0).val < win2_7.index ⟨(i 0).val / 5000, ht⟩ 0 * 5000 + 5000
    rw [e0]; show (i 0).val / 5000 * 5000 ≤ (i 0).val ∧ (i 0).val < (i 0).val / 5000 * 5000 + 5000; omega
  | ⟨1, _⟩ =>
    show win2_7.index ⟨(i 0).val / 5000, ht⟩ 1 * 128 ≤ (i 1).val ∧ (i 1).val < win2_7.index ⟨(i 0).val / 5000, ht⟩ 1 * 128 + 128
    rw [e1]; omega

/-- After the region the first output array is `y₂` of the arrays the region finds. -/
theorem final7 (c : Dev nD) : (dat2 V c).arrAt 7 cfg2.N = y2 (Y1 V c) (M V c) (Vr V c) (G V c) (Be V c) (Wt V c) (Bs V c) :=
  (dat2 V c).arrAt_eq_of_cover 7 _ (fun t _ => flushed7_eq V c t) cover7

theorem lastLt : 9 < cfg2.N := by show 9 < grid2.N; rw [N_2]; decide

/-- The accumulated column sums after the last point, as the contents of the second output array. -/
abbrev res8 (c : Dev nD) : Buf (Elt Ideal) ((c : Thread nD τ).loc main_v39_1) := acc8 V c 9 lastLt
/-- The accumulated column sums of squares after the last point, as the contents of the third output array. -/
abbrev res9 (c : Dev nD) : Buf (Elt Ideal) ((c : Thread nD τ).loc main_v39_2) := acc9 V c 9 lastLt

theorem flushed8_eq (c : Dev nD) (t : Fin cfg2.N) (hf : (cfg2.win 8).flush t = true) :
    (dat2 V c).flushed 8 t = ((cfg2.win 8).blk t).view.read (Elt Ideal) (res8 V c) := by
  have hN : grid2.N = 10 := N_2
  have h9 : t.val = 9 := by
    have := (flush2_8 t).mp hf; have h := lt_of_lt_of_eq t.isLt (show cfg2.N = 10 from N_2); omega
  obtain rfl : t = t2_9 := Fin.ext h9
  show (cfg2.win 8).cut (grid2.coords t2_9) ((dat2 V c).after 8 t2_9) = _
  rw [after2_8, outsAt_eq]
  have hz' : (fun a => win2_8.index t2_9 a * main_v39_1.ty.shape.size a) = fun _ => 0 := funext fun a => by fin_cases a <;> decide
  exact (Memref.read_access_unit_zero (Elt Ideal) main_v39_1 hz' (fun a => by rw [congrFun hz' a]; simp) (res8 V c)).symm

theorem flushed9_eq (c : Dev nD) (t : Fin cfg2.N) (hf : (cfg2.win 9).flush t = true) :
    (dat2 V c).flushed 9 t = ((cfg2.win 9).blk t).view.read (Elt Ideal) (res9 V c) := by
  have hN : grid2.N = 10 := N_2
  have h9 : t.val = 9 := by
    have := (flush2_9 t).mp hf; have h := lt_of_lt_of_eq t.isLt (show cfg2.N = 10 from N_2); omega
  obtain rfl : t = t2_9 := Fin.ext h9
  show (cfg2.win 9).cut (grid2.coords t2_9) ((dat2 V c).after 9 t2_9) = _
  rw [after2_9, outsAt_eq]
  have hz' : (fun a => win2_9.index t2_9 a * main_v39_2.ty.shape.size a) = fun _ => 0 := funext fun a => by fin_cases a <;> decide
  exact (Memref.read_access_unit_zero (Elt Ideal) main_v39_2 hz' (fun a => by rw [congrFun hz' a]; simp) (res9 V c)).symm

/-- The last point's write-back covers the one-row array. -/
theorem final8 (c : Dev nD) : (dat2 V c).arrAt 8 cfg2.N = res8 V c :=
  (dat2 V c).arrAt_eq_of_cover 8 (res8 V c) (flushed8_eq V c) fun i =>
    ⟨t2_9, (flush2_8 t2_9).mpr rfl, by
      show i ∈ ((View.whole main_v39_1).slice (win2_8.rect t2_9)).set
      rw [View.set_slice_whole, Rect.mem_set_unit]
      intro a
      have h0 : (i 0 : Nat) < 1 := (i 0).isLt
      have h1 : (i 1 : Nat) < 128 := (i 1).isLt
      match a with
      | ⟨0, _⟩ => show win2_8.index t2_9 0 * win2_8.size 0 ≤ (i 0 : Nat) ∧ (i 0 : Nat) < win2_8.index t2_9 0 * win2_8.size 0 + win2_8.xsize (grid2.coords t2_9) 0
                  rw [show win2_8.index t2_9 0 * win2_8.size 0 = 0 from by decide +kernel, show win2_8.xsize (grid2.coords t2_9) 0 = 1 from by decide +kernel]; omega
      | ⟨1, _⟩ => show win2_8.index t2_9 1 * win2_8.size 1 ≤ (i 1 : Nat) ∧ (i 1 : Nat) < win2_8.index t2_9 1 * win2_8.size 1 + win2_8.xsize (grid2.coords t2_9) 1
                  rw [show win2_8.index t2_9 1 * win2_8.size 1 = 0 from by decide +kernel, show win2_8.xsize (grid2.coords t2_9) 1 = 128 from by decide +kernel]; omega⟩

theorem final9 (c : Dev nD) : (dat2 V c).arrAt 9 cfg2.N = res9 V c :=
  (dat2 V c).arrAt_eq_of_cover 9 (res9 V c) (flushed9_eq V c) fun i =>
    ⟨t2_9, (flush2_9 t2_9).mpr rfl, by
      show i ∈ ((View.whole main_v39_2).slice (win2_9.rect t2_9)).set
      rw [View.set_slice_whole, Rect.mem_set_unit]
      intro a
      have h0 : (i 0 : Nat) < 1 := (i 0).isLt
      have h1 : (i 1 : Nat) < 128 := (i 1).isLt
      match a with
      | ⟨0, _⟩ => show win2_9.index t2_9 0 * win2_9.size 0 ≤ (i 0 : Nat) ∧ (i 0 : Nat) < win2_9.index t2_9 0 * win2_9.size 0 + win2_9.xsize (grid2.coords t2_9) 0
                  rw [show win2_9.index t2_9 0 * win2_9.size 0 = 0 from by decide +kernel, show win2_9.xsize (grid2.coords t2_9) 0 = 1 from by decide +kernel]; omega
      | ⟨1, _⟩ => show win2_9.index t2_9 1 * win2_9.size 1 ≤ (i 1 : Nat) ∧ (i 1 : Nat) < win2_9.index t2_9 1 * win2_9.size 1 + win2_9.xsize (grid2.coords t2_9) 1
                  rw [show win2_9.index t2_9 1 * win2_9.size 1 = 0 from by decide +kernel, show win2_9.xsize (grid2.coords t2_9) 1 = 128 from by decide +kernel]; omega⟩

/-- Summing the ten tiles' column sums is summing down all 50000 rows. -/
theorem tiles_sum (c : Dev nD) (f : EReal → EReal) (q : Fin 128) :
    ∑ t : Fin (9 + 1), ∑ r : Fin 5000, f (tileY V c ⟨t.val, lt_of_lt_of_le t.isLt lastLt⟩ (ix2 r q))
      = ∑ r : Fin 50000, f (y2 (Y1 V c) (M V c) (Vr V c) (G V c) (Be V c) (Wt V c) (Bs V c) (ix2 r q)) := by
  rw [Cert.FinSum.sum_mul 10 5000 50000 rfl]
  refine Finset.sum_congr rfl fun t _ => Finset.sum_congr rfl fun r _ => ?_
  have hp : t.val * 5000 + r.val < 50000 := by have := t.isLt; have := r.isLt; omega
  rw [tile_apply V c ⟨t.val, _⟩ r q hp]
  rfl

/-- The second output array at a column: the sum of `y₂` down the column (from zero). -/
theorem sum_apply (c : Dev nD) (q : Fin 128) :
    (dat2 V c).arrAt 8 cfg2.N (ix2 (0 : Fin 1) q)
      = Ideal.ofBits .f32 0x00000000#32 + ∑ r : Fin 50000, y2 (Y1 V c) (M V c) (Vr V c) (G V c) (Be V c) (Wt V c) (Bs V c) (ix2 r q) := by
  rw [final8]
  show acc8 V c 9 lastLt (ix2 (0 : Fin 1) q) = _
  rw [acc8_apply V c q 9 lastLt]
  exact congrArg (_ + ·) (tiles_sum V c id q)

/-- The third output array at a column: the sum of the squares of `y₂` down the column (from zero). -/
theorem sumsq_apply (c : Dev nD) (q : Fin 128) :
    (dat2 V c).arrAt 9 cfg2.N (ix2 (0 : Fin 1) q)
      = Ideal.ofBits .f32 0x00000000#32
        + ∑ r : Fin 50000, y2 (Y1 V c) (M V c) (Vr V c) (G V c) (Be V c) (Wt V c) (Bs V c) (ix2 r q) * y2 (Y1 V c) (M V c) (Vr V c) (G V c) (Be V c) (Wt V c) (Bs V c) (ix2 r q) := by
  rw [final9]
  show acc9 V c 9 lastLt (ix2 (0 : Fin 1) q) = _
  rw [acc9_apply V c q 9 lastLt]
  exact congrArg (_ + ·) (tiles_sum V c (fun x => x * x) q)

end Final

end Cert.KernelIdeal.KStageBVal

end
-- ==== Proof.KStageCVal.lean ====
/-
  The third stage's region, read as values.  At each of the ten grid points the body writes the point's tile of
  `c = relu(γ·(y₂ − μ)·rsqrt(v + ε) + β)` and updates two one-row accumulators: at the first point they are reset
  to zero before the tile's column sums (and column sums of squares) are added, at the later points the sums are added
  to what the point before left.
-/
import proofs.«140776_j80633716015159_1_alg».proof.Proof.Gen.KernelIdeal.Frame
import proofs.«140776_j80633716015159_1_alg».proof.Proof.KStageB
import proofs.«140776_j80633716015159_1_alg».proof.Proof.KStageCD
import proofs.«140776_j80633716015159_1_alg».proof.Proof.LibFinSum
import Idealize.ShloMosaic.Lib.Pipeline.Value
import Idealize.ShloMosaic.Lib.Tactic

set_option maxRecDepth 16384

noncomputable section

namespace Cert.KernelIdeal.KStageCVal

open Cert.KernelIdeal Cert.KernelIdeal.Gen
open Idealize.ShloMosaic Idealize.ShloMosaic.TcCoe Idealize.ShloMosaic.ValueIdx Idealize.SL.Sem
open Idealize.ShloMosaic.Pipeline (Dat Cfg Window)

variable {F : FTy → Type} [FloatOps F]

theorem hz : (![0, 0] : Fin 2 → Nat) = fun _ => 0 := funext fun a => by fin_cases a <;> rfl

/-- The zero row the reset stores. -/
abbrev zrow : Vec F S1x128 .f32 := broadcast S1x128 (Scalar.ofBits .f32 0x00000000#32)

/-- First point, the tile of `c`. -/
theorem outA5 (c : Dev nD) (i : grid3.Coords) (a1 : Memref sig .tc .vmem S5000x128 .f32) (h1 : a1.IsWhole) (a2 : Memref sig .tc .vmem S1x128 .f32) (h2 : a2.IsWhole) (a3 : Memref sig .tc .vmem S1x128 .f32) (h3 : a3.IsWhole) (a4 : Memref sig .tc .vmem S1x128 .f32) (h4 : a4.IsWhole) (a5 : Memref sig .tc .vmem S1x128 .f32) (h5 : a5.IsWhole) (a6 : Memref sig .tc .vmem S5000x128 .f32) (h6 : a6.IsWhole) (a7 : Memref sig .tc .vmem S1x128 .f32) (h7 : a7.IsWhole) (a8 : Memref sig .tc .vmem S1x128 .f32) (h8 : a8.IsWhole) (hc : cond3_0 i) (x0 : Vec F S5000x128 .f32) (x1 x2 x3 x4 : Vec F S1x128 .f32) :
    out3_A_5 c i a1 h1 a2 h2 a3 h3 a4 h4 a5 h5 a6 h6 a7 h7 a8 h8 hc x0 x1 x2 x3 x4 = k3_pay4 x0 x2 x3 x1 x4 := by
  unfold out3_A_5
  rw [View.read_writes_eq_canon _ _ _ (cover3_A_5 c i a1 h1 a2 h2 a3 h3 a4 h4 a5 h5 a6 h6 a7 h7 a8 h8 hc x0 x1 x2 x3 x4)]
  unfold kernelRun3_A
  dsimp only
  sl_unfold_words
  rw [View.canon_unit_zero hz]
  simp only [View.readAt_eq_ld, h1.read_unread, h2.read_unread, h3.read_unread, h4.read_unread, h5.read_unread, h7.read_unread, h8.read_unread, View.ld_unit_zero (S := S5000x128) hz, View.ld_unit_zero (S := S1x128) hz]

theorem outA6 (c : Dev nD) (i : grid3.Coords) (a1 : Memref sig .tc .vmem S5000x128 .f32) (h1 : a1.IsWhole) (a2 : Memref sig .tc .vmem S1x128 .f32) (h2 : a2.IsWhole) (a3 : Memref sig .tc .vmem S1x128 .f32) (h3 : a3.IsWhole) (a4 : Memref sig .tc .vmem S1x128 .f32) (h4 : a4.IsWhole) (a5 : Memref sig .tc .vmem S1x128 .f32) (h5 : a5.IsWhole) (a6 : Memref sig .tc .vmem S5000x128 .f32) (h6 : a6.IsWhole) (a7 : Memref sig .tc .vmem S1x128 .f32) (h7 : a7.IsWhole) (a8 : Memref sig .tc .vmem S1x128 .f32) (h8 : a8.IsWhole) (hc : cond3_0 i) (x0 : Vec F S5000x128 .f32) (x1 x2 x3 x4 : Vec F S1x128 .f32) :
    out3_A_6 c i a1 h1 a2 h2 a3 h3 a4 h4 a5 h5 a6 h6 a7 h7 a8 h8 hc x0 x1 x2 x3 x4 = k3_pay5 x0 x2 x3 x1 x4 zrow := by
  unfold out3_A_6
  rw [View.read_writes_eq_canon _ _ _ (cover3_A_6 c i a1 h1 a2 h2 a3 h3 a4 h4 a5 h5 a6 h6 a7 h7 a8 h8 hc x0 x1 x2 x3 x4)]
  unfold kernelRun3_A
  dsimp only
  sl_unfold_words
  rw [View.canon_cons_unit_zero (S := S1x128) hz, View.readCov_unit_zero (S := S1x128) _ hz]
  simp only [View.readAt_eq_ld, h1.read_unread, h2.read_unread, h3.read_unread, h4.read_unread, h5.read_unread, h7.read_unread, h8.read_unread, View.ld_unit_zero (S := S5000x128) hz, View.ld_unit_zero (S := S1x128) hz]
  rfl

theorem outA7 (c : Dev nD) (i : grid3.Coords) (a1 : Memref sig .tc .vmem S5000x128 .f32) (h1 : a1.IsWhole) (a2 : Memref sig .tc .vmem S1x128 .f32) (h2 : a2.IsWhole) (a3 : Memref sig .tc .vmem S1x128 .f32) (h3 : a3.IsWhole) (a4 : Memref sig .tc .vmem S1x128 .f32) (h4 : a4.IsWhole) (a5 : Memref sig .tc .vmem S1x128 .f32) (h5 : a5.IsWhole) (a6 : Memref sig .tc .vmem S5000x128 .f32) (h6 : a6.IsWhole) (a7 : Memref sig .tc .vmem S1x128 .f32) (h7 : a7.IsWhole) (a8 : Memref sig .tc .vmem S1x128 .f32) (h8 : a8.IsWhole) (hc : cond3_0 i) (x0 : Vec F S5000x128 .f32) (x1 x2 x3 x4 : Vec F S1x128 .f32) :
    out3_A_7 c i a1 h1 a2 h2 a3 h3 a4 h4 a5 h5 a6 h6 a7 h7 a8 h8 hc x0 x1 x2 x3 x4 = k3_pay1 (k3_pay4 x0 x2 x3 x1 x4) zrow := by
  unfold out3_A_7
  rw [View.read_writes_eq_canon _ _ _ (cover3_A_7 c i a1 h1 a2 h2 a3 h3 a4 h4 a5 h5 a6 h6 a7 h7 a8 h8 hc x0 x1 x2 x3 x4)]
  unfold kernelRun3_A
  dsimp only
  sl_unfold_words
  rw [View.canon_cons_unit_zero (S := S1x128) hz, View.readCov_unit_zero (S := S1x128) _ hz]
  simp only [View.readAt_eq_ld, h1.read_unread, h2.read_unread, h3.read_unread, h4.read_unread, h5.read_unread, h7.read_unread, h8.read_unread, View.ld_unit_zero (S := S5000x128) hz, View.ld_unit_zero (S := S1x128) hz]
  rfl

theorem outB5 (c : Dev nD) (i : grid3.Coords) (a1 : Memref sig .tc .vmem S5000x128 .f32) (h1 : a1.IsWhole) (a2 : Memref sig .tc .vmem S1x128 .f32) (h2 : a2.IsWhole) (a3 : Memref sig .tc .vmem S1x128 .f32) (h3 : a3.IsWhole) (a4 : Memref sig .tc .vmem S1x128 .f32) (h4 : a4.IsWhole) (a5 : Memref sig .tc .vmem S1x128 .f32) (h5 : a5.IsWhole) (a6 : Memref sig .tc .vmem S5000x128 .f32) (h6 : a6.IsWhole) (a7 : Memref sig .tc .vmem S1x128 .f32) (h7 : a7.IsWhole) (a8 : Memref sig .tc .vmem S1x128 .f32) (h8 : a8.IsWhole) (hc : ¬cond3_0 i) (x0 : Vec F S5000x128 .f32) (x1 x2 x3 x4 : Vec F S1x128 .f32) (s6 s7 : Vec F S1x128 .f32) :
    out3_B_5 c i a1 h1 a2 h2 a3 h3 a4 h4 a5 h5 a6 h6 a7 h7 a8 h8 hc x0 x1 x2 x3 x4 s6 s7 = k3_pay4 x0 x2 x3 x1 x4 := by
  unfold out3_B_5
  rw [View.read_writes_eq_canon _ _ _ (cover3_B_5 c i a1 h1 a2 h2 a3 h3 a4 h4 a5 h5 a6 h6 a7 h7 a8 h8 hc x0 x1 x2 x3 x4 s6 s7)]
  unfold kernelRun3_B
  dsimp only
  sl_unfold_words
  rw [View.canon_unit_zero hz]
  simp only [View.readAt_eq_ld, h1.read_unread, h2.read_unread, h3.read_unread, h4.read_unread, h5.read_unread, h7.read_unread, h8.read_unread, View.ld_unit_zero (S := S5000x128) hz, View.ld_unit_zero (S := S1x128) hz]

theorem outB6 (c : Dev nD) (i : grid3.Coords) (a1 : Memref sig .tc .vmem S5000x128 .f32) (h1 : a1.IsWhole) (a2 : Memref sig .tc .vmem S1x128 .f32) (h2 : a2.IsWhole) (a3 : Memref sig .tc .vmem S1x128 .f32) (h3 : a3.IsWhole) (a4 : Memref sig .tc .vmem S1x128 .f32) (h4 : a4.IsWhole) (a5 : Memref sig .tc .vmem S1x128 .f32) (h5 : a5.IsWhole) (a6 : Memref sig .tc .vmem S5000x128 .f32) (h6 : a6.IsWhole) (a7 : Memref sig .tc .vmem S1x128 .f32) (h7 : a7.IsWhole) (a8 : Memref sig .tc .vmem S1x128 .f32) (h8 : a8.IsWhole) (hc : ¬cond3_0 i) (x0 : Vec F S5000x128 .f32) (x1 x2 x3 x4 : Vec F S1x128 .f32) (s6 s7 : Vec F S1x128 .f32) :
    out3_B_6 c i a1 h1 a2 h2 a3 h3 a4 h4 a5 h5 a6 h6 a7 h7 a8 h8 hc x0 x1 x2 x3 x4 s6 s7 = k3_pay5 x0 x2 x3 x1 x4 s6 := by
  unfold out3_B_6
  rw [View.read_writes_eq_canon _ _ _ (cover3_B_6 c i a1 h1 a2 h2 a3 h3 a4 h4 a5 h5 a6 h6 a7 h7 a8 h8 hc x0 x1 x2 x3 x4 s6 s7)]
  unfold kernelRun3_B
  dsimp only
  sl_unfold_words
  rw [View.canon_unit_zero hz]
  simp only [View.readAt_eq_ld, h1.read_unread, h2.read_unread, h3.read_unread, h4.read_unread, h5.read_unread, h7.read_unread, h8.read_unread, View.ld_unit_zero (S := S5000x128) hz, View.ld_unit_zero (S := S1x128) hz]

theorem outB7 (c : Dev nD) (i : grid3.Coords) (a1 : Memref sig .tc .vmem S5000x128 .f32) (h1 : a1.IsWhole) (a2 : Memref sig .tc .vmem S1x128 .f32) (h2 : a2.IsWhole) (a3 : Memref sig .tc .vmem S1x128 .f32) (h3 : a3.IsWhole) (a4 : Memref sig .tc .vmem S1x128 .f32) (h4 : a4.IsWhole) (a5 : Memref sig .tc .vmem S1x128 .f32) (h5 : a5.IsWhole) (a6 : Memref sig .tc .vmem S5000x128 .f32) (h6 : a6.IsWhole) (a7 : Memref sig .tc .vmem S1x128 .f32) (h7 : a7.IsWhole) (a8 : Memref sig .tc .vmem S1x128 .f32) (h8 : a8.IsWhole) (hc : ¬cond3_0 i) (x0 : Vec F S5000x128 .f32) (x1 x2 x3 x4 : Vec F S1x128 .f32) (s6 s7 : Vec F S1x128 .f32) :
    out3_B_7 c i a1 h1 a2 h2 a3 h3 a4 h4 a5 h5 a6 h6 a7 h7 a8 h8 hc x0 x1 x2 x3 x4 s6 s7 = k3_pay1 (k3_pay4 x0 x2 x3 x1 x4) s7 := by
  unfold out3_B_7
  rw [View.read_writes_eq_canon _ _ _ (cover3_B_7 c i a1 h1 a2 h2 a3 h3 a4 h4 a5 h5 a6 h6 a7 h7 a8 h8 hc x0 x1 x2 x3 x4 s6 s7)]
  unfold kernelRun3_B
  dsimp only
  sl_unfold_words
  rw [View.canon_unit_zero hz]
  simp only [View.readAt_eq_ld, h1.read_unread, h2.read_unread, h3.read_unread, h4.read_unread, h5.read_unread, h7.read_unread, h8.read_unread, View.ld_unit_zero (S := S5000x128) hz, View.ld_unit_zero (S := S1x128) hz]

/-! ## The outputs after each point -/

variable (V : (c : Dev nD) → (b : Ref sig .tc) → Buf (Elt F) ((c : Thread nD τ).loc b))

/-- The point's tile of `c`. -/
def tileY (c : Dev nD) (t : Fin cfg3.N) : Vec F S5000x128 .f32 := k3_pay4 (iblk3 V c 0 t) (iblk3 V c 2 t) (iblk3 V c 3 t) (iblk3 V c 1 t) (iblk3 V c 4 t)

/-- The running column sums after point `n`. -/
def acc6 (c : Dev nD) : (n : ℕ) → n < cfg3.N → Vec F S1x128 .f32
  | 0, h => k3_pay5 (iblk3 V c 0 ⟨0, h⟩) (iblk3 V c 2 ⟨0, h⟩) (iblk3 V c 3 ⟨0, h⟩) (iblk3 V c 1 ⟨0, h⟩) (iblk3 V c 4 ⟨0, h⟩) zrow
  | n + 1, h => k3_pay5 (iblk3 V c 0 ⟨n + 1, h⟩) (iblk3 V c 2 ⟨n + 1, h⟩) (iblk3 V c 3 ⟨n + 1, h⟩) (iblk3 V c 1 ⟨n + 1, h⟩) (iblk3 V c 4 ⟨n + 1, h⟩) (acc6 c n (Nat.lt_of_succ_lt h))

/-- The running column sums of squares after point `n`. -/
def acc7 (c : Dev nD) : (n : ℕ) → n < cfg3.N → Vec F S1x128 .f32
  | 0, h => k3_pay1 (tileY V c ⟨0, h⟩) zrow
  | n + 1, h => k3_pay1 (tileY V c ⟨n + 1, h⟩) (acc7 c n (Nat.lt_of_succ_lt h))

/-- What the three outputs' staging buffers hold after point `n`: the tile and the two running sums. -/
theorem outsAt_eq (c : Dev nD) : ∀ (n : ℕ) (h : n < cfg3.N), outsAt3 V c n h = (tileY V c ⟨n, h⟩, acc6 V c n h, acc7 V c n h)
  | 0, h => (outsAt3_A V c ⟨0, h⟩ rfl).trans (by rw [outA5, outA6, outA7]; rfl)
  | n + 1, h => by
    have hN : grid3.N = 10 := N_3
    have hB : ¬(⟨n + 1, h⟩ : Fin cfg3.N).val % 10 = 0 := by
      have : n + 1 < 10 := by have := h; rw [show cfg3.N = grid3.N from rfl, hN] at this; exact this
      dsimp only; omega
    rw [outsAt3_B V c ⟨n + 1, h⟩ hB, outB5, outB6, outB7]
    show (_, k3_pay5 _ _ _ _ _ (outsAt3 V c n _).2.1, k3_pay1 _ (outsAt3 V c n _).2.2) = _
    rw [outsAt_eq c n]
    rfl

/-! ## At the exact reading: the accumulators are sums, the tiles an array -/

section Exact

variable (V : (c : Dev nD) → (b : Ref sig .tc) → Buf (Elt Ideal) ((c : Thread nD τ).loc b))

theorem acc6_apply (c : Dev nD) (q : Fin 128) : ∀ (n : ℕ) (h : n < cfg3.N),
    acc6 V c n h (ix2 (0 : Fin 1) q)
      = Ideal.ofBits .f32 0x00000000#32
        + ∑ t : Fin (n + 1), ∑ r : Fin 5000, tileY V c ⟨t.val, lt_of_lt_of_le t.isLt h⟩ (ix2 r q) :=
  Cert.FinSum.sum_of_steps cfg3.N (fun n h => acc6 V c n h (ix2 (0 : Fin 1) q))
    (fun t => ∑ r : Fin 5000, tileY V c t (ix2 r q)) (Ideal.ofBits .f32 0x00000000#32)
    (fun h => KStageCD.pay5_apply _ _ _ _ _ _ q)
    (fun n h => KStageCD.pay5_apply _ _ _ _ _ _ q)

theorem acc7_apply (c : Dev nD) (q : Fin 128) : ∀ (n : ℕ) (h : n < cfg3.N),
    acc7 V c n h (ix2 (0 : Fin 1) q)
      = Ideal.ofBits .f32 0x00000000#32
        + ∑ t : Fin (n + 1), ∑ r : Fin 5000,
            tileY V c ⟨t.val, lt_of_lt_of_le t.isLt h⟩ (ix2 r q) * tileY V c ⟨t.val, lt_of_lt_of_le t.isLt h⟩ (ix2 r q) :=
  Cert.FinSum.sum_of_steps cfg3.N (fun n h => acc7 V c n h (ix2 (0 : Fin 1) q))
    (fun t => ∑ r : Fin 5000, tileY V c t (ix2 r q) * tileY V c t (ix2 r q)) (Ideal.ofBits .f32 0x00000000#32)
    (fun h => KStageCD.pay1_apply _ _ q)
    (fun n h => KStageCD.pay1_apply _ _ q)

end Exact

/-! ## The arrays after the region -/

/-- One entry of `c = relu(γ·(y₂ − μ)·rsqrt(v + ε) + β)`. -/
def cAt (y2 : (⟨2, ![50000, 128]⟩ : Shape).Idx → EReal) (m vr g be : (⟨2, ![1, 128]⟩ : Shape).Idx → EReal)
    (p : Fin 50000) (q : Fin 128) : EReal :=
  KStageB.bnrelu (vr (ix2 (0 : Fin 1) q)) (g (ix2 (0 : Fin 1) q)) (m (ix2 (0 : Fin 1) q)) (be (ix2 (0 : Fin 1) q)) (y2 (ix2 p q))

/-- `c` as an array. -/
def cArr (y2 : (⟨2, ![50000, 128]⟩ : Shape).Idx → EReal) (m vr g be : (⟨2, ![1, 128]⟩ : Shape).Idx → EReal) :
    (⟨2, ![50000, 128]⟩ : Shape).Idx → EReal :=
  fun i => cAt y2 m vr g be ⟨(i 0).val, idx2_lt0 i⟩ ⟨(i 1).val, idx2_lt1 i⟩

section Arrays

variable (V : (c : Dev nD) → (b : Ref sig .tc) → Buf (Elt Ideal) ((c : Thread nD τ).loc b))

/-- The arrays the region finds: the second stage's output, the column means and variances, the scale and shift rows. -/
abbrev Y2 (c : Dev nD) : S50000x128.Idx → EReal := V c (Pipeline.arrRef spec3 0)
abbrev M (c : Dev nD) : S1x128.Idx → EReal := V c (Pipeline.arrRef spec3 1)
abbrev Vr (c : Dev nD) : S1x128.Idx → EReal := V c (Pipeline.arrRef spec3 2)
abbrev G (c : Dev nD) : S1x128.Idx → EReal := V c (Pipeline.arrRef spec3 3)
abbrev Be (c : Dev nD) : S1x128.Idx → EReal := V c (Pipeline.arrRef spec3 4)

/-- The printed index maps over the ten points: the input tile and the output tile move down the rows with the
    point; the four statistics rows are block (0, 0). -/
theorem idx_facts : ∀ t : Fin cfg3.N,
    win3_0.index t (0 : Fin 2) = t.val ∧ win3_0.index t (1 : Fin 2) = 0
    ∧ win3_1.index t (0 : Fin 2) = 0 ∧ win3_1.index t (1 : Fin 2) = 0
    ∧ win3_2.index t (0 : Fin 2) = 0 ∧ win3_2.index t (1 : Fin 2) = 0
    ∧ win3_3.index t (0 : Fin 2) = 0 ∧ win3_3.index t (1 : Fin 2) = 0
    ∧ win3_4.index t (0 : Fin 2) = 0 ∧ win3_4.index t (1 : Fin 2) = 0
    ∧ win3_5.index t (0 : Fin 2) = t.val ∧ win3_5.index t (1 : Fin 2) = 0 :=
  (by decide +kernel : ∀ t : Fin grid3.N, _)

theorem iblk_y2 (c : Dev nD) (t : Fin cfg3.N) (p : Fin 5000) (k : Fin 128) (hp : t.val * 5000 + p.val < 50000) :
    (iblk3 V c 0 t : Vec Ideal S5000x128 .f32) (ix2 p k) = Y2 V c (ix2 ⟨t.val * 5000 + p.val, hp⟩ k) := by
  obtain ⟨e0, e1, -⟩ := idx_facts t
  unfold iblk3
  rw [View.read_apply]
  refine congrArg (V c (Pipeline.arrRef spec3 0)) (funext fun a => Fin.ext ?_)
  match a with
  | ⟨0, _⟩ => show win3_0.index t 0 * 5000 + 1 * p.val = t.val * 5000 + p.val; rw [e0]; omega
  | ⟨1, _⟩ => show win3_0.index t 1 * 128 + 1 * k.val = k.val; rw [e1]; omega

theorem iblk_m (c : Dev nD) (t : Fin cfg3.N) : (iblk3 V c 1 t : Vec Ideal S1x128 .f32) = M V c := by
  obtain ⟨-, -, e0, e1, -⟩ := idx_facts t
  funext y
  unfold iblk3
  rw [View.read_apply]
  refine congrArg (V c (Pipeline.arrRef spec3 1)) (funext fun a => Fin.ext ?_)
  match a with
  | ⟨0, _⟩ => show win3_1.index t 0 * 1 + 1 * (y 0).val = (y 0).val; rw [e0]; omega
  | ⟨1, _⟩ => show win3_1.index t 1 * 128 + 1 * (y 1).val = (y 1).val; rw [e1]; omega

theorem iblk_vr (c : Dev nD) (t : Fin cfg3.N) : (iblk3 V c 2 t : Vec Ideal S1x128 .f32) = Vr V c := by
  obtain ⟨-, -, -, -, e0, e1, -⟩ := idx_facts t
  funext y
  unfold iblk3
  rw [View.read_apply]
  refine congrArg (V c (Pipeline.arrRef spec3 2)) (funext fun a => Fin.ext ?_)
  match a with
  | ⟨0, _⟩ => show win3_2.index t 0 * 1 + 1 * (y 0).val = (y 0).val; rw [e0]; omega
  | ⟨1, _⟩ => show win3_2.index t 1 * 128 + 1 * (y 1).val = (y 1).val; rw [e1]; omega

theorem iblk_g (c : Dev nD) (t : Fin cfg3.N) : (iblk3 V c 3 t : Vec Ideal S1x128 .f32) = G V c := by
  obtain ⟨-, -, -, -, -, -, e0, e1, -⟩ := idx_facts t
  funext y
  unfold iblk3
  rw [View.read_apply]
  refine congrArg (V c (Pipeline.arrRef spec3 3)) (funext fun a => Fin.ext ?_)
  match a with
  | ⟨0, _⟩ => show win3_3.index t 0 * 1 + 1 * (y 0).val = (y 0).val; rw [e0]; omega
  | ⟨1, _⟩ => show win3_3.index t 1 * 128 + 1 * (y 1).val = (y 1).val; rw [e1]; omega

theorem iblk_be (c : Dev nD) (t : Fin cfg3.N) : (iblk3 V c 4 t : Vec Ideal S1x128 .f32) = Be V c := by
  obtain ⟨-, -, -, -, -, -, -, -, e0, e1, -⟩ := idx_facts t
  funext y
  unfold iblk3
  rw [View.read_apply]
  refine congrArg (V c (Pipeline.arrRef spec3 4)) (funext fun a => Fin.ext ?_)
  match a with
  | ⟨0, _⟩ => show win3_4.index t 0 * 1 + 1 * (y 0).val = (y 0).val; rw [e0]; omega
  | ⟨1, _⟩ => show win3_4.index t 1 * 128 + 1 * (y 1).val = (y 1).val; rw [e1]; omega

/-- The tile at point `t`, entry `(p, q)`, is `c` at row `5000·t + p`. -/
theorem tile_apply (c : Dev nD) (t : Fin cfg3.N) (p : Fin 5000) (q : Fin 128) (hp : t.val * 5000 + p.val < 50000) :
    tileY V c t (ix2 p q) = cAt (Y2 V c) (M V c) (Vr V c) (G V c) (Be V c) ⟨t.val * 5000 + p.val, hp⟩ q := by
  unfold tileY cAt
  rw [KStageCD.pay4_apply, iblk_m, iblk_vr, iblk_g, iblk_be, iblk_y2 V c t p q hp]

end Arrays

section Final

variable (V : (c : Dev nD) → (b : Ref sig .tc) → Buf (Elt Ideal) ((c : Thread nD τ).loc b))

/-- An entry of the tile at point `t` is the entry of `c` at row `5000·t + ` the tile's row. -/
theorem point5 (c : Dev nD) (t : Fin cfg3.N) (j : S5000x128.Idx) (i : S50000x128.Idx)
    (hi0 : (i 0).val = t.val * 5000 + (j 0).val) (hi1 : (i 1).val = (j 1).val) :
    tileY V c t j = cArr (Y2 V c) (M V c) (Vr V c) (G V c) (Be V c) i := by
  obtain ⟨p, q, rfl⟩ : ∃ (p : Fin 5000) (q : Fin 128), j = ix2 p q := ⟨j 0, j 1, eq_ix2 j⟩
  have ht : t.val < 10 := lt_of_lt_of_eq t.isLt (show cfg3.N = 10 from N_3)
  have hp : t.val * 5000 + p.val < 50000 := by have := p.isLt; omega
  rw [tile_apply V c t p q hp]
  unfold cArr
  congr 1
  · exact Fin.ext hi0.symm
  · exact Fin.ext hi1.symm

/-- What point `t` writes back of `c` is tile `t` of the array `c`. -/
theorem flushed5_eq (c : Dev nD) (t : Fin cfg3.N) :
    (dat3 V c).flushed 5 t
      = ((cfg3.win 5).blk t).view.read (Elt Ideal) (cArr (Y2 V c) (M V c) (Vr V c) (G V c) (Be V c)) := by
  show (cfg3.win 5).cut (grid3.coords t) ((dat3 V c).after 5 t) = _
  rw [after3_5, outsAt_eq]
  obtain ⟨-, -, -, -, -, -, -, -, -, -, e0, e1⟩ := idx_facts t
  funext j
  rw [View.read_apply]
  refine point5 V c t j _ ?_ ?_
  · show win3_5.index t 0 * 5000 + 1 * (j 0).val = t.val * 5000 + (j 0).val
    rw [e0]; omega
  · show win3_5.index t 1 * 128 + 1 * (j 1).val = (j 1).val
    rw [e1]; omega

theorem mem_blk5 (t : Fin cfg3.N) (i : S50000x128.Idx) :
    i ∈ ((cfg3.win 5).blk t).view.set ↔ ∀ a : Fin 2, win3_5.index t a * S5000x128.size a ≤ (i a).val
      ∧ (i a).val < win3_5.index t a * S5000x128.size a + S5000x128.size a := by
  show i ∈ ((View.whole main_v52_0).slice (win3_5.rect t)).set ↔ _
  rw [View.set_slice_whole, Rect.mem_set_unit]
  exact Iff.rfl

theorem cover5 (i : S50000x128.Idx) :
    ∃ t : Fin cfg3.N, (cfg3.win 5).flush t = true ∧ i ∈ ((cfg3.win 5).blk t).view.set := by
  have hi0 : (i 0).val < 50000 := idx2_lt0 i
  have hi1 : (i 1).val < 128 := idx2_lt1 i
  have hN : grid3.N = 10 := N_3
  have ht : (i 0).val / 5000 < cfg3.N := by show _ < grid3.N; rw [hN]; omega
  obtain ⟨-, -, -, -, -, -, -, -, -, -, e0, e1⟩ := idx_facts ⟨(i 0).val / 5000, ht⟩
  refine ⟨⟨(i 0).val / 5000, ht⟩, flush3_5 _, ?_⟩
  rw [mem_blk5]
  intro a
  match a with
  | ⟨0, _⟩ =>
    show win3_5.index ⟨(i 0).val / 5000, ht⟩ 0 * 5000 ≤ (i 0).val ∧ (i 0).val < win3_5.index ⟨(i 0).val / 5000, ht⟩ 0 * 5000 + 5000
    rw [e0]; show (i 0).val / 5000 * 5000 ≤ (i 0).val ∧ (i 0).val < (i 0).val / 5000 * 5000 + 5000; omega
  | ⟨1, _⟩ =>
    show win3_5.index ⟨(i 0).val / 5000, ht⟩ 1 * 128 ≤ (i 1).val ∧ (i 1).val < win3_5.index ⟨(i 0).val / 5000, ht⟩ 1 * 128 + 128
    rw [e1]; omega

/-- After the region the first output array is `c` of the arrays the region finds. -/
theorem final5 (c : Dev nD) : (dat3 V c).arrAt 5 cfg3.N = cArr (Y2 V c) (M V c) (Vr V c) (G V c) (Be V c) :=
  (dat3 V c).arrAt_eq_of_cover 5 _ (fun t _ => flushed5_eq V c t) cover5

theorem lastLt : 9 < cfg3.N := by show 9 < grid3.N; rw [N_3]; decide

/-- The accumulated column sums after the last point, as the contents of the second output array. -/
abbrev res6 (c : Dev nD) : Buf (Elt Ideal) ((c : Thread nD τ).loc main_v52_1) := acc6 V c 9 lastLt
/-- The accumulated column sums of squares after the last point, as the contents of the third output array. -/
abbrev res7 (c : Dev nD) : Buf (Elt Ideal) ((c : Thread nD τ).loc main_v52_2) := acc7 V c 9 lastLt

theorem flushed6_eq (c : Dev nD) (t : Fin cfg3.N) (hf : (cfg3.win 6).flush t = true) :
    (dat3 V c).flushed 6 t = ((cfg3.win 6).blk t).view.read (Elt Ideal) (res6 V c) := by
  have hN : grid3.N = 10 := N_3
  have h9 : t.val = 9 := by
    have := (flush3_6 t).mp hf; have h := lt_of_lt_of_eq t.isLt (show cfg3.N = 10 from N_3); omega
  obtain rfl : t = t3_9 := Fin.ext h9
  show (cfg3.win 6).cut (grid3.coords t3_9) ((dat3 V c).after 6 t3_9) = _
  rw [after3_6, outsAt_eq]
  have hz' : (fun a => win3_6.index t3_9 a * main_v52_1.ty.shape.size a) = fun _ => 0 := funext fun a => by fin_cases a <;> decide
  exact (Memref.read_access_unit_zero (Elt Ideal) main_v52_1 hz' (fun a => by rw [congrFun hz' a]; simp) (res6 V c)).symm

theorem flushed7_eq (c : Dev nD) (t : Fin cfg3.N) (hf : (cfg3.win 7).flush t = true) :
    (dat3 V c).flushed 7 t = ((cfg3.win 7).blk t).view.read (Elt Ideal) (res7 V c) := by
  have hN : grid3.N = 10 := N_3
  have h9 : t.val = 9 := by
    have := (flush3_7 t).mp hf; have h := lt_of_lt_of_eq t.isLt (show cfg3.N = 10 from N_3); omega
  obtain rfl : t = t3_9 := Fin.ext h9
  show (cfg3.win 7).cut (grid3.coords t3_9) ((dat3 V c).after 7 t3_9) = _
  rw [after3_7, outsAt_eq]
  have hz' : (fun a => win3_7.index t3_9 a * main_v52_2.ty.shape.size a) = fun _ => 0 := funext fun a => by fin_cases a <;> decide
  exact (Memref.read_access_unit_zero (Elt Ideal) main_v52_2 hz' (fun a => by rw [congrFun hz' a]; simp) (res7 V c)).symm

/-- The last point's write-back covers the one-row array. -/
theorem final6 (c : Dev nD) : (dat3 V c).arrAt 6 cfg3.N = res6 V c :=
  (dat3 V c).arrAt_eq_of_cover 6 (res6 V c) (flushed6_eq V c) fun i =>
    ⟨t3_9, (flush3_6 t3_9).mpr rfl, by
      show i ∈ ((View.whole main_v52_1).slice (win3_6.rect t3_9)).set
      rw [View.set_slice_whole, Rect.mem_set_unit]
      intro a
      have h0 : (i 0 : Nat) < 1 := (i 0).isLt
      have h1 : (i 1 : Nat) < 128 := (i 1).isLt
      match a with
      | ⟨0, _⟩ => show win3_6.index t3_9 0 * win3_6.size 0 ≤ (i 0 : Nat) ∧ (i 0 : Nat) < win3_6.index t3_9 0 * win3_6.size 0 + win3_6.xsize (grid3.coords t3_9) 0
                  rw [show win3_6.index t3_9 0 * win3_6.size 0 = 0 from by decide +kernel, show win3_6.xsize (grid3.coords t3_9) 0 = 1 from by decide +kernel]; omega
      | ⟨1, _⟩ => show win3_6.index t3_9 1 * win3_6.size 1 ≤ (i 1 : Nat) ∧ (i 1 : Nat) < win3_6.index t3_9 1 * win3_6.size 1 + win3_6.xsize (grid3.coords t3_9) 1
                  rw [show win3_6.index t3_9 1 * win3_6.size 1 = 0 from by decide +kernel, show win3_6.xsize (grid3.coords t3_9) 1 = 128 from by decide +kernel]; omega⟩

theorem final7 (c : Dev nD) : (dat3 V c).arrAt 7 cfg3.N = res7 V c :=
  (dat3 V c).arrAt_eq_of_cover 7 (res7 V c) (flushed7_eq V c) fun i =>
    ⟨t3_9, (flush3_7 t3_9).mpr rfl, by
      show i ∈ ((View.whole main_v52_2).slice (win3_7.rect t3_9)).set
      rw [View.set_slice_whole, Rect.mem_set_unit]
      intro a
      have h0 : (i 0 : Nat) < 1 := (i 0).isLt
      have h1 : (i 1 : Nat) < 128 := (i 1).isLt
      match a with
      | ⟨0, _⟩ => show win3_7.index t3_9 0 * win3_7.size 0 ≤ (i 0 : Nat) ∧ (i 0 : Nat) < win3_7.index t3_9 0 * win3_7.size 0 + win3_7.xsize (grid3.coords t3_9) 0
                  rw [show win3_7.index t3_9 0 * win3_7.size 0 = 0 from by decide +kernel, show win3_7.xsize (grid3.coords t3_9) 0 = 1 from by decide +kernel]; omega
      | ⟨1, _⟩ => show win3_7.index t3_9 1 * win3_7.size 1 ≤ (i 1 : Nat) ∧ (i 1 : Nat) < win3_7.index t3_9 1 * win3_7.size 1 + win3_7.xsize (grid3.coords t3_9) 1
                  rw [show win3_7.index t3_9 1 * win3_7.size 1 = 0 from by decide +kernel, show win3_7.xsize (grid3.coords t3_9) 1 = 128 from by decide +kernel]; omega⟩

/-- Summing the ten tiles' column sums is summing down all 50000 rows. -/
theorem tiles_sum (c : Dev nD) (f : EReal → EReal) (q : Fin 128) :
    ∑ t : Fin (9 + 1), ∑ r : Fin 5000, f (tileY V c ⟨t.val, lt_of_lt_of_le t.isLt lastLt⟩ (ix2 r q))
      = ∑ r : Fin 50000, f (cArr (Y2 V c) (M V c) (Vr V c) (G V c) (Be V c) (ix2 r q)) := by
  rw [Cert.FinSum.sum_mul 10 5000 50000 rfl]
  refine Finset.sum_congr rfl fun t _ => Finset.sum_congr rfl fun r _ => ?_
  have hp : t.val * 5000 + r.val < 50000 := by have := t.isLt; have := r.isLt; omega
  rw [tile_apply V c ⟨t.val, _⟩ r q hp]
  rfl

/-- The second output array at a column: the sum of `c` down the column (from zero). -/
theorem sum_apply (c : Dev nD) (q : Fin 128) :
    (dat3 V c).arrAt 6 cfg3.N (ix2 (0 : Fin 1) q)
      = Ideal.ofBits .f32 0x00000000#32 + ∑ r : Fin 50000, cArr (Y2 V c) (M V c) (Vr V c) (G V c) (Be V c) (ix2 r q) := by
  rw [final6]
  show acc6 V c 9 lastLt (ix2 (0 : Fin 1) q) = _
  rw [acc6_apply V c q 9 lastLt]
  exact congrArg (_ + ·) (tiles_sum V c id q)

/-- The third output array at a column: the sum of the squares of `c` down the column (from zero). -/
theorem sumsq_apply (c : Dev nD) (q : Fin 128) :
    (dat3 V c).arrAt 7 cfg3.N (ix2 (0 : Fin 1) q)
      = Ideal.ofBits .f32 0x00000000#32
        + ∑ r : Fin 50000, cArr (Y2 V c) (M V c) (Vr V c) (G V c) (Be V c) (ix2 r q) * cArr (Y2 V c) (M V c) (Vr V c) (G V c) (Be V c) (ix2 r q) := by
  rw [final7]
  show acc7 V c 9 lastLt (ix2 (0 : Fin 1) q) = _
  rw [acc7_apply V c q 9 lastLt]
  exact congrArg (_ + ·) (tiles_sum V c (fun x => x * x) q)

end Final

end Cert.KernelIdeal.KStageCVal

end
-- ==== Proof.KStageDVal.lean ====
/-
  The closing stage's region, read as a value: each of its ten grid points normalises and rectifies a tile of 5000 rows
  of `c` with the given rows of column means and variances and adds the same rows of the layer's input; the output
  tiles partition the 50000 rows, so after the region the output array is, entry by entry,

      out (r, j) = h (r, j) + max (γ (j) · (c (r, j) − μ (j)) · rsqrt (v (j) + 1e-5) + β (j)) 0.
-/
import proofs.«140776_j80633716015159_1_alg».proof.Proof.Gen.KernelIdeal.Frame
import proofs.«140776_j80633716015159_1_alg».proof.Proof.KStageCD
import Idealize.ShloMosaic.Lib.Pipeline.Value

set_option maxRecDepth 16384

noncomputable section

namespace Cert.KernelIdeal.KStageDVal

open Cert.KernelIdeal Cert.KernelIdeal.Gen
open Idealize.ShloMosaic Idealize.ShloMosaic.TcCoe Idealize.ShloMosaic.ValueIdx Idealize.SL.Sem
open Idealize.ShloMosaic.Pipeline (Dat Cfg Window)
open Cert.KernelIdeal.KStageB (bnrelu)

/-- One entry of the layer's output. -/
def outAt (cc h : (⟨2, ![50000, 128]⟩ : Shape).Idx → EReal) (m vr g be : (⟨2, ![1, 128]⟩ : Shape).Idx → EReal)
    (p : Fin 50000) (q : Fin 128) : EReal :=
  h (ix2 p q) + bnrelu (vr (ix2 (0 : Fin 1) q)) (g (ix2 (0 : Fin 1) q)) (m (ix2 (0 : Fin 1) q)) (be (ix2 (0 : Fin 1) q)) (cc (ix2 p q))

/-- The layer's output as an array. -/
def out (cc h : (⟨2, ![50000, 128]⟩ : Shape).Idx → EReal) (m vr g be : (⟨2, ![1, 128]⟩ : Shape).Idx → EReal) :
    (⟨2, ![50000, 128]⟩ : Shape).Idx → EReal :=
  fun i => outAt cc h m vr g be ⟨(i 0).val, idx2_lt0 i⟩ ⟨(i 1).val, idx2_lt1 i⟩

variable (V : (c : Dev nD) → (b : Ref sig .tc) → Buf (Elt Ideal) ((c : Thread nD τ).loc b))

theorem hz : (![0, 0] : Fin 2 → Nat) = fun _ => 0 := funext fun a => by fin_cases a <;> rfl

/-- The arrays the region finds. -/
abbrev Cc (c : Dev nD) : S50000x128.Idx → EReal := V c (Pipeline.arrRef spec4 0)
abbrev Mn (c : Dev nD) : S1x128.Idx → EReal := V c (Pipeline.arrRef spec4 1)
abbrev Vr (c : Dev nD) : S1x128.Idx → EReal := V c (Pipeline.arrRef spec4 2)
abbrev Gm (c : Dev nD) : S1x128.Idx → EReal := V c (Pipeline.arrRef spec4 3)
abbrev Bt (c : Dev nD) : S1x128.Idx → EReal := V c (Pipeline.arrRef spec4 4)
abbrev Hh (c : Dev nD) : S50000x128.Idx → EReal := V c (Pipeline.arrRef spec4 5)

/-- The printed index maps over the ten points: the two feature tiles and the output tile move down the rows with the
    point, the four rows are block (0, 0). -/
theorem idx_facts : ∀ t : Fin cfg4.N,
    win4_0.index t (0 : Fin 2) = t.val ∧ win4_0.index t (1 : Fin 2) = 0
    ∧ win4_1.index t (0 : Fin 2) = 0 ∧ win4_1.index t (1 : Fin 2) = 0
    ∧ win4_2.index t (0 : Fin 2) = 0 ∧ win4_2.index t (1 : Fin 2) = 0
    ∧ win4_3.index t (0 : Fin 2) = 0 ∧ win4_3.index t (1 : Fin 2) = 0
    ∧ win4_4.index t (0 : Fin 2) = 0 ∧ win4_4.index t (1 : Fin 2) = 0
    ∧ win4_5.index t (0 : Fin 2) = t.val ∧ win4_5.index t (1 : Fin 2) = 0
    ∧ win4_6.index t (0 : Fin 2) = t.val ∧ win4_6.index t (1 : Fin 2) = 0 :=
  (by decide +kernel : ∀ t : Fin grid4.N, _)

theorem iblk_c (c : Dev nD) (t : Fin cfg4.N) (p : Fin 5000) (k : Fin 128) (hp : t.val * 5000 + p.val < 50000) :
    (iblk4 V c 0 t : Vec Ideal S5000x128 .f32) (ix2 p k) = Cc V c (ix2 ⟨t.val * 5000 + p.val, hp⟩ k) := by
  obtain ⟨e0, e1, -⟩ := idx_facts t
  unfold iblk4
  rw [View.read_apply]
  refine congrArg (V c (Pipeline.arrRef spec4 0)) (funext fun a => Fin.ext ?_)
  match a with
  | ⟨0, _⟩ => show win4_0.index t 0 * 5000 + 1 * p.val = t.val * 5000 + p.val; rw [e0]; omega
  | ⟨1, _⟩ => show win4_0.index t 1 * 128 + 1 * k.val = k.val; rw [e1]; omega

theorem iblk_h (c : Dev nD) (t : Fin cfg4.N) (p : Fin 5000) (k : Fin 128) (hp : t.val * 5000 + p.val < 50000) :
    (iblk4 V c 5 t : Vec Ideal S5000x128 .f32) (ix2 p k) = Hh V c (ix2 ⟨t.val * 5000 + p.val, hp⟩ k) := by
  obtain ⟨-, -, -, -, -, -, -, -, -, -, e0, e1, -⟩ := idx_facts t
  unfold iblk4
  rw [View.read_apply]
  refine congrArg (V c (Pipeline.arrRef spec4 5)) (funext fun a => Fin.ext ?_)
  match a with
  | ⟨0, _⟩ => show win4_5.index t 0 * 5000 + 1 * p.val = t.val * 5000 + p.val; rw [e0]; omega
  | ⟨1, _⟩ => show win4_5.index t 1 * 128 + 1 * k.val = k.val; rw [e1]; omega

theorem iblk_m (c : Dev nD) (t : Fin cfg4.N) : (iblk4 V c 1 t : Vec Ideal S1x128 .f32) = Mn V c := by
  obtain ⟨-, -, e0, e1, -⟩ := idx_facts t
  funext y
  unfold iblk4
  rw [View.read_apply]
  refine congrArg (V c (Pipeline.arrRef spec4 1)) (funext fun a => Fin.ext ?_)
  match a with
  | ⟨0, _⟩ => show win4_1.index t 0 * 1 + 1 * (y 0).val = (y 0).val; rw [e0]; omega
  | ⟨1, _⟩ => show win4_1.index t 1 * 128 + 1 * (y 1).val = (y 1).val; rw [e1]; omega

theorem iblk_v (c : Dev nD) (t : Fin cfg4.N) : (iblk4 V c 2 t : Vec Ideal S1x128 .f32) = Vr V c := by
  obtain ⟨-, -, -, -, e0, e1, -⟩ := idx_facts t
  funext y
  unfold iblk4
  rw [View.read_apply]
  refine congrArg (V c (Pipeline.arrRef spec4 2)) (funext fun a => Fin.ext ?_)
  match a with
  | ⟨0, _⟩ => show win4_2.index t 0 * 1 + 1 * (y 0).val = (y 0).val; rw [e0]; omega
  | ⟨1, _⟩ => show win4_2.index t 1 * 128 + 1 * (y 1).val = (y 1).val; rw [e1]; omega

theorem iblk_g (c : Dev nD) (t : Fin cfg4.N) : (iblk4 V c 3 t : Vec Ideal S1x128 .f32) = Gm V c := by
  obtain ⟨-, -, -, -, -, -, e0, e1, -⟩ := idx_facts t
  funext y
  unfold iblk4
  rw [View.read_apply]
  refine congrArg (V c (Pipeline.arrRef spec4 3)) (funext fun a => Fin.ext ?_)
  match a with
  | ⟨0, _⟩ => show win4_3.index t 0 * 1 + 1 * (y 0).val = (y 0).val; rw [e0]; omega
  | ⟨1, _⟩ => show win4_3.index t 1 * 128 + 1 * (y 1).val = (y 1).val; rw [e1]; omega

theorem iblk_b (c : Dev nD) (t : Fin cfg4.N) : (iblk4 V c 4 t : Vec Ideal S1x128 .f32) = Bt V c := by
  obtain ⟨-, -, -, -, -, -, -, -, e0, e1, -⟩ := idx_facts t
  funext y
  unfold iblk4
  rw [View.read_apply]
  refine congrArg (V c (Pipeline.arrRef spec4 4)) (funext fun a => Fin.ext ?_)
  match a with
  | ⟨0, _⟩ => show win4_4.index t 0 * 1 + 1 * (y 0).val = (y 0).val; rw [e0]; omega
  | ⟨1, _⟩ => show win4_4.index t 1 * 128 + 1 * (y 1).val = (y 1).val; rw [e1]; omega

/-- An entry of the tile at point `t` is the entry of the output array at row `5000·t + ` the tile's row. -/
theorem point (c : Dev nD) (t : Fin cfg4.N) (j : S5000x128.Idx) (i : S50000x128.Idx)
    (hi0 : (i 0).val = t.val * 5000 + (j 0).val) (hi1 : (i 1).val = (j 1).val) :
    k4_pay1 (iblk4 V c 0 t) (iblk4 V c 2 t) (iblk4 V c 3 t) (iblk4 V c 1 t) (iblk4 V c 4 t) (iblk4 V c 5 t) j
      = out (Cc V c) (Hh V c) (Mn V c) (Vr V c) (Gm V c) (Bt V c) i := by
  obtain ⟨p, q, rfl⟩ : ∃ (p : Fin 5000) (q : Fin 128), j = ix2 p q := ⟨j 0, j 1, eq_ix2 j⟩
  have ht : t.val < 10 := lt_of_lt_of_eq t.isLt (show cfg4.N = 10 from N_4)
  have hp : t.val * 5000 + p.val < 50000 := by have := p.isLt; omega
  rw [KStageCD.payD_apply, iblk_m, iblk_v, iblk_g, iblk_b, iblk_c V c t p q hp, iblk_h V c t p q hp]
  unfold out outAt
  have e0 : (⟨(i 0).val, idx2_lt0 i⟩ : Fin 50000) = ⟨t.val * 5000 + p.val, hp⟩ := Fin.ext hi0
  have e1 : (⟨(i 1).val, idx2_lt1 i⟩ : Fin 128) = q := Fin.ext hi1
  rw [e0, e1]

/-- What point `t` writes back is tile `t` of the output array. -/
theorem flushed_eq (c : Dev nD) (t : Fin cfg4.N) :
    (dat4 V c).flushed 6 t
      = ((cfg4.win 6).blk t).view.read (Elt Ideal) (out (Cc V c) (Hh V c) (Mn V c) (Vr V c) (Gm V c) (Bt V c)) := by
  show (cfg4.win 6).cut (grid4.coords t) ((dat4 V c).after 6 t) = _
  rw [after4_6]
  unfold out4_6
  rw [View.canon_unit_zero hz]
  simp only [View.ld_unit_zero (S := S5000x128) hz, View.ld_unit_zero (S := S1x128) hz]
  obtain ⟨-, -, -, -, -, -, -, -, -, -, -, -, e0, e1⟩ := idx_facts t
  funext j
  rw [View.read_apply]
  refine point V c t j _ ?_ ?_
  · show win4_6.index t 0 * 5000 + 1 * (j 0).val = t.val * 5000 + (j 0).val
    rw [e0]; omega
  · show win4_6.index t 1 * 128 + 1 * (j 1).val = (j 1).val
    rw [e1]; omega

theorem mem_blk (t : Fin cfg4.N) (i : S50000x128.Idx) :
    i ∈ ((cfg4.win 6).blk t).view.set ↔ ∀ a : Fin 2, win4_6.index t a * S5000x128.size a ≤ (i a).val
      ∧ (i a).val < win4_6.index t a * S5000x128.size a + S5000x128.size a := by
  show i ∈ ((View.whole main_v65).slice (win4_6.rect t)).set ↔ _
  rw [View.set_slice_whole, Rect.mem_set_unit]
  exact Iff.rfl

theorem cover (i : S50000x128.Idx) :
    ∃ t : Fin cfg4.N, (cfg4.win 6).flush t = true ∧ i ∈ ((cfg4.win 6).blk t).view.set := by
  have hi0 : (i 0).val < 50000 := idx2_lt0 i
  have hi1 : (i 1).val < 128 := idx2_lt1 i
  have hN : grid4.N = 10 := N_4
  have ht : (i 0).val / 5000 < cfg4.N := by show _ < grid4.N; rw [hN]; omega
  obtain ⟨-, -, -, -, -, -, -, -, -, -, -, -, e0, e1⟩ := idx_facts ⟨(i 0).val / 5000, ht⟩
  refine ⟨⟨(i 0).val / 5000, ht⟩, flush4_6 _, ?_⟩
  rw [mem_blk]
  intro a
  match a with
  | ⟨0, _⟩ =>
    show win4_6.index ⟨(i 0).val / 5000, ht⟩ 0 * 5000 ≤ (i 0).val ∧ (i 0).val < win4_6.index ⟨(i 0).val / 5000, ht⟩ 0 * 5000 + 5000
    rw [e0]; show (i 0).val / 5000 * 5000 ≤ (i 0).val ∧ (i 0).val < (i 0).val / 5000 * 5000 + 5000; omega
  | ⟨1, _⟩ =>
    show win4_6.index ⟨(i 0).val / 5000, ht⟩ 1 * 128 ≤ (i 1).val ∧ (i 1).val < win4_6.index ⟨(i 0).val / 5000, ht⟩ 1 * 128 + 128
    rw [e1]; omega

/-- After the region the output array is the layer's output of the arrays the region finds. -/
theorem final (c : Dev nD) :
    (dat4 V c).arrAt 6 cfg4.N = out (Cc V c) (Hh V c) (Mn V c) (Vr V c) (Gm V c) (Bt V c) :=
  (dat4 V c).arrAt_eq_of_cover 6 _ (fun t _ => flushed_eq V c t) cover

end Cert.KernelIdeal.KStageDVal

end
-- ==== Proof.LibVariance.lean ====
/-
  Batch statistics over the extended reals.

  For a finite family of REAL numbers `r i` (embedded in the extended reals) and `n` the number of its members,
  the two usual spellings of the variance agree:

      (∑ r²) / n − (∑ r / n)²  =  (∑ (r − ∑ r / n)²) / n.

  The left side is the "mean of squares minus square of the mean", the right side the mean of the squared
  deviations.  Division by the real `n ≠ 0` is written as the product with the real `1 / n`, which is how a
  quotient of extended reals by a nonzero real reads.  The identity needs the members to be REAL: with an
  infinite member the left side is `⊤ − ⊤ = ⊥` while the right side is `⊤`.

  Also here: the coercion ℝ → EReal commutes with finite sums, a finite sum of reals is a real, and a finite
  sum of extended reals that are all real is real.
-/
import Mathlib.Data.EReal.Operations
import Mathlib.Algebra.BigOperators.Field
import Mathlib.Tactic.Ring
import Mathlib.Tactic.FieldSimp

namespace LibVariance

open Finset

/-- The coercion of the reals into the extended reals commutes with finite sums. -/
theorem coe_sum {ι : Type*} (s : Finset ι) (f : ι → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- A finite sum of extended reals each of which is a real number is a real number. -/
theorem sum_isReal {ι : Type*} (s : Finset ι) (x : ι → EReal) (h : ∀ i ∈ s, ∃ r : ℝ, x i = (r : EReal)) :
    ∃ r : ℝ, ∑ i ∈ s, x i = (r : EReal) := by
  classical
  induction s using Finset.induction_on with
  | empty => exact ⟨0, by simp⟩
  | insert a s ha ih =>
    obtain ⟨ra, hra⟩ := h a (Finset.mem_insert_self a s)
    obtain ⟨rs, hrs⟩ := ih (fun i hi => h i (Finset.mem_insert_of_mem hi))
    exact ⟨ra + rs, by rw [Finset.sum_insert ha, hra, hrs, EReal.coe_add]⟩

/-- The variance identity over the reals, division by `n` written as the product with `1 / n`. -/
theorem real_variance {ι : Type*} [Fintype ι] (r : ι → ℝ) (n : ℝ) (hn : n = (Fintype.card ι : ℝ)) (h0 : n ≠ 0) :
    (∑ i, r i * r i) * (1 / n) - ((∑ i, r i) * (1 / n)) * ((∑ i, r i) * (1 / n))
      = (∑ i, (r i - (∑ j, r j) * (1 / n)) * (r i - (∑ j, r j) * (1 / n))) * (1 / n) := by
  have hexp : ∀ μ : ℝ, (∑ i, (r i - μ) * (r i - μ))
      = (∑ i, r i * r i) - 2 * μ * (∑ i, r i) + (Fintype.card ι : ℝ) * (μ * μ) := by
    intro μ
    have : ∀ i, (r i - μ) * (r i - μ) = r i * r i - 2 * μ * r i + μ * μ := fun i => by ring
    simp only [this, Finset.sum_add_distrib, Finset.sum_sub_distrib, ← Finset.mul_sum, Finset.sum_const,
      Finset.card_univ, nsmul_eq_mul]
    ring
  rw [hexp, ← hn]
  field_simp
  ring

/-- The variance identity over the extended reals, for a family of real numbers. -/
theorem ereal_variance {ι : Type*} [Fintype ι] (x : ι → EReal) (r : ι → ℝ) (hx : ∀ i, x i = (r i : EReal))
    (n : ℝ) (hn : n = (Fintype.card ι : ℝ)) (h0 : n ≠ 0) :
    (∑ i, x i * x i) * ((1 / n : ℝ) : EReal)
        - ((∑ i, x i) * ((1 / n : ℝ) : EReal)) * ((∑ i, x i) * ((1 / n : ℝ) : EReal))
      = (∑ i, (x i - (∑ j, x j) * ((1 / n : ℝ) : EReal)) * (x i - (∑ j, x j) * ((1 / n : ℝ) : EReal)))
          * ((1 / n : ℝ) : EReal) := by
  have hx' : x = fun i => (r i : EReal) := funext hx
  subst hx'
  simp only [← EReal.coe_mul, ← coe_sum, ← EReal.coe_sub]
  exact congrArg _ (real_variance r n hn h0)

end LibVariance
-- ==== Proof.LibBatchNorm.lean ====
/-
  Batch normalisation over the extended reals, column-wise facts for one column.

  For a finite family `x` of extended reals that are all REAL (`x i = ↑(r i)`), `n` its size as a real number:
  the mean `(∑ x) / n` is real; the variance in its centred form `(∑ (x − mean)²) / n` is a non-negative real and
  equals the form `(∑ x²) / n − mean²` that is computed from the two accumulated sums; for a positive real `ε`
  the reciprocal square root of `variance + ε` is a real number; and so the normalised value
  `γ · (x i − mean) · rsqrt (variance + ε) + β` is real whenever `γ` and `β` are, and so is its maximum with zero.
  Division is the exact division of the ideal reading (by a nonzero real: the product with the reciprocal).
-/
import Idealize.ShloMosaic.PureOps.Ideal
import proofs.«140776_j80633716015159_1_alg».proof.Proof.LibVariance

namespace LibBatchNorm

open Idealize.ShloMosaic Finset

/-- An extended real that is a real number. -/
def IsReal (x : EReal) : Prop := ∃ r : ℝ, x = (r : EReal)

theorem IsReal.coe (r : ℝ) : IsReal (r : EReal) := ⟨r, rfl⟩
theorem IsReal.zero : IsReal 0 := ⟨0, rfl⟩
theorem IsReal.add {x y : EReal} (hx : IsReal x) (hy : IsReal y) : IsReal (x + y) := by
  obtain ⟨a, rfl⟩ := hx; obtain ⟨b, rfl⟩ := hy; exact ⟨a + b, (EReal.coe_add a b).symm⟩
theorem IsReal.sub {x y : EReal} (hx : IsReal x) (hy : IsReal y) : IsReal (x - y) := by
  obtain ⟨a, rfl⟩ := hx; obtain ⟨b, rfl⟩ := hy; exact ⟨a - b, (EReal.coe_sub a b).symm⟩
theorem IsReal.mul {x y : EReal} (hx : IsReal x) (hy : IsReal y) : IsReal (x * y) := by
  obtain ⟨a, rfl⟩ := hx; obtain ⟨b, rfl⟩ := hy; exact ⟨a * b, (EReal.coe_mul a b).symm⟩
theorem IsReal.max {x y : EReal} (hx : IsReal x) (hy : IsReal y) : IsReal (max x y) := by
  rcases le_total x y with h | h
  · rw [max_eq_right h]; exact hy
  · rw [max_eq_left h]; exact hx
theorem IsReal.sum {ι : Type*} (s : Finset ι) (f : ι → EReal) (h : ∀ i ∈ s, IsReal (f i)) : IsReal (∑ i ∈ s, f i) :=
  LibVariance.sum_isReal s f h

/-- Exact division by a nonzero real is the product with its reciprocal. -/
theorem div_coe_eq (x : EReal) {n : ℝ} (hn : n ≠ 0) : Ideal.div x (n : EReal) = x * ((1 / n : ℝ) : EReal) :=
  Ideal.div_coe hn x

theorem IsReal.div_coe {x : EReal} (hx : IsReal x) {n : ℝ} (hn : n ≠ 0) : IsReal (Ideal.div x (n : EReal)) := by
  rw [div_coe_eq x hn]; exact hx.mul (IsReal.coe _)

/-- The reciprocal square root of a positive real is a real number. -/
theorem rsqrt_of_pos {r : ℝ} (hr : 0 < r) : Ideal.rsqrt (r : EReal) = (((Real.sqrt r)⁻¹ : ℝ) : EReal) := by
  show (if r < 0 then (⊥ : EReal) else if r = 0 then ⊤ else (((Real.sqrt r)⁻¹ : ℝ) : EReal)) = _
  rw [if_neg (not_lt.mpr hr.le), if_neg hr.ne']

variable {ι : Type*} [Fintype ι]

/-- The mean of a real family is real. -/
theorem mean_isReal (x : ι → EReal) (hx : ∀ i, IsReal (x i)) {n : ℝ} (hn : n ≠ 0) :
    IsReal (Ideal.div (∑ i, x i) (n : EReal)) :=
  (IsReal.sum _ _ fun i _ => hx i).div_coe hn

/-- The two forms of the variance of a real family agree. -/
theorem variance_forms (x : ι → EReal) (hx : ∀ i, IsReal (x i)) {n : ℝ} (hn : n = (Fintype.card ι : ℝ)) (h0 : n ≠ 0) :
    Ideal.div (∑ i, x i * x i) (n : EReal)
        - Ideal.div (∑ i, x i) (n : EReal) * Ideal.div (∑ i, x i) (n : EReal)
      = Ideal.div (∑ i, (x i - Ideal.div (∑ j, x j) (n : EReal)) * (x i - Ideal.div (∑ j, x j) (n : EReal))) (n : EReal) := by
  choose r hr using hx
  simp only [div_coe_eq _ h0]
  exact LibVariance.ereal_variance x r hr n hn h0

/-- The centred variance of a real family is a non-negative real. -/
theorem variance_nonneg (x : ι → EReal) (hx : ∀ i, IsReal (x i)) {n : ℝ} (hn : 0 < n) (μ : EReal) (hμ : IsReal μ) :
    ∃ v : ℝ, 0 ≤ v ∧ Ideal.div (∑ i, (x i - μ) * (x i - μ)) (n : EReal) = (v : EReal) := by
  choose r hr using hx
  obtain ⟨a, rfl⟩ := hμ
  refine ⟨(∑ i, (r i - a) * (r i - a)) * (1 / n), ?_, ?_⟩
  · exact mul_nonneg (Finset.sum_nonneg fun i _ => mul_self_nonneg _) (by positivity)
  · rw [div_coe_eq _ hn.ne']
    simp only [hr, ← EReal.coe_sub, ← EReal.coe_mul, ← LibVariance.coe_sum]

/-- With a positive real `ε`, the reciprocal square root of a non-negative real variance plus `ε` is real. -/
theorem rsqrt_var_isReal {v ε : ℝ} (hv : 0 ≤ v) (hε : 0 < ε) : IsReal (Ideal.rsqrt ((v : EReal) + (ε : EReal))) := by
  rw [← EReal.coe_add, rsqrt_of_pos (by linarith)]
  exact IsReal.coe _

end LibBatchNorm
-- ==== Proof.StatsBridge.lean ====
/-
  The reference's column statistics for a matrix whose entries are all real numbers.

  For a column of real numbers the mean (the column's sum over 50000) is real; the centred variance is a
  non-negative real; the variance computed from the two accumulated sums, "mean of squares minus square of the
  mean", is that same centred variance; and one normalised and rectified value is real when the scale, the shift,
  the entry and the mean are real and the variance is a non-negative real.
-/
import proofs.«140776_j80633716015159_1_alg».proof.Proof.RefSpec
import proofs.«140776_j80633716015159_1_alg».proof.Proof.LibBatchNorm

noncomputable section

namespace Cert.StatsBridge

open Cert.ReferenceIdeal Cert.ReferenceIdeal.Gen
open Idealize.ShloMosaic Idealize.ShloMosaic.TcCoe Idealize.ShloMosaic.ValueIdx Idealize.SL.Sem
open LibBatchNorm (IsReal)

/-- The number of rows is not zero. -/
theorem n_ne_zero : (50000 : ℝ) ≠ 0 := by norm_num

/-- The number of rows is the size of the index set of a column. -/
theorem n_card : (50000 : ℝ) = (Fintype.card (Fin 50000) : ℝ) := by simp

/-- The mean of a column, the literals read: the column's sum over the real `50000`. -/
theorem meanAt_eq (y : FVec Ideal S50000x128 .f32) (q : Fin 128) :
    RefStats.meanAt y q = Ideal.div (∑ r : Fin 50000, y (ix2 r q)) ((50000 : ℝ) : EReal) := by
  unfold RefStats.meanAt
  rw [Cert.Consts.ofBits_n, Ideal.ofBits_zero_f32, zero_add]

/-- The centred variance of a column, the literals read. -/
theorem varAt_eq (y : FVec Ideal S50000x128 .f32) (q : Fin 128) :
    RefStats.varAt y q
      = Ideal.div (∑ r : Fin 50000, (y (ix2 r q) - RefStats.meanAt y q) * (y (ix2 r q) - RefStats.meanAt y q))
          ((50000 : ℝ) : EReal) := by
  unfold RefStats.varAt
  rw [Cert.Consts.n_sub_zero, Ideal.ofBits_zero_f32, zero_add]

variable (y : FVec Ideal S50000x128 .f32)
  (hy : ∀ (r : Fin 50000) (q : Fin 128), IsReal (y (ix2 r q)))

include hy

/-- The mean of a column of reals is real. -/
theorem mean_isReal (q : Fin 128) : IsReal (RefStats.meanAt y q) := by
  rw [meanAt_eq]
  exact LibBatchNorm.mean_isReal (fun r : Fin 50000 => y (ix2 r q)) (fun r => hy r q) n_ne_zero

/-- The centred variance of a column of reals is a non-negative real. -/
theorem var_real_nonneg (q : Fin 128) : ∃ v : ℝ, 0 ≤ v ∧ RefStats.varAt y q = (v : EReal) := by
  rw [varAt_eq]
  exact LibBatchNorm.variance_nonneg (fun r : Fin 50000 => y (ix2 r q)) (fun r => hy r q)
    (by norm_num : (0 : ℝ) < 50000) (RefStats.meanAt y q) (mean_isReal y hy q)

/-- The variance computed from the two accumulated sums is the centred variance. -/
theorem var_forms (q : Fin 128) :
    Ideal.div (Ideal.ofBits .f32 0x00000000#32 + ∑ r : Fin 50000, y (ix2 r q) * y (ix2 r q)) (Ideal.ofBits .f32 0x47435000#32)
        - Ideal.div (Ideal.ofBits .f32 0x00000000#32 + ∑ r : Fin 50000, y (ix2 r q)) (Ideal.ofBits .f32 0x47435000#32)
          * Ideal.div (Ideal.ofBits .f32 0x00000000#32 + ∑ r : Fin 50000, y (ix2 r q)) (Ideal.ofBits .f32 0x47435000#32)
      = RefStats.varAt y q := by
  rw [varAt_eq, meanAt_eq, Cert.Consts.ofBits_n, Ideal.ofBits_zero_f32, zero_add, zero_add]
  exact LibBatchNorm.variance_forms (fun r : Fin 50000 => y (ix2 r q)) (fun r => hy r q) n_card n_ne_zero

omit hy

/-- One normalised and rectified value is real. -/
theorem bnrelu_isReal {V g μ β x : EReal} (hg : IsReal g) (hβ : IsReal β) (hx : IsReal x)
    (hV : ∃ v : ℝ, 0 ≤ v ∧ V = (v : EReal)) (hμ : IsReal μ) : IsReal (RefStats.bnrelu V g μ β x) := by
  obtain ⟨v, hv, rfl⟩ := hV
  unfold RefStats.bnrelu
  rw [Cert.Consts.ofBits_eps, Ideal.ofBits_zero_f32]
  exact LibBatchNorm.IsReal.max
    (LibBatchNorm.IsReal.add
      (LibBatchNorm.IsReal.mul (LibBatchNorm.IsReal.mul hg (LibBatchNorm.IsReal.sub hx hμ))
        (LibBatchNorm.rsqrt_var_isReal hv Cert.Consts.eps_pos))
      hβ)
    LibBatchNorm.IsReal.zero

end Cert.StatsBridge

end
-- ==== Proof.LayerReal.lean ====
/-
  Every entry of every stage of the layer is a real number when the inputs' entries are.

  A dense layer is a finite sum of products plus a bias; a batch normalisation followed by the rectifier is real by
  the column statistics of a real matrix; the neighbourhood sum is zero plus a finite sum of entries of the operand
  (the gather reads the operand at some index, whatever the edge says); the mix is `(1 + ε)·h` plus that sum; and the
  layer is the input plus three normalisations of two dense layers of the mix.
-/
import proofs.«140776_j80633716015159_1_alg».proof.Proof.StatsBridge

noncomputable section

namespace Cert.LayerReal

open Cert.ReferenceIdeal Cert.ReferenceIdeal.Gen
open Idealize.ShloMosaic Idealize.ShloMosaic.TcCoe Idealize.ShloMosaic.ValueIdx Idealize.SL.Sem
open LibBatchNorm (IsReal)

/-- A matrix whose entries, named by row and column, are all real is real at every index. -/
theorem real_at {n0 n1 : Nat} {h : (⟨2, ![n0, n1]⟩ : Shape).Idx → EReal}
    (hh : ∀ (p : Fin n0) (q : Fin n1), IsReal (h (ix2 p q))) (i : (⟨2, ![n0, n1]⟩ : Shape).Idx) : IsReal (h i) := by
  rw [eq_ix2 i]; exact hh _ _

/-- The f32 pattern of `1.0` denotes the real `1`. -/
theorem ofBits_one : Ideal.ofBits .f32 0x3F800000#32 = ((1 : ℝ) : EReal) := by
  simp [Ideal.ofBits, Ideal.ieee, -EReal.coe_mul]; norm_num

/-- A dense layer of real inputs is real: a finite sum of products plus a bias. -/
theorem dense_isReal (x : FVec Ideal S50000x128 .f32) (w : FVec Ideal S128x128 .f32) (b : FVec Ideal S128 .f32)
    (hx : ∀ (p : Fin 50000) (q : Fin 128), IsReal (x (ix2 p q)))
    (hw : ∀ (k : Fin 128) (q : Fin 128), IsReal (w (ix2 k q)))
    (hb : ∀ q : Fin 128, IsReal (b (ix1 q))) (p : Fin 50000) (q : Fin 128) :
    IsReal (RefSpec.dense x w b (ix2 p q)) := by
  rw [RefSpec.dense_apply]
  exact (LibBatchNorm.IsReal.sum _ _ fun k _ => (hx p k).mul (hw k q)).add (hb q)

/-- A batch normalisation of a real matrix with real scale and shift, followed by the rectifier, is real. -/
theorem norm_isReal (y : FVec Ideal S50000x128 .f32) (g β : FVec Ideal S128 .f32)
    (hy : ∀ (p : Fin 50000) (q : Fin 128), IsReal (y (ix2 p q)))
    (hg : ∀ q : Fin 128, IsReal (g (ix1 q))) (hβ : ∀ q : Fin 128, IsReal (β (ix1 q))) (p : Fin 50000) (q : Fin 128) :
    IsReal (RefSpec.norm y g β (ix2 p q)) := by
  rw [RefSpec.norm_apply]
  exact Cert.StatsBridge.bnrelu_isReal (hg q) (hβ q) (hy p q) (Cert.StatsBridge.var_real_nonneg y hy q)
    (Cert.StatsBridge.mean_isReal y hy q)

/-- A scatter-add, at the exact reading, of a real operand and real updates is real: an operand entry plus a finite
    sum of update entries. -/
theorem scatterAdd_isReal {s si su : Shape} {w : Nat} (d : ScatterDims s si su) (x : FVec Ideal s .f32) (idx : IVec si w)
    (upd : FVec Ideal su .f32) (hx : ∀ i, IsReal (x i)) (hu : ∀ j, IsReal (upd j)) (i : s.Idx) :
    IsReal (Host.scatterAdd d x idx upd i) := by
  unfold Host.scatterAdd
  rw [Ideal.hostScatterAdd_def]
  unfold Ideal.hostScatterAdd
  exact (hx i).add (LibBatchNorm.IsReal.sum _ _ fun j _ => hu j)

/-- The neighbourhood sums of a real matrix are real: zero plus a finite sum of entries of the matrix. -/
theorem agg_isReal (h : FVec Ideal S50000x128 .f32) (src dst : IVec S1600000 32)
    (hh : ∀ (p : Fin 50000) (q : Fin 128), IsReal (h (ix2 p q))) (p : Fin 50000) (q : Fin 128) :
    IsReal (RefSpec.agg h src dst (ix2 p q)) := by
  unfold RefSpec.agg
  refine scatterAdd_isReal _ _ _ _ (fun i => ?_) (fun j => ?_) (ix2 p q)
  · rw [broadcastInDim_apply _ _ _ i (Shape.Idx.first h_S_) fun a => a.elim0]
    show IsReal (Ideal.ofBits .f32 0x00000000#32)
    rw [Ideal.ofBits_zero_f32]
    exact LibBatchNorm.IsReal.zero
  · unfold Host.gather
    exact real_at hh _

/-- The layer's input to its perceptron is real. -/
theorem mix_isReal (e : FVec Ideal S_ .f32) (h : FVec Ideal S50000x128 .f32) (src dst : IVec S1600000 32)
    (he : IsReal (e (Shape.Idx.first h_S_)))
    (hh : ∀ (p : Fin 50000) (q : Fin 128), IsReal (h (ix2 p q))) (p : Fin 50000) (q : Fin 128) :
    IsReal (RefSpec.mix e h src dst (ix2 p q)) := by
  rw [RefSpec.mix_apply, ofBits_one]
  exact (((LibBatchNorm.IsReal.coe 1).add he).mul (hh p q)).add (agg_isReal h src dst hh p q)

/-- The sum of two matrices at an entry, at the exact reading. -/
theorem addf_apply (a b : FVec Ideal S50000x128 .f32) (i : S50000x128.Idx) : (addf a b : FVec Ideal S50000x128 .f32) i = a i + b i := rfl

/-- The layer of real inputs and real parameters is real at every entry. -/
theorem layer_isReal (src : IVec S1600000 32) (h : FVec Ideal S50000x128 .f32) (dst : IVec S1600000 32) (e : FVec Ideal S_ .f32)
    (w1 : FVec Ideal S128x128 .f32) (b1 g1 be1 : FVec Ideal S128 .f32) (w2 : FVec Ideal S128x128 .f32)
    (b2 ga ba gl bl : FVec Ideal S128 .f32)
    (hh : ∀ (p : Fin 50000) (q : Fin 128), IsReal (h (ix2 p q)))
    (he : IsReal (e (Shape.Idx.first h_S_)))
    (hw1 : ∀ (k : Fin 128) (q : Fin 128), IsReal (w1 (ix2 k q)))
    (hb1 : ∀ q : Fin 128, IsReal (b1 (ix1 q))) (hg1 : ∀ q : Fin 128, IsReal (g1 (ix1 q)))
    (hbe1 : ∀ q : Fin 128, IsReal (be1 (ix1 q)))
    (hw2 : ∀ (k : Fin 128) (q : Fin 128), IsReal (w2 (ix2 k q)))
    (hb2 : ∀ q : Fin 128, IsReal (b2 (ix1 q))) (hga : ∀ q : Fin 128, IsReal (ga (ix1 q)))
    (hba : ∀ q : Fin 128, IsReal (ba (ix1 q))) (hgl : ∀ q : Fin 128, IsReal (gl (ix1 q)))
    (hbl : ∀ q : Fin 128, IsReal (bl (ix1 q))) (p : Fin 50000) (q : Fin 128) :
    IsReal (RefSpec.layer src h dst e w1 b1 g1 be1 w2 b2 ga ba gl bl (ix2 p q)) := by
  have h1 := mix_isReal e h src dst he hh
  have h2 := dense_isReal (RefSpec.mix e h src dst) w1 b1 h1 hw1 hb1
  have h3 := norm_isReal (RefSpec.dense (RefSpec.mix e h src dst) w1 b1) g1 be1 h2 hg1 hbe1
  have h4 := dense_isReal (RefSpec.norm (RefSpec.dense (RefSpec.mix e h src dst) w1 b1) g1 be1) w2 b2 h3 hw2 hb2
  have h5 := norm_isReal (RefSpec.dense (RefSpec.norm (RefSpec.dense (RefSpec.mix e h src dst) w1 b1) g1 be1) w2 b2) ga ba h4 hga hba
  have h6 := norm_isReal
    (RefSpec.norm (RefSpec.dense (RefSpec.norm (RefSpec.dense (RefSpec.mix e h src dst) w1 b1) g1 be1) w2 b2) ga ba) gl bl h5 hgl hbl
  unfold RefSpec.layer
  rw [addf_apply]
  exact (hh p q).add (h6 p q)

end Cert.LayerReal

end
-- ==== Proof.KLayer0.lean ====
/-
  Layer 0 on the kernel side, stage by stage: each region's arrays and each host stretch's results, read through the
  segment boundaries, are the reference's stages (`RefSpec`) of the same inputs.
-/
import proofs.«140776_j80633716015159_1_alg».proof.Proof.Gen.KernelIdeal.Frame
import proofs.«140776_j80633716015159_1_alg».proof.Proof.KHost
import proofs.«140776_j80633716015159_1_alg».proof.Proof.KStageAVal
import proofs.«140776_j80633716015159_1_alg».proof.Proof.KStageBVal
import proofs.«140776_j80633716015159_1_alg».proof.Proof.KStageCVal
import proofs.«140776_j80633716015159_1_alg».proof.Proof.KStageDVal
import proofs.«140776_j80633716015159_1_alg».proof.Proof.RefSpec
import proofs.«140776_j80633716015159_1_alg».proof.Proof.StatsBridge
import proofs.«140776_j80633716015159_1_alg».proof.Proof.LayerReal

set_option maxRecDepth 16384

noncomputable section

namespace Cert.KernelIdeal.KLayer0

open Cert.KernelIdeal Cert.KernelIdeal.Gen
open Idealize.ShloMosaic Idealize.ShloMosaic.TcCoe Idealize.ShloMosaic.ValueIdx Idealize.SL.Sem Idealize.ShloMosaic.StableHlo
open Cert.ReferenceIdeal (RefSpec.layer)
open LibBatchNorm (IsReal)

variable (m : (ℓ : Loc nD τ sig) → Buf (Elt Ideal) ℓ) (ρ : Dev nD → PrngReg) (c : Dev nD)

/-- The layer's input features and the edge lists, at the layer's entry. -/
abbrev hin : S50000x128.Idx → EReal := W2 m ρ c (Proc.devRef .tc main_v1)
abbrev src : IVec S1600000 32 := W2 m ρ c (Proc.devRef .tc main_arg1)
abbrev dst : IVec S1600000 32 := W2 m ρ c (Proc.devRef .tc main_arg2)

/-- The layer's parameter slices, as the reference takes them. -/
abbrev pe : FVec Ideal S_ .f32 := shapeCast S_ (extractStridedSlice S1 ![0] (W2 m ρ c (Proc.devRef .tc main_arg5)) slices_S4_S1_0) shapeCasts_S1_S_
abbrev pw1 : FVec Ideal S128x128 .f32 := shapeCast S128x128 (extractStridedSlice S1x128x128 ![0, 0, 0] (W2 m ρ c (Proc.devRef .tc main_arg6)) slices_S4x128x128_S1x128x128_0_0_0) shapeCasts_S1x128x128_S128x128
abbrev pb1 : FVec Ideal S128 .f32 := shapeCast S128 (extractStridedSlice S1x128 ![0, 0] (W2 m ρ c (Proc.devRef .tc main_arg7)) slices_S4x128_S1x128_0_0) shapeCasts_S1x128_S128

/-- The first stage's result, as the reference computes it. -/
abbrev y1R : FVec Ideal S50000x128 .f32 :=
  Cert.ReferenceIdeal.RefSpec.dense (Cert.ReferenceIdeal.RefSpec.mix (pe m ρ c) (hin m ρ c) (src m ρ c) (dst m ρ c)) (pw1 m ρ c) (pb1 m ρ c)

/-- Region 1's input arrays, read back through the first host stretch. -/
theorem in_h : KStageAVal.H (V3 m ρ) c = hin m ρ c := KHost.h1_keep_main_v1 (W2 m ρ c)
theorem in_nb : KStageAVal.NB (V3 m ρ) c = Cert.ReferenceIdeal.RefSpec.agg (F := Ideal) (hin m ρ c) (src m ρ c) (dst m ρ c) :=
  (KHost.h1_main_v11 (W2 m ρ c)).trans rfl

theorem in_s (x : Fin 1) : KStageAVal.SC (V3 m ρ) c (ix2 (0 : Fin 1) (0 : Fin 1))
    = Ideal.ofBits .f32 0x3F800000#32 + pe m ρ c (Shape.Idx.first Cert.ReferenceIdeal.Gen.h_S_) := by
  show W3 m ρ c (Proc.devRef .tc main_v15) (ix2 (0 : Fin 1) (0 : Fin 1)) = _
  rw [show W3 m ρ c (Proc.devRef .tc main_v15) = _ from KHost.h1_main_v15 (W2 m ρ c)]
  exact shapeCast_apply _ shapeCasts_S_S1x1 (ix2 (0 : Fin 1) (0 : Fin 1)) (Shape.Idx.first Cert.ReferenceIdeal.Gen.h_S_) rfl

theorem in_w : KStageAVal.Wt (V3 m ρ) c = pw1 m ρ c := (KHost.h1_main_v20 (W2 m ρ c)).trans rfl

theorem in_b (q : Fin 128) : KStageAVal.Bs (V3 m ρ) c (ix2 (0 : Fin 1) q) = pb1 m ρ c (ix1 q) := by
  show W3 m ρ c (Proc.devRef .tc main_v18) (ix2 (0 : Fin 1) q) = _
  rw [show W3 m ρ c (Proc.devRef .tc main_v18) = _ from KHost.h1_main_v18 (W2 m ρ c)]
  exact shapeCast_a_1a_apply _ shapeCasts_S128_S1x128 (0 : Fin 1) q

/-- The first region's tile output is the reference's first stage. -/
theorem y1_eq : (dat1 (V3 m ρ) c).arrAt 5 cfg1.N = y1R m ρ c := by
  rw [KStageAVal.final5]
  funext i
  obtain ⟨p, q, rfl⟩ : ∃ (p : Fin 50000) (q : Fin 128), i = ix2 p q := ⟨i 0, i 1, eq_ix2 i⟩
  show KStageAVal.y1At _ _ _ _ _ p q = _
  unfold KStageAVal.y1At
  show _ = Cert.ReferenceIdeal.RefSpec.dense (F := Ideal) _ _ _ (ix2 p q)
  rw [Cert.ReferenceIdeal.RefSpec.dense_apply, in_s m ρ c 0, in_w, in_b, in_h, in_nb]
  refine congrArg (· + _) (Finset.sum_congr rfl fun k _ => ?_)
  rw [Cert.ReferenceIdeal.RefSpec.mix_apply]

/-! ## Means and variances from the accumulated sums -/

section Stats

open Cert.ReferenceIdeal.RefStats (meanAt varAt)

/-- The host's mean row from an accumulated row of column sums. -/
theorem mean_of_sum (y : FVec Ideal S50000x128 .f32) (s1 : FVec Ideal S1x128 .f32)
    (h1 : ∀ q : Fin 128, s1 (ix2 (0 : Fin 1) q) = Ideal.ofBits .f32 0x00000000#32 + ∑ r : Fin 50000, y (ix2 r q)) (q : Fin 128) :
    (Host.divf s1 (broadcastInDim S1x128 ![] bcast_S_S1x128 (constant (F := Ideal) S_ .f32 0x47435000#32)) : FVec Ideal S1x128 .f32)
      (ix2 (0 : Fin 1) q) = meanAt y q := by
  unfold Host.divf
  rw [h1, broadcastInDim_apply _ _ _ (ix2 (0 : Fin 1) q) (Shape.Idx.first Cert.ReferenceIdeal.Gen.h_S_) fun a => a.elim0]
  rfl

/-- The host's variance row from the two accumulated rows, for a real array. -/
theorem var_of_sums (y : FVec Ideal S50000x128 .f32) (s1 s2 : FVec Ideal S1x128 .f32)
    (h1 : ∀ q : Fin 128, s1 (ix2 (0 : Fin 1) q) = Ideal.ofBits .f32 0x00000000#32 + ∑ r : Fin 50000, y (ix2 r q))
    (h2 : ∀ q : Fin 128, s2 (ix2 (0 : Fin 1) q) = Ideal.ofBits .f32 0x00000000#32 + ∑ r : Fin 50000, y (ix2 r q) * y (ix2 r q))
    (hy : ∀ (r : Fin 50000) (q : Fin 128), IsReal (y (ix2 r q))) (q : Fin 128) :
    (subf (Host.divf s2 (broadcastInDim S1x128 ![] bcast_S_S1x128 (constant (F := Ideal) S_ .f32 0x47435000#32)))
        (mulf (Host.divf s1 (broadcastInDim S1x128 ![] bcast_S_S1x128 (constant (F := Ideal) S_ .f32 0x47435000#32)))
          (Host.divf s1 (broadcastInDim S1x128 ![] bcast_S_S1x128 (constant (F := Ideal) S_ .f32 0x47435000#32)))) :
      FVec Ideal S1x128 .f32) (ix2 (0 : Fin 1) q) = varAt y q := by
  have hb : (broadcastInDim S1x128 ![] bcast_S_S1x128 (constant (F := Ideal) S_ .f32 0x47435000#32) : FVec Ideal S1x128 .f32)
      (ix2 (0 : Fin 1) q) = Ideal.ofBits .f32 0x47435000#32 :=
    broadcastInDim_apply _ _ _ (ix2 (0 : Fin 1) q) (Shape.Idx.first Cert.ReferenceIdeal.Gen.h_S_) fun a => a.elim0
  show Ideal.div (s2 (ix2 (0 : Fin 1) q)) (broadcastInDim S1x128 ![] bcast_S_S1x128 (constant (F := Ideal) S_ .f32 0x47435000#32) (ix2 (0 : Fin 1) q))
      - Ideal.div (s1 (ix2 (0 : Fin 1) q)) (broadcastInDim S1x128 ![] bcast_S_S1x128 (constant (F := Ideal) S_ .f32 0x47435000#32) (ix2 (0 : Fin 1) q))
        * Ideal.div (s1 (ix2 (0 : Fin 1) q)) (broadcastInDim S1x128 ![] bcast_S_S1x128 (constant (F := Ideal) S_ .f32 0x47435000#32) (ix2 (0 : Fin 1) q)) = _
  rw [hb, h1, h2]
  exact Cert.StatsBridge.var_forms y hy q

end Stats

/-! ## The other parameter slices -/

abbrev pg1 : FVec Ideal S128 .f32 := shapeCast S128 (extractStridedSlice S1x128 ![0, 0] (W2 m ρ c (Proc.devRef .tc main_arg8)) slices_S4x128_S1x128_0_0) shapeCasts_S1x128_S128
abbrev pbe1 : FVec Ideal S128 .f32 := shapeCast S128 (extractStridedSlice S1x128 ![0, 0] (W2 m ρ c (Proc.devRef .tc main_arg9)) slices_S4x128_S1x128_0_0) shapeCasts_S1x128_S128
abbrev pw2 : FVec Ideal S128x128 .f32 := shapeCast S128x128 (extractStridedSlice S1x128x128 ![0, 0, 0] (W2 m ρ c (Proc.devRef .tc main_arg10)) slices_S4x128x128_S1x128x128_0_0_0) shapeCasts_S1x128x128_S128x128
abbrev pb2 : FVec Ideal S128 .f32 := shapeCast S128 (extractStridedSlice S1x128 ![0, 0] (W2 m ρ c (Proc.devRef .tc main_arg11)) slices_S4x128_S1x128_0_0) shapeCasts_S1x128_S128
abbrev pga : FVec Ideal S128 .f32 := shapeCast S128 (extractStridedSlice S1x128 ![0, 0] (W2 m ρ c (Proc.devRef .tc main_arg12)) slices_S4x128_S1x128_0_0) shapeCasts_S1x128_S128
abbrev pba : FVec Ideal S128 .f32 := shapeCast S128 (extractStridedSlice S1x128 ![0, 0] (W2 m ρ c (Proc.devRef .tc main_arg13)) slices_S4x128_S1x128_0_0) shapeCasts_S1x128_S128
abbrev pgl : FVec Ideal S128 .f32 := shapeCast S128 (extractStridedSlice S1x128 ![0, 0] (W2 m ρ c (Proc.devRef .tc main_arg14)) slices_S4x128_S1x128_0_0) shapeCasts_S1x128_S128
abbrev pbl : FVec Ideal S128 .f32 := shapeCast S128 (extractStridedSlice S1x128 ![0, 0] (W2 m ρ c (Proc.devRef .tc main_arg15)) slices_S4x128_S1x128_0_0) shapeCasts_S1x128_S128

/-- A parameter row as the kernel stages it (the slice made a vector, then a one-row matrix), at a column. -/
theorem row_param (a a' : FVec Ideal S4x128 .f32) (h : a = a') (q : Fin 128) :
    (shapeCast S1x128 (shapeCast S128 (extractStridedSlice S1x128 ![0, 0] a slices_S4x128_S1x128_0_0) shapeCasts_S1x128_S128)
        shapeCasts_S128_S1x128 : FVec Ideal S1x128 .f32) (ix2 (0 : Fin 1) q)
      = (shapeCast S128 (extractStridedSlice S1x128 ![0, 0] a' slices_S4x128_S1x128_0_0) shapeCasts_S1x128_S128 : FVec Ideal S128 .f32) (ix1 q) := by
  subst h
  exact shapeCast_a_1a_apply _ shapeCasts_S128_S1x128 (0 : Fin 1) q

/-- The argument buffers are untouched between the layer's entry and its later stretches. -/
theorem w4_arg (a : Ref sig .tc) (h1 : ∀ w, Pipeline.arrRef spec1 w ≠ a)
    (hk : StableHlo.after hostOps1 (W2 m ρ c) (Proc.devRef .tc a) = W2 m ρ c (Proc.devRef .tc a)) :
    W4 m ρ c (Proc.devRef .tc a) = W2 m ρ c (Proc.devRef .tc a) := (W4_of_ne m ρ c a h1).trans hk
theorem w6_arg (a : Ref sig .tc) (h1 : ∀ w, Pipeline.arrRef spec1 w ≠ a) (h2 : ∀ w, Pipeline.arrRef spec2 w ≠ a)
    (hk1 : StableHlo.after hostOps1 (W2 m ρ c) (Proc.devRef .tc a) = W2 m ρ c (Proc.devRef .tc a))
    (hk2 : StableHlo.after hostOps2 (W4 m ρ c) (Proc.devRef .tc a) = W4 m ρ c (Proc.devRef .tc a)) :
    W6 m ρ c (Proc.devRef .tc a) = W2 m ρ c (Proc.devRef .tc a) :=
  ((W6_of_ne m ρ c a h2).trans hk2).trans (w4_arg m ρ c a h1 hk1)
theorem w8_arg (a : Ref sig .tc) (h1 : ∀ w, Pipeline.arrRef spec1 w ≠ a) (h2 : ∀ w, Pipeline.arrRef spec2 w ≠ a)
    (h3 : ∀ w, Pipeline.arrRef spec3 w ≠ a)
    (hk1 : StableHlo.after hostOps1 (W2 m ρ c) (Proc.devRef .tc a) = W2 m ρ c (Proc.devRef .tc a))
    (hk2 : StableHlo.after hostOps2 (W4 m ρ c) (Proc.devRef .tc a) = W4 m ρ c (Proc.devRef .tc a))
    (hk3 : StableHlo.after hostOps3 (W6 m ρ c) (Proc.devRef .tc a) = W6 m ρ c (Proc.devRef .tc a)) :
    W8 m ρ c (Proc.devRef .tc a) = W2 m ρ c (Proc.devRef .tc a) :=
  ((W8_of_ne m ρ c a h3).trans hk3).trans (w6_arg m ρ c a h1 h2 hk1 hk2)

theorem w10_arg (a : Ref sig .tc) (h1 : ∀ w, Pipeline.arrRef spec1 w ≠ a) (h2 : ∀ w, Pipeline.arrRef spec2 w ≠ a)
    (h3 : ∀ w, Pipeline.arrRef spec3 w ≠ a) (h4 : ∀ w, Pipeline.arrRef spec4 w ≠ a)
    (hk1 : StableHlo.after hostOps1 (W2 m ρ c) (Proc.devRef .tc a) = W2 m ρ c (Proc.devRef .tc a))
    (hk2 : StableHlo.after hostOps2 (W4 m ρ c) (Proc.devRef .tc a) = W4 m ρ c (Proc.devRef .tc a))
    (hk3 : StableHlo.after hostOps3 (W6 m ρ c) (Proc.devRef .tc a) = W6 m ρ c (Proc.devRef .tc a))
    (hk4 : StableHlo.after hostOps4 (W8 m ρ c) (Proc.devRef .tc a) = W8 m ρ c (Proc.devRef .tc a)) :
    W10 m ρ c (Proc.devRef .tc a) = W2 m ρ c (Proc.devRef .tc a) :=
  ((W10_of_ne m ρ c a h4).trans hk4).trans (w8_arg m ρ c a h1 h2 h3 hk1 hk2 hk3)

/-! ## Stage 1's statistics, stage 2 -/

section Stage2

open Cert.ReferenceIdeal.RefStats (meanAt varAt)
open Cert.ReferenceIdeal (RefSpec.dense RefSpec.norm)

variable (hy1 : ∀ (r : Fin 50000) (q : Fin 128), IsReal (y1R m ρ c (ix2 r q)))

theorem sum1 (q : Fin 128) : W4 m ρ c (Proc.devRef .tc main_v21_1) (ix2 (0 : Fin 1) q)
    = Ideal.ofBits .f32 0x00000000#32 + ∑ r : Fin 50000, y1R m ρ c (ix2 r q) := by
  have h := KStageAVal.sum_apply (V3 m ρ) c q
  rw [← KStageAVal.final5, y1_eq] at h
  exact (congrFun (W4_arr m ρ c 6) _).trans h

theorem sumsq1 (q : Fin 128) : W4 m ρ c (Proc.devRef .tc main_v21_2) (ix2 (0 : Fin 1) q)
    = Ideal.ofBits .f32 0x00000000#32 + ∑ r : Fin 50000, y1R m ρ c (ix2 r q) * y1R m ρ c (ix2 r q) := by
  have h := KStageAVal.sumsq_apply (V3 m ρ) c q
  rw [← KStageAVal.final5, y1_eq] at h
  exact (congrFun (W4_arr m ρ c 7) _).trans h

include hy1

/-- The second stage's result, as the reference computes it. -/
abbrev y2R : FVec Ideal S50000x128 .f32 :=
  Cert.ReferenceIdeal.RefSpec.dense (Cert.ReferenceIdeal.RefSpec.norm (y1R m ρ c) (pg1 m ρ c) (pbe1 m ρ c)) (pw2 m ρ c) (pb2 m ρ c)

theorem in2_y : KStageBVal.Y1 (V5 m ρ) c = y1R m ρ c :=
  ((KHost.h2_keep_main_v21_0 (W4 m ρ c)).trans (W4_arr m ρ c 5)).trans (y1_eq m ρ c)

theorem in2_m (q : Fin 128) : KStageBVal.M (V5 m ρ) c (ix2 (0 : Fin 1) q) = meanAt (y1R m ρ c) q := by
  show W5 m ρ c (Proc.devRef .tc main_v23) (ix2 (0 : Fin 1) q) = _
  rw [show W5 m ρ c (Proc.devRef .tc main_v23) = _ from KHost.h2_main_v23 (W4 m ρ c)]
  exact mean_of_sum (y1R m ρ c) _ (sum1 m ρ c) q

theorem in2_v (q : Fin 128) : KStageBVal.Vr (V5 m ρ) c (ix2 (0 : Fin 1) q) = varAt (y1R m ρ c) q := by
  show W5 m ρ c (Proc.devRef .tc main_v27) (ix2 (0 : Fin 1) q) = _
  rw [show W5 m ρ c (Proc.devRef .tc main_v27) = _ from KHost.h2_main_v27 (W4 m ρ c)]
  exact var_of_sums (y1R m ρ c) _ _ (sum1 m ρ c) (sumsq1 m ρ c) hy1 q

theorem in2_g (q : Fin 128) : KStageBVal.G (V5 m ρ) c (ix2 (0 : Fin 1) q) = pg1 m ρ c (ix1 q) := by
  show W5 m ρ c (Proc.devRef .tc main_v30) (ix2 (0 : Fin 1) q) = _
  rw [show W5 m ρ c (Proc.devRef .tc main_v30) = _ from KHost.h2_main_v30 (W4 m ρ c)]
  exact row_param _ _ (w4_arg m ρ c main_arg8 (by decide) (KHost.h1_keep_main_arg8 _)) q

theorem in2_be (q : Fin 128) : KStageBVal.Be (V5 m ρ) c (ix2 (0 : Fin 1) q) = pbe1 m ρ c (ix1 q) := by
  show W5 m ρ c (Proc.devRef .tc main_v33) (ix2 (0 : Fin 1) q) = _
  rw [show W5 m ρ c (Proc.devRef .tc main_v33) = _ from KHost.h2_main_v33 (W4 m ρ c)]
  exact row_param _ _ (w4_arg m ρ c main_arg9 (by decide) (KHost.h1_keep_main_arg9 _)) q

theorem in2_w : KStageBVal.Wt (V5 m ρ) c = pw2 m ρ c := by
  show W5 m ρ c (Proc.devRef .tc main_v38) = _
  rw [show W5 m ρ c (Proc.devRef .tc main_v38) = _ from KHost.h2_main_v38 (W4 m ρ c),
    w4_arg m ρ c main_arg10 (by decide) (KHost.h1_keep_main_arg10 _)]

theorem in2_b (q : Fin 128) : KStageBVal.Bs (V5 m ρ) c (ix2 (0 : Fin 1) q) = pb2 m ρ c (ix1 q) := by
  show W5 m ρ c (Proc.devRef .tc main_v36) (ix2 (0 : Fin 1) q) = _
  rw [show W5 m ρ c (Proc.devRef .tc main_v36) = _ from KHost.h2_main_v36 (W4 m ρ c)]
  exact row_param _ _ (w4_arg m ρ c main_arg11 (by decide) (KHost.h1_keep_main_arg11 _)) q

/-- The second region's tile output is the reference's second stage. -/
theorem y2_eq : (dat2 (V5 m ρ) c).arrAt 7 cfg2.N = y2R m ρ c := by
  rw [KStageBVal.final7]
  funext i
  obtain ⟨p, q, rfl⟩ : ∃ (p : Fin 50000) (q : Fin 128), i = ix2 p q := ⟨i 0, i 1, eq_ix2 i⟩
  show KStageBVal.y2At _ _ _ _ _ _ _ p q = _
  unfold KStageBVal.y2At
  show _ = Cert.ReferenceIdeal.RefSpec.dense (F := Ideal) _ _ _ (ix2 p q)
  rw [Cert.ReferenceIdeal.RefSpec.dense_apply, in2_y m ρ c hy1, in2_w m ρ c hy1, in2_b m ρ c hy1]
  refine congrArg (· + _) (Finset.sum_congr rfl fun k _ => ?_)
  rw [Cert.ReferenceIdeal.RefSpec.norm_apply, in2_m m ρ c hy1, in2_v m ρ c hy1, in2_g m ρ c hy1, in2_be m ρ c hy1]
  rfl

end Stage2

/-! ## Stage 2's statistics, stage 3 -/

section Stage3

open Cert.ReferenceIdeal.RefStats (meanAt varAt)

variable (hy1 : ∀ (r : Fin 50000) (q : Fin 128), IsReal (y1R m ρ c (ix2 r q)))
variable (hy2 : ∀ (r : Fin 50000) (q : Fin 128), IsReal (y2R m ρ c (ix2 r q)))

include hy1 hy2

theorem sum2 (q : Fin 128) : W6 m ρ c (Proc.devRef .tc main_v39_1) (ix2 (0 : Fin 1) q)
    = Ideal.ofBits .f32 0x00000000#32 + ∑ r : Fin 50000, y2R m ρ c (ix2 r q) := by
  have h := KStageBVal.sum_apply (V5 m ρ) c q
  rw [← KStageBVal.final7, y2_eq m ρ c hy1] at h
  exact (congrFun (W6_arr m ρ c 8) _).trans h

theorem sumsq2 (q : Fin 128) : W6 m ρ c (Proc.devRef .tc main_v39_2) (ix2 (0 : Fin 1) q)
    = Ideal.ofBits .f32 0x00000000#32 + ∑ r : Fin 50000, y2R m ρ c (ix2 r q) * y2R m ρ c (ix2 r q) := by
  have h := KStageBVal.sumsq_apply (V5 m ρ) c q
  rw [← KStageBVal.final7, y2_eq m ρ c hy1] at h
  exact (congrFun (W6_arr m ρ c 9) _).trans h

/-- The third stage's result, as the reference computes it. -/
abbrev cR : FVec Ideal S50000x128 .f32 := Cert.ReferenceIdeal.RefSpec.norm (y2R m ρ c) (pga m ρ c) (pba m ρ c)

theorem in3_y : KStageCVal.Y2 (V7 m ρ) c = y2R m ρ c :=
  ((KHost.h3_keep_main_v39_0 (W6 m ρ c)).trans (W6_arr m ρ c 7)).trans (y2_eq m ρ c hy1)

theorem in3_m (q : Fin 128) : KStageCVal.M (V7 m ρ) c (ix2 (0 : Fin 1) q) = meanAt (y2R m ρ c) q := by
  show W7 m ρ c (Proc.devRef .tc main_v41) (ix2 (0 : Fin 1) q) = _
  rw [show W7 m ρ c (Proc.devRef .tc main_v41) = _ from KHost.h3_main_v41 (W6 m ρ c)]
  exact mean_of_sum (y2R m ρ c) _ (sum2 m ρ c hy1 hy2) q

theorem in3_v (q : Fin 128) : KStageCVal.Vr (V7 m ρ) c (ix2 (0 : Fin 1) q) = varAt (y2R m ρ c) q := by
  show W7 m ρ c (Proc.devRef .tc main_v45) (ix2 (0 : Fin 1) q) = _
  rw [show W7 m ρ c (Proc.devRef .tc main_v45) = _ from KHost.h3_main_v45 (W6 m ρ c)]
  exact var_of_sums (y2R m ρ c) _ _ (sum2 m ρ c hy1 hy2) (sumsq2 m ρ c hy1 hy2) hy2 q

theorem in3_g (q : Fin 128) : KStageCVal.G (V7 m ρ) c (ix2 (0 : Fin 1) q) = pga m ρ c (ix1 q) := by
  show W7 m ρ c (Proc.devRef .tc main_v48) (ix2 (0 : Fin 1) q) = _
  rw [show W7 m ρ c (Proc.devRef .tc main_v48) = _ from KHost.h3_main_v48 (W6 m ρ c)]
  exact row_param _ _ (w6_arg m ρ c main_arg12 (by decide) (by decide) (KHost.h1_keep_main_arg12 _) (KHost.h2_keep_main_arg12 _)) q

theorem in3_be (q : Fin 128) : KStageCVal.Be (V7 m ρ) c (ix2 (0 : Fin 1) q) = pba m ρ c (ix1 q) := by
  show W7 m ρ c (Proc.devRef .tc main_v51) (ix2 (0 : Fin 1) q) = _
  rw [show W7 m ρ c (Proc.devRef .tc main_v51) = _ from KHost.h3_main_v51 (W6 m ρ c)]
  exact row_param _ _ (w6_arg m ρ c main_arg13 (by decide) (by decide) (KHost.h1_keep_main_arg13 _) (KHost.h2_keep_main_arg13 _)) q

/-- The third region's tile output is the reference's third stage. -/
theorem c_eq : (dat3 (V7 m ρ) c).arrAt 5 cfg3.N = cR m ρ c := by
  rw [KStageCVal.final5]
  funext i
  obtain ⟨p, q, rfl⟩ : ∃ (p : Fin 50000) (q : Fin 128), i = ix2 p q := ⟨i 0, i 1, eq_ix2 i⟩
  show KStageCVal.cAt _ _ _ _ _ p q = _
  unfold KStageCVal.cAt
  show _ = Cert.ReferenceIdeal.RefSpec.norm (F := Ideal) _ _ _ (ix2 p q)
  rw [Cert.ReferenceIdeal.RefSpec.norm_apply, in3_y m ρ c hy1 hy2, in3_m m ρ c hy1 hy2, in3_v m ρ c hy1 hy2, in3_g m ρ c hy1 hy2, in3_be m ρ c hy1 hy2]
  rfl

end Stage3

/-! ## Stage 3's statistics, the closing stage -/

section Stage4

open Cert.ReferenceIdeal.RefStats (meanAt varAt)

variable (hy1 : ∀ (r : Fin 50000) (q : Fin 128), IsReal (y1R m ρ c (ix2 r q)))
variable (hy2 : ∀ (r : Fin 50000) (q : Fin 128), IsReal (y2R m ρ c (ix2 r q)))
variable (hc : ∀ (r : Fin 50000) (q : Fin 128), IsReal (cR m ρ c (ix2 r q)))

include hy1 hy2 hc

theorem sum3 (q : Fin 128) : W8 m ρ c (Proc.devRef .tc main_v52_1) (ix2 (0 : Fin 1) q)
    = Ideal.ofBits .f32 0x00000000#32 + ∑ r : Fin 50000, cR m ρ c (ix2 r q) := by
  have h := KStageCVal.sum_apply (V7 m ρ) c q
  rw [← KStageCVal.final5, c_eq m ρ c hy1 hy2] at h
  exact (congrFun (W8_arr m ρ c 6) _).trans h

theorem sumsq3 (q : Fin 128) : W8 m ρ c (Proc.devRef .tc main_v52_2) (ix2 (0 : Fin 1) q)
    = Ideal.ofBits .f32 0x00000000#32 + ∑ r : Fin 50000, cR m ρ c (ix2 r q) * cR m ρ c (ix2 r q) := by
  have h := KStageCVal.sumsq_apply (V7 m ρ) c q
  rw [← KStageCVal.final5, c_eq m ρ c hy1 hy2] at h
  exact (congrFun (W8_arr m ρ c 7) _).trans h

theorem in4_c : KStageDVal.Cc (V9 m ρ) c = cR m ρ c :=
  ((KHost.h4_keep_main_v52_0 (W8 m ρ c)).trans (W8_arr m ρ c 5)).trans (c_eq m ρ c hy1 hy2)

theorem in4_m (q : Fin 128) : KStageDVal.Mn (V9 m ρ) c (ix2 (0 : Fin 1) q) = meanAt (cR m ρ c) q := by
  show W9 m ρ c (Proc.devRef .tc main_v54) (ix2 (0 : Fin 1) q) = _
  rw [show W9 m ρ c (Proc.devRef .tc main_v54) = _ from KHost.h4_main_v54 (W8 m ρ c)]
  exact mean_of_sum (cR m ρ c) _ (sum3 m ρ c hy1 hy2 hc) q

theorem in4_v (q : Fin 128) : KStageDVal.Vr (V9 m ρ) c (ix2 (0 : Fin 1) q) = varAt (cR m ρ c) q := by
  show W9 m ρ c (Proc.devRef .tc main_v58) (ix2 (0 : Fin 1) q) = _
  rw [show W9 m ρ c (Proc.devRef .tc main_v58) = _ from KHost.h4_main_v58 (W8 m ρ c)]
  exact var_of_sums (cR m ρ c) _ _ (sum3 m ρ c hy1 hy2 hc) (sumsq3 m ρ c hy1 hy2 hc) hc q

theorem in4_g (q : Fin 128) : KStageDVal.Gm (V9 m ρ) c (ix2 (0 : Fin 1) q) = pgl m ρ c (ix1 q) := by
  show W9 m ρ c (Proc.devRef .tc main_v61) (ix2 (0 : Fin 1) q) = _
  rw [show W9 m ρ c (Proc.devRef .tc main_v61) = _ from KHost.h4_main_v61 (W8 m ρ c)]
  exact row_param _ _ (w8_arg m ρ c main_arg14 (by decide) (by decide) (by decide) (KHost.h1_keep_main_arg14 _) (KHost.h2_keep_main_arg14 _) (KHost.h3_keep_main_arg14 _)) q

theorem in4_be (q : Fin 128) : KStageDVal.Bt (V9 m ρ) c (ix2 (0 : Fin 1) q) = pbl m ρ c (ix1 q) := by
  show W9 m ρ c (Proc.devRef .tc main_v64) (ix2 (0 : Fin 1) q) = _
  rw [show W9 m ρ c (Proc.devRef .tc main_v64) = _ from KHost.h4_main_v64 (W8 m ρ c)]
  exact row_param _ _ (w8_arg m ρ c main_arg15 (by decide) (by decide) (by decide) (KHost.h1_keep_main_arg15 _) (KHost.h2_keep_main_arg15 _) (KHost.h3_keep_main_arg15 _)) q

theorem in4_h : KStageDVal.Hh (V9 m ρ) c = hin m ρ c :=
  (KHost.h4_keep_main_v1 (W8 m ρ c)).trans <| (W8_of_ne m ρ c main_v1 (by decide)).trans <|
    (KHost.h3_keep_main_v1 (W6 m ρ c)).trans <| (W6_of_ne m ρ c main_v1 (by decide)).trans <|
    (KHost.h2_keep_main_v1 (W4 m ρ c)).trans <| (W4_arr m ρ c 0).trans <|
    ((dat1 (V3 m ρ) c).arrAt_in 0 rfl _).trans <| (A_eq1 (V3 m ρ) c 0).trans (KHost.h1_keep_main_v1 (W2 m ρ c))

/-- THE LAYER: the closing region's output array is the reference's layer of the layer's input and parameter slices. -/
theorem layer_eq :
    W10 m ρ c (Proc.devRef .tc main_v65)
      = Cert.ReferenceIdeal.RefSpec.layer (src m ρ c) (hin m ρ c) (dst m ρ c) (pe m ρ c) (pw1 m ρ c) (pb1 m ρ c) (pg1 m ρ c)
          (pbe1 m ρ c) (pw2 m ρ c) (pb2 m ρ c) (pga m ρ c) (pba m ρ c) (pgl m ρ c) (pbl m ρ c) := by
  refine (W10_arr m ρ c 6).trans ?_
  rw [KStageDVal.final]
  funext i
  obtain ⟨p, q, rfl⟩ : ∃ (p : Fin 50000) (q : Fin 128), i = ix2 p q := ⟨i 0, i 1, eq_ix2 i⟩
  show KStageDVal.outAt _ _ _ _ _ _ p q = _
  unfold KStageDVal.outAt Cert.ReferenceIdeal.RefSpec.layer
  rw [in4_c m ρ c hy1 hy2 hc, in4_h m ρ c hy1 hy2 hc, in4_m m ρ c hy1 hy2 hc, in4_v m ρ c hy1 hy2 hc, in4_g m ρ c hy1 hy2 hc, in4_be m ρ c hy1 hy2 hc]
  show _ = hin m ρ c (ix2 p q) + Cert.ReferenceIdeal.RefSpec.norm (F := Ideal) (cR m ρ c) (pgl m ρ c) (pbl m ρ c) (ix2 p q)
  rw [Cert.ReferenceIdeal.RefSpec.norm_apply]
  rfl

end Stage4

/-- THE LAYER, from real inputs: with the layer's input features and parameter slices real, every intermediate is real,
    so the two forms of each variance agree and the kernel's layer is the reference's. -/
theorem layer_eq_real
    (hh : ∀ (p : Fin 50000) (q : Fin 128), IsReal (hin m ρ c (ix2 p q)))
    (he : IsReal (pe m ρ c (Shape.Idx.first Cert.ReferenceIdeal.Gen.h_S_)))
    (hw1 : ∀ (k q : Fin 128), IsReal (pw1 m ρ c (ix2 k q))) (hb1 : ∀ q : Fin 128, IsReal (pb1 m ρ c (ix1 q)))
    (hg1 : ∀ q : Fin 128, IsReal (pg1 m ρ c (ix1 q))) (hbe1 : ∀ q : Fin 128, IsReal (pbe1 m ρ c (ix1 q)))
    (hw2 : ∀ (k q : Fin 128), IsReal (pw2 m ρ c (ix2 k q))) (hb2 : ∀ q : Fin 128, IsReal (pb2 m ρ c (ix1 q)))
    (hga : ∀ q : Fin 128, IsReal (pga m ρ c (ix1 q))) (hba : ∀ q : Fin 128, IsReal (pba m ρ c (ix1 q)))
    (hgl : ∀ q : Fin 128, IsReal (pgl m ρ c (ix1 q))) (hbl : ∀ q : Fin 128, IsReal (pbl m ρ c (ix1 q))) :
    W10 m ρ c (Proc.devRef .tc main_v65)
      = Cert.ReferenceIdeal.RefSpec.layer (src m ρ c) (hin m ρ c) (dst m ρ c) (pe m ρ c) (pw1 m ρ c) (pb1 m ρ c) (pg1 m ρ c)
          (pbe1 m ρ c) (pw2 m ρ c) (pb2 m ρ c) (pga m ρ c) (pba m ρ c) (pgl m ρ c) (pbl m ρ c) := by
  have hy1 : ∀ (r : Fin 50000) (q : Fin 128), IsReal (y1R m ρ c (ix2 r q)) :=
    Cert.LayerReal.dense_isReal _ _ _ (Cert.LayerReal.mix_isReal _ _ _ _ he hh) hw1 hb1
  have hy2 : ∀ (r : Fin 50000) (q : Fin 128), IsReal (y2R m ρ c (ix2 r q)) :=
    Cert.LayerReal.dense_isReal _ _ _ (Cert.LayerReal.norm_isReal _ _ _ hy1 hg1 hbe1) hw2 hb2
  have hc : ∀ (r : Fin 50000) (q : Fin 128), IsReal (cR m ρ c (ix2 r q)) :=
    Cert.LayerReal.norm_isReal _ _ _ hy2 hga hba
  exact layer_eq m ρ c hy1 hy2 hc

end Cert.KernelIdeal.KLayer0

end
-- ==== Proof.KStageAVal_L1.lean ====
/-
  The first stage's region, read as values.  At each of the ten grid points the body writes the point's tile of
  `y₁` and updates two one-row accumulators: at the first point they are reset to zero before the tile's column sums
  (and column sums of squares) are added, at the later points the sums are added to what the point before left.
-/
import proofs.«140776_j80633716015159_1_alg».proof.Proof.Gen.KernelIdeal.Frame
import proofs.«140776_j80633716015159_1_alg».proof.Proof.KStageA
import proofs.«140776_j80633716015159_1_alg».proof.Proof.LibFinSum
import Idealize.ShloMosaic.Lib.Pipeline.Value
import Idealize.ShloMosaic.Lib.Tactic

set_option maxRecDepth 16384

noncomputable section

namespace Cert.KernelIdeal.KStageAVal_L1

open Cert.KernelIdeal Cert.KernelIdeal.Gen
open Idealize.ShloMosaic Idealize.ShloMosaic.TcCoe Idealize.ShloMosaic.ValueIdx Idealize.SL.Sem
open Idealize.ShloMosaic.Pipeline (Dat Cfg Window)

/-- The tile of `y₁` at an entry. -/
theorem pay4_apply (v3 : Vec Ideal S1x1 .f32) (v5 v9 : Vec Ideal S5000x128 .f32) (v13 : Vec Ideal S128x128 .f32)
    (v17 : Vec Ideal S1x128 .f32) (p : Fin 5000) (q : Fin 128) :
    k5_pay4 v3 v5 v9 v13 v17 (ix2 p q)
      = (∑ k : Fin 128, (v3 (ix2 (0 : Fin 1) (0 : Fin 1)) * v5 (ix2 p k) + v9 (ix2 p k)) * v13 (ix2 k q))
        + v17 (ix2 (0 : Fin 1) q) :=
  KStageA.pay4_apply v3 v5 v9 v13 v17 p q

/-- The running column sums after the point, at a column. -/
theorem pay5_apply (v3 : Vec Ideal S1x1 .f32) (v5 v9 : Vec Ideal S5000x128 .f32) (v13 : Vec Ideal S128x128 .f32)
    (v17 v22 : Vec Ideal S1x128 .f32) (q : Fin 128) :
    k5_pay5 v3 v5 v9 v13 v17 v22 (ix2 (0 : Fin 1) q)
      = v22 (ix2 (0 : Fin 1) q) + ∑ r : Fin 5000, k5_pay4 v3 v5 v9 v13 v17 (ix2 r q) :=
  KStageA.pay5_apply v3 v5 v9 v13 v17 v22 q

/-- The column sums of the squares of the point's tile, at a column. -/
theorem pay7_apply (v3 : Vec Ideal S1x1 .f32) (v5 v9 : Vec Ideal S5000x128 .f32) (v13 : Vec Ideal S128x128 .f32)
    (v17 : Vec Ideal S1x128 .f32) (q : Fin 128) :
    k5_pay7 v3 v5 v9 v13 v17 (ix2 (0 : Fin 1) q)
      = ∑ r : Fin 5000, k5_pay4 v3 v5 v9 v13 v17 (ix2 r q) * k5_pay4 v3 v5 v9 v13 v17 (ix2 r q) :=
  KStageA.pay7_apply v3 v5 v9 v13 v17 q

variable {F : FTy → Type} [FloatOps F]

theorem hz : (![0, 0] : Fin 2 → Nat) = fun _ => 0 := funext fun a => by fin_cases a <;> rfl

/-- The zero row the reset stores. -/
abbrev zrow : Vec F S1x128 .f32 := broadcast S1x128 (Scalar.ofBits .f32 0x00000000#32)

/-- First point, the tile of `y₁`. -/
theorem outA5 (c : Dev nD) (i : grid5.Coords) (a1 : Memref sig .tc .vmem S5000x128 .f32) (h1 : a1.IsWhole) (a2 : Memref sig .tc .vmem S5000x128 .f32) (h2 : a2.IsWhole) (a3 : Memref sig .tc .vmem S1x1 .f32) (h3 : a3.IsWhole) (a4 : Memref sig .tc .vmem S128x128 .f32) (h4 : a4.IsWhole) (a5 : Memref sig .tc .vmem S1x128 .f32) (h5 : a5.IsWhole) (a6 : Memref sig .tc .vmem S5000x128 .f32) (h6 : a6.IsWhole) (a7 : Memref sig .tc .vmem S1x128 .f32) (h7 : a7.IsWhole) (a8 : Memref sig .tc .vmem S1x128 .f32) (h8 : a8.IsWhole) (hc : cond5_0 i) (x0 x1 : Vec F S5000x128 .f32) (x2 : Vec F S1x1 .f32) (x3 : Vec F S128x128 .f32) (x4 : Vec F S1x128 .f32) :
    out5_A_5 c i a1 h1 a2 h2 a3 h3 a4 h4 a5 h5 a6 h6 a7 h7 a8 h8 hc x0 x1 x2 x3 x4 = k5_pay4 x2 x0 x1 x3 x4 := by
  unfold out5_A_5
  rw [View.read_writes_eq_canon _ _ _ (cover5_A_5 c i a1 h1 a2 h2 a3 h3 a4 h4 a5 h5 a6 h6 a7 h7 a8 h8 hc x0 x1 x2 x3 x4)]
  unfold kernelRun5_A
  dsimp only
  sl_unfold_words
  rw [View.canon_unit_zero hz]
  simp only [View.readAt_eq_ld, h1.read_unread, h2.read_unread, h3.read_unread, h4.read_unread, h5.read_unread, View.ld_unit_zero (S := S5000x128) hz, View.ld_unit_zero (S := S1x1) hz, View.ld_unit_zero (S := S128x128) hz, View.ld_unit_zero (S := S1x128) hz]

theorem outA6 (c : Dev nD) (i : grid5.Coords) (a1 : Memref sig .tc .vmem S5000x128 .f32) (h1 : a1.IsWhole) (a2 : Memref sig .tc .vmem S5000x128 .f32) (h2 : a2.IsWhole) (a3 : Memref sig .tc .vmem S1x1 .f32) (h3 : a3.IsWhole) (a4 : Memref sig .tc .vmem S128x128 .f32) (h4 : a4.IsWhole) (a5 : Memref sig .tc .vmem S1x128 .f32) (h5 : a5.IsWhole) (a6 : Memref sig .tc .vmem S5000x128 .f32) (h6 : a6.IsWhole) (a7 : Memref sig .tc .vmem S1x128 .f32) (h7 : a7.IsWhole) (a8 : Memref sig .tc .vmem S1x128 .f32) (h8 : a8.IsWhole) (hc : cond5_0 i) (x0 x1 : Vec F S5000x128 .f32) (x2 : Vec F S1x1 .f32) (x3 : Vec F S128x128 .f32) (x4 : Vec F S1x128 .f32) :
    out5_A_6 c i a1 h1 a2 h2 a3 h3 a4 h4 a5 h5 a6 h6 a7 h7 a8 h8 hc x0 x1 x2 x3 x4 = k5_pay5 x2 x0 x1 x3 x4 zrow := by
  unfold out5_A_6
  rw [View.read_writes_eq_canon _ _ _ (cover5_A_6 c i a1 h1 a2 h2 a3 h3 a4 h4 a5 h5 a6 h6 a7 h7 a8 h8 hc x0 x1 x2 x3 x4)]
  unfold kernelRun5_A
  dsimp only
  sl_unfold_words
  rw [View.canon_cons_unit_zero (S := S1x128) hz, View.readCov_unit_zero (S := S1x128) _ hz]
  simp only [View.readAt_eq_ld, h1.read_unread, h2.read_unread, h3.read_unread, h4.read_unread, h5.read_unread, h7.read_unread, h8.read_unread, View.ld_unit_zero (S := S5000x128) hz, View.ld_unit_zero (S := S1x1) hz, View.ld_unit_zero (S := S128x128) hz, View.ld_unit_zero (S := S1x128) hz]
  rfl

theorem outA7 (c : Dev nD) (i : grid5.Coords) (a1 : Memref sig .tc .vmem S5000x128 .f32) (h1 : a1.IsWhole) (a2 : Memref sig .tc .vmem S5000x128 .f32) (h2 : a2.IsWhole) (a3 : Memref sig .tc .vmem S1x1 .f32) (h3 : a3.IsWhole) (a4 : Memref sig .tc .vmem S128x128 .f32) (h4 : a4.IsWhole) (a5 : Memref sig .tc .vmem S1x128 .f32) (h5 : a5.IsWhole) (a6 : Memref sig .tc .vmem S5000x128 .f32) (h6 : a6.IsWhole) (a7 : Memref sig .tc .vmem S1x128 .f32) (h7 : a7.IsWhole) (a8 : Memref sig .tc .vmem S1x128 .f32) (h8 : a8.IsWhole) (hc : cond5_0 i) (x0 x1 : Vec F S5000x128 .f32) (x2 : Vec F S1x1 .f32) (x3 : Vec F S128x128 .f32) (x4 : Vec F S1x128 .f32) :
    out5_A_7 c i a1 h1 a2 h2 a3 h3 a4 h4 a5 h5 a6 h6 a7 h7 a8 h8 hc x0 x1 x2 x3 x4 = k5_pay1 (k5_pay6 zrow) (k5_pay7 x2 x0 x1 x3 x4) := by
  unfold out5_A_7
  rw [View.read_writes_eq_canon _ _ _ (cover5_A_7 c i a1 h1 a2 h2 a3 h3 a4 h4 a5 h5 a6 h6 a7 h7 a8 h8 hc x0 x1 x2 x3 x4)]
  unfold kernelRun5_A
  dsimp only
  sl_unfold_words
  rw [View.canon_cons_unit_zero (S := S1x128) hz, View.readCov_unit_zero (S := S1x128) _ hz]
  simp only [View.readAt_eq_ld, h1.read_unread, h2.read_unread, h3.read_unread, h4.read_unread, h5.read_unread, h7.read_unread, h8.read_unread, View.ld_unit_zero (S := S5000x128) hz, View.ld_unit_zero (S := S1x1) hz, View.ld_unit_zero (S := S128x128) hz, View.ld_unit_zero (S := S1x128) hz]
  rfl

theorem outB5 (c : Dev nD) (i : grid5.Coords) (a1 : Memref sig .tc .vmem S5000x128 .f32) (h1 : a1.IsWhole) (a2 : Memref sig .tc .vmem S5000x128 .f32) (h2 : a2.IsWhole) (a3 : Memref sig .tc .vmem S1x1 .f32) (h3 : a3.IsWhole) (a4 : Memref sig .tc .vmem S128x128 .f32) (h4 : a4.IsWhole) (a5 : Memref sig .tc .vmem S1x128 .f32) (h5 : a5.IsWhole) (a6 : Memref sig .tc .vmem S5000x128 .f32) (h6 : a6.IsWhole) (a7 : Memref sig .tc .vmem S1x128 .f32) (h7 : a7.IsWhole) (a8 : Memref sig .tc .vmem S1x128 .f32) (h8 : a8.IsWhole) (hc : ¬cond5_0 i) (x0 x1 : Vec F S5000x128 .f32) (x2 : Vec F S1x1 .f32) (x3 : Vec F S128x128 .f32) (x4 : Vec F S1x128 .f32) (s6 s7 : Vec F S1x128 .f32) :
    out5_B_5 c i a1 h1 a2 h2 a3 h3 a4 h4 a5 h5 a6 h6 a7 h7 a8 h8 hc x0 x1 x2 x3 x4 s6 s7 = k5_pay4 x2 x0 x1 x3 x4 := by
  unfold out5_B_5
  rw [View.read_writes_eq_canon _ _ _ (cover5_B_5 c i a1 h1 a2 h2 a3 h3 a4 h4 a5 h5 a6 h6 a7 h7 a8 h8 hc x0 x1 x2 x3 x4 s6 s7)]
  unfold kernelRun5_B
  dsimp only
  sl_unfold_words
  rw [View.canon_unit_zero hz]
  simp only [View.readAt_eq_ld, h1.read_unread, h2.read_unread, h3.read_unread, h4.read_unread, h5.read_unread, h7.read_unread, h8.read_unread, View.ld_unit_zero (S := S5000x128) hz, View.ld_unit_zero (S := S1x1) hz, View.ld_unit_zero (S := S128x128) hz, View.ld_unit_zero (S := S1x128) hz]

theorem outB6 (c : Dev nD) (i : grid5.Coords) (a1 : Memref sig .tc .vmem S5000x128 .f32) (h1 : a1.IsWhole) (a2 : Memref sig .tc .vmem S5000x128 .f32) (h2 : a2.IsWhole) (a3 : Memref sig .tc .vmem S1x1 .f32) (h3 : a3.IsWhole) (a4 : Memref sig .tc .vmem S128x128 .f32) (h4 : a4.IsWhole) (a5 : Memref sig .tc .vmem S1x128 .f32) (h5 : a5.IsWhole) (a6 : Memref sig .tc .vmem S5000x128 .f32) (h6 : a6.IsWhole) (a7 : Memref sig .tc .vmem S1x128 .f32) (h7 : a7.IsWhole) (a8 : Memref sig .tc .vmem S1x128 .f32) (h8 : a8.IsWhole) (hc : ¬cond5_0 i) (x0 x1 : Vec F S5000x128 .f32) (x2 : Vec F S1x1 .f32) (x3 : Vec F S128x128 .f32) (x4 : Vec F S1x128 .f32) (s6 s7 : Vec F S1x128 .f32) :
    out5_B_6 c i a1 h1 a2 h2 a3 h3 a4 h4 a5 h5 a6 h6 a7 h7 a8 h8 hc x0 x1 x2 x3 x4 s6 s7 = k5_pay5 x2 x0 x1 x3 x4 s6 := by
  unfold out5_B_6
  rw [View.read_writes_eq_canon _ _ _ (cover5_B_6 c i a1 h1 a2 h2 a3 h3 a4 h4 a5 h5 a6 h6 a7 h7 a8 h8 hc x0 x1 x2 x3 x4 s6 s7)]
  unfold kernelRun5_B
  dsimp only
  sl_unfold_words
  rw [View.canon_unit_zero hz]
  simp only [View.readAt_eq_ld, h1.read_unread, h2.read_unread, h3.read_unread, h4.read_unread, h5.read_unread, h7.read_unread, h8.read_unread, View.ld_unit_zero (S := S5000x128) hz, View.ld_unit_zero (S := S1x1) hz, View.ld_unit_zero (S := S128x128) hz, View.ld_unit_zero (S := S1x128) hz]

theorem outB7 (c : Dev nD) (i : grid5.Coords) (a1 : Memref sig .tc .vmem S5000x128 .f32) (h1 : a1.IsWhole) (a2 : Memref sig .tc .vmem S5000x128 .f32) (h2 : a2.IsWhole) (a3 : Memref sig .tc .vmem S1x1 .f32) (h3 : a3.IsWhole) (a4 : Memref sig .tc .vmem S128x128 .f32) (h4 : a4.IsWhole) (a5 : Memref sig .tc .vmem S1x128 .f32) (h5 : a5.IsWhole) (a6 : Memref sig .tc .vmem S5000x128 .f32) (h6 : a6.IsWhole) (a7 : Memref sig .tc .vmem S1x128 .f32) (h7 : a7.IsWhole) (a8 : Memref sig .tc .vmem S1x128 .f32) (h8 : a8.IsWhole) (hc : ¬cond5_0 i) (x0 x1 : Vec F S5000x128 .f32) (x2 : Vec F S1x1 .f32) (x3 : Vec F S128x128 .f32) (x4 : Vec F S1x128 .f32) (s6 s7 : Vec F S1x128 .f32) :
    out5_B_7 c i a1 h1 a2 h2 a3 h3 a4 h4 a5 h5 a6 h6 a7 h7 a8 h8 hc x0 x1 x2 x3 x4 s6 s7 = k5_pay1 (k5_pay6 s7) (k5_pay7 x2 x0 x1 x3 x4) := by
  unfold out5_B_7
  rw [View.read_writes_eq_canon _ _ _ (cover5_B_7 c i a1 h1 a2 h2 a3 h3 a4 h4 a5 h5 a6 h6 a7 h7 a8 h8 hc x0 x1 x2 x3 x4 s6 s7)]
  unfold kernelRun5_B
  dsimp only
  sl_unfold_words
  rw [View.canon_unit_zero hz]
  simp only [View.readAt_eq_ld, h1.read_unread, h2.read_unread, h3.read_unread, h4.read_unread, h5.read_unread, h7.read_unread, h8.read_unread, View.ld_unit_zero (S := S5000x128) hz, View.ld_unit_zero (S := S1x1) hz, View.ld_unit_zero (S := S128x128) hz, View.ld_unit_zero (S := S1x128) hz]

/-! ## The outputs after each point -/

variable (V : (c : Dev nD) → (b : Ref sig .tc) → Buf (Elt F) ((c : Thread nD τ).loc b))

/-- The point's tile of `y₁`. -/
def tileY (c : Dev nD) (t : Fin cfg5.N) : Vec F S5000x128 .f32 := k5_pay4 (iblk5 V c 2 t) (iblk5 V c 0 t) (iblk5 V c 1 t) (iblk5 V c 3 t) (iblk5 V c 4 t)

/-- The running column sums after point `n`. -/
def acc6 (c : Dev nD) : (n : ℕ) → n < cfg5.N → Vec F S1x128 .f32
  | 0, h => k5_pay5 (iblk5 V c 2 ⟨0, h⟩) (iblk5 V c 0 ⟨0, h⟩) (iblk5 V c 1 ⟨0, h⟩) (iblk5 V c 3 ⟨0, h⟩) (iblk5 V c 4 ⟨0, h⟩) zrow
  | n + 1, h => k5_pay5 (iblk5 V c 2 ⟨n + 1, h⟩) (iblk5 V c 0 ⟨n + 1, h⟩) (iblk5 V c 1 ⟨n + 1, h⟩) (iblk5 V c 3 ⟨n + 1, h⟩) (iblk5 V c 4 ⟨n + 1, h⟩) (acc6 c n (Nat.lt_of_succ_lt h))

/-- The running column sums of squares after point `n`. -/
def acc7 (c : Dev nD) : (n : ℕ) → n < cfg5.N → Vec F S1x128 .f32
  | 0, h => k5_pay1 (k5_pay6 zrow) (k5_pay7 (iblk5 V c 2 ⟨0, h⟩) (iblk5 V c 0 ⟨0, h⟩) (iblk5 V c 1 ⟨0, h⟩) (iblk5 V c 3 ⟨0, h⟩) (iblk5 V c 4 ⟨0, h⟩))
  | n + 1, h => k5_pay1 (k5_pay6 (acc7 c n (Nat.lt_of_succ_lt h))) (k5_pay7 (iblk5 V c 2 ⟨n + 1, h⟩) (iblk5 V c 0 ⟨n + 1, h⟩) (iblk5 V c 1 ⟨n + 1, h⟩) (iblk5 V c 3 ⟨n + 1, h⟩) (iblk5 V c 4 ⟨n + 1, h⟩))

/-- What the three outputs' staging buffers hold after point `n`: the tile and the two running sums. -/
theorem outsAt_eq (c : Dev nD) : ∀ (n : ℕ) (h : n < cfg5.N), outsAt5 V c n h = (tileY V c ⟨n, h⟩, acc6 V c n h, acc7 V c n h)
  | 0, h => (outsAt5_A V c ⟨0, h⟩ rfl).trans (by rw [outA5, outA6, outA7]; rfl)
  | n + 1, h => by
    have hN : grid5.N = 10 := N_5
    have hB : ¬(⟨n + 1, h⟩ : Fin cfg5.N).val % 10 = 0 := by
      have : n + 1 < 10 := by have := h; rw [show cfg5.N = grid5.N from rfl, hN] at this; exact this
      dsimp only; omega
    rw [outsAt5_B V c ⟨n + 1, h⟩ hB, outB5, outB6, outB7]
    show (_, k5_pay5 _ _ _ _ _ (outsAt5 V c n _).2.1, k5_pay1 (k5_pay6 (outsAt5 V c n _).2.2) _) = _
    rw [outsAt_eq c n]
    rfl

/-! ## At the exact reading: the accumulators are sums, the tiles an array -/

section Exact

variable (V : (c : Dev nD) → (b : Ref sig .tc) → Buf (Elt Ideal) ((c : Thread nD τ).loc b))

theorem acc6_apply (c : Dev nD) (q : Fin 128) : ∀ (n : ℕ) (h : n < cfg5.N),
    acc6 V c n h (ix2 (0 : Fin 1) q)
      = Ideal.ofBits .f32 0x00000000#32
        + ∑ t : Fin (n + 1), ∑ r : Fin 5000, tileY V c ⟨t.val, lt_of_lt_of_le t.isLt h⟩ (ix2 r q) :=
  Cert.FinSum.sum_of_steps cfg5.N (fun n h => acc6 V c n h (ix2 (0 : Fin 1) q))
    (fun t => ∑ r : Fin 5000, tileY V c t (ix2 r q)) (Ideal.ofBits .f32 0x00000000#32)
    (fun h => pay5_apply _ _ _ _ _ _ q)
    (fun n h => pay5_apply _ _ _ _ _ _ q)

/-- The accumulator update at a column: what was there plus the new row. -/
theorem step_apply (s7 v32 : FVec Ideal S1x128 .f32) (q : Fin 128) :
    k5_pay1 (k5_pay6 s7) v32 (ix2 (0 : Fin 1) q) = s7 (ix2 (0 : Fin 1) q) + v32 (ix2 (0 : Fin 1) q) := by
  unfold k5_pay1 k5_pay6
  rw [shapeCast_self]
  rfl

theorem acc7_apply (c : Dev nD) (q : Fin 128) : ∀ (n : ℕ) (h : n < cfg5.N),
    acc7 V c n h (ix2 (0 : Fin 1) q)
      = Ideal.ofBits .f32 0x00000000#32
        + ∑ t : Fin (n + 1), ∑ r : Fin 5000,
            tileY V c ⟨t.val, lt_of_lt_of_le t.isLt h⟩ (ix2 r q) * tileY V c ⟨t.val, lt_of_lt_of_le t.isLt h⟩ (ix2 r q) :=
  Cert.FinSum.sum_of_steps cfg5.N (fun n h => acc7 V c n h (ix2 (0 : Fin 1) q))
    (fun t => ∑ r : Fin 5000, tileY V c t (ix2 r q) * tileY V c t (ix2 r q)) (Ideal.ofBits .f32 0x00000000#32)
    (fun h => (step_apply _ _ q).trans (congrArg (Ideal.ofBits .f32 0x00000000#32 + ·) (pay7_apply _ _ _ _ _ q)))
    (fun n h => (step_apply _ _ q).trans (congrArg (acc7 V c n _ (ix2 (0 : Fin 1) q) + ·) (pay7_apply _ _ _ _ _ q)))

end Exact

/-! ## The arrays after the region -/

/-- One entry of `y₁ = (s·h + neigh) · w + b`. -/
def y1At (h nb : (⟨2, ![50000, 128]⟩ : Shape).Idx → EReal) (s : (⟨2, ![1, 1]⟩ : Shape).Idx → EReal)
    (w : (⟨2, ![128, 128]⟩ : Shape).Idx → EReal) (b : (⟨2, ![1, 128]⟩ : Shape).Idx → EReal) (p : Fin 50000) (q : Fin 128) : EReal :=
  (∑ k : Fin 128, (s (ix2 (0 : Fin 1) (0 : Fin 1)) * h (ix2 p k) + nb (ix2 p k)) * w (ix2 k q)) + b (ix2 (0 : Fin 1) q)

/-- `y₁` as an array. -/
def y1 (h nb : (⟨2, ![50000, 128]⟩ : Shape).Idx → EReal) (s : (⟨2, ![1, 1]⟩ : Shape).Idx → EReal)
    (w : (⟨2, ![128, 128]⟩ : Shape).Idx → EReal) (b : (⟨2, ![1, 128]⟩ : Shape).Idx → EReal) :
    (⟨2, ![50000, 128]⟩ : Shape).Idx → EReal :=
  fun i => y1At h nb s w b ⟨(i 0).val, idx2_lt0 i⟩ ⟨(i 1).val, idx2_lt1 i⟩

section Arrays

variable (V : (c : Dev nD) → (b : Ref sig .tc) → Buf (Elt Ideal) ((c : Thread nD τ).loc b))

/-- The arrays the region finds. -/
abbrev H (c : Dev nD) : S50000x128.Idx → EReal := V c (Pipeline.arrRef spec5 0)
abbrev NB (c : Dev nD) : S50000x128.Idx → EReal := V c (Pipeline.arrRef spec5 1)
abbrev SC (c : Dev nD) : S1x1.Idx → EReal := V c (Pipeline.arrRef spec5 2)
abbrev Wt (c : Dev nD) : S128x128.Idx → EReal := V c (Pipeline.arrRef spec5 3)
abbrev Bs (c : Dev nD) : S1x128.Idx → EReal := V c (Pipeline.arrRef spec5 4)

/-- The printed index maps over the ten points: the two feature tiles and the output tile move down the rows with the
    point; the scalar, the weight matrix, the bias row and the two accumulator rows are block (0, 0). -/
theorem idx_facts : ∀ t : Fin cfg5.N,
    win5_0.index t (0 : Fin 2) = t.val ∧ win5_0.index t (1 : Fin 2) = 0
    ∧ win5_1.index t (0 : Fin 2) = t.val ∧ win5_1.index t (1 : Fin 2) = 0
    ∧ win5_2.index t (0 : Fin 2) = 0 ∧ win5_2.index t (1 : Fin 2) = 0
    ∧ win5_3.index t (0 : Fin 2) = 0 ∧ win5_3.index t (1 : Fin 2) = 0
    ∧ win5_4.index t (0 : Fin 2) = 0 ∧ win5_4.index t (1 : Fin 2) = 0
    ∧ win5_5.index t (0 : Fin 2) = t.val ∧ win5_5.index t (1 : Fin 2) = 0 :=
  (by decide +kernel : ∀ t : Fin grid5.N, _)

theorem iblk_h (c : Dev nD) (t : Fin cfg5.N) (p : Fin 5000) (k : Fin 128) (hp : t.val * 5000 + p.val < 50000) :
    (iblk5 V c 0 t : Vec Ideal S5000x128 .f32) (ix2 p k) = H V c (ix2 ⟨t.val * 5000 + p.val, hp⟩ k) := by
  obtain ⟨e0, e1, -⟩ := idx_facts t
  unfold iblk5
  rw [View.read_apply]
  refine congrArg (V c (Pipeline.arrRef spec5 0)) (funext fun a => Fin.ext ?_)
  match a with
  | ⟨0, _⟩ => show win5_0.index t 0 * 5000 + 1 * p.val = t.val * 5000 + p.val; rw [e0]; omega
  | ⟨1, _⟩ => show win5_0.index t 1 * 128 + 1 * k.val = k.val; rw [e1]; omega

theorem iblk_nb (c : Dev nD) (t : Fin cfg5.N) (p : Fin 5000) (k : Fin 128) (hp : t.val * 5000 + p.val < 50000) :
    (iblk5 V c 1 t : Vec Ideal S5000x128 .f32) (ix2 p k) = NB V c (ix2 ⟨t.val * 5000 + p.val, hp⟩ k) := by
  obtain ⟨-, -, e0, e1, -⟩ := idx_facts t
  unfold iblk5
  rw [View.read_apply]
  refine congrArg (V c (Pipeline.arrRef spec5 1)) (funext fun a => Fin.ext ?_)
  match a with
  | ⟨0, _⟩ => show win5_1.index t 0 * 5000 + 1 * p.val = t.val * 5000 + p.val; rw [e0]; omega
  | ⟨1, _⟩ => show win5_1.index t 1 * 128 + 1 * k.val = k.val; rw [e1]; omega

theorem iblk_s (c : Dev nD) (t : Fin cfg5.N) : (iblk5 V c 2 t : Vec Ideal S1x1 .f32) = SC V c := by
  obtain ⟨-, -, -, -, e0, e1, -⟩ := idx_facts t
  funext y
  unfold iblk5
  rw [View.read_apply]
  refine congrArg (V c (Pipeline.arrRef spec5 2)) (funext fun a => Fin.ext ?_)
  match a with
  | ⟨0, _⟩ => show win5_2.index t 0 * 1 + 1 * (y 0).val = (y 0).val; rw [e0]; omega
  | ⟨1, _⟩ => show win5_2.index t 1 * 1 + 1 * (y 1).val = (y 1).val; rw [e1]; omega

theorem iblk_w (c : Dev nD) (t : Fin cfg5.N) : (iblk5 V c 3 t : Vec Ideal S128x128 .f32) = Wt V c := by
  obtain ⟨-, -, -, -, -, -, e0, e1, -⟩ := idx_facts t
  funext y
  unfold iblk5
  rw [View.read_apply]
  refine congrArg (V c (Pipeline.arrRef spec5 3)) (funext fun a => Fin.ext ?_)
  match a with
  | ⟨0, _⟩ => show win5_3.index t 0 * 128 + 1 * (y 0).val = (y 0).val; rw [e0]; omega
  | ⟨1, _⟩ => show win5_3.index t 1 * 128 + 1 * (y 1).val = (y 1).val; rw [e1]; omega

theorem iblk_b (c : Dev nD) (t : Fin cfg5.N) : (iblk5 V c 4 t : Vec Ideal S1x128 .f32) = Bs V c := by
  obtain ⟨-, -, -, -, -, -, -, -, e0, e1, -⟩ := idx_facts t
  funext y
  unfold iblk5
  rw [View.read_apply]
  refine congrArg (V c (Pipeline.arrRef spec5 4)) (funext fun a => Fin.ext ?_)
  match a with
  | ⟨0, _⟩ => show win5_4.index t 0 * 1 + 1 * (y 0).val = (y 0).val; rw [e0]; omega
  | ⟨1, _⟩ => show win5_4.index t 1 * 128 + 1 * (y 1).val = (y 1).val; rw [e1]; omega

/-- The tile at point `t`, entry `(p, q)`, is `y₁` at row `5000·t + p`. -/
theorem tile_apply (c : Dev nD) (t : Fin cfg5.N) (p : Fin 5000) (q : Fin 128) (hp : t.val * 5000 + p.val < 50000) :
    tileY V c t (ix2 p q) = y1At (H V c) (NB V c) (SC V c) (Wt V c) (Bs V c) ⟨t.val * 5000 + p.val, hp⟩ q := by
  unfold tileY y1At
  rw [pay4_apply, iblk_s, iblk_w, iblk_b]
  refine congrArg (· + _) (Finset.sum_congr rfl fun k _ => ?_)
  rw [iblk_h V c t p k hp, iblk_nb V c t p k hp]

end Arrays

section Final

variable (V : (c : Dev nD) → (b : Ref sig .tc) → Buf (Elt Ideal) ((c : Thread nD τ).loc b))

/-- An entry of the tile at point `t` is the entry of `y₁` at row `5000·t + ` the tile's row. -/
theorem point5 (c : Dev nD) (t : Fin cfg5.N) (j : S5000x128.Idx) (i : S50000x128.Idx)
    (hi0 : (i 0).val = t.val * 5000 + (j 0).val) (hi1 : (i 1).val = (j 1).val) :
    tileY V c t j = y1 (H V c) (NB V c) (SC V c) (Wt V c) (Bs V c) i := by
  obtain ⟨p, q, rfl⟩ : ∃ (p : Fin 5000) (q : Fin 128), j = ix2 p q := ⟨j 0, j 1, eq_ix2 j⟩
  have ht : t.val < 10 := lt_of_lt_of_eq t.isLt (show cfg5.N = 10 from N_5)
  have hp : t.val * 5000 + p.val < 50000 := by have := p.isLt; omega
  rw [tile_apply V c t p q hp]
  unfold y1
  congr 1
  · exact Fin.ext hi0.symm
  · exact Fin.ext hi1.symm

/-- What point `t` writes back of `y₁` is tile `t` of the array `y₁`. -/
theorem flushed5_eq (c : Dev nD) (t : Fin cfg5.N) :
    (dat5 V c).flushed 5 t
      = ((cfg5.win 5).blk t).view.read (Elt Ideal) (y1 (H V c) (NB V c) (SC V c) (Wt V c) (Bs V c)) := by
  show (cfg5.win 5).cut (grid5.coords t) ((dat5 V c).after 5 t) = _
  rw [after5_5, outsAt_eq]
  obtain ⟨-, -, -, -, -, -, -, -, -, -, e0, e1⟩ := idx_facts t
  funext j
  rw [View.read_apply]
  refine point5 V c t j _ ?_ ?_
  · show win5_5.index t 0 * 5000 + 1 * (j 0).val = t.val * 5000 + (j 0).val
    rw [e0]; omega
  · show win5_5.index t 1 * 128 + 1 * (j 1).val = (j 1).val
    rw [e1]; omega

theorem mem_blk5 (t : Fin cfg5.N) (i : S50000x128.Idx) :
    i ∈ ((cfg5.win 5).blk t).view.set ↔ ∀ a : Fin 2, win5_5.index t a * S5000x128.size a ≤ (i a).val
      ∧ (i a).val < win5_5.index t a * S5000x128.size a + S5000x128.size a := by
  show i ∈ ((View.whole main_v85_0).slice (win5_5.rect t)).set ↔ _
  rw [View.set_slice_whole, Rect.mem_set_unit]
  exact Iff.rfl

theorem cover5 (i : S50000x128.Idx) :
    ∃ t : Fin cfg5.N, (cfg5.win 5).flush t = true ∧ i ∈ ((cfg5.win 5).blk t).view.set := by
  have hi0 : (i 0).val < 50000 := idx2_lt0 i
  have hi1 : (i 1).val < 128 := idx2_lt1 i
  have hN : grid5.N = 10 := N_5
  have ht : (i 0).val / 5000 < cfg5.N := by show _ < grid5.N; rw [hN]; omega
  obtain ⟨-, -, -, -, -, -, -, -, -, -, e0, e1⟩ := idx_facts ⟨(i 0).val / 5000, ht⟩
  refine ⟨⟨(i 0).val / 5000, ht⟩, flush5_5 _, ?_⟩
  rw [mem_blk5]
  intro a
  match a with
  | ⟨0, _⟩ =>
    show win5_5.index ⟨(i 0).val / 5000, ht⟩ 0 * 5000 ≤ (i 0).val ∧ (i 0).val < win5_5.index ⟨(i 0).val / 5000, ht⟩ 0 * 5000 + 5000
    rw [e0]; show (i 0).val / 5000 * 5000 ≤ (i 0).val ∧ (i 0).val < (i 0).val / 5000 * 5000 + 5000; omega
  | ⟨1, _⟩ =>
    show win5_5.index ⟨(i 0).val / 5000, ht⟩ 1 * 128 ≤ (i 1).val ∧ (i 1).val < win5_5.index ⟨(i 0).val / 5000, ht⟩ 1 * 128 + 128
    rw [e1]; omega

/-- After the region the first output array is `y₁` of the arrays the region finds. -/
theorem final5 (c : Dev nD) : (dat5 V c).arrAt 5 cfg5.N = y1 (H V c) (NB V c) (SC V c) (Wt V c) (Bs V c) :=
  (dat5 V c).arrAt_eq_of_cover 5 _ (fun t _ => flushed5_eq V c t) cover5

theorem lastLt : 9 < cfg5.N := by show 9 < grid5.N; rw [N_5]; decide

/-- The accumulated column sums after the last point, as the contents of the second output array. -/
abbrev res6 (c : Dev nD) : Buf (Elt Ideal) ((c : Thread nD τ).loc main_v85_1) := acc6 V c 9 lastLt
/-- The accumulated column sums of squares after the last point, as the contents of the third output array. -/
abbrev res7 (c : Dev nD) : Buf (Elt Ideal) ((c : Thread nD τ).loc main_v85_2) := acc7 V c 9 lastLt

theorem flushed6_eq (c : Dev nD) (t : Fin cfg5.N) (hf : (cfg5.win 6).flush t = true) :
    (dat5 V c).flushed 6 t = ((cfg5.win 6).blk t).view.read (Elt Ideal) (res6 V c) := by
  have hN : grid5.N = 10 := N_5
  have h9 : t.val = 9 := by
    have := (flush5_6 t).mp hf; have h := lt_of_lt_of_eq t.isLt (show cfg5.N = 10 from N_5); omega
  obtain rfl : t = t5_9 := Fin.ext h9
  show (cfg5.win 6).cut (grid5.coords t5_9) ((dat5 V c).after 6 t5_9) = _
  rw [after5_6, outsAt_eq]
  have hz' : (fun a => win5_6.index t5_9 a * main_v85_1.ty.shape.size a) = fun _ => 0 := funext fun a => by fin_cases a <;> decide
  exact (Memref.read_access_unit_zero (Elt Ideal) main_v85_1 hz' (fun a => by rw [congrFun hz' a]; simp) (res6 V c)).symm

theorem flushed7_eq (c : Dev nD) (t : Fin cfg5.N) (hf : (cfg5.win 7).flush t = true) :
    (dat5 V c).flushed 7 t = ((cfg5.win 7).blk t).view.read (Elt Ideal) (res7 V c) := by
  have hN : grid5.N = 10 := N_5
  have h9 : t.val = 9 := by
    have := (flush5_7 t).mp hf; have h := lt_of_lt_of_eq t.isLt (show cfg5.N = 10 from N_5); omega
  obtain rfl : t = t5_9 := Fin.ext h9
  show (cfg5.win 7).cut (grid5.coords t5_9) ((dat5 V c).after 7 t5_9) = _
  rw [after5_7, outsAt_eq]
  have hz' : (fun a => win5_7.index t5_9 a * main_v85_2.ty.shape.size a) = fun _ => 0 := funext fun a => by fin_cases a <;> decide
  exact (Memref.read_access_unit_zero (Elt Ideal) main_v85_2 hz' (fun a => by rw [congrFun hz' a]; simp) (res7 V c)).symm

/-- The last point's write-back covers the one-row array. -/
theorem final6 (c : Dev nD) : (dat5 V c).arrAt 6 cfg5.N = res6 V c :=
  (dat5 V c).arrAt_eq_of_cover 6 (res6 V c) (flushed6_eq V c) fun i =>
    ⟨t5_9, (flush5_6 t5_9).mpr rfl, by
      show i ∈ ((View.whole main_v85_1).slice (win5_6.rect t5_9)).set
      rw [View.set_slice_whole, Rect.mem_set_unit]
      intro a
      have h0 : (i 0 : Nat) < 1 := (i 0).isLt
      have h1 : (i 1 : Nat) < 128 := (i 1).isLt
      match a with
      | ⟨0, _⟩ => show win5_6.index t5_9 0 * win5_6.size 0 ≤ (i 0 : Nat) ∧ (i 0 : Nat) < win5_6.index t5_9 0 * win5_6.size 0 + win5_6.xsize (grid5.coords t5_9) 0
                  rw [show win5_6.index t5_9 0 * win5_6.size 0 = 0 from by decide +kernel, show win5_6.xsize (grid5.coords t5_9) 0 = 1 from by decide +kernel]; omega
      | ⟨1, _⟩ => show win5_6.index t5_9 1 * win5_6.size 1 ≤ (i 1 : Nat) ∧ (i 1 : Nat) < win5_6.index t5_9 1 * win5_6.size 1 + win5_6.xsize (grid5.coords t5_9) 1
                  rw [show win5_6.index t5_9 1 * win5_6.size 1 = 0 from by decide +kernel, show win5_6.xsize (grid5.coords t5_9) 1 = 128 from by decide +kernel]; omega⟩

theorem final7 (c : Dev nD) : (dat5 V c).arrAt 7 cfg5.N = res7 V c :=
  (dat5 V c).arrAt_eq_of_cover 7 (res7 V c) (flushed7_eq V c) fun i =>
    ⟨t5_9, (flush5_7 t5_9).mpr rfl, by
      show i ∈ ((View.whole main_v85_2).slice (win5_7.rect t5_9)).set
      rw [View.set_slice_whole, Rect.mem_set_unit]
      intro a
      have h0 : (i 0 : Nat) < 1 := (i 0).isLt
      have h1 : (i 1 : Nat) < 128 := (i 1).isLt
      match a with
      | ⟨0, _⟩ => show win5_7.index t5_9 0 * win5_7.size 0 ≤ (i 0 : Nat) ∧ (i 0 : Nat) < win5_7.index t5_9 0 * win5_7.size 0 + win5_7.xsize (grid5.coords t5_9) 0
                  rw [show win5_7.index t5_9 0 * win5_7.size 0 = 0 from by decide +kernel, show win5_7.xsize (grid5.coords t5_9) 0 = 1 from by decide +kernel]; omega
      | ⟨1, _⟩ => show win5_7.index t5_9 1 * win5_7.size 1 ≤ (i 1 : Nat) ∧ (i 1 : Nat) < win5_7.index t5_9 1 * win5_7.size 1 + win5_7.xsize (grid5.coords t5_9) 1
                  rw [show win5_7.index t5_9 1 * win5_7.size 1 = 0 from by decide +kernel, show win5_7.xsize (grid5.coords t5_9) 1 = 128 from by decide +kernel]; omega⟩

/-- Summing the ten tiles' column sums is summing down all 50000 rows. -/
theorem tiles_sum (c : Dev nD) (f : EReal → EReal) (q : Fin 128) :
    ∑ t : Fin (9 + 1), ∑ r : Fin 5000, f (tileY V c ⟨t.val, lt_of_lt_of_le t.isLt lastLt⟩ (ix2 r q))
      = ∑ r : Fin 50000, f (y1 (H V c) (NB V c) (SC V c) (Wt V c) (Bs V c) (ix2 r q)) := by
  rw [Cert.FinSum.sum_mul 10 5000 50000 rfl]
  refine Finset.sum_congr rfl fun t _ => Finset.sum_congr rfl fun r _ => ?_
  have hp : t.val * 5000 + r.val < 50000 := by have := t.isLt; have := r.isLt; omega
  rw [tile_apply V c ⟨t.val, _⟩ r q hp]
  rfl

/-- The second output array at a column: the sum of `y₁` down the column (from zero). -/
theorem sum_apply (c : Dev nD) (q : Fin 128) :
    (dat5 V c).arrAt 6 cfg5.N (ix2 (0 : Fin 1) q)
      = Ideal.ofBits .f32 0x00000000#32 + ∑ r : Fin 50000, y1 (H V c) (NB V c) (SC V c) (Wt V c) (Bs V c) (ix2 r q) := by
  rw [final6]
  show acc6 V c 9 lastLt (ix2 (0 : Fin 1) q) = _
  rw [acc6_apply V c q 9 lastLt]
  exact congrArg (_ + ·) (tiles_sum V c id q)

/-- The third output array at a column: the sum of the squares of `y₁` down the column (from zero). -/
theorem sumsq_apply (c : Dev nD) (q : Fin 128) :
    (dat5 V c).arrAt 7 cfg5.N (ix2 (0 : Fin 1) q)
      = Ideal.ofBits .f32 0x00000000#32
        + ∑ r : Fin 50000, y1 (H V c) (NB V c) (SC V c) (Wt V c) (Bs V c) (ix2 r q) * y1 (H V c) (NB V c) (SC V c) (Wt V c) (Bs V c) (ix2 r q) := by
  rw [final7]
  show acc7 V c 9 lastLt (ix2 (0 : Fin 1) q) = _
  rw [acc7_apply V c q 9 lastLt]
  exact congrArg (_ + ·) (tiles_sum V c (fun x => x * x) q)

end Final

end Cert.KernelIdeal.KStageAVal_L1

end
-- ==== Proof.KStageBVal_L1.lean ====
/-
  The second stage's region, read as values.  At each of the ten grid points the body writes the point's tile of
  `y₂` and updates two one-row accumulators: at the first point they are reset to zero before the tile's column sums
  (and column sums of squares) are added, at the later points the sums are added to what the point before left.
-/
import proofs.«140776_j80633716015159_1_alg».proof.Proof.Gen.KernelIdeal.Frame
import proofs.«140776_j80633716015159_1_alg».proof.Proof.KStageB
import proofs.«140776_j80633716015159_1_alg».proof.Proof.KStageCD
import proofs.«140776_j80633716015159_1_alg».proof.Proof.LibFinSum
import Idealize.ShloMosaic.Lib.Pipeline.Value
import Idealize.ShloMosaic.Lib.Tactic

set_option maxRecDepth 16384

noncomputable section

namespace Cert.KernelIdeal.KStageBVal_L1

open Cert.KernelIdeal Cert.KernelIdeal.Gen
open Idealize.ShloMosaic Idealize.ShloMosaic.TcCoe Idealize.ShloMosaic.ValueIdx Idealize.SL.Sem
open Idealize.ShloMosaic.Pipeline (Dat Cfg Window)

/-- The tile of `y₂` at an entry. -/
theorem pay5_apply (v3 : Vec Ideal S5000x128 .f32) (v5 v10 v12 v20 : Vec Ideal S1x128 .f32) (v27 : Vec Ideal S128x128 .f32)
    (v31 : Vec Ideal S1x128 .f32) (p : Fin 5000) (q : Fin 128) :
    k6_pay5 v3 v5 v10 v12 v20 v27 v31 (ix2 p q)
      = (∑ k : Fin 128, KStageB.bnrelu (v5 (ix2 (0 : Fin 1) k)) (v10 (ix2 (0 : Fin 1) k)) (v12 (ix2 (0 : Fin 1) k))
            (v20 (ix2 (0 : Fin 1) k)) (v3 (ix2 p k)) * v27 (ix2 k q))
        + v31 (ix2 (0 : Fin 1) q) :=
  KStageB.pay5_apply v3 v5 v10 v12 v20 v27 v31 p q

/-- The running column sums after the point, at a column. -/
theorem pay1_apply (v34 : FVec Ideal S5000x128 .f32) (v36 : Vec Ideal S1x128 .f32) (q : Fin 128) :
    k6_pay1 v34 v36 (ix2 (0 : Fin 1) q) = v36 (ix2 (0 : Fin 1) q) + ∑ r : Fin 5000, v34 (ix2 r q) :=
  KStageB.pay1_apply v34 v36 q

/-- The running column sums of squares after the point, at a column. -/
theorem pay2_apply (v34 : FVec Ideal S5000x128 .f32) (v42 : Vec Ideal S1x128 .f32) (q : Fin 128) :
    k6_pay2 v34 v42 (ix2 (0 : Fin 1) q) = v42 (ix2 (0 : Fin 1) q) + ∑ r : Fin 5000, v34 (ix2 r q) * v34 (ix2 r q) :=
  KStageB.pay2_apply v34 v42 q

variable {F : FTy → Type} [FloatOps F]

theorem hz : (![0, 0] : Fin 2 → Nat) = fun _ => 0 := funext fun a => by fin_cases a <;> rfl

/-- The zero row the reset stores. -/
abbrev zrow : Vec F S1x128 .f32 := broadcast S1x128 (Scalar.ofBits .f32 0x00000000#32)

/-- First point, the tile of `y₂`. -/
theorem outA7 (c : Dev nD) (i : grid6.Coords) (a1 : Memref sig .tc .vmem S5000x128 .f32) (h1 : a1.IsWhole) (a2 : Memref sig .tc .vmem S1x128 .f32) (h2 : a2.IsWhole) (a3 : Memref sig .tc .vmem S1x128 .f32) (h3 : a3.IsWhole) (a4 : Memref sig .tc .vmem S1x128 .f32) (h4 : a4.IsWhole) (a5 : Memref sig .tc .vmem S1x128 .f32) (h5 : a5.IsWhole) (a6 : Memref sig .tc .vmem S128x128 .f32) (h6 : a6.IsWhole) (a7 : Memref sig .tc .vmem S1x128 .f32) (h7 : a7.IsWhole) (a8 : Memref sig .tc .vmem S5000x128 .f32) (h8 : a8.IsWhole) (a9 : Memref sig .tc .vmem S1x128 .f32) (h9 : a9.IsWhole) (a10 : Memref sig .tc .vmem S1x128 .f32) (h10 : a10.IsWhole) (hc : cond6_0 i) (x0 : Vec F S5000x128 .f32) (x1 x2 x3 x4 : Vec F S1x128 .f32) (x5 : Vec F S128x128 .f32) (x6 : Vec F S1x128 .f32) :
    out6_A_7 c i a1 h1 a2 h2 a3 h3 a4 h4 a5 h5 a6 h6 a7 h7 a8 h8 a9 h9 a10 h10 hc x0 x1 x2 x3 x4 x5 x6 = k6_pay5 x0 x2 x3 x1 x4 x5 x6 := by
  unfold out6_A_7
  rw [View.read_writes_eq_canon _ _ _ (cover6_A_7 c i a1 h1 a2 h2 a3 h3 a4 h4 a5 h5 a6 h6 a7 h7 a8 h8 a9 h9 a10 h10 hc x0 x1 x2 x3 x4 x5 x6)]
  unfold kernelRun6_A
  dsimp only
  sl_unfold_words
  rw [View.canon_unit_zero hz]
  simp only [View.readAt_eq_ld, h1.read_unread, h2.read_unread, h3.read_unread, h4.read_unread, h5.read_unread, h6.read_unread, h7.read_unread, h9.read_unread, h10.read_unread, View.ld_unit_zero (S := S5000x128) hz, View.ld_unit_zero (S := S128x128) hz, View.ld_unit_zero (S := S1x128) hz]

theorem outA8 (c : Dev nD) (i : grid6.Coords) (a1 : Memref sig .tc .vmem S5000x128 .f32) (h1 : a1.IsWhole) (a2 : Memref sig .tc .vmem S1x128 .f32) (h2 : a2.IsWhole) (a3 : Memref sig .tc .vmem S1x128 .f32) (h3 : a3.IsWhole) (a4 : Memref sig .tc .vmem S1x128 .f32) (h4 : a4.IsWhole) (a5 : Memref sig .tc .vmem S1x128 .f32) (h5 : a5.IsWhole) (a6 : Memref sig .tc .vmem S128x128 .f32) (h6 : a6.IsWhole) (a7 : Memref sig .tc .vmem S1x128 .f32) (h7 : a7.IsWhole) (a8 : Memref sig .tc .vmem S5000x128 .f32) (h8 : a8.IsWhole) (a9 : Memref sig .tc .vmem S1x128 .f32) (h9 : a9.IsWhole) (a10 : Memref sig .tc .vmem S1x128 .f32) (h10 : a10.IsWhole) (hc : cond6_0 i) (x0 : Vec F S5000x128 .f32) (x1 x2 x3 x4 : Vec F S1x128 .f32) (x5 : Vec F S128x128 .f32) (x6 : Vec F S1x128 .f32) :
    out6_A_8 c i a1 h1 a2 h2 a3 h3 a4 h4 a5 h5 a6 h6 a7 h7 a8 h8 a9 h9 a10 h10 hc x0 x1 x2 x3 x4 x5 x6 = k6_pay1 (k6_pay5 x0 x2 x3 x1 x4 x5 x6) zrow := by
  unfold out6_A_8
  rw [View.read_writes_eq_canon _ _ _ (cover6_A_8 c i a1 h1 a2 h2 a3 h3 a4 h4 a5 h5 a6 h6 a7 h7 a8 h8 a9 h9 a10 h10 hc x0 x1 x2 x3 x4 x5 x6)]
  unfold kernelRun6_A
  dsimp only
  sl_unfold_words
  rw [View.canon_cons_unit_zero (S := S1x128) hz, View.readCov_unit_zero (S := S1x128) _ hz]
  simp only [View.readAt_eq_ld, h1.read_unread, h2.read_unread, h3.read_unread, h4.read_unread, h5.read_unread, h6.read_unread, h7.read_unread, h9.read_unread, h10.read_unread, View.ld_unit_zero (S := S5000x128) hz, View.ld_unit_zero (S := S128x128) hz, View.ld_unit_zero (S := S1x128) hz]
  rfl

theorem outA9 (c : Dev nD) (i : grid6.Coords) (a1 : Memref sig .tc .vmem S5000x128 .f32) (h1 : a1.IsWhole) (a2 : Memref sig .tc .vmem S1x128 .f32) (h2 : a2.IsWhole) (a3 : Memref sig .tc .vmem S1x128 .f32) (h3 : a3.IsWhole) (a4 : Memref sig .tc .vmem S1x128 .f32) (h4 : a4.IsWhole) (a5 : Memref sig .tc .vmem S1x128 .f32) (h5 : a5.IsWhole) (a6 : Memref sig .tc .vmem S128x128 .f32) (h6 : a6.IsWhole) (a7 : Memref sig .tc .vmem S1x128 .f32) (h7 : a7.IsWhole) (a8 : Memref sig .tc .vmem S5000x128 .f32) (h8 : a8.IsWhole) (a9 : Memref sig .tc .vmem S1x128 .f32) (h9 : a9.IsWhole) (a10 : Memref sig .tc .vmem S1x128 .f32) (h10 : a10.IsWhole) (hc : cond6_0 i) (x0 : Vec F S5000x128 .f32) (x1 x2 x3 x4 : Vec F S1x128 .f32) (x5 : Vec F S128x128 .f32) (x6 : Vec F S1x128 .f32) :
    out6_A_9 c i a1 h1 a2 h2 a3 h3 a4 h4 a5 h5 a6 h6 a7 h7 a8 h8 a9 h9 a10 h10 hc x0 x1 x2 x3 x4 x5 x6 = k6_pay2 (k6_pay5 x0 x2 x3 x1 x4 x5 x6) zrow := by
  unfold out6_A_9
  rw [View.read_writes_eq_canon _ _ _ (cover6_A_9 c i a1 h1 a2 h2 a3 h3 a4 h4 a5 h5 a6 h6 a7 h7 a8 h8 a9 h9 a10 h10 hc x0 x1 x2 x3 x4 x5 x6)]
  unfold kernelRun6_A
  dsimp only
  sl_unfold_words
  rw [View.canon_cons_unit_zero (S := S1x128) hz, View.readCov_unit_zero (S := S1x128) _ hz]
  simp only [View.readAt_eq_ld, h1.read_unread, h2.read_unread, h3.read_unread, h4.read_unread, h5.read_unread, h6.read_unread, h7.read_unread, h9.read_unread, h10.read_unread, View.ld_unit_zero (S := S5000x128) hz, View.ld_unit_zero (S := S128x128) hz, View.ld_unit_zero (S := S1x128) hz]
  rfl

theorem outB7 (c : Dev nD) (i : grid6.Coords) (a1 : Memref sig .tc .vmem S5000x128 .f32) (h1 : a1.IsWhole) (a2 : Memref sig .tc .vmem S1x128 .f32) (h2 : a2.IsWhole) (a3 : Memref sig .tc .vmem S1x128 .f32) (h3 : a3.IsWhole) (a4 : Memref sig .tc .vmem S1x128 .f32) (h4 : a4.IsWhole) (a5 : Memref sig .tc .vmem S1x128 .f32) (h5 : a5.IsWhole) (a6 : Memref sig .tc .vmem S128x128 .f32) (h6 : a6.IsWhole) (a7 : Memref sig .tc .vmem S1x128 .f32) (h7 : a7.IsWhole) (a8 : Memref sig .tc .vmem S5000x128 .f32) (h8 : a8.IsWhole) (a9 : Memref sig .tc .vmem S1x128 .f32) (h9 : a9.IsWhole) (a10 : Memref sig .tc .vmem S1x128 .f32) (h10 : a10.IsWhole) (hc : ¬cond6_0 i) (x0 : Vec F S5000x128 .f32) (x1 x2 x3 x4 : Vec F S1x128 .f32) (x5 : Vec F S128x128 .f32) (x6 : Vec F S1x128 .f32) (s8 s9 : Vec F S1x128 .f32) :
    out6_B_7 c i a1 h1 a2 h2 a3 h3 a4 h4 a5 h5 a6 h6 a7 h7 a8 h8 a9 h9 a10 h10 hc x0 x1 x2 x3 x4 x5 x6 s8 s9 = k6_pay5 x0 x2 x3 x1 x4 x5 x6 := by
  unfold out6_B_7
  rw [View.read_writes_eq_canon _ _ _ (cover6_B_7 c i a1 h1 a2 h2 a3 h3 a4 h4 a5 h5 a6 h6 a7 h7 a8 h8 a9 h9 a10 h10 hc x0 x1 x2 x3 x4 x5 x6 s8 s9)]
  unfold kernelRun6_B
  dsimp only
  sl_unfold_words
  rw [View.canon_unit_zero hz]
  simp only [View.readAt_eq_ld, h1.read_unread, h2.read_unread, h3.read_unread, h4.read_unread, h5.read_unread, h6.read_unread, h7.read_unread, h9.read_unread, h10.read_unread, View.ld_unit_zero (S := S5000x128) hz, View.ld_unit_zero (S := S128x128) hz, View.ld_unit_zero (S := S1x128) hz]

theorem outB8 (c : Dev nD) (i : grid6.Coords) (a1 : Memref sig .tc .vmem S5000x128 .f32) (h1 : a1.IsWhole) (a2 : Memref sig .tc .vmem S1x128 .f32) (h2 : a2.IsWhole) (a3 : Memref sig .tc .vmem S1x128 .f32) (h3 : a3.IsWhole) (a4 : Memref sig .tc .vmem S1x128 .f32) (h4 : a4.IsWhole) (a5 : Memref sig .tc .vmem S1x128 .f32) (h5 : a5.IsWhole) (a6 : Memref sig .tc .vmem S128x128 .f32) (h6 : a6.IsWhole) (a7 : Memref sig .tc .vmem S1x128 .f32) (h7 : a7.IsWhole) (a8 : Memref sig .tc .vmem S5000x128 .f32) (h8 : a8.IsWhole) (a9 : Memref sig .tc .vmem S1x128 .f32) (h9 : a9.IsWhole) (a10 : Memref sig .tc .vmem S1x128 .f32) (h10 : a10.IsWhole) (hc : ¬cond6_0 i) (x0 : Vec F S5000x128 .f32) (x1 x2 x3 x4 : Vec F S1x128 .f32) (x5 : Vec F S128x128 .f32) (x6 : Vec F S1x128 .f32) (s8 s9 : Vec F S1x128 .f32) :
    out6_B_8 c i a1 h1 a2 h2 a3 h3 a4 h4 a5 h5 a6 h6 a7 h7 a8 h8 a9 h9 a10 h10 hc x0 x1 x2 x3 x4 x5 x6 s8 s9 = k6_pay1 (k6_pay5 x0 x2 x3 x1 x4 x5 x6) s8 := by
  unfold out6_B_8
  rw [View.read_writes_eq_canon _ _ _ (cover6_B_8 c i a1 h1 a2 h2 a3 h3 a4 h4 a5 h5 a6 h6 a7 h7 a8 h8 a9 h9 a10 h10 hc x0 x1 x2 x3 x4 x5 x6 s8 s9)]
  unfold kernelRun6_B
  dsimp only
  sl_unfold_words
  rw [View.canon_unit_zero hz]
  simp only [View.readAt_eq_ld, h1.read_unread, h2.read_unread, h3.read_unread, h4.read_unread, h5.read_unread, h6.read_unread, h7.read_unread, h9.read_unread, h10.read_unread, View.ld_unit_zero (S := S5000x128) hz, View.ld_unit_zero (S := S128x128) hz, View.ld_unit_zero (S := S1x128) hz]

theorem outB9 (c : Dev nD) (i : grid6.Coords) (a1 : Memref sig .tc .vmem S5000x128 .f32) (h1 : a1.IsWhole) (a2 : Memref sig .tc .vmem S1x128 .f32) (h2 : a2.IsWhole) (a3 : Memref sig .tc .vmem S1x128 .f32) (h3 : a3.IsWhole) (a4 : Memref sig .tc .vmem S1x128 .f32) (h4 : a4.IsWhole) (a5 : Memref sig .tc .vmem S1x128 .f32) (h5 : a5.IsWhole) (a6 : Memref sig .tc .vmem S128x128 .f32) (h6 : a6.IsWhole) (a7 : Memref sig .tc .vmem S1x128 .f32) (h7 : a7.IsWhole) (a8 : Memref sig .tc .vmem S5000x128 .f32) (h8 : a8.IsWhole) (a9 : Memref sig .tc .vmem S1x128 .f32) (h9 : a9.IsWhole) (a10 : Memref sig .tc .vmem S1x128 .f32) (h10 : a10.IsWhole) (hc : ¬cond6_0 i) (x0 : Vec F S5000x128 .f32) (x1 x2 x3 x4 : Vec F S1x128 .f32) (x5 : Vec F S128x128 .f32) (x6 : Vec F S1x128 .f32) (s8 s9 : Vec F S1x128 .f32) :
    out6_B_9 c i a1 h1 a2 h2 a3 h3 a4 h4 a5 h5 a6 h6 a7 h7 a8 h8 a9 h9 a10 h10 hc x0 x1 x2 x3 x4 x5 x6 s8 s9 = k6_pay2 (k6_pay5 x0 x2 x3 x1 x4 x5 x6) s9 := by
  unfold out6_B_9
  rw [View.read_writes_eq_canon _ _ _ (cover6_B_9 c i a1 h1 a2 h2 a3 h3 a4 h4 a5 h5 a6 h6 a7 h7 a8 h8 a9 h9 a10 h10 hc x0 x1 x2 x3 x4 x5 x6 s8 s9)]
  unfold kernelRun6_B
  dsimp only
  sl_unfold_words
  rw [View.canon_unit_zero hz]
  simp only [View.readAt_eq_ld, h1.read_unread, h2.read_unread, h3.read_unread, h4.read_unread, h5.read_unread, h6.read_unread, h7.read_unread, h9.read_unread, h10.read_unread, View.ld_unit_zero (S := S5000x128) hz, View.ld_unit_zero (S := S128x128) hz, View.ld_unit_zero (S := S1x128) hz]

/-! ## The outputs after each point -/

variable (V : (c : Dev nD) → (b : Ref sig .tc) → Buf (Elt F) ((c : Thread nD τ).loc b))

/-- The point's tile of `y₂`. -/
def tileY (c : Dev nD) (t : Fin cfg6.N) : Vec F S5000x128 .f32 := k6_pay5 (iblk6 V c 0 t) (iblk6 V c 2 t) (iblk6 V c 3 t) (iblk6 V c 1 t) (iblk6 V c 4 t) (iblk6 V c 5 t) (iblk6 V c 6 t)

/-- The running column sums after point `n`. -/
def acc8 (c : Dev nD) : (n : ℕ) → n < cfg6.N → Vec F S1x128 .f32
  | 0, h => k6_pay1 (tileY V c ⟨0, h⟩) zrow
  | n + 1, h => k6_pay1 (tileY V c ⟨n + 1, h⟩) (acc8 c n (Nat.lt_of_succ_lt h))

/-- The running column sums of squares after point `n`. -/
def acc9 (c : Dev nD) : (n : ℕ) → n < cfg6.N → Vec F S1x128 .f32
  | 0, h => k6_pay2 (tileY V c ⟨0, h⟩) zrow
  | n + 1, h => k6_pay2 (tileY V c ⟨n + 1, h⟩) (acc9 c n (Nat.lt_of_succ_lt h))

/-- What the three outputs' staging buffers hold after point `n`: the tile and the two running sums. -/
theorem outsAt_eq (c : Dev nD) : ∀ (n : ℕ) (h : n < cfg6.N), outsAt6 V c n h = (tileY V c ⟨n, h⟩, acc8 V c n h, acc9 V c n h)
  | 0, h => (outsAt6_A V c ⟨0, h⟩ rfl).trans (by rw [outA7, outA8, outA9]; rfl)
  | n + 1, h => by
    have hN : grid6.N = 10 := N_6
    have hB : ¬(⟨n + 1, h⟩ : Fin cfg6.N).val % 10 = 0 := by
      have : n + 1 < 10 := by have := h; rw [show cfg6.N = grid6.N from rfl, hN] at this; exact this
      dsimp only; omega
    rw [outsAt6_B V c ⟨n + 1, h⟩ hB, outB7, outB8, outB9]
    show (_, k6_pay1 _ (outsAt6 V c n _).2.1, k6_pay2 _ (outsAt6 V c n _).2.2) = _
    rw [outsAt_eq c n]
    rfl

/-! ## At the exact reading: the accumulators are sums, the tiles an array -/

section Exact

variable (V : (c : Dev nD) → (b : Ref sig .tc) → Buf (Elt Ideal) ((c : Thread nD τ).loc b))

theorem acc8_apply (c : Dev nD) (q : Fin 128) : ∀ (n : ℕ) (h : n < cfg6.N),
    acc8 V c n h (ix2 (0 : Fin 1) q)
      = Ideal.ofBits .f32 0x00000000#32
        + ∑ t : Fin (n + 1), ∑ r : Fin 5000, tileY V c ⟨t.val, lt_of_lt_of_le t.isLt h⟩ (ix2 r q) :=
  Cert.FinSum.sum_of_steps cfg6.N (fun n h => acc8 V c n h (ix2 (0 : Fin 1) q))
    (fun t => ∑ r : Fin 5000, tileY V c t (ix2 r q)) (Ideal.ofBits .f32 0x00000000#32)
    (fun h => pay1_apply _ _ q)
    (fun n h => pay1_apply _ _ q)

theorem acc9_apply (c : Dev nD) (q : Fin 128) : ∀ (n : ℕ) (h : n < cfg6.N),
    acc9 V c n h (ix2 (0 : Fin 1) q)
      = Ideal.ofBits .f32 0x00000000#32
        + ∑ t : Fin (n + 1), ∑ r : Fin 5000,
            tileY V c ⟨t.val, lt_of_lt_of_le t.isLt h⟩ (ix2 r q) * tileY V c ⟨t.val, lt_of_lt_of_le t.isLt h⟩ (ix2 r q) :=
  Cert.FinSum.sum_of_steps cfg6.N (fun n h => acc9 V c n h (ix2 (0 : Fin 1) q))
    (fun t => ∑ r : Fin 5000, tileY V c t (ix2 r q) * tileY V c t (ix2 r q)) (Ideal.ofBits .f32 0x00000000#32)
    (fun h => pay2_apply _ _ q)
    (fun n h => pay2_apply _ _ q)

end Exact

/-! ## The arrays after the region -/

/-- One entry of `y₂ = relu(γ·(y₁ − μ)·rsqrt(v + ε) + β) · w + b`. -/
def y2At (y1 : (⟨2, ![50000, 128]⟩ : Shape).Idx → EReal) (m vr g be : (⟨2, ![1, 128]⟩ : Shape).Idx → EReal)
    (w : (⟨2, ![128, 128]⟩ : Shape).Idx → EReal) (b : (⟨2, ![1, 128]⟩ : Shape).Idx → EReal) (p : Fin 50000) (q : Fin 128) : EReal :=
  (∑ k : Fin 128, KStageB.bnrelu (vr (ix2 (0 : Fin 1) k)) (g (ix2 (0 : Fin 1) k)) (m (ix2 (0 : Fin 1) k)) (be (ix2 (0 : Fin 1) k))
      (y1 (ix2 p k)) * w (ix2 k q)) + b (ix2 (0 : Fin 1) q)

/-- `y₂` as an array. -/
def y2 (y1 : (⟨2, ![50000, 128]⟩ : Shape).Idx → EReal) (m vr g be : (⟨2, ![1, 128]⟩ : Shape).Idx → EReal)
    (w : (⟨2, ![128, 128]⟩ : Shape).Idx → EReal) (b : (⟨2, ![1, 128]⟩ : Shape).Idx → EReal) :
    (⟨2, ![50000, 128]⟩ : Shape).Idx → EReal :=
  fun i => y2At y1 m vr g be w b ⟨(i 0).val, idx2_lt0 i⟩ ⟨(i 1).val, idx2_lt1 i⟩

section Arrays

variable (V : (c : Dev nD) → (b : Ref sig .tc) → Buf (Elt Ideal) ((c : Thread nD τ).loc b))

/-- The arrays the region finds: the first stage's output, the column means and variances, the scale and shift rows,
    the weight matrix and the bias row. -/
abbrev Y1 (c : Dev nD) : S50000x128.Idx → EReal := V c (Pipeline.arrRef spec6 0)
abbrev M (c : Dev nD) : S1x128.Idx → EReal := V c (Pipeline.arrRef spec6 1)
abbrev Vr (c : Dev nD) : S1x128.Idx → EReal := V c (Pipeline.arrRef spec6 2)
abbrev G (c : Dev nD) : S1x128.Idx → EReal := V c (Pipeline.arrRef spec6 3)
abbrev Be (c : Dev nD) : S1x128.Idx → EReal := V c (Pipeline.arrRef spec6 4)
abbrev Wt (c : Dev nD) : S128x128.Idx → EReal := V c (Pipeline.arrRef spec6 5)
abbrev Bs (c : Dev nD) : S1x128.Idx → EReal := V c (Pipeline.arrRef spec6 6)

/-- The printed index maps over the ten points: the input tile and the output tile move down the rows with the
    point; the four statistics rows, the weight matrix and the bias row are block (0, 0). -/
theorem idx_facts : ∀ t : Fin cfg6.N,
    win6_0.index t (0 : Fin 2) = t.val ∧ win6_0.index t (1 : Fin 2) = 0
    ∧ win6_1.index t (0 : Fin 2) = 0 ∧ win6_1.index t (1 : Fin 2) = 0
    ∧ win6_2.index t (0 : Fin 2) = 0 ∧ win6_2.index t (1 : Fin 2) = 0
    ∧ win6_3.index t (0 : Fin 2) = 0 ∧ win6_3.index t (1 : Fin 2) = 0
    ∧ win6_4.index t (0 : Fin 2) = 0 ∧ win6_4.index t (1 : Fin 2) = 0
    ∧ win6_5.index t (0 : Fin 2) = 0 ∧ win6_5.index t (1 : Fin 2) = 0
    ∧ win6_6.index t (0 : Fin 2) = 0 ∧ win6_6.index t (1 : Fin 2) = 0
    ∧ win6_7.index t (0 : Fin 2) = t.val ∧ win6_7.index t (1 : Fin 2) = 0 :=
  (by decide +kernel : ∀ t : Fin grid6.N, _)

theorem iblk_y1 (c : Dev nD) (t : Fin cfg6.N) (p : Fin 5000) (k : Fin 128) (hp : t.val * 5000 + p.val < 50000) :
    (iblk6 V c 0 t : Vec Ideal S5000x128 .f32) (ix2 p k) = Y1 V c (ix2 ⟨t.val * 5000 + p.val, hp⟩ k) := by
  obtain ⟨e0, e1, -⟩ := idx_facts t
  unfold iblk6
  rw [View.read_apply]
  refine congrArg (V c (Pipeline.arrRef spec6 0)) (funext fun a => Fin.ext ?_)
  match a with
  | ⟨0, _⟩ => show win6_0.index t 0 * 5000 + 1 * p.val = t.val * 5000 + p.val; rw [e0]; omega
  | ⟨1, _⟩ => show win6_0.index t 1 * 128 + 1 * k.val = k.val; rw [e1]; omega

theorem iblk_m (c : Dev nD) (t : Fin cfg6.N) : (iblk6 V c 1 t : Vec Ideal S1x128 .f32) = M V c := by
  obtain ⟨-, -, e0, e1, -⟩ := idx_facts t
  funext y
  unfold iblk6
  rw [View.read_apply]
  refine congrArg (V c (Pipeline.arrRef spec6 1)) (funext fun a => Fin.ext ?_)
  match a with
  | ⟨0, _⟩ => show win6_1.index t 0 * 1 + 1 * (y 0).val = (y 0).val; rw [e0]; omega
  | ⟨1, _⟩ => show win6_1.index t 1 * 128 + 1 * (y 1).val = (y 1).val; rw [e1]; omega

theorem iblk_vr (c : Dev nD) (t : Fin cfg6.N) : (iblk6 V c 2 t : Vec Ideal S1x128 .f32) = Vr V c := by
  obtain ⟨-, -, -, -, e0, e1, -⟩ := idx_facts t
  funext y
  unfold iblk6
  rw [View.read_apply]
  refine congrArg (V c (Pipeline.arrRef spec6 2)) (funext fun a => Fin.ext ?_)
  match a with
  | ⟨0, _⟩ => show win6_2.index t 0 * 1 + 1 * (y 0).val = (y 0).val; rw [e0]; omega
  | ⟨1, _⟩ => show win6_2.index t 1 * 128 + 1 * (y 1).val = (y 1).val; rw [e1]; omega

theorem iblk_g (c : Dev nD) (t : Fin cfg6.N) : (iblk6 V c 3 t : Vec Ideal S1x128 .f32) = G V c := by
  obtain ⟨-, -, -, -, -, -, e0, e1, -⟩ := idx_facts t
  funext y
  unfold iblk6
  rw [View.read_apply]
  refine congrArg (V c (Pipeline.arrRef spec6 3)) (funext fun a => Fin.ext ?_)
  match a with
  | ⟨0, _⟩ => show win6_3.index t 0 * 1 + 1 * (y 0).val = (y 0).val; rw [e0]; omega
  | ⟨1, _⟩ => show win6_3.index t 1 * 128 + 1 * (y 1).val = (y 1).val; rw [e1]; omega

theorem iblk_be (c : Dev nD) (t : Fin cfg6.N) : (iblk6 V c 4 t : Vec Ideal S1x128 .f32) = Be V c := by
  obtain ⟨-, -, -, -, -, -, -, -, e0, e1, -⟩ := idx_facts t
  funext y
  unfold iblk6
  rw [View.read_apply]
  refine congrArg (V c (Pipeline.arrRef spec6 4)) (funext fun a => Fin.ext ?_)
  match a with
  | ⟨0, _⟩ => show win6_4.index t 0 * 1 + 1 * (y 0).val = (y 0).val; rw [e0]; omega
  | ⟨1, _⟩ => show win6_4.index t 1 * 128 + 1 * (y 1).val = (y 1).val; rw [e1]; omega

theorem iblk_w (c : Dev nD) (t : Fin cfg6.N) : (iblk6 V c 5 t : Vec Ideal S128x128 .f32) = Wt V c := by
  obtain ⟨-, -, -, -, -, -, -, -, -, -, e0, e1, -⟩ := idx_facts t
  funext y
  unfold iblk6
  rw [View.read_apply]
  refine congrArg (V c (Pipeline.arrRef spec6 5)) (funext fun a => Fin.ext ?_)
  match a with
  | ⟨0, _⟩ => show win6_5.index t 0 * 128 + 1 * (y 0).val = (y 0).val; rw [e0]; omega
  | ⟨1, _⟩ => show win6_5.index t 1 * 128 + 1 * (y 1).val = (y 1).val; rw [e1]; omega

theorem iblk_b (c : Dev nD) (t : Fin cfg6.N) : (iblk6 V c 6 t : Vec Ideal S1x128 .f32) = Bs V c := by
  obtain ⟨-, -, -, -, -, -, -, -, -, -, -, -, e0, e1, -⟩ := idx_facts t
  funext y
  unfold iblk6
  rw [View.read_apply]
  refine congrArg (V c (Pipeline.arrRef spec6 6)) (funext fun a => Fin.ext ?_)
  match a with
  | ⟨0, _⟩ => show win6_6.index t 0 * 1 + 1 * (y 0).val = (y 0).val; rw [e0]; omega
  | ⟨1, _⟩ => show win6_6.index t 1 * 128 + 1 * (y 1).val = (y 1).val; rw [e1]; omega

/-- The tile at point `t`, entry `(p, q)`, is `y₂` at row `5000·t + p`. -/
theorem tile_apply (c : Dev nD) (t : Fin cfg6.N) (p : Fin 5000) (q : Fin 128) (hp : t.val * 5000 + p.val < 50000) :
    tileY V c t (ix2 p q) = y2At (Y1 V c) (M V c) (Vr V c) (G V c) (Be V c) (Wt V c) (Bs V c) ⟨t.val * 5000 + p.val, hp⟩ q := by
  unfold tileY y2At
  rw [pay5_apply, iblk_m, iblk_vr, iblk_g, iblk_be, iblk_w, iblk_b]
  refine congrArg (· + _) (Finset.sum_congr rfl fun k _ => ?_)
  rw [iblk_y1 V c t p k hp]

end Arrays

section Final

variable (V : (c : Dev nD) → (b : Ref sig .tc) → Buf (Elt Ideal) ((c : Thread nD τ).loc b))

/-- An entry of the tile at point `t` is the entry of `y₂` at row `5000·t + ` the tile's row. -/
theorem point7 (c : Dev nD) (t : Fin cfg6.N) (j : S5000x128.Idx) (i : S50000x128.Idx)
    (hi0 : (i 0).val = t.val * 5000 + (j 0).val) (hi1 : (i 1).val = (j 1).val) :
    tileY V c t j = y2 (Y1 V c) (M V c) (Vr V c) (G V c) (Be V c) (Wt V c) (Bs V c) i := by
  obtain ⟨p, q, rfl⟩ : ∃ (p : Fin 5000) (q : Fin 128), j = ix2 p q := ⟨j 0, j 1, eq_ix2 j⟩
  have ht : t.val < 10 := lt_of_lt_of_eq t.isLt (show cfg6.N = 10 from N_6)
  have hp : t.val * 5000 + p.val < 50000 := by have := p.isLt; omega
  rw [tile_apply V c t p q hp]
  unfold y2
  congr 1
  · exact Fin.ext hi0.symm
  · exact Fin.ext hi1.symm

/-- What point `t` writes back of `y₂` is tile `t` of the array `y₂`. -/
theorem flushed7_eq (c : Dev nD) (t : Fin cfg6.N) :
    (dat6 V c).flushed 7 t
      = ((cfg6.win 7).blk t).view.read (Elt Ideal) (y2 (Y1 V c) (M V c) (Vr V c) (G V c) (Be V c) (Wt V c) (Bs V c)) := by
  show (cfg6.win 7).cut (grid6.coords t) ((dat6 V c).after 7 t) = _
  rw [after6_7, outsAt_eq]
  obtain ⟨-, -, -, -, -, -, -, -, -, -, -, -, -, -, e0, e1⟩ := idx_facts t
  funext j
  rw [View.read_apply]
  refine point7 V c t j _ ?_ ?_
  · show win6_7.index t 0 * 5000 + 1 * (j 0).val = t.val * 5000 + (j 0).val
    rw [e0]; omega
  · show win6_7.index t 1 * 128 + 1 * (j 1).val = (j 1).val
    rw [e1]; omega

theorem mem_blk7 (t : Fin cfg6.N) (i : S50000x128.Idx) :
    i ∈ ((cfg6.win 7).blk t).view.set ↔ ∀ a : Fin 2, win6_7.index t a * S5000x128.size a ≤ (i a).val
      ∧ (i a).val < win6_7.index t a * S5000x128.size a + S5000x128.size a := by
  show i ∈ ((View.whole main_v103_0).slice (win6_7.rect t)).set ↔ _
  rw [View.set_slice_whole, Rect.mem_set_unit]
  exact Iff.rfl

theorem cover7 (i : S50000x128.Idx) :
    ∃ t : Fin cfg6.N, (cfg6.win 7).flush t = true ∧ i ∈ ((cfg6.win 7).blk t).view.set := by
  have hi0 : (i 0).val < 50000 := idx2_lt0 i
  have hi1 : (i 1).val < 128 := idx2_lt1 i
  have hN : grid6.N = 10 := N_6
  have ht : (i 0).val / 5000 < cfg6.N := by show _ < grid6.N; rw [hN]; omega
  obtain ⟨-, -, -, -, -, -, -, -, -, -, -, -, -, -, e0, e1⟩ := idx_facts ⟨(i 0).val / 5000, ht⟩
  refine ⟨⟨(i 0).val / 5000, ht⟩, flush6_7 _, ?_⟩
  rw [mem_blk7]
  intro a
  match a with
  | ⟨0, _⟩ =>
    show win6_7.index ⟨(i 0).val / 5000, ht⟩ 0 * 5000 ≤ (i 0).val ∧ (i 0).val < win6_7.index ⟨(i 0).val / 5000, ht⟩ 0 * 5000 + 5000
    rw [e0]; show (i 0).val / 5000 * 5000 ≤ (i 0).val ∧ (i 0).val < (i 0).val / 5000 * 5000 + 5000; omega
  | ⟨1, _⟩ =>
    show win6_7.index ⟨(i 0).val / 5000, ht⟩ 1 * 128 ≤ (i 1).val ∧ (i 1).val < win6_7.index ⟨(i 0).val / 5000, ht⟩ 1 * 128 + 128
    rw [e1]; omega

/-- After the region the first output array is `y₂` of the arrays the region finds. -/
theorem final7 (c : Dev nD) : (dat6 V c).arrAt 7 cfg6.N = y2 (Y1 V c) (M V c) (Vr V c) (G V c) (Be V c) (Wt V c) (Bs V c) :=
  (dat6 V c).arrAt_eq_of_cover 7 _ (fun t _ => flushed7_eq V c t) cover7

theorem lastLt : 9 < cfg6.N := by show 9 < grid6.N; rw [N_6]; decide

/-- The accumulated column sums after the last point, as the contents of the second output array. -/
abbrev res8 (c : Dev nD) : Buf (Elt Ideal) ((c : Thread nD τ).loc main_v103_1) := acc8 V c 9 lastLt
/-- The accumulated column sums of squares after the last point, as the contents of the third output array. -/
abbrev res9 (c : Dev nD) : Buf (Elt Ideal) ((c : Thread nD τ).loc main_v103_2) := acc9 V c 9 lastLt

theorem flushed8_eq (c : Dev nD) (t : Fin cfg6.N) (hf : (cfg6.win 8).flush t = true) :
    (dat6 V c).flushed 8 t = ((cfg6.win 8).blk t).view.read (Elt Ideal) (res8 V c) := by
  have hN : grid6.N = 10 := N_6
  have h9 : t.val = 9 := by
    have := (flush6_8 t).mp hf; have h := lt_of_lt_of_eq t.isLt (show cfg6.N = 10 from N_6); omega
  obtain rfl : t = t6_9 := Fin.ext h9
  show (cfg6.win 8).cut (grid6.coords t6_9) ((dat6 V c).after 8 t6_9) = _
  rw [after6_8, outsAt_eq]
  have hz' : (fun a => win6_8.index t6_9 a * main_v103_1.ty.shape.size a) = fun _ => 0 := funext fun a => by fin_cases a <;> decide
  exact (Memref.read_access_unit_zero (Elt Ideal) main_v103_1 hz' (fun a => by rw [congrFun hz' a]; simp) (res8 V c)).symm

theorem flushed9_eq (c : Dev nD) (t : Fin cfg6.N) (hf : (cfg6.win 9).flush t = true) :
    (dat6 V c).flushed 9 t = ((cfg6.win 9).blk t).view.read (Elt Ideal) (res9 V c) := by
  have hN : grid6.N = 10 := N_6
  have h9 : t.val = 9 := by
    have := (flush6_9 t).mp hf; have h := lt_of_lt_of_eq t.isLt (show cfg6.N = 10 from N_6); omega
  obtain rfl : t = t6_9 := Fin.ext h9
  show (cfg6.win 9).cut (grid6.coords t6_9) ((dat6 V c).after 9 t6_9) = _
  rw [after6_9, outsAt_eq]
  have hz' : (fun a => win6_9.index t6_9 a * main_v103_2.ty.shape.size a) = fun _ => 0 := funext fun a => by fin_cases a <;> decide
  exact (Memref.read_access_unit_zero (Elt Ideal) main_v103_2 hz' (fun a => by rw [congrFun hz' a]; simp) (res9 V c)).symm

/-- The last point's write-back covers the one-row array. -/
theorem final8 (c : Dev nD) : (dat6 V c).arrAt 8 cfg6.N = res8 V c :=
  (dat6 V c).arrAt_eq_of_cover 8 (res8 V c) (flushed8_eq V c) fun i =>
    ⟨t6_9, (flush6_8 t6_9).mpr rfl, by
      show i ∈ ((View.whole main_v103_1).slice (win6_8.rect t6_9)).set
      rw [View.set_slice_whole, Rect.mem_set_unit]
      intro a
      have h0 : (i 0 : Nat) < 1 := (i 0).isLt
      have h1 : (i 1 : Nat) < 128 := (i 1).isLt
      match a with
      | ⟨0, _⟩ => show win6_8.index t6_9 0 * win6_8.size 0 ≤ (i 0 : Nat) ∧ (i 0 : Nat) < win6_8.index t6_9 0 * win6_8.size 0 + win6_8.xsize (grid6.coords t6_9) 0
                  rw [show win6_8.index t6_9 0 * win6_8.size 0 = 0 from by decide +kernel, show win6_8.xsize (grid6.coords t6_9) 0 = 1 from by decide +kernel]; omega
      | ⟨1, _⟩ => show win6_8.index t6_9 1 * win6_8.size 1 ≤ (i 1 : Nat) ∧ (i 1 : Nat) < win6_8.index t6_9 1 * win6_8.size 1 + win6_8.xsize (grid6.coords t6_9) 1
                  rw [show win6_8.index t6_9 1 * win6_8.size 1 = 0 from by decide +kernel, show win6_8.xsize (grid6.coords t6_9) 1 = 128 from by decide +kernel]; omega⟩

theorem final9 (c : Dev nD) : (dat6 V c).arrAt 9 cfg6.N = res9 V c :=
  (dat6 V c).arrAt_eq_of_cover 9 (res9 V c) (flushed9_eq V c) fun i =>
    ⟨t6_9, (flush6_9 t6_9).mpr rfl, by
      show i ∈ ((View.whole main_v103_2).slice (win6_9.rect t6_9)).set
      rw [View.set_slice_whole, Rect.mem_set_unit]
      intro a
      have h0 : (i 0 : Nat) < 1 := (i 0).isLt
      have h1 : (i 1 : Nat) < 128 := (i 1).isLt
      match a with
      | ⟨0, _⟩ => show win6_9.index t6_9 0 * win6_9.size 0 ≤ (i 0 : Nat) ∧ (i 0 : Nat) < win6_9.index t6_9 0 * win6_9.size 0 + win6_9.xsize (grid6.coords t6_9) 0
                  rw [show win6_9.index t6_9 0 * win6_9.size 0 = 0 from by decide +kernel, show win6_9.xsize (grid6.coords t6_9) 0 = 1 from by decide +kernel]; omega
      | ⟨1, _⟩ => show win6_9.index t6_9 1 * win6_9.size 1 ≤ (i 1 : Nat) ∧ (i 1 : Nat) < win6_9.index t6_9 1 * win6_9.size 1 + win6_9.xsize (grid6.coords t6_9) 1
                  rw [show win6_9.index t6_9 1 * win6_9.size 1 = 0 from by decide +kernel, show win6_9.xsize (grid6.coords t6_9) 1 = 128 from by decide +kernel]; omega⟩

/-- Summing the ten tiles' column sums is summing down all 50000 rows. -/
theorem tiles_sum (c : Dev nD) (f : EReal → EReal) (q : Fin 128) :
    ∑ t : Fin (9 + 1), ∑ r : Fin 5000, f (tileY V c ⟨t.val, lt_of_lt_of_le t.isLt lastLt⟩ (ix2 r q))
      = ∑ r : Fin 50000, f (y2 (Y1 V c) (M V c) (Vr V c) (G V c) (Be V c) (Wt V c) (Bs V c) (ix2 r q)) := by
  rw [Cert.FinSum.sum_mul 10 5000 50000 rfl]
  refine Finset.sum_congr rfl fun t _ => Finset.sum_congr rfl fun r _ => ?_
  have hp : t.val * 5000 + r.val < 50000 := by have := t.isLt; have := r.isLt; omega
  rw [tile_apply V c ⟨t.val, _⟩ r q hp]
  rfl

/-- The second output array at a column: the sum of `y₂` down the column (from zero). -/
theorem sum_apply (c : Dev nD) (q : Fin 128) :
    (dat6 V c).arrAt 8 cfg6.N (ix2 (0 : Fin 1) q)
      = Ideal.ofBits .f32 0x00000000#32 + ∑ r : Fin 50000, y2 (Y1 V c) (M V c) (Vr V c) (G V c) (Be V c) (Wt V c) (Bs V c) (ix2 r q) := by
  rw [final8]
  show acc8 V c 9 lastLt (ix2 (0 : Fin 1) q) = _
  rw [acc8_apply V c q 9 lastLt]
  exact congrArg (_ + ·) (tiles_sum V c id q)

/-- The third output array at a column: the sum of the squares of `y₂` down the column (from zero). -/
theorem sumsq_apply (c : Dev nD) (q : Fin 128) :
    (dat6 V c).arrAt 9 cfg6.N (ix2 (0 : Fin 1) q)
      = Ideal.ofBits .f32 0x00000000#32
        + ∑ r : Fin 50000, y2 (Y1 V c) (M V c) (Vr V c) (G V c) (Be V c) (Wt V c) (Bs V c) (ix2 r q) * y2 (Y1 V c) (M V c) (Vr V c) (G V c) (Be V c) (Wt V c) (Bs V c) (ix2 r q) := by
  rw [final9]
  show acc9 V c 9 lastLt (ix2 (0 : Fin 1) q) = _
  rw [acc9_apply V c q 9 lastLt]
  exact congrArg (_ + ·) (tiles_sum V c (fun x => x * x) q)

end Final

end Cert.KernelIdeal.KStageBVal_L1

end
-- ==== Proof.KStageCVal_L1.lean ====
/-
  The third stage's region, read as values.  At each of the ten grid points the body writes the point's tile of
  `c = relu(γ·(y₂ − μ)·rsqrt(v + ε) + β)` and updates two one-row accumulators: at the first point they are reset
  to zero before the tile's column sums (and column sums of squares) are added, at the later points the sums are added
  to what the point before left.
-/
import proofs.«140776_j80633716015159_1_alg».proof.Proof.Gen.KernelIdeal.Frame
import proofs.«140776_j80633716015159_1_alg».proof.Proof.KStageB
import proofs.«140776_j80633716015159_1_alg».proof.Proof.KStageCD
import proofs.«140776_j80633716015159_1_alg».proof.Proof.LibFinSum
import Idealize.ShloMosaic.Lib.Pipeline.Value
import Idealize.ShloMosaic.Lib.Tactic

set_option maxRecDepth 16384

noncomputable section

namespace Cert.KernelIdeal.KStageCVal_L1

open Cert.KernelIdeal Cert.KernelIdeal.Gen
open Idealize.ShloMosaic Idealize.ShloMosaic.TcCoe Idealize.ShloMosaic.ValueIdx Idealize.SL.Sem
open Idealize.ShloMosaic.Pipeline (Dat Cfg Window)

/-- The third stage's tile at an entry. -/
theorem pay4_apply (v3 : Vec Ideal S5000x128 .f32) (v5 v10 v12 v20 : Vec Ideal S1x128 .f32) (p : Fin 5000) (q : Fin 128) :
    k7_pay4 v3 v5 v10 v12 v20 (ix2 p q)
      = KStageB.bnrelu (v5 (ix2 (0 : Fin 1) q)) (v10 (ix2 (0 : Fin 1) q)) (v12 (ix2 (0 : Fin 1) q)) (v20 (ix2 (0 : Fin 1) q))
          (v3 (ix2 p q)) :=
  KStageCD.pay4_apply v3 v5 v10 v12 v20 p q

/-- The third stage's running column sums after the point. -/
theorem pay5_apply (v3 : Vec Ideal S5000x128 .f32) (v5 v10 v12 v20 v27 : Vec Ideal S1x128 .f32) (q : Fin 128) :
    k7_pay5 v3 v5 v10 v12 v20 v27 (ix2 (0 : Fin 1) q)
      = v27 (ix2 (0 : Fin 1) q) + ∑ r : Fin 5000, k7_pay4 v3 v5 v10 v12 v20 (ix2 r q) :=
  KStageCD.pay5_apply v3 v5 v10 v12 v20 v27 q

/-- The third stage's running column sums of squares after the point. -/
theorem pay1_apply (v25 : FVec Ideal S5000x128 .f32) (v33 : Vec Ideal S1x128 .f32) (q : Fin 128) :
    k7_pay1 v25 v33 (ix2 (0 : Fin 1) q) = v33 (ix2 (0 : Fin 1) q) + ∑ r : Fin 5000, v25 (ix2 r q) * v25 (ix2 r q) :=
  KStageCD.pay1_apply v25 v33 q

variable {F : FTy → Type} [FloatOps F]

theorem hz : (![0, 0] : Fin 2 → Nat) = fun _ => 0 := funext fun a => by fin_cases a <;> rfl

/-- The zero row the reset stores. -/
abbrev zrow : Vec F S1x128 .f32 := broadcast S1x128 (Scalar.ofBits .f32 0x00000000#32)

/-- First point, the tile of `c`. -/
theorem outA5 (c : Dev nD) (i : grid7.Coords) (a1 : Memref sig .tc .vmem S5000x128 .f32) (h1 : a1.IsWhole) (a2 : Memref sig .tc .vmem S1x128 .f32) (h2 : a2.IsWhole) (a3 : Memref sig .tc .vmem S1x128 .f32) (h3 : a3.IsWhole) (a4 : Memref sig .tc .vmem S1x128 .f32) (h4 : a4.IsWhole) (a5 : Memref sig .tc .vmem S1x128 .f32) (h5 : a5.IsWhole) (a6 : Memref sig .tc .vmem S5000x128 .f32) (h6 : a6.IsWhole) (a7 : Memref sig .tc .vmem S1x128 .f32) (h7 : a7.IsWhole) (a8 : Memref sig .tc .vmem S1x128 .f32) (h8 : a8.IsWhole) (hc : cond7_0 i) (x0 : Vec F S5000x128 .f32) (x1 x2 x3 x4 : Vec F S1x128 .f32) :
    out7_A_5 c i a1 h1 a2 h2 a3 h3 a4 h4 a5 h5 a6 h6 a7 h7 a8 h8 hc x0 x1 x2 x3 x4 = k7_pay4 x0 x2 x3 x1 x4 := by
  unfold out7_A_5
  rw [View.read_writes_eq_canon _ _ _ (cover7_A_5 c i a1 h1 a2 h2 a3 h3 a4 h4 a5 h5 a6 h6 a7 h7 a8 h8 hc x0 x1 x2 x3 x4)]
  unfold kernelRun7_A
  dsimp only
  sl_unfold_words
  rw [View.canon_unit_zero hz]
  simp only [View.readAt_eq_ld, h1.read_unread, h2.read_unread, h3.read_unread, h4.read_unread, h5.read_unread, h7.read_unread, h8.read_unread, View.ld_unit_zero (S := S5000x128) hz, View.ld_unit_zero (S := S1x128) hz]

theorem outA6 (c : Dev nD) (i : grid7.Coords) (a1 : Memref sig .tc .vmem S5000x128 .f32) (h1 : a1.IsWhole) (a2 : Memref sig .tc .vmem S1x128 .f32) (h2 : a2.IsWhole) (a3 : Memref sig .tc .vmem S1x128 .f32) (h3 : a3.IsWhole) (a4 : Memref sig .tc .vmem S1x128 .f32) (h4 : a4.IsWhole) (a5 : Memref sig .tc .vmem S1x128 .f32) (h5 : a5.IsWhole) (a6 : Memref sig .tc .vmem S5000x128 .f32) (h6 : a6.IsWhole) (a7 : Memref sig .tc .vmem S1x128 .f32) (h7 : a7.IsWhole) (a8 : Memref sig .tc .vmem S1x128 .f32) (h8 : a8.IsWhole) (hc : cond7_0 i) (x0 : Vec F S5000x128 .f32) (x1 x2 x3 x4 : Vec F S1x128 .f32) :
    out7_A_6 c i a1 h1 a2 h2 a3 h3 a4 h4 a5 h5 a6 h6 a7 h7 a8 h8 hc x0 x1 x2 x3 x4 = k7_pay5 x0 x2 x3 x1 x4 zrow := by
  unfold out7_A_6
  rw [View.read_writes_eq_canon _ _ _ (cover7_A_6 c i a1 h1 a2 h2 a3 h3 a4 h4 a5 h5 a6 h6 a7 h7 a8 h8 hc x0 x1 x2 x3 x4)]
  unfold kernelRun7_A
  dsimp only
  sl_unfold_words
  rw [View.canon_cons_unit_zero (S := S1x128) hz, View.readCov_unit_zero (S := S1x128) _ hz]
  simp only [View.readAt_eq_ld, h1.read_unread, h2.read_unread, h3.read_unread, h4.read_unread, h5.read_unread, h7.read_unread, h8.read_unread, View.ld_unit_zero (S := S5000x128) hz, View.ld_unit_zero (S := S1x128) hz]
  rfl

theorem outA7 (c : Dev nD) (i : grid7.Coords) (a1 : Memref sig .tc .vmem S5000x128 .f32) (h1 : a1.IsWhole) (a2 : Memref sig .tc .vmem S1x128 .f32) (h2 : a2.IsWhole) (a3 : Memref sig .tc .vmem S1x128 .f32) (h3 : a3.IsWhole) (a4 : Memref sig .tc .vmem S1x128 .f32) (h4 : a4.IsWhole) (a5 : Memref sig .tc .vmem S1x128 .f32) (h5 : a5.IsWhole) (a6 : Memref sig .tc .vmem S5000x128 .f32) (h6 : a6.IsWhole) (a7 : Memref sig .tc .vmem S1x128 .f32) (h7 : a7.IsWhole) (a8 : Memref sig .tc .vmem S1x128 .f32) (h8 : a8.IsWhole) (hc : cond7_0 i) (x0 : Vec F S5000x128 .f32) (x1 x2 x3 x4 : Vec F S1x128 .f32) :
    out7_A_7 c i a1 h1 a2 h2 a3 h3 a4 h4 a5 h5 a6 h6 a7 h7 a8 h8 hc x0 x1 x2 x3 x4 = k7_pay1 (k7_pay4 x0 x2 x3 x1 x4) zrow := by
  unfold out7_A_7
  rw [View.read_writes_eq_canon _ _ _ (cover7_A_7 c i a1 h1 a2 h2 a3 h3 a4 h4 a5 h5 a6 h6 a7 h7 a8 h8 hc x0 x1 x2 x3 x4)]
  unfold kernelRun7_A
  dsimp only
  sl_unfold_words
  rw [View.canon_cons_unit_zero (S := S1x128) hz, View.readCov_unit_zero (S := S1x128) _ hz]
  simp only [View.readAt_eq_ld, h1.read_unread, h2.read_unread, h3.read_unread, h4.read_unread, h5.read_unread, h7.read_unread, h8.read_unread, View.ld_unit_zero (S := S5000x128) hz, View.ld_unit_zero (S := S1x128) hz]
  rfl

theorem outB5 (c : Dev nD) (i : grid7.Coords) (a1 : Memref sig .tc .vmem S5000x128 .f32) (h1 : a1.IsWhole) (a2 : Memref sig .tc .vmem S1x128 .f32) (h2 : a2.IsWhole) (a3 : Memref sig .tc .vmem S1x128 .f32) (h3 : a3.IsWhole) (a4 : Memref sig .tc .vmem S1x128 .f32) (h4 : a4.IsWhole) (a5 : Memref sig .tc .vmem S1x128 .f32) (h5 : a5.IsWhole) (a6 : Memref sig .tc .vmem S5000x128 .f32) (h6 : a6.IsWhole) (a7 : Memref sig .tc .vmem S1x128 .f32) (h7 : a7.IsWhole) (a8 : Memref sig .tc .vmem S1x128 .f32) (h8 : a8.IsWhole) (hc : ¬cond7_0 i) (x0 : Vec F S5000x128 .f32) (x1 x2 x3 x4 : Vec F S1x128 .f32) (s6 s7 : Vec F S1x128 .f32) :
    out7_B_5 c i a1 h1 a2 h2 a3 h3 a4 h4 a5 h5 a6 h6 a7 h7 a8 h8 hc x0 x1 x2 x3 x4 s6 s7 = k7_pay4 x0 x2 x3 x1 x4 := by
  unfold out7_B_5
  rw [View.read_writes_eq_canon _ _ _ (cover7_B_5 c i a1 h1 a2 h2 a3 h3 a4 h4 a5 h5 a6 h6 a7 h7 a8 h8 hc x0 x1 x2 x3 x4 s6 s7)]
  unfold kernelRun7_B
  dsimp only
  sl_unfold_words
  rw [View.canon_unit_zero hz]
  simp only [View.readAt_eq_ld, h1.read_unread, h2.read_unread, h3.read_unread, h4.read_unread, h5.read_unread, h7.read_unread, h8.read_unread, View.ld_unit_zero (S := S5000x128) hz, View.ld_unit_zero (S := S1x128) hz]

theorem outB6 (c : Dev nD) (i : grid7.Coords) (a1 : Memref sig .tc .vmem S5000x128 .f32) (h1 : a1.IsWhole) (a2 : Memref sig .tc .vmem S1x128 .f32) (h2 : a2.IsWhole) (a3 : Memref sig .tc .vmem S1x128 .f32) (h3 : a3.IsWhole) (a4 : Memref sig .tc .vmem S1x128 .f32) (h4 : a4.IsWhole) (a5 : Memref sig .tc .vmem S1x128 .f32) (h5 : a5.IsWhole) (a6 : Memref sig .tc .vmem S5000x128 .f32) (h6 : a6.IsWhole) (a7 : Memref sig .tc .vmem S1x128 .f32) (h7 : a7.IsWhole) (a8 : Memref sig .tc .vmem S1x128 .f32) (h8 : a8.IsWhole) (hc : ¬cond7_0 i) (x0 : Vec F S5000x128 .f32) (x1 x2 x3 x4 : Vec F S1x128 .f32) (s6 s7 : Vec F S1x128 .f32) :
    out7_B_6 c i a1 h1 a2 h2 a3 h3 a4 h4 a5 h5 a6 h6 a7 h7 a8 h8 hc x0 x1 x2 x3 x4 s6 s7 = k7_pay5 x0 x2 x3 x1 x4 s6 := by
  unfold out7_B_6
  rw [View.read_writes_eq_canon _ _ _ (cover7_B_6 c i a1 h1 a2 h2 a3 h3 a4 h4 a5 h5 a6 h6 a7 h7 a8 h8 hc x0 x1 x2 x3 x4 s6 s7)]
  unfold kernelRun7_B
  dsimp only
  sl_unfold_words
  rw [View.canon_unit_zero hz]
  simp only [View.readAt_eq_ld, h1.read_unread, h2.read_unread, h3.read_unread, h4.read_unread, h5.read_unread, h7.read_unread, h8.read_unread, View.ld_unit_zero (S := S5000x128) hz, View.ld_unit_zero (S := S1x128) hz]

theorem outB7 (c : Dev nD) (i : grid7.Coords) (a1 : Memref sig .tc .vmem S5000x128 .f32) (h1 : a1.IsWhole) (a2 : Memref sig .tc .vmem S1x128 .f32) (h2 : a2.IsWhole) (a3 : Memref sig .tc .vmem S1x128 .f32) (h3 : a3.IsWhole) (a4 : Memref sig .tc .vmem S1x128 .f32) (h4 : a4.IsWhole) (a5 : Memref sig .tc .vmem S1x128 .f32) (h5 : a5.IsWhole) (a6 : Memref sig .tc .vmem S5000x128 .f32) (h6 : a6.IsWhole) (a7 : Memref sig .tc .vmem S1x128 .f32) (h7 : a7.IsWhole) (a8 : Memref sig .tc .vmem S1x128 .f32) (h8 : a8.IsWhole) (hc : ¬cond7_0 i) (x0 : Vec F S5000x128 .f32) (x1 x2 x3 x4 : Vec F S1x128 .f32) (s6 s7 : Vec F S1x128 .f32) :
    out7_B_7 c i a1 h1 a2 h2 a3 h3 a4 h4 a5 h5 a6 h6 a7 h7 a8 h8 hc x0 x1 x2 x3 x4 s6 s7 = k7_pay1 (k7_pay4 x0 x2 x3 x1 x4) s7 := by
  unfold out7_B_7
  rw [View.read_writes_eq_canon _ _ _ (cover7_B_7 c i a1 h1 a2 h2 a3 h3 a4 h4 a5 h5 a6 h6 a7 h7 a8 h8 hc x0 x1 x2 x3 x4 s6 s7)]
  unfold kernelRun7_B
  dsimp only
  sl_unfold_words
  rw [View.canon_unit_zero hz]
  simp only [View.readAt_eq_ld, h1.read_unread, h2.read_unread, h3.read_unread, h4.read_unread, h5.read_unread, h7.read_unread, h8.read_unread, View.ld_unit_zero (S := S5000x128) hz, View.ld_unit_zero (S := S1x128) hz]

/-! ## The outputs after each point -/

variable (V : (c : Dev nD) → (b : Ref sig .tc) → Buf (Elt F) ((c : Thread nD τ).loc b))

/-- The point's tile of `c`. -/
def tileY (c : Dev nD) (t : Fin cfg7.N) : Vec F S5000x128 .f32 := k7_pay4 (iblk7 V c 0 t) (iblk7 V c 2 t) (iblk7 V c 3 t) (iblk7 V c 1 t) (iblk7 V c 4 t)

/-- The running column sums after point `n`. -/
def acc6 (c : Dev nD) : (n : ℕ) → n < cfg7.N → Vec F S1x128 .f32
  | 0, h => k7_pay5 (iblk7 V c 0 ⟨0, h⟩) (iblk7 V c 2 ⟨0, h⟩) (iblk7 V c 3 ⟨0, h⟩) (iblk7 V c 1 ⟨0, h⟩) (iblk7 V c 4 ⟨0, h⟩) zrow
  | n + 1, h => k7_pay5 (iblk7 V c 0 ⟨n + 1, h⟩) (iblk7 V c 2 ⟨n + 1, h⟩) (iblk7 V c 3 ⟨n + 1, h⟩) (iblk7 V c 1 ⟨n + 1, h⟩) (iblk7 V c 4 ⟨n + 1, h⟩) (acc6 c n (Nat.lt_of_succ_lt h))

/-- The running column sums of squares after point `n`. -/
def acc7 (c : Dev nD) : (n : ℕ) → n < cfg7.N → Vec F S1x128 .f32
  | 0, h => k7_pay1 (tileY V c ⟨0, h⟩) zrow
  | n + 1, h => k7_pay1 (tileY V c ⟨n + 1, h⟩) (acc7 c n (Nat.lt_of_succ_lt h))

/-- What the three outputs' staging buffers hold after point `n`: the tile and the two running sums. -/
theorem outsAt_eq (c : Dev nD) : ∀ (n : ℕ) (h : n < cfg7.N), outsAt7 V c n h = (tileY V c ⟨n, h⟩, acc6 V c n h, acc7 V c n h)
  | 0, h => (outsAt7_A V c ⟨0, h⟩ rfl).trans (by rw [outA5, outA6, outA7]; rfl)
  | n + 1, h => by
    have hN : grid7.N = 10 := N_7
    have hB : ¬(⟨n + 1, h⟩ : Fin cfg7.N).val % 10 = 0 := by
      have : n + 1 < 10 := by have := h; rw [show cfg7.N = grid7.N from rfl, hN] at this; exact this
      dsimp only; omega
    rw [outsAt7_B V c ⟨n + 1, h⟩ hB, outB5, outB6, outB7]
    show (_, k7_pay5 _ _ _ _ _ (outsAt7 V c n _).2.1, k7_pay1 _ (outsAt7 V c n _).2.2) = _
    rw [outsAt_eq c n]
    rfl

/-! ## At the exact reading: the accumulators are sums, the tiles an array -/

section Exact

variable (V : (c : Dev nD) → (b : Ref sig .tc) → Buf (Elt Ideal) ((c : Thread nD τ).loc b))

theorem acc6_apply (c : Dev nD) (q : Fin 128) : ∀ (n : ℕ) (h : n < cfg7.N),
    acc6 V c n h (ix2 (0 : Fin 1) q)
      = Ideal.ofBits .f32 0x00000000#32
        + ∑ t : Fin (n + 1), ∑ r : Fin 5000, tileY V c ⟨t.val, lt_of_lt_of_le t.isLt h⟩ (ix2 r q) :=
  Cert.FinSum.sum_of_steps cfg7.N (fun n h => acc6 V c n h (ix2 (0 : Fin 1) q))
    (fun t => ∑ r : Fin 5000, tileY V c t (ix2 r q)) (Ideal.ofBits .f32 0x00000000#32)
    (fun h => pay5_apply _ _ _ _ _ _ q)
    (fun n h => pay5_apply _ _ _ _ _ _ q)

theorem acc7_apply (c : Dev nD) (q : Fin 128) : ∀ (n : ℕ) (h : n < cfg7.N),
    acc7 V c n h (ix2 (0 : Fin 1) q)
      = Ideal.ofBits .f32 0x00000000#32
        + ∑ t : Fin (n + 1), ∑ r : Fin 5000,
            tileY V c ⟨t.val, lt_of_lt_of_le t.isLt h⟩ (ix2 r q) * tileY V c ⟨t.val, lt_of_lt_of_le t.isLt h⟩ (ix2 r q) :=
  Cert.FinSum.sum_of_steps cfg7.N (fun n h => acc7 V c n h (ix2 (0 : Fin 1) q))
    (fun t => ∑ r : Fin 5000, tileY V c t (ix2 r q) * tileY V c t (ix2 r q)) (Ideal.ofBits .f32 0x00000000#32)
    (fun h => pay1_apply _ _ q)
    (fun n h => pay1_apply _ _ q)

end Exact

/-! ## The arrays after the region -/

/-- One entry of `c = relu(γ·(y₂ − μ)·rsqrt(v + ε) + β)`. -/
def cAt (y2 : (⟨2, ![50000, 128]⟩ : Shape).Idx → EReal) (m vr g be : (⟨2, ![1, 128]⟩ : Shape).Idx → EReal)
    (p : Fin 50000) (q : Fin 128) : EReal :=
  KStageB.bnrelu (vr (ix2 (0 : Fin 1) q)) (g (ix2 (0 : Fin 1) q)) (m (ix2 (0 : Fin 1) q)) (be (ix2 (0 : Fin 1) q)) (y2 (ix2 p q))

/-- `c` as an array. -/
def cArr (y2 : (⟨2, ![50000, 128]⟩ : Shape).Idx → EReal) (m vr g be : (⟨2, ![1, 128]⟩ : Shape).Idx → EReal) :
    (⟨2, ![50000, 128]⟩ : Shape).Idx → EReal :=
  fun i => cAt y2 m vr g be ⟨(i 0).val, idx2_lt0 i⟩ ⟨(i 1).val, idx2_lt1 i⟩

section Arrays

variable (V : (c : Dev nD) → (b : Ref sig .tc) → Buf (Elt Ideal) ((c : Thread nD τ).loc b))

/-- The arrays the region finds: the second stage's output, the column means and variances, the scale and shift rows. -/
abbrev Y2 (c : Dev nD) : S50000x128.Idx → EReal := V c (Pipeline.arrRef spec7 0)
abbrev M (c : Dev nD) : S1x128.Idx → EReal := V c (Pipeline.arrRef spec7 1)
abbrev Vr (c : Dev nD) : S1x128.Idx → EReal := V c (Pipeline.arrRef spec7 2)
abbrev G (c : Dev nD) : S1x128.Idx → EReal := V c (Pipeline.arrRef spec7 3)
abbrev Be (c : Dev nD) : S1x128.Idx → EReal := V c (Pipeline.arrRef spec7 4)

/-- The printed index maps over the ten points: the input tile and the output tile move down the rows with the
    point; the four statistics rows are block (0, 0). -/
theorem idx_facts : ∀ t : Fin cfg7.N,
    win7_0.index t (0 : Fin 2) = t.val ∧ win7_0.index t (1 : Fin 2) = 0
    ∧ win7_1.index t (0 : Fin 2) = 0 ∧ win7_1.index t (1 : Fin 2) = 0
    ∧ win7_2.index t (0 : Fin 2) = 0 ∧ win7_2.index t (1 : Fin 2) = 0
    ∧ win7_3.index t (0 : Fin 2) = 0 ∧ win7_3.index t (1 : Fin 2) = 0
    ∧ win7_4.index t (0 : Fin 2) = 0 ∧ win7_4.index t (1 : Fin 2) = 0
    ∧ win7_5.index t (0 : Fin 2) = t.val ∧ win7_5.index t (1 : Fin 2) = 0 :=
  (by decide +kernel : ∀ t : Fin grid7.N, _)

theorem iblk_y2 (c : Dev nD) (t : Fin cfg7.N) (p : Fin 5000) (k : Fin 128) (hp : t.val * 5000 + p.val < 50000) :
    (iblk7 V c 0 t : Vec Ideal S5000x128 .f32) (ix2 p k) = Y2 V c (ix2 ⟨t.val * 5000 + p.val, hp⟩ k) := by
  obtain ⟨e0, e1, -⟩ := idx_facts t
  unfold iblk7
  rw [View.read_apply]
  refine congrArg (V c (Pipeline.arrRef spec7 0)) (funext fun a => Fin.ext ?_)
  match a with
  | ⟨0, _⟩ => show win7_0.index t 0 * 5000 + 1 * p.val = t.val * 5000 + p.val; rw [e0]; omega
  | ⟨1, _⟩ => show win7_0.index t 1 * 128 + 1 * k.val = k.val; rw [e1]; omega

theorem iblk_m (c : Dev nD) (t : Fin cfg7.N) : (iblk7 V c 1 t : Vec Ideal S1x128 .f32) = M V c := by
  obtain ⟨-, -, e0, e1, -⟩ := idx_facts t
  funext y
  unfold iblk7
  rw [View.read_apply]
  refine congrArg (V c (Pipeline.arrRef spec7 1)) (funext fun a => Fin.ext ?_)
  match a with
  | ⟨0, _⟩ => show win7_1.index t 0 * 1 + 1 * (y 0).val = (y 0).val; rw [e0]; omega
  | ⟨1, _⟩ => show win7_1.index t 1 * 128 + 1 * (y 1).val = (y 1).val; rw [e1]; omega

theorem iblk_vr (c : Dev nD) (t : Fin cfg7.N) : (iblk7 V c 2 t : Vec Ideal S1x128 .f32) = Vr V c := by
  obtain ⟨-, -, -, -, e0, e1, -⟩ := idx_facts t
  funext y
  unfold iblk7
  rw [View.read_apply]
  refine congrArg (V c (Pipeline.arrRef spec7 2)) (funext fun a => Fin.ext ?_)
  match a with
  | ⟨0, _⟩ => show win7_2.index t 0 * 1 + 1 * (y 0).val = (y 0).val; rw [e0]; omega
  | ⟨1, _⟩ => show win7_2.index t 1 * 128 + 1 * (y 1).val = (y 1).val; rw [e1]; omega

theorem iblk_g (c : Dev nD) (t : Fin cfg7.N) : (iblk7 V c 3 t : Vec Ideal S1x128 .f32) = G V c := by
  obtain ⟨-, -, -, -, -, -, e0, e1, -⟩ := idx_facts t
  funext y
  unfold iblk7
  rw [View.read_apply]
  refine congrArg (V c (Pipeline.arrRef spec7 3)) (funext fun a => Fin.ext ?_)
  match a with
  | ⟨0, _⟩ => show win7_3.index t 0 * 1 + 1 * (y 0).val = (y 0).val; rw [e0]; omega
  | ⟨1, _⟩ => show win7_3.index t 1 * 128 + 1 * (y 1).val = (y 1).val; rw [e1]; omega

theorem iblk_be (c : Dev nD) (t : Fin cfg7.N) : (iblk7 V c 4 t : Vec Ideal S1x128 .f32) = Be V c := by
  obtain ⟨-, -, -, -, -, -, -, -, e0, e1, -⟩ := idx_facts t
  funext y
  unfold iblk7
  rw [View.read_apply]
  refine congrArg (V c (Pipeline.arrRef spec7 4)) (funext fun a => Fin.ext ?_)
  match a with
  | ⟨0, _⟩ => show win7_4.index t 0 * 1 + 1 * (y 0).val = (y 0).val; rw [e0]; omega
  | ⟨1, _⟩ => show win7_4.index t 1 * 128 + 1 * (y 1).val = (y 1).val; rw [e1]; omega

/-- The tile at point `t`, entry `(p, q)`, is `c` at row `5000·t + p`. -/
theorem tile_apply (c : Dev nD) (t : Fin cfg7.N) (p : Fin 5000) (q : Fin 128) (hp : t.val * 5000 + p.val < 50000) :
    tileY V c t (ix2 p q) = cAt (Y2 V c) (M V c) (Vr V c) (G V c) (Be V c) ⟨t.val * 5000 + p.val, hp⟩ q := by
  unfold tileY cAt
  rw [pay4_apply, iblk_m, iblk_vr, iblk_g, iblk_be, iblk_y2 V c t p q hp]

end Arrays

section Final

variable (V : (c : Dev nD) → (b : Ref sig .tc) → Buf (Elt Ideal) ((c : Thread nD τ).loc b))

/-- An entry of the tile at point `t` is the entry of `c` at row `5000·t + ` the tile's row. -/
theorem point5 (c : Dev nD) (t : Fin cfg7.N) (j : S5000x128.Idx) (i : S50000x128.Idx)
    (hi0 : (i 0).val = t.val * 5000 + (j 0).val) (hi1 : (i 1).val = (j 1).val) :
    tileY V c t j = cArr (Y2 V c) (M V c) (Vr V c) (G V c) (Be V c) i := by
  obtain ⟨p, q, rfl⟩ : ∃ (p : Fin 5000) (q : Fin 128), j = ix2 p q := ⟨j 0, j 1, eq_ix2 j⟩
  have ht : t.val < 10 := lt_of_lt_of_eq t.isLt (show cfg7.N = 10 from N_7)
  have hp : t.val * 5000 + p.val < 50000 := by have := p.isLt; omega
  rw [tile_apply V c t p q hp]
  unfold cArr
  congr 1
  · exact Fin.ext hi0.symm
  · exact Fin.ext hi1.symm

/-- What point `t` writes back of `c` is tile `t` of the array `c`. -/
theorem flushed5_eq (c : Dev nD) (t : Fin cfg7.N) :
    (dat7 V c).flushed 5 t
      = ((cfg7.win 5).blk t).view.read (Elt Ideal) (cArr (Y2 V c) (M V c) (Vr V c) (G V c) (Be V c)) := by
  show (cfg7.win 5).cut (grid7.coords t) ((dat7 V c).after 5 t) = _
  rw [after7_5, outsAt_eq]
  obtain ⟨-, -, -, -, -, -, -, -, -, -, e0, e1⟩ := idx_facts t
  funext j
  rw [View.read_apply]
  refine point5 V c t j _ ?_ ?_
  · show win7_5.index t 0 * 5000 + 1 * (j 0).val = t.val * 5000 + (j 0).val
    rw [e0]; omega
  · show win7_5.index t 1 * 128 + 1 * (j 1).val = (j 1).val
    rw [e1]; omega

theorem mem_blk5 (t : Fin cfg7.N) (i : S50000x128.Idx) :
    i ∈ ((cfg7.win 5).blk t).view.set ↔ ∀ a : Fin 2, win7_5.index t a * S5000x128.size a ≤ (i a).val
      ∧ (i a).val < win7_5.index t a * S5000x128.size a + S5000x128.size a := by
  show i ∈ ((View.whole main_v116_0).slice (win7_5.rect t)).set ↔ _
  rw [View.set_slice_whole, Rect.mem_set_unit]
  exact Iff.rfl

theorem cover5 (i : S50000x128.Idx) :
    ∃ t : Fin cfg7.N, (cfg7.win 5).flush t = true ∧ i ∈ ((cfg7.win 5).blk t).view.set := by
  have hi0 : (i 0).val < 50000 := idx2_lt0 i
  have hi1 : (i 1).val < 128 := idx2_lt1 i
  have hN : grid7.N = 10 := N_7
  have ht : (i 0).val / 5000 < cfg7.N := by show _ < grid7.N; rw [hN]; omega
  obtain ⟨-, -, -, -, -, -, -, -, -, -, e0, e1⟩ := idx_facts ⟨(i 0).val / 5000, ht⟩
  refine ⟨⟨(i 0).val / 5000, ht⟩, flush7_5 _, ?_⟩
  rw [mem_blk5]
  intro a
  match a with
  | ⟨0, _⟩ =>
    show win7_5.index ⟨(i 0).val / 5000, ht⟩ 0 * 5000 ≤ (i 0).val ∧ (i 0).val < win7_5.index ⟨(i 0).val / 5000, ht⟩ 0 * 5000 + 5000
    rw [e0]; show (i 0).val / 5000 * 5000 ≤ (i 0).val ∧ (i 0).val < (i 0).val / 5000 * 5000 + 5000; omega
  | ⟨1, _⟩ =>
    show win7_5.index ⟨(i 0).val / 5000, ht⟩ 1 * 128 ≤ (i 1).val ∧ (i 1).val < win7_5.index ⟨(i 0).val / 5000, ht⟩ 1 * 128 + 128
    rw [e1]; omega

/-- After the region the first output array is `c` of the arrays the region finds. -/
theorem final5 (c : Dev nD) : (dat7 V c).arrAt 5 cfg7.N = cArr (Y2 V c) (M V c) (Vr V c) (G V c) (Be V c) :=
  (dat7 V c).arrAt_eq_of_cover 5 _ (fun t _ => flushed5_eq V c t) cover5

theorem lastLt : 9 < cfg7.N := by show 9 < grid7.N; rw [N_7]; decide

/-- The accumulated column sums after the last point, as the contents of the second output array. -/
abbrev res6 (c : Dev nD) : Buf (Elt Ideal) ((c : Thread nD τ).loc main_v116_1) := acc6 V c 9 lastLt
/-- The accumulated column sums of squares after the last point, as the contents of the third output array. -/
abbrev res7 (c : Dev nD) : Buf (Elt Ideal) ((c : Thread nD τ).loc main_v116_2) := acc7 V c 9 lastLt

theorem flushed6_eq (c : Dev nD) (t : Fin cfg7.N) (hf : (cfg7.win 6).flush t = true) :
    (dat7 V c).flushed 6 t = ((cfg7.win 6).blk t).view.read (Elt Ideal) (res6 V c) := by
  have hN : grid7.N = 10 := N_7
  have h9 : t.val = 9 := by
    have := (flush7_6 t).mp hf; have h := lt_of_lt_of_eq t.isLt (show cfg7.N = 10 from N_7); omega
  obtain rfl : t = t7_9 := Fin.ext h9
  show (cfg7.win 6).cut (grid7.coords t7_9) ((dat7 V c).after 6 t7_9) = _
  rw [after7_6, outsAt_eq]
  have hz' : (fun a => win7_6.index t7_9 a * main_v116_1.ty.shape.size a) = fun _ => 0 := funext fun a => by fin_cases a <;> decide
  exact (Memref.read_access_unit_zero (Elt Ideal) main_v116_1 hz' (fun a => by rw [congrFun hz' a]; simp) (res6 V c)).symm

theorem flushed7_eq (c : Dev nD) (t : Fin cfg7.N) (hf : (cfg7.win 7).flush t = true) :
    (dat7 V c).flushed 7 t = ((cfg7.win 7).blk t).view.read (Elt Ideal) (res7 V c) := by
  have hN : grid7.N = 10 := N_7
  have h9 : t.val = 9 := by
    have := (flush7_7 t).mp hf; have h := lt_of_lt_of_eq t.isLt (show cfg7.N = 10 from N_7); omega
  obtain rfl : t = t7_9 := Fin.ext h9
  show (cfg7.win 7).cut (grid7.coords t7_9) ((dat7 V c).after 7 t7_9) = _
  rw [after7_7, outsAt_eq]
  have hz' : (fun a => win7_7.index t7_9 a * main_v116_2.ty.shape.size a) = fun _ => 0 := funext fun a => by fin_cases a <;> decide
  exact (Memref.read_access_unit_zero (Elt Ideal) main_v116_2 hz' (fun a => by rw [congrFun hz' a]; simp) (res7 V c)).symm

/-- The last point's write-back covers the one-row array. -/
theorem final6 (c : Dev nD) : (dat7 V c).arrAt 6 cfg7.N = res6 V c :=
  (dat7 V c).arrAt_eq_of_cover 6 (res6 V c) (flushed6_eq V c) fun i =>
    ⟨t7_9, (flush7_6 t7_9).mpr rfl, by
      show i ∈ ((View.whole main_v116_1).slice (win7_6.rect t7_9)).set
      rw [View.set_slice_whole, Rect.mem_set_unit]
      intro a
      have h0 : (i 0 : Nat) < 1 := (i 0).isLt
      have h1 : (i 1 : Nat) < 128 := (i 1).isLt
      match a with
      | ⟨0, _⟩ => show win7_6.index t7_9 0 * win7_6.size 0 ≤ (i 0 : Nat) ∧ (i 0 : Nat) < win7_6.index t7_9 0 * win7_6.size 0 + win7_6.xsize (grid7.coords t7_9) 0
                  rw [show win7_6.index t7_9 0 * win7_6.size 0 = 0 from by decide +kernel, show win7_6.xsize (grid7.coords t7_9) 0 = 1 from by decide +kernel]; omega
      | ⟨1, _⟩ => show win7_6.index t7_9 1 * win7_6.size 1 ≤ (i 1 : Nat) ∧ (i 1 : Nat) < win7_6.index t7_9 1 * win7_6.size 1 + win7_6.xsize (grid7.coords t7_9) 1
                  rw [show win7_6.index t7_9 1 * win7_6.size 1 = 0 from by decide +kernel, show win7_6.xsize (grid7.coords t7_9) 1 = 128 from by decide +kernel]; omega⟩

theorem final7 (c : Dev nD) : (dat7 V c).arrAt 7 cfg7.N = res7 V c :=
  (dat7 V c).arrAt_eq_of_cover 7 (res7 V c) (flushed7_eq V c) fun i =>
    ⟨t7_9, (flush7_7 t7_9).mpr rfl, by
      show i ∈ ((View.whole main_v116_2).slice (win7_7.rect t7_9)).set
      rw [View.set_slice_whole, Rect.mem_set_unit]
      intro a
      have h0 : (i 0 : Nat) < 1 := (i 0).isLt
      have h1 : (i 1 : Nat) < 128 := (i 1).isLt
      match a with
      | ⟨0, _⟩ => show win7_7.index t7_9 0 * win7_7.size 0 ≤ (i 0 : Nat) ∧ (i 0 : Nat) < win7_7.index t7_9 0 * win7_7.size 0 + win7_7.xsize (grid7.coords t7_9) 0
                  rw [show win7_7.index t7_9 0 * win7_7.size 0 = 0 from by decide +kernel, show win7_7.xsize (grid7.coords t7_9) 0 = 1 from by decide +kernel]; omega
      | ⟨1, _⟩ => show win7_7.index t7_9 1 * win7_7.size 1 ≤ (i 1 : Nat) ∧ (i 1 : Nat) < win7_7.index t7_9 1 * win7_7.size 1 + win7_7.xsize (grid7.coords t7_9) 1
                  rw [show win7_7.index t7_9 1 * win7_7.size 1 = 0 from by decide +kernel, show win7_7.xsize (grid7.coords t7_9) 1 = 128 from by decide +kernel]; omega⟩

/-- Summing the ten tiles' column sums is summing down all 50000 rows. -/
theorem tiles_sum (c : Dev nD) (f : EReal → EReal) (q : Fin 128) :
    ∑ t : Fin (9 + 1), ∑ r : Fin 5000, f (tileY V c ⟨t.val, lt_of_lt_of_le t.isLt lastLt⟩ (ix2 r q))
      = ∑ r : Fin 50000, f (cArr (Y2 V c) (M V c) (Vr V c) (G V c) (Be V c) (ix2 r q)) := by
  rw [Cert.FinSum.sum_mul 10 5000 50000 rfl]
  refine Finset.sum_congr rfl fun t _ => Finset.sum_congr rfl fun r _ => ?_
  have hp : t.val * 5000 + r.val < 50000 := by have := t.isLt; have := r.isLt; omega
  rw [tile_apply V c ⟨t.val, _⟩ r q hp]
  rfl

/-- The second output array at a column: the sum of `c` down the column (from zero). -/
theorem sum_apply (c : Dev nD) (q : Fin 128) :
    (dat7 V c).arrAt 6 cfg7.N (ix2 (0 : Fin 1) q)
      = Ideal.ofBits .f32 0x00000000#32 + ∑ r : Fin 50000, cArr (Y2 V c) (M V c) (Vr V c) (G V c) (Be V c) (ix2 r q) := by
  rw [final6]
  show acc6 V c 9 lastLt (ix2 (0 : Fin 1) q) = _
  rw [acc6_apply V c q 9 lastLt]
  exact congrArg (_ + ·) (tiles_sum V c id q)

/-- The third output array at a column: the sum of the squares of `c` down the column (from zero). -/
theorem sumsq_apply (c : Dev nD) (q : Fin 128) :
    (dat7 V c).arrAt 7 cfg7.N (ix2 (0 : Fin 1) q)
      = Ideal.ofBits .f32 0x00000000#32
        + ∑ r : Fin 50000, cArr (Y2 V c) (M V c) (Vr V c) (G V c) (Be V c) (ix2 r q) * cArr (Y2 V c) (M V c) (Vr V c) (G V c) (Be V c) (ix2 r q) := by
  rw [final7]
  show acc7 V c 9 lastLt (ix2 (0 : Fin 1) q) = _
  rw [acc7_apply V c q 9 lastLt]
  exact congrArg (_ + ·) (tiles_sum V c (fun x => x * x) q)

end Final

end Cert.KernelIdeal.KStageCVal_L1

end
-- ==== Proof.KStageDVal_L1.lean ====
/-
  The closing stage's region, read as a value: each of its ten grid points normalises and rectifies a tile of 5000 rows
  of `c` with the given rows of column means and variances and adds the same rows of the layer's input; the output
  tiles partition the 50000 rows, so after the region the output array is, entry by entry,

      out (r, j) = h (r, j) + max (γ (j) · (c (r, j) − μ (j)) · rsqrt (v (j) + 1e-5) + β (j)) 0.
-/
import proofs.«140776_j80633716015159_1_alg».proof.Proof.Gen.KernelIdeal.Frame
import proofs.«140776_j80633716015159_1_alg».proof.Proof.KStageCD
import Idealize.ShloMosaic.Lib.Pipeline.Value

set_option maxRecDepth 16384

noncomputable section

namespace Cert.KernelIdeal.KStageDVal_L1

open Cert.KernelIdeal Cert.KernelIdeal.Gen
open Idealize.ShloMosaic Idealize.ShloMosaic.TcCoe Idealize.ShloMosaic.ValueIdx Idealize.SL.Sem
open Idealize.ShloMosaic.Pipeline (Dat Cfg Window)
open Cert.KernelIdeal.KStageB (bnrelu)

/-- The closing stage's tile at an entry: the layer's input plus the normalised, rectified value. -/
theorem payD_apply (v0 : Vec Ideal S5000x128 .f32) (v2 v7 v9 v17 : Vec Ideal S1x128 .f32) (v23 : Vec Ideal S5000x128 .f32)
    (p : Fin 5000) (q : Fin 128) :
    k8_pay1 v0 v2 v7 v9 v17 v23 (ix2 p q)
      = v23 (ix2 p q) + KStageB.bnrelu (v2 (ix2 (0 : Fin 1) q)) (v7 (ix2 (0 : Fin 1) q)) (v9 (ix2 (0 : Fin 1) q))
          (v17 (ix2 (0 : Fin 1) q)) (v0 (ix2 p q)) :=
  KStageCD.payD_apply v0 v2 v7 v9 v17 v23 p q

/-- One entry of the layer's output. -/
def outAt (cc h : (⟨2, ![50000, 128]⟩ : Shape).Idx → EReal) (m vr g be : (⟨2, ![1, 128]⟩ : Shape).Idx → EReal)
    (p : Fin 50000) (q : Fin 128) : EReal :=
  h (ix2 p q) + bnrelu (vr (ix2 (0 : Fin 1) q)) (g (ix2 (0 : Fin 1) q)) (m (ix2 (0 : Fin 1) q)) (be (ix2 (0 : Fin 1) q)) (cc (ix2 p q))

/-- The layer's output as an array. -/
def out (cc h : (⟨2, ![50000, 128]⟩ : Shape).Idx → EReal) (m vr g be : (⟨2, ![1, 128]⟩ : Shape).Idx → EReal) :
    (⟨2, ![50000, 128]⟩ : Shape).Idx → EReal :=
  fun i => outAt cc h m vr g be ⟨(i 0).val, idx2_lt0 i⟩ ⟨(i 1).val, idx2_lt1 i⟩

variable (V : (c : Dev nD) → (b : Ref sig .tc) → Buf (Elt Ideal) ((c : Thread nD τ).loc b))

theorem hz : (![0, 0] : Fin 2 → Nat) = fun _ => 0 := funext fun a => by fin_cases a <;> rfl

/-- The arrays the region finds. -/
abbrev Cc (c : Dev nD) : S50000x128.Idx → EReal := V c (Pipeline.arrRef spec8 0)
abbrev Mn (c : Dev nD) : S1x128.Idx → EReal := V c (Pipeline.arrRef spec8 1)
abbrev Vr (c : Dev nD) : S1x128.Idx → EReal := V c (Pipeline.arrRef spec8 2)
abbrev Gm (c : Dev nD) : S1x128.Idx → EReal := V c (Pipeline.arrRef spec8 3)
abbrev Bt (c : Dev nD) : S1x128.Idx → EReal := V c (Pipeline.arrRef spec8 4)
abbrev Hh (c : Dev nD) : S50000x128.Idx → EReal := V c (Pipeline.arrRef spec8 5)

/-- The printed index maps over the ten points: the two feature tiles and the output tile move down the rows with the
    point, the four rows are block (0, 0). -/
theorem idx_facts : ∀ t : Fin cfg8.N,
    win8_0.index t (0 : Fin 2) = t.val ∧ win8_0.index t (1 : Fin 2) = 0
    ∧ win8_1.index t (0 : Fin 2) = 0 ∧ win8_1.index t (1 : Fin 2) = 0
    ∧ win8_2.index t (0 : Fin 2) = 0 ∧ win8_2.index t (1 : Fin 2) = 0
    ∧ win8_3.index t (0 : Fin 2) = 0 ∧ win8_3.index t (1 : Fin 2) = 0
    ∧ win8_4.index t (0 : Fin 2) = 0 ∧ win8_4.index t (1 : Fin 2) = 0
    ∧ win8_5.index t (0 : Fin 2) = t.val ∧ win8_5.index t (1 : Fin 2) = 0
    ∧ win8_6.index t (0 : Fin 2) = t.val ∧ win8_6.index t (1 : Fin 2) = 0 :=
  (by decide +kernel : ∀ t : Fin grid8.N, _)

theorem iblk_c (c : Dev nD) (t : Fin cfg8.N) (p : Fin 5000) (k : Fin 128) (hp : t.val * 5000 + p.val < 50000) :
    (iblk8 V c 0 t : Vec Ideal S5000x128 .f32) (ix2 p k) = Cc V c (ix2 ⟨t.val * 5000 + p.val, hp⟩ k) := by
  obtain ⟨e0, e1, -⟩ := idx_facts t
  unfold iblk8
  rw [View.read_apply]
  refine congrArg (V c (Pipeline.arrRef spec8 0)) (funext fun a => Fin.ext ?_)
  match a with
  | ⟨0, _⟩ => show win8_0.index t 0 * 5000 + 1 * p.val = t.val * 5000 + p.val; rw [e0]; omega
  | ⟨1, _⟩ => show win8_0.index t 1 * 128 + 1 * k.val = k.val; rw [e1]; omega

theorem iblk_h (c : Dev nD) (t : Fin cfg8.N) (p : Fin 5000) (k : Fin 128) (hp : t.val * 5000 + p.val < 50000) :
    (iblk8 V c 5 t : Vec Ideal S5000x128 .f32) (ix2 p k) = Hh V c (ix2 ⟨t.val * 5000 + p.val, hp⟩ k) := by
  obtain ⟨-, -, -, -, -, -, -, -, -, -, e0, e1, -⟩ := idx_facts t
  unfold iblk8
  rw [View.read_apply]
  refine congrArg (V c (Pipeline.arrRef spec8 5)) (funext fun a => Fin.ext ?_)
  match a with
  | ⟨0, _⟩ => show win8_5.index t 0 * 5000 + 1 * p.val = t.val * 5000 + p.val; rw [e0]; omega
  | ⟨1, _⟩ => show win8_5.index t 1 * 128 + 1 * k.val = k.val; rw [e1]; omega

theorem iblk_m (c : Dev nD) (t : Fin cfg8.N) : (iblk8 V c 1 t : Vec Ideal S1x128 .f32) = Mn V c := by
  obtain ⟨-, -, e0, e1, -⟩ := idx_facts t
  funext y
  unfold iblk8
  rw [View.read_apply]
  refine congrArg (V c (Pipeline.arrRef spec8 1)) (funext fun a => Fin.ext ?_)
  match a with
  | ⟨0, _⟩ => show win8_1.index t 0 * 1 + 1 * (y 0).val = (y 0).val; rw [e0]; omega
  | ⟨1, _⟩ => show win8_1.index t 1 * 128 + 1 * (y 1).val = (y 1).val; rw [e1]; omega

theorem iblk_v (c : Dev nD) (t : Fin cfg8.N) : (iblk8 V c 2 t : Vec Ideal S1x128 .f32) = Vr V c := by
  obtain ⟨-, -, -, -, e0, e1, -⟩ := idx_facts t
  funext y
  unfold iblk8
  rw [View.read_apply]
  refine congrArg (V c (Pipeline.arrRef spec8 2)) (funext fun a => Fin.ext ?_)
  match a with
  | ⟨0, _⟩ => show win8_2.index t 0 * 1 + 1 * (y 0).val = (y 0).val; rw [e0]; omega
  | ⟨1, _⟩ => show win8_2.index t 1 * 128 + 1 * (y 1).val = (y 1).val; rw [e1]; omega

theorem iblk_g (c : Dev nD) (t : Fin cfg8.N) : (iblk8 V c 3 t : Vec Ideal S1x128 .f32) = Gm V c := by
  obtain ⟨-, -, -, -, -, -, e0, e1, -⟩ := idx_facts t
  funext y
  unfold iblk8
  rw [View.read_apply]
  refine congrArg (V c (Pipeline.arrRef spec8 3)) (funext fun a => Fin.ext ?_)
  match a with
  | ⟨0, _⟩ => show win8_3.index t 0 * 1 + 1 * (y 0).val = (y 0).val; rw [e0]; omega
  | ⟨1, _⟩ => show win8_3.index t 1 * 128 + 1 * (y 1).val = (y 1).val; rw [e1]; omega

theorem iblk_b (c : Dev nD) (t : Fin cfg8.N) : (iblk8 V c 4 t : Vec Ideal S1x128 .f32) = Bt V c := by
  obtain ⟨-, -, -, -, -, -, -, -, e0, e1, -⟩ := idx_facts t
  funext y
  unfold iblk8
  rw [View.read_apply]
  refine congrArg (V c (Pipeline.arrRef spec8 4)) (funext fun a => Fin.ext ?_)
  match a with
  | ⟨0, _⟩ => show win8_4.index t 0 * 1 + 1 * (y 0).val = (y 0).val; rw [e0]; omega
  | ⟨1, _⟩ => show win8_4.index t 1 * 128 + 1 * (y 1).val = (y 1).val; rw [e1]; omega

/-- An entry of the tile at point `t` is the entry of the output array at row `5000·t + ` the tile's row. -/
theorem point (c : Dev nD) (t : Fin cfg8.N) (j : S5000x128.Idx) (i : S50000x128.Idx)
    (hi0 : (i 0).val = t.val * 5000 + (j 0).val) (hi1 : (i 1).val = (j 1).val) :
    k8_pay1 (iblk8 V c 0 t) (iblk8 V c 2 t) (iblk8 V c 3 t) (iblk8 V c 1 t) (iblk8 V c 4 t) (iblk8 V c 5 t) j
      = out (Cc V c) (Hh V c) (Mn V c) (Vr V c) (Gm V c) (Bt V c) i := by
  obtain ⟨p, q, rfl⟩ : ∃ (p : Fin 5000) (q : Fin 128), j = ix2 p q := ⟨j 0, j 1, eq_ix2 j⟩
  have ht : t.val < 10 := lt_of_lt_of_eq t.isLt (show cfg8.N = 10 from N_8)
  have hp : t.val * 5000 + p.val < 50000 := by have := p.isLt; omega
  rw [payD_apply, iblk_m, iblk_v, iblk_g, iblk_b, iblk_c V c t p q hp, iblk_h V c t p q hp]
  unfold out outAt
  have e0 : (⟨(i 0).val, idx2_lt0 i⟩ : Fin 50000) = ⟨t.val * 5000 + p.val, hp⟩ := Fin.ext hi0
  have e1 : (⟨(i 1).val, idx2_lt1 i⟩ : Fin 128) = q := Fin.ext hi1
  rw [e0, e1]

/-- What point `t` writes back is tile `t` of the output array. -/
theorem flushed_eq (c : Dev nD) (t : Fin cfg8.N) :
    (dat8 V c).flushed 6 t
      = ((cfg8.win 6).blk t).view.read (Elt Ideal) (out (Cc V c) (Hh V c) (Mn V c) (Vr V c) (Gm V c) (Bt V c)) := by
  show (cfg8.win 6).cut (grid8.coords t) ((dat8 V c).after 6 t) = _
  rw [after8_6]
  unfold out8_6
  rw [View.canon_unit_zero hz]
  simp only [View.ld_unit_zero (S := S5000x128) hz, View.ld_unit_zero (S := S1x128) hz]
  obtain ⟨-, -, -, -, -, -, -, -, -, -, -, -, e0, e1⟩ := idx_facts t
  funext j
  rw [View.read_apply]
  refine point V c t j _ ?_ ?_
  · show win8_6.index t 0 * 5000 + 1 * (j 0).val = t.val * 5000 + (j 0).val
    rw [e0]; omega
  · show win8_6.index t 1 * 128 + 1 * (j 1).val = (j 1).val
    rw [e1]; omega

theorem mem_blk (t : Fin cfg8.N) (i : S50000x128.Idx) :
    i ∈ ((cfg8.win 6).blk t).view.set ↔ ∀ a : Fin 2, win8_6.index t a * S5000x128.size a ≤ (i a).val
      ∧ (i a).val < win8_6.index t a * S5000x128.size a + S5000x128.size a := by
  show i ∈ ((View.whole main_v129).slice (win8_6.rect t)).set ↔ _
  rw [View.set_slice_whole, Rect.mem_set_unit]
  exact Iff.rfl

theorem cover (i : S50000x128.Idx) :
    ∃ t : Fin cfg8.N, (cfg8.win 6).flush t = true ∧ i ∈ ((cfg8.win 6).blk t).view.set := by
  have hi0 : (i 0).val < 50000 := idx2_lt0 i
  have hi1 : (i 1).val < 128 := idx2_lt1 i
  have hN : grid8.N = 10 := N_8
  have ht : (i 0).val / 5000 < cfg8.N := by show _ < grid8.N; rw [hN]; omega
  obtain ⟨-, -, -, -, -, -, -, -, -, -, -, -, e0, e1⟩ := idx_facts ⟨(i 0).val / 5000, ht⟩
  refine ⟨⟨(i 0).val / 5000, ht⟩, flush8_6 _, ?_⟩
  rw [mem_blk]
  intro a
  match a with
  | ⟨0, _⟩ =>
    show win8_6.index ⟨(i 0).val / 5000, ht⟩ 0 * 5000 ≤ (i 0).val ∧ (i 0).val < win8_6.index ⟨(i 0).val / 5000, ht⟩ 0 * 5000 + 5000
    rw [e0]; show (i 0).val / 5000 * 5000 ≤ (i 0).val ∧ (i 0).val < (i 0).val / 5000 * 5000 + 5000; omega
  | ⟨1, _⟩ =>
    show win8_6.index ⟨(i 0).val / 5000, ht⟩ 1 * 128 ≤ (i 1).val ∧ (i 1).val < win8_6.index ⟨(i 0).val / 5000, ht⟩ 1 * 128 + 128
    rw [e1]; omega

/-- After the region the output array is the layer's output of the arrays the region finds. -/
theorem final (c : Dev nD) :
    (dat8 V c).arrAt 6 cfg8.N = out (Cc V c) (Hh V c) (Mn V c) (Vr V c) (Gm V c) (Bt V c) :=
  (dat8 V c).arrAt_eq_of_cover 6 _ (fun t _ => flushed_eq V c t) cover

end Cert.KernelIdeal.KStageDVal_L1

end
-- ==== Proof.KLayer1.lean ====
/-
  Layer 1 on the kernel side, stage by stage: each region's arrays and each host stretch's results, read through the
  segment boundaries, are the reference's stages (`RefSpec`) of the same inputs.
-/
import proofs.«140776_j80633716015159_1_alg».proof.Proof.Gen.KernelIdeal.Frame
import proofs.«140776_j80633716015159_1_alg».proof.Proof.KHost
import proofs.«140776_j80633716015159_1_alg».proof.Proof.KStageAVal_L1
import proofs.«140776_j80633716015159_1_alg».proof.Proof.KStageBVal_L1
import proofs.«140776_j80633716015159_1_alg».proof.Proof.KStageCVal_L1
import proofs.«140776_j80633716015159_1_alg».proof.Proof.KStageDVal_L1
import proofs.«140776_j80633716015159_1_alg».proof.Proof.RefSpec
import proofs.«140776_j80633716015159_1_alg».proof.Proof.StatsBridge
import proofs.«140776_j80633716015159_1_alg».proof.Proof.LayerReal

set_option maxRecDepth 16384

noncomputable section

namespace Cert.KernelIdeal.KLayer1

open Cert.KernelIdeal Cert.KernelIdeal.Gen
open Idealize.ShloMosaic Idealize.ShloMosaic.TcCoe Idealize.ShloMosaic.ValueIdx Idealize.SL.Sem Idealize.ShloMosaic.StableHlo
open Cert.ReferenceIdeal (RefSpec.layer)
open LibBatchNorm (IsReal)

variable (m : (ℓ : Loc nD τ sig) → Buf (Elt Ideal) ℓ) (ρ : Dev nD → PrngReg) (c : Dev nD)

/-- The layer's input features and the edge lists, at the layer's entry. -/
abbrev hin : S50000x128.Idx → EReal := W10 m ρ c (Proc.devRef .tc main_v65)
abbrev src : IVec S1600000 32 := W10 m ρ c (Proc.devRef .tc main_arg1)
abbrev dst : IVec S1600000 32 := W10 m ρ c (Proc.devRef .tc main_arg2)

/-- The layer's parameter slices, as the reference takes them. -/
abbrev pe : FVec Ideal S_ .f32 := shapeCast S_ (extractStridedSlice S1 ![1] (W10 m ρ c (Proc.devRef .tc main_arg5)) slices_S4_S1_1) shapeCasts_S1_S_
abbrev pw1 : FVec Ideal S128x128 .f32 := shapeCast S128x128 (extractStridedSlice S1x128x128 ![1, 0, 0] (W10 m ρ c (Proc.devRef .tc main_arg6)) slices_S4x128x128_S1x128x128_1_0_0) shapeCasts_S1x128x128_S128x128
abbrev pb1 : FVec Ideal S128 .f32 := shapeCast S128 (extractStridedSlice S1x128 ![1, 0] (W10 m ρ c (Proc.devRef .tc main_arg7)) slices_S4x128_S1x128_1_0) shapeCasts_S1x128_S128

/-- The first stage's result, as the reference computes it. -/
abbrev y1R : FVec Ideal S50000x128 .f32 :=
  Cert.ReferenceIdeal.RefSpec.dense (Cert.ReferenceIdeal.RefSpec.mix (pe m ρ c) (hin m ρ c) (src m ρ c) (dst m ρ c)) (pw1 m ρ c) (pb1 m ρ c)

/-- Region 1's input arrays, read back through the first host stretch. -/
theorem in_h : KStageAVal_L1.H (V11 m ρ) c = hin m ρ c := KHost.h5_keep_main_v65 (W10 m ρ c)
theorem in_nb : KStageAVal_L1.NB (V11 m ρ) c = Cert.ReferenceIdeal.RefSpec.agg (F := Ideal) (hin m ρ c) (src m ρ c) (dst m ρ c) :=
  (KHost.h5_main_v75 (W10 m ρ c)).trans rfl

theorem in_s (x : Fin 1) : KStageAVal_L1.SC (V11 m ρ) c (ix2 (0 : Fin 1) (0 : Fin 1))
    = Ideal.ofBits .f32 0x3F800000#32 + pe m ρ c (Shape.Idx.first Cert.ReferenceIdeal.Gen.h_S_) := by
  show W11 m ρ c (Proc.devRef .tc main_v79) (ix2 (0 : Fin 1) (0 : Fin 1)) = _
  rw [show W11 m ρ c (Proc.devRef .tc main_v79) = _ from KHost.h5_main_v79 (W10 m ρ c)]
  exact shapeCast_apply _ shapeCasts_S_S1x1 (ix2 (0 : Fin 1) (0 : Fin 1)) (Shape.Idx.first Cert.ReferenceIdeal.Gen.h_S_) rfl

theorem in_w : KStageAVal_L1.Wt (V11 m ρ) c = pw1 m ρ c := (KHost.h5_main_v84 (W10 m ρ c)).trans rfl

theorem in_b (q : Fin 128) : KStageAVal_L1.Bs (V11 m ρ) c (ix2 (0 : Fin 1) q) = pb1 m ρ c (ix1 q) := by
  show W11 m ρ c (Proc.devRef .tc main_v82) (ix2 (0 : Fin 1) q) = _
  rw [show W11 m ρ c (Proc.devRef .tc main_v82) = _ from KHost.h5_main_v82 (W10 m ρ c)]
  exact shapeCast_a_1a_apply _ shapeCasts_S128_S1x128 (0 : Fin 1) q

/-- The first region's tile output is the reference's first stage. -/
theorem y1_eq : (dat5 (V11 m ρ) c).arrAt 5 cfg5.N = y1R m ρ c := by
  rw [KStageAVal_L1.final5]
  funext i
  obtain ⟨p, q, rfl⟩ : ∃ (p : Fin 50000) (q : Fin 128), i = ix2 p q := ⟨i 0, i 1, eq_ix2 i⟩
  show KStageAVal_L1.y1At _ _ _ _ _ p q = _
  unfold KStageAVal_L1.y1At
  show _ = Cert.ReferenceIdeal.RefSpec.dense (F := Ideal) _ _ _ (ix2 p q)
  rw [Cert.ReferenceIdeal.RefSpec.dense_apply, in_s m ρ c 0, in_w, in_b, in_h, in_nb]
  refine congrArg (· + _) (Finset.sum_congr rfl fun k _ => ?_)
  rw [Cert.ReferenceIdeal.RefSpec.mix_apply]

/-! ## Means and variances from the accumulated sums -/

section Stats

open Cert.ReferenceIdeal.RefStats (meanAt varAt)

/-- The host's mean row from an accumulated row of column sums. -/
theorem mean_of_sum (y : FVec Ideal S50000x128 .f32) (s1 : FVec Ideal S1x128 .f32)
    (h1 : ∀ q : Fin 128, s1 (ix2 (0 : Fin 1) q) = Ideal.ofBits .f32 0x00000000#32 + ∑ r : Fin 50000, y (ix2 r q)) (q : Fin 128) :
    (Host.divf s1 (broadcastInDim S1x128 ![] bcast_S_S1x128 (constant (F := Ideal) S_ .f32 0x47435000#32)) : FVec Ideal S1x128 .f32)
      (ix2 (0 : Fin 1) q) = meanAt y q := by
  unfold Host.divf
  rw [h1, broadcastInDim_apply _ _ _ (ix2 (0 : Fin 1) q) (Shape.Idx.first Cert.ReferenceIdeal.Gen.h_S_) fun a => a.elim0]
  rfl

/-- The host's variance row from the two accumulated rows, for a real array. -/
theorem var_of_sums (y : FVec Ideal S50000x128 .f32) (s1 s2 : FVec Ideal S1x128 .f32)
    (h1 : ∀ q : Fin 128, s1 (ix2 (0 : Fin 1) q) = Ideal.ofBits .f32 0x00000000#32 + ∑ r : Fin 50000, y (ix2 r q))
    (h2 : ∀ q : Fin 128, s2 (ix2 (0 : Fin 1) q) = Ideal.ofBits .f32 0x00000000#32 + ∑ r : Fin 50000, y (ix2 r q) * y (ix2 r q))
    (hy : ∀ (r : Fin 50000) (q : Fin 128), IsReal (y (ix2 r q))) (q : Fin 128) :
    (subf (Host.divf s2 (broadcastInDim S1x128 ![] bcast_S_S1x128 (constant (F := Ideal) S_ .f32 0x47435000#32)))
        (mulf (Host.divf s1 (broadcastInDim S1x128 ![] bcast_S_S1x128 (constant (F := Ideal) S_ .f32 0x47435000#32)))
          (Host.divf s1 (broadcastInDim S1x128 ![] bcast_S_S1x128 (constant (F := Ideal) S_ .f32 0x47435000#32)))) :
      FVec Ideal S1x128 .f32) (ix2 (0 : Fin 1) q) = varAt y q := by
  have hb : (broadcastInDim S1x128 ![] bcast_S_S1x128 (constant (F := Ideal) S_ .f32 0x47435000#32) : FVec Ideal S1x128 .f32)
      (ix2 (0 : Fin 1) q) = Ideal.ofBits .f32 0x47435000#32 :=
    broadcastInDim_apply _ _ _ (ix2 (0 : Fin 1) q) (Shape.Idx.first Cert.ReferenceIdeal.Gen.h_S_) fun a => a.elim0
  show Ideal.div (s2 (ix2 (0 : Fin 1) q)) (broadcastInDim S1x128 ![] bcast_S_S1x128 (constant (F := Ideal) S_ .f32 0x47435000#32) (ix2 (0 : Fin 1) q))
      - Ideal.div (s1 (ix2 (0 : Fin 1) q)) (broadcastInDim S1x128 ![] bcast_S_S1x128 (constant (F := Ideal) S_ .f32 0x47435000#32) (ix2 (0 : Fin 1) q))
        * Ideal.div (s1 (ix2 (0 : Fin 1) q)) (broadcastInDim S1x128 ![] bcast_S_S1x128 (constant (F := Ideal) S_ .f32 0x47435000#32) (ix2 (0 : Fin 1) q)) = _
  rw [hb, h1, h2]
  exact Cert.StatsBridge.var_forms y hy q

end Stats

/-! ## The other parameter slices -/

abbrev pg1 : FVec Ideal S128 .f32 := shapeCast S128 (extractStridedSlice S1x128 ![1, 0] (W10 m ρ c (Proc.devRef .tc main_arg8)) slices_S4x128_S1x128_1_0) shapeCasts_S1x128_S128
abbrev pbe1 : FVec Ideal S128 .f32 := shapeCast S128 (extractStridedSlice S1x128 ![1, 0] (W10 m ρ c (Proc.devRef .tc main_arg9)) slices_S4x128_S1x128_1_0) shapeCasts_S1x128_S128
abbrev pw2 : FVec Ideal S128x128 .f32 := shapeCast S128x128 (extractStridedSlice S1x128x128 ![1, 0, 0] (W10 m ρ c (Proc.devRef .tc main_arg10)) slices_S4x128x128_S1x128x128_1_0_0) shapeCasts_S1x128x128_S128x128
abbrev pb2 : FVec Ideal S128 .f32 := shapeCast S128 (extractStridedSlice S1x128 ![1, 0] (W10 m ρ c (Proc.devRef .tc main_arg11)) slices_S4x128_S1x128_1_0) shapeCasts_S1x128_S128
abbrev pga : FVec Ideal S128 .f32 := shapeCast S128 (extractStridedSlice S1x128 ![1, 0] (W10 m ρ c (Proc.devRef .tc main_arg12)) slices_S4x128_S1x128_1_0) shapeCasts_S1x128_S128
abbrev pba : FVec Ideal S128 .f32 := shapeCast S128 (extractStridedSlice S1x128 ![1, 0] (W10 m ρ c (Proc.devRef .tc main_arg13)) slices_S4x128_S1x128_1_0) shapeCasts_S1x128_S128
abbrev pgl : FVec Ideal S128 .f32 := shapeCast S128 (extractStridedSlice S1x128 ![1, 0] (W10 m ρ c (Proc.devRef .tc main_arg14)) slices_S4x128_S1x128_1_0) shapeCasts_S1x128_S128
abbrev pbl : FVec Ideal S128 .f32 := shapeCast S128 (extractStridedSlice S1x128 ![1, 0] (W10 m ρ c (Proc.devRef .tc main_arg15)) slices_S4x128_S1x128_1_0) shapeCasts_S1x128_S128

/-- A parameter row as the kernel stages it (the slice made a vector, then a one-row matrix), at a column. -/
theorem row_param (a a' : FVec Ideal S4x128 .f32) (h : a = a') (q : Fin 128) :
    (shapeCast S1x128 (shapeCast S128 (extractStridedSlice S1x128 ![1, 0] a slices_S4x128_S1x128_1_0) shapeCasts_S1x128_S128)
        shapeCasts_S128_S1x128 : FVec Ideal S1x128 .f32) (ix2 (0 : Fin 1) q)
      = (shapeCast S128 (extractStridedSlice S1x128 ![1, 0] a' slices_S4x128_S1x128_1_0) shapeCasts_S1x128_S128 : FVec Ideal S128 .f32) (ix1 q) := by
  subst h
  exact shapeCast_a_1a_apply _ shapeCasts_S128_S1x128 (0 : Fin 1) q

/-- The argument buffers are untouched between the layer's entry and its later stretches. -/
theorem w4_arg (a : Ref sig .tc) (h1 : ∀ w, Pipeline.arrRef spec5 w ≠ a)
    (hk : StableHlo.after hostOps5 (W10 m ρ c) (Proc.devRef .tc a) = W10 m ρ c (Proc.devRef .tc a)) :
    W12 m ρ c (Proc.devRef .tc a) = W10 m ρ c (Proc.devRef .tc a) := (W12_of_ne m ρ c a h1).trans hk
theorem w6_arg (a : Ref sig .tc) (h1 : ∀ w, Pipeline.arrRef spec5 w ≠ a) (h2 : ∀ w, Pipeline.arrRef spec6 w ≠ a)
    (hk1 : StableHlo.after hostOps5 (W10 m ρ c) (Proc.devRef .tc a) = W10 m ρ c (Proc.devRef .tc a))
    (hk2 : StableHlo.after hostOps6 (W12 m ρ c) (Proc.devRef .tc a) = W12 m ρ c (Proc.devRef .tc a)) :
    W14 m ρ c (Proc.devRef .tc a) = W10 m ρ c (Proc.devRef .tc a) :=
  ((W14_of_ne m ρ c a h2).trans hk2).trans (w4_arg m ρ c a h1 hk1)
theorem w8_arg (a : Ref sig .tc) (h1 : ∀ w, Pipeline.arrRef spec5 w ≠ a) (h2 : ∀ w, Pipeline.arrRef spec6 w ≠ a)
    (h3 : ∀ w, Pipeline.arrRef spec7 w ≠ a)
    (hk1 : StableHlo.after hostOps5 (W10 m ρ c) (Proc.devRef .tc a) = W10 m ρ c (Proc.devRef .tc a))
    (hk2 : StableHlo.after hostOps6 (W12 m ρ c) (Proc.devRef .tc a) = W12 m ρ c (Proc.devRef .tc a))
    (hk3 : StableHlo.after hostOps7 (W14 m ρ c) (Proc.devRef .tc a) = W14 m ρ c (Proc.devRef .tc a)) :
    W16 m ρ c (Proc.devRef .tc a) = W10 m ρ c (Proc.devRef .tc a) :=
  ((W16_of_ne m ρ c a h3).trans hk3).trans (w6_arg m ρ c a h1 h2 hk1 hk2)

theorem w10_arg (a : Ref sig .tc) (h1 : ∀ w, Pipeline.arrRef spec5 w ≠ a) (h2 : ∀ w, Pipeline.arrRef spec6 w ≠ a)
    (h3 : ∀ w, Pipeline.arrRef spec7 w ≠ a) (h4 : ∀ w, Pipeline.arrRef spec8 w ≠ a)
    (hk1 : StableHlo.after hostOps5 (W10 m ρ c) (Proc.devRef .tc a) = W10 m ρ c (Proc.devRef .tc a))
    (hk2 : StableHlo.after hostOps6 (W12 m ρ c) (Proc.devRef .tc a) = W12 m ρ c (Proc.devRef .tc a))
    (hk3 : StableHlo.after hostOps7 (W14 m ρ c) (Proc.devRef .tc a) = W14 m ρ c (Proc.devRef .tc a))
    (hk4 : StableHlo.after hostOps8 (W16 m ρ c) (Proc.devRef .tc a) = W16 m ρ c (Proc.devRef .tc a)) :
    W18 m ρ c (Proc.devRef .tc a) = W10 m ρ c (Proc.devRef .tc a) :=
  ((W18_of_ne m ρ c a h4).trans hk4).trans (w8_arg m ρ c a h1 h2 h3 hk1 hk2 hk3)

/-! ## Stage 1's statistics, stage 2 -/

section Stage2

open Cert.ReferenceIdeal.RefStats (meanAt varAt)
open Cert.ReferenceIdeal (RefSpec.dense RefSpec.norm)

variable (hy1 : ∀ (r : Fin 50000) (q : Fin 128), IsReal (y1R m ρ c (ix2 r q)))

theorem sum1 (q : Fin 128) : W12 m ρ c (Proc.devRef .tc main_v85_1) (ix2 (0 : Fin 1) q)
    = Ideal.ofBits .f32 0x00000000#32 + ∑ r : Fin 50000, y1R m ρ c (ix2 r q) := by
  have h := KStageAVal_L1.sum_apply (V11 m ρ) c q
  rw [← KStageAVal_L1.final5, y1_eq] at h
  exact (congrFun (W12_arr m ρ c 6) _).trans h

theorem sumsq1 (q : Fin 128) : W12 m ρ c (Proc.devRef .tc main_v85_2) (ix2 (0 : Fin 1) q)
    = Ideal.ofBits .f32 0x00000000#32 + ∑ r : Fin 50000, y1R m ρ c (ix2 r q) * y1R m ρ c (ix2 r q) := by
  have h := KStageAVal_L1.sumsq_apply (V11 m ρ) c q
  rw [← KStageAVal_L1.final5, y1_eq] at h
  exact (congrFun (W12_arr m ρ c 7) _).trans h

include hy1

/-- The second stage's result, as the reference computes it. -/
abbrev y2R : FVec Ideal S50000x128 .f32 :=
  Cert.ReferenceIdeal.RefSpec.dense (Cert.ReferenceIdeal.RefSpec.norm (y1R m ρ c) (pg1 m ρ c) (pbe1 m ρ c)) (pw2 m ρ c) (pb2 m ρ c)

theorem in2_y : KStageBVal_L1.Y1 (V13 m ρ) c = y1R m ρ c :=
  ((KHost.h6_keep_main_v85_0 (W12 m ρ c)).trans (W12_arr m ρ c 5)).trans (y1_eq m ρ c)

theorem in2_m (q : Fin 128) : KStageBVal_L1.M (V13 m ρ) c (ix2 (0 : Fin 1) q) = meanAt (y1R m ρ c) q := by
  show W13 m ρ c (Proc.devRef .tc main_v87) (ix2 (0 : Fin 1) q) = _
  rw [show W13 m ρ c (Proc.devRef .tc main_v87) = _ from KHost.h6_main_v87 (W12 m ρ c)]
  exact mean_of_sum (y1R m ρ c) _ (sum1 m ρ c) q

theorem in2_v (q : Fin 128) : KStageBVal_L1.Vr (V13 m ρ) c (ix2 (0 : Fin 1) q) = varAt (y1R m ρ c) q := by
  show W13 m ρ c (Proc.devRef .tc main_v91) (ix2 (0 : Fin 1) q) = _
  rw [show W13 m ρ c (Proc.devRef .tc main_v91) = _ from KHost.h6_main_v91 (W12 m ρ c)]
  exact var_of_sums (y1R m ρ c) _ _ (sum1 m ρ c) (sumsq1 m ρ c) hy1 q

theorem in2_g (q : Fin 128) : KStageBVal_L1.G (V13 m ρ) c (ix2 (0 : Fin 1) q) = pg1 m ρ c (ix1 q) := by
  show W13 m ρ c (Proc.devRef .tc main_v94) (ix2 (0 : Fin 1) q) = _
  rw [show W13 m ρ c (Proc.devRef .tc main_v94) = _ from KHost.h6_main_v94 (W12 m ρ c)]
  exact row_param _ _ (w4_arg m ρ c main_arg8 (by decide) (KHost.h5_keep_main_arg8 _)) q

theorem in2_be (q : Fin 128) : KStageBVal_L1.Be (V13 m ρ) c (ix2 (0 : Fin 1) q) = pbe1 m ρ c (ix1 q) := by
  show W13 m ρ c (Proc.devRef .tc main_v97) (ix2 (0 : Fin 1) q) = _
  rw [show W13 m ρ c (Proc.devRef .tc main_v97) = _ from KHost.h6_main_v97 (W12 m ρ c)]
  exact row_param _ _ (w4_arg m ρ c main_arg9 (by decide) (KHost.h5_keep_main_arg9 _)) q

theorem in2_w : KStageBVal_L1.Wt (V13 m ρ) c = pw2 m ρ c := by
  show W13 m ρ c (Proc.devRef .tc main_v102) = _
  rw [show W13 m ρ c (Proc.devRef .tc main_v102) = _ from KHost.h6_main_v102 (W12 m ρ c),
    w4_arg m ρ c main_arg10 (by decide) (KHost.h5_keep_main_arg10 _)]

theorem in2_b (q : Fin 128) : KStageBVal_L1.Bs (V13 m ρ) c (ix2 (0 : Fin 1) q) = pb2 m ρ c (ix1 q) := by
  show W13 m ρ c (Proc.devRef .tc main_v100) (ix2 (0 : Fin 1) q) = _
  rw [show W13 m ρ c (Proc.devRef .tc main_v100) = _ from KHost.h6_main_v100 (W12 m ρ c)]
  exact row_param _ _ (w4_arg m ρ c main_arg11 (by decide) (KHost.h5_keep_main_arg11 _)) q

/-- The second region's tile output is the reference's second stage. -/
theorem y2_eq : (dat6 (V13 m ρ) c).arrAt 7 cfg6.N = y2R m ρ c := by
  rw [KStageBVal_L1.final7]
  funext i
  obtain ⟨p, q, rfl⟩ : ∃ (p : Fin 50000) (q : Fin 128), i = ix2 p q := ⟨i 0, i 1, eq_ix2 i⟩
  show KStageBVal_L1.y2At _ _ _ _ _ _ _ p q = _
  unfold KStageBVal_L1.y2At
  show _ = Cert.ReferenceIdeal.RefSpec.dense (F := Ideal) _ _ _ (ix2 p q)
  rw [Cert.ReferenceIdeal.RefSpec.dense_apply, in2_y m ρ c hy1, in2_w m ρ c hy1, in2_b m ρ c hy1]
  refine congrArg (· + _) (Finset.sum_congr rfl fun k _ => ?_)
  rw [Cert.ReferenceIdeal.RefSpec.norm_apply, in2_m m ρ c hy1, in2_v m ρ c hy1, in2_g m ρ c hy1, in2_be m ρ c hy1]
  rfl

end Stage2

/-! ## Stage 2's statistics, stage 3 -/

section Stage3

open Cert.ReferenceIdeal.RefStats (meanAt varAt)

variable (hy1 : ∀ (r : Fin 50000) (q : Fin 128), IsReal (y1R m ρ c (ix2 r q)))
variable (hy2 : ∀ (r : Fin 50000) (q : Fin 128), IsReal (y2R m ρ c (ix2 r q)))

include hy1 hy2

theorem sum2 (q : Fin 128) : W14 m ρ c (Proc.devRef .tc main_v103_1) (ix2 (0 : Fin 1) q)
    = Ideal.ofBits .f32 0x00000000#32 + ∑ r : Fin 50000, y2R m ρ c (ix2 r q) := by
  have h := KStageBVal_L1.sum_apply (V13 m ρ) c q
  rw [← KStageBVal_L1.final7, y2_eq m ρ c hy1] at h
  exact (congrFun (W14_arr m ρ c 8) _).trans h

theorem sumsq2 (q : Fin 128) : W14 m ρ c (Proc.devRef .tc main_v103_2) (ix2 (0 : Fin 1) q)
    = Ideal.ofBits .f32 0x00000000#32 + ∑ r : Fin 50000, y2R m ρ c (ix2 r q) * y2R m ρ c (ix2 r q) := by
  have h := KStageBVal_L1.sumsq_apply (V13 m ρ) c q
  rw [← KStageBVal_L1.final7, y2_eq m ρ c hy1] at h
  exact (congrFun (W14_arr m ρ c 9) _).trans h

/-- The third stage's result, as the reference computes it. -/
abbrev cR : FVec Ideal S50000x128 .f32 := Cert.ReferenceIdeal.RefSpec.norm (y2R m ρ c) (pga m ρ c) (pba m ρ c)

theorem in3_y : KStageCVal_L1.Y2 (V15 m ρ) c = y2R m ρ c :=
  ((KHost.h7_keep_main_v103_0 (W14 m ρ c)).trans (W14_arr m ρ c 7)).trans (y2_eq m ρ c hy1)

theorem in3_m (q : Fin 128) : KStageCVal_L1.M (V15 m ρ) c (ix2 (0 : Fin 1) q) = meanAt (y2R m ρ c) q := by
  show W15 m ρ c (Proc.devRef .tc main_v105) (ix2 (0 : Fin 1) q) = _
  rw [show W15 m ρ c (Proc.devRef .tc main_v105) = _ from KHost.h7_main_v105 (W14 m ρ c)]
  exact mean_of_sum (y2R m ρ c) _ (sum2 m ρ c hy1 hy2) q

theorem in3_v (q : Fin 128) : KStageCVal_L1.Vr (V15 m ρ) c (ix2 (0 : Fin 1) q) = varAt (y2R m ρ c) q := by
  show W15 m ρ c (Proc.devRef .tc main_v109) (ix2 (0 : Fin 1) q) = _
  rw [show W15 m ρ c (Proc.devRef .tc main_v109) = _ from KHost.h7_main_v109 (W14 m ρ c)]
  exact var_of_sums (y2R m ρ c) _ _ (sum2 m ρ c hy1 hy2) (sumsq2 m ρ c hy1 hy2) hy2 q

theorem in3_g (q : Fin 128) : KStageCVal_L1.G (V15 m ρ) c (ix2 (0 : Fin 1) q) = pga m ρ c (ix1 q) := by
  show W15 m ρ c (Proc.devRef .tc main_v112) (ix2 (0 : Fin 1) q) = _
  rw [show W15 m ρ c (Proc.devRef .tc main_v112) = _ from KHost.h7_main_v112 (W14 m ρ c)]
  exact row_param _ _ (w6_arg m ρ c main_arg12 (by decide) (by decide) (KHost.h5_keep_main_arg12 _) (KHost.h6_keep_main_arg12 _)) q

theorem in3_be (q : Fin 128) : KStageCVal_L1.Be (V15 m ρ) c (ix2 (0 : Fin 1) q) = pba m ρ c (ix1 q) := by
  show W15 m ρ c (Proc.devRef .tc main_v115) (ix2 (0 : Fin 1) q) = _
  rw [show W15 m ρ c (Proc.devRef .tc main_v115) = _ from KHost.h7_main_v115 (W14 m ρ c)]
  exact row_param _ _ (w6_arg m ρ c main_arg13 (by decide) (by decide) (KHost.h5_keep_main_arg13 _) (KHost.h6_keep_main_arg13 _)) q

/-- The third region's tile output is the reference's third stage. -/
theorem c_eq : (dat7 (V15 m ρ) c).arrAt 5 cfg7.N = cR m ρ c := by
  rw [KStageCVal_L1.final5]
  funext i
  obtain ⟨p, q, rfl⟩ : ∃ (p : Fin 50000) (q : Fin 128), i = ix2 p q := ⟨i 0, i 1, eq_ix2 i⟩
  show KStageCVal_L1.cAt _ _ _ _ _ p q = _
  unfold KStageCVal_L1.cAt
  show _ = Cert.ReferenceIdeal.RefSpec.norm (F := Ideal) _ _ _ (ix2 p q)
  rw [Cert.ReferenceIdeal.RefSpec.norm_apply, in3_y m ρ c hy1 hy2, in3_m m ρ c hy1 hy2, in3_v m ρ c hy1 hy2, in3_g m ρ c hy1 hy2, in3_be m ρ c hy1 hy2]
  rfl

end Stage3

/-! ## Stage 3's statistics, the closing stage -/

section Stage4

open Cert.ReferenceIdeal.RefStats (meanAt varAt)

variable (hy1 : ∀ (r : Fin 50000) (q : Fin 128), IsReal (y1R m ρ c (ix2 r q)))
variable (hy2 : ∀ (r : Fin 50000) (q : Fin 128), IsReal (y2R m ρ c (ix2 r q)))
variable (hc : ∀ (r : Fin 50000) (q : Fin 128), IsReal (cR m ρ c (ix2 r q)))

include hy1 hy2 hc

theorem sum3 (q : Fin 128) : W16 m ρ c (Proc.devRef .tc main_v116_1) (ix2 (0 : Fin 1) q)
    = Ideal.ofBits .f32 0x00000000#32 + ∑ r : Fin 50000, cR m ρ c (ix2 r q) := by
  have h := KStageCVal_L1.sum_apply (V15 m ρ) c q
  rw [← KStageCVal_L1.final5, c_eq m ρ c hy1 hy2] at h
  exact (congrFun (W16_arr m ρ c 6) _).trans h

theorem sumsq3 (q : Fin 128) : W16 m ρ c (Proc.devRef .tc main_v116_2) (ix2 (0 : Fin 1) q)
    = Ideal.ofBits .f32 0x00000000#32 + ∑ r : Fin 50000, cR m ρ c (ix2 r q) * cR m ρ c (ix2 r q) := by
  have h := KStageCVal_L1.sumsq_apply (V15 m ρ) c q
  rw [← KStageCVal_L1.final5, c_eq m ρ c hy1 hy2] at h
  exact (congrFun (W16_arr m ρ c 7) _).trans h

theorem in4_c : KStageDVal_L1.Cc (V17 m ρ) c = cR m ρ c :=
  ((KHost.h8_keep_main_v116_0 (W16 m ρ c)).trans (W16_arr m ρ c 5)).trans (c_eq m ρ c hy1 hy2)

theorem in4_m (q : Fin 128) : KStageDVal_L1.Mn (V17 m ρ) c (ix2 (0 : Fin 1) q) = meanAt (cR m ρ c) q := by
  show W17 m ρ c (Proc.devRef .tc main_v118) (ix2 (0 : Fin 1) q) = _
  rw [show W17 m ρ c (Proc.devRef .tc main_v118) = _ from KHost.h8_main_v118 (W16 m ρ c)]
  exact mean_of_sum (cR m ρ c) _ (sum3 m ρ c hy1 hy2 hc) q

theorem in4_v (q : Fin 128) : KStageDVal_L1.Vr (V17 m ρ) c (ix2 (0 : Fin 1) q) = varAt (cR m ρ c) q := by
  show W17 m ρ c (Proc.devRef .tc main_v122) (ix2 (0 : Fin 1) q) = _
  rw [show W17 m ρ c (Proc.devRef .tc main_v122) = _ from KHost.h8_main_v122 (W16 m ρ c)]
  exact var_of_sums (cR m ρ c) _ _ (sum3 m ρ c hy1 hy2 hc) (sumsq3 m ρ c hy1 hy2 hc) hc q

theorem in4_g (q : Fin 128) : KStageDVal_L1.Gm (V17 m ρ) c (ix2 (0 : Fin 1) q) = pgl m ρ c (ix1 q) := by
  show W17 m ρ c (Proc.devRef .tc main_v125) (ix2 (0 : Fin 1) q) = _
  rw [show W17 m ρ c (Proc.devRef .tc main_v125) = _ from KHost.h8_main_v125 (W16 m ρ c)]
  exact row_param _ _ (w8_arg m ρ c main_arg14 (by decide) (by decide) (by decide) (KHost.h5_keep_main_arg14 _) (KHost.h6_keep_main_arg14 _) (KHost.h7_keep_main_arg14 _)) q

theorem in4_be (q : Fin 128) : KStageDVal_L1.Bt (V17 m ρ) c (ix2 (0 : Fin 1) q) = pbl m ρ c (ix1 q) := by
  show W17 m ρ c (Proc.devRef .tc main_v128) (ix2 (0 : Fin 1) q) = _
  rw [show W17 m ρ c (Proc.devRef .tc main_v128) = _ from KHost.h8_main_v128 (W16 m ρ c)]
  exact row_param _ _ (w8_arg m ρ c main_arg15 (by decide) (by decide) (by decide) (KHost.h5_keep_main_arg15 _) (KHost.h6_keep_main_arg15 _) (KHost.h7_keep_main_arg15 _)) q

theorem in4_h : KStageDVal_L1.Hh (V17 m ρ) c = hin m ρ c :=
  (KHost.h8_keep_main_v65 (W16 m ρ c)).trans <| (W16_of_ne m ρ c main_v65 (by decide)).trans <|
    (KHost.h7_keep_main_v65 (W14 m ρ c)).trans <| (W14_of_ne m ρ c main_v65 (by decide)).trans <|
    (KHost.h6_keep_main_v65 (W12 m ρ c)).trans <| (W12_arr m ρ c 0).trans <|
    ((dat5 (V11 m ρ) c).arrAt_in 0 rfl _).trans <| (A_eq5 (V11 m ρ) c 0).trans (KHost.h5_keep_main_v65 (W10 m ρ c))

/-- THE LAYER: the closing region's output array is the reference's layer of the layer's input and parameter slices. -/
theorem layer_eq :
    W18 m ρ c (Proc.devRef .tc main_v129)
      = Cert.ReferenceIdeal.RefSpec.layer (src m ρ c) (hin m ρ c) (dst m ρ c) (pe m ρ c) (pw1 m ρ c) (pb1 m ρ c) (pg1 m ρ c)
          (pbe1 m ρ c) (pw2 m ρ c) (pb2 m ρ c) (pga m ρ c) (pba m ρ c) (pgl m ρ c) (pbl m ρ c) := by
  refine (W18_arr m ρ c 6).trans ?_
  rw [KStageDVal_L1.final]
  funext i
  obtain ⟨p, q, rfl⟩ : ∃ (p : Fin 50000) (q : Fin 128), i = ix2 p q := ⟨i 0, i 1, eq_ix2 i⟩
  show KStageDVal_L1.outAt _ _ _ _ _ _ p q = _
  unfold KStageDVal_L1.outAt Cert.ReferenceIdeal.RefSpec.layer
  rw [in4_c m ρ c hy1 hy2 hc, in4_h m ρ c hy1 hy2 hc, in4_m m ρ c hy1 hy2 hc, in4_v m ρ c hy1 hy2 hc, in4_g m ρ c hy1 hy2 hc, in4_be m ρ c hy1 hy2 hc]
  show _ = hin m ρ c (ix2 p q) + Cert.ReferenceIdeal.RefSpec.norm (F := Ideal) (cR m ρ c) (pgl m ρ c) (pbl m ρ c) (ix2 p q)
  rw [Cert.ReferenceIdeal.RefSpec.norm_apply]
  rfl

end Stage4

/-- THE LAYER, from real inputs: with the layer's input features and parameter slices real, every intermediate is real,
    so the two forms of each variance agree and the kernel's layer is the reference's. -/
theorem layer_eq_real
    (hh : ∀ (p : Fin 50000) (q : Fin 128), IsReal (hin m ρ c (ix2 p q)))
    (he : IsReal (pe m ρ c (Shape.Idx.first Cert.ReferenceIdeal.Gen.h_S_)))
    (hw1 : ∀ (k q : Fin 128), IsReal (pw1 m ρ c (ix2 k q))) (hb1 : ∀ q : Fin 128, IsReal (pb1 m ρ c (ix1 q)))
    (hg1 : ∀ q : Fin 128, IsReal (pg1 m ρ c (ix1 q))) (hbe1 : ∀ q : Fin 128, IsReal (pbe1 m ρ c (ix1 q)))
    (hw2 : ∀ (k q : Fin 128), IsReal (pw2 m ρ c (ix2 k q))) (hb2 : ∀ q : Fin 128, IsReal (pb2 m ρ c (ix1 q)))
    (hga : ∀ q : Fin 128, IsReal (pga m ρ c (ix1 q))) (hba : ∀ q : Fin 128, IsReal (pba m ρ c (ix1 q)))
    (hgl : ∀ q : Fin 128, IsReal (pgl m ρ c (ix1 q))) (hbl : ∀ q : Fin 128, IsReal (pbl m ρ c (ix1 q))) :
    W18 m ρ c (Proc.devRef .tc main_v129)
      = Cert.ReferenceIdeal.RefSpec.layer (src m ρ c) (hin m ρ c) (dst m ρ c) (pe m ρ c) (pw1 m ρ c) (pb1 m ρ c) (pg1 m ρ c)
          (pbe1 m ρ c) (pw2 m ρ c) (pb2 m ρ c) (pga m ρ c) (pba m ρ c) (pgl m ρ c) (pbl m ρ c) := by
  have hy1 : ∀ (r : Fin 50000) (q : Fin 128), IsReal (y1R m ρ c (ix2 r q)) :=
    Cert.LayerReal.dense_isReal _ _ _ (Cert.LayerReal.mix_isReal _ _ _ _ he hh) hw1 hb1
  have hy2 : ∀ (r : Fin 50000) (q : Fin 128), IsReal (y2R m ρ c (ix2 r q)) :=
    Cert.LayerReal.dense_isReal _ _ _ (Cert.LayerReal.norm_isReal _ _ _ hy1 hg1 hbe1) hw2 hb2
  have hc : ∀ (r : Fin 50000) (q : Fin 128), IsReal (cR m ρ c (ix2 r q)) :=
    Cert.LayerReal.norm_isReal _ _ _ hy2 hga hba
  exact layer_eq m ρ c hy1 hy2 hc

end Cert.KernelIdeal.KLayer1

end
-- ==== Proof.KStageAVal_L2.lean ====
/-
  The first stage's region, read as values.  At each of the ten grid points the body writes the point's tile of
  `y₁` and updates two one-row accumulators: at the first point they are reset to zero before the tile's column sums
  (and column sums of squares) are added, at the later points the sums are added to what the point before left.
-/
import proofs.«140776_j80633716015159_1_alg».proof.Proof.Gen.KernelIdeal.Frame
import proofs.«140776_j80633716015159_1_alg».proof.Proof.KStageA
import proofs.«140776_j80633716015159_1_alg».proof.Proof.LibFinSum
import Idealize.ShloMosaic.Lib.Pipeline.Value
import Idealize.ShloMosaic.Lib.Tactic

set_option maxRecDepth 16384

noncomputable section

namespace Cert.KernelIdeal.KStageAVal_L2

open Cert.KernelIdeal Cert.KernelIdeal.Gen
open Idealize.ShloMosaic Idealize.ShloMosaic.TcCoe Idealize.ShloMosaic.ValueIdx Idealize.SL.Sem
open Idealize.ShloMosaic.Pipeline (Dat Cfg Window)

/-- The tile of `y₁` at an entry. -/
theorem pay4_apply (v3 : Vec Ideal S1x1 .f32) (v5 v9 : Vec Ideal S5000x128 .f32) (v13 : Vec Ideal S128x128 .f32)
    (v17 : Vec Ideal S1x128 .f32) (p : Fin 5000) (q : Fin 128) :
    k9_pay4 v3 v5 v9 v13 v17 (ix2 p q)
      = (∑ k : Fin 128, (v3 (ix2 (0 : Fin 1) (0 : Fin 1)) * v5 (ix2 p k) + v9 (ix2 p k)) * v13 (ix2 k q))
        + v17 (ix2 (0 : Fin 1) q) :=
  KStageA.pay4_apply v3 v5 v9 v13 v17 p q

/-- The running column sums after the point, at a column. -/
theorem pay5_apply (v3 : Vec Ideal S1x1 .f32) (v5 v9 : Vec Ideal S5000x128 .f32) (v13 : Vec Ideal S128x128 .f32)
    (v17 v22 : Vec Ideal S1x128 .f32) (q : Fin 128) :
    k9_pay5 v3 v5 v9 v13 v17 v22 (ix2 (0 : Fin 1) q)
      = v22 (ix2 (0 : Fin 1) q) + ∑ r : Fin 5000, k9_pay4 v3 v5 v9 v13 v17 (ix2 r q) :=
  KStageA.pay5_apply v3 v5 v9 v13 v17 v22 q

/-- The column sums of the squares of the point's tile, at a column. -/
theorem pay7_apply (v3 : Vec Ideal S1x1 .f32) (v5 v9 : Vec Ideal S5000x128 .f32) (v13 : Vec Ideal S128x128 .f32)
    (v17 : Vec Ideal S1x128 .f32) (q : Fin 128) :
    k9_pay7 v3 v5 v9 v13 v17 (ix2 (0 : Fin 1) q)
      = ∑ r : Fin 5000, k9_pay4 v3 v5 v9 v13 v17 (ix2 r q) * k9_pay4 v3 v5 v9 v13 v17 (ix2 r q) :=
  KStageA.pay7_apply v3 v5 v9 v13 v17 q

variable {F : FTy → Type} [FloatOps F]

theorem hz : (![0, 0] : Fin 2 → Nat) = fun _ => 0 := funext fun a => by fin_cases a <;> rfl

/-- The zero row the reset stores. -/
abbrev zrow : Vec F S1x128 .f32 := broadcast S1x128 (Scalar.ofBits .f32 0x00000000#32)

/-- First point, the tile of `y₁`. -/
theorem outA5 (c : Dev nD) (i : grid9.Coords) (a1 : Memref sig .tc .vmem S5000x128 .f32) (h1 : a1.IsWhole) (a2 : Memref sig .tc .vmem S5000x128 .f32) (h2 : a2.IsWhole) (a3 : Memref sig .tc .vmem S1x1 .f32) (h3 : a3.IsWhole) (a4 : Memref sig .tc .vmem S128x128 .f32) (h4 : a4.IsWhole) (a5 : Memref sig .tc .vmem S1x128 .f32) (h5 : a5.IsWhole) (a6 : Memref sig .tc .vmem S5000x128 .f32) (h6 : a6.IsWhole) (a7 : Memref sig .tc .vmem S1x128 .f32) (h7 : a7.IsWhole) (a8 : Memref sig .tc .vmem S1x128 .f32) (h8 : a8.IsWhole) (hc : cond9_0 i) (x0 x1 : Vec F S5000x128 .f32) (x2 : Vec F S1x1 .f32) (x3 : Vec F S128x128 .f32) (x4 : Vec F S1x128 .f32) :
    out9_A_5 c i a1 h1 a2 h2 a3 h3 a4 h4 a5 h5 a6 h6 a7 h7 a8 h8 hc x0 x1 x2 x3 x4 = k9_pay4 x2 x0 x1 x3 x4 := by
  unfold out9_A_5
  rw [View.read_writes_eq_canon _ _ _ (cover9_A_5 c i a1 h1 a2 h2 a3 h3 a4 h4 a5 h5 a6 h6 a7 h7 a8 h8 hc x0 x1 x2 x3 x4)]
  unfold kernelRun9_A
  dsimp only
  sl_unfold_words
  rw [View.canon_unit_zero hz]
  simp only [View.readAt_eq_ld, h1.read_unread, h2.read_unread, h3.read_unread, h4.read_unread, h5.read_unread, View.ld_unit_zero (S := S5000x128) hz, View.ld_unit_zero (S := S1x1) hz, View.ld_unit_zero (S := S128x128) hz, View.ld_unit_zero (S := S1x128) hz]

theorem outA6 (c : Dev nD) (i : grid9.Coords) (a1 : Memref sig .tc .vmem S5000x128 .f32) (h1 : a1.IsWhole) (a2 : Memref sig .tc .vmem S5000x128 .f32) (h2 : a2.IsWhole) (a3 : Memref sig .tc .vmem S1x1 .f32) (h3 : a3.IsWhole) (a4 : Memref sig .tc .vmem S128x128 .f32) (h4 : a4.IsWhole) (a5 : Memref sig .tc .vmem S1x128 .f32) (h5 : a5.IsWhole) (a6 : Memref sig .tc .vmem S5000x128 .f32) (h6 : a6.IsWhole) (a7 : Memref sig .tc .vmem S1x128 .f32) (h7 : a7.IsWhole) (a8 : Memref sig .tc .vmem S1x128 .f32) (h8 : a8.IsWhole) (hc : cond9_0 i) (x0 x1 : Vec F S5000x128 .f32) (x2 : Vec F S1x1 .f32) (x3 : Vec F S128x128 .f32) (x4 : Vec F S1x128 .f32) :
    out9_A_6 c i a1 h1 a2 h2 a3 h3 a4 h4 a5 h5 a6 h6 a7 h7 a8 h8 hc x0 x1 x2 x3 x4 = k9_pay5 x2 x0 x1 x3 x4 zrow := by
  unfold out9_A_6
  rw [View.read_writes_eq_canon _ _ _ (cover9_A_6 c i a1 h1 a2 h2 a3 h3 a4 h4 a5 h5 a6 h6 a7 h7 a8 h8 hc x0 x1 x2 x3 x4)]
  unfold kernelRun9_A
  dsimp only
  sl_unfold_words
  rw [View.canon_cons_unit_zero (S := S1x128) hz, View.readCov_unit_zero (S := S1x128) _ hz]
  simp only [View.readAt_eq_ld, h1.read_unread, h2.read_unread, h3.read_unread, h4.read_unread, h5.read_unread, h7.read_unread, h8.read_unread, View.ld_unit_zero (S := S5000x128) hz, View.ld_unit_zero (S := S1x1) hz, View.ld_unit_zero (S := S128x128) hz, View.ld_unit_zero (S := S1x128) hz]
  rfl

theorem outA7 (c : Dev nD) (i : grid9.Coords) (a1 : Memref sig .tc .vmem S5000x128 .f32) (h1 : a1.IsWhole) (a2 : Memref sig .tc .vmem S5000x128 .f32) (h2 : a2.IsWhole) (a3 : Memref sig .tc .vmem S1x1 .f32) (h3 : a3.IsWhole) (a4 : Memref sig .tc .vmem S128x128 .f32) (h4 : a4.IsWhole) (a5 : Memref sig .tc .vmem S1x128 .f32) (h5 : a5.IsWhole) (a6 : Memref sig .tc .vmem S5000x128 .f32) (h6 : a6.IsWhole) (a7 : Memref sig .tc .vmem S1x128 .f32) (h7 : a7.IsWhole) (a8 : Memref sig .tc .vmem S1x128 .f32) (h8 : a8.IsWhole) (hc : cond9_0 i) (x0 x1 : Vec F S5000x128 .f32) (x2 : Vec F S1x1 .f32) (x3 : Vec F S128x128 .f32) (x4 : Vec F S1x128 .f32) :
    out9_A_7 c i a1 h1 a2 h2 a3 h3 a4 h4 a5 h5 a6 h6 a7 h7 a8 h8 hc x0 x1 x2 x3 x4 = k9_pay1 (k9_pay6 zrow) (k9_pay7 x2 x0 x1 x3 x4) := by
  unfold out9_A_7
  rw [View.read_writes_eq_canon _ _ _ (cover9_A_7 c i a1 h1 a2 h2 a3 h3 a4 h4 a5 h5 a6 h6 a7 h7 a8 h8 hc x0 x1 x2 x3 x4)]
  unfold kernelRun9_A
  dsimp only
  sl_unfold_words
  rw [View.canon_cons_unit_zero (S := S1x128) hz, View.readCov_unit_zero (S := S1x128) _ hz]
  simp only [View.readAt_eq_ld, h1.read_unread, h2.read_unread, h3.read_unread, h4.read_unread, h5.read_unread, h7.read_unread, h8.read_unread, View.ld_unit_zero (S := S5000x128) hz, View.ld_unit_zero (S := S1x1) hz, View.ld_unit_zero (S := S128x128) hz, View.ld_unit_zero (S := S1x128) hz]
  rfl

theorem outB5 (c : Dev nD) (i : grid9.Coords) (a1 : Memref sig .tc .vmem S5000x128 .f32) (h1 : a1.IsWhole) (a2 : Memref sig .tc .vmem S5000x128 .f32) (h2 : a2.IsWhole) (a3 : Memref sig .tc .vmem S1x1 .f32) (h3 : a3.IsWhole) (a4 : Memref sig .tc .vmem S128x128 .f32) (h4 : a4.IsWhole) (a5 : Memref sig .tc .vmem S1x128 .f32) (h5 : a5.IsWhole) (a6 : Memref sig .tc .vmem S5000x128 .f32) (h6 : a6.IsWhole) (a7 : Memref sig .tc .vmem S1x128 .f32) (h7 : a7.IsWhole) (a8 : Memref sig .tc .vmem S1x128 .f32) (h8 : a8.IsWhole) (hc : ¬cond9_0 i) (x0 x1 : Vec F S5000x128 .f32) (x2 : Vec F S1x1 .f32) (x3 : Vec F S128x128 .f32) (x4 : Vec F S1x128 .f32) (s6 s7 : Vec F S1x128 .f32) :
    out9_B_5 c i a1 h1 a2 h2 a3 h3 a4 h4 a5 h5 a6 h6 a7 h7 a8 h8 hc x0 x1 x2 x3 x4 s6 s7 = k9_pay4 x2 x0 x1 x3 x4 := by
  unfold out9_B_5
  rw [View.read_writes_eq_canon _ _ _ (cover9_B_5 c i a1 h1 a2 h2 a3 h3 a4 h4 a5 h5 a6 h6 a7 h7 a8 h8 hc x0 x1 x2 x3 x4 s6 s7)]
  unfold kernelRun9_B
  dsimp only
  sl_unfold_words
  rw [View.canon_unit_zero hz]
  simp only [View.readAt_eq_ld, h1.read_unread, h2.read_unread, h3.read_unread, h4.read_unread, h5.read_unread, h7.read_unread, h8.read_unread, View.ld_unit_zero (S := S5000x128) hz, View.ld_unit_zero (S := S1x1) hz, View.ld_unit_zero (S := S128x128) hz, View.ld_unit_zero (S := S1x128) hz]

theorem outB6 (c : Dev nD) (i : grid9.Coords) (a1 : Memref sig .tc .vmem S5000x128 .f32) (h1 : a1.IsWhole) (a2 : Memref sig .tc .vmem S5000x128 .f32) (h2 : a2.IsWhole) (a3 : Memref sig .tc .vmem S1x1 .f32) (h3 : a3.IsWhole) (a4 : Memref sig .tc .vmem S128x128 .f32) (h4 : a4.IsWhole) (a5 : Memref sig .tc .vmem S1x128 .f32) (h5 : a5.IsWhole) (a6 : Memref sig .tc .vmem S5000x128 .f32) (h6 : a6.IsWhole) (a7 : Memref sig .tc .vmem S1x128 .f32) (h7 : a7.IsWhole) (a8 : Memref sig .tc .vmem S1x128 .f32) (h8 : a8.IsWhole) (hc : ¬cond9_0 i) (x0 x1 : Vec F S5000x128 .f32) (x2 : Vec F S1x1 .f32) (x3 : Vec F S128x128 .f32) (x4 : Vec F S1x128 .f32) (s6 s7 : Vec F S1x128 .f32) :
    out9_B_6 c i a1 h1 a2 h2 a3 h3 a4 h4 a5 h5 a6 h6 a7 h7 a8 h8 hc x0 x1 x2 x3 x4 s6 s7 = k9_pay5 x2 x0 x1 x3 x4 s6 := by
  unfold out9_B_6
  rw [View.read_writes_eq_canon _ _ _ (cover9_B_6 c i a1 h1 a2 h2 a3 h3 a4 h4 a5 h5 a6 h6 a7 h7 a8 h8 hc x0 x1 x2 x3 x4 s6 s7)]
  unfold kernelRun9_B
  dsimp only
  sl_unfold_words
  rw [View.canon_unit_zero hz]
  simp only [View.readAt_eq_ld, h1.read_unread, h2.read_unread, h3.read_unread, h4.read_unread, h5.read_unread, h7.read_unread, h8.read_unread, View.ld_unit_zero (S := S5000x128) hz, View.ld_unit_zero (S := S1x1) hz, View.ld_unit_zero (S := S128x128) hz, View.ld_unit_zero (S := S1x128) hz]

theorem outB7 (c : Dev nD) (i : grid9.Coords) (a1 : Memref sig .tc .vmem S5000x128 .f32) (h1 : a1.IsWhole) (a2 : Memref sig .tc .vmem S5000x128 .f32) (h2 : a2.IsWhole) (a3 : Memref sig .tc .vmem S1x1 .f32) (h3 : a3.IsWhole) (a4 : Memref sig .tc .vmem S128x128 .f32) (h4 : a4.IsWhole) (a5 : Memref sig .tc .vmem S1x128 .f32) (h5 : a5.IsWhole) (a6 : Memref sig .tc .vmem S5000x128 .f32) (h6 : a6.IsWhole) (a7 : Memref sig .tc .vmem S1x128 .f32) (h7 : a7.IsWhole) (a8 : Memref sig .tc .vmem S1x128 .f32) (h8 : a8.IsWhole) (hc : ¬cond9_0 i) (x0 x1 : Vec F S5000x128 .f32) (x2 : Vec F S1x1 .f32) (x3 : Vec F S128x128 .f32) (x4 : Vec F S1x128 .f32) (s6 s7 : Vec F S1x128 .f32) :
    out9_B_7 c i a1 h1 a2 h2 a3 h3 a4 h4 a5 h5 a6 h6 a7 h7 a8 h8 hc x0 x1 x2 x3 x4 s6 s7 = k9_pay1 (k9_pay6 s7) (k9_pay7 x2 x0 x1 x3 x4) := by
  unfold out9_B_7
  rw [View.read_writes_eq_canon _ _ _ (cover9_B_7 c i a1 h1 a2 h2 a3 h3 a4 h4 a5 h5 a6 h6 a7 h7 a8 h8 hc x0 x1 x2 x3 x4 s6 s7)]
  unfold kernelRun9_B
  dsimp only
  sl_unfold_words
  rw [View.canon_unit_zero hz]
  simp only [View.readAt_eq_ld, h1.read_unread, h2.read_unread, h3.read_unread, h4.read_unread, h5.read_unread, h7.read_unread, h8.read_unread, View.ld_unit_zero (S := S5000x128) hz, View.ld_unit_zero (S := S1x1) hz, View.ld_unit_zero (S := S128x128) hz, View.ld_unit_zero (S := S1x128) hz]

/-! ## The outputs after each point -/

variable (V : (c : Dev nD) → (b : Ref sig .tc) → Buf (Elt F) ((c : Thread nD τ).loc b))

/-- The point's tile of `y₁`. -/
def tileY (c : Dev nD) (t : Fin cfg9.N) : Vec F S5000x128 .f32 := k9_pay4 (iblk9 V c 2 t) (iblk9 V c 0 t) (iblk9 V c 1 t) (iblk9 V c 3 t) (iblk9 V c 4 t)

/-- The running column sums after point `n`. -/
def acc6 (c : Dev nD) : (n : ℕ) → n < cfg9.N → Vec F S1x128 .f32
  | 0, h => k9_pay5 (iblk9 V c 2 ⟨0, h⟩) (iblk9 V c 0 ⟨0, h⟩) (iblk9 V c 1 ⟨0, h⟩) (iblk9 V c 3 ⟨0, h⟩) (iblk9 V c 4 ⟨0, h⟩) zrow
  | n + 1, h => k9_pay5 (iblk9 V c 2 ⟨n + 1, h⟩) (iblk9 V c 0 ⟨n + 1, h⟩) (iblk9 V c 1 ⟨n + 1, h⟩) (iblk9 V c 3 ⟨n + 1, h⟩) (iblk9 V c 4 ⟨n + 1, h⟩) (acc6 c n (Nat.lt_of_succ_lt h))

/-- The running column sums of squares after point `n`. -/
def acc7 (c : Dev nD) : (n : ℕ) → n < cfg9.N → Vec F S1x128 .f32
  | 0, h => k9_pay1 (k9_pay6 zrow) (k9_pay7 (iblk9 V c 2 ⟨0, h⟩) (iblk9 V c 0 ⟨0, h⟩) (iblk9 V c 1 ⟨0, h⟩) (iblk9 V c 3 ⟨0, h⟩) (iblk9 V c 4 ⟨0, h⟩))
  | n + 1, h => k9_pay1 (k9_pay6 (acc7 c n (Nat.lt_of_succ_lt h))) (k9_pay7 (iblk9 V c 2 ⟨n + 1, h⟩) (iblk9 V c 0 ⟨n + 1, h⟩) (iblk9 V c 1 ⟨n + 1, h⟩) (iblk9 V c 3 ⟨n + 1, h⟩) (iblk9 V c 4 ⟨n + 1, h⟩))

/-- What the three outputs' staging buffers hold after point `n`: the tile and the two running sums. -/
theorem outsAt_eq (c : Dev nD) : ∀ (n : ℕ) (h : n < cfg9.N), outsAt9 V c n h = (tileY V c ⟨n, h⟩, acc6 V c n h, acc7 V c n h)
  | 0, h => (outsAt9_A V c ⟨0, h⟩ rfl).trans (by rw [outA5, outA6, outA7]; rfl)
  | n + 1, h => by
    have hN : grid9.N = 10 := N_9
    have hB : ¬(⟨n + 1, h⟩ : Fin cfg9.N).val % 10 = 0 := by
      have : n + 1 < 10 := by have := h; rw [show cfg9.N = grid9.N from rfl, hN] at this; exact this
      dsimp only; omega
    rw [outsAt9_B V c ⟨n + 1, h⟩ hB, outB5, outB6, outB7]
    show (_, k9_pay5 _ _ _ _ _ (outsAt9 V c n _).2.1, k9_pay1 (k9_pay6 (outsAt9 V c n _).2.2) _) = _
    rw [outsAt_eq c n]
    rfl

/-! ## At the exact reading: the accumulators are sums, the tiles an array -/

section Exact

variable (V : (c : Dev nD) → (b : Ref sig .tc) → Buf (Elt Ideal) ((c : Thread nD τ).loc b))

theorem acc6_apply (c : Dev nD) (q : Fin 128) : ∀ (n : ℕ) (h : n < cfg9.N),
    acc6 V c n h (ix2 (0 : Fin 1) q)
      = Ideal.ofBits .f32 0x00000000#32
        + ∑ t : Fin (n + 1), ∑ r : Fin 5000, tileY V c ⟨t.val, lt_of_lt_of_le t.isLt h⟩ (ix2 r q) :=
  Cert.FinSum.sum_of_steps cfg9.N (fun n h => acc6 V c n h (ix2 (0 : Fin 1) q))
    (fun t => ∑ r : Fin 5000, tileY V c t (ix2 r q)) (Ideal.ofBits .f32 0x00000000#32)
    (fun h => pay5_apply _ _ _ _ _ _ q)
    (fun n h => pay5_apply _ _ _ _ _ _ q)

/-- The accumulator update at a column: what was there plus the new row. -/
theorem step_apply (s7 v32 : FVec Ideal S1x128 .f32) (q : Fin 128) :
    k9_pay1 (k9_pay6 s7) v32 (ix2 (0 : Fin 1) q) = s7 (ix2 (0 : Fin 1) q) + v32 (ix2 (0 : Fin 1) q) := by
  unfold k9_pay1 k9_pay6
  rw [shapeCast_self]
  rfl

theorem acc7_apply (c : Dev nD) (q : Fin 128) : ∀ (n : ℕ) (h : n < cfg9.N),
    acc7 V c n h (ix2 (0 : Fin 1) q)
      = Ideal.ofBits .f32 0x00000000#32
        + ∑ t : Fin (n + 1), ∑ r : Fin 5000,
            tileY V c ⟨t.val, lt_of_lt_of_le t.isLt h⟩ (ix2 r q) * tileY V c ⟨t.val, lt_of_lt_of_le t.isLt h⟩ (ix2 r q) :=
  Cert.FinSum.sum_of_steps cfg9.N (fun n h => acc7 V c n h (ix2 (0 : Fin 1) q))
    (fun t => ∑ r : Fin 5000, tileY V c t (ix2 r q) * tileY V c t (ix2 r q)) (Ideal.ofBits .f32 0x00000000#32)
    (fun h => (step_apply _ _ q).trans (congrArg (Ideal.ofBits .f32 0x00000000#32 + ·) (pay7_apply _ _ _ _ _ q)))
    (fun n h => (step_apply _ _ q).trans (congrArg (acc7 V c n _ (ix2 (0 : Fin 1) q) + ·) (pay7_apply _ _ _ _ _ q)))

end Exact

/-! ## The arrays after the region -/

/-- One entry of `y₁ = (s·h + neigh) · w + b`. -/
def y1At (h nb : (⟨2, ![50000, 128]⟩ : Shape).Idx → EReal) (s : (⟨2, ![1, 1]⟩ : Shape).Idx → EReal)
    (w : (⟨2, ![128, 128]⟩ : Shape).Idx → EReal) (b : (⟨2, ![1, 128]⟩ : Shape).Idx → EReal) (p : Fin 50000) (q : Fin 128) : EReal :=
  (∑ k : Fin 128, (s (ix2 (0 : Fin 1) (0 : Fin 1)) * h (ix2 p k) + nb (ix2 p k)) * w (ix2 k q)) + b (ix2 (0 : Fin 1) q)

/-- `y₁` as an array. -/
def y1 (h nb : (⟨2, ![50000, 128]⟩ : Shape).Idx → EReal) (s : (⟨2, ![1, 1]⟩ : Shape).Idx → EReal)
    (w : (⟨2, ![128, 128]⟩ : Shape).Idx → EReal) (b : (⟨2, ![1, 128]⟩ : Shape).Idx → EReal) :
    (⟨2, ![50000, 128]⟩ : Shape).Idx → EReal :=
  fun i => y1At h nb s w b ⟨(i 0).val, idx2_lt0 i⟩ ⟨(i 1).val, idx2_lt1 i⟩

section Arrays

variable (V : (c : Dev nD) → (b : Ref sig .tc) → Buf (Elt Ideal) ((c : Thread nD τ).loc b))

/-- The arrays the region finds. -/
abbrev H (c : Dev nD) : S50000x128.Idx → EReal := V c (Pipeline.arrRef spec9 0)
abbrev NB (c : Dev nD) : S50000x128.Idx → EReal := V c (Pipeline.arrRef spec9 1)
abbrev SC (c : Dev nD) : S1x1.Idx → EReal := V c (Pipeline.arrRef spec9 2)
abbrev Wt (c : Dev nD) : S128x128.Idx → EReal := V c (Pipeline.arrRef spec9 3)
abbrev Bs (c : Dev nD) : S1x128.Idx → EReal := V c (Pipeline.arrRef spec9 4)

/-- The printed index maps over the ten points: the two feature tiles and the output tile move down the rows with the
    point; the scalar, the weight matrix, the bias row and the two accumulator rows are block (0, 0). -/
theorem idx_facts : ∀ t : Fin cfg9.N,
    win9_0.index t (0 : Fin 2) = t.val ∧ win9_0.index t (1 : Fin 2) = 0
    ∧ win9_1.index t (0 : Fin 2) = t.val ∧ win9_1.index t (1 : Fin 2) = 0
    ∧ win9_2.index t (0 : Fin 2) = 0 ∧ win9_2.index t (1 : Fin 2) = 0
    ∧ win9_3.index t (0 : Fin 2) = 0 ∧ win9_3.index t (1 : Fin 2) = 0
    ∧ win9_4.index t (0 : Fin 2) = 0 ∧ win9_4.index t (1 : Fin 2) = 0
    ∧ win9_5.index t (0 : Fin 2) = t.val ∧ win9_5.index t (1 : Fin 2) = 0 :=
  (by decide +kernel : ∀ t : Fin grid9.N, _)

theorem iblk_h (c : Dev nD) (t : Fin cfg9.N) (p : Fin 5000) (k : Fin 128) (hp : t.val * 5000 + p.val < 50000) :
    (iblk9 V c 0 t : Vec Ideal S5000x128 .f32) (ix2 p k) = H V c (ix2 ⟨t.val * 5000 + p.val, hp⟩ k) := by
  obtain ⟨e0, e1, -⟩ := idx_facts t
  unfold iblk9
  rw [View.read_apply]
  refine congrArg (V c (Pipeline.arrRef spec9 0)) (funext fun a => Fin.ext ?_)
  match a with
  | ⟨0, _⟩ => show win9_0.index t 0 * 5000 + 1 * p.val = t.val * 5000 + p.val; rw [e0]; omega
  | ⟨1, _⟩ => show win9_0.index t 1 * 128 + 1 * k.val = k.val; rw [e1]; omega

theorem iblk_nb (c : Dev nD) (t : Fin cfg9.N) (p : Fin 5000) (k : Fin 128) (hp : t.val * 5000 + p.val < 50000) :
    (iblk9 V c 1 t : Vec Ideal S5000x128 .f32) (ix2 p k) = NB V c (ix2 ⟨t.val * 5000 + p.val, hp⟩ k) := by
  obtain ⟨-, -, e0, e1, -⟩ := idx_facts t
  unfold iblk9
  rw [View.read_apply]
  refine congrArg (V c (Pipeline.arrRef spec9 1)) (funext fun a => Fin.ext ?_)
  match a with
  | ⟨0, _⟩ => show win9_1.index t 0 * 5000 + 1 * p.val = t.val * 5000 + p.val; rw [e0]; omega
  | ⟨1, _⟩ => show win9_1.index t 1 * 128 + 1 * k.val = k.val; rw [e1]; omega

theorem iblk_s (c : Dev nD) (t : Fin cfg9.N) : (iblk9 V c 2 t : Vec Ideal S1x1 .f32) = SC V c := by
  obtain ⟨-, -, -, -, e0, e1, -⟩ := idx_facts t
  funext y
  unfold iblk9
  rw [View.read_apply]
  refine congrArg (V c (Pipeline.arrRef spec9 2)) (funext fun a => Fin.ext ?_)
  match a with
  | ⟨0, _⟩ => show win9_2.index t 0 * 1 + 1 * (y 0).val = (y 0).val; rw [e0]; omega
  | ⟨1, _⟩ => show win9_2.index t 1 * 1 + 1 * (y 1).val = (y 1).val; rw [e1]; omega

theorem iblk_w (c : Dev nD) (t : Fin cfg9.N) : (iblk9 V c 3 t : Vec Ideal S128x128 .f32) = Wt V c := by
  obtain ⟨-, -, -, -, -, -, e0, e1, -⟩ := idx_facts t
  funext y
  unfold iblk9
  rw [View.read_apply]
  refine congrArg (V c (Pipeline.arrRef spec9 3)) (funext fun a => Fin.ext ?_)
  match a with
  | ⟨0, _⟩ => show win9_3.index t 0 * 128 + 1 * (y 0).val = (y 0).val; rw [e0]; omega
  | ⟨1, _⟩ => show win9_3.index t 1 * 128 + 1 * (y 1).val = (y 1).val; rw [e1]; omega

theorem iblk_b (c : Dev nD) (t : Fin cfg9.N) : (iblk9 V c 4 t : Vec Ideal S1x128 .f32) = Bs V c := by
  obtain ⟨-, -, -, -, -, -, -, -, e0, e1, -⟩ := idx_facts t
  funext y
  unfold iblk9
  rw [View.read_apply]
  refine congrArg (V c (Pipeline.arrRef spec9 4)) (funext fun a => Fin.ext ?_)
  match a with
  | ⟨0, _⟩ => show win9_4.index t 0 * 1 + 1 * (y 0).val = (y 0).val; rw [e0]; omega
  | ⟨1, _⟩ => show win9_4.index t 1 * 128 + 1 * (y 1).val = (y 1).val; rw [e1]; omega

/-- The tile at point `t`, entry `(p, q)`, is `y₁` at row `5000·t + p`. -/
theorem tile_apply (c : Dev nD) (t : Fin cfg9.N) (p : Fin 5000) (q : Fin 128) (hp : t.val * 5000 + p.val < 50000) :
    tileY V c t (ix2 p q) = y1At (H V c) (NB V c) (SC V c) (Wt V c) (Bs V c) ⟨t.val * 5000 + p.val, hp⟩ q := by
  unfold tileY y1At
  rw [pay4_apply, iblk_s, iblk_w, iblk_b]
  refine congrArg (· + _) (Finset.sum_congr rfl fun k _ => ?_)
  rw [iblk_h V c t p k hp, iblk_nb V c t p k hp]

end Arrays

section Final

variable (V : (c : Dev nD) → (b : Ref sig .tc) → Buf (Elt Ideal) ((c : Thread nD τ).loc b))

/-- An entry of the tile at point `t` is the entry of `y₁` at row `5000·t + ` the tile's row. -/
theorem point5 (c : Dev nD) (t : Fin cfg9.N) (j : S5000x128.Idx) (i : S50000x128.Idx)
    (hi0 : (i 0).val = t.val * 5000 + (j 0).val) (hi1 : (i 1).val = (j 1).val) :
    tileY V c t j = y1 (H V c) (NB V c) (SC V c) (Wt V c) (Bs V c) i := by
  obtain ⟨p, q, rfl⟩ : ∃ (p : Fin 5000) (q : Fin 128), j = ix2 p q := ⟨j 0, j 1, eq_ix2 j⟩
  have ht : t.val < 10 := lt_of_lt_of_eq t.isLt (show cfg9.N = 10 from N_9)
  have hp : t.val * 5000 + p.val < 50000 := by have := p.isLt; omega
  rw [tile_apply V c t p q hp]
  unfold y1
  congr 1
  · exact Fin.ext hi0.symm
  · exact Fin.ext hi1.symm

/-- What point `t` writes back of `y₁` is tile `t` of the array `y₁`. -/
theorem flushed5_eq (c : Dev nD) (t : Fin cfg9.N) :
    (dat9 V c).flushed 5 t
      = ((cfg9.win 5).blk t).view.read (Elt Ideal) (y1 (H V c) (NB V c) (SC V c) (Wt V c) (Bs V c)) := by
  show (cfg9.win 5).cut (grid9.coords t) ((dat9 V c).after 5 t) = _
  rw [after9_5, outsAt_eq]
  obtain ⟨-, -, -, -, -, -, -, -, -, -, e0, e1⟩ := idx_facts t
  funext j
  rw [View.read_apply]
  refine point5 V c t j _ ?_ ?_
  · show win9_5.index t 0 * 5000 + 1 * (j 0).val = t.val * 5000 + (j 0).val
    rw [e0]; omega
  · show win9_5.index t 1 * 128 + 1 * (j 1).val = (j 1).val
    rw [e1]; omega

theorem mem_blk5 (t : Fin cfg9.N) (i : S50000x128.Idx) :
    i ∈ ((cfg9.win 5).blk t).view.set ↔ ∀ a : Fin 2, win9_5.index t a * S5000x128.size a ≤ (i a).val
      ∧ (i a).val < win9_5.index t a * S5000x128.size a + S5000x128.size a := by
  show i ∈ ((View.whole main_v149_0).slice (win9_5.rect t)).set ↔ _
  rw [View.set_slice_whole, Rect.mem_set_unit]
  exact Iff.rfl

theorem cover5 (i : S50000x128.Idx) :
    ∃ t : Fin cfg9.N, (cfg9.win 5).flush t = true ∧ i ∈ ((cfg9.win 5).blk t).view.set := by
  have hi0 : (i 0).val < 50000 := idx2_lt0 i
  have hi1 : (i 1).val < 128 := idx2_lt1 i
  have hN : grid9.N = 10 := N_9
  have ht : (i 0).val / 5000 < cfg9.N := by show _ < grid9.N; rw [hN]; omega
  obtain ⟨-, -, -, -, -, -, -, -, -, -, e0, e1⟩ := idx_facts ⟨(i 0).val / 5000, ht⟩
  refine ⟨⟨(i 0).val / 5000, ht⟩, flush9_5 _, ?_⟩
  rw [mem_blk5]
  intro a
  match a with
  | ⟨0, _⟩ =>
    show win9_5.index ⟨(i 0).val / 5000, ht⟩ 0 * 5000 ≤ (i 0).val ∧ (i 0).val < win9_5.index ⟨(i 0).val / 5000, ht⟩ 0 * 5000 + 5000
    rw [e0]; show (i 0).val / 5000 * 5000 ≤ (i 0).val ∧ (i 0).val < (i 0).val / 5000 * 5000 + 5000; omega
  | ⟨1, _⟩ =>
    show win9_5.index ⟨(i 0).val / 5000, ht⟩ 1 * 128 ≤ (i 1).val ∧ (i 1).val < win9_5.index ⟨(i 0).val / 5000, ht⟩ 1 * 128 + 128
    rw [e1]; omega

/-- After the region the first output array is `y₁` of the arrays the region finds. -/
theorem final5 (c : Dev nD) : (dat9 V c).arrAt 5 cfg9.N = y1 (H V c) (NB V c) (SC V c) (Wt V c) (Bs V c) :=
  (dat9 V c).arrAt_eq_of_cover 5 _ (fun t _ => flushed5_eq V c t) cover5

theorem lastLt : 9 < cfg9.N := by show 9 < grid9.N; rw [N_9]; decide

/-- The accumulated column sums after the last point, as the contents of the second output array. -/
abbrev res6 (c : Dev nD) : Buf (Elt Ideal) ((c : Thread nD τ).loc main_v149_1) := acc6 V c 9 lastLt
/-- The accumulated column sums of squares after the last point, as the contents of the third output array. -/
abbrev res7 (c : Dev nD) : Buf (Elt Ideal) ((c : Thread nD τ).loc main_v149_2) := acc7 V c 9 lastLt

theorem flushed6_eq (c : Dev nD) (t : Fin cfg9.N) (hf : (cfg9.win 6).flush t = true) :
    (dat9 V c).flushed 6 t = ((cfg9.win 6).blk t).view.read (Elt Ideal) (res6 V c) := by
  have hN : grid9.N = 10 := N_9
  have h9 : t.val = 9 := by
    have := (flush9_6 t).mp hf; have h := lt_of_lt_of_eq t.isLt (show cfg9.N = 10 from N_9); omega
  obtain rfl : t = t9_9 := Fin.ext h9
  show (cfg9.win 6).cut (grid9.coords t9_9) ((dat9 V c).after 6 t9_9) = _
  rw [after9_6, outsAt_eq]
  have hz' : (fun a => win9_6.index t9_9 a * main_v149_1.ty.shape.size a) = fun _ => 0 := funext fun a => by fin_cases a <;> decide
  exact (Memref.read_access_unit_zero (Elt Ideal) main_v149_1 hz' (fun a => by rw [congrFun hz' a]; simp) (res6 V c)).symm

theorem flushed7_eq (c : Dev nD) (t : Fin cfg9.N) (hf : (cfg9.win 7).flush t = true) :
    (dat9 V c).flushed 7 t = ((cfg9.win 7).blk t).view.read (Elt Ideal) (res7 V c) := by
  have hN : grid9.N = 10 := N_9
  have h9 : t.val = 9 := by
    have := (flush9_7 t).mp hf; have h := lt_of_lt_of_eq t.isLt (show cfg9.N = 10 from N_9); omega
  obtain rfl : t = t9_9 := Fin.ext h9
  show (cfg9.win 7).cut (grid9.coords t9_9) ((dat9 V c).after 7 t9_9) = _
  rw [after9_7, outsAt_eq]
  have hz' : (fun a => win9_7.index t9_9 a * main_v149_2.ty.shape.size a) = fun _ => 0 := funext fun a => by fin_cases a <;> decide
  exact (Memref.read_access_unit_zero (Elt Ideal) main_v149_2 hz' (fun a => by rw [congrFun hz' a]; simp) (res7 V c)).symm

/-- The last point's write-back covers the one-row array. -/
theorem final6 (c : Dev nD) : (dat9 V c).arrAt 6 cfg9.N = res6 V c :=
  (dat9 V c).arrAt_eq_of_cover 6 (res6 V c) (flushed6_eq V c) fun i =>
    ⟨t9_9, (flush9_6 t9_9).mpr rfl, by
      show i ∈ ((View.whole main_v149_1).slice (win9_6.rect t9_9)).set
      rw [View.set_slice_whole, Rect.mem_set_unit]
      intro a
      have h0 : (i 0 : Nat) < 1 := (i 0).isLt
      have h1 : (i 1 : Nat) < 128 := (i 1).isLt
      match a with
      | ⟨0, _⟩ => show win9_6.index t9_9 0 * win9_6.size 0 ≤ (i 0 : Nat) ∧ (i 0 : Nat) < win9_6.index t9_9 0 * win9_6.size 0 + win9_6.xsize (grid9.coords t9_9) 0
                  rw [show win9_6.index t9_9 0 * win9_6.size 0 = 0 from by decide +kernel, show win9_6.xsize (grid9.coords t9_9) 0 = 1 from by decide +kernel]; omega
      | ⟨1, _⟩ => show win9_6.index t9_9 1 * win9_6.size 1 ≤ (i 1 : Nat) ∧ (i 1 : Nat) < win9_6.index t9_9 1 * win9_6.size 1 + win9_6.xsize (grid9.coords t9_9) 1
                  rw [show win9_6.index t9_9 1 * win9_6.size 1 = 0 from by decide +kernel, show win9_6.xsize (grid9.coords t9_9) 1 = 128 from by decide +kernel]; omega⟩

theorem final7 (c : Dev nD) : (dat9 V c).arrAt 7 cfg9.N = res7 V c :=
  (dat9 V c).arrAt_eq_of_cover 7 (res7 V c) (flushed7_eq V c) fun i =>
    ⟨t9_9, (flush9_7 t9_9).mpr rfl, by
      show i ∈ ((View.whole main_v149_2).slice (win9_7.rect t9_9)).set
      rw [View.set_slice_whole, Rect.mem_set_unit]
      intro a
      have h0 : (i 0 : Nat) < 1 := (i 0).isLt
      have h1 : (i 1 : Nat) < 128 := (i 1).isLt
      match a with
      | ⟨0, _⟩ => show win9_7.index t9_9 0 * win9_7.size 0 ≤ (i 0 : Nat) ∧ (i 0 : Nat) < win9_7.index t9_9 0 * win9_7.size 0 + win9_7.xsize (grid9.coords t9_9) 0
                  rw [show win9_7.index t9_9 0 * win9_7.size 0 = 0 from by decide +kernel, show win9_7.xsize (grid9.coords t9_9) 0 = 1 from by decide +kernel]; omega
      | ⟨1, _⟩ => show win9_7.index t9_9 1 * win9_7.size 1 ≤ (i 1 : Nat) ∧ (i 1 : Nat) < win9_7.index t9_9 1 * win9_7.size 1 + win9_7.xsize (grid9.coords t9_9) 1
                  rw [show win9_7.index t9_9 1 * win9_7.size 1 = 0 from by decide +kernel, show win9_7.xsize (grid9.coords t9_9) 1 = 128 from by decide +kernel]; omega⟩

/-- Summing the ten tiles' column sums is summing down all 50000 rows. -/
theorem tiles_sum (c : Dev nD) (f : EReal → EReal) (q : Fin 128) :
    ∑ t : Fin (9 + 1), ∑ r : Fin 5000, f (tileY V c ⟨t.val, lt_of_lt_of_le t.isLt lastLt⟩ (ix2 r q))
      = ∑ r : Fin 50000, f (y1 (H V c) (NB V c) (SC V c) (Wt V c) (Bs V c) (ix2 r q)) := by
  rw [Cert.FinSum.sum_mul 10 5000 50000 rfl]
  refine Finset.sum_congr rfl fun t _ => Finset.sum_congr rfl fun r _ => ?_
  have hp : t.val * 5000 + r.val < 50000 := by have := t.isLt; have := r.isLt; omega
  rw [tile_apply V c ⟨t.val, _⟩ r q hp]
  rfl

/-- The second output array at a column: the sum of `y₁` down the column (from zero). -/
theorem sum_apply (c : Dev nD) (q : Fin 128) :
    (dat9 V c).arrAt 6 cfg9.N (ix2 (0 : Fin 1) q)
      = Ideal.ofBits .f32 0x00000000#32 + ∑ r : Fin 50000, y1 (H V c) (NB V c) (SC V c) (Wt V c) (Bs V c) (ix2 r q) := by
  rw [final6]
  show acc6 V c 9 lastLt (ix2 (0 : Fin 1) q) = _
  rw [acc6_apply V c q 9 lastLt]
  exact congrArg (_ + ·) (tiles_sum V c id q)

/-- The third output array at a column: the sum of the squares of `y₁` down the column (from zero). -/
theorem sumsq_apply (c : Dev nD) (q : Fin 128) :
    (dat9 V c).arrAt 7 cfg9.N (ix2 (0 : Fin 1) q)
      = Ideal.ofBits .f32 0x00000000#32
        + ∑ r : Fin 50000, y1 (H V c) (NB V c) (SC V c) (Wt V c) (Bs V c) (ix2 r q) * y1 (H V c) (NB V c) (SC V c) (Wt V c) (Bs V c) (ix2 r q) := by
  rw [final7]
  show acc7 V c 9 lastLt (ix2 (0 : Fin 1) q) = _
  rw [acc7_apply V c q 9 lastLt]
  exact congrArg (_ + ·) (tiles_sum V c (fun x => x * x) q)

end Final

end Cert.KernelIdeal.KStageAVal_L2

end
-- ==== Proof.KStageBVal_L2.lean ====
/-
  The second stage's region, read as values.  At each of the ten grid points the body writes the point's tile of
  `y₂` and updates two one-row accumulators: at the first point they are reset to zero before the tile's column sums
  (and column sums of squares) are added, at the later points the sums are added to what the point before left.
-/
import proofs.«140776_j80633716015159_1_alg».proof.Proof.Gen.KernelIdeal.Frame
import proofs.«140776_j80633716015159_1_alg».proof.Proof.KStageB
import proofs.«140776_j80633716015159_1_alg».proof.Proof.KStageCD
import proofs.«140776_j80633716015159_1_alg».proof.Proof.LibFinSum
import Idealize.ShloMosaic.Lib.Pipeline.Value
import Idealize.ShloMosaic.Lib.Tactic

set_option maxRecDepth 16384

noncomputable section

namespace Cert.KernelIdeal.KStageBVal_L2

open Cert.KernelIdeal Cert.KernelIdeal.Gen
open Idealize.ShloMosaic Idealize.ShloMosaic.TcCoe Idealize.ShloMosaic.ValueIdx Idealize.SL.Sem
open Idealize.ShloMosaic.Pipeline (Dat Cfg Window)

/-- The tile of `y₂` at an entry. -/
theorem pay5_apply (v3 : Vec Ideal S5000x128 .f32) (v5 v10 v12 v20 : Vec Ideal S1x128 .f32) (v27 : Vec Ideal S128x128 .f32)
    (v31 : Vec Ideal S1x128 .f32) (p : Fin 5000) (q : Fin 128) :
    k10_pay5 v3 v5 v10 v12 v20 v27 v31 (ix2 p q)
      = (∑ k : Fin 128, KStageB.bnrelu (v5 (ix2 (0 : Fin 1) k)) (v10 (ix2 (0 : Fin 1) k)) (v12 (ix2 (0 : Fin 1) k))
            (v20 (ix2 (0 : Fin 1) k)) (v3 (ix2 p k)) * v27 (ix2 k q))
        + v31 (ix2 (0 : Fin 1) q) :=
  KStageB.pay5_apply v3 v5 v10 v12 v20 v27 v31 p q

/-- The running column sums after the point, at a column. -/
theorem pay1_apply (v34 : FVec Ideal S5000x128 .f32) (v36 : Vec Ideal S1x128 .f32) (q : Fin 128) :
    k10_pay1 v34 v36 (ix2 (0 : Fin 1) q) = v36 (ix2 (0 : Fin 1) q) + ∑ r : Fin 5000, v34 (ix2 r q) :=
  KStageB.pay1_apply v34 v36 q

/-- The running column sums of squares after the point, at a column. -/
theorem pay2_apply (v34 : FVec Ideal S5000x128 .f32) (v42 : Vec Ideal S1x128 .f32) (q : Fin 128) :
    k10_pay2 v34 v42 (ix2 (0 : Fin 1) q) = v42 (ix2 (0 : Fin 1) q) + ∑ r : Fin 5000, v34 (ix2 r q) * v34 (ix2 r q) :=
  KStageB.pay2_apply v34 v42 q

variable {F : FTy → Type} [FloatOps F]

theorem hz : (![0, 0] : Fin 2 → Nat) = fun _ => 0 := funext fun a => by fin_cases a <;> rfl

/-- The zero row the reset stores. -/
abbrev zrow : Vec F S1x128 .f32 := broadcast S1x128 (Scalar.ofBits .f32 0x00000000#32)

/-- First point, the tile of `y₂`. -/
theorem outA7 (c : Dev nD) (i : grid10.Coords) (a1 : Memref sig .tc .vmem S5000x128 .f32) (h1 : a1.IsWhole) (a2 : Memref sig .tc .vmem S1x128 .f32) (h2 : a2.IsWhole) (a3 : Memref sig .tc .vmem S1x128 .f32) (h3 : a3.IsWhole) (a4 : Memref sig .tc .vmem S1x128 .f32) (h4 : a4.IsWhole) (a5 : Memref sig .tc .vmem S1x128 .f32) (h5 : a5.IsWhole) (a6 : Memref sig .tc .vmem S128x128 .f32) (h6 : a6.IsWhole) (a7 : Memref sig .tc .vmem S1x128 .f32) (h7 : a7.IsWhole) (a8 : Memref sig .tc .vmem S5000x128 .f32) (h8 : a8.IsWhole) (a9 : Memref sig .tc .vmem S1x128 .f32) (h9 : a9.IsWhole) (a10 : Memref sig .tc .vmem S1x128 .f32) (h10 : a10.IsWhole) (hc : cond10_0 i) (x0 : Vec F S5000x128 .f32) (x1 x2 x3 x4 : Vec F S1x128 .f32) (x5 : Vec F S128x128 .f32) (x6 : Vec F S1x128 .f32) :
    out10_A_7 c i a1 h1 a2 h2 a3 h3 a4 h4 a5 h5 a6 h6 a7 h7 a8 h8 a9 h9 a10 h10 hc x0 x1 x2 x3 x4 x5 x6 = k10_pay5 x0 x2 x3 x1 x4 x5 x6 := by
  unfold out10_A_7
  rw [View.read_writes_eq_canon _ _ _ (cover10_A_7 c i a1 h1 a2 h2 a3 h3 a4 h4 a5 h5 a6 h6 a7 h7 a8 h8 a9 h9 a10 h10 hc x0 x1 x2 x3 x4 x5 x6)]
  unfold kernelRun10_A
  dsimp only
  sl_unfold_words
  rw [View.canon_unit_zero hz]
  simp only [View.readAt_eq_ld, h1.read_unread, h2.read_unread, h3.read_unread, h4.read_unread, h5.read_unread, h6.read_unread, h7.read_unread, h9.read_unread, h10.read_unread, View.ld_unit_zero (S := S5000x128) hz, View.ld_unit_zero (S := S128x128) hz, View.ld_unit_zero (S := S1x128) hz]

theorem outA8 (c : Dev nD) (i : grid10.Coords) (a1 : Memref sig .tc .vmem S5000x128 .f32) (h1 : a1.IsWhole) (a2 : Memref sig .tc .vmem S1x128 .f32) (h2 : a2.IsWhole) (a3 : Memref sig .tc .vmem S1x128 .f32) (h3 : a3.IsWhole) (a4 : Memref sig .tc .vmem S1x128 .f32) (h4 : a4.IsWhole) (a5 : Memref sig .tc .vmem S1x128 .f32) (h5 : a5.IsWhole) (a6 : Memref sig .tc .vmem S128x128 .f32) (h6 : a6.IsWhole) (a7 : Memref sig .tc .vmem S1x128 .f32) (h7 : a7.IsWhole) (a8 : Memref sig .tc .vmem S5000x128 .f32) (h8 : a8.IsWhole) (a9 : Memref sig .tc .vmem S1x128 .f32) (h9 : a9.IsWhole) (a10 : Memref sig .tc .vmem S1x128 .f32) (h10 : a10.IsWhole) (hc : cond10_0 i) (x0 : Vec F S5000x128 .f32) (x1 x2 x3 x4 : Vec F S1x128 .f32) (x5 : Vec F S128x128 .f32) (x6 : Vec F S1x128 .f32) :
    out10_A_8 c i a1 h1 a2 h2 a3 h3 a4 h4 a5 h5 a6 h6 a7 h7 a8 h8 a9 h9 a10 h10 hc x0 x1 x2 x3 x4 x5 x6 = k10_pay1 (k10_pay5 x0 x2 x3 x1 x4 x5 x6) zrow := by
  unfold out10_A_8
  rw [View.read_writes_eq_canon _ _ _ (cover10_A_8 c i a1 h1 a2 h2 a3 h3 a4 h4 a5 h5 a6 h6 a7 h7 a8 h8 a9 h9 a10 h10 hc x0 x1 x2 x3 x4 x5 x6)]
  unfold kernelRun10_A
  dsimp only
  sl_unfold_words
  rw [View.canon_cons_unit_zero (S := S1x128) hz, View.readCov_unit_zero (S := S1x128) _ hz]
  simp only [View.readAt_eq_ld, h1.read_unread, h2.read_unread, h3.read_unread, h4.read_unread, h5.read_unread, h6.read_unread, h7.read_unread, h9.read_unread, h10.read_unread, View.ld_unit_zero (S := S5000x128) hz, View.ld_unit_zero (S := S128x128) hz, View.ld_unit_zero (S := S1x128) hz]
  rfl

theorem outA9 (c : Dev nD) (i : grid10.Coords) (a1 : Memref sig .tc .vmem S5000x128 .f32) (h1 : a1.IsWhole) (a2 : Memref sig .tc .vmem S1x128 .f32) (h2 : a2.IsWhole) (a3 : Memref sig .tc .vmem S1x128 .f32) (h3 : a3.IsWhole) (a4 : Memref sig .tc .vmem S1x128 .f32) (h4 : a4.IsWhole) (a5 : Memref sig .tc .vmem S1x128 .f32) (h5 : a5.IsWhole) (a6 : Memref sig .tc .vmem S128x128 .f32) (h6 : a6.IsWhole) (a7 : Memref sig .tc .vmem S1x128 .f32) (h7 : a7.IsWhole) (a8 : Memref sig .tc .vmem S5000x128 .f32) (h8 : a8.IsWhole) (a9 : Memref sig .tc .vmem S1x128 .f32) (h9 : a9.IsWhole) (a10 : Memref sig .tc .vmem S1x128 .f32) (h10 : a10.IsWhole) (hc : cond10_0 i) (x0 : Vec F S5000x128 .f32) (x1 x2 x3 x4 : Vec F S1x128 .f32) (x5 : Vec F S128x128 .f32) (x6 : Vec F S1x128 .f32) :
    out10_A_9 c i a1 h1 a2 h2 a3 h3 a4 h4 a5 h5 a6 h6 a7 h7 a8 h8 a9 h9 a10 h10 hc x0 x1 x2 x3 x4 x5 x6 = k10_pay2 (k10_pay5 x0 x2 x3 x1 x4 x5 x6) zrow := by
  unfold out10_A_9
  rw [View.read_writes_eq_canon _ _ _ (cover10_A_9 c i a1 h1 a2 h2 a3 h3 a4 h4 a5 h5 a6 h6 a7 h7 a8 h8 a9 h9 a10 h10 hc x0 x1 x2 x3 x4 x5 x6)]
  unfold kernelRun10_A
  dsimp only
  sl_unfold_words
  rw [View.canon_cons_unit_zero (S := S1x128) hz, View.readCov_unit_zero (S := S1x128) _ hz]
  simp only [View.readAt_eq_ld, h1.read_unread, h2.read_unread, h3.read_unread, h4.read_unread, h5.read_unread, h6.read_unread, h7.read_unread, h9.read_unread, h10.read_unread, View.ld_unit_zero (S := S5000x128) hz, View.ld_unit_zero (S := S128x128) hz, View.ld_unit_zero (S := S1x128) hz]
  rfl

theorem outB7 (c : Dev nD) (i : grid10.Coords) (a1 : Memref sig .tc .vmem S5000x128 .f32) (h1 : a1.IsWhole) (a2 : Memref sig .tc .vmem S1x128 .f32) (h2 : a2.IsWhole) (a3 : Memref sig .tc .vmem S1x128 .f32) (h3 : a3.IsWhole) (a4 : Memref sig .tc .vmem S1x128 .f32) (h4 : a4.IsWhole) (a5 : Memref sig .tc .vmem S1x128 .f32) (h5 : a5.IsWhole) (a6 : Memref sig .tc .vmem S128x128 .f32) (h6 : a6.IsWhole) (a7 : Memref sig .tc .vmem S1x128 .f32) (h7 : a7.IsWhole) (a8 : Memref sig .tc .vmem S5000x128 .f32) (h8 : a8.IsWhole) (a9 : Memref sig .tc .vmem S1x128 .f32) (h9 : a9.IsWhole) (a10 : Memref sig .tc .vmem S1x128 .f32) (h10 : a10.IsWhole) (hc : ¬cond10_0 i) (x0 : Vec F S5000x128 .f32) (x1 x2 x3 x4 : Vec F S1x128 .f32) (x5 : Vec F S128x128 .f32) (x6 : Vec F S1x128 .f32) (s8 s9 : Vec F S1x128 .f32) :
    out10_B_7 c i a1 h1 a2 h2 a3 h3 a4 h4 a5 h5 a6 h6 a7 h7 a8 h8 a9 h9 a10 h10 hc x0 x1 x2 x3 x4 x5 x6 s8 s9 = k10_pay5 x0 x2 x3 x1 x4 x5 x6 := by
  unfold out10_B_7
  rw [View.read_writes_eq_canon _ _ _ (cover10_B_7 c i a1 h1 a2 h2 a3 h3 a4 h4 a5 h5 a6 h6 a7 h7 a8 h8 a9 h9 a10 h10 hc x0 x1 x2 x3 x4 x5 x6 s8 s9)]
  unfold kernelRun10_B
  dsimp only
  sl_unfold_words
  rw [View.canon_unit_zero hz]
  simp only [View.readAt_eq_ld, h1.read_unread, h2.read_unread, h3.read_unread, h4.read_unread, h5.read_unread, h6.read_unread, h7.read_unread, h9.read_unread, h10.read_unread, View.ld_unit_zero (S := S5000x128) hz, View.ld_unit_zero (S := S128x128) hz, View.ld_unit_zero (S := S1x128) hz]

theorem outB8 (c : Dev nD) (i : grid10.Coords) (a1 : Memref sig .tc .vmem S5000x128 .f32) (h1 : a1.IsWhole) (a2 : Memref sig .tc .vmem S1x128 .f32) (h2 : a2.IsWhole) (a3 : Memref sig .tc .vmem S1x128 .f32) (h3 : a3.IsWhole) (a4 : Memref sig .tc .vmem S1x128 .f32) (h4 : a4.IsWhole) (a5 : Memref sig .tc .vmem S1x128 .f32) (h5 : a5.IsWhole) (a6 : Memref sig .tc .vmem S128x128 .f32) (h6 : a6.IsWhole) (a7 : Memref sig .tc .vmem S1x128 .f32) (h7 : a7.IsWhole) (a8 : Memref sig .tc .vmem S5000x128 .f32) (h8 : a8.IsWhole) (a9 : Memref sig .tc .vmem S1x128 .f32) (h9 : a9.IsWhole) (a10 : Memref sig .tc .vmem S1x128 .f32) (h10 : a10.IsWhole) (hc : ¬cond10_0 i) (x0 : Vec F S5000x128 .f32) (x1 x2 x3 x4 : Vec F S1x128 .f32) (x5 : Vec F S128x128 .f32) (x6 : Vec F S1x128 .f32) (s8 s9 : Vec F S1x128 .f32) :
    out10_B_8 c i a1 h1 a2 h2 a3 h3 a4 h4 a5 h5 a6 h6 a7 h7 a8 h8 a9 h9 a10 h10 hc x0 x1 x2 x3 x4 x5 x6 s8 s9 = k10_pay1 (k10_pay5 x0 x2 x3 x1 x4 x5 x6) s8 := by
  unfold out10_B_8
  rw [View.read_writes_eq_canon _ _ _ (cover10_B_8 c i a1 h1 a2 h2 a3 h3 a4 h4 a5 h5 a6 h6 a7 h7 a8 h8 a9 h9 a10 h10 hc x0 x1 x2 x3 x4 x5 x6 s8 s9)]
  unfold kernelRun10_B
  dsimp only
  sl_unfold_words
  rw [View.canon_unit_zero hz]
  simp only [View.readAt_eq_ld, h1.read_unread, h2.read_unread, h3.read_unread, h4.read_unread, h5.read_unread, h6.read_unread, h7.read_unread, h9.read_unread, h10.read_unread, View.ld_unit_zero (S := S5000x128) hz, View.ld_unit_zero (S := S128x128) hz, View.ld_unit_zero (S := S1x128) hz]

theorem outB9 (c : Dev nD) (i : grid10.Coords) (a1 : Memref sig .tc .vmem S5000x128 .f32) (h1 : a1.IsWhole) (a2 : Memref sig .tc .vmem S1x128 .f32) (h2 : a2.IsWhole) (a3 : Memref sig .tc .vmem S1x128 .f32) (h3 : a3.IsWhole) (a4 : Memref sig .tc .vmem S1x128 .f32) (h4 : a4.IsWhole) (a5 : Memref sig .tc .vmem S1x128 .f32) (h5 : a5.IsWhole) (a6 : Memref sig .tc .vmem S128x128 .f32) (h6 : a6.IsWhole) (a7 : Memref sig .tc .vmem S1x128 .f32) (h7 : a7.IsWhole) (a8 : Memref sig .tc .vmem S5000x128 .f32) (h8 : a8.IsWhole) (a9 : Memref sig .tc .vmem S1x128 .f32) (h9 : a9.IsWhole) (a10 : Memref sig .tc .vmem S1x128 .f32) (h10 : a10.IsWhole) (hc : ¬cond10_0 i) (x0 : Vec F S5000x128 .f32) (x1 x2 x3 x4 : Vec F S1x128 .f32) (x5 : Vec F S128x128 .f32) (x6 : Vec F S1x128 .f32) (s8 s9 : Vec F S1x128 .f32) :
    out10_B_9 c i a1 h1 a2 h2 a3 h3 a4 h4 a5 h5 a6 h6 a7 h7 a8 h8 a9 h9 a10 h10 hc x0 x1 x2 x3 x4 x5 x6 s8 s9 = k10_pay2 (k10_pay5 x0 x2 x3 x1 x4 x5 x6) s9 := by
  unfold out10_B_9
  rw [View.read_writes_eq_canon _ _ _ (cover10_B_9 c i a1 h1 a2 h2 a3 h3 a4 h4 a5 h5 a6 h6 a7 h7 a8 h8 a9 h9 a10 h10 hc x0 x1 x2 x3 x4 x5 x6 s8 s9)]
  unfold kernelRun10_B
  dsimp only
  sl_unfold_words
  rw [View.canon_unit_zero hz]
  simp only [View.readAt_eq_ld, h1.read_unread, h2.read_unread, h3.read_unread, h4.read_unread, h5.read_unread, h6.read_unread, h7.read_unread, h9.read_unread, h10.read_unread, View.ld_unit_zero (S := S5000x128) hz, View.ld_unit_zero (S := S128x128) hz, View.ld_unit_zero (S := S1x128) hz]

/-! ## The outputs after each point -/

variable (V : (c : Dev nD) → (b : Ref sig .tc) → Buf (Elt F) ((c : Thread nD τ).loc b))

/-- The point's tile of `y₂`. -/
def tileY (c : Dev nD) (t : Fin cfg10.N) : Vec F S5000x128 .f32 := k10_pay5 (iblk10 V c 0 t) (iblk10 V c 2 t) (iblk10 V c 3 t) (iblk10 V c 1 t) (iblk10 V c 4 t) (iblk10 V c 5 t) (iblk10 V c 6 t)

/-- The running column sums after point `n`. -/
def acc8 (c : Dev nD) : (n : ℕ) → n < cfg10.N → Vec F S1x128 .f32
  | 0, h => k10_pay1 (tileY V c ⟨0, h⟩) zrow
  | n + 1, h => k10_pay1 (tileY V c ⟨n + 1, h⟩) (acc8 c n (Nat.lt_of_succ_lt h))

/-- The running column sums of squares after point `n`. -/
def acc9 (c : Dev nD) : (n : ℕ) → n < cfg10.N → Vec F S1x128 .f32
  | 0, h => k10_pay2 (tileY V c ⟨0, h⟩) zrow
  | n + 1, h => k10_pay2 (tileY V c ⟨n + 1, h⟩) (acc9 c n (Nat.lt_of_succ_lt h))

/-- What the three outputs' staging buffers hold after point `n`: the tile and the two running sums. -/
theorem outsAt_eq (c : Dev nD) : ∀ (n : ℕ) (h : n < cfg10.N), outsAt10 V c n h = (tileY V c ⟨n, h⟩, acc8 V c n h, acc9 V c n h)
  | 0, h => (outsAt10_A V c ⟨0, h⟩ rfl).trans (by rw [outA7, outA8, outA9]; rfl)
  | n + 1, h => by
    have hN : grid10.N = 10 := N_10
    have hB : ¬(⟨n + 1, h⟩ : Fin cfg10.N).val % 10 = 0 := by
      have : n + 1 < 10 := by have := h; rw [show cfg10.N = grid10.N from rfl, hN] at this; exact this
      dsimp only; omega
    rw [outsAt10_B V c ⟨n + 1, h⟩ hB, outB7, outB8, outB9]
    show (_, k10_pay1 _ (outsAt10 V c n _).2.1, k10_pay2 _ (outsAt10 V c n _).2.2) = _
    rw [outsAt_eq c n]
    rfl

/-! ## At the exact reading: the accumulators are sums, the tiles an array -/

section Exact

variable (V : (c : Dev nD) → (b : Ref sig .tc) → Buf (Elt Ideal) ((c : Thread nD τ).loc b))

theorem acc8_apply (c : Dev nD) (q : Fin 128) : ∀ (n : ℕ) (h : n < cfg10.N),
    acc8 V c n h (ix2 (0 : Fin 1) q)
      = Ideal.ofBits .f32 0x00000000#32
        + ∑ t : Fin (n + 1), ∑ r : Fin 5000, tileY V c ⟨t.val, lt_of_lt_of_le t.isLt h⟩ (ix2 r q) :=
  Cert.FinSum.sum_of_steps cfg10.N (fun n h => acc8 V c n h (ix2 (0 : Fin 1) q))
    (fun t => ∑ r : Fin 5000, tileY V c t (ix2 r q)) (Ideal.ofBits .f32 0x00000000#32)
    (fun h => pay1_apply _ _ q)
    (fun n h => pay1_apply _ _ q)

theorem acc9_apply (c : Dev nD) (q : Fin 128) : ∀ (n : ℕ) (h : n < cfg10.N),
    acc9 V c n h (ix2 (0 : Fin 1) q)
      = Ideal.ofBits .f32 0x00000000#32
        + ∑ t : Fin (n + 1), ∑ r : Fin 5000,
            tileY V c ⟨t.val, lt_of_lt_of_le t.isLt h⟩ (ix2 r q) * tileY V c ⟨t.val, lt_of_lt_of_le t.isLt h⟩ (ix2 r q) :=
  Cert.FinSum.sum_of_steps cfg10.N (fun n h => acc9 V c n h (ix2 (0 : Fin 1) q))
    (fun t => ∑ r : Fin 5000, tileY V c t (ix2 r q) * tileY V c t (ix2 r q)) (Ideal.ofBits .f32 0x00000000#32)
    (fun h => pay2_apply _ _ q)
    (fun n h => pay2_apply _ _ q)

end Exact

/-! ## The arrays after the region -/

/-- One entry of `y₂ = relu(γ·(y₁ − μ)·rsqrt(v + ε) + β) · w + b`. -/
def y2At (y1 : (⟨2, ![50000, 128]⟩ : Shape).Idx → EReal) (m vr g be : (⟨2, ![1, 128]⟩ : Shape).Idx → EReal)
    (w : (⟨2, ![128, 128]⟩ : Shape).Idx → EReal) (b : (⟨2, ![1, 128]⟩ : Shape).Idx → EReal) (p : Fin 50000) (q : Fin 128) : EReal :=
  (∑ k : Fin 128, KStageB.bnrelu (vr (ix2 (0 : Fin 1) k)) (g (ix2 (0 : Fin 1) k)) (m (ix2 (0 : Fin 1) k)) (be (ix2 (0 : Fin 1) k))
      (y1 (ix2 p k)) * w (ix2 k q)) + b (ix2 (0 : Fin 1) q)

/-- `y₂` as an array. -/
def y2 (y1 : (⟨2, ![50000, 128]⟩ : Shape).Idx → EReal) (m vr g be : (⟨2, ![1, 128]⟩ : Shape).Idx → EReal)
    (w : (⟨2, ![128, 128]⟩ : Shape).Idx → EReal) (b : (⟨2, ![1, 128]⟩ : Shape).Idx → EReal) :
    (⟨2, ![50000, 128]⟩ : Shape).Idx → EReal :=
  fun i => y2At y1 m vr g be w b ⟨(i 0).val, idx2_lt0 i⟩ ⟨(i 1).val, idx2_lt1 i⟩

section Arrays

variable (V : (c : Dev nD) → (b : Ref sig .tc) → Buf (Elt Ideal) ((c : Thread nD τ).loc b))

/-- The arrays the region finds: the first stage's output, the column means and variances, the scale and shift rows,
    the weight matrix and the bias row. -/
abbrev Y1 (c : Dev nD) : S50000x128.Idx → EReal := V c (Pipeline.arrRef spec10 0)
abbrev M (c : Dev nD) : S1x128.Idx → EReal := V c (Pipeline.arrRef spec10 1)
abbrev Vr (c : Dev nD) : S1x128.Idx → EReal := V c (Pipeline.arrRef spec10 2)
abbrev G (c : Dev nD) : S1x128.Idx → EReal := V c (Pipeline.arrRef spec10 3)
abbrev Be (c : Dev nD) : S1x128.Idx → EReal := V c (Pipeline.arrRef spec10 4)
abbrev Wt (c : Dev nD) : S128x128.Idx → EReal := V c (Pipeline.arrRef spec10 5)
abbrev Bs (c : Dev nD) : S1x128.Idx → EReal := V c (Pipeline.arrRef spec10 6)

/-- The printed index maps over the ten points: the input tile and the output tile move down the rows with the
    point; the four statistics rows, the weight matrix and the bias row are block (0, 0). -/
theorem idx_facts : ∀ t : Fin cfg10.N,
    win10_0.index t (0 : Fin 2) = t.val ∧ win10_0.index t (1 : Fin 2) = 0
    ∧ win10_1.index t (0 : Fin 2) = 0 ∧ win10_1.index t (1 : Fin 2) = 0
    ∧ win10_2.index t (0 : Fin 2) = 0 ∧ win10_2.index t (1 : Fin 2) = 0
    ∧ win10_3.index t (0 : Fin 2) = 0 ∧ win10_3.index t (1 : Fin 2) = 0
    ∧ win10_4.index t (0 : Fin 2) = 0 ∧ win10_4.index t (1 : Fin 2) = 0
    ∧ win10_5.index t (0 : Fin 2) = 0 ∧ win10_5.index t (1 : Fin 2) = 0
    ∧ win10_6.index t (0 : Fin 2) = 0 ∧ win10_6.index t (1 : Fin 2) = 0
    ∧ win10_7.index t (0 : Fin 2) = t.val ∧ win10_7.index t (1 : Fin 2) = 0 :=
  (by decide +kernel : ∀ t : Fin grid10.N, _)

theorem iblk_y1 (c : Dev nD) (t : Fin cfg10.N) (p : Fin 5000) (k : Fin 128) (hp : t.val * 5000 + p.val < 50000) :
    (iblk10 V c 0 t : Vec Ideal S5000x128 .f32) (ix2 p k) = Y1 V c (ix2 ⟨t.val * 5000 + p.val, hp⟩ k) := by
  obtain ⟨e0, e1, -⟩ := idx_facts t
  unfold iblk10
  rw [View.read_apply]
  refine congrArg (V c (Pipeline.arrRef spec10 0)) (funext fun a => Fin.ext ?_)
  match a with
  | ⟨0, _⟩ => show win10_0.index t 0 * 5000 + 1 * p.val = t.val * 5000 + p.val; rw [e0]; omega
  | ⟨1, _⟩ => show win10_0.index t 1 * 128 + 1 * k.val = k.val; rw [e1]; omega

theorem iblk_m (c : Dev nD) (t : Fin cfg10.N) : (iblk10 V c 1 t : Vec Ideal S1x128 .f32) = M V c := by
  obtain ⟨-, -, e0, e1, -⟩ := idx_facts t
  funext y
  unfold iblk10
  rw [View.read_apply]
  refine congrArg (V c (Pipeline.arrRef spec10 1)) (funext fun a => Fin.ext ?_)
  match a with
  | ⟨0, _⟩ => show win10_1.index t 0 * 1 + 1 * (y 0).val = (y 0).val; rw [e0]; omega
  | ⟨1, _⟩ => show win10_1.index t 1 * 128 + 1 * (y 1).val = (y 1).val; rw [e1]; omega

theorem iblk_vr (c : Dev nD) (t : Fin cfg10.N) : (iblk10 V c 2 t : Vec Ideal S1x128 .f32) = Vr V c := by
  obtain ⟨-, -, -, -, e0, e1, -⟩ := idx_facts t
  funext y
  unfold iblk10
  rw [View.read_apply]
  refine congrArg (V c (Pipeline.arrRef spec10 2)) (funext fun a => Fin.ext ?_)
  match a with
  | ⟨0, _⟩ => show win10_2.index t 0 * 1 + 1 * (y 0).val = (y 0).val; rw [e0]; omega
  | ⟨1, _⟩ => show win10_2.index t 1 * 128 + 1 * (y 1).val = (y 1).val; rw [e1]; omega

theorem iblk_g (c : Dev nD) (t : Fin cfg10.N) : (iblk10 V c 3 t : Vec Ideal S1x128 .f32) = G V c := by
  obtain ⟨-, -, -, -, -, -, e0, e1, -⟩ := idx_facts t
  funext y
  unfold iblk10
  rw [View.read_apply]
  refine congrArg (V c (Pipeline.arrRef spec10 3)) (funext fun a => Fin.ext ?_)
  match a with
  | ⟨0, _⟩ => show win10_3.index t 0 * 1 + 1 * (y 0).val = (y 0).val; rw [e0]; omega
  | ⟨1, _⟩ => show win10_3.index t 1 * 128 + 1 * (y 1).val = (y 1).val; rw [e1]; omega

theorem iblk_be (c : Dev nD) (t : Fin cfg10.N) : (iblk10 V c 4 t : Vec Ideal S1x128 .f32) = Be V c := by
  obtain ⟨-, -, -, -, -, -, -, -, e0, e1, -⟩ := idx_facts t
  funext y
  unfold iblk10
  rw [View.read_apply]
  refine congrArg (V c (Pipeline.arrRef spec10 4)) (funext fun a => Fin.ext ?_)
  match a with
  | ⟨0, _⟩ => show win10_4.index t 0 * 1 + 1 * (y 0).val = (y 0).val; rw [e0]; omega
  | ⟨1, _⟩ => show win10_4.index t 1 * 128 + 1 * (y 1).val = (y 1).val; rw [e1]; omega

theorem iblk_w (c : Dev nD) (t : Fin cfg10.N) : (iblk10 V c 5 t : Vec Ideal S128x128 .f32) = Wt V c := by
  obtain ⟨-, -, -, -, -, -, -, -, -, -, e0, e1, -⟩ := idx_facts t
  funext y
  unfold iblk10
  rw [View.read_apply]
  refine congrArg (V c (Pipeline.arrRef spec10 5)) (funext fun a => Fin.ext ?_)
  match a with
  | ⟨0, _⟩ => show win10_5.index t 0 * 128 + 1 * (y 0).val = (y 0).val; rw [e0]; omega
  | ⟨1, _⟩ => show win10_5.index t 1 * 128 + 1 * (y 1).val = (y 1).val; rw [e1]; omega

theorem iblk_b (c : Dev nD) (t : Fin cfg10.N) : (iblk10 V c 6 t : Vec Ideal S1x128 .f32) = Bs V c := by
  obtain ⟨-, -, -, -, -, -, -, -, -, -, -, -, e0, e1, -⟩ := idx_facts t
  funext y
  unfold iblk10
  rw [View.read_apply]
  refine congrArg (V c (Pipeline.arrRef spec10 6)) (funext fun a => Fin.ext ?_)
  match a with
  | ⟨0, _⟩ => show win10_6.index t 0 * 1 + 1 * (y 0).val = (y 0).val; rw [e0]; omega
  | ⟨1, _⟩ => show win10_6.index t 1 * 128 + 1 * (y 1).val = (y 1).val; rw [e1]; omega

/-- The tile at point `t`, entry `(p, q)`, is `y₂` at row `5000·t + p`. -/
theorem tile_apply (c : Dev nD) (t : Fin cfg10.N) (p : Fin 5000) (q : Fin 128) (hp : t.val * 5000 + p.val < 50000) :
    tileY V c t (ix2 p q) = y2At (Y1 V c) (M V c) (Vr V c) (G V c) (Be V c) (Wt V c) (Bs V c) ⟨t.val * 5000 + p.val, hp⟩ q := by
  unfold tileY y2At
  rw [pay5_apply, iblk_m, iblk_vr, iblk_g, iblk_be, iblk_w, iblk_b]
  refine congrArg (· + _) (Finset.sum_congr rfl fun k _ => ?_)
  rw [iblk_y1 V c t p k hp]

end Arrays

section Final

variable (V : (c : Dev nD) → (b : Ref sig .tc) → Buf (Elt Ideal) ((c : Thread nD τ).loc b))

/-- An entry of the tile at point `t` is the entry of `y₂` at row `5000·t + ` the tile's row. -/
theorem point7 (c : Dev nD) (t : Fin cfg10.N) (j : S5000x128.Idx) (i : S50000x128.Idx)
    (hi0 : (i 0).val = t.val * 5000 + (j 0).val) (hi1 : (i 1).val = (j 1).val) :
    tileY V c t j = y2 (Y1 V c) (M V c) (Vr V c) (G V c) (Be V c) (Wt V c) (Bs V c) i := by
  obtain ⟨p, q, rfl⟩ : ∃ (p : Fin 5000) (q : Fin 128), j = ix2 p q := ⟨j 0, j 1, eq_ix2 j⟩
  have ht : t.val < 10 := lt_of_lt_of_eq t.isLt (show cfg10.N = 10 from N_10)
  have hp : t.val * 5000 + p.val < 50000 := by have := p.isLt; omega
  rw [tile_apply V c t p q hp]
  unfold y2
  congr 1
  · exact Fin.ext hi0.symm
  · exact Fin.ext hi1.symm

/-- What point `t` writes back of `y₂` is tile `t` of the array `y₂`. -/
theorem flushed7_eq (c : Dev nD) (t : Fin cfg10.N) :
    (dat10 V c).flushed 7 t
      = ((cfg10.win 7).blk t).view.read (Elt Ideal) (y2 (Y1 V c) (M V c) (Vr V c) (G V c) (Be V c) (Wt V c) (Bs V c)) := by
  show (cfg10.win 7).cut (grid10.coords t) ((dat10 V c).after 7 t) = _
  rw [after10_7, outsAt_eq]
  obtain ⟨-, -, -, -, -, -, -, -, -, -, -, -, -, -, e0, e1⟩ := idx_facts t
  funext j
  rw [View.read_apply]
  refine point7 V c t j _ ?_ ?_
  · show win10_7.index t 0 * 5000 + 1 * (j 0).val = t.val * 5000 + (j 0).val
    rw [e0]; omega
  · show win10_7.index t 1 * 128 + 1 * (j 1).val = (j 1).val
    rw [e1]; omega

theorem mem_blk7 (t : Fin cfg10.N) (i : S50000x128.Idx) :
    i ∈ ((cfg10.win 7).blk t).view.set ↔ ∀ a : Fin 2, win10_7.index t a * S5000x128.size a ≤ (i a).val
      ∧ (i a).val < win10_7.index t a * S5000x128.size a + S5000x128.size a := by
  show i ∈ ((View.whole main_v167_0).slice (win10_7.rect t)).set ↔ _
  rw [View.set_slice_whole, Rect.mem_set_unit]
  exact Iff.rfl

theorem cover7 (i : S50000x128.Idx) :
    ∃ t : Fin cfg10.N, (cfg10.win 7).flush t = true ∧ i ∈ ((cfg10.win 7).blk t).view.set := by
  have hi0 : (i 0).val < 50000 := idx2_lt0 i
  have hi1 : (i 1).val < 128 := idx2_lt1 i
  have hN : grid10.N = 10 := N_10
  have ht : (i 0).val / 5000 < cfg10.N := by show _ < grid10.N; rw [hN]; omega
  obtain ⟨-, -, -, -, -, -, -, -, -, -, -, -, -, -, e0, e1⟩ := idx_facts ⟨(i 0).val / 5000, ht⟩
  refine ⟨⟨(i 0).val / 5000, ht⟩, flush10_7 _, ?_⟩
  rw [mem_blk7]
  intro a
  match a with
  | ⟨0, _⟩ =>
    show win10_7.index ⟨(i 0).val / 5000, ht⟩ 0 * 5000 ≤ (i 0).val ∧ (i 0).val < win10_7.index ⟨(i 0).val / 5000, ht⟩ 0 * 5000 + 5000
    rw [e0]; show (i 0).val / 5000 * 5000 ≤ (i 0).val ∧ (i 0).val < (i 0).val / 5000 * 5000 + 5000; omega
  | ⟨1, _⟩ =>
    show win10_7.index ⟨(i 0).val / 5000, ht⟩ 1 * 128 ≤ (i 1).val ∧ (i 1).val < win10_7.index ⟨(i 0).val / 5000, ht⟩ 1 * 128 + 128
    rw [e1]; omega

/-- After the region the first output array is `y₂` of the arrays the region finds. -/
theorem final7 (c : Dev nD) : (dat10 V c).arrAt 7 cfg10.N = y2 (Y1 V c) (M V c) (Vr V c) (G V c) (Be V c) (Wt V c) (Bs V c) :=
  (dat10 V c).arrAt_eq_of_cover 7 _ (fun t _ => flushed7_eq V c t) cover7

theorem lastLt : 9 < cfg10.N := by show 9 < grid10.N; rw [N_10]; decide

/-- The accumulated column sums after the last point, as the contents of the second output array. -/
abbrev res8 (c : Dev nD) : Buf (Elt Ideal) ((c : Thread nD τ).loc main_v167_1) := acc8 V c 9 lastLt
/-- The accumulated column sums of squares after the last point, as the contents of the third output array. -/
abbrev res9 (c : Dev nD) : Buf (Elt Ideal) ((c : Thread nD τ).loc main_v167_2) := acc9 V c 9 lastLt

theorem flushed8_eq (c : Dev nD) (t : Fin cfg10.N) (hf : (cfg10.win 8).flush t = true) :
    (dat10 V c).flushed 8 t = ((cfg10.win 8).blk t).view.read (Elt Ideal) (res8 V c) := by
  have hN : grid10.N = 10 := N_10
  have h9 : t.val = 9 := by
    have := (flush10_8 t).mp hf; have h := lt_of_lt_of_eq t.isLt (show cfg10.N = 10 from N_10); omega
  obtain rfl : t = t10_9 := Fin.ext h9
  show (cfg10.win 8).cut (grid10.coords t10_9) ((dat10 V c).after 8 t10_9) = _
  rw [after10_8, outsAt_eq]
  have hz' : (fun a => win10_8.index t10_9 a * main_v167_1.ty.shape.size a) = fun _ => 0 := funext fun a => by fin_cases a <;> decide
  exact (Memref.read_access_unit_zero (Elt Ideal) main_v167_1 hz' (fun a => by rw [congrFun hz' a]; simp) (res8 V c)).symm

theorem flushed9_eq (c : Dev nD) (t : Fin cfg10.N) (hf : (cfg10.win 9).flush t = true) :
    (dat10 V c).flushed 9 t = ((cfg10.win 9).blk t).view.read (Elt Ideal) (res9 V c) := by
  have hN : grid10.N = 10 := N_10
  have h9 : t.val = 9 := by
    have := (flush10_9 t).mp hf; have h := lt_of_lt_of_eq t.isLt (show cfg10.N = 10 from N_10); omega
  obtain rfl : t = t10_9 := Fin.ext h9
  show (cfg10.win 9).cut (grid10.coords t10_9) ((dat10 V c).after 9 t10_9) = _
  rw [after10_9, outsAt_eq]
  have hz' : (fun a => win10_9.index t10_9 a * main_v167_2.ty.shape.size a) = fun _ => 0 := funext fun a => by fin_cases a <;> decide
  exact (Memref.read_access_unit_zero (Elt Ideal) main_v167_2 hz' (fun a => by rw [congrFun hz' a]; simp) (res9 V c)).symm

/-- The last point's write-back covers the one-row array. -/
theorem final8 (c : Dev nD) : (dat10 V c).arrAt 8 cfg10.N = res8 V c :=
  (dat10 V c).arrAt_eq_of_cover 8 (res8 V c) (flushed8_eq V c) fun i =>
    ⟨t10_9, (flush10_8 t10_9).mpr rfl, by
      show i ∈ ((View.whole main_v167_1).slice (win10_8.rect t10_9)).set
      rw [View.set_slice_whole, Rect.mem_set_unit]
      intro a
      have h0 : (i 0 : Nat) < 1 := (i 0).isLt
      have h1 : (i 1 : Nat) < 128 := (i 1).isLt
      match a with
      | ⟨0, _⟩ => show win10_8.index t10_9 0 * win10_8.size 0 ≤ (i 0 : Nat) ∧ (i 0 : Nat) < win10_8.index t10_9 0 * win10_8.size 0 + win10_8.xsize (grid10.coords t10_9) 0
                  rw [show win10_8.index t10_9 0 * win10_8.size 0 = 0 from by decide +kernel, show win10_8.xsize (grid10.coords t10_9) 0 = 1 from by decide +kernel]; omega
      | ⟨1, _⟩ => show win10_8.index t10_9 1 * win10_8.size 1 ≤ (i 1 : Nat) ∧ (i 1 : Nat) < win10_8.index t10_9 1 * win10_8.size 1 + win10_8.xsize (grid10.coords t10_9) 1
                  rw [show win10_8.index t10_9 1 * win10_8.size 1 = 0 from by decide +kernel, show win10_8.xsize (grid10.coords t10_9) 1 = 128 from by decide +kernel]; omega⟩

theorem final9 (c : Dev nD) : (dat10 V c).arrAt 9 cfg10.N = res9 V c :=
  (dat10 V c).arrAt_eq_of_cover 9 (res9 V c) (flushed9_eq V c) fun i =>
    ⟨t10_9, (flush10_9 t10_9).mpr rfl, by
      show i ∈ ((View.whole main_v167_2).slice (win10_9.rect t10_9)).set
      rw [View.set_slice_whole, Rect.mem_set_unit]
      intro a
      have h0 : (i 0 : Nat) < 1 := (i 0).isLt
      have h1 : (i 1 : Nat) < 128 := (i 1).isLt
      match a with
      | ⟨0, _⟩ => show win10_9.index t10_9 0 * win10_9.size 0 ≤ (i 0 : Nat) ∧ (i 0 : Nat) < win10_9.index t10_9 0 * win10_9.size 0 + win10_9.xsize (grid10.coords t10_9) 0
                  rw [show win10_9.index t10_9 0 * win10_9.size 0 = 0 from by decide +kernel, show win10_9.xsize (grid10.coords t10_9) 0 = 1 from by decide +kernel]; omega
      | ⟨1, _⟩ => show win10_9.index t10_9 1 * win10_9.size 1 ≤ (i 1 : Nat) ∧ (i 1 : Nat) < win10_9.index t10_9 1 * win10_9.size 1 + win10_9.xsize (grid10.coords t10_9) 1
                  rw [show win10_9.index t10_9 1 * win10_9.size 1 = 0 from by decide +kernel, show win10_9.xsize (grid10.coords t10_9) 1 = 128 from by decide +kernel]; omega⟩

/-- Summing the ten tiles' column sums is summing down all 50000 rows. -/
theorem tiles_sum (c : Dev nD) (f : EReal → EReal) (q : Fin 128) :
    ∑ t : Fin (9 + 1), ∑ r : Fin 5000, f (tileY V c ⟨t.val, lt_of_lt_of_le t.isLt lastLt⟩ (ix2 r q))
      = ∑ r : Fin 50000, f (y2 (Y1 V c) (M V c) (Vr V c) (G V c) (Be V c) (Wt V c) (Bs V c) (ix2 r q)) := by
  rw [Cert.FinSum.sum_mul 10 5000 50000 rfl]
  refine Finset.sum_congr rfl fun t _ => Finset.sum_congr rfl fun r _ => ?_
  have hp : t.val * 5000 + r.val < 50000 := by have := t.isLt; have := r.isLt; omega
  rw [tile_apply V c ⟨t.val, _⟩ r q hp]
  rfl

/-- The second output array at a column: the sum of `y₂` down the column (from zero). -/
theorem sum_apply (c : Dev nD) (q : Fin 128) :
    (dat10 V c).arrAt 8 cfg10.N (ix2 (0 : Fin 1) q)
      = Ideal.ofBits .f32 0x00000000#32 + ∑ r : Fin 50000, y2 (Y1 V c) (M V c) (Vr V c) (G V c) (Be V c) (Wt V c) (Bs V c) (ix2 r q) := by
  rw [final8]
  show acc8 V c 9 lastLt (ix2 (0 : Fin 1) q) = _
  rw [acc8_apply V c q 9 lastLt]
  exact congrArg (_ + ·) (tiles_sum V c id q)

/-- The third output array at a column: the sum of the squares of `y₂` down the column (from zero). -/
theorem sumsq_apply (c : Dev nD) (q : Fin 128) :
    (dat10 V c).arrAt 9 cfg10.N (ix2 (0 : Fin 1) q)
      = Ideal.ofBits .f32 0x00000000#32
        + ∑ r : Fin 50000, y2 (Y1 V c) (M V c) (Vr V c) (G V c) (Be V c) (Wt V c) (Bs V c) (ix2 r q) * y2 (Y1 V c) (M V c) (Vr V c) (G V c) (Be V c) (Wt V c) (Bs V c) (ix2 r q) := by
  rw [final9]
  show acc9 V c 9 lastLt (ix2 (0 : Fin 1) q) = _
  rw [acc9_apply V c q 9 lastLt]
  exact congrArg (_ + ·) (tiles_sum V c (fun x => x * x) q)

end Final

end Cert.KernelIdeal.KStageBVal_L2

end
-- ==== Proof.KStageCVal_L2.lean ====
/-
  The third stage's region, read as values.  At each of the ten grid points the body writes the point's tile of
  `c = relu(γ·(y₂ − μ)·rsqrt(v + ε) + β)` and updates two one-row accumulators: at the first point they are reset
  to zero before the tile's column sums (and column sums of squares) are added, at the later points the sums are added
  to what the point before left.
-/
import proofs.«140776_j80633716015159_1_alg».proof.Proof.Gen.KernelIdeal.Frame
import proofs.«140776_j80633716015159_1_alg».proof.Proof.KStageB
import proofs.«140776_j80633716015159_1_alg».proof.Proof.KStageCD
import proofs.«140776_j80633716015159_1_alg».proof.Proof.LibFinSum
import Idealize.ShloMosaic.Lib.Pipeline.Value
import Idealize.ShloMosaic.Lib.Tactic

set_option maxRecDepth 16384

noncomputable section

namespace Cert.KernelIdeal.KStageCVal_L2

open Cert.KernelIdeal Cert.KernelIdeal.Gen
open Idealize.ShloMosaic Idealize.ShloMosaic.TcCoe Idealize.ShloMosaic.ValueIdx Idealize.SL.Sem
open Idealize.ShloMosaic.Pipeline (Dat Cfg Window)

/-- The third stage's tile at an entry. -/
theorem pay4_apply (v3 : Vec Ideal S5000x128 .f32) (v5 v10 v12 v20 : Vec Ideal S1x128 .f32) (p : Fin 5000) (q : Fin 128) :
    k11_pay4 v3 v5 v10 v12 v20 (ix2 p q)
      = KStageB.bnrelu (v5 (ix2 (0 : Fin 1) q)) (v10 (ix2 (0 : Fin 1) q)) (v12 (ix2 (0 : Fin 1) q)) (v20 (ix2 (0 : Fin 1) q))
          (v3 (ix2 p q)) :=
  KStageCD.pay4_apply v3 v5 v10 v12 v20 p q

/-- The third stage's running column sums after the point. -/
theorem pay5_apply (v3 : Vec Ideal S5000x128 .f32) (v5 v10 v12 v20 v27 : Vec Ideal S1x128 .f32) (q : Fin 128) :
    k11_pay5 v3 v5 v10 v12 v20 v27 (ix2 (0 : Fin 1) q)
      = v27 (ix2 (0 : Fin 1) q) + ∑ r : Fin 5000, k11_pay4 v3 v5 v10 v12 v20 (ix2 r q) :=
  KStageCD.pay5_apply v3 v5 v10 v12 v20 v27 q

/-- The third stage's running column sums of squares after the point. -/
theorem pay1_apply (v25 : FVec Ideal S5000x128 .f32) (v33 : Vec Ideal S1x128 .f32) (q : Fin 128) :
    k11_pay1 v25 v33 (ix2 (0 : Fin 1) q) = v33 (ix2 (0 : Fin 1) q) + ∑ r : Fin 5000, v25 (ix2 r q) * v25 (ix2 r q) :=
  KStageCD.pay1_apply v25 v33 q

variable {F : FTy → Type} [FloatOps F]

theorem hz : (![0, 0] : Fin 2 → Nat) = fun _ => 0 := funext fun a => by fin_cases a <;> rfl

/-- The zero row the reset stores. -/
abbrev zrow : Vec F S1x128 .f32 := broadcast S1x128 (Scalar.ofBits .f32 0x00000000#32)

/-- First point, the tile of `c`. -/
theorem outA5 (c : Dev nD) (i : grid11.Coords) (a1 : Memref sig .tc .vmem S5000x128 .f32) (h1 : a1.IsWhole) (a2 : Memref sig .tc .vmem S1x128 .f32) (h2 : a2.IsWhole) (a3 : Memref sig .tc .vmem S1x128 .f32) (h3 : a3.IsWhole) (a4 : Memref sig .tc .vmem S1x128 .f32) (h4 : a4.IsWhole) (a5 : Memref sig .tc .vmem S1x128 .f32) (h5 : a5.IsWhole) (a6 : Memref sig .tc .vmem S5000x128 .f32) (h6 : a6.IsWhole) (a7 : Memref sig .tc .vmem S1x128 .f32) (h7 : a7.IsWhole) (a8 : Memref sig .tc .vmem S1x128 .f32) (h8 : a8.IsWhole) (hc : cond11_0 i) (x0 : Vec F S5000x128 .f32) (x1 x2 x3 x4 : Vec F S1x128 .f32) :
    out11_A_5 c i a1 h1 a2 h2 a3 h3 a4 h4 a5 h5 a6 h6 a7 h7 a8 h8 hc x0 x1 x2 x3 x4 = k11_pay4 x0 x2 x3 x1 x4 := by
  unfold out11_A_5
  rw [View.read_writes_eq_canon _ _ _ (cover11_A_5 c i a1 h1 a2 h2 a3 h3 a4 h4 a5 h5 a6 h6 a7 h7 a8 h8 hc x0 x1 x2 x3 x4)]
  unfold kernelRun11_A
  dsimp only
  sl_unfold_words
  rw [View.canon_unit_zero hz]
  simp only [View.readAt_eq_ld, h1.read_unread, h2.read_unread, h3.read_unread, h4.read_unread, h5.read_unread, h7.read_unread, h8.read_unread, View.ld_unit_zero (S := S5000x128) hz, View.ld_unit_zero (S := S1x128) hz]

theorem outA6 (c : Dev nD) (i : grid11.Coords) (a1 : Memref sig .tc .vmem S5000x128 .f32) (h1 : a1.IsWhole) (a2 : Memref sig .tc .vmem S1x128 .f32) (h2 : a2.IsWhole) (a3 : Memref sig .tc .vmem S1x128 .f32) (h3 : a3.IsWhole) (a4 : Memref sig .tc .vmem S1x128 .f32) (h4 : a4.IsWhole) (a5 : Memref sig .tc .vmem S1x128 .f32) (h5 : a5.IsWhole) (a6 : Memref sig .tc .vmem S5000x128 .f32) (h6 : a6.IsWhole) (a7 : Memref sig .tc .vmem S1x128 .f32) (h7 : a7.IsWhole) (a8 : Memref sig .tc .vmem S1x128 .f32) (h8 : a8.IsWhole) (hc : cond11_0 i) (x0 : Vec F S5000x128 .f32) (x1 x2 x3 x4 : Vec F S1x128 .f32) :
    out11_A_6 c i a1 h1 a2 h2 a3 h3 a4 h4 a5 h5 a6 h6 a7 h7 a8 h8 hc x0 x1 x2 x3 x4 = k11_pay5 x0 x2 x3 x1 x4 zrow := by
  unfold out11_A_6
  rw [View.read_writes_eq_canon _ _ _ (cover11_A_6 c i a1 h1 a2 h2 a3 h3 a4 h4 a5 h5 a6 h6 a7 h7 a8 h8 hc x0 x1 x2 x3 x4)]
  unfold kernelRun11_A
  dsimp only
  sl_unfold_words
  rw [View.canon_cons_unit_zero (S := S1x128) hz, View.readCov_unit_zero (S := S1x128) _ hz]
  simp only [View.readAt_eq_ld, h1.read_unread, h2.read_unread, h3.read_unread, h4.read_unread, h5.read_unread, h7.read_unread, h8.read_unread, View.ld_unit_zero (S := S5000x128) hz, View.ld_unit_zero (S := S1x128) hz]
  rfl

theorem outA7 (c : Dev nD) (i : grid11.Coords) (a1 : Memref sig .tc .vmem S5000x128 .f32) (h1 : a1.IsWhole) (a2 : Memref sig .tc .vmem S1x128 .f32) (h2 : a2.IsWhole) (a3 : Memref sig .tc .vmem S1x128 .f32) (h3 : a3.IsWhole) (a4 : Memref sig .tc .vmem S1x128 .f32) (h4 : a4.IsWhole) (a5 : Memref sig .tc .vmem S1x128 .f32) (h5 : a5.IsWhole) (a6 : Memref sig .tc .vmem S5000x128 .f32) (h6 : a6.IsWhole) (a7 : Memref sig .tc .vmem S1x128 .f32) (h7 : a7.IsWhole) (a8 : Memref sig .tc .vmem S1x128 .f32) (h8 : a8.IsWhole) (hc : cond11_0 i) (x0 : Vec F S5000x128 .f32) (x1 x2 x3 x4 : Vec F S1x128 .f32) :
    out11_A_7 c i a1 h1 a2 h2 a3 h3 a4 h4 a5 h5 a6 h6 a7 h7 a8 h8 hc x0 x1 x2 x3 x4 = k11_pay1 (k11_pay4 x0 x2 x3 x1 x4) zrow := by
  unfold out11_A_7
  rw [View.read_writes_eq_canon _ _ _ (cover11_A_7 c i a1 h1 a2 h2 a3 h3 a4 h4 a5 h5 a6 h6 a7 h7 a8 h8 hc x0 x1 x2 x3 x4)]
  unfold kernelRun11_A
  dsimp only
  sl_unfold_words
  rw [View.canon_cons_unit_zero (S := S1x128) hz, View.readCov_unit_zero (S := S1x128) _ hz]
  simp only [View.readAt_eq_ld, h1.read_unread, h2.read_unread, h3.read_unread, h4.read_unread, h5.read_unread, h7.read_unread, h8.read_unread, View.ld_unit_zero (S := S5000x128) hz, View.ld_unit_zero (S := S1x128) hz]
  rfl

theorem outB5 (c : Dev nD) (i : grid11.Coords) (a1 : Memref sig .tc .vmem S5000x128 .f32) (h1 : a1.IsWhole) (a2 : Memref sig .tc .vmem S1x128 .f32) (h2 : a2.IsWhole) (a3 : Memref sig .tc .vmem S1x128 .f32) (h3 : a3.IsWhole) (a4 : Memref sig .tc .vmem S1x128 .f32) (h4 : a4.IsWhole) (a5 : Memref sig .tc .vmem S1x128 .f32) (h5 : a5.IsWhole) (a6 : Memref sig .tc .vmem S5000x128 .f32) (h6 : a6.IsWhole) (a7 : Memref sig .tc .vmem S1x128 .f32) (h7 : a7.IsWhole) (a8 : Memref sig .tc .vmem S1x128 .f32) (h8 : a8.IsWhole) (hc : ¬cond11_0 i) (x0 : Vec F S5000x128 .f32) (x1 x2 x3 x4 : Vec F S1x128 .f32) (s6 s7 : Vec F S1x128 .f32) :
    out11_B_5 c i a1 h1 a2 h2 a3 h3 a4 h4 a5 h5 a6 h6 a7 h7 a8 h8 hc x0 x1 x2 x3 x4 s6 s7 = k11_pay4 x0 x2 x3 x1 x4 := by
  unfold out11_B_5
  rw [View.read_writes_eq_canon _ _ _ (cover11_B_5 c i a1 h1 a2 h2 a3 h3 a4 h4 a5 h5 a6 h6 a7 h7 a8 h8 hc x0 x1 x2 x3 x4 s6 s7)]
  unfold kernelRun11_B
  dsimp only
  sl_unfold_words
  rw [View.canon_unit_zero hz]
  simp only [View.readAt_eq_ld, h1.read_unread, h2.read_unread, h3.read_unread, h4.read_unread, h5.read_unread, h7.read_unread, h8.read_unread, View.ld_unit_zero (S := S5000x128) hz, View.ld_unit_zero (S := S1x128) hz]

theorem outB6 (c : Dev nD) (i : grid11.Coords) (a1 : Memref sig .tc .vmem S5000x128 .f32) (h1 : a1.IsWhole) (a2 : Memref sig .tc .vmem S1x128 .f32) (h2 : a2.IsWhole) (a3 : Memref sig .tc .vmem S1x128 .f32) (h3 : a3.IsWhole) (a4 : Memref sig .tc .vmem S1x128 .f32) (h4 : a4.IsWhole) (a5 : Memref sig .tc .vmem S1x128 .f32) (h5 : a5.IsWhole) (a6 : Memref sig .tc .vmem S5000x128 .f32) (h6 : a6.IsWhole) (a7 : Memref sig .tc .vmem S1x128 .f32) (h7 : a7.IsWhole) (a8 : Memref sig .tc .vmem S1x128 .f32) (h8 : a8.IsWhole) (hc : ¬cond11_0 i) (x0 : Vec F S5000x128 .f32) (x1 x2 x3 x4 : Vec F S1x128 .f32) (s6 s7 : Vec F S1x128 .f32) :
    out11_B_6 c i a1 h1 a2 h2 a3 h3 a4 h4 a5 h5 a6 h6 a7 h7 a8 h8 hc x0 x1 x2 x3 x4 s6 s7 = k11_pay5 x0 x2 x3 x1 x4 s6 := by
  unfold out11_B_6
  rw [View.read_writes_eq_canon _ _ _ (cover11_B_6 c i a1 h1 a2 h2 a3 h3 a4 h4 a5 h5 a6 h6 a7 h7 a8 h8 hc x0 x1 x2 x3 x4 s6 s7)]
  unfold kernelRun11_B
  dsimp only
  sl_unfold_words
  rw [View.canon_unit_zero hz]
  simp only [View.readAt_eq_ld, h1.read_unread, h2.read_unread, h3.read_unread, h4.read_unread, h5.read_unread, h7.read_unread, h8.read_unread, View.ld_unit_zero (S := S5000x128) hz, View.ld_unit_zero (S := S1x128) hz]

theorem outB7 (c : Dev nD) (i : grid11.Coords) (a1 : Memref sig .tc .vmem S5000x128 .f32) (h1 : a1.IsWhole) (a2 : Memref sig .tc .vmem S1x128 .f32) (h2 : a2.IsWhole) (a3 : Memref sig .tc .vmem S1x128 .f32) (h3 : a3.IsWhole) (a4 : Memref sig .tc .vmem S1x128 .f32) (h4 : a4.IsWhole) (a5 : Memref sig .tc .vmem S1x128 .f32) (h5 : a5.IsWhole) (a6 : Memref sig .tc .vmem S5000x128 .f32) (h6 : a6.IsWhole) (a7 : Memref sig .tc .vmem S1x128 .f32) (h7 : a7.IsWhole) (a8 : Memref sig .tc .vmem S1x128 .f32) (h8 : a8.IsWhole) (hc : ¬cond11_0 i) (x0 : Vec F S5000x128 .f32) (x1 x2 x3 x4 : Vec F S1x128 .f32) (s6 s7 : Vec F S1x128 .f32) :
    out11_B_7 c i a1 h1 a2 h2 a3 h3 a4 h4 a5 h5 a6 h6 a7 h7 a8 h8 hc x0 x1 x2 x3 x4 s6 s7 = k11_pay1 (k11_pay4 x0 x2 x3 x1 x4) s7 := by
  unfold out11_B_7
  rw [View.read_writes_eq_canon _ _ _ (cover11_B_7 c i a1 h1 a2 h2 a3 h3 a4 h4 a5 h5 a6 h6 a7 h7 a8 h8 hc x0 x1 x2 x3 x4 s6 s7)]
  unfold kernelRun11_B
  dsimp only
  sl_unfold_words
  rw [View.canon_unit_zero hz]
  simp only [View.readAt_eq_ld, h1.read_unread, h2.read_unread, h3.read_unread, h4.read_unread, h5.read_unread, h7.read_unread, h8.read_unread, View.ld_unit_zero (S := S5000x128) hz, View.ld_unit_zero (S := S1x128) hz]

/-! ## The outputs after each point -/

variable (V : (c : Dev nD) → (b : Ref sig .tc) → Buf (Elt F) ((c : Thread nD τ).loc b))

/-- The point's tile of `c`. -/
def tileY (c : Dev nD) (t : Fin cfg11.N) : Vec F S5000x128 .f32 := k11_pay4 (iblk11 V c 0 t) (iblk11 V c 2 t) (iblk11 V c 3 t) (iblk11 V c 1 t) (iblk11 V c 4 t)

/-- The running column sums after point `n`. -/
def acc6 (c : Dev nD) : (n : ℕ) → n < cfg11.N → Vec F S1x128 .f32
  | 0, h => k11_pay5 (iblk11 V c 0 ⟨0, h⟩) (iblk11 V c 2 ⟨0, h⟩) (iblk11 V c 3 ⟨0, h⟩) (iblk11 V c 1 ⟨0, h⟩) (iblk11 V c 4 ⟨0, h⟩) zrow
  | n + 1, h => k11_pay5 (iblk11 V c 0 ⟨n + 1, h⟩) (iblk11 V c 2 ⟨n + 1, h⟩) (iblk11 V c 3 ⟨n + 1, h⟩) (iblk11 V c 1 ⟨n + 1, h⟩) (iblk11 V c 4 ⟨n + 1, h⟩) (acc6 c n (Nat.lt_of_succ_lt h))

/-- The running column sums of squares after point `n`. -/
def acc7 (c : Dev nD) : (n : ℕ) → n < cfg11.N → Vec F S1x128 .f32
  | 0, h => k11_pay1 (tileY V c ⟨0, h⟩) zrow
  | n + 1, h => k11_pay1 (tileY V c ⟨n + 1, h⟩) (acc7 c n (Nat.lt_of_succ_lt h))

/-- What the three outputs' staging buffers hold after point `n`: the tile and the two running sums. -/
theorem outsAt_eq (c : Dev nD) : ∀ (n : ℕ) (h : n < cfg11.N), outsAt11 V c n h = (tileY V c ⟨n, h⟩, acc6 V c n h, acc7 V c n h)
  | 0, h => (outsAt11_A V c ⟨0, h⟩ rfl).trans (by rw [outA5, outA6, outA7]; rfl)
  | n + 1, h => by
    have hN : grid11.N = 10 := N_11
    have hB : ¬(⟨n + 1, h⟩ : Fin cfg11.N).val % 10 = 0 := by
      have : n + 1 < 10 := by have := h; rw [show cfg11.N = grid11.N from rfl, hN] at this; exact this
      dsimp only; omega
    rw [outsAt11_B V c ⟨n + 1, h⟩ hB, outB5, outB6, outB7]
    show (_, k11_pay5 _ _ _ _ _ (outsAt11 V c n _).2.1, k11_pay1 _ (outsAt11 V c n _).2.2) = _
    rw [outsAt_eq c n]
    rfl

/-! ## At the exact reading: the accumulators are sums, the tiles an array -/

section Exact

variable (V : (c : Dev nD) → (b : Ref sig .tc) → Buf (Elt Ideal) ((c : Thread nD τ).loc b))

theorem acc6_apply (c : Dev nD) (q : Fin 128) : ∀ (n : ℕ) (h : n < cfg11.N),
    acc6 V c n h (ix2 (0 : Fin 1) q)
      = Ideal.ofBits .f32 0x00000000#32
        + ∑ t : Fin (n + 1), ∑ r : Fin 5000, tileY V c ⟨t.val, lt_of_lt_of_le t.isLt h⟩ (ix2 r q) :=
  Cert.FinSum.sum_of_steps cfg11.N (fun n h => acc6 V c n h (ix2 (0 : Fin 1) q))
    (fun t => ∑ r : Fin 5000, tileY V c t (ix2 r q)) (Ideal.ofBits .f32 0x00000000#32)
    (fun h => pay5_apply _ _ _ _ _ _ q)
    (fun n h => pay5_apply _ _ _ _ _ _ q)

theorem acc7_apply (c : Dev nD) (q : Fin 128) : ∀ (n : ℕ) (h : n < cfg11.N),
    acc7 V c n h (ix2 (0 : Fin 1) q)
      = Ideal.ofBits .f32 0x00000000#32
        + ∑ t : Fin (n + 1), ∑ r : Fin 5000,
            tileY V c ⟨t.val, lt_of_lt_of_le t.isLt h⟩ (ix2 r q) * tileY V c ⟨t.val, lt_of_lt_of_le t.isLt h⟩ (ix2 r q) :=
  Cert.FinSum.sum_of_steps cfg11.N (fun n h => acc7 V c n h (ix2 (0 : Fin 1) q))
    (fun t => ∑ r : Fin 5000, tileY V c t (ix2 r q) * tileY V c t (ix2 r q)) (Ideal.ofBits .f32 0x00000000#32)
    (fun h => pay1_apply _ _ q)
    (fun n h => pay1_apply _ _ q)

end Exact

/-! ## The arrays after the region -/

/-- One entry of `c = relu(γ·(y₂ − μ)·rsqrt(v + ε) + β)`. -/
def cAt (y2 : (⟨2, ![50000, 128]⟩ : Shape).Idx → EReal) (m vr g be : (⟨2, ![1, 128]⟩ : Shape).Idx → EReal)
    (p : Fin 50000) (q : Fin 128) : EReal :=
  KStageB.bnrelu (vr (ix2 (0 : Fin 1) q)) (g (ix2 (0 : Fin 1) q)) (m (ix2 (0 : Fin 1) q)) (be (ix2 (0 : Fin 1) q)) (y2 (ix2 p q))

/-- `c` as an array. -/
def cArr (y2 : (⟨2, ![50000, 128]⟩ : Shape).Idx → EReal) (m vr g be : (⟨2, ![1, 128]⟩ : Shape).Idx → EReal) :
    (⟨2, ![50000, 128]⟩ : Shape).Idx → EReal :=
  fun i => cAt y2 m vr g be ⟨(i 0).val, idx2_lt0 i⟩ ⟨(i 1).val, idx2_lt1 i⟩

section Arrays

variable (V : (c : Dev nD) → (b : Ref sig .tc) → Buf (Elt Ideal) ((c : Thread nD τ).loc b))

/-- The arrays the region finds: the second stage's output, the column means and variances, the scale and shift rows. -/
abbrev Y2 (c : Dev nD) : S50000x128.Idx → EReal := V c (Pipeline.arrRef spec11 0)
abbrev M (c : Dev nD) : S1x128.Idx → EReal := V c (Pipeline.arrRef spec11 1)
abbrev Vr (c : Dev nD) : S1x128.Idx → EReal := V c (Pipeline.arrRef spec11 2)
abbrev G (c : Dev nD) : S1x128.Idx → EReal := V c (Pipeline.arrRef spec11 3)
abbrev Be (c : Dev nD) : S1x128.Idx → EReal := V c (Pipeline.arrRef spec11 4)

/-- The printed index maps over the ten points: the input tile and the output tile move down the rows with the
    point; the four statistics rows are block (0, 0). -/
theorem idx_facts : ∀ t : Fin cfg11.N,
    win11_0.index t (0 : Fin 2) = t.val ∧ win11_0.index t (1 : Fin 2) = 0
    ∧ win11_1.index t (0 : Fin 2) = 0 ∧ win11_1.index t (1 : Fin 2) = 0
    ∧ win11_2.index t (0 : Fin 2) = 0 ∧ win11_2.index t (1 : Fin 2) = 0
    ∧ win11_3.index t (0 : Fin 2) = 0 ∧ win11_3.index t (1 : Fin 2) = 0
    ∧ win11_4.index t (0 : Fin 2) = 0 ∧ win11_4.index t (1 : Fin 2) = 0
    ∧ win11_5.index t (0 : Fin 2) = t.val ∧ win11_5.index t (1 : Fin 2) = 0 :=
  (by decide +kernel : ∀ t : Fin grid11.N, _)

theorem iblk_y2 (c : Dev nD) (t : Fin cfg11.N) (p : Fin 5000) (k : Fin 128) (hp : t.val * 5000 + p.val < 50000) :
    (iblk11 V c 0 t : Vec Ideal S5000x128 .f32) (ix2 p k) = Y2 V c (ix2 ⟨t.val * 5000 + p.val, hp⟩ k) := by
  obtain ⟨e0, e1, -⟩ := idx_facts t
  unfold iblk11
  rw [View.read_apply]
  refine congrArg (V c (Pipeline.arrRef spec11 0)) (funext fun a => Fin.ext ?_)
  match a with
  | ⟨0, _⟩ => show win11_0.index t 0 * 5000 + 1 * p.val = t.val * 5000 + p.val; rw [e0]; omega
  | ⟨1, _⟩ => show win11_0.index t 1 * 128 + 1 * k.val = k.val; rw [e1]; omega

theorem iblk_m (c : Dev nD) (t : Fin cfg11.N) : (iblk11 V c 1 t : Vec Ideal S1x128 .f32) = M V c := by
  obtain ⟨-, -, e0, e1, -⟩ := idx_facts t
  funext y
  unfold iblk11
  rw [View.read_apply]
  refine congrArg (V c (Pipeline.arrRef spec11 1)) (funext fun a => Fin.ext ?_)
  match a with
  | ⟨0, _⟩ => show win11_1.index t 0 * 1 + 1 * (y 0).val = (y 0).val; rw [e0]; omega
  | ⟨1, _⟩ => show win11_1.index t 1 * 128 + 1 * (y 1).val = (y 1).val; rw [e1]; omega

theorem iblk_vr (c : Dev nD) (t : Fin cfg11.N) : (iblk11 V c 2 t : Vec Ideal S1x128 .f32) = Vr V c := by
  obtain ⟨-, -, -, -, e0, e1, -⟩ := idx_facts t
  funext y
  unfold iblk11
  rw [View.read_apply]
  refine congrArg (V c (Pipeline.arrRef spec11 2)) (funext fun a => Fin.ext ?_)
  match a with
  | ⟨0, _⟩ => show win11_2.index t 0 * 1 + 1 * (y 0).val = (y 0).val; rw [e0]; omega
  | ⟨1, _⟩ => show win11_2.index t 1 * 128 + 1 * (y 1).val = (y 1).val; rw [e1]; omega

theorem iblk_g (c : Dev nD) (t : Fin cfg11.N) : (iblk11 V c 3 t : Vec Ideal S1x128 .f32) = G V c := by
  obtain ⟨-, -, -, -, -, -, e0, e1, -⟩ := idx_facts t
  funext y
  unfold iblk11
  rw [View.read_apply]
  refine congrArg (V c (Pipeline.arrRef spec11 3)) (funext fun a => Fin.ext ?_)
  match a with
  | ⟨0, _⟩ => show win11_3.index t 0 * 1 + 1 * (y 0).val = (y 0).val; rw [e0]; omega
  | ⟨1, _⟩ => show win11_3.index t 1 * 128 + 1 * (y 1).val = (y 1).val; rw [e1]; omega

theorem iblk_be (c : Dev nD) (t : Fin cfg11.N) : (iblk11 V c 4 t : Vec Ideal S1x128 .f32) = Be V c := by
  obtain ⟨-, -, -, -, -, -, -, -, e0, e1, -⟩ := idx_facts t
  funext y
  unfold iblk11
  rw [View.read_apply]
  refine congrArg (V c (Pipeline.arrRef spec11 4)) (funext fun a => Fin.ext ?_)
  match a with
  | ⟨0, _⟩ => show win11_4.index t 0 * 1 + 1 * (y 0).val = (y 0).val; rw [e0]; omega
  | ⟨1, _⟩ => show win11_4.index t 1 * 128 + 1 * (y 1).val = (y 1).val; rw [e1]; omega

/-- The tile at point `t`, entry `(p, q)`, is `c` at row `5000·t + p`. -/
theorem tile_apply (c : Dev nD) (t : Fin cfg11.N) (p : Fin 5000) (q : Fin 128) (hp : t.val * 5000 + p.val < 50000) :
    tileY V c t (ix2 p q) = cAt (Y2 V c) (M V c) (Vr V c) (G V c) (Be V c) ⟨t.val * 5000 + p.val, hp⟩ q := by
  unfold tileY cAt
  rw [pay4_apply, iblk_m, iblk_vr, iblk_g, iblk_be, iblk_y2 V c t p q hp]

end Arrays

section Final

variable (V : (c : Dev nD) → (b : Ref sig .tc) → Buf (Elt Ideal) ((c : Thread nD τ).loc b))

/-- An entry of the tile at point `t` is the entry of `c` at row `5000·t + ` the tile's row. -/
theorem point5 (c : Dev nD) (t : Fin cfg11.N) (j : S5000x128.Idx) (i : S50000x128.Idx)
    (hi0 : (i 0).val = t.val * 5000 + (j 0).val) (hi1 : (i 1).val = (j 1).val) :
    tileY V c t j = cArr (Y2 V c) (M V c) (Vr V c) (G V c) (Be V c) i := by
  obtain ⟨p, q, rfl⟩ : ∃ (p : Fin 5000) (q : Fin 128), j = ix2 p q := ⟨j 0, j 1, eq_ix2 j⟩
  have ht : t.val < 10 := lt_of_lt_of_eq t.isLt (show cfg11.N = 10 from N_11)
  have hp : t.val * 5000 + p.val < 50000 := by have := p.isLt; omega
  rw [tile_apply V c t p q hp]
  unfold cArr
  congr 1
  · exact Fin.ext hi0.symm
  · exact Fin.ext hi1.symm

/-- What point `t` writes back of `c` is tile `t` of the array `c`. -/
theorem flushed5_eq (c : Dev nD) (t : Fin cfg11.N) :
    (dat11 V c).flushed 5 t
      = ((cfg11.win 5).blk t).view.read (Elt Ideal) (cArr (Y2 V c) (M V c) (Vr V c) (G V c) (Be V c)) := by
  show (cfg11.win 5).cut (grid11.coords t) ((dat11 V c).after 5 t) = _
  rw [after11_5, outsAt_eq]
  obtain ⟨-, -, -, -, -, -, -, -, -, -, e0, e1⟩ := idx_facts t
  funext j
  rw [View.read_apply]
  refine point5 V c t j _ ?_ ?_
  · show win11_5.index t 0 * 5000 + 1 * (j 0).val = t.val * 5000 + (j 0).val
    rw [e0]; omega
  · show win11_5.index t 1 * 128 + 1 * (j 1).val = (j 1).val
    rw [e1]; omega

theorem mem_blk5 (t : Fin cfg11.N) (i : S50000x128.Idx) :
    i ∈ ((cfg11.win 5).blk t).view.set ↔ ∀ a : Fin 2, win11_5.index t a * S5000x128.size a ≤ (i a).val
      ∧ (i a).val < win11_5.index t a * S5000x128.size a + S5000x128.size a := by
  show i ∈ ((View.whole main_v180_0).slice (win11_5.rect t)).set ↔ _
  rw [View.set_slice_whole, Rect.mem_set_unit]
  exact Iff.rfl

theorem cover5 (i : S50000x128.Idx) :
    ∃ t : Fin cfg11.N, (cfg11.win 5).flush t = true ∧ i ∈ ((cfg11.win 5).blk t).view.set := by
  have hi0 : (i 0).val < 50000 := idx2_lt0 i
  have hi1 : (i 1).val < 128 := idx2_lt1 i
  have hN : grid11.N = 10 := N_11
  have ht : (i 0).val / 5000 < cfg11.N := by show _ < grid11.N; rw [hN]; omega
  obtain ⟨-, -, -, -, -, -, -, -, -, -, e0, e1⟩ := idx_facts ⟨(i 0).val / 5000, ht⟩
  refine ⟨⟨(i 0).val / 5000, ht⟩, flush11_5 _, ?_⟩
  rw [mem_blk5]
  intro a
  match a with
  | ⟨0, _⟩ =>
    show win11_5.index ⟨(i 0).val / 5000, ht⟩ 0 * 5000 ≤ (i 0).val ∧ (i 0).val < win11_5.index ⟨(i 0).val / 5000, ht⟩ 0 * 5000 + 5000
    rw [e0]; show (i 0).val / 5000 * 5000 ≤ (i 0).val ∧ (i 0).val < (i 0).val / 5000 * 5000 + 5000; omega
  | ⟨1, _⟩ =>
    show win11_5.index ⟨(i 0).val / 5000, ht⟩ 1 * 128 ≤ (i 1).val ∧ (i 1).val < win11_5.index ⟨(i 0).val / 5000, ht⟩ 1 * 128 + 128
    rw [e1]; omega

/-- After the region the first output array is `c` of the arrays the region finds. -/
theorem final5 (c : Dev nD) : (dat11 V c).arrAt 5 cfg11.N = cArr (Y2 V c) (M V c) (Vr V c) (G V c) (Be V c) :=
  (dat11 V c).arrAt_eq_of_cover 5 _ (fun t _ => flushed5_eq V c t) cover5

theorem lastLt : 9 < cfg11.N := by show 9 < grid11.N; rw [N_11]; decide

/-- The accumulated column sums after the last point, as the contents of the second output array. -/
abbrev res6 (c : Dev nD) : Buf (Elt Ideal) ((c : Thread nD τ).loc main_v180_1) := acc6 V c 9 lastLt
/-- The accumulated column sums of squares after the last point, as the contents of the third output array. -/
abbrev res7 (c : Dev nD) : Buf (Elt Ideal) ((c : Thread nD τ).loc main_v180_2) := acc7 V c 9 lastLt

theorem flushed6_eq (c : Dev nD) (t : Fin cfg11.N) (hf : (cfg11.win 6).flush t = true) :
    (dat11 V c).flushed 6 t = ((cfg11.win 6).blk t).view.read (Elt Ideal) (res6 V c) := by
  have hN : grid11.N = 10 := N_11
  have h9 : t.val = 9 := by
    have := (flush11_6 t).mp hf; have h := lt_of_lt_of_eq t.isLt (show cfg11.N = 10 from N_11); omega
  obtain rfl : t = t11_9 := Fin.ext h9
  show (cfg11.win 6).cut (grid11.coords t11_9) ((dat11 V c).after 6 t11_9) = _
  rw [after11_6, outsAt_eq]
  have hz' : (fun a => win11_6.index t11_9 a * main_v180_1.ty.shape.size a) = fun _ => 0 := funext fun a => by fin_cases a <;> decide
  exact (Memref.read_access_unit_zero (Elt Ideal) main_v180_1 hz' (fun a => by rw [congrFun hz' a]; simp) (res6 V c)).symm

theorem flushed7_eq (c : Dev nD) (t : Fin cfg11.N) (hf : (cfg11.win 7).flush t = true) :
    (dat11 V c).flushed 7 t = ((cfg11.win 7).blk t).view.read (Elt Ideal) (res7 V c) := by
  have hN : grid11.N = 10 := N_11
  have h9 : t.val = 9 := by
    have := (flush11_7 t).mp hf; have h := lt_of_lt_of_eq t.isLt (show cfg11.N = 10 from N_11); omega
  obtain rfl : t = t11_9 := Fin.ext h9
  show (cfg11.win 7).cut (grid11.coords t11_9) ((dat11 V c).after 7 t11_9) = _
  rw [after11_7, outsAt_eq]
  have hz' : (fun a => win11_7.index t11_9 a * main_v180_2.ty.shape.size a) = fun _ => 0 := funext fun a => by fin_cases a <;> decide
  exact (Memref.read_access_unit_zero (Elt Ideal) main_v180_2 hz' (fun a => by rw [congrFun hz' a]; simp) (res7 V c)).symm

/-- The last point's write-back covers the one-row array. -/
theorem final6 (c : Dev nD) : (dat11 V c).arrAt 6 cfg11.N = res6 V c :=
  (dat11 V c).arrAt_eq_of_cover 6 (res6 V c) (flushed6_eq V c) fun i =>
    ⟨t11_9, (flush11_6 t11_9).mpr rfl, by
      show i ∈ ((View.whole main_v180_1).slice (win11_6.rect t11_9)).set
      rw [View.set_slice_whole, Rect.mem_set_unit]
      intro a
      have h0 : (i 0 : Nat) < 1 := (i 0).isLt
      have h1 : (i 1 : Nat) < 128 := (i 1).isLt
      match a with
      | ⟨0, _⟩ => show win11_6.index t11_9 0 * win11_6.size 0 ≤ (i 0 : Nat) ∧ (i 0 : Nat) < win11_6.index t11_9 0 * win11_6.size 0 + win11_6.xsize (grid11.coords t11_9) 0
                  rw [show win11_6.index t11_9 0 * win11_6.size 0 = 0 from by decide +kernel, show win11_6.xsize (grid11.coords t11_9) 0 = 1 from by decide +kernel]; omega
      | ⟨1, _⟩ => show win11_6.index t11_9 1 * win11_6.size 1 ≤ (i 1 : Nat) ∧ (i 1 : Nat) < win11_6.index t11_9 1 * win11_6.size 1 + win11_6.xsize (grid11.coords t11_9) 1
                  rw [show win11_6.index t11_9 1 * win11_6.size 1 = 0 from by decide +kernel, show win11_6.xsize (grid11.coords t11_9) 1 = 128 from by decide +kernel]; omega⟩

theorem final7 (c : Dev nD) : (dat11 V c).arrAt 7 cfg11.N = res7 V c :=
  (dat11 V c).arrAt_eq_of_cover 7 (res7 V c) (flushed7_eq V c) fun i =>
    ⟨t11_9, (flush11_7 t11_9).mpr rfl, by
      show i ∈ ((View.whole main_v180_2).slice (win11_7.rect t11_9)).set
      rw [View.set_slice_whole, Rect.mem_set_unit]
      intro a
      have h0 : (i 0 : Nat) < 1 := (i 0).isLt
      have h1 : (i 1 : Nat) < 128 := (i 1).isLt
      match a with
      | ⟨0, _⟩ => show win11_7.index t11_9 0 * win11_7.size 0 ≤ (i 0 : Nat) ∧ (i 0 : Nat) < win11_7.index t11_9 0 * win11_7.size 0 + win11_7.xsize (grid11.coords t11_9) 0
                  rw [show win11_7.index t11_9 0 * win11_7.size 0 = 0 from by decide +kernel, show win11_7.xsize (grid11.coords t11_9) 0 = 1 from by decide +kernel]; omega
      | ⟨1, _⟩ => show win11_7.index t11_9 1 * win11_7.size 1 ≤ (i 1 : Nat) ∧ (i 1 : Nat) < win11_7.index t11_9 1 * win11_7.size 1 + win11_7.xsize (grid11.coords t11_9) 1
                  rw [show win11_7.index t11_9 1 * win11_7.size 1 = 0 from by decide +kernel, show win11_7.xsize (grid11.coords t11_9) 1 = 128 from by decide +kernel]; omega⟩

/-- Summing the ten tiles' column sums is summing down all 50000 rows. -/
theorem tiles_sum (c : Dev nD) (f : EReal → EReal) (q : Fin 128) :
    ∑ t : Fin (9 + 1), ∑ r : Fin 5000, f (tileY V c ⟨t.val, lt_of_lt_of_le t.isLt lastLt⟩ (ix2 r q))
      = ∑ r : Fin 50000, f (cArr (Y2 V c) (M V c) (Vr V c) (G V c) (Be V c) (ix2 r q)) := by
  rw [Cert.FinSum.sum_mul 10 5000 50000 rfl]
  refine Finset.sum_congr rfl fun t _ => Finset.sum_congr rfl fun r _ => ?_
  have hp : t.val * 5000 + r.val < 50000 := by have := t.isLt; have := r.isLt; omega
  rw [tile_apply V c ⟨t.val, _⟩ r q hp]
  rfl

/-- The second output array at a column: the sum of `c` down the column (from zero). -/
theorem sum_apply (c : Dev nD) (q : Fin 128) :
    (dat11 V c).arrAt 6 cfg11.N (ix2 (0 : Fin 1) q)
      = Ideal.ofBits .f32 0x00000000#32 + ∑ r : Fin 50000, cArr (Y2 V c) (M V c) (Vr V c) (G V c) (Be V c) (ix2 r q) := by
  rw [final6]
  show acc6 V c 9 lastLt (ix2 (0 : Fin 1) q) = _
  rw [acc6_apply V c q 9 lastLt]
  exact congrArg (_ + ·) (tiles_sum V c id q)

/-- The third output array at a column: the sum of the squares of `c` down the column (from zero). -/
theorem sumsq_apply (c : Dev nD) (q : Fin 128) :
    (dat11 V c).arrAt 7 cfg11.N (ix2 (0 : Fin 1) q)
      = Ideal.ofBits .f32 0x00000000#32
        + ∑ r : Fin 50000, cArr (Y2 V c) (M V c) (Vr V c) (G V c) (Be V c) (ix2 r q) * cArr (Y2 V c) (M V c) (Vr V c) (G V c) (Be V c) (ix2 r q) := by
  rw [final7]
  show acc7 V c 9 lastLt (ix2 (0 : Fin 1) q) = _
  rw [acc7_apply V c q 9 lastLt]
  exact congrArg (_ + ·) (tiles_sum V c (fun x => x * x) q)

end Final

end Cert.KernelIdeal.KStageCVal_L2

end
-- ==== Proof.KStageDVal_L2.lean ====
/-
  The closing stage's region, read as a value: each of its ten grid points normalises and rectifies a tile of 5000 rows
  of `c` with the given rows of column means and variances and adds the same rows of the layer's input; the output
  tiles partition the 50000 rows, so after the region the output array is, entry by entry,

      out (r, j) = h (r, j) + max (γ (j) · (c (r, j) − μ (j)) · rsqrt (v (j) + 1e-5) + β (j)) 0.
-/
import proofs.«140776_j80633716015159_1_alg».proof.Proof.Gen.KernelIdeal.Frame
import proofs.«140776_j80633716015159_1_alg».proof.Proof.KStageCD
import Idealize.ShloMosaic.Lib.Pipeline.Value

set_option maxRecDepth 16384

noncomputable section

namespace Cert.KernelIdeal.KStageDVal_L2

open Cert.KernelIdeal Cert.KernelIdeal.Gen
open Idealize.ShloMosaic Idealize.ShloMosaic.TcCoe Idealize.ShloMosaic.ValueIdx Idealize.SL.Sem
open Idealize.ShloMosaic.Pipeline (Dat Cfg Window)
open Cert.KernelIdeal.KStageB (bnrelu)

/-- The closing stage's tile at an entry: the layer's input plus the normalised, rectified value. -/
theorem payD_apply (v0 : Vec Ideal S5000x128 .f32) (v2 v7 v9 v17 : Vec Ideal S1x128 .f32) (v23 : Vec Ideal S5000x128 .f32)
    (p : Fin 5000) (q : Fin 128) :
    k12_pay1 v0 v2 v7 v9 v17 v23 (ix2 p q)
      = v23 (ix2 p q) + KStageB.bnrelu (v2 (ix2 (0 : Fin 1) q)) (v7 (ix2 (0 : Fin 1) q)) (v9 (ix2 (0 : Fin 1) q))
          (v17 (ix2 (0 : Fin 1) q)) (v0 (ix2 p q)) :=
  KStageCD.payD_apply v0 v2 v7 v9 v17 v23 p q

/-- One entry of the layer's output. -/
def outAt (cc h : (⟨2, ![50000, 128]⟩ : Shape).Idx → EReal) (m vr g be : (⟨2, ![1, 128]⟩ : Shape).Idx → EReal)
    (p : Fin 50000) (q : Fin 128) : EReal :=
  h (ix2 p q) + bnrelu (vr (ix2 (0 : Fin 1) q)) (g (ix2 (0 : Fin 1) q)) (m (ix2 (0 : Fin 1) q)) (be (ix2 (0 : Fin 1) q)) (cc (ix2 p q))

/-- The layer's output as an array. -/
def out (cc h : (⟨2, ![50000, 128]⟩ : Shape).Idx → EReal) (m vr g be : (⟨2, ![1, 128]⟩ : Shape).Idx → EReal) :
    (⟨2, ![50000, 128]⟩ : Shape).Idx → EReal :=
  fun i => outAt cc h m vr g be ⟨(i 0).val, idx2_lt0 i⟩ ⟨(i 1).val, idx2_lt1 i⟩

variable (V : (c : Dev nD) → (b : Ref sig .tc) → Buf (Elt Ideal) ((c : Thread nD τ).loc b))

theorem hz : (![0, 0] : Fin 2 → Nat) = fun _ => 0 := funext fun a => by fin_cases a <;> rfl

/-- The arrays the region finds. -/
abbrev Cc (c : Dev nD) : S50000x128.Idx → EReal := V c (Pipeline.arrRef spec12 0)
abbrev Mn (c : Dev nD) : S1x128.Idx → EReal := V c (Pipeline.arrRef spec12 1)
abbrev Vr (c : Dev nD) : S1x128.Idx → EReal := V c (Pipeline.arrRef spec12 2)
abbrev Gm (c : Dev nD) : S1x128.Idx → EReal := V c (Pipeline.arrRef spec12 3)
abbrev Bt (c : Dev nD) : S1x128.Idx → EReal := V c (Pipeline.arrRef spec12 4)
abbrev Hh (c : Dev nD) : S50000x128.Idx → EReal := V c (Pipeline.arrRef spec12 5)

/-- The printed index maps over the ten points: the two feature tiles and the output tile move down the rows with the
    point, the four rows are block (0, 0). -/
theorem idx_facts : ∀ t : Fin cfg12.N,
    win12_0.index t (0 : Fin 2) = t.val ∧ win12_0.index t (1 : Fin 2) = 0
    ∧ win12_1.index t (0 : Fin 2) = 0 ∧ win12_1.index t (1 : Fin 2) = 0
    ∧ win12_2.index t (0 : Fin 2) = 0 ∧ win12_2.index t (1 : Fin 2) = 0
    ∧ win12_3.index t (0 : Fin 2) = 0 ∧ win12_3.index t (1 : Fin 2) = 0
    ∧ win12_4.index t (0 : Fin 2) = 0 ∧ win12_4.index t (1 : Fin 2) = 0
    ∧ win12_5.index t (0 : Fin 2) = t.val ∧ win12_5.index t (1 : Fin 2) = 0
    ∧ win12_6.index t (0 : Fin 2) = t.val ∧ win12_6.index t (1 : Fin 2) = 0 :=
  (by decide +kernel : ∀ t : Fin grid12.N, _)

theorem iblk_c (c : Dev nD) (t : Fin cfg12.N) (p : Fin 5000) (k : Fin 128) (hp : t.val * 5000 + p.val < 50000) :
    (iblk12 V c 0 t : Vec Ideal S5000x128 .f32) (ix2 p k) = Cc V c (ix2 ⟨t.val * 5000 + p.val, hp⟩ k) := by
  obtain ⟨e0, e1, -⟩ := idx_facts t
  unfold iblk12
  rw [View.read_apply]
  refine congrArg (V c (Pipeline.arrRef spec12 0)) (funext fun a => Fin.ext ?_)
  match a with
  | ⟨0, _⟩ => show win12_0.index t 0 * 5000 + 1 * p.val = t.val * 5000 + p.val; rw [e0]; omega
  | ⟨1, _⟩ => show win12_0.index t 1 * 128 + 1 * k.val = k.val; rw [e1]; omega

theorem iblk_h (c : Dev nD) (t : Fin cfg12.N) (p : Fin 5000) (k : Fin 128) (hp : t.val * 5000 + p.val < 50000) :
    (iblk12 V c 5 t : Vec Ideal S5000x128 .f32) (ix2 p k) = Hh V c (ix2 ⟨t.val * 5000 + p.val, hp⟩ k) := by
  obtain ⟨-, -, -, -, -, -, -, -, -, -, e0, e1, -⟩ := idx_facts t
  unfold iblk12
  rw [View.read_apply]
  refine congrArg (V c (Pipeline.arrRef spec12 5)) (funext fun a => Fin.ext ?_)
  match a with
  | ⟨0, _⟩ => show win12_5.index t 0 * 5000 + 1 * p.val = t.val * 5000 + p.val; rw [e0]; omega
  | ⟨1, _⟩ => show win12_5.index t 1 * 128 + 1 * k.val = k.val; rw [e1]; omega

theorem iblk_m (c : Dev nD) (t : Fin cfg12.N) : (iblk12 V c 1 t : Vec Ideal S1x128 .f32) = Mn V c := by
  obtain ⟨-, -, e0, e1, -⟩ := idx_facts t
  funext y
  unfold iblk12
  rw [View.read_apply]
  refine congrArg (V c (Pipeline.arrRef spec12 1)) (funext fun a => Fin.ext ?_)
  match a with
  | ⟨0, _⟩ => show win12_1.index t 0 * 1 + 1 * (y 0).val = (y 0).val; rw [e0]; omega
  | ⟨1, _⟩ => show win12_1.index t 1 * 128 + 1 * (y 1).val = (y 1).val; rw [e1]; omega

theorem iblk_v (c : Dev nD) (t : Fin cfg12.N) : (iblk12 V c 2 t : Vec Ideal S1x128 .f32) = Vr V c := by
  obtain ⟨-, -, -, -, e0, e1, -⟩ := idx_facts t
  funext y
  unfold iblk12
  rw [View.read_apply]
  refine congrArg (V c (Pipeline.arrRef spec12 2)) (funext fun a => Fin.ext ?_)
  match a with
  | ⟨0, _⟩ => show win12_2.index t 0 * 1 + 1 * (y 0).val = (y 0).val; rw [e0]; omega
  | ⟨1, _⟩ => show win12_2.index t 1 * 128 + 1 * (y 1).val = (y 1).val; rw [e1]; omega

theorem iblk_g (c : Dev nD) (t : Fin cfg12.N) : (iblk12 V c 3 t : Vec Ideal S1x128 .f32) = Gm V c := by
  obtain ⟨-, -, -, -, -, -, e0, e1, -⟩ := idx_facts t
  funext y
  unfold iblk12
  rw [View.read_apply]
  refine congrArg (V c (Pipeline.arrRef spec12 3)) (funext fun a => Fin.ext ?_)
  match a with
  | ⟨0, _⟩ => show win12_3.index t 0 * 1 + 1 * (y 0).val = (y 0).val; rw [e0]; omega
  | ⟨1, _⟩ => show win12_3.index t 1 * 128 + 1 * (y 1).val = (y 1).val; rw [e1]; omega

theorem iblk_b (c : Dev nD) (t : Fin cfg12.N) : (iblk12 V c 4 t : Vec Ideal S1x128 .f32) = Bt V c := by
  obtain ⟨-, -, -, -, -, -, -, -, e0, e1, -⟩ := idx_facts t
  funext y
  unfold iblk12
  rw [View.read_apply]
  refine congrArg (V c (Pipeline.arrRef spec12 4)) (funext fun a => Fin.ext ?_)
  match a with
  | ⟨0, _⟩ => show win12_4.index t 0 * 1 + 1 * (y 0).val = (y 0).val; rw [e0]; omega
  | ⟨1, _⟩ => show win12_4.index t 1 * 128 + 1 * (y 1).val = (y 1).val; rw [e1]; omega

/-- An entry of the tile at point `t` is the entry of the output array at row `5000·t + ` the tile's row. -/
theorem point (c : Dev nD) (t : Fin cfg12.N) (j : S5000x128.Idx) (i : S50000x128.Idx)
    (hi0 : (i 0).val = t.val * 5000 + (j 0).val) (hi1 : (i 1).val = (j 1).val) :
    k12_pay1 (iblk12 V c 0 t) (iblk12 V c 2 t) (iblk12 V c 3 t) (iblk12 V c 1 t) (iblk12 V c 4 t) (iblk12 V c 5 t) j
      = out (Cc V c) (Hh V c) (Mn V c) (Vr V c) (Gm V c) (Bt V c) i := by
  obtain ⟨p, q, rfl⟩ : ∃ (p : Fin 5000) (q : Fin 128), j = ix2 p q := ⟨j 0, j 1, eq_ix2 j⟩
  have ht : t.val < 10 := lt_of_lt_of_eq t.isLt (show cfg12.N = 10 from N_12)
  have hp : t.val * 5000 + p.val < 50000 := by have := p.isLt; omega
  rw [payD_apply, iblk_m, iblk_v, iblk_g, iblk_b, iblk_c V c t p q hp, iblk_h V c t p q hp]
  unfold out outAt
  have e0 : (⟨(i 0).val, idx2_lt0 i⟩ : Fin 50000) = ⟨t.val * 5000 + p.val, hp⟩ := Fin.ext hi0
  have e1 : (⟨(i 1).val, idx2_lt1 i⟩ : Fin 128) = q := Fin.ext hi1
  rw [e0, e1]

/-- What point `t` writes back is tile `t` of the output array. -/
theorem flushed_eq (c : Dev nD) (t : Fin cfg12.N) :
    (dat12 V c).flushed 6 t
      = ((cfg12.win 6).blk t).view.read (Elt Ideal) (out (Cc V c) (Hh V c) (Mn V c) (Vr V c) (Gm V c) (Bt V c)) := by
  show (cfg12.win 6).cut (grid12.coords t) ((dat12 V c).after 6 t) = _
  rw [after12_6]
  unfold out12_6
  rw [View.canon_unit_zero hz]
  simp only [View.ld_unit_zero (S := S5000x128) hz, View.ld_unit_zero (S := S1x128) hz]
  obtain ⟨-, -, -, -, -, -, -, -, -, -, -, -, e0, e1⟩ := idx_facts t
  funext j
  rw [View.read_apply]
  refine point V c t j _ ?_ ?_
  · show win12_6.index t 0 * 5000 + 1 * (j 0).val = t.val * 5000 + (j 0).val
    rw [e0]; omega
  · show win12_6.index t 1 * 128 + 1 * (j 1).val = (j 1).val
    rw [e1]; omega

theorem mem_blk (t : Fin cfg12.N) (i : S50000x128.Idx) :
    i ∈ ((cfg12.win 6).blk t).view.set ↔ ∀ a : Fin 2, win12_6.index t a * S5000x128.size a ≤ (i a).val
      ∧ (i a).val < win12_6.index t a * S5000x128.size a + S5000x128.size a := by
  show i ∈ ((View.whole main_v193).slice (win12_6.rect t)).set ↔ _
  rw [View.set_slice_whole, Rect.mem_set_unit]
  exact Iff.rfl

theorem cover (i : S50000x128.Idx) :
    ∃ t : Fin cfg12.N, (cfg12.win 6).flush t = true ∧ i ∈ ((cfg12.win 6).blk t).view.set := by
  have hi0 : (i 0).val < 50000 := idx2_lt0 i
  have hi1 : (i 1).val < 128 := idx2_lt1 i
  have hN : grid12.N = 10 := N_12
  have ht : (i 0).val / 5000 < cfg12.N := by show _ < grid12.N; rw [hN]; omega
  obtain ⟨-, -, -, -, -, -, -, -, -, -, -, -, e0, e1⟩ := idx_facts ⟨(i 0).val / 5000, ht⟩
  refine ⟨⟨(i 0).val / 5000, ht⟩, flush12_6 _, ?_⟩
  rw [mem_blk]
  intro a
  match a with
  | ⟨0, _⟩ =>
    show win12_6.index ⟨(i 0).val / 5000, ht⟩ 0 * 5000 ≤ (i 0).val ∧ (i 0).val < win12_6.index ⟨(i 0).val / 5000, ht⟩ 0 * 5000 + 5000
    rw [e0]; show (i 0).val / 5000 * 5000 ≤ (i 0).val ∧ (i 0).val < (i 0).val / 5000 * 5000 + 5000; omega
  | ⟨1, _⟩ =>
    show win12_6.index ⟨(i 0).val / 5000, ht⟩ 1 * 128 ≤ (i 1).val ∧ (i 1).val < win12_6.index ⟨(i 0).val / 5000, ht⟩ 1 * 128 + 128
    rw [e1]; omega

/-- After the region the output array is the layer's output of the arrays the region finds. -/
theorem final (c : Dev nD) :
    (dat12 V c).arrAt 6 cfg12.N = out (Cc V c) (Hh V c) (Mn V c) (Vr V c) (Gm V c) (Bt V c) :=
  (dat12 V c).arrAt_eq_of_cover 6 _ (fun t _ => flushed_eq V c t) cover

end Cert.KernelIdeal.KStageDVal_L2

end
-- ==== Proof.KLayer2.lean ====
/-
  Layer 2 on the kernel side, stage by stage: each region's arrays and each host stretch's results, read through the
  segment boundaries, are the reference's stages (`RefSpec`) of the same inputs.
-/
import proofs.«140776_j80633716015159_1_alg».proof.Proof.Gen.KernelIdeal.Frame
import proofs.«140776_j80633716015159_1_alg».proof.Proof.KHost
import proofs.«140776_j80633716015159_1_alg».proof.Proof.KStageAVal_L2
import proofs.«140776_j80633716015159_1_alg».proof.Proof.KStageBVal_L2
import proofs.«140776_j80633716015159_1_alg».proof.Proof.KStageCVal_L2
import proofs.«140776_j80633716015159_1_alg».proof.Proof.KStageDVal_L2
import proofs.«140776_j80633716015159_1_alg».proof.Proof.RefSpec
import proofs.«140776_j80633716015159_1_alg».proof.Proof.StatsBridge
import proofs.«140776_j80633716015159_1_alg».proof.Proof.LayerReal

set_option maxRecDepth 16384

noncomputable section

namespace Cert.KernelIdeal.KLayer2

open Cert.KernelIdeal Cert.KernelIdeal.Gen
open Idealize.ShloMosaic Idealize.ShloMosaic.TcCoe Idealize.ShloMosaic.ValueIdx Idealize.SL.Sem Idealize.ShloMosaic.StableHlo
open Cert.ReferenceIdeal (RefSpec.layer)
open LibBatchNorm (IsReal)

variable (m : (ℓ : Loc nD τ sig) → Buf (Elt Ideal) ℓ) (ρ : Dev nD → PrngReg) (c : Dev nD)

/-- The layer's input features and the edge lists, at the layer's entry. -/
abbrev hin : S50000x128.Idx → EReal := W18 m ρ c (Proc.devRef .tc main_v129)
abbrev src : IVec S1600000 32 := W18 m ρ c (Proc.devRef .tc main_arg1)
abbrev dst : IVec S1600000 32 := W18 m ρ c (Proc.devRef .tc main_arg2)

/-- The layer's parameter slices, as the reference takes them. -/
abbrev pe : FVec Ideal S_ .f32 := shapeCast S_ (extractStridedSlice S1 ![2] (W18 m ρ c (Proc.devRef .tc main_arg5)) slices_S4_S1_2) shapeCasts_S1_S_
abbrev pw1 : FVec Ideal S128x128 .f32 := shapeCast S128x128 (extractStridedSlice S1x128x128 ![2, 0, 0] (W18 m ρ c (Proc.devRef .tc main_arg6)) slices_S4x128x128_S1x128x128_2_0_0) shapeCasts_S1x128x128_S128x128
abbrev pb1 : FVec Ideal S128 .f32 := shapeCast S128 (extractStridedSlice S1x128 ![2, 0] (W18 m ρ c (Proc.devRef .tc main_arg7)) slices_S4x128_S1x128_2_0) shapeCasts_S1x128_S128

/-- The first stage's result, as the reference computes it. -/
abbrev y1R : FVec Ideal S50000x128 .f32 :=
  Cert.ReferenceIdeal.RefSpec.dense (Cert.ReferenceIdeal.RefSpec.mix (pe m ρ c) (hin m ρ c) (src m ρ c) (dst m ρ c)) (pw1 m ρ c) (pb1 m ρ c)

/-- Region 1's input arrays, read back through the first host stretch. -/
theorem in_h : KStageAVal_L2.H (V19 m ρ) c = hin m ρ c := KHost.h9_keep_main_v129 (W18 m ρ c)
theorem in_nb : KStageAVal_L2.NB (V19 m ρ) c = Cert.ReferenceIdeal.RefSpec.agg (F := Ideal) (hin m ρ c) (src m ρ c) (dst m ρ c) :=
  (KHost.h9_main_v139 (W18 m ρ c)).trans rfl

theorem in_s (x : Fin 1) : KStageAVal_L2.SC (V19 m ρ) c (ix2 (0 : Fin 1) (0 : Fin 1))
    = Ideal.ofBits .f32 0x3F800000#32 + pe m ρ c (Shape.Idx.first Cert.ReferenceIdeal.Gen.h_S_) := by
  show W19 m ρ c (Proc.devRef .tc main_v143) (ix2 (0 : Fin 1) (0 : Fin 1)) = _
  rw [show W19 m ρ c (Proc.devRef .tc main_v143) = _ from KHost.h9_main_v143 (W18 m ρ c)]
  exact shapeCast_apply _ shapeCasts_S_S1x1 (ix2 (0 : Fin 1) (0 : Fin 1)) (Shape.Idx.first Cert.ReferenceIdeal.Gen.h_S_) rfl

theorem in_w : KStageAVal_L2.Wt (V19 m ρ) c = pw1 m ρ c := (KHost.h9_main_v148 (W18 m ρ c)).trans rfl

theorem in_b (q : Fin 128) : KStageAVal_L2.Bs (V19 m ρ) c (ix2 (0 : Fin 1) q) = pb1 m ρ c (ix1 q) := by
  show W19 m ρ c (Proc.devRef .tc main_v146) (ix2 (0 : Fin 1) q) = _
  rw [show W19 m ρ c (Proc.devRef .tc main_v146) = _ from KHost.h9_main_v146 (W18 m ρ c)]
  exact shapeCast_a_1a_apply _ shapeCasts_S128_S1x128 (0 : Fin 1) q

/-- The first region's tile output is the reference's first stage. -/
theorem y1_eq : (dat9 (V19 m ρ) c).arrAt 5 cfg9.N = y1R m ρ c := by
  rw [KStageAVal_L2.final5]
  funext i
  obtain ⟨p, q, rfl⟩ : ∃ (p : Fin 50000) (q : Fin 128), i = ix2 p q := ⟨i 0, i 1, eq_ix2 i⟩
  show KStageAVal_L2.y1At _ _ _ _ _ p q = _
  unfold KStageAVal_L2.y1At
  show _ = Cert.ReferenceIdeal.RefSpec.dense (F := Ideal) _ _ _ (ix2 p q)
  rw [Cert.ReferenceIdeal.RefSpec.dense_apply, in_s m ρ c 0, in_w, in_b, in_h, in_nb]
  refine congrArg (· + _) (Finset.sum_congr rfl fun k _ => ?_)
  rw [Cert.ReferenceIdeal.RefSpec.mix_apply]

/-! ## Means and variances from the accumulated sums -/

section Stats

open Cert.ReferenceIdeal.RefStats (meanAt varAt)

/-- The host's mean row from an accumulated row of column sums. -/
theorem mean_of_sum (y : FVec Ideal S50000x128 .f32) (s1 : FVec Ideal S1x128 .f32)
    (h1 : ∀ q : Fin 128, s1 (ix2 (0 : Fin 1) q) = Ideal.ofBits .f32 0x00000000#32 + ∑ r : Fin 50000, y (ix2 r q)) (q : Fin 128) :
    (Host.divf s1 (broadcastInDim S1x128 ![] bcast_S_S1x128 (constant (F := Ideal) S_ .f32 0x47435000#32)) : FVec Ideal S1x128 .f32)
      (ix2 (0 : Fin 1) q) = meanAt y q := by
  unfold Host.divf
  rw [h1, broadcastInDim_apply _ _ _ (ix2 (0 : Fin 1) q) (Shape.Idx.first Cert.ReferenceIdeal.Gen.h_S_) fun a => a.elim0]
  rfl

/-- The host's variance row from the two accumulated rows, for a real array. -/
theorem var_of_sums (y : FVec Ideal S50000x128 .f32) (s1 s2 : FVec Ideal S1x128 .f32)
    (h1 : ∀ q : Fin 128, s1 (ix2 (0 : Fin 1) q) = Ideal.ofBits .f32 0x00000000#32 + ∑ r : Fin 50000, y (ix2 r q))
    (h2 : ∀ q : Fin 128, s2 (ix2 (0 : Fin 1) q) = Ideal.ofBits .f32 0x00000000#32 + ∑ r : Fin 50000, y (ix2 r q) * y (ix2 r q))
    (hy : ∀ (r : Fin 50000) (q : Fin 128), IsReal (y (ix2 r q))) (q : Fin 128) :
    (subf (Host.divf s2 (broadcastInDim S1x128 ![] bcast_S_S1x128 (constant (F := Ideal) S_ .f32 0x47435000#32)))
        (mulf (Host.divf s1 (broadcastInDim S1x128 ![] bcast_S_S1x128 (constant (F := Ideal) S_ .f32 0x47435000#32)))
          (Host.divf s1 (broadcastInDim S1x128 ![] bcast_S_S1x128 (constant (F := Ideal) S_ .f32 0x47435000#32)))) :
      FVec Ideal S1x128 .f32) (ix2 (0 : Fin 1) q) = varAt y q := by
  have hb : (broadcastInDim S1x128 ![] bcast_S_S1x128 (constant (F := Ideal) S_ .f32 0x47435000#32) : FVec Ideal S1x128 .f32)
      (ix2 (0 : Fin 1) q) = Ideal.ofBits .f32 0x47435000#32 :=
    broadcastInDim_apply _ _ _ (ix2 (0 : Fin 1) q) (Shape.Idx.first Cert.ReferenceIdeal.Gen.h_S_) fun a => a.elim0
  show Ideal.div (s2 (ix2 (0 : Fin 1) q)) (broadcastInDim S1x128 ![] bcast_S_S1x128 (constant (F := Ideal) S_ .f32 0x47435000#32) (ix2 (0 : Fin 1) q))
      - Ideal.div (s1 (ix2 (0 : Fin 1) q)) (broadcastInDim S1x128 ![] bcast_S_S1x128 (constant (F := Ideal) S_ .f32 0x47435000#32) (ix2 (0 : Fin 1) q))
        * Ideal.div (s1 (ix2 (0 : Fin 1) q)) (broadcastInDim S1x128 ![] bcast_S_S1x128 (constant (F := Ideal) S_ .f32 0x47435000#32) (ix2 (0 : Fin 1) q)) = _
  rw [hb, h1, h2]
  exact Cert.StatsBridge.var_forms y hy q

end Stats

/-! ## The other parameter slices -/

abbrev pg1 : FVec Ideal S128 .f32 := shapeCast S128 (extractStridedSlice S1x128 ![2, 0] (W18 m ρ c (Proc.devRef .tc main_arg8)) slices_S4x128_S1x128_2_0) shapeCasts_S1x128_S128
abbrev pbe1 : FVec Ideal S128 .f32 := shapeCast S128 (extractStridedSlice S1x128 ![2, 0] (W18 m ρ c (Proc.devRef .tc main_arg9)) slices_S4x128_S1x128_2_0) shapeCasts_S1x128_S128
abbrev pw2 : FVec Ideal S128x128 .f32 := shapeCast S128x128 (extractStridedSlice S1x128x128 ![2, 0, 0] (W18 m ρ c (Proc.devRef .tc main_arg10)) slices_S4x128x128_S1x128x128_2_0_0) shapeCasts_S1x128x128_S128x128
abbrev pb2 : FVec Ideal S128 .f32 := shapeCast S128 (extractStridedSlice S1x128 ![2, 0] (W18 m ρ c (Proc.devRef .tc main_arg11)) slices_S4x128_S1x128_2_0) shapeCasts_S1x128_S128
abbrev pga : FVec Ideal S128 .f32 := shapeCast S128 (extractStridedSlice S1x128 ![2, 0] (W18 m ρ c (Proc.devRef .tc main_arg12)) slices_S4x128_S1x128_2_0) shapeCasts_S1x128_S128
abbrev pba : FVec Ideal S128 .f32 := shapeCast S128 (extractStridedSlice S1x128 ![2, 0] (W18 m ρ c (Proc.devRef .tc main_arg13)) slices_S4x128_S1x128_2_0) shapeCasts_S1x128_S128
abbrev pgl : FVec Ideal S128 .f32 := shapeCast S128 (extractStridedSlice S1x128 ![2, 0] (W18 m ρ c (Proc.devRef .tc main_arg14)) slices_S4x128_S1x128_2_0) shapeCasts_S1x128_S128
abbrev pbl : FVec Ideal S128 .f32 := shapeCast S128 (extractStridedSlice S1x128 ![2, 0] (W18 m ρ c (Proc.devRef .tc main_arg15)) slices_S4x128_S1x128_2_0) shapeCasts_S1x128_S128

/-- A parameter row as the kernel stages it (the slice made a vector, then a one-row matrix), at a column. -/
theorem row_param (a a' : FVec Ideal S4x128 .f32) (h : a = a') (q : Fin 128) :
    (shapeCast S1x128 (shapeCast S128 (extractStridedSlice S1x128 ![2, 0] a slices_S4x128_S1x128_2_0) shapeCasts_S1x128_S128)
        shapeCasts_S128_S1x128 : FVec Ideal S1x128 .f32) (ix2 (0 : Fin 1) q)
      = (shapeCast S128 (extractStridedSlice S1x128 ![2, 0] a' slices_S4x128_S1x128_2_0) shapeCasts_S1x128_S128 : FVec Ideal S128 .f32) (ix1 q) := by
  subst h
  exact shapeCast_a_1a_apply _ shapeCasts_S128_S1x128 (0 : Fin 1) q

/-- The argument buffers are untouched between the layer's entry and its later stretches. -/
theorem w4_arg (a : Ref sig .tc) (h1 : ∀ w, Pipeline.arrRef spec9 w ≠ a)
    (hk : StableHlo.after hostOps9 (W18 m ρ c) (Proc.devRef .tc a) = W18 m ρ c (Proc.devRef .tc a)) :
    W20 m ρ c (Proc.devRef .tc a) = W18 m ρ c (Proc.devRef .tc a) := (W20_of_ne m ρ c a h1).trans hk
theorem w6_arg (a : Ref sig .tc) (h1 : ∀ w, Pipeline.arrRef spec9 w ≠ a) (h2 : ∀ w, Pipeline.arrRef spec10 w ≠ a)
    (hk1 : StableHlo.after hostOps9 (W18 m ρ c) (Proc.devRef .tc a) = W18 m ρ c (Proc.devRef .tc a))
    (hk2 : StableHlo.after hostOps10 (W20 m ρ c) (Proc.devRef .tc a) = W20 m ρ c (Proc.devRef .tc a)) :
    W22 m ρ c (Proc.devRef .tc a) = W18 m ρ c (Proc.devRef .tc a) :=
  ((W22_of_ne m ρ c a h2).trans hk2).trans (w4_arg m ρ c a h1 hk1)
theorem w8_arg (a : Ref sig .tc) (h1 : ∀ w, Pipeline.arrRef spec9 w ≠ a) (h2 : ∀ w, Pipeline.arrRef spec10 w ≠ a)
    (h3 : ∀ w, Pipeline.arrRef spec11 w ≠ a)
    (hk1 : StableHlo.after hostOps9 (W18 m ρ c) (Proc.devRef .tc a) = W18 m ρ c (Proc.devRef .tc a))
    (hk2 : StableHlo.after hostOps10 (W20 m ρ c) (Proc.devRef .tc a) = W20 m ρ c (Proc.devRef .tc a))
    (hk3 : StableHlo.after hostOps11 (W22 m ρ c) (Proc.devRef .tc a) = W22 m ρ c (Proc.devRef .tc a)) :
    W24 m ρ c (Proc.devRef .tc a) = W18 m ρ c (Proc.devRef .tc a) :=
  ((W24_of_ne m ρ c a h3).trans hk3).trans (w6_arg m ρ c a h1 h2 hk1 hk2)

theorem w10_arg (a : Ref sig .tc) (h1 : ∀ w, Pipeline.arrRef spec9 w ≠ a) (h2 : ∀ w, Pipeline.arrRef spec10 w ≠ a)
    (h3 : ∀ w, Pipeline.arrRef spec11 w ≠ a) (h4 : ∀ w, Pipeline.arrRef spec12 w ≠ a)
    (hk1 : StableHlo.after hostOps9 (W18 m ρ c) (Proc.devRef .tc a) = W18 m ρ c (Proc.devRef .tc a))
    (hk2 : StableHlo.after hostOps10 (W20 m ρ c) (Proc.devRef .tc a) = W20 m ρ c (Proc.devRef .tc a))
    (hk3 : StableHlo.after hostOps11 (W22 m ρ c) (Proc.devRef .tc a) = W22 m ρ c (Proc.devRef .tc a))
    (hk4 : StableHlo.after hostOps12 (W24 m ρ c) (Proc.devRef .tc a) = W24 m ρ c (Proc.devRef .tc a)) :
    W26 m ρ c (Proc.devRef .tc a) = W18 m ρ c (Proc.devRef .tc a) :=
  ((W26_of_ne m ρ c a h4).trans hk4).trans (w8_arg m ρ c a h1 h2 h3 hk1 hk2 hk3)

/-! ## Stage 1's statistics, stage 2 -/

section Stage2

open Cert.ReferenceIdeal.RefStats (meanAt varAt)
open Cert.ReferenceIdeal (RefSpec.dense RefSpec.norm)

variable (hy1 : ∀ (r : Fin 50000) (q : Fin 128), IsReal (y1R m ρ c (ix2 r q)))

theorem sum1 (q : Fin 128) : W20 m ρ c (Proc.devRef .tc main_v149_1) (ix2 (0 : Fin 1) q)
    = Ideal.ofBits .f32 0x00000000#32 + ∑ r : Fin 50000, y1R m ρ c (ix2 r q) := by
  have h := KStageAVal_L2.sum_apply (V19 m ρ) c q
  rw [← KStageAVal_L2.final5, y1_eq] at h
  exact (congrFun (W20_arr m ρ c 6) _).trans h

theorem sumsq1 (q : Fin 128) : W20 m ρ c (Proc.devRef .tc main_v149_2) (ix2 (0 : Fin 1) q)
    = Ideal.ofBits .f32 0x00000000#32 + ∑ r : Fin 50000, y1R m ρ c (ix2 r q) * y1R m ρ c (ix2 r q) := by
  have h := KStageAVal_L2.sumsq_apply (V19 m ρ) c q
  rw [← KStageAVal_L2.final5, y1_eq] at h
  exact (congrFun (W20_arr m ρ c 7) _).trans h

include hy1

/-- The second stage's result, as the reference computes it. -/
abbrev y2R : FVec Ideal S50000x128 .f32 :=
  Cert.ReferenceIdeal.RefSpec.dense (Cert.ReferenceIdeal.RefSpec.norm (y1R m ρ c) (pg1 m ρ c) (pbe1 m ρ c)) (pw2 m ρ c) (pb2 m ρ c)

theorem in2_y : KStageBVal_L2.Y1 (V21 m ρ) c = y1R m ρ c :=
  ((KHost.h10_keep_main_v149_0 (W20 m ρ c)).trans (W20_arr m ρ c 5)).trans (y1_eq m ρ c)

theorem in2_m (q : Fin 128) : KStageBVal_L2.M (V21 m ρ) c (ix2 (0 : Fin 1) q) = meanAt (y1R m ρ c) q := by
  show W21 m ρ c (Proc.devRef .tc main_v151) (ix2 (0 : Fin 1) q) = _
  rw [show W21 m ρ c (Proc.devRef .tc main_v151) = _ from KHost.h10_main_v151 (W20 m ρ c)]
  exact mean_of_sum (y1R m ρ c) _ (sum1 m ρ c) q

theorem in2_v (q : Fin 128) : KStageBVal_L2.Vr (V21 m ρ) c (ix2 (0 : Fin 1) q) = varAt (y1R m ρ c) q := by
  show W21 m ρ c (Proc.devRef .tc main_v155) (ix2 (0 : Fin 1) q) = _
  rw [show W21 m ρ c (Proc.devRef .tc main_v155) = _ from KHost.h10_main_v155 (W20 m ρ c)]
  exact var_of_sums (y1R m ρ c) _ _ (sum1 m ρ c) (sumsq1 m ρ c) hy1 q

theorem in2_g (q : Fin 128) : KStageBVal_L2.G (V21 m ρ) c (ix2 (0 : Fin 1) q) = pg1 m ρ c (ix1 q) := by
  show W21 m ρ c (Proc.devRef .tc main_v158) (ix2 (0 : Fin 1) q) = _
  rw [show W21 m ρ c (Proc.devRef .tc main_v158) = _ from KHost.h10_main_v158 (W20 m ρ c)]
  exact row_param _ _ (w4_arg m ρ c main_arg8 (by decide) (KHost.h9_keep_main_arg8 _)) q

theorem in2_be (q : Fin 128) : KStageBVal_L2.Be (V21 m ρ) c (ix2 (0 : Fin 1) q) = pbe1 m ρ c (ix1 q) := by
  show W21 m ρ c (Proc.devRef .tc main_v161) (ix2 (0 : Fin 1) q) = _
  rw [show W21 m ρ c (Proc.devRef .tc main_v161) = _ from KHost.h10_main_v161 (W20 m ρ c)]
  exact row_param _ _ (w4_arg m ρ c main_arg9 (by decide) (KHost.h9_keep_main_arg9 _)) q

theorem in2_w : KStageBVal_L2.Wt (V21 m ρ) c = pw2 m ρ c := by
  show W21 m ρ c (Proc.devRef .tc main_v166) = _
  rw [show W21 m ρ c (Proc.devRef .tc main_v166) = _ from KHost.h10_main_v166 (W20 m ρ c),
    w4_arg m ρ c main_arg10 (by decide) (KHost.h9_keep_main_arg10 _)]

theorem in2_b (q : Fin 128) : KStageBVal_L2.Bs (V21 m ρ) c (ix2 (0 : Fin 1) q) = pb2 m ρ c (ix1 q) := by
  show W21 m ρ c (Proc.devRef .tc main_v164) (ix2 (0 : Fin 1) q) = _
  rw [show W21 m ρ c (Proc.devRef .tc main_v164) = _ from KHost.h10_main_v164 (W20 m ρ c)]
  exact row_param _ _ (w4_arg m ρ c main_arg11 (by decide) (KHost.h9_keep_main_arg11 _)) q

/-- The second region's tile output is the reference's second stage. -/
theorem y2_eq : (dat10 (V21 m ρ) c).arrAt 7 cfg10.N = y2R m ρ c := by
  rw [KStageBVal_L2.final7]
  funext i
  obtain ⟨p, q, rfl⟩ : ∃ (p : Fin 50000) (q : Fin 128), i = ix2 p q := ⟨i 0, i 1, eq_ix2 i⟩
  show KStageBVal_L2.y2At _ _ _ _ _ _ _ p q = _
  unfold KStageBVal_L2.y2At
  show _ = Cert.ReferenceIdeal.RefSpec.dense (F := Ideal) _ _ _ (ix2 p q)
  rw [Cert.ReferenceIdeal.RefSpec.dense_apply, in2_y m ρ c hy1, in2_w m ρ c hy1, in2_b m ρ c hy1]
  refine congrArg (· + _) (Finset.sum_congr rfl fun k _ => ?_)
  rw [Cert.ReferenceIdeal.RefSpec.norm_apply, in2_m m ρ c hy1, in2_v m ρ c hy1, in2_g m ρ c hy1, in2_be m ρ c hy1]
  rfl

end Stage2

/-! ## Stage 2's statistics, stage 3 -/

section Stage3

open Cert.ReferenceIdeal.RefStats (meanAt varAt)

variable (hy1 : ∀ (r : Fin 50000) (q : Fin 128), IsReal (y1R m ρ c (ix2 r q)))
variable (hy2 : ∀ (r : Fin 50000) (q : Fin 128), IsReal (y2R m ρ c (ix2 r q)))

include hy1 hy2

theorem sum2 (q : Fin 128) : W22 m ρ c (Proc.devRef .tc main_v167_1) (ix2 (0 : Fin 1) q)
    = Ideal.ofBits .f32 0x00000000#32 + ∑ r : Fin 50000, y2R m ρ c (ix2 r q) := by
  have h := KStageBVal_L2.sum_apply (V21 m ρ) c q
  rw [← KStageBVal_L2.final7, y2_eq m ρ c hy1] at h
  exact (congrFun (W22_arr m ρ c 8) _).trans h

theorem sumsq2 (q : Fin 128) : W22 m ρ c (Proc.devRef .tc main_v167_2) (ix2 (0 : Fin 1) q)
    = Ideal.ofBits .f32 0x00000000#32 + ∑ r : Fin 50000, y2R m ρ c (ix2 r q) * y2R m ρ c (ix2 r q) := by
  have h := KStageBVal_L2.sumsq_apply (V21 m ρ) c q
  rw [← KStageBVal_L2.final7, y2_eq m ρ c hy1] at h
  exact (congrFun (W22_arr m ρ c 9) _).trans h

/-- The third stage's result, as the reference computes it. -/
abbrev cR : FVec Ideal S50000x128 .f32 := Cert.ReferenceIdeal.RefSpec.norm (y2R m ρ c) (pga m ρ c) (pba m ρ c)

theorem in3_y : KStageCVal_L2.Y2 (V23 m ρ) c = y2R m ρ c :=
  ((KHost.h11_keep_main_v167_0 (W22 m ρ c)).trans (W22_arr m ρ c 7)).trans (y2_eq m ρ c hy1)

theorem in3_m (q : Fin 128) : KStageCVal_L2.M (V23 m ρ) c (ix2 (0 : Fin 1) q) = meanAt (y2R m ρ c) q := by
  show W23 m ρ c (Proc.devRef .tc main_v169) (ix2 (0 : Fin 1) q) = _
  rw [show W23 m ρ c (Proc.devRef .tc main_v169) = _ from KHost.h11_main_v169 (W22 m ρ c)]
  exact mean_of_sum (y2R m ρ c) _ (sum2 m ρ c hy1 hy2) q

theorem in3_v (q : Fin 128) : KStageCVal_L2.Vr (V23 m ρ) c (ix2 (0 : Fin 1) q) = varAt (y2R m ρ c) q := by
  show W23 m ρ c (Proc.devRef .tc main_v173) (ix2 (0 : Fin 1) q) = _
  rw [show W23 m ρ c (Proc.devRef .tc main_v173) = _ from KHost.h11_main_v173 (W22 m ρ c)]
  exact var_of_sums (y2R m ρ c) _ _ (sum2 m ρ c hy1 hy2) (sumsq2 m ρ c hy1 hy2) hy2 q

theorem in3_g (q : Fin 128) : KStageCVal_L2.G (V23 m ρ) c (ix2 (0 : Fin 1) q) = pga m ρ c (ix1 q) := by
  show W23 m ρ c (Proc.devRef .tc main_v176) (ix2 (0 : Fin 1) q) = _
  rw [show W23 m ρ c (Proc.devRef .tc main_v176) = _ from KHost.h11_main_v176 (W22 m ρ c)]
  exact row_param _ _ (w6_arg m ρ c main_arg12 (by decide) (by decide) (KHost.h9_keep_main_arg12 _) (KHost.h10_keep_main_arg12 _)) q

theorem in3_be (q : Fin 128) : KStageCVal_L2.Be (V23 m ρ) c (ix2 (0 : Fin 1) q) = pba m ρ c (ix1 q) := by
  show W23 m ρ c (Proc.devRef .tc main_v179) (ix2 (0 : Fin 1) q) = _
  rw [show W23 m ρ c (Proc.devRef .tc main_v179) = _ from KHost.h11_main_v179 (W22 m ρ c)]
  exact row_param _ _ (w6_arg m ρ c main_arg13 (by decide) (by decide) (KHost.h9_keep_main_arg13 _) (KHost.h10_keep_main_arg13 _)) q

/-- The third region's tile output is the reference's third stage. -/
theorem c_eq : (dat11 (V23 m ρ) c).arrAt 5 cfg11.N = cR m ρ c := by
  rw [KStageCVal_L2.final5]
  funext i
  obtain ⟨p, q, rfl⟩ : ∃ (p : Fin 50000) (q : Fin 128), i = ix2 p q := ⟨i 0, i 1, eq_ix2 i⟩
  show KStageCVal_L2.cAt _ _ _ _ _ p q = _
  unfold KStageCVal_L2.cAt
  show _ = Cert.ReferenceIdeal.RefSpec.norm (F := Ideal) _ _ _ (ix2 p q)
  rw [Cert.ReferenceIdeal.RefSpec.norm_apply, in3_y m ρ c hy1 hy2, in3_m m ρ c hy1 hy2, in3_v m ρ c hy1 hy2, in3_g m ρ c hy1 hy2, in3_be m ρ c hy1 hy2]
  rfl

end Stage3

/-! ## Stage 3's statistics, the closing stage -/

section Stage4

open Cert.ReferenceIdeal.RefStats (meanAt varAt)

variable (hy1 : ∀ (r : Fin 50000) (q : Fin 128), IsReal (y1R m ρ c (ix2 r q)))
variable (hy2 : ∀ (r : Fin 50000) (q : Fin 128), IsReal (y2R m ρ c (ix2 r q)))
variable (hc : ∀ (r : Fin 50000) (q : Fin 128), IsReal (cR m ρ c (ix2 r q)))

include hy1 hy2 hc

theorem sum3 (q : Fin 128) : W24 m ρ c (Proc.devRef .tc main_v180_1) (ix2 (0 : Fin 1) q)
    = Ideal.ofBits .f32 0x00000000#32 + ∑ r : Fin 50000, cR m ρ c (ix2 r q) := by
  have h := KStageCVal_L2.sum_apply (V23 m ρ) c q
  rw [← KStageCVal_L2.final5, c_eq m ρ c hy1 hy2] at h
  exact (congrFun (W24_arr m ρ c 6) _).trans h

theorem sumsq3 (q : Fin 128) : W24 m ρ c (Proc.devRef .tc main_v180_2) (ix2 (0 : Fin 1) q)
    = Ideal.ofBits .f32 0x00000000#32 + ∑ r : Fin 50000, cR m ρ c (ix2 r q) * cR m ρ c (ix2 r q) := by
  have h := KStageCVal_L2.sumsq_apply (V23 m ρ) c q
  rw [← KStageCVal_L2.final5, c_eq m ρ c hy1 hy2] at h
  exact (congrFun (W24_arr m ρ c 7) _).trans h

theorem in4_c : KStageDVal_L2.Cc (V25 m ρ) c = cR m ρ c :=
  ((KHost.h12_keep_main_v180_0 (W24 m ρ c)).trans (W24_arr m ρ c 5)).trans (c_eq m ρ c hy1 hy2)

theorem in4_m (q : Fin 128) : KStageDVal_L2.Mn (V25 m ρ) c (ix2 (0 : Fin 1) q) = meanAt (cR m ρ c) q := by
  show W25 m ρ c (Proc.devRef .tc main_v182) (ix2 (0 : Fin 1) q) = _
  rw [show W25 m ρ c (Proc.devRef .tc main_v182) = _ from KHost.h12_main_v182 (W24 m ρ c)]
  exact mean_of_sum (cR m ρ c) _ (sum3 m ρ c hy1 hy2 hc) q

theorem in4_v (q : Fin 128) : KStageDVal_L2.Vr (V25 m ρ) c (ix2 (0 : Fin 1) q) = varAt (cR m ρ c) q := by
  show W25 m ρ c (Proc.devRef .tc main_v186) (ix2 (0 : Fin 1) q) = _
  rw [show W25 m ρ c (Proc.devRef .tc main_v186) = _ from KHost.h12_main_v186 (W24 m ρ c)]
  exact var_of_sums (cR m ρ c) _ _ (sum3 m ρ c hy1 hy2 hc) (sumsq3 m ρ c hy1 hy2 hc) hc q

theorem in4_g (q : Fin 128) : KStageDVal_L2.Gm (V25 m ρ) c (ix2 (0 : Fin 1) q) = pgl m ρ c (ix1 q) := by
  show W25 m ρ c (Proc.devRef .tc main_v189) (ix2 (0 : Fin 1) q) = _
  rw [show W25 m ρ c (Proc.devRef .tc main_v189) = _ from KHost.h12_main_v189 (W24 m ρ c)]
  exact row_param _ _ (w8_arg m ρ c main_arg14 (by decide) (by decide) (by decide) (KHost.h9_keep_main_arg14 _) (KHost.h10_keep_main_arg14 _) (KHost.h11_keep_main_arg14 _)) q

theorem in4_be (q : Fin 128) : KStageDVal_L2.Bt (V25 m ρ) c (ix2 (0 : Fin 1) q) = pbl m ρ c (ix1 q) := by
  show W25 m ρ c (Proc.devRef .tc main_v192) (ix2 (0 : Fin 1) q) = _
  rw [show W25 m ρ c (Proc.devRef .tc main_v192) = _ from KHost.h12_main_v192 (W24 m ρ c)]
  exact row_param _ _ (w8_arg m ρ c main_arg15 (by decide) (by decide) (by decide) (KHost.h9_keep_main_arg15 _) (KHost.h10_keep_main_arg15 _) (KHost.h11_keep_main_arg15 _)) q

theorem in4_h : KStageDVal_L2.Hh (V25 m ρ) c = hin m ρ c :=
  (KHost.h12_keep_main_v129 (W24 m ρ c)).trans <| (W24_of_ne m ρ c main_v129 (by decide)).trans <|
    (KHost.h11_keep_main_v129 (W22 m ρ c)).trans <| (W22_of_ne m ρ c main_v129 (by decide)).trans <|
    (KHost.h10_keep_main_v129 (W20 m ρ c)).trans <| (W20_arr m ρ c 0).trans <|
    ((dat9 (V19 m ρ) c).arrAt_in 0 rfl _).trans <| (A_eq9 (V19 m ρ) c 0).trans (KHost.h9_keep_main_v129 (W18 m ρ c))

/-- THE LAYER: the closing region's output array is the reference's layer of the layer's input and parameter slices. -/
theorem layer_eq :
    W26 m ρ c (Proc.devRef .tc main_v193)
      = Cert.ReferenceIdeal.RefSpec.layer (src m ρ c) (hin m ρ c) (dst m ρ c) (pe m ρ c) (pw1 m ρ c) (pb1 m ρ c) (pg1 m ρ c)
          (pbe1 m ρ c) (pw2 m ρ c) (pb2 m ρ c) (pga m ρ c) (pba m ρ c) (pgl m ρ c) (pbl m ρ c) := by
  refine (W26_arr m ρ c 6).trans ?_
  rw [KStageDVal_L2.final]
  funext i
  obtain ⟨p, q, rfl⟩ : ∃ (p : Fin 50000) (q : Fin 128), i = ix2 p q := ⟨i 0, i 1, eq_ix2 i⟩
  show KStageDVal_L2.outAt _ _ _ _ _ _ p q = _
  unfold KStageDVal_L2.outAt Cert.ReferenceIdeal.RefSpec.layer
  rw [in4_c m ρ c hy1 hy2 hc, in4_h m ρ c hy1 hy2 hc, in4_m m ρ c hy1 hy2 hc, in4_v m ρ c hy1 hy2 hc, in4_g m ρ c hy1 hy2 hc, in4_be m ρ c hy1 hy2 hc]
  show _ = hin m ρ c (ix2 p q) + Cert.ReferenceIdeal.RefSpec.norm (F := Ideal) (cR m ρ c) (pgl m ρ c) (pbl m ρ c) (ix2 p q)
  rw [Cert.ReferenceIdeal.RefSpec.norm_apply]
  rfl

end Stage4

/-- THE LAYER, from real inputs: with the layer's input features and parameter slices real, every intermediate is real,
    so the two forms of each variance agree and the kernel's layer is the reference's. -/
theorem layer_eq_real
    (hh : ∀ (p : Fin 50000) (q : Fin 128), IsReal (hin m ρ c (ix2 p q)))
    (he : IsReal (pe m ρ c (Shape.Idx.first Cert.ReferenceIdeal.Gen.h_S_)))
    (hw1 : ∀ (k q : Fin 128), IsReal (pw1 m ρ c (ix2 k q))) (hb1 : ∀ q : Fin 128, IsReal (pb1 m ρ c (ix1 q)))
    (hg1 : ∀ q : Fin 128, IsReal (pg1 m ρ c (ix1 q))) (hbe1 : ∀ q : Fin 128, IsReal (pbe1 m ρ c (ix1 q)))
    (hw2 : ∀ (k q : Fin 128), IsReal (pw2 m ρ c (ix2 k q))) (hb2 : ∀ q : Fin 128, IsReal (pb2 m ρ c (ix1 q)))
    (hga : ∀ q : Fin 128, IsReal (pga m ρ c (ix1 q))) (hba : ∀ q : Fin 128, IsReal (pba m ρ c (ix1 q)))
    (hgl : ∀ q : Fin 128, IsReal (pgl m ρ c (ix1 q))) (hbl : ∀ q : Fin 128, IsReal (pbl m ρ c (ix1 q))) :
    W26 m ρ c (Proc.devRef .tc main_v193)
      = Cert.ReferenceIdeal.RefSpec.layer (src m ρ c) (hin m ρ c) (dst m ρ c) (pe m ρ c) (pw1 m ρ c) (pb1 m ρ c) (pg1 m ρ c)
          (pbe1 m ρ c) (pw2 m ρ c) (pb2 m ρ c) (pga m ρ c) (pba m ρ c) (pgl m ρ c) (pbl m ρ c) := by
  have hy1 : ∀ (r : Fin 50000) (q : Fin 128), IsReal (y1R m ρ c (ix2 r q)) :=
    Cert.LayerReal.dense_isReal _ _ _ (Cert.LayerReal.mix_isReal _ _ _ _ he hh) hw1 hb1
  have hy2 : ∀ (r : Fin 50000) (q : Fin 128), IsReal (y2R m ρ c (ix2 r q)) :=
    Cert.LayerReal.dense_isReal _ _ _ (Cert.LayerReal.norm_isReal _ _ _ hy1 hg1 hbe1) hw2 hb2
  have hc : ∀ (r : Fin 50000) (q : Fin 128), IsReal (cR m ρ c (ix2 r q)) :=
    Cert.LayerReal.norm_isReal _ _ _ hy2 hga hba
  exact layer_eq m ρ c hy1 hy2 hc

end Cert.KernelIdeal.KLayer2

end
-- ==== Proof.KStageAVal_L3.lean ====
/-
  The first stage's region, read as values.  At each of the ten grid points the body writes the point's tile of
  `y₁` and updates two one-row accumulators: at the first point they are reset to zero before the tile's column sums
  (and column sums of squares) are added, at the later points the sums are added to what the point before left.
-/
import proofs.«140776_j80633716015159_1_alg».proof.Proof.Gen.KernelIdeal.Frame
import proofs.«140776_j80633716015159_1_alg».proof.Proof.KStageA
import proofs.«140776_j80633716015159_1_alg».proof.Proof.LibFinSum
import Idealize.ShloMosaic.Lib.Pipeline.Value
import Idealize.ShloMosaic.Lib.Tactic

set_option maxRecDepth 16384

noncomputable section

namespace Cert.KernelIdeal.KStageAVal_L3

open Cert.KernelIdeal Cert.KernelIdeal.Gen
open Idealize.ShloMosaic Idealize.ShloMosaic.TcCoe Idealize.ShloMosaic.ValueIdx Idealize.SL.Sem
open Idealize.ShloMosaic.Pipeline (Dat Cfg Window)

/-- The tile of `y₁` at an entry. -/
theorem pay4_apply (v3 : Vec Ideal S1x1 .f32) (v5 v9 : Vec Ideal S5000x128 .f32) (v13 : Vec Ideal S128x128 .f32)
    (v17 : Vec Ideal S1x128 .f32) (p : Fin 5000) (q : Fin 128) :
    k13_pay4 v3 v5 v9 v13 v17 (ix2 p q)
      = (∑ k : Fin 128, (v3 (ix2 (0 : Fin 1) (0 : Fin 1)) * v5 (ix2 p k) + v9 (ix2 p k)) * v13 (ix2 k q))
        + v17 (ix2 (0 : Fin 1) q) :=
  KStageA.pay4_apply v3 v5 v9 v13 v17 p q

/-- The running column sums after the point, at a column. -/
theorem pay5_apply (v3 : Vec Ideal S1x1 .f32) (v5 v9 : Vec Ideal S5000x128 .f32) (v13 : Vec Ideal S128x128 .f32)
    (v17 v22 : Vec Ideal S1x128 .f32) (q : Fin 128) :
    k13_pay5 v3 v5 v9 v13 v17 v22 (ix2 (0 : Fin 1) q)
      = v22 (ix2 (0 : Fin 1) q) + ∑ r : Fin 5000, k13_pay4 v3 v5 v9 v13 v17 (ix2 r q) :=
  KStageA.pay5_apply v3 v5 v9 v13 v17 v22 q

/-- The column sums of the squares of the point's tile, at a column. -/
theorem pay7_apply (v3 : Vec Ideal S1x1 .f32) (v5 v9 : Vec Ideal S5000x128 .f32) (v13 : Vec Ideal S128x128 .f32)
    (v17 : Vec Ideal S1x128 .f32) (q : Fin 128) :
    k13_pay7 v3 v5 v9 v13 v17 (ix2 (0 : Fin 1) q)
      = ∑ r : Fin 5000, k13_pay4 v3 v5 v9 v13 v17 (ix2 r q) * k13_pay4 v3 v5 v9 v13 v17 (ix2 r q) :=
  KStageA.pay7_apply v3 v5 v9 v13 v17 q

variable {F : FTy → Type} [FloatOps F]

theorem hz : (![0, 0] : Fin 2 → Nat) = fun _ => 0 := funext fun a => by fin_cases a <;> rfl

/-- The zero row the reset stores. -/
abbrev zrow : Vec F S1x128 .f32 := broadcast S1x128 (Scalar.ofBits .f32 0x00000000#32)

/-- First point, the tile of `y₁`. -/
theorem outA5 (c : Dev nD) (i : grid13.Coords) (a1 : Memref sig .tc .vmem S5000x128 .f32) (h1 : a1.IsWhole) (a2 : Memref sig .tc .vmem S5000x128 .f32) (h2 : a2.IsWhole) (a3 : Memref sig .tc .vmem S1x1 .f32) (h3 : a3.IsWhole) (a4 : Memref sig .tc .vmem S128x128 .f32) (h4 : a4.IsWhole) (a5 : Memref sig .tc .vmem S1x128 .f32) (h5 : a5.IsWhole) (a6 : Memref sig .tc .vmem S5000x128 .f32) (h6 : a6.IsWhole) (a7 : Memref sig .tc .vmem S1x128 .f32) (h7 : a7.IsWhole) (a8 : Memref sig .tc .vmem S1x128 .f32) (h8 : a8.IsWhole) (hc : cond13_0 i) (x0 x1 : Vec F S5000x128 .f32) (x2 : Vec F S1x1 .f32) (x3 : Vec F S128x128 .f32) (x4 : Vec F S1x128 .f32) :
    out13_A_5 c i a1 h1 a2 h2 a3 h3 a4 h4 a5 h5 a6 h6 a7 h7 a8 h8 hc x0 x1 x2 x3 x4 = k13_pay4 x2 x0 x1 x3 x4 := by
  unfold out13_A_5
  rw [View.read_writes_eq_canon _ _ _ (cover13_A_5 c i a1 h1 a2 h2 a3 h3 a4 h4 a5 h5 a6 h6 a7 h7 a8 h8 hc x0 x1 x2 x3 x4)]
  unfold kernelRun13_A
  dsimp only
  sl_unfold_words
  rw [View.canon_unit_zero hz]
  simp only [View.readAt_eq_ld, h1.read_unread, h2.read_unread, h3.read_unread, h4.read_unread, h5.read_unread, View.ld_unit_zero (S := S5000x128) hz, View.ld_unit_zero (S := S1x1) hz, View.ld_unit_zero (S := S128x128) hz, View.ld_unit_zero (S := S1x128) hz]

theorem outA6 (c : Dev nD) (i : grid13.Coords) (a1 : Memref sig .tc .vmem S5000x128 .f32) (h1 : a1.IsWhole) (a2 : Memref sig .tc .vmem S5000x128 .f32) (h2 : a2.IsWhole) (a3 : Memref sig .tc .vmem S1x1 .f32) (h3 : a3.IsWhole) (a4 : Memref sig .tc .vmem S128x128 .f32) (h4 : a4.IsWhole) (a5 : Memref sig .tc .vmem S1x128 .f32) (h5 : a5.IsWhole) (a6 : Memref sig .tc .vmem S5000x128 .f32) (h6 : a6.IsWhole) (a7 : Memref sig .tc .vmem S1x128 .f32) (h7 : a7.IsWhole) (a8 : Memref sig .tc .vmem S1x128 .f32) (h8 : a8.IsWhole) (hc : cond13_0 i) (x0 x1 : Vec F S5000x128 .f32) (x2 : Vec F S1x1 .f32) (x3 : Vec F S128x128 .f32) (x4 : Vec F S1x128 .f32) :
    out13_A_6 c i a1 h1 a2 h2 a3 h3 a4 h4 a5 h5 a6 h6 a7 h7 a8 h8 hc x0 x1 x2 x3 x4 = k13_pay5 x2 x0 x1 x3 x4 zrow := by
  unfold out13_A_6
  rw [View.read_writes_eq_canon _ _ _ (cover13_A_6 c i a1 h1 a2 h2 a3 h3 a4 h4 a5 h5 a6 h6 a7 h7 a8 h8 hc x0 x1 x2 x3 x4)]
  unfold kernelRun13_A
  dsimp only
  sl_unfold_words
  rw [View.canon_cons_unit_zero (S := S1x128) hz, View.readCov_unit_zero (S := S1x128) _ hz]
  simp only [View.readAt_eq_ld, h1.read_unread, h2.read_unread, h3.read_unread, h4.read_unread, h5.read_unread, h7.read_unread, h8.read_unread, View.ld_unit_zero (S := S5000x128) hz, View.ld_unit_zero (S := S1x1) hz, View.ld_unit_zero (S := S128x128) hz, View.ld_unit_zero (S := S1x128) hz]
  rfl

theorem outA7 (c : Dev nD) (i : grid13.Coords) (a1 : Memref sig .tc .vmem S5000x128 .f32) (h1 : a1.IsWhole) (a2 : Memref sig .tc .vmem S5000x128 .f32) (h2 : a2.IsWhole) (a3 : Memref sig .tc .vmem S1x1 .f32) (h3 : a3.IsWhole) (a4 : Memref sig .tc .vmem S128x128 .f32) (h4 : a4.IsWhole) (a5 : Memref sig .tc .vmem S1x128 .f32) (h5 : a5.IsWhole) (a6 : Memref sig .tc .vmem S5000x128 .f32) (h6 : a6.IsWhole) (a7 : Memref sig .tc .vmem S1x128 .f32) (h7 : a7.IsWhole) (a8 : Memref sig .tc .vmem S1x128 .f32) (h8 : a8.IsWhole) (hc : cond13_0 i) (x0 x1 : Vec F S5000x128 .f32) (x2 : Vec F S1x1 .f32) (x3 : Vec F S128x128 .f32) (x4 : Vec F S1x128 .f32) :
    out13_A_7 c i a1 h1 a2 h2 a3 h3 a4 h4 a5 h5 a6 h6 a7 h7 a8 h8 hc x0 x1 x2 x3 x4 = k13_pay1 (k13_pay6 zrow) (k13_pay7 x2 x0 x1 x3 x4) := by
  unfold out13_A_7
  rw [View.read_writes_eq_canon _ _ _ (cover13_A_7 c i a1 h1 a2 h2 a3 h3 a4 h4 a5 h5 a6 h6 a7 h7 a8 h8 hc x0 x1 x2 x3 x4)]
  unfold kernelRun13_A
  dsimp only
  sl_unfold_words
  rw [View.canon_cons_unit_zero (S := S1x128) hz, View.readCov_unit_zero (S := S1x128) _ hz]
  simp only [View.readAt_eq_ld, h1.read_unread, h2.read_unread, h3.read_unread, h4.read_unread, h5.read_unread, h7.read_unread, h8.read_unread, View.ld_unit_zero (S := S5000x128) hz, View.ld_unit_zero (S := S1x1) hz, View.ld_unit_zero (S := S128x128) hz, View.ld_unit_zero (S := S1x128) hz]
  rfl

theorem outB5 (c : Dev nD) (i : grid13.Coords) (a1 : Memref sig .tc .vmem S5000x128 .f32) (h1 : a1.IsWhole) (a2 : Memref sig .tc .vmem S5000x128 .f32) (h2 : a2.IsWhole) (a3 : Memref sig .tc .vmem S1x1 .f32) (h3 : a3.IsWhole) (a4 : Memref sig .tc .vmem S128x128 .f32) (h4 : a4.IsWhole) (a5 : Memref sig .tc .vmem S1x128 .f32) (h5 : a5.IsWhole) (a6 : Memref sig .tc .vmem S5000x128 .f32) (h6 : a6.IsWhole) (a7 : Memref sig .tc .vmem S1x128 .f32) (h7 : a7.IsWhole) (a8 : Memref sig .tc .vmem S1x128 .f32) (h8 : a8.IsWhole) (hc : ¬cond13_0 i) (x0 x1 : Vec F S5000x128 .f32) (x2 : Vec F S1x1 .f32) (x3 : Vec F S128x128 .f32) (x4 : Vec F S1x128 .f32) (s6 s7 : Vec F S1x128 .f32) :
    out13_B_5 c i a1 h1 a2 h2 a3 h3 a4 h4 a5 h5 a6 h6 a7 h7 a8 h8 hc x0 x1 x2 x3 x4 s6 s7 = k13_pay4 x2 x0 x1 x3 x4 := by
  unfold out13_B_5
  rw [View.read_writes_eq_canon _ _ _ (cover13_B_5 c i a1 h1 a2 h2 a3 h3 a4 h4 a5 h5 a6 h6 a7 h7 a8 h8 hc x0 x1 x2 x3 x4 s6 s7)]
  unfold kernelRun13_B
  dsimp only
  sl_unfold_words
  rw [View.canon_unit_zero hz]
  simp only [View.readAt_eq_ld, h1.read_unread, h2.read_unread, h3.read_unread, h4.read_unread, h5.read_unread, h7.read_unread, h8.read_unread, View.ld_unit_zero (S := S5000x128) hz, View.ld_unit_zero (S := S1x1) hz, View.ld_unit_zero (S := S128x128) hz, View.ld_unit_zero (S := S1x128) hz]

theorem outB6 (c : Dev nD) (i : grid13.Coords) (a1 : Memref sig .tc .vmem S5000x128 .f32) (h1 : a1.IsWhole) (a2 : Memref sig .tc .vmem S5000x128 .f32) (h2 : a2.IsWhole) (a3 : Memref sig .tc .vmem S1x1 .f32) (h3 : a3.IsWhole) (a4 : Memref sig .tc .vmem S128x128 .f32) (h4 : a4.IsWhole) (a5 : Memref sig .tc .vmem S1x128 .f32) (h5 : a5.IsWhole) (a6 : Memref sig .tc .vmem S5000x128 .f32) (h6 : a6.IsWhole) (a7 : Memref sig .tc .vmem S1x128 .f32) (h7 : a7.IsWhole) (a8 : Memref sig .tc .vmem S1x128 .f32) (h8 : a8.IsWhole) (hc : ¬cond13_0 i) (x0 x1 : Vec F S5000x128 .f32) (x2 : Vec F S1x1 .f32) (x3 : Vec F S128x128 .f32) (x4 : Vec F S1x128 .f32) (s6 s7 : Vec F S1x128 .f32) :
    out13_B_6 c i a1 h1 a2 h2 a3 h3 a4 h4 a5 h5 a6 h6 a7 h7 a8 h8 hc x0 x1 x2 x3 x4 s6 s7 = k13_pay5 x2 x0 x1 x3 x4 s6 := by
  unfold out13_B_6
  rw [View.read_writes_eq_canon _ _ _ (cover13_B_6 c i a1 h1 a2 h2 a3 h3 a4 h4 a5 h5 a6 h6 a7 h7 a8 h8 hc x0 x1 x2 x3 x4 s6 s7)]
  unfold kernelRun13_B
  dsimp only
  sl_unfold_words
  rw [View.canon_unit_zero hz]
  simp only [View.readAt_eq_ld, h1.read_unread, h2.read_unread, h3.read_unread, h4.read_unread, h5.read_unread, h7.read_unread, h8.read_unread, View.ld_unit_zero (S := S5000x128) hz, View.ld_unit_zero (S := S1x1) hz, View.ld_unit_zero (S := S128x128) hz, View.ld_unit_zero (S := S1x128) hz]

theorem outB7 (c : Dev nD) (i : grid13.Coords) (a1 : Memref sig .tc .vmem S5000x128 .f32) (h1 : a1.IsWhole) (a2 : Memref sig .tc .vmem S5000x128 .f32) (h2 : a2.IsWhole) (a3 : Memref sig .tc .vmem S1x1 .f32) (h3 : a3.IsWhole) (a4 : Memref sig .tc .vmem S128x128 .f32) (h4 : a4.IsWhole) (a5 : Memref sig .tc .vmem S1x128 .f32) (h5 : a5.IsWhole) (a6 : Memref sig .tc .vmem S5000x128 .f32) (h6 : a6.IsWhole) (a7 : Memref sig .tc .vmem S1x128 .f32) (h7 : a7.IsWhole) (a8 : Memref sig .tc .vmem S1x128 .f32) (h8 : a8.IsWhole) (hc : ¬cond13_0 i) (x0 x1 : Vec F S5000x128 .f32) (x2 : Vec F S1x1 .f32) (x3 : Vec F S128x128 .f32) (x4 : Vec F S1x128 .f32) (s6 s7 : Vec F S1x128 .f32) :
    out13_B_7 c i a1 h1 a2 h2 a3 h3 a4 h4 a5 h5 a6 h6 a7 h7 a8 h8 hc x0 x1 x2 x3 x4 s6 s7 = k13_pay1 (k13_pay6 s7) (k13_pay7 x2 x0 x1 x3 x4) := by
  unfold out13_B_7
  rw [View.read_writes_eq_canon _ _ _ (cover13_B_7 c i a1 h1 a2 h2 a3 h3 a4 h4 a5 h5 a6 h6 a7 h7 a8 h8 hc x0 x1 x2 x3 x4 s6 s7)]
  unfold kernelRun13_B
  dsimp only
  sl_unfold_words
  rw [View.canon_unit_zero hz]
  simp only [View.readAt_eq_ld, h1.read_unread, h2.read_unread, h3.read_unread, h4.read_unread, h5.read_unread, h7.read_unread, h8.read_unread, View.ld_unit_zero (S := S5000x128) hz, View.ld_unit_zero (S := S1x1) hz, View.ld_unit_zero (S := S128x128) hz, View.ld_unit_zero (S := S1x128) hz]

/-! ## The outputs after each point -/

variable (V : (c : Dev nD) → (b : Ref sig .tc) → Buf (Elt F) ((c : Thread nD τ).loc b))

/-- The point's tile of `y₁`. -/
def tileY (c : Dev nD) (t : Fin cfg13.N) : Vec F S5000x128 .f32 := k13_pay4 (iblk13 V c 2 t) (iblk13 V c 0 t) (iblk13 V c 1 t) (iblk13 V c 3 t) (iblk13 V c 4 t)

/-- The running column sums after point `n`. -/
def acc6 (c : Dev nD) : (n : ℕ) → n < cfg13.N → Vec F S1x128 .f32
  | 0, h => k13_pay5 (iblk13 V c 2 ⟨0, h⟩) (iblk13 V c 0 ⟨0, h⟩) (iblk13 V c 1 ⟨0, h⟩) (iblk13 V c 3 ⟨0, h⟩) (iblk13 V c 4 ⟨0, h⟩) zrow
  | n + 1, h => k13_pay5 (iblk13 V c 2 ⟨n + 1, h⟩) (iblk13 V c 0 ⟨n + 1, h⟩) (iblk13 V c 1 ⟨n + 1, h⟩) (iblk13 V c 3 ⟨n + 1, h⟩) (iblk13 V c 4 ⟨n + 1, h⟩) (acc6 c n (Nat.lt_of_succ_lt h))

/-- The running column sums of squares after point `n`. -/
def acc7 (c : Dev nD) : (n : ℕ) → n < cfg13.N → Vec F S1x128 .f32
  | 0, h => k13_pay1 (k13_pay6 zrow) (k13_pay7 (iblk13 V c 2 ⟨0, h⟩) (iblk13 V c 0 ⟨0, h⟩) (iblk13 V c 1 ⟨0, h⟩) (iblk13 V c 3 ⟨0, h⟩) (iblk13 V c 4 ⟨0, h⟩))
  | n + 1, h => k13_pay1 (k13_pay6 (acc7 c n (Nat.lt_of_succ_lt h))) (k13_pay7 (iblk13 V c 2 ⟨n + 1, h⟩) (iblk13 V c 0 ⟨n + 1, h⟩) (iblk13 V c 1 ⟨n + 1, h⟩) (iblk13 V c 3 ⟨n + 1, h⟩) (iblk13 V c 4 ⟨n + 1, h⟩))

/-- What the three outputs' staging buffers hold after point `n`: the tile and the two running sums. -/
theorem outsAt_eq (c : Dev nD) : ∀ (n : ℕ) (h : n < cfg13.N), outsAt13 V c n h = (tileY V c ⟨n, h⟩, acc6 V c n h, acc7 V c n h)
  | 0, h => (outsAt13_A V c ⟨0, h⟩ rfl).trans (by rw [outA5, outA6, outA7]; rfl)
  | n + 1, h => by
    have hN : grid13.N = 10 := N_13
    have hB : ¬(⟨n + 1, h⟩ : Fin cfg13.N).val % 10 = 0 := by
      have : n + 1 < 10 := by have := h; rw [show cfg13.N = grid13.N from rfl, hN] at this; exact this
      dsimp only; omega
    rw [outsAt13_B V c ⟨n + 1, h⟩ hB, outB5, outB6, outB7]
    show (_, k13_pay5 _ _ _ _ _ (outsAt13 V c n _).2.1, k13_pay1 (k13_pay6 (outsAt13 V c n _).2.2) _) = _
    rw [outsAt_eq c n]
    rfl

/-! ## At the exact reading: the accumulators are sums, the tiles an array -/

section Exact

variable (V : (c : Dev nD) → (b : Ref sig .tc) → Buf (Elt Ideal) ((c : Thread nD τ).loc b))

theorem acc6_apply (c : Dev nD) (q : Fin 128) : ∀ (n : ℕ) (h : n < cfg13.N),
    acc6 V c n h (ix2 (0 : Fin 1) q)
      = Ideal.ofBits .f32 0x00000000#32
        + ∑ t : Fin (n + 1), ∑ r : Fin 5000, tileY V c ⟨t.val, lt_of_lt_of_le t.isLt h⟩ (ix2 r q) :=
  Cert.FinSum.sum_of_steps cfg13.N (fun n h => acc6 V c n h (ix2 (0 : Fin 1) q))
    (fun t => ∑ r : Fin 5000, tileY V c t (ix2 r q)) (Ideal.ofBits .f32 0x00000000#32)
    (fun h => pay5_apply _ _ _ _ _ _ q)
    (fun n h => pay5_apply _ _ _ _ _ _ q)

/-- The accumulator update at a column: what was there plus the new row. -/
theorem step_apply (s7 v32 : FVec Ideal S1x128 .f32) (q : Fin 128) :
    k13_pay1 (k13_pay6 s7) v32 (ix2 (0 : Fin 1) q) = s7 (ix2 (0 : Fin 1) q) + v32 (ix2 (0 : Fin 1) q) := by
  unfold k13_pay1 k13_pay6
  rw [shapeCast_self]
  rfl

theorem acc7_apply (c : Dev nD) (q : Fin 128) : ∀ (n : ℕ) (h : n < cfg13.N),
    acc7 V c n h (ix2 (0 : Fin 1) q)
      = Ideal.ofBits .f32 0x00000000#32
        + ∑ t : Fin (n + 1), ∑ r : Fin 5000,
            tileY V c ⟨t.val, lt_of_lt_of_le t.isLt h⟩ (ix2 r q) * tileY V c ⟨t.val, lt_of_lt_of_le t.isLt h⟩ (ix2 r q) :=
  Cert.FinSum.sum_of_steps cfg13.N (fun n h => acc7 V c n h (ix2 (0 : Fin 1) q))
    (fun t => ∑ r : Fin 5000, tileY V c t (ix2 r q) * tileY V c t (ix2 r q)) (Ideal.ofBits .f32 0x00000000#32)
    (fun h => (step_apply _ _ q).trans (congrArg (Ideal.ofBits .f32 0x00000000#32 + ·) (pay7_apply _ _ _ _ _ q)))
    (fun n h => (step_apply _ _ q).trans (congrArg (acc7 V c n _ (ix2 (0 : Fin 1) q) + ·) (pay7_apply _ _ _ _ _ q)))

end Exact

/-! ## The arrays after the region -/

/-- One entry of `y₁ = (s·h + neigh) · w + b`. -/
def y1At (h nb : (⟨2, ![50000, 128]⟩ : Shape).Idx → EReal) (s : (⟨2, ![1, 1]⟩ : Shape).Idx → EReal)
    (w : (⟨2, ![128, 128]⟩ : Shape).Idx → EReal) (b : (⟨2, ![1, 128]⟩ : Shape).Idx → EReal) (p : Fin 50000) (q : Fin 128) : EReal :=
  (∑ k : Fin 128, (s (ix2 (0 : Fin 1) (0 : Fin 1)) * h (ix2 p k) + nb (ix2 p k)) * w (ix2 k q)) + b (ix2 (0 : Fin 1) q)

/-- `y₁` as an array. -/
def y1 (h nb : (⟨2, ![50000, 128]⟩ : Shape).Idx → EReal) (s : (⟨2, ![1, 1]⟩ : Shape).Idx → EReal)
    (w : (⟨2, ![128, 128]⟩ : Shape).Idx → EReal) (b : (⟨2, ![1, 128]⟩ : Shape).Idx → EReal) :
    (⟨2, ![50000, 128]⟩ : Shape).Idx → EReal :=
  fun i => y1At h nb s w b ⟨(i 0).val, idx2_lt0 i⟩ ⟨(i 1).val, idx2_lt1 i⟩

section Arrays

variable (V : (c : Dev nD) → (b : Ref sig .tc) → Buf (Elt Ideal) ((c : Thread nD τ).loc b))

/-- The arrays the region finds. -/
abbrev H (c : Dev nD) : S50000x128.Idx → EReal := V c (Pipeline.arrRef spec13 0)
abbrev NB (c : Dev nD) : S50000x128.Idx → EReal := V c (Pipeline.arrRef spec13 1)
abbrev SC (c : Dev nD) : S1x1.Idx → EReal := V c (Pipeline.arrRef spec13 2)
abbrev Wt (c : Dev nD) : S128x128.Idx → EReal := V c (Pipeline.arrRef spec13 3)
abbrev Bs (c : Dev nD) : S1x128.Idx → EReal := V c (Pipeline.arrRef spec13 4)

/-- The printed index maps over the ten points: the two feature tiles and the output tile move down the rows with the
    point; the scalar, the weight matrix, the bias row and the two accumulator rows are block (0, 0). -/
theorem idx_facts : ∀ t : Fin cfg13.N,
    win13_0.index t (0 : Fin 2) = t.val ∧ win13_0.index t (1 : Fin 2) = 0
    ∧ win13_1.index t (0 : Fin 2) = t.val ∧ win13_1.index t (1 : Fin 2) = 0
    ∧ win13_2.index t (0 : Fin 2) = 0 ∧ win13_2.index t (1 : Fin 2) = 0
    ∧ win13_3.index t (0 : Fin 2) = 0 ∧ win13_3.index t (1 : Fin 2) = 0
    ∧ win13_4.index t (0 : Fin 2) = 0 ∧ win13_4.index t (1 : Fin 2) = 0
    ∧ win13_5.index t (0 : Fin 2) = t.val ∧ win13_5.index t (1 : Fin 2) = 0 :=
  (by decide +kernel : ∀ t : Fin grid13.N, _)

theorem iblk_h (c : Dev nD) (t : Fin cfg13.N) (p : Fin 5000) (k : Fin 128) (hp : t.val * 5000 + p.val < 50000) :
    (iblk13 V c 0 t : Vec Ideal S5000x128 .f32) (ix2 p k) = H V c (ix2 ⟨t.val * 5000 + p.val, hp⟩ k) := by
  obtain ⟨e0, e1, -⟩ := idx_facts t
  unfold iblk13
  rw [View.read_apply]
  refine congrArg (V c (Pipeline.arrRef spec13 0)) (funext fun a => Fin.ext ?_)
  match a with
  | ⟨0, _⟩ => show win13_0.index t 0 * 5000 + 1 * p.val = t.val * 5000 + p.val; rw [e0]; omega
  | ⟨1, _⟩ => show win13_0.index t 1 * 128 + 1 * k.val = k.val; rw [e1]; omega

theorem iblk_nb (c : Dev nD) (t : Fin cfg13.N) (p : Fin 5000) (k : Fin 128) (hp : t.val * 5000 + p.val < 50000) :
    (iblk13 V c 1 t : Vec Ideal S5000x128 .f32) (ix2 p k) = NB V c (ix2 ⟨t.val * 5000 + p.val, hp⟩ k) := by
  obtain ⟨-, -, e0, e1, -⟩ := idx_facts t
  unfold iblk13
  rw [View.read_apply]
  refine congrArg (V c (Pipeline.arrRef spec13 1)) (funext fun a => Fin.ext ?_)
  match a with
  | ⟨0, _⟩ => show win13_1.index t 0 * 5000 + 1 * p.val = t.val * 5000 + p.val; rw [e0]; omega
  | ⟨1, _⟩ => show win13_1.index t 1 * 128 + 1 * k.val = k.val; rw [e1]; omega

theorem iblk_s (c : Dev nD) (t : Fin cfg13.N) : (iblk13 V c 2 t : Vec Ideal S1x1 .f32) = SC V c := by
  obtain ⟨-, -, -, -, e0, e1, -⟩ := idx_facts t
  funext y
  unfold iblk13
  rw [View.read_apply]
  refine congrArg (V c (Pipeline.arrRef spec13 2)) (funext fun a => Fin.ext ?_)
  match a with
  | ⟨0, _⟩ => show win13_2.index t 0 * 1 + 1 * (y 0).val = (y 0).val; rw [e0]; omega
  | ⟨1, _⟩ => show win13_2.index t 1 * 1 + 1 * (y 1).val = (y 1).val; rw [e1]; omega

theorem iblk_w (c : Dev nD) (t : Fin cfg13.N) : (iblk13 V c 3 t : Vec Ideal S128x128 .f32) = Wt V c := by
  obtain ⟨-, -, -, -, -, -, e0, e1, -⟩ := idx_facts t
  funext y
  unfold iblk13
  rw [View.read_apply]
  refine congrArg (V c (Pipeline.arrRef spec13 3)) (funext fun a => Fin.ext ?_)
  match a with
  | ⟨0, _⟩ => show win13_3.index t 0 * 128 + 1 * (y 0).val = (y 0).val; rw [e0]; omega
  | ⟨1, _⟩ => show win13_3.index t 1 * 128 + 1 * (y 1).val = (y 1).val; rw [e1]; omega

theorem iblk_b (c : Dev nD) (t : Fin cfg13.N) : (iblk13 V c 4 t : Vec Ideal S1x128 .f32) = Bs V c := by
  obtain ⟨-, -, -, -, -, -, -, -, e0, e1, -⟩ := idx_facts t
  funext y
  unfold iblk13
  rw [View.read_apply]
  refine congrArg (V c (Pipeline.arrRef spec13 4)) (funext fun a => Fin.ext ?_)
  match a with
  | ⟨0, _⟩ => show win13_4.index t 0 * 1 + 1 * (y 0).val = (y 0).val; rw [e0]; omega
  | ⟨1, _⟩ => show win13_4.index t 1 * 128 + 1 * (y 1).val = (y 1).val; rw [e1]; omega

/-- The tile at point `t`, entry `(p, q)`, is `y₁` at row `5000·t + p`. -/
theorem tile_apply (c : Dev nD) (t : Fin cfg13.N) (p : Fin 5000) (q : Fin 128) (hp : t.val * 5000 + p.val < 50000) :
    tileY V c t (ix2 p q) = y1At (H V c) (NB V c) (SC V c) (Wt V c) (Bs V c) ⟨t.val * 5000 + p.val, hp⟩ q := by
  unfold tileY y1At
  rw [pay4_apply, iblk_s, iblk_w, iblk_b]
  refine congrArg (· + _) (Finset.sum_congr rfl fun k _ => ?_)
  rw [iblk_h V c t p k hp, iblk_nb V c t p k hp]

end Arrays

section Final

variable (V : (c : Dev nD) → (b : Ref sig .tc) → Buf (Elt Ideal) ((c : Thread nD τ).loc b))

/-- An entry of the tile at point `t` is the entry of `y₁` at row `5000·t + ` the tile's row. -/
theorem point5 (c : Dev nD) (t : Fin cfg13.N) (j : S5000x128.Idx) (i : S50000x128.Idx)
    (hi0 : (i 0).val = t.val * 5000 + (j 0).val) (hi1 : (i 1).val = (j 1).val) :
    tileY V c t j = y1 (H V c) (NB V c) (SC V c) (Wt V c) (Bs V c) i := by
  obtain ⟨p, q, rfl⟩ : ∃ (p : Fin 5000) (q : Fin 128), j = ix2 p q := ⟨j 0, j 1, eq_ix2 j⟩
  have ht : t.val < 10 := lt_of_lt_of_eq t.isLt (show cfg13.N = 10 from N_13)
  have hp : t.val * 5000 + p.val < 50000 := by have := p.isLt; omega
  rw [tile_apply V c t p q hp]
  unfold y1
  congr 1
  · exact Fin.ext hi0.symm
  · exact Fin.ext hi1.symm

/-- What point `t` writes back of `y₁` is tile `t` of the array `y₁`. -/
theorem flushed5_eq (c : Dev nD) (t : Fin cfg13.N) :
    (dat13 V c).flushed 5 t
      = ((cfg13.win 5).blk t).view.read (Elt Ideal) (y1 (H V c) (NB V c) (SC V c) (Wt V c) (Bs V c)) := by
  show (cfg13.win 5).cut (grid13.coords t) ((dat13 V c).after 5 t) = _
  rw [after13_5, outsAt_eq]
  obtain ⟨-, -, -, -, -, -, -, -, -, -, e0, e1⟩ := idx_facts t
  funext j
  rw [View.read_apply]
  refine point5 V c t j _ ?_ ?_
  · show win13_5.index t 0 * 5000 + 1 * (j 0).val = t.val * 5000 + (j 0).val
    rw [e0]; omega
  · show win13_5.index t 1 * 128 + 1 * (j 1).val = (j 1).val
    rw [e1]; omega

theorem mem_blk5 (t : Fin cfg13.N) (i : S50000x128.Idx) :
    i ∈ ((cfg13.win 5).blk t).view.set ↔ ∀ a : Fin 2, win13_5.index t a * S5000x128.size a ≤ (i a).val
      ∧ (i a).val < win13_5.index t a * S5000x128.size a + S5000x128.size a := by
  show i ∈ ((View.whole main_v213_0).slice (win13_5.rect t)).set ↔ _
  rw [View.set_slice_whole, Rect.mem_set_unit]
  exact Iff.rfl

theorem cover5 (i : S50000x128.Idx) :
    ∃ t : Fin cfg13.N, (cfg13.win 5).flush t = true ∧ i ∈ ((cfg13.win 5).blk t).view.set := by
  have hi0 : (i 0).val < 50000 := idx2_lt0 i
  have hi1 : (i 1).val < 128 := idx2_lt1 i
  have hN : grid13.N = 10 := N_13
  have ht : (i 0).val / 5000 < cfg13.N := by show _ < grid13.N; rw [hN]; omega
  obtain ⟨-, -, -, -, -, -, -, -, -, -, e0, e1⟩ := idx_facts ⟨(i 0).val / 5000, ht⟩
  refine ⟨⟨(i 0).val / 5000, ht⟩, flush13_5 _, ?_⟩
  rw [mem_blk5]
  intro a
  match a with
  | ⟨0, _⟩ =>
    show win13_5.index ⟨(i 0).val / 5000, ht⟩ 0 * 5000 ≤ (i 0).val ∧ (i 0).val < win13_5.index ⟨(i 0).val / 5000, ht⟩ 0 * 5000 + 5000
    rw [e0]; show (i 0).val / 5000 * 5000 ≤ (i 0).val ∧ (i 0).val < (i 0).val / 5000 * 5000 + 5000; omega
  | ⟨1, _⟩ =>
    show win13_5.index ⟨(i 0).val / 5000, ht⟩ 1 * 128 ≤ (i 1).val ∧ (i 1).val < win13_5.index ⟨(i 0).val / 5000, ht⟩ 1 * 128 + 128
    rw [e1]; omega

/-- After the region the first output array is `y₁` of the arrays the region finds. -/
theorem final5 (c : Dev nD) : (dat13 V c).arrAt 5 cfg13.N = y1 (H V c) (NB V c) (SC V c) (Wt V c) (Bs V c) :=
  (dat13 V c).arrAt_eq_of_cover 5 _ (fun t _ => flushed5_eq V c t) cover5

theorem lastLt : 9 < cfg13.N := by show 9 < grid13.N; rw [N_13]; decide

/-- The accumulated column sums after the last point, as the contents of the second output array. -/
abbrev res6 (c : Dev nD) : Buf (Elt Ideal) ((c : Thread nD τ).loc main_v213_1) := acc6 V c 9 lastLt
/-- The accumulated column sums of squares after the last point, as the contents of the third output array. -/
abbrev res7 (c : Dev nD) : Buf (Elt Ideal) ((c : Thread nD τ).loc main_v213_2) := acc7 V c 9 lastLt

theorem flushed6_eq (c : Dev nD) (t : Fin cfg13.N) (hf : (cfg13.win 6).flush t = true) :
    (dat13 V c).flushed 6 t = ((cfg13.win 6).blk t).view.read (Elt Ideal) (res6 V c) := by
  have hN : grid13.N = 10 := N_13
  have h9 : t.val = 9 := by
    have := (flush13_6 t).mp hf; have h := lt_of_lt_of_eq t.isLt (show cfg13.N = 10 from N_13); omega
  obtain rfl : t = t13_9 := Fin.ext h9
  show (cfg13.win 6).cut (grid13.coords t13_9) ((dat13 V c).after 6 t13_9) = _
  rw [after13_6, outsAt_eq]
  have hz' : (fun a => win13_6.index t13_9 a * main_v213_1.ty.shape.size a) = fun _ => 0 := funext fun a => by fin_cases a <;> decide
  exact (Memref.read_access_unit_zero (Elt Ideal) main_v213_1 hz' (fun a => by rw [congrFun hz' a]; simp) (res6 V c)).symm

theorem flushed7_eq (c : Dev nD) (t : Fin cfg13.N) (hf : (cfg13.win 7).flush t = true) :
    (dat13 V c).flushed 7 t = ((cfg13.win 7).blk t).view.read (Elt Ideal) (res7 V c) := by
  have hN : grid13.N = 10 := N_13
  have h9 : t.val = 9 := by
    have := (flush13_7 t).mp hf; have h := lt_of_lt_of_eq t.isLt (show cfg13.N = 10 from N_13); omega
  obtain rfl : t = t13_9 := Fin.ext h9
  show (cfg13.win 7).cut (grid13.coords t13_9) ((dat13 V c).after 7 t13_9) = _
  rw [after13_7, outsAt_eq]
  have hz' : (fun a => win13_7.index t13_9 a * main_v213_2.ty.shape.size a) = fun _ => 0 := funext fun a => by fin_cases a <;> decide
  exact (Memref.read_access_unit_zero (Elt Ideal) main_v213_2 hz' (fun a => by rw [congrFun hz' a]; simp) (res7 V c)).symm

/-- The last point's write-back covers the one-row array. -/
theorem final6 (c : Dev nD) : (dat13 V c).arrAt 6 cfg13.N = res6 V c :=
  (dat13 V c).arrAt_eq_of_cover 6 (res6 V c) (flushed6_eq V c) fun i =>
    ⟨t13_9, (flush13_6 t13_9).mpr rfl, by
      show i ∈ ((View.whole main_v213_1).slice (win13_6.rect t13_9)).set
      rw [View.set_slice_whole, Rect.mem_set_unit]
      intro a
      have h0 : (i 0 : Nat) < 1 := (i 0).isLt
      have h1 : (i 1 : Nat) < 128 := (i 1).isLt
      match a with
      | ⟨0, _⟩ => show win13_6.index t13_9 0 * win13_6.size 0 ≤ (i 0 : Nat) ∧ (i 0 : Nat) < win13_6.index t13_9 0 * win13_6.size 0 + win13_6.xsize (grid13.coords t13_9) 0
                  rw [show win13_6.index t13_9 0 * win13_6.size 0 = 0 from by decide +kernel, show win13_6.xsize (grid13.coords t13_9) 0 = 1 from by decide +kernel]; omega
      | ⟨1, _⟩ => show win13_6.index t13_9 1 * win13_6.size 1 ≤ (i 1 : Nat) ∧ (i 1 : Nat) < win13_6.index t13_9 1 * win13_6.size 1 + win13_6.xsize (grid13.coords t13_9) 1
                  rw [show win13_6.index t13_9 1 * win13_6.size 1 = 0 from by decide +kernel, show win13_6.xsize (grid13.coords t13_9) 1 = 128 from by decide +kernel]; omega⟩

theorem final7 (c : Dev nD) : (dat13 V c).arrAt 7 cfg13.N = res7 V c :=
  (dat13 V c).arrAt_eq_of_cover 7 (res7 V c) (flushed7_eq V c) fun i =>
    ⟨t13_9, (flush13_7 t13_9).mpr rfl, by
      show i ∈ ((View.whole main_v213_2).slice (win13_7.rect t13_9)).set
      rw [View.set_slice_whole, Rect.mem_set_unit]
      intro a
      have h0 : (i 0 : Nat) < 1 := (i 0).isLt
      have h1 : (i 1 : Nat) < 128 := (i 1).isLt
      match a with
      | ⟨0, _⟩ => show win13_7.index t13_9 0 * win13_7.size 0 ≤ (i 0 : Nat) ∧ (i 0 : Nat) < win13_7.index t13_9 0 * win13_7.size 0 + win13_7.xsize (grid13.coords t13_9) 0
                  rw [show win13_7.index t13_9 0 * win13_7.size 0 = 0 from by decide +kernel, show win13_7.xsize (grid13.coords t13_9) 0 = 1 from by decide +kernel]; omega
      | ⟨1, _⟩ => show win13_7.index t13_9 1 * win13_7.size 1 ≤ (i 1 : Nat) ∧ (i 1 : Nat) < win13_7.index t13_9 1 * win13_7.size 1 + win13_7.xsize (grid13.coords t13_9) 1
                  rw [show win13_7.index t13_9 1 * win13_7.size 1 = 0 from by decide +kernel, show win13_7.xsize (grid13.coords t13_9) 1 = 128 from by decide +kernel]; omega⟩

/-- Summing the ten tiles' column sums is summing down all 50000 rows. -/
theorem tiles_sum (c : Dev nD) (f : EReal → EReal) (q : Fin 128) :
    ∑ t : Fin (9 + 1), ∑ r : Fin 5000, f (tileY V c ⟨t.val, lt_of_lt_of_le t.isLt lastLt⟩ (ix2 r q))
      = ∑ r : Fin 50000, f (y1 (H V c) (NB V c) (SC V c) (Wt V c) (Bs V c) (ix2 r q)) := by
  rw [Cert.FinSum.sum_mul 10 5000 50000 rfl]
  refine Finset.sum_congr rfl fun t _ => Finset.sum_congr rfl fun r _ => ?_
  have hp : t.val * 5000 + r.val < 50000 := by have := t.isLt; have := r.isLt; omega
  rw [tile_apply V c ⟨t.val, _⟩ r q hp]
  rfl

/-- The second output array at a column: the sum of `y₁` down the column (from zero). -/
theorem sum_apply (c : Dev nD) (q : Fin 128) :
    (dat13 V c).arrAt 6 cfg13.N (ix2 (0 : Fin 1) q)
      = Ideal.ofBits .f32 0x00000000#32 + ∑ r : Fin 50000, y1 (H V c) (NB V c) (SC V c) (Wt V c) (Bs V c) (ix2 r q) := by
  rw [final6]
  show acc6 V c 9 lastLt (ix2 (0 : Fin 1) q) = _
  rw [acc6_apply V c q 9 lastLt]
  exact congrArg (_ + ·) (tiles_sum V c id q)

/-- The third output array at a column: the sum of the squares of `y₁` down the column (from zero). -/
theorem sumsq_apply (c : Dev nD) (q : Fin 128) :
    (dat13 V c).arrAt 7 cfg13.N (ix2 (0 : Fin 1) q)
      = Ideal.ofBits .f32 0x00000000#32
        + ∑ r : Fin 50000, y1 (H V c) (NB V c) (SC V c) (Wt V c) (Bs V c) (ix2 r q) * y1 (H V c) (NB V c) (SC V c) (Wt V c) (Bs V c) (ix2 r q) := by
  rw [final7]
  show acc7 V c 9 lastLt (ix2 (0 : Fin 1) q) = _
  rw [acc7_apply V c q 9 lastLt]
  exact congrArg (_ + ·) (tiles_sum V c (fun x => x * x) q)

end Final

end Cert.KernelIdeal.KStageAVal_L3

end
-- ==== Proof.KStageBVal_L3.lean ====
/-
  The second stage's region, read as values.  At each of the ten grid points the body writes the point's tile of
  `y₂` and updates two one-row accumulators: at the first point they are reset to zero before the tile's column sums
  (and column sums of squares) are added, at the later points the sums are added to what the point before left.
-/
import proofs.«140776_j80633716015159_1_alg».proof.Proof.Gen.KernelIdeal.Frame
import proofs.«140776_j80633716015159_1_alg».proof.Proof.KStageB
import proofs.«140776_j80633716015159_1_alg».proof.Proof.KStageCD
import proofs.«140776_j80633716015159_1_alg».proof.Proof.LibFinSum
import Idealize.ShloMosaic.Lib.Pipeline.Value
import Idealize.ShloMosaic.Lib.Tactic

set_option maxRecDepth 16384

noncomputable section

namespace Cert.KernelIdeal.KStageBVal_L3

open Cert.KernelIdeal Cert.KernelIdeal.Gen
open Idealize.ShloMosaic Idealize.ShloMosaic.TcCoe Idealize.ShloMosaic.ValueIdx Idealize.SL.Sem
open Idealize.ShloMosaic.Pipeline (Dat Cfg Window)

/-- The tile of `y₂` at an entry. -/
theorem pay5_apply (v3 : Vec Ideal S5000x128 .f32) (v5 v10 v12 v20 : Vec Ideal S1x128 .f32) (v27 : Vec Ideal S128x128 .f32)
    (v31 : Vec Ideal S1x128 .f32) (p : Fin 5000) (q : Fin 128) :
    k14_pay5 v3 v5 v10 v12 v20 v27 v31 (ix2 p q)
      = (∑ k : Fin 128, KStageB.bnrelu (v5 (ix2 (0 : Fin 1) k)) (v10 (ix2 (0 : Fin 1) k)) (v12 (ix2 (0 : Fin 1) k))
            (v20 (ix2 (0 : Fin 1) k)) (v3 (ix2 p k)) * v27 (ix2 k q))
        + v31 (ix2 (0 : Fin 1) q) :=
  KStageB.pay5_apply v3 v5 v10 v12 v20 v27 v31 p q

/-- The running column sums after the point, at a column. -/
theorem pay1_apply (v34 : FVec Ideal S5000x128 .f32) (v36 : Vec Ideal S1x128 .f32) (q : Fin 128) :
    k14_pay1 v34 v36 (ix2 (0 : Fin 1) q) = v36 (ix2 (0 : Fin 1) q) + ∑ r : Fin 5000, v34 (ix2 r q) :=
  KStageB.pay1_apply v34 v36 q

/-- The running column sums of squares after the point, at a column. -/
theorem pay2_apply (v34 : FVec Ideal S5000x128 .f32) (v42 : Vec Ideal S1x128 .f32) (q : Fin 128) :
    k14_pay2 v34 v42 (ix2 (0 : Fin 1) q) = v42 (ix2 (0 : Fin 1) q) + ∑ r : Fin 5000, v34 (ix2 r q) * v34 (ix2 r q) :=
  KStageB.pay2_apply v34 v42 q

variable {F : FTy → Type} [FloatOps F]

theorem hz : (![0, 0] : Fin 2 → Nat) = fun _ => 0 := funext fun a => by fin_cases a <;> rfl

/-- The zero row the reset stores. -/
abbrev zrow : Vec F S1x128 .f32 := broadcast S1x128 (Scalar.ofBits .f32 0x00000000#32)

/-- First point, the tile of `y₂`. -/
theorem outA7 (c : Dev nD) (i : grid14.Coords) (a1 : Memref sig .tc .vmem S5000x128 .f32) (h1 : a1.IsWhole) (a2 : Memref sig .tc .vmem S1x128 .f32) (h2 : a2.IsWhole) (a3 : Memref sig .tc .vmem S1x128 .f32) (h3 : a3.IsWhole) (a4 : Memref sig .tc .vmem S1x128 .f32) (h4 : a4.IsWhole) (a5 : Memref sig .tc .vmem S1x128 .f32) (h5 : a5.IsWhole) (a6 : Memref sig .tc .vmem S128x128 .f32) (h6 : a6.IsWhole) (a7 : Memref sig .tc .vmem S1x128 .f32) (h7 : a7.IsWhole) (a8 : Memref sig .tc .vmem S5000x128 .f32) (h8 : a8.IsWhole) (a9 : Memref sig .tc .vmem S1x128 .f32) (h9 : a9.IsWhole) (a10 : Memref sig .tc .vmem S1x128 .f32) (h10 : a10.IsWhole) (hc : cond14_0 i) (x0 : Vec F S5000x128 .f32) (x1 x2 x3 x4 : Vec F S1x128 .f32) (x5 : Vec F S128x128 .f32) (x6 : Vec F S1x128 .f32) :
    out14_A_7 c i a1 h1 a2 h2 a3 h3 a4 h4 a5 h5 a6 h6 a7 h7 a8 h8 a9 h9 a10 h10 hc x0 x1 x2 x3 x4 x5 x6 = k14_pay5 x0 x2 x3 x1 x4 x5 x6 := by
  unfold out14_A_7
  rw [View.read_writes_eq_canon _ _ _ (cover14_A_7 c i a1 h1 a2 h2 a3 h3 a4 h4 a5 h5 a6 h6 a7 h7 a8 h8 a9 h9 a10 h10 hc x0 x1 x2 x3 x4 x5 x6)]
  unfold kernelRun14_A
  dsimp only
  sl_unfold_words
  rw [View.canon_unit_zero hz]
  simp only [View.readAt_eq_ld, h1.read_unread, h2.read_unread, h3.read_unread, h4.read_unread, h5.read_unread, h6.read_unread, h7.read_unread, h9.read_unread, h10.read_unread, View.ld_unit_zero (S := S5000x128) hz, View.ld_unit_zero (S := S128x128) hz, View.ld_unit_zero (S := S1x128) hz]

theorem outA8 (c : Dev nD) (i : grid14.Coords) (a1 : Memref sig .tc .vmem S5000x128 .f32) (h1 : a1.IsWhole) (a2 : Memref sig .tc .vmem S1x128 .f32) (h2 : a2.IsWhole) (a3 : Memref sig .tc .vmem S1x128 .f32) (h3 : a3.IsWhole) (a4 : Memref sig .tc .vmem S1x128 .f32) (h4 : a4.IsWhole) (a5 : Memref sig .tc .vmem S1x128 .f32) (h5 : a5.IsWhole) (a6 : Memref sig .tc .vmem S128x128 .f32) (h6 : a6.IsWhole) (a7 : Memref sig .tc .vmem S1x128 .f32) (h7 : a7.IsWhole) (a8 : Memref sig .tc .vmem S5000x128 .f32) (h8 : a8.IsWhole) (a9 : Memref sig .tc .vmem S1x128 .f32) (h9 : a9.IsWhole) (a10 : Memref sig .tc .vmem S1x128 .f32) (h10 : a10.IsWhole) (hc : cond14_0 i) (x0 : Vec F S5000x128 .f32) (x1 x2 x3 x4 : Vec F S1x128 .f32) (x5 : Vec F S128x128 .f32) (x6 : Vec F S1x128 .f32) :
    out14_A_8 c i a1 h1 a2 h2 a3 h3 a4 h4 a5 h5 a6 h6 a7 h7 a8 h8 a9 h9 a10 h10 hc x0 x1 x2 x3 x4 x5 x6 = k14_pay1 (k14_pay5 x0 x2 x3 x1 x4 x5 x6) zrow := by
  unfold out14_A_8
  rw [View.read_writes_eq_canon _ _ _ (cover14_A_8 c i a1 h1 a2 h2 a3 h3 a4 h4 a5 h5 a6 h6 a7 h7 a8 h8 a9 h9 a10 h10 hc x0 x1 x2 x3 x4 x5 x6)]
  unfold kernelRun14_A
  dsimp only
  sl_unfold_words
  rw [View.canon_cons_unit_zero (S := S1x128) hz, View.readCov_unit_zero (S := S1x128) _ hz]
  simp only [View.readAt_eq_ld, h1.read_unread, h2.read_unread, h3.read_unread, h4.read_unread, h5.read_unread, h6.read_unread, h7.read_unread, h9.read_unread, h10.read_unread, View.ld_unit_zero (S := S5000x128) hz, View.ld_unit_zero (S := S128x128) hz, View.ld_unit_zero (S := S1x128) hz]
  rfl

theorem outA9 (c : Dev nD) (i : grid14.Coords) (a1 : Memref sig .tc .vmem S5000x128 .f32) (h1 : a1.IsWhole) (a2 : Memref sig .tc .vmem S1x128 .f32) (h2 : a2.IsWhole) (a3 : Memref sig .tc .vmem S1x128 .f32) (h3 : a3.IsWhole) (a4 : Memref sig .tc .vmem S1x128 .f32) (h4 : a4.IsWhole) (a5 : Memref sig .tc .vmem S1x128 .f32) (h5 : a5.IsWhole) (a6 : Memref sig .tc .vmem S128x128 .f32) (h6 : a6.IsWhole) (a7 : Memref sig .tc .vmem S1x128 .f32) (h7 : a7.IsWhole) (a8 : Memref sig .tc .vmem S5000x128 .f32) (h8 : a8.IsWhole) (a9 : Memref sig .tc .vmem S1x128 .f32) (h9 : a9.IsWhole) (a10 : Memref sig .tc .vmem S1x128 .f32) (h10 : a10.IsWhole) (hc : cond14_0 i) (x0 : Vec F S5000x128 .f32) (x1 x2 x3 x4 : Vec F S1x128 .f32) (x5 : Vec F S128x128 .f32) (x6 : Vec F S1x128 .f32) :
    out14_A_9 c i a1 h1 a2 h2 a3 h3 a4 h4 a5 h5 a6 h6 a7 h7 a8 h8 a9 h9 a10 h10 hc x0 x1 x2 x3 x4 x5 x6 = k14_pay2 (k14_pay5 x0 x2 x3 x1 x4 x5 x6) zrow := by
  unfold out14_A_9
  rw [View.read_writes_eq_canon _ _ _ (cover14_A_9 c i a1 h1 a2 h2 a3 h3 a4 h4 a5 h5 a6 h6 a7 h7 a8 h8 a9 h9 a10 h10 hc x0 x1 x2 x3 x4 x5 x6)]
  unfold kernelRun14_A
  dsimp only
  sl_unfold_words
  rw [View.canon_cons_unit_zero (S := S1x128) hz, View.readCov_unit_zero (S := S1x128) _ hz]
  simp only [View.readAt_eq_ld, h1.read_unread, h2.read_unread, h3.read_unread, h4.read_unread, h5.read_unread, h6.read_unread, h7.read_unread, h9.read_unread, h10.read_unread, View.ld_unit_zero (S := S5000x128) hz, View.ld_unit_zero (S := S128x128) hz, View.ld_unit_zero (S := S1x128) hz]
  rfl

theorem outB7 (c : Dev nD) (i : grid14.Coords) (a1 : Memref sig .tc .vmem S5000x128 .f32) (h1 : a1.IsWhole) (a2 : Memref sig .tc .vmem S1x128 .f32) (h2 : a2.IsWhole) (a3 : Memref sig .tc .vmem S1x128 .f32) (h3 : a3.IsWhole) (a4 : Memref sig .tc .vmem S1x128 .f32) (h4 : a4.IsWhole) (a5 : Memref sig .tc .vmem S1x128 .f32) (h5 : a5.IsWhole) (a6 : Memref sig .tc .vmem S128x128 .f32) (h6 : a6.IsWhole) (a7 : Memref sig .tc .vmem S1x128 .f32) (h7 : a7.IsWhole) (a8 : Memref sig .tc .vmem S5000x128 .f32) (h8 : a8.IsWhole) (a9 : Memref sig .tc .vmem S1x128 .f32) (h9 : a9.IsWhole) (a10 : Memref sig .tc .vmem S1x128 .f32) (h10 : a10.IsWhole) (hc : ¬cond14_0 i) (x0 : Vec F S5000x128 .f32) (x1 x2 x3 x4 : Vec F S1x128 .f32) (x5 : Vec F S128x128 .f32) (x6 : Vec F S1x128 .f32) (s8 s9 : Vec F S1x128 .f32) :
    out14_B_7 c i a1 h1 a2 h2 a3 h3 a4 h4 a5 h5 a6 h6 a7 h7 a8 h8 a9 h9 a10 h10 hc x0 x1 x2 x3 x4 x5 x6 s8 s9 = k14_pay5 x0 x2 x3 x1 x4 x5 x6 := by
  unfold out14_B_7
  rw [View.read_writes_eq_canon _ _ _ (cover14_B_7 c i a1 h1 a2 h2 a3 h3 a4 h4 a5 h5 a6 h6 a7 h7 a8 h8 a9 h9 a10 h10 hc x0 x1 x2 x3 x4 x5 x6 s8 s9)]
  unfold kernelRun14_B
  dsimp only
  sl_unfold_words
  rw [View.canon_unit_zero hz]
  simp only [View.readAt_eq_ld, h1.read_unread, h2.read_unread, h3.read_unread, h4.read_unread, h5.read_unread, h6.read_unread, h7.read_unread, h9.read_unread, h10.read_unread, View.ld_unit_zero (S := S5000x128) hz, View.ld_unit_zero (S := S128x128) hz, View.ld_unit_zero (S := S1x128) hz]

theorem outB8 (c : Dev nD) (i : grid14.Coords) (a1 : Memref sig .tc .vmem S5000x128 .f32) (h1 : a1.IsWhole) (a2 : Memref sig .tc .vmem S1x128 .f32) (h2 : a2.IsWhole) (a3 : Memref sig .tc .vmem S1x128 .f32) (h3 : a3.IsWhole) (a4 : Memref sig .tc .vmem S1x128 .f32) (h4 : a4.IsWhole) (a5 : Memref sig .tc .vmem S1x128 .f32) (h5 : a5.IsWhole) (a6 : Memref sig .tc .vmem S128x128 .f32) (h6 : a6.IsWhole) (a7 : Memref sig .tc .vmem S1x128 .f32) (h7 : a7.IsWhole) (a8 : Memref sig .tc .vmem S5000x128 .f32) (h8 : a8.IsWhole) (a9 : Memref sig .tc .vmem S1x128 .f32) (h9 : a9.IsWhole) (a10 : Memref sig .tc .vmem S1x128 .f32) (h10 : a10.IsWhole) (hc : ¬cond14_0 i) (x0 : Vec F S5000x128 .f32) (x1 x2 x3 x4 : Vec F S1x128 .f32) (x5 : Vec F S128x128 .f32) (x6 : Vec F S1x128 .f32) (s8 s9 : Vec F S1x128 .f32) :
    out14_B_8 c i a1 h1 a2 h2 a3 h3 a4 h4 a5 h5 a6 h6 a7 h7 a8 h8 a9 h9 a10 h10 hc x0 x1 x2 x3 x4 x5 x6 s8 s9 = k14_pay1 (k14_pay5 x0 x2 x3 x1 x4 x5 x6) s8 := by
  unfold out14_B_8
  rw [View.read_writes_eq_canon _ _ _ (cover14_B_8 c i a1 h1 a2 h2 a3 h3 a4 h4 a5 h5 a6 h6 a7 h7 a8 h8 a9 h9 a10 h10 hc x0 x1 x2 x3 x4 x5 x6 s8 s9)]
  unfold kernelRun14_B
  dsimp only
  sl_unfold_words
  rw [View.canon_unit_zero hz]
  simp only [View.readAt_eq_ld, h1.read_unread, h2.read_unread, h3.read_unread, h4.read_unread, h5.read_unread, h6.read_unread, h7.read_unread, h9.read_unread, h10.read_unread, View.ld_unit_zero (S := S5000x128) hz, View.ld_unit_zero (S := S128x128) hz, View.ld_unit_zero (S := S1x128) hz]

theorem outB9 (c : Dev nD) (i : grid14.Coords) (a1 : Memref sig .tc .vmem S5000x128 .f32) (h1 : a1.IsWhole) (a2 : Memref sig .tc .vmem S1x128 .f32) (h2 : a2.IsWhole) (a3 : Memref sig .tc .vmem S1x128 .f32) (h3 : a3.IsWhole) (a4 : Memref sig .tc .vmem S1x128 .f32) (h4 : a4.IsWhole) (a5 : Memref sig .tc .vmem S1x128 .f32) (h5 : a5.IsWhole) (a6 : Memref sig .tc .vmem S128x128 .f32) (h6 : a6.IsWhole) (a7 : Memref sig .tc .vmem S1x128 .f32) (h7 : a7.IsWhole) (a8 : Memref sig .tc .vmem S5000x128 .f32) (h8 : a8.IsWhole) (a9 : Memref sig .tc .vmem S1x128 .f32) (h9 : a9.IsWhole) (a10 : Memref sig .tc .vmem S1x128 .f32) (h10 : a10.IsWhole) (hc : ¬cond14_0 i) (x0 : Vec F S5000x128 .f32) (x1 x2 x3 x4 : Vec F S1x128 .f32) (x5 : Vec F S128x128 .f32) (x6 : Vec F S1x128 .f32) (s8 s9 : Vec F S1x128 .f32) :
    out14_B_9 c i a1 h1 a2 h2 a3 h3 a4 h4 a5 h5 a6 h6 a7 h7 a8 h8 a9 h9 a10 h10 hc x0 x1 x2 x3 x4 x5 x6 s8 s9 = k14_pay2 (k14_pay5 x0 x2 x3 x1 x4 x5 x6) s9 := by
  unfold out14_B_9
  rw [View.read_writes_eq_canon _ _ _ (cover14_B_9 c i a1 h1 a2 h2 a3 h3 a4 h4 a5 h5 a6 h6 a7 h7 a8 h8 a9 h9 a10 h10 hc x0 x1 x2 x3 x4 x5 x6 s8 s9)]
  unfold kernelRun14_B
  dsimp only
  sl_unfold_words
  rw [View.canon_unit_zero hz]
  simp only [View.readAt_eq_ld, h1.read_unread, h2.read_unread, h3.read_unread, h4.read_unread, h5.read_unread, h6.read_unread, h7.read_unread, h9.read_unread, h10.read_unread, View.ld_unit_zero (S := S5000x128) hz, View.ld_unit_zero (S := S128x128) hz, View.ld_unit_zero (S := S1x128) hz]

/-! ## The outputs after each point -/

variable (V : (c : Dev nD) → (b : Ref sig .tc) → Buf (Elt F) ((c : Thread nD τ).loc b))

/-- The point's tile of `y₂`. -/
def tileY (c : Dev nD) (t : Fin cfg14.N) : Vec F S5000x128 .f32 := k14_pay5 (iblk14 V c 0 t) (iblk14 V c 2 t) (iblk14 V c 3 t) (iblk14 V c 1 t) (iblk14 V c 4 t) (iblk14 V c 5 t) (iblk14 V c 6 t)

/-- The running column sums after point `n`. -/
def acc8 (c : Dev nD) : (n : ℕ) → n < cfg14.N → Vec F S1x128 .f32
  | 0, h => k14_pay1 (tileY V c ⟨0, h⟩) zrow
  | n + 1, h => k14_pay1 (tileY V c ⟨n + 1, h⟩) (acc8 c n (Nat.lt_of_succ_lt h))

/-- The running column sums of squares after point `n`. -/
def acc9 (c : Dev nD) : (n : ℕ) → n < cfg14.N → Vec F S1x128 .f32
  | 0, h => k14_pay2 (tileY V c ⟨0, h⟩) zrow
  | n + 1, h => k14_pay2 (tileY V c ⟨n + 1, h⟩) (acc9 c n (Nat.lt_of_succ_lt h))

/-- What the three outputs' staging buffers hold after point `n`: the tile and the two running sums. -/
theorem outsAt_eq (c : Dev nD) : ∀ (n : ℕ) (h : n < cfg14.N), outsAt14 V c n h = (tileY V c ⟨n, h⟩, acc8 V c n h, acc9 V c n h)
  | 0, h => (outsAt14_A V c ⟨0, h⟩ rfl).trans (by rw [outA7, outA8, outA9]; rfl)
  | n + 1, h => by
    have hN : grid14.N = 10 := N_14
    have hB : ¬(⟨n + 1, h⟩ : Fin cfg14.N).val % 10 = 0 := by
      have : n + 1 < 10 := by have := h; rw [show cfg14.N = grid14.N from rfl, hN] at this; exact this
      dsimp only; omega
    rw [outsAt14_B V c ⟨n + 1, h⟩ hB, outB7, outB8, outB9]
    show (_, k14_pay1 _ (outsAt14 V c n _).2.1, k14_pay2 _ (outsAt14 V c n _).2.2) = _
    rw [outsAt_eq c n]
    rfl

/-! ## At the exact reading: the accumulators are sums, the tiles an array -/

section Exact

variable (V : (c : Dev nD) → (b : Ref sig .tc) → Buf (Elt Ideal) ((c : Thread nD τ).loc b))

theorem acc8_apply (c : Dev nD) (q : Fin 128) : ∀ (n : ℕ) (h : n < cfg14.N),
    acc8 V c n h (ix2 (0 : Fin 1) q)
      = Ideal.ofBits .f32 0x00000000#32
        + ∑ t : Fin (n + 1), ∑ r : Fin 5000, tileY V c ⟨t.val, lt_of_lt_of_le t.isLt h⟩ (ix2 r q) :=
  Cert.FinSum.sum_of_steps cfg14.N (fun n h => acc8 V c n h (ix2 (0 : Fin 1) q))
    (fun t => ∑ r : Fin 5000, tileY V c t (ix2 r q)) (Ideal.ofBits .f32 0x00000000#32)
    (fun h => pay1_apply _ _ q)
    (fun n h => pay1_apply _ _ q)

theorem acc9_apply (c : Dev nD) (q : Fin 128) : ∀ (n : ℕ) (h : n < cfg14.N),
    acc9 V c n h (ix2 (0 : Fin 1) q)
      = Ideal.ofBits .f32 0x00000000#32
        + ∑ t : Fin (n + 1), ∑ r : Fin 5000,
            tileY V c ⟨t.val, lt_of_lt_of_le t.isLt h⟩ (ix2 r q) * tileY V c ⟨t.val, lt_of_lt_of_le t.isLt h⟩ (ix2 r q) :=
  Cert.FinSum.sum_of_steps cfg14.N (fun n h => acc9 V c n h (ix2 (0 : Fin 1) q))
    (fun t => ∑ r : Fin 5000, tileY V c t (ix2 r q) * tileY V c t (ix2 r q)) (Ideal.ofBits .f32 0x00000000#32)
    (fun h => pay2_apply _ _ q)
    (fun n h => pay2_apply _ _ q)

end Exact

/-! ## The arrays after the region -/

/-- One entry of `y₂ = relu(γ·(y₁ − μ)·rsqrt(v + ε) + β) · w + b`. -/
def y2At (y1 : (⟨2, ![50000, 128]⟩ : Shape).Idx → EReal) (m vr g be : (⟨2, ![1, 128]⟩ : Shape).Idx → EReal)
    (w : (⟨2, ![128, 128]⟩ : Shape).Idx → EReal) (b : (⟨2, ![1, 128]⟩ : Shape).Idx → EReal) (p : Fin 50000) (q : Fin 128) : EReal :=
  (∑ k : Fin 128, KStageB.bnrelu (vr (ix2 (0 : Fin 1) k)) (g (ix2 (0 : Fin 1) k)) (m (ix2 (0 : Fin 1) k)) (be (ix2 (0 : Fin 1) k))
      (y1 (ix2 p k)) * w (ix2 k q)) + b (ix2 (0 : Fin 1) q)

/-- `y₂` as an array. -/
def y2 (y1 : (⟨2, ![50000, 128]⟩ : Shape).Idx → EReal) (m vr g be : (⟨2, ![1, 128]⟩ : Shape).Idx → EReal)
    (w : (⟨2, ![128, 128]⟩ : Shape).Idx → EReal) (b : (⟨2, ![1, 128]⟩ : Shape).Idx → EReal) :
    (⟨2, ![50000, 128]⟩ : Shape).Idx → EReal :=
  fun i => y2At y1 m vr g be w b ⟨(i 0).val, idx2_lt0 i⟩ ⟨(i 1).val, idx2_lt1 i⟩

section Arrays

variable (V : (c : Dev nD) → (b : Ref sig .tc) → Buf (Elt Ideal) ((c : Thread nD τ).loc b))

/-- The arrays the region finds: the first stage's output, the column means and variances, the scale and shift rows,
    the weight matrix and the bias row. -/
abbrev Y1 (c : Dev nD) : S50000x128.Idx → EReal := V c (Pipeline.arrRef spec14 0)
abbrev M (c : Dev nD) : S1x128.Idx → EReal := V c (Pipeline.arrRef spec14 1)
abbrev Vr (c : Dev nD) : S1x128.Idx → EReal := V c (Pipeline.arrRef spec14 2)
abbrev G (c : Dev nD) : S1x128.Idx → EReal := V c (Pipeline.arrRef spec14 3)
abbrev Be (c : Dev nD) : S1x128.Idx → EReal := V c (Pipeline.arrRef spec14 4)
abbrev Wt (c : Dev nD) : S128x128.Idx → EReal := V c (Pipeline.arrRef spec14 5)
abbrev Bs (c : Dev nD) : S1x128.Idx → EReal := V c (Pipeline.arrRef spec14 6)

/-- The printed index maps over the ten points: the input tile and the output tile move down the rows with the
    point; the four statistics rows, the weight matrix and the bias row are block (0, 0). -/
theorem idx_facts : ∀ t : Fin cfg14.N,
    win14_0.index t (0 : Fin 2) = t.val ∧ win14_0.index t (1 : Fin 2) = 0
    ∧ win14_1.index t (0 : Fin 2) = 0 ∧ win14_1.index t (1 : Fin 2) = 0
    ∧ win14_2.index t (0 : Fin 2) = 0 ∧ win14_2.index t (1 : Fin 2) = 0
    ∧ win14_3.index t (0 : Fin 2) = 0 ∧ win14_3.index t (1 : Fin 2) = 0
    ∧ win14_4.index t (0 : Fin 2) = 0 ∧ win14_4.index t (1 : Fin 2) = 0
    ∧ win14_5.index t (0 : Fin 2) = 0 ∧ win14_5.index t (1 : Fin 2) = 0
    ∧ win14_6.index t (0 : Fin 2) = 0 ∧ win14_6.index t (1 : Fin 2) = 0
    ∧ win14_7.index t (0 : Fin 2) = t.val ∧ win14_7.index t (1 : Fin 2) = 0 :=
  (by decide +kernel : ∀ t : Fin grid14.N, _)

theorem iblk_y1 (c : Dev nD) (t : Fin cfg14.N) (p : Fin 5000) (k : Fin 128) (hp : t.val * 5000 + p.val < 50000) :
    (iblk14 V c 0 t : Vec Ideal S5000x128 .f32) (ix2 p k) = Y1 V c (ix2 ⟨t.val * 5000 + p.val, hp⟩ k) := by
  obtain ⟨e0, e1, -⟩ := idx_facts t
  unfold iblk14
  rw [View.read_apply]
  refine congrArg (V c (Pipeline.arrRef spec14 0)) (funext fun a => Fin.ext ?_)
  match a with
  | ⟨0, _⟩ => show win14_0.index t 0 * 5000 + 1 * p.val = t.val * 5000 + p.val; rw [e0]; omega
  | ⟨1, _⟩ => show win14_0.index t 1 * 128 + 1 * k.val = k.val; rw [e1]; omega

theorem iblk_m (c : Dev nD) (t : Fin cfg14.N) : (iblk14 V c 1 t : Vec Ideal S1x128 .f32) = M V c := by
  obtain ⟨-, -, e0, e1, -⟩ := idx_facts t
  funext y
  unfold iblk14
  rw [View.read_apply]
  refine congrArg (V c (Pipeline.arrRef spec14 1)) (funext fun a => Fin.ext ?_)
  match a with
  | ⟨0, _⟩ => show win14_1.index t 0 * 1 + 1 * (y 0).val = (y 0).val; rw [e0]; omega
  | ⟨1, _⟩ => show win14_1.index t 1 * 128 + 1 * (y 1).val = (y 1).val; rw [e1]; omega

theorem iblk_vr (c : Dev nD) (t : Fin cfg14.N) : (iblk14 V c 2 t : Vec Ideal S1x128 .f32) = Vr V c := by
  obtain ⟨-, -, -, -, e0, e1, -⟩ := idx_facts t
  funext y
  unfold iblk14
  rw [View.read_apply]
  refine congrArg (V c (Pipeline.arrRef spec14 2)) (funext fun a => Fin.ext ?_)
  match a with
  | ⟨0, _⟩ => show win14_2.index t 0 * 1 + 1 * (y 0).val = (y 0).val; rw [e0]; omega
  | ⟨1, _⟩ => show win14_2.index t 1 * 128 + 1 * (y 1).val = (y 1).val; rw [e1]; omega

theorem iblk_g (c : Dev nD) (t : Fin cfg14.N) : (iblk14 V c 3 t : Vec Ideal S1x128 .f32) = G V c := by
  obtain ⟨-, -, -, -, -, -, e0, e1, -⟩ := idx_facts t
  funext y
  unfold iblk14
  rw [View.read_apply]
  refine congrArg (V c (Pipeline.arrRef spec14 3)) (funext fun a => Fin.ext ?_)
  match a with
  | ⟨0, _⟩ => show win14_3.index t 0 * 1 + 1 * (y 0).val = (y 0).val; rw [e0]; omega
  | ⟨1, _⟩ => show win14_3.index t 1 * 128 + 1 * (y 1).val = (y 1).val; rw [e1]; omega

theorem iblk_be (c : Dev nD) (t : Fin cfg14.N) : (iblk14 V c 4 t : Vec Ideal S1x128 .f32) = Be V c := by
  obtain ⟨-, -, -, -, -, -, -, -, e0, e1, -⟩ := idx_facts t
  funext y
  unfold iblk14
  rw [View.read_apply]
  refine congrArg (V c (Pipeline.arrRef spec14 4)) (funext fun a => Fin.ext ?_)
  match a with
  | ⟨0, _⟩ => show win14_4.index t 0 * 1 + 1 * (y 0).val = (y 0).val; rw [e0]; omega
  | ⟨1, _⟩ => show win14_4.index t 1 * 128 + 1 * (y 1).val = (y 1).val; rw [e1]; omega

theorem iblk_w (c : Dev nD) (t : Fin cfg14.N) : (iblk14 V c 5 t : Vec Ideal S128x128 .f32) = Wt V c := by
  obtain ⟨-, -, -, -, -, -, -, -, -, -, e0, e1, -⟩ := idx_facts t
  funext y
  unfold iblk14
  rw [View.read_apply]
  refine congrArg (V c (Pipeline.arrRef spec14 5)) (funext fun a => Fin.ext ?_)
  match a with
  | ⟨0, _⟩ => show win14_5.index t 0 * 128 + 1 * (y 0).val = (y 0).val; rw [e0]; omega
  | ⟨1, _⟩ => show win14_5.index t 1 * 128 + 1 * (y 1).val = (y 1).val; rw [e1]; omega

theorem iblk_b (c : Dev nD) (t : Fin cfg14.N) : (iblk14 V c 6 t : Vec Ideal S1x128 .f32) = Bs V c := by
  obtain ⟨-, -, -, -, -, -, -, -, -, -, -, -, e0, e1, -⟩ := idx_facts t
  funext y
  unfold iblk14
  rw [View.read_apply]
  refine congrArg (V c (Pipeline.arrRef spec14 6)) (funext fun a => Fin.ext ?_)
  match a with
  | ⟨0, _⟩ => show win14_6.index t 0 * 1 + 1 * (y 0).val = (y 0).val; rw [e0]; omega
  | ⟨1, _⟩ => show win14_6.index t 1 * 128 + 1 * (y 1).val = (y 1).val; rw [e1]; omega

/-- The tile at point `t`, entry `(p, q)`, is `y₂` at row `5000·t + p`. -/
theorem tile_apply (c : Dev nD) (t : Fin cfg14.N) (p : Fin 5000) (q : Fin 128) (hp : t.val * 5000 + p.val < 50000) :
    tileY V c t (ix2 p q) = y2At (Y1 V c) (M V c) (Vr V c) (G V c) (Be V c) (Wt V c) (Bs V c) ⟨t.val * 5000 + p.val, hp⟩ q := by
  unfold tileY y2At
  rw [pay5_apply, iblk_m, iblk_vr, iblk_g, iblk_be, iblk_w, iblk_b]
  refine congrArg (· + _) (Finset.sum_congr rfl fun k _ => ?_)
  rw [iblk_y1 V c t p k hp]

end Arrays

section Final

variable (V : (c : Dev nD) → (b : Ref sig .tc) → Buf (Elt Ideal) ((c : Thread nD τ).loc b))

/-- An entry of the tile at point `t` is the entry of `y₂` at row `5000·t + ` the tile's row. -/
theorem point7 (c : Dev nD) (t : Fin cfg14.N) (j : S5000x128.Idx) (i : S50000x128.Idx)
    (hi0 : (i 0).val = t.val * 5000 + (j 0).val) (hi1 : (i 1).val = (j 1).val) :
    tileY V c t j = y2 (Y1 V c) (M V c) (Vr V c) (G V c) (Be V c) (Wt V c) (Bs V c) i := by
  obtain ⟨p, q, rfl⟩ : ∃ (p : Fin 5000) (q : Fin 128), j = ix2 p q := ⟨j 0, j 1, eq_ix2 j⟩
  have ht : t.val < 10 := lt_of_lt_of_eq t.isLt (show cfg14.N = 10 from N_14)
  have hp : t.val * 5000 + p.val < 50000 := by have := p.isLt; omega
  rw [tile_apply V c t p q hp]
  unfold y2
  congr 1
  · exact Fin.ext hi0.symm
  · exact Fin.ext hi1.symm

/-- What point `t` writes back of `y₂` is tile `t` of the array `y₂`. -/
theorem flushed7_eq (c : Dev nD) (t : Fin cfg14.N) :
    (dat14 V c).flushed 7 t
      = ((cfg14.win 7).blk t).view.read (Elt Ideal) (y2 (Y1 V c) (M V c) (Vr V c) (G V c) (Be V c) (Wt V c) (Bs V c)) := by
  show (cfg14.win 7).cut (grid14.coords t) ((dat14 V c).after 7 t) = _
  rw [after14_7, outsAt_eq]
  obtain ⟨-, -, -, -, -, -, -, -, -, -, -, -, -, -, e0, e1⟩ := idx_facts t
  funext j
  rw [View.read_apply]
  refine point7 V c t j _ ?_ ?_
  · show win14_7.index t 0 * 5000 + 1 * (j 0).val = t.val * 5000 + (j 0).val
    rw [e0]; omega
  · show win14_7.index t 1 * 128 + 1 * (j 1).val = (j 1).val
    rw [e1]; omega

theorem mem_blk7 (t : Fin cfg14.N) (i : S50000x128.Idx) :
    i ∈ ((cfg14.win 7).blk t).view.set ↔ ∀ a : Fin 2, win14_7.index t a * S5000x128.size a ≤ (i a).val
      ∧ (i a).val < win14_7.index t a * S5000x128.size a + S5000x128.size a := by
  show i ∈ ((View.whole main_v231_0).slice (win14_7.rect t)).set ↔ _
  rw [View.set_slice_whole, Rect.mem_set_unit]
  exact Iff.rfl

theorem cover7 (i : S50000x128.Idx) :
    ∃ t : Fin cfg14.N, (cfg14.win 7).flush t = true ∧ i ∈ ((cfg14.win 7).blk t).view.set := by
  have hi0 : (i 0).val < 50000 := idx2_lt0 i
  have hi1 : (i 1).val < 128 := idx2_lt1 i
  have hN : grid14.N = 10 := N_14
  have ht : (i 0).val / 5000 < cfg14.N := by show _ < grid14.N; rw [hN]; omega
  obtain ⟨-, -, -, -, -, -, -, -, -, -, -, -, -, -, e0, e1⟩ := idx_facts ⟨(i 0).val / 5000, ht⟩
  refine ⟨⟨(i 0).val / 5000, ht⟩, flush14_7 _, ?_⟩
  rw [mem_blk7]
  intro a
  match a with
  | ⟨0, _⟩ =>
    show win14_7.index ⟨(i 0).val / 5000, ht⟩ 0 * 5000 ≤ (i 0).val ∧ (i 0).val < win14_7.index ⟨(i 0).val / 5000, ht⟩ 0 * 5000 + 5000
    rw [e0]; show (i 0).val / 5000 * 5000 ≤ (i 0).val ∧ (i 0).val < (i 0).val / 5000 * 5000 + 5000; omega
  | ⟨1, _⟩ =>
    show win14_7.index ⟨(i 0).val / 5000, ht⟩ 1 * 128 ≤ (i 1).val ∧ (i 1).val < win14_7.index ⟨(i 0).val / 5000, ht⟩ 1 * 128 + 128
    rw [e1]; omega

/-- After the region the first output array is `y₂` of the arrays the region finds. -/
theorem final7 (c : Dev nD) : (dat14 V c).arrAt 7 cfg14.N = y2 (Y1 V c) (M V c) (Vr V c) (G V c) (Be V c) (Wt V c) (Bs V c) :=
  (dat14 V c).arrAt_eq_of_cover 7 _ (fun t _ => flushed7_eq V c t) cover7

theorem lastLt : 9 < cfg14.N := by show 9 < grid14.N; rw [N_14]; decide

/-- The accumulated column sums after the last point, as the contents of the second output array. -/
abbrev res8 (c : Dev nD) : Buf (Elt Ideal) ((c : Thread nD τ).loc main_v231_1) := acc8 V c 9 lastLt
/-- The accumulated column sums of squares after the last point, as the contents of the third output array. -/
abbrev res9 (c : Dev nD) : Buf (Elt Ideal) ((c : Thread nD τ).loc main_v231_2) := acc9 V c 9 lastLt

theorem flushed8_eq (c : Dev nD) (t : Fin cfg14.N) (hf : (cfg14.win 8).flush t = true) :
    (dat14 V c).flushed 8 t = ((cfg14.win 8).blk t).view.read (Elt Ideal) (res8 V c) := by
  have hN : grid14.N = 10 := N_14
  have h9 : t.val = 9 := by
    have := (flush14_8 t).mp hf; have h := lt_of_lt_of_eq t.isLt (show cfg14.N = 10 from N_14); omega
  obtain rfl : t = t14_9 := Fin.ext h9
  show (cfg14.win 8).cut (grid14.coords t14_9) ((dat14 V c).after 8 t14_9) = _
  rw [after14_8, outsAt_eq]
  have hz' : (fun a => win14_8.index t14_9 a * main_v231_1.ty.shape.size a) = fun _ => 0 := funext fun a => by fin_cases a <;> decide
  exact (Memref.read_access_unit_zero (Elt Ideal) main_v231_1 hz' (fun a => by rw [congrFun hz' a]; simp) (res8 V c)).symm

theorem flushed9_eq (c : Dev nD) (t : Fin cfg14.N) (hf : (cfg14.win 9).flush t = true) :
    (dat14 V c).flushed 9 t = ((cfg14.win 9).blk t).view.read (Elt Ideal) (res9 V c) := by
  have hN : grid14.N = 10 := N_14
  have h9 : t.val = 9 := by
    have := (flush14_9 t).mp hf; have h := lt_of_lt_of_eq t.isLt (show cfg14.N = 10 from N_14); omega
  obtain rfl : t = t14_9 := Fin.ext h9
  show (cfg14.win 9).cut (grid14.coords t14_9) ((dat14 V c).after 9 t14_9) = _
  rw [after14_9, outsAt_eq]
  have hz' : (fun a => win14_9.index t14_9 a * main_v231_2.ty.shape.size a) = fun _ => 0 := funext fun a => by fin_cases a <;> decide
  exact (Memref.read_access_unit_zero (Elt Ideal) main_v231_2 hz' (fun a => by rw [congrFun hz' a]; simp) (res9 V c)).symm

/-- The last point's write-back covers the one-row array. -/
theorem final8 (c : Dev nD) : (dat14 V c).arrAt 8 cfg14.N = res8 V c :=
  (dat14 V c).arrAt_eq_of_cover 8 (res8 V c) (flushed8_eq V c) fun i =>
    ⟨t14_9, (flush14_8 t14_9).mpr rfl, by
      show i ∈ ((View.whole main_v231_1).slice (win14_8.rect t14_9)).set
      rw [View.set_slice_whole, Rect.mem_set_unit]
      intro a
      have h0 : (i 0 : Nat) < 1 := (i 0).isLt
      have h1 : (i 1 : Nat) < 128 := (i 1).isLt
      match a with
      | ⟨0, _⟩ => show win14_8.index t14_9 0 * win14_8.size 0 ≤ (i 0 : Nat) ∧ (i 0 : Nat) < win14_8.index t14_9 0 * win14_8.size 0 + win14_8.xsize (grid14.coords t14_9) 0
                  rw [show win14_8.index t14_9 0 * win14_8.size 0 = 0 from by decide +kernel, show win14_8.xsize (grid14.coords t14_9) 0 = 1 from by decide +kernel]; omega
      | ⟨1, _⟩ => show win14_8.index t14_9 1 * win14_8.size 1 ≤ (i 1 : Nat) ∧ (i 1 : Nat) < win14_8.index t14_9 1 * win14_8.size 1 + win14_8.xsize (grid14.coords t14_9) 1
                  rw [show win14_8.index t14_9 1 * win14_8.size 1 = 0 from by decide +kernel, show win14_8.xsize (grid14.coords t14_9) 1 = 128 from by decide +kernel]; omega⟩

theorem final9 (c : Dev nD) : (dat14 V c).arrAt 9 cfg14.N = res9 V c :=
  (dat14 V c).arrAt_eq_of_cover 9 (res9 V c) (flushed9_eq V c) fun i =>
    ⟨t14_9, (flush14_9 t14_9).mpr rfl, by
      show i ∈ ((View.whole main_v231_2).slice (win14_9.rect t14_9)).set
      rw [View.set_slice_whole, Rect.mem_set_unit]
      intro a
      have h0 : (i 0 : Nat) < 1 := (i 0).isLt
      have h1 : (i 1 : Nat) < 128 := (i 1).isLt
      match a with
      | ⟨0, _⟩ => show win14_9.index t14_9 0 * win14_9.size 0 ≤ (i 0 : Nat) ∧ (i 0 : Nat) < win14_9.index t14_9 0 * win14_9.size 0 + win14_9.xsize (grid14.coords t14_9) 0
                  rw [show win14_9.index t14_9 0 * win14_9.size 0 = 0 from by decide +kernel, show win14_9.xsize (grid14.coords t14_9) 0 = 1 from by decide +kernel]; omega
      | ⟨1, _⟩ => show win14_9.index t14_9 1 * win14_9.size 1 ≤ (i 1 : Nat) ∧ (i 1 : Nat) < win14_9.index t14_9 1 * win14_9.size 1 + win14_9.xsize (grid14.coords t14_9) 1
                  rw [show win14_9.index t14_9 1 * win14_9.size 1 = 0 from by decide +kernel, show win14_9.xsize (grid14.coords t14_9) 1 = 128 from by decide +kernel]; omega⟩

/-- Summing the ten tiles' column sums is summing down all 50000 rows. -/
theorem tiles_sum (c : Dev nD) (f : EReal → EReal) (q : Fin 128) :
    ∑ t : Fin (9 + 1), ∑ r : Fin 5000, f (tileY V c ⟨t.val, lt_of_lt_of_le t.isLt lastLt⟩ (ix2 r q))
      = ∑ r : Fin 50000, f (y2 (Y1 V c) (M V c) (Vr V c) (G V c) (Be V c) (Wt V c) (Bs V c) (ix2 r q)) := by
  rw [Cert.FinSum.sum_mul 10 5000 50000 rfl]
  refine Finset.sum_congr rfl fun t _ => Finset.sum_congr rfl fun r _ => ?_
  have hp : t.val * 5000 + r.val < 50000 := by have := t.isLt; have := r.isLt; omega
  rw [tile_apply V c ⟨t.val, _⟩ r q hp]
  rfl

/-- The second output array at a column: the sum of `y₂` down the column (from zero). -/
theorem sum_apply (c : Dev nD) (q : Fin 128) :
    (dat14 V c).arrAt 8 cfg14.N (ix2 (0 : Fin 1) q)
      = Ideal.ofBits .f32 0x00000000#32 + ∑ r : Fin 50000, y2 (Y1 V c) (M V c) (Vr V c) (G V c) (Be V c) (Wt V c) (Bs V c) (ix2 r q) := by
  rw [final8]
  show acc8 V c 9 lastLt (ix2 (0 : Fin 1) q) = _
  rw [acc8_apply V c q 9 lastLt]
  exact congrArg (_ + ·) (tiles_sum V c id q)

/-- The third output array at a column: the sum of the squares of `y₂` down the column (from zero). -/
theorem sumsq_apply (c : Dev nD) (q : Fin 128) :
    (dat14 V c).arrAt 9 cfg14.N (ix2 (0 : Fin 1) q)
      = Ideal.ofBits .f32 0x00000000#32
        + ∑ r : Fin 50000, y2 (Y1 V c) (M V c) (Vr V c) (G V c) (Be V c) (Wt V c) (Bs V c) (ix2 r q) * y2 (Y1 V c) (M V c) (Vr V c) (G V c) (Be V c) (Wt V c) (Bs V c) (ix2 r q) := by
  rw [final9]
  show acc9 V c 9 lastLt (ix2 (0 : Fin 1) q) = _
  rw [acc9_apply V c q 9 lastLt]
  exact congrArg (_ + ·) (tiles_sum V c (fun x => x * x) q)

end Final

end Cert.KernelIdeal.KStageBVal_L3

end
-- ==== Proof.KStageCVal_L3.lean ====
/-
  The third stage's region, read as values.  At each of the ten grid points the body writes the point's tile of
  `c = relu(γ·(y₂ − μ)·rsqrt(v + ε) + β)` and updates two one-row accumulators: at the first point they are reset
  to zero before the tile's column sums (and column sums of squares) are added, at the later points the sums are added
  to what the point before left.
-/
import proofs.«140776_j80633716015159_1_alg».proof.Proof.Gen.KernelIdeal.Frame
import proofs.«140776_j80633716015159_1_alg».proof.Proof.KStageB
import proofs.«140776_j80633716015159_1_alg».proof.Proof.KStageCD
import proofs.«140776_j80633716015159_1_alg».proof.Proof.LibFinSum
import Idealize.ShloMosaic.Lib.Pipeline.Value
import Idealize.ShloMosaic.Lib.Tactic

set_option maxRecDepth 16384

noncomputable section

namespace Cert.KernelIdeal.KStageCVal_L3

open Cert.KernelIdeal Cert.KernelIdeal.Gen
open Idealize.ShloMosaic Idealize.ShloMosaic.TcCoe Idealize.ShloMosaic.ValueIdx Idealize.SL.Sem
open Idealize.ShloMosaic.Pipeline (Dat Cfg Window)

/-- The third stage's tile at an entry. -/
theorem pay4_apply (v3 : Vec Ideal S5000x128 .f32) (v5 v10 v12 v20 : Vec Ideal S1x128 .f32) (p : Fin 5000) (q : Fin 128) :
    k15_pay4 v3 v5 v10 v12 v20 (ix2 p q)
      = KStageB.bnrelu (v5 (ix2 (0 : Fin 1) q)) (v10 (ix2 (0 : Fin 1) q)) (v12 (ix2 (0 : Fin 1) q)) (v20 (ix2 (0 : Fin 1) q))
          (v3 (ix2 p q)) :=
  KStageCD.pay4_apply v3 v5 v10 v12 v20 p q

/-- The third stage's running column sums after the point. -/
theorem pay5_apply (v3 : Vec Ideal S5000x128 .f32) (v5 v10 v12 v20 v27 : Vec Ideal S1x128 .f32) (q : Fin 128) :
    k15_pay5 v3 v5 v10 v12 v20 v27 (ix2 (0 : Fin 1) q)
      = v27 (ix2 (0 : Fin 1) q) + ∑ r : Fin 5000, k15_pay4 v3 v5 v10 v12 v20 (ix2 r q) :=
  KStageCD.pay5_apply v3 v5 v10 v12 v20 v27 q

/-- The third stage's running column sums of squares after the point. -/
theorem pay1_apply (v25 : FVec Ideal S5000x128 .f32) (v33 : Vec Ideal S1x128 .f32) (q : Fin 128) :
    k15_pay1 v25 v33 (ix2 (0 : Fin 1) q) = v33 (ix2 (0 : Fin 1) q) + ∑ r : Fin 5000, v25 (ix2 r q) * v25 (ix2 r q) :=
  KStageCD.pay1_apply v25 v33 q

variable {F : FTy → Type} [FloatOps F]

theorem hz : (![0, 0] : Fin 2 → Nat) = fun _ => 0 := funext fun a => by fin_cases a <;> rfl

/-- The zero row the reset stores. -/
abbrev zrow : Vec F S1x128 .f32 := broadcast S1x128 (Scalar.ofBits .f32 0x00000000#32)

/-- First point, the tile of `c`. -/
theorem outA5 (c : Dev nD) (i : grid15.Coords) (a1 : Memref sig .tc .vmem S5000x128 .f32) (h1 : a1.IsWhole) (a2 : Memref sig .tc .vmem S1x128 .f32) (h2 : a2.IsWhole) (a3 : Memref sig .tc .vmem S1x128 .f32) (h3 : a3.IsWhole) (a4 : Memref sig .tc .vmem S1x128 .f32) (h4 : a4.IsWhole) (a5 : Memref sig .tc .vmem S1x128 .f32) (h5 : a5.IsWhole) (a6 : Memref sig .tc .vmem S5000x128 .f32) (h6 : a6.IsWhole) (a7 : Memref sig .tc .vmem S1x128 .f32) (h7 : a7.IsWhole) (a8 : Memref sig .tc .vmem S1x128 .f32) (h8 : a8.IsWhole) (hc : cond15_0 i) (x0 : Vec F S5000x128 .f32) (x1 x2 x3 x4 : Vec F S1x128 .f32) :
    out15_A_5 c i a1 h1 a2 h2 a3 h3 a4 h4 a5 h5 a6 h6 a7 h7 a8 h8 hc x0 x1 x2 x3 x4 = k15_pay4 x0 x2 x3 x1 x4 := by
  unfold out15_A_5
  rw [View.read_writes_eq_canon _ _ _ (cover15_A_5 c i a1 h1 a2 h2 a3 h3 a4 h4 a5 h5 a6 h6 a7 h7 a8 h8 hc x0 x1 x2 x3 x4)]
  unfold kernelRun15_A
  dsimp only
  sl_unfold_words
  rw [View.canon_unit_zero hz]
  simp only [View.readAt_eq_ld, h1.read_unread, h2.read_unread, h3.read_unread, h4.read_unread, h5.read_unread, h7.read_unread, h8.read_unread, View.ld_unit_zero (S := S5000x128) hz, View.ld_unit_zero (S := S1x128) hz]

theorem outA6 (c : Dev nD) (i : grid15.Coords) (a1 : Memref sig .tc .vmem S5000x128 .f32) (h1 : a1.IsWhole) (a2 : Memref sig .tc .vmem S1x128 .f32) (h2 : a2.IsWhole) (a3 : Memref sig .tc .vmem S1x128 .f32) (h3 : a3.IsWhole) (a4 : Memref sig .tc .vmem S1x128 .f32) (h4 : a4.IsWhole) (a5 : Memref sig .tc .vmem S1x128 .f32) (h5 : a5.IsWhole) (a6 : Memref sig .tc .vmem S5000x128 .f32) (h6 : a6.IsWhole) (a7 : Memref sig .tc .vmem S1x128 .f32) (h7 : a7.IsWhole) (a8 : Memref sig .tc .vmem S1x128 .f32) (h8 : a8.IsWhole) (hc : cond15_0 i) (x0 : Vec F S5000x128 .f32) (x1 x2 x3 x4 : Vec F S1x128 .f32) :
    out15_A_6 c i a1 h1 a2 h2 a3 h3 a4 h4 a5 h5 a6 h6 a7 h7 a8 h8 hc x0 x1 x2 x3 x4 = k15_pay5 x0 x2 x3 x1 x4 zrow := by
  unfold out15_A_6
  rw [View.read_writes_eq_canon _ _ _ (cover15_A_6 c i a1 h1 a2 h2 a3 h3 a4 h4 a5 h5 a6 h6 a7 h7 a8 h8 hc x0 x1 x2 x3 x4)]
  unfold kernelRun15_A
  dsimp only
  sl_unfold_words
  rw [View.canon_cons_unit_zero (S := S1x128) hz, View.readCov_unit_zero (S := S1x128) _ hz]
  simp only [View.readAt_eq_ld, h1.read_unread, h2.read_unread, h3.read_unread, h4.read_unread, h5.read_unread, h7.read_unread, h8.read_unread, View.ld_unit_zero (S := S5000x128) hz, View.ld_unit_zero (S := S1x128) hz]
  rfl

theorem outA7 (c : Dev nD) (i : grid15.Coords) (a1 : Memref sig .tc .vmem S5000x128 .f32) (h1 : a1.IsWhole) (a2 : Memref sig .tc .vmem S1x128 .f32) (h2 : a2.IsWhole) (a3 : Memref sig .tc .vmem S1x128 .f32) (h3 : a3.IsWhole) (a4 : Memref sig .tc .vmem S1x128 .f32) (h4 : a4.IsWhole) (a5 : Memref sig .tc .vmem S1x128 .f32) (h5 : a5.IsWhole) (a6 : Memref sig .tc .vmem S5000x128 .f32) (h6 : a6.IsWhole) (a7 : Memref sig .tc .vmem S1x128 .f32) (h7 : a7.IsWhole) (a8 : Memref sig .tc .vmem S1x128 .f32) (h8 : a8.IsWhole) (hc : cond15_0 i) (x0 : Vec F S5000x128 .f32) (x1 x2 x3 x4 : Vec F S1x128 .f32) :
    out15_A_7 c i a1 h1 a2 h2 a3 h3 a4 h4 a5 h5 a6 h6 a7 h7 a8 h8 hc x0 x1 x2 x3 x4 = k15_pay1 (k15_pay4 x0 x2 x3 x1 x4) zrow := by
  unfold out15_A_7
  rw [View.read_writes_eq_canon _ _ _ (cover15_A_7 c i a1 h1 a2 h2 a3 h3 a4 h4 a5 h5 a6 h6 a7 h7 a8 h8 hc x0 x1 x2 x3 x4)]
  unfold kernelRun15_A
  dsimp only
  sl_unfold_words
  rw [View.canon_cons_unit_zero (S := S1x128) hz, View.readCov_unit_zero (S := S1x128) _ hz]
  simp only [View.readAt_eq_ld, h1.read_unread, h2.read_unread, h3.read_unread, h4.read_unread, h5.read_unread, h7.read_unread, h8.read_unread, View.ld_unit_zero (S := S5000x128) hz, View.ld_unit_zero (S := S1x128) hz]
  rfl

theorem outB5 (c : Dev nD) (i : grid15.Coords) (a1 : Memref sig .tc .vmem S5000x128 .f32) (h1 : a1.IsWhole) (a2 : Memref sig .tc .vmem S1x128 .f32) (h2 : a2.IsWhole) (a3 : Memref sig .tc .vmem S1x128 .f32) (h3 : a3.IsWhole) (a4 : Memref sig .tc .vmem S1x128 .f32) (h4 : a4.IsWhole) (a5 : Memref sig .tc .vmem S1x128 .f32) (h5 : a5.IsWhole) (a6 : Memref sig .tc .vmem S5000x128 .f32) (h6 : a6.IsWhole) (a7 : Memref sig .tc .vmem S1x128 .f32) (h7 : a7.IsWhole) (a8 : Memref sig .tc .vmem S1x128 .f32) (h8 : a8.IsWhole) (hc : ¬cond15_0 i) (x0 : Vec F S5000x128 .f32) (x1 x2 x3 x4 : Vec F S1x128 .f32) (s6 s7 : Vec F S1x128 .f32) :
    out15_B_5 c i a1 h1 a2 h2 a3 h3 a4 h4 a5 h5 a6 h6 a7 h7 a8 h8 hc x0 x1 x2 x3 x4 s6 s7 = k15_pay4 x0 x2 x3 x1 x4 := by
  unfold out15_B_5
  rw [View.read_writes_eq_canon _ _ _ (cover15_B_5 c i a1 h1 a2 h2 a3 h3 a4 h4 a5 h5 a6 h6 a7 h7 a8 h8 hc x0 x1 x2 x3 x4 s6 s7)]
  unfold kernelRun15_B
  dsimp only
  sl_unfold_words
  rw [View.canon_unit_zero hz]
  simp only [View.readAt_eq_ld, h1.read_unread, h2.read_unread, h3.read_unread, h4.read_unread, h5.read_unread, h7.read_unread, h8.read_unread, View.ld_unit_zero (S := S5000x128) hz, View.ld_unit_zero (S := S1x128) hz]

theorem outB6 (c : Dev nD) (i : grid15.Coords) (a1 : Memref sig .tc .vmem S5000x128 .f32) (h1 : a1.IsWhole) (a2 : Memref sig .tc .vmem S1x128 .f32) (h2 : a2.IsWhole) (a3 : Memref sig .tc .vmem S1x128 .f32) (h3 : a3.IsWhole) (a4 : Memref sig .tc .vmem S1x128 .f32) (h4 : a4.IsWhole) (a5 : Memref sig .tc .vmem S1x128 .f32) (h5 : a5.IsWhole) (a6 : Memref sig .tc .vmem S5000x128 .f32) (h6 : a6.IsWhole) (a7 : Memref sig .tc .vmem S1x128 .f32) (h7 : a7.IsWhole) (a8 : Memref sig .tc .vmem S1x128 .f32) (h8 : a8.IsWhole) (hc : ¬cond15_0 i) (x0 : Vec F S5000x128 .f32) (x1 x2 x3 x4 : Vec F S1x128 .f32) (s6 s7 : Vec F S1x128 .f32) :
    out15_B_6 c i a1 h1 a2 h2 a3 h3 a4 h4 a5 h5 a6 h6 a7 h7 a8 h8 hc x0 x1 x2 x3 x4 s6 s7 = k15_pay5 x0 x2 x3 x1 x4 s6 := by
  unfold out15_B_6
  rw [View.read_writes_eq_canon _ _ _ (cover15_B_6 c i a1 h1 a2 h2 a3 h3 a4 h4 a5 h5 a6 h6 a7 h7 a8 h8 hc x0 x1 x2 x3 x4 s6 s7)]
  unfold kernelRun15_B
  dsimp only
  sl_unfold_words
  rw [View.canon_unit_zero hz]
  simp only [View.readAt_eq_ld, h1.read_unread, h2.read_unread, h3.read_unread, h4.read_unread, h5.read_unread, h7.read_unread, h8.read_unread, View.ld_unit_zero (S := S5000x128) hz, View.ld_unit_zero (S := S1x128) hz]

theorem outB7 (c : Dev nD) (i : grid15.Coords) (a1 : Memref sig .tc .vmem S5000x128 .f32) (h1 : a1.IsWhole) (a2 : Memref sig .tc .vmem S1x128 .f32) (h2 : a2.IsWhole) (a3 : Memref sig .tc .vmem S1x128 .f32) (h3 : a3.IsWhole) (a4 : Memref sig .tc .vmem S1x128 .f32) (h4 : a4.IsWhole) (a5 : Memref sig .tc .vmem S1x128 .f32) (h5 : a5.IsWhole) (a6 : Memref sig .tc .vmem S5000x128 .f32) (h6 : a6.IsWhole) (a7 : Memref sig .tc .vmem S1x128 .f32) (h7 : a7.IsWhole) (a8 : Memref sig .tc .vmem S1x128 .f32) (h8 : a8.IsWhole) (hc : ¬cond15_0 i) (x0 : Vec F S5000x128 .f32) (x1 x2 x3 x4 : Vec F S1x128 .f32) (s6 s7 : Vec F S1x128 .f32) :
    out15_B_7 c i a1 h1 a2 h2 a3 h3 a4 h4 a5 h5 a6 h6 a7 h7 a8 h8 hc x0 x1 x2 x3 x4 s6 s7 = k15_pay1 (k15_pay4 x0 x2 x3 x1 x4) s7 := by
  unfold out15_B_7
  rw [View.read_writes_eq_canon _ _ _ (cover15_B_7 c i a1 h1 a2 h2 a3 h3 a4 h4 a5 h5 a6 h6 a7 h7 a8 h8 hc x0 x1 x2 x3 x4 s6 s7)]
  unfold kernelRun15_B
  dsimp only
  sl_unfold_words
  rw [View.canon_unit_zero hz]
  simp only [View.readAt_eq_ld, h1.read_unread, h2.read_unread, h3.read_unread, h4.read_unread, h5.read_unread, h7.read_unread, h8.read_unread, View.ld_unit_zero (S := S5000x128) hz, View.ld_unit_zero (S := S1x128) hz]

/-! ## The outputs after each point -/

variable (V : (c : Dev nD) → (b : Ref sig .tc) → Buf (Elt F) ((c : Thread nD τ).loc b))

/-- The point's tile of `c`. -/
def tileY (c : Dev nD) (t : Fin cfg15.N) : Vec F S5000x128 .f32 := k15_pay4 (iblk15 V c 0 t) (iblk15 V c 2 t) (iblk15 V c 3 t) (iblk15 V c 1 t) (iblk15 V c 4 t)

/-- The running column sums after point `n`. -/
def acc6 (c : Dev nD) : (n : ℕ) → n < cfg15.N → Vec F S1x128 .f32
  | 0, h => k15_pay5 (iblk15 V c 0 ⟨0, h⟩) (iblk15 V c 2 ⟨0, h⟩) (iblk15 V c 3 ⟨0, h⟩) (iblk15 V c 1 ⟨0, h⟩) (iblk15 V c 4 ⟨0, h⟩) zrow
  | n + 1, h => k15_pay5 (iblk15 V c 0 ⟨n + 1, h⟩) (iblk15 V c 2 ⟨n + 1, h⟩) (iblk15 V c 3 ⟨n + 1, h⟩) (iblk15 V c 1 ⟨n + 1, h⟩) (iblk15 V c 4 ⟨n + 1, h⟩) (acc6 c n (Nat.lt_of_succ_lt h))

/-- The running column sums of squares after point `n`. -/
def acc7 (c : Dev nD) : (n : ℕ) → n < cfg15.N → Vec F S1x128 .f32
  | 0, h => k15_pay1 (tileY V c ⟨0, h⟩) zrow
  | n + 1, h => k15_pay1 (tileY V c ⟨n + 1, h⟩) (acc7 c n (Nat.lt_of_succ_lt h))

/-- What the three outputs' staging buffers hold after point `n`: the tile and the two running sums. -/
theorem outsAt_eq (c : Dev nD) : ∀ (n : ℕ) (h : n < cfg15.N), outsAt15 V c n h = (tileY V c ⟨n, h⟩, acc6 V c n h, acc7 V c n h)
  | 0, h => (outsAt15_A V c ⟨0, h⟩ rfl).trans (by rw [outA5, outA6, outA7]; rfl)
  | n + 1, h => by
    have hN : grid15.N = 10 := N_15
    have hB : ¬(⟨n + 1, h⟩ : Fin cfg15.N).val % 10 = 0 := by
      have : n + 1 < 10 := by have := h; rw [show cfg15.N = grid15.N from rfl, hN] at this; exact this
      dsimp only; omega
    rw [outsAt15_B V c ⟨n + 1, h⟩ hB, outB5, outB6, outB7]
    show (_, k15_pay5 _ _ _ _ _ (outsAt15 V c n _).2.1, k15_pay1 _ (outsAt15 V c n _).2.2) = _
    rw [outsAt_eq c n]
    rfl

/-! ## At the exact reading: the accumulators are sums, the tiles an array -/

section Exact

variable (V : (c : Dev nD) → (b : Ref sig .tc) → Buf (Elt Ideal) ((c : Thread nD τ).loc b))

theorem acc6_apply (c : Dev nD) (q : Fin 128) : ∀ (n : ℕ) (h : n < cfg15.N),
    acc6 V c n h (ix2 (0 : Fin 1) q)
      = Ideal.ofBits .f32 0x00000000#32
        + ∑ t : Fin (n + 1), ∑ r : Fin 5000, tileY V c ⟨t.val, lt_of_lt_of_le t.isLt h⟩ (ix2 r q) :=
  Cert.FinSum.sum_of_steps cfg15.N (fun n h => acc6 V c n h (ix2 (0 : Fin 1) q))
    (fun t => ∑ r : Fin 5000, tileY V c t (ix2 r q)) (Ideal.ofBits .f32 0x00000000#32)
    (fun h => pay5_apply _ _ _ _ _ _ q)
    (fun n h => pay5_apply _ _ _ _ _ _ q)

theorem acc7_apply (c : Dev nD) (q : Fin 128) : ∀ (n : ℕ) (h : n < cfg15.N),
    acc7 V c n h (ix2 (0 : Fin 1) q)
      = Ideal.ofBits .f32 0x00000000#32
        + ∑ t : Fin (n + 1), ∑ r : Fin 5000,
            tileY V c ⟨t.val, lt_of_lt_of_le t.isLt h⟩ (ix2 r q) * tileY V c ⟨t.val, lt_of_lt_of_le t.isLt h⟩ (ix2 r q) :=
  Cert.FinSum.sum_of_steps cfg15.N (fun n h => acc7 V c n h (ix2 (0 : Fin 1) q))
    (fun t => ∑ r : Fin 5000, tileY V c t (ix2 r q) * tileY V c t (ix2 r q)) (Ideal.ofBits .f32 0x00000000#32)
    (fun h => pay1_apply _ _ q)
    (fun n h => pay1_apply _ _ q)

end Exact

/-! ## The arrays after the region -/

/-- One entry of `c = relu(γ·(y₂ − μ)·rsqrt(v + ε) + β)`. -/
def cAt (y2 : (⟨2, ![50000, 128]⟩ : Shape).Idx → EReal) (m vr g be : (⟨2, ![1, 128]⟩ : Shape).Idx → EReal)
    (p : Fin 50000) (q : Fin 128) : EReal :=
  KStageB.bnrelu (vr (ix2 (0 : Fin 1) q)) (g (ix2 (0 : Fin 1) q)) (m (ix2 (0 : Fin 1) q)) (be (ix2 (0 : Fin 1) q)) (y2 (ix2 p q))

/-- `c` as an array. -/
def cArr (y2 : (⟨2, ![50000, 128]⟩ : Shape).Idx → EReal) (m vr g be : (⟨2, ![1, 128]⟩ : Shape).Idx → EReal) :
    (⟨2, ![50000, 128]⟩ : Shape).Idx → EReal :=
  fun i => cAt y2 m vr g be ⟨(i 0).val, idx2_lt0 i⟩ ⟨(i 1).val, idx2_lt1 i⟩

section Arrays

variable (V : (c : Dev nD) → (b : Ref sig .tc) → Buf (Elt Ideal) ((c : Thread nD τ).loc b))

/-- The arrays the region finds: the second stage's output, the column means and variances, the scale and shift rows. -/
abbrev Y2 (c : Dev nD) : S50000x128.Idx → EReal := V c (Pipeline.arrRef spec15 0)
abbrev M (c : Dev nD) : S1x128.Idx → EReal := V c (Pipeline.arrRef spec15 1)
abbrev Vr (c : Dev nD) : S1x128.Idx → EReal := V c (Pipeline.arrRef spec15 2)
abbrev G (c : Dev nD) : S1x128.Idx → EReal := V c (Pipeline.arrRef spec15 3)
abbrev Be (c : Dev nD) : S1x128.Idx → EReal := V c (Pipeline.arrRef spec15 4)

/-- The printed index maps over the ten points: the input tile and the output tile move down the rows with the
    point; the four statistics rows are block (0, 0). -/
theorem idx_facts : ∀ t : Fin cfg15.N,
    win15_0.index t (0 : Fin 2) = t.val ∧ win15_0.index t (1 : Fin 2) = 0
    ∧ win15_1.index t (0 : Fin 2) = 0 ∧ win15_1.index t (1 : Fin 2) = 0
    ∧ win15_2.index t (0 : Fin 2) = 0 ∧ win15_2.index t (1 : Fin 2) = 0
    ∧ win15_3.index t (0 : Fin 2) = 0 ∧ win15_3.index t (1 : Fin 2) = 0
    ∧ win15_4.index t (0 : Fin 2) = 0 ∧ win15_4.index t (1 : Fin 2) = 0
    ∧ win15_5.index t (0 : Fin 2) = t.val ∧ win15_5.index t (1 : Fin 2) = 0 :=
  (by decide +kernel : ∀ t : Fin grid15.N, _)

theorem iblk_y2 (c : Dev nD) (t : Fin cfg15.N) (p : Fin 5000) (k : Fin 128) (hp : t.val * 5000 + p.val < 50000) :
    (iblk15 V c 0 t : Vec Ideal S5000x128 .f32) (ix2 p k) = Y2 V c (ix2 ⟨t.val * 5000 + p.val, hp⟩ k) := by
  obtain ⟨e0, e1, -⟩ := idx_facts t
  unfold iblk15
  rw [View.read_apply]
  refine congrArg (V c (Pipeline.arrRef spec15 0)) (funext fun a => Fin.ext ?_)
  match a with
  | ⟨0, _⟩ => show win15_0.index t 0 * 5000 + 1 * p.val = t.val * 5000 + p.val; rw [e0]; omega
  | ⟨1, _⟩ => show win15_0.index t 1 * 128 + 1 * k.val = k.val; rw [e1]; omega

theorem iblk_m (c : Dev nD) (t : Fin cfg15.N) : (iblk15 V c 1 t : Vec Ideal S1x128 .f32) = M V c := by
  obtain ⟨-, -, e0, e1, -⟩ := idx_facts t
  funext y
  unfold iblk15
  rw [View.read_apply]
  refine congrArg (V c (Pipeline.arrRef spec15 1)) (funext fun a => Fin.ext ?_)
  match a with
  | ⟨0, _⟩ => show win15_1.index t 0 * 1 + 1 * (y 0).val = (y 0).val; rw [e0]; omega
  | ⟨1, _⟩ => show win15_1.index t 1 * 128 + 1 * (y 1).val = (y 1).val; rw [e1]; omega

theorem iblk_vr (c : Dev nD) (t : Fin cfg15.N) : (iblk15 V c 2 t : Vec Ideal S1x128 .f32) = Vr V c := by
  obtain ⟨-, -, -, -, e0, e1, -⟩ := idx_facts t
  funext y
  unfold iblk15
  rw [View.read_apply]
  refine congrArg (V c (Pipeline.arrRef spec15 2)) (funext fun a => Fin.ext ?_)
  match a with
  | ⟨0, _⟩ => show win15_2.index t 0 * 1 + 1 * (y 0).val = (y 0).val; rw [e0]; omega
  | ⟨1, _⟩ => show win15_2.index t 1 * 128 + 1 * (y 1).val = (y 1).val; rw [e1]; omega

theorem iblk_g (c : Dev nD) (t : Fin cfg15.N) : (iblk15 V c 3 t : Vec Ideal S1x128 .f32) = G V c := by
  obtain ⟨-, -, -, -, -, -, e0, e1, -⟩ := idx_facts t
  funext y
  unfold iblk15
  rw [View.read_apply]
  refine congrArg (V c (Pipeline.arrRef spec15 3)) (funext fun a => Fin.ext ?_)
  match a with
  | ⟨0, _⟩ => show win15_3.index t 0 * 1 + 1 * (y 0).val = (y 0).val; rw [e0]; omega
  | ⟨1, _⟩ => show win15_3.index t 1 * 128 + 1 * (y 1).val = (y 1).val; rw [e1]; omega

theorem iblk_be (c : Dev nD) (t : Fin cfg15.N) : (iblk15 V c 4 t : Vec Ideal S1x128 .f32) = Be V c := by
  obtain ⟨-, -, -, -, -, -, -, -, e0, e1, -⟩ := idx_facts t
  funext y
  unfold iblk15
  rw [View.read_apply]
  refine congrArg (V c (Pipeline.arrRef spec15 4)) (funext fun a => Fin.ext ?_)
  match a with
  | ⟨0, _⟩ => show win15_4.index t 0 * 1 + 1 * (y 0).val = (y 0).val; rw [e0]; omega
  | ⟨1, _⟩ => show win15_4.index t 1 * 128 + 1 * (y 1).val = (y 1).val; rw [e1]; omega

/-- The tile at point `t`, entry `(p, q)`, is `c` at row `5000·t + p`. -/
theorem tile_apply (c : Dev nD) (t : Fin cfg15.N) (p : Fin 5000) (q : Fin 128) (hp : t.val * 5000 + p.val < 50000) :
    tileY V c t (ix2 p q) = cAt (Y2 V c) (M V c) (Vr V c) (G V c) (Be V c) ⟨t.val * 5000 + p.val, hp⟩ q := by
  unfold tileY cAt
  rw [pay4_apply, iblk_m, iblk_vr, iblk_g, iblk_be, iblk_y2 V c t p q hp]

end Arrays

section Final

variable (V : (c : Dev nD) → (b : Ref sig .tc) → Buf (Elt Ideal) ((c : Thread nD τ).loc b))

/-- An entry of the tile at point `t` is the entry of `c` at row `5000·t + ` the tile's row. -/
theorem point5 (c : Dev nD) (t : Fin cfg15.N) (j : S5000x128.Idx) (i : S50000x128.Idx)
    (hi0 : (i 0).val = t.val * 5000 + (j 0).val) (hi1 : (i 1).val = (j 1).val) :
    tileY V c t j = cArr (Y2 V c) (M V c) (Vr V c) (G V c) (Be V c) i := by
  obtain ⟨p, q, rfl⟩ : ∃ (p : Fin 5000) (q : Fin 128), j = ix2 p q := ⟨j 0, j 1, eq_ix2 j⟩
  have ht : t.val < 10 := lt_of_lt_of_eq t.isLt (show cfg15.N = 10 from N_15)
  have hp : t.val * 5000 + p.val < 50000 := by have := p.isLt; omega
  rw [tile_apply V c t p q hp]
  unfold cArr
  congr 1
  · exact Fin.ext hi0.symm
  · exact Fin.ext hi1.symm

/-- What point `t` writes back of `c` is tile `t` of the array `c`. -/
theorem flushed5_eq (c : Dev nD) (t : Fin cfg15.N) :
    (dat15 V c).flushed 5 t
      = ((cfg15.win 5).blk t).view.read (Elt Ideal) (cArr (Y2 V c) (M V c) (Vr V c) (G V c) (Be V c)) := by
  show (cfg15.win 5).cut (grid15.coords t) ((dat15 V c).after 5 t) = _
  rw [after15_5, outsAt_eq]
  obtain ⟨-, -, -, -, -, -, -, -, -, -, e0, e1⟩ := idx_facts t
  funext j
  rw [View.read_apply]
  refine point5 V c t j _ ?_ ?_
  · show win15_5.index t 0 * 5000 + 1 * (j 0).val = t.val * 5000 + (j 0).val
    rw [e0]; omega
  · show win15_5.index t 1 * 128 + 1 * (j 1).val = (j 1).val
    rw [e1]; omega

theorem mem_blk5 (t : Fin cfg15.N) (i : S50000x128.Idx) :
    i ∈ ((cfg15.win 5).blk t).view.set ↔ ∀ a : Fin 2, win15_5.index t a * S5000x128.size a ≤ (i a).val
      ∧ (i a).val < win15_5.index t a * S5000x128.size a + S5000x128.size a := by
  show i ∈ ((View.whole main_v244_0).slice (win15_5.rect t)).set ↔ _
  rw [View.set_slice_whole, Rect.mem_set_unit]
  exact Iff.rfl

theorem cover5 (i : S50000x128.Idx) :
    ∃ t : Fin cfg15.N, (cfg15.win 5).flush t = true ∧ i ∈ ((cfg15.win 5).blk t).view.set := by
  have hi0 : (i 0).val < 50000 := idx2_lt0 i
  have hi1 : (i 1).val < 128 := idx2_lt1 i
  have hN : grid15.N = 10 := N_15
  have ht : (i 0).val / 5000 < cfg15.N := by show _ < grid15.N; rw [hN]; omega
  obtain ⟨-, -, -, -, -, -, -, -, -, -, e0, e1⟩ := idx_facts ⟨(i 0).val / 5000, ht⟩
  refine ⟨⟨(i 0).val / 5000, ht⟩, flush15_5 _, ?_⟩
  rw [mem_blk5]
  intro a
  match a with
  | ⟨0, _⟩ =>
    show win15_5.index ⟨(i 0).val / 5000, ht⟩ 0 * 5000 ≤ (i 0).val ∧ (i 0).val < win15_5.index ⟨(i 0).val / 5000, ht⟩ 0 * 5000 + 5000
    rw [e0]; show (i 0).val / 5000 * 5000 ≤ (i 0).val ∧ (i 0).val < (i 0).val / 5000 * 5000 + 5000; omega
  | ⟨1, _⟩ =>
    show win15_5.index ⟨(i 0).val / 5000, ht⟩ 1 * 128 ≤ (i 1).val ∧ (i 1).val < win15_5.index ⟨(i 0).val / 5000, ht⟩ 1 * 128 + 128
    rw [e1]; omega

/-- After the region the first output array is `c` of the arrays the region finds. -/
theorem final5 (c : Dev nD) : (dat15 V c).arrAt 5 cfg15.N = cArr (Y2 V c) (M V c) (Vr V c) (G V c) (Be V c) :=
  (dat15 V c).arrAt_eq_of_cover 5 _ (fun t _ => flushed5_eq V c t) cover5

theorem lastLt : 9 < cfg15.N := by show 9 < grid15.N; rw [N_15]; decide

/-- The accumulated column sums after the last point, as the contents of the second output array. -/
abbrev res6 (c : Dev nD) : Buf (Elt Ideal) ((c : Thread nD τ).loc main_v244_1) := acc6 V c 9 lastLt
/-- The accumulated column sums of squares after the last point, as the contents of the third output array. -/
abbrev res7 (c : Dev nD) : Buf (Elt Ideal) ((c : Thread nD τ).loc main_v244_2) := acc7 V c 9 lastLt

theorem flushed6_eq (c : Dev nD) (t : Fin cfg15.N) (hf : (cfg15.win 6).flush t = true) :
    (dat15 V c).flushed 6 t = ((cfg15.win 6).blk t).view.read (Elt Ideal) (res6 V c) := by
  have hN : grid15.N = 10 := N_15
  have h9 : t.val = 9 := by
    have := (flush15_6 t).mp hf; have h := lt_of_lt_of_eq t.isLt (show cfg15.N = 10 from N_15); omega
  obtain rfl : t = t15_9 := Fin.ext h9
  show (cfg15.win 6).cut (grid15.coords t15_9) ((dat15 V c).after 6 t15_9) = _
  rw [after15_6, outsAt_eq]
  have hz' : (fun a => win15_6.index t15_9 a * main_v244_1.ty.shape.size a) = fun _ => 0 := funext fun a => by fin_cases a <;> decide
  exact (Memref.read_access_unit_zero (Elt Ideal) main_v244_1 hz' (fun a => by rw [congrFun hz' a]; simp) (res6 V c)).symm

theorem flushed7_eq (c : Dev nD) (t : Fin cfg15.N) (hf : (cfg15.win 7).flush t = true) :
    (dat15 V c).flushed 7 t = ((cfg15.win 7).blk t).view.read (Elt Ideal) (res7 V c) := by
  have hN : grid15.N = 10 := N_15
  have h9 : t.val = 9 := by
    have := (flush15_7 t).mp hf; have h := lt_of_lt_of_eq t.isLt (show cfg15.N = 10 from N_15); omega
  obtain rfl : t = t15_9 := Fin.ext h9
  show (cfg15.win 7).cut (grid15.coords t15_9) ((dat15 V c).after 7 t15_9) = _
  rw [after15_7, outsAt_eq]
  have hz' : (fun a => win15_7.index t15_9 a * main_v244_2.ty.shape.size a) = fun _ => 0 := funext fun a => by fin_cases a <;> decide
  exact (Memref.read_access_unit_zero (Elt Ideal) main_v244_2 hz' (fun a => by rw [congrFun hz' a]; simp) (res7 V c)).symm

/-- The last point's write-back covers the one-row array. -/
theorem final6 (c : Dev nD) : (dat15 V c).arrAt 6 cfg15.N = res6 V c :=
  (dat15 V c).arrAt_eq_of_cover 6 (res6 V c) (flushed6_eq V c) fun i =>
    ⟨t15_9, (flush15_6 t15_9).mpr rfl, by
      show i ∈ ((View.whole main_v244_1).slice (win15_6.rect t15_9)).set
      rw [View.set_slice_whole, Rect.mem_set_unit]
      intro a
      have h0 : (i 0 : Nat) < 1 := (i 0).isLt
      have h1 : (i 1 : Nat) < 128 := (i 1).isLt
      match a with
      | ⟨0, _⟩ => show win15_6.index t15_9 0 * win15_6.size 0 ≤ (i 0 : Nat) ∧ (i 0 : Nat) < win15_6.index t15_9 0 * win15_6.size 0 + win15_6.xsize (grid15.coords t15_9) 0
                  rw [show win15_6.index t15_9 0 * win15_6.size 0 = 0 from by decide +kernel, show win15_6.xsize (grid15.coords t15_9) 0 = 1 from by decide +kernel]; omega
      | ⟨1, _⟩ => show win15_6.index t15_9 1 * win15_6.size 1 ≤ (i 1 : Nat) ∧ (i 1 : Nat) < win15_6.index t15_9 1 * win15_6.size 1 + win15_6.xsize (grid15.coords t15_9) 1
                  rw [show win15_6.index t15_9 1 * win15_6.size 1 = 0 from by decide +kernel, show win15_6.xsize (grid15.coords t15_9) 1 = 128 from by decide +kernel]; omega⟩

theorem final7 (c : Dev nD) : (dat15 V c).arrAt 7 cfg15.N = res7 V c :=
  (dat15 V c).arrAt_eq_of_cover 7 (res7 V c) (flushed7_eq V c) fun i =>
    ⟨t15_9, (flush15_7 t15_9).mpr rfl, by
      show i ∈ ((View.whole main_v244_2).slice (win15_7.rect t15_9)).set
      rw [View.set_slice_whole, Rect.mem_set_unit]
      intro a
      have h0 : (i 0 : Nat) < 1 := (i 0).isLt
      have h1 : (i 1 : Nat) < 128 := (i 1).isLt
      match a with
      | ⟨0, _⟩ => show win15_7.index t15_9 0 * win15_7.size 0 ≤ (i 0 : Nat) ∧ (i 0 : Nat) < win15_7.index t15_9 0 * win15_7.size 0 + win15_7.xsize (grid15.coords t15_9) 0
                  rw [show win15_7.index t15_9 0 * win15_7.size 0 = 0 from by decide +kernel, show win15_7.xsize (grid15.coords t15_9) 0 = 1 from by decide +kernel]; omega
      | ⟨1, _⟩ => show win15_7.index t15_9 1 * win15_7.size 1 ≤ (i 1 : Nat) ∧ (i 1 : Nat) < win15_7.index t15_9 1 * win15_7.size 1 + win15_7.xsize (grid15.coords t15_9) 1
                  rw [show win15_7.index t15_9 1 * win15_7.size 1 = 0 from by decide +kernel, show win15_7.xsize (grid15.coords t15_9) 1 = 128 from by decide +kernel]; omega⟩

/-- Summing the ten tiles' column sums is summing down all 50000 rows. -/
theorem tiles_sum (c : Dev nD) (f : EReal → EReal) (q : Fin 128) :
    ∑ t : Fin (9 + 1), ∑ r : Fin 5000, f (tileY V c ⟨t.val, lt_of_lt_of_le t.isLt lastLt⟩ (ix2 r q))
      = ∑ r : Fin 50000, f (cArr (Y2 V c) (M V c) (Vr V c) (G V c) (Be V c) (ix2 r q)) := by
  rw [Cert.FinSum.sum_mul 10 5000 50000 rfl]
  refine Finset.sum_congr rfl fun t _ => Finset.sum_congr rfl fun r _ => ?_
  have hp : t.val * 5000 + r.val < 50000 := by have := t.isLt; have := r.isLt; omega
  rw [tile_apply V c ⟨t.val, _⟩ r q hp]
  rfl

/-- The second output array at a column: the sum of `c` down the column (from zero). -/
theorem sum_apply (c : Dev nD) (q : Fin 128) :
    (dat15 V c).arrAt 6 cfg15.N (ix2 (0 : Fin 1) q)
      = Ideal.ofBits .f32 0x00000000#32 + ∑ r : Fin 50000, cArr (Y2 V c) (M V c) (Vr V c) (G V c) (Be V c) (ix2 r q) := by
  rw [final6]
  show acc6 V c 9 lastLt (ix2 (0 : Fin 1) q) = _
  rw [acc6_apply V c q 9 lastLt]
  exact congrArg (_ + ·) (tiles_sum V c id q)

/-- The third output array at a column: the sum of the squares of `c` down the column (from zero). -/
theorem sumsq_apply (c : Dev nD) (q : Fin 128) :
    (dat15 V c).arrAt 7 cfg15.N (ix2 (0 : Fin 1) q)
      = Ideal.ofBits .f32 0x00000000#32
        + ∑ r : Fin 50000, cArr (Y2 V c) (M V c) (Vr V c) (G V c) (Be V c) (ix2 r q) * cArr (Y2 V c) (M V c) (Vr V c) (G V c) (Be V c) (ix2 r q) := by
  rw [final7]
  show acc7 V c 9 lastLt (ix2 (0 : Fin 1) q) = _
  rw [acc7_apply V c q 9 lastLt]
  exact congrArg (_ + ·) (tiles_sum V c (fun x => x * x) q)

end Final

end Cert.KernelIdeal.KStageCVal_L3

end
-- ==== Proof.KStageDVal_L3.lean ====
/-
  The closing stage's region, read as a value: each of its ten grid points normalises and rectifies a tile of 5000 rows
  of `c` with the given rows of column means and variances and adds the same rows of the layer's input; the output
  tiles partition the 50000 rows, so after the region the output array is, entry by entry,

      out (r, j) = h (r, j) + max (γ (j) · (c (r, j) − μ (j)) · rsqrt (v (j) + 1e-5) + β (j)) 0.
-/
import proofs.«140776_j80633716015159_1_alg».proof.Proof.Gen.KernelIdeal.Frame
import proofs.«140776_j80633716015159_1_alg».proof.Proof.KStageCD
import Idealize.ShloMosaic.Lib.Pipeline.Value

set_option maxRecDepth 16384

noncomputable section

namespace Cert.KernelIdeal.KStageDVal_L3

open Cert.KernelIdeal Cert.KernelIdeal.Gen
open Idealize.ShloMosaic Idealize.ShloMosaic.TcCoe Idealize.ShloMosaic.ValueIdx Idealize.SL.Sem
open Idealize.ShloMosaic.Pipeline (Dat Cfg Window)
open Cert.KernelIdeal.KStageB (bnrelu)

/-- The closing stage's tile at an entry: the layer's input plus the normalised, rectified value. -/
theorem payD_apply (v0 : Vec Ideal S5000x128 .f32) (v2 v7 v9 v17 : Vec Ideal S1x128 .f32) (v23 : Vec Ideal S5000x128 .f32)
    (p : Fin 5000) (q : Fin 128) :
    k16_pay1 v0 v2 v7 v9 v17 v23 (ix2 p q)
      = v23 (ix2 p q) + KStageB.bnrelu (v2 (ix2 (0 : Fin 1) q)) (v7 (ix2 (0 : Fin 1) q)) (v9 (ix2 (0 : Fin 1) q))
          (v17 (ix2 (0 : Fin 1) q)) (v0 (ix2 p q)) :=
  KStageCD.payD_apply v0 v2 v7 v9 v17 v23 p q

/-- One entry of the layer's output. -/
def outAt (cc h : (⟨2, ![50000, 128]⟩ : Shape).Idx → EReal) (m vr g be : (⟨2, ![1, 128]⟩ : Shape).Idx → EReal)
    (p : Fin 50000) (q : Fin 128) : EReal :=
  h (ix2 p q) + bnrelu (vr (ix2 (0 : Fin 1) q)) (g (ix2 (0 : Fin 1) q)) (m (ix2 (0 : Fin 1) q)) (be (ix2 (0 : Fin 1) q)) (cc (ix2 p q))

/-- The layer's output as an array. -/
def out (cc h : (⟨2, ![50000, 128]⟩ : Shape).Idx → EReal) (m vr g be : (⟨2, ![1, 128]⟩ : Shape).Idx → EReal) :
    (⟨2, ![50000, 128]⟩ : Shape).Idx → EReal :=
  fun i => outAt cc h m vr g be ⟨(i 0).val, idx2_lt0 i⟩ ⟨(i 1).val, idx2_lt1 i⟩

variable (V : (c : Dev nD) → (b : Ref sig .tc) → Buf (Elt Ideal) ((c : Thread nD τ).loc b))

theorem hz : (![0, 0] : Fin 2 → Nat) = fun _ => 0 := funext fun a => by fin_cases a <;> rfl

/-- The arrays the region finds. -/
abbrev Cc (c : Dev nD) : S50000x128.Idx → EReal := V c (Pipeline.arrRef spec16 0)
abbrev Mn (c : Dev nD) : S1x128.Idx → EReal := V c (Pipeline.arrRef spec16 1)
abbrev Vr (c : Dev nD) : S1x128.Idx → EReal := V c (Pipeline.arrRef spec16 2)
abbrev Gm (c : Dev nD) : S1x128.Idx → EReal := V c (Pipeline.arrRef spec16 3)
abbrev Bt (c : Dev nD) : S1x128.Idx → EReal := V c (Pipeline.arrRef spec16 4)
abbrev Hh (c : Dev nD) : S50000x128.Idx → EReal := V c (Pipeline.arrRef spec16 5)

/-- The printed index maps over the ten points: the two feature tiles and the output tile move down the rows with the
    point, the four rows are block (0, 0). -/
theorem idx_facts : ∀ t : Fin cfg16.N,
    win16_0.index t (0 : Fin 2) = t.val ∧ win16_0.index t (1 : Fin 2) = 0
    ∧ win16_1.index t (0 : Fin 2) = 0 ∧ win16_1.index t (1 : Fin 2) = 0
    ∧ win16_2.index t (0 : Fin 2) = 0 ∧ win16_2.index t (1 : Fin 2) = 0
    ∧ win16_3.index t (0 : Fin 2) = 0 ∧ win16_3.index t (1 : Fin 2) = 0
    ∧ win16_4.index t (0 : Fin 2) = 0 ∧ win16_4.index t (1 : Fin 2) = 0
    ∧ win16_5.index t (0 : Fin 2) = t.val ∧ win16_5.index t (1 : Fin 2) = 0
    ∧ win16_6.index t (0 : Fin 2) = t.val ∧ win16_6.index t (1 : Fin 2) = 0 :=
  (by decide +kernel : ∀ t : Fin grid16.N, _)

theorem iblk_c (c : Dev nD) (t : Fin cfg16.N) (p : Fin 5000) (k : Fin 128) (hp : t.val * 5000 + p.val < 50000) :
    (iblk16 V c 0 t : Vec Ideal S5000x128 .f32) (ix2 p k) = Cc V c (ix2 ⟨t.val * 5000 + p.val, hp⟩ k) := by
  obtain ⟨e0, e1, -⟩ := idx_facts t
  unfold iblk16
  rw [View.read_apply]
  refine congrArg (V c (Pipeline.arrRef spec16 0)) (funext fun a => Fin.ext ?_)
  match a with
  | ⟨0, _⟩ => show win16_0.index t 0 * 5000 + 1 * p.val = t.val * 5000 + p.val; rw [e0]; omega
  | ⟨1, _⟩ => show win16_0.index t 1 * 128 + 1 * k.val = k.val; rw [e1]; omega

theorem iblk_h (c : Dev nD) (t : Fin cfg16.N) (p : Fin 5000) (k : Fin 128) (hp : t.val * 5000 + p.val < 50000) :
    (iblk16 V c 5 t : Vec Ideal S5000x128 .f32) (ix2 p k) = Hh V c (ix2 ⟨t.val * 5000 + p.val, hp⟩ k) := by
  obtain ⟨-, -, -, -, -, -, -, -, -, -, e0, e1, -⟩ := idx_facts t
  unfold iblk16
  rw [View.read_apply]
  refine congrArg (V c (Pipeline.arrRef spec16 5)) (funext fun a => Fin.ext ?_)
  match a with
  | ⟨0, _⟩ => show win16_5.index t 0 * 5000 + 1 * p.val = t.val * 5000 + p.val; rw [e0]; omega
  | ⟨1, _⟩ => show win16_5.index t 1 * 128 + 1 * k.val = k.val; rw [e1]; omega

theorem iblk_m (c : Dev nD) (t : Fin cfg16.N) : (iblk16 V c 1 t : Vec Ideal S1x128 .f32) = Mn V c := by
  obtain ⟨-, -, e0, e1, -⟩ := idx_facts t
  funext y
  unfold iblk16
  rw [View.read_apply]
  refine congrArg (V c (Pipeline.arrRef spec16 1)) (funext fun a => Fin.ext ?_)
  match a with
  | ⟨0, _⟩ => show win16_1.index t 0 * 1 + 1 * (y 0).val = (y 0).val; rw [e0]; omega
  | ⟨1, _⟩ => show win16_1.index t 1 * 128 + 1 * (y 1).val = (y 1).val; rw [e1]; omega

theorem iblk_v (c : Dev nD) (t : Fin cfg16.N) : (iblk16 V c 2 t : Vec Ideal S1x128 .f32) = Vr V c := by
  obtain ⟨-, -, -, -, e0, e1, -⟩ := idx_facts t
  funext y
  unfold iblk16
  rw [View.read_apply]
  refine congrArg (V c (Pipeline.arrRef spec16 2)) (funext fun a => Fin.ext ?_)
  match a with
  | ⟨0, _⟩ => show win16_2.index t 0 * 1 + 1 * (y 0).val = (y 0).val; rw [e0]; omega
  | ⟨1, _⟩ => show win16_2.index t 1 * 128 + 1 * (y 1).val = (y 1).val; rw [e1]; omega

theorem iblk_g (c : Dev nD) (t : Fin cfg16.N) : (iblk16 V c 3 t : Vec Ideal S1x128 .f32) = Gm V c := by
  obtain ⟨-, -, -, -, -, -, e0, e1, -⟩ := idx_facts t
  funext y
  unfold iblk16
  rw [View.read_apply]
  refine congrArg (V c (Pipeline.arrRef spec16 3)) (funext fun a => Fin.ext ?_)
  match a with
  | ⟨0, _⟩ => show win16_3.index t 0 * 1 + 1 * (y 0).val = (y 0).val; rw [e0]; omega
  | ⟨1, _⟩ => show win16_3.index t 1 * 128 + 1 * (y 1).val = (y 1).val; rw [e1]; omega

theorem iblk_b (c : Dev nD) (t : Fin cfg16.N) : (iblk16 V c 4 t : Vec Ideal S1x128 .f32) = Bt V c := by
  obtain ⟨-, -, -, -, -, -, -, -, e0, e1, -⟩ := idx_facts t
  funext y
  unfold iblk16
  rw [View.read_apply]
  refine congrArg (V c (Pipeline.arrRef spec16 4)) (funext fun a => Fin.ext ?_)
  match a with
  | ⟨0, _⟩ => show win16_4.index t 0 * 1 + 1 * (y 0).val = (y 0).val; rw [e0]; omega
  | ⟨1, _⟩ => show win16_4.index t 1 * 128 + 1 * (y 1).val = (y 1).val; rw [e1]; omega

/-- An entry of the tile at point `t` is the entry of the output array at row `5000·t + ` the tile's row. -/
theorem point (c : Dev nD) (t : Fin cfg16.N) (j : S5000x128.Idx) (i : S50000x128.Idx)
    (hi0 : (i 0).val = t.val * 5000 + (j 0).val) (hi1 : (i 1).val = (j 1).val) :
    k16_pay1 (iblk16 V c 0 t) (iblk16 V c 2 t) (iblk16 V c 3 t) (iblk16 V c 1 t) (iblk16 V c 4 t) (iblk16 V c 5 t) j
      = out (Cc V c) (Hh V c) (Mn V c) (Vr V c) (Gm V c) (Bt V c) i := by
  obtain ⟨p, q, rfl⟩ : ∃ (p : Fin 5000) (q : Fin 128), j = ix2 p q := ⟨j 0, j 1, eq_ix2 j⟩
  have ht : t.val < 10 := lt_of_lt_of_eq t.isLt (show cfg16.N = 10 from N_16)
  have hp : t.val * 5000 + p.val < 50000 := by have := p.isLt; omega
  rw [payD_apply, iblk_m, iblk_v, iblk_g, iblk_b, iblk_c V c t p q hp, iblk_h V c t p q hp]
  unfold out outAt
  have e0 : (⟨(i 0).val, idx2_lt0 i⟩ : Fin 50000) = ⟨t.val * 5000 + p.val, hp⟩ := Fin.ext hi0
  have e1 : (⟨(i 1).val, idx2_lt1 i⟩ : Fin 128) = q := Fin.ext hi1
  rw [e0, e1]

/-- What point `t` writes back is tile `t` of the output array. -/
theorem flushed_eq (c : Dev nD) (t : Fin cfg16.N) :
    (dat16 V c).flushed 6 t
      = ((cfg16.win 6).blk t).view.read (Elt Ideal) (out (Cc V c) (Hh V c) (Mn V c) (Vr V c) (Gm V c) (Bt V c)) := by
  show (cfg16.win 6).cut (grid16.coords t) ((dat16 V c).after 6 t) = _
  rw [after16_6]
  unfold out16_6
  rw [View.canon_unit_zero hz]
  simp only [View.ld_unit_zero (S := S5000x128) hz, View.ld_unit_zero (S := S1x128) hz]
  obtain ⟨-, -, -, -, -, -, -, -, -, -, -, -, e0, e1⟩ := idx_facts t
  funext j
  rw [View.read_apply]
  refine point V c t j _ ?_ ?_
  · show win16_6.index t 0 * 5000 + 1 * (j 0).val = t.val * 5000 + (j 0).val
    rw [e0]; omega
  · show win16_6.index t 1 * 128 + 1 * (j 1).val = (j 1).val
    rw [e1]; omega

theorem mem_blk (t : Fin cfg16.N) (i : S50000x128.Idx) :
    i ∈ ((cfg16.win 6).blk t).view.set ↔ ∀ a : Fin 2, win16_6.index t a * S5000x128.size a ≤ (i a).val
      ∧ (i a).val < win16_6.index t a * S5000x128.size a + S5000x128.size a := by
  show i ∈ ((View.whole main_v257).slice (win16_6.rect t)).set ↔ _
  rw [View.set_slice_whole, Rect.mem_set_unit]
  exact Iff.rfl

theorem cover (i : S50000x128.Idx) :
    ∃ t : Fin cfg16.N, (cfg16.win 6).flush t = true ∧ i ∈ ((cfg16.win 6).blk t).view.set := by
  have hi0 : (i 0).val < 50000 := idx2_lt0 i
  have hi1 : (i 1).val < 128 := idx2_lt1 i
  have hN : grid16.N = 10 := N_16
  have ht : (i 0).val / 5000 < cfg16.N := by show _ < grid16.N; rw [hN]; omega
  obtain ⟨-, -, -, -, -, -, -, -, -, -, -, -, e0, e1⟩ := idx_facts ⟨(i 0).val / 5000, ht⟩
  refine ⟨⟨(i 0).val / 5000, ht⟩, flush16_6 _, ?_⟩
  rw [mem_blk]
  intro a
  match a with
  | ⟨0, _⟩ =>
    show win16_6.index ⟨(i 0).val / 5000, ht⟩ 0 * 5000 ≤ (i 0).val ∧ (i 0).val < win16_6.index ⟨(i 0).val / 5000, ht⟩ 0 * 5000 + 5000
    rw [e0]; show (i 0).val / 5000 * 5000 ≤ (i 0).val ∧ (i 0).val < (i 0).val / 5000 * 5000 + 5000; omega
  | ⟨1, _⟩ =>
    show win16_6.index ⟨(i 0).val / 5000, ht⟩ 1 * 128 ≤ (i 1).val ∧ (i 1).val < win16_6.index ⟨(i 0).val / 5000, ht⟩ 1 * 128 + 128
    rw [e1]; omega

/-- After the region the output array is the layer's output of the arrays the region finds. -/
theorem final (c : Dev nD) :
    (dat16 V c).arrAt 6 cfg16.N = out (Cc V c) (Hh V c) (Mn V c) (Vr V c) (Gm V c) (Bt V c) :=
  (dat16 V c).arrAt_eq_of_cover 6 _ (fun t _ => flushed_eq V c t) cover

end Cert.KernelIdeal.KStageDVal_L3

end
-- ==== Proof.KLayer3.lean ====
/-
  Layer 3 on the kernel side, stage by stage: each region's arrays and each host stretch's results, read through the
  segment boundaries, are the reference's stages (`RefSpec`) of the same inputs.
-/
import proofs.«140776_j80633716015159_1_alg».proof.Proof.Gen.KernelIdeal.Frame
import proofs.«140776_j80633716015159_1_alg».proof.Proof.KHost
import proofs.«140776_j80633716015159_1_alg».proof.Proof.KStageAVal_L3
import proofs.«140776_j80633716015159_1_alg».proof.Proof.KStageBVal_L3
import proofs.«140776_j80633716015159_1_alg».proof.Proof.KStageCVal_L3
import proofs.«140776_j80633716015159_1_alg».proof.Proof.KStageDVal_L3
import proofs.«140776_j80633716015159_1_alg».proof.Proof.RefSpec
import proofs.«140776_j80633716015159_1_alg».proof.Proof.StatsBridge
import proofs.«140776_j80633716015159_1_alg».proof.Proof.LayerReal

set_option maxRecDepth 16384

noncomputable section

namespace Cert.KernelIdeal.KLayer3

open Cert.KernelIdeal Cert.KernelIdeal.Gen
open Idealize.ShloMosaic Idealize.ShloMosaic.TcCoe Idealize.ShloMosaic.ValueIdx Idealize.SL.Sem Idealize.ShloMosaic.StableHlo
open Cert.ReferenceIdeal (RefSpec.layer)
open LibBatchNorm (IsReal)

variable (m : (ℓ : Loc nD τ sig) → Buf (Elt Ideal) ℓ) (ρ : Dev nD → PrngReg) (c : Dev nD)

/-- The layer's input features and the edge lists, at the layer's entry. -/
abbrev hin : S50000x128.Idx → EReal := W26 m ρ c (Proc.devRef .tc main_v193)
abbrev src : IVec S1600000 32 := W26 m ρ c (Proc.devRef .tc main_arg1)
abbrev dst : IVec S1600000 32 := W26 m ρ c (Proc.devRef .tc main_arg2)

/-- The layer's parameter slices, as the reference takes them. -/
abbrev pe : FVec Ideal S_ .f32 := shapeCast S_ (extractStridedSlice S1 ![3] (W26 m ρ c (Proc.devRef .tc main_arg5)) slices_S4_S1_3) shapeCasts_S1_S_
abbrev pw1 : FVec Ideal S128x128 .f32 := shapeCast S128x128 (extractStridedSlice S1x128x128 ![3, 0, 0] (W26 m ρ c (Proc.devRef .tc main_arg6)) slices_S4x128x128_S1x128x128_3_0_0) shapeCasts_S1x128x128_S128x128
abbrev pb1 : FVec Ideal S128 .f32 := shapeCast S128 (extractStridedSlice S1x128 ![3, 0] (W26 m ρ c (Proc.devRef .tc main_arg7)) slices_S4x128_S1x128_3_0) shapeCasts_S1x128_S128

/-- The first stage's result, as the reference computes it. -/
abbrev y1R : FVec Ideal S50000x128 .f32 :=
  Cert.ReferenceIdeal.RefSpec.dense (Cert.ReferenceIdeal.RefSpec.mix (pe m ρ c) (hin m ρ c) (src m ρ c) (dst m ρ c)) (pw1 m ρ c) (pb1 m ρ c)

/-- Region 1's input arrays, read back through the first host stretch. -/
theorem in_h : KStageAVal_L3.H (V27 m ρ) c = hin m ρ c := KHost.h13_keep_main_v193 (W26 m ρ c)
theorem in_nb : KStageAVal_L3.NB (V27 m ρ) c = Cert.ReferenceIdeal.RefSpec.agg (F := Ideal) (hin m ρ c) (src m ρ c) (dst m ρ c) :=
  (KHost.h13_main_v203 (W26 m ρ c)).trans rfl

theorem in_s (x : Fin 1) : KStageAVal_L3.SC (V27 m ρ) c (ix2 (0 : Fin 1) (0 : Fin 1))
    = Ideal.ofBits .f32 0x3F800000#32 + pe m ρ c (Shape.Idx.first Cert.ReferenceIdeal.Gen.h_S_) := by
  show W27 m ρ c (Proc.devRef .tc main_v207) (ix2 (0 : Fin 1) (0 : Fin 1)) = _
  rw [show W27 m ρ c (Proc.devRef .tc main_v207) = _ from KHost.h13_main_v207 (W26 m ρ c)]
  exact shapeCast_apply _ shapeCasts_S_S1x1 (ix2 (0 : Fin 1) (0 : Fin 1)) (Shape.Idx.first Cert.ReferenceIdeal.Gen.h_S_) rfl

theorem in_w : KStageAVal_L3.Wt (V27 m ρ) c = pw1 m ρ c := (KHost.h13_main_v212 (W26 m ρ c)).trans rfl

theorem in_b (q : Fin 128) : KStageAVal_L3.Bs (V27 m ρ) c (ix2 (0 : Fin 1) q) = pb1 m ρ c (ix1 q) := by
  show W27 m ρ c (Proc.devRef .tc main_v210) (ix2 (0 : Fin 1) q) = _
  rw [show W27 m ρ c (Proc.devRef .tc main_v210) = _ from KHost.h13_main_v210 (W26 m ρ c)]
  exact shapeCast_a_1a_apply _ shapeCasts_S128_S1x128 (0 : Fin 1) q

/-- The first region's tile output is the reference's first stage. -/
theorem y1_eq : (dat13 (V27 m ρ) c).arrAt 5 cfg13.N = y1R m ρ c := by
  rw [KStageAVal_L3.final5]
  funext i
  obtain ⟨p, q, rfl⟩ : ∃ (p : Fin 50000) (q : Fin 128), i = ix2 p q := ⟨i 0, i 1, eq_ix2 i⟩
  show KStageAVal_L3.y1At _ _ _ _ _ p q = _
  unfold KStageAVal_L3.y1At
  show _ = Cert.ReferenceIdeal.RefSpec.dense (F := Ideal) _ _ _ (ix2 p q)
  rw [Cert.ReferenceIdeal.RefSpec.dense_apply, in_s m ρ c 0, in_w, in_b, in_h, in_nb]
  refine congrArg (· + _) (Finset.sum_congr rfl fun k _ => ?_)
  rw [Cert.ReferenceIdeal.RefSpec.mix_apply]

/-! ## Means and variances from the accumulated sums -/

section Stats

open Cert.ReferenceIdeal.RefStats (meanAt varAt)

/-- The host's mean row from an accumulated row of column sums. -/
theorem mean_of_sum (y : FVec Ideal S50000x128 .f32) (s1 : FVec Ideal S1x128 .f32)
    (h1 : ∀ q : Fin 128, s1 (ix2 (0 : Fin 1) q) = Ideal.ofBits .f32 0x00000000#32 + ∑ r : Fin 50000, y (ix2 r q)) (q : Fin 128) :
    (Host.divf s1 (broadcastInDim S1x128 ![] bcast_S_S1x128 (constant (F := Ideal) S_ .f32 0x47435000#32)) : FVec Ideal S1x128 .f32)
      (ix2 (0 : Fin 1) q) = meanAt y q := by
  unfold Host.divf
  rw [h1, broadcastInDim_apply _ _ _ (ix2 (0 : Fin 1) q) (Shape.Idx.first Cert.ReferenceIdeal.Gen.h_S_) fun a => a.elim0]
  rfl

/-- The host's variance row from the two accumulated rows, for a real array. -/
theorem var_of_sums (y : FVec Ideal S50000x128 .f32) (s1 s2 : FVec Ideal S1x128 .f32)
    (h1 : ∀ q : Fin 128, s1 (ix2 (0 : Fin 1) q) = Ideal.ofBits .f32 0x00000000#32 + ∑ r : Fin 50000, y (ix2 r q))
    (h2 : ∀ q : Fin 128, s2 (ix2 (0 : Fin 1) q) = Ideal.ofBits .f32 0x00000000#32 + ∑ r : Fin 50000, y (ix2 r q) * y (ix2 r q))
    (hy : ∀ (r : Fin 50000) (q : Fin 128), IsReal (y (ix2 r q))) (q : Fin 128) :
    (subf (Host.divf s2 (broadcastInDim S1x128 ![] bcast_S_S1x128 (constant (F := Ideal) S_ .f32 0x47435000#32)))
        (mulf (Host.divf s1 (broadcastInDim S1x128 ![] bcast_S_S1x128 (constant (F := Ideal) S_ .f32 0x47435000#32)))
          (Host.divf s1 (broadcastInDim S1x128 ![] bcast_S_S1x128 (constant (F := Ideal) S_ .f32 0x47435000#32)))) :
      FVec Ideal S1x128 .f32) (ix2 (0 : Fin 1) q) = varAt y q := by
  have hb : (broadcastInDim S1x128 ![] bcast_S_S1x128 (constant (F := Ideal) S_ .f32 0x47435000#32) : FVec Ideal S1x128 .f32)
      (ix2 (0 : Fin 1) q) = Ideal.ofBits .f32 0x47435000#32 :=
    broadcastInDim_apply _ _ _ (ix2 (0 : Fin 1) q) (Shape.Idx.first Cert.ReferenceIdeal.Gen.h_S_) fun a => a.elim0
  show Ideal.div (s2 (ix2 (0 : Fin 1) q)) (broadcastInDim S1x128 ![] bcast_S_S1x128 (constant (F := Ideal) S_ .f32 0x47435000#32) (ix2 (0 : Fin 1) q))
      - Ideal.div (s1 (ix2 (0 : Fin 1) q)) (broadcastInDim S1x128 ![] bcast_S_S1x128 (constant (F := Ideal) S_ .f32 0x47435000#32) (ix2 (0 : Fin 1) q))
        * Ideal.div (s1 (ix2 (0 : Fin 1) q)) (broadcastInDim S1x128 ![] bcast_S_S1x128 (constant (F := Ideal) S_ .f32 0x47435000#32) (ix2 (0 : Fin 1) q)) = _
  rw [hb, h1, h2]
  exact Cert.StatsBridge.var_forms y hy q

end Stats

/-! ## The other parameter slices -/

abbrev pg1 : FVec Ideal S128 .f32 := shapeCast S128 (extractStridedSlice S1x128 ![3, 0] (W26 m ρ c (Proc.devRef .tc main_arg8)) slices_S4x128_S1x128_3_0) shapeCasts_S1x128_S128
abbrev pbe1 : FVec Ideal S128 .f32 := shapeCast S128 (extractStridedSlice S1x128 ![3, 0] (W26 m ρ c (Proc.devRef .tc main_arg9)) slices_S4x128_S1x128_3_0) shapeCasts_S1x128_S128
abbrev pw2 : FVec Ideal S128x128 .f32 := shapeCast S128x128 (extractStridedSlice S1x128x128 ![3, 0, 0] (W26 m ρ c (Proc.devRef .tc main_arg10)) slices_S4x128x128_S1x128x128_3_0_0) shapeCasts_S1x128x128_S128x128
abbrev pb2 : FVec Ideal S128 .f32 := shapeCast S128 (extractStridedSlice S1x128 ![3, 0] (W26 m ρ c (Proc.devRef .tc main_arg11)) slices_S4x128_S1x128_3_0) shapeCasts_S1x128_S128
abbrev pga : FVec Ideal S128 .f32 := shapeCast S128 (extractStridedSlice S1x128 ![3, 0] (W26 m ρ c (Proc.devRef .tc main_arg12)) slices_S4x128_S1x128_3_0) shapeCasts_S1x128_S128
abbrev pba : FVec Ideal S128 .f32 := shapeCast S128 (extractStridedSlice S1x128 ![3, 0] (W26 m ρ c (Proc.devRef .tc main_arg13)) slices_S4x128_S1x128_3_0) shapeCasts_S1x128_S128
abbrev pgl : FVec Ideal S128 .f32 := shapeCast S128 (extractStridedSlice S1x128 ![3, 0] (W26 m ρ c (Proc.devRef .tc main_arg14)) slices_S4x128_S1x128_3_0) shapeCasts_S1x128_S128
abbrev pbl : FVec Ideal S128 .f32 := shapeCast S128 (extractStridedSlice S1x128 ![3, 0] (W26 m ρ c (Proc.devRef .tc main_arg15)) slices_S4x128_S1x128_3_0) shapeCasts_S1x128_S128

/-- A parameter row as the kernel stages it (the slice made a vector, then a one-row matrix), at a column. -/
theorem row_param (a a' : FVec Ideal S4x128 .f32) (h : a = a') (q : Fin 128) :
    (shapeCast S1x128 (shapeCast S128 (extractStridedSlice S1x128 ![3, 0] a slices_S4x128_S1x128_3_0) shapeCasts_S1x128_S128)
        shapeCasts_S128_S1x128 : FVec Ideal S1x128 .f32) (ix2 (0 : Fin 1) q)
      = (shapeCast S128 (extractStridedSlice S1x128 ![3, 0] a' slices_S4x128_S1x128_3_0) shapeCasts_S1x128_S128 : FVec Ideal S128 .f32) (ix1 q) := by
  subst h
  exact shapeCast_a_1a_apply _ shapeCasts_S128_S1x128 (0 : Fin 1) q

/-- The argument buffers are untouched between the layer's entry and its later stretches. -/
theorem w4_arg (a : Ref sig .tc) (h1 : ∀ w, Pipeline.arrRef spec13 w ≠ a)
    (hk : StableHlo.after hostOps13 (W26 m ρ c) (Proc.devRef .tc a) = W26 m ρ c (Proc.devRef .tc a)) :
    W28 m ρ c (Proc.devRef .tc a) = W26 m ρ c (Proc.devRef .tc a) := (W28_of_ne m ρ c a h1).trans hk
theorem w6_arg (a : Ref sig .tc) (h1 : ∀ w, Pipeline.arrRef spec13 w ≠ a) (h2 : ∀ w, Pipeline.arrRef spec14 w ≠ a)
    (hk1 : StableHlo.after hostOps13 (W26 m ρ c) (Proc.devRef .tc a) = W26 m ρ c (Proc.devRef .tc a))
    (hk2 : StableHlo.after hostOps14 (W28 m ρ c) (Proc.devRef .tc a) = W28 m ρ c (Proc.devRef .tc a)) :
    W30 m ρ c (Proc.devRef .tc a) = W26 m ρ c (Proc.devRef .tc a) :=
  ((W30_of_ne m ρ c a h2).trans hk2).trans (w4_arg m ρ c a h1 hk1)
theorem w8_arg (a : Ref sig .tc) (h1 : ∀ w, Pipeline.arrRef spec13 w ≠ a) (h2 : ∀ w, Pipeline.arrRef spec14 w ≠ a)
    (h3 : ∀ w, Pipeline.arrRef spec15 w ≠ a)
    (hk1 : StableHlo.after hostOps13 (W26 m ρ c) (Proc.devRef .tc a) = W26 m ρ c (Proc.devRef .tc a))
    (hk2 : StableHlo.after hostOps14 (W28 m ρ c) (Proc.devRef .tc a) = W28 m ρ c (Proc.devRef .tc a))
    (hk3 : StableHlo.after hostOps15 (W30 m ρ c) (Proc.devRef .tc a) = W30 m ρ c (Proc.devRef .tc a)) :
    W32 m ρ c (Proc.devRef .tc a) = W26 m ρ c (Proc.devRef .tc a) :=
  ((W32_of_ne m ρ c a h3).trans hk3).trans (w6_arg m ρ c a h1 h2 hk1 hk2)

theorem w10_arg (a : Ref sig .tc) (h1 : ∀ w, Pipeline.arrRef spec13 w ≠ a) (h2 : ∀ w, Pipeline.arrRef spec14 w ≠ a)
    (h3 : ∀ w, Pipeline.arrRef spec15 w ≠ a) (h4 : ∀ w, Pipeline.arrRef spec16 w ≠ a)
    (hk1 : StableHlo.after hostOps13 (W26 m ρ c) (Proc.devRef .tc a) = W26 m ρ c (Proc.devRef .tc a))
    (hk2 : StableHlo.after hostOps14 (W28 m ρ c) (Proc.devRef .tc a) = W28 m ρ c (Proc.devRef .tc a))
    (hk3 : StableHlo.after hostOps15 (W30 m ρ c) (Proc.devRef .tc a) = W30 m ρ c (Proc.devRef .tc a))
    (hk4 : StableHlo.after hostOps16 (W32 m ρ c) (Proc.devRef .tc a) = W32 m ρ c (Proc.devRef .tc a)) :
    W34 m ρ c (Proc.devRef .tc a) = W26 m ρ c (Proc.devRef .tc a) :=
  ((W34_of_ne m ρ c a h4).trans hk4).trans (w8_arg m ρ c a h1 h2 h3 hk1 hk2 hk3)

/-! ## Stage 1's statistics, stage 2 -/

section Stage2

open Cert.ReferenceIdeal.RefStats (meanAt varAt)
open Cert.ReferenceIdeal (RefSpec.dense RefSpec.norm)

variable (hy1 : ∀ (r : Fin 50000) (q : Fin 128), IsReal (y1R m ρ c (ix2 r q)))

theorem sum1 (q : Fin 128) : W28 m ρ c (Proc.devRef .tc main_v213_1) (ix2 (0 : Fin 1) q)
    = Ideal.ofBits .f32 0x00000000#32 + ∑ r : Fin 50000, y1R m ρ c (ix2 r q) := by
  have h := KStageAVal_L3.sum_apply (V27 m ρ) c q
  rw [← KStageAVal_L3.final5, y1_eq] at h
  exact (congrFun (W28_arr m ρ c 6) _).trans h

theorem sumsq1 (q : Fin 128) : W28 m ρ c (Proc.devRef .tc main_v213_2) (ix2 (0 : Fin 1) q)
    = Ideal.ofBits .f32 0x00000000#32 + ∑ r : Fin 50000, y1R m ρ c (ix2 r q) * y1R m ρ c (ix2 r q) := by
  have h := KStageAVal_L3.sumsq_apply (V27 m ρ) c q
  rw [← KStageAVal_L3.final5, y1_eq] at h
  exact (congrFun (W28_arr m ρ c 7) _).trans h

include hy1

/-- The second stage's result, as the reference computes it. -/
abbrev y2R : FVec Ideal S50000x128 .f32 :=
  Cert.ReferenceIdeal.RefSpec.dense (Cert.ReferenceIdeal.RefSpec.norm (y1R m ρ c) (pg1 m ρ c) (pbe1 m ρ c)) (pw2 m ρ c) (pb2 m ρ c)

theorem in2_y : KStageBVal_L3.Y1 (V29 m ρ) c = y1R m ρ c :=
  ((KHost.h14_keep_main_v213_0 (W28 m ρ c)).trans (W28_arr m ρ c 5)).trans (y1_eq m ρ c)

theorem in2_m (q : Fin 128) : KStageBVal_L3.M (V29 m ρ) c (ix2 (0 : Fin 1) q) = meanAt (y1R m ρ c) q := by
  show W29 m ρ c (Proc.devRef .tc main_v215) (ix2 (0 : Fin 1) q) = _
  rw [show W29 m ρ c (Proc.devRef .tc main_v215) = _ from KHost.h14_main_v215 (W28 m ρ c)]
  exact mean_of_sum (y1R m ρ c) _ (sum1 m ρ c) q

theorem in2_v (q : Fin 128) : KStageBVal_L3.Vr (V29 m ρ) c (ix2 (0 : Fin 1) q) = varAt (y1R m ρ c) q := by
  show W29 m ρ c (Proc.devRef .tc main_v219) (ix2 (0 : Fin 1) q) = _
  rw [show W29 m ρ c (Proc.devRef .tc main_v219) = _ from KHost.h14_main_v219 (W28 m ρ c)]
  exact var_of_sums (y1R m ρ c) _ _ (sum1 m ρ c) (sumsq1 m ρ c) hy1 q

theorem in2_g (q : Fin 128) : KStageBVal_L3.G (V29 m ρ) c (ix2 (0 : Fin 1) q) = pg1 m ρ c (ix1 q) := by
  show W29 m ρ c (Proc.devRef .tc main_v222) (ix2 (0 : Fin 1) q) = _
  rw [show W29 m ρ c (Proc.devRef .tc main_v222) = _ from KHost.h14_main_v222 (W28 m ρ c)]
  exact row_param _ _ (w4_arg m ρ c main_arg8 (by decide) (KHost.h13_keep_main_arg8 _)) q

theorem in2_be (q : Fin 128) : KStageBVal_L3.Be (V29 m ρ) c (ix2 (0 : Fin 1) q) = pbe1 m ρ c (ix1 q) := by
  show W29 m ρ c (Proc.devRef .tc main_v225) (ix2 (0 : Fin 1) q) = _
  rw [show W29 m ρ c (Proc.devRef .tc main_v225) = _ from KHost.h14_main_v225 (W28 m ρ c)]
  exact row_param _ _ (w4_arg m ρ c main_arg9 (by decide) (KHost.h13_keep_main_arg9 _)) q

theorem in2_w : KStageBVal_L3.Wt (V29 m ρ) c = pw2 m ρ c := by
  show W29 m ρ c (Proc.devRef .tc main_v230) = _
  rw [show W29 m ρ c (Proc.devRef .tc main_v230) = _ from KHost.h14_main_v230 (W28 m ρ c),
    w4_arg m ρ c main_arg10 (by decide) (KHost.h13_keep_main_arg10 _)]

theorem in2_b (q : Fin 128) : KStageBVal_L3.Bs (V29 m ρ) c (ix2 (0 : Fin 1) q) = pb2 m ρ c (ix1 q) := by
  show W29 m ρ c (Proc.devRef .tc main_v228) (ix2 (0 : Fin 1) q) = _
  rw [show W29 m ρ c (Proc.devRef .tc main_v228) = _ from KHost.h14_main_v228 (W28 m ρ c)]
  exact row_param _ _ (w4_arg m ρ c main_arg11 (by decide) (KHost.h13_keep_main_arg11 _)) q

/-- The second region's tile output is the reference's second stage. -/
theorem y2_eq : (dat14 (V29 m ρ) c).arrAt 7 cfg14.N = y2R m ρ c := by
  rw [KStageBVal_L3.final7]
  funext i
  obtain ⟨p, q, rfl⟩ : ∃ (p : Fin 50000) (q : Fin 128), i = ix2 p q := ⟨i 0, i 1, eq_ix2 i⟩
  show KStageBVal_L3.y2At _ _ _ _ _ _ _ p q = _
  unfold KStageBVal_L3.y2At
  show _ = Cert.ReferenceIdeal.RefSpec.dense (F := Ideal) _ _ _ (ix2 p q)
  rw [Cert.ReferenceIdeal.RefSpec.dense_apply, in2_y m ρ c hy1, in2_w m ρ c hy1, in2_b m ρ c hy1]
  refine congrArg (· + _) (Finset.sum_congr rfl fun k _ => ?_)
  rw [Cert.ReferenceIdeal.RefSpec.norm_apply, in2_m m ρ c hy1, in2_v m ρ c hy1, in2_g m ρ c hy1, in2_be m ρ c hy1]
  rfl

end Stage2

/-! ## Stage 2's statistics, stage 3 -/

section Stage3

open Cert.ReferenceIdeal.RefStats (meanAt varAt)

variable (hy1 : ∀ (r : Fin 50000) (q : Fin 128), IsReal (y1R m ρ c (ix2 r q)))
variable (hy2 : ∀ (r : Fin 50000) (q : Fin 128), IsReal (y2R m ρ c (ix2 r q)))

include hy1 hy2

theorem sum2 (q : Fin 128) : W30 m ρ c (Proc.devRef .tc main_v231_1) (ix2 (0 : Fin 1) q)
    = Ideal.ofBits .f32 0x00000000#32 + ∑ r : Fin 50000, y2R m ρ c (ix2 r q) := by
  have h := KStageBVal_L3.sum_apply (V29 m ρ) c q
  rw [← KStageBVal_L3.final7, y2_eq m ρ c hy1] at h
  exact (congrFun (W30_arr m ρ c 8) _).trans h

theorem sumsq2 (q : Fin 128) : W30 m ρ c (Proc.devRef .tc main_v231_2) (ix2 (0 : Fin 1) q)
    = Ideal.ofBits .f32 0x00000000#32 + ∑ r : Fin 50000, y2R m ρ c (ix2 r q) * y2R m ρ c (ix2 r q) := by
  have h := KStageBVal_L3.sumsq_apply (V29 m ρ) c q
  rw [← KStageBVal_L3.final7, y2_eq m ρ c hy1] at h
  exact (congrFun (W30_arr m ρ c 9) _).trans h

/-- The third stage's result, as the reference computes it. -/
abbrev cR : FVec Ideal S50000x128 .f32 := Cert.ReferenceIdeal.RefSpec.norm (y2R m ρ c) (pga m ρ c) (pba m ρ c)

theorem in3_y : KStageCVal_L3.Y2 (V31 m ρ) c = y2R m ρ c :=
  ((KHost.h15_keep_main_v231_0 (W30 m ρ c)).trans (W30_arr m ρ c 7)).trans (y2_eq m ρ c hy1)

theorem in3_m (q : Fin 128) : KStageCVal_L3.M (V31 m ρ) c (ix2 (0 : Fin 1) q) = meanAt (y2R m ρ c) q := by
  show W31 m ρ c (Proc.devRef .tc main_v233) (ix2 (0 : Fin 1) q) = _
  rw [show W31 m ρ c (Proc.devRef .tc main_v233) = _ from KHost.h15_main_v233 (W30 m ρ c)]
  exact mean_of_sum (y2R m ρ c) _ (sum2 m ρ c hy1 hy2) q

theorem in3_v (q : Fin 128) : KStageCVal_L3.Vr (V31 m ρ) c (ix2 (0 : Fin 1) q) = varAt (y2R m ρ c) q := by
  show W31 m ρ c (Proc.devRef .tc main_v237) (ix2 (0 : Fin 1) q) = _
  rw [show W31 m ρ c (Proc.devRef .tc main_v237) = _ from KHost.h15_main_v237 (W30 m ρ c)]
  exact var_of_sums (y2R m ρ c) _ _ (sum2 m ρ c hy1 hy2) (sumsq2 m ρ c hy1 hy2) hy2 q

theorem in3_g (q : Fin 128) : KStageCVal_L3.G (V31 m ρ) c (ix2 (0 : Fin 1) q) = pga m ρ c (ix1 q) := by
  show W31 m ρ c (Proc.devRef .tc main_v240) (ix2 (0 : Fin 1) q) = _
  rw [show W31 m ρ c (Proc.devRef .tc main_v240) = _ from KHost.h15_main_v240 (W30 m ρ c)]
  exact row_param _ _ (w6_arg m ρ c main_arg12 (by decide) (by decide) (KHost.h13_keep_main_arg12 _) (KHost.h14_keep_main_arg12 _)) q

theorem in3_be (q : Fin 128) : KStageCVal_L3.Be (V31 m ρ) c (ix2 (0 : Fin 1) q) = pba m ρ c (ix1 q) := by
  show W31 m ρ c (Proc.devRef .tc main_v243) (ix2 (0 : Fin 1) q) = _
  rw [show W31 m ρ c (Proc.devRef .tc main_v243) = _ from KHost.h15_main_v243 (W30 m ρ c)]
  exact row_param _ _ (w6_arg m ρ c main_arg13 (by decide) (by decide) (KHost.h13_keep_main_arg13 _) (KHost.h14_keep_main_arg13 _)) q

/-- The third region's tile output is the reference's third stage. -/
theorem c_eq : (dat15 (V31 m ρ) c).arrAt 5 cfg15.N = cR m ρ c := by
  rw [KStageCVal_L3.final5]
  funext i
  obtain ⟨p, q, rfl⟩ : ∃ (p : Fin 50000) (q : Fin 128), i = ix2 p q := ⟨i 0, i 1, eq_ix2 i⟩
  show KStageCVal_L3.cAt _ _ _ _ _ p q = _
  unfold KStageCVal_L3.cAt
  show _ = Cert.ReferenceIdeal.RefSpec.norm (F := Ideal) _ _ _ (ix2 p q)
  rw [Cert.ReferenceIdeal.RefSpec.norm_apply, in3_y m ρ c hy1 hy2, in3_m m ρ c hy1 hy2, in3_v m ρ c hy1 hy2, in3_g m ρ c hy1 hy2, in3_be m ρ c hy1 hy2]
  rfl

end Stage3

/-! ## Stage 3's statistics, the closing stage -/

section Stage4

open Cert.ReferenceIdeal.RefStats (meanAt varAt)

variable (hy1 : ∀ (r : Fin 50000) (q : Fin 128), IsReal (y1R m ρ c (ix2 r q)))
variable (hy2 : ∀ (r : Fin 50000) (q : Fin 128), IsReal (y2R m ρ c (ix2 r q)))
variable (hc : ∀ (r : Fin 50000) (q : Fin 128), IsReal (cR m ρ c (ix2 r q)))

include hy1 hy2 hc

theorem sum3 (q : Fin 128) : W32 m ρ c (Proc.devRef .tc main_v244_1) (ix2 (0 : Fin 1) q)
    = Ideal.ofBits .f32 0x00000000#32 + ∑ r : Fin 50000, cR m ρ c (ix2 r q) := by
  have h := KStageCVal_L3.sum_apply (V31 m ρ) c q
  rw [← KStageCVal_L3.final5, c_eq m ρ c hy1 hy2] at h
  exact (congrFun (W32_arr m ρ c 6) _).trans h

theorem sumsq3 (q : Fin 128) : W32 m ρ c (Proc.devRef .tc main_v244_2) (ix2 (0 : Fin 1) q)
    = Ideal.ofBits .f32 0x00000000#32 + ∑ r : Fin 50000, cR m ρ c (ix2 r q) * cR m ρ c (ix2 r q) := by
  have h := KStageCVal_L3.sumsq_apply (V31 m ρ) c q
  rw [← KStageCVal_L3.final5, c_eq m ρ c hy1 hy2] at h
  exact (congrFun (W32_arr m ρ c 7) _).trans h

theorem in4_c : KStageDVal_L3.Cc (V33 m ρ) c = cR m ρ c :=
  ((KHost.h16_keep_main_v244_0 (W32 m ρ c)).trans (W32_arr m ρ c 5)).trans (c_eq m ρ c hy1 hy2)

theorem in4_m (q : Fin 128) : KStageDVal_L3.Mn (V33 m ρ) c (ix2 (0 : Fin 1) q) = meanAt (cR m ρ c) q := by
  show W33 m ρ c (Proc.devRef .tc main_v246) (ix2 (0 : Fin 1) q) = _
  rw [show W33 m ρ c (Proc.devRef .tc main_v246) = _ from KHost.h16_main_v246 (W32 m ρ c)]
  exact mean_of_sum (cR m ρ c) _ (sum3 m ρ c hy1 hy2 hc) q

theorem in4_v (q : Fin 128) : KStageDVal_L3.Vr (V33 m ρ) c (ix2 (0 : Fin 1) q) = varAt (cR m ρ c) q := by
  show W33 m ρ c (Proc.devRef .tc main_v250) (ix2 (0 : Fin 1) q) = _
  rw [show W33 m ρ c (Proc.devRef .tc main_v250) = _ from KHost.h16_main_v250 (W32 m ρ c)]
  exact var_of_sums (cR m ρ c) _ _ (sum3 m ρ c hy1 hy2 hc) (sumsq3 m ρ c hy1 hy2 hc) hc q

theorem in4_g (q : Fin 128) : KStageDVal_L3.Gm (V33 m ρ) c (ix2 (0 : Fin 1) q) = pgl m ρ c (ix1 q) := by
  show W33 m ρ c (Proc.devRef .tc main_v253) (ix2 (0 : Fin 1) q) = _
  rw [show W33 m ρ c (Proc.devRef .tc main_v253) = _ from KHost.h16_main_v253 (W32 m ρ c)]
  exact row_param _ _ (w8_arg m ρ c main_arg14 (by decide) (by decide) (by decide) (KHost.h13_keep_main_arg14 _) (KHost.h14_keep_main_arg14 _) (KHost.h15_keep_main_arg14 _)) q

theorem in4_be (q : Fin 128) : KStageDVal_L3.Bt (V33 m ρ) c (ix2 (0 : Fin 1) q) = pbl m ρ c (ix1 q) := by
  show W33 m ρ c (Proc.devRef .tc main_v256) (ix2 (0 : Fin 1) q) = _
  rw [show W33 m ρ c (Proc.devRef .tc main_v256) = _ from KHost.h16_main_v256 (W32 m ρ c)]
  exact row_param _ _ (w8_arg m ρ c main_arg15 (by decide) (by decide) (by decide) (KHost.h13_keep_main_arg15 _) (KHost.h14_keep_main_arg15 _) (KHost.h15_keep_main_arg15 _)) q

theorem in4_h : KStageDVal_L3.Hh (V33 m ρ) c = hin m ρ c :=
  (KHost.h16_keep_main_v193 (W32 m ρ c)).trans <| (W32_of_ne m ρ c main_v193 (by decide)).trans <|
    (KHost.h15_keep_main_v193 (W30 m ρ c)).trans <| (W30_of_ne m ρ c main_v193 (by decide)).trans <|
    (KHost.h14_keep_main_v193 (W28 m ρ c)).trans <| (W28_arr m ρ c 0).trans <|
    ((dat13 (V27 m ρ) c).arrAt_in 0 rfl _).trans <| (A_eq13 (V27 m ρ) c 0).trans (KHost.h13_keep_main_v193 (W26 m ρ c))

/-- THE LAYER: the closing region's output array is the reference's layer of the layer's input and parameter slices. -/
theorem layer_eq :
    W34 m ρ c (Proc.devRef .tc main_v257)
      = Cert.ReferenceIdeal.RefSpec.layer (src m ρ c) (hin m ρ c) (dst m ρ c) (pe m ρ c) (pw1 m ρ c) (pb1 m ρ c) (pg1 m ρ c)
          (pbe1 m ρ c) (pw2 m ρ c) (pb2 m ρ c) (pga m ρ c) (pba m ρ c) (pgl m ρ c) (pbl m ρ c) := by
  refine (W34_arr m ρ c 6).trans ?_
  rw [KStageDVal_L3.final]
  funext i
  obtain ⟨p, q, rfl⟩ : ∃ (p : Fin 50000) (q : Fin 128), i = ix2 p q := ⟨i 0, i 1, eq_ix2 i⟩
  show KStageDVal_L3.outAt _ _ _ _ _ _ p q = _
  unfold KStageDVal_L3.outAt Cert.ReferenceIdeal.RefSpec.layer
  rw [in4_c m ρ c hy1 hy2 hc, in4_h m ρ c hy1 hy2 hc, in4_m m ρ c hy1 hy2 hc, in4_v m ρ c hy1 hy2 hc, in4_g m ρ c hy1 hy2 hc, in4_be m ρ c hy1 hy2 hc]
  show _ = hin m ρ c (ix2 p q) + Cert.ReferenceIdeal.RefSpec.norm (F := Ideal) (cR m ρ c) (pgl m ρ c) (pbl m ρ c) (ix2 p q)
  rw [Cert.ReferenceIdeal.RefSpec.norm_apply]
  rfl

end Stage4

/-- THE LAYER, from real inputs: with the layer's input features and parameter slices real, every intermediate is real,
    so the two forms of each variance agree and the kernel's layer is the reference's. -/
theorem layer_eq_real
    (hh : ∀ (p : Fin 50000) (q : Fin 128), IsReal (hin m ρ c (ix2 p q)))
    (he : IsReal (pe m ρ c (Shape.Idx.first Cert.ReferenceIdeal.Gen.h_S_)))
    (hw1 : ∀ (k q : Fin 128), IsReal (pw1 m ρ c (ix2 k q))) (hb1 : ∀ q : Fin 128, IsReal (pb1 m ρ c (ix1 q)))
    (hg1 : ∀ q : Fin 128, IsReal (pg1 m ρ c (ix1 q))) (hbe1 : ∀ q : Fin 128, IsReal (pbe1 m ρ c (ix1 q)))
    (hw2 : ∀ (k q : Fin 128), IsReal (pw2 m ρ c (ix2 k q))) (hb2 : ∀ q : Fin 128, IsReal (pb2 m ρ c (ix1 q)))
    (hga : ∀ q : Fin 128, IsReal (pga m ρ c (ix1 q))) (hba : ∀ q : Fin 128, IsReal (pba m ρ c (ix1 q)))
    (hgl : ∀ q : Fin 128, IsReal (pgl m ρ c (ix1 q))) (hbl : ∀ q : Fin 128, IsReal (pbl m ρ c (ix1 q))) :
    W34 m ρ c (Proc.devRef .tc main_v257)
      = Cert.ReferenceIdeal.RefSpec.layer (src m ρ c) (hin m ρ c) (dst m ρ c) (pe m ρ c) (pw1 m ρ c) (pb1 m ρ c) (pg1 m ρ c)
          (pbe1 m ρ c) (pw2 m ρ c) (pb2 m ρ c) (pga m ρ c) (pba m ρ c) (pgl m ρ c) (pbl m ρ c) := by
  have hy1 : ∀ (r : Fin 50000) (q : Fin 128), IsReal (y1R m ρ c (ix2 r q)) :=
    Cert.LayerReal.dense_isReal _ _ _ (Cert.LayerReal.mix_isReal _ _ _ _ he hh) hw1 hb1
  have hy2 : ∀ (r : Fin 50000) (q : Fin 128), IsReal (y2R m ρ c (ix2 r q)) :=
    Cert.LayerReal.dense_isReal _ _ _ (Cert.LayerReal.norm_isReal _ _ _ hy1 hg1 hbe1) hw2 hb2
  have hc : ∀ (r : Fin 50000) (q : Fin 128), IsReal (cR m ρ c (ix2 r q)) :=
    Cert.LayerReal.norm_isReal _ _ _ hy2 hga hba
  exact layer_eq m ρ c hy1 hy2 hc

end Cert.KernelIdeal.KLayer3

end
-- ==== Proof.KEmbed.lean ====
/-
  The embedding region, read as a value: each of its ten grid points multiplies a tile of 5000 rows of the node
  features by the 128 × 128 weight matrix (both rounded to bf16 first, which is the identity at the exact reading)
  into a zero accumulator and adds the bias row, and writes the tile of the output back.  The output tiles partition
  the 50000 rows, so after the region the output array is, entry by entry,

      out (r, j) = Σ_k x (r, k) · w (k, j) + b (0, j)

  of the arrays the region finds.
-/
import proofs.«140776_j80633716015159_1_alg».proof.Proof.Gen.KernelIdeal.Frame
import Idealize.ShloMosaic.Lib.ValueIdx
import Idealize.ShloMosaic.Lib.ValueLayout
import Idealize.ShloMosaic.Lib.Pipeline.Value
import Idealize.ShloMosaic.PureOps.Ideal.Laws

set_option maxRecDepth 16384

noncomputable section

namespace Cert.KernelIdeal.KEmbed

open Cert.KernelIdeal Cert.KernelIdeal.Gen
open Idealize.ShloMosaic Idealize.ShloMosaic.TcCoe Idealize.ShloMosaic.ValueIdx Idealize.SL.Sem
open Idealize.ShloMosaic.Pipeline (Dat Cfg Window)

/-- One entry of `x · w + b` (rows of `x` against columns of `w`, the one-row `b` added). -/
def denseAt {n : Nat} (x : (⟨2, ![n, 128]⟩ : Shape).Idx → EReal) (w : (⟨2, ![128, 128]⟩ : Shape).Idx → EReal)
    (b : (⟨2, ![1, 128]⟩ : Shape).Idx → EReal) (p : Fin n) (q : Fin 128) : EReal :=
  (∑ k : Fin 128, x (ix2 p k) * w (ix2 k q)) + b (ix2 (0 : Fin 1) q)

/-- `x · w + b` as an array. -/
def dense {n : Nat} (x : (⟨2, ![n, 128]⟩ : Shape).Idx → EReal) (w : (⟨2, ![128, 128]⟩ : Shape).Idx → EReal)
    (b : (⟨2, ![1, 128]⟩ : Shape).Idx → EReal) : (⟨2, ![n, 128]⟩ : Shape).Idx → EReal :=
  fun i => denseAt x w b ⟨(i 0).val, idx2_lt0 i⟩ ⟨(i 1).val, idx2_lt1 i⟩

/-- The tile product's dimension numbers. -/
abbrev D0 := dot_S5000x128_S128x128_S5000x128_1_0_0_1_n_n

theorem lhs0 (i : S5000x128.Idx) (q : D0.contr.Idx) : (D0.lhsIdx i q 0).val = (i 0).val := by
  unfold DotDims.lhsIdx
  rw [dif_neg (show ¬(0 : Fin S5000x128.rank) ∈ D0.lhsBatch by decide), dif_pos (show (0 : Fin S5000x128.rank) ∈ D0.lhsNonContracting by decide)]
  rfl
theorem lhs1 (i : S5000x128.Idx) (q : D0.contr.Idx) : (D0.lhsIdx i q 1).val = (q ⟨0, by decide⟩).val :=
  D0.lhsIdx_val_of_single rfl i q
theorem rhs0 (i : S5000x128.Idx) (q : D0.contr.Idx) : (D0.rhsIdx i q 0).val = (q ⟨0, by decide⟩).val :=
  D0.rhsIdx_val_of_single rfl i q
theorem rhs1 (i : S5000x128.Idx) (q : D0.contr.Idx) : (D0.rhsIdx i q 1).val = (i 1).val := by
  unfold DotDims.rhsIdx
  rw [dif_neg (show ¬(1 : Fin S128x128.rank) ∈ D0.rhsBatch by decide), dif_pos (show (1 : Fin S128x128.rank) ∈ D0.rhsNonContracting by decide)]
  rfl

/-- The body's one stored value at an entry of the tile. -/
theorem pay_apply (x0 : Vec Ideal S5000x128 .f32) (x1 : Vec Ideal S128x128 .f32) (x2 : Vec Ideal S1x128 .f32)
    (p : Fin 5000) (q : Fin 128) : k0_pay1 x0 x1 x2 (ix2 p q) = denseAt x0 x1 x2 p q := by
  have h1 : (matmul D0 none (truncf .bf16 x0 bitsLt_bf16_f32) (truncf .bf16 x1 bitsLt_bf16_f32)
      (constant S5000x128 .f32 0x00000000#32) : FVec Ideal S5000x128 .f32) (ix2 p q)
      = ∑ k : Fin 128, x0 (ix2 p k) * x1 (ix2 k q) := by
    refine (Ideal.matmul_constant_zero_apply D0 none _ _ (ix2 p q)).trans ?_
    rw [← Equiv.sum_comp (contrEquiv1 D0 128 rfl rfl).symm]
    refine Finset.sum_congr rfl fun k _ => ?_
    have hk := contrEquiv1_symm_val D0 128 rfl rfl k
    have el : D0.lhsIdx (ix2 p q) ((contrEquiv1 D0 128 rfl rfl).symm k) = ix2 p k := funext fun a => Fin.ext (by
      match a with
      | ⟨0, _⟩ => exact lhs0 _ _
      | ⟨1, _⟩ => exact (lhs1 _ _).trans hk)
    have er : D0.rhsIdx (ix2 p q) ((contrEquiv1 D0 128 rfl rfl).symm k) = ix2 k q := funext fun a => Fin.ext (by
      match a with
      | ⟨0, _⟩ => exact (rhs0 _ _).trans hk
      | ⟨1, _⟩ => exact rhs1 _ _)
    rw [el, er]
    rfl
  have h2 : (broadcastTo S5000x128 (shapeCast S1x128 x2 shapeCasts_S1x128_S1x128) broadcasts_S1x128_S5000x128 :
      FVec Ideal S5000x128 .f32) (ix2 p q) = x2 (ix2 (0 : Fin 1) q) := by
    rw [shapeCast_self]
    exact broadcastTo_1b_ab_apply x2 broadcasts_S1x128_S5000x128 p q
  unfold k0_pay1 denseAt
  exact congrArg₂ (· + ·) h1 h2

/-! ## From the tiles to the array -/

/-- The value a point stores at an entry of its tile, when the tile of `x` it loaded is rows `5000·T …` of an
    array `x` and the other two blocks are whole arrays `w`, `b`: the entry of `x · w + b` at the array's row. -/
theorem point (x : (⟨2, ![50000, 128]⟩ : Shape).Idx → EReal) (w : (⟨2, ![128, 128]⟩ : Shape).Idx → EReal)
    (b : (⟨2, ![1, 128]⟩ : Shape).Idx → EReal)
    (x0 : Vec Ideal S5000x128 .f32) (x1 : Vec Ideal S128x128 .f32) (x2 : Vec Ideal S1x128 .f32)
    (T : Nat) (j : S5000x128.Idx) (i : S50000x128.Idx)
    (hi0 : (i 0).val = T * 5000 + (j 0).val) (hi1 : (i 1).val = (j 1).val)
    (h0 : ∀ (y : S5000x128.Idx) (z : S50000x128.Idx), (z 0).val = T * 5000 + (y 0).val → (z 1).val = (y 1).val → x0 y = x z)
    (h1 : x1 = w) (h2 : x2 = b) :
    k0_pay1 x0 x1 x2 j = dense x w b i := by
  subst h1 h2
  obtain ⟨p, q, rfl⟩ : ∃ (p : Fin 5000) (q : Fin 128), j = ix2 p q := ⟨j 0, j 1, eq_ix2 j⟩
  rw [pay_apply]
  unfold dense denseAt
  have hq : (⟨(i 1).val, idx2_lt1 i⟩ : Fin 128) = q := Fin.ext hi1
  rw [hq]
  refine congrArg (· + _) (Finset.sum_congr rfl fun k _ => ?_)
  rw [h0 (ix2 p k) (ix2 ⟨(i 0).val, idx2_lt0 i⟩ k) hi0 rfl]

variable (V : (c : Dev nD) → (b : Ref sig .tc) → Buf (Elt Ideal) ((c : Thread nD τ).loc b))

theorem hz : (![0, 0] : Fin 2 → Nat) = fun _ => 0 := funext fun a => by fin_cases a <;> rfl

/-- The printed index maps over the ten points: the feature and output tiles move down the rows with the point, the
    weight matrix and the bias row are fetched whole. -/
theorem idx_facts : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

/-- The arrays the region finds. -/
abbrev X (c : Dev nD) : S50000x128.Idx → EReal := V c (Pipeline.arrRef spec0 0)
abbrev Wt (c : Dev nD) : S128x128.Idx → EReal := V c (Pipeline.arrRef spec0 1)
abbrev B (c : Dev nD) : S1x128.Idx → EReal := V c (Pipeline.arrRef spec0 2)

/-- The feature tile at point `t` is rows `5000·t …` of the feature array. -/
theorem iblk_x (c : Dev nD) (t : Fin cfg0.N) (y : S5000x128.Idx) (z : S50000x128.Idx)
    (h0 : (z 0).val = t.val * 5000 + (y 0).val) (h1 : (z 1).val = (y 1).val) :
    (iblk0 V c 0 t : Vec Ideal S5000x128 .f32) y = X V c z := by
  obtain ⟨e00, e01, -⟩ := idx_facts t
  unfold iblk0
  rw [View.read_apply]
  refine congrArg (V c (Pipeline.arrRef spec0 0)) (funext fun a => Fin.ext ?_)
  match a with
  | ⟨0, _⟩ => show win0_0.index t 0 * 5000 + 1 * (y 0).val = (z 0).val; rw [e00, h0]; omega
  | ⟨1, _⟩ => show win0_0.index t 1 * 128 + 1 * (y 1).val = (z 1).val; rw [e01, h1]; omega

/-- The weight block is the weight array, at every point. -/
theorem iblk_w (c : Dev nD) (t : Fin cfg0.N) : (iblk0 V c 1 t : Vec Ideal S128x128 .f32) = Wt V c := by
  obtain ⟨-, -, e10, e11, -⟩ := idx_facts t
  funext y
  unfold iblk0
  rw [View.read_apply]
  refine congrArg (V c (Pipeline.arrRef spec0 1)) (funext fun a => Fin.ext ?_)
  match a with
  | ⟨0, _⟩ => show win0_1.index t 0 * 128 + 1 * (y 0).val = (y 0).val; rw [e10]; omega
  | ⟨1, _⟩ => show win0_1.index t 1 * 128 + 1 * (y 1).val = (y 1).val; rw [e11]; omega

/-- The bias block is the bias row, at every point. -/
theorem iblk_b (c : Dev nD) (t : Fin cfg0.N) : (iblk0 V c 2 t : Vec Ideal S1x128 .f32) = B V c := by
  obtain ⟨-, -, -, -, e20, e21, -⟩ := idx_facts t
  funext y
  unfold iblk0
  rw [View.read_apply]
  refine congrArg (V c (Pipeline.arrRef spec0 2)) (funext fun a => Fin.ext ?_)
  match a with
  | ⟨0, _⟩ => show win0_2.index t 0 * 1 + 1 * (y 0).val = (y 0).val; rw [e20]; omega
  | ⟨1, _⟩ => show win0_2.index t 1 * 128 + 1 * (y 1).val = (y 1).val; rw [e21]; omega

/-- What point `t` writes back is tile `t` of `x · w + b`. -/
theorem flushed_eq (c : Dev nD) (t : Fin cfg0.N) :
    (dat0 V c).flushed 3 t = ((cfg0.win 3).blk t).view.read (Elt Ideal) (dense (X V c) (Wt V c) (B V c)) := by
  show (cfg0.win 3).cut (grid0.coords t) ((dat0 V c).after 3 t) = _
  rw [after0_3]
  unfold out0_3
  rw [View.canon_unit_zero hz]
  simp only [View.ld_unit_zero (S := S5000x128) hz, View.ld_unit_zero (S := S128x128) hz, View.ld_unit_zero (S := S1x128) hz]
  obtain ⟨-, -, -, -, -, -, e30, e31⟩ := idx_facts t
  funext j
  rw [View.read_apply]
  refine point (X V c) (Wt V c) (B V c) (iblk0 V c 0 t) (iblk0 V c 1 t) (iblk0 V c 2 t) t.val j _ ?_ ?_
    (fun y z h0 h1 => iblk_x V c t y z h0 h1) (iblk_w V c t) (iblk_b V c t)
  · show win0_3.index t 0 * 5000 + 1 * (j 0).val = t.val * 5000 + (j 0).val
    rw [e30]; omega
  · show win0_3.index t 1 * 128 + 1 * (j 1).val = (j 1).val
    rw [e31]; omega

/-- Membership in a point's output tile, coordinate by coordinate. -/
theorem mem_blk (t : Fin cfg0.N) (i : S50000x128.Idx) :
    i ∈ ((cfg0.win 3).blk t).view.set ↔ ∀ a : Fin 2, win0_3.index t a * S5000x128.size a ≤ (i a).val
      ∧ (i a).val < win0_3.index t a * S5000x128.size a + S5000x128.size a := by
  show i ∈ ((View.whole main_v1).slice (win0_3.rect t)).set ↔ _
  rw [View.set_slice_whole, Rect.mem_set_unit]
  exact Iff.rfl

/-- Row `r` lies in the tile of point `r / 5000`. -/
theorem cover (i : S50000x128.Idx) :
    ∃ t : Fin cfg0.N, (cfg0.win 3).flush t = true ∧ i ∈ ((cfg0.win 3).blk t).view.set := by
  have hi0 : (i 0).val < 50000 := idx2_lt0 i
  have hi1 : (i 1).val < 128 := idx2_lt1 i
  have hN : grid0.N = 10 := N_0
  have ht : (i 0).val / 5000 < cfg0.N := by show _ < grid0.N; rw [hN]; omega
  obtain ⟨-, -, -, -, -, -, e30, e31⟩ := idx_facts ⟨(i 0).val / 5000, ht⟩
  refine ⟨⟨(i 0).val / 5000, ht⟩, flush0_3 _, ?_⟩
  rw [mem_blk]
  intro a
  match a with
  | ⟨0, _⟩ =>
    show win0_3.index ⟨(i 0).val / 5000, ht⟩ 0 * 5000 ≤ (i 0).val ∧ (i 0).val < win0_3.index ⟨(i 0).val / 5000, ht⟩ 0 * 5000 + 5000
    rw [e30]; show (i 0).val / 5000 * 5000 ≤ (i 0).val ∧ (i 0).val < (i 0).val / 5000 * 5000 + 5000; omega
  | ⟨1, _⟩ =>
    show win0_3.index ⟨(i 0).val / 5000, ht⟩ 1 * 128 ≤ (i 1).val ∧ (i 1).val < win0_3.index ⟨(i 0).val / 5000, ht⟩ 1 * 128 + 128
    rw [e31]; omega

/-- After the region the output array is `x · w + b` of the arrays the region finds. -/
theorem final (c : Dev nD) : (dat0 V c).arrAt 3 cfg0.N = dense (X V c) (Wt V c) (B V c) :=
  (dat0 V c).arrAt_eq_of_cover 3 _ (fun t _ => flushed_eq V c t) cover

end Cert.KernelIdeal.KEmbed

end
-- ==== Proof.KEmbedEq.lean ====
/-
  The embedding region's output is the reference's dense layer of the argument arrays.

  After the first region the output array holds, entry by entry, `Σ_k x (r, k) · w (k, j) + b (0, j)` of the arrays
  the region finds.  Those arrays are the contents after the first host stretch: the stretch leaves the node features
  and the weight matrix as launched, and writes the bias vector, cast to one row, where the region reads its bias.
  So the output array is `x · w + b` of the launched features, weights and bias, which is how the reference's dense
  layer reads at an entry.  An argument buffer that the region does not own and the stretch does not write holds at
  the region's exit what it held at launch.
-/
import proofs.«140776_j80633716015159_1_alg».proof.Proof.Gen.KernelIdeal.Frame
import proofs.«140776_j80633716015159_1_alg».proof.Proof.KEmbed
import proofs.«140776_j80633716015159_1_alg».proof.Proof.KHost
import proofs.«140776_j80633716015159_1_alg».proof.Proof.RefSpec

set_option maxRecDepth 16384

noncomputable section

namespace Cert.KernelIdeal.KEmbedEq

open Cert.KernelIdeal Cert.KernelIdeal.Gen
open Idealize.ShloMosaic Idealize.ShloMosaic.TcCoe Idealize.ShloMosaic.ValueIdx Idealize.SL.Sem Idealize.ShloMosaic.StableHlo

variable (m : (ℓ : Loc nD τ sig) → Buf (Elt Ideal) ℓ) (ρ : Dev nD → PrngReg) (c : Dev nD)

/-- An argument buffer that the first region does not own and the first host stretch leaves alone holds, at the
    region's exit, what it held at launch. -/
theorem w2_arg (a : Ref sig .tc) (h0 : ∀ w, Pipeline.arrRef spec0 w ≠ a)
    (hk : StableHlo.after hostOps0 (W0 m ρ c) (Proc.devRef .tc a) = W0 m ρ c (Proc.devRef .tc a)) :
    W2 m ρ c (Proc.devRef .tc a) = m ((c : Thread nD τ).loc a) :=
  ((W2_of_ne m ρ c a h0).trans hk).trans rfl

/-- The feature array the region finds is the launched node features. -/
theorem in_x : KEmbed.X (V1 m ρ) c = m ((c : Thread nD τ).loc main_arg0) :=
  (KHost.h0_keep_main_arg0 (W0 m ρ c)).trans rfl

/-- The weight array the region finds is the launched weight matrix. -/
theorem in_w : KEmbed.Wt (V1 m ρ) c = m ((c : Thread nD τ).loc main_arg3) :=
  (KHost.h0_keep_main_arg3 (W0 m ρ c)).trans rfl

/-- The bias row the region finds is the launched bias vector, read at the column. -/
theorem in_b (q : Fin 128) :
    KEmbed.B (V1 m ρ) c (ix2 (0 : Fin 1) q) = (m ((c : Thread nD τ).loc main_arg4) : FVec Ideal S128 .f32) (ix1 q) := by
  show W1 m ρ c (Proc.devRef .tc main_v0) (ix2 (0 : Fin 1) q) = _
  rw [show W1 m ρ c (Proc.devRef .tc main_v0) = _ from KHost.h0_main_v0 (W0 m ρ c)]
  exact shapeCast_a_1a_apply _ shapeCasts_S128_S1x128 (0 : Fin 1) q

/-- At the first region's exit its output array is the reference's dense layer of the launched arrays. -/
theorem embed_eq : (W2 m ρ c (Proc.devRef .tc main_v1) : S50000x128.Idx → EReal)
    = Cert.ReferenceIdeal.RefSpec.dense (F := Ideal) (m ((c : Thread nD τ).loc main_arg0))
        (m ((c : Thread nD τ).loc main_arg3)) (m ((c : Thread nD τ).loc main_arg4)) := by
  rw [show W2 m ρ c (Proc.devRef .tc main_v1) = (dat0 (V1 m ρ) c).arrAt 3 cfg0.N from W2_arr m ρ c 3, KEmbed.final]
  funext i
  obtain ⟨p, q, rfl⟩ : ∃ (p : Fin 50000) (q : Fin 128), i = ix2 p q := ⟨i 0, i 1, eq_ix2 i⟩
  show KEmbed.denseAt (KEmbed.X (V1 m ρ) c) (KEmbed.Wt (V1 m ρ) c) (KEmbed.B (V1 m ρ) c) p q = _
  unfold KEmbed.denseAt
  rw [Cert.ReferenceIdeal.RefSpec.dense_apply, in_x, in_w, in_b]

end Cert.KernelIdeal.KEmbedEq

end
-- ==== Proof.PreReal.lean ====
/-
  From the precondition to real entries.

  The precondition says of each of the fourteen float arguments that every entry's absolute value is below +∞
  (a conjunction of fourteen "for all entries" read off a reduction by `and`).  At the exact reading an extended real
  whose absolute value `max x (−x)` is below +∞ is neither +∞ nor −∞: it is a real number.
-/
import proofs.«140776_j80633716015159_1_alg».proof.Defs
import proofs.«140776_j80633716015159_1_alg».proof.Proof.Gen.Pre_finite_inputs
import proofs.«140776_j80633716015159_1_alg».proof.Proof.LibBatchNorm
import Idealize.ShloMosaic.Lib.ReduceAll
import Idealize.ShloMosaic.Lib.ValueIdx
import Idealize.ShloMosaic.Lib.Pipeline.Value
import Idealize.ShloMosaic.PureOps.Ideal.Laws

set_option maxRecDepth 16384

noncomputable section

namespace Cert.PreReal

open Idealize.ShloMosaic Idealize.ShloMosaic.TcCoe Idealize.ShloMosaic.ValueIdx Idealize.SL.Sem
open Cert.Pre_finite_inputs
open LibBatchNorm (IsReal)

/-- The scalar shape has one index. -/
instance : Subsingleton S_.Idx := ⟨fun a b => funext fun d => d.elim0⟩

/-- A one-bit word made from a truth value is 1 only when the truth value is true. -/
theorem ofBool_one {b : Bool} (h : BitVec.ofBool b = 1#1) : b = true := by
  cases b
  · exact absurd h (by decide)
  · rfl

/-- The f32 pattern of +∞ denotes +∞. -/
theorem ofBits_inf : Ideal.ofBits .f32 0x7F800000#32 = (⊤ : EReal) := by
  simp [Ideal.ofBits, Ideal.ieee]

/-- An extended real whose absolute value is below +∞ is a real number. -/
theorem isReal_of_abs_lt_top (x : EReal) (h : max x (-x) < ⊤) : IsReal x := by
  induction x using EReal.rec with
  | bot => simp at h
  | coe r => exact ⟨r, rfl⟩
  | top => simp at h

/-- An entry whose comparison `|x| < +∞` came out 1 is real. -/
theorem entry_real {s : Shape} (hb : S_.BroadcastsInDim s (![] : Fin 0 → Fin s.rank)) (x : FVec Ideal s .f32) (i : s.Idx)
    (h : (cmpf .olt (Host.absf x) (broadcastInDim s ![] hb (constant (F := Ideal) S_ .f32 0x7F800000#32)) : IVec s 1) i = 1#1) :
    IsReal (x i) := by
  have hb' : broadcastInDim s ![] hb (constant (F := Ideal) S_ .f32 0x7F800000#32) i = Ideal.ofBits .f32 0x7F800000#32 :=
    broadcastInDim_apply _ _ _ i (Shape.Idx.first Cert.Pre_finite_inputs.Gen.h_S_) fun a => a.elim0
  have h' : Ideal.cmp .olt (max (x i) (-(x i))) (Ideal.ofBits .f32 0x7F800000#32) = 1#1 := by
    rw [← hb']; exact h
  rw [ofBits_inf] at h'
  unfold Ideal.cmp at h'
  exact isReal_of_abs_lt_top _ (of_decide_eq_true (ofBool_one h'))

/-- The precondition function all ones: every entry of each float argument is real. -/
theorem fn_real [Facts] (a0 : FVec Ideal S50000x128 .f32) (a1 : IVec S1600000 32) (a2 : IVec S1600000 32) (a3 : FVec Ideal S128x128 .f32) (a4 : FVec Ideal S128 .f32) (a5 : FVec Ideal S4 .f32) (a6 : FVec Ideal S4x128x128 .f32) (a7 : FVec Ideal S4x128 .f32) (a8 : FVec Ideal S4x128 .f32) (a9 : FVec Ideal S4x128 .f32) (a10 : FVec Ideal S4x128x128 .f32) (a11 : FVec Ideal S4x128 .f32) (a12 : FVec Ideal S4x128 .f32) (a13 : FVec Ideal S4x128 .f32) (a14 : FVec Ideal S4x128 .f32) (a15 : FVec Ideal S4x128 .f32)
    (h : fn (F := Ideal) a0 a1 a2 a3 a4 a5 a6 a7 a8 a9 a10 a11 a12 a13 a14 a15 = fun _ => 1#1) :
    (∀ i, IsReal (a0 i)) ∧ (∀ i, IsReal (a3 i)) ∧ (∀ i, IsReal (a4 i)) ∧ (∀ i, IsReal (a5 i)) ∧ (∀ i, IsReal (a6 i)) ∧ (∀ i, IsReal (a7 i)) ∧ (∀ i, IsReal (a8 i)) ∧ (∀ i, IsReal (a9 i)) ∧ (∀ i, IsReal (a10 i)) ∧ (∀ i, IsReal (a11 i)) ∧ (∀ i, IsReal (a12 i)) ∧ (∀ i, IsReal (a13 i)) ∧ (∀ i, IsReal (a14 i)) ∧ (∀ i, IsReal (a15 i)) := by
  have e := congrFun h ValueIdx.ix0
  dsimp only [fn, fn_part1, fn_part2, fn_part3, fn_part4, Idealize.ShloMosaic.andi] at e
  simp only [IntOp.andi_eq_one] at e
  obtain ⟨⟨⟨⟨⟨⟨⟨⟨⟨⟨⟨⟨⟨e0, e3⟩, e4⟩, e5⟩, e6⟩, e7⟩, e8⟩, e9⟩, e10⟩, e11⟩, e12⟩, e13⟩, e14⟩, e15⟩ := e
  exact ⟨fun i => entry_real _ a0 i (Host.reduce_andi_all _ _ _ _ _ e0 i),
    fun i => entry_real _ a3 i (Host.reduce_andi_all _ _ _ _ _ e3 i),
    fun i => entry_real _ a4 i (Host.reduce_andi_all _ _ _ _ _ e4 i),
    fun i => entry_real _ a5 i (Host.reduce_andi_all _ _ _ _ _ e5 i),
    fun i => entry_real _ a6 i (Host.reduce_andi_all _ _ _ _ _ e6 i),
    fun i => entry_real _ a7 i (Host.reduce_andi_all _ _ _ _ _ e7 i),
    fun i => entry_real _ a8 i (Host.reduce_andi_all _ _ _ _ _ e8 i),
    fun i => entry_real _ a9 i (Host.reduce_andi_all _ _ _ _ _ e9 i),
    fun i => entry_real _ a10 i (Host.reduce_andi_all _ _ _ _ _ e10 i),
    fun i => entry_real _ a11 i (Host.reduce_andi_all _ _ _ _ _ e11 i),
    fun i => entry_real _ a12 i (Host.reduce_andi_all _ _ _ _ _ e12 i),
    fun i => entry_real _ a13 i (Host.reduce_andi_all _ _ _ _ _ e13 i),
    fun i => entry_real _ a14 i (Host.reduce_andi_all _ _ _ _ _ e14 i),
    fun i => entry_real _ a15 i (Host.reduce_andi_all _ _ _ _ _ e15 i)⟩

/-- The precondition of the kernel's memory: every entry of each float argument buffer is real. -/
theorem args_real (m : (ℓ : Loc Cert.KernelIdeal.nD Cert.KernelIdeal.τ Cert.KernelIdeal.sig) → Buf (Elt Ideal) ℓ)
    (hpre : Cert.Pre_KernelIdeal m) (c : Dev Cert.KernelIdeal.nD) :
    (∀ i, IsReal (((m ((c.tc : Thread Cert.KernelIdeal.nD Cert.KernelIdeal.τ).loc Cert.KernelIdeal.main_arg0)) : FVec Ideal S50000x128 .f32) i))
      ∧ (∀ i, IsReal (((m ((c.tc : Thread Cert.KernelIdeal.nD Cert.KernelIdeal.τ).loc Cert.KernelIdeal.main_arg3)) : FVec Ideal S128x128 .f32) i))
      ∧ (∀ i, IsReal (((m ((c.tc : Thread Cert.KernelIdeal.nD Cert.KernelIdeal.τ).loc Cert.KernelIdeal.main_arg4)) : FVec Ideal S128 .f32) i))
      ∧ (∀ i, IsReal (((m ((c.tc : Thread Cert.KernelIdeal.nD Cert.KernelIdeal.τ).loc Cert.KernelIdeal.main_arg5)) : FVec Ideal S4 .f32) i))
      ∧ (∀ i, IsReal (((m ((c.tc : Thread Cert.KernelIdeal.nD Cert.KernelIdeal.τ).loc Cert.KernelIdeal.main_arg6)) : FVec Ideal S4x128x128 .f32) i))
      ∧ (∀ i, IsReal (((m ((c.tc : Thread Cert.KernelIdeal.nD Cert.KernelIdeal.τ).loc Cert.KernelIdeal.main_arg7)) : FVec Ideal S4x128 .f32) i))
      ∧ (∀ i, IsReal (((m ((c.tc : Thread Cert.KernelIdeal.nD Cert.KernelIdeal.τ).loc Cert.KernelIdeal.main_arg8)) : FVec Ideal S4x128 .f32) i))
      ∧ (∀ i, IsReal (((m ((c.tc : Thread Cert.KernelIdeal.nD Cert.KernelIdeal.τ).loc Cert.KernelIdeal.main_arg9)) : FVec Ideal S4x128 .f32) i))
      ∧ (∀ i, IsReal (((m ((c.tc : Thread Cert.KernelIdeal.nD Cert.KernelIdeal.τ).loc Cert.KernelIdeal.main_arg10)) : FVec Ideal S4x128x128 .f32) i))
      ∧ (∀ i, IsReal (((m ((c.tc : Thread Cert.KernelIdeal.nD Cert.KernelIdeal.τ).loc Cert.KernelIdeal.main_arg11)) : FVec Ideal S4x128 .f32) i))
      ∧ (∀ i, IsReal (((m ((c.tc : Thread Cert.KernelIdeal.nD Cert.KernelIdeal.τ).loc Cert.KernelIdeal.main_arg12)) : FVec Ideal S4x128 .f32) i))
      ∧ (∀ i, IsReal (((m ((c.tc : Thread Cert.KernelIdeal.nD Cert.KernelIdeal.τ).loc Cert.KernelIdeal.main_arg13)) : FVec Ideal S4x128 .f32) i))
      ∧ (∀ i, IsReal (((m ((c.tc : Thread Cert.KernelIdeal.nD Cert.KernelIdeal.τ).loc Cert.KernelIdeal.main_arg14)) : FVec Ideal S4x128 .f32) i))
      ∧ (∀ i, IsReal (((m ((c.tc : Thread Cert.KernelIdeal.nD Cert.KernelIdeal.τ).loc Cert.KernelIdeal.main_arg15)) : FVec Ideal S4x128 .f32) i)) :=
  fn_real _ _ _ _ _ _ _ _ _ _ _ _ _ _ _ _ (hpre c)

/-- Every entry of argument 0 is a real number. -/
theorem arg0_real (m : (ℓ : Loc Cert.KernelIdeal.nD Cert.KernelIdeal.τ Cert.KernelIdeal.sig) → Buf (Elt Ideal) ℓ)
    (hpre : Cert.Pre_KernelIdeal m) (c : Dev Cert.KernelIdeal.nD) (i : S50000x128.Idx) :
    IsReal (((m ((c.tc : Thread Cert.KernelIdeal.nD Cert.KernelIdeal.τ).loc Cert.KernelIdeal.main_arg0)) : FVec Ideal S50000x128 .f32) i) :=
  (args_real m hpre c).1 i

/-- Every entry of argument 3 is a real number. -/
theorem arg3_real (m : (ℓ : Loc Cert.KernelIdeal.nD Cert.KernelIdeal.τ Cert.KernelIdeal.sig) → Buf (Elt Ideal) ℓ)
    (hpre : Cert.Pre_KernelIdeal m) (c : Dev Cert.KernelIdeal.nD) (i : S128x128.Idx) :
    IsReal (((m ((c.tc : Thread Cert.KernelIdeal.nD Cert.KernelIdeal.τ).loc Cert.KernelIdeal.main_arg3)) : FVec Ideal S128x128 .f32) i) :=
  (args_real m hpre c).2.1 i

/-- Every entry of argument 4 is a real number. -/
theorem arg4_real (m : (ℓ : Loc Cert.KernelIdeal.nD Cert.KernelIdeal.τ Cert.KernelIdeal.sig) → Buf (Elt Ideal) ℓ)
    (hpre : Cert.Pre_KernelIdeal m) (c : Dev Cert.KernelIdeal.nD) (i : S128.Idx) :
    IsReal (((m ((c.tc : Thread Cert.KernelIdeal.nD Cert.KernelIdeal.τ).loc Cert.KernelIdeal.main_arg4)) : FVec Ideal S128 .f32) i) :=
  (args_real m hpre c).2.2.1 i

/-- Every entry of argument 5 is a real number. -/
theorem arg5_real (m : (ℓ : Loc Cert.KernelIdeal.nD Cert.KernelIdeal.τ Cert.KernelIdeal.sig) → Buf (Elt Ideal) ℓ)
    (hpre : Cert.Pre_KernelIdeal m) (c : Dev Cert.KernelIdeal.nD) (i : S4.Idx) :
    IsReal (((m ((c.tc : Thread Cert.KernelIdeal.nD Cert.KernelIdeal.τ).loc Cert.KernelIdeal.main_arg5)) : FVec Ideal S4 .f32) i) :=
  (args_real m hpre c).2.2.2.1 i

/-- Every entry of argument 6 is a real number. -/
theorem arg6_real (m : (ℓ : Loc Cert.KernelIdeal.nD Cert.KernelIdeal.τ Cert.KernelIdeal.sig) → Buf (Elt Ideal) ℓ)
    (hpre : Cert.Pre_KernelIdeal m) (c : Dev Cert.KernelIdeal.nD) (i : S4x128x128.Idx) :
    IsReal (((m ((c.tc : Thread Cert.KernelIdeal.nD Cert.KernelIdeal.τ).loc Cert.KernelIdeal.main_arg6)) : FVec Ideal S4x128x128 .f32) i) :=
  (args_real m hpre c).2.2.2.2.1 i

/-- Every entry of argument 7 is a real number. -/
theorem arg7_real (m : (ℓ : Loc Cert.KernelIdeal.nD Cert.KernelIdeal.τ Cert.KernelIdeal.sig) → Buf (Elt Ideal) ℓ)
    (hpre : Cert.Pre_KernelIdeal m) (c : Dev Cert.KernelIdeal.nD) (i : S4x128.Idx) :
    IsReal (((m ((c.tc : Thread Cert.KernelIdeal.nD Cert.KernelIdeal.τ).loc Cert.KernelIdeal.main_arg7)) : FVec Ideal S4x128 .f32) i) :=
  (args_real m hpre c).2.2.2.2.2.1 i

/-- Every entry of argument 8 is a real number. -/
theorem arg8_real (m : (ℓ : Loc Cert.KernelIdeal.nD Cert.KernelIdeal.τ Cert.KernelIdeal.sig) → Buf (Elt Ideal) ℓ)
    (hpre : Cert.Pre_KernelIdeal m) (c : Dev Cert.KernelIdeal.nD) (i : S4x128.Idx) :
    IsReal (((m ((c.tc : Thread Cert.KernelIdeal.nD Cert.KernelIdeal.τ).loc Cert.KernelIdeal.main_arg8)) : FVec Ideal S4x128 .f32) i) :=
  (args_real m hpre c).2.2.2.2.2.2.1 i

/-- Every entry of argument 9 is a real number. -/
theorem arg9_real (m : (ℓ : Loc Cert.KernelIdeal.nD Cert.KernelIdeal.τ Cert.KernelIdeal.sig) → Buf (Elt Ideal) ℓ)
    (hpre : Cert.Pre_KernelIdeal m) (c : Dev Cert.KernelIdeal.nD) (i : S4x128.Idx) :
    IsReal (((m ((c.tc : Thread Cert.KernelIdeal.nD Cert.KernelIdeal.τ).loc Cert.KernelIdeal.main_arg9)) : FVec Ideal S4x128 .f32) i) :=
  (args_real m hpre c).2.2.2.2.2.2.2.1 i

/-- Every entry of argument 10 is a real number. -/
theorem arg10_real (m : (ℓ : Loc Cert.KernelIdeal.nD Cert.KernelIdeal.τ Cert.KernelIdeal.sig) → Buf (Elt Ideal) ℓ)
    (hpre : Cert.Pre_KernelIdeal m) (c : Dev Cert.KernelIdeal.nD) (i : S4x128x128.Idx) :
    IsReal (((m ((c.tc : Thread Cert.KernelIdeal.nD Cert.KernelIdeal.τ).loc Cert.KernelIdeal.main_arg10)) : FVec Ideal S4x128x128 .f32) i) :=
  (args_real m hpre c).2.2.2.2.2.2.2.2.1 i

/-- Every entry of argument 11 is a real number. -/
theorem arg11_real (m : (ℓ : Loc Cert.KernelIdeal.nD Cert.KernelIdeal.τ Cert.KernelIdeal.sig) → Buf (Elt Ideal) ℓ)
    (hpre : Cert.Pre_KernelIdeal m) (c : Dev Cert.KernelIdeal.nD) (i : S4x128.Idx) :
    IsReal (((m ((c.tc : Thread Cert.KernelIdeal.nD Cert.KernelIdeal.τ).loc Cert.KernelIdeal.main_arg11)) : FVec Ideal S4x128 .f32) i) :=
  (args_real m hpre c).2.2.2.2.2.2.2.2.2.1 i

/-- Every entry of argument 12 is a real number. -/
theorem arg12_real (m : (ℓ : Loc Cert.KernelIdeal.nD Cert.KernelIdeal.τ Cert.KernelIdeal.sig) → Buf (Elt Ideal) ℓ)
    (hpre : Cert.Pre_KernelIdeal m) (c : Dev Cert.KernelIdeal.nD) (i : S4x128.Idx) :
    IsReal (((m ((c.tc : Thread Cert.KernelIdeal.nD Cert.KernelIdeal.τ).loc Cert.KernelIdeal.main_arg12)) : FVec Ideal S4x128 .f32) i) :=
  (args_real m hpre c).2.2.2.2.2.2.2.2.2.2.1 i

/-- Every entry of argument 13 is a real number. -/
theorem arg13_real (m : (ℓ : Loc Cert.KernelIdeal.nD Cert.KernelIdeal.τ Cert.KernelIdeal.sig) → Buf (Elt Ideal) ℓ)
    (hpre : Cert.Pre_KernelIdeal m) (c : Dev Cert.KernelIdeal.nD) (i : S4x128.Idx) :
    IsReal (((m ((c.tc : Thread Cert.KernelIdeal.nD Cert.KernelIdeal.τ).loc Cert.KernelIdeal.main_arg13)) : FVec Ideal S4x128 .f32) i) :=
  (args_real m hpre c).2.2.2.2.2.2.2.2.2.2.2.1 i

/-- Every entry of argument 14 is a real number. -/
theorem arg14_real (m : (ℓ : Loc Cert.KernelIdeal.nD Cert.KernelIdeal.τ Cert.KernelIdeal.sig) → Buf (Elt Ideal) ℓ)
    (hpre : Cert.Pre_KernelIdeal m) (c : Dev Cert.KernelIdeal.nD) (i : S4x128.Idx) :
    IsReal (((m ((c.tc : Thread Cert.KernelIdeal.nD Cert.KernelIdeal.τ).loc Cert.KernelIdeal.main_arg14)) : FVec Ideal S4x128 .f32) i) :=
  (args_real m hpre c).2.2.2.2.2.2.2.2.2.2.2.2.1 i

/-- Every entry of argument 15 is a real number. -/
theorem arg15_real (m : (ℓ : Loc Cert.KernelIdeal.nD Cert.KernelIdeal.τ Cert.KernelIdeal.sig) → Buf (Elt Ideal) ℓ)
    (hpre : Cert.Pre_KernelIdeal m) (c : Dev Cert.KernelIdeal.nD) (i : S4x128.Idx) :
    IsReal (((m ((c.tc : Thread Cert.KernelIdeal.nD Cert.KernelIdeal.τ).loc Cert.KernelIdeal.main_arg15)) : FVec Ideal S4x128 .f32) i) :=
  (args_real m hpre c).2.2.2.2.2.2.2.2.2.2.2.2.2 i

end Cert.PreReal

end
-- ==== Proof.ParamReal.lean ====
/-
  Two re-indexings keep an array of real numbers real.

  A shape cast reads the operand at the index with the same row-major position, and a slice reads it at the offset
  plus the index: each result entry is some entry of the operand.  So if every entry of the operand is a real number,
  so is every entry of the result — and of a slice followed by a cast, which is how one layer's parameters are taken
  out of the stacked parameter arrays.
-/
import Idealize.ShloMosaic.Lib.Pipeline.Value
import Idealize.ShloMosaic.Lib.ValueIdx
import proofs.«140776_j80633716015159_1_alg».proof.Proof.LibBatchNorm

noncomputable section

namespace Cert.ParamReal

open Idealize.ShloMosaic
open LibBatchNorm (IsReal)

/-- A shape cast of a real array is real at every index. -/
theorem shapeCast_isReal {s t : Shape} (x : s.Idx → EReal) (h : s.ShapeCasts t) (hx : ∀ i, IsReal (x i)) (j : t.Idx) :
    IsReal (shapeCast t x h j) := by
  unfold shapeCast
  exact hx _

/-- A slice of a real array is real at every index. -/
theorem slice_isReal {s t : Shape} (off : Fin s.rank → Nat) (x : s.Idx → EReal) (h : s.Slices off t)
    (hx : ∀ i, IsReal (x i)) (j : t.Idx) : IsReal (extractStridedSlice t off x h j) := by
  unfold extractStridedSlice
  exact hx _

/-- A slice of a real array, cast to another shape, is real at every index. -/
theorem param_isReal {s t u : Shape} (off : Fin s.rank → Nat) (x : s.Idx → EReal) (h : s.Slices off t)
    (h' : t.ShapeCasts u) (hx : ∀ i, IsReal (x i)) (j : u.Idx) :
    IsReal (shapeCast u (extractStridedSlice t off x h) h' j) :=
  shapeCast_isReal (extractStridedSlice t off x h) h' (slice_isReal off x h hx) j

end Cert.ParamReal

end
-- ==== Proof.KNet.lean ====
/-
  The kernel's result.  Through the thirty-four segments, the result buffer at the last boundary is the embedding
  followed by the four layers of the launch contents of the arguments: the embedding's region gives `h·W + b`; each
  layer's four regions and host stretches give the reference's layer of the layer's input and its slices of the
  parameters; the argument buffers are untouched throughout; and with finite inputs every layer's input is real, which
  each layer needs for its variances.
-/
import proofs.«140776_j80633716015159_1_alg».proof.Proof.KLayer0
import proofs.«140776_j80633716015159_1_alg».proof.Proof.KLayer1
import proofs.«140776_j80633716015159_1_alg».proof.Proof.KLayer2
import proofs.«140776_j80633716015159_1_alg».proof.Proof.KLayer3
import proofs.«140776_j80633716015159_1_alg».proof.Proof.KEmbedEq
import proofs.«140776_j80633716015159_1_alg».proof.Proof.PreReal
import proofs.«140776_j80633716015159_1_alg».proof.Proof.ParamReal
import proofs.«140776_j80633716015159_1_alg».proof.Proof.RefNet

set_option maxRecDepth 16384

noncomputable section

namespace Cert.KernelIdeal.KNet

open Cert.KernelIdeal Cert.KernelIdeal.Gen
open Idealize.ShloMosaic Idealize.ShloMosaic.TcCoe Idealize.ShloMosaic.ValueIdx Idealize.SL.Sem Idealize.ShloMosaic.StableHlo
open LibBatchNorm (IsReal)

variable (m : (ℓ : Loc nD τ sig) → Buf (Elt Ideal) ℓ) (ρ : Dev nD → PrngReg) (c : Dev nD)

/-! ## The argument buffers at each layer's entry are the launch contents -/

theorem a0_1 : W2 m ρ c (Proc.devRef .tc main_arg1) = m ((c : Thread nD τ).loc main_arg1) :=
  KEmbedEq.w2_arg m ρ c main_arg1 (by decide) (KHost.h0_keep_main_arg1 _)
theorem a0_2 : W2 m ρ c (Proc.devRef .tc main_arg2) = m ((c : Thread nD τ).loc main_arg2) :=
  KEmbedEq.w2_arg m ρ c main_arg2 (by decide) (KHost.h0_keep_main_arg2 _)
theorem a0_5 : W2 m ρ c (Proc.devRef .tc main_arg5) = m ((c : Thread nD τ).loc main_arg5) :=
  KEmbedEq.w2_arg m ρ c main_arg5 (by decide) (KHost.h0_keep_main_arg5 _)
theorem a0_6 : W2 m ρ c (Proc.devRef .tc main_arg6) = m ((c : Thread nD τ).loc main_arg6) :=
  KEmbedEq.w2_arg m ρ c main_arg6 (by decide) (KHost.h0_keep_main_arg6 _)
theorem a0_7 : W2 m ρ c (Proc.devRef .tc main_arg7) = m ((c : Thread nD τ).loc main_arg7) :=
  KEmbedEq.w2_arg m ρ c main_arg7 (by decide) (KHost.h0_keep_main_arg7 _)
theorem a0_8 : W2 m ρ c (Proc.devRef .tc main_arg8) = m ((c : Thread nD τ).loc main_arg8) :=
  KEmbedEq.w2_arg m ρ c main_arg8 (by decide) (KHost.h0_keep_main_arg8 _)
theorem a0_9 : W2 m ρ c (Proc.devRef .tc main_arg9) = m ((c : Thread nD τ).loc main_arg9) :=
  KEmbedEq.w2_arg m ρ c main_arg9 (by decide) (KHost.h0_keep_main_arg9 _)
theorem a0_10 : W2 m ρ c (Proc.devRef .tc main_arg10) = m ((c : Thread nD τ).loc main_arg10) :=
  KEmbedEq.w2_arg m ρ c main_arg10 (by decide) (KHost.h0_keep_main_arg10 _)
theorem a0_11 : W2 m ρ c (Proc.devRef .tc main_arg11) = m ((c : Thread nD τ).loc main_arg11) :=
  KEmbedEq.w2_arg m ρ c main_arg11 (by decide) (KHost.h0_keep_main_arg11 _)
theorem a0_12 : W2 m ρ c (Proc.devRef .tc main_arg12) = m ((c : Thread nD τ).loc main_arg12) :=
  KEmbedEq.w2_arg m ρ c main_arg12 (by decide) (KHost.h0_keep_main_arg12 _)
theorem a0_13 : W2 m ρ c (Proc.devRef .tc main_arg13) = m ((c : Thread nD τ).loc main_arg13) :=
  KEmbedEq.w2_arg m ρ c main_arg13 (by decide) (KHost.h0_keep_main_arg13 _)
theorem a0_14 : W2 m ρ c (Proc.devRef .tc main_arg14) = m ((c : Thread nD τ).loc main_arg14) :=
  KEmbedEq.w2_arg m ρ c main_arg14 (by decide) (KHost.h0_keep_main_arg14 _)
theorem a0_15 : W2 m ρ c (Proc.devRef .tc main_arg15) = m ((c : Thread nD τ).loc main_arg15) :=
  KEmbedEq.w2_arg m ρ c main_arg15 (by decide) (KHost.h0_keep_main_arg15 _)
theorem a1_1 : W10 m ρ c (Proc.devRef .tc main_arg1) = m ((c : Thread nD τ).loc main_arg1) :=
  (KLayer0.w10_arg m ρ c main_arg1 (by decide) (by decide) (by decide) (by decide) (KHost.h1_keep_main_arg1 _) (KHost.h2_keep_main_arg1 _) (KHost.h3_keep_main_arg1 _) (KHost.h4_keep_main_arg1 _)).trans (a0_1 m ρ c)
theorem a1_2 : W10 m ρ c (Proc.devRef .tc main_arg2) = m ((c : Thread nD τ).loc main_arg2) :=
  (KLayer0.w10_arg m ρ c main_arg2 (by decide) (by decide) (by decide) (by decide) (KHost.h1_keep_main_arg2 _) (KHost.h2_keep_main_arg2 _) (KHost.h3_keep_main_arg2 _) (KHost.h4_keep_main_arg2 _)).trans (a0_2 m ρ c)
theorem a1_5 : W10 m ρ c (Proc.devRef .tc main_arg5) = m ((c : Thread nD τ).loc main_arg5) :=
  (KLayer0.w10_arg m ρ c main_arg5 (by decide) (by decide) (by decide) (by decide) (KHost.h1_keep_main_arg5 _) (KHost.h2_keep_main_arg5 _) (KHost.h3_keep_main_arg5 _) (KHost.h4_keep_main_arg5 _)).trans (a0_5 m ρ c)
theorem a1_6 : W10 m ρ c (Proc.devRef .tc main_arg6) = m ((c : Thread nD τ).loc main_arg6) :=
  (KLayer0.w10_arg m ρ c main_arg6 (by decide) (by decide) (by decide) (by decide) (KHost.h1_keep_main_arg6 _) (KHost.h2_keep_main_arg6 _) (KHost.h3_keep_main_arg6 _) (KHost.h4_keep_main_arg6 _)).trans (a0_6 m ρ c)
theorem a1_7 : W10 m ρ c (Proc.devRef .tc main_arg7) = m ((c : Thread nD τ).loc main_arg7) :=
  (KLayer0.w10_arg m ρ c main_arg7 (by decide) (by decide) (by decide) (by decide) (KHost.h1_keep_main_arg7 _) (KHost.h2_keep_main_arg7 _) (KHost.h3_keep_main_arg7 _) (KHost.h4_keep_main_arg7 _)).trans (a0_7 m ρ c)
theorem a1_8 : W10 m ρ c (Proc.devRef .tc main_arg8) = m ((c : Thread nD τ).loc main_arg8) :=
  (KLayer0.w10_arg m ρ c main_arg8 (by decide) (by decide) (by decide) (by decide) (KHost.h1_keep_main_arg8 _) (KHost.h2_keep_main_arg8 _) (KHost.h3_keep_main_arg8 _) (KHost.h4_keep_main_arg8 _)).trans (a0_8 m ρ c)
theorem a1_9 : W10 m ρ c (Proc.devRef .tc main_arg9) = m ((c : Thread nD τ).loc main_arg9) :=
  (KLayer0.w10_arg m ρ c main_arg9 (by decide) (by decide) (by decide) (by decide) (KHost.h1_keep_main_arg9 _) (KHost.h2_keep_main_arg9 _) (KHost.h3_keep_main_arg9 _) (KHost.h4_keep_main_arg9 _)).trans (a0_9 m ρ c)
theorem a1_10 : W10 m ρ c (Proc.devRef .tc main_arg10) = m ((c : Thread nD τ).loc main_arg10) :=
  (KLayer0.w10_arg m ρ c main_arg10 (by decide) (by decide) (by decide) (by decide) (KHost.h1_keep_main_arg10 _) (KHost.h2_keep_main_arg10 _) (KHost.h3_keep_main_arg10 _) (KHost.h4_keep_main_arg10 _)).trans (a0_10 m ρ c)
theorem a1_11 : W10 m ρ c (Proc.devRef .tc main_arg11) = m ((c : Thread nD τ).loc main_arg11) :=
  (KLayer0.w10_arg m ρ c main_arg11 (by decide) (by decide) (by decide) (by decide) (KHost.h1_keep_main_arg11 _) (KHost.h2_keep_main_arg11 _) (KHost.h3_keep_main_arg11 _) (KHost.h4_keep_main_arg11 _)).trans (a0_11 m ρ c)
theorem a1_12 : W10 m ρ c (Proc.devRef .tc main_arg12) = m ((c : Thread nD τ).loc main_arg12) :=
  (KLayer0.w10_arg m ρ c main_arg12 (by decide) (by decide) (by decide) (by decide) (KHost.h1_keep_main_arg12 _) (KHost.h2_keep_main_arg12 _) (KHost.h3_keep_main_arg12 _) (KHost.h4_keep_main_arg12 _)).trans (a0_12 m ρ c)
theorem a1_13 : W10 m ρ c (Proc.devRef .tc main_arg13) = m ((c : Thread nD τ).loc main_arg13) :=
  (KLayer0.w10_arg m ρ c main_arg13 (by decide) (by decide) (by decide) (by decide) (KHost.h1_keep_main_arg13 _) (KHost.h2_keep_main_arg13 _) (KHost.h3_keep_main_arg13 _) (KHost.h4_keep_main_arg13 _)).trans (a0_13 m ρ c)
theorem a1_14 : W10 m ρ c (Proc.devRef .tc main_arg14) = m ((c : Thread nD τ).loc main_arg14) :=
  (KLayer0.w10_arg m ρ c main_arg14 (by decide) (by decide) (by decide) (by decide) (KHost.h1_keep_main_arg14 _) (KHost.h2_keep_main_arg14 _) (KHost.h3_keep_main_arg14 _) (KHost.h4_keep_main_arg14 _)).trans (a0_14 m ρ c)
theorem a1_15 : W10 m ρ c (Proc.devRef .tc main_arg15) = m ((c : Thread nD τ).loc main_arg15) :=
  (KLayer0.w10_arg m ρ c main_arg15 (by decide) (by decide) (by decide) (by decide) (KHost.h1_keep_main_arg15 _) (KHost.h2_keep_main_arg15 _) (KHost.h3_keep_main_arg15 _) (KHost.h4_keep_main_arg15 _)).trans (a0_15 m ρ c)
theorem a2_1 : W18 m ρ c (Proc.devRef .tc main_arg1) = m ((c : Thread nD τ).loc main_arg1) :=
  (KLayer1.w10_arg m ρ c main_arg1 (by decide) (by decide) (by decide) (by decide) (KHost.h5_keep_main_arg1 _) (KHost.h6_keep_main_arg1 _) (KHost.h7_keep_main_arg1 _) (KHost.h8_keep_main_arg1 _)).trans (a1_1 m ρ c)
theorem a2_2 : W18 m ρ c (Proc.devRef .tc main_arg2) = m ((c : Thread nD τ).loc main_arg2) :=
  (KLayer1.w10_arg m ρ c main_arg2 (by decide) (by decide) (by decide) (by decide) (KHost.h5_keep_main_arg2 _) (KHost.h6_keep_main_arg2 _) (KHost.h7_keep_main_arg2 _) (KHost.h8_keep_main_arg2 _)).trans (a1_2 m ρ c)
theorem a2_5 : W18 m ρ c (Proc.devRef .tc main_arg5) = m ((c : Thread nD τ).loc main_arg5) :=
  (KLayer1.w10_arg m ρ c main_arg5 (by decide) (by decide) (by decide) (by decide) (KHost.h5_keep_main_arg5 _) (KHost.h6_keep_main_arg5 _) (KHost.h7_keep_main_arg5 _) (KHost.h8_keep_main_arg5 _)).trans (a1_5 m ρ c)
theorem a2_6 : W18 m ρ c (Proc.devRef .tc main_arg6) = m ((c : Thread nD τ).loc main_arg6) :=
  (KLayer1.w10_arg m ρ c main_arg6 (by decide) (by decide) (by decide) (by decide) (KHost.h5_keep_main_arg6 _) (KHost.h6_keep_main_arg6 _) (KHost.h7_keep_main_arg6 _) (KHost.h8_keep_main_arg6 _)).trans (a1_6 m ρ c)
theorem a2_7 : W18 m ρ c (Proc.devRef .tc main_arg7) = m ((c : Thread nD τ).loc main_arg7) :=
  (KLayer1.w10_arg m ρ c main_arg7 (by decide) (by decide) (by decide) (by decide) (KHost.h5_keep_main_arg7 _) (KHost.h6_keep_main_arg7 _) (KHost.h7_keep_main_arg7 _) (KHost.h8_keep_main_arg7 _)).trans (a1_7 m ρ c)
theorem a2_8 : W18 m ρ c (Proc.devRef .tc main_arg8) = m ((c : Thread nD τ).loc main_arg8) :=
  (KLayer1.w10_arg m ρ c main_arg8 (by decide) (by decide) (by decide) (by decide) (KHost.h5_keep_main_arg8 _) (KHost.h6_keep_main_arg8 _) (KHost.h7_keep_main_arg8 _) (KHost.h8_keep_main_arg8 _)).trans (a1_8 m ρ c)
theorem a2_9 : W18 m ρ c (Proc.devRef .tc main_arg9) = m ((c : Thread nD τ).loc main_arg9) :=
  (KLayer1.w10_arg m ρ c main_arg9 (by decide) (by decide) (by decide) (by decide) (KHost.h5_keep_main_arg9 _) (KHost.h6_keep_main_arg9 _) (KHost.h7_keep_main_arg9 _) (KHost.h8_keep_main_arg9 _)).trans (a1_9 m ρ c)
theorem a2_10 : W18 m ρ c (Proc.devRef .tc main_arg10) = m ((c : Thread nD τ).loc main_arg10) :=
  (KLayer1.w10_arg m ρ c main_arg10 (by decide) (by decide) (by decide) (by decide) (KHost.h5_keep_main_arg10 _) (KHost.h6_keep_main_arg10 _) (KHost.h7_keep_main_arg10 _) (KHost.h8_keep_main_arg10 _)).trans (a1_10 m ρ c)
theorem a2_11 : W18 m ρ c (Proc.devRef .tc main_arg11) = m ((c : Thread nD τ).loc main_arg11) :=
  (KLayer1.w10_arg m ρ c main_arg11 (by decide) (by decide) (by decide) (by decide) (KHost.h5_keep_main_arg11 _) (KHost.h6_keep_main_arg11 _) (KHost.h7_keep_main_arg11 _) (KHost.h8_keep_main_arg11 _)).trans (a1_11 m ρ c)
theorem a2_12 : W18 m ρ c (Proc.devRef .tc main_arg12) = m ((c : Thread nD τ).loc main_arg12) :=
  (KLayer1.w10_arg m ρ c main_arg12 (by decide) (by decide) (by decide) (by decide) (KHost.h5_keep_main_arg12 _) (KHost.h6_keep_main_arg12 _) (KHost.h7_keep_main_arg12 _) (KHost.h8_keep_main_arg12 _)).trans (a1_12 m ρ c)
theorem a2_13 : W18 m ρ c (Proc.devRef .tc main_arg13) = m ((c : Thread nD τ).loc main_arg13) :=
  (KLayer1.w10_arg m ρ c main_arg13 (by decide) (by decide) (by decide) (by decide) (KHost.h5_keep_main_arg13 _) (KHost.h6_keep_main_arg13 _) (KHost.h7_keep_main_arg13 _) (KHost.h8_keep_main_arg13 _)).trans (a1_13 m ρ c)
theorem a2_14 : W18 m ρ c (Proc.devRef .tc main_arg14) = m ((c : Thread nD τ).loc main_arg14) :=
  (KLayer1.w10_arg m ρ c main_arg14 (by decide) (by decide) (by decide) (by decide) (KHost.h5_keep_main_arg14 _) (KHost.h6_keep_main_arg14 _) (KHost.h7_keep_main_arg14 _) (KHost.h8_keep_main_arg14 _)).trans (a1_14 m ρ c)
theorem a2_15 : W18 m ρ c (Proc.devRef .tc main_arg15) = m ((c : Thread nD τ).loc main_arg15) :=
  (KLayer1.w10_arg m ρ c main_arg15 (by decide) (by decide) (by decide) (by decide) (KHost.h5_keep_main_arg15 _) (KHost.h6_keep_main_arg15 _) (KHost.h7_keep_main_arg15 _) (KHost.h8_keep_main_arg15 _)).trans (a1_15 m ρ c)
theorem a3_1 : W26 m ρ c (Proc.devRef .tc main_arg1) = m ((c : Thread nD τ).loc main_arg1) :=
  (KLayer2.w10_arg m ρ c main_arg1 (by decide) (by decide) (by decide) (by decide) (KHost.h9_keep_main_arg1 _) (KHost.h10_keep_main_arg1 _) (KHost.h11_keep_main_arg1 _) (KHost.h12_keep_main_arg1 _)).trans (a2_1 m ρ c)
theorem a3_2 : W26 m ρ c (Proc.devRef .tc main_arg2) = m ((c : Thread nD τ).loc main_arg2) :=
  (KLayer2.w10_arg m ρ c main_arg2 (by decide) (by decide) (by decide) (by decide) (KHost.h9_keep_main_arg2 _) (KHost.h10_keep_main_arg2 _) (KHost.h11_keep_main_arg2 _) (KHost.h12_keep_main_arg2 _)).trans (a2_2 m ρ c)
theorem a3_5 : W26 m ρ c (Proc.devRef .tc main_arg5) = m ((c : Thread nD τ).loc main_arg5) :=
  (KLayer2.w10_arg m ρ c main_arg5 (by decide) (by decide) (by decide) (by decide) (KHost.h9_keep_main_arg5 _) (KHost.h10_keep_main_arg5 _) (KHost.h11_keep_main_arg5 _) (KHost.h12_keep_main_arg5 _)).trans (a2_5 m ρ c)
theorem a3_6 : W26 m ρ c (Proc.devRef .tc main_arg6) = m ((c : Thread nD τ).loc main_arg6) :=
  (KLayer2.w10_arg m ρ c main_arg6 (by decide) (by decide) (by decide) (by decide) (KHost.h9_keep_main_arg6 _) (KHost.h10_keep_main_arg6 _) (KHost.h11_keep_main_arg6 _) (KHost.h12_keep_main_arg6 _)).trans (a2_6 m ρ c)
theorem a3_7 : W26 m ρ c (Proc.devRef .tc main_arg7) = m ((c : Thread nD τ).loc main_arg7) :=
  (KLayer2.w10_arg m ρ c main_arg7 (by decide) (by decide) (by decide) (by decide) (KHost.h9_keep_main_arg7 _) (KHost.h10_keep_main_arg7 _) (KHost.h11_keep_main_arg7 _) (KHost.h12_keep_main_arg7 _)).trans (a2_7 m ρ c)
theorem a3_8 : W26 m ρ c (Proc.devRef .tc main_arg8) = m ((c : Thread nD τ).loc main_arg8) :=
  (KLayer2.w10_arg m ρ c main_arg8 (by decide) (by decide) (by decide) (by decide) (KHost.h9_keep_main_arg8 _) (KHost.h10_keep_main_arg8 _) (KHost.h11_keep_main_arg8 _) (KHost.h12_keep_main_arg8 _)).trans (a2_8 m ρ c)
theorem a3_9 : W26 m ρ c (Proc.devRef .tc main_arg9) = m ((c : Thread nD τ).loc main_arg9) :=
  (KLayer2.w10_arg m ρ c main_arg9 (by decide) (by decide) (by decide) (by decide) (KHost.h9_keep_main_arg9 _) (KHost.h10_keep_main_arg9 _) (KHost.h11_keep_main_arg9 _) (KHost.h12_keep_main_arg9 _)).trans (a2_9 m ρ c)
theorem a3_10 : W26 m ρ c (Proc.devRef .tc main_arg10) = m ((c : Thread nD τ).loc main_arg10) :=
  (KLayer2.w10_arg m ρ c main_arg10 (by decide) (by decide) (by decide) (by decide) (KHost.h9_keep_main_arg10 _) (KHost.h10_keep_main_arg10 _) (KHost.h11_keep_main_arg10 _) (KHost.h12_keep_main_arg10 _)).trans (a2_10 m ρ c)
theorem a3_11 : W26 m ρ c (Proc.devRef .tc main_arg11) = m ((c : Thread nD τ).loc main_arg11) :=
  (KLayer2.w10_arg m ρ c main_arg11 (by decide) (by decide) (by decide) (by decide) (KHost.h9_keep_main_arg11 _) (KHost.h10_keep_main_arg11 _) (KHost.h11_keep_main_arg11 _) (KHost.h12_keep_main_arg11 _)).trans (a2_11 m ρ c)
theorem a3_12 : W26 m ρ c (Proc.devRef .tc main_arg12) = m ((c : Thread nD τ).loc main_arg12) :=
  (KLayer2.w10_arg m ρ c main_arg12 (by decide) (by decide) (by decide) (by decide) (KHost.h9_keep_main_arg12 _) (KHost.h10_keep_main_arg12 _) (KHost.h11_keep_main_arg12 _) (KHost.h12_keep_main_arg12 _)).trans (a2_12 m ρ c)
theorem a3_13 : W26 m ρ c (Proc.devRef .tc main_arg13) = m ((c : Thread nD τ).loc main_arg13) :=
  (KLayer2.w10_arg m ρ c main_arg13 (by decide) (by decide) (by decide) (by decide) (KHost.h9_keep_main_arg13 _) (KHost.h10_keep_main_arg13 _) (KHost.h11_keep_main_arg13 _) (KHost.h12_keep_main_arg13 _)).trans (a2_13 m ρ c)
theorem a3_14 : W26 m ρ c (Proc.devRef .tc main_arg14) = m ((c : Thread nD τ).loc main_arg14) :=
  (KLayer2.w10_arg m ρ c main_arg14 (by decide) (by decide) (by decide) (by decide) (KHost.h9_keep_main_arg14 _) (KHost.h10_keep_main_arg14 _) (KHost.h11_keep_main_arg14 _) (KHost.h12_keep_main_arg14 _)).trans (a2_14 m ρ c)
theorem a3_15 : W26 m ρ c (Proc.devRef .tc main_arg15) = m ((c : Thread nD τ).loc main_arg15) :=
  (KLayer2.w10_arg m ρ c main_arg15 (by decide) (by decide) (by decide) (by decide) (KHost.h9_keep_main_arg15 _) (KHost.h10_keep_main_arg15 _) (KHost.h11_keep_main_arg15 _) (KHost.h12_keep_main_arg15 _)).trans (a2_15 m ρ c)

/-! ## The parameter slices, from the launch contents -/

abbrev qe0 : FVec Ideal S_ .f32 := shapeCast S_ (extractStridedSlice S1 ![0] (m ((c : Thread nD τ).loc main_arg5)) slices_S4_S1_0) shapeCasts_S1_S_
abbrev qw1_0 : FVec Ideal S128x128 .f32 := shapeCast S128x128 (extractStridedSlice S1x128x128 ![0, 0, 0] (m ((c : Thread nD τ).loc main_arg6)) slices_S4x128x128_S1x128x128_0_0_0) shapeCasts_S1x128x128_S128x128
abbrev qw2_0 : FVec Ideal S128x128 .f32 := shapeCast S128x128 (extractStridedSlice S1x128x128 ![0, 0, 0] (m ((c : Thread nD τ).loc main_arg10)) slices_S4x128x128_S1x128x128_0_0_0) shapeCasts_S1x128x128_S128x128
abbrev qb1_0 : FVec Ideal S128 .f32 := shapeCast S128 (extractStridedSlice S1x128 ![0, 0] (m ((c : Thread nD τ).loc main_arg7)) slices_S4x128_S1x128_0_0) shapeCasts_S1x128_S128
abbrev qg1_0 : FVec Ideal S128 .f32 := shapeCast S128 (extractStridedSlice S1x128 ![0, 0] (m ((c : Thread nD τ).loc main_arg8)) slices_S4x128_S1x128_0_0) shapeCasts_S1x128_S128
abbrev qbe1_0 : FVec Ideal S128 .f32 := shapeCast S128 (extractStridedSlice S1x128 ![0, 0] (m ((c : Thread nD τ).loc main_arg9)) slices_S4x128_S1x128_0_0) shapeCasts_S1x128_S128
abbrev qb2_0 : FVec Ideal S128 .f32 := shapeCast S128 (extractStridedSlice S1x128 ![0, 0] (m ((c : Thread nD τ).loc main_arg11)) slices_S4x128_S1x128_0_0) shapeCasts_S1x128_S128
abbrev qga_0 : FVec Ideal S128 .f32 := shapeCast S128 (extractStridedSlice S1x128 ![0, 0] (m ((c : Thread nD τ).loc main_arg12)) slices_S4x128_S1x128_0_0) shapeCasts_S1x128_S128
abbrev qba_0 : FVec Ideal S128 .f32 := shapeCast S128 (extractStridedSlice S1x128 ![0, 0] (m ((c : Thread nD τ).loc main_arg13)) slices_S4x128_S1x128_0_0) shapeCasts_S1x128_S128
abbrev qgl_0 : FVec Ideal S128 .f32 := shapeCast S128 (extractStridedSlice S1x128 ![0, 0] (m ((c : Thread nD τ).loc main_arg14)) slices_S4x128_S1x128_0_0) shapeCasts_S1x128_S128
abbrev qbl_0 : FVec Ideal S128 .f32 := shapeCast S128 (extractStridedSlice S1x128 ![0, 0] (m ((c : Thread nD τ).loc main_arg15)) slices_S4x128_S1x128_0_0) shapeCasts_S1x128_S128
abbrev qe1 : FVec Ideal S_ .f32 := shapeCast S_ (extractStridedSlice S1 ![1] (m ((c : Thread nD τ).loc main_arg5)) slices_S4_S1_1) shapeCasts_S1_S_
abbrev qw1_1 : FVec Ideal S128x128 .f32 := shapeCast S128x128 (extractStridedSlice S1x128x128 ![1, 0, 0] (m ((c : Thread nD τ).loc main_arg6)) slices_S4x128x128_S1x128x128_1_0_0) shapeCasts_S1x128x128_S128x128
abbrev qw2_1 : FVec Ideal S128x128 .f32 := shapeCast S128x128 (extractStridedSlice S1x128x128 ![1, 0, 0] (m ((c : Thread nD τ).loc main_arg10)) slices_S4x128x128_S1x128x128_1_0_0) shapeCasts_S1x128x128_S128x128
abbrev qb1_1 : FVec Ideal S128 .f32 := shapeCast S128 (extractStridedSlice S1x128 ![1, 0] (m ((c : Thread nD τ).loc main_arg7)) slices_S4x128_S1x128_1_0) shapeCasts_S1x128_S128
abbrev qg1_1 : FVec Ideal S128 .f32 := shapeCast S128 (extractStridedSlice S1x128 ![1, 0] (m ((c : Thread nD τ).loc main_arg8)) slices_S4x128_S1x128_1_0) shapeCasts_S1x128_S128
abbrev qbe1_1 : FVec Ideal S128 .f32 := shapeCast S128 (extractStridedSlice S1x128 ![1, 0] (m ((c : Thread nD τ).loc main_arg9)) slices_S4x128_S1x128_1_0) shapeCasts_S1x128_S128
abbrev qb2_1 : FVec Ideal S128 .f32 := shapeCast S128 (extractStridedSlice S1x128 ![1, 0] (m ((c : Thread nD τ).loc main_arg11)) slices_S4x128_S1x128_1_0) shapeCasts_S1x128_S128
abbrev qga_1 : FVec Ideal S128 .f32 := shapeCast S128 (extractStridedSlice S1x128 ![1, 0] (m ((c : Thread nD τ).loc main_arg12)) slices_S4x128_S1x128_1_0) shapeCasts_S1x128_S128
abbrev qba_1 : FVec Ideal S128 .f32 := shapeCast S128 (extractStridedSlice S1x128 ![1, 0] (m ((c : Thread nD τ).loc main_arg13)) slices_S4x128_S1x128_1_0) shapeCasts_S1x128_S128
abbrev qgl_1 : FVec Ideal S128 .f32 := shapeCast S128 (extractStridedSlice S1x128 ![1, 0] (m ((c : Thread nD τ).loc main_arg14)) slices_S4x128_S1x128_1_0) shapeCasts_S1x128_S128
abbrev qbl_1 : FVec Ideal S128 .f32 := shapeCast S128 (extractStridedSlice S1x128 ![1, 0] (m ((c : Thread nD τ).loc main_arg15)) slices_S4x128_S1x128_1_0) shapeCasts_S1x128_S128
abbrev qe2 : FVec Ideal S_ .f32 := shapeCast S_ (extractStridedSlice S1 ![2] (m ((c : Thread nD τ).loc main_arg5)) slices_S4_S1_2) shapeCasts_S1_S_
abbrev qw1_2 : FVec Ideal S128x128 .f32 := shapeCast S128x128 (extractStridedSlice S1x128x128 ![2, 0, 0] (m ((c : Thread nD τ).loc main_arg6)) slices_S4x128x128_S1x128x128_2_0_0) shapeCasts_S1x128x128_S128x128
abbrev qw2_2 : FVec Ideal S128x128 .f32 := shapeCast S128x128 (extractStridedSlice S1x128x128 ![2, 0, 0] (m ((c : Thread nD τ).loc main_arg10)) slices_S4x128x128_S1x128x128_2_0_0) shapeCasts_S1x128x128_S128x128
abbrev qb1_2 : FVec Ideal S128 .f32 := shapeCast S128 (extractStridedSlice S1x128 ![2, 0] (m ((c : Thread nD τ).loc main_arg7)) slices_S4x128_S1x128_2_0) shapeCasts_S1x128_S128
abbrev qg1_2 : FVec Ideal S128 .f32 := shapeCast S128 (extractStridedSlice S1x128 ![2, 0] (m ((c : Thread nD τ).loc main_arg8)) slices_S4x128_S1x128_2_0) shapeCasts_S1x128_S128
abbrev qbe1_2 : FVec Ideal S128 .f32 := shapeCast S128 (extractStridedSlice S1x128 ![2, 0] (m ((c : Thread nD τ).loc main_arg9)) slices_S4x128_S1x128_2_0) shapeCasts_S1x128_S128
abbrev qb2_2 : FVec Ideal S128 .f32 := shapeCast S128 (extractStridedSlice S1x128 ![2, 0] (m ((c : Thread nD τ).loc main_arg11)) slices_S4x128_S1x128_2_0) shapeCasts_S1x128_S128
abbrev qga_2 : FVec Ideal S128 .f32 := shapeCast S128 (extractStridedSlice S1x128 ![2, 0] (m ((c : Thread nD τ).loc main_arg12)) slices_S4x128_S1x128_2_0) shapeCasts_S1x128_S128
abbrev qba_2 : FVec Ideal S128 .f32 := shapeCast S128 (extractStridedSlice S1x128 ![2, 0] (m ((c : Thread nD τ).loc main_arg13)) slices_S4x128_S1x128_2_0) shapeCasts_S1x128_S128
abbrev qgl_2 : FVec Ideal S128 .f32 := shapeCast S128 (extractStridedSlice S1x128 ![2, 0] (m ((c : Thread nD τ).loc main_arg14)) slices_S4x128_S1x128_2_0) shapeCasts_S1x128_S128
abbrev qbl_2 : FVec Ideal S128 .f32 := shapeCast S128 (extractStridedSlice S1x128 ![2, 0] (m ((c : Thread nD τ).loc main_arg15)) slices_S4x128_S1x128_2_0) shapeCasts_S1x128_S128
abbrev qe3 : FVec Ideal S_ .f32 := shapeCast S_ (extractStridedSlice S1 ![3] (m ((c : Thread nD τ).loc main_arg5)) slices_S4_S1_3) shapeCasts_S1_S_
abbrev qw1_3 : FVec Ideal S128x128 .f32 := shapeCast S128x128 (extractStridedSlice S1x128x128 ![3, 0, 0] (m ((c : Thread nD τ).loc main_arg6)) slices_S4x128x128_S1x128x128_3_0_0) shapeCasts_S1x128x128_S128x128
abbrev qw2_3 : FVec Ideal S128x128 .f32 := shapeCast S128x128 (extractStridedSlice S1x128x128 ![3, 0, 0] (m ((c : Thread nD τ).loc main_arg10)) slices_S4x128x128_S1x128x128_3_0_0) shapeCasts_S1x128x128_S128x128
abbrev qb1_3 : FVec Ideal S128 .f32 := shapeCast S128 (extractStridedSlice S1x128 ![3, 0] (m ((c : Thread nD τ).loc main_arg7)) slices_S4x128_S1x128_3_0) shapeCasts_S1x128_S128
abbrev qg1_3 : FVec Ideal S128 .f32 := shapeCast S128 (extractStridedSlice S1x128 ![3, 0] (m ((c : Thread nD τ).loc main_arg8)) slices_S4x128_S1x128_3_0) shapeCasts_S1x128_S128
abbrev qbe1_3 : FVec Ideal S128 .f32 := shapeCast S128 (extractStridedSlice S1x128 ![3, 0] (m ((c : Thread nD τ).loc main_arg9)) slices_S4x128_S1x128_3_0) shapeCasts_S1x128_S128
abbrev qb2_3 : FVec Ideal S128 .f32 := shapeCast S128 (extractStridedSlice S1x128 ![3, 0] (m ((c : Thread nD τ).loc main_arg11)) slices_S4x128_S1x128_3_0) shapeCasts_S1x128_S128
abbrev qga_3 : FVec Ideal S128 .f32 := shapeCast S128 (extractStridedSlice S1x128 ![3, 0] (m ((c : Thread nD τ).loc main_arg12)) slices_S4x128_S1x128_3_0) shapeCasts_S1x128_S128
abbrev qba_3 : FVec Ideal S128 .f32 := shapeCast S128 (extractStridedSlice S1x128 ![3, 0] (m ((c : Thread nD τ).loc main_arg13)) slices_S4x128_S1x128_3_0) shapeCasts_S1x128_S128
abbrev qgl_3 : FVec Ideal S128 .f32 := shapeCast S128 (extractStridedSlice S1x128 ![3, 0] (m ((c : Thread nD τ).loc main_arg14)) slices_S4x128_S1x128_3_0) shapeCasts_S1x128_S128
abbrev qbl_3 : FVec Ideal S128 .f32 := shapeCast S128 (extractStridedSlice S1x128 ![3, 0] (m ((c : Thread nD τ).loc main_arg15)) slices_S4x128_S1x128_3_0) shapeCasts_S1x128_S128

/-- One layer of the reference on the launch contents' slices. -/
abbrev lay0 (h : FVec Ideal S50000x128 .f32) : FVec Ideal S50000x128 .f32 :=
  Cert.ReferenceIdeal.RefSpec.layer (m ((c : Thread nD τ).loc main_arg1)) h (m ((c : Thread nD τ).loc main_arg2)) (qe0 m c) (qw1_0 m c) (qb1_0 m c) (qg1_0 m c) (qbe1_0 m c) (qw2_0 m c) (qb2_0 m c) (qga_0 m c) (qba_0 m c) (qgl_0 m c) (qbl_0 m c)
abbrev lay1 (h : FVec Ideal S50000x128 .f32) : FVec Ideal S50000x128 .f32 :=
  Cert.ReferenceIdeal.RefSpec.layer (m ((c : Thread nD τ).loc main_arg1)) h (m ((c : Thread nD τ).loc main_arg2)) (qe1 m c) (qw1_1 m c) (qb1_1 m c) (qg1_1 m c) (qbe1_1 m c) (qw2_1 m c) (qb2_1 m c) (qga_1 m c) (qba_1 m c) (qgl_1 m c) (qbl_1 m c)
abbrev lay2 (h : FVec Ideal S50000x128 .f32) : FVec Ideal S50000x128 .f32 :=
  Cert.ReferenceIdeal.RefSpec.layer (m ((c : Thread nD τ).loc main_arg1)) h (m ((c : Thread nD τ).loc main_arg2)) (qe2 m c) (qw1_2 m c) (qb1_2 m c) (qg1_2 m c) (qbe1_2 m c) (qw2_2 m c) (qb2_2 m c) (qga_2 m c) (qba_2 m c) (qgl_2 m c) (qbl_2 m c)
abbrev lay3 (h : FVec Ideal S50000x128 .f32) : FVec Ideal S50000x128 .f32 :=
  Cert.ReferenceIdeal.RefSpec.layer (m ((c : Thread nD τ).loc main_arg1)) h (m ((c : Thread nD τ).loc main_arg2)) (qe3 m c) (qw1_3 m c) (qb1_3 m c) (qg1_3 m c) (qbe1_3 m c) (qw2_3 m c) (qb2_3 m c) (qga_3 m c) (qba_3 m c) (qgl_3 m c) (qbl_3 m c)

/-- The embedded features on the launch contents. -/
abbrev emb : FVec Ideal S50000x128 .f32 := Cert.ReferenceIdeal.RefSpec.dense (m ((c : Thread nD τ).loc main_arg0)) (m ((c : Thread nD τ).loc main_arg3)) (m ((c : Thread nD τ).loc main_arg4))

variable (hpre : Cert.Pre_KernelIdeal m)

include hpre

/-! ## Reals -/

theorem emb_real (p : Fin 50000) (q : Fin 128) : IsReal (emb m c (ix2 p q)) :=
  Cert.LayerReal.dense_isReal _ _ _ (fun p q => Cert.PreReal.arg0_real m hpre c _) (fun k q => Cert.PreReal.arg3_real m hpre c _)
    (fun q => Cert.PreReal.arg4_real m hpre c _) p q

theorem lay0_real (h : FVec Ideal S50000x128 .f32) (hh : ∀ (p : Fin 50000) (q : Fin 128), IsReal (h (ix2 p q)))
    (p : Fin 50000) (q : Fin 128) : IsReal (lay0 m c h (ix2 p q)) :=
  Cert.LayerReal.layer_isReal _ _ _ _ _ _ _ _ _ _ _ _ _ _ hh
    (Cert.ParamReal.param_isReal _ _ _ _ (Cert.PreReal.arg5_real m hpre c) _)
    (fun k q => Cert.ParamReal.param_isReal _ _ _ _ (Cert.PreReal.arg6_real m hpre c) _)
    (fun q => Cert.ParamReal.param_isReal _ _ _ _ (Cert.PreReal.arg7_real m hpre c) _)
    (fun q => Cert.ParamReal.param_isReal _ _ _ _ (Cert.PreReal.arg8_real m hpre c) _)
    (fun q => Cert.ParamReal.param_isReal _ _ _ _ (Cert.PreReal.arg9_real m hpre c) _)
    (fun k q => Cert.ParamReal.param_isReal _ _ _ _ (Cert.PreReal.arg10_real m hpre c) _)
    (fun q => Cert.ParamReal.param_isReal _ _ _ _ (Cert.PreReal.arg11_real m hpre c) _)
    (fun q => Cert.ParamReal.param_isReal _ _ _ _ (Cert.PreReal.arg12_real m hpre c) _)
    (fun q => Cert.ParamReal.param_isReal _ _ _ _ (Cert.PreReal.arg13_real m hpre c) _)
    (fun q => Cert.ParamReal.param_isReal _ _ _ _ (Cert.PreReal.arg14_real m hpre c) _)
    (fun q => Cert.ParamReal.param_isReal _ _ _ _ (Cert.PreReal.arg15_real m hpre c) _) p q

theorem lay1_real (h : FVec Ideal S50000x128 .f32) (hh : ∀ (p : Fin 50000) (q : Fin 128), IsReal (h (ix2 p q)))
    (p : Fin 50000) (q : Fin 128) : IsReal (lay1 m c h (ix2 p q)) :=
  Cert.LayerReal.layer_isReal _ _ _ _ _ _ _ _ _ _ _ _ _ _ hh
    (Cert.ParamReal.param_isReal _ _ _ _ (Cert.PreReal.arg5_real m hpre c) _)
    (fun k q => Cert.ParamReal.param_isReal _ _ _ _ (Cert.PreReal.arg6_real m hpre c) _)
    (fun q => Cert.ParamReal.param_isReal _ _ _ _ (Cert.PreReal.arg7_real m hpre c) _)
    (fun q => Cert.ParamReal.param_isReal _ _ _ _ (Cert.PreReal.arg8_real m hpre c) _)
    (fun q => Cert.ParamReal.param_isReal _ _ _ _ (Cert.PreReal.arg9_real m hpre c) _)
    (fun k q => Cert.ParamReal.param_isReal _ _ _ _ (Cert.PreReal.arg10_real m hpre c) _)
    (fun q => Cert.ParamReal.param_isReal _ _ _ _ (Cert.PreReal.arg11_real m hpre c) _)
    (fun q => Cert.ParamReal.param_isReal _ _ _ _ (Cert.PreReal.arg12_real m hpre c) _)
    (fun q => Cert.ParamReal.param_isReal _ _ _ _ (Cert.PreReal.arg13_real m hpre c) _)
    (fun q => Cert.ParamReal.param_isReal _ _ _ _ (Cert.PreReal.arg14_real m hpre c) _)
    (fun q => Cert.ParamReal.param_isReal _ _ _ _ (Cert.PreReal.arg15_real m hpre c) _) p q

theorem lay2_real (h : FVec Ideal S50000x128 .f32) (hh : ∀ (p : Fin 50000) (q : Fin 128), IsReal (h (ix2 p q)))
    (p : Fin 50000) (q : Fin 128) : IsReal (lay2 m c h (ix2 p q)) :=
  Cert.LayerReal.layer_isReal _ _ _ _ _ _ _ _ _ _ _ _ _ _ hh
    (Cert.ParamReal.param_isReal _ _ _ _ (Cert.PreReal.arg5_real m hpre c) _)
    (fun k q => Cert.ParamReal.param_isReal _ _ _ _ (Cert.PreReal.arg6_real m hpre c) _)
    (fun q => Cert.ParamReal.param_isReal _ _ _ _ (Cert.PreReal.arg7_real m hpre c) _)
    (fun q => Cert.ParamReal.param_isReal _ _ _ _ (Cert.PreReal.arg8_real m hpre c) _)
    (fun q => Cert.ParamReal.param_isReal _ _ _ _ (Cert.PreReal.arg9_real m hpre c) _)
    (fun k q => Cert.ParamReal.param_isReal _ _ _ _ (Cert.PreReal.arg10_real m hpre c) _)
    (fun q => Cert.ParamReal.param_isReal _ _ _ _ (Cert.PreReal.arg11_real m hpre c) _)
    (fun q => Cert.ParamReal.param_isReal _ _ _ _ (Cert.PreReal.arg12_real m hpre c) _)
    (fun q => Cert.ParamReal.param_isReal _ _ _ _ (Cert.PreReal.arg13_real m hpre c) _)
    (fun q => Cert.ParamReal.param_isReal _ _ _ _ (Cert.PreReal.arg14_real m hpre c) _)
    (fun q => Cert.ParamReal.param_isReal _ _ _ _ (Cert.PreReal.arg15_real m hpre c) _) p q

theorem lay3_real (h : FVec Ideal S50000x128 .f32) (hh : ∀ (p : Fin 50000) (q : Fin 128), IsReal (h (ix2 p q)))
    (p : Fin 50000) (q : Fin 128) : IsReal (lay3 m c h (ix2 p q)) :=
  Cert.LayerReal.layer_isReal _ _ _ _ _ _ _ _ _ _ _ _ _ _ hh
    (Cert.ParamReal.param_isReal _ _ _ _ (Cert.PreReal.arg5_real m hpre c) _)
    (fun k q => Cert.ParamReal.param_isReal _ _ _ _ (Cert.PreReal.arg6_real m hpre c) _)
    (fun q => Cert.ParamReal.param_isReal _ _ _ _ (Cert.PreReal.arg7_real m hpre c) _)
    (fun q => Cert.ParamReal.param_isReal _ _ _ _ (Cert.PreReal.arg8_real m hpre c) _)
    (fun q => Cert.ParamReal.param_isReal _ _ _ _ (Cert.PreReal.arg9_real m hpre c) _)
    (fun k q => Cert.ParamReal.param_isReal _ _ _ _ (Cert.PreReal.arg10_real m hpre c) _)
    (fun q => Cert.ParamReal.param_isReal _ _ _ _ (Cert.PreReal.arg11_real m hpre c) _)
    (fun q => Cert.ParamReal.param_isReal _ _ _ _ (Cert.PreReal.arg12_real m hpre c) _)
    (fun q => Cert.ParamReal.param_isReal _ _ _ _ (Cert.PreReal.arg13_real m hpre c) _)
    (fun q => Cert.ParamReal.param_isReal _ _ _ _ (Cert.PreReal.arg14_real m hpre c) _)
    (fun q => Cert.ParamReal.param_isReal _ _ _ _ (Cert.PreReal.arg15_real m hpre c) _) p q

/-! ## The layers in turn -/

/-- After the embedding's region: the embedded features. -/
theorem h0_eq : (W2 m ρ c (Proc.devRef .tc main_v1) : S50000x128.Idx → EReal) = emb m c := KEmbedEq.embed_eq m ρ c

set_option maxHeartbeats 4000000 in
/-- After layer 0's closing region. -/
theorem h1_eq : (W10 m ρ c (Proc.devRef .tc main_v65) : S50000x128.Idx → EReal) = lay0 m c (emb m c) := by
  have hin : (W2 m ρ c (Proc.devRef .tc main_v1) : S50000x128.Idx → EReal) = emb m c := h0_eq m ρ c hpre
  have hr : ∀ (p : Fin 50000) (q : Fin 128), IsReal (KLayer0.hin m ρ c (ix2 p q)) := by
    intro p q; show IsReal ((W2 m ρ c (Proc.devRef .tc main_v1) : S50000x128.Idx → EReal) (ix2 p q)); rw [hin]; exact emb_real m c hpre p q
  have key := KLayer0.layer_eq_real m ρ c hr
    (by show IsReal (shapeCast S_ (extractStridedSlice S1 ![0] (W2 m ρ c (Proc.devRef .tc main_arg5)) slices_S4_S1_0) shapeCasts_S1_S_ _); rw [a0_5]; exact Cert.ParamReal.param_isReal _ _ _ _ (Cert.PreReal.arg5_real m hpre c) _)
    (by intro k q; show IsReal (shapeCast S128x128 (extractStridedSlice S1x128x128 ![0, 0, 0] (W2 m ρ c (Proc.devRef .tc main_arg6)) slices_S4x128x128_S1x128x128_0_0_0) shapeCasts_S1x128x128_S128x128 _); rw [a0_6]; exact Cert.ParamReal.param_isReal _ _ _ _ (Cert.PreReal.arg6_real m hpre c) _)
    (by intro q; show IsReal (shapeCast S128 (extractStridedSlice S1x128 ![0, 0] (W2 m ρ c (Proc.devRef .tc main_arg7)) slices_S4x128_S1x128_0_0) shapeCasts_S1x128_S128 _); rw [a0_7]; exact Cert.ParamReal.param_isReal _ _ _ _ (Cert.PreReal.arg7_real m hpre c) _)
    (by intro q; show IsReal (shapeCast S128 (extractStridedSlice S1x128 ![0, 0] (W2 m ρ c (Proc.devRef .tc main_arg8)) slices_S4x128_S1x128_0_0) shapeCasts_S1x128_S128 _); rw [a0_8]; exact Cert.ParamReal.param_isReal _ _ _ _ (Cert.PreReal.arg8_real m hpre c) _)
    (by intro q; show IsReal (shapeCast S128 (extractStridedSlice S1x128 ![0, 0] (W2 m ρ c (Proc.devRef .tc main_arg9)) slices_S4x128_S1x128_0_0) shapeCasts_S1x128_S128 _); rw [a0_9]; exact Cert.ParamReal.param_isReal _ _ _ _ (Cert.PreReal.arg9_real m hpre c) _)
    (by intro k q; show IsReal (shapeCast S128x128 (extractStridedSlice S1x128x128 ![0, 0, 0] (W2 m ρ c (Proc.devRef .tc main_arg10)) slices_S4x128x128_S1x128x128_0_0_0) shapeCasts_S1x128x128_S128x128 _); rw [a0_10]; exact Cert.ParamReal.param_isReal _ _ _ _ (Cert.PreReal.arg10_real m hpre c) _)
    (by intro q; show IsReal (shapeCast S128 (extractStridedSlice S1x128 ![0, 0] (W2 m ρ c (Proc.devRef .tc main_arg11)) slices_S4x128_S1x128_0_0) shapeCasts_S1x128_S128 _); rw [a0_11]; exact Cert.ParamReal.param_isReal _ _ _ _ (Cert.PreReal.arg11_real m hpre c) _)
    (by intro q; show IsReal (shapeCast S128 (extractStridedSlice S1x128 ![0, 0] (W2 m ρ c (Proc.devRef .tc main_arg12)) slices_S4x128_S1x128_0_0) shapeCasts_S1x128_S128 _); rw [a0_12]; exact Cert.ParamReal.param_isReal _ _ _ _ (Cert.PreReal.arg12_real m hpre c) _)
    (by intro q; show IsReal (shapeCast S128 (extractStridedSlice S1x128 ![0, 0] (W2 m ρ c (Proc.devRef .tc main_arg13)) slices_S4x128_S1x128_0_0) shapeCasts_S1x128_S128 _); rw [a0_13]; exact Cert.ParamReal.param_isReal _ _ _ _ (Cert.PreReal.arg13_real m hpre c) _)
    (by intro q; show IsReal (shapeCast S128 (extractStridedSlice S1x128 ![0, 0] (W2 m ρ c (Proc.devRef .tc main_arg14)) slices_S4x128_S1x128_0_0) shapeCasts_S1x128_S128 _); rw [a0_14]; exact Cert.ParamReal.param_isReal _ _ _ _ (Cert.PreReal.arg14_real m hpre c) _)
    (by intro q; show IsReal (shapeCast S128 (extractStridedSlice S1x128 ![0, 0] (W2 m ρ c (Proc.devRef .tc main_arg15)) slices_S4x128_S1x128_0_0) shapeCasts_S1x128_S128 _); rw [a0_15]; exact Cert.ParamReal.param_isReal _ _ _ _ (Cert.PreReal.arg15_real m hpre c) _)
  unfold KLayer0.src KLayer0.dst KLayer0.hin KLayer0.pe KLayer0.pw1 KLayer0.pb1 KLayer0.pg1 KLayer0.pbe1 KLayer0.pw2 KLayer0.pb2 KLayer0.pga KLayer0.pba KLayer0.pgl KLayer0.pbl at key
  rw [a0_1 m ρ c, a0_2 m ρ c, a0_5 m ρ c, a0_6 m ρ c, a0_7 m ρ c, a0_8 m ρ c, a0_9 m ρ c, a0_10 m ρ c, a0_11 m ρ c, a0_12 m ρ c, a0_13 m ρ c, a0_14 m ρ c, a0_15 m ρ c, hin] at key
  exact key

set_option maxHeartbeats 4000000 in
/-- After layer 1's closing region. -/
theorem h2_eq : (W18 m ρ c (Proc.devRef .tc main_v129) : S50000x128.Idx → EReal) = lay1 m c (lay0 m c (emb m c)) := by
  have hin : (W10 m ρ c (Proc.devRef .tc main_v65) : S50000x128.Idx → EReal) = lay0 m c (emb m c) := h1_eq m ρ c hpre
  have hr : ∀ (p : Fin 50000) (q : Fin 128), IsReal (KLayer1.hin m ρ c (ix2 p q)) := by
    intro p q; show IsReal ((W10 m ρ c (Proc.devRef .tc main_v65) : S50000x128.Idx → EReal) (ix2 p q)); rw [hin]; exact lay0_real m c hpre _ (emb_real m c hpre) p q
  have key := KLayer1.layer_eq_real m ρ c hr
    (by show IsReal (shapeCast S_ (extractStridedSlice S1 ![1] (W10 m ρ c (Proc.devRef .tc main_arg5)) slices_S4_S1_1) shapeCasts_S1_S_ _); rw [a1_5]; exact Cert.ParamReal.param_isReal _ _ _ _ (Cert.PreReal.arg5_real m hpre c) _)
    (by intro k q; show IsReal (shapeCast S128x128 (extractStridedSlice S1x128x128 ![1, 0, 0] (W10 m ρ c (Proc.devRef .tc main_arg6)) slices_S4x128x128_S1x128x128_1_0_0) shapeCasts_S1x128x128_S128x128 _); rw [a1_6]; exact Cert.ParamReal.param_isReal _ _ _ _ (Cert.PreReal.arg6_real m hpre c) _)
    (by intro q; show IsReal (shapeCast S128 (extractStridedSlice S1x128 ![1, 0] (W10 m ρ c (Proc.devRef .tc main_arg7)) slices_S4x128_S1x128_1_0) shapeCasts_S1x128_S128 _); rw [a1_7]; exact Cert.ParamReal.param_isReal _ _ _ _ (Cert.PreReal.arg7_real m hpre c) _)
    (by intro q; show IsReal (shapeCast S128 (extractStridedSlice S1x128 ![1, 0] (W10 m ρ c (Proc.devRef .tc main_arg8)) slices_S4x128_S1x128_1_0) shapeCasts_S1x128_S128 _); rw [a1_8]; exact Cert.ParamReal.param_isReal _ _ _ _ (Cert.PreReal.arg8_real m hpre c) _)
    (by intro q; show IsReal (shapeCast S128 (extractStridedSlice S1x128 ![1, 0] (W10 m ρ c (Proc.devRef .tc main_arg9)) slices_S4x128_S1x128_1_0) shapeCasts_S1x128_S128 _); rw [a1_9]; exact Cert.ParamReal.param_isReal _ _ _ _ (Cert.PreReal.arg9_real m hpre c) _)
    (by intro k q; show IsReal (shapeCast S128x128 (extractStridedSlice S1x128x128 ![1, 0, 0] (W10 m ρ c (Proc.devRef .tc main_arg10)) slices_S4x128x128_S1x128x128_1_0_0) shapeCasts_S1x128x128_S128x128 _); rw [a1_10]; exact Cert.ParamReal.param_isReal _ _ _ _ (Cert.PreReal.arg10_real m hpre c) _)
    (by intro q; show IsReal (shapeCast S128 (extractStridedSlice S1x128 ![1, 0] (W10 m ρ c (Proc.devRef .tc main_arg11)) slices_S4x128_S1x128_1_0) shapeCasts_S1x128_S128 _); rw [a1_11]; exact Cert.ParamReal.param_isReal _ _ _ _ (Cert.PreReal.arg11_real m hpre c) _)
    (by intro q; show IsReal (shapeCast S128 (extractStridedSlice S1x128 ![1, 0] (W10 m ρ c (Proc.devRef .tc main_arg12)) slices_S4x128_S1x128_1_0) shapeCasts_S1x128_S128 _); rw [a1_12]; exact Cert.ParamReal.param_isReal _ _ _ _ (Cert.PreReal.arg12_real m hpre c) _)
    (by intro q; show IsReal (shapeCast S128 (extractStridedSlice S1x128 ![1, 0] (W10 m ρ c (Proc.devRef .tc main_arg13)) slices_S4x128_S1x128_1_0) shapeCasts_S1x128_S128 _); rw [a1_13]; exact Cert.ParamReal.param_isReal _ _ _ _ (Cert.PreReal.arg13_real m hpre c) _)
    (by intro q; show IsReal (shapeCast S128 (extractStridedSlice S1x128 ![1, 0] (W10 m ρ c (Proc.devRef .tc main_arg14)) slices_S4x128_S1x128_1_0) shapeCasts_S1x128_S128 _); rw [a1_14]; exact Cert.ParamReal.param_isReal _ _ _ _ (Cert.PreReal.arg14_real m hpre c) _)
    (by intro q; show IsReal (shapeCast S128 (extractStridedSlice S1x128 ![1, 0] (W10 m ρ c (Proc.devRef .tc main_arg15)) slices_S4x128_S1x128_1_0) shapeCasts_S1x128_S128 _); rw [a1_15]; exact Cert.ParamReal.param_isReal _ _ _ _ (Cert.PreReal.arg15_real m hpre c) _)
  unfold KLayer1.src KLayer1.dst KLayer1.hin KLayer1.pe KLayer1.pw1 KLayer1.pb1 KLayer1.pg1 KLayer1.pbe1 KLayer1.pw2 KLayer1.pb2 KLayer1.pga KLayer1.pba KLayer1.pgl KLayer1.pbl at key
  rw [a1_1 m ρ c, a1_2 m ρ c, a1_5 m ρ c, a1_6 m ρ c, a1_7 m ρ c, a1_8 m ρ c, a1_9 m ρ c, a1_10 m ρ c, a1_11 m ρ c, a1_12 m ρ c, a1_13 m ρ c, a1_14 m ρ c, a1_15 m ρ c, hin] at key
  exact key

set_option maxHeartbeats 4000000 in
/-- After layer 2's closing region. -/
theorem h3_eq : (W26 m ρ c (Proc.devRef .tc main_v193) : S50000x128.Idx → EReal) = lay2 m c (lay1 m c (lay0 m c (emb m c))) := by
  have hin : (W18 m ρ c (Proc.devRef .tc main_v129) : S50000x128.Idx → EReal) = lay1 m c (lay0 m c (emb m c)) := h2_eq m ρ c hpre
  have hr : ∀ (p : Fin 50000) (q : Fin 128), IsReal (KLayer2.hin m ρ c (ix2 p q)) := by
    intro p q; show IsReal ((W18 m ρ c (Proc.devRef .tc main_v129) : S50000x128.Idx → EReal) (ix2 p q)); rw [hin]; exact lay1_real m c hpre _ (lay0_real m c hpre _ (emb_real m c hpre)) p q
  have key := KLayer2.layer_eq_real m ρ c hr
    (by show IsReal (shapeCast S_ (extractStridedSlice S1 ![2] (W18 m ρ c (Proc.devRef .tc main_arg5)) slices_S4_S1_2) shapeCasts_S1_S_ _); rw [a2_5]; exact Cert.ParamReal.param_isReal _ _ _ _ (Cert.PreReal.arg5_real m hpre c) _)
    (by intro k q; show IsReal (shapeCast S128x128 (extractStridedSlice S1x128x128 ![2, 0, 0] (W18 m ρ c (Proc.devRef .tc main_arg6)) slices_S4x128x128_S1x128x128_2_0_0) shapeCasts_S1x128x128_S128x128 _); rw [a2_6]; exact Cert.ParamReal.param_isReal _ _ _ _ (Cert.PreReal.arg6_real m hpre c) _)
    (by intro q; show IsReal (shapeCast S128 (extractStridedSlice S1x128 ![2, 0] (W18 m ρ c (Proc.devRef .tc main_arg7)) slices_S4x128_S1x128_2_0) shapeCasts_S1x128_S128 _); rw [a2_7]; exact Cert.ParamReal.param_isReal _ _ _ _ (Cert.PreReal.arg7_real m hpre c) _)
    (by intro q; show IsReal (shapeCast S128 (extractStridedSlice S1x128 ![2, 0] (W18 m ρ c (Proc.devRef .tc main_arg8)) slices_S4x128_S1x128_2_0) shapeCasts_S1x128_S128 _); rw [a2_8]; exact Cert.ParamReal.param_isReal _ _ _ _ (Cert.PreReal.arg8_real m hpre c) _)
    (by intro q; show IsReal (shapeCast S128 (extractStridedSlice S1x128 ![2, 0] (W18 m ρ c (Proc.devRef .tc main_arg9)) slices_S4x128_S1x128_2_0) shapeCasts_S1x128_S128 _); rw [a2_9]; exact Cert.ParamReal.param_isReal _ _ _ _ (Cert.PreReal.arg9_real m hpre c) _)
    (by intro k q; show IsReal (shapeCast S128x128 (extractStridedSlice S1x128x128 ![2, 0, 0] (W18 m ρ c (Proc.devRef .tc main_arg10)) slices_S4x128x128_S1x128x128_2_0_0) shapeCasts_S1x128x128_S128x128 _); rw [a2_10]; exact Cert.ParamReal.param_isReal _ _ _ _ (Cert.PreReal.arg10_real m hpre c) _)
    (by intro q; show IsReal (shapeCast S128 (extractStridedSlice S1x128 ![2, 0] (W18 m ρ c (Proc.devRef .tc main_arg11)) slices_S4x128_S1x128_2_0) shapeCasts_S1x128_S128 _); rw [a2_11]; exact Cert.ParamReal.param_isReal _ _ _ _ (Cert.PreReal.arg11_real m hpre c) _)
    (by intro q; show IsReal (shapeCast S128 (extractStridedSlice S1x128 ![2, 0] (W18 m ρ c (Proc.devRef .tc main_arg12)) slices_S4x128_S1x128_2_0) shapeCasts_S1x128_S128 _); rw [a2_12]; exact Cert.ParamReal.param_isReal _ _ _ _ (Cert.PreReal.arg12_real m hpre c) _)
    (by intro q; show IsReal (shapeCast S128 (extractStridedSlice S1x128 ![2, 0] (W18 m ρ c (Proc.devRef .tc main_arg13)) slices_S4x128_S1x128_2_0) shapeCasts_S1x128_S128 _); rw [a2_13]; exact Cert.ParamReal.param_isReal _ _ _ _ (Cert.PreReal.arg13_real m hpre c) _)
    (by intro q; show IsReal (shapeCast S128 (extractStridedSlice S1x128 ![2, 0] (W18 m ρ c (Proc.devRef .tc main_arg14)) slices_S4x128_S1x128_2_0) shapeCasts_S1x128_S128 _); rw [a2_14]; exact Cert.ParamReal.param_isReal _ _ _ _ (Cert.PreReal.arg14_real m hpre c) _)
    (by intro q; show IsReal (shapeCast S128 (extractStridedSlice S1x128 ![2, 0] (W18 m ρ c (Proc.devRef .tc main_arg15)) slices_S4x128_S1x128_2_0) shapeCasts_S1x128_S128 _); rw [a2_15]; exact Cert.ParamReal.param_isReal _ _ _ _ (Cert.PreReal.arg15_real m hpre c) _)
  unfold KLayer2.src KLayer2.dst KLayer2.hin KLayer2.pe KLayer2.pw1 KLayer2.pb1 KLayer2.pg1 KLayer2.pbe1 KLayer2.pw2 KLayer2.pb2 KLayer2.pga KLayer2.pba KLayer2.pgl KLayer2.pbl at key
  rw [a2_1 m ρ c, a2_2 m ρ c, a2_5 m ρ c, a2_6 m ρ c, a2_7 m ρ c, a2_8 m ρ c, a2_9 m ρ c, a2_10 m ρ c, a2_11 m ρ c, a2_12 m ρ c, a2_13 m ρ c, a2_14 m ρ c, a2_15 m ρ c, hin] at key
  exact key

set_option maxHeartbeats 4000000 in
/-- After layer 3's closing region. -/
theorem h4_eq : (W34 m ρ c (Proc.devRef .tc main_v257) : S50000x128.Idx → EReal) = lay3 m c (lay2 m c (lay1 m c (lay0 m c (emb m c)))) := by
  have hin : (W26 m ρ c (Proc.devRef .tc main_v193) : S50000x128.Idx → EReal) = lay2 m c (lay1 m c (lay0 m c (emb m c))) := h3_eq m ρ c hpre
  have hr : ∀ (p : Fin 50000) (q : Fin 128), IsReal (KLayer3.hin m ρ c (ix2 p q)) := by
    intro p q; show IsReal ((W26 m ρ c (Proc.devRef .tc main_v193) : S50000x128.Idx → EReal) (ix2 p q)); rw [hin]; exact lay2_real m c hpre _ (lay1_real m c hpre _ (lay0_real m c hpre _ (emb_real m c hpre))) p q
  have key := KLayer3.layer_eq_real m ρ c hr
    (by show IsReal (shapeCast S_ (extractStridedSlice S1 ![3] (W26 m ρ c (Proc.devRef .tc main_arg5)) slices_S4_S1_3) shapeCasts_S1_S_ _); rw [a3_5]; exact Cert.ParamReal.param_isReal _ _ _ _ (Cert.PreReal.arg5_real m hpre c) _)
    (by intro k q; show IsReal (shapeCast S128x128 (extractStridedSlice S1x128x128 ![3, 0, 0] (W26 m ρ c (Proc.devRef .tc main_arg6)) slices_S4x128x128_S1x128x128_3_0_0) shapeCasts_S1x128x128_S128x128 _); rw [a3_6]; exact Cert.ParamReal.param_isReal _ _ _ _ (Cert.PreReal.arg6_real m hpre c) _)
    (by intro q; show IsReal (shapeCast S128 (extractStridedSlice S1x128 ![3, 0] (W26 m ρ c (Proc.devRef .tc main_arg7)) slices_S4x128_S1x128_3_0) shapeCasts_S1x128_S128 _); rw [a3_7]; exact Cert.ParamReal.param_isReal _ _ _ _ (Cert.PreReal.arg7_real m hpre c) _)
    (by intro q; show IsReal (shapeCast S128 (extractStridedSlice S1x128 ![3, 0] (W26 m ρ c (Proc.devRef .tc main_arg8)) slices_S4x128_S1x128_3_0) shapeCasts_S1x128_S128 _); rw [a3_8]; exact Cert.ParamReal.param_isReal _ _ _ _ (Cert.PreReal.arg8_real m hpre c) _)
    (by intro q; show IsReal (shapeCast S128 (extractStridedSlice S1x128 ![3, 0] (W26 m ρ c (Proc.devRef .tc main_arg9)) slices_S4x128_S1x128_3_0) shapeCasts_S1x128_S128 _); rw [a3_9]; exact Cert.ParamReal.param_isReal _ _ _ _ (Cert.PreReal.arg9_real m hpre c) _)
    (by intro k q; show IsReal (shapeCast S128x128 (extractStridedSlice S1x128x128 ![3, 0, 0] (W26 m ρ c (Proc.devRef .tc main_arg10)) slices_S4x128x128_S1x128x128_3_0_0) shapeCasts_S1x128x128_S128x128 _); rw [a3_10]; exact Cert.ParamReal.param_isReal _ _ _ _ (Cert.PreReal.arg10_real m hpre c) _)
    (by intro q; show IsReal (shapeCast S128 (extractStridedSlice S1x128 ![3, 0] (W26 m ρ c (Proc.devRef .tc main_arg11)) slices_S4x128_S1x128_3_0) shapeCasts_S1x128_S128 _); rw [a3_11]; exact Cert.ParamReal.param_isReal _ _ _ _ (Cert.PreReal.arg11_real m hpre c) _)
    (by intro q; show IsReal (shapeCast S128 (extractStridedSlice S1x128 ![3, 0] (W26 m ρ c (Proc.devRef .tc main_arg12)) slices_S4x128_S1x128_3_0) shapeCasts_S1x128_S128 _); rw [a3_12]; exact Cert.ParamReal.param_isReal _ _ _ _ (Cert.PreReal.arg12_real m hpre c) _)
    (by intro q; show IsReal (shapeCast S128 (extractStridedSlice S1x128 ![3, 0] (W26 m ρ c (Proc.devRef .tc main_arg13)) slices_S4x128_S1x128_3_0) shapeCasts_S1x128_S128 _); rw [a3_13]; exact Cert.ParamReal.param_isReal _ _ _ _ (Cert.PreReal.arg13_real m hpre c) _)
    (by intro q; show IsReal (shapeCast S128 (extractStridedSlice S1x128 ![3, 0] (W26 m ρ c (Proc.devRef .tc main_arg14)) slices_S4x128_S1x128_3_0) shapeCasts_S1x128_S128 _); rw [a3_14]; exact Cert.ParamReal.param_isReal _ _ _ _ (Cert.PreReal.arg14_real m hpre c) _)
    (by intro q; show IsReal (shapeCast S128 (extractStridedSlice S1x128 ![3, 0] (W26 m ρ c (Proc.devRef .tc main_arg15)) slices_S4x128_S1x128_3_0) shapeCasts_S1x128_S128 _); rw [a3_15]; exact Cert.ParamReal.param_isReal _ _ _ _ (Cert.PreReal.arg15_real m hpre c) _)
  unfold KLayer3.src KLayer3.dst KLayer3.hin KLayer3.pe KLayer3.pw1 KLayer3.pb1 KLayer3.pg1 KLayer3.pbe1 KLayer3.pw2 KLayer3.pb2 KLayer3.pga KLayer3.pba KLayer3.pgl KLayer3.pbl at key
  rw [a3_1 m ρ c, a3_2 m ρ c, a3_5 m ρ c, a3_6 m ρ c, a3_7 m ρ c, a3_8 m ρ c, a3_9 m ρ c, a3_10 m ρ c, a3_11 m ρ c, a3_12 m ρ c, a3_13 m ρ c, a3_14 m ρ c, a3_15 m ρ c, hin] at key
  exact key

end Cert.KernelIdeal.KNet

end
-- ==== Proof.ValueEq.lean ====
/-
  The value equation: at the exact extended-real reading, with every float input finite and the two programs'
  arguments equal, the fold of the reference's operations at its result buffer is the kernel's result buffer at the
  last segment boundary.

  Both sides compute, layer by layer from the embedded features `h₀ = h·W + b`,

      x   = (1 + ε)·h + Σ_{edges into the node} h[source]          (the same host gather and scatter-add on both sides)
      y₁  = x·W₁ + b₁,      a  = relu(γ₁·(y₁ − mean y₁)·rsqrt(var y₁ + 1e-5) + β₁)
      y₂  = a·W₂ + b₂,      c  = relu(γ_a·(y₂ − mean y₂)·rsqrt(var y₂ + 1e-5) + β_a)
      h'  = h + relu(γ_l·(c − mean c)·rsqrt(var c + 1e-5) + β_l),

  the means and variances over the 50000 nodes, column by column.  The kernel obtains each column's sum and sum of
  squares by accumulating over the ten row tiles of 5000 nodes and forms the variance as `Σy²/n − (Σy/n)²`; the
  reference sums over all rows at once and forms it as `Σ(y − Σy/n)²/n`.  Sums of extended reals may be regrouped
  freely; the two forms of the variance agree for REAL entries (`LibVariance.ereal_variance`), which is where the
  finiteness of the inputs enters: every intermediate of every layer is then a real number (a variance is
  non-negative, so `var + 1e-5 > 0` and its reciprocal square root is real).
-/
import proofs.«140776_j80633716015159_1_alg».proof.Defs
import proofs.«140776_j80633716015159_1_alg».proof.Proof.Gen.KernelIdeal.Frame
import proofs.«140776_j80633716015159_1_alg».proof.Proof.Gen.Pre_finite_inputs
import proofs.«140776_j80633716015159_1_alg».proof.Proof.RefNet
import proofs.«140776_j80633716015159_1_alg».proof.Proof.KNet

noncomputable section

namespace Cert.ValueEq

open Idealize.ShloMosaic Idealize.SL.Sem Idealize.ShloMosaic.StableHlo

theorem value_eq
    (m : (ℓ : Loc Cert.KernelIdeal.nD Cert.KernelIdeal.τ Cert.KernelIdeal.sig) → Buf (Elt Ideal) ℓ)
    (ρ : Dev Cert.KernelIdeal.nD → PrngReg)
    (m' : (ℓ : Loc Cert.ReferenceIdeal.nD Cert.ReferenceIdeal.τ Cert.ReferenceIdeal.sig) → Buf (Elt Ideal) ℓ)
    (hpre : Cert.Pre_KernelIdeal m)
    (hagree :
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)))
    (c : Dev Cert.ReferenceIdeal.nD) :
    after (Cert.ReferenceIdeal.RefRun.ops (F := Ideal)) (launchContents m' c) (Proc.devRef .tc Cert.ReferenceIdeal.main_v411)
      = Cert.KernelIdeal.Gen.W34 m ρ c (Proc.devRef .tc Cert.KernelIdeal.main_v257) := by
  obtain ⟨e0, e1, e2, e3, e4, e5, e6, e7, e8, e9, e10, e11, e12, e13, e14, e15⟩ := hagree c
  have hV0 : launchContents m' c (Proc.devRef .tc Cert.ReferenceIdeal.main_arg0) = m ((c.tc : Thread Cert.KernelIdeal.nD Cert.KernelIdeal.τ).loc Cert.KernelIdeal.main_arg0) := e0
  have hV1 : launchContents m' c (Proc.devRef .tc Cert.ReferenceIdeal.main_arg1) = m ((c.tc : Thread Cert.KernelIdeal.nD Cert.KernelIdeal.τ).loc Cert.KernelIdeal.main_arg1) := e1
  have hV2 : launchContents m' c (Proc.devRef .tc Cert.ReferenceIdeal.main_arg2) = m ((c.tc : Thread Cert.KernelIdeal.nD Cert.KernelIdeal.τ).loc Cert.KernelIdeal.main_arg2) := e2
  have hV3 : launchContents m' c (Proc.devRef .tc Cert.ReferenceIdeal.main_arg3) = m ((c.tc : Thread Cert.KernelIdeal.nD Cert.KernelIdeal.τ).loc Cert.KernelIdeal.main_arg3) := e3
  have hV4 : launchContents m' c (Proc.devRef .tc Cert.ReferenceIdeal.main_arg4) = m ((c.tc : Thread Cert.KernelIdeal.nD Cert.KernelIdeal.τ).loc Cert.KernelIdeal.main_arg4) := e4
  have hV5 : launchContents m' c (Proc.devRef .tc Cert.ReferenceIdeal.main_arg5) = m ((c.tc : Thread Cert.KernelIdeal.nD Cert.KernelIdeal.τ).loc Cert.KernelIdeal.main_arg5) := e5
  have hV6 : launchContents m' c (Proc.devRef .tc Cert.ReferenceIdeal.main_arg6) = m ((c.tc : Thread Cert.KernelIdeal.nD Cert.KernelIdeal.τ).loc Cert.KernelIdeal.main_arg6) := e6
  have hV7 : launchContents m' c (Proc.devRef .tc Cert.ReferenceIdeal.main_arg7) = m ((c.tc : Thread Cert.KernelIdeal.nD Cert.KernelIdeal.τ).loc Cert.KernelIdeal.main_arg7) := e7
  have hV8 : launchContents m' c (Proc.devRef .tc Cert.ReferenceIdeal.main_arg8) = m ((c.tc : Thread Cert.KernelIdeal.nD Cert.KernelIdeal.τ).loc Cert.KernelIdeal.main_arg8) := e8
  have hV9 : launchContents m' c (Proc.devRef .tc Cert.ReferenceIdeal.main_arg9) = m ((c.tc : Thread Cert.KernelIdeal.nD Cert.KernelIdeal.τ).loc Cert.KernelIdeal.main_arg9) := e9
  have hV10 : launchContents m' c (Proc.devRef .tc Cert.ReferenceIdeal.main_arg10) = m ((c.tc : Thread Cert.KernelIdeal.nD Cert.KernelIdeal.τ).loc Cert.KernelIdeal.main_arg10) := e10
  have hV11 : launchContents m' c (Proc.devRef .tc Cert.ReferenceIdeal.main_arg11) = m ((c.tc : Thread Cert.KernelIdeal.nD Cert.KernelIdeal.τ).loc Cert.KernelIdeal.main_arg11) := e11
  have hV12 : launchContents m' c (Proc.devRef .tc Cert.ReferenceIdeal.main_arg12) = m ((c.tc : Thread Cert.KernelIdeal.nD Cert.KernelIdeal.τ).loc Cert.KernelIdeal.main_arg12) := e12
  have hV13 : launchContents m' c (Proc.devRef .tc Cert.ReferenceIdeal.main_arg13) = m ((c.tc : Thread Cert.KernelIdeal.nD Cert.KernelIdeal.τ).loc Cert.KernelIdeal.main_arg13) := e13
  have hV14 : launchContents m' c (Proc.devRef .tc Cert.ReferenceIdeal.main_arg14) = m ((c.tc : Thread Cert.KernelIdeal.nD Cert.KernelIdeal.τ).loc Cert.KernelIdeal.main_arg14) := e14
  have hV15 : launchContents m' c (Proc.devRef .tc Cert.ReferenceIdeal.main_arg15) = m ((c.tc : Thread Cert.KernelIdeal.nD Cert.KernelIdeal.τ).loc Cert.KernelIdeal.main_arg15) := e15
  have hR := Cert.ReferenceIdeal.RefLayers.ref_value (F := Ideal) (launchContents m' c)
  rw [hV0, hV1, hV2, hV3, hV4, hV5, hV6, hV7, hV8, hV9, hV10, hV11, hV12, hV13, hV14, hV15] at hR
  refine hR.trans ?_
  refine Eq.trans ?_ (Cert.KernelIdeal.KNet.h4_eq m ρ c hpre).symm
  unfold Cert.ReferenceIdeal.RefLayers.refNet
  simp only [Cert.ReferenceIdeal.RefLayers.refLayer_eq, Cert.ReferenceIdeal.RefLayers.refEmbed_eq]

end Cert.ValueEq

end
-- ==== Proof.lean ====
/-
  The certificate of a four-layer graph isomorphism network (sum aggregation, a two-layer perceptron with batch
  normalisation, two further batch normalisations, a residual connection) on 50000 nodes and 1.6 million edges: the
  kernel runs seventeen pipelined regions — the embedding, and per layer a stage for each matrix product with the
  column sums of its result accumulated over the ten row tiles, and a closing stage — among host operations (the
  gather and scatter-add of the aggregation, the means and variances from the accumulated sums); the reference is
  plain array code.

  The three frames: the two kernel programs' are the generated frame certificates; the reference is a straight line
  of host operations and its frame is its run with the results dropped.  Nothing was rewritten by the idealisation,
  so the preservation claim is trivial.  The value claim compares, at the exact extended-real reading, the kernel's
  result buffer at the last segment boundary with the fold of the reference's operations at its result buffer.
-/
import proofs.«140776_j80633716015159_1_alg».proof.Defs
import proofs.«140776_j80633716015159_1_alg».proof.Proof.Gen.Kernel
import proofs.«140776_j80633716015159_1_alg».proof.Proof.Gen.Kernel.Frame
import proofs.«140776_j80633716015159_1_alg».proof.Proof.Gen.KernelIdeal
import proofs.«140776_j80633716015159_1_alg».proof.Proof.Gen.KernelIdeal.Frame
import proofs.«140776_j80633716015159_1_alg».proof.Proof.Gen.ReferenceIdeal
import proofs.«140776_j80633716015159_1_alg».proof.Proof.Gen.Pre_finite_inputs
import proofs.«140776_j80633716015159_1_alg».proof.Proof.KernelRun
import proofs.«140776_j80633716015159_1_alg».proof.Proof.RefRun
import proofs.«140776_j80633716015159_1_alg».proof.Proof.ValueEq
import Idealize.ShloMosaic.Adequacy
import Idealize.ShloMosaic.Init

noncomputable section

namespace Cert.Proof

open Idealize.ShloMosaic Idealize.SL.Sem Idealize.ShloMosaic.StableHlo

theorem frame_kernel : Cert.frame_Kernel := fun m ρ _ => Cert.Kernel.Gen.frame m ρ

theorem frame_kernelIdeal : Cert.frame_KernelIdeal := fun m ρ _ => Cert.KernelIdeal.Gen.frame m ρ

/-- The reference's frame: its run, read at the argument buffers, none of which any operation writes. -/
theorem frame_reference : Cert.frame_ReferenceIdeal := fun m ρ _ =>
  (θ_run Cert.ReferenceIdeal.defs _ _).mono
    (fun _ h c => by
      have k := fun (a : Ref Cert.ReferenceIdeal.sig .tc) (ha : a ∈ Cert.ReferenceIdeal.RefRun.args) =>
        (h c a).trans (Cert.ReferenceIdeal.RefRun.arg_kept (F := Ideal) m c a ha)
      exact ⟨k _ (by decide), k _ (by decide), k _ (by decide), k _ (by decide), k _ (by decide), k _ (by decide),
        k _ (by decide), k _ (by decide), k _ (by decide), k _ (by decide), k _ (by decide), k _ (by decide),
        k _ (by decide), k _ (by decide), k _ (by decide), k _ (by decide)⟩)
    (Cert.ReferenceIdeal.RefRun.run (F := Ideal) m ρ)

/-- Both idealised programs run; the kernel's result is its buffer at the last boundary, and the reference's fold at
    its result buffer is the same array (`ValueEq.value_eq`). -/
theorem algebraic : Cert.algebraic_KernelIdeal_ReferenceIdeal := by
  intro m ρ m' ρ' hpre hagree
  refine ⟨fun c => Cert.KernelIdeal.Gen.W34 m ρ c (Proc.devRef .tc Cert.KernelIdeal.main_v257),
    Cert.KernelIdeal.KRun.run_named (F := Ideal) m ρ, ?_⟩
  refine (θ_run Cert.ReferenceIdeal.defs _ _).mono (fun _ h c => ?_) (Cert.ReferenceIdeal.RefRun.run (F := Ideal) m' ρ')
  have k := fun (a : Ref Cert.ReferenceIdeal.sig .tc) (ha : a ∈ Cert.ReferenceIdeal.RefRun.args) =>
    (h c a).trans (Cert.ReferenceIdeal.RefRun.arg_kept (F := Ideal) m' c a ha)
  exact ⟨(h c Cert.ReferenceIdeal.main_v411).trans (Cert.ValueEq.value_eq m ρ m' hpre hagree c),
    k _ (by decide), k _ (by decide), k _ (by decide), k _ (by decide), k _ (by decide), k _ (by decide),
    k _ (by decide), k _ (by decide), k _ (by decide), k _ (by decide), k _ (by decide), k _ (by decide),
    k _ (by decide), k _ (by decide), k _ (by decide), k _ (by decide)⟩

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, trivial, algebraic⟩

end Cert.Proof

end
